-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x3x512 : Shape := ⟨3, ![4, 3, 512]⟩
abbrev S4x4608 : Shape := ⟨2, ![4, 4608]⟩
abbrev S3x512 : Shape := ⟨2, ![3, 512]⟩
abbrev S3x4096 : Shape := ⟨2, ![3, 4096]⟩
abbrev S1024 : Shape := ⟨1, ![1024]⟩
abbrev S_ : Shape := ⟨0, ![]⟩
abbrev S1x3x512 : Shape := ⟨3, ![1, 3, 512]⟩
abbrev S1x3x4096 : Shape := ⟨3, ![1, 3, 4096]⟩
abbrev S1x16 : Shape := ⟨2, ![1, 16]⟩
abbrev S16 : Shape := ⟨1, ![16]⟩
abbrev S1 : Shape := ⟨1, ![1]⟩
abbrev S128 : Shape := ⟨1, ![128]⟩
abbrev S1x4608 : Shape := ⟨2, ![1, 4608]⟩
abbrev S4608 : Shape := ⟨1, ![4608]⟩
abbrev S4x512 : Shape := ⟨2, ![4, 512]⟩
abbrev S4x4096 : Shape := ⟨2, ![4, 4096]⟩
abbrev S4x5x4096 : Shape := ⟨3, ![4, 5, 4096]⟩
abbrev S4x8x4096 : Shape := ⟨3, ![4, 8, 4096]⟩
abbrev S4x4096x8 : Shape := ⟨3, ![4, 4096, 8]⟩
abbrev S4x3584x8 : Shape := ⟨3, ![4, 3584, 8]⟩
abbrev S28x1x512 : Shape := ⟨3, ![28, 1, 512]⟩
abbrev S4x1x4096 : Shape := ⟨3, ![4, 1, 4096]⟩
abbrev S1x512x8 : Shape := ⟨3, ![1, 512, 8]⟩
abbrev S1x8x4096 : Shape := ⟨3, ![1, 8, 4096]⟩
abbrev S1x1x512 : Shape := ⟨3, ![1, 1, 512]⟩
abbrev S1x1x4096 : Shape := ⟨3, ![1, 1, 4096]⟩
abbrev S512x8 : Shape := ⟨2, ![512, 8]⟩
abbrev S8x4096 : Shape := ⟨2, ![8, 4096]⟩
abbrev S512x4096 : Shape := ⟨2, ![512, 4096]⟩
abbrev S512 : Shape := ⟨1, ![512]⟩
abbrev S4096 : Shape := ⟨1, ![4096]⟩
abbrev S1x4096 : Shape := ⟨2, ![1, 4096]⟩
abbrev S512x1 : Shape := ⟨2, ![512, 1]⟩
abbrev S4x3584 : Shape := ⟨2, ![4, 3584]⟩
abbrev S1x1 : Shape := ⟨2, ![1, 1]⟩
abbrev S1x4x4096 : Shape := ⟨3, ![1, 4, 4096]⟩
abbrev S1x1x1 : Shape := ⟨3, ![1, 1, 1]⟩

abbrev nBuf : Table → Nat
  | .hbm => 35
  | .local .tc .vmem => 16
  | .local .tc .smem => 1
  | .local .scVector .vmem => 5
  | _ => 0

abbrev bufTy : (tb : Table) → Fin (nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x3x4096, .f32⟩
  | .hbm, ⟨4, _⟩ => ⟨S4x3x4096, .bf16⟩
  | .hbm, ⟨5, _⟩ => ⟨S4x3x4096, .bf16⟩
  | .hbm, ⟨6, _⟩ => ⟨S4x3x4096, .bf16⟩
  | .hbm, ⟨7, _⟩ => ⟨S4x3x4096, .bf16⟩
  | .hbm, ⟨8, _⟩ => ⟨S4x3x4096, .f32⟩
  | .hbm, ⟨9, _⟩ => ⟨S4x3x4096, .f32⟩
  | .hbm, ⟨10, _⟩ => ⟨S4x3x512, .f32⟩
  | .hbm, ⟨11, _⟩ => ⟨S4x3x512, .f32⟩
  | .hbm, ⟨12, _⟩ => ⟨S4x4608, .f32⟩
  | .hbm, ⟨13, _⟩ => ⟨S4x512, .f32⟩
  | .hbm, ⟨14, _⟩ => ⟨S4x4096, .f32⟩
  | .hbm, ⟨15, _⟩ => ⟨S_, .f32⟩
  | .hbm, ⟨16, _⟩ => ⟨S4x5x4096, .f32⟩
  | .hbm, ⟨17, _⟩ => ⟨S4x8x4096, .f32⟩
  | .hbm, ⟨18, _⟩ => ⟨S4x8x4096, .f32⟩
  | .hbm, ⟨19, _⟩ => ⟨S4x8x4096, .f32⟩
  | .hbm, ⟨20, _⟩ => ⟨S4x8x4096, .f32⟩
  | .hbm, ⟨21, _⟩ => ⟨S_, .f32⟩
  | .hbm, ⟨22, _⟩ => ⟨S4x8x4096, .f32⟩
  | .hbm, ⟨23, _⟩ => ⟨S4x8x4096, .f32⟩
  | .hbm, ⟨24, _⟩ => ⟨S4x4096x8, .f32⟩
  | .hbm, ⟨25, _⟩ => ⟨S4x3584x8, .f32⟩
  | .hbm, ⟨26, _⟩ => ⟨S4x4096x8, .f32⟩
  | .hbm, ⟨27, _⟩ => ⟨S4x3584x8, .f32⟩
  | .hbm, ⟨28, _⟩ => ⟨S28x1x512, .f32⟩
  | .hbm, ⟨29, _⟩ => ⟨S4x1x4096, .f32⟩
  | .hbm, ⟨30, _⟩ => ⟨S4x3584, .f32⟩
  | .hbm, ⟨31, _⟩ => ⟨S4x4096, .f32⟩
  | .hbm, ⟨32, _⟩ => ⟨S4x4096, .f32⟩
  | .hbm, ⟨33, _⟩ => ⟨S1x1, .f32⟩
  | .hbm, ⟨34, _⟩ => ⟨S_, .f32⟩
  | .local .tc .vmem, ⟨0, _⟩ => ⟨S1x512x8, .f32⟩
  | .local .tc .vmem, ⟨1, _⟩ => ⟨S1x512x8, .f32⟩
  | .local .tc .vmem, ⟨2, _⟩ => ⟨S1x512x8, .f32⟩
  | .local .tc .vmem, ⟨3, _⟩ => ⟨S1x512x8, .f32⟩
  | .local .tc .vmem, ⟨4, _⟩ => ⟨S1x8x4096, .f32⟩
  | .local .tc .vmem, ⟨5, _⟩ => ⟨S1x8x4096, .f32⟩
  | .local .tc .vmem, ⟨6, _⟩ => ⟨S1x8x4096, .f32⟩
  | .local .tc .vmem, ⟨7, _⟩ => ⟨S1x8x4096, .f32⟩
  | .local .tc .vmem, ⟨8, _⟩ => ⟨S1x1x512, .f32⟩
  | .local .tc .vmem, ⟨9, _⟩ => ⟨S1x1x512, .f32⟩
  | .local .tc .vmem, ⟨10, _⟩ => ⟨S1x1x4096, .f32⟩
  | .local .tc .vmem, ⟨11, _⟩ => ⟨S1x1x4096, .f32⟩
  | .local .tc .vmem, ⟨12, _⟩ => ⟨S4x4096, .f32⟩
  | .local .tc .vmem, ⟨13, _⟩ => ⟨S4x4096, .f32⟩
  | .local .tc .vmem, ⟨14, _⟩ => ⟨S4x4096, .f32⟩
  | .local .tc .vmem, ⟨15, _⟩ => ⟨S4x8x4096, .f32⟩
  | .local .tc .smem, ⟨0, _⟩ => ⟨S1x1, .f32⟩
  | .local .scVector .vmem, ⟨0, _⟩ => ⟨S3x512, .f32⟩
  | .local .scVector .vmem, ⟨1, _⟩ => ⟨S3x512, .f32⟩
  | .local .scVector .vmem, ⟨2, _⟩ => ⟨S3x4096, .f32⟩
  | .local .scVector .vmem, ⟨3, _⟩ => ⟨S3x4096, .f32⟩
  | .local .scVector .vmem, ⟨4, _⟩ => ⟨S1024, .f32⟩
  | _, _ => ⟨S4x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v7_scv : Ref sig .scVector := ⟨.hbm, 10, rfl⟩
abbrev main_v8_scv : Ref sig .scVector := ⟨.hbm, 11, rfl⟩
abbrev main_v6_scv : Ref sig .scVector := ⟨.hbm, 9, rfl⟩
abbrev main_v1_scv : Ref sig .scVector := ⟨.hbm, 3, rfl⟩
abbrev main_v9_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_14_r0 : BitVec 32 := 0#32
  let c0_i32_15_r0 : BitVec 32 := 0#32
  ![v16.toNat, 0, 0]
def k0_off2 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_14_r2 : BitVec 32 := 0#32
  let c0_i32_15_r2 : BitVec 32 := 0#32
  ![v16.toNat, 0, 0]
def k0_cond1 (i : grid0.Coords) : BitVec 1 :=
  let arg0 : BitVec 32 := BitVec.ofNat 32 (i 0).val
  let c0_i32_10 : BitVec 32 := 0#32
  let v27 : BitVec 1 := Scalar.cmpi .eq arg0 c0_i32_10
  let v28 : BitVec 32 := Scalar.extui v27
  let c0_i32_11 : BitVec 32 := 0#32
  let v29 : BitVec 1 := Scalar.cmpi .ne v28 c0_i32_11
  v29

def k0_off3 (i : grid0.Coords) (c0_i32_16 : BitVec 32) : Fin 2 → Nat :=
  let c0_i32_17 : BitVec 32 := 0#32
  let v37 : Index := Scalar.indexCast c0_i32_17
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v33 : BitVec 32 := Scalar.muli v26 c128_i32
  let c0_i32_15 : BitVec 32 := 0#32
  let v35 : BitVec 32 := Scalar.addi v33 c0_i32_15
  let v36 : BitVec 32 := Scalar.addi v35 c0_i32_16
  let v38 : Index := Scalar.indexCast v36
  ![0, v38.toNat]
def k0_off4 (i : grid0.Coords) (c0_i32_25 : BitVec 32) : Fin 2 → Nat :=
  let c1_i32_26 : BitVec 32 := 1#32
  let v77 : Index := Scalar.indexCast c1_i32_26
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v33 : BitVec 32 := Scalar.muli v26 c128_i32
  let c0_i32_15 : BitVec 32 := 0#32
  let v35 : BitVec 32 := Scalar.addi v33 c0_i32_15
  let v76 : BitVec 32 := Scalar.addi v35 c0_i32_25
  let v78 : Index := Scalar.indexCast v76
  ![1, v78.toNat]
def k0_off5 (i : grid0.Coords) (c0_i32_41 : BitVec 32) : Fin 2 → Nat :=
  let c2_i32 : BitVec 32 := 2#32
  let v117 : Index := Scalar.indexCast c2_i32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v33 : BitVec 32 := Scalar.muli v26 c128_i32
  let c0_i32_15 : BitVec 32 := 0#32
  let v35 : BitVec 32 := Scalar.addi v33 c0_i32_15
  let v116 : BitVec 32 := Scalar.addi v35 c0_i32_41
  let v118 : Index := Scalar.indexCast v116
  ![2, v118.toNat]
@[reducible] def k0_t1_loop : Scf.Loop 32 :=
  let c0_i32_104 : BitVec 32 := 0#32
  let c256_i32 : BitVec 32 := 256#32
  let v317 : BitVec 32 := Scalar.addi c0_i32_104 c256_i32
  let c1_i32_105 : BitVec 32 := 1#32
  ⟨c0_i32_104, v317, c1_i32_105⟩
def k0_off6 (k0_t1 : Fin k0_t1_loop.trips) : Fin 2 → Nat :=
  let c0_i32_116 : BitVec 32 := 0#32
  let v368 : Index := Scalar.indexCast c0_i32_116
  let c0_i32_104 : BitVec 32 := 0#32
  let c1_i32_105 : BitVec 32 := 1#32
  let arg12 : BitVec 32 := Scf.iv c0_i32_104 c1_i32_105 k0_t1
  let c16_i32_115 : BitVec 32 := 16#32
  let v367 : BitVec 32 := Scalar.muli arg12 c16_i32_115
  let v369 : Index := Scalar.indexCast v367
  ![0, v369.toNat]
def k0_off7 (k0_t1 : Fin k0_t1_loop.trips) : Fin 2 → Nat :=
  let c1_i32_118 : BitVec 32 := 1#32
  let v373 : Index := Scalar.indexCast c1_i32_118
  let c0_i32_104 : BitVec 32 := 0#32
  let c1_i32_105 : BitVec 32 := 1#32
  let arg12 : BitVec 32 := Scf.iv c0_i32_104 c1_i32_105 k0_t1
  let c16_i32_117 : BitVec 32 := 16#32
  let v372 : BitVec 32 := Scalar.muli arg12 c16_i32_117
  let v374 : Index := Scalar.indexCast v372
  ![1, v374.toNat]
def k0_off8 (k0_t1 : Fin k0_t1_loop.trips) : Fin 2 → Nat :=
  let c2_i32_120 : BitVec 32 := 2#32
  let v378 : Index := Scalar.indexCast c2_i32_120
  let c0_i32_104 : BitVec 32 := 0#32
  let c1_i32_105 : BitVec 32 := 1#32
  let arg12 : BitVec 32 := Scf.iv c0_i32_104 c1_i32_105 k0_t1
  let c16_i32_119 : BitVec 32 := 16#32
  let v377 : BitVec 32 := Scalar.muli arg12 c16_i32_119
  let v379 : Index := Scalar.indexCast v377
  ![2, v379.toNat]
def k0_off9 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_116_r4 : BitVec 32 := 0#32
  ![v16.toNat, 0]
def k0_off10 (i : grid0.Coords) : Fin 1 → Nat :=
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32_14 : BitVec 32 := 128#32
  let v34 : BitVec 32 := Scalar.muli v26 c128_i32_14
  ![v34.toNat]
def k0_cond2 (i : grid0.Coords) : BitVec 1 :=
  let arg0 : BitVec 32 := BitVec.ofNat 32 (i 0).val
  let c1_i32_12 : BitVec 32 := 1#32
  let v30 : BitVec 1 := Scalar.cmpi .eq arg0 c1_i32_12
  let v31 : BitVec 32 := Scalar.extui v30
  let c0_i32_13 : BitVec 32 := 0#32
  let v32 : BitVec 1 := Scalar.cmpi .ne v31 c0_i32_13
  v32

def k0_off11 (i : grid0.Coords) (c0_i32_15 : BitVec 32) (c0_i32_16 : BitVec 32) : Fin 2 → Nat :=
  let c0_i32_17 : BitVec 32 := 0#32
  let v38 : Index := Scalar.indexCast c0_i32_17
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1024_i32 : BitVec 32 := 1024#32
  let v33 : BitVec 32 := Scalar.muli v26 c1024_i32
  let v36 : BitVec 32 := Scalar.addi v33 c0_i32_15
  let v37 : BitVec 32 := Scalar.addi v36 c0_i32_16
  let v39 : Index := Scalar.indexCast v37
  ![0, v39.toNat]
def k0_off12 (i : grid0.Coords) (c0_i32_15 : BitVec 32) (c0_i32_25 : BitVec 32) : Fin 2 → Nat :=
  let c1_i32_26 : BitVec 32 := 1#32
  let v78 : Index := Scalar.indexCast c1_i32_26
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1024_i32 : BitVec 32 := 1024#32
  let v33 : BitVec 32 := Scalar.muli v26 c1024_i32
  let v36 : BitVec 32 := Scalar.addi v33 c0_i32_15
  let v77 : BitVec 32 := Scalar.addi v36 c0_i32_25
  let v79 : Index := Scalar.indexCast v77
  ![1, v79.toNat]
def k0_off13 (i : grid0.Coords) (c0_i32_15 : BitVec 32) (c0_i32_41 : BitVec 32) : Fin 2 → Nat :=
  let c2_i32 : BitVec 32 := 2#32
  let v118 : Index := Scalar.indexCast c2_i32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1024_i32 : BitVec 32 := 1024#32
  let v33 : BitVec 32 := Scalar.muli v26 c1024_i32
  let v36 : BitVec 32 := Scalar.addi v33 c0_i32_15
  let v117 : BitVec 32 := Scalar.addi v36 c0_i32_41
  let v119 : Index := Scalar.indexCast v117
  ![2, v119.toNat]
@[reducible] def k0_t2_loop : Scf.Loop 32 :=
  let c0_i32_104 : BitVec 32 := 0#32
  let c32_i32_105 : BitVec 32 := 32#32
  let v318 : BitVec 32 := Scalar.addi c0_i32_104 c32_i32_105
  let c1_i32_106 : BitVec 32 := 1#32
  ⟨c0_i32_104, v318, c1_i32_106⟩
def k0_off14 (k0_t2 : Fin k0_t2_loop.trips) : Fin 2 → Nat :=
  let c0_i32_881 : BitVec 32 := 0#32
  let v2693 : Index := Scalar.indexCast c0_i32_881
  let c0_i32_104 : BitVec 32 := 0#32
  let c1_i32_106 : BitVec 32 := 1#32
  let arg12 : BitVec 32 := Scf.iv c0_i32_104 c1_i32_106 k0_t2
  let c16_i32_880 : BitVec 32 := 16#32
  let v2692 : BitVec 32 := Scalar.muli arg12 c16_i32_880
  let v2694 : Index := Scalar.indexCast v2692
  ![0, v2694.toNat]
def k0_off15 (k0_t2 : Fin k0_t2_loop.trips) : Fin 2 → Nat :=
  let c1_i32_883 : BitVec 32 := 1#32
  let v2698 : Index := Scalar.indexCast c1_i32_883
  let c0_i32_104 : BitVec 32 := 0#32
  let c1_i32_106 : BitVec 32 := 1#32
  let arg12 : BitVec 32 := Scf.iv c0_i32_104 c1_i32_106 k0_t2
  let c16_i32_882 : BitVec 32 := 16#32
  let v2697 : BitVec 32 := Scalar.muli arg12 c16_i32_882
  let v2699 : Index := Scalar.indexCast v2697
  ![1, v2699.toNat]
def k0_off16 (k0_t2 : Fin k0_t2_loop.trips) : Fin 2 → Nat :=
  let c2_i32_885 : BitVec 32 := 2#32
  let v2703 : Index := Scalar.indexCast c2_i32_885
  let c0_i32_104 : BitVec 32 := 0#32
  let c1_i32_106 : BitVec 32 := 1#32
  let arg12 : BitVec 32 := Scf.iv c0_i32_104 c1_i32_106 k0_t2
  let c16_i32_884 : BitVec 32 := 16#32
  let v2702 : BitVec 32 := Scalar.muli arg12 c16_i32_884
  let v2704 : Index := Scalar.indexCast v2702
  ![2, v2704.toNat]
@[reducible] def k0_t3_loop : Scf.Loop 32 :=
  let c0_i32_213 : BitVec 32 := 0#32
  let c32_i32_214 : BitVec 32 := 32#32
  let v650 : BitVec 32 := Scalar.addi c0_i32_213 c32_i32_214
  let c1_i32_215 : BitVec 32 := 1#32
  ⟨c0_i32_213, v650, c1_i32_215⟩
def k0_off17 (k0_t3 : Fin k0_t3_loop.trips) : Fin 2 → Nat :=
  let c0_i32_881 : BitVec 32 := 0#32
  let v2693 : Index := Scalar.indexCast c0_i32_881
  let c0_i32_213 : BitVec 32 := 0#32
  let c1_i32_215 : BitVec 32 := 1#32
  let arg12 : BitVec 32 := Scf.iv c0_i32_213 c1_i32_215 k0_t3
  let c16_i32_880 : BitVec 32 := 16#32
  let v2692 : BitVec 32 := Scalar.muli arg12 c16_i32_880
  let v2694 : Index := Scalar.indexCast v2692
  ![0, v2694.toNat]
def k0_off18 (k0_t3 : Fin k0_t3_loop.trips) : Fin 2 → Nat :=
  let c1_i32_883 : BitVec 32 := 1#32
  let v2698 : Index := Scalar.indexCast c1_i32_883
  let c0_i32_213 : BitVec 32 := 0#32
  let c1_i32_215 : BitVec 32 := 1#32
  let arg12 : BitVec 32 := Scf.iv c0_i32_213 c1_i32_215 k0_t3
  let c16_i32_882 : BitVec 32 := 16#32
  let v2697 : BitVec 32 := Scalar.muli arg12 c16_i32_882
  let v2699 : Index := Scalar.indexCast v2697
  ![1, v2699.toNat]
def k0_off19 (k0_t3 : Fin k0_t3_loop.trips) : Fin 2 → Nat :=
  let c2_i32_885 : BitVec 32 := 2#32
  let v2703 : Index := Scalar.indexCast c2_i32_885
  let c0_i32_213 : BitVec 32 := 0#32
  let c1_i32_215 : BitVec 32 := 1#32
  let arg12 : BitVec 32 := Scf.iv c0_i32_213 c1_i32_215 k0_t3
  let c16_i32_884 : BitVec 32 := 16#32
  let v2702 : BitVec 32 := Scalar.muli arg12 c16_i32_884
  let v2704 : Index := Scalar.indexCast v2702
  ![2, v2704.toNat]
@[reducible] def k0_t4_loop : Scf.Loop 32 :=
  let c0_i32_322 : BitVec 32 := 0#32
  let c32_i32_323 : BitVec 32 := 32#32
  let v982 : BitVec 32 := Scalar.addi c0_i32_322 c32_i32_323
  let c1_i32_324 : BitVec 32 := 1#32
  ⟨c0_i32_322, v982, c1_i32_324⟩
def k0_off20 (k0_t4 : Fin k0_t4_loop.trips) : Fin 2 → Nat :=
  let c0_i32_881 : BitVec 32 := 0#32
  let v2693 : Index := Scalar.indexCast c0_i32_881
  let c0_i32_322 : BitVec 32 := 0#32
  let c1_i32_324 : BitVec 32 := 1#32
  let arg12 : BitVec 32 := Scf.iv c0_i32_322 c1_i32_324 k0_t4
  let c16_i32_880 : BitVec 32 := 16#32
  let v2692 : BitVec 32 := Scalar.muli arg12 c16_i32_880
  let v2694 : Index := Scalar.indexCast v2692
  ![0, v2694.toNat]
def k0_off21 (k0_t4 : Fin k0_t4_loop.trips) : Fin 2 → Nat :=
  let c1_i32_883 : BitVec 32 := 1#32
  let v2698 : Index := Scalar.indexCast c1_i32_883
  let c0_i32_322 : BitVec 32 := 0#32
  let c1_i32_324 : BitVec 32 := 1#32
  let arg12 : BitVec 32 := Scf.iv c0_i32_322 c1_i32_324 k0_t4
  let c16_i32_882 : BitVec 32 := 16#32
  let v2697 : BitVec 32 := Scalar.muli arg12 c16_i32_882
  let v2699 : Index := Scalar.indexCast v2697
  ![1, v2699.toNat]
def k0_off22 (k0_t4 : Fin k0_t4_loop.trips) : Fin 2 → Nat :=
  let c2_i32_885 : BitVec 32 := 2#32
  let v2703 : Index := Scalar.indexCast c2_i32_885
  let c0_i32_322 : BitVec 32 := 0#32
  let c1_i32_324 : BitVec 32 := 1#32
  let arg12 : BitVec 32 := Scf.iv c0_i32_322 c1_i32_324 k0_t4
  let c16_i32_884 : BitVec 32 := 16#32
  let v2702 : BitVec 32 := Scalar.muli arg12 c16_i32_884
  let v2704 : Index := Scalar.indexCast v2702
  ![2, v2704.toNat]
@[reducible] def k0_t5_loop : Scf.Loop 32 :=
  let c0_i32_431 : BitVec 32 := 0#32
  let c32_i32_432 : BitVec 32 := 32#32
  let v1314 : BitVec 32 := Scalar.addi c0_i32_431 c32_i32_432
  let c1_i32_433 : BitVec 32 := 1#32
  ⟨c0_i32_431, v1314, c1_i32_433⟩
def k0_off23 (k0_t5 : Fin k0_t5_loop.trips) : Fin 2 → Nat :=
  let c0_i32_881 : BitVec 32 := 0#32
  let v2693 : Index := Scalar.indexCast c0_i32_881
  let c0_i32_431 : BitVec 32 := 0#32
  let c1_i32_433 : BitVec 32 := 1#32
  let arg12 : BitVec 32 := Scf.iv c0_i32_431 c1_i32_433 k0_t5
  let c16_i32_880 : BitVec 32 := 16#32
  let v2692 : BitVec 32 := Scalar.muli arg12 c16_i32_880
  let v2694 : Index := Scalar.indexCast v2692
  ![0, v2694.toNat]
def k0_off24 (k0_t5 : Fin k0_t5_loop.trips) : Fin 2 → Nat :=
  let c1_i32_883 : BitVec 32 := 1#32
  let v2698 : Index := Scalar.indexCast c1_i32_883
  let c0_i32_431 : BitVec 32 := 0#32
  let c1_i32_433 : BitVec 32 := 1#32
  let arg12 : BitVec 32 := Scf.iv c0_i32_431 c1_i32_433 k0_t5
  let c16_i32_882 : BitVec 32 := 16#32
  let v2697 : BitVec 32 := Scalar.muli arg12 c16_i32_882
  let v2699 : Index := Scalar.indexCast v2697
  ![1, v2699.toNat]
def k0_off25 (k0_t5 : Fin k0_t5_loop.trips) : Fin 2 → Nat :=
  let c2_i32_885 : BitVec 32 := 2#32
  let v2703 : Index := Scalar.indexCast c2_i32_885
  let c0_i32_431 : BitVec 32 := 0#32
  let c1_i32_433 : BitVec 32 := 1#32
  let arg12 : BitVec 32 := Scf.iv c0_i32_431 c1_i32_433 k0_t5
  let c16_i32_884 : BitVec 32 := 16#32
  let v2702 : BitVec 32 := Scalar.muli arg12 c16_i32_884
  let v2704 : Index := Scalar.indexCast v2702
  ![2, v2704.toNat]
@[reducible] def k0_t6_loop : Scf.Loop 32 :=
  let c0_i32_541 : BitVec 32 := 0#32
  let c32_i32_542 : BitVec 32 := 32#32
  let v1646 : BitVec 32 := Scalar.addi c0_i32_541 c32_i32_542
  let c1_i32_543 : BitVec 32 := 1#32
  ⟨c0_i32_541, v1646, c1_i32_543⟩
def k0_off26 (k0_t6 : Fin k0_t6_loop.trips) : Fin 2 → Nat :=
  let c0_i32_881 : BitVec 32 := 0#32
  let v2693 : Index := Scalar.indexCast c0_i32_881
  let c0_i32_541 : BitVec 32 := 0#32
  let c1_i32_543 : BitVec 32 := 1#32
  let arg12 : BitVec 32 := Scf.iv c0_i32_541 c1_i32_543 k0_t6
  let c16_i32_880 : BitVec 32 := 16#32
  let v2692 : BitVec 32 := Scalar.muli arg12 c16_i32_880
  let v2694 : Index := Scalar.indexCast v2692
  ![0, v2694.toNat]
def k0_off27 (k0_t6 : Fin k0_t6_loop.trips) : Fin 2 → Nat :=
  let c1_i32_883 : BitVec 32 := 1#32
  let v2698 : Index := Scalar.indexCast c1_i32_883
  let c0_i32_541 : BitVec 32 := 0#32
  let c1_i32_543 : BitVec 32 := 1#32
  let arg12 : BitVec 32 := Scf.iv c0_i32_541 c1_i32_543 k0_t6
  let c16_i32_882 : BitVec 32 := 16#32
  let v2697 : BitVec 32 := Scalar.muli arg12 c16_i32_882
  let v2699 : Index := Scalar.indexCast v2697
  ![1, v2699.toNat]
def k0_off28 (k0_t6 : Fin k0_t6_loop.trips) : Fin 2 → Nat :=
  let c2_i32_885 : BitVec 32 := 2#32
  let v2703 : Index := Scalar.indexCast c2_i32_885
  let c0_i32_541 : BitVec 32 := 0#32
  let c1_i32_543 : BitVec 32 := 1#32
  let arg12 : BitVec 32 := Scf.iv c0_i32_541 c1_i32_543 k0_t6
  let c16_i32_884 : BitVec 32 := 16#32
  let v2702 : BitVec 32 := Scalar.muli arg12 c16_i32_884
  let v2704 : Index := Scalar.indexCast v2702
  ![2, v2704.toNat]
@[reducible] def k0_t7_loop : Scf.Loop 32 :=
  let c0_i32_650 : BitVec 32 := 0#32
  let c32_i32_651 : BitVec 32 := 32#32
  let v1978 : BitVec 32 := Scalar.addi c0_i32_650 c32_i32_651
  let c1_i32_652 : BitVec 32 := 1#32
  ⟨c0_i32_650, v1978, c1_i32_652⟩
def k0_off29 (k0_t7 : Fin k0_t7_loop.trips) : Fin 2 → Nat :=
  let c0_i32_881 : BitVec 32 := 0#32
  let v2693 : Index := Scalar.indexCast c0_i32_881
  let c0_i32_650 : BitVec 32 := 0#32
  let c1_i32_652 : BitVec 32 := 1#32
  let arg12 : BitVec 32 := Scf.iv c0_i32_650 c1_i32_652 k0_t7
  let c16_i32_880 : BitVec 32 := 16#32
  let v2692 : BitVec 32 := Scalar.muli arg12 c16_i32_880
  let v2694 : Index := Scalar.indexCast v2692
  ![0, v2694.toNat]
def k0_off30 (k0_t7 : Fin k0_t7_loop.trips) : Fin 2 → Nat :=
  let c1_i32_883 : BitVec 32 := 1#32
  let v2698 : Index := Scalar.indexCast c1_i32_883
  let c0_i32_650 : BitVec 32 := 0#32
  let c1_i32_652 : BitVec 32 := 1#32
  let arg12 : BitVec 32 := Scf.iv c0_i32_650 c1_i32_652 k0_t7
  let c16_i32_882 : BitVec 32 := 16#32
  let v2697 : BitVec 32 := Scalar.muli arg12 c16_i32_882
  let v2699 : Index := Scalar.indexCast v2697
  ![1, v2699.toNat]
def k0_off31 (k0_t7 : Fin k0_t7_loop.trips) : Fin 2 → Nat :=
  let c2_i32_885 : BitVec 32 := 2#32
  let v2703 : Index := Scalar.indexCast c2_i32_885
  let c0_i32_650 : BitVec 32 := 0#32
  let c1_i32_652 : BitVec 32 := 1#32
  let arg12 : BitVec 32 := Scf.iv c0_i32_650 c1_i32_652 k0_t7
  let c16_i32_884 : BitVec 32 := 16#32
  let v2702 : BitVec 32 := Scalar.muli arg12 c16_i32_884
  let v2704 : Index := Scalar.indexCast v2702
  ![2, v2704.toNat]
@[reducible] def k0_t8_loop : Scf.Loop 32 :=
  let c0_i32_759 : BitVec 32 := 0#32
  let c32_i32_760 : BitVec 32 := 32#32
  let v2310 : BitVec 32 := Scalar.addi c0_i32_759 c32_i32_760
  let c1_i32_761 : BitVec 32 := 1#32
  ⟨c0_i32_759, v2310, c1_i32_761⟩
def k0_off32 (k0_t8 : Fin k0_t8_loop.trips) : Fin 2 → Nat :=
  let c0_i32_881 : BitVec 32 := 0#32
  let v2693 : Index := Scalar.indexCast c0_i32_881
  let c0_i32_759 : BitVec 32 := 0#32
  let c1_i32_761 : BitVec 32 := 1#32
  let arg12 : BitVec 32 := Scf.iv c0_i32_759 c1_i32_761 k0_t8
  let c16_i32_880 : BitVec 32 := 16#32
  let v2692 : BitVec 32 := Scalar.muli arg12 c16_i32_880
  let v2694 : Index := Scalar.indexCast v2692
  ![0, v2694.toNat]
def k0_off33 (k0_t8 : Fin k0_t8_loop.trips) : Fin 2 → Nat :=
  let c1_i32_883 : BitVec 32 := 1#32
  let v2698 : Index := Scalar.indexCast c1_i32_883
  let c0_i32_759 : BitVec 32 := 0#32
  let c1_i32_761 : BitVec 32 := 1#32
  let arg12 : BitVec 32 := Scf.iv c0_i32_759 c1_i32_761 k0_t8
  let c16_i32_882 : BitVec 32 := 16#32
  let v2697 : BitVec 32 := Scalar.muli arg12 c16_i32_882
  let v2699 : Index := Scalar.indexCast v2697
  ![1, v2699.toNat]
def k0_off34 (k0_t8 : Fin k0_t8_loop.trips) : Fin 2 → Nat :=
  let c2_i32_885 : BitVec 32 := 2#32
  let v2703 : Index := Scalar.indexCast c2_i32_885
  let c0_i32_759 : BitVec 32 := 0#32
  let c1_i32_761 : BitVec 32 := 1#32
  let arg12 : BitVec 32 := Scf.iv c0_i32_759 c1_i32_761 k0_t8
  let c16_i32_884 : BitVec 32 := 16#32
  let v2702 : BitVec 32 := Scalar.muli arg12 c16_i32_884
  let v2704 : Index := Scalar.indexCast v2702
  ![2, v2704.toNat]
@[reducible] def k0_t9_loop : Scf.Loop 32 :=
  let c0_i32_868 : BitVec 32 := 0#32
  let c32_i32_869 : BitVec 32 := 32#32
  let v2642 : BitVec 32 := Scalar.addi c0_i32_868 c32_i32_869
  let c1_i32_870 : BitVec 32 := 1#32
  ⟨c0_i32_868, v2642, c1_i32_870⟩
def k0_off35 (k0_t9 : Fin k0_t9_loop.trips) : Fin 2 → Nat :=
  let c0_i32_881 : BitVec 32 := 0#32
  let v2693 : Index := Scalar.indexCast c0_i32_881
  let c0_i32_868 : BitVec 32 := 0#32
  let c1_i32_870 : BitVec 32 := 1#32
  let arg12 : BitVec 32 := Scf.iv c0_i32_868 c1_i32_870 k0_t9
  let c16_i32_880 : BitVec 32 := 16#32
  let v2692 : BitVec 32 := Scalar.muli arg12 c16_i32_880
  let v2694 : Index := Scalar.indexCast v2692
  ![0, v2694.toNat]
def k0_off36 (k0_t9 : Fin k0_t9_loop.trips) : Fin 2 → Nat :=
  let c1_i32_883 : BitVec 32 := 1#32
  let v2698 : Index := Scalar.indexCast c1_i32_883
  let c0_i32_868 : BitVec 32 := 0#32
  let c1_i32_870 : BitVec 32 := 1#32
  let arg12 : BitVec 32 := Scf.iv c0_i32_868 c1_i32_870 k0_t9
  let c16_i32_882 : BitVec 32 := 16#32
  let v2697 : BitVec 32 := Scalar.muli arg12 c16_i32_882
  let v2699 : Index := Scalar.indexCast v2697
  ![1, v2699.toNat]
def k0_off37 (k0_t9 : Fin k0_t9_loop.trips) : Fin 2 → Nat :=
  let c2_i32_885 : BitVec 32 := 2#32
  let v2703 : Index := Scalar.indexCast c2_i32_885
  let c0_i32_868 : BitVec 32 := 0#32
  let c1_i32_870 : BitVec 32 := 1#32
  let arg12 : BitVec 32 := Scf.iv c0_i32_868 c1_i32_870 k0_t9
  let c16_i32_884 : BitVec 32 := 16#32
  let v2702 : BitVec 32 := Scalar.muli arg12 c16_i32_884
  let v2704 : Index := Scalar.indexCast v2702
  ![2, v2704.toNat]
def k0_off38 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_881_r5 : BitVec 32 := 0#32
  ![v16.toNat, 0]
def k0_off39 (i : grid0.Coords) : Fin 1 → Nat :=
  let c512_i32 : BitVec 32 := 512#32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1024_i32_14 : BitVec 32 := 1024#32
  let v34 : BitVec 32 := Scalar.muli v26 c1024_i32_14
  let v35 : BitVec 32 := Scalar.addi c512_i32 v34
  ![v35.toNat]
abbrev grid1 : Pipeline.Grid := ⟨2, ![4, 7], ![false, false]⟩

def k1_cond1 (i : grid1.Coords) : BitVec 1 :=
  let arg1 : BitVec 32 := BitVec.ofNat 32 (i 1).val
  let c0_i32 : BitVec 32 := 0#32
  let v27 : BitVec 1 := Scalar.cmpi .eq arg1 c0_i32
  let v28 : BitVec 32 := Scalar.extui v27
  let c0_i32_19 : BitVec 32 := 0#32
  let v29 : BitVec 1 := Scalar.cmpi .ne v28 c0_i32_19
  v29

def k1_cond2 (i : grid1.Coords) : BitVec 1 :=
  let arg1 : BitVec 32 := BitVec.ofNat 32 (i 1).val
  let c0_i32_20 : BitVec 32 := 0#32
  let v30 : BitVec 1 := Scalar.cmpi .ne arg1 c0_i32_20
  let v31 : BitVec 32 := Scalar.extui v30
  let c0_i32_21 : BitVec 32 := 0#32
  let v32 : BitVec 1 := Scalar.cmpi .ne v31 c0_i32_21
  v32

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := .none

abbrev stage2_0 : Fin 1 → Memref sig .tc .vmem S4x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x8x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4x4096x3_S4x3x4096_0_2_1 : S4x4096x3.Transposes [0, 2, 1] S4x3x4096
  bitsLt_bf16_f32 : FTy.bits .bf16 < FTy.bits .f32
  slices_S4x3x4096_S4x3x512_0_0_3584 : S4x3x4096.Slices ![0, 0, 3584] S4x3x512
  squeezes_S1x3x512_S3x512 : S1x3x512.Squeezes S3x512
  squeezes_S1x3x4096_S3x4096 : S1x3x4096.Squeezes S3x4096
  h_S1x16 : 0 < S1x16.numel
  shapeCasts_S1x16_S16 : S1x16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S1024_S16_0 : ∀ a, (![0] : Fin 1 → Nat) a + S16.size a ≤ S1024.size a
  h_S16 : 0 < S16.numel
  shapeCasts_S16_S16 : S16.ShapeCasts S16
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S128_0 : ∀ a, (![0] : Fin 1 → Nat) a + S128.size a ≤ S1024.size a
  squeezes_S1x4608_S4608 : S1x4608.Squeezes S4608
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  inb_S1024_S1024_0 : ∀ a, (![0] : Fin 1 → Nat) a + S1024.size a ≤ S1024.size a
  slices_S4x4608_S4x512_0_0 : S4x4608.Slices ![0, 0] S4x512
  slices_S4x4608_S4x4096_0_512 : S4x4608.Slices ![0, 512] S4x4096
  bcast_S_S4x5x4096 : S_.BroadcastsInDim S4x5x4096 (![] : Fin 0 → Fin S4x5x4096.rank)
  concatenates_S4x3x4096_S4x5x4096_S4x8x4096_d1 : Shape.Concatenates [S4x3x4096, S4x5x4096] S4x8x4096 1
  bcast_S_S4x8x4096 : S_.BroadcastsInDim S4x8x4096 (![] : Fin 0 → Fin S4x8x4096.rank)
  transposes_S4x8x4096_S4x4096x8_0_2_1 : S4x8x4096.Transposes [0, 2, 1] S4x4096x8
  slices_S4x4096x8_S4x3584x8_0_0_0 : S4x4096x8.Slices ![0, 0, 0] S4x3584x8
  inb_S1x512x8_S1x512x8_0_0_0 : ∀ a, (![0, 0, 0] : Fin 3 → Nat) a + S1x512x8.size a ≤ S1x512x8.size a
  h_S1x512x8 : 0 < S1x512x8.numel
  shapeCasts_S1x512x8_S512x8 : S1x512x8.ShapeCasts S512x8
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  reduces_S512x8_S512 : S512x8.Reduces [1] S512
  reduces_S8x4096_S4096 : S8x4096.Reduces [0] S4096
  shapeCasts_S4096_S1x4096 : S4096.ShapeCasts S1x4096
  broadcasts_S1x4096_S512x4096 : S1x4096.Broadcasts S512x4096
  reduces_S512x4096_S512 : S512x4096.Reduces [1] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  shapeCasts_S512_S512x1 : S512.ShapeCasts S512x1
  broadcasts_S512x1_S512x4096 : S512x1.Broadcasts S512x4096
  reduces_S512x4096_S4096 : S512x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S28x1x512_S4x3584 : S28x1x512.ShapeCasts S4x3584
  concatenates_S4x3584_S4x512_S4x4096_d1 : Shape.Concatenates [S4x3584, S4x512] S4x4096 1
  shapeCasts_S4x1x4096_S4x4096 : S4x1x4096.ShapeCasts S4x4096
  inb_S4x8x4096_S4x8x4096_0_0_0 : ∀ a, (![0, 0, 0] : Fin 3 → Nat) a + S4x8x4096.size a ≤ S4x8x4096.size a
  h_S4x8x4096 : 0 < S4x8x4096.numel
  shapeCasts_S4x8x4096_S4x8x4096 : S4x8x4096.ShapeCasts S4x8x4096
  reduces_S4x8x4096_S4x4096 : S4x8x4096.Reduces [1] S4x4096
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  shapeCasts_S4x4096_S1x4x4096 : S4x4096.ShapeCasts S1x4x4096
  reduces_S1x4x4096_S1 : S1x4x4096.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  dot_S512x8_S8x4096_S512x4096_1_0_0_1_n_n_wf : DotDims.WF S512x8 S8x4096 S512x4096 [1] [0] [0] [1] [] []
  hcc0_scoped0 : 0 + S_.numel ≤ 23
  hcc0_scoped1 : 1 + S_.numel ≤ 23
  hcc0_scoped2 : 2 + S_.numel ≤ 23
  hcc0_scoped3 : 3 + S_.numel ≤ 23
  hcc0_scoped4 : 4 + S_.numel ≤ 23
  hcc0_scoped5 : 5 + S_.numel ≤ 23
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x3x512.size a ≤ S4x3x512.size a
  k0_off2_inb : ∀ i : grid0.Coords, ∀ a, (k0_off2 i) a + S1x3x4096.size a ≤ S4x3x4096.size a
  k0_off3_inb : ∀ i : grid0.Coords, ∀ (k0_h1 : k0_cond1 i = 1#1), ∀ (r : Fin 8), ∀ a, (k0_off3 i (BitVec.ofNat 32 (16 * r.val))) a + S1x16.size a ≤ S3x512.size a
  k0_off4_inb : ∀ i : grid0.Coords, ∀ (k0_h1 : k0_cond1 i = 1#1), ∀ (r : Fin 8), ∀ a, (k0_off4 i (BitVec.ofNat 32 (16 * r.val))) a + S1x16.size a ≤ S3x512.size a
  k0_off5_inb : ∀ i : grid0.Coords, ∀ (k0_h1 : k0_cond1 i = 1#1), ∀ (r : Fin 8), ∀ a, (k0_off5 i (BitVec.ofNat 32 (16 * r.val))) a + S1x16.size a ≤ S3x512.size a
  k0_t1_ok : ∀ i : grid0.Coords, ∀ (k0_h1 : k0_cond1 i = 1#1), k0_t1_loop.OK
  k0_off6_inb : ∀ (i : grid0.Coords) (k0_t1 : Fin k0_t1_loop.trips), ∀ (k0_h1 : k0_cond1 i = 1#1), ∀ a, (k0_off6 k0_t1) a + S1x16.size a ≤ S3x4096.size a
  k0_off7_inb : ∀ (i : grid0.Coords) (k0_t1 : Fin k0_t1_loop.trips), ∀ (k0_h1 : k0_cond1 i = 1#1), ∀ a, (k0_off7 k0_t1) a + S1x16.size a ≤ S3x4096.size a
  k0_off8_inb : ∀ (i : grid0.Coords) (k0_t1 : Fin k0_t1_loop.trips), ∀ (k0_h1 : k0_cond1 i = 1#1), ∀ a, (k0_off8 k0_t1) a + S1x16.size a ≤ S3x4096.size a
  k0_off9_inb : ∀ i : grid0.Coords, ∀ (k0_h1 : k0_cond1 i = 1#1), ∀ a, (k0_off9 i) a + S1x4608.size a ≤ S4x4608.size a
  k0_off10_inb : ∀ i : grid0.Coords, ∀ (k0_h1 : k0_cond1 i = 1#1), ∀ a, (k0_off10 i) a + S128.size a ≤ S4608.size a
  k0_off11_inb : ∀ i : grid0.Coords, ∀ (k0_h2 : k0_cond2 i = 1#1), ∀ (r₁ : Fin 8) (r₂ : Fin 8), ∀ a, (k0_off11 i (BitVec.ofNat 32 (128 * r₁.val)) (BitVec.ofNat 32 (16 * r₂.val))) a + S1x16.size a ≤ S3x4096.size a
  k0_off12_inb : ∀ i : grid0.Coords, ∀ (k0_h2 : k0_cond2 i = 1#1), ∀ (r₁ : Fin 8) (r₂ : Fin 8), ∀ a, (k0_off12 i (BitVec.ofNat 32 (128 * r₁.val)) (BitVec.ofNat 32 (16 * r₂.val))) a + S1x16.size a ≤ S3x4096.size a
  k0_off13_inb : ∀ i : grid0.Coords, ∀ (k0_h2 : k0_cond2 i = 1#1), ∀ (r₁ : Fin 8) (r₂ : Fin 8), ∀ a, (k0_off13 i (BitVec.ofNat 32 (128 * r₁.val)) (BitVec.ofNat 32 (16 * r₂.val))) a + S1x16.size a ≤ S3x4096.size a
  k0_t2_ok : ∀ i : grid0.Coords, ∀ (k0_h2 : k0_cond2 i = 1#1), k0_t2_loop.OK
  k0_off14_inb : ∀ (i : grid0.Coords) (k0_t2 : Fin k0_t2_loop.trips), ∀ (k0_h2 : k0_cond2 i = 1#1), ∀ a, (k0_off14 k0_t2) a + S1x16.size a ≤ S3x512.size a
  k0_off15_inb : ∀ (i : grid0.Coords) (k0_t2 : Fin k0_t2_loop.trips), ∀ (k0_h2 : k0_cond2 i = 1#1), ∀ a, (k0_off15 k0_t2) a + S1x16.size a ≤ S3x512.size a
  k0_off16_inb : ∀ (i : grid0.Coords) (k0_t2 : Fin k0_t2_loop.trips), ∀ (k0_h2 : k0_cond2 i = 1#1), ∀ a, (k0_off16 k0_t2) a + S1x16.size a ≤ S3x512.size a
  k0_t3_ok : ∀ i : grid0.Coords, ∀ (k0_h2 : k0_cond2 i = 1#1), k0_t3_loop.OK
  k0_off17_inb : ∀ (i : grid0.Coords) (k0_t3 : Fin k0_t3_loop.trips), ∀ (k0_h2 : k0_cond2 i = 1#1), ∀ a, (k0_off17 k0_t3) a + S1x16.size a ≤ S3x512.size a
  k0_off18_inb : ∀ (i : grid0.Coords) (k0_t3 : Fin k0_t3_loop.trips), ∀ (k0_h2 : k0_cond2 i = 1#1), ∀ a, (k0_off18 k0_t3) a + S1x16.size a ≤ S3x512.size a
  k0_off19_inb : ∀ (i : grid0.Coords) (k0_t3 : Fin k0_t3_loop.trips), ∀ (k0_h2 : k0_cond2 i = 1#1), ∀ a, (k0_off19 k0_t3) a + S1x16.size a ≤ S3x512.size a
  k0_t4_ok : ∀ i : grid0.Coords, ∀ (k0_h2 : k0_cond2 i = 1#1), k0_t4_loop.OK
  k0_off20_inb : ∀ (i : grid0.Coords) (k0_t4 : Fin k0_t4_loop.trips), ∀ (k0_h2 : k0_cond2 i = 1#1), ∀ a, (k0_off20 k0_t4) a + S1x16.size a ≤ S3x512.size a
  k0_off21_inb : ∀ (i : grid0.Coords) (k0_t4 : Fin k0_t4_loop.trips), ∀ (k0_h2 : k0_cond2 i = 1#1), ∀ a, (k0_off21 k0_t4) a + S1x16.size a ≤ S3x512.size a
  k0_off22_inb : ∀ (i : grid0.Coords) (k0_t4 : Fin k0_t4_loop.trips), ∀ (k0_h2 : k0_cond2 i = 1#1), ∀ a, (k0_off22 k0_t4) a + S1x16.size a ≤ S3x512.size a
  k0_t5_ok : ∀ i : grid0.Coords, ∀ (k0_h2 : k0_cond2 i = 1#1), k0_t5_loop.OK
  k0_off23_inb : ∀ (i : grid0.Coords) (k0_t5 : Fin k0_t5_loop.trips), ∀ (k0_h2 : k0_cond2 i = 1#1), ∀ a, (k0_off23 k0_t5) a + S1x16.size a ≤ S3x512.size a
  k0_off24_inb : ∀ (i : grid0.Coords) (k0_t5 : Fin k0_t5_loop.trips), ∀ (k0_h2 : k0_cond2 i = 1#1), ∀ a, (k0_off24 k0_t5) a + S1x16.size a ≤ S3x512.size a
  k0_off25_inb : ∀ (i : grid0.Coords) (k0_t5 : Fin k0_t5_loop.trips), ∀ (k0_h2 : k0_cond2 i = 1#1), ∀ a, (k0_off25 k0_t5) a + S1x16.size a ≤ S3x512.size a
  k0_t6_ok : ∀ i : grid0.Coords, ∀ (k0_h2 : k0_cond2 i = 1#1), k0_t6_loop.OK
  k0_off26_inb : ∀ (i : grid0.Coords) (k0_t6 : Fin k0_t6_loop.trips), ∀ (k0_h2 : k0_cond2 i = 1#1), ∀ a, (k0_off26 k0_t6) a + S1x16.size a ≤ S3x512.size a
  k0_off27_inb : ∀ (i : grid0.Coords) (k0_t6 : Fin k0_t6_loop.trips), ∀ (k0_h2 : k0_cond2 i = 1#1), ∀ a, (k0_off27 k0_t6) a + S1x16.size a ≤ S3x512.size a
  k0_off28_inb : ∀ (i : grid0.Coords) (k0_t6 : Fin k0_t6_loop.trips), ∀ (k0_h2 : k0_cond2 i = 1#1), ∀ a, (k0_off28 k0_t6) a + S1x16.size a ≤ S3x512.size a
  k0_t7_ok : ∀ i : grid0.Coords, ∀ (k0_h2 : k0_cond2 i = 1#1), k0_t7_loop.OK
  k0_off29_inb : ∀ (i : grid0.Coords) (k0_t7 : Fin k0_t7_loop.trips), ∀ (k0_h2 : k0_cond2 i = 1#1), ∀ a, (k0_off29 k0_t7) a + S1x16.size a ≤ S3x512.size a
  k0_off30_inb : ∀ (i : grid0.Coords) (k0_t7 : Fin k0_t7_loop.trips), ∀ (k0_h2 : k0_cond2 i = 1#1), ∀ a, (k0_off30 k0_t7) a + S1x16.size a ≤ S3x512.size a
  k0_off31_inb : ∀ (i : grid0.Coords) (k0_t7 : Fin k0_t7_loop.trips), ∀ (k0_h2 : k0_cond2 i = 1#1), ∀ a, (k0_off31 k0_t7) a + S1x16.size a ≤ S3x512.size a
  k0_t8_ok : ∀ i : grid0.Coords, ∀ (k0_h2 : k0_cond2 i = 1#1), k0_t8_loop.OK
  k0_off32_inb : ∀ (i : grid0.Coords) (k0_t8 : Fin k0_t8_loop.trips), ∀ (k0_h2 : k0_cond2 i = 1#1), ∀ a, (k0_off32 k0_t8) a + S1x16.size a ≤ S3x512.size a
  k0_off33_inb : ∀ (i : grid0.Coords) (k0_t8 : Fin k0_t8_loop.trips), ∀ (k0_h2 : k0_cond2 i = 1#1), ∀ a, (k0_off33 k0_t8) a + S1x16.size a ≤ S3x512.size a
  k0_off34_inb : ∀ (i : grid0.Coords) (k0_t8 : Fin k0_t8_loop.trips), ∀ (k0_h2 : k0_cond2 i = 1#1), ∀ a, (k0_off34 k0_t8) a + S1x16.size a ≤ S3x512.size a
  k0_t9_ok : ∀ i : grid0.Coords, ∀ (k0_h2 : k0_cond2 i = 1#1), k0_t9_loop.OK
  k0_off35_inb : ∀ (i : grid0.Coords) (k0_t9 : Fin k0_t9_loop.trips), ∀ (k0_h2 : k0_cond2 i = 1#1), ∀ a, (k0_off35 k0_t9) a + S1x16.size a ≤ S3x512.size a
  k0_off36_inb : ∀ (i : grid0.Coords) (k0_t9 : Fin k0_t9_loop.trips), ∀ (k0_h2 : k0_cond2 i = 1#1), ∀ a, (k0_off36 k0_t9) a + S1x16.size a ≤ S3x512.size a
  k0_off37_inb : ∀ (i : grid0.Coords) (k0_t9 : Fin k0_t9_loop.trips), ∀ (k0_h2 : k0_cond2 i = 1#1), ∀ a, (k0_off37 k0_t9) a + S1x16.size a ≤ S3x512.size a
  k0_off38_inb : ∀ i : grid0.Coords, ∀ (k0_h2 : k0_cond2 i = 1#1), ∀ a, (k0_off38 i) a + S1x4608.size a ≤ S4x4608.size a
  k0_off39_inb : ∀ i : grid0.Coords, ∀ (k0_h2 : k0_cond2 i = 1#1), ∀ a, (k0_off39 i) a + S1024.size a ≤ S4608.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x8.size a ≤ S4x3584x8.size a
  hwx1_0 : ∀ i : grid1.Coords, EltTy.bits .f32 = 32 ∨ (Rect.block (s := S4x3584x8) S1x512x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x8.size a ≤ S4x3584x8.size a
  hwx1_1 : ∀ i : grid1.Coords, EltTy.bits .f32 = 32 ∨ (Rect.block (s := S4x3584x8) S1x512x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x4096.size a ≤ S4x8x4096.size a
  hwx1_2 : ∀ i : grid1.Coords, EltTy.bits .f32 = 32 ∨ (Rect.block (s := S4x8x4096) S1x8x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x4096.size a ≤ S4x8x4096.size a
  hwx1_3 : ∀ i : grid1.Coords, EltTy.bits .f32 = 32 ∨ (Rect.block (s := S4x8x4096) S1x8x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S28x1x512.size a
  hwx1_4 : ∀ i : grid1.Coords, EltTy.bits .f32 = 32 ∨ (Rect.block (s := S28x1x512) S1x1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x4096.size a ≤ S4x1x4096.size a
  hwx1_5 : ∀ i : grid1.Coords, EltTy.bits .f32 = 32 ∨ (Rect.block (s := S4x1x4096) S1x1x4096.size (cc1_transform_5 i) (hinb1_5 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf

abbrev win1_0 : Pipeline.Window sig grid1 :=
  Pipeline.Window.ofSpec (Memref.whole main_v20) S1x512x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x512x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x8x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x8x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S1x1x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S1x1x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) | ⟨_ + 6, h⟩ => absurd h (Nat.not_lt.2 (Nat.le_add_left _ _))

abbrev win2_0 : Pipeline.Window sig grid2 :=
  Pipeline.Window.whole (Memref.whole main_v25) false false (stage2_0 0) (sem2_0 0) (Memref.isWhole_whole _) (hstage2_0 0)

abbrev win2_1 : Pipeline.Window sig grid2 :=
  Pipeline.Window.whole (Memref.whole main_v26) false false (stage2_1 0) (sem2_1 0) (Memref.isWhole_whole _) (hstage2_1 0)

abbrev win2_2 : Pipeline.Window sig grid2 :=
  Pipeline.Window.whole (Memref.whole main_v11) false false (stage2_2 0) (sem2_2 0) (Memref.isWhole_whole _) (hstage2_2 0)

abbrev win2_3 : Pipeline.Window sig grid2 :=
  Pipeline.Window.whole (Memref.whole main_v15) false false (stage2_3 0) (sem2_3 0) (Memref.isWhole_whole _) (hstage2_3 0)

abbrev win2_4 : Pipeline.Window sig grid2 :=
  Pipeline.Window.whole (Memref.whole main_v27) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.RefFrame.lean ====
import proofs.«209750_g45337674776763_cont_8to1c4_158_37_alg».proof.Defs
import proofs.«209750_g45337674776763_cont_8to1c4_158_37_alg».proof.Proof.Gen.ReferenceIdeal
import proofs.«209750_g45337674776763_cont_8to1c4_158_37_alg».proof.Proof.Gen.ReferenceIdeal.Run
import proofs.«209750_g45337674776763_cont_8to1c4_158_37_alg».proof.Proof.Gen.Pre_finite_inputs

/-! The reference is a straight line of host operations with no kernel: its run ends, faults nowhere and writes only
    the buffers of its own intermediate values, so both argument arrays end as they began. -/

noncomputable section

namespace Cert.Proof.RefFrame

open Idealize.ShloMosaic Idealize.SL.Sem

/-- The reference's frame: its run with the result's value dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefFrame

end
-- ==== Proof.ScCommonScI.lean ====
/-
  The vector-subcore kernel of the program, as one subcore's task sees it: the four argument-derived arrays it only reads
  (each whole, at a read share), the piece of the result array it alone writes (the words the body's own slices name), and
  its own scratch buffers and copy semaphores. Every copy of the body is local to the subcore and waited for before the
  next access to either end, so no schedule is needed: the counters of the transfers' algebra suffice.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

/-- The grid coordinates of the vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev L0 (s : Fin (grid0.bound 1)) : grid0.Coords := coordsV ⟨0, by decide⟩ s
abbrev L1 (s : Fin (grid0.bound 1)) : grid0.Coords := coordsV ⟨1, by decide⟩ s

theorem h1_L0 (s : Fin (grid0.bound 1)) : k0_cond1 (L0 s) = 1#1 := by decide +revert
theorem h2_L0 (s : Fin (grid0.bound 1)) : ¬ k0_cond2 (L0 s) = 1#1 := by decide +revert
theorem h1_L1 (s : Fin (grid0.bound 1)) : ¬ k0_cond1 (L1 s) = 1#1 := by decide +revert
theorem h2_L1 (s : Fin (grid0.bound 1)) : k0_cond2 (L1 s) = 1#1 := by decide +revert

variable (d : Dev nD)

abbrev thr (L : grid0.Coords) : Thread nD τ := V d ((L 0).castLE hcore0) ((L 1).castLE hsub0)
abbrev l7 : Loc nD τ sig := (SparseCore.T d).loc main_v7
abbrev l8 : Loc nD τ sig := (SparseCore.T d).loc main_v8
abbrev l6 : Loc nD τ sig := (SparseCore.T d).loc main_v6
abbrev l1 : Loc nD τ sig := (SparseCore.T d).loc main_v1
abbrev l9 : Loc nD τ sig := (SparseCore.T d).loc main_v9

/-- The 128 words of the result row a subcore of SparseCore 0 writes, as the body slices them. -/
abbrev out0 (L : grid0.Coords) (h : k0_cond1 L = 1#1) : Memref sig .scVector .hbm S128 .f32 :=
  (((A9).slice (Rect.unit (s := S4x4608) (k0_off9 L) S1x4608.size (k0_off9_inb L h)) (fun _ => rfl)).squeeze S4608 squeezes_S1x4608_S4608).slice
    (Rect.unit (s := S4608) (k0_off10 L) S128.size (k0_off10_inb L h)) (fun _ => rfl)
/-- The 1024 words of the result row a subcore of SparseCore 1 writes, as the body slices them. -/
abbrev out1 (L : grid0.Coords) (h : k0_cond2 L = 1#1) : Memref sig .scVector .hbm S1024 .f32 :=
  (((A9).slice (Rect.unit (s := S4x4608) (k0_off38 L) S1x4608.size (k0_off38_inb L h)) (fun _ => rfl)).squeeze S4608 squeezes_S1x4608_S4608).slice
    (Rect.unit (s := S4608) (k0_off39 L) S1024.size (k0_off39_inb L h)) (fun _ => rfl)

theorem pts7 (L : grid0.Coords) (q : PosShare TreeShare) (f : Buf (Elt F) (l7 d)) :
    ((A7).view.loc (thr d L) ↦{q} f : sProp 𝕄) = l7 d ↦{q} f := by simp only [Memref.view_whole, View.set_whole]
theorem pts8 (L : grid0.Coords) (q : PosShare TreeShare) (f : Buf (Elt F) (l8 d)) :
    ((A8).view.loc (thr d L) ↦{q} f : sProp 𝕄) = l8 d ↦{q} f := by simp only [Memref.view_whole, View.set_whole]
theorem pts6 (L : grid0.Coords) (q : PosShare TreeShare) (f : Buf (Elt F) (l6 d)) :
    ((A6).view.loc (thr d L) ↦{q} f : sProp 𝕄) = l6 d ↦{q} f := by simp only [Memref.view_whole, View.set_whole]
theorem pts1 (L : grid0.Coords) (q : PosShare TreeShare) (f : Buf (Elt F) (l1 d)) :
    ((A1).view.loc (thr d L) ↦{q} f : sProp 𝕄) = l1 d ↦{q} f := by simp only [Memref.view_whole, View.set_whole]
theorem ptsO0 (L : grid0.Coords) (h : k0_cond1 L = 1#1) (f : Buf (Elt F) (l9 d)) :
    ((out0 L h).view.loc (thr d L) ↦[(out0 L h).view.set]{fullShare} f : sProp 𝕄) = l9 d ↦[(out0 L h).view.set]{fullShare} f := rfl
theorem ptsO1 (L : grid0.Coords) (h : k0_cond2 L = 1#1) (f : Buf (Elt F) (l9 d)) :
    ((out1 L h).view.loc (thr d L) ↦[(out1 L h).view.set]{fullShare} f : sProp 𝕄) = l9 d ↦[(out1 L h).view.set]{fullShare} f := rfl
theorem ptsB0 (L : grid0.Coords) (f : Buf (Elt F) ((thr d L).loc cc0_scratch0)) :
    ((B0).view.loc (thr d L) ↦{fullShare} f : sProp 𝕄) = (thr d L).loc cc0_scratch0 ↦{fullShare} f := by simp only [Memref.view_whole, View.set_whole]
theorem ptsB1 (L : grid0.Coords) (f : Buf (Elt F) ((thr d L).loc cc0_scratch1)) :
    ((B1).view.loc (thr d L) ↦{fullShare} f : sProp 𝕄) = (thr d L).loc cc0_scratch1 ↦{fullShare} f := by simp only [Memref.view_whole, View.set_whole]
theorem ptsB2 (L : grid0.Coords) (f : Buf (Elt F) ((thr d L).loc cc0_scratch2)) :
    ((B2).view.loc (thr d L) ↦{fullShare} f : sProp 𝕄) = (thr d L).loc cc0_scratch2 ↦{fullShare} f := by simp only [Memref.view_whole, View.set_whole]
theorem ptsB3 (L : grid0.Coords) (f : Buf (Elt F) ((thr d L).loc cc0_scratch3)) :
    ((B3).view.loc (thr d L) ↦{fullShare} f : sProp 𝕄) = (thr d L).loc cc0_scratch3 ↦{fullShare} f := by simp only [Memref.view_whole, View.set_whole]
theorem ptsB4 (L : grid0.Coords) (f : Buf (Elt F) ((thr d L).loc cc0_scratch4)) :
    ((B4).view.loc (thr d L) ↦{fullShare} f : sProp 𝕄) = (thr d L).loc cc0_scratch4 ↦{fullShare} f := by simp only [Memref.view_whole, View.set_whole]

/-- What a subcore holds of its own while it runs the body: the five scratch buffers at some contents and the six
    copy semaphores' counters at zero. -/
def own5 (L : grid0.Coords) : sProp 𝕄 :=
  iprop((∃ f, (thr d L).loc cc0_scratch0 ↦{fullShare} f) ∗ (∃ f, (thr d L).loc cc0_scratch1 ↦{fullShare} f)
    ∗ (∃ f, (thr d L).loc cc0_scratch2 ↦{fullShare} f) ∗ (∃ f, (thr d L).loc cc0_scratch3 ↦{fullShare} f)
    ∗ (∃ f, (thr d L).loc cc0_scratch4 ↦{fullShare} f)
    ∗ semVal (thr d L, SemLoc.dma cc0_scoped0.sem) 0 ∗ semVal (thr d L, SemLoc.dma cc0_scoped1.sem) 0
    ∗ semVal (thr d L, SemLoc.dma cc0_scoped2.sem) 0 ∗ semVal (thr d L, SemLoc.dma cc0_scoped3.sem) 0
    ∗ semVal (thr d L, SemLoc.dma cc0_scoped4.sem) 0 ∗ semVal (thr d L, SemLoc.dma cc0_scoped5.sem) 0)

/-- The four argument-derived arrays, each whole at a read share. -/
def ins4 (q : PosShare TreeShare) (f7 : Buf (Elt F) (l7 d)) (f8 : Buf (Elt F) (l8 d)) (f6 : Buf (Elt F) (l6 d)) (f1 : Buf (Elt F) (l1 d)) : sProp 𝕄 :=
  iprop((l7 d ↦{q} f7) ∗ (l8 d ↦{q} f8) ∗ (l6 d ↦{q} f6) ∗ (l1 d ↦{q} f1))

end Cert.Proof.ScI

end
-- ==== Proof.ScOwnScI.lean ====
/-
  A vector subcore's own storage, opened: of the scoped buffers and semaphores the launch hands a subcore, the five
  scratch buffers and the six copy semaphores the body uses, and the rest, which the body never touches.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScCommonScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD) (L : grid0.Coords)

/-- The subcore's scoped semaphores that are not the body's six. -/
abbrev restCells : Finset (GSem nD τ sig) := (((((((ownCells (thr d L)).erase ((thr d L, SemLoc.dma cc0_scoped0.sem) : GSem nD τ sig)).erase ((thr d L, SemLoc.dma cc0_scoped1.sem) : GSem nD τ sig)).erase ((thr d L, SemLoc.dma cc0_scoped2.sem) : GSem nD τ sig)).erase ((thr d L, SemLoc.dma cc0_scoped3.sem) : GSem nD τ sig)).erase ((thr d L, SemLoc.dma cc0_scoped4.sem) : GSem nD τ sig)).erase ((thr d L, SemLoc.dma cc0_scoped5.sem) : GSem nD τ sig))
/-- The subcore's scoped buffers that are not the body's five. -/
abbrev restRefs : Finset (DevRef τ sig) := ((((((ownRefs (τ := τ) (Proc.scVector ((L 0).castLE hcore0) ((L 1).castLE hsub0))).erase ((Proc.scVector ((L 0).castLE hcore0) ((L 1).castLE hsub0)).devRef cc0_scratch0 : DevRef τ sig)).erase ((Proc.scVector ((L 0).castLE hcore0) ((L 1).castLE hsub0)).devRef cc0_scratch1 : DevRef τ sig)).erase ((Proc.scVector ((L 0).castLE hcore0) ((L 1).castLE hsub0)).devRef cc0_scratch2 : DevRef τ sig)).erase ((Proc.scVector ((L 0).castLE hcore0) ((L 1).castLE hsub0)).devRef cc0_scratch3 : DevRef τ sig)).erase ((Proc.scVector ((L 0).castLE hcore0) ((L 1).castLE hsub0)).devRef cc0_scratch4 : DevRef τ sig))

theorem ownSems0_V :
    (ownSems0 (thr d L) : sProp 𝕄)
      = iprop(semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0 ∗ semVal ((thr d L, SemLoc.dma cc0_scoped3.sem) : GSem nD τ sig) 0 ∗ semVal ((thr d L, SemLoc.dma cc0_scoped4.sem) : GSem nD τ sig) 0 ∗ semVal ((thr d L, SemLoc.dma cc0_scoped5.sem) : GSem nD τ sig) 0
          ∗ bigSep (restCells d L) fun g => semVal g 0) := by
  unfold SparseCore.Cfg.ownSems0
  rw [SparseCore.bigSep_erase' ((mem_ownCells (g := ((thr d L, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := ((thr d L, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := ((thr d L, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨fun e => absurd (congrArg Prod.snd e) (show (SemLoc.dma cc0_scoped3.sem : SemLoc sig) ≠ SemLoc.dma cc0_scoped2.sem by decide), Finset.mem_erase.mpr ⟨fun e => absurd (congrArg Prod.snd e) (show (SemLoc.dma cc0_scoped3.sem : SemLoc sig) ≠ SemLoc.dma cc0_scoped1.sem by decide), Finset.mem_erase.mpr ⟨fun e => absurd (congrArg Prod.snd e) (show (SemLoc.dma cc0_scoped3.sem : SemLoc sig) ≠ SemLoc.dma cc0_scoped0.sem by decide), (mem_ownCells (g := ((thr d L, SemLoc.dma cc0_scoped3.sem) : GSem nD τ sig))).mpr ⟨rfl, by show (SemLoc.dma cc0_scoped3.sem : SemLoc sig).isScoped .scVector = true; decide⟩⟩⟩⟩),
    SparseCore.bigSep_erase' (Finset.mem_erase.mpr ⟨fun e => absurd (congrArg Prod.snd e) (show (SemLoc.dma cc0_scoped4.sem : SemLoc sig) ≠ SemLoc.dma cc0_scoped3.sem by decide), Finset.mem_erase.mpr ⟨fun e => absurd (congrArg Prod.snd e) (show (SemLoc.dma cc0_scoped4.sem : SemLoc sig) ≠ SemLoc.dma cc0_scoped2.sem by decide), Finset.mem_erase.mpr ⟨fun e => absurd (congrArg Prod.snd e) (show (SemLoc.dma cc0_scoped4.sem : SemLoc sig) ≠ SemLoc.dma cc0_scoped1.sem by decide), Finset.mem_erase.mpr ⟨fun e => absurd (congrArg Prod.snd e) (show (SemLoc.dma cc0_scoped4.sem : SemLoc sig) ≠ SemLoc.dma cc0_scoped0.sem by decide), (mem_ownCells (g := ((thr d L, SemLoc.dma cc0_scoped4.sem) : GSem nD τ sig))).mpr ⟨rfl, by show (SemLoc.dma cc0_scoped4.sem : SemLoc sig).isScoped .scVector = true; decide⟩⟩⟩⟩⟩),
    SparseCore.bigSep_erase' (Finset.mem_erase.mpr ⟨fun e => absurd (congrArg Prod.snd e) (show (SemLoc.dma cc0_scoped5.sem : SemLoc sig) ≠ SemLoc.dma cc0_scoped4.sem by decide), Finset.mem_erase.mpr ⟨fun e => absurd (congrArg Prod.snd e) (show (SemLoc.dma cc0_scoped5.sem : SemLoc sig) ≠ SemLoc.dma cc0_scoped3.sem by decide), Finset.mem_erase.mpr ⟨fun e => absurd (congrArg Prod.snd e) (show (SemLoc.dma cc0_scoped5.sem : SemLoc sig) ≠ SemLoc.dma cc0_scoped2.sem by decide), Finset.mem_erase.mpr ⟨fun e => absurd (congrArg Prod.snd e) (show (SemLoc.dma cc0_scoped5.sem : SemLoc sig) ≠ SemLoc.dma cc0_scoped1.sem by decide), Finset.mem_erase.mpr ⟨fun e => absurd (congrArg Prod.snd e) (show (SemLoc.dma cc0_scoped5.sem : SemLoc sig) ≠ SemLoc.dma cc0_scoped0.sem by decide), (mem_ownCells (g := ((thr d L, SemLoc.dma cc0_scoped5.sem) : GSem nD τ sig))).mpr ⟨rfl, by show (SemLoc.dma cc0_scoped5.sem : SemLoc sig).isScoped .scVector = true; decide⟩⟩⟩⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0)) (b := ((Proc.scVector ((L 0).castLE hcore0) ((L 1).castLE hsub0)).devRef cc0_scratch0 : DevRef τ sig)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch1 : DevRef τ sig)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch2 : DevRef τ sig)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch3 : DevRef τ sig)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch4 : DevRef τ sig)) rfl⟩⟩⟩⟩)]

/-- The subcore's own scratch and semaphores, and the rest of its scoped storage. -/
theorem own_open :
    iprop(ownBufs (thr d L) ∗ (ownSems0 (thr d L) : sProp 𝕄))
      ⊣⊢ iprop(own5 d L ∗ (bigSep (restRefs L) fun b => iprop(∃ f, ((d, b) : Loc nD τ sig) ↦{fullShare} f)) ∗ bigSep (restCells d L) fun g => semVal g 0) := by
  rw [ownSems0_V, ownBufs_V]; unfold own5
  constructor
  · iintro ⟨⟨Hb0, Hb1, Hb2, Hb3, Hb4, Hbr⟩, ⟨Hs0, Hs1, Hs2, Hs3, Hs4, Hs5, Hsr⟩⟩
    isplitl [Hb0 Hb1 Hb2 Hb3 Hb4 Hs0 Hs1 Hs2 Hs3 Hs4 Hs5]
    · isplitl [Hb0]; · iexact Hb0
      isplitl [Hb1]; · iexact Hb1
      isplitl [Hb2]; · iexact Hb2
      isplitl [Hb3]; · iexact Hb3
      isplitl [Hb4]; · iexact Hb4
      isplitl [Hs0]; · iexact Hs0
      isplitl [Hs1]; · iexact Hs1
      isplitl [Hs2]; · iexact Hs2
      isplitl [Hs3]; · iexact Hs3
      isplitl [Hs4]; · iexact Hs4
      iexact Hs5
    isplitl [Hbr]; · iexact Hbr
    iexact Hsr
  · iintro ⟨⟨Hb0, Hb1, Hb2, Hb3, Hb4, Hs0, Hs1, Hs2, Hs3, Hs4, Hs5⟩, Hbr, Hsr⟩
    isplitl [Hb0 Hb1 Hb2 Hb3 Hb4 Hbr]
    · isplitl [Hb0]; · iexact Hb0
      isplitl [Hb1]; · iexact Hb1
      isplitl [Hb2]; · iexact Hb2
      isplitl [Hb3]; · iexact Hb3
      isplitl [Hb4]; · iexact Hb4
      iexact Hbr
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsr

end Cert.Proof.ScI

end
-- ==== Proof.ScSetsScI.lean ====
/-
  Which words of the result array each vector subcore writes. The body slices the result row by row and then by a
  range of columns; read through those slices, subcore `s` of SparseCore 0 owns row `s / 4`, columns
  `128 (s mod 4) … + 128`, and subcore `s` of SparseCore 1 owns row `s / 4`, columns `512 + 1024 (s mod 4) … + 1024`.
  The thirty-two pieces are pairwise disjoint.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import Idealize.ShloMosaic.Lib.ValueIdx
import proofs.«209750_g45337674776763_cont_8to1c4_158_37_alg».proof.Proof.ScCommonScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

theorem off9_L0 : ∀ s : Fin (grid0.bound 1), k0_off9 (L0 s) = ![s.val / 4, 0] := by decide +kernel
theorem off10_L0 : ∀ s : Fin (grid0.bound 1), k0_off10 (L0 s) = ![(s.val % 4) * 128] := by decide +kernel
theorem off38_L1 : ∀ s : Fin (grid0.bound 1), k0_off38 (L1 s) = ![s.val / 4, 0] := by decide +kernel
theorem off39_L1 : ∀ s : Fin (grid0.bound 1), k0_off39 (L1 s) = ![512 + (s.val % 4) * 1024] := by decide +kernel

/-- Where word `j` of a SparseCore-0 subcore's piece lies in the result array. -/
theorem emb_out0 (s : Fin (grid0.bound 1)) (j : S128.Idx) (a : Fin 2) :
    ((out0 (L0 s) (h1_L0 s)).view.emb j a).val = (![s.val / 4, (s.val % 4) * 128 + (j 0).val] : Fin 2 → Nat) a := by
  simp only [Memref.view_slice, Memref.view_squeeze, Memref.view_whole, View.emb_slice, View.emb_reshape, View.emb_whole,
    Function.Embedding.trans_apply, Equiv.coe_toEmbedding, Function.Embedding.refl_apply]
  rw [Rect.emb_apply, Rect.off_unit, Rect.stride_unit, Nat.one_mul, congrFun (off9_L0 s) a]
  erw [Shape.reshapeEquiv_cons_one (n := 1) (d := ![4608])]
  match a with
  | 0 => simp; rfl
  | 1 =>
    show (![s.val / 4, 0] : Fin 2 → Nat) 1 + ((Rect.unit (s := S4608) (k0_off10 (L0 s)) ![128] _).emb j 0 : Nat) = _
    rw [Rect.emb_apply, Rect.off_unit, Rect.stride_unit, Nat.one_mul, congrFun (off10_L0 s) 0]
    simp

/-- Where word `j` of a SparseCore-1 subcore's piece lies in the result array. -/
theorem emb_out1 (s : Fin (grid0.bound 1)) (j : S1024.Idx) (a : Fin 2) :
    ((out1 (L1 s) (h2_L1 s)).view.emb j a).val = (![s.val / 4, 512 + (s.val % 4) * 1024 + (j 0).val] : Fin 2 → Nat) a := by
  simp only [Memref.view_slice, Memref.view_squeeze, Memref.view_whole, View.emb_slice, View.emb_reshape, View.emb_whole,
    Function.Embedding.trans_apply, Equiv.coe_toEmbedding, Function.Embedding.refl_apply]
  rw [Rect.emb_apply, Rect.off_unit, Rect.stride_unit, Nat.one_mul, congrFun (off38_L1 s) a]
  erw [Shape.reshapeEquiv_cons_one (n := 1) (d := ![4608])]
  match a with
  | 0 => simp; rfl
  | 1 =>
    show (![s.val / 4, 0] : Fin 2 → Nat) 1 + ((Rect.unit (s := S4608) (k0_off39 (L1 s)) ![1024] _).emb j 0 : Nat) = _
    rw [Rect.emb_apply, Rect.off_unit, Rect.stride_unit, Nat.one_mul, congrFun (off39_L1 s) 0]
    simp

theorem mem_out0 (s : Fin (grid0.bound 1)) (i : S4x4608.Idx) :
    i ∈ (out0 (L0 s) (h1_L0 s)).view.set ↔ (i 0).val = s.val / 4 ∧ (s.val % 4) * 128 ≤ (i 1).val ∧ (i 1).val < (s.val % 4) * 128 + 128 := by
  unfold View.set
  rw [Finset.mem_map]
  constructor
  · rintro ⟨j, -, rfl⟩
    have e0 : ((out0 (L0 s) (h1_L0 s)).view.emb j 0).val = s.val / 4 := by simpa using emb_out0 s j 0
    have e1 : ((out0 (L0 s) (h1_L0 s)).view.emb j 1).val = (s.val % 4) * 128 + (j 0).val := by simpa using emb_out0 s j 1
    have hj : (j 0).val < 128 := (j 0).isLt
    refine ⟨e0, ?_, ?_⟩ <;> omega
  · rintro ⟨h0, h1, h2⟩
    refine ⟨ValueIdx.ix1 (⟨(i 1).val - (s.val % 4) * 128, by omega⟩ : Fin 128), Finset.mem_univ _, ?_⟩
    funext a; apply Fin.ext
    rw [emb_out0]
    match a with
    | 0 => simp; omega
    | 1 => simp; omega

theorem mem_out1 (s : Fin (grid0.bound 1)) (i : S4x4608.Idx) :
    i ∈ (out1 (L1 s) (h2_L1 s)).view.set ↔ (i 0).val = s.val / 4 ∧ 512 + (s.val % 4) * 1024 ≤ (i 1).val ∧ (i 1).val < 512 + (s.val % 4) * 1024 + 1024 := by
  unfold View.set
  rw [Finset.mem_map]
  constructor
  · rintro ⟨j, -, rfl⟩
    have e0 : ((out1 (L1 s) (h2_L1 s)).view.emb j 0).val = s.val / 4 := by simpa using emb_out1 s j 0
    have e1 : ((out1 (L1 s) (h2_L1 s)).view.emb j 1).val = 512 + (s.val % 4) * 1024 + (j 0).val := by simpa using emb_out1 s j 1
    have hj : (j 0).val < 1024 := (j 0).isLt
    refine ⟨e0, ?_, ?_⟩ <;> omega
  · rintro ⟨h0, h1, h2⟩
    refine ⟨ValueIdx.ix1 (⟨(i 1).val - (512 + (s.val % 4) * 1024), by omega⟩ : Fin 1024), Finset.mem_univ _, ?_⟩
    funext a; apply Fin.ext
    rw [emb_out1]
    match a with
    | 0 => simp; omega
    | 1 => simp; omega

/-- The piece of the result array subcore `s` of SparseCore `c` writes. -/
def tileSet (c : Fin 2) (s : Fin (grid0.bound 1)) : Finset S4x4608.Idx :=
  match c with
  | 0 => (out0 (L0 s) (h1_L0 s)).view.set
  | 1 => (out1 (L1 s) (h2_L1 s)).view.set

theorem tile_disjoint (c : Fin 2) (s s' : Fin (grid0.bound 1)) (h : s ≠ s') : Disjoint (tileSet c s) (tileSet c s') := by
  have hs : s.val < 16 := s.isLt
  have hs' : s'.val < 16 := s'.isLt
  have hne : s.val ≠ s'.val := fun e => h (Fin.ext e)
  rw [Finset.disjoint_left]
  intro i hi hi'
  match c with
  | 0 =>
    have a := (mem_out0 s i).mp hi
    have b := (mem_out0 s' i).mp hi'
    omega
  | 1 =>
    have a := (mem_out1 s i).mp hi
    have b := (mem_out1 s' i).mp hi'
    omega

theorem core_disjoint (s s' : Fin (grid0.bound 1)) : Disjoint (tileSet 0 s) (tileSet 1 s') := by
  rw [Finset.disjoint_left]
  intro i hi hi'
  have a := (mem_out0 s i).mp hi
  have b := (mem_out1 s' i).mp hi'
  omega

/-- What SparseCore `c`'s sixteen subcores write between them. -/
def coreSet (c : Fin 2) : Finset S4x4608.Idx := Finset.univ.biUnion (tileSet c)

theorem coreSets_disjoint : Disjoint (coreSet 0) (coreSet 1) := by
  unfold coreSet
  rw [Finset.disjoint_biUnion_left]
  intro s _
  rw [Finset.disjoint_biUnion_right]
  intro s' _
  exact core_disjoint s s'

end Cert.Proof.ScI

end
-- ==== Proof.ScBody0ScI.lean ====
/-
  One vector subcore of SparseCore 0 runs the body: it copies its batch's four arrays into its scratch, scans the 4096
  candidate points sixteen at a time in a counted loop that only READS the two candidate buffers (the eight running
  minima are carried values), stores the 128 finished distances into its result scratch and copies them to its own 128
  words of the result row. The branch of SparseCore 1 is not taken.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScCommonScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- The scan loop of SparseCore 0 only reads the two candidate scratch buffers. -/
def invRead23 (L : grid0.Coords) (σ : Type) (_ : Nat) (_ : σ) : sProp 𝕄 :=
  iprop((∃ f, (B2).view.loc (thr d L) ↦{fullShare} f) ∗ (∃ f, (B3).view.loc (thr d L) ↦{fullShare} f))

set_option maxHeartbeats 4000000 in
/-- The body on subcore `s` of SparseCore 0: it ends, faults nowhere, gives back the four arrays as they were, its
    piece of the result at some contents, and its own scratch and semaphores. -/
theorem tile_body0 (s : Fin (grid0.bound 1)) (q : PosShare TreeShare) (O : CellTallies nD τ sig (HIx 1)) (W : Waits sig (HIx 1))
    (f7 : Buf (Elt F) (l7 d)) (f8 : Buf (Elt F) (l8 d)) (f6 : Buf (Elt F) (l6 d)) (f1 : Buf (Elt F) (l1 d)) :
    (iprop(Transfers.MayWaits (thr d (L0 s)) (none : HIx 1) O
        ∗ ins4 d q f7 f8 f6 f1
        ∗ (∃ f, l9 d ↦[(out0 (L0 s) (h1_L0 s)).view.set]{fullShare} f)
        ∗ own5 d (L0 s)
        ∗ owes (thr d (L0 s)) O W) : sProp 𝕄)
      ⊢ wp frame (wpE (defs₀ (F := F)) Variants.none (thr d (L0 s)) none) Set.univ
          (cc0__sc_body (F := F) (L0 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(ins4 d q f7 f8 f6 f1
            ∗ (∃ f, l9 d ↦[(out0 (L0 s) (h1_L0 s)).view.set]{fullShare} f)
            ∗ own5 d (L0 s)
            ∗ ∃ W', ⌜∀ p ∈ W', p ∈ W ∨ p.2 = none⌝ ∗ owes (thr d (L0 s)) O W') := by
  have k0_h1 : k0_cond1 (L0 s) = 1#1 := h1_L0 s
  have k0_h2 : ¬ k0_cond2 (L0 s) = 1#1 := h2_L0 s
  simp only [cc0__sc_body_eq_skeleton]; unfold cc0__sc_body_skel
  unfold ins4 own5
  iintro ⟨Hmw, ⟨H7, H8, H6, H1⟩, ⟨%f9, H9⟩, ⟨⟨%b0, HB0⟩, ⟨%b1, HB1⟩, ⟨%b2, HB2⟩, ⟨%b3, HB3⟩, ⟨%b4, HB4⟩, Hs0, Hs1, Hs2, Hs3, Hs4, Hs5⟩, HO⟩
  ihave H7 := (Entails.of_eq (pts7 (F := F) (U := U) d (L0 s) _ _).symm) $$ H7
  ihave H8 := (Entails.of_eq (pts8 (F := F) (U := U) d (L0 s) _ _).symm) $$ H8
  ihave H6 := (Entails.of_eq (pts6 (F := F) (U := U) d (L0 s) _ _).symm) $$ H6
  ihave H1 := (Entails.of_eq (pts1 (F := F) (U := U) d (L0 s) _ _).symm) $$ H1
  ihave H9 := (Entails.of_eq (ptsO0 (F := F) (U := U) d (L0 s) (h1_L0 s) _).symm) $$ H9
  ihave HB0 := (Entails.of_eq (ptsB0 (F := F) (U := U) d (L0 s) _).symm) $$ HB0
  ihave HB1 := (Entails.of_eq (ptsB1 (F := F) (U := U) d (L0 s) _).symm) $$ HB1
  ihave HB2 := (Entails.of_eq (ptsB2 (F := F) (U := U) d (L0 s) _).symm) $$ HB2
  ihave HB3 := (Entails.of_eq (ptsB3 (F := F) (U := U) d (L0 s) _).symm) $$ HB3
  ihave HB4 := (Entails.of_eq (ptsB4 (F := F) (U := U) d (L0 s) _).symm) $$ HB4
  sl_exec_parts
  sl_for (invRead23 (F := F) (U := U) d (L0 s) _) $$ [HB2 HB3]
  case region =>
    intro k acc
    unfold invRead23
    iintro ⟨⟨%c2, HB2⟩, ⟨%c3, HB3⟩⟩
    sl_exec_parts
    sl_step
    isplitl [HB2]
    · iexists _; iexact HB2
    · iexists _; iexact HB3
  · unfold invRead23
    isplitl [HB2]
    · iexists _; iexact HB2
    · iexists _; iexact HB3
  iintro %acc HI
  unfold invRead23
  icases HI with ⟨⟨%c2, HB2⟩, ⟨%c3, HB3⟩⟩
  sl_exec_parts
  sl_step
  isplitl [H7 H8 H6 H1]
  · isplitl [H7]; · iapply (Entails.of_eq (pts7 (F := F) (U := U) d (L0 s) _ _)); iexact H7
    isplitl [H8]; · iapply (Entails.of_eq (pts8 (F := F) (U := U) d (L0 s) _ _)); iexact H8
    isplitl [H6]; · iapply (Entails.of_eq (pts6 (F := F) (U := U) d (L0 s) _ _)); iexact H6
    iapply (Entails.of_eq (pts1 (F := F) (U := U) d (L0 s) _ _)); iexact H1
  isplitl [H9]
  · iexists _; iapply (Entails.of_eq (ptsO0 (F := F) (U := U) d (L0 s) (h1_L0 s) _)); iexact H9
  isplitl [HB0 HB1 HB2 HB3 HB4 Hs0 Hs1 Hs2 Hs3 Hs4 Hs5]
  · isplitl [HB0]; · iexists _; iapply (Entails.of_eq (ptsB0 (F := F) (U := U) d (L0 s) _)); iexact HB0
    isplitl [HB1]; · iexists _; iapply (Entails.of_eq (ptsB1 (F := F) (U := U) d (L0 s) _)); iexact HB1
    isplitl [HB2]; · iexists _; iapply (Entails.of_eq (ptsB2 (F := F) (U := U) d (L0 s) _)); iexact HB2
    isplitl [HB3]; · iexists _; iapply (Entails.of_eq (ptsB3 (F := F) (U := U) d (L0 s) _)); iexact HB3
    isplitl [HB4]; · iexists _; iapply (Entails.of_eq (ptsB4 (F := F) (U := U) d (L0 s) _)); iexact HB4
    isplitl [Hs0]; · iexact Hs0
    isplitl [Hs1]; · iexact Hs1
    isplitl [Hs2]; · iexact Hs2
    isplitl [Hs3]; · iexact Hs3
    isplitl [Hs4]; · iexact Hs4
    iexact Hs5
  iexists _; isplitr
  swap
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Cert.Proof.ScI

end
-- ==== Proof.ScBody1ScI.lean ====
/-
  One vector subcore of SparseCore 1 runs the body: it copies its batch's four arrays into its scratch, then, for each
  of eight blocks of 128 of its 1024 points, scans the 512 candidate points sixteen at a time in a counted loop that only
  READS the two candidate buffers, and stores the block's finished distances into its result scratch; at the end it
  copies the 1024 distances to its own 1024 words of the result row. The branch of SparseCore 0 is not taken.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScCommonScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- The scan loops of SparseCore 1 only read the two candidate scratch buffers. -/
def invRead01 (L : grid0.Coords) (σ : Type) (_ : Nat) (_ : σ) : sProp 𝕄 :=
  iprop((∃ f, (B0).view.loc (thr d L) ↦{fullShare} f) ∗ (∃ f, (B1).view.loc (thr d L) ↦{fullShare} f))

set_option maxHeartbeats 8000000 in
/-- The body on subcore `s` of SparseCore 1: it ends, faults nowhere, gives back the four arrays as they were, its
    piece of the result at some contents, and its own scratch and semaphores. -/
theorem tile_body1 (s : Fin (grid0.bound 1)) (q : PosShare TreeShare) (O : CellTallies nD τ sig (HIx 1)) (W : Waits sig (HIx 1))
    (f7 : Buf (Elt F) (l7 d)) (f8 : Buf (Elt F) (l8 d)) (f6 : Buf (Elt F) (l6 d)) (f1 : Buf (Elt F) (l1 d)) :
    (iprop(Transfers.MayWaits (thr d (L1 s)) (none : HIx 1) O
        ∗ ins4 d q f7 f8 f6 f1
        ∗ (∃ f, l9 d ↦[(out1 (L1 s) (h2_L1 s)).view.set]{fullShare} f)
        ∗ own5 d (L1 s)
        ∗ owes (thr d (L1 s)) O W) : sProp 𝕄)
      ⊢ wp frame (wpE (defs₀ (F := F)) Variants.none (thr d (L1 s)) none) Set.univ
          (cc0__sc_body (F := F) (L1 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(ins4 d q f7 f8 f6 f1
            ∗ (∃ f, l9 d ↦[(out1 (L1 s) (h2_L1 s)).view.set]{fullShare} f)
            ∗ own5 d (L1 s)
            ∗ ∃ W', ⌜∀ p ∈ W', p ∈ W ∨ p.2 = none⌝ ∗ owes (thr d (L1 s)) O W') := by
  have k0_h1 : ¬ k0_cond1 (L1 s) = 1#1 := h1_L1 s
  have k0_h2 : k0_cond2 (L1 s) = 1#1 := h2_L1 s
  simp only [cc0__sc_body_eq_skeleton]; unfold cc0__sc_body_skel
  unfold ins4 own5
  iintro ⟨Hmw, ⟨H7, H8, H6, H1⟩, ⟨%f9, H9⟩, ⟨⟨%b0, HB0⟩, ⟨%b1, HB1⟩, ⟨%b2, HB2⟩, ⟨%b3, HB3⟩, ⟨%b4, HB4⟩, Hs0, Hs1, Hs2, Hs3, Hs4, Hs5⟩, HO⟩
  ihave H7 := (Entails.of_eq (pts7 (F := F) (U := U) d (L1 s) _ _).symm) $$ H7
  ihave H8 := (Entails.of_eq (pts8 (F := F) (U := U) d (L1 s) _ _).symm) $$ H8
  ihave H6 := (Entails.of_eq (pts6 (F := F) (U := U) d (L1 s) _ _).symm) $$ H6
  ihave H1 := (Entails.of_eq (pts1 (F := F) (U := U) d (L1 s) _ _).symm) $$ H1
  ihave H9 := (Entails.of_eq (ptsO1 (F := F) (U := U) d (L1 s) (h2_L1 s) _).symm) $$ H9
  ihave HB0 := (Entails.of_eq (ptsB0 (F := F) (U := U) d (L1 s) _).symm) $$ HB0
  ihave HB1 := (Entails.of_eq (ptsB1 (F := F) (U := U) d (L1 s) _).symm) $$ HB1
  ihave HB2 := (Entails.of_eq (ptsB2 (F := F) (U := U) d (L1 s) _).symm) $$ HB2
  ihave HB3 := (Entails.of_eq (ptsB3 (F := F) (U := U) d (L1 s) _).symm) $$ HB3
  ihave HB4 := (Entails.of_eq (ptsB4 (F := F) (U := U) d (L1 s) _).symm) $$ HB4
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc1 HI
  unfold invRead01
  icases HI with ⟨⟨%c0_1, HB0⟩, ⟨%c1_1, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc2 HI
  unfold invRead01
  icases HI with ⟨⟨%c0_2, HB0⟩, ⟨%c1_2, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc3 HI
  unfold invRead01
  icases HI with ⟨⟨%c0_3, HB0⟩, ⟨%c1_3, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc4 HI
  unfold invRead01
  icases HI with ⟨⟨%c0_4, HB0⟩, ⟨%c1_4, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc5 HI
  unfold invRead01
  icases HI with ⟨⟨%c0_5, HB0⟩, ⟨%c1_5, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc6 HI
  unfold invRead01
  icases HI with ⟨⟨%c0_6, HB0⟩, ⟨%c1_6, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc7 HI
  unfold invRead01
  icases HI with ⟨⟨%c0_7, HB0⟩, ⟨%c1_7, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc8 HI
  unfold invRead01
  icases HI with ⟨⟨%c0_8, HB0⟩, ⟨%c1_8, HB1⟩⟩
  sl_exec_parts
  sl_step
  isplitl [H7 H8 H6 H1]
  · isplitl [H7]; · iapply (Entails.of_eq (pts7 (F := F) (U := U) d (L1 s) _ _)); iexact H7
    isplitl [H8]; · iapply (Entails.of_eq (pts8 (F := F) (U := U) d (L1 s) _ _)); iexact H8
    isplitl [H6]; · iapply (Entails.of_eq (pts6 (F := F) (U := U) d (L1 s) _ _)); iexact H6
    iapply (Entails.of_eq (pts1 (F := F) (U := U) d (L1 s) _ _)); iexact H1
  isplitl [H9]
  · iexists _; iapply (Entails.of_eq (ptsO1 (F := F) (U := U) d (L1 s) (h2_L1 s) _)); iexact H9
  isplitl [HB0 HB1 HB2 HB3 HB4 Hs0 Hs1 Hs2 Hs3 Hs4 Hs5]
  · isplitl [HB0]; · iexists _; iapply (Entails.of_eq (ptsB0 (F := F) (U := U) d (L1 s) _)); iexact HB0
    isplitl [HB1]; · iexists _; iapply (Entails.of_eq (ptsB1 (F := F) (U := U) d (L1 s) _)); iexact HB1
    isplitl [HB2]; · iexists _; iapply (Entails.of_eq (ptsB2 (F := F) (U := U) d (L1 s) _)); iexact HB2
    isplitl [HB3]; · iexists _; iapply (Entails.of_eq (ptsB3 (F := F) (U := U) d (L1 s) _)); iexact HB3
    isplitl [HB4]; · iexists _; iapply (Entails.of_eq (ptsB4 (F := F) (U := U) d (L1 s) _)); iexact HB4
    isplitl [Hs0]; · iexact Hs0
    isplitl [Hs1]; · iexact Hs1
    isplitl [Hs2]; · iexact Hs2
    isplitl [Hs3]; · iexact Hs3
    isplitl [Hs4]; · iexact Hs4
    iexact Hs5
  iexists _; isplitr
  swap
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Cert.Proof.ScI

end
-- ==== Proof.ScLaunchScI.lean ====
/-
  The vector-subcore kernel as the launch theorem sees it: what the call hands each SparseCore and each of its sixteen
  subcores — a read share of the four arrays it reads and full ownership of the words of the result array it writes —
  the proof that every subcore's task runs from that to the same with its words at some contents, and how a SparseCore's
  operands split among its subcores and gather again.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScOwnScI
import proofs.«209750_g45337674776763_cont_8to1c4_158_37_alg».proof.Proof.ScSetsScI
import proofs.«209750_g45337674776763_cont_8to1c4_158_37_alg».proof.Proof.ScBody0ScI
import proofs.«209750_g45337674776763_cont_8to1c4_158_37_alg».proof.Proof.ScBody1ScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

/-- SparseCore `c`'s read share of an array the kernel only reads; -/
def tokC (c : Fin 2) : PosShare TreeShare := Transfers.shareTok fullShare 2 c
/-- and subcore `s`'s share of that. -/
def tokT (c : Fin 2) (s : Fin 16) : PosShare TreeShare := Transfers.shareTok (tokC c) 16 s

section Pay

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))

/-- What a SparseCore is handed and hands back: its read shares and the words its subcores write, at some contents. -/
def forCore (d : Dev nD) (c : Fin 2) : sProp 𝕄 :=
  iprop(ins4 d (tokC c) (g7 d) (g8 d) (g6 d) (g1 d) ∗ ∃ f, l9 d ↦[coreSet c]{fullShare} f)
/-- What a subcore is handed and hands back. -/
def forTile (d : Dev nD) (c : Fin 2) (s : Fin 16) : sProp 𝕄 :=
  iprop(ins4 d (tokT c s) (g7 d) (g8 d) (g6 d) (g1 d) ∗ ∃ f, l9 d ↦[tileSet c s]{fullShare} f)

instance forCore_storable (d : Dev nD) (c : Fin 2) : BI.Storable (upEmb : UEmb _ 𝕄) (forCore g7 g8 g6 g1 d c) := by
  unfold forCore ins4; infer_instance
instance forTile_storable (d : Dev nD) (c : Fin 2) (s : Fin 16) : BI.Storable (upEmb : UEmb _ 𝕄) (forTile g7 g8 g6 g1 d c s) := by
  unfold forTile ins4; infer_instance

def P : (K (F := F)).Pay (nD := nD) (Val := Elt F) (Name := ℕ) (U := U) where
  st := fun q d c => match q with | 0 => forCore g7 g8 g6 g1 d (Fin.cast nCore_zero c)
  dn := fun q d c => match q with | 0 => forCore g7 g8 g6 g1 d (Fin.cast nCore_zero c)
  go := fun q d c i => match q with | 0 => forTile g7 g8 g6 g1 d (Fin.cast nCore_zero c) (Fin.cast nSub_zero i)
  td := fun q d c i => match q with | 0 => forTile g7 g8 g6 g1 d (Fin.cast nCore_zero c) (Fin.cast nSub_zero i)
  x := fun _ _ => iprop(emp)

instance P_storable : (P (F := F) (U := U) g7 g8 g6 g1).IsStorable where
  st q d c := match q with | 0 => (inferInstance : BI.Storable (upEmb : UEmb _ 𝕄) (forCore g7 g8 g6 g1 d (Fin.cast nCore_zero c)))
  dn q d c := match q with | 0 => (inferInstance : BI.Storable (upEmb : UEmb _ 𝕄) (forCore g7 g8 g6 g1 d (Fin.cast nCore_zero c)))
  go q d c i := match q with | 0 => (inferInstance : BI.Storable (upEmb : UEmb _ 𝕄) (forTile g7 g8 g6 g1 d (Fin.cast nCore_zero c) (Fin.cast nSub_zero i)))
  td q d c i := match q with | 0 => (inferInstance : BI.Storable (upEmb : UEmb _ 𝕄) (forTile g7 g8 g6 g1 d (Fin.cast nCore_zero c) (Fin.cast nSub_zero i)))

/-! ## The task -/

variable [FloatOps F]

theorem defs₀_vector (c : Fin τ.nSC) (s : Fin τ.nSub) :
    defs₀ (F := F) (.scVector c s) 0 ()
      = SparseCore.onTile hcore0 hsub0 (fun c s => cc0__sc_body (coordsV c s)
          A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A subcore's task from what the launch hands it — its operands, its scoped storage whole — to the same back: the body
    runs on the five scratch buffers and six semaphores it uses, the rest of the subcore's storage set aside. -/
theorem tile_wrap (d : Dev nD) (L : grid0.Coords) (A : sProp 𝕄) (O : CellTallies nD τ sig (HIx 1)) (W : Waits sig (HIx 1)) (hO : ∀ g, O g none = 0)
    {p : Prog (TpuEff nD τ sig (Elt F) Λ₀ (thr d L).2) PUnit}
    (hbody : (iprop(Transfers.MayWaits (thr d L) (none : HIx 1) O ∗ A ∗ own5 d L ∗ owes (thr d L) O W) : sProp 𝕄)
      ⊢ wp frame (wpE (defs₀ (F := F)) 𝒱₀ (thr d L) none) Set.univ p
          fun _ => iprop(A ∗ own5 d L ∗ ∃ W', ⌜∀ p ∈ W', p ∈ W ∨ p.2 = none⌝ ∗ owes (thr d L) O W')) :
    (iprop(levAts (K (F := F)).L (K (F := F)).lev ∗ emp ∗ A ∗ scopedBufs (thr d L) ∗ scopedSems0 (thr d L) ∗ owes (thr d L) O W) : sProp 𝕄)
      ⊢ wp frame (wpE (defs₀ (F := F)) 𝒱₀ (thr d L) none) Set.univ p
          fun _ => iprop(A ∗ scopedBufs (thr d L) ∗ scopedSems0 (thr d L) ∗ ∃ W', ⌜∀ p ∈ W', p ∈ W ∨ p.2 = none⌝ ∗ owes (thr d L) O W') := by
  rw [(K (F := F)).scopedBufs_V facts d _ _, SparseCore.Cfg.scopedSems0_V (Val := Elt F) d _ _]
  refine BIBase.Entails.trans ?_ (wp_mono frame _ _
    (Q := fun _ => (iprop((A ∗ own5 d L ∗ ∃ W', ⌜∀ p ∈ W', p ∈ W ∨ p.2 = none⌝ ∗ owes (thr d L) O W')
      ∗ ((bigSep (restRefs L) fun b => iprop(∃ f, ((d, b) : Loc nD τ sig) ↦{fullShare} f)) ∗ bigSep (restCells d L) fun g => semVal g 0)) : sProp 𝕄))
    (fun _ => ?post))
  swap
  · iintro ⟨⟨HA, Hown, HW⟩, Hbr, Hsr⟩
    isplitl [HA]; · iexact HA
    ihave H := (own_open (F := F) (U := U) d L).2 $$ [Hown Hbr Hsr]
    · isplitl [Hown]; · iexact Hown
      isplitl [Hbr]; · iexact Hbr
      iexact Hsr
    icases H with ⟨Hb, Hs⟩
    isplitl [Hb]; · iexact Hb
    isplitl [Hs]; · iexact Hs
    iexact HW
  refine BIBase.Entails.trans ?_ (wp_frame_r frame _ _)
  iintro ⟨#Hlv, -, HA, Hsb, Hss, HO⟩
  ihave H := (own_open (F := F) (U := U) d L).1 $$ [Hsb Hss]
  · isplitl [Hsb]; · iexact Hsb
    iexact Hss
  icases H with ⟨Hown, Hbr, Hsr⟩
  isplitl [HA Hown HO]
  · iapply hbody
    isplitr; · iapply ((K (F := F)).mayWaits_none (thr := thr d L) hO); iexact Hlv
    isplitl [HA]; · iexact HA
    isplitl [Hown]; · iexact Hown
    iexact HO
  isplitl [Hbr]; · iexact Hbr
  iexact Hsr

end Pay

section Obl

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
variable [FloatOps F]

/-- The body on a subcore of SparseCore 0, in the launch's grouping of its operands. -/
theorem body0' (d : Dev nD) (s : Fin (grid0.bound 1)) (O : CellTallies nD τ sig (HIx 1)) (W : Waits sig (HIx 1)) :
    (iprop(Transfers.MayWaits (thr d (L0 s)) (none : HIx 1) O ∗ forTile g7 g8 g6 g1 d 0 s ∗ own5 d (L0 s) ∗ owes (thr d (L0 s)) O W) : sProp 𝕄)
      ⊢ wp frame (wpE (defs₀ (F := F)) 𝒱₀ (thr d (L0 s)) none) Set.univ
          (cc0__sc_body (F := F) (L0 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(forTile g7 g8 g6 g1 d 0 s ∗ own5 d (L0 s) ∗ ∃ W', ⌜∀ p ∈ W', p ∈ W ∨ p.2 = none⌝ ∗ owes (thr d (L0 s)) O W') := by
  unfold forTile
  refine BIBase.Entails.trans ?_ ((tile_body0 (F := F) (U := U) d s (tokT 0 s) O W (g7 d) (g8 d) (g6 d) (g1 d)).trans (wp_mono frame _ _ fun _ => ?_))
  · iintro ⟨Hmw, ⟨Hi, Ho⟩, Hown, HO⟩
    isplitl [Hmw]; · iexact Hmw
    isplitl [Hi]; · iexact Hi
    isplitl [Ho]; · iexact Ho
    isplitl [Hown]; · iexact Hown
    iexact HO
  · iintro ⟨Hi, Ho, Hown, HW⟩
    isplitl [Hi Ho]
    · isplitl [Hi]; · iexact Hi
      iexact Ho
    isplitl [Hown]; · iexact Hown
    iexact HW

/-- The body on a subcore of SparseCore 1, in the launch's grouping of its operands. -/
theorem body1' (d : Dev nD) (s : Fin (grid0.bound 1)) (O : CellTallies nD τ sig (HIx 1)) (W : Waits sig (HIx 1)) :
    (iprop(Transfers.MayWaits (thr d (L1 s)) (none : HIx 1) O ∗ forTile g7 g8 g6 g1 d 1 s ∗ own5 d (L1 s) ∗ owes (thr d (L1 s)) O W) : sProp 𝕄)
      ⊢ wp frame (wpE (defs₀ (F := F)) 𝒱₀ (thr d (L1 s)) none) Set.univ
          (cc0__sc_body (F := F) (L1 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(forTile g7 g8 g6 g1 d 1 s ∗ own5 d (L1 s) ∗ ∃ W', ⌜∀ p ∈ W', p ∈ W ∨ p.2 = none⌝ ∗ owes (thr d (L1 s)) O W') := by
  unfold forTile
  refine BIBase.Entails.trans ?_ ((tile_body1 (F := F) (U := U) d s (tokT 1 s) O W (g7 d) (g8 d) (g6 d) (g1 d)).trans (wp_mono frame _ _ fun _ => ?_))
  · iintro ⟨Hmw, ⟨Hi, Ho⟩, Hown, HO⟩
    isplitl [Hmw]; · iexact Hmw
    isplitl [Hi]; · iexact Hi
    isplitl [Ho]; · iexact Ho
    isplitl [Hown]; · iexact Hown
    iexact HO
  · iintro ⟨Hi, Ho, Hown, HW⟩
    isplitl [Hi Ho]
    · isplitl [Hi]; · iexact Hi
      iexact Ho
    isplitl [Hown]; · iexact Hown
    iexact HW

/-- Every subcore's task, as the launch theorem asks for it. -/
theorem tileObl : (K (F := F)).TileObl (D (F := F)) 𝒱 (P (F := F) (U := U) g7 g8 g6 g1) v₀ 0 := by
  intro d c i O W hO _ _
  simp only [show (P (F := F) (U := U) g7 g8 g6 g1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  match c with
  | ⟨0, h⟩ =>
    exact (tile_wrap (F := F) (U := U) d (L0 ⟨i.val, i.isLt⟩) (forTile g7 g8 g6 g1 d 0 (Fin.cast nSub_zero i)) O W hO
      (body0' (F := F) (U := U) g7 g8 g6 g1 d ⟨i.val, i.isLt⟩ O W)).trans (wp_mono frame _ _ fun _ => obl_post)
  | ⟨1, h⟩ =>
    exact (tile_wrap (F := F) (U := U) d (L1 ⟨i.val, i.isLt⟩) (forTile g7 g8 g6 g1 d 1 (Fin.cast nSub_zero i)) O W hO
      (body1' (F := F) (U := U) g7 g8 g6 g1 d ⟨i.val, i.isLt⟩ O W)).trans (wp_mono frame _ _ fun _ => obl_post)

/-! ## A SparseCore's operands split among its subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem out_split (d : Dev nD) (c : Fin 2) (f : Buf (Elt F) (l9 d)) :
    (l9 d ↦[coreSet c]{fullShare} f : sProp 𝕄) = bigSep Finset.univ fun s : Fin 16 => l9 d ↦[tileSet c s]{fullShare} f := by
  unfold coreSet
  exact pointsTo_biUnion Finset.univ (ℓ := l9 d) (tileSet c) (fun s _ s' _ h => tile_disjoint c s s' h)

omit [FloatOps F] in
theorem out_ex (d : Dev nD) (c : Fin 2) (s : Fin 16) (f : Buf (Elt F) (l9 d)) :
    (l9 d ↦[tileSet c s]{fullShare} f : sProp 𝕄) ⊢ iprop(∃ f, l9 d ↦[tileSet c s]{fullShare} f) := by
  iintro H; iexists f; iexact H

theorem out_join (d : Dev nD) (c : Fin 2) :
    (bigSep Finset.univ fun s : Fin 16 => iprop(∃ f, l9 d ↦[tileSet c s]{fullShare} f)) ⊢ (iprop(∃ f, l9 d ↦[coreSet c]{fullShare} f) : sProp 𝕄) := by
  refine (bigSep_exists_pi Finset.univ (fun (s : Fin 16) (f : Buf (Elt F) (l9 d)) => (l9 d ↦[tileSet c s]{fullShare} f : sProp 𝕄))).trans ?_
  iintro ⟨%fs, H⟩
  ihave H' := (pointsTo_biUnion_join Finset.univ (tileSet c) fs (fs 0) (fun s _ s' _ h => tile_disjoint c s s' h)) $$ H
  icases H' with ⟨%g, -, Hg⟩
  iexists g; unfold coreSet; iexact Hg

theorem vecSplit : (K (F := F)).VecSplit' (P (F := F) (U := U) g7 g8 g6 g1) 0 := by
  intro d c
  show forCore g7 g8 g6 g1 d (Fin.cast nCore_zero c) ⊢ |={Set.univ}=> iprop(
      (bigSep Finset.univ fun i : Fin ((K (F := F)).nSub 0) => forTile g7 g8 g6 g1 d (Fin.cast nCore_zero c) (Fin.cast nSub_zero i))
      ∗ ((bigSep Finset.univ fun i : Fin ((K (F := F)).nSub 0) => forTile g7 g8 g6 g1 d (Fin.cast nCore_zero c) (Fin.cast nSub_zero i))
          -∗ forCore g7 g8 g6 g1 d (Fin.cast nCore_zero c)))
  rw [bigSep_tasks (F := F) (U := U) (fun i => forTile g7 g8 g6 g1 d (Fin.cast nCore_zero c) i)]
  generalize Fin.cast nCore_zero c = c'
  unfold forCore forTile ins4 tokT
  rw [bigSep_sep', bigSep_sep', bigSep_sep', bigSep_sep']
  iintro ⟨⟨H7, H8, H6, H1⟩, ⟨%f, H9⟩⟩
  ihave H7 := (Transfers.pointsTo_toks (tokC c') 16).1 $$ H7
  icases H7 with ⟨D7, T7⟩
  ihave H8 := (Transfers.pointsTo_toks (tokC c') 16).1 $$ H8
  icases H8 with ⟨D8, T8⟩
  ihave H6 := (Transfers.pointsTo_toks (tokC c') 16).1 $$ H6
  icases H6 with ⟨D6, T6⟩
  ihave H1 := (Transfers.pointsTo_toks (tokC c') 16).1 $$ H1
  icases H1 with ⟨D1, T1⟩
  ihave H9 := (Entails.of_eq (out_split (F := F) (U := U) d c' f)) $$ H9
  imodintro
  isplitl [T7 T8 T6 T1 H9]
  · isplitl [T7 T8 T6 T1]
    · isplitl [T7]; · iexact T7
      isplitl [T8]; · iexact T8
      isplitl [T6]; · iexact T6
      iexact T1
    · iapply (show (bigSep Finset.univ fun s : Fin 16 => (l9 d ↦[tileSet c' s]{fullShare} f : sProp 𝕄))
          ⊢ bigSep Finset.univ fun s : Fin 16 => iprop(∃ f, l9 d ↦[tileSet c' s]{fullShare} f)
        from bigSep_mono (fun s _ => out_ex (F := F) (U := U) d c' s f))
      iexact H9
  iintro ⟨⟨T7, T8, T6, T1⟩, H9⟩
  isplitl [D7 T7 D8 T8 D6 T6 D1 T1]
  · isplitl [D7 T7]
    · iapply (Transfers.pointsTo_toks (tokC c') 16).2; isplitl [D7]; · iexact D7
      iexact T7
    isplitl [D8 T8]
    · iapply (Transfers.pointsTo_toks (tokC c') 16).2; isplitl [D8]; · iexact D8
      iexact T8
    isplitl [D6 T6]
    · iapply (Transfers.pointsTo_toks (tokC c') 16).2; isplitl [D6]; · iexact D6
      iexact T6
    iapply (Transfers.pointsTo_toks (tokC c') 16).2; isplitl [D1]; · iexact D1
    iexact T1
  iapply (out_join (F := F) (U := U) d c'); iexact H9

end Obl

end Cert.Proof.ScI

end
-- ==== Proof.ScMainOpsScI.lean ====
/-
  @main on the TensorCore, cut where it leaves the host: four straight lines of host operations, between them the
  SparseCore call and the two TensorCore kernel regions.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

open Idealize.ShloMosaic.StableHlo (seq)
variable [FloatOps F]

/-- The transposes, the two format changes there and back, and the two strips: before the SparseCore call. -/
def ops0 : List (HloOp τ sig (Elt F)) := [
    StableHlo.unary main_arg0 main_v0 ((transpose S4x3x4096 [0, 2, 1] · transposes_S4x4096x3_S4x3x4096_0_2_1) : (⟨S4x4096x3, .f32⟩ : BufTy).Contents (Elt F) → (⟨S4x3x4096, .f32⟩ : BufTy).Contents (Elt F)),
    StableHlo.unary main_arg1 main_v1 ((transpose S4x3x4096 [0, 2, 1] · transposes_S4x4096x3_S4x3x4096_0_2_1) : (⟨S4x4096x3, .f32⟩ : BufTy).Contents (Elt F) → (⟨S4x3x4096, .f32⟩ : BufTy).Contents (Elt F)),
    StableHlo.unary main_v0 main_v2 ((truncf .bf16 · bitsLt_bf16_f32) : (⟨S4x3x4096, .f32⟩ : BufTy).Contents (Elt F) → (⟨S4x3x4096, .bf16⟩ : BufTy).Contents (Elt F)),
    StableHlo.unary main_v1 main_v3 ((truncf .bf16 · bitsLt_bf16_f32) : (⟨S4x3x4096, .f32⟩ : BufTy).Contents (Elt F) → (⟨S4x3x4096, .bf16⟩ : BufTy).Contents (Elt F)),
    StableHlo.unary main_v2 main_v4_0 (id : (⟨S4x3x4096, .bf16⟩ : BufTy).Contents (Elt F) → (⟨S4x3x4096, .bf16⟩ : BufTy).Contents (Elt F)),
    StableHlo.unary main_v3 main_v4_1 (id : (⟨S4x3x4096, .bf16⟩ : BufTy).Contents (Elt F) → (⟨S4x3x4096, .bf16⟩ : BufTy).Contents (Elt F)),
    StableHlo.unary main_v4_0 main_v5 ((extf .f32 · bitsLt_bf16_f32) : (⟨S4x3x4096, .bf16⟩ : BufTy).Contents (Elt F) → (⟨S4x3x4096, .f32⟩ : BufTy).Contents (Elt F)),
    StableHlo.unary main_v4_1 main_v6 ((extf .f32 · bitsLt_bf16_f32) : (⟨S4x3x4096, .bf16⟩ : BufTy).Contents (Elt F) → (⟨S4x3x4096, .f32⟩ : BufTy).Contents (Elt F)),
    StableHlo.unary main_v5 main_v7 ((extractStridedSlice S4x3x512 ![0, 0, 3584] · slices_S4x3x4096_S4x3x512_0_0_3584) : (⟨S4x3x4096, .f32⟩ : BufTy).Contents (Elt F) → (⟨S4x3x512, .f32⟩ : BufTy).Contents (Elt F)),
    StableHlo.unary main_v0 main_v8 ((extractStridedSlice S4x3x512 ![0, 0, 3584] · slices_S4x3x4096_S4x3x512_0_0_3584) : (⟨S4x3x4096, .f32⟩ : BufTy).Contents (Elt F) → (⟨S4x3x512, .f32⟩ : BufTy).Contents (Elt F)) ]
/-- The result's two halves, the zero padding to eight rows, the scaling by −2 and the transposes: before the first region. -/
def ops1 : List (HloOp τ sig (Elt F)) := [
    StableHlo.unary main_v9 main_v10 ((extractStridedSlice S4x512 ![0, 0] · slices_S4x4608_S4x512_0_0) : (⟨S4x4608, .f32⟩ : BufTy).Contents (Elt F) → (⟨S4x512, .f32⟩ : BufTy).Contents (Elt F)),
    StableHlo.unary main_v9 main_v11 ((extractStridedSlice S4x4096 ![0, 512] · slices_S4x4608_S4x4096_0_512) : (⟨S4x4608, .f32⟩ : BufTy).Contents (Elt F) → (⟨S4x4096, .f32⟩ : BufTy).Contents (Elt F)),
    StableHlo.nullary main_cst (constant S_ .f32 0x00000000#32),
    StableHlo.unary main_cst main_v12 (broadcastInDim S4x5x4096 ![] bcast_S_S4x5x4096 : (⟨S_, .f32⟩ : BufTy).Contents (Elt F) → (⟨S4x5x4096, .f32⟩ : BufTy).Contents (Elt F)),
    StableHlo.binary main_v0 main_v12 main_v13 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.binary main_v5 main_v12 main_v14 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.binary main_v1 main_v12 main_v15 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.binary main_v6 main_v12 main_v16 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.nullary main_cst_0 (constant S_ .f32 0xC0000000#32),
    StableHlo.unary main_cst_0 main_v17 (broadcastInDim S4x8x4096 ![] bcast_S_S4x8x4096 : (⟨S_, .f32⟩ : BufTy).Contents (Elt F) → (⟨S4x8x4096, .f32⟩ : BufTy).Contents (Elt F)),
    StableHlo.binary main_v17 main_v14 main_v18 (mulf : (⟨S4x8x4096, .f32⟩ : BufTy).Contents (Elt F) → (⟨S4x8x4096, .f32⟩ : BufTy).Contents (Elt F) → (⟨S4x8x4096, .f32⟩ : BufTy).Contents (Elt F)),
    StableHlo.unary main_v18 main_v19 ((transpose S4x4096x8 [0, 2, 1] · transposes_S4x8x4096_S4x4096x8_0_2_1) : (⟨S4x8x4096, .f32⟩ : BufTy).Contents (Elt F) → (⟨S4x4096x8, .f32⟩ : BufTy).Contents (Elt F)),
    StableHlo.unary main_v19 main_v20 ((extractStridedSlice S4x3584x8 ![0, 0, 0] · slices_S4x4096x8_S4x3584x8_0_0_0) : (⟨S4x4096x8, .f32⟩ : BufTy).Contents (Elt F) → (⟨S4x3584x8, .f32⟩ : BufTy).Contents (Elt F)),
    StableHlo.unary main_v13 main_v21 ((transpose S4x4096x8 [0, 2, 1] · transposes_S4x8x4096_S4x4096x8_0_2_1) : (⟨S4x8x4096, .f32⟩ : BufTy).Contents (Elt F) → (⟨S4x4096x8, .f32⟩ : BufTy).Contents (Elt F)),
    StableHlo.unary main_v21 main_v22 ((extractStridedSlice S4x3584x8 ![0, 0, 0] · slices_S4x4096x8_S4x3584x8_0_0_0) : (⟨S4x4096x8, .f32⟩ : BufTy).Contents (Elt F) → (⟨S4x3584x8, .f32⟩ : BufTy).Contents (Elt F)) ]
/-- The first region's results reshaped and joined with the SparseCore's: before the second region. -/
def ops2 : List (HloOp τ sig (Elt F)) := [
    StableHlo.reshape main_v23_0 main_v24 rfl shapeCasts_S28x1x512_S4x3584,
    StableHlo.binary main_v24 main_v10 main_v25 ((fun a b => concatenate S4x4096 1 [⟨S4x3584, a⟩, ⟨S4x512, b⟩] concatenates_S4x3584_S4x512_S4x4096_d1) : (⟨S4x3584, .f32⟩ : BufTy).Contents (Elt F) → (⟨S4x512, .f32⟩ : BufTy).Contents (Elt F) → (⟨S4x4096, .f32⟩ : BufTy).Contents (Elt F)),
    StableHlo.reshape main_v23_1 main_v26 rfl shapeCasts_S4x1x4096_S4x4096 ]
/-- The scalar result reshaped. -/
def ops3 : List (HloOp τ sig (Elt F)) := [
    StableHlo.reshape main_v27 main_v28 rfl shapeCasts_S1x1_S_ ]

theorem main_eq (d : Dev nD) :
    main (F := F) d = (seq ops0 >>= fun _ => (sc (F := F)).run d 0 >>= fun _ => seq ops1 >>= fun _ =>
      Prog.lift (.customCall (SparseCore.inner (Pipeline.entry 0)) ()) >>= fun _ => seq ops2 >>= fun _ =>
      Prog.lift (.customCall (SparseCore.inner (Pipeline.entry 1)) ()) >>= fun _ => seq ops3 >>= fun _ => pure ⟨⟩) := rfl

theorem ops0_sub : (ops0 (F := F)).Forall fun op => op.bufs ⊆ StableHlo.tcRefs τ sig := ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem ops1_sub : (ops1 (F := F)).Forall fun op => op.bufs ⊆ StableHlo.tcRefs τ sig := ⟨StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub ..⟩
theorem ops2_sub : (ops2 (F := F)).Forall fun op => op.bufs ⊆ StableHlo.tcRefs τ sig := ⟨StableHlo.reshape_bufs_sub .., StableHlo.binary_bufs_sub .., StableHlo.reshape_bufs_sub ..⟩
theorem ops3_sub : (ops3 (F := F)).Forall fun op => op.bufs ⊆ StableHlo.tcRefs τ sig := StableHlo.reshape_bufs_sub ..

theorem ops0_fresh : ∀ op ∈ (ops0 (F := F)), op.fresh = ∅ := by intro _ h; (repeat (cases h with | head => rfl | tail _ h => ?_)); exact nomatch h
theorem ops1_fresh : ∀ op ∈ (ops1 (F := F)), op.fresh = ∅ := by intro _ h; (repeat (cases h with | head => rfl | tail _ h => ?_)); exact nomatch h
theorem ops2_fresh : ∀ op ∈ (ops2 (F := F)), op.fresh = ∅ := by intro _ h; (repeat (cases h with | head => rfl | tail _ h => ?_)); exact nomatch h
theorem ops3_fresh : ∀ op ∈ (ops3 (F := F)), op.fresh = ∅ := by intro _ h; (repeat (cases h with | head => rfl | tail _ h => ?_)); exact nomatch h

end Cert.Proof.ScI

end
-- ==== Proof.TcGhost.lean ====
/-
  The ghost-state layout for the two TensorCore pipelines entered from inside the SparseCore program, generic in the
  float instance: the user algebra (the handshakes' rounds, the pipelines' rounds, the transfers' counters), the
  embeddings of the two rounds components, the pipelines' relational proof data at frame level (every window's
  relation holds of any two contents: nothing is said of what a body leaves in a staging buffer), and the form in
  which the TensorCore's debt travels through a region (nothing owed, recorded pairs at or below level 8).
-/
import proofs.«209750_g45337674776763_cont_8to1c4_158_37_alg».proof.Proof.Gen.KernelIdeal.Launch
import proofs.«209750_g45337674776763_cont_8to1c4_158_37_alg».proof.Proof.Gen.KernelIdeal.Points
import Idealize.ShloMosaic.Lib.SparseCore.Launch
import Idealize.ShloMosaic.Lib.Pipeline.Regions
import Idealize.ShloMosaic.Lib.Pipeline.Kit
import Idealize.ShloMosaic.Lib.StableHlo.Run
import Idealize.ShloMosaic.Lib.Tactic

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift

/-! ## The resource algebra -/

/-- The handshakes' rounds (duties numbered), -/
abbrev UH : Type := URounds (GSem nD τ sig) ℕ
/-- the pipelines' staging cells' rounds (duties unnamed), -/
abbrev UP : Type := UR sig nD τ
/-- and both beside the transfers' counters, which sit rightmost so that they are found by instance. -/
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipelines' rounds library: the left factor of the right factor. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-- The launch element of the product splits into its three components, each owned through its embedding. -/
theorem ownU_split (h : UH) (p : UP) (k : Counters) :
    (ownU ((h, (p, k)) : UU) : sProp 𝕄)
      ⊢ iprop(BI.own (EH (F := F) h) ∗ BI.own (EP (F := F) p) ∗ BI.own (((Emb.inr : Emb Counters (UP × Counters)).trans embR : Emb Counters 𝕄) k)) := by
  iintro Hu
  ihave H := (ownU_pair _ _) $$ Hu
  icases H with ⟨HH, HR⟩
  isplitl [HH]; · iexact HH
  iapply (own_pair_emb (embR : Emb (UP × Counters) 𝕄) p k); iexact HR

/-! ## The pipelines' tables and cells -/

/-- No pipeline has a prefetched table. -/
abbrev adm : (p : Fin 2) → (pcfgs (F := F) p).Adm := fun p => (cfgs p).toPCfg_adm

/-- The index the pipelines' waits are recorded at: a kernel's own, level 0. -/
abbrev ι₀ : HIx 1 := none

/-- The pairs at or below level 8: where the TensorCore's recorded pairs sit after the one SparseCore call. -/
def recB (d : Dev nD) : Set (SemLoc sig × HIx 1) := {p | (K (F := F)).lev ((T d : Thread nD τ), p.1) p.2 ≤ 8}

/-- What the TensorCore owes after the SparseCore call, as its handshake state holds it (first conjunct of the
    state before call 1). -/
def owesB (d : Dev nD) : sProp 𝕄 :=
  iprop(∃ W, ⌜(K (F := F)).WBelow (T d) W (8 * 1)⌝ ∗ owes (T d) ((K (F := F)).Otc (nD := nD) d 1) W)

/-! ## The proof data, at frame level -/

/-- Pipeline 0 (six windows) on core `c`, entered with the unscoped buffers at `W`. -/
def rdat1 (W : Valuation τ sig (Elt F)) (c : Dev nD) : Pipeline.RDat τ (Elt F) (HIx 1) ℕ UU ℕ (Pipeline.pin (pcfgs (F := F)) adm 0) c where
  A w := W (Pipeline.arrRef (Pipeline.pin (pcfgs (F := F)) adm 0).spec w)
  after _ _ _ _ := True
  Φ _ := Pipeline.scopedRest (Pipeline.pin (pcfgs (F := F)) adm 0).spec c
  q _ := fullShare
  owed _ := 0
  recorded _ := recB (F := F) c

/-- Pipeline 1 (five windows) on core `c`, entered with the unscoped buffers at `W`. -/
def rdat2 (W : Valuation τ sig (Elt F)) (c : Dev nD) : Pipeline.RDat τ (Elt F) (HIx 1) ℕ UU ℕ (Pipeline.pin (pcfgs (F := F)) adm 1) c where
  A w := W (Pipeline.arrRef (Pipeline.pin (pcfgs (F := F)) adm 1).spec w)
  after _ _ _ _ := True
  Φ _ := Pipeline.scopedRest (Pipeline.pin (pcfgs (F := F)) adm 1).spec c
  q _ := fullShare
  owed _ := 0
  recorded _ := recB (F := F) c

/-- Both, as the family the regions kit takes. -/
def rdats (W₁ W₂ : Valuation τ sig (Elt F)) : (p : Fin 2) → (c : Dev nD) → Pipeline.RDat τ (Elt F) (HIx 1) ℕ UU ℕ (Pipeline.pin (pcfgs (F := F)) adm p) c
  | 0 => rdat1 W₁
  | 1 => rdat2 W₂

end Cert.KernelIdeal.Tc

end
-- ==== Proof.ScMainScI.lean ====
/-
  @main on the TensorCore around the SparseCore call: the host line before it computes the four arrays the kernel reads;
  the call lends each SparseCore a read share of those and the words of the result array its subcores write, and takes
  them back with the result array at some contents; every other array of @main is untouched.
-/
import Idealize.ShloMosaic.Lib.Pipeline.Frame
import proofs.«209750_g45337674776763_cont_8to1c4_158_37_alg».proof.Proof.ScLaunchScI
import proofs.«209750_g45337674776763_cont_8to1c4_158_37_alg».proof.Proof.ScMainOpsScI
import proofs.«209750_g45337674776763_cont_8to1c4_158_37_alg».proof.Proof.TcGhost

noncomputable section

namespace Cert.Proof.ScI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq)
open Idealize.ShloMosaic.StableHlo
open Idealize.ShloMosaic.Pipeline (ucRefs unscopedBufs_held sub_ucRefs)
open Cert.KernelIdeal.Tc (UU EH)

variable {F : FTy → Type}

local notation "𝕄" => MT nD τ sig (HIx 1) (Elt F) ℕ UU ℕ

variable (m : (ℓ : Loc nD τ sig) → Buf (Elt F) ℓ)

abbrev r7 : DevRef τ sig := Proc.devRef .tc (main_v7 : Ref sig .tc)
abbrev r8 : DevRef τ sig := Proc.devRef .tc (main_v8 : Ref sig .tc)
abbrev r6 : DevRef τ sig := Proc.devRef .tc (main_v6 : Ref sig .tc)
abbrev r1 : DevRef τ sig := Proc.devRef .tc (main_v1 : Ref sig .tc)
abbrev r9 : DevRef τ sig := Proc.devRef .tc (main_v9 : Ref sig .tc)
/-- The five arrays of the SparseCore call. -/
abbrev T5 : Finset (DevRef τ sig) := {r7, r8, r6, r1, r9}
theorem T5_sub : T5 ⊆ ucRefs τ sig := by decide

variable [FloatOps F]

/-- The TensorCore's arrays when the SparseCore call is reached. -/
def V1 (d : Dev nD) : Valuation τ sig (Elt F) := StableHlo.after ops0 (StableHlo.launchContents m d)

abbrev g7 (d : Dev nD) : Buf (Elt F) (l7 d) := V1 m d r7
abbrev g8 (d : Dev nD) : Buf (Elt F) (l8 d) := V1 m d r8
abbrev g6 (d : Dev nD) : Buf (Elt F) (l6 d) := V1 m d r6
abbrev g1 (d : Dev nD) : Buf (Elt F) (l1 d) := V1 m d r1

/-- What the handshakes carry, at those contents. -/
abbrev PP : (K (F := F)).Pay (nD := nD) (Val := Elt F) (Name := ℕ) (U := UU) := P (F := F) (U := UU) (g7 m) (g8 m) (g6 m) (g1 m)

omit [FloatOps F] in
theorem held_T5 (d : Dev nD) (W : Valuation τ sig (Elt F)) :
    (held (T d) T5 W : sProp 𝕄)
      = iprop((l7 d ↦{fullShare} W r7) ∗ (l8 d ↦{fullShare} W r8) ∗ (l6 d ↦{fullShare} W r6) ∗ (l1 d ↦{fullShare} W r1) ∗ l9 d ↦{fullShare} W r9) := by
  unfold held T5
  rw [SparseCore.bigSep_insert' (by decide), SparseCore.bigSep_insert' (by decide), SparseCore.bigSep_insert' (by decide),
    SparseCore.bigSep_insert' (by decide), bigSep_singleton]

omit [FloatOps F] in
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem st0_eq (d : Dev nD) :
    (bigSep Finset.univ fun c : Fin ((K (F := F)).nCore 0) => (PP m).st 0 d c)
      = iprop(forCore (U := UU) (g7 m) (g8 m) (g6 m) (g1 m) d 0 ∗ forCore (U := UU) (g7 m) (g8 m) (g6 m) (g1 m) d 1) :=
  bigSep_fin2 (F := F) (fun c => forCore (U := UU) (g7 m) (g8 m) (g6 m) (g1 m) d c)
theorem dn0_eq (d : Dev nD) :
    (bigSep Finset.univ fun c : Fin ((K (F := F)).nCore 0) => (PP m).dn 0 d c)
      = iprop(forCore (U := UU) (g7 m) (g8 m) (g6 m) (g1 m) d 0 ∗ forCore (U := UU) (g7 m) (g8 m) (g6 m) (g1 m) d 1) :=
  bigSep_fin2 (F := F) (fun c => forCore (U := UU) (g7 m) (g8 m) (g6 m) (g1 m) d c)

omit [FloatOps F] in
/-- A whole array is one SparseCore's read share, the other's, and a remainder. -/
theorem share2 {ℓ : Loc nD τ sig} (f : Buf (Elt F) ℓ) :
    (ℓ ↦{fullShare} f : sProp 𝕄) ⊣⊢ iprop((ℓ ↦{Transfers.shareDrop fullShare 2} f) ∗ (ℓ ↦{tokC 0} f) ∗ ℓ ↦{tokC 1} f) := by
  have h := Transfers.pointsTo_toks (nD := nD) (τ := τ) (sig := sig) (Ix := HIx 1) (Val := Elt F) (Name := ℕ) (U := UU) (Lvl := ℕ)
    (ℓ := ℓ) (S := Finset.univ) (f := f) fullShare 2
  rw [bigSep_fin2 (F := F) (fun i => (ℓ ↦{Transfers.shareTok fullShare 2 i} f : sProp 𝕄))] at h
  exact h

omit [FloatOps F] in
/-- The result array's three parts, each at its own contents, are the array at some contents. -/
theorem l9_join (d : Dev nD) (f0 f1 fr : Buf (Elt F) (l9 d)) :
    iprop((l9 d ↦[coreSet 0]{fullShare} f0) ∗ (l9 d ↦[coreSet 1]{fullShare} f1) ∗ (l9 d ↦[Finset.univ \ (coreSet 0 ∪ coreSet 1)]{fullShare} fr))
      ⊢ (iprop(∃ g, l9 d ↦{fullShare} g) : sProp 𝕄) := by
  have h1 := pointsTo_join (nD := nD) (τ := τ) (sig := sig) (Ix := HIx 1) (Val := Elt F) (Name := ℕ) (U := UU) (Lvl := ℕ)
    (ℓ := l9 d) (I := coreSet 0) (J := coreSet 1) (q := fullShare) (f := f0) (g := f1) coreSets_disjoint
  have h2 := pointsTo_join (nD := nD) (τ := τ) (sig := sig) (Ix := HIx 1) (Val := Elt F) (Name := ℕ) (U := UU) (Lvl := ℕ)
    (ℓ := l9 d) (I := coreSet 0 ∪ coreSet 1) (J := Finset.univ \ (coreSet 0 ∪ coreSet 1)) (q := fullShare)
    (f := (coreSet 1).piecewise f1 f0) (g := fr) Finset.disjoint_sdiff
  rw [Finset.union_sdiff_of_subset (Finset.subset_univ _)] at h2
  iintro ⟨H0, H1, Hr⟩
  ihave H := h1 $$ [H0 H1]
  · isplitl [H0]; · iexact H0
    iexact H1
  ihave H := h2 $$ [H Hr]
  · isplitl [H]; · iexact H
    iexact Hr
  iexists _; iexact H

/-- The SparseCore call from the TensorCore's side. -/
theorem call_step (κ : GSem nD τ sig → ℕ) (d : Dev nD) (Φ : PUnit → sProp 𝕄) :
    iprop((K (F := F)).ctx EH (PP m) κ ∗ (K (F := F)).tcSt EH d 0 ∗ held (T d) (ucRefs τ sig) (V1 m d)
        ∗ (∀ g9, ((K (F := F)).tcSt EH d 1 ∗ held (T d) (ucRefs τ sig) (Function.update (V1 m d) r9 g9)) -∗ Φ ⟨⟩))
      ⊢ wp frame (wpE ((K (F := F)).defs (D (F := F))) 𝒱 (T d) none) Set.univ ((K (F := F)).run d 0) Φ := by
  rw [held_sub_split (T d) T5_sub (V1 m d), held_T5]
  iintro ⟨#Hctx, Hst, ⟨⟨H7, H8, H6, H1, H9⟩, Hrest⟩, Hk⟩
  ihave H7 := (share2 (F := F) _).1 $$ H7
  icases H7 with ⟨D7, A7, B7⟩
  ihave H8 := (share2 (F := F) _).1 $$ H8
  icases H8 with ⟨D8, A8, B8⟩
  ihave H6 := (share2 (F := F) _).1 $$ H6
  icases H6 with ⟨D6, A6, B6⟩
  ihave H1 := (share2 (F := F) _).1 $$ H1
  icases H1 with ⟨D1, A1, B1⟩
  ihave H9 := (pointsTo_split_subset (Finset.subset_univ (coreSet 0 ∪ coreSet 1))).1 $$ H9
  icases H9 with ⟨H9c, H9r⟩
  ihave H9c := (pointsTo_union coreSets_disjoint).1 $$ H9c
  icases H9c with ⟨H90, H91⟩
  iapply ((K (F := F)).wp_run (D (F := F)) 𝒱 (EH := EH) (P := PP m) κ d 0) $$ [Hst A7 B7 A8 B8 A6 B6 A1 B1 H90 H91 D7 D8 D6 D1 H9r Hrest Hk]
  isplitr; · iexact Hctx
  isplitl [Hst]; · iexact Hst
  isplitl [A7 B7 A8 B8 A6 B6 A1 B1 H90 H91]
  · rw [st0_eq]; unfold forCore ins4
    isplitl [A7 A8 A6 A1 H90]
    · isplitl [A7 A8 A6 A1]
      · isplitl [A7]; · iexact A7
        isplitl [A8]; · iexact A8
        isplitl [A6]; · iexact A6
        iexact A1
      · iexists _; iexact H90
    · isplitl [B7 B8 B6 B1]
      · isplitl [B7]; · iexact B7
        isplitl [B8]; · iexact B8
        isplitl [B6]; · iexact B6
        iexact B1
      · iexists _; iexact H91
  iintro ⟨Hst, Hdn⟩
  ihave Hdn := (Entails.of_eq (dn0_eq m d)) $$ Hdn
  unfold forCore ins4
  icases Hdn with ⟨⟨⟨A7, A8, A6, A1⟩, ⟨%f0, H90⟩⟩, ⟨⟨B7, B8, B6, B1⟩, ⟨%f1, H91⟩⟩⟩
  ihave H7 := (share2 (F := F) _).2 $$ [D7 A7 B7]
  · isplitl [D7]; · iexact D7
    isplitl [A7]; · iexact A7
    iexact B7
  ihave H8 := (share2 (F := F) _).2 $$ [D8 A8 B8]
  · isplitl [D8]; · iexact D8
    isplitl [A8]; · iexact A8
    iexact B8
  ihave H6 := (share2 (F := F) _).2 $$ [D6 A6 B6]
  · isplitl [D6]; · iexact D6
    isplitl [A6]; · iexact A6
    iexact B6
  ihave H1 := (share2 (F := F) _).2 $$ [D1 A1 B1]
  · isplitl [D1]; · iexact D1
    isplitl [A1]; · iexact A1
    iexact B1
  ihave H9 := (l9_join (F := F) d f0 f1 (V1 m d r9)) $$ [H90 H91 H9r]
  · isplitl [H90]; · iexact H90
    isplitl [H91]; · iexact H91
    iexact H9r
  icases H9 with ⟨%g9, H9⟩
  ispecialize Hk $$ %g9
  iapply Hk
  isplitl [Hst]; · iexact Hst
  rw [held_sub_split (T d) T5_sub (Function.update (V1 m d) r9 g9), held_T5,
    Function.update_of_ne (show r7 ≠ r9 by decide), Function.update_of_ne (show r8 ≠ r9 by decide),
    Function.update_of_ne (show r6 ≠ r9 by decide), Function.update_of_ne (show r1 ≠ r9 by decide), Function.update_self,
    held_congr (T d) (S := ucRefs τ sig \ T5) (V := Function.update (V1 m d) r9 g9) (V' := V1 m d)
      (fun b hb => Function.update_of_ne (fun e => (Finset.mem_sdiff.mp hb).2 (by rw [e]; decide)) _ _)]
  isplitl [H7 H8 H6 H1 H9]
  · isplitl [H7]; · iexact H7
    isplitl [H8]; · iexact H8
    isplitl [H6]; · iexact H6
    isplitl [H1]; · iexact H1
    iexact H9
  iexact Hrest

/-! ## @main, whole -/

abbrev ra0 : DevRef τ sig := Proc.devRef .tc (main_arg0 : Ref sig .tc)
abbrev ra1 : DevRef τ sig := Proc.devRef .tc (main_arg1 : Ref sig .tc)
/-- The arrays the first region writes, and the second's. -/
abbrev outs0 : Finset (DevRef τ sig) := {Proc.devRef .tc (main_v23_0 : Ref sig .tc), Proc.devRef .tc (main_v23_1 : Ref sig .tc)}
abbrev outs1 : Finset (DevRef τ sig) := {Proc.devRef .tc (main_v27 : Ref sig .tc)}

/-- No host line writes an argument array. -/
theorem ops0_keep (W : Valuation τ sig (Elt F)) :
    StableHlo.after ops0 W (Proc.devRef .tc (main_arg0 : Ref sig .tc)) = W (Proc.devRef .tc (main_arg0 : Ref sig .tc))
      ∧ StableHlo.after ops0 W (Proc.devRef .tc (main_arg1 : Ref sig .tc)) = W (Proc.devRef .tc (main_arg1 : Ref sig .tc)) := by
  unfold ops0
  constructor <;> after_results_simp
theorem ops1_keep (W : Valuation τ sig (Elt F)) :
    StableHlo.after ops1 W (Proc.devRef .tc (main_arg0 : Ref sig .tc)) = W (Proc.devRef .tc (main_arg0 : Ref sig .tc))
      ∧ StableHlo.after ops1 W (Proc.devRef .tc (main_arg1 : Ref sig .tc)) = W (Proc.devRef .tc (main_arg1 : Ref sig .tc)) := by
  unfold ops1
  constructor <;> after_results_simp
theorem ops2_keep (W : Valuation τ sig (Elt F)) :
    StableHlo.after ops2 W (Proc.devRef .tc (main_arg0 : Ref sig .tc)) = W (Proc.devRef .tc (main_arg0 : Ref sig .tc))
      ∧ StableHlo.after ops2 W (Proc.devRef .tc (main_arg1 : Ref sig .tc)) = W (Proc.devRef .tc (main_arg1 : Ref sig .tc)) := by
  unfold ops2
  constructor <;> after_results_simp
theorem ops3_keep (W : Valuation τ sig (Elt F)) :
    StableHlo.after ops3 W (Proc.devRef .tc (main_arg0 : Ref sig .tc)) = W (Proc.devRef .tc (main_arg0 : Ref sig .tc))
      ∧ StableHlo.after ops3 W (Proc.devRef .tc (main_arg1 : Ref sig .tc)) = W (Proc.devRef .tc (main_arg1 : Ref sig .tc)) := by
  unfold ops3
  constructor <;> after_results_simp

/-- What a TensorCore kernel region is asked for: from the TensorCore's arrays at any contents it runs to its end and
    leaves every array but its own results as it was. -/
def RegionStep (κ : GSem nD τ sig → ℕ) (p : Fin 2) (outs : Finset (DevRef τ sig)) (Gin Gout : Dev nD → sProp 𝕄) : Prop :=
  ∀ (d : Dev nD) (W : Valuation τ sig (Elt F)) (Φ : PUnit → sProp 𝕄),
    iprop((K (F := F)).ctx EH (PP m) κ ∗ (K (F := F)).tcSt EH d 1 ∗ boundary (T d) ∗ held (T d) (ucRefs τ sig) W ∗ Gin d
        ∗ (∀ W', ⌜∀ b, b ∉ outs → W' b = W b⌝ -∗ ((K (F := F)).tcSt EH d 1 ∗ boundary (T d) ∗ held (T d) (ucRefs τ sig) W' ∗ Gout d) -∗ Φ ⟨⟩))
      ⊢ wp frame (wpE ((K (F := F)).defs (D (F := F))) 𝒱 (T d) none) Set.univ
          (Prog.lift (.customCall (SparseCore.inner (Pipeline.entry p)) ())) Φ

/-- What @main leaves: the TensorCore's arrays at contents that agree with the launch's on both arguments. -/
def FIN (d : Dev nD) : sProp 𝕄 :=
  iprop(∃ W : Valuation τ sig (Elt F), ⌜W ra0 = m (d, ra0) ∧ W ra1 = m (d, ra1)⌝ ∗ held (T d) (ucRefs τ sig) W)

theorem hS (ops : List (HloOp τ sig (Elt F))) (h : ops.Forall fun op => op.bufs ⊆ StableHlo.tcRefs τ sig) : ∀ op ∈ ops, op.bufs ⊆ ucRefs τ sig :=
  fun op hop => sub_ucRefs op ((List.forall_iff_forall_mem.mp h) op hop)

attribute [local irreducible] ops0 ops1 ops2 ops3

set_option backward.isDefEq.respectTransparency.types false in
/-- A straight line of host operations at the head of the TensorCore's program, within its unscoped arrays. -/
theorem seq_step (d : Dev nD) (ops : List (HloOp τ sig (Elt F))) (hsub : ops.Forall fun op => op.bufs ⊆ StableHlo.tcRefs τ sig)
    (hfresh : ∀ op ∈ ops, op.fresh = ∅) (W : Valuation τ sig (Elt F)) {β : Type}
    (k : PUnit → Prog (TpuEff nD τ sig (Elt F) (SparseCore.Sig (ΛP (F := F)) 1) .tc) β) (Q : β → sProp 𝕄) :
    iprop(boundary (T d) ∗ (held (T d) (ucRefs τ sig) W : sProp 𝕄)
        ∗ ((boundary (T d) ∗ (held (T d) (ucRefs τ sig) (StableHlo.after ops W) : sProp 𝕄))
            -∗ wp frame (wpE ((K (F := F)).defs (D (F := F))) 𝒱 (T d) none) Set.univ (k ⟨⟩) Q))
      ⊢ wp frame (wpE ((K (F := F)).defs (D (F := F))) 𝒱 (T d) none) Set.univ (seq ops >>= k) Q := by
  iintro ⟨Hb, Hh, Hk⟩
  iapply (StableHlo.wp_seq (defs := (K (F := F)).defs (D (F := F))) 𝒱 none Set.univ d (ucRefs τ sig) k (K := Q) ops (hS ops hsub) hfresh W) $$ [Hb Hh]
  · isplitl [Hb]; · iexact Hb
    iexact Hh
  iexact Hk

set_option backward.isDefEq.respectTransparency.types false in
/-- The same, the line as the whole program. -/
theorem seq_step' (d : Dev nD) (ops : List (HloOp τ sig (Elt F))) (hsub : ops.Forall fun op => op.bufs ⊆ StableHlo.tcRefs τ sig)
    (hfresh : ∀ op ∈ ops, op.fresh = ∅) (W : Valuation τ sig (Elt F)) (Φ : PUnit → sProp 𝕄) :
    iprop(boundary (T d) ∗ (held (T d) (ucRefs τ sig) W : sProp 𝕄)
        ∗ ((boundary (T d) ∗ (held (T d) (ucRefs τ sig) (StableHlo.after ops W) : sProp 𝕄)) -∗ Φ ⟨⟩))
      ⊢ wp frame (wpE ((K (F := F)).defs (D (F := F))) 𝒱 (T d) none) Set.univ (seq ops) Φ := by
  rw [← Prog.bind_pure (seq ops)]
  iintro ⟨Hb, Hh, Hk⟩
  iapply (seq_step (F := F) d ops hsub hfresh W (fun u => pure u) Φ) $$ [Hb Hh Hk]
  isplitl [Hb]; · iexact Hb
  isplitl [Hh]; · iexact Hh
  iintro H
  rw [wp_pure]; imodintro
  iapply Hk; iexact H

set_option maxHeartbeats 1000000 in
/-- @main on device `d`'s TensorCore. -/
theorem hmain (ρ : Dev nD → PrngReg) (G0 G1 G2 : Dev nD → sProp 𝕄) (κ : GSem nD τ sig → ℕ)
    (h0 : RegionStep m κ 0 outs0 G0 G1) (h1 : RegionStep m κ 1 outs1 G1 G2) (d : Dev nD) :
    iprop((K (F := F)).ctx EH (PP m) κ ∗ (K (F := F)).tcSt EH d 0 ∗ (K (F := F)).tcRes m ρ d ∗ G0 d)
      ⊢ wp frame (wpE ((K (F := F)).defs (D (F := F))) 𝒱 (T d) none) Set.univ (main d)
          fun _ => iprop((K (F := F)).tcSt EH d 1 ∗ FIN m d) := by
  unfold SparseCore.Cfg.tcRes
  rw [main_eq]
  have e := unscopedBufs_held (nD := nD) (τ := τ) (sig := sig) (Val := Elt F) (Ix := HIx 1) (Name := ℕ) (U := UU) (Lvl := ℕ) d (StableHlo.launchContents m d)
  rw [e]
  iintro ⟨#Hctx, Hst, Hres, HG⟩
  ihave Hres := (sep_mono_right (sep_elim_left)) $$ Hres
  icases Hres with ⟨Hb, Hheld⟩
  rw [wp_bind]
  iapply (seq_step' (F := F) d ops0 ops0_sub ops0_fresh (StableHlo.launchContents m d) _) $$ [Hb Hheld Hst HG]
  isplitl [Hb]; · iexact Hb
  isplitl [Hheld]; · iexact Hheld
  iintro ⟨Hb, Hheld⟩
  rw [wp_bind]
  iapply (call_step m κ d _) $$ [Hst Hheld Hb HG]
  isplitr; · iexact Hctx
  isplitl [Hst]; · iexact Hst
  isplitl [Hheld]; · iexact Hheld
  iintro %g9 ⟨Hst, Hheld⟩
  rw [wp_bind]
  iapply (seq_step' (F := F) d ops1 ops1_sub ops1_fresh (Function.update (V1 m d) r9 g9) _) $$ [Hb Hheld Hst HG]
  isplitl [Hb]; · iexact Hb
  isplitl [Hheld]; · iexact Hheld
  iintro ⟨Hb, Hheld⟩
  rw [wp_bind]
  iapply (h0 d _ _) $$ [Hst Hb Hheld HG]
  isplitr; · iexact Hctx
  isplitl [Hst]; · iexact Hst
  isplitl [Hb]; · iexact Hb
  isplitl [Hheld]; · iexact Hheld
  isplitl [HG]; · iexact HG
  iintro %W2 %hW2 ⟨Hst, Hb, Hheld, HG⟩
  rw [wp_bind]
  iapply (seq_step' (F := F) d ops2 ops2_sub ops2_fresh W2 _) $$ [Hb Hheld Hst HG]
  isplitl [Hb]; · iexact Hb
  isplitl [Hheld]; · iexact Hheld
  iintro ⟨Hb, Hheld⟩
  rw [wp_bind]
  iapply (h1 d _ _) $$ [Hst Hb Hheld HG]
  isplitr; · iexact Hctx
  isplitl [Hst]; · iexact Hst
  isplitl [Hb]; · iexact Hb
  isplitl [Hheld]; · iexact Hheld
  isplitl [HG]; · iexact HG
  iintro %W3 %hW3 ⟨Hst, Hb, Hheld, HG⟩
  rw [wp_bind]
  iapply (seq_step' (F := F) d ops3 ops3_sub ops3_fresh W3 _) $$ [Hb Hheld Hst HG]
  isplitl [Hb]; · iexact Hb
  isplitl [Hheld]; · iexact Hheld
  iintro ⟨Hb, Hheld⟩
  rw [wp_pure]
  imodintro
  isplitl [Hst]; · iexact Hst
  unfold FIN
  iexists (StableHlo.after ops3 W3); isplitr
  · ipureintro
    have k3 := ops3_keep (F := F) W3
    have k2 := ops2_keep (F := F) W2
    have k1 := ops1_keep (F := F) (Function.update (V1 m d) r9 g9)
    have k0 := ops0_keep (F := F) (StableHlo.launchContents m d)
    constructor
    · rw [k3.1, hW3 _ (by decide), k2.1, hW2 _ (by decide), k1.1, Function.update_of_ne (by decide)]; exact k0.1
    · rw [k3.2, hW3 _ (by decide), k2.2, hW2 _ (by decide), k1.2, Function.update_of_ne (by decide)]; exact k0.2
  · iexact Hheld

/-! ## The program's run -/

theorem two_sub : ({ra0, ra1} : Finset (DevRef τ sig)) ⊆ ucRefs τ sig := by decide

omit [FloatOps F] in
theorem held_two (d : Dev nD) (W : Valuation τ sig (Elt F)) :
    (held (T d) ({ra0, ra1} : Finset (DevRef τ sig)) W : sProp 𝕄)
      = iprop((((d, ra0) : Loc nD τ sig) ↦{fullShare} W ra0) ∗ ((d, ra1) : Loc nD τ sig) ↦{fullShare} W ra1) := by
  unfold held
  rw [SparseCore.bigSep_insert' (by decide), bigSep_singleton]

/-- What the claim reads off the final memory: both arguments as launched. -/
def fq (d : Dev nD) (s' : Phys nD τ sig (Elt F)) : Prop :=
  s'.mem.mem (d, ra0) = m (d, ra0) ∧ s'.mem.mem (d, ra1) = m (d, ra1)

omit [FloatOps F] in
theorem hfin (d : Dev nD) (s' : Phys nD τ sig (Elt F)) : iprop(FIN m d ∗ SI s') ⊢ (⌜fq m d s'⌝ : sProp 𝕄) := by
  unfold FIN
  iintro ⟨⟨%W, %hW, Hheld⟩, HSI⟩
  ihave H := (Entails.of_eq (held_sub_split (T d) two_sub W)) $$ Hheld
  icases H with ⟨H2, -⟩
  ihave H2 := (Entails.of_eq (held_two (F := F) d W)) $$ H2
  icases H2 with ⟨Ha0, Ha1⟩
  ihave H := (persistent_entails_right (SI_pointsTo_agree (st := s') (ℓ := ((d, ra0) : Loc nD τ sig)) (I := Finset.univ) (q := fullShare) (f := W ra0))) $$ [HSI Ha0]
  · isplitl [HSI] <;> iassumption
  icases H with ⟨%h1, HSI, -⟩
  ihave H := (SI_pointsTo_agree (st := s') (ℓ := ((d, ra1) : Loc nD τ sig)) (I := Finset.univ) (q := fullShare) (f := W ra1)) $$ [HSI Ha1]
  · isplitl [HSI] <;> iassumption
  icases H with %h2
  ipureintro
  exact ⟨(funext fun i => h1 i (Finset.mem_univ i)).trans hW.1, (funext fun i => h2 i (Finset.mem_univ i)).trans hW.2⟩

omit [FloatOps F] in
theorem bigSep_emp' {I : Type} (s : Finset I) : (bigSep s fun _ => iprop(emp)) = (iprop(emp) : sProp 𝕄) := bigSep_emp_const s

/-- The run's post: on every device both argument arrays end as launched. -/
def QC : PUnit × MemSt nD τ sig (Elt F) → Prop := fun r => ∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)

/-- Every weakly fair execution of the device's threads terminates, nothing faulting, both argument arrays unchanged —
    given the launch element of the ghost state and the two TensorCore regions' steps. -/
theorem run_main [∀ e, Nonempty (Elt F e)] (ρ : Dev nD → PrngReg) (G0 G1 G2 : Dev nD → sProp 𝕄) (u₀ : UU)
    (hu₀ : (ownU u₀ : sProp 𝕄) ⊢ |={Set.univ}=> iprop(BI.own (EH (F := F) (initOf (K (F := F)).hsCells (K (F := F)).hsToks)) ∗ bigSep Finset.univ G0))
    (h0 : ∀ κ, RegionStep m κ 0 outs0 G0 G1) (h1 : ∀ κ, RegionStep m κ 1 outs1 G1 G2) :
    θ_run (defs (F := F)) (threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (F := F) (U := UU) (g7 m) (g8 m) (g6 m) (g1 m))
    (fun q _ => match q with | 0 => SparseCore.Cfg.VecSplit.of_plain (vecSplit (F := F) (U := UU) (g7 m) (g8 m) (g6 m) (g1 m)))
    m ρ main G0 (FIN m) u₀
    (by
      iintro ⟨Hu, -, -⟩
      imod hu₀ $$ Hu with ⟨HH, HG⟩
      imodintro
      isplitl [HH]; · iexact HH
      isplitl [HG]; · iexact HG
      dsimp only [PP, P]
      rw [show (bigSep Finset.univ fun _ : Thread nD τ => bigSep Finset.univ fun _ : Fin 1 => (iprop(emp) : sProp 𝕄)) = iprop(emp) from by
        rw [bigSep_congr fun _ _ => bigSep_emp' _, bigSep_emp']]
      iempintro)
    (fun κ d => hmain m ρ G0 G1 G2 κ (h0 κ) (h1 κ) d) (fq m) (hfin m) (QC m) (fun _ h => h)

end Cert.Proof.ScI

end
-- ==== Proof.TcRegion1.lean ====
/-
  The first TensorCore region (pipeline 0: grid 4 x 7, six windows) entered from inside the SparseCore program, at
  frame level: from the region boundary, the TensorCore's unscoped buffers at a valuation, what the core owes after
  the SparseCore call and the pipeline's funded cells, the custom call runs to the boundary again with the windows'
  arrays at some contents they may hold after the write-backs, every other unscoped buffer unchanged, and the same
  debt. The body obligation is a hypothesis here.
-/
import proofs.«209750_g45337674776763_cont_8to1c4_158_37_alg».proof.Proof.TcGhost

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

/-! ## The debt through a region -/

/-- After the one SparseCore call the TensorCore owes nothing, and its recorded pairs lie within the level-8 bound. -/
theorem owesB_within (d : Dev nD) (X : Set (SemLoc sig × HIx 1)) :
    (owesB (F := F) d : sProp 𝕄) ⊢ Pipeline.owesWithin d (0 : CellTallies nD τ sig (HIx 1)) (recB (F := F) d ∪ X) := by
  unfold owesB
  rw [(K (F := F)).Otc_end d (le_refl 1)]
  iintro ⟨%W, %hW, HO⟩
  iexists W
  isplitr
  · ipureintro; exact fun p hp => Or.inl (hW p (Finset.mem_coe.mp hp))
  iexact HO

/-- Back: pairs within the bound or recorded by a pipeline's own waits (index `none`, level 0) are at or below level 8. -/
theorem within_owesB (d : Dev nD) (cfg : Pipeline.Cfg sig Λ₀) :
    (Pipeline.owesWithin d (0 : CellTallies nD τ sig (HIx 1)) (recB (F := F) d ∪ cfg.waitPairs ι₀) : sProp 𝕄) ⊢ owesB (F := F) d := by
  unfold owesB
  rw [(K (F := F)).Otc_end d (le_refl 1)]
  iintro ⟨%W, %hW, HO⟩
  iexists W
  isplitr
  · ipureintro
    intro p hp
    rcases hW (Finset.mem_coe.mpr hp) with h | ⟨w, s, rfl⟩
    · exact h
    · show (K (F := F)).lev _ none ≤ 8 * 1
      rw [SparseCore.Cfg.lev_none]; omega
  iexact HO

/-! ## The region record -/

section Region

variable [FloatOps F] [∀ e, Nonempty (Elt F e)] (W₁ : Valuation τ sig (Elt F)) (lv : GSem nD τ sig → HIx 1 → ℕ)

/-- Every cell has every index levelled (the SparseCore launch's level set). -/
abbrev KL : GSem nD τ sig → Finset (HIx 1) := (K (F := F)).L

/-- Pipeline 0's datum as the family the regions kit takes (the other pipeline's is trivial). -/
abbrev fam1 : (p : Fin 2) → (c : Dev nD) → Pipeline.RDat τ (Elt F) (HIx 1) ℕ UU ℕ (Pipeline.pin (pcfgs (F := F)) adm p) c :=
  Pipeline.RDat.familyOf (pcfgs (F := F)) adm 0 (rdat1 W₁)

/-- No prefetched table: nothing held of one. -/
theorem prefHeld_none (p : Fin 2) (c : Dev nD) (q) (pf) :
    (Pipeline.prefHeld (Ix := HIx 1) (Name := ℕ) (U := UU) (Lvl := ℕ) (Val := Elt F) (pcfgs (F := F) p).pre c q pf : sProp 𝕄) = BI.emp := by
  unfold Pipeline.prefHeld
  haveI : IsEmpty (Fin (pcfgs (F := F) p).pre.K) := (Fin.isEmpty : IsEmpty (Fin 0))
  rw [Finset.univ_eq_empty, BI.bigSep_empty]

/-- What the region leaves: the windows' arrays at some contents they may hold after every write-back, the other
    unscoped buffers as they were, the debt as it was. -/
def post1 (c : Dev nD) : sProp 𝕄 :=
  iprop((rdat1 W₁ c).arraysAt (Pipeline.pin (pcfgs (F := F)) adm 0).N
    ∗ Pipeline.unscopedRest (Pipeline.pin (pcfgs (F := F)) adm 0).spec c (fun b => W₁ b) ∗ owesB (F := F) c)

theorem fam1_self (c : Dev nD) : fam1 W₁ 0 c = rdat1 W₁ c := Pipeline.RDat.familyOf_self (pcfgs (F := F)) adm 0 (rdat1 W₁) c
-- the invariant is never compared by unfolding: the projection is reduced, the scoped rest stays folded
theorem rdat1_Φ (c : Dev nD) (t : Fin ((Pipeline.pin (pcfgs (F := F)) adm 0).N + 1)) :
    (rdat1 W₁ c).Φ t = Pipeline.scopedRest (Pipeline.pin (pcfgs (F := F)) adm 0).spec c := by dsimp only [rdat1]
theorem rdat1_A (c : Dev nD) (w : Fin (Pipeline.pin (pcfgs (F := F)) adm 0).W) :
    (rdat1 W₁ c).A w = W₁ (Pipeline.arrRef (Pipeline.pin (pcfgs (F := F)) adm 0).spec w) := by dsimp only [rdat1]
theorem rdat1_q (c : Dev nD) (w : Fin (Pipeline.pin (pcfgs (F := F)) adm 0).W) : (rdat1 W₁ c).q w = fullShare := by dsimp only [rdat1]
theorem rdat1_owed (c : Dev nD) (t) : (rdat1 W₁ c).owed t = 0 := rfl
theorem rdat1_bound (c : Dev nD) (t) :
    (rdat1 W₁ c).bound ι₀ t = recB (F := F) c ∪ (Pipeline.pin (pcfgs (F := F)) adm 0).waitPairs ι₀ := rfl

def reg1 (hbody : ∀ c, (rdat1 W₁ c).BodyObligation defs₀ 𝒱₀ ι₀ Set.univ) :
    Pipeline.RDat.RegionSeg (pcfgs (F := F)) adm (fam1 W₁) ι₀ defs₀ 𝒱₀ (KL (F := F)) lv 0 where
  win := winFacts1.to₀
  block_pos := block_pos1
  stage_whole := stage_whole1
  K := PEmpty
  osem k := k.elim
  ho := Pipeline.OwnSemFacts.none _
  hbody c := by rw [fam1_self]; exact hbody c
  hwaits := Pipeline.RDat.hwaits_of_owed_zero _ _ _ _ _ _ 0 fun c t => by rw [fam1_self]; exact rdat1_owed W₁ c t
  pre c := iprop(unscopedBufs c (fun b => W₁ b) ∗ owesB (F := F) c)
  post c := post1 W₁ c
  X _ := iprop(emp)
  Y _ := iprop(emp)
  Z c := Pipeline.unscopedRest (Pipeline.pin (pcfgs (F := F)) adm 0).spec c (fun b => W₁ b)
  hentry c := by
    rw [fam1_self, Pipeline.ownSems0_none, prefHeld_none]
    unfold Pipeline.RDat.owesAt
    rw [rdat1_owed, rdat1_bound]
    iintro ⟨⟨Hb, HO⟩, -, -⟩
    ihave Ha := (Pipeline.RDat.arrays_of_unscopedBufs (pcfgs (F := F)) adm (fam1 W₁) (p := 0) winFacts1 arr_whole1 c
      (fun w => by rw [fam1_self]; exact Pipeline.RDat.share_full _ (rdat1_q W₁ c) w) (fun b => W₁ b)
      (fun w => by rw [fam1_self]; exact rdat1_A W₁ c w)) $$ Hb
    icases Ha with ⟨Harr, Hrest⟩
    imodintro
    isplitl [Harr]; · iexact Harr
    isplitr; · iempintro
    isplitl [HO]
    · iapply (owesB_within (F := F) c _); iexact HO
    isplitr; · iempintro
    iexact Hrest
  hin c := by
    rw [fam1_self, rdat1_Φ]
    iintro ⟨-, -, HR⟩; iexact HR
  hout c := by
    rw [fam1_self, Pipeline.ownSems0_none, rdat1_Φ]
    iintro HR
    isplitr; · iempintro
    isplitr; · iempintro
    iexact HR
  hexit c := by
    rw [fam1_self]
    unfold Pipeline.RDat.owesAt
    rw [rdat1_owed, rdat1_bound]
    iintro ⟨Harr, HO, -, HZ⟩
    imodintro
    unfold post1
    isplitl [Harr]; · iexact Harr
    isplitl [HZ]; · iexact HZ
    iapply (within_owesB (F := F) c (Pipeline.pin (pcfgs (F := F)) adm 0)); iexact HO

end Region

end Cert.KernelIdeal.Tc

end
-- ==== Proof.TcLift.lean ====
/-
  A TensorCore custom call of the pipelines' signature, proved under the pipelines' body table, is the same call of
  the SparseCore program's extended signature under its extended body table.
-/
import proofs.«209750_g45337674776763_cont_8to1c4_158_37_alg».proof.Proof.TcGhost

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.TcCoe

variable {F : FTy → Type} [FloatOps F]

local notation "𝕄" => MT nD τ sig (HIx 1) (Elt F) ℕ UU ℕ

/-- The call of pipeline `p`'s region in the pipelines' signature, -/
abbrev callP (p : Fin 2) : Prog (TpuEff nD τ sig (Elt F) (ΛP (F := F)) .tc) PUnit :=
  .op (.customCall (Pipeline.entry p) ()) fun _ => .ret ⟨⟩

/-- and in the extended one, as @main prints it. -/
abbrev callS (p : Fin 2) : Prog (TpuEff nD τ sig (Elt F) (SparseCore.Sig (ΛP (F := F)) 1) .tc) PUnit :=
  Prog.lift (.customCall (SparseCore.inner (Pipeline.entry p)) ())

set_option backward.isDefEq.respectTransparency.types false in
/-- Lifting the one is the other. -/
theorem liftProg_callP (p : Fin 2) : SparseCore.liftProg (Q := 1) (callP (F := F) p) = callS (F := F) p := rfl

set_option backward.isDefEq.respectTransparency.types false in
theorem wp_callS (p : Fin 2) (d : Dev nD) (Φ : PUnit → sProp 𝕄) :
    wp frame (wpE (D (F := F)) 𝒱 (T d) none) Set.univ (callP (F := F) p) Φ
      ⊢ wp frame (wpE ((K (F := F)).defs (D (F := F))) 𝒱 (T d) none) Set.univ (callS (F := F) p) Φ := by
  rw [← liftProg_callP]
  exact (K (F := F)).wp_liftProg (D (F := F)) 𝒱 (T d) Set.univ none (callP (F := F) p) Φ

end Cert.KernelIdeal.Tc

end
-- ==== Proof.TcRegion1W.lean ====
/-
  The first TensorCore region as a step of @main inside the SparseCore program: the regions kit's rule for the
  region's record, in the pipelines' own body table, then lifted to the extended table.
-/
import proofs.«209750_g45337674776763_cont_8to1c4_158_37_alg».proof.Proof.TcRegion1
import proofs.«209750_g45337674776763_cont_8to1c4_158_37_alg».proof.Proof.TcLift

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₁ : Valuation τ sig (Elt F)) (lv : GSem nD τ sig → HIx 1 → ℕ)

/-- The program's staging cells are pairwise distinct, in the form the regions kit takes. -/
theorem phinj : Function.Injective (Pipeline.cellOf (nD := nD) (τ := τ) (Pipeline.pin (pcfgs (F := F)) adm)) :=
  (launch1.toP (Val := Elt F)).cellOf_inj adm

set_option backward.isDefEq.respectTransparency.types false in
set_option maxHeartbeats 800000 in
theorem region1_pipe (hbody : ∀ c, (rdat1 W₁ c).BodyObligation defs₀ 𝒱₀ ι₀ Set.univ) (d : Dev nD) (Φ : PUnit → sProp 𝕄) :
    iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1 W₁ d) -∗ Φ ⟨⟩))
      ⊢ wp frame (wpE (D (F := F)) 𝒱 (T d) none) Set.univ (callP (F := F) 0) Φ := by
  have h := Pipeline.RDat.RegionSeg.wp (pcfgs (F := F)) adm (fam1 W₁) ι₀ (phinj (F := F)) (EP (F := F)) defs₀ 𝒱₀ (KL (F := F)) lv
    (reg1 W₁ lv hbody) d none (fun _ h => nomatch h) (fun _ => .ret ⟨⟩) Φ
  have e : iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1 W₁ d) -∗ Φ ⟨⟩))
      ⊢ iprop((iprop(boundary (T d) ∗ post1 W₁ d) -∗ wp frame (wpE (D (F := F)) 𝒱 (T d) none) Set.univ (Prog.ret PUnit.unit) Φ)
        ∗ boundary (T d) ∗ iprop(unscopedBufs d (fun b => W₁ b) ∗ owesB (F := F) d) ∗ levAts (KL (F := F)) lv
        ∗ Pipeline.cellsGhost (Pipeline.pin (pcfgs (F := F)) adm) (EP (F := F)) 0 d ∗ Pipeline.toksInit (Pipeline.pin (pcfgs (F := F)) adm) (EP (F := F)) 0 d) := by
    iintro ⟨Hlev, Hb, Hbufs, HO, Hg, Ht, Hk⟩
    isplitl [Hk]
    · iintro H
      rw [wp_ret]
      imodintro
      iapply Hk; iexact H
    isplitl [Hb]; · iexact Hb
    isplitl [Hbufs HO]
    · isplitl [Hbufs] <;> iassumption
    isplitl [Hlev]; · iexact Hlev
    isplitl [Hg] <;> iassumption
  exact e.trans h

/-- The region as @main's line in the SparseCore program. -/
theorem region1_raw (hbody : ∀ c, (rdat1 W₁ c).BodyObligation defs₀ 𝒱₀ ι₀ Set.univ) (d : Dev nD) (Φ : PUnit → sProp 𝕄) :
    iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1 W₁ d) -∗ Φ ⟨⟩))
      ⊢ wp frame (wpE ((K (F := F)).defs (D (F := F))) 𝒱 (T d) none) Set.univ (callS (F := F) 0) Φ :=
  (region1_pipe W₁ lv hbody d Φ).trans (wp_callS 0 d Φ)

end Region

end Cert.KernelIdeal.Tc

end
-- ==== Proof.TcExit1.lean ====
/-
  What the first region leaves, read as a valuation again: the windows' arrays after the write-backs and the other
  unscoped buffers are the TensorCore's unscoped buffers at a valuation that agrees with the entry valuation off the
  region's two result arrays — an input array is never written back to, so it holds its entry contents still.
-/
import proofs.«209750_g45337674776763_cont_8to1c4_158_37_alg».proof.Proof.TcRegion1W

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Exit

variable [FloatOps F] [∀ e, Nonempty (Elt F e)] (W : Valuation τ sig (Elt F))

local notation "cfgA" => Pipeline.pin (pcfgs (F := F)) adm 0

/-- The region's two result arrays, as device buffers. -/
abbrev outs1 : Finset (DevRef τ sig) := {Proc.devRef .tc (main_v23_0 : Ref sig .tc), Proc.devRef .tc (main_v23_1 : Ref sig .tc)}

/-- A conjunction of pure facts gives each. -/
theorem pure_of_bigSep {I : Type} [DecidableEq I] (s : Finset I) (P : I → Prop) (i : I) (hi : i ∈ s) :
    (bigSep s fun w => (iprop(⌜P w⌝) : sProp 𝕄)) ⊢ (iprop(⌜P i⌝) : sProp 𝕄) :=
  bigSep_elim (Φ := fun w => (iprop(⌜P w⌝) : sProp 𝕄)) hi

theorem share1 (d : Dev nD) (w : Fin (cfgA).W) : (rdat1 W d).share w = fullShare :=
  Pipeline.RDat.share_full _ (rdat1_q W d) w

/-- The arrays after the write-backs: some contents per window, the inputs' the entry contents, all held whole. -/
theorem arraysAt1_elim (d : Dev nD) :
    ((rdat1 W d).arraysAt (cfgA).N : sProp 𝕄)
      ⊢ iprop(∃ Fs : (w : Fin (cfgA).W) → Buf (Elt F) (((cfgA).win w).arr.view.loc (d.tc : Thread nD τ)),
          ⌜Fs 0 = (rdat1 W d).A 0 ∧ Fs 1 = (rdat1 W d).A 1 ∧ Fs 2 = (rdat1 W d).A 2 ∧ Fs 3 = (rdat1 W d).A 3⌝
          ∗ bigSep Finset.univ fun w => (((d.tc : Thread nD τ).loc (Pipeline.arrRef (cfgA).spec w)) ↦{fullShare} Fs w : sProp 𝕄)) := by
  unfold Pipeline.RDat.arraysAt
  refine (bigSep_exists_pi Finset.univ _).trans ?_
  iintro ⟨%Fs, H⟩
  iexists Fs
  ihave H' := (Entails.of_eq (bigSep_sep' (Finset.univ : Finset (Fin (cfgA).W))
    (fun w => (iprop(⌜(rdat1 W d).ArrAt w (cfgA).N (Fs w)⌝) : sProp 𝕄))
    (fun w => (((cfgA).win w).arr.view.loc (d.tc : Thread nD τ) ↦[((cfgA).win w).arr.view.set]{(rdat1 W d).share w} Fs w : sProp 𝕄)))) $$ H
  icases H' with ⟨Hp, Ha⟩
  isplitl [Hp]
  · icases Hp with #Hp
    ihave %h0 := (pure_of_bigSep (F := F) Finset.univ (fun w => (rdat1 W d).ArrAt w (cfgA).N (Fs w)) (0 : Fin (cfgA).W) (Finset.mem_univ _)) $$ Hp
    ihave %h1 := (pure_of_bigSep (F := F) Finset.univ (fun w => (rdat1 W d).ArrAt w (cfgA).N (Fs w)) (1 : Fin (cfgA).W) (Finset.mem_univ _)) $$ Hp
    ihave %h2 := (pure_of_bigSep (F := F) Finset.univ (fun w => (rdat1 W d).ArrAt w (cfgA).N (Fs w)) (2 : Fin (cfgA).W) (Finset.mem_univ _)) $$ Hp
    ihave %h3 := (pure_of_bigSep (F := F) Finset.univ (fun w => (rdat1 W d).ArrAt w (cfgA).N (Fs w)) (3 : Fin (cfgA).W) (Finset.mem_univ _)) $$ Hp
    ipureintro
    rw [(rdat1 W d).ArrAt_in 0 rfl] at h0
    rw [(rdat1 W d).ArrAt_in 1 rfl] at h1
    rw [(rdat1 W d).ArrAt_in 2 rfl] at h2
    rw [(rdat1 W d).ArrAt_in 3 rfl] at h3
    exact ⟨h0, h1, h2, h3⟩
  · have e : (bigSep Finset.univ fun w => ((cfgA).win w).arr.view.loc (d.tc : Thread nD τ) ↦[((cfgA).win w).arr.view.set]{(rdat1 W d).share w} Fs w : sProp 𝕄)
        = (rdat1 W d).arrays Fs := rfl
    have e' := Pipeline.RDat.arrays_eq (pcfgs (F := F)) adm (fam1 W) 0 d arr_whole1 (fun w => by rw [fam1_self]; exact share1 W d w) Fs
    rw [fam1_self] at e'
    have h : (bigSep Finset.univ fun w => ((cfgA).win w).arr.view.loc (d.tc : Thread nD τ) ↦[((cfgA).win w).arr.view.set]{(rdat1 W d).share w} Fs w : sProp 𝕄)
        ⊢ bigSep Finset.univ fun w => (((d.tc : Thread nD τ).loc (Pipeline.arrRef (cfgA).spec w)) ↦{fullShare} Fs w : sProp 𝕄) :=
      Entails.of_eq (e.trans e')
    iapply h; iexact Ha

/-- The two result arrays' device buffers. -/
abbrev o0 : DevRef τ sig := Proc.devRef .tc (main_v23_0 : Ref sig .tc)
abbrev o1 : DevRef τ sig := Proc.devRef .tc (main_v23_1 : Ref sig .tc)

/-- The windows' arrays, as TensorCore references of the printed signature (no float instance in them). -/
theorem arrRef1 (w : Fin 6) : Pipeline.arrRef (Pipeline.pin (pcfgs (F := F)) adm 0).spec w = Pipeline.arrRef spec1 w := rfl
theorem arr4 : (Proc.devRef .tc (Pipeline.arrRef spec1 4) : DevRef τ sig) = o0 := by decide
theorem arr5 : (Proc.devRef .tc (Pipeline.arrRef spec1 5) : DevRef τ sig) = o1 := by decide
theorem in_ne0 : ∀ w : Fin 6, w.val < 4 → (Proc.devRef .tc (Pipeline.arrRef spec1 w) : DevRef τ sig) ≠ o0 := by decide
theorem in_ne1 : ∀ w : Fin 6, w.val < 4 → (Proc.devRef .tc (Pipeline.arrRef spec1 w) : DevRef τ sig) ≠ o1 := by decide
theorem o0_ne_o1 : (o0 : DevRef τ sig) ≠ o1 := by decide

set_option maxHeartbeats 1000000 in
theorem post1_held (d : Dev nD) :
    (post1 W d : sProp 𝕄) ⊢ iprop(∃ W' : Valuation τ sig (Elt F), ⌜∀ b, b ∉ outs1 → W' b = W b⌝ ∗ unscopedBufs d (fun b => W' b) ∗ owesB (F := F) d) := by
  unfold post1
  iintro ⟨Harr, Hrest, HO⟩
  ihave H := (arraysAt1_elim W d) $$ Harr
  icases H with ⟨%Fs, %hin, Ha⟩
  obtain ⟨h0, h1, h2, h3⟩ := hin
  -- the two results' contents, typed as the valuation types them
  obtain ⟨g4, hg4⟩ : ∃ g4 : BufTy.Contents (Elt F) (o0 : DevRef τ sig).ty, g4 = Fs 4 := ⟨Fs 4, rfl⟩
  obtain ⟨g5, hg5⟩ : ∃ g5 : BufTy.Contents (Elt F) (o1 : DevRef τ sig).ty, g5 = Fs 5 := ⟨Fs 5, rfl⟩
  iexists (Function.update (Function.update W o0 g4) o1 g5)
  isplitr
  · ipureintro
    intro b hb
    have hb0 : b ≠ o0 := fun h => hb (by rw [h]; exact Finset.mem_insert_self _ _)
    have hb1 : b ≠ o1 := fun h => hb (by rw [h]; exact Finset.mem_insert_of_mem (Finset.mem_singleton_self _))
    exact (Function.update_of_ne hb1 _ _).trans (Function.update_of_ne hb0 _ _)
  isplitr [HO]
  · rw [Pipeline.unscopedBufs_split (Pipeline.pin (pcfgs (F := F)) adm) 0 winFacts1.arr_unscoped winFacts1.arr_inj d]
    isplitl [Ha]
    · have hFs : ∀ w : Fin (cfgA).W, Fs w = Function.update (Function.update W o0 g4) o1 g5 (Proc.devRef .tc (Pipeline.arrRef (cfgA).spec w)) := by
        intro w
        rcases w with ⟨n, hn⟩
        have hn6 : n < 6 := hn
        match n, hn, hn6 with
        | 0, _, _ => exact h0.trans ((rdat1_A W d 0).trans ((Function.update_of_ne (in_ne1 0 (by decide)) _ _).trans (Function.update_of_ne (in_ne0 0 (by decide)) _ _)).symm)
        | 1, _, _ => exact h1.trans ((rdat1_A W d 1).trans ((Function.update_of_ne (in_ne1 1 (by decide)) _ _).trans (Function.update_of_ne (in_ne0 1 (by decide)) _ _)).symm)
        | 2, _, _ => exact h2.trans ((rdat1_A W d 2).trans ((Function.update_of_ne (in_ne1 2 (by decide)) _ _).trans (Function.update_of_ne (in_ne0 2 (by decide)) _ _)).symm)
        | 3, _, _ => exact h3.trans ((rdat1_A W d 3).trans ((Function.update_of_ne (in_ne1 3 (by decide)) _ _).trans (Function.update_of_ne (in_ne0 3 (by decide)) _ _)).symm)
        | 4, _, _ =>
          show Fs 4 = Function.update (Function.update W o0 g4) o1 g5 o0
          exact hg4.symm.trans ((Function.update_of_ne o0_ne_o1 g5 (Function.update W o0 g4)).trans (Function.update_self o0 g4 W)).symm
        | 5, _, _ =>
          show Fs 5 = Function.update (Function.update W o0 g4) o1 g5 o1
          exact hg5.symm.trans (Function.update_self o1 g5 (Function.update W o0 g4)).symm
        | k + 6, _, h6 => exact absurd h6 (by omega)
      have hA : (bigSep Finset.univ fun w : Fin (cfgA).W => (((d.tc : Thread nD τ).loc (Pipeline.arrRef (cfgA).spec w)) ↦{fullShare} Fs w : sProp 𝕄))
          ⊢ bigSep Finset.univ fun w : Fin (cfgA).W => (((d.tc : Thread nD τ).loc (Pipeline.arrRef (cfgA).spec w))
              ↦{fullShare} Function.update (Function.update W o0 g4) o1 g5 (Proc.devRef .tc (Pipeline.arrRef (cfgA).spec w)) : sProp 𝕄) :=
        Entails.of_eq (bigSep_congr fun w _ => by rw [← hFs w])
      iapply hA; iexact Ha
    · have hne : ∀ b : Ref sig .tc, b ∉ Finset.univ.image (Pipeline.arrRef (cfgA).spec)
          → (Proc.devRef .tc b : DevRef τ sig) ≠ o0 ∧ (Proc.devRef .tc b : DevRef τ sig) ≠ o1 := by
        intro b hb
        refine ⟨fun h => hb ?_, fun h => hb ?_⟩
        · rw [← arr4] at h
          exact Finset.mem_image.mpr ⟨4, Finset.mem_univ _, (arrRef1 (F := F) 4).trans (Proc.devRef_injective _ h).symm⟩
        · rw [← arr5] at h
          exact Finset.mem_image.mpr ⟨5, Finset.mem_univ _, (arrRef1 (F := F) 5).trans (Proc.devRef_injective _ h).symm⟩
      have hB : (Pipeline.unscopedRest (cfgA).spec d (fun b => W b) : sProp 𝕄)
          ⊢ Pipeline.unscopedRest (cfgA).spec d (fun b => Function.update (Function.update W o0 g4) o1 g5 b) := by
        unfold Pipeline.unscopedRest
        exact Entails.of_eq (bigSep_congr fun b hb => by
          obtain ⟨n0, n1⟩ := hne b (Finset.mem_sdiff.mp hb).2
          exact congrArg (fun x => (((d.tc : Thread nD τ).loc b) ↦{fullShare} x : sProp 𝕄))
            ((Function.update_of_ne n1 g5 (Function.update W o0 g4)).trans (Function.update_of_ne n0 g4 W)).symm)
      iapply hB; iexact Hrest
  iexact HO

end Exit

end Cert.KernelIdeal.Tc

end
-- ==== Proof.TcBody1.lean ====
/-
  The body obligation of the first TensorCore kernel (grid 4 x 7; four input windows, two output windows, the second
  accumulated over the inner grid axis under two conditions on its coordinate), at frame level: from its six current
  staging buffers at any contents the body runs, whichever way the two conditions fall — the four inputs are only
  loaded and come back as they were, the two outputs come back at some contents —; the region's invariant and the
  core's debt are untouched.
-/
import proofs.«209750_g45337674776763_cont_8to1c4_158_37_alg».proof.Proof.TcGhost
import proofs.«209750_g45337674776763_cont_8to1c4_158_37_alg».proof.Proof.Gen.KernelIdeal.Skeleton
import Idealize.ShloMosaic.Lib.Exec

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Tactic

variable {F : FTy → Type}

local notation "𝕄" => MT nD τ sig (HIx 1) (Elt F) ℕ UU ℕ

variable [FloatOps F]

set_option maxHeartbeats 8000000 in
/-- The kernel at any grid point on any six whole memrefs held at any contents: both conditions decided either way. -/
theorem run1 (c : Dev nD) (i : grid1.Coords)
    (M2 : Memref sig .tc .vmem S1x512x8 .f32) (h2 : M2.IsWhole) (M3 : Memref sig .tc .vmem S1x512x8 .f32) (h3 : M3.IsWhole)
    (M4 : Memref sig .tc .vmem S1x8x4096 .f32) (h4 : M4.IsWhole) (M5 : Memref sig .tc .vmem S1x8x4096 .f32) (h5 : M5.IsWhole)
    (M6 : Memref sig .tc .vmem S1x1x512 .f32) (h6 : M6.IsWhole) (M7 : Memref sig .tc .vmem S1x1x4096 .f32) (h7 : M7.IsWhole)
    (y2 : S1x512x8.Idx → Elt F .f32) (y3 : S1x512x8.Idx → Elt F .f32) (y4 : S1x8x4096.Idx → Elt F .f32)
    (y5 : S1x8x4096.Idx → Elt F .f32) (y6 : S1x1x512.Idx → Elt F .f32) (y7 : S1x1x4096.Idx → Elt F .f32) (K : PUnit → sProp 𝕄) :
    iprop(owns (c : Thread nD τ) M2 fullShare y2 ∗ owns (c : Thread nD τ) M3 fullShare y3 ∗ owns (c : Thread nD τ) M4 fullShare y4
        ∗ owns (c : Thread nD τ) M5 fullShare y5 ∗ owns (c : Thread nD τ) M6 fullShare y6 ∗ owns (c : Thread nD τ) M7 fullShare y7
        ∗ (iprop(owns (c : Thread nD τ) M2 fullShare y2 ∗ owns (c : Thread nD τ) M3 fullShare y3 ∗ owns (c : Thread nD τ) M4 fullShare y4
            ∗ owns (c : Thread nD τ) M5 fullShare y5 ∗ (∃ x, owns (c : Thread nD τ) M6 fullShare x) ∗ (∃ x, owns (c : Thread nD τ) M7 fullShare x)) -∗ K ⟨⟩))
      ⊢ wp frame (wpE (defs₀ (F := F)) 𝒱₀ (c : Thread nD τ) none) Set.univ (cc1__tc_nn_body i M2 h2 M3 h3 M4 h4 M5 h5 M6 h6 M7 h7) K := by
  unfold owns
  rw [cc1__tc_nn_body_eq_skeleton]; unfold cc1__tc_nn_body_skel
  rw [k1_part1_eq_skeleton]; unfold k1_part1_skel
  iintro ⟨⟨%f2, %e2, H2⟩, ⟨%f3, %e3, H3⟩, ⟨%f4, %e4, H4⟩, ⟨%f5, %e5, H5⟩, ⟨%f6, -, H6⟩, ⟨%f7, -, H7⟩, Hk⟩
  by_cases hc1 : k1_cond1 i = 1#1 <;> by_cases hc2 : k1_cond2 i = 1#1
  all_goals
    sl_exec (disch := first | exact hc1 | exact hc2)
    rw [wp_ret]
    imodintro
    iapply Hk
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]
    · iexists _; iexists _; isplitr
      swap; · iexact H6
      ipureintro; rfl
    iexists _; iexists _; isplitr
    swap; · iexact H7
    ipureintro; rfl

section Obligation

variable (W : Valuation τ sig (Elt F))

theorem rdat1_Φ' (c : Dev nD) (t : Fin ((Pipeline.pin (pcfgs (F := F)) adm 0).N + 1)) :
    (rdat1 W c).Φ t = Pipeline.scopedRest (Pipeline.pin (pcfgs (F := F)) adm 0).spec c := by dsimp only [rdat1]
theorem rdat1_owesAt (c : Dev nD) (t : Fin ((Pipeline.pin (pcfgs (F := F)) adm 0).N + 1)) :
    ((rdat1 W c).owesAt ι₀ t : sProp 𝕄)
      = Pipeline.owesWithin c (0 : CellTallies nD τ sig (HIx 1)) (recB (F := F) c ∪ (Pipeline.pin (pcfgs (F := F)) adm 0).waitPairs ι₀) := rfl

set_option maxHeartbeats 4000000 in
/-- The body obligation of pipeline 0 at frame level. -/
theorem body1 (c : Dev nD) : (rdat1 W c).BodyObligation defs₀ 𝒱₀ ι₀ Set.univ := fun t Y _ => by
  rw [bigSep_W1, bigSep_W1, rdat1_Φ', rdat1_Φ', rdat1_owesAt, rdat1_owesAt]
  show _ ⊢ wp frame (wpE (defs₀ (F := F)) 𝒱₀ (c : Thread nD τ) none) Set.univ (bodyAt1 (F := F) t) _
  iintro ⟨HΦ, HO, Y0, Y1, Y2, Y3, Y4, Y5⟩
  iapply (run1 c _ _ _ _ _ _ _ _ _ _ _ _ _ (Y 0) (Y 1) (Y 2) (Y 3) (Y 4) (Y 5))
  isplitl [Y0]; · iexact Y0
  isplitl [Y1]; · iexact Y1
  isplitl [Y2]; · iexact Y2
  isplitl [Y3]; · iexact Y3
  isplitl [Y4]; · iexact Y4
  isplitl [Y5]; · iexact Y5
  iintro ⟨Y0, Y1, Y2, Y3, ⟨%x4, Y4⟩, ⟨%x5, Y5⟩⟩
  isplitl [HΦ]; · iexact HΦ
  isplitl [HO]; · iexact HO
  isplitl [Y0]; · iexists (Y 0); isplitr; · ipureintro; trivial
                  iexact Y0
  isplitl [Y1]; · iexists (Y 1); isplitr; · ipureintro; trivial
                  iexact Y1
  isplitl [Y2]; · iexists (Y 2); isplitr; · ipureintro; trivial
                  iexact Y2
  isplitl [Y3]; · iexists (Y 3); isplitr; · ipureintro; trivial
                  iexact Y3
  isplitl [Y4]; · iexists x4; isplitr; · ipureintro; trivial
                  iexact Y4
  iexists x5; isplitr; · ipureintro; trivial
  iexact Y5

end Obligation

end Cert.KernelIdeal.Tc

end
-- ==== Proof.TcFund.lean ====
/-
  The pipelines' share of the launch element: from the rounds library's launch element at the two pipelines' staging
  cells and the transfers their loops issue, every device's cell ghost state and duty tokens for both pipelines — what
  the first region consumes the first half of and the second region the second.
-/
import proofs.«209750_g45337674776763_cont_8to1c4_158_37_alg».proof.Proof.TcRegion1W

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

variable [FloatOps F]

/-- The pipelines' component of the launch element. -/
def uP : UP := initOf (Pipeline.cells (nD := nD) (τ := τ) (Pipeline.pin (pcfgs (F := F)) adm) (phinj (F := F)))
  (Pipeline.launchToks (nD := nD) (τ := τ) (Pipeline.pin (pcfgs (F := F)) adm) (phinj (F := F)))

/-- What pipeline `p`'s region consumes on device `d`. -/
abbrev Gp (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- What the launch leaves device `d` for the two regions. -/
def G (d : Dev nD) : sProp 𝕄 := iprop(Gp (F := F) 0 d ∗ Gp (F := F) 1 d)

theorem bigSep_Fin2 {M : Type} [URA M] (Φ : Fin 2 → sProp M) : bigSep Finset.univ Φ = iprop(Φ 0 ∗ Φ 1) :=
  bigSep_univ_eq_bigSepL [(0 : Fin 2), (1 : Fin 2)] (by decide) (by decide) Φ

/-- One device's share, regrouped per pipeline. -/
theorem G_of (d : Dev nD) :
    iprop((bigSep Finset.univ fun p => Pipeline.cellsGhost (Pipeline.pin (pcfgs (F := F)) adm) (EP (F := F)) p d)
        ∗ (bigSep Finset.univ fun p => (Pipeline.toksInit (Pipeline.pin (pcfgs (F := F)) adm) (EP (F := F)) p d : sProp 𝕄)))
      ⊢ G (F := F) d := by
  rw [bigSep_Fin2, bigSep_Fin2]
  unfold G
  iintro ⟨⟨Hg0, Hg1⟩, ⟨Ht0, Ht1⟩⟩
  isplitl [Hg0 Ht0]
  · isplitl [Hg0] <;> iassumption
  isplitl [Hg1] <;> iassumption

/-- Funding: the pipelines' launch element yields every device's `G`. -/
theorem fundG : (BI.own (EP (F := F) (uP (F := F))) : sProp 𝕄) ⊢ |={Set.univ}=> bigSep Finset.univ (G (F := F)) := by
  unfold uP
  iintro Hu
  imod (Pipeline.fund_ghost (Pipeline.pin (pcfgs (F := F)) adm) (EP (F := F)) (phinj (F := F))) $$ Hu with ⟨Hg, Ht⟩
  imodintro
  ihave H := (Entails.of_eq (bigSep_sep' (Finset.univ : Finset (Dev nD))
    (fun c => bigSep Finset.univ fun p => Pipeline.cellsGhost (Pipeline.pin (pcfgs (F := F)) adm) (EP (F := F)) p c)
    (fun c => bigSep Finset.univ fun p => (Pipeline.toksInit (Pipeline.pin (pcfgs (F := F)) adm) (EP (F := F)) p c : sProp 𝕄))).symm) $$ [Hg Ht]
  · isplitl [Hg] <;> iassumption
  have hm : (bigSep (Finset.univ : Finset (Dev nD)) fun d => iprop((bigSep Finset.univ fun p => Pipeline.cellsGhost (Pipeline.pin (pcfgs (F := F)) adm) (EP (F := F)) p d)
        ∗ (bigSep Finset.univ fun p => (Pipeline.toksInit (Pipeline.pin (pcfgs (F := F)) adm) (EP (F := F)) p d : sProp 𝕄))) : sProp 𝕄)
      ⊢ bigSep Finset.univ (G (F := F)) := bigSep_mono fun d _ => G_of (F := F) d
  iapply hm; iexact H

end Cert.KernelIdeal.Tc

end
-- ==== Proof.TcStep0.lean ====
/-
  The first TensorCore region as one step of @main's proof inside the SparseCore program, at frame level, with nothing
  left as a hypothesis: from the handshakes' persistent context (for its level facts), the TensorCore's handshake state
  after the one SparseCore call, the region boundary, the unscoped buffers held at a valuation, and what the launch
  funded for the two pipelines, the custom call runs; afterwards the same are held, at a valuation that agrees with
  the entry one off the region's two result arrays, and the second pipeline's funded share remains.
-/
import proofs.«209750_g45337674776763_cont_8to1c4_158_37_alg».proof.Proof.TcExit1
import proofs.«209750_g45337674776763_cont_8to1c4_158_37_alg».proof.Proof.TcBody1
import proofs.«209750_g45337674776763_cont_8to1c4_158_37_alg».proof.Proof.TcFund
import Idealize.ShloMosaic.Lib.Pipeline.Frame

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Step

variable [FloatOps F] [∀ e, Nonempty (Elt F e)]

/-- The TensorCore's handshake state after the one call gives up its debt and takes it back. -/
theorem tcSt_owesB (d : Dev nD) :
    ((K (F := F)).tcSt (EH (F := F)) d 1 : sProp 𝕄) ⊢ iprop(owesB (F := F) d ∗ (owesB (F := F) d -∗ (K (F := F)).tcSt (EH (F := F)) d 1)) := by
  unfold SparseCore.Cfg.tcSt owesB
  iintro ⟨HO, Hrest⟩
  isplitl [HO]; · iexact HO
  iintro HO
  isplitl [HO]; · iexact HO
  iexact Hrest

theorem G_def (d : Dev nD) : (G (F := F) d : sProp 𝕄) = iprop(Gp (F := F) 0 d ∗ Gp (F := F) 1 d) := by unfold G; rfl

/-- The first region, as a step. -/
theorem region_step0 (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx (EH (F := F)) P κ ∗ (K (F := F)).tcSt (EH (F := F)) d 1 ∗ boundary (T d)
        ∗ StableHlo.held (T d) (Pipeline.ucRefs τ sig) W ∗ G (F := F) d
        ∗ (∀ W' : Valuation τ sig (Elt F), ⌜∀ b, b ∉ outs1 → W' b = W b⌝ -∗
            iprop((K (F := F)).tcSt (EH (F := F)) d 1 ∗ boundary (T d) ∗ StableHlo.held (T d) (Pipeline.ucRefs τ sig) W' ∗ Gp (F := F) 1 d) -∗ Φ ⟨⟩))
      ⊢ wp frame (wpE ((K (F := F)).defs (D (F := F))) 𝒱 (T d) none) Set.univ
          (Prog.lift (.customCall (SparseCore.inner (Pipeline.entry 0)) ())) Φ := by
  have eW := Pipeline.unscopedBufs_held (nD := nD) (τ := τ) (sig := sig) (Val := Elt F) (Ix := HIx 1) (Name := ℕ) (U := UU) (Lvl := ℕ) d W
  iintro ⟨#Hctx, Hst, Hb, Hheld, HG, Hk⟩
  ihave Hlev := (SparseCore.Cfg.ctx_levAts κ) $$ Hctx
  ihave Hs := (tcSt_owesB (F := F) d) $$ Hst
  icases Hs with ⟨HO, Hback⟩
  ihave HG' := (Entails.of_eq (G_def (F := F) d)) $$ HG
  icases HG' with ⟨⟨Hg0, Ht0⟩, HG1⟩
  ihave Hbufs := (Entails.of_eq eW.symm) $$ Hheld
  iapply (region1_raw W (K (F := F)).lev (body1 W) d Φ)
  isplitl [Hlev]; · iexact Hlev
  isplitl [Hb]; · iexact Hb
  isplitl [Hbufs]; · iexact Hbufs
  isplitl [HO]; · iexact HO
  isplitl [Hg0]; · iexact Hg0
  isplitl [Ht0]; · iexact Ht0
  iintro ⟨Hb, Hpost⟩
  ihave H := (post1_held W d) $$ Hpost
  icases H with ⟨%W', %hW', Hbufs', HO⟩
  ihave Hst := Hback $$ HO
  have eW' := Pipeline.unscopedBufs_held (nD := nD) (τ := τ) (sig := sig) (Val := Elt F) (Ix := HIx 1) (Name := ℕ) (U := UU) (Lvl := ℕ) d W'
  ihave Hheld' := (Entails.of_eq eW') $$ Hbufs'
  iapply Hk $$ %W' %hW' [Hst Hb Hheld' HG1]
  isplitl [Hst]; · iexact Hst
  isplitl [Hb]; · iexact Hb
  isplitl [Hheld']; · iexact Hheld'
  iexact HG1

end Step

end Cert.KernelIdeal.Tc

end
-- ==== Proof.TcRegion2.lean ====
/-
  The second TensorCore region (pipeline 1: no grid, five windows, the output a 1 x 1 scalar in SMEM) entered from
  inside the SparseCore program, at frame level: the regions kit's record for it, as for the first region.
-/
import proofs.«209750_g45337674776763_cont_8to1c4_158_37_alg».proof.Proof.TcRegion1

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

/-! ## The region record -/

section Region

variable [FloatOps F] [∀ e, Nonempty (Elt F e)] (W₂ : Valuation τ sig (Elt F)) (lv : GSem nD τ sig → HIx 1 → ℕ)

/-- Pipeline 1's datum as the family the regions kit takes (the other pipeline's is trivial). -/
abbrev fam2 : (p : Fin 2) → (c : Dev nD) → Pipeline.RDat τ (Elt F) (HIx 1) ℕ UU ℕ (Pipeline.pin (pcfgs (F := F)) adm p) c :=
  Pipeline.RDat.familyOf (pcfgs (F := F)) adm 1 (rdat2 W₂)

/-- What the region leaves: the windows' arrays at some contents they may hold after every write-back, the other
    unscoped buffers as they were, the debt as it was. -/
def post2 (c : Dev nD) : sProp 𝕄 :=
  iprop((rdat2 W₂ c).arraysAt (Pipeline.pin (pcfgs (F := F)) adm 1).N
    ∗ Pipeline.unscopedRest (Pipeline.pin (pcfgs (F := F)) adm 1).spec c (fun b => W₂ b) ∗ owesB (F := F) c)

theorem fam2_self (c : Dev nD) : fam2 W₂ 1 c = rdat2 W₂ c := Pipeline.RDat.familyOf_self (pcfgs (F := F)) adm 1 (rdat2 W₂) c
-- the invariant is never compared by unfolding: the projection is reduced, the scoped rest stays folded
theorem rdat2_Φ (c : Dev nD) (t : Fin ((Pipeline.pin (pcfgs (F := F)) adm 1).N + 1)) :
    (rdat2 W₂ c).Φ t = Pipeline.scopedRest (Pipeline.pin (pcfgs (F := F)) adm 1).spec c := by dsimp only [rdat2]
theorem rdat2_A (c : Dev nD) (w : Fin (Pipeline.pin (pcfgs (F := F)) adm 1).W) :
    (rdat2 W₂ c).A w = W₂ (Pipeline.arrRef (Pipeline.pin (pcfgs (F := F)) adm 1).spec w) := by dsimp only [rdat2]
theorem rdat2_q (c : Dev nD) (w : Fin (Pipeline.pin (pcfgs (F := F)) adm 1).W) : (rdat2 W₂ c).q w = fullShare := by dsimp only [rdat2]
theorem rdat2_owed (c : Dev nD) (t) : (rdat2 W₂ c).owed t = 0 := rfl
theorem rdat2_bound (c : Dev nD) (t) :
    (rdat2 W₂ c).bound ι₀ t = recB (F := F) c ∪ (Pipeline.pin (pcfgs (F := F)) adm 1).waitPairs ι₀ := rfl

def reg2 (hbody : ∀ c, (rdat2 W₂ c).BodyObligation defs₀ 𝒱₀ ι₀ Set.univ) :
    Pipeline.RDat.RegionSeg (pcfgs (F := F)) adm (fam2 W₂) ι₀ defs₀ 𝒱₀ (KL (F := F)) lv 1 where
  win := winFacts2.to₀
  block_pos := block_pos2
  stage_whole := stage_whole2
  K := PEmpty
  osem k := k.elim
  ho := Pipeline.OwnSemFacts.none _
  hbody c := by rw [fam2_self]; exact hbody c
  hwaits := Pipeline.RDat.hwaits_of_owed_zero _ _ _ _ _ _ 1 fun c t => by rw [fam2_self]; exact rdat2_owed W₂ c t
  pre c := iprop(unscopedBufs c (fun b => W₂ b) ∗ owesB (F := F) c)
  post c := post2 W₂ c
  X _ := iprop(emp)
  Y _ := iprop(emp)
  Z c := Pipeline.unscopedRest (Pipeline.pin (pcfgs (F := F)) adm 1).spec c (fun b => W₂ b)
  hentry c := by
    rw [fam2_self, Pipeline.ownSems0_none, prefHeld_none]
    unfold Pipeline.RDat.owesAt
    rw [rdat2_owed, rdat2_bound]
    iintro ⟨⟨Hb, HO⟩, -, -⟩
    ihave Ha := (Pipeline.RDat.arrays_of_unscopedBufs (pcfgs (F := F)) adm (fam2 W₂) (p := 1) winFacts2 arr_whole2 c
      (fun w => by rw [fam2_self]; exact Pipeline.RDat.share_full _ (rdat2_q W₂ c) w) (fun b => W₂ b)
      (fun w => by rw [fam2_self]; exact rdat2_A W₂ c w)) $$ Hb
    icases Ha with ⟨Harr, Hrest⟩
    imodintro
    isplitl [Harr]; · iexact Harr
    isplitr; · iempintro
    isplitl [HO]
    · iapply (owesB_within (F := F) c _); iexact HO
    isplitr; · iempintro
    iexact Hrest
  hin c := by
    rw [fam2_self, rdat2_Φ]
    iintro ⟨-, -, HR⟩; iexact HR
  hout c := by
    rw [fam2_self, Pipeline.ownSems0_none, rdat2_Φ]
    iintro HR
    isplitr; · iempintro
    isplitr; · iempintro
    iexact HR
  hexit c := by
    rw [fam2_self]
    unfold Pipeline.RDat.owesAt
    rw [rdat2_owed, rdat2_bound]
    iintro ⟨Harr, HO, -, HZ⟩
    imodintro
    unfold post2
    isplitl [Harr]; · iexact Harr
    isplitl [HZ]; · iexact HZ
    iapply (within_owesB (F := F) c (Pipeline.pin (pcfgs (F := F)) adm 1)); iexact HO

end Region

end Cert.KernelIdeal.Tc

end
-- ==== Proof.TcRegion2W.lean ====
/-
  The second TensorCore region as a step of @main inside the SparseCore program: the regions kit's rule for its
  record, in the pipelines' own body table, then lifted to the extended table.
-/
import proofs.«209750_g45337674776763_cont_8to1c4_158_37_alg».proof.Proof.TcRegion2
import proofs.«209750_g45337674776763_cont_8to1c4_158_37_alg».proof.Proof.TcRegion1W

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₂ : Valuation τ sig (Elt F)) (lv : GSem nD τ sig → HIx 1 → ℕ)

set_option backward.isDefEq.respectTransparency.types false in
set_option maxHeartbeats 800000 in
theorem region2_pipe (hbody : ∀ c, (rdat2 W₂ c).BodyObligation defs₀ 𝒱₀ ι₀ Set.univ) (d : Dev nD) (Φ : PUnit → sProp 𝕄) :
    iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2 W₂ d) -∗ Φ ⟨⟩))
      ⊢ wp frame (wpE (D (F := F)) 𝒱 (T d) none) Set.univ (callP (F := F) 1) Φ := by
  have h := Pipeline.RDat.RegionSeg.wp (pcfgs (F := F)) adm (fam2 W₂) ι₀ (phinj (F := F)) (EP (F := F)) defs₀ 𝒱₀ (KL (F := F)) lv
    (reg2 W₂ lv hbody) d none (fun _ h => nomatch h) (fun _ => .ret ⟨⟩) Φ
  have e : iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2 W₂ d) -∗ Φ ⟨⟩))
      ⊢ iprop((iprop(boundary (T d) ∗ post2 W₂ d) -∗ wp frame (wpE (D (F := F)) 𝒱 (T d) none) Set.univ (Prog.ret PUnit.unit) Φ)
        ∗ boundary (T d) ∗ iprop(unscopedBufs d (fun b => W₂ b) ∗ owesB (F := F) d) ∗ levAts (KL (F := F)) lv
        ∗ Pipeline.cellsGhost (Pipeline.pin (pcfgs (F := F)) adm) (EP (F := F)) 1 d ∗ Pipeline.toksInit (Pipeline.pin (pcfgs (F := F)) adm) (EP (F := F)) 1 d) := by
    iintro ⟨Hlev, Hb, Hbufs, HO, Hg, Ht, Hk⟩
    isplitl [Hk]
    · iintro H
      rw [wp_ret]
      imodintro
      iapply Hk; iexact H
    isplitl [Hb]; · iexact Hb
    isplitl [Hbufs HO]
    · isplitl [Hbufs] <;> iassumption
    isplitl [Hlev]; · iexact Hlev
    isplitl [Hg] <;> iassumption
  exact e.trans h

/-- The region as @main's line in the SparseCore program. -/
theorem region2_raw (hbody : ∀ c, (rdat2 W₂ c).BodyObligation defs₀ 𝒱₀ ι₀ Set.univ) (d : Dev nD) (Φ : PUnit → sProp 𝕄) :
    iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2 W₂ d) -∗ Φ ⟨⟩))
      ⊢ wp frame (wpE ((K (F := F)).defs (D (F := F))) 𝒱 (T d) none) Set.univ (callS (F := F) 1) Φ :=
  (region2_pipe W₂ lv hbody d Φ).trans (wp_callS 1 d Φ)

end Region

end Cert.KernelIdeal.Tc

end
-- ==== Proof.TcExit2.lean ====
/-
  What the second region leaves, read as a valuation again: the windows' arrays after the write-back and the other
  unscoped buffers are the TensorCore's unscoped buffers at a valuation that agrees with the entry valuation off the
  region's one result array — the four input arrays hold their entry contents still.
-/
import proofs.«209750_g45337674776763_cont_8to1c4_158_37_alg».proof.Proof.TcExit1
import proofs.«209750_g45337674776763_cont_8to1c4_158_37_alg».proof.Proof.TcRegion2W

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Exit

variable [FloatOps F] [∀ e, Nonempty (Elt F e)] (W : Valuation τ sig (Elt F))

local notation "cfgB" => Pipeline.pin (pcfgs (F := F)) adm 1

/-- The region's result array, as a device buffer. -/
abbrev q0 : DevRef τ sig := Proc.devRef .tc (main_v27 : Ref sig .tc)
abbrev outs2 : Finset (DevRef τ sig) := {q0}

theorem share2 (d : Dev nD) (w : Fin (cfgB).W) : (rdat2 W d).share w = fullShare :=
  Pipeline.RDat.share_full _ (rdat2_q W d) w

/-- The arrays after the write-back: some contents per window, the inputs' the entry contents, all held whole. -/
theorem arraysAt2_elim (d : Dev nD) :
    ((rdat2 W d).arraysAt (cfgB).N : sProp 𝕄)
      ⊢ iprop(∃ Fs : (w : Fin (cfgB).W) → Buf (Elt F) (((cfgB).win w).arr.view.loc (d.tc : Thread nD τ)),
          ⌜Fs 0 = (rdat2 W d).A 0 ∧ Fs 1 = (rdat2 W d).A 1 ∧ Fs 2 = (rdat2 W d).A 2 ∧ Fs 3 = (rdat2 W d).A 3⌝
          ∗ bigSep Finset.univ fun w => (((d.tc : Thread nD τ).loc (Pipeline.arrRef (cfgB).spec w)) ↦{fullShare} Fs w : sProp 𝕄)) := by
  unfold Pipeline.RDat.arraysAt
  refine (bigSep_exists_pi Finset.univ _).trans ?_
  iintro ⟨%Fs, H⟩
  iexists Fs
  ihave H' := (Entails.of_eq (bigSep_sep' (Finset.univ : Finset (Fin (cfgB).W))
    (fun w => (iprop(⌜(rdat2 W d).ArrAt w (cfgB).N (Fs w)⌝) : sProp 𝕄))
    (fun w => (((cfgB).win w).arr.view.loc (d.tc : Thread nD τ) ↦[((cfgB).win w).arr.view.set]{(rdat2 W d).share w} Fs w : sProp 𝕄)))) $$ H
  icases H' with ⟨Hp, Ha⟩
  isplitl [Hp]
  · icases Hp with #Hp
    ihave %h0 := (pure_of_bigSep (F := F) Finset.univ (fun w => (rdat2 W d).ArrAt w (cfgB).N (Fs w)) (0 : Fin (cfgB).W) (Finset.mem_univ _)) $$ Hp
    ihave %h1 := (pure_of_bigSep (F := F) Finset.univ (fun w => (rdat2 W d).ArrAt w (cfgB).N (Fs w)) (1 : Fin (cfgB).W) (Finset.mem_univ _)) $$ Hp
    ihave %h2 := (pure_of_bigSep (F := F) Finset.univ (fun w => (rdat2 W d).ArrAt w (cfgB).N (Fs w)) (2 : Fin (cfgB).W) (Finset.mem_univ _)) $$ Hp
    ihave %h3 := (pure_of_bigSep (F := F) Finset.univ (fun w => (rdat2 W d).ArrAt w (cfgB).N (Fs w)) (3 : Fin (cfgB).W) (Finset.mem_univ _)) $$ Hp
    ipureintro
    rw [(rdat2 W d).ArrAt_in 0 rfl] at h0
    rw [(rdat2 W d).ArrAt_in 1 rfl] at h1
    rw [(rdat2 W d).ArrAt_in 2 rfl] at h2
    rw [(rdat2 W d).ArrAt_in 3 rfl] at h3
    exact ⟨h0, h1, h2, h3⟩
  · have e : (bigSep Finset.univ fun w => ((cfgB).win w).arr.view.loc (d.tc : Thread nD τ) ↦[((cfgB).win w).arr.view.set]{(rdat2 W d).share w} Fs w : sProp 𝕄)
        = (rdat2 W d).arrays Fs := rfl
    have e' := Pipeline.RDat.arrays_eq (pcfgs (F := F)) adm (fam2 W) 1 d arr_whole2 (fun w => by rw [fam2_self]; exact share2 W d w) Fs
    rw [fam2_self] at e'
    have h : (bigSep Finset.univ fun w => ((cfgB).win w).arr.view.loc (d.tc : Thread nD τ) ↦[((cfgB).win w).arr.view.set]{(rdat2 W d).share w} Fs w : sProp 𝕄)
        ⊢ bigSep Finset.univ fun w => (((d.tc : Thread nD τ).loc (Pipeline.arrRef (cfgB).spec w)) ↦{fullShare} Fs w : sProp 𝕄) :=
      Entails.of_eq (e.trans e')
    iapply h; iexact Ha

/-- The windows' arrays, as TensorCore references of the printed signature (no float instance in them). -/
theorem arrRef2 (w : Fin 5) : Pipeline.arrRef (Pipeline.pin (pcfgs (F := F)) adm 1).spec w = Pipeline.arrRef spec2 w := rfl
theorem arr2_4 : (Proc.devRef .tc (Pipeline.arrRef spec2 4) : DevRef τ sig) = q0 := by decide
theorem in2_ne : ∀ w : Fin 5, w.val < 4 → (Proc.devRef .tc (Pipeline.arrRef spec2 w) : DevRef τ sig) ≠ q0 := by decide

set_option maxHeartbeats 1000000 in
theorem post2_held (d : Dev nD) :
    (post2 W d : sProp 𝕄) ⊢ iprop(∃ W' : Valuation τ sig (Elt F), ⌜∀ b, b ∉ outs2 → W' b = W b⌝ ∗ unscopedBufs d (fun b => W' b) ∗ owesB (F := F) d) := by
  unfold post2
  iintro ⟨Harr, Hrest, HO⟩
  ihave H := (arraysAt2_elim W d) $$ Harr
  icases H with ⟨%Fs, %hin, Ha⟩
  obtain ⟨h0, h1, h2, h3⟩ := hin
  -- the result's contents, typed as the valuation types them
  obtain ⟨g4, hg4⟩ : ∃ g4 : BufTy.Contents (Elt F) (q0 : DevRef τ sig).ty, g4 = Fs 4 := ⟨Fs 4, rfl⟩
  iexists (Function.update W q0 g4)
  isplitr
  · ipureintro
    intro b hb
    have hb0 : b ≠ q0 := fun h => hb (by rw [h]; exact Finset.mem_singleton_self _)
    exact Function.update_of_ne hb0 _ _
  isplitr [HO]
  · rw [Pipeline.unscopedBufs_split (Pipeline.pin (pcfgs (F := F)) adm) 1 winFacts2.arr_unscoped winFacts2.arr_inj d]
    isplitl [Ha]
    · have hFs : ∀ w : Fin (cfgB).W, Fs w = Function.update W q0 g4 (Proc.devRef .tc (Pipeline.arrRef (cfgB).spec w)) := by
        intro w
        rcases w with ⟨n, hn⟩
        have hn5 : n < 5 := hn
        match n, hn, hn5 with
        | 0, _, _ => exact h0.trans ((rdat2_A W d 0).trans (Function.update_of_ne (in2_ne 0 (by decide)) _ _).symm)
        | 1, _, _ => exact h1.trans ((rdat2_A W d 1).trans (Function.update_of_ne (in2_ne 1 (by decide)) _ _).symm)
        | 2, _, _ => exact h2.trans ((rdat2_A W d 2).trans (Function.update_of_ne (in2_ne 2 (by decide)) _ _).symm)
        | 3, _, _ => exact h3.trans ((rdat2_A W d 3).trans (Function.update_of_ne (in2_ne 3 (by decide)) _ _).symm)
        | 4, _, _ =>
          show Fs 4 = Function.update W q0 g4 q0
          exact hg4.symm.trans (Function.update_self q0 g4 W).symm
        | k + 5, _, h5 => exact absurd h5 (by omega)
      have hA : (bigSep Finset.univ fun w : Fin (cfgB).W => (((d.tc : Thread nD τ).loc (Pipeline.arrRef (cfgB).spec w)) ↦{fullShare} Fs w : sProp 𝕄))
          ⊢ bigSep Finset.univ fun w : Fin (cfgB).W => (((d.tc : Thread nD τ).loc (Pipeline.arrRef (cfgB).spec w))
              ↦{fullShare} Function.update W q0 g4 (Proc.devRef .tc (Pipeline.arrRef (cfgB).spec w)) : sProp 𝕄) :=
        Entails.of_eq (bigSep_congr fun w _ => by rw [← hFs w])
      iapply hA; iexact Ha
    · have hne : ∀ b : Ref sig .tc, b ∉ Finset.univ.image (Pipeline.arrRef (cfgB).spec)
          → (Proc.devRef .tc b : DevRef τ sig) ≠ q0 := by
        intro b hb h
        rw [← arr2_4] at h
        exact hb (Finset.mem_image.mpr ⟨4, Finset.mem_univ _, (arrRef2 (F := F) 4).trans (Proc.devRef_injective _ h).symm⟩)
      have hB : (Pipeline.unscopedRest (cfgB).spec d (fun b => W b) : sProp 𝕄)
          ⊢ Pipeline.unscopedRest (cfgB).spec d (fun b => Function.update W q0 g4 b) := by
        unfold Pipeline.unscopedRest
        exact Entails.of_eq (bigSep_congr fun b hb => by
          have n0 := hne b (Finset.mem_sdiff.mp hb).2
          exact congrArg (fun x => (((d.tc : Thread nD τ).loc b) ↦{fullShare} x : sProp 𝕄))
            (Function.update_of_ne n0 g4 W).symm)
      iapply hB; iexact Hrest
  iexact HO

end Exit

end Cert.KernelIdeal.Tc

end
-- ==== Proof.TcBody2.lean ====
/-
  The body obligation of the second TensorCore kernel (no grid: one point; five windows, the last a 1 x 1 scalar
  output in SMEM), at frame level: from its five current staging buffers at any contents the body runs — four loads
  of whole blocks, one scalar load, one scalar store — and hands them back, the inputs as they were, the output at
  some contents; the region's invariant and the core's debt are untouched.
-/
import proofs.«209750_g45337674776763_cont_8to1c4_158_37_alg».proof.Proof.TcGhost
import proofs.«209750_g45337674776763_cont_8to1c4_158_37_alg».proof.Proof.Gen.KernelIdeal.Skeleton
import Idealize.ShloMosaic.Lib.Exec

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Tactic

variable {F : FTy → Type}

local notation "𝕄" => MT nD τ sig (HIx 1) (Elt F) ℕ UU ℕ

variable [FloatOps F]

set_option maxHeartbeats 4000000 in
/-- The kernel on any five whole memrefs held at any contents. -/
theorem run2 (c : Dev nD)
    (M0 : Memref sig .tc .vmem S4x4096 .f32) (h0 : M0.IsWhole) (M1 : Memref sig .tc .vmem S4x4096 .f32) (h1 : M1.IsWhole)
    (M2 : Memref sig .tc .vmem S4x4096 .f32) (h2 : M2.IsWhole) (M3 : Memref sig .tc .vmem S4x8x4096 .f32) (h3 : M3.IsWhole)
    (M4 : Memref sig .tc .smem S1x1 .f32) (h4 : M4.IsWhole)
    (y0 : S4x4096.Idx → Elt F .f32) (y1 : S4x4096.Idx → Elt F .f32) (y2 : S4x4096.Idx → Elt F .f32)
    (y3 : S4x8x4096.Idx → Elt F .f32) (y4 : S1x1.Idx → Elt F .f32) (K : PUnit → sProp 𝕄) :
    iprop(owns (c : Thread nD τ) M0 fullShare y0 ∗ owns (c : Thread nD τ) M1 fullShare y1 ∗ owns (c : Thread nD τ) M2 fullShare y2
        ∗ owns (c : Thread nD τ) M3 fullShare y3 ∗ owns (c : Thread nD τ) M4 fullShare y4
        ∗ (iprop(owns (c : Thread nD τ) M0 fullShare y0 ∗ owns (c : Thread nD τ) M1 fullShare y1 ∗ owns (c : Thread nD τ) M2 fullShare y2
            ∗ owns (c : Thread nD τ) M3 fullShare y3 ∗ (∃ x, owns (c : Thread nD τ) M4 fullShare x)) -∗ K ⟨⟩))
      ⊢ wp frame (wpE (defs₀ (F := F)) 𝒱₀ (c : Thread nD τ) none) Set.univ (cc2__tc_reduce_body M0 h0 M1 h1 M2 h2 M3 h3 M4 h4) K := by
  unfold owns
  rw [cc2__tc_reduce_body_eq_skeleton]; unfold cc2__tc_reduce_body_skel
  iintro ⟨⟨%f0, %e0, H0⟩, ⟨%f1, %e1, H1⟩, ⟨%f2, %e2, H2⟩, ⟨%f3, %e3, H3⟩, ⟨%f4, -, H4⟩, Hk⟩
  sl_exec
  rw [wp_ret]
  imodintro
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; iexists _; isplitr
  swap; · iexact H4
  ipureintro; rfl

section Obligation

variable (W : Valuation τ sig (Elt F))

theorem rdat2_Φ' (c : Dev nD) (t : Fin ((Pipeline.pin (pcfgs (F := F)) adm 1).N + 1)) :
    (rdat2 W c).Φ t = Pipeline.scopedRest (Pipeline.pin (pcfgs (F := F)) adm 1).spec c := by dsimp only [rdat2]
theorem rdat2_owesAt (c : Dev nD) (t : Fin ((Pipeline.pin (pcfgs (F := F)) adm 1).N + 1)) :
    ((rdat2 W c).owesAt ι₀ t : sProp 𝕄)
      = Pipeline.owesWithin c (0 : CellTallies nD τ sig (HIx 1)) (recB (F := F) c ∪ (Pipeline.pin (pcfgs (F := F)) adm 1).waitPairs ι₀) := rfl

set_option maxHeartbeats 4000000 in
/-- The body obligation of pipeline 1 at frame level. -/
theorem body2 (c : Dev nD) : (rdat2 W c).BodyObligation defs₀ 𝒱₀ ι₀ Set.univ := fun t Y _ => by
  rw [bigSep_W2, bigSep_W2, rdat2_Φ', rdat2_Φ', rdat2_owesAt, rdat2_owesAt]
  show _ ⊢ wp frame (wpE (defs₀ (F := F)) 𝒱₀ (c : Thread nD τ) none) Set.univ (bodyAt2 (F := F) t) _
  iintro ⟨HΦ, HO, Y0, Y1, Y2, Y3, Y4⟩
  iapply (run2 c _ _ _ _ _ _ _ _ _ _ (Y 0) (Y 1) (Y 2) (Y 3) (Y 4))
  isplitl [Y0]; · iexact Y0
  isplitl [Y1]; · iexact Y1
  isplitl [Y2]; · iexact Y2
  isplitl [Y3]; · iexact Y3
  isplitl [Y4]; · iexact Y4
  iintro ⟨Y0, Y1, Y2, Y3, ⟨%x, Y4⟩⟩
  isplitl [HΦ]; · iexact HΦ
  isplitl [HO]; · iexact HO
  isplitl [Y0]; · iexists (Y 0); isplitr; · ipureintro; trivial
                  iexact Y0
  isplitl [Y1]; · iexists (Y 1); isplitr; · ipureintro; trivial
                  iexact Y1
  isplitl [Y2]; · iexists (Y 2); isplitr; · ipureintro; trivial
                  iexact Y2
  isplitl [Y3]; · iexists (Y 3); isplitr; · ipureintro; trivial
                  iexact Y3
  iexists x; isplitr; · ipureintro; trivial
  iexact Y4

end Obligation

end Cert.KernelIdeal.Tc

end
-- ==== Proof.TcStep1.lean ====
/-
  The second TensorCore region as one step of @main's proof inside the SparseCore program, at frame level, with nothing
  left as a hypothesis: as the first region's step, from the second pipeline's funded share; afterwards the valuation
  agrees with the entry one off the region's one result array, and nothing of the launch's funding remains.
-/
import proofs.«209750_g45337674776763_cont_8to1c4_158_37_alg».proof.Proof.TcExit2
import proofs.«209750_g45337674776763_cont_8to1c4_158_37_alg».proof.Proof.TcBody2
import proofs.«209750_g45337674776763_cont_8to1c4_158_37_alg».proof.Proof.TcStep0

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Step

variable [FloatOps F] [∀ e, Nonempty (Elt F e)]

/-- The second region, as a step. -/
theorem region_step1 (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx (EH (F := F)) P κ ∗ (K (F := F)).tcSt (EH (F := F)) d 1 ∗ boundary (T d)
        ∗ StableHlo.held (T d) (Pipeline.ucRefs τ sig) W ∗ Gp (F := F) 1 d
        ∗ (∀ W' : Valuation τ sig (Elt F), ⌜∀ b, b ∉ outs2 → W' b = W b⌝ -∗
            iprop((K (F := F)).tcSt (EH (F := F)) d 1 ∗ boundary (T d) ∗ StableHlo.held (T d) (Pipeline.ucRefs τ sig) W' ∗ emp) -∗ Φ ⟨⟩))
      ⊢ wp frame (wpE ((K (F := F)).defs (D (F := F))) 𝒱 (T d) none) Set.univ
          (Prog.lift (.customCall (SparseCore.inner (Pipeline.entry 1)) ())) Φ := by
  have eW := Pipeline.unscopedBufs_held (nD := nD) (τ := τ) (sig := sig) (Val := Elt F) (Ix := HIx 1) (Name := ℕ) (U := UU) (Lvl := ℕ) d W
  iintro ⟨#Hctx, Hst, Hb, Hheld, ⟨Hg1, Ht1⟩, Hk⟩
  ihave Hlev := (SparseCore.Cfg.ctx_levAts κ) $$ Hctx
  ihave Hs := (tcSt_owesB (F := F) d) $$ Hst
  icases Hs with ⟨HO, Hback⟩
  ihave Hbufs := (Entails.of_eq eW.symm) $$ Hheld
  iapply (region2_raw W (K (F := F)).lev (body2 W) d Φ)
  isplitl [Hlev]; · iexact Hlev
  isplitl [Hb]; · iexact Hb
  isplitl [Hbufs]; · iexact Hbufs
  isplitl [HO]; · iexact HO
  isplitl [Hg1]; · iexact Hg1
  isplitl [Ht1]; · iexact Ht1
  iintro ⟨Hb, Hpost⟩
  ihave H := (post2_held W d) $$ Hpost
  icases H with ⟨%W', %hW', Hbufs', HO⟩
  ihave Hst := Hback $$ HO
  have eW' := Pipeline.unscopedBufs_held (nD := nD) (τ := τ) (sig := sig) (Val := Elt F) (Ix := HIx 1) (Name := ℕ) (U := UU) (Lvl := ℕ) d W'
  ihave Hheld' := (Entails.of_eq eW') $$ Hbufs'
  iapply Hk $$ %W' %hW' [Hst Hb Hheld']
  isplitl [Hst]; · iexact Hst
  isplitl [Hb]; · iexact Hb
  isplitl [Hheld']; · iexact Hheld'
  iempintro

end Step

end Cert.KernelIdeal.Tc

end
-- ==== Proof.TcHu.lean ====
/-
  The launch element of the whole user algebra: the handshakes' rounds at the SparseCore launch's cells, the pipelines'
  rounds at their staging cells, the transfers' counters at the unit. Owning it yields the handshakes' element and what
  every device's two TensorCore regions consume.
-/
import proofs.«209750_g45337674776763_cont_8to1c4_158_37_alg».proof.Proof.TcFund

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Launch

variable [FloatOps F]

/-- The launch element. -/
def u₀ : UU := (initOf (K (F := F)).hsCells (K (F := F)).hsToks, (uP (F := F), 1))

theorem hu₀ : (ownU (u₀ (F := F)) : sProp 𝕄)
    ⊢ |={Set.univ}=> iprop(BI.own (EH (F := F) (initOf (K (F := F)).hsCells (K (F := F)).hsToks)) ∗ bigSep Finset.univ (G (F := F))) := by
  unfold u₀
  iintro Hu
  ihave H := (ownU_split (F := F) _ _ _) $$ Hu
  icases H with ⟨HH, HP, -⟩
  imod (fundG (F := F)) $$ HP with HG
  imodintro
  isplitl [HH]; · iexact HH
  iexact HG

end Launch

end Cert.KernelIdeal.Tc

end
-- ==== Proof.FramesI.lean ====
import proofs.«209750_g45337674776763_cont_8to1c4_158_37_alg».proof.Defs
import proofs.«209750_g45337674776763_cont_8to1c4_158_37_alg».proof.Proof.Gen.Pre_finite_inputs
import proofs.«209750_g45337674776763_cont_8to1c4_158_37_alg».proof.Proof.ScMainScI
import proofs.«209750_g45337674776763_cont_8to1c4_158_37_alg».proof.Proof.TcStep0
import proofs.«209750_g45337674776763_cont_8to1c4_158_37_alg».proof.Proof.TcStep1
import proofs.«209750_g45337674776763_cont_8to1c4_158_37_alg».proof.Proof.TcHu

/-! The program's frame at this instance: every weakly fair execution of the device's threads — @main on the
    TensorCore, the two sequencers, the thirty-two vector subcores — terminates, nothing faulting, with both argument arrays
    as launched. The launch theorem's obligations are the vector subcores' task, the split of a SparseCore's operands
    among its subcores, @main (host lines, the SparseCore call, the two TensorCore regions) and the launch element. -/

noncomputable section

namespace Cert.Proof.ScI

open Idealize.ShloMosaic Idealize.SL.Sem

theorem frame : Cert.frame_KernelIdeal (hKernelIdeal := Cert.KernelIdeal.Gen.facts) (hPre_finite_inputs := Cert.Pre_finite_inputs.Gen.facts) := fun m ρ _ =>
  (θ_run Cert.KernelIdeal.defs _ _).mono (fun _ h c => h c)
    (run_main (F := Ideal) m ρ Cert.KernelIdeal.Tc.G (Cert.KernelIdeal.Tc.Gp 1) (fun _ => Idealize.SL.BI.BIBase.emp) Cert.KernelIdeal.Tc.u₀ Cert.KernelIdeal.Tc.hu₀
      (fun κ d W Φ => Cert.KernelIdeal.Tc.region_step0 (PP m) κ d W Φ) (fun κ d W Φ => Cert.KernelIdeal.Tc.region_step1 (PP m) κ d W Φ))

end Cert.Proof.ScI

end
-- ==== Proof.ScCommonScB.lean ====
/-
  The vector-subcore kernel of the program, as one subcore's task sees it: the four argument-derived arrays it only reads
  (each whole, at a read share), the piece of the result array it alone writes (the words the body's own slices name), and
  its own scratch buffers and copy semaphores. Every copy of the body is local to the subcore and waited for before the
  next access to either end, so no schedule is needed: the counters of the transfers' algebra suffice.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.Kernel
import proofs.«209750_g45337674776763_cont_8to1c4_158_37_alg».proof.Proof.Gen.Kernel.Skeleton

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.Kernel.main_v7_scv : Memref Cert.Kernel.sig Kind.scVector Space.hbm Cert.Kernel.S4x3x512 EltTy.f32)
local notation "A8" => (Memref.whole Cert.Kernel.main_v8_scv : Memref Cert.Kernel.sig Kind.scVector Space.hbm Cert.Kernel.S4x3x512 EltTy.f32)
local notation "A6" => (Memref.whole Cert.Kernel.main_v6_scv : Memref Cert.Kernel.sig Kind.scVector Space.hbm Cert.Kernel.S4x3x4096 EltTy.f32)
local notation "A1" => (Memref.whole Cert.Kernel.main_v1_scv : Memref Cert.Kernel.sig Kind.scVector Space.hbm Cert.Kernel.S4x3x4096 EltTy.f32)
local notation "A9" => (Memref.whole Cert.Kernel.main_v9_scv : Memref Cert.Kernel.sig Kind.scVector Space.hbm Cert.Kernel.S4x4608 EltTy.f32)
local notation "B0" => (Memref.whole Cert.Kernel.cc0_scratch0 : Memref Cert.Kernel.sig Kind.scVector Space.vmem Cert.Kernel.S3x512 EltTy.f32)
local notation "B1" => (Memref.whole Cert.Kernel.cc0_scratch1 : Memref Cert.Kernel.sig Kind.scVector Space.vmem Cert.Kernel.S3x512 EltTy.f32)
local notation "B2" => (Memref.whole Cert.Kernel.cc0_scratch2 : Memref Cert.Kernel.sig Kind.scVector Space.vmem Cert.Kernel.S3x4096 EltTy.f32)
local notation "B3" => (Memref.whole Cert.Kernel.cc0_scratch3 : Memref Cert.Kernel.sig Kind.scVector Space.vmem Cert.Kernel.S3x4096 EltTy.f32)
local notation "B4" => (Memref.whole Cert.Kernel.cc0_scratch4 : Memref Cert.Kernel.sig Kind.scVector Space.vmem Cert.Kernel.S1024 EltTy.f32)

/-- The grid coordinates of the vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev L0 (s : Fin (grid0.bound 1)) : grid0.Coords := coordsV ⟨0, by decide⟩ s
abbrev L1 (s : Fin (grid0.bound 1)) : grid0.Coords := coordsV ⟨1, by decide⟩ s

theorem h1_L0 (s : Fin (grid0.bound 1)) : k0_cond1 (L0 s) = 1#1 := by decide +revert
theorem h2_L0 (s : Fin (grid0.bound 1)) : ¬ k0_cond2 (L0 s) = 1#1 := by decide +revert
theorem h1_L1 (s : Fin (grid0.bound 1)) : ¬ k0_cond1 (L1 s) = 1#1 := by decide +revert
theorem h2_L1 (s : Fin (grid0.bound 1)) : k0_cond2 (L1 s) = 1#1 := by decide +revert

variable (d : Dev nD)

abbrev thr (L : grid0.Coords) : Thread nD τ := V d ((L 0).castLE hcore0) ((L 1).castLE hsub0)
abbrev l7 : Loc nD τ sig := (SparseCore.T d).loc main_v7
abbrev l8 : Loc nD τ sig := (SparseCore.T d).loc main_v8
abbrev l6 : Loc nD τ sig := (SparseCore.T d).loc main_v6
abbrev l1 : Loc nD τ sig := (SparseCore.T d).loc main_v1
abbrev l9 : Loc nD τ sig := (SparseCore.T d).loc main_v9

/-- The 128 words of the result row a subcore of SparseCore 0 writes, as the body slices them. -/
abbrev out0 (L : grid0.Coords) (h : k0_cond1 L = 1#1) : Memref sig .scVector .hbm S128 .f32 :=
  (((A9).slice (Rect.unit (s := S4x4608) (k0_off9 L) S1x4608.size (k0_off9_inb L h)) (fun _ => rfl)).squeeze S4608 squeezes_S1x4608_S4608).slice
    (Rect.unit (s := S4608) (k0_off10 L) S128.size (k0_off10_inb L h)) (fun _ => rfl)
/-- The 1024 words of the result row a subcore of SparseCore 1 writes, as the body slices them. -/
abbrev out1 (L : grid0.Coords) (h : k0_cond2 L = 1#1) : Memref sig .scVector .hbm S1024 .f32 :=
  (((A9).slice (Rect.unit (s := S4x4608) (k0_off38 L) S1x4608.size (k0_off38_inb L h)) (fun _ => rfl)).squeeze S4608 squeezes_S1x4608_S4608).slice
    (Rect.unit (s := S4608) (k0_off39 L) S1024.size (k0_off39_inb L h)) (fun _ => rfl)

theorem pts7 (L : grid0.Coords) (q : PosShare TreeShare) (f : Buf (Elt F) (l7 d)) :
    ((A7).view.loc (thr d L) ↦{q} f : sProp 𝕄) = l7 d ↦{q} f := by simp only [Memref.view_whole, View.set_whole]
theorem pts8 (L : grid0.Coords) (q : PosShare TreeShare) (f : Buf (Elt F) (l8 d)) :
    ((A8).view.loc (thr d L) ↦{q} f : sProp 𝕄) = l8 d ↦{q} f := by simp only [Memref.view_whole, View.set_whole]
theorem pts6 (L : grid0.Coords) (q : PosShare TreeShare) (f : Buf (Elt F) (l6 d)) :
    ((A6).view.loc (thr d L) ↦{q} f : sProp 𝕄) = l6 d ↦{q} f := by simp only [Memref.view_whole, View.set_whole]
theorem pts1 (L : grid0.Coords) (q : PosShare TreeShare) (f : Buf (Elt F) (l1 d)) :
    ((A1).view.loc (thr d L) ↦{q} f : sProp 𝕄) = l1 d ↦{q} f := by simp only [Memref.view_whole, View.set_whole]
theorem ptsO0 (L : grid0.Coords) (h : k0_cond1 L = 1#1) (f : Buf (Elt F) (l9 d)) :
    ((out0 L h).view.loc (thr d L) ↦[(out0 L h).view.set]{fullShare} f : sProp 𝕄) = l9 d ↦[(out0 L h).view.set]{fullShare} f := rfl
theorem ptsO1 (L : grid0.Coords) (h : k0_cond2 L = 1#1) (f : Buf (Elt F) (l9 d)) :
    ((out1 L h).view.loc (thr d L) ↦[(out1 L h).view.set]{fullShare} f : sProp 𝕄) = l9 d ↦[(out1 L h).view.set]{fullShare} f := rfl
theorem ptsB0 (L : grid0.Coords) (f : Buf (Elt F) ((thr d L).loc cc0_scratch0)) :
    ((B0).view.loc (thr d L) ↦{fullShare} f : sProp 𝕄) = (thr d L).loc cc0_scratch0 ↦{fullShare} f := by simp only [Memref.view_whole, View.set_whole]
theorem ptsB1 (L : grid0.Coords) (f : Buf (Elt F) ((thr d L).loc cc0_scratch1)) :
    ((B1).view.loc (thr d L) ↦{fullShare} f : sProp 𝕄) = (thr d L).loc cc0_scratch1 ↦{fullShare} f := by simp only [Memref.view_whole, View.set_whole]
theorem ptsB2 (L : grid0.Coords) (f : Buf (Elt F) ((thr d L).loc cc0_scratch2)) :
    ((B2).view.loc (thr d L) ↦{fullShare} f : sProp 𝕄) = (thr d L).loc cc0_scratch2 ↦{fullShare} f := by simp only [Memref.view_whole, View.set_whole]
theorem ptsB3 (L : grid0.Coords) (f : Buf (Elt F) ((thr d L).loc cc0_scratch3)) :
    ((B3).view.loc (thr d L) ↦{fullShare} f : sProp 𝕄) = (thr d L).loc cc0_scratch3 ↦{fullShare} f := by simp only [Memref.view_whole, View.set_whole]
theorem ptsB4 (L : grid0.Coords) (f : Buf (Elt F) ((thr d L).loc cc0_scratch4)) :
    ((B4).view.loc (thr d L) ↦{fullShare} f : sProp 𝕄) = (thr d L).loc cc0_scratch4 ↦{fullShare} f := by simp only [Memref.view_whole, View.set_whole]

/-- What a subcore holds of its own while it runs the body: the five scratch buffers at some contents and the six
    copy semaphores' counters at zero. -/
def own5 (L : grid0.Coords) : sProp 𝕄 :=
  iprop((∃ f, (thr d L).loc cc0_scratch0 ↦{fullShare} f) ∗ (∃ f, (thr d L).loc cc0_scratch1 ↦{fullShare} f)
    ∗ (∃ f, (thr d L).loc cc0_scratch2 ↦{fullShare} f) ∗ (∃ f, (thr d L).loc cc0_scratch3 ↦{fullShare} f)
    ∗ (∃ f, (thr d L).loc cc0_scratch4 ↦{fullShare} f)
    ∗ semVal (thr d L, SemLoc.dma cc0_scoped0.sem) 0 ∗ semVal (thr d L, SemLoc.dma cc0_scoped1.sem) 0
    ∗ semVal (thr d L, SemLoc.dma cc0_scoped2.sem) 0 ∗ semVal (thr d L, SemLoc.dma cc0_scoped3.sem) 0
    ∗ semVal (thr d L, SemLoc.dma cc0_scoped4.sem) 0 ∗ semVal (thr d L, SemLoc.dma cc0_scoped5.sem) 0)

/-- The four argument-derived arrays, each whole at a read share. -/
def ins4 (q : PosShare TreeShare) (f7 : Buf (Elt F) (l7 d)) (f8 : Buf (Elt F) (l8 d)) (f6 : Buf (Elt F) (l6 d)) (f1 : Buf (Elt F) (l1 d)) : sProp 𝕄 :=
  iprop((l7 d ↦{q} f7) ∗ (l8 d ↦{q} f8) ∗ (l6 d ↦{q} f6) ∗ (l1 d ↦{q} f1))

end Cert.Proof.ScB

end
-- ==== Proof.ScOwnScB.lean ====
/-
  A vector subcore's own storage, opened: of the scoped buffers and semaphores the launch hands a subcore, the five
  scratch buffers and the six copy semaphores the body uses, and the rest, which the body never touches.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.Kernel
import proofs.«209750_g45337674776763_cont_8to1c4_158_37_alg».proof.Proof.Gen.Kernel.Skeleton
import proofs.«209750_g45337674776763_cont_8to1c4_158_37_alg».proof.Proof.ScCommonScB

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.Kernel.main_v7_scv : Memref Cert.Kernel.sig Kind.scVector Space.hbm Cert.Kernel.S4x3x512 EltTy.f32)
local notation "A8" => (Memref.whole Cert.Kernel.main_v8_scv : Memref Cert.Kernel.sig Kind.scVector Space.hbm Cert.Kernel.S4x3x512 EltTy.f32)
local notation "A6" => (Memref.whole Cert.Kernel.main_v6_scv : Memref Cert.Kernel.sig Kind.scVector Space.hbm Cert.Kernel.S4x3x4096 EltTy.f32)
local notation "A1" => (Memref.whole Cert.Kernel.main_v1_scv : Memref Cert.Kernel.sig Kind.scVector Space.hbm Cert.Kernel.S4x3x4096 EltTy.f32)
local notation "A9" => (Memref.whole Cert.Kernel.main_v9_scv : Memref Cert.Kernel.sig Kind.scVector Space.hbm Cert.Kernel.S4x4608 EltTy.f32)
local notation "B0" => (Memref.whole Cert.Kernel.cc0_scratch0 : Memref Cert.Kernel.sig Kind.scVector Space.vmem Cert.Kernel.S3x512 EltTy.f32)
local notation "B1" => (Memref.whole Cert.Kernel.cc0_scratch1 : Memref Cert.Kernel.sig Kind.scVector Space.vmem Cert.Kernel.S3x512 EltTy.f32)
local notation "B2" => (Memref.whole Cert.Kernel.cc0_scratch2 : Memref Cert.Kernel.sig Kind.scVector Space.vmem Cert.Kernel.S3x4096 EltTy.f32)
local notation "B3" => (Memref.whole Cert.Kernel.cc0_scratch3 : Memref Cert.Kernel.sig Kind.scVector Space.vmem Cert.Kernel.S3x4096 EltTy.f32)
local notation "B4" => (Memref.whole Cert.Kernel.cc0_scratch4 : Memref Cert.Kernel.sig Kind.scVector Space.vmem Cert.Kernel.S1024 EltTy.f32)

variable (d : Dev nD) (L : grid0.Coords)

/-- The subcore's scoped semaphores that are not the body's six. -/
abbrev restCells : Finset (GSem nD τ sig) := (((((((ownCells (thr d L)).erase ((thr d L, SemLoc.dma cc0_scoped0.sem) : GSem nD τ sig)).erase ((thr d L, SemLoc.dma cc0_scoped1.sem) : GSem nD τ sig)).erase ((thr d L, SemLoc.dma cc0_scoped2.sem) : GSem nD τ sig)).erase ((thr d L, SemLoc.dma cc0_scoped3.sem) : GSem nD τ sig)).erase ((thr d L, SemLoc.dma cc0_scoped4.sem) : GSem nD τ sig)).erase ((thr d L, SemLoc.dma cc0_scoped5.sem) : GSem nD τ sig))
/-- The subcore's scoped buffers that are not the body's five. -/
abbrev restRefs : Finset (DevRef τ sig) := ((((((ownRefs (τ := τ) (Proc.scVector ((L 0).castLE hcore0) ((L 1).castLE hsub0))).erase ((Proc.scVector ((L 0).castLE hcore0) ((L 1).castLE hsub0)).devRef cc0_scratch0 : DevRef τ sig)).erase ((Proc.scVector ((L 0).castLE hcore0) ((L 1).castLE hsub0)).devRef cc0_scratch1 : DevRef τ sig)).erase ((Proc.scVector ((L 0).castLE hcore0) ((L 1).castLE hsub0)).devRef cc0_scratch2 : DevRef τ sig)).erase ((Proc.scVector ((L 0).castLE hcore0) ((L 1).castLE hsub0)).devRef cc0_scratch3 : DevRef τ sig)).erase ((Proc.scVector ((L 0).castLE hcore0) ((L 1).castLE hsub0)).devRef cc0_scratch4 : DevRef τ sig))

theorem ownSems0_V :
    (ownSems0 (thr d L) : sProp 𝕄)
      = iprop(semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0 ∗ semVal ((thr d L, SemLoc.dma cc0_scoped3.sem) : GSem nD τ sig) 0 ∗ semVal ((thr d L, SemLoc.dma cc0_scoped4.sem) : GSem nD τ sig) 0 ∗ semVal ((thr d L, SemLoc.dma cc0_scoped5.sem) : GSem nD τ sig) 0
          ∗ bigSep (restCells d L) fun g => semVal g 0) := by
  unfold SparseCore.Cfg.ownSems0
  rw [SparseCore.bigSep_erase' ((mem_ownCells (g := ((thr d L, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := ((thr d L, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := ((thr d L, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨fun e => absurd (congrArg Prod.snd e) (show (SemLoc.dma cc0_scoped3.sem : SemLoc sig) ≠ SemLoc.dma cc0_scoped2.sem by decide), Finset.mem_erase.mpr ⟨fun e => absurd (congrArg Prod.snd e) (show (SemLoc.dma cc0_scoped3.sem : SemLoc sig) ≠ SemLoc.dma cc0_scoped1.sem by decide), Finset.mem_erase.mpr ⟨fun e => absurd (congrArg Prod.snd e) (show (SemLoc.dma cc0_scoped3.sem : SemLoc sig) ≠ SemLoc.dma cc0_scoped0.sem by decide), (mem_ownCells (g := ((thr d L, SemLoc.dma cc0_scoped3.sem) : GSem nD τ sig))).mpr ⟨rfl, by show (SemLoc.dma cc0_scoped3.sem : SemLoc sig).isScoped .scVector = true; decide⟩⟩⟩⟩),
    SparseCore.bigSep_erase' (Finset.mem_erase.mpr ⟨fun e => absurd (congrArg Prod.snd e) (show (SemLoc.dma cc0_scoped4.sem : SemLoc sig) ≠ SemLoc.dma cc0_scoped3.sem by decide), Finset.mem_erase.mpr ⟨fun e => absurd (congrArg Prod.snd e) (show (SemLoc.dma cc0_scoped4.sem : SemLoc sig) ≠ SemLoc.dma cc0_scoped2.sem by decide), Finset.mem_erase.mpr ⟨fun e => absurd (congrArg Prod.snd e) (show (SemLoc.dma cc0_scoped4.sem : SemLoc sig) ≠ SemLoc.dma cc0_scoped1.sem by decide), Finset.mem_erase.mpr ⟨fun e => absurd (congrArg Prod.snd e) (show (SemLoc.dma cc0_scoped4.sem : SemLoc sig) ≠ SemLoc.dma cc0_scoped0.sem by decide), (mem_ownCells (g := ((thr d L, SemLoc.dma cc0_scoped4.sem) : GSem nD τ sig))).mpr ⟨rfl, by show (SemLoc.dma cc0_scoped4.sem : SemLoc sig).isScoped .scVector = true; decide⟩⟩⟩⟩⟩),
    SparseCore.bigSep_erase' (Finset.mem_erase.mpr ⟨fun e => absurd (congrArg Prod.snd e) (show (SemLoc.dma cc0_scoped5.sem : SemLoc sig) ≠ SemLoc.dma cc0_scoped4.sem by decide), Finset.mem_erase.mpr ⟨fun e => absurd (congrArg Prod.snd e) (show (SemLoc.dma cc0_scoped5.sem : SemLoc sig) ≠ SemLoc.dma cc0_scoped3.sem by decide), Finset.mem_erase.mpr ⟨fun e => absurd (congrArg Prod.snd e) (show (SemLoc.dma cc0_scoped5.sem : SemLoc sig) ≠ SemLoc.dma cc0_scoped2.sem by decide), Finset.mem_erase.mpr ⟨fun e => absurd (congrArg Prod.snd e) (show (SemLoc.dma cc0_scoped5.sem : SemLoc sig) ≠ SemLoc.dma cc0_scoped1.sem by decide), Finset.mem_erase.mpr ⟨fun e => absurd (congrArg Prod.snd e) (show (SemLoc.dma cc0_scoped5.sem : SemLoc sig) ≠ SemLoc.dma cc0_scoped0.sem by decide), (mem_ownCells (g := ((thr d L, SemLoc.dma cc0_scoped5.sem) : GSem nD τ sig))).mpr ⟨rfl, by show (SemLoc.dma cc0_scoped5.sem : SemLoc sig).isScoped .scVector = true; decide⟩⟩⟩⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore0) ((L 1).castLE hsub0)) (b := ((Proc.scVector ((L 0).castLE hcore0) ((L 1).castLE hsub0)).devRef cc0_scratch0 : DevRef τ sig)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch1 : DevRef τ sig)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch2 : DevRef τ sig)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch3 : DevRef τ sig)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector ((L 0).castLE hcore0) ((L 1).castLE hsub0)) (b := ((Proc.scVector ((L 0).castLE hcore0) ((L 1).castLE hsub0)).devRef cc0_scratch4 : DevRef τ sig)) rfl⟩⟩⟩⟩)]

/-- The subcore's own scratch and semaphores, and the rest of its scoped storage. -/
theorem own_open :
    iprop(ownBufs (thr d L) ∗ (ownSems0 (thr d L) : sProp 𝕄))
      ⊣⊢ iprop(own5 d L ∗ (bigSep (restRefs L) fun b => iprop(∃ f, ((d, b) : Loc nD τ sig) ↦{fullShare} f)) ∗ bigSep (restCells d L) fun g => semVal g 0) := by
  rw [ownSems0_V, ownBufs_V]; unfold own5
  constructor
  · iintro ⟨⟨Hb0, Hb1, Hb2, Hb3, Hb4, Hbr⟩, ⟨Hs0, Hs1, Hs2, Hs3, Hs4, Hs5, Hsr⟩⟩
    isplitl [Hb0 Hb1 Hb2 Hb3 Hb4 Hs0 Hs1 Hs2 Hs3 Hs4 Hs5]
    · isplitl [Hb0]; · iexact Hb0
      isplitl [Hb1]; · iexact Hb1
      isplitl [Hb2]; · iexact Hb2
      isplitl [Hb3]; · iexact Hb3
      isplitl [Hb4]; · iexact Hb4
      isplitl [Hs0]; · iexact Hs0
      isplitl [Hs1]; · iexact Hs1
      isplitl [Hs2]; · iexact Hs2
      isplitl [Hs3]; · iexact Hs3
      isplitl [Hs4]; · iexact Hs4
      iexact Hs5
    isplitl [Hbr]; · iexact Hbr
    iexact Hsr
  · iintro ⟨⟨Hb0, Hb1, Hb2, Hb3, Hb4, Hs0, Hs1, Hs2, Hs3, Hs4, Hs5⟩, Hbr, Hsr⟩
    isplitl [Hb0 Hb1 Hb2 Hb3 Hb4 Hbr]
    · isplitl [Hb0]; · iexact Hb0
      isplitl [Hb1]; · iexact Hb1
      isplitl [Hb2]; · iexact Hb2
      isplitl [Hb3]; · iexact Hb3
      isplitl [Hb4]; · iexact Hb4
      iexact Hbr
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsr

end Cert.Proof.ScB

end
-- ==== Proof.ScSetsScB.lean ====
/-
  Which words of the result array each vector subcore writes. The body slices the result row by row and then by a
  range of columns; read through those slices, subcore `s` of SparseCore 0 owns row `s / 4`, columns
  `128 (s mod 4) … + 128`, and subcore `s` of SparseCore 1 owns row `s / 4`, columns `512 + 1024 (s mod 4) … + 1024`.
  The thirty-two pieces are pairwise disjoint.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.Kernel
import proofs.«209750_g45337674776763_cont_8to1c4_158_37_alg».proof.Proof.Gen.Kernel.Skeleton
import Idealize.ShloMosaic.Lib.ValueIdx
import proofs.«209750_g45337674776763_cont_8to1c4_158_37_alg».proof.Proof.ScCommonScB

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.Kernel.main_v7_scv : Memref Cert.Kernel.sig Kind.scVector Space.hbm Cert.Kernel.S4x3x512 EltTy.f32)
local notation "A8" => (Memref.whole Cert.Kernel.main_v8_scv : Memref Cert.Kernel.sig Kind.scVector Space.hbm Cert.Kernel.S4x3x512 EltTy.f32)
local notation "A6" => (Memref.whole Cert.Kernel.main_v6_scv : Memref Cert.Kernel.sig Kind.scVector Space.hbm Cert.Kernel.S4x3x4096 EltTy.f32)
local notation "A1" => (Memref.whole Cert.Kernel.main_v1_scv : Memref Cert.Kernel.sig Kind.scVector Space.hbm Cert.Kernel.S4x3x4096 EltTy.f32)
local notation "A9" => (Memref.whole Cert.Kernel.main_v9_scv : Memref Cert.Kernel.sig Kind.scVector Space.hbm Cert.Kernel.S4x4608 EltTy.f32)
local notation "B0" => (Memref.whole Cert.Kernel.cc0_scratch0 : Memref Cert.Kernel.sig Kind.scVector Space.vmem Cert.Kernel.S3x512 EltTy.f32)
local notation "B1" => (Memref.whole Cert.Kernel.cc0_scratch1 : Memref Cert.Kernel.sig Kind.scVector Space.vmem Cert.Kernel.S3x512 EltTy.f32)
local notation "B2" => (Memref.whole Cert.Kernel.cc0_scratch2 : Memref Cert.Kernel.sig Kind.scVector Space.vmem Cert.Kernel.S3x4096 EltTy.f32)
local notation "B3" => (Memref.whole Cert.Kernel.cc0_scratch3 : Memref Cert.Kernel.sig Kind.scVector Space.vmem Cert.Kernel.S3x4096 EltTy.f32)
local notation "B4" => (Memref.whole Cert.Kernel.cc0_scratch4 : Memref Cert.Kernel.sig Kind.scVector Space.vmem Cert.Kernel.S1024 EltTy.f32)

theorem off9_L0 : ∀ s : Fin (grid0.bound 1), k0_off9 (L0 s) = ![s.val / 4, 0] := by decide +kernel
theorem off10_L0 : ∀ s : Fin (grid0.bound 1), k0_off10 (L0 s) = ![(s.val % 4) * 128] := by decide +kernel
theorem off38_L1 : ∀ s : Fin (grid0.bound 1), k0_off38 (L1 s) = ![s.val / 4, 0] := by decide +kernel
theorem off39_L1 : ∀ s : Fin (grid0.bound 1), k0_off39 (L1 s) = ![512 + (s.val % 4) * 1024] := by decide +kernel

/-- Where word `j` of a SparseCore-0 subcore's piece lies in the result array. -/
theorem emb_out0 (s : Fin (grid0.bound 1)) (j : S128.Idx) (a : Fin 2) :
    ((out0 (L0 s) (h1_L0 s)).view.emb j a).val = (![s.val / 4, (s.val % 4) * 128 + (j 0).val] : Fin 2 → Nat) a := by
  simp only [Memref.view_slice, Memref.view_squeeze, Memref.view_whole, View.emb_slice, View.emb_reshape, View.emb_whole,
    Function.Embedding.trans_apply, Equiv.coe_toEmbedding, Function.Embedding.refl_apply]
  rw [Rect.emb_apply, Rect.off_unit, Rect.stride_unit, Nat.one_mul, congrFun (off9_L0 s) a]
  erw [Shape.reshapeEquiv_cons_one (n := 1) (d := ![4608])]
  match a with
  | 0 => simp; rfl
  | 1 =>
    show (![s.val / 4, 0] : Fin 2 → Nat) 1 + ((Rect.unit (s := S4608) (k0_off10 (L0 s)) ![128] _).emb j 0 : Nat) = _
    rw [Rect.emb_apply, Rect.off_unit, Rect.stride_unit, Nat.one_mul, congrFun (off10_L0 s) 0]
    simp

/-- Where word `j` of a SparseCore-1 subcore's piece lies in the result array. -/
theorem emb_out1 (s : Fin (grid0.bound 1)) (j : S1024.Idx) (a : Fin 2) :
    ((out1 (L1 s) (h2_L1 s)).view.emb j a).val = (![s.val / 4, 512 + (s.val % 4) * 1024 + (j 0).val] : Fin 2 → Nat) a := by
  simp only [Memref.view_slice, Memref.view_squeeze, Memref.view_whole, View.emb_slice, View.emb_reshape, View.emb_whole,
    Function.Embedding.trans_apply, Equiv.coe_toEmbedding, Function.Embedding.refl_apply]
  rw [Rect.emb_apply, Rect.off_unit, Rect.stride_unit, Nat.one_mul, congrFun (off38_L1 s) a]
  erw [Shape.reshapeEquiv_cons_one (n := 1) (d := ![4608])]
  match a with
  | 0 => simp; rfl
  | 1 =>
    show (![s.val / 4, 0] : Fin 2 → Nat) 1 + ((Rect.unit (s := S4608) (k0_off39 (L1 s)) ![1024] _).emb j 0 : Nat) = _
    rw [Rect.emb_apply, Rect.off_unit, Rect.stride_unit, Nat.one_mul, congrFun (off39_L1 s) 0]
    simp

theorem mem_out0 (s : Fin (grid0.bound 1)) (i : S4x4608.Idx) :
    i ∈ (out0 (L0 s) (h1_L0 s)).view.set ↔ (i 0).val = s.val / 4 ∧ (s.val % 4) * 128 ≤ (i 1).val ∧ (i 1).val < (s.val % 4) * 128 + 128 := by
  unfold View.set
  rw [Finset.mem_map]
  constructor
  · rintro ⟨j, -, rfl⟩
    have e0 : ((out0 (L0 s) (h1_L0 s)).view.emb j 0).val = s.val / 4 := by simpa using emb_out0 s j 0
    have e1 : ((out0 (L0 s) (h1_L0 s)).view.emb j 1).val = (s.val % 4) * 128 + (j 0).val := by simpa using emb_out0 s j 1
    have hj : (j 0).val < 128 := (j 0).isLt
    refine ⟨e0, ?_, ?_⟩ <;> omega
  · rintro ⟨h0, h1, h2⟩
    refine ⟨ValueIdx.ix1 (⟨(i 1).val - (s.val % 4) * 128, by omega⟩ : Fin 128), Finset.mem_univ _, ?_⟩
    funext a; apply Fin.ext
    rw [emb_out0]
    match a with
    | 0 => simp; omega
    | 1 => simp; omega

theorem mem_out1 (s : Fin (grid0.bound 1)) (i : S4x4608.Idx) :
    i ∈ (out1 (L1 s) (h2_L1 s)).view.set ↔ (i 0).val = s.val / 4 ∧ 512 + (s.val % 4) * 1024 ≤ (i 1).val ∧ (i 1).val < 512 + (s.val % 4) * 1024 + 1024 := by
  unfold View.set
  rw [Finset.mem_map]
  constructor
  · rintro ⟨j, -, rfl⟩
    have e0 : ((out1 (L1 s) (h2_L1 s)).view.emb j 0).val = s.val / 4 := by simpa using emb_out1 s j 0
    have e1 : ((out1 (L1 s) (h2_L1 s)).view.emb j 1).val = 512 + (s.val % 4) * 1024 + (j 0).val := by simpa using emb_out1 s j 1
    have hj : (j 0).val < 1024 := (j 0).isLt
    refine ⟨e0, ?_, ?_⟩ <;> omega
  · rintro ⟨h0, h1, h2⟩
    refine ⟨ValueIdx.ix1 (⟨(i 1).val - (512 + (s.val % 4) * 1024), by omega⟩ : Fin 1024), Finset.mem_univ _, ?_⟩
    funext a; apply Fin.ext
    rw [emb_out1]
    match a with
    | 0 => simp; omega
    | 1 => simp; omega

/-- The piece of the result array subcore `s` of SparseCore `c` writes. -/
def tileSet (c : Fin 2) (s : Fin (grid0.bound 1)) : Finset S4x4608.Idx :=
  match c with
  | 0 => (out0 (L0 s) (h1_L0 s)).view.set
  | 1 => (out1 (L1 s) (h2_L1 s)).view.set

theorem tile_disjoint (c : Fin 2) (s s' : Fin (grid0.bound 1)) (h : s ≠ s') : Disjoint (tileSet c s) (tileSet c s') := by
  have hs : s.val < 16 := s.isLt
  have hs' : s'.val < 16 := s'.isLt
  have hne : s.val ≠ s'.val := fun e => h (Fin.ext e)
  rw [Finset.disjoint_left]
  intro i hi hi'
  match c with
  | 0 =>
    have a := (mem_out0 s i).mp hi
    have b := (mem_out0 s' i).mp hi'
    omega
  | 1 =>
    have a := (mem_out1 s i).mp hi
    have b := (mem_out1 s' i).mp hi'
    omega

theorem core_disjoint (s s' : Fin (grid0.bound 1)) : Disjoint (tileSet 0 s) (tileSet 1 s') := by
  rw [Finset.disjoint_left]
  intro i hi hi'
  have a := (mem_out0 s i).mp hi
  have b := (mem_out1 s' i).mp hi'
  omega

/-- What SparseCore `c`'s sixteen subcores write between them. -/
def coreSet (c : Fin 2) : Finset S4x4608.Idx := Finset.univ.biUnion (tileSet c)

theorem coreSets_disjoint : Disjoint (coreSet 0) (coreSet 1) := by
  unfold coreSet
  rw [Finset.disjoint_biUnion_left]
  intro s _
  rw [Finset.disjoint_biUnion_right]
  intro s' _
  exact core_disjoint s s'

end Cert.Proof.ScB

end
-- ==== Proof.ScBody0ScB.lean ====
/-
  One vector subcore of SparseCore 0 runs the body: it copies its batch's four arrays into its scratch, scans the 4096
  candidate points sixteen at a time in a counted loop that only READS the two candidate buffers (the eight running
  minima are carried values), stores the 128 finished distances into its result scratch and copies them to its own 128
  words of the result row. The branch of SparseCore 1 is not taken.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.Kernel
import proofs.«209750_g45337674776763_cont_8to1c4_158_37_alg».proof.Proof.Gen.Kernel.Skeleton
import proofs.«209750_g45337674776763_cont_8to1c4_158_37_alg».proof.Proof.ScCommonScB

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.Kernel.main_v7_scv : Memref Cert.Kernel.sig Kind.scVector Space.hbm Cert.Kernel.S4x3x512 EltTy.f32)
local notation "A8" => (Memref.whole Cert.Kernel.main_v8_scv : Memref Cert.Kernel.sig Kind.scVector Space.hbm Cert.Kernel.S4x3x512 EltTy.f32)
local notation "A6" => (Memref.whole Cert.Kernel.main_v6_scv : Memref Cert.Kernel.sig Kind.scVector Space.hbm Cert.Kernel.S4x3x4096 EltTy.f32)
local notation "A1" => (Memref.whole Cert.Kernel.main_v1_scv : Memref Cert.Kernel.sig Kind.scVector Space.hbm Cert.Kernel.S4x3x4096 EltTy.f32)
local notation "A9" => (Memref.whole Cert.Kernel.main_v9_scv : Memref Cert.Kernel.sig Kind.scVector Space.hbm Cert.Kernel.S4x4608 EltTy.f32)
local notation "B0" => (Memref.whole Cert.Kernel.cc0_scratch0 : Memref Cert.Kernel.sig Kind.scVector Space.vmem Cert.Kernel.S3x512 EltTy.f32)
local notation "B1" => (Memref.whole Cert.Kernel.cc0_scratch1 : Memref Cert.Kernel.sig Kind.scVector Space.vmem Cert.Kernel.S3x512 EltTy.f32)
local notation "B2" => (Memref.whole Cert.Kernel.cc0_scratch2 : Memref Cert.Kernel.sig Kind.scVector Space.vmem Cert.Kernel.S3x4096 EltTy.f32)
local notation "B3" => (Memref.whole Cert.Kernel.cc0_scratch3 : Memref Cert.Kernel.sig Kind.scVector Space.vmem Cert.Kernel.S3x4096 EltTy.f32)
local notation "B4" => (Memref.whole Cert.Kernel.cc0_scratch4 : Memref Cert.Kernel.sig Kind.scVector Space.vmem Cert.Kernel.S1024 EltTy.f32)

variable [FloatOps F]
variable (d : Dev nD)

/-- The scan loop of SparseCore 0 only reads the two candidate scratch buffers. -/
def invRead23 (L : grid0.Coords) (σ : Type) (_ : Nat) (_ : σ) : sProp 𝕄 :=
  iprop((∃ f, (B2).view.loc (thr d L) ↦{fullShare} f) ∗ (∃ f, (B3).view.loc (thr d L) ↦{fullShare} f))

set_option maxHeartbeats 4000000 in
/-- The body on subcore `s` of SparseCore 0: it ends, faults nowhere, gives back the four arrays as they were, its
    piece of the result at some contents, and its own scratch and semaphores. -/
theorem tile_body0 (s : Fin (grid0.bound 1)) (q : PosShare TreeShare) (O : CellTallies nD τ sig (HIx 1)) (W : Waits sig (HIx 1))
    (f7 : Buf (Elt F) (l7 d)) (f8 : Buf (Elt F) (l8 d)) (f6 : Buf (Elt F) (l6 d)) (f1 : Buf (Elt F) (l1 d)) :
    (iprop(Transfers.MayWaits (thr d (L0 s)) (none : HIx 1) O
        ∗ ins4 d q f7 f8 f6 f1
        ∗ (∃ f, l9 d ↦[(out0 (L0 s) (h1_L0 s)).view.set]{fullShare} f)
        ∗ own5 d (L0 s)
        ∗ owes (thr d (L0 s)) O W) : sProp 𝕄)
      ⊢ wp frame (wpE (defs₀ (F := F)) Variants.none (thr d (L0 s)) none) Set.univ
          (cc0__sc_body (F := F) (L0 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(ins4 d q f7 f8 f6 f1
            ∗ (∃ f, l9 d ↦[(out0 (L0 s) (h1_L0 s)).view.set]{fullShare} f)
            ∗ own5 d (L0 s)
            ∗ ∃ W', ⌜∀ p ∈ W', p ∈ W ∨ p.2 = none⌝ ∗ owes (thr d (L0 s)) O W') := by
  have k0_h1 : k0_cond1 (L0 s) = 1#1 := h1_L0 s
  have k0_h2 : ¬ k0_cond2 (L0 s) = 1#1 := h2_L0 s
  simp only [cc0__sc_body_eq_skeleton]; unfold cc0__sc_body_skel
  unfold ins4 own5
  iintro ⟨Hmw, ⟨H7, H8, H6, H1⟩, ⟨%f9, H9⟩, ⟨⟨%b0, HB0⟩, ⟨%b1, HB1⟩, ⟨%b2, HB2⟩, ⟨%b3, HB3⟩, ⟨%b4, HB4⟩, Hs0, Hs1, Hs2, Hs3, Hs4, Hs5⟩, HO⟩
  ihave H7 := (Entails.of_eq (pts7 (F := F) (U := U) d (L0 s) _ _).symm) $$ H7
  ihave H8 := (Entails.of_eq (pts8 (F := F) (U := U) d (L0 s) _ _).symm) $$ H8
  ihave H6 := (Entails.of_eq (pts6 (F := F) (U := U) d (L0 s) _ _).symm) $$ H6
  ihave H1 := (Entails.of_eq (pts1 (F := F) (U := U) d (L0 s) _ _).symm) $$ H1
  ihave H9 := (Entails.of_eq (ptsO0 (F := F) (U := U) d (L0 s) (h1_L0 s) _).symm) $$ H9
  ihave HB0 := (Entails.of_eq (ptsB0 (F := F) (U := U) d (L0 s) _).symm) $$ HB0
  ihave HB1 := (Entails.of_eq (ptsB1 (F := F) (U := U) d (L0 s) _).symm) $$ HB1
  ihave HB2 := (Entails.of_eq (ptsB2 (F := F) (U := U) d (L0 s) _).symm) $$ HB2
  ihave HB3 := (Entails.of_eq (ptsB3 (F := F) (U := U) d (L0 s) _).symm) $$ HB3
  ihave HB4 := (Entails.of_eq (ptsB4 (F := F) (U := U) d (L0 s) _).symm) $$ HB4
  sl_exec_parts
  sl_for (invRead23 (F := F) (U := U) d (L0 s) _) $$ [HB2 HB3]
  case region =>
    intro k acc
    unfold invRead23
    iintro ⟨⟨%c2, HB2⟩, ⟨%c3, HB3⟩⟩
    sl_exec_parts
    sl_step
    isplitl [HB2]
    · iexists _; iexact HB2
    · iexists _; iexact HB3
  · unfold invRead23
    isplitl [HB2]
    · iexists _; iexact HB2
    · iexists _; iexact HB3
  iintro %acc HI
  unfold invRead23
  icases HI with ⟨⟨%c2, HB2⟩, ⟨%c3, HB3⟩⟩
  sl_exec_parts
  sl_step
  isplitl [H7 H8 H6 H1]
  · isplitl [H7]; · iapply (Entails.of_eq (pts7 (F := F) (U := U) d (L0 s) _ _)); iexact H7
    isplitl [H8]; · iapply (Entails.of_eq (pts8 (F := F) (U := U) d (L0 s) _ _)); iexact H8
    isplitl [H6]; · iapply (Entails.of_eq (pts6 (F := F) (U := U) d (L0 s) _ _)); iexact H6
    iapply (Entails.of_eq (pts1 (F := F) (U := U) d (L0 s) _ _)); iexact H1
  isplitl [H9]
  · iexists _; iapply (Entails.of_eq (ptsO0 (F := F) (U := U) d (L0 s) (h1_L0 s) _)); iexact H9
  isplitl [HB0 HB1 HB2 HB3 HB4 Hs0 Hs1 Hs2 Hs3 Hs4 Hs5]
  · isplitl [HB0]; · iexists _; iapply (Entails.of_eq (ptsB0 (F := F) (U := U) d (L0 s) _)); iexact HB0
    isplitl [HB1]; · iexists _; iapply (Entails.of_eq (ptsB1 (F := F) (U := U) d (L0 s) _)); iexact HB1
    isplitl [HB2]; · iexists _; iapply (Entails.of_eq (ptsB2 (F := F) (U := U) d (L0 s) _)); iexact HB2
    isplitl [HB3]; · iexists _; iapply (Entails.of_eq (ptsB3 (F := F) (U := U) d (L0 s) _)); iexact HB3
    isplitl [HB4]; · iexists _; iapply (Entails.of_eq (ptsB4 (F := F) (U := U) d (L0 s) _)); iexact HB4
    isplitl [Hs0]; · iexact Hs0
    isplitl [Hs1]; · iexact Hs1
    isplitl [Hs2]; · iexact Hs2
    isplitl [Hs3]; · iexact Hs3
    isplitl [Hs4]; · iexact Hs4
    iexact Hs5
  iexists _; isplitr
  swap
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Cert.Proof.ScB

end
-- ==== Proof.ScBody1ScB.lean ====
/-
  One vector subcore of SparseCore 1 runs the body: it copies its batch's four arrays into its scratch, then, for each
  of eight blocks of 128 of its 1024 points, scans the 512 candidate points sixteen at a time in a counted loop that only
  READS the two candidate buffers, and stores the block's finished distances into its result scratch; at the end it
  copies the 1024 distances to its own 1024 words of the result row. The branch of SparseCore 0 is not taken.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.Kernel
import proofs.«209750_g45337674776763_cont_8to1c4_158_37_alg».proof.Proof.Gen.Kernel.Skeleton
import proofs.«209750_g45337674776763_cont_8to1c4_158_37_alg».proof.Proof.ScCommonScB

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.Kernel.main_v7_scv : Memref Cert.Kernel.sig Kind.scVector Space.hbm Cert.Kernel.S4x3x512 EltTy.f32)
local notation "A8" => (Memref.whole Cert.Kernel.main_v8_scv : Memref Cert.Kernel.sig Kind.scVector Space.hbm Cert.Kernel.S4x3x512 EltTy.f32)
local notation "A6" => (Memref.whole Cert.Kernel.main_v6_scv : Memref Cert.Kernel.sig Kind.scVector Space.hbm Cert.Kernel.S4x3x4096 EltTy.f32)
local notation "A1" => (Memref.whole Cert.Kernel.main_v1_scv : Memref Cert.Kernel.sig Kind.scVector Space.hbm Cert.Kernel.S4x3x4096 EltTy.f32)
local notation "A9" => (Memref.whole Cert.Kernel.main_v9_scv : Memref Cert.Kernel.sig Kind.scVector Space.hbm Cert.Kernel.S4x4608 EltTy.f32)
local notation "B0" => (Memref.whole Cert.Kernel.cc0_scratch0 : Memref Cert.Kernel.sig Kind.scVector Space.vmem Cert.Kernel.S3x512 EltTy.f32)
local notation "B1" => (Memref.whole Cert.Kernel.cc0_scratch1 : Memref Cert.Kernel.sig Kind.scVector Space.vmem Cert.Kernel.S3x512 EltTy.f32)
local notation "B2" => (Memref.whole Cert.Kernel.cc0_scratch2 : Memref Cert.Kernel.sig Kind.scVector Space.vmem Cert.Kernel.S3x4096 EltTy.f32)
local notation "B3" => (Memref.whole Cert.Kernel.cc0_scratch3 : Memref Cert.Kernel.sig Kind.scVector Space.vmem Cert.Kernel.S3x4096 EltTy.f32)
local notation "B4" => (Memref.whole Cert.Kernel.cc0_scratch4 : Memref Cert.Kernel.sig Kind.scVector Space.vmem Cert.Kernel.S1024 EltTy.f32)

variable [FloatOps F]
variable (d : Dev nD)

/-- The scan loops of SparseCore 1 only read the two candidate scratch buffers. -/
def invRead01 (L : grid0.Coords) (σ : Type) (_ : Nat) (_ : σ) : sProp 𝕄 :=
  iprop((∃ f, (B0).view.loc (thr d L) ↦{fullShare} f) ∗ (∃ f, (B1).view.loc (thr d L) ↦{fullShare} f))

set_option maxHeartbeats 8000000 in
/-- The body on subcore `s` of SparseCore 1: it ends, faults nowhere, gives back the four arrays as they were, its
    piece of the result at some contents, and its own scratch and semaphores. -/
theorem tile_body1 (s : Fin (grid0.bound 1)) (q : PosShare TreeShare) (O : CellTallies nD τ sig (HIx 1)) (W : Waits sig (HIx 1))
    (f7 : Buf (Elt F) (l7 d)) (f8 : Buf (Elt F) (l8 d)) (f6 : Buf (Elt F) (l6 d)) (f1 : Buf (Elt F) (l1 d)) :
    (iprop(Transfers.MayWaits (thr d (L1 s)) (none : HIx 1) O
        ∗ ins4 d q f7 f8 f6 f1
        ∗ (∃ f, l9 d ↦[(out1 (L1 s) (h2_L1 s)).view.set]{fullShare} f)
        ∗ own5 d (L1 s)
        ∗ owes (thr d (L1 s)) O W) : sProp 𝕄)
      ⊢ wp frame (wpE (defs₀ (F := F)) Variants.none (thr d (L1 s)) none) Set.univ
          (cc0__sc_body (F := F) (L1 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(ins4 d q f7 f8 f6 f1
            ∗ (∃ f, l9 d ↦[(out1 (L1 s) (h2_L1 s)).view.set]{fullShare} f)
            ∗ own5 d (L1 s)
            ∗ ∃ W', ⌜∀ p ∈ W', p ∈ W ∨ p.2 = none⌝ ∗ owes (thr d (L1 s)) O W') := by
  have k0_h1 : ¬ k0_cond1 (L1 s) = 1#1 := h1_L1 s
  have k0_h2 : k0_cond2 (L1 s) = 1#1 := h2_L1 s
  simp only [cc0__sc_body_eq_skeleton]; unfold cc0__sc_body_skel
  unfold ins4 own5
  iintro ⟨Hmw, ⟨H7, H8, H6, H1⟩, ⟨%f9, H9⟩, ⟨⟨%b0, HB0⟩, ⟨%b1, HB1⟩, ⟨%b2, HB2⟩, ⟨%b3, HB3⟩, ⟨%b4, HB4⟩, Hs0, Hs1, Hs2, Hs3, Hs4, Hs5⟩, HO⟩
  ihave H7 := (Entails.of_eq (pts7 (F := F) (U := U) d (L1 s) _ _).symm) $$ H7
  ihave H8 := (Entails.of_eq (pts8 (F := F) (U := U) d (L1 s) _ _).symm) $$ H8
  ihave H6 := (Entails.of_eq (pts6 (F := F) (U := U) d (L1 s) _ _).symm) $$ H6
  ihave H1 := (Entails.of_eq (pts1 (F := F) (U := U) d (L1 s) _ _).symm) $$ H1
  ihave H9 := (Entails.of_eq (ptsO1 (F := F) (U := U) d (L1 s) (h2_L1 s) _).symm) $$ H9
  ihave HB0 := (Entails.of_eq (ptsB0 (F := F) (U := U) d (L1 s) _).symm) $$ HB0
  ihave HB1 := (Entails.of_eq (ptsB1 (F := F) (U := U) d (L1 s) _).symm) $$ HB1
  ihave HB2 := (Entails.of_eq (ptsB2 (F := F) (U := U) d (L1 s) _).symm) $$ HB2
  ihave HB3 := (Entails.of_eq (ptsB3 (F := F) (U := U) d (L1 s) _).symm) $$ HB3
  ihave HB4 := (Entails.of_eq (ptsB4 (F := F) (U := U) d (L1 s) _).symm) $$ HB4
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc1 HI
  unfold invRead01
  icases HI with ⟨⟨%c0_1, HB0⟩, ⟨%c1_1, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc2 HI
  unfold invRead01
  icases HI with ⟨⟨%c0_2, HB0⟩, ⟨%c1_2, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc3 HI
  unfold invRead01
  icases HI with ⟨⟨%c0_3, HB0⟩, ⟨%c1_3, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc4 HI
  unfold invRead01
  icases HI with ⟨⟨%c0_4, HB0⟩, ⟨%c1_4, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc5 HI
  unfold invRead01
  icases HI with ⟨⟨%c0_5, HB0⟩, ⟨%c1_5, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc6 HI
  unfold invRead01
  icases HI with ⟨⟨%c0_6, HB0⟩, ⟨%c1_6, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc7 HI
  unfold invRead01
  icases HI with ⟨⟨%c0_7, HB0⟩, ⟨%c1_7, HB1⟩⟩
  sl_exec_parts
  sl_for (invRead01 (F := F) (U := U) d (L1 s) _) $$ [HB0 HB1]
  case region =>
    intro k acc
    unfold invRead01
    iintro ⟨⟨%c0, HB0⟩, ⟨%c1, HB1⟩⟩
    sl_exec_parts
    sl_step
    isplitl [HB0]
    · iexists _; iexact HB0
    · iexists _; iexact HB1
  · unfold invRead01
    isplitl [HB0]
    · iexists _; iexact HB0
    · iexists _; iexact HB1
  iintro %acc8 HI
  unfold invRead01
  icases HI with ⟨⟨%c0_8, HB0⟩, ⟨%c1_8, HB1⟩⟩
  sl_exec_parts
  sl_step
  isplitl [H7 H8 H6 H1]
  · isplitl [H7]; · iapply (Entails.of_eq (pts7 (F := F) (U := U) d (L1 s) _ _)); iexact H7
    isplitl [H8]; · iapply (Entails.of_eq (pts8 (F := F) (U := U) d (L1 s) _ _)); iexact H8
    isplitl [H6]; · iapply (Entails.of_eq (pts6 (F := F) (U := U) d (L1 s) _ _)); iexact H6
    iapply (Entails.of_eq (pts1 (F := F) (U := U) d (L1 s) _ _)); iexact H1
  isplitl [H9]
  · iexists _; iapply (Entails.of_eq (ptsO1 (F := F) (U := U) d (L1 s) (h2_L1 s) _)); iexact H9
  isplitl [HB0 HB1 HB2 HB3 HB4 Hs0 Hs1 Hs2 Hs3 Hs4 Hs5]
  · isplitl [HB0]; · iexists _; iapply (Entails.of_eq (ptsB0 (F := F) (U := U) d (L1 s) _)); iexact HB0
    isplitl [HB1]; · iexists _; iapply (Entails.of_eq (ptsB1 (F := F) (U := U) d (L1 s) _)); iexact HB1
    isplitl [HB2]; · iexists _; iapply (Entails.of_eq (ptsB2 (F := F) (U := U) d (L1 s) _)); iexact HB2
    isplitl [HB3]; · iexists _; iapply (Entails.of_eq (ptsB3 (F := F) (U := U) d (L1 s) _)); iexact HB3
    isplitl [HB4]; · iexists _; iapply (Entails.of_eq (ptsB4 (F := F) (U := U) d (L1 s) _)); iexact HB4
    isplitl [Hs0]; · iexact Hs0
    isplitl [Hs1]; · iexact Hs1
    isplitl [Hs2]; · iexact Hs2
    isplitl [Hs3]; · iexact Hs3
    isplitl [Hs4]; · iexact Hs4
    iexact Hs5
  iexists _; isplitr
  swap
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Cert.Proof.ScB

end
-- ==== Proof.ScLaunchScB.lean ====
/-
  The vector-subcore kernel as the launch theorem sees it: what the call hands each SparseCore and each of its sixteen
  subcores — a read share of the four arrays it reads and full ownership of the words of the result array it writes —
  the proof that every subcore's task runs from that to the same with its words at some contents, and how a SparseCore's
  operands split among its subcores and gather again.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.Kernel
import proofs.«209750_g45337674776763_cont_8to1c4_158_37_alg».proof.Proof.Gen.Kernel.Skeleton
import proofs.«209750_g45337674776763_cont_8to1c4_158_37_alg».proof.Proof.ScOwnScB
import proofs.«209750_g45337674776763_cont_8to1c4_158_37_alg».proof.Proof.ScSetsScB
import proofs.«209750_g45337674776763_cont_8to1c4_158_37_alg».proof.Proof.ScBody0ScB
import proofs.«209750_g45337674776763_cont_8to1c4_158_37_alg».proof.Proof.ScBody1ScB

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.Kernel.main_v7_scv : Memref Cert.Kernel.sig Kind.scVector Space.hbm Cert.Kernel.S4x3x512 EltTy.f32)
local notation "A8" => (Memref.whole Cert.Kernel.main_v8_scv : Memref Cert.Kernel.sig Kind.scVector Space.hbm Cert.Kernel.S4x3x512 EltTy.f32)
local notation "A6" => (Memref.whole Cert.Kernel.main_v6_scv : Memref Cert.Kernel.sig Kind.scVector Space.hbm Cert.Kernel.S4x3x4096 EltTy.f32)
local notation "A1" => (Memref.whole Cert.Kernel.main_v1_scv : Memref Cert.Kernel.sig Kind.scVector Space.hbm Cert.Kernel.S4x3x4096 EltTy.f32)
local notation "A9" => (Memref.whole Cert.Kernel.main_v9_scv : Memref Cert.Kernel.sig Kind.scVector Space.hbm Cert.Kernel.S4x4608 EltTy.f32)
local notation "B0" => (Memref.whole Cert.Kernel.cc0_scratch0 : Memref Cert.Kernel.sig Kind.scVector Space.vmem Cert.Kernel.S3x512 EltTy.f32)
local notation "B1" => (Memref.whole Cert.Kernel.cc0_scratch1 : Memref Cert.Kernel.sig Kind.scVector Space.vmem Cert.Kernel.S3x512 EltTy.f32)
local notation "B2" => (Memref.whole Cert.Kernel.cc0_scratch2 : Memref Cert.Kernel.sig Kind.scVector Space.vmem Cert.Kernel.S3x4096 EltTy.f32)
local notation "B3" => (Memref.whole Cert.Kernel.cc0_scratch3 : Memref Cert.Kernel.sig Kind.scVector Space.vmem Cert.Kernel.S3x4096 EltTy.f32)
local notation "B4" => (Memref.whole Cert.Kernel.cc0_scratch4 : Memref Cert.Kernel.sig Kind.scVector Space.vmem Cert.Kernel.S1024 EltTy.f32)

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

/-- SparseCore `c`'s read share of an array the kernel only reads; -/
def tokC (c : Fin 2) : PosShare TreeShare := Transfers.shareTok fullShare 2 c
/-- and subcore `s`'s share of that. -/
def tokT (c : Fin 2) (s : Fin 16) : PosShare TreeShare := Transfers.shareTok (tokC c) 16 s

section Pay

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))

/-- What a SparseCore is handed and hands back: its read shares and the words its subcores write, at some contents. -/
def forCore (d : Dev nD) (c : Fin 2) : sProp 𝕄 :=
  iprop(ins4 d (tokC c) (g7 d) (g8 d) (g6 d) (g1 d) ∗ ∃ f, l9 d ↦[coreSet c]{fullShare} f)
/-- What a subcore is handed and hands back. -/
def forTile (d : Dev nD) (c : Fin 2) (s : Fin 16) : sProp 𝕄 :=
  iprop(ins4 d (tokT c s) (g7 d) (g8 d) (g6 d) (g1 d) ∗ ∃ f, l9 d ↦[tileSet c s]{fullShare} f)

instance forCore_storable (d : Dev nD) (c : Fin 2) : BI.Storable (upEmb : UEmb _ 𝕄) (forCore g7 g8 g6 g1 d c) := by
  unfold forCore ins4; infer_instance
instance forTile_storable (d : Dev nD) (c : Fin 2) (s : Fin 16) : BI.Storable (upEmb : UEmb _ 𝕄) (forTile g7 g8 g6 g1 d c s) := by
  unfold forTile ins4; infer_instance

def P : (K (F := F)).Pay (nD := nD) (Val := Elt F) (Name := ℕ) (U := U) where
  st := fun q d c => match q with | 0 => forCore g7 g8 g6 g1 d (Fin.cast nCore_zero c)
  dn := fun q d c => match q with | 0 => forCore g7 g8 g6 g1 d (Fin.cast nCore_zero c)
  go := fun q d c i => match q with | 0 => forTile g7 g8 g6 g1 d (Fin.cast nCore_zero c) (Fin.cast nSub_zero i)
  td := fun q d c i => match q with | 0 => forTile g7 g8 g6 g1 d (Fin.cast nCore_zero c) (Fin.cast nSub_zero i)
  x := fun _ _ => iprop(emp)

instance P_storable : (P (F := F) (U := U) g7 g8 g6 g1).IsStorable where
  st q d c := match q with | 0 => (inferInstance : BI.Storable (upEmb : UEmb _ 𝕄) (forCore g7 g8 g6 g1 d (Fin.cast nCore_zero c)))
  dn q d c := match q with | 0 => (inferInstance : BI.Storable (upEmb : UEmb _ 𝕄) (forCore g7 g8 g6 g1 d (Fin.cast nCore_zero c)))
  go q d c i := match q with | 0 => (inferInstance : BI.Storable (upEmb : UEmb _ 𝕄) (forTile g7 g8 g6 g1 d (Fin.cast nCore_zero c) (Fin.cast nSub_zero i)))
  td q d c i := match q with | 0 => (inferInstance : BI.Storable (upEmb : UEmb _ 𝕄) (forTile g7 g8 g6 g1 d (Fin.cast nCore_zero c) (Fin.cast nSub_zero i)))

/-! ## The task -/

variable [FloatOps F]

theorem defs₀_vector (c : Fin τ.nSC) (s : Fin τ.nSub) :
    defs₀ (F := F) (.scVector c s) 0 ()
      = SparseCore.onTile hcore0 hsub0 (fun c s => cc0__sc_body (coordsV c s)
          A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A subcore's task from what the launch hands it — its operands, its scoped storage whole — to the same back: the body
    runs on the five scratch buffers and six semaphores it uses, the rest of the subcore's storage set aside. -/
theorem tile_wrap (d : Dev nD) (L : grid0.Coords) (A : sProp 𝕄) (O : CellTallies nD τ sig (HIx 1)) (W : Waits sig (HIx 1)) (hO : ∀ g, O g none = 0)
    {p : Prog (TpuEff nD τ sig (Elt F) Λ₀ (thr d L).2) PUnit}
    (hbody : (iprop(Transfers.MayWaits (thr d L) (none : HIx 1) O ∗ A ∗ own5 d L ∗ owes (thr d L) O W) : sProp 𝕄)
      ⊢ wp frame (wpE (defs₀ (F := F)) 𝒱₀ (thr d L) none) Set.univ p
          fun _ => iprop(A ∗ own5 d L ∗ ∃ W', ⌜∀ p ∈ W', p ∈ W ∨ p.2 = none⌝ ∗ owes (thr d L) O W')) :
    (iprop(levAts (K (F := F)).L (K (F := F)).lev ∗ emp ∗ A ∗ scopedBufs (thr d L) ∗ scopedSems0 (thr d L) ∗ owes (thr d L) O W) : sProp 𝕄)
      ⊢ wp frame (wpE (defs₀ (F := F)) 𝒱₀ (thr d L) none) Set.univ p
          fun _ => iprop(A ∗ scopedBufs (thr d L) ∗ scopedSems0 (thr d L) ∗ ∃ W', ⌜∀ p ∈ W', p ∈ W ∨ p.2 = none⌝ ∗ owes (thr d L) O W') := by
  rw [(K (F := F)).scopedBufs_V facts d _ _, SparseCore.Cfg.scopedSems0_V (Val := Elt F) d _ _]
  refine BIBase.Entails.trans ?_ (wp_mono frame _ _
    (Q := fun _ => (iprop((A ∗ own5 d L ∗ ∃ W', ⌜∀ p ∈ W', p ∈ W ∨ p.2 = none⌝ ∗ owes (thr d L) O W')
      ∗ ((bigSep (restRefs L) fun b => iprop(∃ f, ((d, b) : Loc nD τ sig) ↦{fullShare} f)) ∗ bigSep (restCells d L) fun g => semVal g 0)) : sProp 𝕄))
    (fun _ => ?post))
  swap
  · iintro ⟨⟨HA, Hown, HW⟩, Hbr, Hsr⟩
    isplitl [HA]; · iexact HA
    ihave H := (own_open (F := F) (U := U) d L).2 $$ [Hown Hbr Hsr]
    · isplitl [Hown]; · iexact Hown
      isplitl [Hbr]; · iexact Hbr
      iexact Hsr
    icases H with ⟨Hb, Hs⟩
    isplitl [Hb]; · iexact Hb
    isplitl [Hs]; · iexact Hs
    iexact HW
  refine BIBase.Entails.trans ?_ (wp_frame_r frame _ _)
  iintro ⟨#Hlv, -, HA, Hsb, Hss, HO⟩
  ihave H := (own_open (F := F) (U := U) d L).1 $$ [Hsb Hss]
  · isplitl [Hsb]; · iexact Hsb
    iexact Hss
  icases H with ⟨Hown, Hbr, Hsr⟩
  isplitl [HA Hown HO]
  · iapply hbody
    isplitr; · iapply ((K (F := F)).mayWaits_none (thr := thr d L) hO); iexact Hlv
    isplitl [HA]; · iexact HA
    isplitl [Hown]; · iexact Hown
    iexact HO
  isplitl [Hbr]; · iexact Hbr
  iexact Hsr

end Pay

section Obl

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
variable [FloatOps F]

/-- The body on a subcore of SparseCore 0, in the launch's grouping of its operands. -/
theorem body0' (d : Dev nD) (s : Fin (grid0.bound 1)) (O : CellTallies nD τ sig (HIx 1)) (W : Waits sig (HIx 1)) :
    (iprop(Transfers.MayWaits (thr d (L0 s)) (none : HIx 1) O ∗ forTile g7 g8 g6 g1 d 0 s ∗ own5 d (L0 s) ∗ owes (thr d (L0 s)) O W) : sProp 𝕄)
      ⊢ wp frame (wpE (defs₀ (F := F)) 𝒱₀ (thr d (L0 s)) none) Set.univ
          (cc0__sc_body (F := F) (L0 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(forTile g7 g8 g6 g1 d 0 s ∗ own5 d (L0 s) ∗ ∃ W', ⌜∀ p ∈ W', p ∈ W ∨ p.2 = none⌝ ∗ owes (thr d (L0 s)) O W') := by
  unfold forTile
  refine BIBase.Entails.trans ?_ ((tile_body0 (F := F) (U := U) d s (tokT 0 s) O W (g7 d) (g8 d) (g6 d) (g1 d)).trans (wp_mono frame _ _ fun _ => ?_))
  · iintro ⟨Hmw, ⟨Hi, Ho⟩, Hown, HO⟩
    isplitl [Hmw]; · iexact Hmw
    isplitl [Hi]; · iexact Hi
    isplitl [Ho]; · iexact Ho
    isplitl [Hown]; · iexact Hown
    iexact HO
  · iintro ⟨Hi, Ho, Hown, HW⟩
    isplitl [Hi Ho]
    · isplitl [Hi]; · iexact Hi
      iexact Ho
    isplitl [Hown]; · iexact Hown
    iexact HW

/-- The body on a subcore of SparseCore 1, in the launch's grouping of its operands. -/
theorem body1' (d : Dev nD) (s : Fin (grid0.bound 1)) (O : CellTallies nD τ sig (HIx 1)) (W : Waits sig (HIx 1)) :
    (iprop(Transfers.MayWaits (thr d (L1 s)) (none : HIx 1) O ∗ forTile g7 g8 g6 g1 d 1 s ∗ own5 d (L1 s) ∗ owes (thr d (L1 s)) O W) : sProp 𝕄)
      ⊢ wp frame (wpE (defs₀ (F := F)) 𝒱₀ (thr d (L1 s)) none) Set.univ
          (cc0__sc_body (F := F) (L1 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(forTile g7 g8 g6 g1 d 1 s ∗ own5 d (L1 s) ∗ ∃ W', ⌜∀ p ∈ W', p ∈ W ∨ p.2 = none⌝ ∗ owes (thr d (L1 s)) O W') := by
  unfold forTile
  refine BIBase.Entails.trans ?_ ((tile_body1 (F := F) (U := U) d s (tokT 1 s) O W (g7 d) (g8 d) (g6 d) (g1 d)).trans (wp_mono frame _ _ fun _ => ?_))
  · iintro ⟨Hmw, ⟨Hi, Ho⟩, Hown, HO⟩
    isplitl [Hmw]; · iexact Hmw
    isplitl [Hi]; · iexact Hi
    isplitl [Ho]; · iexact Ho
    isplitl [Hown]; · iexact Hown
    iexact HO
  · iintro ⟨Hi, Ho, Hown, HW⟩
    isplitl [Hi Ho]
    · isplitl [Hi]; · iexact Hi
      iexact Ho
    isplitl [Hown]; · iexact Hown
    iexact HW

/-- Every subcore's task, as the launch theorem asks for it. -/
theorem tileObl : (K (F := F)).TileObl (D (F := F)) 𝒱 (P (F := F) (U := U) g7 g8 g6 g1) v₀ 0 := by
  intro d c i O W hO _ _
  simp only [show (P (F := F) (U := U) g7 g8 g6 g1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  match c with
  | ⟨0, h⟩ =>
    exact (tile_wrap (F := F) (U := U) d (L0 ⟨i.val, i.isLt⟩) (forTile g7 g8 g6 g1 d 0 (Fin.cast nSub_zero i)) O W hO
      (body0' (F := F) (U := U) g7 g8 g6 g1 d ⟨i.val, i.isLt⟩ O W)).trans (wp_mono frame _ _ fun _ => obl_post)
  | ⟨1, h⟩ =>
    exact (tile_wrap (F := F) (U := U) d (L1 ⟨i.val, i.isLt⟩) (forTile g7 g8 g6 g1 d 1 (Fin.cast nSub_zero i)) O W hO
      (body1' (F := F) (U := U) g7 g8 g6 g1 d ⟨i.val, i.isLt⟩ O W)).trans (wp_mono frame _ _ fun _ => obl_post)

/-! ## A SparseCore's operands split among its subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem out_split (d : Dev nD) (c : Fin 2) (f : Buf (Elt F) (l9 d)) :
    (l9 d ↦[coreSet c]{fullShare} f : sProp 𝕄) = bigSep Finset.univ fun s : Fin 16 => l9 d ↦[tileSet c s]{fullShare} f := by
  unfold coreSet
  exact pointsTo_biUnion Finset.univ (ℓ := l9 d) (tileSet c) (fun s _ s' _ h => tile_disjoint c s s' h)

omit [FloatOps F] in
theorem out_ex (d : Dev nD) (c : Fin 2) (s : Fin 16) (f : Buf (Elt F) (l9 d)) :
    (l9 d ↦[tileSet c s]{fullShare} f : sProp 𝕄) ⊢ iprop(∃ f, l9 d ↦[tileSet c s]{fullShare} f) := by
  iintro H; iexists f; iexact H

theorem out_join (d : Dev nD) (c : Fin 2) :
    (bigSep Finset.univ fun s : Fin 16 => iprop(∃ f, l9 d ↦[tileSet c s]{fullShare} f)) ⊢ (iprop(∃ f, l9 d ↦[coreSet c]{fullShare} f) : sProp 𝕄) := by
  refine (bigSep_exists_pi Finset.univ (fun (s : Fin 16) (f : Buf (Elt F) (l9 d)) => (l9 d ↦[tileSet c s]{fullShare} f : sProp 𝕄))).trans ?_
  iintro ⟨%fs, H⟩
  ihave H' := (pointsTo_biUnion_join Finset.univ (tileSet c) fs (fs 0) (fun s _ s' _ h => tile_disjoint c s s' h)) $$ H
  icases H' with ⟨%g, -, Hg⟩
  iexists g; unfold coreSet; iexact Hg

theorem vecSplit : (K (F := F)).VecSplit' (P (F := F) (U := U) g7 g8 g6 g1) 0 := by
  intro d c
  show forCore g7 g8 g6 g1 d (Fin.cast nCore_zero c) ⊢ |={Set.univ}=> iprop(
      (bigSep Finset.univ fun i : Fin ((K (F := F)).nSub 0) => forTile g7 g8 g6 g1 d (Fin.cast nCore_zero c) (Fin.cast nSub_zero i))
      ∗ ((bigSep Finset.univ fun i : Fin ((K (F := F)).nSub 0) => forTile g7 g8 g6 g1 d (Fin.cast nCore_zero c) (Fin.cast nSub_zero i))
          -∗ forCore g7 g8 g6 g1 d (Fin.cast nCore_zero c)))
  rw [bigSep_tasks (F := F) (U := U) (fun i => forTile g7 g8 g6 g1 d (Fin.cast nCore_zero c) i)]
  generalize Fin.cast nCore_zero c = c'
  unfold forCore forTile ins4 tokT
  rw [bigSep_sep', bigSep_sep', bigSep_sep', bigSep_sep']
  iintro ⟨⟨H7, H8, H6, H1⟩, ⟨%f, H9⟩⟩
  ihave H7 := (Transfers.pointsTo_toks (tokC c') 16).1 $$ H7
  icases H7 with ⟨D7, T7⟩
  ihave H8 := (Transfers.pointsTo_toks (tokC c') 16).1 $$ H8
  icases H8 with ⟨D8, T8⟩
  ihave H6 := (Transfers.pointsTo_toks (tokC c') 16).1 $$ H6
  icases H6 with ⟨D6, T6⟩
  ihave H1 := (Transfers.pointsTo_toks (tokC c') 16).1 $$ H1
  icases H1 with ⟨D1, T1⟩
  ihave H9 := (Entails.of_eq (out_split (F := F) (U := U) d c' f)) $$ H9
  imodintro
  isplitl [T7 T8 T6 T1 H9]
  · isplitl [T7 T8 T6 T1]
    · isplitl [T7]; · iexact T7
      isplitl [T8]; · iexact T8
      isplitl [T6]; · iexact T6
      iexact T1
    · iapply (show (bigSep Finset.univ fun s : Fin 16 => (l9 d ↦[tileSet c' s]{fullShare} f : sProp 𝕄))
          ⊢ bigSep Finset.univ fun s : Fin 16 => iprop(∃ f, l9 d ↦[tileSet c' s]{fullShare} f)
        from bigSep_mono (fun s _ => out_ex (F := F) (U := U) d c' s f))
      iexact H9
  iintro ⟨⟨T7, T8, T6, T1⟩, H9⟩
  isplitl [D7 T7 D8 T8 D6 T6 D1 T1]
  · isplitl [D7 T7]
    · iapply (Transfers.pointsTo_toks (tokC c') 16).2; isplitl [D7]; · iexact D7
      iexact T7
    isplitl [D8 T8]
    · iapply (Transfers.pointsTo_toks (tokC c') 16).2; isplitl [D8]; · iexact D8
      iexact T8
    isplitl [D6 T6]
    · iapply (Transfers.pointsTo_toks (tokC c') 16).2; isplitl [D6]; · iexact D6
      iexact T6
    iapply (Transfers.pointsTo_toks (tokC c') 16).2; isplitl [D1]; · iexact D1
    iexact T1
  iapply (out_join (F := F) (U := U) d c'); iexact H9

end Obl

end Cert.Proof.ScB

end
-- ==== Proof.ScMainOpsScB.lean ====
/-
  @main on the TensorCore, cut where it leaves the host: four straight lines of host operations, between them the
  SparseCore call and the two TensorCore kernel regions.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.Kernel
import proofs.«209750_g45337674776763_cont_8to1c4_158_37_alg».proof.Proof.Gen.Kernel.Skeleton

noncomputable section

namespace Cert.Proof.ScB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

open Idealize.ShloMosaic.StableHlo (seq)
variable [FloatOps F]

/-- The transposes, the two format changes there and back, and the two strips: before the SparseCore call. -/
def ops0 : List (HloOp τ sig (Elt F)) := [
    StableHlo.unary main_arg0 main_v0 ((transpose S4x3x4096 [0, 2, 1] · transposes_S4x4096x3_S4x3x4096_0_2_1) : (⟨S4x4096x3, .f32⟩ : BufTy).Contents (Elt F) → (⟨S4x3x4096, .f32⟩ : BufTy).Contents (Elt F)),
    StableHlo.unary main_arg1 main_v1 ((transpose S4x3x4096 [0, 2, 1] · transposes_S4x4096x3_S4x3x4096_0_2_1) : (⟨S4x4096x3, .f32⟩ : BufTy).Contents (Elt F) → (⟨S4x3x4096, .f32⟩ : BufTy).Contents (Elt F)),
    StableHlo.unary main_v0 main_v2 ((truncf .bf16 · bitsLt_bf16_f32) : (⟨S4x3x4096, .f32⟩ : BufTy).Contents (Elt F) → (⟨S4x3x4096, .bf16⟩ : BufTy).Contents (Elt F)),
    StableHlo.unary main_v1 main_v3 ((truncf .bf16 · bitsLt_bf16_f32) : (⟨S4x3x4096, .f32⟩ : BufTy).Contents (Elt F) → (⟨S4x3x4096, .bf16⟩ : BufTy).Contents (Elt F)),
    StableHlo.unary main_v2 main_v4_0 (id : (⟨S4x3x4096, .bf16⟩ : BufTy).Contents (Elt F) → (⟨S4x3x4096, .bf16⟩ : BufTy).Contents (Elt F)),
    StableHlo.unary main_v3 main_v4_1 (id : (⟨S4x3x4096, .bf16⟩ : BufTy).Contents (Elt F) → (⟨S4x3x4096, .bf16⟩ : BufTy).Contents (Elt F)),
    StableHlo.unary main_v4_0 main_v5 ((extf .f32 · bitsLt_bf16_f32) : (⟨S4x3x4096, .bf16⟩ : BufTy).Contents (Elt F) → (⟨S4x3x4096, .f32⟩ : BufTy).Contents (Elt F)),
    StableHlo.unary main_v4_1 main_v6 ((extf .f32 · bitsLt_bf16_f32) : (⟨S4x3x4096, .bf16⟩ : BufTy).Contents (Elt F) → (⟨S4x3x4096, .f32⟩ : BufTy).Contents (Elt F)),
    StableHlo.unary main_v5 main_v7 ((extractStridedSlice S4x3x512 ![0, 0, 3584] · slices_S4x3x4096_S4x3x512_0_0_3584) : (⟨S4x3x4096, .f32⟩ : BufTy).Contents (Elt F) → (⟨S4x3x512, .f32⟩ : BufTy).Contents (Elt F)),
    StableHlo.unary main_v0 main_v8 ((extractStridedSlice S4x3x512 ![0, 0, 3584] · slices_S4x3x4096_S4x3x512_0_0_3584) : (⟨S4x3x4096, .f32⟩ : BufTy).Contents (Elt F) → (⟨S4x3x512, .f32⟩ : BufTy).Contents (Elt F)) ]
/-- The result's two halves, the zero padding to eight rows, the scaling by −2 and the transposes: before the first region. -/
def ops1 : List (HloOp τ sig (Elt F)) := [
    StableHlo.unary main_v9 main_v10 ((extractStridedSlice S4x512 ![0, 0] · slices_S4x4608_S4x512_0_0) : (⟨S4x4608, .f32⟩ : BufTy).Contents (Elt F) → (⟨S4x512, .f32⟩ : BufTy).Contents (Elt F)),
    StableHlo.unary main_v9 main_v11 ((extractStridedSlice S4x4096 ![0, 512] · slices_S4x4608_S4x4096_0_512) : (⟨S4x4608, .f32⟩ : BufTy).Contents (Elt F) → (⟨S4x4096, .f32⟩ : BufTy).Contents (Elt F)),
    StableHlo.nullary main_cst (constant S_ .f32 0x00000000#32),
    StableHlo.unary main_cst main_v12 (broadcastInDim S4x5x4096 ![] bcast_S_S4x5x4096 : (⟨S_, .f32⟩ : BufTy).Contents (Elt F) → (⟨S4x5x4096, .f32⟩ : BufTy).Contents (Elt F)),
    StableHlo.binary main_v0 main_v12 main_v13 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.binary main_v5 main_v12 main_v14 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.binary main_v1 main_v12 main_v15 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.binary main_v6 main_v12 main_v16 ((fun a b => concatenate S4x8x4096 1 [⟨S4x3x4096, a⟩, ⟨S4x5x4096, b⟩] concatenates_S4x3x4096_S4x5x4096_S4x8x4096_d1) : (⟨S4x3x4096, .f32⟩ : BufTy).Contents (Elt F) → (⟨S4x5x4096, .f32⟩ : BufTy).Contents (Elt F) → (⟨S4x8x4096, .f32⟩ : BufTy).Contents (Elt F)),
    StableHlo.nullary main_cst_0 (constant S_ .f32 0xC0000000#32),
    StableHlo.unary main_cst_0 main_v17 (broadcastInDim S4x8x4096 ![] bcast_S_S4x8x4096 : (⟨S_, .f32⟩ : BufTy).Contents (Elt F) → (⟨S4x8x4096, .f32⟩ : BufTy).Contents (Elt F)),
    StableHlo.binary main_v17 main_v14 main_v18 (mulf : (⟨S4x8x4096, .f32⟩ : BufTy).Contents (Elt F) → (⟨S4x8x4096, .f32⟩ : BufTy).Contents (Elt F) → (⟨S4x8x4096, .f32⟩ : BufTy).Contents (Elt F)),
    StableHlo.unary main_v18 main_v19 ((transpose S4x4096x8 [0, 2, 1] · transposes_S4x8x4096_S4x4096x8_0_2_1) : (⟨S4x8x4096, .f32⟩ : BufTy).Contents (Elt F) → (⟨S4x4096x8, .f32⟩ : BufTy).Contents (Elt F)),
    StableHlo.unary main_v19 main_v20 ((extractStridedSlice S4x3584x8 ![0, 0, 0] · slices_S4x4096x8_S4x3584x8_0_0_0) : (⟨S4x4096x8, .f32⟩ : BufTy).Contents (Elt F) → (⟨S4x3584x8, .f32⟩ : BufTy).Contents (Elt F)),
    StableHlo.unary main_v13 main_v21 ((transpose S4x4096x8 [0, 2, 1] · transposes_S4x8x4096_S4x4096x8_0_2_1) : (⟨S4x8x4096, .f32⟩ : BufTy).Contents (Elt F) → (⟨S4x4096x8, .f32⟩ : BufTy).Contents (Elt F)),
    StableHlo.unary main_v21 main_v22 ((extractStridedSlice S4x3584x8 ![0, 0, 0] · slices_S4x4096x8_S4x3584x8_0_0_0) : (⟨S4x4096x8, .f32⟩ : BufTy).Contents (Elt F) → (⟨S4x3584x8, .f32⟩ : BufTy).Contents (Elt F)) ]
/-- The first region's results reshaped and joined with the SparseCore's: before the second region. -/
def ops2 : List (HloOp τ sig (Elt F)) := [
    StableHlo.reshape main_v23_0 main_v24 rfl shapeCasts_S28x1x512_S4x3584,
    StableHlo.binary main_v24 main_v10 main_v25 ((fun a b => concatenate S4x4096 1 [⟨S4x3584, a⟩, ⟨S4x512, b⟩] concatenates_S4x3584_S4x512_S4x4096_d1) : (⟨S4x3584, .f32⟩ : BufTy).Contents (Elt F) → (⟨S4x512, .f32⟩ : BufTy).Contents (Elt F) → (⟨S4x4096, .f32⟩ : BufTy).Contents (Elt F)),
    StableHlo.reshape main_v23_1 main_v26 rfl shapeCasts_S4x1x4096_S4x4096 ]
/-- The scalar result reshaped. -/
def ops3 : List (HloOp τ sig (Elt F)) := [
    StableHlo.reshape main_v27 main_v28 rfl shapeCasts_S1x1_S_ ]

theorem main_eq (d : Dev nD) :
    main (F := F) d = (seq ops0 >>= fun _ => (sc (F := F)).run d 0 >>= fun _ => seq ops1 >>= fun _ =>
      Prog.lift (.customCall (SparseCore.inner (Pipeline.entry 0)) ()) >>= fun _ => seq ops2 >>= fun _ =>
      Prog.lift (.customCall (SparseCore.inner (Pipeline.entry 1)) ()) >>= fun _ => seq ops3 >>= fun _ => pure ⟨⟩) := rfl

theorem ops0_sub : (ops0 (F := F)).Forall fun op => op.bufs ⊆ StableHlo.tcRefs τ sig := ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem ops1_sub : (ops1 (F := F)).Forall fun op => op.bufs ⊆ StableHlo.tcRefs τ sig := ⟨StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub ..⟩
theorem ops2_sub : (ops2 (F := F)).Forall fun op => op.bufs ⊆ StableHlo.tcRefs τ sig := ⟨StableHlo.reshape_bufs_sub .., StableHlo.binary_bufs_sub .., StableHlo.reshape_bufs_sub ..⟩
theorem ops3_sub : (ops3 (F := F)).Forall fun op => op.bufs ⊆ StableHlo.tcRefs τ sig := StableHlo.reshape_bufs_sub ..

theorem ops0_fresh : ∀ op ∈ (ops0 (F := F)), op.fresh = ∅ := by intro _ h; (repeat (cases h with | head => rfl | tail _ h => ?_)); exact nomatch h
theorem ops1_fresh : ∀ op ∈ (ops1 (F := F)), op.fresh = ∅ := by intro _ h; (repeat (cases h with | head => rfl | tail _ h => ?_)); exact nomatch h
theorem ops2_fresh : ∀ op ∈ (ops2 (F := F)), op.fresh = ∅ := by intro _ h; (repeat (cases h with | head => rfl | tail _ h => ?_)); exact nomatch h
theorem ops3_fresh : ∀ op ∈ (ops3 (F := F)), op.fresh = ∅ := by intro _ h; (repeat (cases h with | head => rfl | tail _ h => ?_)); exact nomatch h

end Cert.Proof.ScB

end
-- ==== Proof.TcB_Ghost.lean ====
/-
  The ghost-state layout for the two TensorCore pipelines entered from inside the SparseCore program, generic in the
  float instance: the user algebra (the handshakes' rounds, the pipelines' rounds, the transfers' counters), the
  embeddings of the two rounds components, the pipelines' relational proof data at frame level (every window's
  relation holds of any two contents: nothing is said of what a body leaves in a staging buffer), and the form in
  which the TensorCore's debt travels through a region (nothing owed, recorded pairs at or below level 8).
-/
import proofs.«209750_g45337674776763_cont_8to1c4_158_37_alg».proof.Proof.Gen.Kernel.Launch
import proofs.«209750_g45337674776763_cont_8to1c4_158_37_alg».proof.Proof.Gen.Kernel.Points
import Idealize.ShloMosaic.Lib.SparseCore.Launch
import Idealize.ShloMosaic.Lib.Pipeline.Regions
import Idealize.ShloMosaic.Lib.Pipeline.Kit
import Idealize.ShloMosaic.Lib.StableHlo.Run
import Idealize.ShloMosaic.Lib.Tactic

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift

/-! ## The resource algebra -/

/-- The handshakes' rounds (duties numbered), -/
abbrev UH : Type := URounds (GSem nD τ sig) ℕ
/-- the pipelines' staging cells' rounds (duties unnamed), -/
abbrev UP : Type := UR sig nD τ
/-- and both beside the transfers' counters, which sit rightmost so that they are found by instance. -/
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipelines' rounds library: the left factor of the right factor. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-- The launch element of the product splits into its three components, each owned through its embedding. -/
theorem ownU_split (h : UH) (p : UP) (k : Counters) :
    (ownU ((h, (p, k)) : UU) : sProp 𝕄)
      ⊢ iprop(BI.own (EH (F := F) h) ∗ BI.own (EP (F := F) p) ∗ BI.own (((Emb.inr : Emb Counters (UP × Counters)).trans embR : Emb Counters 𝕄) k)) := by
  iintro Hu
  ihave H := (ownU_pair _ _) $$ Hu
  icases H with ⟨HH, HR⟩
  isplitl [HH]; · iexact HH
  iapply (own_pair_emb (embR : Emb (UP × Counters) 𝕄) p k); iexact HR

/-! ## The pipelines' tables and cells -/

/-- No pipeline has a prefetched table. -/
abbrev adm : (p : Fin 2) → (pcfgs (F := F) p).Adm := fun p => (cfgs p).toPCfg_adm

/-- The index the pipelines' waits are recorded at: a kernel's own, level 0. -/
abbrev ι₀ : HIx 1 := none

/-- The pairs at or below level 8: where the TensorCore's recorded pairs sit after the one SparseCore call. -/
def recB (d : Dev nD) : Set (SemLoc sig × HIx 1) := {p | (K (F := F)).lev ((T d : Thread nD τ), p.1) p.2 ≤ 8}

/-- What the TensorCore owes after the SparseCore call, as its handshake state holds it (first conjunct of the
    state before call 1). -/
def owesB (d : Dev nD) : sProp 𝕄 :=
  iprop(∃ W, ⌜(K (F := F)).WBelow (T d) W (8 * 1)⌝ ∗ owes (T d) ((K (F := F)).Otc (nD := nD) d 1) W)

/-! ## The proof data, at frame level -/

/-- Pipeline 0 (six windows) on core `c`, entered with the unscoped buffers at `W`. -/
def rdat1 (W : Valuation τ sig (Elt F)) (c : Dev nD) : Pipeline.RDat τ (Elt F) (HIx 1) ℕ UU ℕ (Pipeline.pin (pcfgs (F := F)) adm 0) c where
  A w := W (Pipeline.arrRef (Pipeline.pin (pcfgs (F := F)) adm 0).spec w)
  after _ _ _ _ := True
  Φ _ := Pipeline.scopedRest (Pipeline.pin (pcfgs (F := F)) adm 0).spec c
  q _ := fullShare
  owed _ := 0
  recorded _ := recB (F := F) c

/-- Pipeline 1 (five windows) on core `c`, entered with the unscoped buffers at `W`. -/
def rdat2 (W : Valuation τ sig (Elt F)) (c : Dev nD) : Pipeline.RDat τ (Elt F) (HIx 1) ℕ UU ℕ (Pipeline.pin (pcfgs (F := F)) adm 1) c where
  A w := W (Pipeline.arrRef (Pipeline.pin (pcfgs (F := F)) adm 1).spec w)
  after _ _ _ _ := True
  Φ _ := Pipeline.scopedRest (Pipeline.pin (pcfgs (F := F)) adm 1).spec c
  q _ := fullShare
  owed _ := 0
  recorded _ := recB (F := F) c

/-- Both, as the family the regions kit takes. -/
def rdats (W₁ W₂ : Valuation τ sig (Elt F)) : (p : Fin 2) → (c : Dev nD) → Pipeline.RDat τ (Elt F) (HIx 1) ℕ UU ℕ (Pipeline.pin (pcfgs (F := F)) adm p) c
  | 0 => rdat1 W₁
  | 1 => rdat2 W₂

end Cert.Kernel.Tc

end
-- ==== Proof.ScMainScB.lean ====
/-
  @main on the TensorCore around the SparseCore call: the host line before it computes the four arrays the kernel reads;
  the call lends each SparseCore a read share of those and the words of the result array its subcores write, and takes
  them back with the result array at some contents; every other array of @main is untouched.
-/
import Idealize.ShloMosaic.Lib.Pipeline.Frame
import proofs.«209750_g45337674776763_cont_8to1c4_158_37_alg».proof.Proof.ScLaunchScB
import proofs.«209750_g45337674776763_cont_8to1c4_158_37_alg».proof.Proof.ScMainOpsScB
import proofs.«209750_g45337674776763_cont_8to1c4_158_37_alg».proof.Proof.TcB_Ghost

noncomputable section

namespace Cert.Proof.ScB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq)
open Idealize.ShloMosaic.StableHlo
open Idealize.ShloMosaic.Pipeline (ucRefs unscopedBufs_held sub_ucRefs)
open Cert.Kernel.Tc (UU EH)

variable {F : FTy → Type}

local notation "𝕄" => MT nD τ sig (HIx 1) (Elt F) ℕ UU ℕ

variable (m : (ℓ : Loc nD τ sig) → Buf (Elt F) ℓ)

abbrev r7 : DevRef τ sig := Proc.devRef .tc (main_v7 : Ref sig .tc)
abbrev r8 : DevRef τ sig := Proc.devRef .tc (main_v8 : Ref sig .tc)
abbrev r6 : DevRef τ sig := Proc.devRef .tc (main_v6 : Ref sig .tc)
abbrev r1 : DevRef τ sig := Proc.devRef .tc (main_v1 : Ref sig .tc)
abbrev r9 : DevRef τ sig := Proc.devRef .tc (main_v9 : Ref sig .tc)
/-- The five arrays of the SparseCore call. -/
abbrev T5 : Finset (DevRef τ sig) := {r7, r8, r6, r1, r9}
theorem T5_sub : T5 ⊆ ucRefs τ sig := by decide

variable [FloatOps F]

/-- The TensorCore's arrays when the SparseCore call is reached. -/
def V1 (d : Dev nD) : Valuation τ sig (Elt F) := StableHlo.after ops0 (StableHlo.launchContents m d)

abbrev g7 (d : Dev nD) : Buf (Elt F) (l7 d) := V1 m d r7
abbrev g8 (d : Dev nD) : Buf (Elt F) (l8 d) := V1 m d r8
abbrev g6 (d : Dev nD) : Buf (Elt F) (l6 d) := V1 m d r6
abbrev g1 (d : Dev nD) : Buf (Elt F) (l1 d) := V1 m d r1

/-- What the handshakes carry, at those contents. -/
abbrev PP : (K (F := F)).Pay (nD := nD) (Val := Elt F) (Name := ℕ) (U := UU) := P (F := F) (U := UU) (g7 m) (g8 m) (g6 m) (g1 m)

omit [FloatOps F] in
theorem held_T5 (d : Dev nD) (W : Valuation τ sig (Elt F)) :
    (held (T d) T5 W : sProp 𝕄)
      = iprop((l7 d ↦{fullShare} W r7) ∗ (l8 d ↦{fullShare} W r8) ∗ (l6 d ↦{fullShare} W r6) ∗ (l1 d ↦{fullShare} W r1) ∗ l9 d ↦{fullShare} W r9) := by
  unfold held T5
  rw [SparseCore.bigSep_insert' (by decide), SparseCore.bigSep_insert' (by decide), SparseCore.bigSep_insert' (by decide),
    SparseCore.bigSep_insert' (by decide), bigSep_singleton]

omit [FloatOps F] in
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem st0_eq (d : Dev nD) :
    (bigSep Finset.univ fun c : Fin ((K (F := F)).nCore 0) => (PP m).st 0 d c)
      = iprop(forCore (U := UU) (g7 m) (g8 m) (g6 m) (g1 m) d 0 ∗ forCore (U := UU) (g7 m) (g8 m) (g6 m) (g1 m) d 1) :=
  bigSep_fin2 (F := F) (fun c => forCore (U := UU) (g7 m) (g8 m) (g6 m) (g1 m) d c)
theorem dn0_eq (d : Dev nD) :
    (bigSep Finset.univ fun c : Fin ((K (F := F)).nCore 0) => (PP m).dn 0 d c)
      = iprop(forCore (U := UU) (g7 m) (g8 m) (g6 m) (g1 m) d 0 ∗ forCore (U := UU) (g7 m) (g8 m) (g6 m) (g1 m) d 1) :=
  bigSep_fin2 (F := F) (fun c => forCore (U := UU) (g7 m) (g8 m) (g6 m) (g1 m) d c)

omit [FloatOps F] in
/-- A whole array is one SparseCore's read share, the other's, and a remainder. -/
theorem share2 {ℓ : Loc nD τ sig} (f : Buf (Elt F) ℓ) :
    (ℓ ↦{fullShare} f : sProp 𝕄) ⊣⊢ iprop((ℓ ↦{Transfers.shareDrop fullShare 2} f) ∗ (ℓ ↦{tokC 0} f) ∗ ℓ ↦{tokC 1} f) := by
  have h := Transfers.pointsTo_toks (nD := nD) (τ := τ) (sig := sig) (Ix := HIx 1) (Val := Elt F) (Name := ℕ) (U := UU) (Lvl := ℕ)
    (ℓ := ℓ) (S := Finset.univ) (f := f) fullShare 2
  rw [bigSep_fin2 (F := F) (fun i => (ℓ ↦{Transfers.shareTok fullShare 2 i} f : sProp 𝕄))] at h
  exact h

omit [FloatOps F] in
/-- The result array's three parts, each at its own contents, are the array at some contents. -/
theorem l9_join (d : Dev nD) (f0 f1 fr : Buf (Elt F) (l9 d)) :
    iprop((l9 d ↦[coreSet 0]{fullShare} f0) ∗ (l9 d ↦[coreSet 1]{fullShare} f1) ∗ (l9 d ↦[Finset.univ \ (coreSet 0 ∪ coreSet 1)]{fullShare} fr))
      ⊢ (iprop(∃ g, l9 d ↦{fullShare} g) : sProp 𝕄) := by
  have h1 := pointsTo_join (nD := nD) (τ := τ) (sig := sig) (Ix := HIx 1) (Val := Elt F) (Name := ℕ) (U := UU) (Lvl := ℕ)
    (ℓ := l9 d) (I := coreSet 0) (J := coreSet 1) (q := fullShare) (f := f0) (g := f1) coreSets_disjoint
  have h2 := pointsTo_join (nD := nD) (τ := τ) (sig := sig) (Ix := HIx 1) (Val := Elt F) (Name := ℕ) (U := UU) (Lvl := ℕ)
    (ℓ := l9 d) (I := coreSet 0 ∪ coreSet 1) (J := Finset.univ \ (coreSet 0 ∪ coreSet 1)) (q := fullShare)
    (f := (coreSet 1).piecewise f1 f0) (g := fr) Finset.disjoint_sdiff
  rw [Finset.union_sdiff_of_subset (Finset.subset_univ _)] at h2
  iintro ⟨H0, H1, Hr⟩
  ihave H := h1 $$ [H0 H1]
  · isplitl [H0]; · iexact H0
    iexact H1
  ihave H := h2 $$ [H Hr]
  · isplitl [H]; · iexact H
    iexact Hr
  iexists _; iexact H

/-- The SparseCore call from the TensorCore's side. -/
theorem call_step (κ : GSem nD τ sig → ℕ) (d : Dev nD) (Φ : PUnit → sProp 𝕄) :
    iprop((K (F := F)).ctx EH (PP m) κ ∗ (K (F := F)).tcSt EH d 0 ∗ held (T d) (ucRefs τ sig) (V1 m d)
        ∗ (∀ g9, ((K (F := F)).tcSt EH d 1 ∗ held (T d) (ucRefs τ sig) (Function.update (V1 m d) r9 g9)) -∗ Φ ⟨⟩))
      ⊢ wp frame (wpE ((K (F := F)).defs (D (F := F))) 𝒱 (T d) none) Set.univ ((K (F := F)).run d 0) Φ := by
  rw [held_sub_split (T d) T5_sub (V1 m d), held_T5]
  iintro ⟨#Hctx, Hst, ⟨⟨H7, H8, H6, H1, H9⟩, Hrest⟩, Hk⟩
  ihave H7 := (share2 (F := F) _).1 $$ H7
  icases H7 with ⟨D7, A7, B7⟩
  ihave H8 := (share2 (F := F) _).1 $$ H8
  icases H8 with ⟨D8, A8, B8⟩
  ihave H6 := (share2 (F := F) _).1 $$ H6
  icases H6 with ⟨D6, A6, B6⟩
  ihave H1 := (share2 (F := F) _).1 $$ H1
  icases H1 with ⟨D1, A1, B1⟩
  ihave H9 := (pointsTo_split_subset (Finset.subset_univ (coreSet 0 ∪ coreSet 1))).1 $$ H9
  icases H9 with ⟨H9c, H9r⟩
  ihave H9c := (pointsTo_union coreSets_disjoint).1 $$ H9c
  icases H9c with ⟨H90, H91⟩
  iapply ((K (F := F)).wp_run (D (F := F)) 𝒱 (EH := EH) (P := PP m) κ d 0) $$ [Hst A7 B7 A8 B8 A6 B6 A1 B1 H90 H91 D7 D8 D6 D1 H9r Hrest Hk]
  isplitr; · iexact Hctx
  isplitl [Hst]; · iexact Hst
  isplitl [A7 B7 A8 B8 A6 B6 A1 B1 H90 H91]
  · rw [st0_eq]; unfold forCore ins4
    isplitl [A7 A8 A6 A1 H90]
    · isplitl [A7 A8 A6 A1]
      · isplitl [A7]; · iexact A7
        isplitl [A8]; · iexact A8
        isplitl [A6]; · iexact A6
        iexact A1
      · iexists _; iexact H90
    · isplitl [B7 B8 B6 B1]
      · isplitl [B7]; · iexact B7
        isplitl [B8]; · iexact B8
        isplitl [B6]; · iexact B6
        iexact B1
      · iexists _; iexact H91
  iintro ⟨Hst, Hdn⟩
  ihave Hdn := (Entails.of_eq (dn0_eq m d)) $$ Hdn
  unfold forCore ins4
  icases Hdn with ⟨⟨⟨A7, A8, A6, A1⟩, ⟨%f0, H90⟩⟩, ⟨⟨B7, B8, B6, B1⟩, ⟨%f1, H91⟩⟩⟩
  ihave H7 := (share2 (F := F) _).2 $$ [D7 A7 B7]
  · isplitl [D7]; · iexact D7
    isplitl [A7]; · iexact A7
    iexact B7
  ihave H8 := (share2 (F := F) _).2 $$ [D8 A8 B8]
  · isplitl [D8]; · iexact D8
    isplitl [A8]; · iexact A8
    iexact B8
  ihave H6 := (share2 (F := F) _).2 $$ [D6 A6 B6]
  · isplitl [D6]; · iexact D6
    isplitl [A6]; · iexact A6
    iexact B6
  ihave H1 := (share2 (F := F) _).2 $$ [D1 A1 B1]
  · isplitl [D1]; · iexact D1
    isplitl [A1]; · iexact A1
    iexact B1
  ihave H9 := (l9_join (F := F) d f0 f1 (V1 m d r9)) $$ [H90 H91 H9r]
  · isplitl [H90]; · iexact H90
    isplitl [H91]; · iexact H91
    iexact H9r
  icases H9 with ⟨%g9, H9⟩
  ispecialize Hk $$ %g9
  iapply Hk
  isplitl [Hst]; · iexact Hst
  rw [held_sub_split (T d) T5_sub (Function.update (V1 m d) r9 g9), held_T5,
    Function.update_of_ne (show r7 ≠ r9 by decide), Function.update_of_ne (show r8 ≠ r9 by decide),
    Function.update_of_ne (show r6 ≠ r9 by decide), Function.update_of_ne (show r1 ≠ r9 by decide), Function.update_self,
    held_congr (T d) (S := ucRefs τ sig \ T5) (V := Function.update (V1 m d) r9 g9) (V' := V1 m d)
      (fun b hb => Function.update_of_ne (fun e => (Finset.mem_sdiff.mp hb).2 (by rw [e]; decide)) _ _)]
  isplitl [H7 H8 H6 H1 H9]
  · isplitl [H7]; · iexact H7
    isplitl [H8]; · iexact H8
    isplitl [H6]; · iexact H6
    isplitl [H1]; · iexact H1
    iexact H9
  iexact Hrest

/-! ## @main, whole -/

abbrev ra0 : DevRef τ sig := Proc.devRef .tc (main_arg0 : Ref sig .tc)
abbrev ra1 : DevRef τ sig := Proc.devRef .tc (main_arg1 : Ref sig .tc)
/-- The arrays the first region writes, and the second's. -/
abbrev outs0 : Finset (DevRef τ sig) := {Proc.devRef .tc (main_v23_0 : Ref sig .tc), Proc.devRef .tc (main_v23_1 : Ref sig .tc)}
abbrev outs1 : Finset (DevRef τ sig) := {Proc.devRef .tc (main_v27 : Ref sig .tc)}

/-- No host line writes an argument array. -/
theorem ops0_keep (W : Valuation τ sig (Elt F)) :
    StableHlo.after ops0 W (Proc.devRef .tc (main_arg0 : Ref sig .tc)) = W (Proc.devRef .tc (main_arg0 : Ref sig .tc))
      ∧ StableHlo.after ops0 W (Proc.devRef .tc (main_arg1 : Ref sig .tc)) = W (Proc.devRef .tc (main_arg1 : Ref sig .tc)) := by
  unfold ops0
  constructor <;> after_results_simp
theorem ops1_keep (W : Valuation τ sig (Elt F)) :
    StableHlo.after ops1 W (Proc.devRef .tc (main_arg0 : Ref sig .tc)) = W (Proc.devRef .tc (main_arg0 : Ref sig .tc))
      ∧ StableHlo.after ops1 W (Proc.devRef .tc (main_arg1 : Ref sig .tc)) = W (Proc.devRef .tc (main_arg1 : Ref sig .tc)) := by
  unfold ops1
  constructor <;> after_results_simp
theorem ops2_keep (W : Valuation τ sig (Elt F)) :
    StableHlo.after ops2 W (Proc.devRef .tc (main_arg0 : Ref sig .tc)) = W (Proc.devRef .tc (main_arg0 : Ref sig .tc))
      ∧ StableHlo.after ops2 W (Proc.devRef .tc (main_arg1 : Ref sig .tc)) = W (Proc.devRef .tc (main_arg1 : Ref sig .tc)) := by
  unfold ops2
  constructor <;> after_results_simp
theorem ops3_keep (W : Valuation τ sig (Elt F)) :
    StableHlo.after ops3 W (Proc.devRef .tc (main_arg0 : Ref sig .tc)) = W (Proc.devRef .tc (main_arg0 : Ref sig .tc))
      ∧ StableHlo.after ops3 W (Proc.devRef .tc (main_arg1 : Ref sig .tc)) = W (Proc.devRef .tc (main_arg1 : Ref sig .tc)) := by
  unfold ops3
  constructor <;> after_results_simp

/-- What a TensorCore kernel region is asked for: from the TensorCore's arrays at any contents it runs to its end and
    leaves every array but its own results as it was. -/
def RegionStep (κ : GSem nD τ sig → ℕ) (p : Fin 2) (outs : Finset (DevRef τ sig)) (Gin Gout : Dev nD → sProp 𝕄) : Prop :=
  ∀ (d : Dev nD) (W : Valuation τ sig (Elt F)) (Φ : PUnit → sProp 𝕄),
    iprop((K (F := F)).ctx EH (PP m) κ ∗ (K (F := F)).tcSt EH d 1 ∗ boundary (T d) ∗ held (T d) (ucRefs τ sig) W ∗ Gin d
        ∗ (∀ W', ⌜∀ b, b ∉ outs → W' b = W b⌝ -∗ ((K (F := F)).tcSt EH d 1 ∗ boundary (T d) ∗ held (T d) (ucRefs τ sig) W' ∗ Gout d) -∗ Φ ⟨⟩))
      ⊢ wp frame (wpE ((K (F := F)).defs (D (F := F))) 𝒱 (T d) none) Set.univ
          (Prog.lift (.customCall (SparseCore.inner (Pipeline.entry p)) ())) Φ

/-- What @main leaves: the TensorCore's arrays at contents that agree with the launch's on both arguments. -/
def FIN (d : Dev nD) : sProp 𝕄 :=
  iprop(∃ W : Valuation τ sig (Elt F), ⌜W ra0 = m (d, ra0) ∧ W ra1 = m (d, ra1)⌝ ∗ held (T d) (ucRefs τ sig) W)

theorem hS (ops : List (HloOp τ sig (Elt F))) (h : ops.Forall fun op => op.bufs ⊆ StableHlo.tcRefs τ sig) : ∀ op ∈ ops, op.bufs ⊆ ucRefs τ sig :=
  fun op hop => sub_ucRefs op ((List.forall_iff_forall_mem.mp h) op hop)

attribute [local irreducible] ops0 ops1 ops2 ops3

set_option backward.isDefEq.respectTransparency.types false in
/-- A straight line of host operations at the head of the TensorCore's program, within its unscoped arrays. -/
theorem seq_step (d : Dev nD) (ops : List (HloOp τ sig (Elt F))) (hsub : ops.Forall fun op => op.bufs ⊆ StableHlo.tcRefs τ sig)
    (hfresh : ∀ op ∈ ops, op.fresh = ∅) (W : Valuation τ sig (Elt F)) {β : Type}
    (k : PUnit → Prog (TpuEff nD τ sig (Elt F) (SparseCore.Sig (ΛP (F := F)) 1) .tc) β) (Q : β → sProp 𝕄) :
    iprop(boundary (T d) ∗ (held (T d) (ucRefs τ sig) W : sProp 𝕄)
        ∗ ((boundary (T d) ∗ (held (T d) (ucRefs τ sig) (StableHlo.after ops W) : sProp 𝕄))
            -∗ wp frame (wpE ((K (F := F)).defs (D (F := F))) 𝒱 (T d) none) Set.univ (k ⟨⟩) Q))
      ⊢ wp frame (wpE ((K (F := F)).defs (D (F := F))) 𝒱 (T d) none) Set.univ (seq ops >>= k) Q := by
  iintro ⟨Hb, Hh, Hk⟩
  iapply (StableHlo.wp_seq (defs := (K (F := F)).defs (D (F := F))) 𝒱 none Set.univ d (ucRefs τ sig) k (K := Q) ops (hS ops hsub) hfresh W) $$ [Hb Hh]
  · isplitl [Hb]; · iexact Hb
    iexact Hh
  iexact Hk

set_option backward.isDefEq.respectTransparency.types false in
/-- The same, the line as the whole program. -/
theorem seq_step' (d : Dev nD) (ops : List (HloOp τ sig (Elt F))) (hsub : ops.Forall fun op => op.bufs ⊆ StableHlo.tcRefs τ sig)
    (hfresh : ∀ op ∈ ops, op.fresh = ∅) (W : Valuation τ sig (Elt F)) (Φ : PUnit → sProp 𝕄) :
    iprop(boundary (T d) ∗ (held (T d) (ucRefs τ sig) W : sProp 𝕄)
        ∗ ((boundary (T d) ∗ (held (T d) (ucRefs τ sig) (StableHlo.after ops W) : sProp 𝕄)) -∗ Φ ⟨⟩))
      ⊢ wp frame (wpE ((K (F := F)).defs (D (F := F))) 𝒱 (T d) none) Set.univ (seq ops) Φ := by
  rw [← Prog.bind_pure (seq ops)]
  iintro ⟨Hb, Hh, Hk⟩
  iapply (seq_step (F := F) d ops hsub hfresh W (fun u => pure u) Φ) $$ [Hb Hh Hk]
  isplitl [Hb]; · iexact Hb
  isplitl [Hh]; · iexact Hh
  iintro H
  rw [wp_pure]; imodintro
  iapply Hk; iexact H

set_option maxHeartbeats 1000000 in
/-- @main on device `d`'s TensorCore. -/
theorem hmain (ρ : Dev nD → PrngReg) (G0 G1 G2 : Dev nD → sProp 𝕄) (κ : GSem nD τ sig → ℕ)
    (h0 : RegionStep m κ 0 outs0 G0 G1) (h1 : RegionStep m κ 1 outs1 G1 G2) (d : Dev nD) :
    iprop((K (F := F)).ctx EH (PP m) κ ∗ (K (F := F)).tcSt EH d 0 ∗ (K (F := F)).tcRes m ρ d ∗ G0 d)
      ⊢ wp frame (wpE ((K (F := F)).defs (D (F := F))) 𝒱 (T d) none) Set.univ (main d)
          fun _ => iprop((K (F := F)).tcSt EH d 1 ∗ FIN m d) := by
  unfold SparseCore.Cfg.tcRes
  rw [main_eq]
  have e := unscopedBufs_held (nD := nD) (τ := τ) (sig := sig) (Val := Elt F) (Ix := HIx 1) (Name := ℕ) (U := UU) (Lvl := ℕ) d (StableHlo.launchContents m d)
  rw [e]
  iintro ⟨#Hctx, Hst, Hres, HG⟩
  ihave Hres := (sep_mono_right (sep_elim_left)) $$ Hres
  icases Hres with ⟨Hb, Hheld⟩
  rw [wp_bind]
  iapply (seq_step' (F := F) d ops0 ops0_sub ops0_fresh (StableHlo.launchContents m d) _) $$ [Hb Hheld Hst HG]
  isplitl [Hb]; · iexact Hb
  isplitl [Hheld]; · iexact Hheld
  iintro ⟨Hb, Hheld⟩
  rw [wp_bind]
  iapply (call_step m κ d _) $$ [Hst Hheld Hb HG]
  isplitr; · iexact Hctx
  isplitl [Hst]; · iexact Hst
  isplitl [Hheld]; · iexact Hheld
  iintro %g9 ⟨Hst, Hheld⟩
  rw [wp_bind]
  iapply (seq_step' (F := F) d ops1 ops1_sub ops1_fresh (Function.update (V1 m d) r9 g9) _) $$ [Hb Hheld Hst HG]
  isplitl [Hb]; · iexact Hb
  isplitl [Hheld]; · iexact Hheld
  iintro ⟨Hb, Hheld⟩
  rw [wp_bind]
  iapply (h0 d _ _) $$ [Hst Hb Hheld HG]
  isplitr; · iexact Hctx
  isplitl [Hst]; · iexact Hst
  isplitl [Hb]; · iexact Hb
  isplitl [Hheld]; · iexact Hheld
  isplitl [HG]; · iexact HG
  iintro %W2 %hW2 ⟨Hst, Hb, Hheld, HG⟩
  rw [wp_bind]
  iapply (seq_step' (F := F) d ops2 ops2_sub ops2_fresh W2 _) $$ [Hb Hheld Hst HG]
  isplitl [Hb]; · iexact Hb
  isplitl [Hheld]; · iexact Hheld
  iintro ⟨Hb, Hheld⟩
  rw [wp_bind]
  iapply (h1 d _ _) $$ [Hst Hb Hheld HG]
  isplitr; · iexact Hctx
  isplitl [Hst]; · iexact Hst
  isplitl [Hb]; · iexact Hb
  isplitl [Hheld]; · iexact Hheld
  isplitl [HG]; · iexact HG
  iintro %W3 %hW3 ⟨Hst, Hb, Hheld, HG⟩
  rw [wp_bind]
  iapply (seq_step' (F := F) d ops3 ops3_sub ops3_fresh W3 _) $$ [Hb Hheld Hst HG]
  isplitl [Hb]; · iexact Hb
  isplitl [Hheld]; · iexact Hheld
  iintro ⟨Hb, Hheld⟩
  rw [wp_pure]
  imodintro
  isplitl [Hst]; · iexact Hst
  unfold FIN
  iexists (StableHlo.after ops3 W3); isplitr
  · ipureintro
    have k3 := ops3_keep (F := F) W3
    have k2 := ops2_keep (F := F) W2
    have k1 := ops1_keep (F := F) (Function.update (V1 m d) r9 g9)
    have k0 := ops0_keep (F := F) (StableHlo.launchContents m d)
    constructor
    · rw [k3.1, hW3 _ (by decide), k2.1, hW2 _ (by decide), k1.1, Function.update_of_ne (by decide)]; exact k0.1
    · rw [k3.2, hW3 _ (by decide), k2.2, hW2 _ (by decide), k1.2, Function.update_of_ne (by decide)]; exact k0.2
  · iexact Hheld

/-! ## The program's run -/

theorem two_sub : ({ra0, ra1} : Finset (DevRef τ sig)) ⊆ ucRefs τ sig := by decide

omit [FloatOps F] in
theorem held_two (d : Dev nD) (W : Valuation τ sig (Elt F)) :
    (held (T d) ({ra0, ra1} : Finset (DevRef τ sig)) W : sProp 𝕄)
      = iprop((((d, ra0) : Loc nD τ sig) ↦{fullShare} W ra0) ∗ ((d, ra1) : Loc nD τ sig) ↦{fullShare} W ra1) := by
  unfold held
  rw [SparseCore.bigSep_insert' (by decide), bigSep_singleton]

/-- What the claim reads off the final memory: both arguments as launched. -/
def fq (d : Dev nD) (s' : Phys nD τ sig (Elt F)) : Prop :=
  s'.mem.mem (d, ra0) = m (d, ra0) ∧ s'.mem.mem (d, ra1) = m (d, ra1)

omit [FloatOps F] in
theorem hfin (d : Dev nD) (s' : Phys nD τ sig (Elt F)) : iprop(FIN m d ∗ SI s') ⊢ (⌜fq m d s'⌝ : sProp 𝕄) := by
  unfold FIN
  iintro ⟨⟨%W, %hW, Hheld⟩, HSI⟩
  ihave H := (Entails.of_eq (held_sub_split (T d) two_sub W)) $$ Hheld
  icases H with ⟨H2, -⟩
  ihave H2 := (Entails.of_eq (held_two (F := F) d W)) $$ H2
  icases H2 with ⟨Ha0, Ha1⟩
  ihave H := (persistent_entails_right (SI_pointsTo_agree (st := s') (ℓ := ((d, ra0) : Loc nD τ sig)) (I := Finset.univ) (q := fullShare) (f := W ra0))) $$ [HSI Ha0]
  · isplitl [HSI] <;> iassumption
  icases H with ⟨%h1, HSI, -⟩
  ihave H := (SI_pointsTo_agree (st := s') (ℓ := ((d, ra1) : Loc nD τ sig)) (I := Finset.univ) (q := fullShare) (f := W ra1)) $$ [HSI Ha1]
  · isplitl [HSI] <;> iassumption
  icases H with %h2
  ipureintro
  exact ⟨(funext fun i => h1 i (Finset.mem_univ i)).trans hW.1, (funext fun i => h2 i (Finset.mem_univ i)).trans hW.2⟩

omit [FloatOps F] in
theorem bigSep_emp' {I : Type} (s : Finset I) : (bigSep s fun _ => iprop(emp)) = (iprop(emp) : sProp 𝕄) := bigSep_emp_const s

/-- The run's post: on every device both argument arrays end as launched. -/
def QC : PUnit × MemSt nD τ sig (Elt F) → Prop := fun r => ∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)

/-- Every weakly fair execution of the device's threads terminates, nothing faulting, both argument arrays unchanged —
    given the launch element of the ghost state and the two TensorCore regions' steps. -/
theorem run_main [∀ e, Nonempty (Elt F e)] (ρ : Dev nD → PrngReg) (G0 G1 G2 : Dev nD → sProp 𝕄) (u₀ : UU)
    (hu₀ : (ownU u₀ : sProp 𝕄) ⊢ |={Set.univ}=> iprop(BI.own (EH (F := F) (initOf (K (F := F)).hsCells (K (F := F)).hsToks)) ∗ bigSep Finset.univ G0))
    (h0 : ∀ κ, RegionStep m κ 0 outs0 G0 G1) (h1 : ∀ κ, RegionStep m κ 1 outs1 G1 G2) :
    θ_run (defs (F := F)) (threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (F := F) (U := UU) (g7 m) (g8 m) (g6 m) (g1 m))
    (fun q _ => match q with | 0 => SparseCore.Cfg.VecSplit.of_plain (vecSplit (F := F) (U := UU) (g7 m) (g8 m) (g6 m) (g1 m)))
    m ρ main G0 (FIN m) u₀
    (by
      iintro ⟨Hu, -, -⟩
      imod hu₀ $$ Hu with ⟨HH, HG⟩
      imodintro
      isplitl [HH]; · iexact HH
      isplitl [HG]; · iexact HG
      dsimp only [PP, P]
      rw [show (bigSep Finset.univ fun _ : Thread nD τ => bigSep Finset.univ fun _ : Fin 1 => (iprop(emp) : sProp 𝕄)) = iprop(emp) from by
        rw [bigSep_congr fun _ _ => bigSep_emp' _, bigSep_emp']]
      iempintro)
    (fun κ d => hmain m ρ G0 G1 G2 κ (h0 κ) (h1 κ) d) (fq m) (hfin m) (QC m) (fun _ h => h)

end Cert.Proof.ScB

end
-- ==== Proof.TcB_Region1.lean ====
/-
  The first TensorCore region (pipeline 0: grid 4 x 7, six windows) entered from inside the SparseCore program, at
  frame level: from the region boundary, the TensorCore's unscoped buffers at a valuation, what the core owes after
  the SparseCore call and the pipeline's funded cells, the custom call runs to the boundary again with the windows'
  arrays at some contents they may hold after the write-backs, every other unscoped buffer unchanged, and the same
  debt. The body obligation is a hypothesis here.
-/
import proofs.«209750_g45337674776763_cont_8to1c4_158_37_alg».proof.Proof.TcB_Ghost

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

/-! ## The debt through a region -/

/-- After the one SparseCore call the TensorCore owes nothing, and its recorded pairs lie within the level-8 bound. -/
theorem owesB_within (d : Dev nD) (X : Set (SemLoc sig × HIx 1)) :
    (owesB (F := F) d : sProp 𝕄) ⊢ Pipeline.owesWithin d (0 : CellTallies nD τ sig (HIx 1)) (recB (F := F) d ∪ X) := by
  unfold owesB
  rw [(K (F := F)).Otc_end d (le_refl 1)]
  iintro ⟨%W, %hW, HO⟩
  iexists W
  isplitr
  · ipureintro; exact fun p hp => Or.inl (hW p (Finset.mem_coe.mp hp))
  iexact HO

/-- Back: pairs within the bound or recorded by a pipeline's own waits (index `none`, level 0) are at or below level 8. -/
theorem within_owesB (d : Dev nD) (cfg : Pipeline.Cfg sig Λ₀) :
    (Pipeline.owesWithin d (0 : CellTallies nD τ sig (HIx 1)) (recB (F := F) d ∪ cfg.waitPairs ι₀) : sProp 𝕄) ⊢ owesB (F := F) d := by
  unfold owesB
  rw [(K (F := F)).Otc_end d (le_refl 1)]
  iintro ⟨%W, %hW, HO⟩
  iexists W
  isplitr
  · ipureintro
    intro p hp
    rcases hW (Finset.mem_coe.mpr hp) with h | ⟨w, s, rfl⟩
    · exact h
    · show (K (F := F)).lev _ none ≤ 8 * 1
      rw [SparseCore.Cfg.lev_none]; omega
  iexact HO

/-! ## The region record -/

section Region

variable [FloatOps F] [∀ e, Nonempty (Elt F e)] (W₁ : Valuation τ sig (Elt F)) (lv : GSem nD τ sig → HIx 1 → ℕ)

/-- Every cell has every index levelled (the SparseCore launch's level set). -/
abbrev KL : GSem nD τ sig → Finset (HIx 1) := (K (F := F)).L

/-- Pipeline 0's datum as the family the regions kit takes (the other pipeline's is trivial). -/
abbrev fam1 : (p : Fin 2) → (c : Dev nD) → Pipeline.RDat τ (Elt F) (HIx 1) ℕ UU ℕ (Pipeline.pin (pcfgs (F := F)) adm p) c :=
  Pipeline.RDat.familyOf (pcfgs (F := F)) adm 0 (rdat1 W₁)

/-- No prefetched table: nothing held of one. -/
theorem prefHeld_none (p : Fin 2) (c : Dev nD) (q) (pf) :
    (Pipeline.prefHeld (Ix := HIx 1) (Name := ℕ) (U := UU) (Lvl := ℕ) (Val := Elt F) (pcfgs (F := F) p).pre c q pf : sProp 𝕄) = BI.emp := by
  unfold Pipeline.prefHeld
  haveI : IsEmpty (Fin (pcfgs (F := F) p).pre.K) := (Fin.isEmpty : IsEmpty (Fin 0))
  rw [Finset.univ_eq_empty, BI.bigSep_empty]

/-- What the region leaves: the windows' arrays at some contents they may hold after every write-back, the other
    unscoped buffers as they were, the debt as it was. -/
def post1 (c : Dev nD) : sProp 𝕄 :=
  iprop((rdat1 W₁ c).arraysAt (Pipeline.pin (pcfgs (F := F)) adm 0).N
    ∗ Pipeline.unscopedRest (Pipeline.pin (pcfgs (F := F)) adm 0).spec c (fun b => W₁ b) ∗ owesB (F := F) c)

theorem fam1_self (c : Dev nD) : fam1 W₁ 0 c = rdat1 W₁ c := Pipeline.RDat.familyOf_self (pcfgs (F := F)) adm 0 (rdat1 W₁) c
-- the invariant is never compared by unfolding: the projection is reduced, the scoped rest stays folded
theorem rdat1_Φ (c : Dev nD) (t : Fin ((Pipeline.pin (pcfgs (F := F)) adm 0).N + 1)) :
    (rdat1 W₁ c).Φ t = Pipeline.scopedRest (Pipeline.pin (pcfgs (F := F)) adm 0).spec c := by dsimp only [rdat1]
theorem rdat1_A (c : Dev nD) (w : Fin (Pipeline.pin (pcfgs (F := F)) adm 0).W) :
    (rdat1 W₁ c).A w = W₁ (Pipeline.arrRef (Pipeline.pin (pcfgs (F := F)) adm 0).spec w) := by dsimp only [rdat1]
theorem rdat1_q (c : Dev nD) (w : Fin (Pipeline.pin (pcfgs (F := F)) adm 0).W) : (rdat1 W₁ c).q w = fullShare := by dsimp only [rdat1]
theorem rdat1_owed (c : Dev nD) (t) : (rdat1 W₁ c).owed t = 0 := rfl
theorem rdat1_bound (c : Dev nD) (t) :
    (rdat1 W₁ c).bound ι₀ t = recB (F := F) c ∪ (Pipeline.pin (pcfgs (F := F)) adm 0).waitPairs ι₀ := rfl

def reg1 (hbody : ∀ c, (rdat1 W₁ c).BodyObligation defs₀ 𝒱₀ ι₀ Set.univ) :
    Pipeline.RDat.RegionSeg (pcfgs (F := F)) adm (fam1 W₁) ι₀ defs₀ 𝒱₀ (KL (F := F)) lv 0 where
  win := winFacts1.to₀
  block_pos := block_pos1
  stage_whole := stage_whole1
  K := PEmpty
  osem k := k.elim
  ho := Pipeline.OwnSemFacts.none _
  hbody c := by rw [fam1_self]; exact hbody c
  hwaits := Pipeline.RDat.hwaits_of_owed_zero _ _ _ _ _ _ 0 fun c t => by rw [fam1_self]; exact rdat1_owed W₁ c t
  pre c := iprop(unscopedBufs c (fun b => W₁ b) ∗ owesB (F := F) c)
  post c := post1 W₁ c
  X _ := iprop(emp)
  Y _ := iprop(emp)
  Z c := Pipeline.unscopedRest (Pipeline.pin (pcfgs (F := F)) adm 0).spec c (fun b => W₁ b)
  hentry c := by
    rw [fam1_self, Pipeline.ownSems0_none, prefHeld_none]
    unfold Pipeline.RDat.owesAt
    rw [rdat1_owed, rdat1_bound]
    iintro ⟨⟨Hb, HO⟩, -, -⟩
    ihave Ha := (Pipeline.RDat.arrays_of_unscopedBufs (pcfgs (F := F)) adm (fam1 W₁) (p := 0) winFacts1 arr_whole1 c
      (fun w => by rw [fam1_self]; exact Pipeline.RDat.share_full _ (rdat1_q W₁ c) w) (fun b => W₁ b)
      (fun w => by rw [fam1_self]; exact rdat1_A W₁ c w)) $$ Hb
    icases Ha with ⟨Harr, Hrest⟩
    imodintro
    isplitl [Harr]; · iexact Harr
    isplitr; · iempintro
    isplitl [HO]
    · iapply (owesB_within (F := F) c _); iexact HO
    isplitr; · iempintro
    iexact Hrest
  hin c := by
    rw [fam1_self, rdat1_Φ]
    iintro ⟨-, -, HR⟩; iexact HR
  hout c := by
    rw [fam1_self, Pipeline.ownSems0_none, rdat1_Φ]
    iintro HR
    isplitr; · iempintro
    isplitr; · iempintro
    iexact HR
  hexit c := by
    rw [fam1_self]
    unfold Pipeline.RDat.owesAt
    rw [rdat1_owed, rdat1_bound]
    iintro ⟨Harr, HO, -, HZ⟩
    imodintro
    unfold post1
    isplitl [Harr]; · iexact Harr
    isplitl [HZ]; · iexact HZ
    iapply (within_owesB (F := F) c (Pipeline.pin (pcfgs (F := F)) adm 0)); iexact HO

end Region

end Cert.Kernel.Tc

end
-- ==== Proof.TcB_Lift.lean ====
/-
  A TensorCore custom call of the pipelines' signature, proved under the pipelines' body table, is the same call of
  the SparseCore program's extended signature under its extended body table.
-/
import proofs.«209750_g45337674776763_cont_8to1c4_158_37_alg».proof.Proof.TcB_Ghost

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.TcCoe

variable {F : FTy → Type} [FloatOps F]

local notation "𝕄" => MT nD τ sig (HIx 1) (Elt F) ℕ UU ℕ

/-- The call of pipeline `p`'s region in the pipelines' signature, -/
abbrev callP (p : Fin 2) : Prog (TpuEff nD τ sig (Elt F) (ΛP (F := F)) .tc) PUnit :=
  .op (.customCall (Pipeline.entry p) ()) fun _ => .ret ⟨⟩

/-- and in the extended one, as @main prints it. -/
abbrev callS (p : Fin 2) : Prog (TpuEff nD τ sig (Elt F) (SparseCore.Sig (ΛP (F := F)) 1) .tc) PUnit :=
  Prog.lift (.customCall (SparseCore.inner (Pipeline.entry p)) ())

set_option backward.isDefEq.respectTransparency.types false in
/-- Lifting the one is the other. -/
theorem liftProg_callP (p : Fin 2) : SparseCore.liftProg (Q := 1) (callP (F := F) p) = callS (F := F) p := rfl

set_option backward.isDefEq.respectTransparency.types false in
theorem wp_callS (p : Fin 2) (d : Dev nD) (Φ : PUnit → sProp 𝕄) :
    wp frame (wpE (D (F := F)) 𝒱 (T d) none) Set.univ (callP (F := F) p) Φ
      ⊢ wp frame (wpE ((K (F := F)).defs (D (F := F))) 𝒱 (T d) none) Set.univ (callS (F := F) p) Φ := by
  rw [← liftProg_callP]
  exact (K (F := F)).wp_liftProg (D (F := F)) 𝒱 (T d) Set.univ none (callP (F := F) p) Φ

end Cert.Kernel.Tc

end
-- ==== Proof.TcB_Region1W.lean ====
/-
  The first TensorCore region as a step of @main inside the SparseCore program: the regions kit's rule for the
  region's record, in the pipelines' own body table, then lifted to the extended table.
-/
import proofs.«209750_g45337674776763_cont_8to1c4_158_37_alg».proof.Proof.TcB_Region1
import proofs.«209750_g45337674776763_cont_8to1c4_158_37_alg».proof.Proof.TcB_Lift

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₁ : Valuation τ sig (Elt F)) (lv : GSem nD τ sig → HIx 1 → ℕ)

/-- The program's staging cells are pairwise distinct, in the form the regions kit takes. -/
theorem phinj : Function.Injective (Pipeline.cellOf (nD := nD) (τ := τ) (Pipeline.pin (pcfgs (F := F)) adm)) :=
  (launch1.toP (Val := Elt F)).cellOf_inj adm

set_option backward.isDefEq.respectTransparency.types false in
set_option maxHeartbeats 800000 in
theorem region1_pipe (hbody : ∀ c, (rdat1 W₁ c).BodyObligation defs₀ 𝒱₀ ι₀ Set.univ) (d : Dev nD) (Φ : PUnit → sProp 𝕄) :
    iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1 W₁ d) -∗ Φ ⟨⟩))
      ⊢ wp frame (wpE (D (F := F)) 𝒱 (T d) none) Set.univ (callP (F := F) 0) Φ := by
  have h := Pipeline.RDat.RegionSeg.wp (pcfgs (F := F)) adm (fam1 W₁) ι₀ (phinj (F := F)) (EP (F := F)) defs₀ 𝒱₀ (KL (F := F)) lv
    (reg1 W₁ lv hbody) d none (fun _ h => nomatch h) (fun _ => .ret ⟨⟩) Φ
  have e : iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1 W₁ d) -∗ Φ ⟨⟩))
      ⊢ iprop((iprop(boundary (T d) ∗ post1 W₁ d) -∗ wp frame (wpE (D (F := F)) 𝒱 (T d) none) Set.univ (Prog.ret PUnit.unit) Φ)
        ∗ boundary (T d) ∗ iprop(unscopedBufs d (fun b => W₁ b) ∗ owesB (F := F) d) ∗ levAts (KL (F := F)) lv
        ∗ Pipeline.cellsGhost (Pipeline.pin (pcfgs (F := F)) adm) (EP (F := F)) 0 d ∗ Pipeline.toksInit (Pipeline.pin (pcfgs (F := F)) adm) (EP (F := F)) 0 d) := by
    iintro ⟨Hlev, Hb, Hbufs, HO, Hg, Ht, Hk⟩
    isplitl [Hk]
    · iintro H
      rw [wp_ret]
      imodintro
      iapply Hk; iexact H
    isplitl [Hb]; · iexact Hb
    isplitl [Hbufs HO]
    · isplitl [Hbufs] <;> iassumption
    isplitl [Hlev]; · iexact Hlev
    isplitl [Hg] <;> iassumption
  exact e.trans h

/-- The region as @main's line in the SparseCore program. -/
theorem region1_raw (hbody : ∀ c, (rdat1 W₁ c).BodyObligation defs₀ 𝒱₀ ι₀ Set.univ) (d : Dev nD) (Φ : PUnit → sProp 𝕄) :
    iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1 W₁ d) -∗ Φ ⟨⟩))
      ⊢ wp frame (wpE ((K (F := F)).defs (D (F := F))) 𝒱 (T d) none) Set.univ (callS (F := F) 0) Φ :=
  (region1_pipe W₁ lv hbody d Φ).trans (wp_callS 0 d Φ)

end Region

end Cert.Kernel.Tc

end
-- ==== Proof.TcB_Exit1.lean ====
/-
  What the first region leaves, read as a valuation again: the windows' arrays after the write-backs and the other
  unscoped buffers are the TensorCore's unscoped buffers at a valuation that agrees with the entry valuation off the
  region's two result arrays — an input array is never written back to, so it holds its entry contents still.
-/
import proofs.«209750_g45337674776763_cont_8to1c4_158_37_alg».proof.Proof.TcB_Region1W

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Exit

variable [FloatOps F] [∀ e, Nonempty (Elt F e)] (W : Valuation τ sig (Elt F))

local notation "cfgA" => Pipeline.pin (pcfgs (F := F)) adm 0

/-- The region's two result arrays, as device buffers. -/
abbrev outs1 : Finset (DevRef τ sig) := {Proc.devRef .tc (main_v23_0 : Ref sig .tc), Proc.devRef .tc (main_v23_1 : Ref sig .tc)}

/-- A conjunction of pure facts gives each. -/
theorem pure_of_bigSep {I : Type} [DecidableEq I] (s : Finset I) (P : I → Prop) (i : I) (hi : i ∈ s) :
    (bigSep s fun w => (iprop(⌜P w⌝) : sProp 𝕄)) ⊢ (iprop(⌜P i⌝) : sProp 𝕄) :=
  bigSep_elim (Φ := fun w => (iprop(⌜P w⌝) : sProp 𝕄)) hi

theorem share1 (d : Dev nD) (w : Fin (cfgA).W) : (rdat1 W d).share w = fullShare :=
  Pipeline.RDat.share_full _ (rdat1_q W d) w

/-- The arrays after the write-backs: some contents per window, the inputs' the entry contents, all held whole. -/
theorem arraysAt1_elim (d : Dev nD) :
    ((rdat1 W d).arraysAt (cfgA).N : sProp 𝕄)
      ⊢ iprop(∃ Fs : (w : Fin (cfgA).W) → Buf (Elt F) (((cfgA).win w).arr.view.loc (d.tc : Thread nD τ)),
          ⌜Fs 0 = (rdat1 W d).A 0 ∧ Fs 1 = (rdat1 W d).A 1 ∧ Fs 2 = (rdat1 W d).A 2 ∧ Fs 3 = (rdat1 W d).A 3⌝
          ∗ bigSep Finset.univ fun w => (((d.tc : Thread nD τ).loc (Pipeline.arrRef (cfgA).spec w)) ↦{fullShare} Fs w : sProp 𝕄)) := by
  unfold Pipeline.RDat.arraysAt
  refine (bigSep_exists_pi Finset.univ _).trans ?_
  iintro ⟨%Fs, H⟩
  iexists Fs
  ihave H' := (Entails.of_eq (bigSep_sep' (Finset.univ : Finset (Fin (cfgA).W))
    (fun w => (iprop(⌜(rdat1 W d).ArrAt w (cfgA).N (Fs w)⌝) : sProp 𝕄))
    (fun w => (((cfgA).win w).arr.view.loc (d.tc : Thread nD τ) ↦[((cfgA).win w).arr.view.set]{(rdat1 W d).share w} Fs w : sProp 𝕄)))) $$ H
  icases H' with ⟨Hp, Ha⟩
  isplitl [Hp]
  · icases Hp with #Hp
    ihave %h0 := (pure_of_bigSep (F := F) Finset.univ (fun w => (rdat1 W d).ArrAt w (cfgA).N (Fs w)) (0 : Fin (cfgA).W) (Finset.mem_univ _)) $$ Hp
    ihave %h1 := (pure_of_bigSep (F := F) Finset.univ (fun w => (rdat1 W d).ArrAt w (cfgA).N (Fs w)) (1 : Fin (cfgA).W) (Finset.mem_univ _)) $$ Hp
    ihave %h2 := (pure_of_bigSep (F := F) Finset.univ (fun w => (rdat1 W d).ArrAt w (cfgA).N (Fs w)) (2 : Fin (cfgA).W) (Finset.mem_univ _)) $$ Hp
    ihave %h3 := (pure_of_bigSep (F := F) Finset.univ (fun w => (rdat1 W d).ArrAt w (cfgA).N (Fs w)) (3 : Fin (cfgA).W) (Finset.mem_univ _)) $$ Hp
    ipureintro
    rw [(rdat1 W d).ArrAt_in 0 rfl] at h0
    rw [(rdat1 W d).ArrAt_in 1 rfl] at h1
    rw [(rdat1 W d).ArrAt_in 2 rfl] at h2
    rw [(rdat1 W d).ArrAt_in 3 rfl] at h3
    exact ⟨h0, h1, h2, h3⟩
  · have e : (bigSep Finset.univ fun w => ((cfgA).win w).arr.view.loc (d.tc : Thread nD τ) ↦[((cfgA).win w).arr.view.set]{(rdat1 W d).share w} Fs w : sProp 𝕄)
        = (rdat1 W d).arrays Fs := rfl
    have e' := Pipeline.RDat.arrays_eq (pcfgs (F := F)) adm (fam1 W) 0 d arr_whole1 (fun w => by rw [fam1_self]; exact share1 W d w) Fs
    rw [fam1_self] at e'
    have h : (bigSep Finset.univ fun w => ((cfgA).win w).arr.view.loc (d.tc : Thread nD τ) ↦[((cfgA).win w).arr.view.set]{(rdat1 W d).share w} Fs w : sProp 𝕄)
        ⊢ bigSep Finset.univ fun w => (((d.tc : Thread nD τ).loc (Pipeline.arrRef (cfgA).spec w)) ↦{fullShare} Fs w : sProp 𝕄) :=
      Entails.of_eq (e.trans e')
    iapply h; iexact Ha

/-- The two result arrays' device buffers. -/
abbrev o0 : DevRef τ sig := Proc.devRef .tc (main_v23_0 : Ref sig .tc)
abbrev o1 : DevRef τ sig := Proc.devRef .tc (main_v23_1 : Ref sig .tc)

/-- The windows' arrays, as TensorCore references of the printed signature (no float instance in them). -/
theorem arrRef1 (w : Fin 6) : Pipeline.arrRef (Pipeline.pin (pcfgs (F := F)) adm 0).spec w = Pipeline.arrRef spec1 w := rfl
theorem arr4 : (Proc.devRef .tc (Pipeline.arrRef spec1 4) : DevRef τ sig) = o0 := by decide
theorem arr5 : (Proc.devRef .tc (Pipeline.arrRef spec1 5) : DevRef τ sig) = o1 := by decide
theorem in_ne0 : ∀ w : Fin 6, w.val < 4 → (Proc.devRef .tc (Pipeline.arrRef spec1 w) : DevRef τ sig) ≠ o0 := by decide
theorem in_ne1 : ∀ w : Fin 6, w.val < 4 → (Proc.devRef .tc (Pipeline.arrRef spec1 w) : DevRef τ sig) ≠ o1 := by decide
theorem o0_ne_o1 : (o0 : DevRef τ sig) ≠ o1 := by decide

set_option maxHeartbeats 1000000 in
theorem post1_held (d : Dev nD) :
    (post1 W d : sProp 𝕄) ⊢ iprop(∃ W' : Valuation τ sig (Elt F), ⌜∀ b, b ∉ outs1 → W' b = W b⌝ ∗ unscopedBufs d (fun b => W' b) ∗ owesB (F := F) d) := by
  unfold post1
  iintro ⟨Harr, Hrest, HO⟩
  ihave H := (arraysAt1_elim W d) $$ Harr
  icases H with ⟨%Fs, %hin, Ha⟩
  obtain ⟨h0, h1, h2, h3⟩ := hin
  -- the two results' contents, typed as the valuation types them
  obtain ⟨g4, hg4⟩ : ∃ g4 : BufTy.Contents (Elt F) (o0 : DevRef τ sig).ty, g4 = Fs 4 := ⟨Fs 4, rfl⟩
  obtain ⟨g5, hg5⟩ : ∃ g5 : BufTy.Contents (Elt F) (o1 : DevRef τ sig).ty, g5 = Fs 5 := ⟨Fs 5, rfl⟩
  iexists (Function.update (Function.update W o0 g4) o1 g5)
  isplitr
  · ipureintro
    intro b hb
    have hb0 : b ≠ o0 := fun h => hb (by rw [h]; exact Finset.mem_insert_self _ _)
    have hb1 : b ≠ o1 := fun h => hb (by rw [h]; exact Finset.mem_insert_of_mem (Finset.mem_singleton_self _))
    exact (Function.update_of_ne hb1 _ _).trans (Function.update_of_ne hb0 _ _)
  isplitr [HO]
  · rw [Pipeline.unscopedBufs_split (Pipeline.pin (pcfgs (F := F)) adm) 0 winFacts1.arr_unscoped winFacts1.arr_inj d]
    isplitl [Ha]
    · have hFs : ∀ w : Fin (cfgA).W, Fs w = Function.update (Function.update W o0 g4) o1 g5 (Proc.devRef .tc (Pipeline.arrRef (cfgA).spec w)) := by
        intro w
        rcases w with ⟨n, hn⟩
        have hn6 : n < 6 := hn
        match n, hn, hn6 with
        | 0, _, _ => exact h0.trans ((rdat1_A W d 0).trans ((Function.update_of_ne (in_ne1 0 (by decide)) _ _).trans (Function.update_of_ne (in_ne0 0 (by decide)) _ _)).symm)
        | 1, _, _ => exact h1.trans ((rdat1_A W d 1).trans ((Function.update_of_ne (in_ne1 1 (by decide)) _ _).trans (Function.update_of_ne (in_ne0 1 (by decide)) _ _)).symm)
        | 2, _, _ => exact h2.trans ((rdat1_A W d 2).trans ((Function.update_of_ne (in_ne1 2 (by decide)) _ _).trans (Function.update_of_ne (in_ne0 2 (by decide)) _ _)).symm)
        | 3, _, _ => exact h3.trans ((rdat1_A W d 3).trans ((Function.update_of_ne (in_ne1 3 (by decide)) _ _).trans (Function.update_of_ne (in_ne0 3 (by decide)) _ _)).symm)
        | 4, _, _ =>
          show Fs 4 = Function.update (Function.update W o0 g4) o1 g5 o0
          exact hg4.symm.trans ((Function.update_of_ne o0_ne_o1 g5 (Function.update W o0 g4)).trans (Function.update_self o0 g4 W)).symm
        | 5, _, _ =>
          show Fs 5 = Function.update (Function.update W o0 g4) o1 g5 o1
          exact hg5.symm.trans (Function.update_self o1 g5 (Function.update W o0 g4)).symm
        | k + 6, _, h6 => exact absurd h6 (by omega)
      have hA : (bigSep Finset.univ fun w : Fin (cfgA).W => (((d.tc : Thread nD τ).loc (Pipeline.arrRef (cfgA).spec w)) ↦{fullShare} Fs w : sProp 𝕄))
          ⊢ bigSep Finset.univ fun w : Fin (cfgA).W => (((d.tc : Thread nD τ).loc (Pipeline.arrRef (cfgA).spec w))
              ↦{fullShare} Function.update (Function.update W o0 g4) o1 g5 (Proc.devRef .tc (Pipeline.arrRef (cfgA).spec w)) : sProp 𝕄) :=
        Entails.of_eq (bigSep_congr fun w _ => by rw [← hFs w])
      iapply hA; iexact Ha
    · have hne : ∀ b : Ref sig .tc, b ∉ Finset.univ.image (Pipeline.arrRef (cfgA).spec)
          → (Proc.devRef .tc b : DevRef τ sig) ≠ o0 ∧ (Proc.devRef .tc b : DevRef τ sig) ≠ o1 := by
        intro b hb
        refine ⟨fun h => hb ?_, fun h => hb ?_⟩
        · rw [← arr4] at h
          exact Finset.mem_image.mpr ⟨4, Finset.mem_univ _, (arrRef1 (F := F) 4).trans (Proc.devRef_injective _ h).symm⟩
        · rw [← arr5] at h
          exact Finset.mem_image.mpr ⟨5, Finset.mem_univ _, (arrRef1 (F := F) 5).trans (Proc.devRef_injective _ h).symm⟩
      have hB : (Pipeline.unscopedRest (cfgA).spec d (fun b => W b) : sProp 𝕄)
          ⊢ Pipeline.unscopedRest (cfgA).spec d (fun b => Function.update (Function.update W o0 g4) o1 g5 b) := by
        unfold Pipeline.unscopedRest
        exact Entails.of_eq (bigSep_congr fun b hb => by
          obtain ⟨n0, n1⟩ := hne b (Finset.mem_sdiff.mp hb).2
          exact congrArg (fun x => (((d.tc : Thread nD τ).loc b) ↦{fullShare} x : sProp 𝕄))
            ((Function.update_of_ne n1 g5 (Function.update W o0 g4)).trans (Function.update_of_ne n0 g4 W)).symm)
      iapply hB; iexact Hrest
  iexact HO

end Exit

end Cert.Kernel.Tc

end
-- ==== Proof.TcB_Body1.lean ====
/-
  The body obligation of the first TensorCore kernel (grid 4 x 7; four input windows, two output windows, the second
  accumulated over the inner grid axis under two conditions on its coordinate), at frame level: from its six current
  staging buffers at any contents the body runs, whichever way the two conditions fall — the four inputs are only
  loaded and come back as they were, the two outputs come back at some contents —; the region's invariant and the
  core's debt are untouched.
-/
import proofs.«209750_g45337674776763_cont_8to1c4_158_37_alg».proof.Proof.TcB_Ghost
import proofs.«209750_g45337674776763_cont_8to1c4_158_37_alg».proof.Proof.Gen.Kernel.Skeleton
import Idealize.ShloMosaic.Lib.Exec

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Tactic

variable {F : FTy → Type}

local notation "𝕄" => MT nD τ sig (HIx 1) (Elt F) ℕ UU ℕ

variable [FloatOps F]

set_option maxHeartbeats 8000000 in
/-- The kernel at any grid point on any six whole memrefs held at any contents: both conditions decided either way. -/
theorem run1 (c : Dev nD) (i : grid1.Coords)
    (M2 : Memref sig .tc .vmem S1x512x8 .f32) (h2 : M2.IsWhole) (M3 : Memref sig .tc .vmem S1x512x8 .f32) (h3 : M3.IsWhole)
    (M4 : Memref sig .tc .vmem S1x8x4096 .f32) (h4 : M4.IsWhole) (M5 : Memref sig .tc .vmem S1x8x4096 .f32) (h5 : M5.IsWhole)
    (M6 : Memref sig .tc .vmem S1x1x512 .f32) (h6 : M6.IsWhole) (M7 : Memref sig .tc .vmem S1x1x4096 .f32) (h7 : M7.IsWhole)
    (y2 : S1x512x8.Idx → Elt F .f32) (y3 : S1x512x8.Idx → Elt F .f32) (y4 : S1x8x4096.Idx → Elt F .f32)
    (y5 : S1x8x4096.Idx → Elt F .f32) (y6 : S1x1x512.Idx → Elt F .f32) (y7 : S1x1x4096.Idx → Elt F .f32) (K : PUnit → sProp 𝕄) :
    iprop(owns (c : Thread nD τ) M2 fullShare y2 ∗ owns (c : Thread nD τ) M3 fullShare y3 ∗ owns (c : Thread nD τ) M4 fullShare y4
        ∗ owns (c : Thread nD τ) M5 fullShare y5 ∗ owns (c : Thread nD τ) M6 fullShare y6 ∗ owns (c : Thread nD τ) M7 fullShare y7
        ∗ (iprop(owns (c : Thread nD τ) M2 fullShare y2 ∗ owns (c : Thread nD τ) M3 fullShare y3 ∗ owns (c : Thread nD τ) M4 fullShare y4
            ∗ owns (c : Thread nD τ) M5 fullShare y5 ∗ (∃ x, owns (c : Thread nD τ) M6 fullShare x) ∗ (∃ x, owns (c : Thread nD τ) M7 fullShare x)) -∗ K ⟨⟩))
      ⊢ wp frame (wpE (defs₀ (F := F)) 𝒱₀ (c : Thread nD τ) none) Set.univ (cc1__tc_nn_body i M2 h2 M3 h3 M4 h4 M5 h5 M6 h6 M7 h7) K := by
  unfold owns
  rw [cc1__tc_nn_body_eq_skeleton]; unfold cc1__tc_nn_body_skel
  rw [k1_part1_eq_skeleton]; unfold k1_part1_skel
  iintro ⟨⟨%f2, %e2, H2⟩, ⟨%f3, %e3, H3⟩, ⟨%f4, %e4, H4⟩, ⟨%f5, %e5, H5⟩, ⟨%f6, -, H6⟩, ⟨%f7, -, H7⟩, Hk⟩
  by_cases hc1 : k1_cond1 i = 1#1 <;> by_cases hc2 : k1_cond2 i = 1#1
  all_goals
    sl_exec (disch := first | exact hc1 | exact hc2)
    rw [wp_ret]
    imodintro
    iapply Hk
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]
    · iexists _; iexists _; isplitr
      swap; · iexact H6
      ipureintro; rfl
    iexists _; iexists _; isplitr
    swap; · iexact H7
    ipureintro; rfl

section Obligation

variable (W : Valuation τ sig (Elt F))

theorem rdat1_Φ' (c : Dev nD) (t : Fin ((Pipeline.pin (pcfgs (F := F)) adm 0).N + 1)) :
    (rdat1 W c).Φ t = Pipeline.scopedRest (Pipeline.pin (pcfgs (F := F)) adm 0).spec c := by dsimp only [rdat1]
theorem rdat1_owesAt (c : Dev nD) (t : Fin ((Pipeline.pin (pcfgs (F := F)) adm 0).N + 1)) :
    ((rdat1 W c).owesAt ι₀ t : sProp 𝕄)
      = Pipeline.owesWithin c (0 : CellTallies nD τ sig (HIx 1)) (recB (F := F) c ∪ (Pipeline.pin (pcfgs (F := F)) adm 0).waitPairs ι₀) := rfl

set_option maxHeartbeats 4000000 in
/-- The body obligation of pipeline 0 at frame level. -/
theorem body1 (c : Dev nD) : (rdat1 W c).BodyObligation defs₀ 𝒱₀ ι₀ Set.univ := fun t Y _ => by
  rw [bigSep_W1, bigSep_W1, rdat1_Φ', rdat1_Φ', rdat1_owesAt, rdat1_owesAt]
  show _ ⊢ wp frame (wpE (defs₀ (F := F)) 𝒱₀ (c : Thread nD τ) none) Set.univ (bodyAt1 (F := F) t) _
  iintro ⟨HΦ, HO, Y0, Y1, Y2, Y3, Y4, Y5⟩
  iapply (run1 c _ _ _ _ _ _ _ _ _ _ _ _ _ (Y 0) (Y 1) (Y 2) (Y 3) (Y 4) (Y 5))
  isplitl [Y0]; · iexact Y0
  isplitl [Y1]; · iexact Y1
  isplitl [Y2]; · iexact Y2
  isplitl [Y3]; · iexact Y3
  isplitl [Y4]; · iexact Y4
  isplitl [Y5]; · iexact Y5
  iintro ⟨Y0, Y1, Y2, Y3, ⟨%x4, Y4⟩, ⟨%x5, Y5⟩⟩
  isplitl [HΦ]; · iexact HΦ
  isplitl [HO]; · iexact HO
  isplitl [Y0]; · iexists (Y 0); isplitr; · ipureintro; trivial
                  iexact Y0
  isplitl [Y1]; · iexists (Y 1); isplitr; · ipureintro; trivial
                  iexact Y1
  isplitl [Y2]; · iexists (Y 2); isplitr; · ipureintro; trivial
                  iexact Y2
  isplitl [Y3]; · iexists (Y 3); isplitr; · ipureintro; trivial
                  iexact Y3
  isplitl [Y4]; · iexists x4; isplitr; · ipureintro; trivial
                  iexact Y4
  iexists x5; isplitr; · ipureintro; trivial
  iexact Y5

end Obligation

end Cert.Kernel.Tc

end
-- ==== Proof.TcB_Fund.lean ====
/-
  The pipelines' share of the launch element: from the rounds library's launch element at the two pipelines' staging
  cells and the transfers their loops issue, every device's cell ghost state and duty tokens for both pipelines — what
  the first region consumes the first half of and the second region the second.
-/
import proofs.«209750_g45337674776763_cont_8to1c4_158_37_alg».proof.Proof.TcB_Region1W

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

variable [FloatOps F]

/-- The pipelines' component of the launch element. -/
def uP : UP := initOf (Pipeline.cells (nD := nD) (τ := τ) (Pipeline.pin (pcfgs (F := F)) adm) (phinj (F := F)))
  (Pipeline.launchToks (nD := nD) (τ := τ) (Pipeline.pin (pcfgs (F := F)) adm) (phinj (F := F)))

/-- What pipeline `p`'s region consumes on device `d`. -/
abbrev Gp (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- What the launch leaves device `d` for the two regions. -/
def G (d : Dev nD) : sProp 𝕄 := iprop(Gp (F := F) 0 d ∗ Gp (F := F) 1 d)

theorem bigSep_Fin2 {M : Type} [URA M] (Φ : Fin 2 → sProp M) : bigSep Finset.univ Φ = iprop(Φ 0 ∗ Φ 1) :=
  bigSep_univ_eq_bigSepL [(0 : Fin 2), (1 : Fin 2)] (by decide) (by decide) Φ

/-- One device's share, regrouped per pipeline. -/
theorem G_of (d : Dev nD) :
    iprop((bigSep Finset.univ fun p => Pipeline.cellsGhost (Pipeline.pin (pcfgs (F := F)) adm) (EP (F := F)) p d)
        ∗ (bigSep Finset.univ fun p => (Pipeline.toksInit (Pipeline.pin (pcfgs (F := F)) adm) (EP (F := F)) p d : sProp 𝕄)))
      ⊢ G (F := F) d := by
  rw [bigSep_Fin2, bigSep_Fin2]
  unfold G
  iintro ⟨⟨Hg0, Hg1⟩, ⟨Ht0, Ht1⟩⟩
  isplitl [Hg0 Ht0]
  · isplitl [Hg0] <;> iassumption
  isplitl [Hg1] <;> iassumption

/-- Funding: the pipelines' launch element yields every device's `G`. -/
theorem fundG : (BI.own (EP (F := F) (uP (F := F))) : sProp 𝕄) ⊢ |={Set.univ}=> bigSep Finset.univ (G (F := F)) := by
  unfold uP
  iintro Hu
  imod (Pipeline.fund_ghost (Pipeline.pin (pcfgs (F := F)) adm) (EP (F := F)) (phinj (F := F))) $$ Hu with ⟨Hg, Ht⟩
  imodintro
  ihave H := (Entails.of_eq (bigSep_sep' (Finset.univ : Finset (Dev nD))
    (fun c => bigSep Finset.univ fun p => Pipeline.cellsGhost (Pipeline.pin (pcfgs (F := F)) adm) (EP (F := F)) p c)
    (fun c => bigSep Finset.univ fun p => (Pipeline.toksInit (Pipeline.pin (pcfgs (F := F)) adm) (EP (F := F)) p c : sProp 𝕄))).symm) $$ [Hg Ht]
  · isplitl [Hg] <;> iassumption
  have hm : (bigSep (Finset.univ : Finset (Dev nD)) fun d => iprop((bigSep Finset.univ fun p => Pipeline.cellsGhost (Pipeline.pin (pcfgs (F := F)) adm) (EP (F := F)) p d)
        ∗ (bigSep Finset.univ fun p => (Pipeline.toksInit (Pipeline.pin (pcfgs (F := F)) adm) (EP (F := F)) p d : sProp 𝕄))) : sProp 𝕄)
      ⊢ bigSep Finset.univ (G (F := F)) := bigSep_mono fun d _ => G_of (F := F) d
  iapply hm; iexact H

end Cert.Kernel.Tc

end
-- ==== Proof.TcB_Step0.lean ====
/-
  The first TensorCore region as one step of @main's proof inside the SparseCore program, at frame level, with nothing
  left as a hypothesis: from the handshakes' persistent context (for its level facts), the TensorCore's handshake state
  after the one SparseCore call, the region boundary, the unscoped buffers held at a valuation, and what the launch
  funded for the two pipelines, the custom call runs; afterwards the same are held, at a valuation that agrees with
  the entry one off the region's two result arrays, and the second pipeline's funded share remains.
-/
import proofs.«209750_g45337674776763_cont_8to1c4_158_37_alg».proof.Proof.TcB_Exit1
import proofs.«209750_g45337674776763_cont_8to1c4_158_37_alg».proof.Proof.TcB_Body1
import proofs.«209750_g45337674776763_cont_8to1c4_158_37_alg».proof.Proof.TcB_Fund
import Idealize.ShloMosaic.Lib.Pipeline.Frame

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Step

variable [FloatOps F] [∀ e, Nonempty (Elt F e)]

/-- The TensorCore's handshake state after the one call gives up its debt and takes it back. -/
theorem tcSt_owesB (d : Dev nD) :
    ((K (F := F)).tcSt (EH (F := F)) d 1 : sProp 𝕄) ⊢ iprop(owesB (F := F) d ∗ (owesB (F := F) d -∗ (K (F := F)).tcSt (EH (F := F)) d 1)) := by
  unfold SparseCore.Cfg.tcSt owesB
  iintro ⟨HO, Hrest⟩
  isplitl [HO]; · iexact HO
  iintro HO
  isplitl [HO]; · iexact HO
  iexact Hrest

theorem G_def (d : Dev nD) : (G (F := F) d : sProp 𝕄) = iprop(Gp (F := F) 0 d ∗ Gp (F := F) 1 d) := by unfold G; rfl

/-- The first region, as a step. -/
theorem region_step0 (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx (EH (F := F)) P κ ∗ (K (F := F)).tcSt (EH (F := F)) d 1 ∗ boundary (T d)
        ∗ StableHlo.held (T d) (Pipeline.ucRefs τ sig) W ∗ G (F := F) d
        ∗ (∀ W' : Valuation τ sig (Elt F), ⌜∀ b, b ∉ outs1 → W' b = W b⌝ -∗
            iprop((K (F := F)).tcSt (EH (F := F)) d 1 ∗ boundary (T d) ∗ StableHlo.held (T d) (Pipeline.ucRefs τ sig) W' ∗ Gp (F := F) 1 d) -∗ Φ ⟨⟩))
      ⊢ wp frame (wpE ((K (F := F)).defs (D (F := F))) 𝒱 (T d) none) Set.univ
          (Prog.lift (.customCall (SparseCore.inner (Pipeline.entry 0)) ())) Φ := by
  have eW := Pipeline.unscopedBufs_held (nD := nD) (τ := τ) (sig := sig) (Val := Elt F) (Ix := HIx 1) (Name := ℕ) (U := UU) (Lvl := ℕ) d W
  iintro ⟨#Hctx, Hst, Hb, Hheld, HG, Hk⟩
  ihave Hlev := (SparseCore.Cfg.ctx_levAts κ) $$ Hctx
  ihave Hs := (tcSt_owesB (F := F) d) $$ Hst
  icases Hs with ⟨HO, Hback⟩
  ihave HG' := (Entails.of_eq (G_def (F := F) d)) $$ HG
  icases HG' with ⟨⟨Hg0, Ht0⟩, HG1⟩
  ihave Hbufs := (Entails.of_eq eW.symm) $$ Hheld
  iapply (region1_raw W (K (F := F)).lev (body1 W) d Φ)
  isplitl [Hlev]; · iexact Hlev
  isplitl [Hb]; · iexact Hb
  isplitl [Hbufs]; · iexact Hbufs
  isplitl [HO]; · iexact HO
  isplitl [Hg0]; · iexact Hg0
  isplitl [Ht0]; · iexact Ht0
  iintro ⟨Hb, Hpost⟩
  ihave H := (post1_held W d) $$ Hpost
  icases H with ⟨%W', %hW', Hbufs', HO⟩
  ihave Hst := Hback $$ HO
  have eW' := Pipeline.unscopedBufs_held (nD := nD) (τ := τ) (sig := sig) (Val := Elt F) (Ix := HIx 1) (Name := ℕ) (U := UU) (Lvl := ℕ) d W'
  ihave Hheld' := (Entails.of_eq eW') $$ Hbufs'
  iapply Hk $$ %W' %hW' [Hst Hb Hheld' HG1]
  isplitl [Hst]; · iexact Hst
  isplitl [Hb]; · iexact Hb
  isplitl [Hheld']; · iexact Hheld'
  iexact HG1

end Step

end Cert.Kernel.Tc

end
-- ==== Proof.TcB_Region2.lean ====
/-
  The second TensorCore region (pipeline 1: no grid, five windows, the output a 1 x 1 scalar in SMEM) entered from
  inside the SparseCore program, at frame level: the regions kit's record for it, as for the first region.
-/
import proofs.«209750_g45337674776763_cont_8to1c4_158_37_alg».proof.Proof.TcB_Region1

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

/-! ## The region record -/

section Region

variable [FloatOps F] [∀ e, Nonempty (Elt F e)] (W₂ : Valuation τ sig (Elt F)) (lv : GSem nD τ sig → HIx 1 → ℕ)

/-- Pipeline 1's datum as the family the regions kit takes (the other pipeline's is trivial). -/
abbrev fam2 : (p : Fin 2) → (c : Dev nD) → Pipeline.RDat τ (Elt F) (HIx 1) ℕ UU ℕ (Pipeline.pin (pcfgs (F := F)) adm p) c :=
  Pipeline.RDat.familyOf (pcfgs (F := F)) adm 1 (rdat2 W₂)

/-- What the region leaves: the windows' arrays at some contents they may hold after every write-back, the other
    unscoped buffers as they were, the debt as it was. -/
def post2 (c : Dev nD) : sProp 𝕄 :=
  iprop((rdat2 W₂ c).arraysAt (Pipeline.pin (pcfgs (F := F)) adm 1).N
    ∗ Pipeline.unscopedRest (Pipeline.pin (pcfgs (F := F)) adm 1).spec c (fun b => W₂ b) ∗ owesB (F := F) c)

theorem fam2_self (c : Dev nD) : fam2 W₂ 1 c = rdat2 W₂ c := Pipeline.RDat.familyOf_self (pcfgs (F := F)) adm 1 (rdat2 W₂) c
-- the invariant is never compared by unfolding: the projection is reduced, the scoped rest stays folded
theorem rdat2_Φ (c : Dev nD) (t : Fin ((Pipeline.pin (pcfgs (F := F)) adm 1).N + 1)) :
    (rdat2 W₂ c).Φ t = Pipeline.scopedRest (Pipeline.pin (pcfgs (F := F)) adm 1).spec c := by dsimp only [rdat2]
theorem rdat2_A (c : Dev nD) (w : Fin (Pipeline.pin (pcfgs (F := F)) adm 1).W) :
    (rdat2 W₂ c).A w = W₂ (Pipeline.arrRef (Pipeline.pin (pcfgs (F := F)) adm 1).spec w) := by dsimp only [rdat2]
theorem rdat2_q (c : Dev nD) (w : Fin (Pipeline.pin (pcfgs (F := F)) adm 1).W) : (rdat2 W₂ c).q w = fullShare := by dsimp only [rdat2]
theorem rdat2_owed (c : Dev nD) (t) : (rdat2 W₂ c).owed t = 0 := rfl
theorem rdat2_bound (c : Dev nD) (t) :
    (rdat2 W₂ c).bound ι₀ t = recB (F := F) c ∪ (Pipeline.pin (pcfgs (F := F)) adm 1).waitPairs ι₀ := rfl

def reg2 (hbody : ∀ c, (rdat2 W₂ c).BodyObligation defs₀ 𝒱₀ ι₀ Set.univ) :
    Pipeline.RDat.RegionSeg (pcfgs (F := F)) adm (fam2 W₂) ι₀ defs₀ 𝒱₀ (KL (F := F)) lv 1 where
  win := winFacts2.to₀
  block_pos := block_pos2
  stage_whole := stage_whole2
  K := PEmpty
  osem k := k.elim
  ho := Pipeline.OwnSemFacts.none _
  hbody c := by rw [fam2_self]; exact hbody c
  hwaits := Pipeline.RDat.hwaits_of_owed_zero _ _ _ _ _ _ 1 fun c t => by rw [fam2_self]; exact rdat2_owed W₂ c t
  pre c := iprop(unscopedBufs c (fun b => W₂ b) ∗ owesB (F := F) c)
  post c := post2 W₂ c
  X _ := iprop(emp)
  Y _ := iprop(emp)
  Z c := Pipeline.unscopedRest (Pipeline.pin (pcfgs (F := F)) adm 1).spec c (fun b => W₂ b)
  hentry c := by
    rw [fam2_self, Pipeline.ownSems0_none, prefHeld_none]
    unfold Pipeline.RDat.owesAt
    rw [rdat2_owed, rdat2_bound]
    iintro ⟨⟨Hb, HO⟩, -, -⟩
    ihave Ha := (Pipeline.RDat.arrays_of_unscopedBufs (pcfgs (F := F)) adm (fam2 W₂) (p := 1) winFacts2 arr_whole2 c
      (fun w => by rw [fam2_self]; exact Pipeline.RDat.share_full _ (rdat2_q W₂ c) w) (fun b => W₂ b)
      (fun w => by rw [fam2_self]; exact rdat2_A W₂ c w)) $$ Hb
    icases Ha with ⟨Harr, Hrest⟩
    imodintro
    isplitl [Harr]; · iexact Harr
    isplitr; · iempintro
    isplitl [HO]
    · iapply (owesB_within (F := F) c _); iexact HO
    isplitr; · iempintro
    iexact Hrest
  hin c := by
    rw [fam2_self, rdat2_Φ]
    iintro ⟨-, -, HR⟩; iexact HR
  hout c := by
    rw [fam2_self, Pipeline.ownSems0_none, rdat2_Φ]
    iintro HR
    isplitr; · iempintro
    isplitr; · iempintro
    iexact HR
  hexit c := by
    rw [fam2_self]
    unfold Pipeline.RDat.owesAt
    rw [rdat2_owed, rdat2_bound]
    iintro ⟨Harr, HO, -, HZ⟩
    imodintro
    unfold post2
    isplitl [Harr]; · iexact Harr
    isplitl [HZ]; · iexact HZ
    iapply (within_owesB (F := F) c (Pipeline.pin (pcfgs (F := F)) adm 1)); iexact HO

end Region

end Cert.Kernel.Tc

end
-- ==== Proof.TcB_Region2W.lean ====
/-
  The second TensorCore region as a step of @main inside the SparseCore program: the regions kit's rule for its
  record, in the pipelines' own body table, then lifted to the extended table.
-/
import proofs.«209750_g45337674776763_cont_8to1c4_158_37_alg».proof.Proof.TcB_Region2
import proofs.«209750_g45337674776763_cont_8to1c4_158_37_alg».proof.Proof.TcB_Region1W

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₂ : Valuation τ sig (Elt F)) (lv : GSem nD τ sig → HIx 1 → ℕ)

set_option backward.isDefEq.respectTransparency.types false in
set_option maxHeartbeats 800000 in
theorem region2_pipe (hbody : ∀ c, (rdat2 W₂ c).BodyObligation defs₀ 𝒱₀ ι₀ Set.univ) (d : Dev nD) (Φ : PUnit → sProp 𝕄) :
    iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2 W₂ d) -∗ Φ ⟨⟩))
      ⊢ wp frame (wpE (D (F := F)) 𝒱 (T d) none) Set.univ (callP (F := F) 1) Φ := by
  have h := Pipeline.RDat.RegionSeg.wp (pcfgs (F := F)) adm (fam2 W₂) ι₀ (phinj (F := F)) (EP (F := F)) defs₀ 𝒱₀ (KL (F := F)) lv
    (reg2 W₂ lv hbody) d none (fun _ h => nomatch h) (fun _ => .ret ⟨⟩) Φ
  have e : iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2 W₂ d) -∗ Φ ⟨⟩))
      ⊢ iprop((iprop(boundary (T d) ∗ post2 W₂ d) -∗ wp frame (wpE (D (F := F)) 𝒱 (T d) none) Set.univ (Prog.ret PUnit.unit) Φ)
        ∗ boundary (T d) ∗ iprop(unscopedBufs d (fun b => W₂ b) ∗ owesB (F := F) d) ∗ levAts (KL (F := F)) lv
        ∗ Pipeline.cellsGhost (Pipeline.pin (pcfgs (F := F)) adm) (EP (F := F)) 1 d ∗ Pipeline.toksInit (Pipeline.pin (pcfgs (F := F)) adm) (EP (F := F)) 1 d) := by
    iintro ⟨Hlev, Hb, Hbufs, HO, Hg, Ht, Hk⟩
    isplitl [Hk]
    · iintro H
      rw [wp_ret]
      imodintro
      iapply Hk; iexact H
    isplitl [Hb]; · iexact Hb
    isplitl [Hbufs HO]
    · isplitl [Hbufs] <;> iassumption
    isplitl [Hlev]; · iexact Hlev
    isplitl [Hg] <;> iassumption
  exact e.trans h

/-- The region as @main's line in the SparseCore program. -/
theorem region2_raw (hbody : ∀ c, (rdat2 W₂ c).BodyObligation defs₀ 𝒱₀ ι₀ Set.univ) (d : Dev nD) (Φ : PUnit → sProp 𝕄) :
    iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2 W₂ d) -∗ Φ ⟨⟩))
      ⊢ wp frame (wpE ((K (F := F)).defs (D (F := F))) 𝒱 (T d) none) Set.univ (callS (F := F) 1) Φ :=
  (region2_pipe W₂ lv hbody d Φ).trans (wp_callS 1 d Φ)

end Region

end Cert.Kernel.Tc

end
-- ==== Proof.TcB_Exit2.lean ====
/-
  What the second region leaves, read as a valuation again: the windows' arrays after the write-back and the other
  unscoped buffers are the TensorCore's unscoped buffers at a valuation that agrees with the entry valuation off the
  region's one result array — the four input arrays hold their entry contents still.
-/
import proofs.«209750_g45337674776763_cont_8to1c4_158_37_alg».proof.Proof.TcB_Exit1
import proofs.«209750_g45337674776763_cont_8to1c4_158_37_alg».proof.Proof.TcB_Region2W

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Exit

variable [FloatOps F] [∀ e, Nonempty (Elt F e)] (W : Valuation τ sig (Elt F))

local notation "cfgB" => Pipeline.pin (pcfgs (F := F)) adm 1

/-- The region's result array, as a device buffer. -/
abbrev q0 : DevRef τ sig := Proc.devRef .tc (main_v27 : Ref sig .tc)
abbrev outs2 : Finset (DevRef τ sig) := {q0}

theorem share2 (d : Dev nD) (w : Fin (cfgB).W) : (rdat2 W d).share w = fullShare :=
  Pipeline.RDat.share_full _ (rdat2_q W d) w

/-- The arrays after the write-back: some contents per window, the inputs' the entry contents, all held whole. -/
theorem arraysAt2_elim (d : Dev nD) :
    ((rdat2 W d).arraysAt (cfgB).N : sProp 𝕄)
      ⊢ iprop(∃ Fs : (w : Fin (cfgB).W) → Buf (Elt F) (((cfgB).win w).arr.view.loc (d.tc : Thread nD τ)),
          ⌜Fs 0 = (rdat2 W d).A 0 ∧ Fs 1 = (rdat2 W d).A 1 ∧ Fs 2 = (rdat2 W d).A 2 ∧ Fs 3 = (rdat2 W d).A 3⌝
          ∗ bigSep Finset.univ fun w => (((d.tc : Thread nD τ).loc (Pipeline.arrRef (cfgB).spec w)) ↦{fullShare} Fs w : sProp 𝕄)) := by
  unfold Pipeline.RDat.arraysAt
  refine (bigSep_exists_pi Finset.univ _).trans ?_
  iintro ⟨%Fs, H⟩
  iexists Fs
  ihave H' := (Entails.of_eq (bigSep_sep' (Finset.univ : Finset (Fin (cfgB).W))
    (fun w => (iprop(⌜(rdat2 W d).ArrAt w (cfgB).N (Fs w)⌝) : sProp 𝕄))
    (fun w => (((cfgB).win w).arr.view.loc (d.tc : Thread nD τ) ↦[((cfgB).win w).arr.view.set]{(rdat2 W d).share w} Fs w : sProp 𝕄)))) $$ H
  icases H' with ⟨Hp, Ha⟩
  isplitl [Hp]
  · icases Hp with #Hp
    ihave %h0 := (pure_of_bigSep (F := F) Finset.univ (fun w => (rdat2 W d).ArrAt w (cfgB).N (Fs w)) (0 : Fin (cfgB).W) (Finset.mem_univ _)) $$ Hp
    ihave %h1 := (pure_of_bigSep (F := F) Finset.univ (fun w => (rdat2 W d).ArrAt w (cfgB).N (Fs w)) (1 : Fin (cfgB).W) (Finset.mem_univ _)) $$ Hp
    ihave %h2 := (pure_of_bigSep (F := F) Finset.univ (fun w => (rdat2 W d).ArrAt w (cfgB).N (Fs w)) (2 : Fin (cfgB).W) (Finset.mem_univ _)) $$ Hp
    ihave %h3 := (pure_of_bigSep (F := F) Finset.univ (fun w => (rdat2 W d).ArrAt w (cfgB).N (Fs w)) (3 : Fin (cfgB).W) (Finset.mem_univ _)) $$ Hp
    ipureintro
    rw [(rdat2 W d).ArrAt_in 0 rfl] at h0
    rw [(rdat2 W d).ArrAt_in 1 rfl] at h1
    rw [(rdat2 W d).ArrAt_in 2 rfl] at h2
    rw [(rdat2 W d).ArrAt_in 3 rfl] at h3
    exact ⟨h0, h1, h2, h3⟩
  · have e : (bigSep Finset.univ fun w => ((cfgB).win w).arr.view.loc (d.tc : Thread nD τ) ↦[((cfgB).win w).arr.view.set]{(rdat2 W d).share w} Fs w : sProp 𝕄)
        = (rdat2 W d).arrays Fs := rfl
    have e' := Pipeline.RDat.arrays_eq (pcfgs (F := F)) adm (fam2 W) 1 d arr_whole2 (fun w => by rw [fam2_self]; exact share2 W d w) Fs
    rw [fam2_self] at e'
    have h : (bigSep Finset.univ fun w => ((cfgB).win w).arr.view.loc (d.tc : Thread nD τ) ↦[((cfgB).win w).arr.view.set]{(rdat2 W d).share w} Fs w : sProp 𝕄)
        ⊢ bigSep Finset.univ fun w => (((d.tc : Thread nD τ).loc (Pipeline.arrRef (cfgB).spec w)) ↦{fullShare} Fs w : sProp 𝕄) :=
      Entails.of_eq (e.trans e')
    iapply h; iexact Ha

/-- The windows' arrays, as TensorCore references of the printed signature (no float instance in them). -/
theorem arrRef2 (w : Fin 5) : Pipeline.arrRef (Pipeline.pin (pcfgs (F := F)) adm 1).spec w = Pipeline.arrRef spec2 w := rfl
theorem arr2_4 : (Proc.devRef .tc (Pipeline.arrRef spec2 4) : DevRef τ sig) = q0 := by decide
theorem in2_ne : ∀ w : Fin 5, w.val < 4 → (Proc.devRef .tc (Pipeline.arrRef spec2 w) : DevRef τ sig) ≠ q0 := by decide

set_option maxHeartbeats 1000000 in
theorem post2_held (d : Dev nD) :
    (post2 W d : sProp 𝕄) ⊢ iprop(∃ W' : Valuation τ sig (Elt F), ⌜∀ b, b ∉ outs2 → W' b = W b⌝ ∗ unscopedBufs d (fun b => W' b) ∗ owesB (F := F) d) := by
  unfold post2
  iintro ⟨Harr, Hrest, HO⟩
  ihave H := (arraysAt2_elim W d) $$ Harr
  icases H with ⟨%Fs, %hin, Ha⟩
  obtain ⟨h0, h1, h2, h3⟩ := hin
  -- the result's contents, typed as the valuation types them
  obtain ⟨g4, hg4⟩ : ∃ g4 : BufTy.Contents (Elt F) (q0 : DevRef τ sig).ty, g4 = Fs 4 := ⟨Fs 4, rfl⟩
  iexists (Function.update W q0 g4)
  isplitr
  · ipureintro
    intro b hb
    have hb0 : b ≠ q0 := fun h => hb (by rw [h]; exact Finset.mem_singleton_self _)
    exact Function.update_of_ne hb0 _ _
  isplitr [HO]
  · rw [Pipeline.unscopedBufs_split (Pipeline.pin (pcfgs (F := F)) adm) 1 winFacts2.arr_unscoped winFacts2.arr_inj d]
    isplitl [Ha]
    · have hFs : ∀ w : Fin (cfgB).W, Fs w = Function.update W q0 g4 (Proc.devRef .tc (Pipeline.arrRef (cfgB).spec w)) := by
        intro w
        rcases w with ⟨n, hn⟩
        have hn5 : n < 5 := hn
        match n, hn, hn5 with
        | 0, _, _ => exact h0.trans ((rdat2_A W d 0).trans (Function.update_of_ne (in2_ne 0 (by decide)) _ _).symm)
        | 1, _, _ => exact h1.trans ((rdat2_A W d 1).trans (Function.update_of_ne (in2_ne 1 (by decide)) _ _).symm)
        | 2, _, _ => exact h2.trans ((rdat2_A W d 2).trans (Function.update_of_ne (in2_ne 2 (by decide)) _ _).symm)
        | 3, _, _ => exact h3.trans ((rdat2_A W d 3).trans (Function.update_of_ne (in2_ne 3 (by decide)) _ _).symm)
        | 4, _, _ =>
          show Fs 4 = Function.update W q0 g4 q0
          exact hg4.symm.trans (Function.update_self q0 g4 W).symm
        | k + 5, _, h5 => exact absurd h5 (by omega)
      have hA : (bigSep Finset.univ fun w : Fin (cfgB).W => (((d.tc : Thread nD τ).loc (Pipeline.arrRef (cfgB).spec w)) ↦{fullShare} Fs w : sProp 𝕄))
          ⊢ bigSep Finset.univ fun w : Fin (cfgB).W => (((d.tc : Thread nD τ).loc (Pipeline.arrRef (cfgB).spec w))
              ↦{fullShare} Function.update W q0 g4 (Proc.devRef .tc (Pipeline.arrRef (cfgB).spec w)) : sProp 𝕄) :=
        Entails.of_eq (bigSep_congr fun w _ => by rw [← hFs w])
      iapply hA; iexact Ha
    · have hne : ∀ b : Ref sig .tc, b ∉ Finset.univ.image (Pipeline.arrRef (cfgB).spec)
          → (Proc.devRef .tc b : DevRef τ sig) ≠ q0 := by
        intro b hb h
        rw [← arr2_4] at h
        exact hb (Finset.mem_image.mpr ⟨4, Finset.mem_univ _, (arrRef2 (F := F) 4).trans (Proc.devRef_injective _ h).symm⟩)
      have hB : (Pipeline.unscopedRest (cfgB).spec d (fun b => W b) : sProp 𝕄)
          ⊢ Pipeline.unscopedRest (cfgB).spec d (fun b => Function.update W q0 g4 b) := by
        unfold Pipeline.unscopedRest
        exact Entails.of_eq (bigSep_congr fun b hb => by
          have n0 := hne b (Finset.mem_sdiff.mp hb).2
          exact congrArg (fun x => (((d.tc : Thread nD τ).loc b) ↦{fullShare} x : sProp 𝕄))
            (Function.update_of_ne n0 g4 W).symm)
      iapply hB; iexact Hrest
  iexact HO

end Exit

end Cert.Kernel.Tc

end
-- ==== Proof.TcB_Body2.lean ====
/-
  The body obligation of the second TensorCore kernel (no grid: one point; five windows, the last a 1 x 1 scalar
  output in SMEM), at frame level: from its five current staging buffers at any contents the body runs — four loads
  of whole blocks, one scalar load, one scalar store — and hands them back, the inputs as they were, the output at
  some contents; the region's invariant and the core's debt are untouched.
-/
import proofs.«209750_g45337674776763_cont_8to1c4_158_37_alg».proof.Proof.TcB_Ghost
import proofs.«209750_g45337674776763_cont_8to1c4_158_37_alg».proof.Proof.Gen.Kernel.Skeleton
import Idealize.ShloMosaic.Lib.Exec

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Tactic

variable {F : FTy → Type}

local notation "𝕄" => MT nD τ sig (HIx 1) (Elt F) ℕ UU ℕ

variable [FloatOps F]

set_option maxHeartbeats 4000000 in
/-- The kernel on any five whole memrefs held at any contents. -/
theorem run2 (c : Dev nD)
    (M0 : Memref sig .tc .vmem S4x4096 .f32) (h0 : M0.IsWhole) (M1 : Memref sig .tc .vmem S4x4096 .f32) (h1 : M1.IsWhole)
    (M2 : Memref sig .tc .vmem S4x4096 .f32) (h2 : M2.IsWhole) (M3 : Memref sig .tc .vmem S4x8x4096 .f32) (h3 : M3.IsWhole)
    (M4 : Memref sig .tc .smem S1x1 .f32) (h4 : M4.IsWhole)
    (y0 : S4x4096.Idx → Elt F .f32) (y1 : S4x4096.Idx → Elt F .f32) (y2 : S4x4096.Idx → Elt F .f32)
    (y3 : S4x8x4096.Idx → Elt F .f32) (y4 : S1x1.Idx → Elt F .f32) (K : PUnit → sProp 𝕄) :
    iprop(owns (c : Thread nD τ) M0 fullShare y0 ∗ owns (c : Thread nD τ) M1 fullShare y1 ∗ owns (c : Thread nD τ) M2 fullShare y2
        ∗ owns (c : Thread nD τ) M3 fullShare y3 ∗ owns (c : Thread nD τ) M4 fullShare y4
        ∗ (iprop(owns (c : Thread nD τ) M0 fullShare y0 ∗ owns (c : Thread nD τ) M1 fullShare y1 ∗ owns (c : Thread nD τ) M2 fullShare y2
            ∗ owns (c : Thread nD τ) M3 fullShare y3 ∗ (∃ x, owns (c : Thread nD τ) M4 fullShare x)) -∗ K ⟨⟩))
      ⊢ wp frame (wpE (defs₀ (F := F)) 𝒱₀ (c : Thread nD τ) none) Set.univ (cc2__tc_reduce_body M0 h0 M1 h1 M2 h2 M3 h3 M4 h4) K := by
  unfold owns
  rw [cc2__tc_reduce_body_eq_skeleton]; unfold cc2__tc_reduce_body_skel
  iintro ⟨⟨%f0, %e0, H0⟩, ⟨%f1, %e1, H1⟩, ⟨%f2, %e2, H2⟩, ⟨%f3, %e3, H3⟩, ⟨%f4, -, H4⟩, Hk⟩
  sl_exec
  rw [wp_ret]
  imodintro
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; iexists _; isplitr
  swap; · iexact H4
  ipureintro; rfl

section Obligation

variable (W : Valuation τ sig (Elt F))

theorem rdat2_Φ' (c : Dev nD) (t : Fin ((Pipeline.pin (pcfgs (F := F)) adm 1).N + 1)) :
    (rdat2 W c).Φ t = Pipeline.scopedRest (Pipeline.pin (pcfgs (F := F)) adm 1).spec c := by dsimp only [rdat2]
theorem rdat2_owesAt (c : Dev nD) (t : Fin ((Pipeline.pin (pcfgs (F := F)) adm 1).N + 1)) :
    ((rdat2 W c).owesAt ι₀ t : sProp 𝕄)
      = Pipeline.owesWithin c (0 : CellTallies nD τ sig (HIx 1)) (recB (F := F) c ∪ (Pipeline.pin (pcfgs (F := F)) adm 1).waitPairs ι₀) := rfl

set_option maxHeartbeats 4000000 in
/-- The body obligation of pipeline 1 at frame level. -/
theorem body2 (c : Dev nD) : (rdat2 W c).BodyObligation defs₀ 𝒱₀ ι₀ Set.univ := fun t Y _ => by
  rw [bigSep_W2, bigSep_W2, rdat2_Φ', rdat2_Φ', rdat2_owesAt, rdat2_owesAt]
  show _ ⊢ wp frame (wpE (defs₀ (F := F)) 𝒱₀ (c : Thread nD τ) none) Set.univ (bodyAt2 (F := F) t) _
  iintro ⟨HΦ, HO, Y0, Y1, Y2, Y3, Y4⟩
  iapply (run2 c _ _ _ _ _ _ _ _ _ _ (Y 0) (Y 1) (Y 2) (Y 3) (Y 4))
  isplitl [Y0]; · iexact Y0
  isplitl [Y1]; · iexact Y1
  isplitl [Y2]; · iexact Y2
  isplitl [Y3]; · iexact Y3
  isplitl [Y4]; · iexact Y4
  iintro ⟨Y0, Y1, Y2, Y3, ⟨%x, Y4⟩⟩
  isplitl [HΦ]; · iexact HΦ
  isplitl [HO]; · iexact HO
  isplitl [Y0]; · iexists (Y 0); isplitr; · ipureintro; trivial
                  iexact Y0
  isplitl [Y1]; · iexists (Y 1); isplitr; · ipureintro; trivial
                  iexact Y1
  isplitl [Y2]; · iexists (Y 2); isplitr; · ipureintro; trivial
                  iexact Y2
  isplitl [Y3]; · iexists (Y 3); isplitr; · ipureintro; trivial
                  iexact Y3
  iexists x; isplitr; · ipureintro; trivial
  iexact Y4

end Obligation

end Cert.Kernel.Tc

end
-- ==== Proof.TcB_Step1.lean ====
/-
  The second TensorCore region as one step of @main's proof inside the SparseCore program, at frame level, with nothing
  left as a hypothesis: as the first region's step, from the second pipeline's funded share; afterwards the valuation
  agrees with the entry one off the region's one result array, and nothing of the launch's funding remains.
-/
import proofs.«209750_g45337674776763_cont_8to1c4_158_37_alg».proof.Proof.TcB_Exit2
import proofs.«209750_g45337674776763_cont_8to1c4_158_37_alg».proof.Proof.TcB_Body2
import proofs.«209750_g45337674776763_cont_8to1c4_158_37_alg».proof.Proof.TcB_Step0

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Step

variable [FloatOps F] [∀ e, Nonempty (Elt F e)]

/-- The second region, as a step. -/
theorem region_step1 (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx (EH (F := F)) P κ ∗ (K (F := F)).tcSt (EH (F := F)) d 1 ∗ boundary (T d)
        ∗ StableHlo.held (T d) (Pipeline.ucRefs τ sig) W ∗ Gp (F := F) 1 d
        ∗ (∀ W' : Valuation τ sig (Elt F), ⌜∀ b, b ∉ outs2 → W' b = W b⌝ -∗
            iprop((K (F := F)).tcSt (EH (F := F)) d 1 ∗ boundary (T d) ∗ StableHlo.held (T d) (Pipeline.ucRefs τ sig) W' ∗ emp) -∗ Φ ⟨⟩))
      ⊢ wp frame (wpE ((K (F := F)).defs (D (F := F))) 𝒱 (T d) none) Set.univ
          (Prog.lift (.customCall (SparseCore.inner (Pipeline.entry 1)) ())) Φ := by
  have eW := Pipeline.unscopedBufs_held (nD := nD) (τ := τ) (sig := sig) (Val := Elt F) (Ix := HIx 1) (Name := ℕ) (U := UU) (Lvl := ℕ) d W
  iintro ⟨#Hctx, Hst, Hb, Hheld, ⟨Hg1, Ht1⟩, Hk⟩
  ihave Hlev := (SparseCore.Cfg.ctx_levAts κ) $$ Hctx
  ihave Hs := (tcSt_owesB (F := F) d) $$ Hst
  icases Hs with ⟨HO, Hback⟩
  ihave Hbufs := (Entails.of_eq eW.symm) $$ Hheld
  iapply (region2_raw W (K (F := F)).lev (body2 W) d Φ)
  isplitl [Hlev]; · iexact Hlev
  isplitl [Hb]; · iexact Hb
  isplitl [Hbufs]; · iexact Hbufs
  isplitl [HO]; · iexact HO
  isplitl [Hg1]; · iexact Hg1
  isplitl [Ht1]; · iexact Ht1
  iintro ⟨Hb, Hpost⟩
  ihave H := (post2_held W d) $$ Hpost
  icases H with ⟨%W', %hW', Hbufs', HO⟩
  ihave Hst := Hback $$ HO
  have eW' := Pipeline.unscopedBufs_held (nD := nD) (τ := τ) (sig := sig) (Val := Elt F) (Ix := HIx 1) (Name := ℕ) (U := UU) (Lvl := ℕ) d W'
  ihave Hheld' := (Entails.of_eq eW') $$ Hbufs'
  iapply Hk $$ %W' %hW' [Hst Hb Hheld']
  isplitl [Hst]; · iexact Hst
  isplitl [Hb]; · iexact Hb
  isplitl [Hheld']; · iexact Hheld'
  iempintro

end Step

end Cert.Kernel.Tc

end
-- ==== Proof.TcB_Hu.lean ====
/-
  The launch element of the whole user algebra: the handshakes' rounds at the SparseCore launch's cells, the pipelines'
  rounds at their staging cells, the transfers' counters at the unit. Owning it yields the handshakes' element and what
  every device's two TensorCore regions consume.
-/
import proofs.«209750_g45337674776763_cont_8to1c4_158_37_alg».proof.Proof.TcB_Fund

noncomputable section

namespace Cert.Kernel.Tc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Launch

variable [FloatOps F]

/-- The launch element. -/
def u₀ : UU := (initOf (K (F := F)).hsCells (K (F := F)).hsToks, (uP (F := F), 1))

theorem hu₀ : (ownU (u₀ (F := F)) : sProp 𝕄)
    ⊢ |={Set.univ}=> iprop(BI.own (EH (F := F) (initOf (K (F := F)).hsCells (K (F := F)).hsToks)) ∗ bigSep Finset.univ (G (F := F))) := by
  unfold u₀
  iintro Hu
  ihave H := (ownU_split (F := F) _ _ _) $$ Hu
  icases H with ⟨HH, HP, -⟩
  imod (fundG (F := F)) $$ HP with HG
  imodintro
  isplitl [HH]; · iexact HH
  iexact HG

end Launch

end Cert.Kernel.Tc

end
-- ==== Proof.FramesB.lean ====
import proofs.«209750_g45337674776763_cont_8to1c4_158_37_alg».proof.Defs
import proofs.«209750_g45337674776763_cont_8to1c4_158_37_alg».proof.Proof.Gen.Pre_finite_inputs
import proofs.«209750_g45337674776763_cont_8to1c4_158_37_alg».proof.Proof.ScMainScB
import proofs.«209750_g45337674776763_cont_8to1c4_158_37_alg».proof.Proof.TcB_Step0
import proofs.«209750_g45337674776763_cont_8to1c4_158_37_alg».proof.Proof.TcB_Step1
import proofs.«209750_g45337674776763_cont_8to1c4_158_37_alg».proof.Proof.TcB_Hu

/-! The program's frame at this instance: every weakly fair execution of the device's threads — @main on the
    TensorCore, the two sequencers, the thirty-two vector subcores — terminates, nothing faulting, with both argument arrays
    as launched. The launch theorem's obligations are the vector subcores' task, the split of a SparseCore's operands
    among its subcores, @main (host lines, the SparseCore call, the two TensorCore regions) and the launch element. -/

noncomputable section

namespace Cert.Proof.ScB

open Idealize.ShloMosaic Idealize.SL.Sem

theorem frame : Cert.frame_Kernel (hKernel := Cert.Kernel.Gen.facts) (hPre_finite_inputs := Cert.Pre_finite_inputs.Gen.facts) := fun m ρ _ =>
  (θ_run Cert.Kernel.defs _ _).mono (fun _ h c => h c)
    (run_main (F := Bits) m ρ Cert.Kernel.Tc.G (Cert.Kernel.Tc.Gp 1) (fun _ => Idealize.SL.BI.BIBase.emp) Cert.Kernel.Tc.u₀ Cert.Kernel.Tc.hu₀
      (fun κ d W Φ => Cert.Kernel.Tc.region_step0 (PP m) κ d W Φ) (fun κ d W Φ => Cert.Kernel.Tc.region_step1 (PP m) κ d W Φ))

end Cert.Proof.ScB

end
-- ==== Proof.ScMainVScI.lean ====
/-
  @main on the TensorCore once more, now with values: the SparseCore call's result array and the two TensorCore regions'
  result arrays are known as pure facts of the arrays they were computed from, and the scalar result at the end is read off
  them. Stated over the three steps' value predicates, which the kernels' value proofs supply.
-/
import proofs.«209750_g45337674776763_cont_8to1c4_158_37_alg».proof.Proof.ScMainScI

noncomputable section

namespace Cert.Proof.ScI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq)
open Idealize.ShloMosaic.StableHlo
open Idealize.ShloMosaic.Pipeline (ucRefs unscopedBufs_held sub_ucRefs)
open Cert.KernelIdeal.Tc (UU EH)

variable {F : FTy → Type}

local notation "𝕄" => MT nD τ sig (HIx 1) (Elt F) ℕ UU ℕ

variable (m : (ℓ : Loc nD τ sig) → Buf (Elt F) ℓ) [FloatOps F]

abbrev r28 : DevRef τ sig := Proc.devRef .tc (main_v28 : Ref sig .tc)

/-- A region step with a value: besides leaving every other array as it was, the region's results satisfy `val`. -/
def RegionStepV (P : (K (F := F)).Pay (nD := nD) (Val := Elt F) (Name := ℕ) (U := UU)) (κ : GSem nD τ sig → ℕ) (p : Fin 2) (outs : Finset (DevRef τ sig)) (Gin Gout : Dev nD → sProp 𝕄)
    (val : Dev nD → Valuation τ sig (Elt F) → Valuation τ sig (Elt F) → Prop) : Prop :=
  ∀ (d : Dev nD) (W : Valuation τ sig (Elt F)) (Φ : PUnit → sProp 𝕄),
    iprop((K (F := F)).ctx EH P κ ∗ (K (F := F)).tcSt EH d 1 ∗ boundary (T d) ∗ held (T d) (ucRefs τ sig) W ∗ Gin d
        ∗ (∀ W', ⌜(∀ b, b ∉ outs → W' b = W b) ∧ val d W W'⌝ -∗ ((K (F := F)).tcSt EH d 1 ∗ boundary (T d) ∗ held (T d) (ucRefs τ sig) W' ∗ Gout d) -∗ Φ ⟨⟩))
      ⊢ wp frame (wpE ((K (F := F)).defs (D (F := F))) 𝒱 (T d) none) Set.univ
          (Prog.lift (.customCall (SparseCore.inner (Pipeline.entry p)) ())) Φ

/-- The SparseCore call with a value: the result array comes back at contents satisfying `scv`. -/
def CallStepV (P : (K (F := F)).Pay (nD := nD) (Val := Elt F) (Name := ℕ) (U := UU)) (κ : GSem nD τ sig → ℕ)
    (scv : Dev nD → BufTy.Contents (Elt F) (r9 : DevRef τ sig).ty → Prop) : Prop :=
  ∀ (d : Dev nD) (Φ : PUnit → sProp 𝕄),
    iprop((K (F := F)).ctx EH P κ ∗ (K (F := F)).tcSt EH d 0 ∗ held (T d) (ucRefs τ sig) (V1 m d)
        ∗ (∀ g9, ⌜scv d g9⌝ -∗ ((K (F := F)).tcSt EH d 1 ∗ held (T d) (ucRefs τ sig) (Function.update (V1 m d) r9 g9)) -∗ Φ ⟨⟩))
      ⊢ wp frame (wpE ((K (F := F)).defs (D (F := F))) 𝒱 (T d) none) Set.univ ((K (F := F)).run d 0) Φ

/-- What @main leaves, with the result: the arrays at contents that agree with the launch's on both arguments and hold
    `R d` in the scalar result. -/
def FINV (R : Dev nD → BufTy.Contents (Elt F) (r28 : DevRef τ sig).ty) (d : Dev nD) : sProp 𝕄 :=
  iprop(∃ W : Valuation τ sig (Elt F), ⌜W ra0 = m (d, ra0) ∧ W ra1 = m (d, ra1) ∧ W r28 = R d⌝ ∗ held (T d) (ucRefs τ sig) W)

attribute [local irreducible] ops0 ops1 ops2 ops3

set_option maxHeartbeats 1000000 in
/-- @main on device `d`'s TensorCore, with the value of its result. -/
theorem hmainV (ρ : Dev nD → PrngReg) (G0 G1 G2 : Dev nD → sProp 𝕄) (κ : GSem nD τ sig → ℕ)
    (P : (K (F := F)).Pay (nD := nD) (Val := Elt F) (Name := ℕ) (U := UU))
    (scv : Dev nD → BufTy.Contents (Elt F) (r9 : DevRef τ sig).ty → Prop)
    (val0 val1 : Dev nD → Valuation τ sig (Elt F) → Valuation τ sig (Elt F) → Prop)
    (R : Dev nD → BufTy.Contents (Elt F) (r28 : DevRef τ sig).ty)
    (hcall : CallStepV m P κ scv) (h0 : RegionStepV (F := F) P κ 0 outs0 G0 G1 val0) (h1 : RegionStepV (F := F) P κ 1 outs1 G1 G2 val1)
    (hval : ∀ (d : Dev nD) (g9) (W2 W3 : Valuation τ sig (Elt F)), scv d g9 →
      ((∀ b, b ∉ outs0 → W2 b = StableHlo.after ops1 (Function.update (V1 m d) r9 g9) b) ∧ val0 d (StableHlo.after ops1 (Function.update (V1 m d) r9 g9)) W2) →
      ((∀ b, b ∉ outs1 → W3 b = StableHlo.after ops2 W2 b) ∧ val1 d (StableHlo.after ops2 W2) W3) →
      StableHlo.after ops3 W3 r28 = R d)
    (d : Dev nD) :
    iprop((K (F := F)).ctx EH P κ ∗ (K (F := F)).tcSt EH d 0 ∗ (K (F := F)).tcRes m ρ d ∗ G0 d)
      ⊢ wp frame (wpE ((K (F := F)).defs (D (F := F))) 𝒱 (T d) none) Set.univ (main d)
          fun _ => iprop((K (F := F)).tcSt EH d 1 ∗ FINV m R d) := by
  unfold SparseCore.Cfg.tcRes
  rw [main_eq]
  have e := unscopedBufs_held (nD := nD) (τ := τ) (sig := sig) (Val := Elt F) (Ix := HIx 1) (Name := ℕ) (U := UU) (Lvl := ℕ) d (StableHlo.launchContents m d)
  rw [e]
  iintro ⟨#Hctx, Hst, Hres, HG⟩
  ihave Hres := (sep_mono_right (sep_elim_left)) $$ Hres
  icases Hres with ⟨Hb, Hheld⟩
  rw [wp_bind]
  iapply (seq_step' (F := F) d ops0 ops0_sub ops0_fresh (StableHlo.launchContents m d) _) $$ [Hb Hheld Hst HG]
  isplitl [Hb]; · iexact Hb
  isplitl [Hheld]; · iexact Hheld
  iintro ⟨Hb, Hheld⟩
  rw [wp_bind]
  iapply (hcall d _) $$ [Hst Hheld Hb HG]
  isplitr; · iexact Hctx
  isplitl [Hst]; · iexact Hst
  isplitl [Hheld]; · iexact Hheld
  iintro %g9 %hg9 ⟨Hst, Hheld⟩
  rw [wp_bind]
  iapply (seq_step' (F := F) d ops1 ops1_sub ops1_fresh (Function.update (V1 m d) r9 g9) _) $$ [Hb Hheld Hst HG]
  isplitl [Hb]; · iexact Hb
  isplitl [Hheld]; · iexact Hheld
  iintro ⟨Hb, Hheld⟩
  rw [wp_bind]
  iapply (h0 d _ _) $$ [Hst Hb Hheld HG]
  isplitr; · iexact Hctx
  isplitl [Hst]; · iexact Hst
  isplitl [Hb]; · iexact Hb
  isplitl [Hheld]; · iexact Hheld
  isplitl [HG]; · iexact HG
  iintro %W2 %hW2 ⟨Hst, Hb, Hheld, HG⟩
  rw [wp_bind]
  iapply (seq_step' (F := F) d ops2 ops2_sub ops2_fresh W2 _) $$ [Hb Hheld Hst HG]
  isplitl [Hb]; · iexact Hb
  isplitl [Hheld]; · iexact Hheld
  iintro ⟨Hb, Hheld⟩
  rw [wp_bind]
  iapply (h1 d _ _) $$ [Hst Hb Hheld HG]
  isplitr; · iexact Hctx
  isplitl [Hst]; · iexact Hst
  isplitl [Hb]; · iexact Hb
  isplitl [Hheld]; · iexact Hheld
  isplitl [HG]; · iexact HG
  iintro %W3 %hW3 ⟨Hst, Hb, Hheld, HG⟩
  rw [wp_bind]
  iapply (seq_step' (F := F) d ops3 ops3_sub ops3_fresh W3 _) $$ [Hb Hheld Hst HG]
  isplitl [Hb]; · iexact Hb
  isplitl [Hheld]; · iexact Hheld
  iintro ⟨Hb, Hheld⟩
  rw [wp_pure]
  imodintro
  isplitl [Hst]; · iexact Hst
  unfold FINV
  iexists (StableHlo.after ops3 W3); isplitr
  · ipureintro
    have k3 := ops3_keep (F := F) W3
    have k2 := ops2_keep (F := F) W2
    have k1 := ops1_keep (F := F) (Function.update (V1 m d) r9 g9)
    have k0 := ops0_keep (F := F) (StableHlo.launchContents m d)
    refine ⟨?_, ?_, hval d g9 W2 W3 hg9 hW2 hW3⟩
    · rw [k3.1, hW3.1 _ (by decide), k2.1, hW2.1 _ (by decide), k1.1, Function.update_of_ne (by decide)]; exact k0.1
    · rw [k3.2, hW3.1 _ (by decide), k2.2, hW2.1 _ (by decide), k1.2, Function.update_of_ne (by decide)]; exact k0.2
  · iexact Hheld

end Cert.Proof.ScI

end
-- ==== Proof.ScLaunchVScI.lean ====
/-
  The vector-subcore kernel's launch once more, now with what the subcores leave: each subcore hands back its words of
  the result array at contents that agree, word by word, with a given function `spec` of the array index; the pieces join
  to the whole result array at `spec`. Stated over the two branches' value runs, which are supplied as hypotheses.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScLaunchScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

section PayV

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
  (spec : (d : Dev nD) → Buf (Elt F) (l9 d))

/-- What a SparseCore hands back: its read shares and the words its subcores wrote, at `spec`. -/
def forCoreV (d : Dev nD) (c : Fin 2) : sProp 𝕄 :=
  iprop(ins4 d (tokC c) (g7 d) (g8 d) (g6 d) (g1 d) ∗ ∃ f, ⌜∀ i ∈ coreSet c, f i = spec d i⌝ ∗ l9 d ↦[coreSet c]{fullShare} f)
/-- What a subcore hands back. -/
def forTileV (d : Dev nD) (c : Fin 2) (s : Fin 16) : sProp 𝕄 :=
  iprop(ins4 d (tokT c s) (g7 d) (g8 d) (g6 d) (g1 d) ∗ ∃ f, ⌜∀ i ∈ tileSet c s, f i = spec d i⌝ ∗ l9 d ↦[tileSet c s]{fullShare} f)

instance forCoreV_storable (d : Dev nD) (c : Fin 2) : BI.Storable (upEmb : UEmb _ 𝕄) (forCoreV g7 g8 g6 g1 spec d c) := by
  unfold forCoreV ins4; infer_instance
instance forTileV_storable (d : Dev nD) (c : Fin 2) (s : Fin 16) : BI.Storable (upEmb : UEmb _ 𝕄) (forTileV g7 g8 g6 g1 spec d c s) := by
  unfold forTileV ins4; infer_instance

def PV : (K (F := F)).Pay (nD := nD) (Val := Elt F) (Name := ℕ) (U := U) where
  st := fun q d c => match q with | 0 => forCore g7 g8 g6 g1 d (Fin.cast nCore_zero c)
  dn := fun q d c => match q with | 0 => forCoreV g7 g8 g6 g1 spec d (Fin.cast nCore_zero c)
  go := fun q d c i => match q with | 0 => forTile g7 g8 g6 g1 d (Fin.cast nCore_zero c) (Fin.cast nSub_zero i)
  td := fun q d c i => match q with | 0 => forTileV g7 g8 g6 g1 spec d (Fin.cast nCore_zero c) (Fin.cast nSub_zero i)
  x := fun _ _ => iprop(emp)

instance PV_storable : (PV (F := F) (U := U) g7 g8 g6 g1 spec).IsStorable where
  st q d c := match q with | 0 => (inferInstance : BI.Storable (upEmb : UEmb _ 𝕄) (forCore g7 g8 g6 g1 d (Fin.cast nCore_zero c)))
  dn q d c := match q with | 0 => (inferInstance : BI.Storable (upEmb : UEmb _ 𝕄) (forCoreV g7 g8 g6 g1 spec d (Fin.cast nCore_zero c)))
  go q d c i := match q with | 0 => (inferInstance : BI.Storable (upEmb : UEmb _ 𝕄) (forTile g7 g8 g6 g1 d (Fin.cast nCore_zero c) (Fin.cast nSub_zero i)))
  td q d c i := match q with | 0 => (inferInstance : BI.Storable (upEmb : UEmb _ 𝕄) (forTileV g7 g8 g6 g1 spec d (Fin.cast nCore_zero c) (Fin.cast nSub_zero i)))

variable [FloatOps F]

/-- A branch's value run, in the launch's grouping: from the subcore's operands to the same with its words at `spec`. -/
def BodyV (c : Fin 2) (L : Fin (grid0.bound 1) → grid0.Coords) : Prop :=
  ∀ (d : Dev nD) (s : Fin (grid0.bound 1)) (O : CellTallies nD τ sig (HIx 1)) (W : Waits sig (HIx 1)),
    (iprop(Transfers.MayWaits (thr d (L s)) (none : HIx 1) O ∗ forTile g7 g8 g6 g1 d c s ∗ own5 d (L s) ∗ owes (thr d (L s)) O W) : sProp 𝕄)
      ⊢ wp frame (wpE (defs₀ (F := F)) 𝒱₀ (thr d (L s)) none) Set.univ
          (cc0__sc_body (F := F) (L s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
          fun _ => iprop(forTileV g7 g8 g6 g1 spec d c s ∗ own5 d (L s) ∗ ∃ W', ⌜∀ p ∈ W', p ∈ W ∨ p.2 = none⌝ ∗ owes (thr d (L s)) O W')

omit [FloatOps F] in
/-- The wrapper of ScLaunch's `tile_wrap` for a task whose operands change (from `A` to `A'`). -/
theorem tile_wrapV (d : Dev nD) (L : grid0.Coords) (A A' : sProp 𝕄) (O : CellTallies nD τ sig (HIx 1)) (W : Waits sig (HIx 1)) (hO : ∀ g, O g none = 0)
    [FloatOps F] {p : Prog (TpuEff nD τ sig (Elt F) Λ₀ (thr d L).2) PUnit}
    (hbody : (iprop(Transfers.MayWaits (thr d L) (none : HIx 1) O ∗ A ∗ own5 d L ∗ owes (thr d L) O W) : sProp 𝕄)
      ⊢ wp frame (wpE (defs₀ (F := F)) 𝒱₀ (thr d L) none) Set.univ p
          fun _ => iprop(A' ∗ own5 d L ∗ ∃ W', ⌜∀ p ∈ W', p ∈ W ∨ p.2 = none⌝ ∗ owes (thr d L) O W')) :
    (iprop(levAts (K (F := F)).L (K (F := F)).lev ∗ emp ∗ A ∗ scopedBufs (thr d L) ∗ scopedSems0 (thr d L) ∗ owes (thr d L) O W) : sProp 𝕄)
      ⊢ wp frame (wpE (defs₀ (F := F)) 𝒱₀ (thr d L) none) Set.univ p
          fun _ => iprop(A' ∗ scopedBufs (thr d L) ∗ scopedSems0 (thr d L) ∗ ∃ W', ⌜∀ p ∈ W', p ∈ W ∨ p.2 = none⌝ ∗ owes (thr d L) O W') := by
  rw [(K (F := F)).scopedBufs_V facts d _ _, SparseCore.Cfg.scopedSems0_V (Val := Elt F) d _ _]
  refine BIBase.Entails.trans ?_ (wp_mono frame _ _
    (Q := fun _ => (iprop((A' ∗ own5 d L ∗ ∃ W', ⌜∀ p ∈ W', p ∈ W ∨ p.2 = none⌝ ∗ owes (thr d L) O W')
      ∗ ((bigSep (restRefs L) fun b => iprop(∃ f, ((d, b) : Loc nD τ sig) ↦{fullShare} f)) ∗ bigSep (restCells d L) fun g => semVal g 0)) : sProp 𝕄))
    (fun _ => ?post))
  swap
  · iintro ⟨⟨HA, Hown, HW⟩, Hbr, Hsr⟩
    isplitl [HA]; · iexact HA
    ihave H := (own_open (F := F) (U := U) d L).2 $$ [Hown Hbr Hsr]
    · isplitl [Hown]; · iexact Hown
      isplitl [Hbr]; · iexact Hbr
      iexact Hsr
    icases H with ⟨Hb, Hs⟩
    isplitl [Hb]; · iexact Hb
    isplitl [Hs]; · iexact Hs
    iexact HW
  refine BIBase.Entails.trans ?_ (wp_frame_r frame _ _)
  iintro ⟨#Hlv, -, HA, Hsb, Hss, HO⟩
  ihave H := (own_open (F := F) (U := U) d L).1 $$ [Hsb Hss]
  · isplitl [Hsb]; · iexact Hsb
    iexact Hss
  icases H with ⟨Hown, Hbr, Hsr⟩
  isplitl [HA Hown HO]
  · iapply hbody
    isplitr; · iapply ((K (F := F)).mayWaits_none (thr := thr d L) hO); iexact Hlv
    isplitl [HA]; · iexact HA
    isplitl [Hown]; · iexact Hown
    iexact HO
  isplitl [Hbr]; · iexact Hbr
  iexact Hsr

/-- Every subcore's task with its value, from the two branches' value runs. -/
theorem tileOblV (h0 : BodyV (U := U) g7 g8 g6 g1 spec 0 L0) (h1 : BodyV (U := U) g7 g8 g6 g1 spec 1 L1) :
    (K (F := F)).TileObl (D (F := F)) 𝒱 (PV (F := F) (U := U) g7 g8 g6 g1 spec) v₀ 0 := by
  intro d c i O W hO _ _
  simp only [show (PV (F := F) (U := U) g7 g8 g6 g1 spec).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  match c with
  | ⟨0, h⟩ =>
    exact (tile_wrapV (F := F) (U := U) d (L0 ⟨i.val, i.isLt⟩) (forTile g7 g8 g6 g1 d 0 (Fin.cast nSub_zero i))
      (forTileV g7 g8 g6 g1 spec d 0 (Fin.cast nSub_zero i)) O W hO (h0 d ⟨i.val, i.isLt⟩ O W)).trans (wp_mono frame _ _ fun _ => obl_post)
  | ⟨1, h⟩ =>
    exact (tile_wrapV (F := F) (U := U) d (L1 ⟨i.val, i.isLt⟩) (forTile g7 g8 g6 g1 d 1 (Fin.cast nSub_zero i))
      (forTileV g7 g8 g6 g1 spec d 1 (Fin.cast nSub_zero i)) O W hO (h1 d ⟨i.val, i.isLt⟩ O W)).trans (wp_mono frame _ _ fun _ => obl_post)

theorem out_joinV (d : Dev nD) (c : Fin 2) :
    (bigSep Finset.univ fun s : Fin 16 => iprop(∃ f, ⌜∀ i ∈ tileSet c s, f i = spec d i⌝ ∗ l9 d ↦[tileSet c s]{fullShare} f))
      ⊢ (iprop(∃ f, ⌜∀ i ∈ coreSet c, f i = spec d i⌝ ∗ l9 d ↦[coreSet c]{fullShare} f) : sProp 𝕄) := by
  refine (bigSep_exists_pi Finset.univ (fun (s : Fin 16) (f : Buf (Elt F) (l9 d)) =>
    (iprop(⌜∀ i ∈ tileSet c s, f i = spec d i⌝ ∗ l9 d ↦[tileSet c s]{fullShare} f) : sProp 𝕄))).trans ?_
  iintro ⟨%fs, H⟩
  ihave H := (bigSep_pure_sep (Finset.univ : Finset (Fin 16)) (fun s => ∀ i ∈ tileSet c s, fs s i = spec d i)
    (fun s => (l9 d ↦[tileSet c s]{fullShare} fs s : sProp 𝕄))) $$ H
  icases H with ⟨%hp, H⟩
  ihave H' := (pointsTo_biUnion_join Finset.univ (tileSet c) fs (fs 0) (fun s _ s' _ h => tile_disjoint c s s' h)) $$ H
  icases H' with ⟨%g, %hg, Hg⟩
  iexists g; isplitr
  · ipureintro
    intro i hi
    unfold coreSet at hi
    obtain ⟨s, -, his⟩ := Finset.mem_biUnion.mp hi
    rw [hg s (Finset.mem_univ s) i his]
    exact hp s (Finset.mem_univ s) i his
  · unfold coreSet; iexact Hg

end PayV

section SplitV

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
  (spec : (d : Dev nD) → Buf (Elt F) (l9 d))
variable [FloatOps F]

theorem vecSplitV : (K (F := F)).VecSplit' (PV (F := F) (U := U) g7 g8 g6 g1 spec) 0 := by
  intro d c
  show forCore g7 g8 g6 g1 d (Fin.cast nCore_zero c) ⊢ |={Set.univ}=> iprop(
      (bigSep Finset.univ fun i : Fin ((K (F := F)).nSub 0) => forTile g7 g8 g6 g1 d (Fin.cast nCore_zero c) (Fin.cast nSub_zero i))
      ∗ ((bigSep Finset.univ fun i : Fin ((K (F := F)).nSub 0) => forTileV g7 g8 g6 g1 spec d (Fin.cast nCore_zero c) (Fin.cast nSub_zero i))
          -∗ forCoreV g7 g8 g6 g1 spec d (Fin.cast nCore_zero c)))
  rw [bigSep_tasks (F := F) (U := U) (fun i => forTile g7 g8 g6 g1 d (Fin.cast nCore_zero c) i),
    bigSep_tasks (F := F) (U := U) (fun i => forTileV g7 g8 g6 g1 spec d (Fin.cast nCore_zero c) i)]
  generalize Fin.cast nCore_zero c = c'
  unfold forCore forTile forCoreV forTileV ins4 tokT
  rw [bigSep_sep', bigSep_sep', bigSep_sep', bigSep_sep', bigSep_sep', bigSep_sep', bigSep_sep', bigSep_sep']
  iintro ⟨⟨H7, H8, H6, H1⟩, ⟨%f, H9⟩⟩
  ihave H7 := (Transfers.pointsTo_toks (tokC c') 16).1 $$ H7
  icases H7 with ⟨D7, T7⟩
  ihave H8 := (Transfers.pointsTo_toks (tokC c') 16).1 $$ H8
  icases H8 with ⟨D8, T8⟩
  ihave H6 := (Transfers.pointsTo_toks (tokC c') 16).1 $$ H6
  icases H6 with ⟨D6, T6⟩
  ihave H1 := (Transfers.pointsTo_toks (tokC c') 16).1 $$ H1
  icases H1 with ⟨D1, T1⟩
  ihave H9 := (Entails.of_eq (out_split (F := F) (U := U) d c' f)) $$ H9
  imodintro
  isplitl [T7 T8 T6 T1 H9]
  · isplitl [T7 T8 T6 T1]
    · isplitl [T7]; · iexact T7
      isplitl [T8]; · iexact T8
      isplitl [T6]; · iexact T6
      iexact T1
    · iapply (show (bigSep Finset.univ fun s : Fin 16 => (l9 d ↦[tileSet c' s]{fullShare} f : sProp 𝕄))
          ⊢ bigSep Finset.univ fun s : Fin 16 => iprop(∃ f, l9 d ↦[tileSet c' s]{fullShare} f)
        from bigSep_mono (fun s _ => out_ex (F := F) (U := U) d c' s f))
      iexact H9
  iintro ⟨⟨T7, T8, T6, T1⟩, H9⟩
  isplitl [D7 T7 D8 T8 D6 T6 D1 T1]
  · isplitl [D7 T7]
    · iapply (Transfers.pointsTo_toks (tokC c') 16).2; isplitl [D7]; · iexact D7
      iexact T7
    isplitl [D8 T8]
    · iapply (Transfers.pointsTo_toks (tokC c') 16).2; isplitl [D8]; · iexact D8
      iexact T8
    isplitl [D6 T6]
    · iapply (Transfers.pointsTo_toks (tokC c') 16).2; isplitl [D6]; · iexact D6
      iexact T6
    iapply (Transfers.pointsTo_toks (tokC c') 16).2; isplitl [D1]; · iexact D1
    iexact T1
  iapply (out_joinV (F := F) (U := U) spec d c'); iexact H9

end SplitV

/-- The thirty-two pieces cover the result array. -/
theorem cover (i : S4x4608.Idx) : i ∈ coreSet 0 ∪ coreSet 1 := by
  have h0 : (i 0).val < 4 := (i 0).isLt
  have h1 : (i 1).val < 4608 := (i 1).isLt
  rw [Finset.mem_union]
  by_cases hc : (i 1).val < 512
  · left
    unfold coreSet
    refine Finset.mem_biUnion.mpr ⟨⟨4 * (i 0).val + (i 1).val / 128, by show _ < 16; omega⟩, Finset.mem_univ _, ?_⟩
    exact (mem_out0 ⟨4 * (i 0).val + (i 1).val / 128, by show _ < 16; omega⟩ i).mpr ⟨by show _ = (4 * (i 0).val + (i 1).val / 128) / 4; omega,
      by show (4 * (i 0).val + (i 1).val / 128) % 4 * 128 ≤ _; omega, by show _ < (4 * (i 0).val + (i 1).val / 128) % 4 * 128 + 128; omega⟩
  · right
    unfold coreSet
    refine Finset.mem_biUnion.mpr ⟨⟨4 * (i 0).val + ((i 1).val - 512) / 1024, by show _ < 16; omega⟩, Finset.mem_univ _, ?_⟩
    exact (mem_out1 ⟨4 * (i 0).val + ((i 1).val - 512) / 1024, by show _ < 16; omega⟩ i).mpr ⟨by show _ = (4 * (i 0).val + ((i 1).val - 512) / 1024) / 4; omega,
      by show 512 + (4 * (i 0).val + ((i 1).val - 512) / 1024) % 4 * 1024 ≤ _; omega, by show _ < 512 + (4 * (i 0).val + ((i 1).val - 512) / 1024) % 4 * 1024 + 1024; omega⟩

end Cert.Proof.ScI

end
-- ==== Proof.ScMainV2ScI.lean ====
/-
  The SparseCore call from the TensorCore's side, with the value: every word of the result array comes back at `spec`.
-/
import proofs.«209750_g45337674776763_cont_8to1c4_158_37_alg».proof.Proof.ScMainVScI
import proofs.«209750_g45337674776763_cont_8to1c4_158_37_alg».proof.Proof.ScLaunchVScI

noncomputable section

namespace Cert.Proof.ScI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq)
open Idealize.ShloMosaic.StableHlo
open Idealize.ShloMosaic.Pipeline (ucRefs unscopedBufs_held sub_ucRefs)
open Cert.KernelIdeal.Tc (UU EH)

variable {F : FTy → Type}

local notation "𝕄" => MT nD τ sig (HIx 1) (Elt F) ℕ UU ℕ

variable (m : (ℓ : Loc nD τ sig) → Buf (Elt F) ℓ) [FloatOps F]
variable (spec : (d : Dev nD) → Buf (Elt F) (l9 d))

/-- What the handshakes carry, with the value. -/
abbrev PPV : (K (F := F)).Pay (nD := nD) (Val := Elt F) (Name := ℕ) (U := UU) := PV (F := F) (U := UU) (g7 m) (g8 m) (g6 m) (g1 m) spec

theorem stV0_eq (d : Dev nD) :
    (bigSep Finset.univ fun c : Fin ((K (F := F)).nCore 0) => (PPV m spec).st 0 d c)
      = iprop(forCore (U := UU) (g7 m) (g8 m) (g6 m) (g1 m) d 0 ∗ forCore (U := UU) (g7 m) (g8 m) (g6 m) (g1 m) d 1) :=
  bigSep_fin2 (F := F) (fun c => forCore (U := UU) (g7 m) (g8 m) (g6 m) (g1 m) d c)
theorem dnV0_eq (d : Dev nD) :
    (bigSep Finset.univ fun c : Fin ((K (F := F)).nCore 0) => (PPV m spec).dn 0 d c)
      = iprop(forCoreV (U := UU) (g7 m) (g8 m) (g6 m) (g1 m) spec d 0 ∗ forCoreV (U := UU) (g7 m) (g8 m) (g6 m) (g1 m) spec d 1) :=
  bigSep_fin2 (F := F) (fun c => forCoreV (U := UU) (g7 m) (g8 m) (g6 m) (g1 m) spec d c)

omit [FloatOps F] in
/-- The result array's three parts join; on the two SparseCores' parts the joined contents are the parts'. -/
theorem l9_joinV (d : Dev nD) (f0 f1 fr : Buf (Elt F) (l9 d)) :
    iprop((l9 d ↦[coreSet 0]{fullShare} f0) ∗ (l9 d ↦[coreSet 1]{fullShare} f1) ∗ (l9 d ↦[Finset.univ \ (coreSet 0 ∪ coreSet 1)]{fullShare} fr))
      ⊢ (iprop(∃ g, ⌜(∀ i ∈ coreSet 0, g i = f0 i) ∧ (∀ i ∈ coreSet 1, g i = f1 i)⌝ ∗ l9 d ↦{fullShare} g) : sProp 𝕄) := by
  have h1 := pointsTo_join (nD := nD) (τ := τ) (sig := sig) (Ix := HIx 1) (Val := Elt F) (Name := ℕ) (U := UU) (Lvl := ℕ)
    (ℓ := l9 d) (I := coreSet 0) (J := coreSet 1) (q := fullShare) (f := f0) (g := f1) coreSets_disjoint
  have h2 := pointsTo_join (nD := nD) (τ := τ) (sig := sig) (Ix := HIx 1) (Val := Elt F) (Name := ℕ) (U := UU) (Lvl := ℕ)
    (ℓ := l9 d) (I := coreSet 0 ∪ coreSet 1) (J := Finset.univ \ (coreSet 0 ∪ coreSet 1)) (q := fullShare)
    (f := (coreSet 1).piecewise f1 f0) (g := fr) Finset.disjoint_sdiff
  rw [Finset.union_sdiff_of_subset (Finset.subset_univ _)] at h2
  iintro ⟨H0, H1, Hr⟩
  ihave H := h1 $$ [H0 H1]
  · isplitl [H0]; · iexact H0
    iexact H1
  ihave H := h2 $$ [H Hr]
  · isplitl [H]; · iexact H
    iexact Hr
  iexists ((Finset.univ \ (coreSet 0 ∪ coreSet 1)).piecewise fr ((coreSet 1).piecewise f1 f0)); isplitr
  · ipureintro
    refine ⟨fun i hi => ?_, fun i hi => ?_⟩
    · have hn : i ∉ Finset.univ \ (coreSet 0 ∪ coreSet 1) := fun h => (Finset.mem_sdiff.mp h).2 (Finset.mem_union_left _ hi)
      have hn1 : i ∉ coreSet 1 := fun h => (Finset.disjoint_left.mp coreSets_disjoint hi) h
      rw [Finset.piecewise_eq_of_notMem _ _ _ hn, Finset.piecewise_eq_of_notMem _ _ _ hn1]
    · have hn : i ∉ Finset.univ \ (coreSet 0 ∪ coreSet 1) := fun h => (Finset.mem_sdiff.mp h).2 (Finset.mem_union_right _ hi)
      rw [Finset.piecewise_eq_of_notMem _ _ _ hn, Finset.piecewise_eq_of_mem _ _ _ hi]
  · iexact H

/-- The SparseCore call from the TensorCore's side, with the value. -/
theorem call_stepV (κ : GSem nD τ sig → ℕ) : CallStepV m (PPV m spec) κ (fun d g9 => ∀ i, g9 i = spec d i) := by
  intro d Φ
  rw [held_sub_split (T d) T5_sub (V1 m d), held_T5]
  iintro ⟨#Hctx, Hst, ⟨⟨H7, H8, H6, H1, H9⟩, Hrest⟩, Hk⟩
  ihave H7 := (share2 (F := F) _).1 $$ H7
  icases H7 with ⟨D7, A7, B7⟩
  ihave H8 := (share2 (F := F) _).1 $$ H8
  icases H8 with ⟨D8, A8, B8⟩
  ihave H6 := (share2 (F := F) _).1 $$ H6
  icases H6 with ⟨D6, A6, B6⟩
  ihave H1 := (share2 (F := F) _).1 $$ H1
  icases H1 with ⟨D1, A1, B1⟩
  ihave H9 := (pointsTo_split_subset (Finset.subset_univ (coreSet 0 ∪ coreSet 1))).1 $$ H9
  icases H9 with ⟨H9c, H9r⟩
  ihave H9c := (pointsTo_union coreSets_disjoint).1 $$ H9c
  icases H9c with ⟨H90, H91⟩
  iapply ((K (F := F)).wp_run (D (F := F)) 𝒱 (EH := EH) (P := PPV m spec) κ d 0) $$ [Hst A7 B7 A8 B8 A6 B6 A1 B1 H90 H91 D7 D8 D6 D1 H9r Hrest Hk]
  isplitr; · iexact Hctx
  isplitl [Hst]; · iexact Hst
  isplitl [A7 B7 A8 B8 A6 B6 A1 B1 H90 H91]
  · rw [stV0_eq]; unfold forCore ins4
    isplitl [A7 A8 A6 A1 H90]
    · isplitl [A7 A8 A6 A1]
      · isplitl [A7]; · iexact A7
        isplitl [A8]; · iexact A8
        isplitl [A6]; · iexact A6
        iexact A1
      · iexists _; iexact H90
    · isplitl [B7 B8 B6 B1]
      · isplitl [B7]; · iexact B7
        isplitl [B8]; · iexact B8
        isplitl [B6]; · iexact B6
        iexact B1
      · iexists _; iexact H91
  iintro ⟨Hst, Hdn⟩
  ihave Hdn := (Entails.of_eq (dnV0_eq m spec d)) $$ Hdn
  unfold forCoreV ins4
  icases Hdn with ⟨⟨⟨A7, A8, A6, A1⟩, ⟨%f0, %hf0, H90⟩⟩, ⟨⟨B7, B8, B6, B1⟩, ⟨%f1, %hf1, H91⟩⟩⟩
  ihave H7 := (share2 (F := F) _).2 $$ [D7 A7 B7]
  · isplitl [D7]; · iexact D7
    isplitl [A7]; · iexact A7
    iexact B7
  ihave H8 := (share2 (F := F) _).2 $$ [D8 A8 B8]
  · isplitl [D8]; · iexact D8
    isplitl [A8]; · iexact A8
    iexact B8
  ihave H6 := (share2 (F := F) _).2 $$ [D6 A6 B6]
  · isplitl [D6]; · iexact D6
    isplitl [A6]; · iexact A6
    iexact B6
  ihave H1 := (share2 (F := F) _).2 $$ [D1 A1 B1]
  · isplitl [D1]; · iexact D1
    isplitl [A1]; · iexact A1
    iexact B1
  ihave H9 := (l9_joinV (F := F) d f0 f1 (V1 m d r9)) $$ [H90 H91 H9r]
  · isplitl [H90]; · iexact H90
    isplitl [H91]; · iexact H91
    iexact H9r
  icases H9 with ⟨%g9, %hg, H9⟩
  have hpure : ∀ i, g9 i = spec d i := fun i => by
    rcases Finset.mem_union.mp (cover i) with hi | hi
    · rw [hg.1 i hi]; exact hf0 i hi
    · rw [hg.2 i hi]; exact hf1 i hi
  ispecialize Hk $$ %g9 %hpure
  iapply Hk
  isplitl [Hst]; · iexact Hst
  rw [held_sub_split (T d) T5_sub (Function.update (V1 m d) r9 g9), held_T5,
    Function.update_of_ne (show r7 ≠ r9 by decide), Function.update_of_ne (show r8 ≠ r9 by decide),
    Function.update_of_ne (show r6 ≠ r9 by decide), Function.update_of_ne (show r1 ≠ r9 by decide), Function.update_self,
    held_congr (T d) (S := ucRefs τ sig \ T5) (V := Function.update (V1 m d) r9 g9) (V' := V1 m d)
      (fun b hb => Function.update_of_ne (fun e => (Finset.mem_sdiff.mp hb).2 (by rw [e]; decide)) _ _)]
  isplitl [H7 H8 H6 H1 H9]
  · isplitl [H7]; · iexact H7
    isplitl [H8]; · iexact H8
    isplitl [H6]; · iexact H6
    isplitl [H1]; · iexact H1
    iexact H9
  iexact Hrest

end Cert.Proof.ScI

end
-- ==== Proof.ScRunVScI.lean ====
/-
  The program's run with the value of its result: the launch theorem applied to the subcores' task with its value, the
  split of the operands among the subcores, @main with its value, and the launch element.
-/
import proofs.«209750_g45337674776763_cont_8to1c4_158_37_alg».proof.Proof.ScMainV2ScI

noncomputable section

namespace Cert.Proof.ScI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr seq)
open Idealize.ShloMosaic.StableHlo
open Idealize.ShloMosaic.Pipeline (ucRefs unscopedBufs_held sub_ucRefs)
open Cert.KernelIdeal.Tc (UU EH)

variable {F : FTy → Type}

local notation "𝕄" => MT nD τ sig (HIx 1) (Elt F) ℕ UU ℕ

variable (m : (ℓ : Loc nD τ sig) → Buf (Elt F) ℓ) [FloatOps F]
variable (R : Dev nD → BufTy.Contents (Elt F) (r28 : DevRef τ sig).ty)

theorem three_sub : ({r28, ra0, ra1} : Finset (DevRef τ sig)) ⊆ ucRefs τ sig := by decide

omit [FloatOps F] in
theorem held_three (d : Dev nD) (W : Valuation τ sig (Elt F)) :
    (held (T d) ({r28, ra0, ra1} : Finset (DevRef τ sig)) W : sProp 𝕄)
      = iprop((((d, r28) : Loc nD τ sig) ↦{fullShare} W r28) ∗ (((d, ra0) : Loc nD τ sig) ↦{fullShare} W ra0) ∗ ((d, ra1) : Loc nD τ sig) ↦{fullShare} W ra1) := by
  unfold held
  rw [SparseCore.bigSep_insert' (by decide), SparseCore.bigSep_insert' (by decide), bigSep_singleton]

/-- What the claim reads off the final memory: the result and both arguments. -/
def fqV (d : Dev nD) (s' : Phys nD τ sig (Elt F)) : Prop :=
  s'.mem.mem (d, r28) = R d ∧ s'.mem.mem (d, ra0) = m (d, ra0) ∧ s'.mem.mem (d, ra1) = m (d, ra1)

omit [FloatOps F] in
theorem hfinV (d : Dev nD) (s' : Phys nD τ sig (Elt F)) : iprop(FINV m R d ∗ SI s') ⊢ (⌜fqV m R d s'⌝ : sProp 𝕄) := by
  unfold FINV
  iintro ⟨⟨%W, %hW, Hheld⟩, HSI⟩
  ihave H := (Entails.of_eq (held_sub_split (T d) three_sub W)) $$ Hheld
  icases H with ⟨H3, -⟩
  ihave H3 := (Entails.of_eq (held_three (F := F) d W)) $$ H3
  icases H3 with ⟨Hr, Ha0, Ha1⟩
  ihave H := (persistent_entails_right (SI_pointsTo_agree (st := s') (ℓ := ((d, r28) : Loc nD τ sig)) (I := Finset.univ) (q := fullShare) (f := W r28))) $$ [HSI Hr]
  · isplitl [HSI] <;> iassumption
  icases H with ⟨%h0, HSI, -⟩
  ihave H := (persistent_entails_right (SI_pointsTo_agree (st := s') (ℓ := ((d, ra0) : Loc nD τ sig)) (I := Finset.univ) (q := fullShare) (f := W ra0))) $$ [HSI Ha0]
  · isplitl [HSI] <;> iassumption
  icases H with ⟨%h1, HSI, -⟩
  ihave H := (SI_pointsTo_agree (st := s') (ℓ := ((d, ra1) : Loc nD τ sig)) (I := Finset.univ) (q := fullShare) (f := W ra1)) $$ [HSI Ha1]
  · isplitl [HSI] <;> iassumption
  icases H with %h2
  ipureintro
  exact ⟨(funext fun i => h0 i (Finset.mem_univ i)).trans hW.2.2, (funext fun i => h1 i (Finset.mem_univ i)).trans hW.1,
    (funext fun i => h2 i (Finset.mem_univ i)).trans hW.2.1⟩

/-- The run's post: on every device the result array holds `R` and both argument arrays end as launched. -/
def QCV : PUnit × MemSt nD τ sig (Elt F) → Prop := fun r => ∀ c : Dev nD,
  r.2.mem ((c.tc : Thread nD τ).loc main_v28) = R c
    ∧ r.2.mem ((c.tc : Thread nD τ).loc main_arg0) = m ((c.tc : Thread nD τ).loc main_arg0)
    ∧ r.2.mem ((c.tc : Thread nD τ).loc main_arg1) = m ((c.tc : Thread nD τ).loc main_arg1)

/-- Every weakly fair execution terminates, nothing faulting, with the result `R` and the arguments unchanged — given the
    two branches' value runs, the two regions' value steps, and the reading of the result off their values. -/
theorem run_mainV [∀ e, Nonempty (Elt F e)] (ρ : Dev nD → PrngReg) (G0 G1 G2 : Dev nD → sProp 𝕄) (u₀ : UU)
    (hu₀ : (ownU u₀ : sProp 𝕄) ⊢ |={Set.univ}=> iprop(BI.own (EH (F := F) (initOf (K (F := F)).hsCells (K (F := F)).hsToks)) ∗ bigSep Finset.univ G0))
    (spec : (d : Dev nD) → Buf (Elt F) (l9 d))
    (val0 val1 : Dev nD → Valuation τ sig (Elt F) → Valuation τ sig (Elt F) → Prop)
    (hb0 : BodyV (U := UU) (g7 m) (g8 m) (g6 m) (g1 m) spec 0 L0) (hb1 : BodyV (U := UU) (g7 m) (g8 m) (g6 m) (g1 m) spec 1 L1)
    (h0 : ∀ κ, RegionStepV (F := F) (PPV m spec) κ 0 outs0 G0 G1 val0) (h1 : ∀ κ, RegionStepV (F := F) (PPV m spec) κ 1 outs1 G1 G2 val1)
    (hval : ∀ (d : Dev nD) (g9) (W2 W3 : Valuation τ sig (Elt F)), (∀ i, g9 i = spec d i) →
      ((∀ b, b ∉ outs0 → W2 b = StableHlo.after ops1 (Function.update (V1 m d) r9 g9) b) ∧ val0 d (StableHlo.after ops1 (Function.update (V1 m d) r9 g9)) W2) →
      ((∀ b, b ∉ outs1 → W3 b = StableHlo.after ops2 W2 b) ∧ val1 d (StableHlo.after ops2 W2) W3) →
      StableHlo.after ops3 W3 r28 = R d) :
    θ_run (defs (F := F)) (threads (F := F)) ⟨m, fun _ => 0, ρ⟩ (QCV m R) :=
  SparseCore.Cfg.θ_run_sc (K := K (F := F)) (D := D (F := F)) (𝒱 := 𝒱) (EH := EH) (P := PPV m spec) facts v₀
    (fun q hq => match q with | 0 => nomatch hq)
    (fun q _ => match q with | 0 => tileOblV (F := F) (U := UU) (g7 m) (g8 m) (g6 m) (g1 m) spec hb0 hb1)
    (fun q _ => match q with | 0 => SparseCore.Cfg.VecSplit.of_plain (vecSplitV (F := F) (U := UU) (g7 m) (g8 m) (g6 m) (g1 m) spec))
    m ρ main G0 (FINV m R) u₀
    (by
      iintro ⟨Hu, -, -⟩
      imod hu₀ $$ Hu with ⟨HH, HG⟩
      imodintro
      isplitl [HH]; · iexact HH
      isplitl [HG]; · iexact HG
      dsimp only [PPV, PV]
      rw [show (bigSep Finset.univ fun _ : Thread nD τ => bigSep Finset.univ fun _ : Fin 1 => (iprop(emp) : sProp 𝕄)) = iprop(emp) from by
        rw [bigSep_congr fun _ _ => bigSep_emp' _, bigSep_emp']]
      iempintro)
    (fun κ d => hmainV m ρ G0 G1 G2 κ (PPV m spec) (fun d g9 => ∀ i, g9 i = spec d i) val0 val1 R (call_stepV m spec κ) (h0 κ) (h1 κ) hval d)
    (fqV m R) (hfinV m R) (QCV m R) (fun _ h => h)

end Cert.Proof.ScI

end
-- ==== Proof.TcVal2.lean ====
/-
  The second TensorCore kernel's value: what its one scalar store leaves, as the generated payload of the four blocks it
  loads — first for the kernel on any whole memrefs, then as exact proof data for the pipeline whose body obligation it
  discharges.
-/
import proofs.«209750_g45337674776763_cont_8to1c4_158_37_alg».proof.Proof.TcBody2
import Idealize.ShloMosaic.Lib.Pipeline.Value

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Tactic

variable {F : FTy → Type}

local notation "𝕄" => MT nD τ sig (HIx 1) (Elt F) ℕ UU ℕ

variable [FloatOps F] [∀ e, Nonempty (Elt F e)]

theorem zero2 : (![0, 0] : Fin 2 → Nat) = fun _ => 0 := by funext a; fin_cases a <;> rfl
theorem zero3 : (![0, 0, 0] : Fin 3 → Nat) = fun _ => 0 := by funext a; fin_cases a <;> rfl

set_option maxHeartbeats 4000000 in
/-- The kernel on any five whole memrefs, the inputs at `y0 … y3`: the scalar output is left at the payload of them. -/
theorem run2v (c : Dev nD)
    (M0 : Memref sig .tc .vmem S4x4096 .f32) (h0 : M0.IsWhole) (M1 : Memref sig .tc .vmem S4x4096 .f32) (h1 : M1.IsWhole)
    (M2 : Memref sig .tc .vmem S4x4096 .f32) (h2 : M2.IsWhole) (M3 : Memref sig .tc .vmem S4x8x4096 .f32) (h3 : M3.IsWhole)
    (M4 : Memref sig .tc .smem S1x1 .f32) (h4 : M4.IsWhole)
    (y0 : S4x4096.Idx → Elt F .f32) (y1 : S4x4096.Idx → Elt F .f32) (y2 : S4x4096.Idx → Elt F .f32)
    (y3 : S4x8x4096.Idx → Elt F .f32) (y4 : S1x1.Idx → Elt F .f32) (K : PUnit → sProp 𝕄) :
    iprop(owns (c : Thread nD τ) M0 fullShare y0 ∗ owns (c : Thread nD τ) M1 fullShare y1 ∗ owns (c : Thread nD τ) M2 fullShare y2
        ∗ owns (c : Thread nD τ) M3 fullShare y3 ∗ owns (c : Thread nD τ) M4 fullShare y4
        ∗ (iprop(owns (c : Thread nD τ) M0 fullShare y0 ∗ owns (c : Thread nD τ) M1 fullShare y1 ∗ owns (c : Thread nD τ) M2 fullShare y2
            ∗ owns (c : Thread nD τ) M3 fullShare y3 ∗ owns (c : Thread nD τ) M4 fullShare (fun _ => k2_pay1 y3 y3 y1 y2 y0)) -∗ K ⟨⟩))
      ⊢ wp frame (wpE (defs₀ (F := F)) 𝒱₀ (c : Thread nD τ) none) Set.univ (cc2__tc_reduce_body M0 h0 M1 h1 M2 h2 M3 h3 M4 h4) K := by
  unfold owns
  rw [cc2__tc_reduce_body_eq_skeleton]; unfold cc2__tc_reduce_body_skel
  iintro ⟨⟨%f0, %e0, H0⟩, ⟨%f1, %e1, H1⟩, ⟨%f2, %e2, H2⟩, ⟨%f3, %e3, H3⟩, ⟨%f4, -, H4⟩, Hk⟩
  sl_exec
  rw [wp_ret]
  imodintro
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr
  swap; · iexact H4
  ipureintro
  have r3 : View.readAt (Elt F) M3.view (Rect.unit (s := S4x8x4096) ![0, 0, 0] S4x8x4096.size inb_S4x8x4096_S4x8x4096_0_0_0).toLoadRect f3 = y3 := by
    rw [View.readAt_eq_ld, View.ld_unit_zero zero3, e3]
  have r0 : View.readAt (Elt F) M0.view (Rect.unit (s := S4x4096) ![0, 0] S4x4096.size inb_S4x4096_S4x4096_0_0).toLoadRect f0 = y0 := by
    rw [View.readAt_eq_ld, View.ld_unit_zero zero2, e0]
  have r1 : View.readAt (Elt F) M1.view (Rect.unit (s := S4x4096) ![0, 0] S4x4096.size inb_S4x4096_S4x4096_0_0).toLoadRect f1 = y1 := by
    rw [View.readAt_eq_ld, View.ld_unit_zero zero2, e1]
  have r2 : View.readAt (Elt F) M2.view (Rect.unit (s := S4x4096) ![0, 0] S4x4096.size inb_S4x4096_S4x4096_0_0).toLoadRect f2 = y2 := by
    rw [View.readAt_eq_ld, View.ld_unit_zero zero2, e2]
  rw [View.read_writes_eq_canon _ _ _ (fun y => ⟨_, List.mem_singleton_self _, View.mem_set_unit_zero zero2 inb_S1x1_S1x1_0_0 y⟩),
    View.canon_unit_zero zero2, r3, r0, r1, r2]
  rfl

section Data

variable (W : Valuation τ sig (Elt F))

local notation "cfgB" => Pipeline.pin (pcfgs (F := F)) adm 1

/-- Window `w`'s block at point `t`, read off its array at the entry valuation. -/
def iblk2 (c : Dev nD) (w : Fin (cfgB).W) (t : Fin (cfgB).N) :
    (((cfgB).win w).xblock ((cfgB).grid.coords t)).Idx → Elt F ((cfgB).win w).elt :=
  (((cfgB).win w).blk t).view.read (Elt F) (W (Pipeline.arrRef (cfgB).spec w))

/-- The pipeline's proof data with every staging buffer's contents named: an input's its block, the scalar output's
    the payload of the four blocks. -/
def dat2v (c : Dev nD) : Pipeline.Dat τ (Elt F) (HIx 1) ℕ UU ℕ (cfgB) c where
  A w := W (Pipeline.arrRef (cfgB).spec w)
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => fun _ => k2_pay1 (iblk2 W c 3 t) (iblk2 W c 3 t) (iblk2 W c 1 t) (iblk2 W c 2 t) (iblk2 W c 0 t)
    | ⟨_ + 5, h⟩ => absurd h (Nat.not_lt.2 (Nat.le_add_left _ _))
  Φ _ := Pipeline.scopedRest (cfgB).spec c
  q _ := fullShare
  owed _ := 0
  recorded _ := recB (F := F) c

theorem dat2v_A (c : Dev nD) (w : Fin (cfgB).W) : (dat2v W c).A w = W (Pipeline.arrRef (cfgB).spec w) := by dsimp only [dat2v]
theorem after2_0 (c : Dev nD) (t : Fin (cfgB).N) : (dat2v W c).after 0 t = iblk2 W c 0 t := by dsimp only [dat2v]; rfl
theorem after2_1 (c : Dev nD) (t : Fin (cfgB).N) : (dat2v W c).after 1 t = iblk2 W c 1 t := by dsimp only [dat2v]; rfl
theorem after2_2 (c : Dev nD) (t : Fin (cfgB).N) : (dat2v W c).after 2 t = iblk2 W c 2 t := by dsimp only [dat2v]; rfl
theorem after2_3 (c : Dev nD) (t : Fin (cfgB).N) : (dat2v W c).after 3 t = iblk2 W c 3 t := by dsimp only [dat2v]; rfl
theorem after2_4 (c : Dev nD) (t : Fin (cfgB).N) : (dat2v W c).after 4 t
    = fun _ => k2_pay1 (iblk2 W c 3 t) (iblk2 W c 3 t) (iblk2 W c 1 t) (iblk2 W c 2 t) (iblk2 W c 0 t) := by dsimp only [dat2v]; rfl

/-- An input window's current buffer holds its block (the window uncut, never idle, fetched at the one point). -/
theorem before2_0 (c : Dev nD) (t : Fin (cfgB).N) (d) : (dat2v W c).before 0 t d = iblk2 W c 0 t :=
  ((dat2v W c).before_in_eq_fetched 0 rfl (fun _ => rfl) (fun _ _ _ => rfl)
    (fun t => by rw [after2_0]; unfold Pipeline.Dat.blockOf iblk2; rw [dat2v_A]; try rfl) t d).trans
    (by unfold Pipeline.Dat.fetched Pipeline.Dat.blockOf iblk2; rw [dat2v_A]; try rfl)
theorem before2_1 (c : Dev nD) (t : Fin (cfgB).N) (d) : (dat2v W c).before 1 t d = iblk2 W c 1 t :=
  ((dat2v W c).before_in_eq_fetched 1 rfl (fun _ => rfl) (fun _ _ _ => rfl)
    (fun t => by rw [after2_1]; unfold Pipeline.Dat.blockOf iblk2; rw [dat2v_A]; try rfl) t d).trans
    (by unfold Pipeline.Dat.fetched Pipeline.Dat.blockOf iblk2; rw [dat2v_A]; try rfl)
theorem before2_2 (c : Dev nD) (t : Fin (cfgB).N) (d) : (dat2v W c).before 2 t d = iblk2 W c 2 t :=
  ((dat2v W c).before_in_eq_fetched 2 rfl (fun _ => rfl) (fun _ _ _ => rfl)
    (fun t => by rw [after2_2]; unfold Pipeline.Dat.blockOf iblk2; rw [dat2v_A]; try rfl) t d).trans
    (by unfold Pipeline.Dat.fetched Pipeline.Dat.blockOf iblk2; rw [dat2v_A]; try rfl)
theorem before2_3 (c : Dev nD) (t : Fin (cfgB).N) (d) : (dat2v W c).before 3 t d = iblk2 W c 3 t :=
  ((dat2v W c).before_in_eq_fetched 3 rfl (fun _ => rfl) (fun _ _ _ => rfl)
    (fun t => by rw [after2_3]; unfold Pipeline.Dat.blockOf iblk2; rw [dat2v_A]; try rfl) t d).trans
    (by unfold Pipeline.Dat.fetched Pipeline.Dat.blockOf iblk2; rw [dat2v_A]; try rfl)

end Data

section Obligation

variable (W : Valuation τ sig (Elt F))

local notation "cfgB" => Pipeline.pin (pcfgs (F := F)) adm 1

theorem dat2v_Φ (c : Dev nD) (t : Fin ((cfgB).N + 1)) : (dat2v W c).Φ t = Pipeline.scopedRest (cfgB).spec c := by dsimp only [dat2v]
theorem dat2v_owesAt (c : Dev nD) (t : Fin ((cfgB).N + 1)) :
    ((dat2v W c).owesAt ι₀ t : sProp 𝕄)
      = Pipeline.owesWithin c (0 : CellTallies nD τ sig (HIx 1)) (recB (F := F) c ∪ (cfgB).waitPairs ι₀) := rfl

set_option maxHeartbeats 4000000 in
/-- The body at the one point: the inputs found at their blocks are left there, the scalar is left at the payload. -/
theorem sound_body2v (c : Dev nD) (t : Fin (cfgB).N) :
    iprop(Pipeline.scopedRest (cfgB).spec c ∗ (Pipeline.owesWithin c (0 : CellTallies nD τ sig (HIx 1)) (recB (F := F) c ∪ (cfgB).waitPairs ι₀) : sProp 𝕄)
        ∗ (∃ d, owns (c : Thread nD τ) (((cfgB).win 0).stage ((cfgB).slots t 0)) fullShare ((dat2v W c).before 0 t d))
        ∗ (∃ d, owns (c : Thread nD τ) (((cfgB).win 1).stage ((cfgB).slots t 1)) fullShare ((dat2v W c).before 1 t d))
        ∗ (∃ d, owns (c : Thread nD τ) (((cfgB).win 2).stage ((cfgB).slots t 2)) fullShare ((dat2v W c).before 2 t d))
        ∗ (∃ d, owns (c : Thread nD τ) (((cfgB).win 3).stage ((cfgB).slots t 3)) fullShare ((dat2v W c).before 3 t d))
        ∗ (∃ d, owns (c : Thread nD τ) (((cfgB).win 4).stage ((cfgB).slots t 4)) fullShare ((dat2v W c).before 4 t d)))
      ⊢ wp frame (wpE (defs₀ (F := F)) 𝒱₀ (c : Thread nD τ) none) Set.univ (bodyAt2 (F := F) t) fun _ =>
          iprop(Pipeline.scopedRest (cfgB).spec c ∗ (Pipeline.owesWithin c (0 : CellTallies nD τ sig (HIx 1)) (recB (F := F) c ∪ (cfgB).waitPairs ι₀) : sProp 𝕄)
            ∗ owns (c : Thread nD τ) (((cfgB).win 0).stage ((cfgB).slots t 0)) fullShare (iblk2 W c 0 t)
            ∗ owns (c : Thread nD τ) (((cfgB).win 1).stage ((cfgB).slots t 1)) fullShare (iblk2 W c 1 t)
            ∗ owns (c : Thread nD τ) (((cfgB).win 2).stage ((cfgB).slots t 2)) fullShare (iblk2 W c 2 t)
            ∗ owns (c : Thread nD τ) (((cfgB).win 3).stage ((cfgB).slots t 3)) fullShare (iblk2 W c 3 t)
            ∗ owns (c : Thread nD τ) (((cfgB).win 4).stage ((cfgB).slots t 4)) fullShare (fun _ => k2_pay1 (iblk2 W c 3 t) (iblk2 W c 3 t) (iblk2 W c 1 t) (iblk2 W c 2 t) (iblk2 W c 0 t))) := by
  iintro ⟨HΦ, HO, ⟨%d0, Y0⟩, ⟨%d1, Y1⟩, ⟨%d2, Y2⟩, ⟨%d3, Y3⟩, ⟨%d4, Y4⟩⟩
  ihave Y0 := (Entails.of_eq (congrArg (fun x => (owns (c : Thread nD τ) (((cfgB).win 0).stage ((cfgB).slots t 0)) fullShare x : sProp 𝕄)) (before2_0 W c t d0))) $$ Y0
  ihave Y1 := (Entails.of_eq (congrArg (fun x => (owns (c : Thread nD τ) (((cfgB).win 1).stage ((cfgB).slots t 1)) fullShare x : sProp 𝕄)) (before2_1 W c t d1))) $$ Y1
  ihave Y2 := (Entails.of_eq (congrArg (fun x => (owns (c : Thread nD τ) (((cfgB).win 2).stage ((cfgB).slots t 2)) fullShare x : sProp 𝕄)) (before2_2 W c t d2))) $$ Y2
  ihave Y3 := (Entails.of_eq (congrArg (fun x => (owns (c : Thread nD τ) (((cfgB).win 3).stage ((cfgB).slots t 3)) fullShare x : sProp 𝕄)) (before2_3 W c t d3))) $$ Y3
  iapply (run2v c _ _ _ _ _ _ _ _ _ _ (iblk2 W c 0 t) (iblk2 W c 1 t) (iblk2 W c 2 t) (iblk2 W c 3 t) ((dat2v W c).before 4 t d4))
  isplitl [Y0]; · iexact Y0
  isplitl [Y1]; · iexact Y1
  isplitl [Y2]; · iexact Y2
  isplitl [Y3]; · iexact Y3
  isplitl [Y4]; · iexact Y4
  iintro ⟨Y0, Y1, Y2, Y3, Y4⟩
  isplitl [HΦ]; · iexact HΦ
  isplitl [HO]; · iexact HO
  isplitl [Y0]; · iexact Y0
  isplitl [Y1]; · iexact Y1
  isplitl [Y2]; · iexact Y2
  isplitl [Y3]; · iexact Y3
  iexact Y4

set_option maxHeartbeats 4000000 in
/-- The exact body obligation: the inputs found at their blocks and left there, the scalar left at the payload. -/
theorem body2v (c : Dev nD) : Pipeline.BodyObligation (dat2v W c) defs₀ 𝒱₀ ι₀ Set.univ := fun t => by
  rw [bigSep_W2, bigSep_W2, dat2v_Φ, dat2v_Φ, dat2v_owesAt, dat2v_owesAt]
  dsimp only
  simp only [after2_0, after2_1, after2_2, after2_3, after2_4]
  exact sound_body2v W c t

/-- The same data read relationally, as the region's record takes it, with its body obligation. -/
abbrev rdat2v (c : Dev nD) : Pipeline.RDat τ (Elt F) (HIx 1) ℕ UU ℕ (cfgB) c := (dat2v W c).toR

theorem body2vR (c : Dev nD) : (rdat2v W c).BodyObligation defs₀ 𝒱₀ ι₀ Set.univ := (body2v W c).toR

end Obligation

end Cert.KernelIdeal.Tc

end
-- ==== Proof.TcVal1.lean ====
/-
  The first TensorCore kernel's value at one grid point, on any six whole memrefs: the first output block is left at
  the generated payload of the four input blocks; the second — the running column minimum — is left at this point's
  part where the inner grid coordinate is zero, and at the minimum of what it held and this point's part elsewhere.
-/
import proofs.«209750_g45337674776763_cont_8to1c4_158_37_alg».proof.Proof.TcVal2
import proofs.«209750_g45337674776763_cont_8to1c4_158_37_alg».proof.Proof.TcBody1

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Tactic

variable {F : FTy → Type}

local notation "𝕄" => MT nD τ sig (HIx 1) (Elt F) ℕ UU ℕ

variable [FloatOps F] [∀ e, Nonempty (Elt F e)]

set_option maxHeartbeats 8000000 in
/-- At a point where the accumulated window is (re)started. -/
theorem run1v_first (c : Dev nD) (i : grid1.Coords)
    (M2 : Memref sig .tc .vmem S1x512x8 .f32) (h2 : M2.IsWhole) (M3 : Memref sig .tc .vmem S1x512x8 .f32) (h3 : M3.IsWhole)
    (M4 : Memref sig .tc .vmem S1x8x4096 .f32) (h4 : M4.IsWhole) (M5 : Memref sig .tc .vmem S1x8x4096 .f32) (h5 : M5.IsWhole)
    (M6 : Memref sig .tc .vmem S1x1x512 .f32) (h6 : M6.IsWhole) (M7 : Memref sig .tc .vmem S1x1x4096 .f32) (h7 : M7.IsWhole)
    (y2 : S1x512x8.Idx → Elt F .f32) (y3 : S1x512x8.Idx → Elt F .f32) (y4 : S1x8x4096.Idx → Elt F .f32)
    (y5 : S1x8x4096.Idx → Elt F .f32) (y6 : S1x1x512.Idx → Elt F .f32) (y7 : S1x1x4096.Idx → Elt F .f32) (K : PUnit → sProp 𝕄)
    (hc1 : k1_cond1 i = 1#1) (hc2 : ¬ k1_cond2 i = 1#1) :
    iprop(owns (c : Thread nD τ) M2 fullShare y2 ∗ owns (c : Thread nD τ) M3 fullShare y3 ∗ owns (c : Thread nD τ) M4 fullShare y4
        ∗ owns (c : Thread nD τ) M5 fullShare y5 ∗ owns (c : Thread nD τ) M6 fullShare y6 ∗ owns (c : Thread nD τ) M7 fullShare y7
        ∗ (iprop(owns (c : Thread nD τ) M2 fullShare y2 ∗ owns (c : Thread nD τ) M3 fullShare y3 ∗ owns (c : Thread nD τ) M4 fullShare y4
            ∗ owns (c : Thread nD τ) M5 fullShare y5 ∗ owns (c : Thread nD τ) M6 fullShare (k1_pay4 y2 y4 y3 y5) ∗ owns (c : Thread nD τ) M7 fullShare (k1_pay6 y2 y4 y3)) -∗ K ⟨⟩))
      ⊢ wp frame (wpE (defs₀ (F := F)) 𝒱₀ (c : Thread nD τ) none) Set.univ (cc1__tc_nn_body i M2 h2 M3 h3 M4 h4 M5 h5 M6 h6 M7 h7) K := by
  unfold owns
  rw [cc1__tc_nn_body_eq_skeleton]; unfold cc1__tc_nn_body_skel
  rw [k1_part1_eq_skeleton]; unfold k1_part1_skel
  iintro ⟨⟨%f2, %e2, H2⟩, ⟨%f3, %e3, H3⟩, ⟨%f4, %e4, H4⟩, ⟨%f5, %e5, H5⟩, ⟨%f6, -, H6⟩, ⟨%f7, %e7, H7⟩, Hk⟩
  have r2 : View.readAt (Elt F) M2.view (Rect.unit (s := S1x512x8) ![0, 0, 0] S1x512x8.size inb_S1x512x8_S1x512x8_0_0_0).toLoadRect f2 = y2 := by
    rw [View.readAt_eq_ld, View.ld_unit_zero zero3, e2]
  have r3 : View.readAt (Elt F) M3.view (Rect.unit (s := S1x512x8) ![0, 0, 0] S1x512x8.size inb_S1x512x8_S1x512x8_0_0_0).toLoadRect f3 = y3 := by
    rw [View.readAt_eq_ld, View.ld_unit_zero zero3, e3]
  have r4 : View.readAt (Elt F) M4.view (Rect.unit (s := S1x8x4096) ![0, 0, 0] S1x8x4096.size inb_S1x8x4096_S1x8x4096_0_0_0).toLoadRect f4 = y4 := by
    rw [View.readAt_eq_ld, View.ld_unit_zero zero3, e4]
  have r5 : View.readAt (Elt F) M5.view (Rect.unit (s := S1x8x4096) ![0, 0, 0] S1x8x4096.size inb_S1x8x4096_S1x8x4096_0_0_0).toLoadRect f5 = y5 := by
    rw [View.readAt_eq_ld, View.ld_unit_zero zero3, e5]
  have r7 : View.readAt (Elt F) M7.view (Rect.unit (s := S1x1x4096) ![0, 0, 0] S1x1x4096.size inb_S1x1x4096_S1x1x4096_0_0_0).toLoadRect f7 = y7 := by
    rw [View.readAt_eq_ld, View.ld_unit_zero zero3, e7]
  sl_exec (disch := first | exact hc1 | exact hc2)
  rw [wp_ret]
  imodintro
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]
  · iexists _; isplitr
    swap; · iexact H6
    ipureintro
    rw [View.read_writes_eq_canon _ _ _ (fun y => ⟨_, List.mem_singleton_self _, View.mem_set_unit_zero zero3 inb_S1x1x512_S1x1x512_0_0_0 y⟩),
      View.canon_unit_zero zero3]
  iexists _; isplitr
  swap; · iexact H7
  ipureintro
  rw [View.read_writes_eq_canon _ _ _ (fun y => ⟨_, List.mem_singleton_self _, View.mem_set_unit_zero zero3 inb_S1x1x4096_S1x1x4096_0_0_0 y⟩),
    View.canon_unit_zero zero3]

set_option maxHeartbeats 8000000 in
/-- At a later point of the inner axis. -/
theorem run1v_later (c : Dev nD) (i : grid1.Coords)
    (M2 : Memref sig .tc .vmem S1x512x8 .f32) (h2 : M2.IsWhole) (M3 : Memref sig .tc .vmem S1x512x8 .f32) (h3 : M3.IsWhole)
    (M4 : Memref sig .tc .vmem S1x8x4096 .f32) (h4 : M4.IsWhole) (M5 : Memref sig .tc .vmem S1x8x4096 .f32) (h5 : M5.IsWhole)
    (M6 : Memref sig .tc .vmem S1x1x512 .f32) (h6 : M6.IsWhole) (M7 : Memref sig .tc .vmem S1x1x4096 .f32) (h7 : M7.IsWhole)
    (y2 : S1x512x8.Idx → Elt F .f32) (y3 : S1x512x8.Idx → Elt F .f32) (y4 : S1x8x4096.Idx → Elt F .f32)
    (y5 : S1x8x4096.Idx → Elt F .f32) (y6 : S1x1x512.Idx → Elt F .f32) (y7 : S1x1x4096.Idx → Elt F .f32) (K : PUnit → sProp 𝕄)
    (hc1 : ¬ k1_cond1 i = 1#1) (hc2 : k1_cond2 i = 1#1) :
    iprop(owns (c : Thread nD τ) M2 fullShare y2 ∗ owns (c : Thread nD τ) M3 fullShare y3 ∗ owns (c : Thread nD τ) M4 fullShare y4
        ∗ owns (c : Thread nD τ) M5 fullShare y5 ∗ owns (c : Thread nD τ) M6 fullShare y6 ∗ owns (c : Thread nD τ) M7 fullShare y7
        ∗ (iprop(owns (c : Thread nD τ) M2 fullShare y2 ∗ owns (c : Thread nD τ) M3 fullShare y3 ∗ owns (c : Thread nD τ) M4 fullShare y4
            ∗ owns (c : Thread nD τ) M5 fullShare y5 ∗ owns (c : Thread nD τ) M6 fullShare (k1_pay4 y2 y4 y3 y5) ∗ owns (c : Thread nD τ) M7 fullShare (k1_pay1 (k1_pay5 y2 y4 y3) y7)) -∗ K ⟨⟩))
      ⊢ wp frame (wpE (defs₀ (F := F)) 𝒱₀ (c : Thread nD τ) none) Set.univ (cc1__tc_nn_body i M2 h2 M3 h3 M4 h4 M5 h5 M6 h6 M7 h7) K := by
  unfold owns
  rw [cc1__tc_nn_body_eq_skeleton]; unfold cc1__tc_nn_body_skel
  rw [k1_part1_eq_skeleton]; unfold k1_part1_skel
  iintro ⟨⟨%f2, %e2, H2⟩, ⟨%f3, %e3, H3⟩, ⟨%f4, %e4, H4⟩, ⟨%f5, %e5, H5⟩, ⟨%f6, -, H6⟩, ⟨%f7, %e7, H7⟩, Hk⟩
  have r2 : View.readAt (Elt F) M2.view (Rect.unit (s := S1x512x8) ![0, 0, 0] S1x512x8.size inb_S1x512x8_S1x512x8_0_0_0).toLoadRect f2 = y2 := by
    rw [View.readAt_eq_ld, View.ld_unit_zero zero3, e2]
  have r3 : View.readAt (Elt F) M3.view (Rect.unit (s := S1x512x8) ![0, 0, 0] S1x512x8.size inb_S1x512x8_S1x512x8_0_0_0).toLoadRect f3 = y3 := by
    rw [View.readAt_eq_ld, View.ld_unit_zero zero3, e3]
  have r4 : View.readAt (Elt F) M4.view (Rect.unit (s := S1x8x4096) ![0, 0, 0] S1x8x4096.size inb_S1x8x4096_S1x8x4096_0_0_0).toLoadRect f4 = y4 := by
    rw [View.readAt_eq_ld, View.ld_unit_zero zero3, e4]
  have r5 : View.readAt (Elt F) M5.view (Rect.unit (s := S1x8x4096) ![0, 0, 0] S1x8x4096.size inb_S1x8x4096_S1x8x4096_0_0_0).toLoadRect f5 = y5 := by
    rw [View.readAt_eq_ld, View.ld_unit_zero zero3, e5]
  have r7 : View.readAt (Elt F) M7.view (Rect.unit (s := S1x1x4096) ![0, 0, 0] S1x1x4096.size inb_S1x1x4096_S1x1x4096_0_0_0).toLoadRect f7 = y7 := by
    rw [View.readAt_eq_ld, View.ld_unit_zero zero3, e7]
  sl_exec (disch := first | exact hc1 | exact hc2)
  rw [wp_ret]
  imodintro
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]
  · iexists _; isplitr
    swap; · iexact H6
    ipureintro
    rw [View.read_writes_eq_canon _ _ _ (fun y => ⟨_, List.mem_singleton_self _, View.mem_set_unit_zero zero3 inb_S1x1x512_S1x1x512_0_0_0 y⟩),
      View.canon_unit_zero zero3]
  iexists _; isplitr
  swap; · iexact H7
  ipureintro
  rw [View.read_writes_eq_canon _ _ _ (fun y => ⟨_, List.mem_singleton_self _, View.mem_set_unit_zero zero3 inb_S1x1x4096_S1x1x4096_0_0_0 y⟩),
    View.canon_unit_zero zero3]

end Cert.KernelIdeal.Tc

end
-- ==== Proof.TcDat1.lean ====
/-
  The first TensorCore pipeline's proof data with every staging buffer's contents named: an input's its block at the
  point; the first output's the payload of the four blocks; the second output's — the running column minimum — by
  recursion on the point: this point's part where the inner grid coordinate is zero, else the minimum of the previous
  point's and this point's part.
-/
import proofs.«209750_g45337674776763_cont_8to1c4_158_37_alg».proof.Proof.TcVal1

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

variable [FloatOps F] [∀ e, Nonempty (Elt F e)]

/-! ## The schedule, decided over the 28 points -/

theorem cond1_iff : ∀ t : Fin grid1.N, k1_cond1 (grid1.coords t) = 1#1 ↔ t.val % 7 = 0 := by decide +kernel
theorem cond2_iff : ∀ t : Fin grid1.N, k1_cond2 (grid1.coords t) = 1#1 ↔ t.val % 7 ≠ 0 := by decide +kernel
theorem idle1_5 : ∀ t : Fin grid1.N, idle1 5 (grid1.coords t) = false := by decide +kernel

section Data

variable (W : Valuation τ sig (Elt F))

local notation "cfgA" => Pipeline.pin (pcfgs (F := F)) adm 0

/-- Window `w`'s block at point `t`, read off its array at the entry valuation. -/
def iblk1 (c : Dev nD) (w : Fin (cfgA).W) (t : Fin (cfgA).N) :
    (((cfgA).win w).xblock ((cfgA).grid.coords t)).Idx → Elt F ((cfgA).win w).elt :=
  (((cfgA).win w).blk t).view.read (Elt F) (W (Pipeline.arrRef (cfgA).spec w))

/-- The running column minimum after point `n`. -/
def acc1 (c : Dev nD) : (n : Nat) → n < (cfgA).N → S1x1x4096.Idx → Elt F .f32
  | 0, h => k1_pay6 (iblk1 W c 0 ⟨0, h⟩) (iblk1 W c 2 ⟨0, h⟩) (iblk1 W c 1 ⟨0, h⟩)
  | n + 1, h =>
    if (n + 1) % 7 = 0 then k1_pay6 (iblk1 W c 0 ⟨n + 1, h⟩) (iblk1 W c 2 ⟨n + 1, h⟩) (iblk1 W c 1 ⟨n + 1, h⟩)
    else k1_pay1 (k1_pay5 (iblk1 W c 0 ⟨n + 1, h⟩) (iblk1 W c 2 ⟨n + 1, h⟩) (iblk1 W c 1 ⟨n + 1, h⟩)) (acc1 c n (Nat.lt_of_succ_lt h))

def dat1v (c : Dev nD) : Pipeline.Dat τ (Elt F) (HIx 1) ℕ UU ℕ (cfgA) c where
  A w := W (Pipeline.arrRef (cfgA).spec w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => k1_pay4 (iblk1 W c 0 t) (iblk1 W c 2 t) (iblk1 W c 1 t) (iblk1 W c 3 t)
    | ⟨5, _⟩ => acc1 W c t.val t.isLt
    | ⟨_ + 6, h⟩ => absurd h (Nat.not_lt.2 (Nat.le_add_left _ _))
  Φ _ := Pipeline.scopedRest (cfgA).spec c
  q _ := fullShare
  owed _ := 0
  recorded _ := recB (F := F) c

theorem dat1v_A (c : Dev nD) (w : Fin (cfgA).W) : (dat1v W c).A w = W (Pipeline.arrRef (cfgA).spec w) := by dsimp only [dat1v]
theorem after1_0 (c : Dev nD) (t : Fin (cfgA).N) : (dat1v W c).after 0 t = iblk1 W c 0 t := by dsimp only [dat1v]; rfl
theorem after1_1 (c : Dev nD) (t : Fin (cfgA).N) : (dat1v W c).after 1 t = iblk1 W c 1 t := by dsimp only [dat1v]; rfl
theorem after1_2 (c : Dev nD) (t : Fin (cfgA).N) : (dat1v W c).after 2 t = iblk1 W c 2 t := by dsimp only [dat1v]; rfl
theorem after1_3 (c : Dev nD) (t : Fin (cfgA).N) : (dat1v W c).after 3 t = iblk1 W c 3 t := by dsimp only [dat1v]; rfl
theorem after1_4 (c : Dev nD) (t : Fin (cfgA).N) : (dat1v W c).after 4 t
    = k1_pay4 (iblk1 W c 0 t) (iblk1 W c 2 t) (iblk1 W c 1 t) (iblk1 W c 3 t) := by dsimp only [dat1v]; rfl
theorem after1_5 (c : Dev nD) (t : Fin (cfgA).N) : (dat1v W c).after 5 t = acc1 W c t.val t.isLt := by dsimp only [dat1v]; rfl

/-- An input window's current buffer holds its block, fetched at the point or not (uncut, never idle). -/
theorem before1_0 (c : Dev nD) (t : Fin (cfgA).N) (d) : (dat1v W c).before 0 t d = iblk1 W c 0 t :=
  ((dat1v W c).before_in_eq_fetched 0 rfl (fun _ => rfl) (fun _ _ _ => rfl)
    (fun t => by rw [after1_0]; unfold Pipeline.Dat.blockOf iblk1; rw [dat1v_A]; try rfl) t d).trans
    (by unfold Pipeline.Dat.fetched Pipeline.Dat.blockOf iblk1; rw [dat1v_A]; try rfl)
theorem before1_1 (c : Dev nD) (t : Fin (cfgA).N) (d) : (dat1v W c).before 1 t d = iblk1 W c 1 t :=
  ((dat1v W c).before_in_eq_fetched 1 rfl (fun _ => rfl) (fun _ _ _ => rfl)
    (fun t => by rw [after1_1]; unfold Pipeline.Dat.blockOf iblk1; rw [dat1v_A]; try rfl) t d).trans
    (by unfold Pipeline.Dat.fetched Pipeline.Dat.blockOf iblk1; rw [dat1v_A]; try rfl)
theorem before1_2 (c : Dev nD) (t : Fin (cfgA).N) (d) : (dat1v W c).before 2 t d = iblk1 W c 2 t :=
  ((dat1v W c).before_in_eq_fetched 2 rfl (fun _ => rfl) (fun _ _ _ => rfl)
    (fun t => by rw [after1_2]; unfold Pipeline.Dat.blockOf iblk1; rw [dat1v_A]; try rfl) t d).trans
    (by unfold Pipeline.Dat.fetched Pipeline.Dat.blockOf iblk1; rw [dat1v_A]; try rfl)
theorem before1_3 (c : Dev nD) (t : Fin (cfgA).N) (d) : (dat1v W c).before 3 t d = iblk1 W c 3 t :=
  ((dat1v W c).before_in_eq_fetched 3 rfl (fun _ => rfl) (fun _ _ _ => rfl)
    (fun t => by rw [after1_3]; unfold Pipeline.Dat.blockOf iblk1; rw [dat1v_A]; try rfl) t d).trans
    (by unfold Pipeline.Dat.fetched Pipeline.Dat.blockOf iblk1; rw [dat1v_A]; try rfl)

theorem fetch1_5 : ∀ t : Fin grid1.N, win1_5.fetch t = false := by decide +kernel

theorem acc1_first (c : Dev nD) (t : Fin (cfgA).N) (h : t.val % 7 = 0) :
    acc1 W c t.val t.isLt = k1_pay6 (iblk1 W c 0 t) (iblk1 W c 2 t) (iblk1 W c 1 t) := by
  obtain ⟨n, hn⟩ := t
  cases n with
  | zero => rfl
  | succ n => show acc1 W c (n + 1) hn = _; rw [acc1, if_pos h]

theorem acc1_later (c : Dev nD) (t : Fin (cfgA).N) (h : t.val % 7 ≠ 0) :
    acc1 W c t.val t.isLt = k1_pay1 (k1_pay5 (iblk1 W c 0 t) (iblk1 W c 2 t) (iblk1 W c 1 t))
      (acc1 W c (t.val - 1) (Nat.lt_of_le_of_lt (Nat.sub_le _ _) t.isLt)) := by
  obtain ⟨n, hn⟩ := t
  cases n with
  | zero => exact absurd rfl h
  | succ n => show acc1 W c (n + 1) hn = _; rw [acc1, if_neg h]; rfl

/-- The accumulated window's current buffer at a later point of the inner axis holds what the previous point left. -/
theorem before1_5_later (c : Dev nD) (t : Fin (cfgA).N) (h : t.val % 7 ≠ 0) (d) :
    (dat1v W c).before 5 t d = acc1 W c (t.val - 1) (Nat.lt_of_le_of_lt (Nat.sub_le _ _) t.isLt) := by
  unfold Pipeline.Dat.before
  rw [if_neg (by rw [show ((cfgA).win 5).fetch t = false from fetch1_5 t]; exact Bool.false_ne_true),
    if_neg (show ¬ t.val = 0 from fun e => h (by rw [e]))]
  dsimp only
  have ht' : t.val - 1 < (cfgA).N := Nat.lt_of_le_of_lt (Nat.sub_le _ _) t.isLt
  have hfl : ¬ ((cfgA).win 5).flush ⟨t.val - 1, ht'⟩ = true := fun hf => by
    have h2 : (t.val - 1) % 7 = 6 := (flush1_5 ⟨t.val - 1, ht'⟩).mp hf
    omega
  rw [if_neg hfl, show (cfgA).idle 5 ((cfgA).grid.coords ⟨t.val - 1, ht'⟩) = false from idle1_5 ⟨t.val - 1, ht'⟩]
  dsimp only
  unfold Pipeline.Dat.kept
  rw [after1_5]
  rfl

end Data

section Obligation

variable (W : Valuation τ sig (Elt F))

local notation "cfgA" => Pipeline.pin (pcfgs (F := F)) adm 0

theorem dat1v_Φ (c : Dev nD) (t : Fin ((cfgA).N + 1)) : (dat1v W c).Φ t = Pipeline.scopedRest (cfgA).spec c := by dsimp only [dat1v]
theorem dat1v_owesAt (c : Dev nD) (t : Fin ((cfgA).N + 1)) :
    ((dat1v W c).owesAt ι₀ t : sProp 𝕄)
      = Pipeline.owesWithin c (0 : CellTallies nD τ sig (HIx 1)) (recB (F := F) c ∪ (cfgA).waitPairs ι₀) := rfl

set_option maxHeartbeats 8000000 in
/-- The body at a point: the inputs found at their blocks are left there, the first output is left at the payload, the
    running minimum at its next value. -/
theorem sound_body1v (c : Dev nD) (t : Fin (cfgA).N) :
    iprop(Pipeline.scopedRest (cfgA).spec c ∗ (Pipeline.owesWithin c (0 : CellTallies nD τ sig (HIx 1)) (recB (F := F) c ∪ (cfgA).waitPairs ι₀) : sProp 𝕄)
        ∗ (∃ d, owns (c : Thread nD τ) (((cfgA).win 0).stage ((cfgA).slots t 0)) fullShare ((dat1v W c).before 0 t d))
        ∗ (∃ d, owns (c : Thread nD τ) (((cfgA).win 1).stage ((cfgA).slots t 1)) fullShare ((dat1v W c).before 1 t d))
        ∗ (∃ d, owns (c : Thread nD τ) (((cfgA).win 2).stage ((cfgA).slots t 2)) fullShare ((dat1v W c).before 2 t d))
        ∗ (∃ d, owns (c : Thread nD τ) (((cfgA).win 3).stage ((cfgA).slots t 3)) fullShare ((dat1v W c).before 3 t d))
        ∗ (∃ d, owns (c : Thread nD τ) (((cfgA).win 4).stage ((cfgA).slots t 4)) fullShare ((dat1v W c).before 4 t d))
        ∗ (∃ d, owns (c : Thread nD τ) (((cfgA).win 5).stage ((cfgA).slots t 5)) fullShare ((dat1v W c).before 5 t d)))
      ⊢ wp frame (wpE (defs₀ (F := F)) 𝒱₀ (c : Thread nD τ) none) Set.univ (bodyAt1 (F := F) t) fun _ =>
          iprop(Pipeline.scopedRest (cfgA).spec c ∗ (Pipeline.owesWithin c (0 : CellTallies nD τ sig (HIx 1)) (recB (F := F) c ∪ (cfgA).waitPairs ι₀) : sProp 𝕄)
            ∗ owns (c : Thread nD τ) (((cfgA).win 0).stage ((cfgA).slots t 0)) fullShare (iblk1 W c 0 t)
            ∗ owns (c : Thread nD τ) (((cfgA).win 1).stage ((cfgA).slots t 1)) fullShare (iblk1 W c 1 t)
            ∗ owns (c : Thread nD τ) (((cfgA).win 2).stage ((cfgA).slots t 2)) fullShare (iblk1 W c 2 t)
            ∗ owns (c : Thread nD τ) (((cfgA).win 3).stage ((cfgA).slots t 3)) fullShare (iblk1 W c 3 t)
            ∗ owns (c : Thread nD τ) (((cfgA).win 4).stage ((cfgA).slots t 4)) fullShare (k1_pay4 (iblk1 W c 0 t) (iblk1 W c 2 t) (iblk1 W c 1 t) (iblk1 W c 3 t))
            ∗ owns (c : Thread nD τ) (((cfgA).win 5).stage ((cfgA).slots t 5)) fullShare (acc1 W c t.val t.isLt)) := by
  iintro ⟨HΦ, HO, ⟨%d0, Y0⟩, ⟨%d1, Y1⟩, ⟨%d2, Y2⟩, ⟨%d3, Y3⟩, ⟨%d4, Y4⟩, ⟨%d5, Y5⟩⟩
  ihave Y0 := (Entails.of_eq (congrArg (fun x => (owns (c : Thread nD τ) (((cfgA).win 0).stage ((cfgA).slots t 0)) fullShare x : sProp 𝕄)) (before1_0 W c t d0))) $$ Y0
  ihave Y1 := (Entails.of_eq (congrArg (fun x => (owns (c : Thread nD τ) (((cfgA).win 1).stage ((cfgA).slots t 1)) fullShare x : sProp 𝕄)) (before1_1 W c t d1))) $$ Y1
  ihave Y2 := (Entails.of_eq (congrArg (fun x => (owns (c : Thread nD τ) (((cfgA).win 2).stage ((cfgA).slots t 2)) fullShare x : sProp 𝕄)) (before1_2 W c t d2))) $$ Y2
  ihave Y3 := (Entails.of_eq (congrArg (fun x => (owns (c : Thread nD τ) (((cfgA).win 3).stage ((cfgA).slots t 3)) fullShare x : sProp 𝕄)) (before1_3 W c t d3))) $$ Y3
  by_cases h : t.val % 7 = 0
  · rw [acc1_first W c t h]
    iapply (run1v_first c (grid1.coords t) _ _ _ _ _ _ _ _ _ _ _ _ (iblk1 W c 0 t) (iblk1 W c 1 t) (iblk1 W c 2 t) (iblk1 W c 3 t)
      ((dat1v W c).before 4 t d4) ((dat1v W c).before 5 t d5) _ ((cond1_iff t).mpr h) (fun h2 => (cond2_iff t).mp h2 h))
    isplitl [Y0]; · iexact Y0
    isplitl [Y1]; · iexact Y1
    isplitl [Y2]; · iexact Y2
    isplitl [Y3]; · iexact Y3
    isplitl [Y4]; · iexact Y4
    isplitl [Y5]; · iexact Y5
    iintro ⟨Y0, Y1, Y2, Y3, Y4, Y5⟩
    isplitl [HΦ]; · iexact HΦ
    isplitl [HO]; · iexact HO
    isplitl [Y0]; · iexact Y0
    isplitl [Y1]; · iexact Y1
    isplitl [Y2]; · iexact Y2
    isplitl [Y3]; · iexact Y3
    isplitl [Y4]; · iexact Y4
    iexact Y5
  · rw [acc1_later W c t h]
    ihave Y5 := (Entails.of_eq (congrArg (fun x => (owns (c : Thread nD τ) (((cfgA).win 5).stage ((cfgA).slots t 5)) fullShare x : sProp 𝕄)) (before1_5_later W c t h d5))) $$ Y5
    iapply (run1v_later c (grid1.coords t) _ _ _ _ _ _ _ _ _ _ _ _ (iblk1 W c 0 t) (iblk1 W c 1 t) (iblk1 W c 2 t) (iblk1 W c 3 t)
      ((dat1v W c).before 4 t d4) (acc1 W c (t.val - 1) (Nat.lt_of_le_of_lt (Nat.sub_le _ _) t.isLt)) _
      (fun h1 => h ((cond1_iff t).mp h1)) ((cond2_iff t).mpr h))
    isplitl [Y0]; · iexact Y0
    isplitl [Y1]; · iexact Y1
    isplitl [Y2]; · iexact Y2
    isplitl [Y3]; · iexact Y3
    isplitl [Y4]; · iexact Y4
    isplitl [Y5]; · iexact Y5
    iintro ⟨Y0, Y1, Y2, Y3, Y4, Y5⟩
    isplitl [HΦ]; · iexact HΦ
    isplitl [HO]; · iexact HO
    isplitl [Y0]; · iexact Y0
    isplitl [Y1]; · iexact Y1
    isplitl [Y2]; · iexact Y2
    isplitl [Y3]; · iexact Y3
    isplitl [Y4]; · iexact Y4
    iexact Y5

set_option maxHeartbeats 8000000 in
/-- The exact body obligation of pipeline 0. -/
theorem body1v (c : Dev nD) : Pipeline.BodyObligation (dat1v W c) defs₀ 𝒱₀ ι₀ Set.univ := fun t => by
  rw [bigSep_W1, bigSep_W1, dat1v_Φ, dat1v_Φ, dat1v_owesAt, dat1v_owesAt]
  dsimp only
  simp only [after1_0, after1_1, after1_2, after1_3, after1_4, after1_5]
  rw [show (cfgA).idle 5 ((cfgA).grid.coords t) = false from idle1_5 t]
  exact sound_body1v W c t

/-- The same data read relationally, as the region's record takes it, with its body obligation. -/
abbrev rdat1v (c : Dev nD) : Pipeline.RDat τ (Elt F) (HIx 1) ℕ UU ℕ (cfgA) c := (dat1v W c).toR

theorem body1vR (c : Dev nD) : (rdat1v W c).BodyObligation defs₀ 𝒱₀ ι₀ Set.univ := (body1v W c).toR

end Obligation

end Cert.KernelIdeal.Tc

end
-- ==== Proof.TcRegion1V.lean ====
/-
  The first TensorCore region's record again, over the proof data that names its staging buffers' contents (read
  relationally): what changes against the frame-level record is only the data.
-/
import proofs.«209750_g45337674776763_cont_8to1c4_158_37_alg».proof.Proof.TcDat1
import proofs.«209750_g45337674776763_cont_8to1c4_158_37_alg».proof.Proof.TcRegion1

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₁ : Valuation τ sig (Elt F)) (lv : GSem nD τ sig → HIx 1 → ℕ)

/-- Pipeline 0's datum as the family the regions kit takes (the other pipeline's is trivial). -/
abbrev fam1v : (p : Fin 2) → (c : Dev nD) → Pipeline.RDat τ (Elt F) (HIx 1) ℕ UU ℕ (Pipeline.pin (pcfgs (F := F)) adm p) c :=
  Pipeline.RDat.familyOf (pcfgs (F := F)) adm 0 (rdat1v W₁)

/-- What the region leaves: the windows' arrays at some contents they may hold after every write-back, the other
    unscoped buffers as they were, the debt as it was. -/
def post1v (c : Dev nD) : sProp 𝕄 :=
  iprop((rdat1v W₁ c).arraysAt (Pipeline.pin (pcfgs (F := F)) adm 0).N
    ∗ Pipeline.unscopedRest (Pipeline.pin (pcfgs (F := F)) adm 0).spec c (fun b => W₁ b) ∗ owesB (F := F) c)

theorem fam1v_self (c : Dev nD) : fam1v W₁ 0 c = rdat1v W₁ c := Pipeline.RDat.familyOf_self (pcfgs (F := F)) adm 0 (rdat1v W₁) c
-- the invariant is never compared by unfolding: the projection is reduced, the scoped rest stays folded
theorem rdat1v_Φ (c : Dev nD) (t : Fin ((Pipeline.pin (pcfgs (F := F)) adm 0).N + 1)) :
    (rdat1v W₁ c).Φ t = Pipeline.scopedRest (Pipeline.pin (pcfgs (F := F)) adm 0).spec c := by rw [Pipeline.Dat.toR_Φ]; exact dat1v_Φ W₁ c t
theorem rdat1v_A (c : Dev nD) (w : Fin (Pipeline.pin (pcfgs (F := F)) adm 0).W) :
    (rdat1v W₁ c).A w = W₁ (Pipeline.arrRef (Pipeline.pin (pcfgs (F := F)) adm 0).spec w) := by rw [Pipeline.Dat.toR_A]; exact dat1v_A W₁ c w
theorem rdat1v_q (c : Dev nD) (w : Fin (Pipeline.pin (pcfgs (F := F)) adm 0).W) : (rdat1v W₁ c).q w = fullShare := rfl
theorem rdat1v_owed (c : Dev nD) (t) : (rdat1v W₁ c).owed t = 0 := rfl
theorem rdat1v_bound (c : Dev nD) (t) :
    (rdat1v W₁ c).bound ι₀ t = recB (F := F) c ∪ (Pipeline.pin (pcfgs (F := F)) adm 0).waitPairs ι₀ := rfl

def reg1v (hbody : ∀ c, (rdat1v W₁ c).BodyObligation defs₀ 𝒱₀ ι₀ Set.univ) :
    Pipeline.RDat.RegionSeg (pcfgs (F := F)) adm (fam1v W₁) ι₀ defs₀ 𝒱₀ (KL (F := F)) lv 0 where
  win := winFacts1.to₀
  block_pos := block_pos1
  stage_whole := stage_whole1
  K := PEmpty
  osem k := k.elim
  ho := Pipeline.OwnSemFacts.none _
  hbody c := by rw [fam1v_self]; exact hbody c
  hwaits := Pipeline.RDat.hwaits_of_owed_zero _ _ _ _ _ _ 0 fun c t => by rw [fam1v_self]; exact rdat1v_owed W₁ c t
  pre c := iprop(unscopedBufs c (fun b => W₁ b) ∗ owesB (F := F) c)
  post c := post1v W₁ c
  X _ := iprop(emp)
  Y _ := iprop(emp)
  Z c := Pipeline.unscopedRest (Pipeline.pin (pcfgs (F := F)) adm 0).spec c (fun b => W₁ b)
  hentry c := by
    rw [fam1v_self, Pipeline.ownSems0_none, prefHeld_none]
    unfold Pipeline.RDat.owesAt
    rw [rdat1v_owed, rdat1v_bound]
    iintro ⟨⟨Hb, HO⟩, -, -⟩
    ihave Ha := (Pipeline.RDat.arrays_of_unscopedBufs (pcfgs (F := F)) adm (fam1v W₁) (p := 0) winFacts1 arr_whole1 c
      (fun w => by rw [fam1v_self]; exact Pipeline.RDat.share_full _ (rdat1v_q W₁ c) w) (fun b => W₁ b)
      (fun w => by rw [fam1v_self]; exact rdat1v_A W₁ c w)) $$ Hb
    icases Ha with ⟨Harr, Hrest⟩
    imodintro
    isplitl [Harr]; · iexact Harr
    isplitr; · iempintro
    isplitl [HO]
    · iapply (owesB_within (F := F) c _); iexact HO
    isplitr; · iempintro
    iexact Hrest
  hin c := by
    rw [fam1v_self, rdat1v_Φ]
    iintro ⟨-, -, HR⟩; iexact HR
  hout c := by
    rw [fam1v_self, Pipeline.ownSems0_none, rdat1v_Φ]
    iintro HR
    isplitr; · iempintro
    isplitr; · iempintro
    iexact HR
  hexit c := by
    rw [fam1v_self]
    unfold Pipeline.RDat.owesAt
    rw [rdat1v_owed, rdat1v_bound]
    iintro ⟨Harr, HO, -, HZ⟩
    imodintro
    unfold post1v
    isplitl [Harr]; · iexact Harr
    isplitl [HZ]; · iexact HZ
    iapply (within_owesB (F := F) c (Pipeline.pin (pcfgs (F := F)) adm 0)); iexact HO

end Region

end Cert.KernelIdeal.Tc

end
-- ==== Proof.TcRegion1VW.lean ====
/-
  The first TensorCore region as a step of @main inside the SparseCore program, over the value-carrying proof data.
-/
import proofs.«209750_g45337674776763_cont_8to1c4_158_37_alg».proof.Proof.TcRegion1V
import proofs.«209750_g45337674776763_cont_8to1c4_158_37_alg».proof.Proof.TcRegion1W

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₁ : Valuation τ sig (Elt F)) (lv : GSem nD τ sig → HIx 1 → ℕ)

set_option backward.isDefEq.respectTransparency.types false in
set_option maxHeartbeats 800000 in
theorem region1v_pipe (hbody : ∀ c, (rdat1v W₁ c).BodyObligation defs₀ 𝒱₀ ι₀ Set.univ) (d : Dev nD) (Φ : PUnit → sProp 𝕄) :
    iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1v W₁ d) -∗ Φ ⟨⟩))
      ⊢ wp frame (wpE (D (F := F)) 𝒱 (T d) none) Set.univ (callP (F := F) 0) Φ := by
  have h := Pipeline.RDat.RegionSeg.wp (pcfgs (F := F)) adm (fam1v W₁) ι₀ (phinj (F := F)) (EP (F := F)) defs₀ 𝒱₀ (KL (F := F)) lv
    (reg1v W₁ lv hbody) d none (fun _ h => nomatch h) (fun _ => .ret ⟨⟩) Φ
  have e : iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1v W₁ d) -∗ Φ ⟨⟩))
      ⊢ iprop((iprop(boundary (T d) ∗ post1v W₁ d) -∗ wp frame (wpE (D (F := F)) 𝒱 (T d) none) Set.univ (Prog.ret PUnit.unit) Φ)
        ∗ boundary (T d) ∗ iprop(unscopedBufs d (fun b => W₁ b) ∗ owesB (F := F) d) ∗ levAts (KL (F := F)) lv
        ∗ Pipeline.cellsGhost (Pipeline.pin (pcfgs (F := F)) adm) (EP (F := F)) 0 d ∗ Pipeline.toksInit (Pipeline.pin (pcfgs (F := F)) adm) (EP (F := F)) 0 d) := by
    iintro ⟨Hlev, Hb, Hbufs, HO, Hg, Ht, Hk⟩
    isplitl [Hk]
    · iintro H
      rw [wp_ret]
      imodintro
      iapply Hk; iexact H
    isplitl [Hb]; · iexact Hb
    isplitl [Hbufs HO]
    · isplitl [Hbufs] <;> iassumption
    isplitl [Hlev]; · iexact Hlev
    isplitl [Hg] <;> iassumption
  exact e.trans h

/-- The region as @main's line in the SparseCore program. -/
theorem region1v_raw (hbody : ∀ c, (rdat1v W₁ c).BodyObligation defs₀ 𝒱₀ ι₀ Set.univ) (d : Dev nD) (Φ : PUnit → sProp 𝕄) :
    iprop(levAts (KL (F := F)) lv ∗ boundary (T d) ∗ unscopedBufs d (fun b => W₁ b) ∗ owesB (F := F) d
        ∗ Pipeline.cellsGhost (Pipeline.pin (pcfgs (F := F)) adm) (EP (F := F)) 0 d ∗ Pipeline.toksInit (Pipeline.pin (pcfgs (F := F)) adm) (EP (F := F)) 0 d
        ∗ (iprop(boundary (T d) ∗ post1v W₁ d) -∗ Φ ⟨⟩))
      ⊢ wp frame (wpE ((K (F := F)).defs (D (F := F))) 𝒱 (T d) none) Set.univ (callS (F := F) 0) Φ :=
  (region1v_pipe W₁ lv hbody d Φ).trans (wp_callS 0 d Φ)

end Region

end Cert.KernelIdeal.Tc

end
-- ==== Proof.TcExit1V.lean ====
/-
  What the first region leaves, with its values: as at frame level, and the first result array's block at every point
  holds the kernel's payload of that point's input blocks, the second's block at the last point of each inner axis the
  running column minimum there.
-/
import proofs.«209750_g45337674776763_cont_8to1c4_158_37_alg».proof.Proof.TcExit1
import proofs.«209750_g45337674776763_cont_8to1c4_158_37_alg».proof.Proof.TcRegion1VW
import Idealize.ShloMosaic.Lib.Pipeline.Value

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Exit

variable [FloatOps F] [∀ e, Nonempty (Elt F e)] (W : Valuation τ sig (Elt F))

local notation "cfgA" => Pipeline.pin (pcfgs (F := F)) adm 0

/-- Distinct points write the first result at distinct blocks; distinct last points of the inner axis write the second
    at distinct blocks. -/
theorem index4_inj : ∀ u u' : Fin grid1.N, u ≠ u' → win1_4.index u ≠ win1_4.index u' := by decide +kernel
theorem index5_inj : ∀ u u' : Fin grid1.N, u.val % 7 = 6 → u'.val % 7 = 6 → u ≠ u' → win1_5.index u ≠ win1_5.index u' := by decide +kernel

/-- The first result's block at every point is the payload of that point's four input blocks; the second result's block
    at the last point of each inner axis is the running column minimum there. -/
def val1 (d : Dev nD) (W' : Valuation τ sig (Elt F)) : Prop :=
  (∀ t : Fin (cfgA).N, (((cfgA).win 4).blk t).view.read (Elt F) (W' o0)
      = k1_pay4 (iblk1 W d 0 t) (iblk1 W d 2 t) (iblk1 W d 1 t) (iblk1 W d 3 t))
  ∧ (∀ t : Fin (cfgA).N, t.val % 7 = 6 → (((cfgA).win 5).blk t).view.read (Elt F) (W' o1) = acc1 W d t.val t.isLt)

theorem share1v (d : Dev nD) (w : Fin (cfgA).W) : (rdat1v W d).share w = fullShare :=
  Pipeline.RDat.share_full _ (rdat1v_q W d) w

/-- The arrays after the write-backs: some contents per window, the inputs' the entry contents, all held whole. -/
theorem arraysAt1v_elim (d : Dev nD) :
    ((rdat1v W d).arraysAt (cfgA).N : sProp 𝕄)
      ⊢ iprop(∃ Fs : (w : Fin (cfgA).W) → Buf (Elt F) (((cfgA).win w).arr.view.loc (d.tc : Thread nD τ)),
          ⌜(Fs 0 = (rdat1v W d).A 0 ∧ Fs 1 = (rdat1v W d).A 1 ∧ Fs 2 = (rdat1v W d).A 2 ∧ Fs 3 = (rdat1v W d).A 3) ∧ (rdat1v W d).ArrAt 4 (cfgA).N (Fs 4) ∧ (rdat1v W d).ArrAt 5 (cfgA).N (Fs 5)⌝
          ∗ bigSep Finset.univ fun w => (((d.tc : Thread nD τ).loc (Pipeline.arrRef (cfgA).spec w)) ↦{fullShare} Fs w : sProp 𝕄)) := by
  unfold Pipeline.RDat.arraysAt
  refine (bigSep_exists_pi Finset.univ _).trans ?_
  iintro ⟨%Fs, H⟩
  iexists Fs
  ihave H' := (Entails.of_eq (bigSep_sep' (Finset.univ : Finset (Fin (cfgA).W))
    (fun w => (iprop(⌜(rdat1v W d).ArrAt w (cfgA).N (Fs w)⌝) : sProp 𝕄))
    (fun w => (((cfgA).win w).arr.view.loc (d.tc : Thread nD τ) ↦[((cfgA).win w).arr.view.set]{(rdat1v W d).share w} Fs w : sProp 𝕄)))) $$ H
  icases H' with ⟨Hp, Ha⟩
  isplitl [Hp]
  · icases Hp with #Hp
    ihave %h0 := (pure_of_bigSep (F := F) Finset.univ (fun w => (rdat1v W d).ArrAt w (cfgA).N (Fs w)) (0 : Fin (cfgA).W) (Finset.mem_univ _)) $$ Hp
    ihave %h1 := (pure_of_bigSep (F := F) Finset.univ (fun w => (rdat1v W d).ArrAt w (cfgA).N (Fs w)) (1 : Fin (cfgA).W) (Finset.mem_univ _)) $$ Hp
    ihave %h2 := (pure_of_bigSep (F := F) Finset.univ (fun w => (rdat1v W d).ArrAt w (cfgA).N (Fs w)) (2 : Fin (cfgA).W) (Finset.mem_univ _)) $$ Hp
    ihave %h3 := (pure_of_bigSep (F := F) Finset.univ (fun w => (rdat1v W d).ArrAt w (cfgA).N (Fs w)) (3 : Fin (cfgA).W) (Finset.mem_univ _)) $$ Hp
    ihave %h4 := (pure_of_bigSep (F := F) Finset.univ (fun w => (rdat1v W d).ArrAt w (cfgA).N (Fs w)) (4 : Fin (cfgA).W) (Finset.mem_univ _)) $$ Hp
    ihave %h5 := (pure_of_bigSep (F := F) Finset.univ (fun w => (rdat1v W d).ArrAt w (cfgA).N (Fs w)) (5 : Fin (cfgA).W) (Finset.mem_univ _)) $$ Hp
    ipureintro
    rw [(rdat1v W d).ArrAt_in 0 rfl] at h0
    rw [(rdat1v W d).ArrAt_in 1 rfl] at h1
    rw [(rdat1v W d).ArrAt_in 2 rfl] at h2
    rw [(rdat1v W d).ArrAt_in 3 rfl] at h3
    exact ⟨⟨h0, h1, h2, h3⟩, h4, h5⟩
  · have e : (bigSep Finset.univ fun w => ((cfgA).win w).arr.view.loc (d.tc : Thread nD τ) ↦[((cfgA).win w).arr.view.set]{(rdat1v W d).share w} Fs w : sProp 𝕄)
        = (rdat1v W d).arrays Fs := rfl
    have e' := Pipeline.RDat.arrays_eq (pcfgs (F := F)) adm (fam1v W) 0 d arr_whole1 (fun w => by rw [fam1v_self]; exact share1v W d w) Fs
    rw [fam1v_self] at e'
    have h : (bigSep Finset.univ fun w => ((cfgA).win w).arr.view.loc (d.tc : Thread nD τ) ↦[((cfgA).win w).arr.view.set]{(rdat1v W d).share w} Fs w : sProp 𝕄)
        ⊢ bigSep Finset.univ fun w => (((d.tc : Thread nD τ).loc (Pipeline.arrRef (cfgA).spec w)) ↦{fullShare} Fs w : sProp 𝕄) :=
      Entails.of_eq (e.trans e')
    iapply h; iexact Ha

set_option maxHeartbeats 1000000 in
theorem post1v_held (d : Dev nD) :
    (post1v W d : sProp 𝕄) ⊢ iprop(∃ W' : Valuation τ sig (Elt F), ⌜(∀ b, b ∉ outs1 → W' b = W b) ∧ val1 W d W'⌝ ∗ unscopedBufs d (fun b => W' b) ∗ owesB (F := F) d) := by
  unfold post1v
  iintro ⟨Harr, Hrest, HO⟩
  ihave H := (arraysAt1v_elim W d) $$ Harr
  icases H with ⟨%Fs, %hin, Ha⟩
  obtain ⟨⟨h0, h1, h2, h3⟩, h4, h5⟩ := hin
  -- the two results' contents, typed as the valuation types them
  obtain ⟨g4, hg4⟩ : ∃ g4 : BufTy.Contents (Elt F) (o0 : DevRef τ sig).ty, g4 = Fs 4 := ⟨Fs 4, rfl⟩
  obtain ⟨g5, hg5⟩ : ∃ g5 : BufTy.Contents (Elt F) (o1 : DevRef τ sig).ty, g5 = Fs 5 := ⟨Fs 5, rfl⟩
  iexists (Function.update (Function.update W o0 g4) o1 g5)
  isplitr
  · ipureintro
    refine ⟨fun b hb => ?_, ?_, ?_⟩
    · have hb0 : b ≠ o0 := fun h => hb (by rw [h]; exact Finset.mem_insert_self _ _)
      have hb1 : b ≠ o1 := fun h => hb (by rw [h]; exact Finset.mem_insert_of_mem (Finset.mem_singleton_self _))
      exact (Function.update_of_ne hb1 _ _).trans (Function.update_of_ne hb0 _ _)
    · -- the first result: every point writes its own block back, and no other point's block meets it
      intro t
      have e4 : Fs 4 = (dat1v W d).arrAt 4 (cfgA).N := (dat1v W d).toR_arrAt 4 (cfgA).N (Fs 4) h4
      have hfl := (dat1v W d).read_blk_arrAt_eq_flushed 4
        (fun u u' _ _ hne => ((cfgA).win 4).disjoint_blk (index4_inj u u' hne)) (cfgA).N t t.isLt (flush1_4 t)
      show (((cfgA).win 4).blk t).view.read (Elt F) (Function.update (Function.update W o0 g4) o1 g5 o0) = _
      rw [Function.update_of_ne o0_ne_o1, Function.update_self, hg4, e4, hfl]
      show (dat1v W d).after 4 t = _
      exact after1_4 W d t
    · -- the second result: the last point of each inner axis writes the running minimum back
      intro t ht
      have e5 : Fs 5 = (dat1v W d).arrAt 5 (cfgA).N := (dat1v W d).toR_arrAt 5 (cfgA).N (Fs 5) h5
      have hfl := (dat1v W d).read_blk_arrAt_eq_flushed 5
        (fun u u' hu hu' hne => ((cfgA).win 5).disjoint_blk (index5_inj u u' ((flush1_5 u).mp hu) ((flush1_5 u').mp hu') hne))
        (cfgA).N t t.isLt ((flush1_5 t).mpr ht)
      show (((cfgA).win 5).blk t).view.read (Elt F) (Function.update (Function.update W o0 g4) o1 g5 o1) = _
      rw [Function.update_self, hg5, e5, hfl]
      show (dat1v W d).after 5 t = _
      exact after1_5 W d t
  isplitr [HO]
  · rw [Pipeline.unscopedBufs_split (Pipeline.pin (pcfgs (F := F)) adm) 0 winFacts1.arr_unscoped winFacts1.arr_inj d]
    isplitl [Ha]
    · have hFs : ∀ w : Fin (cfgA).W, Fs w = Function.update (Function.update W o0 g4) o1 g5 (Proc.devRef .tc (Pipeline.arrRef (cfgA).spec w)) := by
        intro w
        rcases w with ⟨n, hn⟩
        have hn6 : n < 6 := hn
        match n, hn, hn6 with
        | 0, _, _ => exact h0.trans ((rdat1v_A W d 0).trans ((Function.update_of_ne (in_ne1 0 (by decide)) _ _).trans (Function.update_of_ne (in_ne0 0 (by decide)) _ _)).symm)
        | 1, _, _ => exact h1.trans ((rdat1v_A W d 1).trans ((Function.update_of_ne (in_ne1 1 (by decide)) _ _).trans (Function.update_of_ne (in_ne0 1 (by decide)) _ _)).symm)
        | 2, _, _ => exact h2.trans ((rdat1v_A W d 2).trans ((Function.update_of_ne (in_ne1 2 (by decide)) _ _).trans (Function.update_of_ne (in_ne0 2 (by decide)) _ _)).symm)
        | 3, _, _ => exact h3.trans ((rdat1v_A W d 3).trans ((Function.update_of_ne (in_ne1 3 (by decide)) _ _).trans (Function.update_of_ne (in_ne0 3 (by decide)) _ _)).symm)
        | 4, _, _ =>
          show Fs 4 = Function.update (Function.update W o0 g4) o1 g5 o0
          exact hg4.symm.trans ((Function.update_of_ne o0_ne_o1 g5 (Function.update W o0 g4)).trans (Function.update_self o0 g4 W)).symm
        | 5, _, _ =>
          show Fs 5 = Function.update (Function.update W o0 g4) o1 g5 o1
          exact hg5.symm.trans (Function.update_self o1 g5 (Function.update W o0 g4)).symm
        | k + 6, _, h6 => exact absurd h6 (by omega)
      have hA : (bigSep Finset.univ fun w : Fin (cfgA).W => (((d.tc : Thread nD τ).loc (Pipeline.arrRef (cfgA).spec w)) ↦{fullShare} Fs w : sProp 𝕄))
          ⊢ bigSep Finset.univ fun w : Fin (cfgA).W => (((d.tc : Thread nD τ).loc (Pipeline.arrRef (cfgA).spec w))
              ↦{fullShare} Function.update (Function.update W o0 g4) o1 g5 (Proc.devRef .tc (Pipeline.arrRef (cfgA).spec w)) : sProp 𝕄) :=
        Entails.of_eq (bigSep_congr fun w _ => by rw [← hFs w])
      iapply hA; iexact Ha
    · have hne : ∀ b : Ref sig .tc, b ∉ Finset.univ.image (Pipeline.arrRef (cfgA).spec)
          → (Proc.devRef .tc b : DevRef τ sig) ≠ o0 ∧ (Proc.devRef .tc b : DevRef τ sig) ≠ o1 := by
        intro b hb
        refine ⟨fun h => hb ?_, fun h => hb ?_⟩
        · rw [← arr4] at h
          exact Finset.mem_image.mpr ⟨4, Finset.mem_univ _, (arrRef1 (F := F) 4).trans (Proc.devRef_injective _ h).symm⟩
        · rw [← arr5] at h
          exact Finset.mem_image.mpr ⟨5, Finset.mem_univ _, (arrRef1 (F := F) 5).trans (Proc.devRef_injective _ h).symm⟩
      have hB : (Pipeline.unscopedRest (cfgA).spec d (fun b => W b) : sProp 𝕄)
          ⊢ Pipeline.unscopedRest (cfgA).spec d (fun b => Function.update (Function.update W o0 g4) o1 g5 b) := by
        unfold Pipeline.unscopedRest
        exact Entails.of_eq (bigSep_congr fun b hb => by
          obtain ⟨n0, n1⟩ := hne b (Finset.mem_sdiff.mp hb).2
          exact congrArg (fun x => (((d.tc : Thread nD τ).loc b) ↦{fullShare} x : sProp 𝕄))
            ((Function.update_of_ne n1 g5 (Function.update W o0 g4)).trans (Function.update_of_ne n0 g4 W)).symm)
      iapply hB; iexact Hrest
  iexact HO

end Exit

end Cert.KernelIdeal.Tc

end
-- ==== Proof.TcStep0V.lean ====
/-
  The first TensorCore region as one step of @main's proof inside the SparseCore program, with its values: as the
  frame-level step, and the valuation afterwards holds the kernel's payloads in the two result arrays' blocks.
-/
import proofs.«209750_g45337674776763_cont_8to1c4_158_37_alg».proof.Proof.TcExit1V
import proofs.«209750_g45337674776763_cont_8to1c4_158_37_alg».proof.Proof.TcStep0

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Step

variable [FloatOps F] [∀ e, Nonempty (Elt F e)]

/-- The first region, as a step, with its values. -/
theorem region_step0v (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx (EH (F := F)) P κ ∗ (K (F := F)).tcSt (EH (F := F)) d 1 ∗ boundary (T d)
        ∗ StableHlo.held (T d) (Pipeline.ucRefs τ sig) W ∗ G (F := F) d
        ∗ (∀ W' : Valuation τ sig (Elt F), ⌜(∀ b, b ∉ outs1 → W' b = W b) ∧ val1 W d W'⌝ -∗
            iprop((K (F := F)).tcSt (EH (F := F)) d 1 ∗ boundary (T d) ∗ StableHlo.held (T d) (Pipeline.ucRefs τ sig) W' ∗ Gp (F := F) 1 d) -∗ Φ ⟨⟩))
      ⊢ wp frame (wpE ((K (F := F)).defs (D (F := F))) 𝒱 (T d) none) Set.univ
          (Prog.lift (.customCall (SparseCore.inner (Pipeline.entry 0)) ())) Φ := by
  have eW := Pipeline.unscopedBufs_held (nD := nD) (τ := τ) (sig := sig) (Val := Elt F) (Ix := HIx 1) (Name := ℕ) (U := UU) (Lvl := ℕ) d W
  iintro ⟨#Hctx, Hst, Hb, Hheld, HG, Hk⟩
  ihave Hlev := (SparseCore.Cfg.ctx_levAts κ) $$ Hctx
  ihave Hs := (tcSt_owesB (F := F) d) $$ Hst
  icases Hs with ⟨HO, Hback⟩
  ihave HG' := (Entails.of_eq (G_def (F := F) d)) $$ HG
  icases HG' with ⟨⟨Hg0, Ht0⟩, HG1⟩
  ihave Hbufs := (Entails.of_eq eW.symm) $$ Hheld
  iapply (region1v_raw W (K (F := F)).lev (body1vR W) d Φ)
  isplitl [Hlev]; · iexact Hlev
  isplitl [Hb]; · iexact Hb
  isplitl [Hbufs]; · iexact Hbufs
  isplitl [HO]; · iexact HO
  isplitl [Hg0]; · iexact Hg0
  isplitl [Ht0]; · iexact Ht0
  iintro ⟨Hb, Hpost⟩
  ihave H := (post1v_held W d) $$ Hpost
  icases H with ⟨%W', %hW', Hbufs', HO⟩
  ihave Hst := Hback $$ HO
  have eW' := Pipeline.unscopedBufs_held (nD := nD) (τ := τ) (sig := sig) (Val := Elt F) (Ix := HIx 1) (Name := ℕ) (U := UU) (Lvl := ℕ) d W'
  ihave Hheld' := (Entails.of_eq eW') $$ Hbufs'
  iapply Hk $$ %W' %hW' [Hst Hb Hheld' HG1]
  isplitl [Hst]; · iexact Hst
  isplitl [Hb]; · iexact Hb
  isplitl [Hheld']; · iexact Hheld'
  iexact HG1

end Step

end Cert.KernelIdeal.Tc

end
-- ==== Proof.TcRegion2V.lean ====
/-
  The second TensorCore region's record again, over the proof data that names its staging buffers' contents (read
  relationally): what changes against the frame-level record is only the data.
-/
import proofs.«209750_g45337674776763_cont_8to1c4_158_37_alg».proof.Proof.TcVal2
import proofs.«209750_g45337674776763_cont_8to1c4_158_37_alg».proof.Proof.TcRegion1

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₂ : Valuation τ sig (Elt F)) (lv : GSem nD τ sig → HIx 1 → ℕ)

/-- Pipeline 1's datum as the family the regions kit takes (the other pipeline's is trivial). -/
abbrev fam2v : (p : Fin 2) → (c : Dev nD) → Pipeline.RDat τ (Elt F) (HIx 1) ℕ UU ℕ (Pipeline.pin (pcfgs (F := F)) adm p) c :=
  Pipeline.RDat.familyOf (pcfgs (F := F)) adm 1 (rdat2v W₂)

/-- What the region leaves: the windows' arrays at some contents they may hold after every write-back, the other
    unscoped buffers as they were, the debt as it was. -/
def post2v (c : Dev nD) : sProp 𝕄 :=
  iprop((rdat2v W₂ c).arraysAt (Pipeline.pin (pcfgs (F := F)) adm 1).N
    ∗ Pipeline.unscopedRest (Pipeline.pin (pcfgs (F := F)) adm 1).spec c (fun b => W₂ b) ∗ owesB (F := F) c)

theorem fam2v_self (c : Dev nD) : fam2v W₂ 1 c = rdat2v W₂ c := Pipeline.RDat.familyOf_self (pcfgs (F := F)) adm 1 (rdat2v W₂) c
-- the invariant is never compared by unfolding: the projection is reduced, the scoped rest stays folded
theorem rdat2v_Φ (c : Dev nD) (t : Fin ((Pipeline.pin (pcfgs (F := F)) adm 1).N + 1)) :
    (rdat2v W₂ c).Φ t = Pipeline.scopedRest (Pipeline.pin (pcfgs (F := F)) adm 1).spec c := by rw [Pipeline.Dat.toR_Φ]; exact dat2v_Φ W₂ c t
theorem rdat2v_A (c : Dev nD) (w : Fin (Pipeline.pin (pcfgs (F := F)) adm 1).W) :
    (rdat2v W₂ c).A w = W₂ (Pipeline.arrRef (Pipeline.pin (pcfgs (F := F)) adm 1).spec w) := by rw [Pipeline.Dat.toR_A]; exact dat2v_A W₂ c w
theorem rdat2v_q (c : Dev nD) (w : Fin (Pipeline.pin (pcfgs (F := F)) adm 1).W) : (rdat2v W₂ c).q w = fullShare := rfl
theorem rdat2v_owed (c : Dev nD) (t) : (rdat2v W₂ c).owed t = 0 := rfl
theorem rdat2v_bound (c : Dev nD) (t) :
    (rdat2v W₂ c).bound ι₀ t = recB (F := F) c ∪ (Pipeline.pin (pcfgs (F := F)) adm 1).waitPairs ι₀ := rfl

def reg2v (hbody : ∀ c, (rdat2v W₂ c).BodyObligation defs₀ 𝒱₀ ι₀ Set.univ) :
    Pipeline.RDat.RegionSeg (pcfgs (F := F)) adm (fam2v W₂) ι₀ defs₀ 𝒱₀ (KL (F := F)) lv 1 where
  win := winFacts2.to₀
  block_pos := block_pos2
  stage_whole := stage_whole2
  K := PEmpty
  osem k := k.elim
  ho := Pipeline.OwnSemFacts.none _
  hbody c := by rw [fam2v_self]; exact hbody c
  hwaits := Pipeline.RDat.hwaits_of_owed_zero _ _ _ _ _ _ 1 fun c t => by rw [fam2v_self]; exact rdat2v_owed W₂ c t
  pre c := iprop(unscopedBufs c (fun b => W₂ b) ∗ owesB (F := F) c)
  post c := post2v W₂ c
  X _ := iprop(emp)
  Y _ := iprop(emp)
  Z c := Pipeline.unscopedRest (Pipeline.pin (pcfgs (F := F)) adm 1).spec c (fun b => W₂ b)
  hentry c := by
    rw [fam2v_self, Pipeline.ownSems0_none, prefHeld_none]
    unfold Pipeline.RDat.owesAt
    rw [rdat2v_owed, rdat2v_bound]
    iintro ⟨⟨Hb, HO⟩, -, -⟩
    ihave Ha := (Pipeline.RDat.arrays_of_unscopedBufs (pcfgs (F := F)) adm (fam2v W₂) (p := 1) winFacts2 arr_whole2 c
      (fun w => by rw [fam2v_self]; exact Pipeline.RDat.share_full _ (rdat2v_q W₂ c) w) (fun b => W₂ b)
      (fun w => by rw [fam2v_self]; exact rdat2v_A W₂ c w)) $$ Hb
    icases Ha with ⟨Harr, Hrest⟩
    imodintro
    isplitl [Harr]; · iexact Harr
    isplitr; · iempintro
    isplitl [HO]
    · iapply (owesB_within (F := F) c _); iexact HO
    isplitr; · iempintro
    iexact Hrest
  hin c := by
    rw [fam2v_self, rdat2v_Φ]
    iintro ⟨-, -, HR⟩; iexact HR
  hout c := by
    rw [fam2v_self, Pipeline.ownSems0_none, rdat2v_Φ]
    iintro HR
    isplitr; · iempintro
    isplitr; · iempintro
    iexact HR
  hexit c := by
    rw [fam2v_self]
    unfold Pipeline.RDat.owesAt
    rw [rdat2v_owed, rdat2v_bound]
    iintro ⟨Harr, HO, -, HZ⟩
    imodintro
    unfold post2v
    isplitl [Harr]; · iexact Harr
    isplitl [HZ]; · iexact HZ
    iapply (within_owesB (F := F) c (Pipeline.pin (pcfgs (F := F)) adm 1)); iexact HO

end Region

end Cert.KernelIdeal.Tc

end
-- ==== Proof.TcRegion2VW.lean ====
/-
  The second TensorCore region as a step of @main inside the SparseCore program, over the value-carrying proof data.
-/
import proofs.«209750_g45337674776763_cont_8to1c4_158_37_alg».proof.Proof.TcRegion2V
import proofs.«209750_g45337674776763_cont_8to1c4_158_37_alg».proof.Proof.TcRegion1W

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Region

variable [FloatOps F] [∀ e, Nonempty (Elt F e)] (W₂ : Valuation τ sig (Elt F)) (lv : GSem nD τ sig → HIx 1 → ℕ)

set_option backward.isDefEq.respectTransparency.types false in
set_option maxHeartbeats 800000 in
theorem region2v_pipe (hbody : ∀ c, (rdat2v W₂ c).BodyObligation defs₀ 𝒱₀ ι₀ Set.univ) (d : Dev nD) (Φ : PUnit → sProp 𝕄) :
    iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2v W₂ d) -∗ Φ ⟨⟩))
      ⊢ wp frame (wpE (D (F := F)) 𝒱 (T d) none) Set.univ (callP (F := F) 1) Φ := by
  have h := Pipeline.RDat.RegionSeg.wp (pcfgs (F := F)) adm (fam2v W₂) ι₀ (phinj (F := F)) (EP (F := F)) defs₀ 𝒱₀ (KL (F := F)) lv
    (reg2v W₂ lv hbody) d none (fun _ h => nomatch h) (fun _ => .ret ⟨⟩) Φ
  have e : iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2v W₂ d) -∗ Φ ⟨⟩))
      ⊢ iprop((iprop(boundary (T d) ∗ post2v W₂ d) -∗ wp frame (wpE (D (F := F)) 𝒱 (T d) none) Set.univ (Prog.ret PUnit.unit) Φ)
        ∗ boundary (T d) ∗ iprop(unscopedBufs d (fun b => W₂ b) ∗ owesB (F := F) d) ∗ levAts (KL (F := F)) lv
        ∗ Pipeline.cellsGhost (Pipeline.pin (pcfgs (F := F)) adm) (EP (F := F)) 1 d ∗ Pipeline.toksInit (Pipeline.pin (pcfgs (F := F)) adm) (EP (F := F)) 1 d) := by
    iintro ⟨Hlev, Hb, Hbufs, HO, Hg, Ht, Hk⟩
    isplitl [Hk]
    · iintro H
      rw [wp_ret]
      imodintro
      iapply Hk; iexact H
    isplitl [Hb]; · iexact Hb
    isplitl [Hbufs HO]
    · isplitl [Hbufs] <;> iassumption
    isplitl [Hlev]; · iexact Hlev
    isplitl [Hg] <;> iassumption
  exact e.trans h

/-- The region as @main's line in the SparseCore program. -/
theorem region2v_raw (hbody : ∀ c, (rdat2v W₂ c).BodyObligation defs₀ 𝒱₀ ι₀ Set.univ) (d : Dev nD) (Φ : PUnit → sProp 𝕄) :
    iprop(levAts (KL (F := F)) lv ∗ boundary (T d) ∗ unscopedBufs d (fun b => W₂ b) ∗ owesB (F := F) d
        ∗ Pipeline.cellsGhost (Pipeline.pin (pcfgs (F := F)) adm) (EP (F := F)) 1 d ∗ Pipeline.toksInit (Pipeline.pin (pcfgs (F := F)) adm) (EP (F := F)) 1 d
        ∗ (iprop(boundary (T d) ∗ post2v W₂ d) -∗ Φ ⟨⟩))
      ⊢ wp frame (wpE ((K (F := F)).defs (D (F := F))) 𝒱 (T d) none) Set.univ (callS (F := F) 1) Φ :=
  (region2v_pipe W₂ lv hbody d Φ).trans (wp_callS 1 d Φ)

end Region

end Cert.KernelIdeal.Tc

end
-- ==== Proof.TcExit2V.lean ====
/-
  What the second region leaves, with its value: as at frame level, and the result array's one block holds the
  kernel's payload of the four input arrays' blocks at the entry valuation.
-/
import proofs.«209750_g45337674776763_cont_8to1c4_158_37_alg».proof.Proof.TcExit2
import proofs.«209750_g45337674776763_cont_8to1c4_158_37_alg».proof.Proof.TcRegion2VW
import Idealize.ShloMosaic.Lib.Pipeline.Value

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Exit

variable [FloatOps F] [∀ e, Nonempty (Elt F e)] (W : Valuation τ sig (Elt F))

local notation "cfgB" => Pipeline.pin (pcfgs (F := F)) adm 1

/-- The result array's one block holds the payload of the four input blocks at the entry valuation. -/
def val2 (d : Dev nD) (W' : Valuation τ sig (Elt F)) : Prop :=
  (((cfgB).win 4).blk t2_0).view.read (Elt F) (W' q0)
    = fun _ => k2_pay1 (iblk2 W d 3 t2_0) (iblk2 W d 3 t2_0) (iblk2 W d 1 t2_0) (iblk2 W d 2 t2_0) (iblk2 W d 0 t2_0)

theorem share2v (d : Dev nD) (w : Fin (cfgB).W) : (rdat2v W d).share w = fullShare :=
  Pipeline.RDat.share_full _ (rdat2v_q W d) w

/-- The arrays after the write-back: some contents per window, the inputs' the entry contents, all held whole. -/
theorem arraysAt2v_elim (d : Dev nD) :
    ((rdat2v W d).arraysAt (cfgB).N : sProp 𝕄)
      ⊢ iprop(∃ Fs : (w : Fin (cfgB).W) → Buf (Elt F) (((cfgB).win w).arr.view.loc (d.tc : Thread nD τ)),
          ⌜(Fs 0 = (rdat2v W d).A 0 ∧ Fs 1 = (rdat2v W d).A 1 ∧ Fs 2 = (rdat2v W d).A 2 ∧ Fs 3 = (rdat2v W d).A 3) ∧ (rdat2v W d).ArrAt 4 (cfgB).N (Fs 4)⌝
          ∗ bigSep Finset.univ fun w => (((d.tc : Thread nD τ).loc (Pipeline.arrRef (cfgB).spec w)) ↦{fullShare} Fs w : sProp 𝕄)) := by
  unfold Pipeline.RDat.arraysAt
  refine (bigSep_exists_pi Finset.univ _).trans ?_
  iintro ⟨%Fs, H⟩
  iexists Fs
  ihave H' := (Entails.of_eq (bigSep_sep' (Finset.univ : Finset (Fin (cfgB).W))
    (fun w => (iprop(⌜(rdat2v W d).ArrAt w (cfgB).N (Fs w)⌝) : sProp 𝕄))
    (fun w => (((cfgB).win w).arr.view.loc (d.tc : Thread nD τ) ↦[((cfgB).win w).arr.view.set]{(rdat2v W d).share w} Fs w : sProp 𝕄)))) $$ H
  icases H' with ⟨Hp, Ha⟩
  isplitl [Hp]
  · icases Hp with #Hp
    ihave %h0 := (pure_of_bigSep (F := F) Finset.univ (fun w => (rdat2v W d).ArrAt w (cfgB).N (Fs w)) (0 : Fin (cfgB).W) (Finset.mem_univ _)) $$ Hp
    ihave %h1 := (pure_of_bigSep (F := F) Finset.univ (fun w => (rdat2v W d).ArrAt w (cfgB).N (Fs w)) (1 : Fin (cfgB).W) (Finset.mem_univ _)) $$ Hp
    ihave %h2 := (pure_of_bigSep (F := F) Finset.univ (fun w => (rdat2v W d).ArrAt w (cfgB).N (Fs w)) (2 : Fin (cfgB).W) (Finset.mem_univ _)) $$ Hp
    ihave %h3 := (pure_of_bigSep (F := F) Finset.univ (fun w => (rdat2v W d).ArrAt w (cfgB).N (Fs w)) (3 : Fin (cfgB).W) (Finset.mem_univ _)) $$ Hp
    ihave %h4 := (pure_of_bigSep (F := F) Finset.univ (fun w => (rdat2v W d).ArrAt w (cfgB).N (Fs w)) (4 : Fin (cfgB).W) (Finset.mem_univ _)) $$ Hp
    ipureintro
    rw [(rdat2v W d).ArrAt_in 0 rfl] at h0
    rw [(rdat2v W d).ArrAt_in 1 rfl] at h1
    rw [(rdat2v W d).ArrAt_in 2 rfl] at h2
    rw [(rdat2v W d).ArrAt_in 3 rfl] at h3
    exact ⟨⟨h0, h1, h2, h3⟩, h4⟩
  · have e : (bigSep Finset.univ fun w => ((cfgB).win w).arr.view.loc (d.tc : Thread nD τ) ↦[((cfgB).win w).arr.view.set]{(rdat2v W d).share w} Fs w : sProp 𝕄)
        = (rdat2v W d).arrays Fs := rfl
    have e' := Pipeline.RDat.arrays_eq (pcfgs (F := F)) adm (fam2v W) 1 d arr_whole2 (fun w => by rw [fam2v_self]; exact share2v W d w) Fs
    rw [fam2v_self] at e'
    have h : (bigSep Finset.univ fun w => ((cfgB).win w).arr.view.loc (d.tc : Thread nD τ) ↦[((cfgB).win w).arr.view.set]{(rdat2v W d).share w} Fs w : sProp 𝕄)
        ⊢ bigSep Finset.univ fun w => (((d.tc : Thread nD τ).loc (Pipeline.arrRef (cfgB).spec w)) ↦{fullShare} Fs w : sProp 𝕄) :=
      Entails.of_eq (e.trans e')
    iapply h; iexact Ha

set_option maxHeartbeats 1000000 in
theorem post2v_held (d : Dev nD) :
    (post2v W d : sProp 𝕄) ⊢ iprop(∃ W' : Valuation τ sig (Elt F), ⌜(∀ b, b ∉ outs2 → W' b = W b) ∧ val2 W d W'⌝ ∗ unscopedBufs d (fun b => W' b) ∗ owesB (F := F) d) := by
  unfold post2v
  iintro ⟨Harr, Hrest, HO⟩
  ihave H := (arraysAt2v_elim W d) $$ Harr
  icases H with ⟨%Fs, %hin, Ha⟩
  obtain ⟨⟨h0, h1, h2, h3⟩, h4⟩ := hin
  -- the result's contents, typed as the valuation types them
  obtain ⟨g4, hg4⟩ : ∃ g4 : BufTy.Contents (Elt F) (q0 : DevRef τ sig).ty, g4 = Fs 4 := ⟨Fs 4, rfl⟩
  iexists (Function.update W q0 g4)
  isplitr
  · ipureintro
    refine ⟨fun b hb => ?_, ?_⟩
    · have hb0 : b ≠ q0 := fun h => hb (by rw [h]; exact Finset.mem_singleton_self _)
      exact Function.update_of_ne hb0 _ _
    · -- the result array is the data's, whose one block is what the one point wrote back
      have e4 : Fs 4 = (dat2v W d).arrAt 4 (cfgB).N := (dat2v W d).toR_arrAt 4 (cfgB).N (Fs 4) h4
      have hfl := (dat2v W d).read_blk_arrAt_eq_flushed 4
        (fun t t' _ _ hne => absurd ((fin_N2 t).trans (fin_N2 t').symm) hne) (cfgB).N t2_0 t2_0.isLt (flush2_4 t2_0)
      unfold val2
      show (((cfgB).win 4).blk t2_0).view.read (Elt F) (Function.update W q0 g4 q0) = _
      rw [Function.update_self, hg4, e4, hfl]
      show (dat2v W d).after 4 t2_0 = _
      exact after2_4 W d t2_0
  isplitr [HO]
  · rw [Pipeline.unscopedBufs_split (Pipeline.pin (pcfgs (F := F)) adm) 1 winFacts2.arr_unscoped winFacts2.arr_inj d]
    isplitl [Ha]
    · have hFs : ∀ w : Fin (cfgB).W, Fs w = Function.update W q0 g4 (Proc.devRef .tc (Pipeline.arrRef (cfgB).spec w)) := by
        intro w
        rcases w with ⟨n, hn⟩
        have hn5 : n < 5 := hn
        match n, hn, hn5 with
        | 0, _, _ => exact h0.trans ((rdat2v_A W d 0).trans (Function.update_of_ne (in2_ne 0 (by decide)) _ _).symm)
        | 1, _, _ => exact h1.trans ((rdat2v_A W d 1).trans (Function.update_of_ne (in2_ne 1 (by decide)) _ _).symm)
        | 2, _, _ => exact h2.trans ((rdat2v_A W d 2).trans (Function.update_of_ne (in2_ne 2 (by decide)) _ _).symm)
        | 3, _, _ => exact h3.trans ((rdat2v_A W d 3).trans (Function.update_of_ne (in2_ne 3 (by decide)) _ _).symm)
        | 4, _, _ =>
          show Fs 4 = Function.update W q0 g4 q0
          exact hg4.symm.trans (Function.update_self q0 g4 W).symm
        | k + 5, _, h5 => exact absurd h5 (by omega)
      have hA : (bigSep Finset.univ fun w : Fin (cfgB).W => (((d.tc : Thread nD τ).loc (Pipeline.arrRef (cfgB).spec w)) ↦{fullShare} Fs w : sProp 𝕄))
          ⊢ bigSep Finset.univ fun w : Fin (cfgB).W => (((d.tc : Thread nD τ).loc (Pipeline.arrRef (cfgB).spec w))
              ↦{fullShare} Function.update W q0 g4 (Proc.devRef .tc (Pipeline.arrRef (cfgB).spec w)) : sProp 𝕄) :=
        Entails.of_eq (bigSep_congr fun w _ => by rw [← hFs w])
      iapply hA; iexact Ha
    · have hne : ∀ b : Ref sig .tc, b ∉ Finset.univ.image (Pipeline.arrRef (cfgB).spec)
          → (Proc.devRef .tc b : DevRef τ sig) ≠ q0 := by
        intro b hb h
        rw [← arr2_4] at h
        exact hb (Finset.mem_image.mpr ⟨4, Finset.mem_univ _, (arrRef2 (F := F) 4).trans (Proc.devRef_injective _ h).symm⟩)
      have hB : (Pipeline.unscopedRest (cfgB).spec d (fun b => W b) : sProp 𝕄)
          ⊢ Pipeline.unscopedRest (cfgB).spec d (fun b => Function.update W q0 g4 b) := by
        unfold Pipeline.unscopedRest
        exact Entails.of_eq (bigSep_congr fun b hb => by
          have n0 := hne b (Finset.mem_sdiff.mp hb).2
          exact congrArg (fun x => (((d.tc : Thread nD τ).loc b) ↦{fullShare} x : sProp 𝕄))
            (Function.update_of_ne n0 g4 W).symm)
      iapply hB; iexact Hrest
  iexact HO

end Exit

end Cert.KernelIdeal.Tc

end
-- ==== Proof.TcStep1V.lean ====
/-
  The second TensorCore region as one step of @main's proof inside the SparseCore program, with its value: as the
  frame-level step, and the valuation afterwards holds, in the result array's one block, the kernel's payload of the
  four input arrays' blocks at the entry valuation.
-/
import proofs.«209750_g45337674776763_cont_8to1c4_158_37_alg».proof.Proof.TcExit2V
import proofs.«209750_g45337674776763_cont_8to1c4_158_37_alg».proof.Proof.TcStep1

noncomputable section

namespace Cert.KernelIdeal.Tc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type}

local notation "𝕄" => MT nD τ sig (HIx 1) (Elt F) ℕ UU ℕ

section Step

variable [FloatOps F] [∀ e, Nonempty (Elt F e)]

/-- The second region, as a step, with its value. -/
theorem region_step1v (P : (K (F := F)).Pay (nD := nD) (Val := Elt F) (Name := ℕ) (U := UU)) (κ : GSem nD τ sig → ℕ)
    (d : Dev nD) (W : Valuation τ sig (Elt F)) (Φ : PUnit → sProp 𝕄) :
    iprop((K (F := F)).ctx (EH (F := F)) P κ ∗ (K (F := F)).tcSt (EH (F := F)) d 1 ∗ boundary (T d)
        ∗ StableHlo.held (T d) (Pipeline.ucRefs τ sig) W ∗ Gp (F := F) 1 d
        ∗ (∀ W' : Valuation τ sig (Elt F), ⌜(∀ b, b ∉ outs2 → W' b = W b) ∧ val2 W d W'⌝ -∗
            iprop((K (F := F)).tcSt (EH (F := F)) d 1 ∗ boundary (T d) ∗ StableHlo.held (T d) (Pipeline.ucRefs τ sig) W' ∗ emp) -∗ Φ ⟨⟩))
      ⊢ wp frame (wpE ((K (F := F)).defs (D (F := F))) 𝒱 (T d) none) Set.univ
          (Prog.lift (.customCall (SparseCore.inner (Pipeline.entry 1)) ())) Φ := by
  have eW := Pipeline.unscopedBufs_held (nD := nD) (τ := τ) (sig := sig) (Val := Elt F) (Ix := HIx 1) (Name := ℕ) (U := UU) (Lvl := ℕ) d W
  iintro ⟨#Hctx, Hst, Hb, Hheld, ⟨Hg1, Ht1⟩, Hk⟩
  ihave Hlev := (SparseCore.Cfg.ctx_levAts κ) $$ Hctx
  ihave Hs := (tcSt_owesB (F := F) d) $$ Hst
  icases Hs with ⟨HO, Hback⟩
  ihave Hbufs := (Entails.of_eq eW.symm) $$ Hheld
  iapply (region2v_raw W (K (F := F)).lev (body2vR W) d Φ)
  isplitl [Hlev]; · iexact Hlev
  isplitl [Hb]; · iexact Hb
  isplitl [Hbufs]; · iexact Hbufs
  isplitl [HO]; · iexact HO
  isplitl [Hg1]; · iexact Hg1
  isplitl [Ht1]; · iexact Ht1
  iintro ⟨Hb, Hpost⟩
  ihave H := (post2v_held W d) $$ Hpost
  icases H with ⟨%W', %hW', Hbufs', HO⟩
  ihave Hst := Hback $$ HO
  have eW' := Pipeline.unscopedBufs_held (nD := nD) (τ := τ) (sig := sig) (Val := Elt F) (Ix := HIx 1) (Name := ℕ) (U := UU) (Lvl := ℕ) d W'
  ihave Hheld' := (Entails.of_eq eW') $$ Hbufs'
  iapply Hk $$ %W' %hW' [Hst Hb Hheld']
  isplitl [Hst]; · iexact Hst
  isplitl [Hb]; · iexact Hb
  isplitl [Hheld']; · iexact Hheld'
  iempintro

end Step

end Cert.KernelIdeal.Tc

end
-- ==== Proof.RefValue.lean ====
import proofs.«209750_g45337674776763_cont_8to1c4_158_37_alg».proof.Defs
import proofs.«209750_g45337674776763_cont_8to1c4_158_37_alg».proof.Proof.Gen.ReferenceIdeal
import proofs.«209750_g45337674776763_cont_8to1c4_158_37_alg».proof.Proof.Gen.ReferenceIdeal.Run
import proofs.«209750_g45337674776763_cont_8to1c4_158_37_alg».proof.Proof.Gen.ReferenceIdeal.Read
import Idealize.ShloMosaic.Lib.ValueIdx
import Idealize.ShloMosaic.PureOps.Ideal.Laws

/-!
  The reference, read as mathematics over the extended reals. For point sets `x₀`, `x₁` (four batches of 4096 points
  of three coordinates) it forms, per batch `b` and pair `(n, m)`, the clamped squared distance
  `max (‖x₀ n‖² + ‖x₁ m‖² − 2 ⟨x₀ n, x₁ m⟩) 0`; the nearest-neighbour distances are its minima over `m` and over `n`;
  the result is half the sum of the two means of their square roots.
-/

noncomputable section

namespace Cert.Proof.RefValue

open Cert.ReferenceIdeal Cert.ReferenceIdeal.Gen Cert.ReferenceIdeal.Read
open Idealize.ShloMosaic Idealize.ShloMosaic.TcCoe Idealize.SL.Sem Idealize.ShloMosaic.ValueIdx

/-- A point set: four batches of 4096 points of three coordinates. -/
abbrev Pts : Type := (⟨S4x4096x3, .f32⟩ : BufTy).Contents (Elt Ideal)

/-- The squared norm of point `n` of batch `b`. -/
def nrm (x : Pts) (b : Fin 4) (n : Fin 4096) : EReal := ∑ k : Fin 3, x (ix3 b n k) * x (ix3 b n k)
/-- The inner product of point `n` of `x₀` and point `m` of `x₁`, batch `b`. -/
def ip (x0 x1 : Pts) (b : Fin 4) (n m : Fin 4096) : EReal := ∑ k : Fin 3, x0 (ix3 b n k) * x1 (ix3 b m k)
/-- The clamped squared distance. -/
def dsq (x0 x1 : Pts) (b : Fin 4) (n m : Fin 4096) : EReal :=
  max ((nrm x0 b n + nrm x1 b m) - ((2 : ℝ) : EReal) * ip x0 x1 b n m) 0

/-- The reference's literal `2.0` denotes the real 2. -/
theorem ofBits_two : Ideal.ofBits .f32 0x40000000#32 = ((2 : ℝ) : EReal) := by
  simp [Ideal.ofBits, Ideal.ieee, -EReal.coe_mul]; norm_num

/-- The reference's table of clamped squared distances is `dsq`. -/
theorem v14_apply (x0 x1 : Pts) (b : Fin 4) (n m : Fin 4096) :
    val_main_v14 (F := Ideal) x0 x1 (ix3 b n m) = dsq x0 x1 b n m := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply, val_main_v13_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply, val_main_cst, val_main_cst_0, val_main_cst_1, val_main_cst_2, constant,
    Ideal.ofBits_def, Ideal.ofBits_zero_f32, ofBits_two, Ideal.addf_def, Ideal.subf_def, Ideal.mulf_def, Ideal.maximumf_def, zero_add]
  rfl

instance minimumf_comm : Std.Commutative (FloatOps.minimumf (F := Ideal) (φ := .f32)) := ⟨fun a b => min_comm a b⟩
instance minimumf_assoc : Std.Associative (FloatOps.minimumf (F := Ideal) (φ := .f32)) := ⟨fun a b c => min_assoc a b c⟩

/-- The reference's literal `+inf` is the top of the extended reals. -/
theorem ofBits_inf : Ideal.ofBits .f32 0x7F800000#32 = (⊤ : EReal) := by
  simp [Ideal.ofBits, Ideal.ieee]

theorem red2 : S4x4096x4096.Reduces [2] S4x4096 := by decide
theorem red1 : S4x4096x4096.Reduces [1] S4x4096 := by decide

theorem lift2 (b : Fin 4) (n m : Fin 4096) : red2.lift (ix2 b n) m = ix3 b n m := by
  funext a; apply Fin.ext
  match a with
  | ⟨0, _⟩ => rfl
  | ⟨1, _⟩ => rfl
  | ⟨2, _⟩ => rfl
theorem lift1 (b : Fin 4) (m n : Fin 4096) : red1.lift (ix2 b m) n = ix3 b n m := by
  funext a; apply Fin.ext
  match a with
  | ⟨0, _⟩ => rfl
  | ⟨1, _⟩ => rfl
  | ⟨2, _⟩ => rfl

/-- The squared distance from point `n` of `x₀` to its nearest neighbour in `x₁`: the minimum over `m`. -/
def near1 (x0 x1 : Pts) (b : Fin 4) (n : Fin 4096) : EReal := (Finset.univ : Finset (Fin 4096)).fold min ⊤ fun m => dsq x0 x1 b n m
/-- The squared distance from point `m` of `x₁` to its nearest neighbour in `x₀`: the minimum over `n`. -/
def near2 (x0 x1 : Pts) (b : Fin 4) (m : Fin 4096) : EReal := (Finset.univ : Finset (Fin 4096)).fold min ⊤ fun n => dsq x0 x1 b n m

theorem v15_apply (x0 x1 : Pts) (b : Fin 4) (n : Fin 4096) : val_main_v15 (F := Ideal) x0 x1 (ix2 b n) = near1 x0 x1 b n := by
  unfold val_main_v15 near1
  rw [Host.reduce_eq_fold_single (f := FloatOps.minimumf) _ _ reducesTo_S4x4096x4096_S4x4096_d2 red2 h_S_ (ix2 b n)]
  simp only [val_main_cst_3, constant, Ideal.ofBits_def, ofBits_inf]
  show (Finset.univ : Finset (Fin 4096)).fold min ⊤ (fun m => val_main_v14 (F := Ideal) x0 x1 (red2.lift (ix2 b n) m)) = _
  refine Finset.fold_congr fun m _ => ?_
  exact (congrArg (val_main_v14 (F := Ideal) x0 x1) (lift2 b n m)).trans (v14_apply x0 x1 b n m)

theorem v16_apply (x0 x1 : Pts) (b : Fin 4) (m : Fin 4096) : val_main_v16 (F := Ideal) x0 x1 (ix2 b m) = near2 x0 x1 b m := by
  unfold val_main_v16 near2
  rw [Host.reduce_eq_fold_single (f := FloatOps.minimumf) _ _ reducesTo_S4x4096x4096_S4x4096_d1 red1 h_S_ (ix2 b m)]
  simp only [val_main_cst_4, constant, Ideal.ofBits_def, ofBits_inf]
  show (Finset.univ : Finset (Fin 4096)).fold min ⊤ (fun n => val_main_v14 (F := Ideal) x0 x1 (red1.lift (ix2 b m) n)) = _
  refine Finset.fold_congr fun n _ => ?_
  exact (congrArg (val_main_v14 (F := Ideal) x0 x1) (lift1 b m n)).trans (v14_apply x0 x1 b n m)

/-- The reference's literal `16384.0` denotes the real 16384. -/
theorem ofBits_16384 : Ideal.ofBits .f32 0x46800000#32 = ((16384 : ℝ) : EReal) := by
  simp [Ideal.ofBits, Ideal.ieee, -EReal.coe_mul]; norm_num

/-- The reference's result: half the sum of the two means of the nearest-neighbour distances. -/
def refVal (x0 x1 : Pts) : EReal :=
  Ideal.div
    (Ideal.div (∑ j : S4x4096.Idx, Ideal.sqrt (near1 x0 x1 (j 0) (j 1))) ((16384 : ℝ) : EReal)
      + Ideal.div (∑ j : S4x4096.Idx, Ideal.sqrt (near2 x0 x1 (j 0) (j 1))) ((16384 : ℝ) : EReal))
    ((2 : ℝ) : EReal)

theorem v15_idx (x0 x1 : Pts) (j : S4x4096.Idx) : val_main_v15 (F := Ideal) x0 x1 j = near1 x0 x1 (j 0) (j 1) :=
  (congrArg (val_main_v15 (F := Ideal) x0 x1) (eq_ix2 j)).trans (v15_apply x0 x1 (j 0) (j 1))
theorem v16_idx (x0 x1 : Pts) (j : S4x4096.Idx) : val_main_v16 (F := Ideal) x0 x1 j = near2 x0 x1 (j 0) (j 1) :=
  (congrArg (val_main_v16 (F := Ideal) x0 x1) (eq_ix2 j)).trans (v16_apply x0 x1 (j 0) (j 1))

theorem sum17 (x0 x1 : Pts) :
    (∑ j : S4x4096.Idx, val_main_v17 (F := Ideal) x0 x1 j) = ∑ j : S4x4096.Idx, Ideal.sqrt (near1 x0 x1 (j 0) (j 1)) :=
  Finset.sum_congr rfl fun j _ => by rw [val_main_v17_apply, v15_idx]; rfl
theorem sum20 (x0 x1 : Pts) :
    (∑ j : S4x4096.Idx, val_main_v20 (F := Ideal) x0 x1 j) = ∑ j : S4x4096.Idx, Ideal.sqrt (near2 x0 x1 (j 0) (j 1)) :=
  Finset.sum_congr rfl fun j _ => by rw [val_main_v20_apply, v16_idx]; rfl

theorem v19_apply (x0 x1 : Pts) (i : S_.Idx) :
    val_main_v19 (F := Ideal) x0 x1 i = Ideal.div (∑ j : S4x4096.Idx, Ideal.sqrt (near1 x0 x1 (j 0) (j 1))) ((16384 : ℝ) : EReal) := by
  rw [val_main_v19_apply, val_main_v18_apply, sum17, val_main_cst_6_apply, Ideal.ofBits_def, ofBits_16384, Ideal.hostDivf_def]
  show Ideal.div (Ideal.ofBits .f32 0x00000000#32 + _) _ = _
  rw [Ideal.ofBits_zero_f32, zero_add]
theorem v22_apply (x0 x1 : Pts) (i : S_.Idx) :
    val_main_v22 (F := Ideal) x0 x1 i = Ideal.div (∑ j : S4x4096.Idx, Ideal.sqrt (near2 x0 x1 (j 0) (j 1))) ((16384 : ℝ) : EReal) := by
  rw [val_main_v22_apply, val_main_v21_apply, sum20, val_main_cst_8_apply, Ideal.ofBits_def, ofBits_16384, Ideal.hostDivf_def]
  show Ideal.div (Ideal.ofBits .f32 0x00000000#32 + _) _ = _
  rw [Ideal.ofBits_zero_f32, zero_add]

theorem v24_apply (x0 x1 : Pts) (i : S_.Idx) : val_main_v24 (F := Ideal) x0 x1 i = refVal x0 x1 := by
  rw [val_main_v24_apply, val_main_v23_apply, v19_apply, v22_apply, val_main_cst_9_apply, Ideal.ofBits_def, ofBits_two, Ideal.hostDivf_def,
    Ideal.addf_def]
  rfl

end Cert.Proof.RefValue

end
-- ==== Proof.Spec.lean ====
import proofs.«209750_g45337674776763_cont_8to1c4_158_37_alg».proof.Proof.RefValue

/-!
  The kernel's arrangement of the chamfer distance, read as mathematics over the extended reals. The 4096 points of
  the first set are split into the first 3584 and the last 512. For the first 3584 the squared distances are formed on
  coordinates padded from three to eight with zeros, as `(-2 x)·y + ‖y‖² + ‖x‖²`, minimised over the second set's points
  (per row) and over these 3584 rows (per column) and then clamped at zero; for the last 512 they are formed on the
  three coordinates as `‖x‖² + min (‖y‖² − 2 x·y)` and clamped. The result is the sum of all square roots, both ways,
  times `2⁻¹⁵`.
-/

noncomputable section

namespace Cert.Proof.Spec

open Cert.Proof.RefValue
open Idealize.ShloMosaic Idealize.ShloMosaic.ValueIdx

/-- Batch `b` of a point set: 4096 points of three coordinates. -/
abbrev pt (x : Pts) (b : Fin 4) : Fin 4096 → Fin 3 → EReal := fun n k => x (ix3 b n k)

/-- The squared norm of point `n`, summed from the left. -/
def sq3 (x : Fin 4096 → Fin 3 → EReal) (n : Fin 4096) : EReal := (x n 0 * x n 0 + x n 1 * x n 1) + x n 2 * x n 2
/-- The inner product of point `n` of `x` and point `m` of `y`, summed from the left. -/
def dot3 (x y : Fin 4096 → Fin 3 → EReal) (n m : Fin 4096) : EReal := (x n 0 * y m 0 + x n 1 * y m 1) + x n 2 * y m 2
/-- The real number 2. -/
def two : EReal := ((2 : ℝ) : EReal)

/-- The `n`-th of the first 3584 indices. -/
def lo (n : Fin 3584) : Fin 4096 := ⟨n.val, by have := n.isLt; omega⟩
/-- The `r`-th of the last 512 indices. -/
def hi (r : Fin 512) : Fin 4096 := ⟨3584 + r.val, by have := r.isLt; omega⟩

/-! ### The last 512 points of the first set against all of the second -/

/-- The clamped squared distance from point `3584 + r` of the first set to its nearest neighbour in the second. -/
def scd1 (a c : Pts) (b : Fin 4) (r : Fin 512) : EReal :=
  max (sq3 (pt a b) (hi r)
    + (Finset.univ : Finset (Fin 4096)).fold min ⊤ (fun m => sq3 (pt c b) m - two * dot3 (pt a b) (pt c b) (hi r) m)) 0
/-- The clamped squared distance from point `m` of the second set to its nearest neighbour among the last 512 points
    of the first. -/
def scd2 (a c : Pts) (b : Fin 4) (m : Fin 4096) : EReal :=
  max (sq3 (pt c b) m
    + (Finset.univ : Finset (Fin 512)).fold min ⊤ (fun r => sq3 (pt a b) (hi r) - two * dot3 (pt c b) (pt a b) m (hi r))) 0

/-! ### The first 3584 points of the first set against all of the second, on eight coordinates -/

/-- A point's coordinates padded from three to eight with zeros. -/
def pad (x : Fin 4096 → Fin 3 → EReal) (n : Fin 4096) (k : Fin 8) : EReal := if h : k.val < 3 then x n ⟨k.val, h⟩ else 0
/-- `∑ₖ (-2 xₖ) yₖ` over the eight padded coordinates. -/
def inner (a c : Pts) (b : Fin 4) (n : Fin 3584) (m : Fin 4096) : EReal :=
  ∑ k : Fin 8, (((-2 : ℝ) : EReal) * pad (pt a b) (lo n) k) * pad (pt c b) m k
/-- The squared norm of point `n` of the first set over the eight padded coordinates. -/
def n1 (a : Pts) (b : Fin 4) (n : Fin 3584) : EReal := ∑ k : Fin 8, pad (pt a b) (lo n) k * pad (pt a b) (lo n) k
/-- The squared norm of point `m` of the second set over the eight padded coordinates. -/
def n2 (c : Pts) (b : Fin 4) (m : Fin 4096) : EReal := ∑ k : Fin 8, pad (pt c b) m k * pad (pt c b) m k
/-- The clamped squared distance from point `n` (one of the first 3584) of the first set to its nearest neighbour. -/
def rowd (a c : Pts) (b : Fin 4) (n : Fin 3584) : EReal :=
  max ((Finset.univ : Finset (Fin 4096)).fold min ⊤ (fun m => inner a c b n m + n2 c b m) + n1 a b n) 0
/-- The column minimum over the first 3584 points of the first set, before the second set's norm is added. -/
def colmin (a c : Pts) (b : Fin 4) (m : Fin 4096) : EReal :=
  (Finset.univ : Finset (Fin 3584)).fold min ⊤ (fun n => inner a c b n m + n1 a b n)

/-! ### The two tables of nearest-neighbour squared distances, and the result -/

/-- Nearest-neighbour squared distance of point `n` of the first set. -/
def d1 (a c : Pts) (b : Fin 4) (n : Fin 4096) : EReal :=
  if h : n.val < 3584 then rowd a c b ⟨n.val, h⟩ else scd1 a c b ⟨n.val - 3584, by have := n.isLt; omega⟩
/-- Nearest-neighbour squared distance of point `m` of the second set. -/
def d2 (a c : Pts) (b : Fin 4) (m : Fin 4096) : EReal := min (max (colmin a c b m + n2 c b m) 0) (scd2 a c b m)

/-- The kernel's result: the sum of all the square roots, times `2⁻¹⁵`. -/
def kRaw (a c : Pts) : EReal :=
  ((∑ b : Fin 4, ∑ n : Fin 4096, Ideal.sqrt (d1 a c b n)) + (∑ b : Fin 4, ∑ m : Fin 4096, Ideal.sqrt (d2 a c b m)))
    * Ideal.ofBits .f32 0x38000000#32

/-- The literal `0x38000000` denotes `2⁻¹⁵ = 1/32768`. -/
theorem ofBits_inv32768 : Ideal.ofBits .f32 0x38000000#32 = ((1 / 32768 : ℝ) : EReal) := by
  simp [Ideal.ofBits, Ideal.ieee, -EReal.coe_mul]; norm_num

end Cert.Proof.Spec

end
-- ==== Proof.Glue0.lean ====
import proofs.«209750_g45337674776763_cont_8to1c4_158_37_alg».proof.Proof.ScMainOpsScI
import proofs.«209750_g45337674776763_cont_8to1c4_158_37_alg».proof.Proof.Spec
import Idealize.ShloMosaic.Lib.ValueLayout

/-!
  The first line of host operations, read at an index over the extended reals: the two transposes put the coordinate
  axis before the point axis; the change of format there and back is the identity on extended reals, so both copies
  of each transposed array coincide; the two strips are the last 512 points of the first set.
-/

noncomputable section

namespace Cert.Proof.Glue

open Cert.KernelIdeal Cert.KernelIdeal.Gen Cert.Proof.ScI Cert.Proof.Spec Cert.Proof.RefValue
open Idealize.ShloMosaic Idealize.ShloMosaic.ValueIdx Idealize.ShloMosaic.StableHlo Idealize.SL.Sem

variable (W : Valuation τ sig (Elt Ideal))

/-! ### The arrays after the line, as closed terms of the two arguments -/

theorem t_v0 : after (ops0 (F := Ideal)) W (Proc.devRef .tc main_v0)
    = transpose S4x3x4096 [0, 2, 1] (W (Proc.devRef .tc main_arg0)) transposes_S4x4096x3_S4x3x4096_0_2_1 := by
  delta ops0
  after_results_simp

theorem t_v1 : after (ops0 (F := Ideal)) W (Proc.devRef .tc main_v1)
    = transpose S4x3x4096 [0, 2, 1] (W (Proc.devRef .tc main_arg1)) transposes_S4x4096x3_S4x3x4096_0_2_1 := by
  delta ops0
  after_results_simp

theorem t_v8 : after (ops0 (F := Ideal)) W (Proc.devRef .tc main_v8)
    = extractStridedSlice S4x3x512 ![0, 0, 3584] (transpose S4x3x4096 [0, 2, 1]
        (W (Proc.devRef .tc main_arg0)) transposes_S4x4096x3_S4x3x4096_0_2_1) slices_S4x3x4096_S4x3x512_0_0_3584 := by
  delta ops0
  after_results_simp

/-! ### Read at an index -/

/-- A strip of the last 512 columns of a `[4, 3, 4096]` array reads the array at column `3584 + r`. -/
theorem strip_apply (X : (⟨S4x3x4096, .f32⟩ : BufTy).Contents (Elt Ideal)) (b : Fin 4) (k : Fin 3) (r : Fin 512) :
    extractStridedSlice S4x3x512 ![0, 0, 3584] X slices_S4x3x4096_S4x3x512_0_0_3584 (ix3 b k r) = X (ix3 b k (hi r)) :=
  extractStridedSlice_apply _ _ _ _ _ (fun ax => by
    match ax with
    | ⟨0, _⟩ => exact (Nat.zero_add _).symm
    | ⟨1, _⟩ => exact (Nat.zero_add _).symm
    | ⟨2, _⟩ => rfl)

variable {W} {a c : Pts} (hW0 : W (Proc.devRef .tc main_arg0) = a) (hW1 : W (Proc.devRef .tc main_arg1) = c)

include hW0 in
theorem v0_apply (b : Fin 4) (k : Fin 3) (n : Fin 4096) :
    after (ops0 (F := Ideal)) W (Proc.devRef .tc main_v0) (ix3 b k n) = a (ix3 b n k) := by
  rw [t_v0, hW0]
  exact transpose_ix3_021_apply a _ b k n

include hW0 in
theorem v5_apply (b : Fin 4) (k : Fin 3) (n : Fin 4096) :
    after (ops0 (F := Ideal)) W (Proc.devRef .tc main_v5) (ix3 b k n) = a (ix3 b n k) := by
  delta ops0
  after_results_simp
  rw [hW0]
  exact transpose_ix3_021_apply a _ b k n

include hW1 in
theorem v1_apply (b : Fin 4) (k : Fin 3) (m : Fin 4096) :
    after (ops0 (F := Ideal)) W (Proc.devRef .tc main_v1) (ix3 b k m) = c (ix3 b m k) := by
  rw [t_v1, hW1]
  exact transpose_ix3_021_apply c _ b k m

include hW1 in
theorem v6_apply (b : Fin 4) (k : Fin 3) (m : Fin 4096) :
    after (ops0 (F := Ideal)) W (Proc.devRef .tc main_v6) (ix3 b k m) = c (ix3 b m k) := by
  delta ops0
  after_results_simp
  rw [hW1]
  exact transpose_ix3_021_apply c _ b k m

include hW0 in
theorem v7_apply (b : Fin 4) (k : Fin 3) (r : Fin 512) :
    after (ops0 (F := Ideal)) W (Proc.devRef .tc main_v7) (ix3 b k r) = a (ix3 b (hi r) k) := by
  delta ops0
  after_results_simp
  rw [hW0, strip_apply]
  exact transpose_ix3_021_apply a _ b k (hi r)

include hW0 in
theorem v8_apply (b : Fin 4) (k : Fin 3) (r : Fin 512) :
    after (ops0 (F := Ideal)) W (Proc.devRef .tc main_v8) (ix3 b k r) = a (ix3 b (hi r) k) := by
  rw [t_v8, hW0, strip_apply]
  exact transpose_ix3_021_apply a _ b k (hi r)

end Cert.Proof.Glue

end
-- ==== Proof.Glue1.lean ====
import proofs.«209750_g45337674776763_cont_8to1c4_158_37_alg».proof.Proof.ScMainOpsScI
import proofs.«209750_g45337674776763_cont_8to1c4_158_37_alg».proof.Proof.Spec
import Idealize.ShloMosaic.Lib.ValueLayout

/-!
  The second line of host operations, read at an index over the extended reals: the SparseCore's result is cut into
  its first 512 and its last 4096 columns; each transposed array is padded on the coordinate axis from three rows to
  eight with zeros; the left operands are these padded arrays — one of them scaled by `-2` — transposed back and cut
  to the first 3584 points.
-/

noncomputable section

namespace Cert.Proof.Glue

open Cert.KernelIdeal Cert.KernelIdeal.Gen Cert.Proof.ScI Cert.Proof.Spec Cert.Proof.RefValue
open Idealize.ShloMosaic Idealize.ShloMosaic.ValueIdx Idealize.ShloMosaic.StableHlo Idealize.SL.Sem

/-- The literal `0xC0000000` denotes `-2`. -/
theorem ofBits_neg_two : Ideal.ofBits .f32 0xC0000000#32 = ((-2 : ℝ) : EReal) := by
  simp [Ideal.ofBits, Ideal.ieee, -EReal.coe_mul]; norm_num

/-- The block of zeros reads zero everywhere. -/
theorem zeros_apply (j : S4x5x4096.Idx) :
    broadcastInDim S4x5x4096 ![] bcast_S_S4x5x4096 (constant (F := Ideal) S_ .f32 0x00000000#32) j = 0 := by
  rw [broadcastInDim_apply _ bcast_S_S4x5x4096 _ j (fun a => a.elim0) (fun a => a.elim0)]
  exact Ideal.ofBits_zero_f32

/-- The block of `-2` reads `-2` everywhere. -/
theorem neg_twos_apply (j : S4x8x4096.Idx) :
    broadcastInDim S4x8x4096 ![] bcast_S_S4x8x4096 (constant (F := Ideal) S_ .f32 0xC0000000#32) j = ((-2 : ℝ) : EReal) := by
  rw [broadcastInDim_apply _ bcast_S_S4x8x4096 _ j (fun a => a.elim0) (fun a => a.elim0)]
  exact ofBits_neg_two

/-- A transposed point set joined, on the coordinate axis, with a block that reads zero everywhere reads the padded
    coordinate. -/
theorem padcat_apply' (X : (⟨S4x3x4096, .f32⟩ : BufTy).Contents (Elt Ideal)) (Z : (⟨S4x5x4096, .f32⟩ : BufTy).Contents (Elt Ideal))
    (hZ : ∀ j, Z j = 0) (x : Pts)
    (hX : ∀ (b : Fin 4) (k : Fin 3) (n : Fin 4096), X (ix3 b k n) = x (ix3 b n k)) (b : Fin 4) (k : Fin 8) (m : Fin 4096) :
    concatenate S4x8x4096 1 [⟨S4x3x4096, X⟩, ⟨S4x5x4096, Z⟩] concatenates_S4x3x4096_S4x5x4096_S4x8x4096_d1 (ix3 b k m)
      = Spec.pad (pt x b) m k := by
  unfold Spec.pad
  by_cases h : k.val < 3
  · rw [dif_pos h]
    refine (concatenate_pair_apply_left 1 X Z _ (ix3 b k m) rfl (ix3 b ⟨k.val, h⟩ m) (fun ax => ?_)).trans (hX b ⟨k.val, h⟩ m)
    match ax with
    | ⟨0, _⟩ => rfl
    | ⟨1, _⟩ => rfl
    | ⟨2, _⟩ => rfl
  · rw [dif_neg h]
    refine (concatenate_pair_apply_right 1 X Z _ (ix3 b k m) rfl rfl
      (ix3 b ⟨k.val - 3, by have := k.isLt; omega⟩ m) (fun ax hne => ?_) ?_).trans (hZ _)
    · match ax with
      | ⟨0, _⟩ => rfl
      | ⟨1, _⟩ => exact absurd rfl hne
      | ⟨2, _⟩ => rfl
    · show (k.val - 3) + 3 = k.val
      omega

/-- A transposed point set padded from three rows to eight with the block of zeros reads the padded coordinate. -/
theorem padcat_apply (X : (⟨S4x3x4096, .f32⟩ : BufTy).Contents (Elt Ideal)) (x : Pts)
    (hX : ∀ (b : Fin 4) (k : Fin 3) (n : Fin 4096), X (ix3 b k n) = x (ix3 b n k)) (b : Fin 4) (k : Fin 8) (m : Fin 4096) :
    concatenate S4x8x4096 1 [⟨S4x3x4096, X⟩, ⟨S4x5x4096, broadcastInDim S4x5x4096 ![] bcast_S_S4x5x4096
        (constant (F := Ideal) S_ .f32 0x00000000#32)⟩] concatenates_S4x3x4096_S4x5x4096_S4x8x4096_d1 (ix3 b k m)
      = Spec.pad (pt x b) m k :=
  padcat_apply' X _ zeros_apply x hX b k m

/-- The cut to the first 3584 points of a `[4, 4096, 8]` array reads the array at the same point. -/
theorem cut_apply (X : (⟨S4x4096x8, .f32⟩ : BufTy).Contents (Elt Ideal)) (b : Fin 4) (n : Fin 3584) (k : Fin 8) :
    extractStridedSlice S4x3584x8 ![0, 0, 0] X slices_S4x4096x8_S4x3584x8_0_0_0 (ix3 b n k) = X (ix3 b (lo n) k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

section Line
variable {V' : Valuation τ sig (Elt Ideal)} {a c : Pts} {g : (⟨S4x4608, .f32⟩ : BufTy).Contents (Elt Ideal)}
  (h0 : ∀ (b : Fin 4) (k : Fin 3) (n : Fin 4096), V' (Proc.devRef .tc main_v0) (ix3 b k n) = a (ix3 b n k))
  (h5 : ∀ (b : Fin 4) (k : Fin 3) (n : Fin 4096), V' (Proc.devRef .tc main_v5) (ix3 b k n) = a (ix3 b n k))
  (h1 : ∀ (b : Fin 4) (k : Fin 3) (m : Fin 4096), V' (Proc.devRef .tc main_v1) (ix3 b k m) = c (ix3 b m k))
  (h6 : ∀ (b : Fin 4) (k : Fin 3) (m : Fin 4096), V' (Proc.devRef .tc main_v6) (ix3 b k m) = c (ix3 b m k))
  (h9 : V' (Proc.devRef .tc main_v9) = g)

include h9 in
/-- The first 512 columns of the SparseCore's result. -/
theorem v10_apply (b : Fin 4) (r : Fin 512) :
    after (ops1 (F := Ideal)) V' (Proc.devRef .tc main_v10) (ix2 b r) = g (ix2 b ⟨r.val, by have := r.isLt; omega⟩) := by
  delta ops1
  after_results_simp
  rw [h9]
  exact extractStridedSlice_apply _ _ _ _ _ (fun ax => by
    match ax with
    | ⟨0, _⟩ => exact (Nat.zero_add _).symm
    | ⟨1, _⟩ => exact (Nat.zero_add _).symm)

include h9 in
/-- The last 4096 columns of the SparseCore's result. -/
theorem v11_apply (b : Fin 4) (m : Fin 4096) :
    after (ops1 (F := Ideal)) V' (Proc.devRef .tc main_v11) (ix2 b m) = g (ix2 b ⟨512 + m.val, by have := m.isLt; omega⟩) := by
  delta ops1
  after_results_simp
  rw [h9]
  exact slice2_axis1_apply 512 g _ b m _ rfl

include h6 in
theorem v16_apply (b : Fin 4) (k : Fin 8) (m : Fin 4096) :
    after (ops1 (F := Ideal)) V' (Proc.devRef .tc main_v16) (ix3 b k m) = Spec.pad (pt c b) m k := by
  delta ops1
  after_results_simp
  exact padcat_apply _ c h6 b k m

include h1 in
theorem v15_apply (b : Fin 4) (k : Fin 8) (m : Fin 4096) :
    after (ops1 (F := Ideal)) V' (Proc.devRef .tc main_v15) (ix3 b k m) = Spec.pad (pt c b) m k := by
  delta ops1
  after_results_simp
  exact padcat_apply _ c h1 b k m

include h0 in
theorem v22_apply (b : Fin 4) (n : Fin 3584) (k : Fin 8) :
    after (ops1 (F := Ideal)) V' (Proc.devRef .tc main_v22) (ix3 b n k) = Spec.pad (pt a b) (lo n) k := by
  delta ops1
  after_results_simp
  rw [cut_apply, transpose_ix3_021_apply]
  exact padcat_apply _ a h0 b k (lo n)

include h5 in
theorem v20_apply (b : Fin 4) (n : Fin 3584) (k : Fin 8) :
    after (ops1 (F := Ideal)) V' (Proc.devRef .tc main_v20) (ix3 b n k) = ((-2 : ℝ) : EReal) * Spec.pad (pt a b) (lo n) k := by
  delta ops1
  after_results_simp
  rw [cut_apply, transpose_ix3_021_apply, mulf_apply, neg_twos_apply]
  exact congrArg (((-2 : ℝ) : EReal) * ·) (padcat_apply _ a h5 b k (lo n))

end Line

end Cert.Proof.Glue

end
-- ==== Proof.Glue01.lean ====
import proofs.«209750_g45337674776763_cont_8to1c4_158_37_alg».proof.Proof.Glue0
import proofs.«209750_g45337674776763_cont_8to1c4_158_37_alg».proof.Proof.Glue1

/-!
  The first two lines of host operations together: from the two arguments, with the SparseCore's result put in its
  array between the lines, the second line's arrays are the SparseCore's two halves and the padded, scaled and
  transposed point sets.
-/

noncomputable section

namespace Cert.Proof.Glue

open Cert.KernelIdeal Cert.KernelIdeal.Gen Cert.Proof.ScI Cert.Proof.Spec Cert.Proof.RefValue
open Idealize.ShloMosaic Idealize.ShloMosaic.ValueIdx Idealize.ShloMosaic.StableHlo Idealize.SL.Sem

variable {W : Valuation τ sig (Elt Ideal)} {a c : Pts}
  (hW0 : W (Proc.devRef .tc main_arg0) = a) (hW1 : W (Proc.devRef .tc main_arg1) = c)
  (g : (⟨S4x4608, .f32⟩ : BufTy).Contents (Elt Ideal))

/-- The arrays after the first line with the SparseCore's result `g` put in its array. -/
abbrev mid (W : Valuation τ sig (Elt Ideal)) (g : (⟨S4x4608, .f32⟩ : BufTy).Contents (Elt Ideal)) : Valuation τ sig (Elt Ideal) :=
  Function.update (after (ops0 (F := Ideal)) W) (Proc.devRef .tc main_v9) g

theorem mid_v9 : mid W g (Proc.devRef .tc main_v9) = g := Function.update_self _ _ _

theorem mid_of_ne {r : Ref sig .tc} (h : r ≠ main_v9) :
    mid W g (Proc.devRef .tc r) = after (ops0 (F := Ideal)) W (Proc.devRef .tc r) :=
  Function.update_of_ne (devRef_ne_of_ne h) _ _

theorem u_v10_apply (b : Fin 4) (r : Fin 512) :
    after (ops1 (F := Ideal)) (mid W g) (Proc.devRef .tc main_v10) (ix2 b r) = g (ix2 b ⟨r.val, by have := r.isLt; omega⟩) :=
  v10_apply (mid_v9 g) b r

theorem u_v11_apply (b : Fin 4) (m : Fin 4096) :
    after (ops1 (F := Ideal)) (mid W g) (Proc.devRef .tc main_v11) (ix2 b m) = g (ix2 b ⟨512 + m.val, by have := m.isLt; omega⟩) :=
  v11_apply (mid_v9 g) b m

include hW1 in
theorem u_v16_apply (b : Fin 4) (k : Fin 8) (m : Fin 4096) :
    after (ops1 (F := Ideal)) (mid W g) (Proc.devRef .tc main_v16) (ix3 b k m) = Spec.pad (pt c b) m k :=
  v16_apply (fun b k m => by rw [mid_of_ne g (by decide)]; exact v6_apply hW1 b k m) b k m

include hW1 in
theorem u_v15_apply (b : Fin 4) (k : Fin 8) (m : Fin 4096) :
    after (ops1 (F := Ideal)) (mid W g) (Proc.devRef .tc main_v15) (ix3 b k m) = Spec.pad (pt c b) m k :=
  v15_apply (fun b k m => by rw [mid_of_ne g (by decide)]; exact v1_apply hW1 b k m) b k m

include hW0 in
theorem u_v22_apply (b : Fin 4) (n : Fin 3584) (k : Fin 8) :
    after (ops1 (F := Ideal)) (mid W g) (Proc.devRef .tc main_v22) (ix3 b n k) = Spec.pad (pt a b) (lo n) k :=
  v22_apply (fun b k n => by rw [mid_of_ne g (by decide)]; exact v0_apply hW0 b k n) b n k

include hW0 in
theorem u_v20_apply (b : Fin 4) (n : Fin 3584) (k : Fin 8) :
    after (ops1 (F := Ideal)) (mid W g) (Proc.devRef .tc main_v20) (ix3 b n k)
      = ((-2 : ℝ) : EReal) * Spec.pad (pt a b) (lo n) k :=
  v20_apply (fun b k n => by rw [mid_of_ne g (by decide)]; exact v5_apply hW0 b k n) b n k

end Cert.Proof.Glue

end
-- ==== Proof.Glue2.lean ====
import proofs.«209750_g45337674776763_cont_8to1c4_158_37_alg».proof.Proof.ScMainOpsScI
import proofs.«209750_g45337674776763_cont_8to1c4_158_37_alg».proof.Proof.Spec
import Idealize.ShloMosaic.Lib.ValueLayout

/-!
  The third and fourth lines of host operations, read at an index. The first region's row results, 28 blocks of 512,
  are laid out as four rows of 3584 and followed, in each row, by the SparseCore's 512; the column results drop their
  unit axis; the last line drops both unit axes of the scalar result.
-/

noncomputable section

namespace Cert.Proof.Glue

open Cert.KernelIdeal Cert.KernelIdeal.Gen Cert.Proof.ScI
open Idealize.ShloMosaic Idealize.ShloMosaic.ValueIdx Idealize.ShloMosaic.StableHlo Idealize.SL.Sem

variable (W2 : Valuation τ sig (Elt Ideal))

/-- The first table: for a point among the first 3584, block `7 b + n / 512` at position `n % 512` of the first region's
    row results; for one among the last 512, the SparseCore's. -/
theorem v25_apply (b : Fin 4) (n : Fin 4096) :
    after (ops2 (F := Ideal)) W2 (Proc.devRef .tc main_v25) (ix2 b n)
      = if h : n.val < 3584 then
          W2 (Proc.devRef .tc main_v23_0) (ix3 (⟨b.val * 7 + n.val / 512, by have := b.isLt; omega⟩ : Fin 28) (0 : Fin 1)
            (⟨n.val % 512, Nat.mod_lt _ (by norm_num)⟩ : Fin 512))
        else W2 (Proc.devRef .tc main_v10) (ix2 b (⟨n.val - 3584, by have := n.isLt; omega⟩ : Fin 512)) := by
  delta ops2
  after_results_simp
  by_cases h : n.val < 3584
  · rw [dif_pos h]
    refine (concatenate_pair_apply_left (s₁ := S4x3584) (s₂ := S4x512) 1 _ _ _ (ix2 b n) rfl (ix2 b (⟨n.val, h⟩ : Fin 3584)) (fun ax => ?_)).trans ?_
    · match ax with
      | ⟨0, _⟩ => rfl
      | ⟨1, _⟩ => rfl
    · refine shapeCast_apply (s := S28x1x512) (t := S4x3584) _ _ _ _ ?_
      rw [Shape.rowMajor_val_three, Shape.rowMajor_val_two]
      show ((b.val * 7 + n.val / 512) * 1 + 0) * 512 + n.val % 512 = b.val * 3584 + n.val
      omega
  · rw [dif_neg h]
    refine concatenate_pair_apply_right (s₁ := S4x3584) (s₂ := S4x512) 1 _ _ _ (ix2 b n) rfl rfl
      (ix2 b (⟨n.val - 3584, by have := n.isLt; omega⟩ : Fin 512)) (fun ax hne => ?_) ?_
    · match ax with
      | ⟨0, _⟩ => rfl
      | ⟨1, _⟩ => exact absurd rfl hne
    · show (n.val - 3584) + 3584 = n.val
      omega

/-- The column results with their unit axis dropped. -/
theorem v26_apply (b : Fin 4) (m : Fin 4096) :
    after (ops2 (F := Ideal)) W2 (Proc.devRef .tc main_v26) (ix2 b m)
      = W2 (Proc.devRef .tc main_v23_1) (ix3 b (0 : Fin 1) m) := by
  delta ops2
  after_results_simp
  refine shapeCast_apply (s := S4x1x4096) (t := S4x4096) _ _ _ _ ?_
  rw [Shape.rowMajor_val_three, Shape.rowMajor_val_two]
  show (b.val * 1 + 0) * 4096 + m.val = b.val * 4096 + m.val
  omega

/-- The line leaves the SparseCore's second half and the padded second point set as they were. -/
theorem v11_keep : after (ops2 (F := Ideal)) W2 (Proc.devRef .tc main_v11) = W2 (Proc.devRef .tc main_v11) := by
  delta ops2
  after_results_simp
theorem v15_keep : after (ops2 (F := Ideal)) W2 (Proc.devRef .tc main_v15) = W2 (Proc.devRef .tc main_v15) := by
  delta ops2
  after_results_simp

/-- The scalar result with both unit axes dropped. -/
theorem v28_apply (W3 : Valuation τ sig (Elt Ideal)) (j : S_.Idx) :
    after (ops3 (F := Ideal)) W3 (Proc.devRef .tc main_v28) j = W3 (Proc.devRef .tc main_v27) (ix2 (0 : Fin 1) (0 : Fin 1)) := by
  delta ops3
  after_results_simp
  refine shapeCast_apply (s := S1x1) (t := S_) _ _ _ _ ?_
  rw [Shape.rowMajor_val_two]
  exact (Shape.rowMajorPi_zero _ _).symm

end Cert.Proof.Glue

end
-- ==== Proof.GlueBlk2.lean ====
import proofs.«209750_g45337674776763_cont_8to1c4_158_37_alg».proof.Proof.TcExit2V
import Idealize.ShloMosaic.Lib.ValueLayout

/-!
  The second TensorCore region's blocks read at an index: every window's block is its whole array, so the block at
  the one grid point reads the array at the same index.
-/

noncomputable section

namespace Cert.Proof.Glue

open Cert.KernelIdeal Cert.KernelIdeal.Gen Cert.KernelIdeal.Tc
open Idealize.ShloMosaic Idealize.ShloMosaic.ValueIdx

local notation "cfgB" => Pipeline.pin (pcfgs (F := Ideal)) adm 1

theorem iblk2_0_apply (W : Valuation τ sig (Elt Ideal)) (d : Dev nD) (b : Fin 4) (n : Fin 4096) :
    iblk2 W d 0 t2_0 (ix2 b n) = W (Proc.devRef .tc main_v25) (ix2 b n) := by
  delta iblk2
  refine (View.read_apply _ _).trans ?_
  refine congrArg (W (Proc.devRef .tc main_v25)) (funext fun a => Fin.ext ?_)
  match a with
  | ⟨0, _⟩ =>
    refine (Pipeline.Window.rect_emb_val win2_0 t2_0 _ ⟨0, by decide⟩).trans ?_
    show 0 * 4 + b.val = b.val
    omega
  | ⟨1, _⟩ =>
    refine (Pipeline.Window.rect_emb_val win2_0 t2_0 _ ⟨1, by decide⟩).trans ?_
    show 0 * 4096 + n.val = n.val
    omega

theorem iblk2_1_apply (W : Valuation τ sig (Elt Ideal)) (d : Dev nD) (b : Fin 4) (n : Fin 4096) :
    iblk2 W d 1 t2_0 (ix2 b n) = W (Proc.devRef .tc main_v26) (ix2 b n) := by
  delta iblk2
  refine (View.read_apply _ _).trans ?_
  refine congrArg (W (Proc.devRef .tc main_v26)) (funext fun a => Fin.ext ?_)
  match a with
  | ⟨0, _⟩ =>
    refine (Pipeline.Window.rect_emb_val win2_1 t2_0 _ ⟨0, by decide⟩).trans ?_
    show 0 * 4 + b.val = b.val
    omega
  | ⟨1, _⟩ =>
    refine (Pipeline.Window.rect_emb_val win2_1 t2_0 _ ⟨1, by decide⟩).trans ?_
    show 0 * 4096 + n.val = n.val
    omega

theorem iblk2_2_apply (W : Valuation τ sig (Elt Ideal)) (d : Dev nD) (b : Fin 4) (n : Fin 4096) :
    iblk2 W d 2 t2_0 (ix2 b n) = W (Proc.devRef .tc main_v11) (ix2 b n) := by
  delta iblk2
  refine (View.read_apply _ _).trans ?_
  refine congrArg (W (Proc.devRef .tc main_v11)) (funext fun a => Fin.ext ?_)
  match a with
  | ⟨0, _⟩ =>
    refine (Pipeline.Window.rect_emb_val win2_2 t2_0 _ ⟨0, by decide⟩).trans ?_
    show 0 * 4 + b.val = b.val
    omega
  | ⟨1, _⟩ =>
    refine (Pipeline.Window.rect_emb_val win2_2 t2_0 _ ⟨1, by decide⟩).trans ?_
    show 0 * 4096 + n.val = n.val
    omega

theorem iblk2_3_apply (W : Valuation τ sig (Elt Ideal)) (d : Dev nD) (b : Fin 4) (k : Fin 8) (m : Fin 4096) :
    iblk2 W d 3 t2_0 (ix3 b k m) = W (Proc.devRef .tc main_v15) (ix3 b k m) := by
  delta iblk2
  refine (View.read_apply _ _).trans ?_
  refine congrArg (W (Proc.devRef .tc main_v15)) (funext fun a => Fin.ext ?_)
  match a with
  | ⟨0, _⟩ =>
    refine (Pipeline.Window.rect_emb_val win2_3 t2_0 _ ⟨0, by decide⟩).trans ?_
    show 0 * 4 + b.val = b.val
    omega
  | ⟨1, _⟩ =>
    refine (Pipeline.Window.rect_emb_val win2_3 t2_0 _ ⟨1, by decide⟩).trans ?_
    show 0 * 8 + k.val = k.val
    omega
  | ⟨2, _⟩ =>
    refine (Pipeline.Window.rect_emb_val win2_3 t2_0 _ ⟨2, by decide⟩).trans ?_
    show 0 * 4096 + m.val = m.val
    omega

/-- The scalar result's block is its whole `[1, 1]` array. -/
theorem out2_apply (X : (⟨S1x1, .f32⟩ : BufTy).Contents (Elt Ideal)) :
    (((cfgB).win 4).blk t2_0).view.read (Elt Ideal) X (ix2 (0 : Fin 1) (0 : Fin 1)) = X (ix2 (0 : Fin 1) (0 : Fin 1)) := by
  refine (View.read_apply _ _).trans ?_
  refine congrArg X (funext fun a => Fin.ext ?_)
  match a with
  | ⟨0, _⟩ =>
    refine (Pipeline.Window.rect_emb_val win2_4 t2_0 _ ⟨0, by decide⟩).trans ?_
    show 0 * 1 + 0 = 0
    omega
  | ⟨1, _⟩ =>
    refine (Pipeline.Window.rect_emb_val win2_4 t2_0 _ ⟨1, by decide⟩).trans ?_
    show 0 * 1 + 0 = 0
    omega

end Cert.Proof.Glue

end
-- ==== Proof.GlueBlk1.lean ====
import proofs.«209750_g45337674776763_cont_8to1c4_158_37_alg».proof.Proof.TcExit1V
import Idealize.ShloMosaic.Lib.ValueLayout

/-!
  The first TensorCore region's blocks read at an index: the block of an array at a grid point, at a block index, is the
  array at the block's position times the block's size plus the block index. The 28 grid points are `(g, t)`, point
  number `7 g + t`: the left operands' blocks are the 512 points `512 t + i` of batch `g`, the right operands' all of
  batch `g`; the row results' block is block `7 g + t`, the column results' block `g`.
-/

noncomputable section

namespace Cert.Proof.Glue

open Cert.KernelIdeal Cert.KernelIdeal.Gen Cert.KernelIdeal.Tc
open Idealize.ShloMosaic Idealize.ShloMosaic.ValueIdx

local notation "cfgA" => Pipeline.pin (pcfgs (F := Ideal)) adm 0

/-! ### The index maps over the 28 points -/

theorem idx1_0 : ∀ t : Fin grid1.N, win1_0.index t 0 = t.val / 7 ∧ win1_0.index t 1 = t.val % 7 ∧ win1_0.index t 2 = 0 := by
  decide +kernel
theorem idx1_1 : ∀ t : Fin grid1.N, win1_1.index t 0 = t.val / 7 ∧ win1_1.index t 1 = t.val % 7 ∧ win1_1.index t 2 = 0 := by
  decide +kernel
theorem idx1_2 : ∀ t : Fin grid1.N, win1_2.index t 0 = t.val / 7 ∧ win1_2.index t 1 = 0 ∧ win1_2.index t 2 = 0 := by
  decide +kernel
theorem idx1_3 : ∀ t : Fin grid1.N, win1_3.index t 0 = t.val / 7 ∧ win1_3.index t 1 = 0 ∧ win1_3.index t 2 = 0 := by
  decide +kernel
theorem idx1_4 : ∀ t : Fin grid1.N, win1_4.index t 0 = t.val ∧ win1_4.index t 1 = 0 ∧ win1_4.index t 2 = 0 := by
  decide +kernel
theorem idx1_5 : ∀ t : Fin grid1.N, win1_5.index t 0 = t.val / 7 ∧ win1_5.index t 1 = 0 ∧ win1_5.index t 2 = 0 := by
  decide +kernel

/-! ### The input blocks -/

/-- The scaled left operand's block at point `t`: the points `512 (t % 7) + i` of batch `t / 7`. -/
theorem iblk1_0_apply (W : Valuation τ sig (Elt Ideal)) (d : Dev nD) (t : Fin grid1.N) (i : Fin 512) (k : Fin 8) :
    iblk1 W d 0 t (ix3 (0 : Fin 1) i k)
      = W (Proc.devRef .tc main_v20) (ix3 (⟨t.val / 7, Nat.div_lt_of_lt_mul t.isLt⟩ : Fin 4)
          (⟨t.val % 7 * 512 + i.val, by have := i.isLt; omega⟩ : Fin 3584) k) := by
  delta iblk1
  refine (View.read_apply _ _).trans ?_
  refine congrArg (W (Proc.devRef .tc main_v20)) (funext fun a => Fin.ext ?_)
  have h := idx1_0 t
  have h0 : win1_0.index t ⟨0, by decide⟩ = t.val / 7 := h.1
  have h1 : win1_0.index t ⟨1, by decide⟩ = t.val % 7 := h.2.1
  have h2 : win1_0.index t ⟨2, by decide⟩ = 0 := h.2.2
  match a with
  | ⟨0, _⟩ =>
    refine (Pipeline.Window.rect_emb_val win1_0 t _ ⟨0, by decide⟩).trans ?_
    show win1_0.index t ⟨0, by decide⟩ * 1 + 0 = t.val / 7
    omega
  | ⟨1, _⟩ =>
    refine (Pipeline.Window.rect_emb_val win1_0 t _ ⟨1, by decide⟩).trans ?_
    show win1_0.index t ⟨1, by decide⟩ * 512 + i.val = t.val % 7 * 512 + i.val
    omega
  | ⟨2, _⟩ =>
    refine (Pipeline.Window.rect_emb_val win1_0 t _ ⟨2, by decide⟩).trans ?_
    show win1_0.index t ⟨2, by decide⟩ * 8 + k.val = k.val
    omega

/-- The plain left operand's block at point `t`: the points `512 (t % 7) + i` of batch `t / 7`. -/
theorem iblk1_1_apply (W : Valuation τ sig (Elt Ideal)) (d : Dev nD) (t : Fin grid1.N) (i : Fin 512) (k : Fin 8) :
    iblk1 W d 1 t (ix3 (0 : Fin 1) i k)
      = W (Proc.devRef .tc main_v22) (ix3 (⟨t.val / 7, Nat.div_lt_of_lt_mul t.isLt⟩ : Fin 4)
          (⟨t.val % 7 * 512 + i.val, by have := i.isLt; omega⟩ : Fin 3584) k) := by
  delta iblk1
  refine (View.read_apply _ _).trans ?_
  refine congrArg (W (Proc.devRef .tc main_v22)) (funext fun a => Fin.ext ?_)
  have h := idx1_1 t
  have h0 : win1_1.index t ⟨0, by decide⟩ = t.val / 7 := h.1
  have h1 : win1_1.index t ⟨1, by decide⟩ = t.val % 7 := h.2.1
  have h2 : win1_1.index t ⟨2, by decide⟩ = 0 := h.2.2
  match a with
  | ⟨0, _⟩ =>
    refine (Pipeline.Window.rect_emb_val win1_1 t _ ⟨0, by decide⟩).trans ?_
    show win1_1.index t ⟨0, by decide⟩ * 1 + 0 = t.val / 7
    omega
  | ⟨1, _⟩ =>
    refine (Pipeline.Window.rect_emb_val win1_1 t _ ⟨1, by decide⟩).trans ?_
    show win1_1.index t ⟨1, by decide⟩ * 512 + i.val = t.val % 7 * 512 + i.val
    omega
  | ⟨2, _⟩ =>
    refine (Pipeline.Window.rect_emb_val win1_1 t _ ⟨2, by decide⟩).trans ?_
    show win1_1.index t ⟨2, by decide⟩ * 8 + k.val = k.val
    omega

/-- The right operand's block at point `t`: all of batch `t / 7`. -/
theorem iblk1_2_apply (W : Valuation τ sig (Elt Ideal)) (d : Dev nD) (t : Fin grid1.N) (k : Fin 8) (m : Fin 4096) :
    iblk1 W d 2 t (ix3 (0 : Fin 1) k m)
      = W (Proc.devRef .tc main_v16) (ix3 (⟨t.val / 7, Nat.div_lt_of_lt_mul t.isLt⟩ : Fin 4) k m) := by
  delta iblk1
  refine (View.read_apply _ _).trans ?_
  refine congrArg (W (Proc.devRef .tc main_v16)) (funext fun a => Fin.ext ?_)
  have h := idx1_2 t
  have h0 : win1_2.index t ⟨0, by decide⟩ = t.val / 7 := h.1
  have h1 : win1_2.index t ⟨1, by decide⟩ = 0 := h.2.1
  have h2 : win1_2.index t ⟨2, by decide⟩ = 0 := h.2.2
  match a with
  | ⟨0, _⟩ =>
    refine (Pipeline.Window.rect_emb_val win1_2 t _ ⟨0, by decide⟩).trans ?_
    show win1_2.index t ⟨0, by decide⟩ * 1 + 0 = t.val / 7
    omega
  | ⟨1, _⟩ =>
    refine (Pipeline.Window.rect_emb_val win1_2 t _ ⟨1, by decide⟩).trans ?_
    show win1_2.index t ⟨1, by decide⟩ * 8 + k.val = k.val
    omega
  | ⟨2, _⟩ =>
    refine (Pipeline.Window.rect_emb_val win1_2 t _ ⟨2, by decide⟩).trans ?_
    show win1_2.index t ⟨2, by decide⟩ * 4096 + m.val = m.val
    omega

/-- The right operand's second copy's block at point `t`: all of batch `t / 7`. -/
theorem iblk1_3_apply (W : Valuation τ sig (Elt Ideal)) (d : Dev nD) (t : Fin grid1.N) (k : Fin 8) (m : Fin 4096) :
    iblk1 W d 3 t (ix3 (0 : Fin 1) k m)
      = W (Proc.devRef .tc main_v15) (ix3 (⟨t.val / 7, Nat.div_lt_of_lt_mul t.isLt⟩ : Fin 4) k m) := by
  delta iblk1
  refine (View.read_apply _ _).trans ?_
  refine congrArg (W (Proc.devRef .tc main_v15)) (funext fun a => Fin.ext ?_)
  have h := idx1_3 t
  have h0 : win1_3.index t ⟨0, by decide⟩ = t.val / 7 := h.1
  have h1 : win1_3.index t ⟨1, by decide⟩ = 0 := h.2.1
  have h2 : win1_3.index t ⟨2, by decide⟩ = 0 := h.2.2
  match a with
  | ⟨0, _⟩ =>
    refine (Pipeline.Window.rect_emb_val win1_3 t _ ⟨0, by decide⟩).trans ?_
    show win1_3.index t ⟨0, by decide⟩ * 1 + 0 = t.val / 7
    omega
  | ⟨1, _⟩ =>
    refine (Pipeline.Window.rect_emb_val win1_3 t _ ⟨1, by decide⟩).trans ?_
    show win1_3.index t ⟨1, by decide⟩ * 8 + k.val = k.val
    omega
  | ⟨2, _⟩ =>
    refine (Pipeline.Window.rect_emb_val win1_3 t _ ⟨2, by decide⟩).trans ?_
    show win1_3.index t ⟨2, by decide⟩ * 4096 + m.val = m.val
    omega

/-! ### The output blocks -/

/-- The row results' block at point `t` is block `t` of the array. -/
theorem out4_apply (X : (⟨S28x1x512, .f32⟩ : BufTy).Contents (Elt Ideal)) (t : Fin grid1.N) (i : Fin 512) :
    (((cfgA).win 4).blk t).view.read (Elt Ideal) X (ix3 (0 : Fin 1) (0 : Fin 1) i)
      = X (ix3 (⟨t.val, t.isLt⟩ : Fin 28) (0 : Fin 1) i) := by
  refine (View.read_apply _ _).trans ?_
  refine congrArg X (funext fun a => Fin.ext ?_)
  have h := idx1_4 t
  have h0 : win1_4.index t ⟨0, by decide⟩ = t.val := h.1
  have h1 : win1_4.index t ⟨1, by decide⟩ = 0 := h.2.1
  have h2 : win1_4.index t ⟨2, by decide⟩ = 0 := h.2.2
  match a with
  | ⟨0, _⟩ =>
    refine (Pipeline.Window.rect_emb_val win1_4 t _ ⟨0, by decide⟩).trans ?_
    show win1_4.index t ⟨0, by decide⟩ * 1 + 0 = t.val
    omega
  | ⟨1, _⟩ =>
    refine (Pipeline.Window.rect_emb_val win1_4 t _ ⟨1, by decide⟩).trans ?_
    show win1_4.index t ⟨1, by decide⟩ * 1 + 0 = 0
    omega
  | ⟨2, _⟩ =>
    refine (Pipeline.Window.rect_emb_val win1_4 t _ ⟨2, by decide⟩).trans ?_
    show win1_4.index t ⟨2, by decide⟩ * 512 + i.val = i.val
    omega

/-- The column results' block at point `t` is block `t / 7` of the array. -/
theorem out5_apply (X : (⟨S4x1x4096, .f32⟩ : BufTy).Contents (Elt Ideal)) (t : Fin grid1.N) (m : Fin 4096) :
    (((cfgA).win 5).blk t).view.read (Elt Ideal) X (ix3 (0 : Fin 1) (0 : Fin 1) m)
      = X (ix3 (⟨t.val / 7, Nat.div_lt_of_lt_mul t.isLt⟩ : Fin 4) (0 : Fin 1) m) := by
  refine (View.read_apply _ _).trans ?_
  refine congrArg X (funext fun a => Fin.ext ?_)
  have h := idx1_5 t
  have h0 : win1_5.index t ⟨0, by decide⟩ = t.val / 7 := h.1
  have h1 : win1_5.index t ⟨1, by decide⟩ = 0 := h.2.1
  have h2 : win1_5.index t ⟨2, by decide⟩ = 0 := h.2.2
  match a with
  | ⟨0, _⟩ =>
    refine (Pipeline.Window.rect_emb_val win1_5 t _ ⟨0, by decide⟩).trans ?_
    show win1_5.index t ⟨0, by decide⟩ * 1 + 0 = t.val / 7
    omega
  | ⟨1, _⟩ =>
    refine (Pipeline.Window.rect_emb_val win1_5 t _ ⟨1, by decide⟩).trans ?_
    show win1_5.index t ⟨1, by decide⟩ * 1 + 0 = 0
    omega
  | ⟨2, _⟩ =>
    refine (Pipeline.Window.rect_emb_val win1_5 t _ ⟨2, by decide⟩).trans ?_
    show win1_5.index t ⟨2, by decide⟩ * 4096 + m.val = m.val
    omega

end Cert.Proof.Glue

end
-- ==== Proof.Pay1.lean ====
import proofs.«209750_g45337674776763_cont_8to1c4_158_37_alg».proof.Proof.Gen.KernelIdeal.Skeleton
import Idealize.ShloMosaic.Lib.ValueLayout
import Idealize.ShloMosaic.PureOps.Ideal.Laws

/-!
  The first TensorCore kernel's vector computations read at an index over the extended reals, for one block of 512
  points `x` (on eight coordinates, once scaled and once plain) against the 4096 points `y`: the matrix product is
  the sum over the eight coordinates; the row result is `max (min_m (x·y + ‖y‖²) + ‖x‖²) 0`; the column part is
  `min_i (x·y + ‖x‖²)` over the block's rows; the accumulation is the minimum with what was there.
-/

noncomputable section

namespace Cert.Proof.Pay

open Cert.KernelIdeal Cert.KernelIdeal.Gen
open Idealize.ShloMosaic Idealize.ShloMosaic.ValueIdx

section Dot
variable (j : S512x4096.Idx) (q : dot_S512x8_S8x4096_S512x4096_1_0_0_1_n_n.contr.Idx)

theorem lhs_0 : (dot_S512x8_S8x4096_S512x4096_1_0_0_1_n_n.lhsIdx j q 0).val = (j 0).val := by
  unfold DotDims.lhsIdx
  rw [dif_neg (show ¬(0 : Fin S512x8.rank) ∈ dot_S512x8_S8x4096_S512x4096_1_0_0_1_n_n.lhsBatch by decide),
    dif_pos (show (0 : Fin S512x8.rank) ∈ dot_S512x8_S8x4096_S512x4096_1_0_0_1_n_n.lhsNonContracting by decide)]
  rfl
theorem lhs_1 : (dot_S512x8_S8x4096_S512x4096_1_0_0_1_n_n.lhsIdx j q 1).val = (q ⟨0, by decide⟩).val :=
  dot_S512x8_S8x4096_S512x4096_1_0_0_1_n_n.lhsIdx_val_of_single rfl j q
theorem rhs_0 : (dot_S512x8_S8x4096_S512x4096_1_0_0_1_n_n.rhsIdx j q 0).val = (q ⟨0, by decide⟩).val :=
  dot_S512x8_S8x4096_S512x4096_1_0_0_1_n_n.rhsIdx_val_of_single rfl j q
theorem rhs_1 : (dot_S512x8_S8x4096_S512x4096_1_0_0_1_n_n.rhsIdx j q 1).val = (j 1).val := by
  unfold DotDims.rhsIdx
  rw [dif_neg (show ¬(1 : Fin S8x4096.rank) ∈ dot_S512x8_S8x4096_S512x4096_1_0_0_1_n_n.rhsBatch by decide),
    dif_pos (show (1 : Fin S8x4096.rank) ∈ dot_S512x8_S8x4096_S512x4096_1_0_0_1_n_n.rhsNonContracting by decide)]
  rfl
end Dot

/-- The matrix product at row `i`, column `m`: the sum over the eight coordinates. -/
theorem pay2_apply (v0 : Vec Ideal S1x512x8 .f32) (v2 : Vec Ideal S1x8x4096 .f32) (i : Fin 512) (m : Fin 4096) :
    k1_pay2 (F := Ideal) v0 v2 (ix2 i m) = ∑ k : Fin 8, v0 (ix3 (0 : Fin 1) i k) * v2 (ix3 (0 : Fin 1) k m) := by
  delta k1_pay2
  refine (Ideal.matmul_constant_zero_apply dot_S512x8_S8x4096_S512x4096_1_0_0_1_n_n none _ _ (ix2 i m)).trans ?_
  rw [← Equiv.sum_comp (contrEquiv1 dot_S512x8_S8x4096_S512x4096_1_0_0_1_n_n 8 rfl rfl).symm]
  refine Finset.sum_congr rfl fun k _ => ?_
  have hk := contrEquiv1_symm_val dot_S512x8_S8x4096_S512x4096_1_0_0_1_n_n 8 rfl rfl k
  congr 1
  · refine shapeCast_apply (s := S1x512x8) (t := S512x8) _ _ _ _ ?_
    rw [Shape.rowMajor_val_three, Shape.rowMajor_val_two, lhs_0, lhs_1, hk]
    show ((0 : ℕ) * 512 + i.val) * 8 + k.val = i.val * 8 + k.val
    omega
  · refine shapeCast_apply (s := S1x8x4096) (t := S8x4096) _ _ _ _ ?_
    rw [Shape.rowMajor_val_three, Shape.rowMajor_val_two, rhs_0, rhs_1, hk]
    show ((0 : ℕ) * 8 + k.val) * 4096 + m.val = k.val * 4096 + m.val
    omega

/-- A `minimumf` reduction over one axis, over the extended reals: the fold of `min` from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The literal `0x7F800000` is `+∞`. -/
theorem ofBits_inf : Ideal.ofBits .f32 0x7F800000#32 = (⊤ : EReal) := by
  simp [Ideal.ofBits, Ideal.ieee]

/-! ### The indices a reduction over one axis of a matrix reads -/

theorem lift_512x8 (i : Fin 512) (k : Fin 8) : reduces_S512x8_S512.lift (ix1 i) k = ix2 i k := by
  funext a; apply Fin.ext
  match a with
  | ⟨0, _⟩ => rfl
  | ⟨1, _⟩ => rfl
theorem lift_8x4096 (m : Fin 4096) (k : Fin 8) : reduces_S8x4096_S4096.lift (ix1 m) k = ix2 k m := by
  funext a; apply Fin.ext
  match a with
  | ⟨0, _⟩ => rfl
  | ⟨1, _⟩ => rfl
theorem lift_row (i : Fin 512) (m : Fin 4096) : reduces_S512x4096_S512.lift (ix1 i) m = ix2 i m := by
  funext a; apply Fin.ext
  match a with
  | ⟨0, _⟩ => rfl
  | ⟨1, _⟩ => rfl
theorem lift_col (m : Fin 4096) (i : Fin 512) : reduces_S512x4096_S4096.lift (ix1 m) i = ix2 i m := by
  funext a; apply Fin.ext
  match a with
  | ⟨0, _⟩ => rfl
  | ⟨1, _⟩ => rfl

/-- The squared norm of row `i` of the block, over the eight coordinates. -/
theorem pay3_apply (v5 : Vec Ideal S1x512x8 .f32) (i : Fin 512) :
    k1_pay3 (F := Ideal) v5 (ix1 i) = ∑ k : Fin 8, v5 (ix3 (0 : Fin 1) i k) * v5 (ix3 (0 : Fin 1) i k) := by
  delta k1_pay3
  refine (Ideal.multiReduction_add_single _ _ reduces_S512x8_S512 _ _ (ix1 i)).trans ?_
  refine Finset.sum_congr rfl fun (k : Fin 8) _ => ?_
  rw [lift_512x8, mulf_apply, shapeCast_1ab_ab_apply]

/-- The squared norm of column `m` of the second operand, over the eight coordinates. -/
theorem sqcol_apply (v7 : Vec Ideal S1x8x4096 .f32) (m : Fin 4096) :
    multiReduction .add [0] S4096 (mulf (shapeCast S8x4096 v7 shapeCasts_S1x8x4096_S8x4096 : FVec Ideal S8x4096 .f32)
        (shapeCast S8x4096 v7 shapeCasts_S1x8x4096_S8x4096)) 0x00000000#32 reduces_S8x4096_S4096 (.inl rfl) rfl (ix1 m)
      = ∑ k : Fin 8, v7 (ix3 (0 : Fin 1) k m) * v7 (ix3 (0 : Fin 1) k m) := by
  refine (Ideal.multiReduction_add_single _ _ reduces_S8x4096_S4096 _ _ (ix1 m)).trans ?_
  refine Finset.sum_congr rfl fun (k : Fin 8) _ => ?_
  rw [lift_8x4096, mulf_apply, shapeCast_1ab_ab_apply]

end Cert.Proof.Pay

end
-- ==== Proof.Pay1b.lean ====
import proofs.«209750_g45337674776763_cont_8to1c4_158_37_alg».proof.Proof.Pay1

/-!
  The first TensorCore kernel's row result read at an index over the extended reals: the minimum over the columns of
  product plus column norm, plus the row's norm, clamped at zero.
-/

noncomputable section

namespace Cert.Proof.Pay

open Cert.KernelIdeal Cert.KernelIdeal.Gen
open Idealize.ShloMosaic Idealize.ShloMosaic.ValueIdx

/-- The row result at row `i`. -/
theorem pay4_apply (v0 : Vec Ideal S1x512x8 .f32) (v2 : Vec Ideal S1x8x4096 .f32) (v5 : Vec Ideal S1x512x8 .f32)
    (v7 : Vec Ideal S1x8x4096 .f32) (i : Fin 512) :
    k1_pay4 (F := Ideal) v0 v2 v5 v7 (ix3 (0 : Fin 1) (0 : Fin 1) i)
      = max ((Finset.univ : Finset (Fin 4096)).fold min ⊤ (fun m => k1_pay2 (F := Ideal) v0 v2 (ix2 i m)
            + ∑ k : Fin 8, v7 (ix3 (0 : Fin 1) k m) * v7 (ix3 (0 : Fin 1) k m))
          + k1_pay3 (F := Ideal) v5 (ix1 i)) 0 := by
  delta k1_pay4
  refine (shapeCast_apply (s := S512) (t := S1x1x512) _ _ (ix3 (0 : Fin 1) (0 : Fin 1) i) (ix1 i) ?_).trans ?_
  · rw [Shape.rowMajor_val_one, Shape.rowMajor_val_three]
    show i.val = ((0 : ℕ) * 1 + 0) * 512 + i.val
    omega
  rw [maximumf_apply, addf_apply, broadcast_apply]
  refine congrArg₂ max (congrArg (fun x => x + k1_pay3 (F := Ideal) v5 (ix1 i)) ?_) Ideal.ofBits_zero_f32
  refine (multiReduction_minimumf_single _ _ reduces_S512x4096_S512 _ _ (ix1 i)).trans ?_
  have hinf : FloatOps.ofBits (F := Ideal) .f32 0x7F800000#32 = (⊤ : EReal) := ofBits_inf
  rw [hinf]
  refine Finset.fold_congr fun (m : Fin 4096) _ => ?_
  refine (congrArg (addf _ _) (lift_row i m)).trans ?_
  refine (addf_apply _ _ (ix2 i m)).trans ?_
  refine congrArg (k1_pay2 (F := Ideal) v0 v2 (ix2 i m) + ·) ?_
  refine (broadcastTo_1b_ab_apply _ _ i m).trans ?_
  refine (shapeCast_a_1a_apply _ _ (0 : Fin 1) m).trans ?_
  exact sqcol_apply v7 m

end Cert.Proof.Pay

end
-- ==== Proof.Pay1c.lean ====
import proofs.«209750_g45337674776763_cont_8to1c4_158_37_alg».proof.Proof.Pay1

/-!
  The first TensorCore kernel's column part and its accumulation read at an index over the extended reals: the
  minimum over the block's rows of product plus row norm; the accumulation is the minimum with what was there.
-/

noncomputable section

namespace Cert.Proof.Pay

open Cert.KernelIdeal Cert.KernelIdeal.Gen
open Idealize.ShloMosaic Idealize.ShloMosaic.ValueIdx

/-- The column part at column `m`: the minimum over the block's rows of product plus row norm. -/
theorem pay5_apply (v0 : Vec Ideal S1x512x8 .f32) (v2 : Vec Ideal S1x8x4096 .f32) (v5 : Vec Ideal S1x512x8 .f32) (m : Fin 4096) :
    k1_pay5 (F := Ideal) v0 v2 v5 (ix1 m)
      = (Finset.univ : Finset (Fin 512)).fold min ⊤ (fun i => k1_pay2 (F := Ideal) v0 v2 (ix2 i m) + k1_pay3 (F := Ideal) v5 (ix1 i)) := by
  delta k1_pay5
  refine (multiReduction_minimumf_single _ _ reduces_S512x4096_S4096 _ _ (ix1 m)).trans ?_
  have hinf : FloatOps.ofBits (F := Ideal) .f32 0x7F800000#32 = (⊤ : EReal) := ofBits_inf
  rw [hinf]
  refine Finset.fold_congr fun (i : Fin 512) _ => ?_
  refine (congrArg (addf _ _) (lift_col m i)).trans ?_
  refine (addf_apply _ _ (ix2 i m)).trans ?_
  refine congrArg (k1_pay2 (F := Ideal) v0 v2 (ix2 i m) + ·) ?_
  refine (broadcastTo_apply (s := S512x1) (t := S512x4096) _ _ (ix2 i m) (ix2 i (0 : Fin 1)) (fun ax => ?_)).trans ?_
  · match ax with
    | ⟨0, _⟩ => rfl
    | ⟨1, _⟩ => rfl
  · refine shapeCast_apply (s := S512) (t := S512x1) _ _ _ _ ?_
    rw [Shape.rowMajor_val_one, Shape.rowMajor_val_two]
    show i.val = i.val * 1 + 0
    omega

/-- The column part with two unit axes in front. -/
theorem pay6_apply (v0 : Vec Ideal S1x512x8 .f32) (v2 : Vec Ideal S1x8x4096 .f32) (v5 : Vec Ideal S1x512x8 .f32) (m : Fin 4096) :
    k1_pay6 (F := Ideal) v0 v2 v5 (ix3 (0 : Fin 1) (0 : Fin 1) m) = k1_pay5 (F := Ideal) v0 v2 v5 (ix1 m) := by
  delta k1_pay6
  refine shapeCast_apply (s := S4096) (t := S1x1x4096) _ _ _ _ ?_
  rw [Shape.rowMajor_val_one, Shape.rowMajor_val_three]
  show m.val = ((0 : ℕ) * 1 + 0) * 4096 + m.val
  omega

/-- The accumulation: the minimum of what the window held and the new column part. -/
theorem pay1_apply (v26 : FVec Ideal S4096 .f32) (v33 : Vec Ideal S1x1x4096 .f32) (m : Fin 4096) :
    k1_pay1 (F := Ideal) v26 v33 (ix3 (0 : Fin 1) (0 : Fin 1) m) = min (v33 (ix3 (0 : Fin 1) (0 : Fin 1) m)) (v26 (ix1 m)) := by
  delta k1_pay1
  refine (shapeCast_apply (s := S4096) (t := S1x1x4096) _ _ (ix3 (0 : Fin 1) (0 : Fin 1) m) (ix1 m) ?_).trans ?_
  · rw [Shape.rowMajor_val_one, Shape.rowMajor_val_three]
    show m.val = ((0 : ℕ) * 1 + 0) * 4096 + m.val
    omega
  refine (minimumf_apply _ _ (ix1 m)).trans ?_
  refine congrArg (min · (v26 (ix1 m))) ?_
  refine shapeCast_apply (s := S1x1x4096) (t := S4096) _ _ _ _ ?_
  rw [Shape.rowMajor_val_one, Shape.rowMajor_val_three]
  show ((0 : ℕ) * 1 + 0) * 4096 + m.val = m.val
  omega

end Cert.Proof.Pay

end
-- ==== Proof.AlgAcc.lean ====
import Idealize.ShloMosaic.PureOps.Ideal.Laws

/-!
  A running minimum over seven blocks of 512 is the minimum over all 3584: the running minimum is the finite infimum
  of its parts, and every index below 3584 lies in exactly one block.
-/

noncomputable section

namespace Cert.Proof.AlgAcc

/-- The running minimum of a sequence: the first part, then the minimum of what there was and the next part. -/
def accMin (part : ℕ → EReal) : ℕ → EReal
  | 0 => part 0
  | t + 1 => min (accMin part t) (part (t + 1))

theorem accMin_zero (part : ℕ → EReal) : accMin part 0 = part 0 := rfl
theorem accMin_succ (part : ℕ → EReal) (t : ℕ) : accMin part (t + 1) = min (accMin part t) (part (t + 1)) := rfl

/-- The running minimum up to `T` is the infimum of the parts `0 … T`. -/
theorem accMin_eq_inf (part : ℕ → EReal) (T : ℕ) : accMin part T = (Finset.range (T + 1)).inf part := by
  induction T with
  | zero => rw [accMin_zero, Finset.range_one, Finset.inf_singleton]
  | succ t ih => rw [accMin_succ, ih, Finset.range_add_one (n := t + 1), Finset.inf_insert, inf_comm]

/-- Seven parts, each the minimum over one block of 512 consecutive indices, have the minimum over all 3584 as their
    running minimum. -/
theorem accMin_blocks (g : Fin 3584 → EReal) (part : ℕ → EReal)
    (hpart : ∀ (t : ℕ) (ht : t < 7), part t
      = (Finset.univ : Finset (Fin 512)).fold min ⊤ fun i => g ⟨t * 512 + i.val, by have := i.isLt; omega⟩) :
    accMin part 6 = (Finset.univ : Finset (Fin 3584)).fold min ⊤ g := by
  rw [accMin_eq_inf]
  show _ = (Finset.univ : Finset (Fin 3584)).inf g
  apply le_antisymm
  · refine Finset.le_inf fun n _ => ?_
    have hn := n.isLt
    have ht : n.val / 512 < 7 := by omega
    refine (Finset.inf_le (Finset.mem_range.mpr ht)).trans ?_
    rw [hpart _ ht]
    refine (Finset.inf_le (f := fun i : Fin 512 => g ⟨n.val / 512 * 512 + i.val, by have := i.isLt; omega⟩)
      (Finset.mem_univ (⟨n.val % 512, Nat.mod_lt _ (by norm_num)⟩ : Fin 512))).trans_eq ?_
    exact congrArg g (Fin.ext (by show n.val / 512 * 512 + n.val % 512 = n.val; omega))
  · refine Finset.le_inf fun t ht => ?_
    have ht' : t < 7 := Finset.mem_range.mp ht
    rw [hpart t ht']
    exact Finset.le_inf fun i _ => Finset.inf_le (Finset.mem_univ _)

end Cert.Proof.AlgAcc

end
-- ==== Proof.Pay3.lean ====
import proofs.«209750_g45337674776763_cont_8to1c4_158_37_alg».proof.Proof.Pay1b
import proofs.«209750_g45337674776763_cont_8to1c4_158_37_alg».proof.Proof.Pay1c
import proofs.«209750_g45337674776763_cont_8to1c4_158_37_alg».proof.Proof.Spec
import proofs.«209750_g45337674776763_cont_8to1c4_158_37_alg».proof.Proof.AlgAcc

/-!
  The first TensorCore kernel's results in the terms of the kernel's arrangement. When a block's left operands are
  the padded coordinates of the points `512 t + i` of the first set — once scaled by `-2`, once plain — and the right
  operands the padded coordinates of the second set, the row result is that point's clamped nearest-neighbour squared
  distance, the column part is the minimum over the block's points of product plus norm, and the running minimum of
  the seven column parts is the column minimum over all 3584 points.
-/

noncomputable section

namespace Cert.Proof.Pay

open Cert.KernelIdeal Cert.KernelIdeal.Gen Cert.Proof.Spec Cert.Proof.RefValue Cert.Proof.AlgAcc
open Idealize.ShloMosaic Idealize.ShloMosaic.ValueIdx

/-- Point `i` of block `t` of 512 among the first 3584. -/
def blk (t : Fin 7) (i : Fin 512) : Fin 3584 := ⟨t.val * 512 + i.val, by have := t.isLt; have := i.isLt; omega⟩

section Block
variable {a c : Pts} {b : Fin 4} {t : Fin 7}
  {x0 x1 : Vec Ideal S1x512x8 .f32} {x2 x3 : Vec Ideal S1x8x4096 .f32}
  (hx0 : ∀ (i : Fin 512) (k : Fin 8), x0 (ix3 (0 : Fin 1) i k) = ((-2 : ℝ) : EReal) * Spec.pad (pt a b) (lo (blk t i)) k)
  (hx1 : ∀ (i : Fin 512) (k : Fin 8), x1 (ix3 (0 : Fin 1) i k) = Spec.pad (pt a b) (lo (blk t i)) k)
  (hx2 : ∀ (k : Fin 8) (m : Fin 4096), x2 (ix3 (0 : Fin 1) k m) = Spec.pad (pt c b) m k)
  (hx3 : ∀ (k : Fin 8) (m : Fin 4096), x3 (ix3 (0 : Fin 1) k m) = Spec.pad (pt c b) m k)

include hx0 hx2 in
/-- The matrix product is the scaled inner product. -/
theorem pay2_spec (i : Fin 512) (m : Fin 4096) : k1_pay2 (F := Ideal) x0 x2 (ix2 i m) = Spec.inner a c b (blk t i) m :=
  (pay2_apply x0 x2 i m).trans (Finset.sum_congr rfl fun k _ => by rw [hx0, hx2])

include hx1 in
/-- The row norms are the first set's norms. -/
theorem pay3_spec (i : Fin 512) : k1_pay3 (F := Ideal) x1 (ix1 i) = Spec.n1 a b (blk t i) :=
  (pay3_apply x1 i).trans (Finset.sum_congr rfl fun k _ => by rw [hx1])

include hx3 in
/-- The column norms are the second set's norms. -/
theorem sqcol_spec (m : Fin 4096) : (∑ k : Fin 8, x3 (ix3 (0 : Fin 1) k m) * x3 (ix3 (0 : Fin 1) k m)) = Spec.n2 c b m :=
  Finset.sum_congr rfl fun k _ => by rw [hx3]

include hx0 hx1 hx2 hx3 in
/-- The row result is the clamped nearest-neighbour squared distance of point `512 t + i`. -/
theorem row_spec (i : Fin 512) :
    k1_pay4 (F := Ideal) x0 x2 x1 x3 (ix3 (0 : Fin 1) (0 : Fin 1) i) = Spec.rowd a c b (blk t i) := by
  refine (pay4_apply x0 x2 x1 x3 i).trans ?_
  rw [pay3_spec hx1]
  refine congrArg (fun x => max (x + Spec.n1 a b (blk t i)) 0) (Finset.fold_congr fun m _ => ?_)
  rw [pay2_spec hx0 hx2, sqcol_spec hx3]

include hx0 hx1 hx2 in
/-- The column part is the minimum over the block's points of scaled inner product plus norm. -/
theorem colpart_spec (m : Fin 4096) :
    k1_pay5 (F := Ideal) x0 x2 x1 (ix1 m)
      = (Finset.univ : Finset (Fin 512)).fold min ⊤ fun i => Spec.inner a c b (blk t i) m + Spec.n1 a b (blk t i) :=
  (pay5_apply x0 x2 x1 m).trans (Finset.fold_congr fun i _ => by rw [pay2_spec hx0 hx2, pay3_spec hx1])

end Block

/-- A window that starts at the first block's column part and then takes, block after block, the minimum of what it
    held and the next block's column part holds, at column `m`, the running minimum of the column parts. -/
theorem acc_apply (x0 x1 : ℕ → Vec Ideal S1x512x8 .f32) (x2 : ℕ → Vec Ideal S1x8x4096 .f32) (A : ℕ → S1x1x4096.Idx → EReal)
    (T : ℕ) (h0 : A 0 = k1_pay6 (F := Ideal) (x0 0) (x2 0) (x1 0))
    (hs : ∀ t, t < T → A (t + 1) = k1_pay1 (F := Ideal) (k1_pay5 (F := Ideal) (x0 (t + 1)) (x2 (t + 1)) (x1 (t + 1))) (A t))
    (m : Fin 4096) : ∀ t, t ≤ T →
      A t (ix3 (0 : Fin 1) (0 : Fin 1) m) = accMin (fun t => k1_pay5 (F := Ideal) (x0 t) (x2 t) (x1 t) (ix1 m)) t
  | 0, _ => by rw [h0, pay6_apply]; rfl
  | t + 1, ht => by
    rw [hs t (by omega), pay1_apply, acc_apply x0 x1 x2 A T h0 hs m t (by omega)]
    rfl

/-- The running minimum of the seven blocks' column parts is the column minimum over the first 3584 points. -/
theorem acc_colmin {a c : Pts} {b : Fin 4} (x0 x1 : ℕ → Vec Ideal S1x512x8 .f32) (x2 : ℕ → Vec Ideal S1x8x4096 .f32)
    (hx0 : ∀ (t : Fin 7) (i : Fin 512) (k : Fin 8),
      x0 t.val (ix3 (0 : Fin 1) i k) = ((-2 : ℝ) : EReal) * Spec.pad (pt a b) (lo (blk t i)) k)
    (hx1 : ∀ (t : Fin 7) (i : Fin 512) (k : Fin 8), x1 t.val (ix3 (0 : Fin 1) i k) = Spec.pad (pt a b) (lo (blk t i)) k)
    (hx2 : ∀ (t : Fin 7) (k : Fin 8) (m : Fin 4096), x2 t.val (ix3 (0 : Fin 1) k m) = Spec.pad (pt c b) m k)
    (m : Fin 4096) :
    accMin (fun t => k1_pay5 (F := Ideal) (x0 t) (x2 t) (x1 t) (ix1 m)) 6 = Spec.colmin a c b m :=
  accMin_blocks (fun n => Spec.inner a c b n m + Spec.n1 a b n) _ fun t ht =>
    colpart_spec (t := ⟨t, ht⟩) (hx0 ⟨t, ht⟩) (hx1 ⟨t, ht⟩) (hx2 ⟨t, ht⟩) m

end Cert.Proof.Pay

end
-- ==== Proof.GlueReg1.lean ====
import proofs.«209750_g45337674776763_cont_8to1c4_158_37_alg».proof.Proof.GlueBlk1
import proofs.«209750_g45337674776763_cont_8to1c4_158_37_alg».proof.Proof.Pay3

/-!
  What the first TensorCore region leaves in its two result arrays, in the terms of the kernel's arrangement: when the
  four operand arrays hold the padded, scaled point sets, the row results hold each of the first 3584 points'
  clamped nearest-neighbour squared distance, block `7 b + n / 512` at position `n % 512`, and the column results
  hold the column minima over those 3584 points.
-/

noncomputable section

namespace Cert.Proof.Glue

open Cert.KernelIdeal Cert.KernelIdeal.Gen Cert.KernelIdeal.Tc Cert.Proof.Spec Cert.Proof.RefValue Cert.Proof.Pay Cert.Proof.AlgAcc
open Idealize.ShloMosaic Idealize.ShloMosaic.ValueIdx

variable {a c : Pts} {Wb W2 : Valuation τ sig (Elt Ideal)} (d : Dev nD)
  (H20 : ∀ (b : Fin 4) (n : Fin 3584) (k : Fin 8),
    Wb (Proc.devRef .tc main_v20) (ix3 b n k) = ((-2 : ℝ) : EReal) * Spec.pad (pt a b) (lo n) k)
  (H22 : ∀ (b : Fin 4) (n : Fin 3584) (k : Fin 8), Wb (Proc.devRef .tc main_v22) (ix3 b n k) = Spec.pad (pt a b) (lo n) k)
  (H16 : ∀ (b : Fin 4) (k : Fin 8) (m : Fin 4096), Wb (Proc.devRef .tc main_v16) (ix3 b k m) = Spec.pad (pt c b) m k)
  (H15 : ∀ (b : Fin 4) (k : Fin 8) (m : Fin 4096), Wb (Proc.devRef .tc main_v15) (ix3 b k m) = Spec.pad (pt c b) m k)
  (hv : val1 Wb d W2)

/-- The batch of grid point `t`. -/
abbrev gOf (t : Fin grid1.N) : Fin 4 := ⟨t.val / 7, Nat.div_lt_of_lt_mul t.isLt⟩
/-- The block of grid point `t` among the seven of its batch. -/
abbrev tOf (t : Fin grid1.N) : Fin 7 := ⟨t.val % 7, Nat.mod_lt _ (by norm_num)⟩

include H20 in
theorem hx0_of (t : Fin grid1.N) (i : Fin 512) (k : Fin 8) :
    iblk1 Wb d 0 t (ix3 (0 : Fin 1) i k) = ((-2 : ℝ) : EReal) * Spec.pad (pt a (gOf t)) (lo (blk (tOf t) i)) k :=
  (iblk1_0_apply Wb d t i k).trans (H20 _ _ _)

include H22 in
theorem hx1_of (t : Fin grid1.N) (i : Fin 512) (k : Fin 8) :
    iblk1 Wb d 1 t (ix3 (0 : Fin 1) i k) = Spec.pad (pt a (gOf t)) (lo (blk (tOf t) i)) k :=
  (iblk1_1_apply Wb d t i k).trans (H22 _ _ _)

include H16 in
theorem hx2_of (t : Fin grid1.N) (k : Fin 8) (m : Fin 4096) :
    iblk1 Wb d 2 t (ix3 (0 : Fin 1) k m) = Spec.pad (pt c (gOf t)) m k :=
  (iblk1_2_apply Wb d t k m).trans (H16 _ _ _)

include H15 in
theorem hx3_of (t : Fin grid1.N) (k : Fin 8) (m : Fin 4096) :
    iblk1 Wb d 3 t (ix3 (0 : Fin 1) k m) = Spec.pad (pt c (gOf t)) m k :=
  (iblk1_3_apply Wb d t k m).trans (H15 _ _ _)

include H20 H22 H16 H15 hv in
/-- The row results: block `t`, position `i`, holds the clamped nearest-neighbour squared distance of point
    `512 (t % 7) + i` of batch `t / 7`. -/
theorem rows_at (t : Fin grid1.N) (i : Fin 512) :
    W2 (Proc.devRef .tc main_v23_0) (ix3 (⟨t.val, t.isLt⟩ : Fin 28) (0 : Fin 1) i) = rowd a c (gOf t) (blk (tOf t) i) := by
  have h := congrFun (hv.1 t) (ix3 (0 : Fin 1) (0 : Fin 1) i)
  rw [out4_apply] at h
  exact h.trans (row_spec (hx0_of d H20 t) (hx1_of d H22 t) (hx2_of d H16 t) (hx3_of d H15 t) i)

/-- Grid point `7 b + s % 7`: block `s` of batch `b`. -/
def ptOf (b : Fin 4) (s : ℕ) : Fin grid1.N :=
  ⟨7 * b.val + s % 7, by have := b.isLt; have := Nat.mod_lt s (by norm_num : 0 < 7); show _ < 28; omega⟩

theorem ptOf_val (b : Fin 4) (s : ℕ) : (ptOf b s).val = 7 * b.val + s % 7 := rfl

/-- The running column minimum depends on the point's number only. -/
theorem acc1_congr (W : Valuation τ sig (Elt Ideal)) {n n' : ℕ} (h : n < grid1.N) (h' : n' < grid1.N) (e : n = n') :
    acc1 W d n h = acc1 W d n' h' := by
  subst e; rfl

include H20 H22 H16 hv in
/-- The column results: batch `b`, column `m`, holds the column minimum over the first 3584 points. -/
theorem cols_at (b : Fin 4) (m : Fin 4096) :
    W2 (Proc.devRef .tc main_v23_1) (ix3 b (0 : Fin 1) m) = colmin a c b m := by
  have hb := b.isLt
  have h6 : (ptOf b 6).val % 7 = 6 := by rw [ptOf_val]; omega
  have h := congrFun (hv.2 (ptOf b 6) h6) (ix3 (0 : Fin 1) (0 : Fin 1) m)
  rw [out5_apply] at h
  have eb : (⟨(ptOf b 6).val / 7, Nat.div_lt_of_lt_mul (ptOf b 6).isLt⟩ : Fin 4) = b := Fin.ext (by
    show (ptOf b 6).val / 7 = b.val
    rw [ptOf_val]; omega)
  rw [eb] at h
  refine h.trans ?_
  have A6 := acc_apply (fun s => iblk1 Wb d 0 (ptOf b s)) (fun s => iblk1 Wb d 1 (ptOf b s)) (fun s => iblk1 Wb d 2 (ptOf b s))
      (fun s => acc1 Wb d (ptOf b s).val (ptOf b s).isLt) 6
      (acc1_first Wb d (ptOf b 0) (by rw [ptOf_val]; omega))
      (fun t ht => (acc1_later Wb d (ptOf b (t + 1)) (by rw [ptOf_val]; omega)).trans
          (congrArg (k1_pay1 (F := Ideal) _) (acc1_congr d Wb _ _ (by rw [ptOf_val, ptOf_val]; omega))))
      m 6 le_rfl
  refine A6.trans ?_
  refine acc_colmin (a := a) (c := c) (b := b) _ _ _ (fun t i k => ?_) (fun t i k => ?_) (fun t k m' => ?_) m
  · have e1 : gOf (ptOf b t.val) = b := Fin.ext (by have := t.isLt; show (ptOf b t.val).val / 7 = b.val; rw [ptOf_val]; omega)
    have e2 : tOf (ptOf b t.val) = t := Fin.ext (by have := t.isLt; show (ptOf b t.val).val % 7 = t.val; rw [ptOf_val]; omega)
    have := hx0_of d H20 (ptOf b t.val) i k
    rw [e1, e2] at this
    exact this
  · have e1 : gOf (ptOf b t.val) = b := Fin.ext (by have := t.isLt; show (ptOf b t.val).val / 7 = b.val; rw [ptOf_val]; omega)
    have e2 : tOf (ptOf b t.val) = t := Fin.ext (by have := t.isLt; show (ptOf b t.val).val % 7 = t.val; rw [ptOf_val]; omega)
    have := hx1_of d H22 (ptOf b t.val) i k
    rw [e1, e2] at this
    exact this
  · have e1 : gOf (ptOf b t.val) = b := Fin.ext (by have := t.isLt; show (ptOf b t.val).val / 7 = b.val; rw [ptOf_val]; omega)
    have := hx2_of d H16 (ptOf b t.val) k m'
    rw [e1] at this
    exact this

end Cert.Proof.Glue

end
-- ==== Proof.Pay2.lean ====
import proofs.«209750_g45337674776763_cont_8to1c4_158_37_alg».proof.Proof.Gen.KernelIdeal.Skeleton
import Idealize.ShloMosaic.Lib.ValueLayout
import Idealize.ShloMosaic.PureOps.Ideal.Laws

/-!
  The second TensorCore kernel's scalar result over the extended reals: with `‖y‖²` summed over the eight padded
  coordinates, the second table is `min (max (colmin + ‖y‖²) 0) scd2`; the result is the sum of the square roots of the
  first table plus the sum of the square roots of the second, times the literal `2⁻¹⁵`.
-/

noncomputable section

namespace Cert.Proof.Pay

open Cert.KernelIdeal Cert.KernelIdeal.Gen
open Idealize.ShloMosaic Idealize.ShloMosaic.ValueIdx

/-- An index of a `[1, 4, 4096]` array is a pair (batch, point). -/
def idxEquiv3u : (⟨3, ![1, 4, 4096]⟩ : Shape).Idx ≃ Fin 4 × Fin 4096 where
  toFun i := (i 1, i 2)
  invFun p := ix3 (0 : Fin 1) p.1 p.2
  left_inv i := by
    funext a
    match a with
    | ⟨0, _⟩ =>
      apply Fin.ext
      have h : (i 0).val < 1 := (i 0).isLt
      show (0 : ℕ) = (i 0).val
      omega
    | ⟨1, _⟩ => rfl
    | ⟨2, _⟩ => rfl
  right_inv _ := rfl

/-- A sum over the indices of a `[1, 4, 4096]` array is the double sum over batch and point. -/
theorem sum_idx3u (f : (⟨3, ![1, 4, 4096]⟩ : Shape).Idx → EReal) :
    ∑ i, f i = ∑ b : Fin 4, ∑ n : Fin 4096, f (ix3 (0 : Fin 1) b n) := by
  rw [← Equiv.sum_comp idxEquiv3u.symm f, Fintype.sum_prod_type]
  rfl

/-- The total of a `[4, 4096]` table, as the kernel forms it: a leading unit axis added, both other axes summed, the
    one entry extracted. -/
theorem total_apply (X : FVec Ideal S4x4096 .f32) :
    extractAt ![0, 0, 0] (shapeCast S1x1x1 (multiReduction .add [1, 2] S1
        (shapeCast S1x4x4096 X shapeCasts_S4x4096_S1x4x4096) 0x00000000#32 reduces_S1x4x4096_S1 (.inl rfl) rfl)
        shapeCasts_S1_S1x1x1) inpos_S1x1x1_p0_0_0
      = ∑ b : Fin 4, ∑ n : Fin 4096, X (ix2 b n) := by
  refine (shapeCast_apply (s := S1) (t := S1x1x1) _ _ _ (ix1 (0 : Fin 1)) ?_).trans ?_
  · rw [Shape.rowMajor_val_one, Shape.rowMajor_val_three]
    rfl
  refine (Ideal.multiReduction_add_total _ _ reduces_S1x4x4096_S1 (fun b => ?_) _ _ (ix1 (0 : Fin 1))).trans ?_
  · match b with
    | ⟨0, _⟩ => rfl
  refine (sum_idx3u _).trans ?_
  exact Finset.sum_congr rfl fun b _ => Finset.sum_congr rfl fun n _ => shapeCast_ab_1ab_apply X _ (0 : Fin 1) b n

theorem lift_4x8x4096 (b : Fin 4) (m : Fin 4096) (k : Fin 8) : reduces_S4x8x4096_S4x4096.lift (ix2 b m) k = ix3 b k m := by
  funext a; apply Fin.ext
  match a with
  | ⟨0, _⟩ => rfl
  | ⟨1, _⟩ => rfl
  | ⟨2, _⟩ => rfl

/-- A shape cast to the same shape reads the same index. -/
theorem shapeCast_same {s : Shape} {α : Type} (x : s.Idx → α) (h : s.ShapeCasts s) (j : s.Idx) : shapeCast s x h j = x j :=
  shapeCast_apply x h j j rfl

/-- The sum over the eight coordinates of the products of two `[4, 8, 4096]` arrays. -/
theorem sq8_apply (v0 v2 : Vec Ideal S4x8x4096 .f32) (b : Fin 4) (m : Fin 4096) :
    multiReduction .add [1] S4x4096 (mulf (shapeCast S4x8x4096 v0 shapeCasts_S4x8x4096_S4x8x4096 : FVec Ideal S4x8x4096 .f32)
        (shapeCast S4x8x4096 v2 shapeCasts_S4x8x4096_S4x8x4096)) 0x00000000#32 reduces_S4x8x4096_S4x4096 (.inl rfl) rfl (ix2 b m)
      = ∑ k : Fin 8, v0 (ix3 b k m) * v2 (ix3 b k m) := by
  refine (Ideal.multiReduction_add_single _ _ reduces_S4x8x4096_S4x4096 _ _ (ix2 b m)).trans ?_
  refine Finset.sum_congr rfl fun (k : Fin 8) _ => ?_
  rw [lift_4x8x4096, mulf_apply, shapeCast_same, shapeCast_same]

end Cert.Proof.Pay

end
-- ==== Proof.Pay2b.lean ====
import proofs.«209750_g45337674776763_cont_8to1c4_158_37_alg».proof.Proof.Pay2

/-!
  The second TensorCore kernel's scalar result over the extended reals, read off its vector computations.
-/

noncomputable section

namespace Cert.Proof.Pay

open Cert.KernelIdeal Cert.KernelIdeal.Gen
open Idealize.ShloMosaic Idealize.ShloMosaic.ValueIdx

/-- The scalar result: the sum of the square roots of the first table plus the sum of the square roots of
    `min (max (colmin + ‖y‖²) 0) scd2`, times the literal `0x38000000`. -/
theorem k2_apply (v0 v2 : Vec Ideal S4x8x4096 .f32) (v6 v11 v14 : Vec Ideal S4x4096 .f32) :
    k2_pay1 (F := Ideal) v0 v2 v6 v11 v14
      = ((∑ b : Fin 4, ∑ n : Fin 4096, Ideal.sqrt (v14 (ix2 b n)))
          + ∑ b : Fin 4, ∑ m : Fin 4096, Ideal.sqrt (min (max (v6 (ix2 b m)
              + ∑ k : Fin 8, v0 (ix3 b k m) * v2 (ix3 b k m)) 0) (v11 (ix2 b m))))
        * Ideal.ofBits .f32 0x38000000#32 := by
  delta k2_pay1
  have hm : ∀ x y : Ideal .f32, Scalar.mulf x y = x * y := fun _ _ => rfl
  have ha : ∀ x y : Ideal .f32, Scalar.addf x y = x + y := fun _ _ => rfl
  refine (hm _ _).trans ?_
  refine congrArg₂ (· * ·) ((ha _ _).trans (congrArg₂ (· + ·) ?_ ?_)) rfl
  · refine (total_apply _).trans ?_
    refine Finset.sum_congr rfl fun b _ => Finset.sum_congr rfl fun n _ => ?_
    exact congrArg Ideal.sqrt (shapeCast_same v14 _ (ix2 b n))
  · refine (total_apply _).trans ?_
    refine Finset.sum_congr rfl fun b _ => Finset.sum_congr rfl fun m _ => ?_
    refine congrArg Ideal.sqrt ?_
    refine (minimumf_apply _ _ (ix2 b m)).trans ?_
    refine congrArg₂ min ?_ (shapeCast_same v11 _ (ix2 b m))
    refine (maximumf_apply _ _ (ix2 b m)).trans ?_
    refine congrArg₂ max ?_ Ideal.ofBits_zero_f32
    refine (addf_apply _ _ (ix2 b m)).trans ?_
    exact congrArg₂ (· + ·) (shapeCast_same v6 _ (ix2 b m)) (sq8_apply v0 v2 b m)

end Cert.Proof.Pay

end
-- ==== Proof.Pay4.lean ====
import proofs.«209750_g45337674776763_cont_8to1c4_158_37_alg».proof.Proof.Pay2b
import proofs.«209750_g45337674776763_cont_8to1c4_158_37_alg».proof.Proof.Spec

/-!
  The second TensorCore kernel's scalar result in the terms of the kernel's arrangement: when its operands are the first
  table, the column minima, the SparseCore's second table and the padded second point set, the result is the
  kernel's arrangement of the chamfer distance.
-/

noncomputable section

namespace Cert.Proof.Pay

open Cert.KernelIdeal Cert.KernelIdeal.Gen Cert.Proof.Spec Cert.Proof.RefValue
open Idealize.ShloMosaic Idealize.ShloMosaic.ValueIdx

theorem k2_spec {a c : Pts} (y0 y1 y2 : Vec Ideal S4x4096 .f32) (y3 : Vec Ideal S4x8x4096 .f32)
    (h0 : ∀ (b : Fin 4) (n : Fin 4096), y0 (ix2 b n) = d1 a c b n)
    (h1 : ∀ (b : Fin 4) (m : Fin 4096), y1 (ix2 b m) = colmin a c b m)
    (h2 : ∀ (b : Fin 4) (m : Fin 4096), y2 (ix2 b m) = scd2 a c b m)
    (h3 : ∀ (b : Fin 4) (k : Fin 8) (m : Fin 4096), y3 (ix3 b k m) = Spec.pad (pt c b) m k) :
    k2_pay1 (F := Ideal) y3 y3 y1 y2 y0 = kRaw a c := by
  refine (k2_apply y3 y3 y1 y2 y0).trans ?_
  refine congrArg₂ (· * ·) (congrArg₂ (· + ·) ?_ ?_) rfl
  · exact Finset.sum_congr rfl fun b _ => Finset.sum_congr rfl fun n _ => by rw [h0]
  · refine Finset.sum_congr rfl fun b _ => Finset.sum_congr rfl fun m _ => congrArg Ideal.sqrt ?_
    rw [h1, h2]
    exact congrArg (fun x => min (max (colmin a c b m + x) 0) (scd2 a c b m))
      (Finset.sum_congr rfl fun k _ => by rw [h3])

end Cert.Proof.Pay

end
-- ==== Proof.AlgOrd.lean ====
import Idealize.ShloMosaic.PureOps.Ideal.Laws

/-!
  Order facts about finite minima over the extended reals: a fold of `min` from `⊤` is the finite infimum; adding a
  real number and clamping at zero commute with it; a minimum over an index set covered by two families splits into the
  two minima. Then the square root is nonnegative on nonnegative arguments, and the final scaling
  `(s₁ + s₂)·2⁻¹⁵ = (s₁/16384 + s₂/16384)/2` for nonnegative sums.
-/

noncomputable section

namespace Cert.Proof.AlgOrd

open Idealize.ShloMosaic

variable {ι : Type*}

/-- A fold of `min` starting from `⊤` is the finite infimum. -/
theorem fold_min_eq_inf (s : Finset ι) (f : ι → EReal) : s.fold min ⊤ f = s.inf f := rfl

/-- Adding a real number on the right commutes with a finite infimum. -/
theorem inf_add_coe (s : Finset ι) (f : ι → EReal) (x : ℝ) : s.inf f + (x : EReal) = s.inf fun i => f i + (x : EReal) := by
  refine Finset.comp_inf_eq_inf_comp (fun y : EReal => y + (x : EReal)) (fun y z => ?_) (EReal.top_add_coe x)
  exact Monotone.map_min (f := fun y : EReal => y + (x : EReal)) fun _ _ h => add_le_add_left h _

/-- Adding a real number on the left commutes with a finite infimum. -/
theorem coe_add_inf (s : Finset ι) (f : ι → EReal) (x : ℝ) : (x : EReal) + s.inf f = s.inf fun i => (x : EReal) + f i := by
  refine Finset.comp_inf_eq_inf_comp (fun y : EReal => (x : EReal) + y) (fun y z => ?_) (EReal.coe_add_top x)
  exact Monotone.map_min (f := fun y : EReal => (x : EReal) + y) fun _ _ h => add_le_add_right h _

/-- Clamping at zero commutes with a finite infimum. -/
theorem max_inf_zero (s : Finset ι) (f : ι → EReal) : max (s.inf f) 0 = s.inf fun i => max (f i) 0 := by
  refine Finset.comp_inf_eq_inf_comp (fun y : EReal => max y 0) (fun y z => ?_) (max_eq_left le_top)
  exact max_min_distrib_right y z 0

/-- A minimum over an index set covered by two families is the smaller of the two families' minima. -/
theorem inf_cover {α β γ : Type*} [Fintype α] [Fintype β] [Fintype γ] (l : α → γ) (h : β → γ)
    (cov : ∀ n : γ, (∃ x, l x = n) ∨ ∃ y, h y = n) (f : γ → EReal) :
    min (Finset.univ.inf fun x => f (l x)) (Finset.univ.inf fun y => f (h y)) = Finset.univ.inf f := by
  apply le_antisymm
  · refine Finset.le_inf fun n _ => ?_
    rcases cov n with ⟨x, rfl⟩ | ⟨y, rfl⟩
    · exact (min_le_left _ _).trans (Finset.inf_le (f := fun x => f (l x)) (Finset.mem_univ x))
    · exact (min_le_right _ _).trans (Finset.inf_le (f := fun y => f (h y)) (Finset.mem_univ y))
  · exact le_min (Finset.le_inf fun x _ => Finset.inf_le (Finset.mem_univ (l x)))
      (Finset.le_inf fun y _ => Finset.inf_le (Finset.mem_univ (h y)))

/-- The square root of a nonnegative extended real is nonnegative. -/
theorem sqrt_nonneg {x : EReal} (hx : 0 ≤ x) : 0 ≤ Ideal.sqrt x := by
  induction x using EReal.rec with
  | bot => exact absurd hx (by simp)
  | top => simp
  | coe r =>
    have hr : 0 ≤ r := by exact_mod_cast hx
    rw [Ideal.sqrt_coe, if_neg (not_lt.mpr hr)]
    exact_mod_cast Real.sqrt_nonneg r

/-- The final scaling: for nonnegative sums, the sum times `1/32768` is half the sum of the two means over 16384. -/
theorem scale (s1 s2 : EReal) (h1 : 0 ≤ s1) (h2 : 0 ≤ s2) :
    (s1 + s2) * ((1 / 32768 : ℝ) : EReal)
      = Ideal.div (Ideal.div s1 ((16384 : ℝ) : EReal) + Ideal.div s2 ((16384 : ℝ) : EReal)) ((2 : ℝ) : EReal) := by
  rw [Ideal.div_coe (by norm_num : (16384 : ℝ) ≠ 0), Ideal.div_coe (by norm_num : (16384 : ℝ) ≠ 0),
    Ideal.div_coe (by norm_num : (2 : ℝ) ≠ 0), ← EReal.right_distrib_of_nonneg h1 h2, mul_assoc, ← EReal.coe_mul]
  norm_num

end Cert.Proof.AlgOrd

end
-- ==== Proof.AlgPt.lean ====
import proofs.«209750_g45337674776763_cont_8to1c4_158_37_alg».proof.Proof.Spec

/-!
  The pointwise identities, for point sets whose entries are real numbers: every squared norm and inner product the
  kernel forms — on three coordinates summed from the left, or on eight zero-padded coordinates — is the real squared
  norm or inner product, and each of the kernel's four arrangements of a squared distance is the reference's
  `‖x‖² + ‖y‖² − 2 x·y`.
-/

noncomputable section

namespace Cert.Proof.AlgPt

open Cert.Proof.RefValue Cert.Proof.Spec
open Idealize.ShloMosaic Idealize.ShloMosaic.ValueIdx

/-- The real squared norm of point `n`. -/
def rsq (p : Fin 4096 → Fin 3 → ℝ) (n : Fin 4096) : ℝ := p n 0 * p n 0 + p n 1 * p n 1 + p n 2 * p n 2
/-- The real inner product of point `n` of `p` and point `m` of `q`. -/
def rdot (p q : Fin 4096 → Fin 3 → ℝ) (n m : Fin 4096) : ℝ := p n 0 * q m 0 + p n 1 * q m 1 + p n 2 * q m 2

section Pad
variable (x : Fin 4096 → Fin 3 → EReal) (n : Fin 4096)
theorem pad_0 : pad x n 0 = x n 0 := rfl
theorem pad_1 : pad x n 1 = x n 1 := rfl
theorem pad_2 : pad x n 2 = x n 2 := rfl
theorem pad_3 : pad x n 3 = 0 := rfl
theorem pad_4 : pad x n 4 = 0 := rfl
theorem pad_5 : pad x n 5 = 0 := rfl
theorem pad_6 : pad x n 6 = 0 := rfl
theorem pad_7 : pad x n 7 = 0 := rfl
end Pad

section
variable {a c : Pts} {b : Fin 4} {p q : Fin 4096 → Fin 3 → ℝ}
  (ha : ∀ n k, a (ix3 b n k) = (p n k : EReal)) (hc : ∀ n k, c (ix3 b n k) = (q n k : EReal))
include ha

theorem nrm_coe (n : Fin 4096) : nrm a b n = (rsq p n : EReal) := by
  simp only [nrm, Fin.sum_univ_three, ha, rsq]
  norm_cast

theorem sq3_coe (n : Fin 4096) : sq3 (pt a b) n = (rsq p n : EReal) := by
  simp only [sq3, pt, ha, rsq]
  norm_cast

theorem n2_coe (n : Fin 4096) : n2 a b n = (rsq p n : EReal) := by
  simp only [n2, Fin.sum_univ_eight, pad_0, pad_1, pad_2, pad_3, pad_4, pad_5, pad_6, pad_7, pt, ha, rsq, mul_zero, add_zero]
  norm_cast

theorem n1_coe (n : Fin 3584) : n1 a b n = (rsq p (lo n) : EReal) := by
  simp only [n1, Fin.sum_univ_eight, pad_0, pad_1, pad_2, pad_3, pad_4, pad_5, pad_6, pad_7, pt, ha, rsq, mul_zero, add_zero]
  norm_cast

include hc

theorem ip_coe (n m : Fin 4096) : ip a c b n m = (rdot p q n m : EReal) := by
  simp only [ip, Fin.sum_univ_three, ha, hc, rdot]
  norm_cast

theorem dot3_coe (n m : Fin 4096) : dot3 (pt a b) (pt c b) n m = (rdot p q n m : EReal) := by
  simp only [dot3, pt, ha, hc, rdot]
  norm_cast

theorem dot3_coe' (n m : Fin 4096) : dot3 (pt c b) (pt a b) m n = (rdot p q n m : EReal) := by
  simp only [dot3, pt, ha, hc, rdot]
  norm_cast
  ring

theorem inner_coe (n : Fin 3584) (m : Fin 4096) : Spec.inner a c b n m = ((-2 * rdot p q (lo n) m : ℝ) : EReal) := by
  simp only [Spec.inner, Fin.sum_univ_eight, pad_0, pad_1, pad_2, pad_3, pad_4, pad_5, pad_6, pad_7, pt, ha, hc, rdot, mul_zero,
    add_zero, ← EReal.coe_mul, ← EReal.coe_add]
  congr 1; ring

/-- The reference's clamped squared distance, on real entries. -/
theorem dsq_coe (n m : Fin 4096) : dsq a c b n m = max ((rsq p n + rsq q m - 2 * rdot p q n m : ℝ) : EReal) 0 := by
  rw [dsq, nrm_coe ha, nrm_coe hc, ip_coe ha hc]
  norm_cast

/-- Row arrangement on eight coordinates: `((-2 x)·y + ‖y‖²) + ‖x‖²`. -/
theorem row8 (n : Fin 3584) (m : Fin 4096) :
    max ((Spec.inner a c b n m + n2 c b m) + n1 a b n) 0 = dsq a c b (lo n) m := by
  rw [dsq_coe ha hc, inner_coe ha hc, n2_coe hc, n1_coe ha, ← EReal.coe_add, ← EReal.coe_add]
  congr 2; ring

/-- Column arrangement on eight coordinates: `((-2 x)·y + ‖x‖²) + ‖y‖²`. -/
theorem col8 (n : Fin 3584) (m : Fin 4096) :
    max ((Spec.inner a c b n m + n1 a b n) + n2 c b m) 0 = dsq a c b (lo n) m := by
  rw [dsq_coe ha hc, inner_coe ha hc, n2_coe hc, n1_coe ha, ← EReal.coe_add, ← EReal.coe_add]
  congr 2; ring

/-- Row arrangement on three coordinates: `‖x‖² + (‖y‖² − 2 x·y)`. -/
theorem row3 (n m : Fin 4096) :
    max (sq3 (pt a b) n + (sq3 (pt c b) m - two * dot3 (pt a b) (pt c b) n m)) 0 = dsq a c b n m := by
  rw [dsq_coe ha hc, sq3_coe ha, sq3_coe hc, dot3_coe ha hc, two, ← EReal.coe_mul, ← EReal.coe_sub, ← EReal.coe_add]
  congr 2; ring

/-- Column arrangement on three coordinates: `‖y‖² + (‖x‖² − 2 y·x)`. -/
theorem col3 (n m : Fin 4096) :
    max (sq3 (pt c b) m + (sq3 (pt a b) n - two * dot3 (pt c b) (pt a b) m n)) 0 = dsq a c b n m := by
  rw [dsq_coe ha hc, sq3_coe ha, sq3_coe hc, dot3_coe' ha hc, two, ← EReal.coe_mul, ← EReal.coe_sub, ← EReal.coe_add]
  congr 2; ring

end

end Cert.Proof.AlgPt

end
-- ==== Proof.AlgNear.lean ====
import proofs.«209750_g45337674776763_cont_8to1c4_158_37_alg».proof.Proof.AlgOrd
import proofs.«209750_g45337674776763_cont_8to1c4_158_37_alg».proof.Proof.AlgPt

/-!
  For point sets with real entries, the kernel's two tables are the reference's nearest-neighbour squared distances:
  adding a point's own squared norm and clamping at zero commute with the minimum, each summand is then the reference's
  clamped squared distance, and a minimum over all 4096 points is the smaller of the minima over the first 3584 and
  over the last 512.
-/

noncomputable section

namespace Cert.Proof.AlgNear

open Cert.Proof.RefValue Cert.Proof.Spec Cert.Proof.AlgOrd Cert.Proof.AlgPt
open Idealize.ShloMosaic Idealize.ShloMosaic.ValueIdx

/-- Every index is among the first 3584 or among the last 512. -/
theorem cover (n : Fin 4096) : (∃ x, lo x = n) ∨ ∃ y, hi y = n := by
  by_cases h : n.val < 3584
  · exact Or.inl ⟨⟨n.val, h⟩, rfl⟩
  · exact Or.inr ⟨⟨n.val - 3584, by have := n.isLt; omega⟩, Fin.ext (by show 3584 + (n.val - 3584) = n.val; omega)⟩

section
variable {a c : Pts} {b : Fin 4} {p q : Fin 4096 → Fin 3 → ℝ}
  (ha : ∀ n k, a (ix3 b n k) = (p n k : EReal)) (hc : ∀ n k, c (ix3 b n k) = (q n k : EReal))
include ha hc

theorem rowd_eq (n : Fin 3584) : rowd a c b n = near1 a c b (lo n) := by
  obtain ⟨x, hx⟩ : ∃ x : ℝ, n1 a b n = (x : EReal) := ⟨_, n1_coe ha n⟩
  unfold rowd near1
  rw [fold_min_eq_inf, fold_min_eq_inf, hx, inf_add_coe, max_inf_zero]
  refine Finset.inf_congr rfl fun m _ => ?_
  rw [← hx]
  exact row8 ha hc n m

theorem scd1_eq (r : Fin 512) : scd1 a c b r = near1 a c b (hi r) := by
  obtain ⟨x, hx⟩ : ∃ x : ℝ, sq3 (pt a b) (hi r) = (x : EReal) := ⟨_, sq3_coe ha (hi r)⟩
  unfold scd1 near1
  rw [fold_min_eq_inf, fold_min_eq_inf, hx, coe_add_inf, max_inf_zero]
  refine Finset.inf_congr rfl fun m _ => ?_
  rw [← hx]
  exact row3 ha hc (hi r) m

/-- The first table is the reference's nearest-neighbour squared distance of the first set's points. -/
theorem d1_eq (n : Fin 4096) : d1 a c b n = near1 a c b n := by
  unfold d1
  split_ifs with h
  · exact rowd_eq ha hc ⟨n.val, h⟩
  · rw [scd1_eq ha hc]
    congr 1
    exact Fin.ext (by show 3584 + (n.val - 3584) = n.val; omega)

theorem col_lo_eq (m : Fin 4096) :
    max (colmin a c b m + n2 c b m) 0 = (Finset.univ : Finset (Fin 3584)).inf fun n => dsq a c b (lo n) m := by
  obtain ⟨x, hx⟩ : ∃ x : ℝ, n2 c b m = (x : EReal) := ⟨_, n2_coe hc m⟩
  unfold colmin
  rw [fold_min_eq_inf, hx, inf_add_coe, max_inf_zero]
  refine Finset.inf_congr rfl fun n _ => ?_
  rw [← hx]
  exact col8 ha hc n m

theorem scd2_eq (m : Fin 4096) : scd2 a c b m = (Finset.univ : Finset (Fin 512)).inf fun r => dsq a c b (hi r) m := by
  obtain ⟨x, hx⟩ : ∃ x : ℝ, sq3 (pt c b) m = (x : EReal) := ⟨_, sq3_coe hc m⟩
  unfold scd2
  rw [fold_min_eq_inf, hx, coe_add_inf, max_inf_zero]
  refine Finset.inf_congr rfl fun r _ => ?_
  rw [← hx]
  exact col3 ha hc (hi r) m

/-- The second table is the reference's nearest-neighbour squared distance of the second set's points. -/
theorem d2_eq (m : Fin 4096) : d2 a c b m = near2 a c b m := by
  unfold d2 near2
  rw [col_lo_eq ha hc, scd2_eq ha hc, fold_min_eq_inf]
  exact inf_cover lo hi cover fun n => dsq a c b n m

end

/-- A nearest-neighbour squared distance is nonnegative. -/
theorem near1_nonneg (a c : Pts) (b : Fin 4) (n : Fin 4096) : 0 ≤ near1 a c b n := by
  unfold near1; rw [fold_min_eq_inf]
  exact Finset.le_inf fun m _ => le_max_right _ _
theorem near2_nonneg (a c : Pts) (b : Fin 4) (m : Fin 4096) : 0 ≤ near2 a c b m := by
  unfold near2; rw [fold_min_eq_inf]
  exact Finset.le_inf fun n _ => le_max_right _ _

end Cert.Proof.AlgNear

end
-- ==== Proof.Alg.lean ====
import proofs.«209750_g45337674776763_cont_8to1c4_158_37_alg».proof.Proof.AlgNear

/-!
  The kernel's arrangement of the chamfer distance equals the reference's, for point sets with real entries: the two
  tables of nearest-neighbour squared distances agree entry by entry, the reference's sums over pairs (batch, point)
  are the double sums, and the final scalings agree because all the summands are nonnegative.
-/

noncomputable section

namespace Cert.Proof.Alg

open Cert.Proof.RefValue Cert.Proof.Spec Cert.Proof.AlgOrd Cert.Proof.AlgNear
open Cert.ReferenceIdeal
open Idealize.ShloMosaic Idealize.ShloMosaic.ValueIdx

theorem kRaw_eq_ref (a c : Pts) (ha : ∀ i, a i ≠ ⊤ ∧ a i ≠ ⊥) (hc : ∀ i, c i ≠ ⊤ ∧ c i ≠ ⊥) : kRaw a c = refVal a c := by
  have hA : ∀ (b : Fin 4) (n : Fin 4096) (k : Fin 3), a (ix3 b n k) = (((a (ix3 b n k)).toReal : ℝ) : EReal) :=
    fun b n k => (EReal.coe_toReal (ha _).1 (ha _).2).symm
  have hC : ∀ (b : Fin 4) (n : Fin 4096) (k : Fin 3), c (ix3 b n k) = (((c (ix3 b n k)).toReal : ℝ) : EReal) :=
    fun b n k => (EReal.coe_toReal (hc _).1 (hc _).2).symm
  have e1 : (∑ b : Fin 4, ∑ n : Fin 4096, Ideal.sqrt (d1 a c b n)) = ∑ j : S4x4096.Idx, Ideal.sqrt (near1 a c (j 0) (j 1)) := by
    rw [sum_idx2]
    exact Finset.sum_congr rfl fun b _ => Finset.sum_congr rfl fun n _ => congrArg Ideal.sqrt (d1_eq (hA b) (hC b) n)
  have e2 : (∑ b : Fin 4, ∑ m : Fin 4096, Ideal.sqrt (d2 a c b m)) = ∑ j : S4x4096.Idx, Ideal.sqrt (near2 a c (j 0) (j 1)) := by
    rw [sum_idx2]
    exact Finset.sum_congr rfl fun b _ => Finset.sum_congr rfl fun m _ => congrArg Ideal.sqrt (d2_eq (hA b) (hC b) m)
  unfold kRaw refVal
  rw [e1, e2, ofBits_inv32768]
  exact scale _ _ (Finset.sum_nonneg fun j _ => sqrt_nonneg (near1_nonneg a c _ _))
    (Finset.sum_nonneg fun j _ => sqrt_nonneg (near2_nonneg a c _ _))

end Cert.Proof.Alg

end
-- ==== Proof.MainValue.lean ====
import proofs.«209750_g45337674776763_cont_8to1c4_158_37_alg».proof.Proof.Glue01
import proofs.«209750_g45337674776763_cont_8to1c4_158_37_alg».proof.Proof.Glue2
import proofs.«209750_g45337674776763_cont_8to1c4_158_37_alg».proof.Proof.GlueBlk2
import proofs.«209750_g45337674776763_cont_8to1c4_158_37_alg».proof.Proof.GlueReg1
import proofs.«209750_g45337674776763_cont_8to1c4_158_37_alg».proof.Proof.Pay4
import proofs.«209750_g45337674776763_cont_8to1c4_158_37_alg».proof.Proof.Alg

/-!
  The TensorCore's side of the kernel program as one statement about array contents: from the two arguments, with the
  SparseCore's two tables in its result array, through the four lines of host operations and the two TensorCore regions'
  value facts, the scalar result is the kernel's arrangement of the chamfer distance — and so, for point sets with
  real entries, the reference's value.
-/

noncomputable section

namespace Cert.Proof.Glue

open Cert.KernelIdeal Cert.KernelIdeal.Gen Cert.KernelIdeal.Tc Cert.Proof.ScI Cert.Proof.Spec Cert.Proof.RefValue Cert.Proof.Pay
open Idealize.ShloMosaic Idealize.ShloMosaic.ValueIdx Idealize.ShloMosaic.StableHlo Idealize.SL.Sem

theorem main_value (d : Dev nD) {a c : Pts} (W0 : Valuation τ sig (Elt Ideal))
    (hW0a : W0 (Proc.devRef .tc main_arg0) = a) (hW0c : W0 (Proc.devRef .tc main_arg1) = c)
    (g9 : (⟨S4x4608, .f32⟩ : BufTy).Contents (Elt Ideal))
    (hg1 : ∀ (b : Fin 4) (r : Fin 512), g9 (ix2 b ⟨r.val, by have := r.isLt; omega⟩) = scd1 a c b r)
    (hg2 : ∀ (b : Fin 4) (m : Fin 4096), g9 (ix2 b ⟨512 + m.val, by have := m.isLt; omega⟩) = scd2 a c b m)
    (W2 : Valuation τ sig (Elt Ideal))
    (hW2 : (∀ b, b ∉ outs1 → W2 b = after (ops1 (F := Ideal)) (mid W0 g9) b)
      ∧ val1 (after (ops1 (F := Ideal)) (mid W0 g9)) d W2)
    (W3 : Valuation τ sig (Elt Ideal))
    (hW3 : (∀ b, b ∉ outs2 → W3 b = after (ops2 (F := Ideal)) W2 b) ∧ val2 (after (ops2 (F := Ideal)) W2) d W3)
    (j : S_.Idx) :
    after (ops3 (F := Ideal)) W3 (Proc.devRef .tc main_v28) j = kRaw a c := by
  have H20 := fun (b : Fin 4) (n : Fin 3584) (k : Fin 8) => u_v20_apply hW0a g9 b n k
  have H22 := fun (b : Fin 4) (n : Fin 3584) (k : Fin 8) => u_v22_apply hW0a g9 b n k
  have H16 := fun (b : Fin 4) (k : Fin 8) (m : Fin 4096) => u_v16_apply hW0c g9 b k m
  have H15 := fun (b : Fin 4) (k : Fin 8) (m : Fin 4096) => u_v15_apply hW0c g9 b k m
  have h2 : _ = _ := hW3.2
  have h2' := congrFun h2 (ix2 (0 : Fin 1) (0 : Fin 1))
  rw [out2_apply] at h2'
  refine (v28_apply W3 j).trans (h2'.trans ?_)
  refine k2_spec _ _ _ _ (fun b n => ?_) (fun b m => ?_) (fun b m => ?_) (fun b k m => ?_)
  · -- the first table
    refine (iblk2_0_apply _ d b n).trans ((v25_apply W2 b n).trans ?_)
    delta d1
    by_cases h : n.val < 3584
    · rw [dif_pos h, dif_pos h]
      have hb := b.isLt
      have hr := rows_at d H20 H22 H16 H15 hW2.2
        (⟨b.val * 7 + n.val / 512, by show _ < 28; omega⟩ : Fin grid1.N) (⟨n.val % 512, Nat.mod_lt _ (by norm_num)⟩ : Fin 512)
      refine hr.trans ?_
      congr 1
      · exact Fin.ext (by show (b.val * 7 + n.val / 512) / 7 = b.val; omega)
      · exact Fin.ext (by show (b.val * 7 + n.val / 512) % 7 * 512 + n.val % 512 = n.val; omega)
    · rw [dif_neg h, dif_neg h, hW2.1 _ (by decide)]
      exact (u_v10_apply g9 b _).trans (hg1 b _)
  · -- the column minima
    exact (iblk2_1_apply _ d b m).trans ((v26_apply W2 b m).trans (cols_at d H20 H22 H16 hW2.2 b m))
  · -- the SparseCore's second table
    refine (iblk2_2_apply _ d b m).trans ?_
    rw [v11_keep, hW2.1 _ (by decide)]
    exact (u_v11_apply g9 b m).trans (hg2 b m)
  · -- the padded second point set
    refine (iblk2_3_apply _ d b k m).trans ?_
    rw [v15_keep, hW2.1 _ (by decide)]
    exact u_v15_apply hW0c g9 b k m

/-- For point sets with real entries the scalar result is the reference's value. -/
theorem main_value_ref (d : Dev nD) {a c : Pts} (ha : ∀ i, a i ≠ ⊤ ∧ a i ≠ ⊥) (hc : ∀ i, c i ≠ ⊤ ∧ c i ≠ ⊥)
    (W0 : Valuation τ sig (Elt Ideal))
    (hW0a : W0 (Proc.devRef .tc main_arg0) = a) (hW0c : W0 (Proc.devRef .tc main_arg1) = c)
    (g9 : (⟨S4x4608, .f32⟩ : BufTy).Contents (Elt Ideal))
    (hg1 : ∀ (b : Fin 4) (r : Fin 512), g9 (ix2 b ⟨r.val, by have := r.isLt; omega⟩) = scd1 a c b r)
    (hg2 : ∀ (b : Fin 4) (m : Fin 4096), g9 (ix2 b ⟨512 + m.val, by have := m.isLt; omega⟩) = scd2 a c b m)
    (W2 : Valuation τ sig (Elt Ideal))
    (hW2 : (∀ b, b ∉ outs1 → W2 b = after (ops1 (F := Ideal)) (mid W0 g9) b)
      ∧ val1 (after (ops1 (F := Ideal)) (mid W0 g9)) d W2)
    (W3 : Valuation τ sig (Elt Ideal))
    (hW3 : (∀ b, b ∉ outs2 → W3 b = after (ops2 (F := Ideal)) W2 b) ∧ val2 (after (ops2 (F := Ideal)) W2) d W3)
    (j : S_.Idx) :
    after (ops3 (F := Ideal)) W3 (Proc.devRef .tc main_v28) j = refVal a c :=
  (main_value d W0 hW0a hW0c g9 hg1 hg2 W2 hW2 W3 hW3 j).trans (Cert.Proof.Alg.kRaw_eq_ref a c ha hc)

end Cert.Proof.Glue

end
-- ==== Proof.Finite.lean ====
import proofs.«209750_g45337674776763_cont_8to1c4_158_37_alg».proof.Defs
import proofs.«209750_g45337674776763_cont_8to1c4_158_37_alg».proof.Proof.Gen.Pre_finite_inputs
import Idealize.ShloMosaic.Lib.ReduceAll
import Idealize.ShloMosaic.Lib.ValueIdx
import Idealize.ShloMosaic.PureOps.Ideal.Laws
/-!
  The precondition read as mathematics: every entry of the two input arrays is a real number — neither infinity.
-/

noncomputable section

namespace Cert.Proof.Finite

open Idealize.ShloMosaic Idealize.ShloMosaic.TcCoe Idealize.ShloMosaic.ValueIdx

instance subsingleton_S_ : Subsingleton Cert.Pre_finite_inputs.S_.Idx := ⟨fun a b => funext fun d => d.elim0⟩

/-- An extended real whose absolute value is below `+∞` is neither infinity. -/
theorem ne_of_abs_lt (x : EReal) (h : Ideal.cmp .olt (max x (-x)) (Ideal.ofBits .f32 0x7F800000#32) = 1#1) : x ≠ ⊤ ∧ x ≠ ⊥ := by
  have hinf : Ideal.ofBits .f32 0x7F800000#32 = (⊤ : EReal) := by simp [Ideal.ofBits, Ideal.ieee]
  rw [hinf] at h
  have hlt : max x (-x) < ⊤ := by
    by_contra hn
    simp [Ideal.cmp, hn] at h
  induction x using EReal.rec with
  | bot => simp at hlt
  | top => simp at hlt
  | coe r => exact ⟨EReal.coe_ne_top r, EReal.coe_ne_bot r⟩

theorem finite (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, m ((c.tc : Thread Cert.KernelIdeal.nD Cert.KernelIdeal.τ).loc Cert.KernelIdeal.main_arg0) i ≠ (⊤ : EReal)
        ∧ m ((c.tc : Thread Cert.KernelIdeal.nD Cert.KernelIdeal.τ).loc Cert.KernelIdeal.main_arg0) i ≠ (⊥ : EReal))
    ∧ (∀ i, m ((c.tc : Thread Cert.KernelIdeal.nD Cert.KernelIdeal.τ).loc Cert.KernelIdeal.main_arg1) i ≠ (⊤ : EReal)
        ∧ m ((c.tc : Thread Cert.KernelIdeal.nD Cert.KernelIdeal.τ).loc Cert.KernelIdeal.main_arg1) i ≠ (⊥ : EReal)) := by
  have h0 := congrFun (h c) ValueIdx.ix0
  dsimp only [Cert.Pre_finite_inputs.fn] at h0
  obtain ⟨h3, h7⟩ := IntOp.andi_eq_one.1 h0
  refine ⟨fun i => ?_, fun i => ?_⟩
  · exact ne_of_abs_lt _ (Host.reduce_andi_all _ _ _ _ ValueIdx.ix0 h3 i)
  · exact ne_of_abs_lt _ (Host.reduce_andi_all _ _ _ _ ValueIdx.ix0 h7 i)

end Cert.Proof.Finite

end
-- ==== Proof.AlgMain.lean ====
/-
  The algebraic claim from the pieces: the kernel program's run leaves, in its scalar result, the reference's formula of
  the two argument arrays (the SparseCore kernel's words and the two TensorCore regions' arrays read at their values, the
  host lines between them read at an index, and the rearrangement of the formula over finite inputs), and the reference's
  run leaves the same formula.
-/
import proofs.«209750_g45337674776763_cont_8to1c4_158_37_alg».proof.Defs
import proofs.«209750_g45337674776763_cont_8to1c4_158_37_alg».proof.Proof.Gen.Pre_finite_inputs
import proofs.«209750_g45337674776763_cont_8to1c4_158_37_alg».proof.Proof.ScRunVScI
import proofs.«209750_g45337674776763_cont_8to1c4_158_37_alg».proof.Proof.TcStep0V
import proofs.«209750_g45337674776763_cont_8to1c4_158_37_alg».proof.Proof.TcStep1V
import proofs.«209750_g45337674776763_cont_8to1c4_158_37_alg».proof.Proof.TcHu
import proofs.«209750_g45337674776763_cont_8to1c4_158_37_alg».proof.Proof.MainValue
import proofs.«209750_g45337674776763_cont_8to1c4_158_37_alg».proof.Proof.Finite
import proofs.«209750_g45337674776763_cont_8to1c4_158_37_alg».proof.Proof.RefValue

noncomputable section

namespace Cert.Proof.AlgMain

open Cert.KernelIdeal Cert.KernelIdeal.Gen
open Idealize.ShloMosaic Idealize.SL.Sem Idealize.ShloMosaic.ValueIdx
open Cert.Proof.ScI Cert.Proof.Spec Cert.Proof.RefValue

/-- The SparseCore kernel's result array as mathematics: row `b`'s first 512 words are the clamped squared distances of
    the last 512 points of the first set, the other 4096 those of the second set's points to those 512. -/
def scSpec (a c : Pts) : (⟨S4x4608, .f32⟩ : BufTy).Contents (Elt Ideal) := fun i =>
  if h : (i 1).val < 512 then scd1 a c (i 0) ⟨(i 1).val, h⟩
  else scd2 a c (i 0) ⟨(i 1).val - 512, by have h4 : (i 1).val < 4608 := (i 1).isLt; show _ < 4096; omega⟩

variable (m : (ℓ : Loc nD τ sig) → Buf (Elt Ideal) ℓ)

/-- The result array's spec on device `d`. -/
abbrev specOf (d : Dev nD) : Buf (Elt Ideal) (l9 d) := scSpec (m (d, ra0)) (m (d, ra1))

/-- The algebraic claim, given the two SparseCore branches' value runs at the spec. -/
theorem algebraic_of
    (hb : ∀ m : (ℓ : Loc nD τ sig) → Buf (Elt Ideal) ℓ,
      BodyV (F := Ideal) (U := Cert.KernelIdeal.Tc.UU) (g7 m) (g8 m) (g6 m) (g1 m) (specOf m) 0 L0
        ∧ BodyV (F := Ideal) (U := Cert.KernelIdeal.Tc.UU) (g7 m) (g8 m) (g6 m) (g1 m) (specOf m) 1 L1) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' hpre hagree
  refine ⟨fun c => fun _ => refVal (m (c, ra0)) (m (c, ra1)), ?_, ?_⟩
  · exact run_mainV (F := Ideal) m (fun c => fun _ => refVal (m (c, ra0)) (m (c, ra1))) g
      Cert.KernelIdeal.Tc.G (Cert.KernelIdeal.Tc.Gp 1) (fun _ => Idealize.SL.BI.BIBase.emp) Cert.KernelIdeal.Tc.u₀ Cert.KernelIdeal.Tc.hu₀
      (specOf m) (fun d W W' => Cert.KernelIdeal.Tc.val1 W d W') (fun d W W' => Cert.KernelIdeal.Tc.val2 W d W')
      (hb m).1 (hb m).2
      (fun κ d W Φ => Cert.KernelIdeal.Tc.region_step0v (PPV m (specOf m)) κ d W Φ)
      (fun κ d W Φ => Cert.KernelIdeal.Tc.region_step1v (PPV m (specOf m)) κ d W Φ)
      (fun d g9 W2 W3 hg hW2 hW3 => funext fun j =>
        Cert.Proof.Glue.main_value_ref d (a := m (d, ra0)) (c := m (d, ra1))
          (Cert.Proof.Finite.finite m hpre d).1 (Cert.Proof.Finite.finite m hpre d).2
          (StableHlo.launchContents m d) rfl rfl g9
          (fun b r => (hg _).trans (dif_pos r.isLt))
          (fun b mm => (hg _).trans ((dif_neg (by show ¬ (512 + mm.val < 512); omega)).trans (by congr 1; exact Fin.ext (by show 512 + mm.val - 512 = mm.val; omega))))
          W2 hW2 W3 hW3 j)
  · refine (θ_run (Cert.ReferenceIdeal.defs (F := Ideal)) _ _).mono (fun r h c => ?_) (Cert.ReferenceIdeal.Value.run (F := Ideal) m' g')
    have hc := hagree c
    refine ⟨?_, (h c).2.1, (h c).2.2⟩
    rw [(h c).1]
    funext j
    rw [Cert.ReferenceIdeal.Read.val_main_v24_eq, hc.1, hc.2]
    exact v24_apply _ _ j

end Cert.Proof.AlgMain

end
-- ==== Proof.ScVal0AScI.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScCommonScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- The eight running minima a scan loop carries: one vector of sixteen lanes per block of sixteen rows. -/
abbrev Acc (F : FTy → Type) : Type := FVec F S16 .f32 × FVec F S16 .f32 × FVec F S16 .f32 × FVec F S16 .f32 × FVec F S16 .f32 × FVec F S16 .f32 × FVec F S16 .f32 × FVec F S16 .f32

/-- One candidate against one block of sixteen rows: the running minimum of `‖q‖² − 2 ⟨r, q⟩`, lane by lane. -/
def upd (rx ry rz cur : FVec F S16 .f32) (qx qy qz qn : F .f32) : FVec F S16 .f32 :=
  minimumf cur (subf (broadcast S16 qn) (mulf (broadcast S16 (Scalar.ofBits .f32 0x40000000#32))
    (addf (addf (mulf rx (broadcast S16 qx)) (mulf ry (broadcast S16 qy))) (mulf rz (broadcast S16 qz)))))
def ext0 (v : FVec F S16 .f32) : F .f32 := extractAt ![0] (extractStridedSlice S1 ![0] v slices_S16_o0_S1) inpos_S1_p0
def ext1 (v : FVec F S16 .f32) : F .f32 := extractAt ![0] (extractStridedSlice S1 ![1] v slices_S16_o1_S1) inpos_S1_p0
def ext2 (v : FVec F S16 .f32) : F .f32 := extractAt ![0] (extractStridedSlice S1 ![2] v slices_S16_o2_S1) inpos_S1_p0
def ext3 (v : FVec F S16 .f32) : F .f32 := extractAt ![0] (extractStridedSlice S1 ![3] v slices_S16_o3_S1) inpos_S1_p0
def ext4 (v : FVec F S16 .f32) : F .f32 := extractAt ![0] (extractStridedSlice S1 ![4] v slices_S16_o4_S1) inpos_S1_p0
def ext5 (v : FVec F S16 .f32) : F .f32 := extractAt ![0] (extractStridedSlice S1 ![5] v slices_S16_o5_S1) inpos_S1_p0
def ext6 (v : FVec F S16 .f32) : F .f32 := extractAt ![0] (extractStridedSlice S1 ![6] v slices_S16_o6_S1) inpos_S1_p0
def ext7 (v : FVec F S16 .f32) : F .f32 := extractAt ![0] (extractStridedSlice S1 ![7] v slices_S16_o7_S1) inpos_S1_p0
def ext8 (v : FVec F S16 .f32) : F .f32 := extractAt ![0] (extractStridedSlice S1 ![8] v slices_S16_o8_S1) inpos_S1_p0
def ext9 (v : FVec F S16 .f32) : F .f32 := extractAt ![0] (extractStridedSlice S1 ![9] v slices_S16_o9_S1) inpos_S1_p0
def ext10 (v : FVec F S16 .f32) : F .f32 := extractAt ![0] (extractStridedSlice S1 ![10] v slices_S16_o10_S1) inpos_S1_p0
def ext11 (v : FVec F S16 .f32) : F .f32 := extractAt ![0] (extractStridedSlice S1 ![11] v slices_S16_o11_S1) inpos_S1_p0
def ext12 (v : FVec F S16 .f32) : F .f32 := extractAt ![0] (extractStridedSlice S1 ![12] v slices_S16_o12_S1) inpos_S1_p0
def ext13 (v : FVec F S16 .f32) : F .f32 := extractAt ![0] (extractStridedSlice S1 ![13] v slices_S16_o13_S1) inpos_S1_p0
def ext14 (v : FVec F S16 .f32) : F .f32 := extractAt ![0] (extractStridedSlice S1 ![14] v slices_S16_o14_S1) inpos_S1_p0
def ext15 (v : FVec F S16 .f32) : F .f32 := extractAt ![0] (extractStridedSlice S1 ![15] v slices_S16_o15_S1) inpos_S1_p0

/-- Sixteen candidates (one chunk) against one block of rows, in the chunk's order. -/
def chunk (rx ry rz cur qxv qyv qzv qnv : FVec F S16 .f32) : FVec F S16 .f32 :=
  (upd rx ry rz (upd rx ry rz (upd rx ry rz (upd rx ry rz (upd rx ry rz (upd rx ry rz (upd rx ry rz (upd rx ry rz (upd rx ry rz (upd rx ry rz (upd rx ry rz (upd rx ry rz (upd rx ry rz (upd rx ry rz (upd rx ry rz (upd rx ry rz cur (ext0 qxv) (ext0 qyv) (ext0 qzv) (ext0 qnv)) (ext1 qxv) (ext1 qyv) (ext1 qzv) (ext1 qnv)) (ext2 qxv) (ext2 qyv) (ext2 qzv) (ext2 qnv)) (ext3 qxv) (ext3 qyv) (ext3 qzv) (ext3 qnv)) (ext4 qxv) (ext4 qyv) (ext4 qzv) (ext4 qnv)) (ext5 qxv) (ext5 qyv) (ext5 qzv) (ext5 qnv)) (ext6 qxv) (ext6 qyv) (ext6 qzv) (ext6 qnv)) (ext7 qxv) (ext7 qyv) (ext7 qzv) (ext7 qnv)) (ext8 qxv) (ext8 qyv) (ext8 qzv) (ext8 qnv)) (ext9 qxv) (ext9 qyv) (ext9 qzv) (ext9 qnv)) (ext10 qxv) (ext10 qyv) (ext10 qzv) (ext10 qnv)) (ext11 qxv) (ext11 qyv) (ext11 qzv) (ext11 qnv)) (ext12 qxv) (ext12 qyv) (ext12 qzv) (ext12 qnv)) (ext13 qxv) (ext13 qyv) (ext13 qzv) (ext13 qnv)) (ext14 qxv) (ext14 qyv) (ext14 qzv) (ext14 qnv)) (ext15 qxv) (ext15 qyv) (ext15 qzv) (ext15 qnv))

/-- Coordinate `a` of the chunk of sixteen points at offset `16 k` of a `3 × 4096` buffer. -/
def ldv (L : grid0.Coords) (k0_h1 : k0_cond1 L = 1#1) (k : Fin k0_t1_loop.trips) (c : Buf (Elt F) ((B2).view.loc (thr d L))) (a : Fin 3) : FVec F S16 .f32 :=
  match a with
  | 0 => shapeCast S16 ((B2).view.readAt (Elt F) (Rect.unit (s := S3x4096) (k0_off6 k) S1x16.size (k0_off6_inb L k k0_h1)).toLoadRect c) shapeCasts_S1x16_S16
  | 1 => shapeCast S16 ((B2).view.readAt (Elt F) (Rect.unit (s := S3x4096) (k0_off7 k) S1x16.size (k0_off7_inb L k k0_h1)).toLoadRect c) shapeCasts_S1x16_S16
  | 2 => shapeCast S16 ((B2).view.readAt (Elt F) (Rect.unit (s := S3x4096) (k0_off8 k) S1x16.size (k0_off8_inb L k k0_h1)).toLoadRect c) shapeCasts_S1x16_S16

/-- The squared norms of a chunk. -/
def nrmv (fx fy fz : FVec F S16 .f32) : FVec F S16 .f32 := addf (addf (mulf fx fx) (mulf fy fy)) (mulf fz fz)

/-- One trip of the scan as a function: every block of rows against the trip's chunk of candidates. -/
def tripSpec (L : grid0.Coords) (k0_h1 : k0_cond1 L = 1#1) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32)
    (k : Fin k0_t1_loop.trips) (c2 c3 : Buf (Elt F) ((B2).view.loc (thr d L))) (acc : Acc F) : Acc F :=
  (chunk v40 v80 v120 acc.1 (ldv d L k0_h1 k c2 0) (ldv d L k0_h1 k c2 1) (ldv d L k0_h1 k c2 2) (nrmv (ldv d L k0_h1 k c3 0) (ldv d L k0_h1 k c3 1) (ldv d L k0_h1 k c3 2)),
   chunk v45 v85 v125 acc.2.1 (ldv d L k0_h1 k c2 0) (ldv d L k0_h1 k c2 1) (ldv d L k0_h1 k c2 2) (nrmv (ldv d L k0_h1 k c3 0) (ldv d L k0_h1 k c3 1) (ldv d L k0_h1 k c3 2)),
   chunk v50 v90 v130 acc.2.2.1 (ldv d L k0_h1 k c2 0) (ldv d L k0_h1 k c2 1) (ldv d L k0_h1 k c2 2) (nrmv (ldv d L k0_h1 k c3 0) (ldv d L k0_h1 k c3 1) (ldv d L k0_h1 k c3 2)),
   chunk v55 v95 v135 acc.2.2.2.1 (ldv d L k0_h1 k c2 0) (ldv d L k0_h1 k c2 1) (ldv d L k0_h1 k c2 2) (nrmv (ldv d L k0_h1 k c3 0) (ldv d L k0_h1 k c3 1) (ldv d L k0_h1 k c3 2)),
   chunk v60 v100 v140 acc.2.2.2.2.1 (ldv d L k0_h1 k c2 0) (ldv d L k0_h1 k c2 1) (ldv d L k0_h1 k c2 2) (nrmv (ldv d L k0_h1 k c3 0) (ldv d L k0_h1 k c3 1) (ldv d L k0_h1 k c3 2)),
   chunk v65 v105 v145 acc.2.2.2.2.2.1 (ldv d L k0_h1 k c2 0) (ldv d L k0_h1 k c2 1) (ldv d L k0_h1 k c2 2) (nrmv (ldv d L k0_h1 k c3 0) (ldv d L k0_h1 k c3 1) (ldv d L k0_h1 k c3 2)),
   chunk v70 v110 v150 acc.2.2.2.2.2.2.1 (ldv d L k0_h1 k c2 0) (ldv d L k0_h1 k c2 1) (ldv d L k0_h1 k c2 2) (nrmv (ldv d L k0_h1 k c3 0) (ldv d L k0_h1 k c3 1) (ldv d L k0_h1 k c3 2)),
   chunk v75 v115 v155 acc.2.2.2.2.2.2.2 (ldv d L k0_h1 k c2 0) (ldv d L k0_h1 k c2 1) (ldv d L k0_h1 k c2 2) (nrmv (ldv d L k0_h1 k c3 0) (ldv d L k0_h1 k c3 1) (ldv d L k0_h1 k c3 2)))

set_option maxHeartbeats 4000000 in
/-- One trip of SparseCore 0's scan, run once at symbolic operands: the carried minima after the trip as a function of
    those before it (found by the run), the two candidate buffers only read. -/
noncomputable def tripRun (L : grid0.Coords) (k0_h1 : k0_cond1 L = 1#1) (v35 : BitVec 32) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v175 : FVec F S16 .f32) (v195 : FVec F S16 .f32) (v215 : FVec F S16 .f32) (v235 : FVec F S16 .f32) (v296 : BitVec 32)
    (k : Fin k0_t1_loop.trips) (c2 : Buf (Elt F) ((B2).view.loc (thr d L))) (c3 : Buf (Elt F) ((B3).view.loc (thr d L))) :
    { g : Acc F → Acc F // ∀ acc : Acc F,
      (iprop(((B2).view.loc (thr d L) ↦{fullShare} c2) ∗ ((B3).view.loc (thr d L) ↦{fullShare} c3)) : sProp 𝕄)
        ⊢ wp frame (wpE (defs₀ (F := F)) Variants.none (thr d L) none) Set.univ
            (k0_t1_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h1 v35 v40 v45 v50 v55 v60 v65 v70 v75 v80 v85 v90 v95 v100 v105 v110 v115 v120 v125 v130 v135 v140 v145 v150 v155 v175 v195 v215 v235 v296 k acc)
            fun r => iprop(⌜r = g acc⌝ ∗ ((B2).view.loc (thr d L) ↦{fullShare} c2) ∗ ((B3).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq (L : grid0.Coords) (k0_h1 : k0_cond1 L = 1#1) (v35 : BitVec 32) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v175 : FVec F S16 .f32) (v195 : FVec F S16 .f32) (v215 : FVec F S16 .f32) (v235 : FVec F S16 .f32) (v296 : BitVec 32)
    (k : Fin k0_t1_loop.trips) (c2 : Buf (Elt F) ((B2).view.loc (thr d L))) (c3 : Buf (Elt F) ((B3).view.loc (thr d L))) (acc : Acc F) :
    (tripRun (U := U) d L k0_h1 v35 v40 v45 v50 v55 v60 v65 v70 v75 v80 v85 v90 v95 v100 v105 v110 v115 v120 v125 v130 v135 v140 v145 v150 v155 v175 v195 v215 v235 v296 k c2 c3).val acc
      = tripSpec d L k0_h1 v40 v45 v50 v55 v60 v65 v70 v75 v80 v85 v90 v95 v100 v105 v110 v115 v120 v125 v130 v135 v140 v145 v150 v155 k c2 c3 acc := rfl

end Cert.Proof.ScI

end
-- ==== Proof.ScVal0BScI.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0AScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Trip `k` of the scan, as a step on the carried minima (the identity past the last trip). -/
def stepN (L : grid0.Coords) (k0_h1 : k0_cond1 L = 1#1) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32)
    (c2 c3 : Buf (Elt F) ((B2).view.loc (thr d L))) (k : ℕ) (acc : Acc F) : Acc F :=
  if h : k < k0_t1_loop.trips then tripSpec d L k0_h1 v40 v45 v50 v55 v60 v65 v70 v75 v80 v85 v90 v95 v100 v105 v110 v115 v120 v125 v130 v135 v140 v145 v150 v155 ⟨k, h⟩ c2 c3 acc else acc

/-- The carried minima before trip `k`. -/
def iter (L : grid0.Coords) (k0_h1 : k0_cond1 L = 1#1) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32)
    (c2 c3 : Buf (Elt F) ((B2).view.loc (thr d L))) (init : Acc F) : ℕ → Acc F
  | 0 => init
  | k + 1 => stepN d L k0_h1 v40 v45 v50 v55 v60 v65 v70 v75 v80 v85 v90 v95 v100 v105 v110 v115 v120 v125 v130 v135 v140 v145 v150 v155 c2 c3 k (iter L k0_h1 v40 v45 v50 v55 v60 v65 v70 v75 v80 v85 v90 v95 v100 v105 v110 v115 v120 v125 v130 v135 v140 v145 v150 v155 c2 c3 init k)

theorem iter_succ (L : grid0.Coords) (k0_h1 : k0_cond1 L = 1#1) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32)
    (c2 c3 : Buf (Elt F) ((B2).view.loc (thr d L))) (init : Acc F) (k : Fin k0_t1_loop.trips) :
    iter d L k0_h1 v40 v45 v50 v55 v60 v65 v70 v75 v80 v85 v90 v95 v100 v105 v110 v115 v120 v125 v130 v135 v140 v145 v150 v155 c2 c3 init (k.val + 1)
      = tripSpec d L k0_h1 v40 v45 v50 v55 v60 v65 v70 v75 v80 v85 v90 v95 v100 v105 v110 v115 v120 v125 v130 v135 v140 v145 v150 v155 k c2 c3 (iter d L k0_h1 v40 v45 v50 v55 v60 v65 v70 v75 v80 v85 v90 v95 v100 v105 v110 v115 v120 v125 v130 v135 v140 v145 v150 v155 c2 c3 init k.val) := by
  show stepN d L k0_h1 v40 v45 v50 v55 v60 v65 v70 v75 v80 v85 v90 v95 v100 v105 v110 v115 v120 v125 v130 v135 v140 v145 v150 v155 c2 c3 k.val _ = _
  unfold stepN
  rw [dif_pos k.isLt]

set_option maxHeartbeats 2000000 in
/-- The scan loop of SparseCore 0, whatever follows it: it only reads the two candidate buffers and hands on the minima
    after all its trips. -/
theorem loop0 (L : grid0.Coords) (k0_h1 : k0_cond1 L = 1#1) (v35 : BitVec 32) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v175 : FVec F S16 .f32) (v195 : FVec F S16 .f32) (v215 : FVec F S16 .f32) (v235 : FVec F S16 .f32) (v296 : BitVec 32)
    (c2 : Buf (Elt F) ((B2).view.loc (thr d L))) (c3 : Buf (Elt F) ((B3).view.loc (thr d L))) (init : Acc F) {β : Type}
    (kk : Acc F → Prog (TpuEff nD τ sig (Elt F) Λ₀ (thr d L).2) β) (Q : β → sProp 𝕄) :
    (iprop(((B2).view.loc (thr d L) ↦{fullShare} c2) ∗ ((B3).view.loc (thr d L) ↦{fullShare} c3)
        ∗ ((((B2).view.loc (thr d L) ↦{fullShare} c2) ∗ ((B3).view.loc (thr d L) ↦{fullShare} c3))
            -∗ wp frame (wpE (defs₀ (F := F)) Variants.none (thr d L) none) Set.univ
                (kk (iter d L k0_h1 v40 v45 v50 v55 v60 v65 v70 v75 v80 v85 v90 v95 v100 v105 v110 v115 v120 v125 v130 v135 v140 v145 v150 v155 c2 c3 init k0_t1_loop.trips)) Q)) : sProp 𝕄)
      ⊢ wp frame (wpE (defs₀ (F := F)) Variants.none (thr d L) none) Set.univ
          (Scf.Loop.for k0_t1_loop (k0_t1_ok L k0_h1) init
            (k0_t1_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h1 v35 v40 v45 v50 v55 v60 v65 v70 v75 v80 v85 v90 v95 v100 v105 v110 v115 v120 v125 v130 v135 v140 v145 v150 v155 v175 v195 v215 v235 v296) >>= kk) Q := by
  iintro ⟨HB2, HB3, Hk⟩
  sl_for (fun (k : Nat) (acc : Acc F) => (iprop(⌜acc = iter d L k0_h1 v40 v45 v50 v55 v60 v65 v70 v75 v80 v85 v90 v95 v100 v105 v110 v115 v120 v125 v130 v135 v140 v145 v150 v155 c2 c3 init k⌝
      ∗ ((B2).view.loc (thr d L) ↦{fullShare} c2) ∗ ((B3).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun (U := U) d L k0_h1 v35 v40 v45 v50 v55 v60 v65 v70 v75 v80 v85 v90 v95 v100 v105 v110 v115 v120 v125 v130 v135 v140 v145 v150 v155 v175 v195 v215 v235 v296 k c2 c3).2 acc)
      isplitl [HB2]; · iexact HB2
      iexact HB3
    · iintro %r ⟨%hr, HB2, HB3⟩
      isplitr
      · ipureintro
        rw [hr, trip_eq, hacc]
        exact (iter_succ d L k0_h1 v40 v45 v50 v55 v60 v65 v70 v75 v80 v85 v90 v95 v100 v105 v110 v115 v120 v125 v130 v135 v140 v145 v150 v155 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop0' (L : grid0.Coords) (k0_h1 : k0_cond1 L = 1#1) (v35 : BitVec 32) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v175 : FVec F S16 .f32) (v195 : FVec F S16 .f32) (v215 : FVec F S16 .f32) (v235 : FVec F S16 .f32) (v296 : BitVec 32)
    (c2 : Buf (Elt F) ((B2).view.loc (thr d L))) (c3 : Buf (Elt F) ((B3).view.loc (thr d L))) (init : Acc F) (Φ : Acc F → sProp 𝕄) :
    (iprop(((B2).view.loc (thr d L) ↦{fullShare} c2) ∗ ((B3).view.loc (thr d L) ↦{fullShare} c3)
        ∗ ((((B2).view.loc (thr d L) ↦{fullShare} c2) ∗ ((B3).view.loc (thr d L) ↦{fullShare} c3))
            -∗ Φ (iter d L k0_h1 v40 v45 v50 v55 v60 v65 v70 v75 v80 v85 v90 v95 v100 v105 v110 v115 v120 v125 v130 v135 v140 v145 v150 v155 c2 c3 init k0_t1_loop.trips))) : sProp 𝕄)
      ⊢ wp frame (wpE (defs₀ (F := F)) Variants.none (thr d L) none) Set.univ
          (Scf.Loop.for k0_t1_loop (k0_t1_ok L k0_h1) init
            (k0_t1_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h1 v35 v40 v45 v50 v55 v60 v65 v70 v75 v80 v85 v90 v95 v100 v105 v110 v115 v120 v125 v130 v135 v140 v145 v150 v155 v175 v195 v215 v235 v296)) Φ := by
  rw [← Prog.bind_pure (Scf.Loop.for k0_t1_loop (k0_t1_ok L k0_h1) init
            (k0_t1_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h1 v35 v40 v45 v50 v55 v60 v65 v70 v75 v80 v85 v90 v95 v100 v105 v110 v115 v120 v125 v130 v135 v140 v145 v150 v155 v175 v195 v215 v235 v296))]
  iintro ⟨HB2, HB3, Hk⟩
  iapply (loop0 (F := F) (U := U) d L k0_h1 v35 v40 v45 v50 v55 v60 v65 v70 v75 v80 v85 v90 v95 v100 v105 v110 v115 v120 v125 v130 v135 v140 v145 v150 v155 v175 v195 v215 v235 v296 c2 c3 init (fun acc => pure acc) Φ) $$ [HB2 HB3 Hk]
  isplitl [HB2]; · iexact HB2
  isplitl [HB3]; · iexact HB3
  iintro H
  rw [wp_pure]; imodintro
  iapply Hk; iexact H

/-- The eight minima as an explicit tuple of their projections (equal to the tuple itself). -/
def etaAcc (p : Acc F) : Acc F := (p.1, p.2.1, p.2.2.1, p.2.2.2.1, p.2.2.2.2.1, p.2.2.2.2.2.1, p.2.2.2.2.2.2.1, p.2.2.2.2.2.2.2)
theorem etaAcc_eq (p : Acc F) : etaAcc p = p := rfl

/-- The loop, the minima handed on as a tuple of projections: what follows the loop binds the eight components by name. -/
theorem loop0'' (L : grid0.Coords) (k0_h1 : k0_cond1 L = 1#1) (v35 : BitVec 32) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v175 : FVec F S16 .f32) (v195 : FVec F S16 .f32) (v215 : FVec F S16 .f32) (v235 : FVec F S16 .f32) (v296 : BitVec 32)
    (c2 : Buf (Elt F) ((B2).view.loc (thr d L))) (c3 : Buf (Elt F) ((B3).view.loc (thr d L))) (init : Acc F) (Φ : Acc F → sProp 𝕄) :
    (iprop(((B2).view.loc (thr d L) ↦{fullShare} c2) ∗ ((B3).view.loc (thr d L) ↦{fullShare} c3)
        ∗ ((((B2).view.loc (thr d L) ↦{fullShare} c2) ∗ ((B3).view.loc (thr d L) ↦{fullShare} c3))
            -∗ Φ (etaAcc (iter d L k0_h1 v40 v45 v50 v55 v60 v65 v70 v75 v80 v85 v90 v95 v100 v105 v110 v115 v120 v125 v130 v135 v140 v145 v150 v155 c2 c3 init k0_t1_loop.trips)))) : sProp 𝕄)
      ⊢ wp frame (wpE (defs₀ (F := F)) Variants.none (thr d L) none) Set.univ
          (Scf.Loop.for k0_t1_loop (k0_t1_ok L k0_h1) init
            (k0_t1_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h1 v35 v40 v45 v50 v55 v60 v65 v70 v75 v80 v85 v90 v95 v100 v105 v110 v115 v120 v125 v130 v135 v140 v145 v150 v155 v175 v195 v215 v235 v296)) Φ :=
  loop0' (F := F) (U := U) d L k0_h1 v35 v40 v45 v50 v55 v60 v65 v70 v75 v80 v85 v90 v95 v100 v105 v110 v115 v120 v125 v130 v135 v140 v145 v150 v155 v175 v195 v215 v235 v296 c2 c3 init Φ

/-- The loop, the minima handed on under a NAME with the equation that says what they are. -/
theorem loop0v (L : grid0.Coords) (k0_h1 : k0_cond1 L = 1#1) (v35 : BitVec 32) (v40 : FVec F S16 .f32) (v45 : FVec F S16 .f32) (v50 : FVec F S16 .f32) (v55 : FVec F S16 .f32) (v60 : FVec F S16 .f32) (v65 : FVec F S16 .f32) (v70 : FVec F S16 .f32) (v75 : FVec F S16 .f32) (v80 : FVec F S16 .f32) (v85 : FVec F S16 .f32) (v90 : FVec F S16 .f32) (v95 : FVec F S16 .f32) (v100 : FVec F S16 .f32) (v105 : FVec F S16 .f32) (v110 : FVec F S16 .f32) (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v175 : FVec F S16 .f32) (v195 : FVec F S16 .f32) (v215 : FVec F S16 .f32) (v235 : FVec F S16 .f32) (v296 : BitVec 32)
    (c2 : Buf (Elt F) ((B2).view.loc (thr d L))) (c3 : Buf (Elt F) ((B3).view.loc (thr d L))) (init : Acc F) (Φ : Acc F → sProp 𝕄) :
    (iprop(((B2).view.loc (thr d L) ↦{fullShare} c2) ∗ ((B3).view.loc (thr d L) ↦{fullShare} c3)
        ∗ (∀ acc : Acc F, ⌜acc = iter d L k0_h1 v40 v45 v50 v55 v60 v65 v70 v75 v80 v85 v90 v95 v100 v105 v110 v115 v120 v125 v130 v135 v140 v145 v150 v155 c2 c3 init k0_t1_loop.trips⌝
            -∗ (((B2).view.loc (thr d L) ↦{fullShare} c2) ∗ ((B3).view.loc (thr d L) ↦{fullShare} c3)) -∗ Φ acc)) : sProp 𝕄)
      ⊢ wp frame (wpE (defs₀ (F := F)) Variants.none (thr d L) none) Set.univ
          (Scf.Loop.for k0_t1_loop (k0_t1_ok L k0_h1) init
            (k0_t1_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h1 v35 v40 v45 v50 v55 v60 v65 v70 v75 v80 v85 v90 v95 v100 v105 v110 v115 v120 v125 v130 v135 v140 v145 v150 v155 v175 v195 v215 v235 v296)) Φ := by
  iintro ⟨HB2, HB3, Hk⟩
  iapply (loop0' (F := F) (U := U) d L k0_h1 v35 v40 v45 v50 v55 v60 v65 v70 v75 v80 v85 v90 v95 v100 v105 v110 v115 v120 v125 v130 v135 v140 v145 v150 v155 v175 v195 v215 v235 v296 c2 c3 init Φ) $$ [HB2 HB3 Hk]
  isplitl [HB2]; · iexact HB2
  isplitl [HB3]; · iexact HB3
  iintro H
  ispecialize Hk $$ %(iter d L k0_h1 v40 v45 v50 v55 v60 v65 v70 v75 v80 v85 v90 v95 v100 v105 v110 v115 v120 v125 v130 v135 v140 v145 v150 v155 c2 c3 init k0_t1_loop.trips) %rfl
  iapply Hk; iexact H

end Cert.Proof.ScI

end
-- ==== Proof.ScVal0Run.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

attribute [local irreducible] iter

omit [FloatOps F] [CountersIn U] in
/-- A buffer's contents given a name. -/
theorem pts_rebind {ℓ : Loc nD τ sig} (q : PosShare TreeShare) (f : Buf (Elt F) ℓ) :
    (ℓ ↦{q} f : sProp 𝕄) ⊢ iprop(∃ c, ⌜c = f⌝ ∗ ℓ ↦{q} c) := by
  iintro H; iexists f; isplitr; · ipureintro; rfl
  iexact H

set_option maxHeartbeats 8000000 in
/-- The body on subcore `s` of SparseCore 0 with what it leaves in its 128 words of the result named: the run finds the
    128 values as a term over the four arrays' contents (and the scratch buffers' initial contents, which the copies
    overwrite whole). -/
theorem run0x (s : Fin (grid0.bound 1)) (f7 : Buf (Elt F) (l7 d)) (f8 : Buf (Elt F) (l8 d)) (f6 : Buf (Elt F) (l6 d)) (f1 : Buf (Elt F) (l1 d))
    (b0 : Buf (Elt F) ((thr d (L0 s)).loc cc0_scratch0)) (b1 : Buf (Elt F) ((thr d (L0 s)).loc cc0_scratch1))
    (b2 : Buf (Elt F) ((thr d (L0 s)).loc cc0_scratch2)) (b3 : Buf (Elt F) ((thr d (L0 s)).loc cc0_scratch3))
    (b4 : Buf (Elt F) ((thr d (L0 s)).loc cc0_scratch4)) :
    ∀ (q : PosShare TreeShare) (O : CellTallies nD τ sig (HIx 1)) (W : Waits sig (HIx 1)) (f9 : Buf (Elt F) (l9 d)),
      (iprop(Transfers.MayWaits (thr d (L0 s)) (none : HIx 1) O
          ∗ ins4 d q f7 f8 f6 f1
          ∗ (l9 d ↦[(out0 (L0 s) (h1_L0 s)).view.set]{fullShare} f9)
          ∗ (((thr d (L0 s)).loc cc0_scratch0 ↦{fullShare} b0) ∗ ((thr d (L0 s)).loc cc0_scratch1 ↦{fullShare} b1)
            ∗ ((thr d (L0 s)).loc cc0_scratch2 ↦{fullShare} b2) ∗ ((thr d (L0 s)).loc cc0_scratch3 ↦{fullShare} b3)
            ∗ ((thr d (L0 s)).loc cc0_scratch4 ↦{fullShare} b4)
            ∗ semVal (thr d (L0 s), SemLoc.dma cc0_scoped0.sem) 0 ∗ semVal (thr d (L0 s), SemLoc.dma cc0_scoped1.sem) 0
            ∗ semVal (thr d (L0 s), SemLoc.dma cc0_scoped2.sem) 0 ∗ semVal (thr d (L0 s), SemLoc.dma cc0_scoped3.sem) 0
            ∗ semVal (thr d (L0 s), SemLoc.dma cc0_scoped4.sem) 0 ∗ semVal (thr d (L0 s), SemLoc.dma cc0_scoped5.sem) 0)
          ∗ owes (thr d (L0 s)) O W) : sProp 𝕄)
        ⊢ wp frame (wpE (defs₀ (F := F)) Variants.none (thr d (L0 s)) none) Set.univ
            (cc0__sc_body (F := F) (L0 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
            fun _ => iprop(ins4 d q f7 f8 f6 f1
              ∗ (∃ X : S128.Idx → Elt F .f32, l9 d ↦[(out0 (L0 s) (h1_L0 s)).view.set]{fullShare} (out0 (L0 s) (h1_L0 s)).view.writes (Elt F) f9 [⟨Rect.whole S128, X⟩])
              ∗ own5 d (L0 s)
              ∗ ∃ W', ⌜∀ p ∈ W', p ∈ W ∨ p.2 = none⌝ ∗ owes (thr d (L0 s)) O W') := by
  intro q O W f9
  next =>
    have k0_h1 : k0_cond1 (L0 s) = 1#1 := h1_L0 s
    have k0_h2 : ¬ k0_cond2 (L0 s) = 1#1 := h2_L0 s
    simp only [cc0__sc_body_eq_skeleton]; unfold cc0__sc_body_skel
    unfold ins4 own5
    iintro ⟨Hmw, ⟨H7, H8, H6, H1⟩, H9, ⟨HB0, HB1, HB2, HB3, HB4, Hs0, Hs1, Hs2, Hs3, Hs4, Hs5⟩, HO⟩
    ihave H7 := (Entails.of_eq (pts7 (F := F) (U := U) d (L0 s) _ _).symm) $$ H7
    ihave H8 := (Entails.of_eq (pts8 (F := F) (U := U) d (L0 s) _ _).symm) $$ H8
    ihave H6 := (Entails.of_eq (pts6 (F := F) (U := U) d (L0 s) _ _).symm) $$ H6
    ihave H1 := (Entails.of_eq (pts1 (F := F) (U := U) d (L0 s) _ _).symm) $$ H1
    ihave H9 := (Entails.of_eq (ptsO0 (F := F) (U := U) d (L0 s) (h1_L0 s) _).symm) $$ H9
    ihave HB0 := (Entails.of_eq (ptsB0 (F := F) (U := U) d (L0 s) _).symm) $$ HB0
    ihave HB1 := (Entails.of_eq (ptsB1 (F := F) (U := U) d (L0 s) _).symm) $$ HB1
    ihave HB2 := (Entails.of_eq (ptsB2 (F := F) (U := U) d (L0 s) _).symm) $$ HB2
    ihave HB3 := (Entails.of_eq (ptsB3 (F := F) (U := U) d (L0 s) _).symm) $$ HB3
    ihave HB4 := (Entails.of_eq (ptsB4 (F := F) (U := U) d (L0 s) _).symm) $$ HB4
    sl_exec_parts
    ihave HB2 := (pts_rebind (F := F) (U := U) _ _) $$ HB2
    icases HB2 with ⟨%c2, %hc2, HB2⟩
    ihave HB3 := (pts_rebind (F := F) (U := U) _ _) $$ HB3
    icases HB3 with ⟨%c3, %hc3, HB3⟩
    rw [wp_bind]
    iapply (loop0v (F := F) (U := U) d (L0 s) k0_h1 _ _ _ _ _ _ _ _ _ _ _ _ _ _ _ _ _ _ _ _ _ _ _ _ _ _ _ _ _ _ c2 c3 _ _) $$ [HB2 HB3 Hmw H7 H8 H6 H1 H9 HB0 HB1 HB4 Hs0 Hs1 Hs2 Hs3 Hs4 Hs5 HO]
    isplitl [HB2]; · iexact HB2
    isplitl [HB3]; · iexact HB3
    iintro %accF %haccF ⟨HB2, HB3⟩
    sl_exec_parts
    sl_step
    isplitl [H7 H8 H6 H1]
    · isplitl [H7]; · iapply (Entails.of_eq (pts7 (F := F) (U := U) d (L0 s) _ _)); iexact H7
      isplitl [H8]; · iapply (Entails.of_eq (pts8 (F := F) (U := U) d (L0 s) _ _)); iexact H8
      isplitl [H6]; · iapply (Entails.of_eq (pts6 (F := F) (U := U) d (L0 s) _ _)); iexact H6
      iapply (Entails.of_eq (pts1 (F := F) (U := U) d (L0 s) _ _)); iexact H1
    isplitl [H9]
    · iexists _; iapply (Entails.of_eq (ptsO0 (F := F) (U := U) d (L0 s) (h1_L0 s) _)); iexact H9
    isplitl [HB0 HB1 HB2 HB3 HB4 Hs0 Hs1 Hs2 Hs3 Hs4 Hs5]
    · isplitl [HB0]; · iexists _; iapply (Entails.of_eq (ptsB0 (F := F) (U := U) d (L0 s) _)); iexact HB0
      isplitl [HB1]; · iexists _; iapply (Entails.of_eq (ptsB1 (F := F) (U := U) d (L0 s) _)); iexact HB1
      isplitl [HB2]; · iexists _; iapply (Entails.of_eq (ptsB2 (F := F) (U := U) d (L0 s) _)); iexact HB2
      isplitl [HB3]; · iexists _; iapply (Entails.of_eq (ptsB3 (F := F) (U := U) d (L0 s) _)); iexact HB3
      isplitl [HB4]; · iexists _; iapply (Entails.of_eq (ptsB4 (F := F) (U := U) d (L0 s) _)); iexact HB4
      isplitl [Hs0]; · iexact Hs0
      isplitl [Hs1]; · iexact Hs1
      isplitl [Hs2]; · iexact Hs2
      isplitl [Hs3]; · iexact Hs3
      isplitl [Hs4]; · iexact Hs4
      iexact Hs5
    iexists _; isplitr
    swap
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact .inl hp

end Cert.Proof.ScI

end
-- ==== Proof.ScVal0RunV.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0Run

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

attribute [local irreducible] iter

/-- The 128 words the run leaves in the subcore's piece of the result, as the term the run computes. -/
noncomputable def W0 (s : Fin (grid0.bound 1)) (f7 : Buf (Elt F) (l7 d)) (f8 : Buf (Elt F) (l8 d)) (f6 : Buf (Elt F) (l6 d)) (f1 : Buf (Elt F) (l1 d))
    (b0 : Buf (Elt F) ((thr d (L0 s)).loc cc0_scratch0)) (b1 : Buf (Elt F) ((thr d (L0 s)).loc cc0_scratch1))
    (b2 : Buf (Elt F) ((thr d (L0 s)).loc cc0_scratch2)) (b3 : Buf (Elt F) ((thr d (L0 s)).loc cc0_scratch3))
    (b4 : Buf (Elt F) ((thr d (L0 s)).loc cc0_scratch4)) : S128.Idx → Elt F .f32 :=
  run0x.sl.dma16 d s f8 b1 b4 (h1_L0 s)
    (iter d (L0 s) (h1_L0 s) (run0x.sl.v40 d s f7 b0 (h1_L0 s)) (run0x.sl.v45 d s f7 b0 (h1_L0 s)) (run0x.sl.v50 d s f7 b0 (h1_L0 s)) (run0x.sl.v55 d s f7 b0 (h1_L0 s)) (run0x.sl.v60 d s f7 b0 (h1_L0 s)) (run0x.sl.v65 d s f7 b0 (h1_L0 s)) (run0x.sl.v70 d s f7 b0 (h1_L0 s)) (run0x.sl.v75 d s f7 b0 (h1_L0 s)) (run0x.sl.v80 d s f7 b0 (h1_L0 s)) (run0x.sl.v85 d s f7 b0 (h1_L0 s)) (run0x.sl.v90 d s f7 b0 (h1_L0 s)) (run0x.sl.v95 d s f7 b0 (h1_L0 s)) (run0x.sl.v100 d s f7 b0 (h1_L0 s)) (run0x.sl.v105 d s f7 b0 (h1_L0 s)) (run0x.sl.v110 d s f7 b0 (h1_L0 s)) (run0x.sl.v115 d s f7 b0 (h1_L0 s)) (run0x.sl.v120 d s f7 b0 (h1_L0 s)) (run0x.sl.v125 d s f7 b0 (h1_L0 s)) (run0x.sl.v130 d s f7 b0 (h1_L0 s)) (run0x.sl.v135 d s f7 b0 (h1_L0 s)) (run0x.sl.v140 d s f7 b0 (h1_L0 s)) (run0x.sl.v145 d s f7 b0 (h1_L0 s)) (run0x.sl.v150 d s f7 b0 (h1_L0 s)) (run0x.sl.v155 d s f7 b0 (h1_L0 s))
      (View.write (Elt F) (B2).view b2 (run0x.sl.dma0_2 d s f6) Finset.univ)
      (View.write (Elt F) (B3).view b3 (run0x.sl.dma0_3 d s f1) Finset.univ)
      (k0_pay282, k0_pay282, k0_pay282, k0_pay282, k0_pay282, k0_pay282, k0_pay282, k0_pay282) k0_t1_loop.trips)

set_option maxHeartbeats 8000000 in
/-- The body on subcore `s` of SparseCore 0 with what it leaves in its 128 words of the result named: the run finds the
    128 values as a term over the four arrays' contents (and the scratch buffers' initial contents, which the copies
    overwrite whole). -/
theorem run0v (s : Fin (grid0.bound 1)) (f7 : Buf (Elt F) (l7 d)) (f8 : Buf (Elt F) (l8 d)) (f6 : Buf (Elt F) (l6 d)) (f1 : Buf (Elt F) (l1 d))
    (b0 : Buf (Elt F) ((thr d (L0 s)).loc cc0_scratch0)) (b1 : Buf (Elt F) ((thr d (L0 s)).loc cc0_scratch1))
    (b2 : Buf (Elt F) ((thr d (L0 s)).loc cc0_scratch2)) (b3 : Buf (Elt F) ((thr d (L0 s)).loc cc0_scratch3))
    (b4 : Buf (Elt F) ((thr d (L0 s)).loc cc0_scratch4)) :
    ∀ (q : PosShare TreeShare) (O : CellTallies nD τ sig (HIx 1)) (W : Waits sig (HIx 1)) (f9 : Buf (Elt F) (l9 d)),
      (iprop(Transfers.MayWaits (thr d (L0 s)) (none : HIx 1) O
          ∗ ins4 d q f7 f8 f6 f1
          ∗ (l9 d ↦[(out0 (L0 s) (h1_L0 s)).view.set]{fullShare} f9)
          ∗ (((thr d (L0 s)).loc cc0_scratch0 ↦{fullShare} b0) ∗ ((thr d (L0 s)).loc cc0_scratch1 ↦{fullShare} b1)
            ∗ ((thr d (L0 s)).loc cc0_scratch2 ↦{fullShare} b2) ∗ ((thr d (L0 s)).loc cc0_scratch3 ↦{fullShare} b3)
            ∗ ((thr d (L0 s)).loc cc0_scratch4 ↦{fullShare} b4)
            ∗ semVal (thr d (L0 s), SemLoc.dma cc0_scoped0.sem) 0 ∗ semVal (thr d (L0 s), SemLoc.dma cc0_scoped1.sem) 0
            ∗ semVal (thr d (L0 s), SemLoc.dma cc0_scoped2.sem) 0 ∗ semVal (thr d (L0 s), SemLoc.dma cc0_scoped3.sem) 0
            ∗ semVal (thr d (L0 s), SemLoc.dma cc0_scoped4.sem) 0 ∗ semVal (thr d (L0 s), SemLoc.dma cc0_scoped5.sem) 0)
          ∗ owes (thr d (L0 s)) O W) : sProp 𝕄)
        ⊢ wp frame (wpE (defs₀ (F := F)) Variants.none (thr d (L0 s)) none) Set.univ
            (cc0__sc_body (F := F) (L0 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
            fun _ => iprop(ins4 d q f7 f8 f6 f1
              ∗ (∃ X : S128.Idx → Elt F .f32, ⌜∀ j, X j = W0 d s f7 f8 f6 f1 b0 b1 b2 b3 b4 j⌝ ∗ l9 d ↦[(out0 (L0 s) (h1_L0 s)).view.set]{fullShare} (out0 (L0 s) (h1_L0 s)).view.writes (Elt F) f9 [⟨Rect.whole S128, X⟩])
              ∗ own5 d (L0 s)
              ∗ ∃ W', ⌜∀ p ∈ W', p ∈ W ∨ p.2 = none⌝ ∗ owes (thr d (L0 s)) O W') := by
  intro q O W f9
  next =>
    have k0_h1 : k0_cond1 (L0 s) = 1#1 := h1_L0 s
    have k0_h2 : ¬ k0_cond2 (L0 s) = 1#1 := h2_L0 s
    simp only [cc0__sc_body_eq_skeleton]; unfold cc0__sc_body_skel
    unfold ins4 own5
    iintro ⟨Hmw, ⟨H7, H8, H6, H1⟩, H9, ⟨HB0, HB1, HB2, HB3, HB4, Hs0, Hs1, Hs2, Hs3, Hs4, Hs5⟩, HO⟩
    ihave H7 := (Entails.of_eq (pts7 (F := F) (U := U) d (L0 s) _ _).symm) $$ H7
    ihave H8 := (Entails.of_eq (pts8 (F := F) (U := U) d (L0 s) _ _).symm) $$ H8
    ihave H6 := (Entails.of_eq (pts6 (F := F) (U := U) d (L0 s) _ _).symm) $$ H6
    ihave H1 := (Entails.of_eq (pts1 (F := F) (U := U) d (L0 s) _ _).symm) $$ H1
    ihave H9 := (Entails.of_eq (ptsO0 (F := F) (U := U) d (L0 s) (h1_L0 s) _).symm) $$ H9
    ihave HB0 := (Entails.of_eq (ptsB0 (F := F) (U := U) d (L0 s) _).symm) $$ HB0
    ihave HB1 := (Entails.of_eq (ptsB1 (F := F) (U := U) d (L0 s) _).symm) $$ HB1
    ihave HB2 := (Entails.of_eq (ptsB2 (F := F) (U := U) d (L0 s) _).symm) $$ HB2
    ihave HB3 := (Entails.of_eq (ptsB3 (F := F) (U := U) d (L0 s) _).symm) $$ HB3
    ihave HB4 := (Entails.of_eq (ptsB4 (F := F) (U := U) d (L0 s) _).symm) $$ HB4
    sl_exec_parts
    ihave HB2 := (pts_rebind (F := F) (U := U) _ _) $$ HB2
    icases HB2 with ⟨%c2, %hc2, HB2⟩
    ihave HB3 := (pts_rebind (F := F) (U := U) _ _) $$ HB3
    icases HB3 with ⟨%c3, %hc3, HB3⟩
    rw [wp_bind]
    iapply (loop0v (F := F) (U := U) d (L0 s) k0_h1 _ _ _ _ _ _ _ _ _ _ _ _ _ _ _ _ _ _ _ _ _ _ _ _ _ _ _ _ _ _ c2 c3 _ _) $$ [HB2 HB3 Hmw H7 H8 H6 H1 H9 HB0 HB1 HB4 Hs0 Hs1 Hs2 Hs3 Hs4 Hs5 HO]
    isplitl [HB2]; · iexact HB2
    isplitl [HB3]; · iexact HB3
    iintro %accF %haccF ⟨HB2, HB3⟩
    sl_exec_parts
    sl_step
    isplitl [H7 H8 H6 H1]
    · isplitl [H7]; · iapply (Entails.of_eq (pts7 (F := F) (U := U) d (L0 s) _ _)); iexact H7
      isplitl [H8]; · iapply (Entails.of_eq (pts8 (F := F) (U := U) d (L0 s) _ _)); iexact H8
      isplitl [H6]; · iapply (Entails.of_eq (pts6 (F := F) (U := U) d (L0 s) _ _)); iexact H6
      iapply (Entails.of_eq (pts1 (F := F) (U := U) d (L0 s) _ _)); iexact H1
    isplitl [H9]
    · iexists _; isplitr
      swap
      · iapply (Entails.of_eq (ptsO0 (F := F) (U := U) d (L0 s) (h1_L0 s) _)); iexact H9
      · ipureintro
        subst haccF hc2 hc3
        intro j
        rfl
    isplitl [HB0 HB1 HB2 HB3 HB4 Hs0 Hs1 Hs2 Hs3 Hs4 Hs5]
    · isplitl [HB0]; · iexists _; iapply (Entails.of_eq (ptsB0 (F := F) (U := U) d (L0 s) _)); iexact HB0
      isplitl [HB1]; · iexists _; iapply (Entails.of_eq (ptsB1 (F := F) (U := U) d (L0 s) _)); iexact HB1
      isplitl [HB2]; · iexists _; iapply (Entails.of_eq (ptsB2 (F := F) (U := U) d (L0 s) _)); iexact HB2
      isplitl [HB3]; · iexists _; iapply (Entails.of_eq (ptsB3 (F := F) (U := U) d (L0 s) _)); iexact HB3
      isplitl [HB4]; · iexists _; iapply (Entails.of_eq (ptsB4 (F := F) (U := U) d (L0 s) _)); iexact HB4
      isplitl [Hs0]; · iexact Hs0
      isplitl [Hs1]; · iexact Hs1
      isplitl [Hs2]; · iexact Hs2
      isplitl [Hs3]; · iexact Hs3
      isplitl [Hs4]; · iexact Hs4
      iexact Hs5
    iexists _; isplitr
    swap
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact .inl hp

end Cert.Proof.ScI

end
-- ==== Proof.ScBridge0W.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Exec.Geometry
import proofs.«209750_g45337674776763_cont_8to1c4_158_37_alg».proof.Proof.ScLaunchVScI

/-!
  From a subcore's value run to the launch's obligation, first branch: the subcore's body, run from its operands, its
  words of the result array and its scratch buffers, leaves those words at the whole-slice write of 128 values; when
  each value is the given function of the array index under it, the subcore hands its words back at that function.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]

/-- The whole-slice write of 128 values through a subcore's slice of the result array holds, at each array index under
    the slice, the value at the slice index it is the image of. -/
theorem writes_out0_apply (d : Dev nD) (s : Fin (grid0.bound 1)) (f9 : Buf (Elt F) (l9 d)) (X : S128.Idx → Elt F .f32)
    (spec : Buf (Elt F) (l9 d)) (hX : ∀ j, X j = spec ((out0 (L0 s) (h1_L0 s)).view.emb j)) :
    ∀ i ∈ tileSet 0 s, (out0 (L0 s) (h1_L0 s)).view.writes (Elt F) f9 [⟨Rect.whole S128, X⟩] i = spec i := by
  intro i hi
  have hi' : i ∈ (out0 (L0 s) (h1_L0 s)).view.set := hi
  unfold View.set at hi'
  obtain ⟨j, -, rfl⟩ := Finset.mem_map.mp hi'
  have h := congrFun (View.read_writes_whole (out0 (L0 s) (h1_L0 s)).view f9 X) j
  rw [View.read_apply] at h
  exact h.trans (hX j)

section Wrap

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
  (spec : (d : Dev nD) → Buf (Elt F) (l9 d))

/-- The first branch's obligation from a value run whose 128 values are `spec` at the array indices under the slice. -/
theorem bodyV0_of
    (hrun : ∀ (d : Dev nD) (s : Fin (grid0.bound 1))
      (b0 : Buf (Elt F) ((thr d (L0 s)).loc cc0_scratch0)) (b1 : Buf (Elt F) ((thr d (L0 s)).loc cc0_scratch1))
      (b2 : Buf (Elt F) ((thr d (L0 s)).loc cc0_scratch2)) (b3 : Buf (Elt F) ((thr d (L0 s)).loc cc0_scratch3))
      (b4 : Buf (Elt F) ((thr d (L0 s)).loc cc0_scratch4)),
      ∃ X : S128.Idx → Elt F .f32, (∀ j, X j = spec d ((out0 (L0 s) (h1_L0 s)).view.emb j)) ∧
        ∀ (q : PosShare TreeShare) (O : CellTallies nD τ sig (HIx 1)) (W : Waits sig (HIx 1)) (f9 : Buf (Elt F) (l9 d)),
        (iprop(Transfers.MayWaits (thr d (L0 s)) (none : HIx 1) O
            ∗ ins4 d q (g7 d) (g8 d) (g6 d) (g1 d)
            ∗ (l9 d ↦[(out0 (L0 s) (h1_L0 s)).view.set]{fullShare} f9)
            ∗ (((thr d (L0 s)).loc cc0_scratch0 ↦{fullShare} b0) ∗ ((thr d (L0 s)).loc cc0_scratch1 ↦{fullShare} b1)
              ∗ ((thr d (L0 s)).loc cc0_scratch2 ↦{fullShare} b2) ∗ ((thr d (L0 s)).loc cc0_scratch3 ↦{fullShare} b3)
              ∗ ((thr d (L0 s)).loc cc0_scratch4 ↦{fullShare} b4)
              ∗ semVal (thr d (L0 s), SemLoc.dma cc0_scoped0.sem) 0 ∗ semVal (thr d (L0 s), SemLoc.dma cc0_scoped1.sem) 0
              ∗ semVal (thr d (L0 s), SemLoc.dma cc0_scoped2.sem) 0 ∗ semVal (thr d (L0 s), SemLoc.dma cc0_scoped3.sem) 0
              ∗ semVal (thr d (L0 s), SemLoc.dma cc0_scoped4.sem) 0 ∗ semVal (thr d (L0 s), SemLoc.dma cc0_scoped5.sem) 0)
            ∗ owes (thr d (L0 s)) O W) : sProp 𝕄)
          ⊢ wp frame (wpE (defs₀ (F := F)) Variants.none (thr d (L0 s)) none) Set.univ
              (cc0__sc_body (F := F) (L0 s) A7 (Memref.isWhole_whole _) A8 (Memref.isWhole_whole _) A6 (Memref.isWhole_whole _) A1 (Memref.isWhole_whole _) A9 (Memref.isWhole_whole _)
              B0 (Memref.isWhole_whole _) B1 (Memref.isWhole_whole _) B2 (Memref.isWhole_whole _) B3 (Memref.isWhole_whole _) B4 (Memref.isWhole_whole _)
              cc0_scoped0 cc0_scoped1 cc0_scoped2 cc0_scoped3 cc0_scoped4 cc0_scoped5)
              fun _ => iprop(ins4 d q (g7 d) (g8 d) (g6 d) (g1 d)
                ∗ (l9 d ↦[(out0 (L0 s) (h1_L0 s)).view.set]{fullShare} (out0 (L0 s) (h1_L0 s)).view.writes (Elt F) f9 [⟨Rect.whole S128, X⟩])
                ∗ own5 d (L0 s)
                ∗ ∃ W', ⌜∀ p ∈ W', p ∈ W ∨ p.2 = none⌝ ∗ owes (thr d (L0 s)) O W')) :
    BodyV (U := U) g7 g8 g6 g1 spec 0 L0 := by
  intro d s O W
  unfold forTile forTileV own5
  iintro ⟨Hmw, ⟨Hi, ⟨%f9, Ho⟩⟩, ⟨⟨%b0, HB0⟩, ⟨%b1, HB1⟩, ⟨%b2, HB2⟩, ⟨%b3, HB3⟩, ⟨%b4, HB4⟩, Hs0, Hs1, Hs2, Hs3, Hs4, Hs5⟩, HO⟩
  obtain ⟨X, hX, hr⟩ := hrun d s b0 b1 b2 b3 b4
  iapply (wp_wand_r frame _ _)
  isplitl [Hmw Hi Ho HB0 HB1 HB2 HB3 HB4 Hs0 Hs1 Hs2 Hs3 Hs4 Hs5 HO]
  · iapply (hr (tokT 0 s) O W f9)
    isplitl [Hmw]; · iexact Hmw
    isplitl [Hi]; · iexact Hi
    isplitl [Ho]; · iexact Ho
    isplitl [HB0 HB1 HB2 HB3 HB4 Hs0 Hs1 Hs2 Hs3 Hs4 Hs5]
    · isplitl [HB0]; · iexact HB0
      isplitl [HB1]; · iexact HB1
      isplitl [HB2]; · iexact HB2
      isplitl [HB3]; · iexact HB3
      isplitl [HB4]; · iexact HB4
      isplitl [Hs0]; · iexact Hs0
      isplitl [Hs1]; · iexact Hs1
      isplitl [Hs2]; · iexact Hs2
      isplitl [Hs3]; · iexact Hs3
      isplitl [Hs4]; · iexact Hs4
      iexact Hs5
    iexact HO
  · iintro %r ⟨Hi, Ho, Hown, HW⟩
    isplitl [Hi Ho]
    · isplitl [Hi]; · iexact Hi
      iexists _
      isplitr
      · ipureintro
        exact writes_out0_apply d s f9 X (spec d) hX
      iexact Ho
    isplitl [Hown]
    · unfold own5; iexact Hown
    iexact HW

end Wrap

section WrapE

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
  (spec : (d : Dev nD) → Buf (Elt F) (l9 d))

/-- The same from a run whose post carries the values' fact itself: the words are left at the whole-slice write of some
    values that are `spec` at the array indices under the slice. -/
theorem bodyV0_of_post
    (hrun : ∀ (d : Dev nD) (s : Fin (grid0.bound 1))
      (b0 : Buf (Elt F) ((thr d (L0 s)).loc cc0_scratch0)) (b1 : Buf (Elt F) ((thr d (L0 s)).loc cc0_scratch1))
      (b2 : Buf (Elt F) ((thr d (L0 s)).loc cc0_scratch2)) (b3 : Buf (Elt F) ((thr d (L0 s)).loc cc0_scratch3))
      (b4 : Buf (Elt F) ((thr d (L0 s)).loc cc0_scratch4))
      (q : PosShare TreeShare) (O : CellTallies nD τ sig (HIx 1)) (W : Waits sig (HIx 1)) (f9 : Buf (Elt F) (l9 d)),
        (iprop(Transfers.MayWaits (thr d (L0 s)) (none : HIx 1) O
            ∗ ins4 d q (g7 d) (g8 d) (g6 d) (g1 d)
            ∗ (l9 d ↦[(out0 (L0 s) (h1_L0 s)).view.set]{fullShare} f9)
            ∗ (((thr d (L0 s)).loc cc0_scratch0 ↦{fullShare} b0) ∗ ((thr d (L0 s)).loc cc0_scratch1 ↦{fullShare} b1)
              ∗ ((thr d (L0 s)).loc cc0_scratch2 ↦{fullShare} b2) ∗ ((thr d (L0 s)).loc cc0_scratch3 ↦{fullShare} b3)
              ∗ ((thr d (L0 s)).loc cc0_scratch4 ↦{fullShare} b4)
              ∗ semVal (thr d (L0 s), SemLoc.dma cc0_scoped0.sem) 0 ∗ semVal (thr d (L0 s), SemLoc.dma cc0_scoped1.sem) 0
              ∗ semVal (thr d (L0 s), SemLoc.dma cc0_scoped2.sem) 0 ∗ semVal (thr d (L0 s), SemLoc.dma cc0_scoped3.sem) 0
              ∗ semVal (thr d (L0 s), SemLoc.dma cc0_scoped4.sem) 0 ∗ semVal (thr d (L0 s), SemLoc.dma cc0_scoped5.sem) 0)
            ∗ owes (thr d (L0 s)) O W) : sProp 𝕄)
          ⊢ wp frame (wpE (defs₀ (F := F)) Variants.none (thr d (L0 s)) none) Set.univ
              (cc0__sc_body (F := F) (L0 s) A7 (Memref.isWhole_whole _) A8 (Memref.isWhole_whole _) A6 (Memref.isWhole_whole _) A1 (Memref.isWhole_whole _) A9 (Memref.isWhole_whole _)
              B0 (Memref.isWhole_whole _) B1 (Memref.isWhole_whole _) B2 (Memref.isWhole_whole _) B3 (Memref.isWhole_whole _) B4 (Memref.isWhole_whole _)
              cc0_scoped0 cc0_scoped1 cc0_scoped2 cc0_scoped3 cc0_scoped4 cc0_scoped5)
              fun _ => iprop(ins4 d q (g7 d) (g8 d) (g6 d) (g1 d)
                ∗ (∃ X : S128.Idx → Elt F .f32, ⌜∀ j, X j = spec d ((out0 (L0 s) (h1_L0 s)).view.emb j)⌝
                    ∗ (l9 d ↦[(out0 (L0 s) (h1_L0 s)).view.set]{fullShare} (out0 (L0 s) (h1_L0 s)).view.writes (Elt F) f9 [⟨Rect.whole S128, X⟩]))
                ∗ own5 d (L0 s)
                ∗ ∃ W', ⌜∀ p ∈ W', p ∈ W ∨ p.2 = none⌝ ∗ owes (thr d (L0 s)) O W')) :
    BodyV (U := U) g7 g8 g6 g1 spec 0 L0 := by
  intro d s O W
  unfold forTile forTileV own5
  iintro ⟨Hmw, ⟨Hi, ⟨%f9, Ho⟩⟩, ⟨⟨%b0, HB0⟩, ⟨%b1, HB1⟩, ⟨%b2, HB2⟩, ⟨%b3, HB3⟩, ⟨%b4, HB4⟩, Hs0, Hs1, Hs2, Hs3, Hs4, Hs5⟩, HO⟩
  iapply (wp_wand_r frame _ _)
  isplitl [Hmw Hi Ho HB0 HB1 HB2 HB3 HB4 Hs0 Hs1 Hs2 Hs3 Hs4 Hs5 HO]
  · iapply (hrun d s b0 b1 b2 b3 b4 (tokT 0 s) O W f9)
    isplitl [Hmw]; · iexact Hmw
    isplitl [Hi]; · iexact Hi
    isplitl [Ho]; · iexact Ho
    isplitl [HB0 HB1 HB2 HB3 HB4 Hs0 Hs1 Hs2 Hs3 Hs4 Hs5]
    · isplitl [HB0]; · iexact HB0
      isplitl [HB1]; · iexact HB1
      isplitl [HB2]; · iexact HB2
      isplitl [HB3]; · iexact HB3
      isplitl [HB4]; · iexact HB4
      isplitl [Hs0]; · iexact Hs0
      isplitl [Hs1]; · iexact Hs1
      isplitl [Hs2]; · iexact Hs2
      isplitl [Hs3]; · iexact Hs3
      isplitl [Hs4]; · iexact Hs4
      iexact Hs5
    iexact HO
  · iintro %r ⟨Hi, ⟨%X, %hX, Ho⟩, Hown, HW⟩
    isplitl [Hi Ho]
    · isplitl [Hi]; · iexact Hi
      iexists _
      isplitr
      · ipureintro
        exact writes_out0_apply d s f9 X (spec d) hX
      iexact Ho
    isplitl [Hown]
    · unfold own5; iexact Hown
    iexact HW

end WrapE

end Cert.Proof.ScI

end
-- ==== Proof.ScBridgeSpec.lean ====
import proofs.«209750_g45337674776763_cont_8to1c4_158_37_alg».proof.Proof.Spec

/-!
  The SparseCore's two formulas, written over the four transposed arrays it reads, are the kernel's arrangement's
  `scd1` and `scd2` once those arrays are read as the point sets: both copies of the strip are the last 512 points of
  the first set, both copies of the full array the second set.
-/

noncomputable section

namespace Cert.Proof.ScBridge

open Cert.Proof.Spec Cert.Proof.RefValue
open Idealize.ShloMosaic Idealize.ShloMosaic.ValueIdx

variable {a c : Pts}
  {f7 f8 : (⟨3, ![4, 3, 512]⟩ : Shape).Idx → EReal} {f6 f1 : (⟨3, ![4, 3, 4096]⟩ : Shape).Idx → EReal}
  (h7 : ∀ (b : Fin 4) (k : Fin 3) (r : Fin 512), f7 (ix3 b k r) = a (ix3 b (hi r) k))
  (h8 : ∀ (b : Fin 4) (k : Fin 3) (r : Fin 512), f8 (ix3 b k r) = a (ix3 b (hi r) k))
  (h6 : ∀ (b : Fin 4) (k : Fin 3) (m : Fin 4096), f6 (ix3 b k m) = c (ix3 b m k))
  (h1 : ∀ (b : Fin 4) (k : Fin 3) (m : Fin 4096), f1 (ix3 b k m) = c (ix3 b m k))

include h7 h8 h6 h1 in
/-- The first branch's formula: a strip point against all points of the second set. -/
theorem scd1_of (b : Fin 4) (r : Fin 512) :
    max (((f8 (ix3 b 0 r) * f8 (ix3 b 0 r) + f8 (ix3 b 1 r) * f8 (ix3 b 1 r)) + f8 (ix3 b 2 r) * f8 (ix3 b 2 r))
        + (Finset.univ : Finset (Fin 4096)).fold min ⊤ (fun mm =>
            ((f1 (ix3 b 0 mm) * f1 (ix3 b 0 mm) + f1 (ix3 b 1 mm) * f1 (ix3 b 1 mm)) + f1 (ix3 b 2 mm) * f1 (ix3 b 2 mm))
              - ((2 : ℝ) : EReal) * ((f7 (ix3 b 0 r) * f6 (ix3 b 0 mm) + f7 (ix3 b 1 r) * f6 (ix3 b 1 mm))
                  + f7 (ix3 b 2 r) * f6 (ix3 b 2 mm)))) 0
      = scd1 a c b r := by
  simp only [h7, h8, h6, h1]
  rfl

include h7 h8 h6 h1 in
/-- The second branch's formula: a point of the second set against all strip points. -/
theorem scd2_of (b : Fin 4) (m : Fin 4096) :
    max (((f1 (ix3 b 0 m) * f1 (ix3 b 0 m) + f1 (ix3 b 1 m) * f1 (ix3 b 1 m)) + f1 (ix3 b 2 m) * f1 (ix3 b 2 m))
        + (Finset.univ : Finset (Fin 512)).fold min ⊤ (fun rr =>
            ((f8 (ix3 b 0 rr) * f8 (ix3 b 0 rr) + f8 (ix3 b 1 rr) * f8 (ix3 b 1 rr)) + f8 (ix3 b 2 rr) * f8 (ix3 b 2 rr))
              - ((2 : ℝ) : EReal) * ((f6 (ix3 b 0 m) * f7 (ix3 b 0 rr) + f6 (ix3 b 1 m) * f7 (ix3 b 1 rr))
                  + f6 (ix3 b 2 m) * f7 (ix3 b 2 rr)))) 0
      = scd2 a c b m := by
  simp only [h7, h8, h6, h1]
  rfl

end Cert.Proof.ScBridge

end
-- ==== Proof.ScBridge0S.lean ====
import proofs.«209750_g45337674776763_cont_8to1c4_158_37_alg».proof.Proof.AlgMain
import proofs.«209750_g45337674776763_cont_8to1c4_158_37_alg».proof.Proof.ScBridge0W
import proofs.«209750_g45337674776763_cont_8to1c4_158_37_alg».proof.Proof.ScBridgeSpec
import proofs.«209750_g45337674776763_cont_8to1c4_158_37_alg».proof.Proof.Glue0

/-!
  The first SparseCore branch's formula, at the arrays the SparseCore call is reached with, is the result array's
  specification at the array index under each word of a subcore's slice: the arrays are the transposed point sets, the
  formula is then `scd1`, and the specification at row `s / 4`, column `128 (s % 4) + j` is `scd1` of that batch and strip
  point.
-/

noncomputable section

namespace Cert.Proof.ScBridge

open Cert.KernelIdeal Cert.KernelIdeal.Gen
open Idealize.ShloMosaic Idealize.SL.Sem Idealize.ShloMosaic.ValueIdx
open Cert.Proof.ScI Cert.Proof.Spec Cert.Proof.RefValue Cert.Proof.AlgMain Cert.Proof.Glue

variable (m : (ℓ : Loc nD τ sig) → Buf (Elt Ideal) ℓ)

/-- The four arrays the SparseCore call is reached with, read at an index. -/
theorem g7_apply (d : Dev nD) (b : Fin 4) (k : Fin 3) (r : Fin 512) : g7 m d (ix3 b k r) = (m (d, ra0)) (ix3 b (hi r) k) :=
  v7_apply (W := StableHlo.launchContents m d) rfl b k r
theorem g8_apply (d : Dev nD) (b : Fin 4) (k : Fin 3) (r : Fin 512) : g8 m d (ix3 b k r) = (m (d, ra0)) (ix3 b (hi r) k) :=
  v8_apply (W := StableHlo.launchContents m d) rfl b k r
theorem g6_apply (d : Dev nD) (b : Fin 4) (k : Fin 3) (mm : Fin 4096) : g6 m d (ix3 b k mm) = (m (d, ra1)) (ix3 b mm k) :=
  v6_apply (W := StableHlo.launchContents m d) rfl b k mm
theorem g1_apply (d : Dev nD) (b : Fin 4) (k : Fin 3) (mm : Fin 4096) : g1 m d (ix3 b k mm) = (m (d, ra1)) (ix3 b mm k) :=
  v1_apply (W := StableHlo.launchContents m d) rfl b k mm

/-- The specification at the array index under word `j` of subcore `s`'s slice, first branch. -/
theorem spec_emb0 (d : Dev nD) (s : Fin (grid0.bound 1)) (j : S128.Idx) (b : Fin 4) (r : Fin 512)
    (hb : b.val = s.val / 4) (hr : r.val = s.val % 4 * 128 + (j 0).val) :
    specOf m d ((out0 (L0 s) (h1_L0 s)).view.emb j) = scd1 (m (d, ra0)) (m (d, ra1)) b r := by
  have e0 : (((out0 (L0 s) (h1_L0 s)).view.emb j) 0).val = s.val / 4 := emb_out0 s j 0
  have e1 : (((out0 (L0 s) (h1_L0 s)).view.emb j) 1).val = s.val % 4 * 128 + (j 0).val := emb_out0 s j 1
  have hj : (j 0).val < 128 := (j 0).isLt
  show scSpec _ _ _ = _
  delta scSpec
  have hlt : (((out0 (L0 s) (h1_L0 s)).view.emb j) 1).val < 512 := by rw [e1]; omega
  rw [dif_pos hlt]
  congr 1
  · exact Fin.ext (by rw [e0, hb])
  · exact Fin.ext (by show _ = r.val; rw [e1, hr])

/-- The first branch's formula over the four arrays is the specification under the word. -/
theorem formula0_spec (d : Dev nD) (s : Fin (grid0.bound 1)) (j : S128.Idx) (b : Fin 4) (r : Fin 512)
    (hb : b.val = s.val / 4) (hr : r.val = s.val % 4 * 128 + (j 0).val)
    (f7 f8 : (⟨3, ![4, 3, 512]⟩ : Shape).Idx → EReal) (f6 f1 : (⟨3, ![4, 3, 4096]⟩ : Shape).Idx → EReal)
    (e7 : ∀ i, f7 i = g7 m d i) (e8 : ∀ i, f8 i = g8 m d i) (e6 : ∀ i, f6 i = g6 m d i) (e1 : ∀ i, f1 i = g1 m d i) :
    max (((f8 (ix3 b 0 r) * f8 (ix3 b 0 r) + f8 (ix3 b 1 r) * f8 (ix3 b 1 r)) + f8 (ix3 b 2 r) * f8 (ix3 b 2 r))
        + (Finset.univ : Finset (Fin 4096)).fold min ⊤ (fun mm =>
            ((f1 (ix3 b 0 mm) * f1 (ix3 b 0 mm) + f1 (ix3 b 1 mm) * f1 (ix3 b 1 mm)) + f1 (ix3 b 2 mm) * f1 (ix3 b 2 mm))
              - ((2 : ℝ) : EReal) * ((f7 (ix3 b 0 r) * f6 (ix3 b 0 mm) + f7 (ix3 b 1 r) * f6 (ix3 b 1 mm))
                  + f7 (ix3 b 2 r) * f6 (ix3 b 2 mm)))) 0
      = specOf m d ((out0 (L0 s) (h1_L0 s)).view.emb j) :=
  (scd1_of (a := m (d, ra0)) (c := m (d, ra1)) (fun b k r => (e7 _).trans (g7_apply m d b k r))
    (fun b k r => (e8 _).trans (g8_apply m d b k r)) (fun b k mm => (e6 _).trans (g6_apply m d b k mm))
    (fun b k mm => (e1 _).trans (g1_apply m d b k mm)) b r).trans (spec_emb0 m d s j b r hb hr).symm

end Cert.Proof.ScBridge

end
-- ==== Proof.ScGeo0.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import Idealize.ShloMosaic.Lib.ValueIdx
import Idealize.ShloMosaic.Lib.Pipeline.Value
import proofs.«209750_g45337674776763_cont_8to1c4_158_37_alg».proof.Proof.ScCommonScI

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

open Idealize.ShloMosaic.ValueIdx

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-! The geometry of SparseCore 0's branch: which batch a subcore copies, and where its rows and row norms lie. -/

theorem off1_L0 : ∀ s : Fin (grid0.bound 1), k0_off1 (L0 s) = ![s.val / 4, 0, 0] := by decide +kernel
theorem off2_L0 : ∀ s : Fin (grid0.bound 1), k0_off2 (L0 s) = ![s.val / 4, 0, 0] := by decide +kernel
theorem off1_L1 : ∀ s : Fin (grid0.bound 1), k0_off1 (L1 s) = ![s.val / 4, 0, 0] := by decide +kernel
theorem off2_L1 : ∀ s : Fin (grid0.bound 1), k0_off2 (L1 s) = ![s.val / 4, 0, 0] := by decide +kernel
theorem off3_L0 : ∀ (s : Fin (grid0.bound 1)) (r : Fin 8), k0_off3 (L0 s) (BitVec.ofNat 32 (16 * r.val)) = ![0, (s.val % 4) * 128 + 16 * r.val] := by decide +kernel
theorem off4_L0 : ∀ (s : Fin (grid0.bound 1)) (r : Fin 8), k0_off4 (L0 s) (BitVec.ofNat 32 (16 * r.val)) = ![1, (s.val % 4) * 128 + 16 * r.val] := by decide +kernel
theorem off5_L0 : ∀ (s : Fin (grid0.bound 1)) (r : Fin 8), k0_off5 (L0 s) (BitVec.ofNat 32 (16 * r.val)) = ![2, (s.val % 4) * 128 + 16 * r.val] := by decide +kernel

/-- A sixteen-lane load of the whole `3 × 512` buffer at row `a`, column `base`, shape-cast: lane `l` is the buffer at `(a, base + l)`. -/
theorem ld_B0 (L : grid0.Coords) (off : Fin S3x512.rank → ℕ) (inb : ∀ x, off x + S1x16.size x ≤ S3x512.size x)
    (c : Buf (Elt F) ((B0).view.loc (thr d L))) (a : Fin 3) (base : ℕ) (h0 : off 0 = a.val) (h1 : off 1 = base) (hb : base + 16 ≤ 512) (l : Fin 16) :
    shapeCast S16 ((B0).view.readAt (Elt F) (Rect.unit (s := S3x512) off S1x16.size inb).toLoadRect c) shapeCasts_S1x16_S16 (ix1 l)
      = c (ix2 a (⟨base + l.val, by have := l.isLt; omega⟩ : Fin 512)) := by
  rw [shapeCast_apply _ _ (ix1 l) (ix2 (0 : Fin 1) l) (by rw [Shape.rowMajor_val_two, Shape.rowMajor_val_one]; simp), View.readAt_apply]
  show c _ = c _
  congr 1
  funext b
  apply Fin.ext
  match b with
  | ⟨0, _⟩ => simp [LoadRect.idx_apply, h0]
  | ⟨1, _⟩ => simp [LoadRect.idx_apply, h1]

/-- A sixteen-lane load of the whole `3 × 512` buffer at row `a`, column `base`, shape-cast: lane `l` is the buffer at `(a, base + l)`. -/
theorem ld_B1 (L : grid0.Coords) (off : Fin S3x512.rank → ℕ) (inb : ∀ x, off x + S1x16.size x ≤ S3x512.size x)
    (c : Buf (Elt F) ((B1).view.loc (thr d L))) (a : Fin 3) (base : ℕ) (h0 : off 0 = a.val) (h1 : off 1 = base) (hb : base + 16 ≤ 512) (l : Fin 16) :
    shapeCast S16 ((B1).view.readAt (Elt F) (Rect.unit (s := S3x512) off S1x16.size inb).toLoadRect c) shapeCasts_S1x16_S16 (ix1 l)
      = c (ix2 a (⟨base + l.val, by have := l.isLt; omega⟩ : Fin 512)) := by
  rw [shapeCast_apply _ _ (ix1 l) (ix2 (0 : Fin 1) l) (by rw [Shape.rowMajor_val_two, Shape.rowMajor_val_one]; simp), View.readAt_apply]
  show c _ = c _
  congr 1
  funext b
  apply Fin.ext
  match b with
  | ⟨0, _⟩ => simp [LoadRect.idx_apply, h0]
  | ⟨1, _⟩ => simp [LoadRect.idx_apply, h1]

/-- A sixteen-lane load of the whole `3 × 4096` buffer at row `a`, column `base`, shape-cast: lane `l` is the buffer at `(a, base + l)`. -/
theorem ld_B2 (L : grid0.Coords) (off : Fin S3x4096.rank → ℕ) (inb : ∀ x, off x + S1x16.size x ≤ S3x4096.size x)
    (c : Buf (Elt F) ((B2).view.loc (thr d L))) (a : Fin 3) (base : ℕ) (h0 : off 0 = a.val) (h1 : off 1 = base) (hb : base + 16 ≤ 4096) (l : Fin 16) :
    shapeCast S16 ((B2).view.readAt (Elt F) (Rect.unit (s := S3x4096) off S1x16.size inb).toLoadRect c) shapeCasts_S1x16_S16 (ix1 l)
      = c (ix2 a (⟨base + l.val, by have := l.isLt; omega⟩ : Fin 4096)) := by
  rw [shapeCast_apply _ _ (ix1 l) (ix2 (0 : Fin 1) l) (by rw [Shape.rowMajor_val_two, Shape.rowMajor_val_one]; simp), View.readAt_apply]
  show c _ = c _
  congr 1
  funext b
  apply Fin.ext
  match b with
  | ⟨0, _⟩ => simp [LoadRect.idx_apply, h0]
  | ⟨1, _⟩ => simp [LoadRect.idx_apply, h1]

/-- A sixteen-lane load of the whole `3 × 4096` buffer at row `a`, column `base`, shape-cast: lane `l` is the buffer at `(a, base + l)`. -/
theorem ld_B3 (L : grid0.Coords) (off : Fin S3x4096.rank → ℕ) (inb : ∀ x, off x + S1x16.size x ≤ S3x4096.size x)
    (c : Buf (Elt F) ((B3).view.loc (thr d L))) (a : Fin 3) (base : ℕ) (h0 : off 0 = a.val) (h1 : off 1 = base) (hb : base + 16 ≤ 4096) (l : Fin 16) :
    shapeCast S16 ((B3).view.readAt (Elt F) (Rect.unit (s := S3x4096) off S1x16.size inb).toLoadRect c) shapeCasts_S1x16_S16 (ix1 l)
      = c (ix2 a (⟨base + l.val, by have := l.isLt; omega⟩ : Fin 4096)) := by
  rw [shapeCast_apply _ _ (ix1 l) (ix2 (0 : Fin 1) l) (by rw [Shape.rowMajor_val_two, Shape.rowMajor_val_one]; simp), View.readAt_apply]
  show c _ = c _
  congr 1
  funext b
  apply Fin.ext
  match b with
  | ⟨0, _⟩ => simp [LoadRect.idx_apply, h0]
  | ⟨1, _⟩ => simp [LoadRect.idx_apply, h1]

end Cert.Proof.ScI

end
-- ==== Proof.ScMath1.lean ====
import proofs.«209750_g45337674776763_cont_8to1c4_158_37_alg».proof.Proof.ScVal0BScI
import Idealize.ShloMosaic.Lib.ValueIdx
import Idealize.ShloMosaic.PureOps.Ideal.Laws
import Idealize.ShloMosaic.Lib.Pipeline.Value
import Mathlib.Data.Finset.Fold
/-!
  One candidate point against a block of sixteen rows, and a chunk of sixteen candidates, read lane by lane over the
  extended reals: the running minimum of `‖q‖² − 2 ⟨r, q⟩`.
-/

noncomputable section

namespace Cert.Proof.ScI

open Cert.KernelIdeal Cert.KernelIdeal.Gen
open Idealize.ShloMosaic Idealize.ShloMosaic.ValueIdx

/-- The literal `2.0` denotes the real 2. -/
theorem two_eq : (Scalar.ofBits .f32 0x40000000#32 : Ideal .f32) = ((2 : ℝ) : EReal) := by
  show Ideal.ofBits .f32 0x40000000#32 = _
  simp [Ideal.ofBits, Ideal.ieee, -EReal.coe_mul]; norm_num

/-- One candidate against a block of rows, at a lane. -/
theorem upd_apply (rx ry rz cur : FVec Ideal S16 .f32) (qx qy qz qn : Ideal .f32) (l : S16.Idx) :
    upd rx ry rz cur qx qy qz qn l = min (cur l) (qn - ((2 : ℝ) : EReal) * ((rx l * qx + ry l * qy) + rz l * qz)) := by
  unfold upd
  rw [minimumf_apply, subf_apply, mulf_apply, addf_apply, addf_apply, mulf_apply, mulf_apply, mulf_apply]
  simp only [broadcast_apply, two_eq]

theorem ext0_apply (v : FVec Ideal S16 .f32) : ext0 v = v (ix1 (⟨0, by decide⟩ : Fin 16)) := by
  unfold ext0 extractAt
  exact extractStridedSlice_apply _ _ _ _ _ (fun a => by match a with | ⟨0, _⟩ => rfl)
theorem ext1_apply (v : FVec Ideal S16 .f32) : ext1 v = v (ix1 (⟨1, by decide⟩ : Fin 16)) := by
  unfold ext1 extractAt
  exact extractStridedSlice_apply _ _ _ _ _ (fun a => by match a with | ⟨0, _⟩ => rfl)
theorem ext2_apply (v : FVec Ideal S16 .f32) : ext2 v = v (ix1 (⟨2, by decide⟩ : Fin 16)) := by
  unfold ext2 extractAt
  exact extractStridedSlice_apply _ _ _ _ _ (fun a => by match a with | ⟨0, _⟩ => rfl)
theorem ext3_apply (v : FVec Ideal S16 .f32) : ext3 v = v (ix1 (⟨3, by decide⟩ : Fin 16)) := by
  unfold ext3 extractAt
  exact extractStridedSlice_apply _ _ _ _ _ (fun a => by match a with | ⟨0, _⟩ => rfl)
theorem ext4_apply (v : FVec Ideal S16 .f32) : ext4 v = v (ix1 (⟨4, by decide⟩ : Fin 16)) := by
  unfold ext4 extractAt
  exact extractStridedSlice_apply _ _ _ _ _ (fun a => by match a with | ⟨0, _⟩ => rfl)
theorem ext5_apply (v : FVec Ideal S16 .f32) : ext5 v = v (ix1 (⟨5, by decide⟩ : Fin 16)) := by
  unfold ext5 extractAt
  exact extractStridedSlice_apply _ _ _ _ _ (fun a => by match a with | ⟨0, _⟩ => rfl)
theorem ext6_apply (v : FVec Ideal S16 .f32) : ext6 v = v (ix1 (⟨6, by decide⟩ : Fin 16)) := by
  unfold ext6 extractAt
  exact extractStridedSlice_apply _ _ _ _ _ (fun a => by match a with | ⟨0, _⟩ => rfl)
theorem ext7_apply (v : FVec Ideal S16 .f32) : ext7 v = v (ix1 (⟨7, by decide⟩ : Fin 16)) := by
  unfold ext7 extractAt
  exact extractStridedSlice_apply _ _ _ _ _ (fun a => by match a with | ⟨0, _⟩ => rfl)
theorem ext8_apply (v : FVec Ideal S16 .f32) : ext8 v = v (ix1 (⟨8, by decide⟩ : Fin 16)) := by
  unfold ext8 extractAt
  exact extractStridedSlice_apply _ _ _ _ _ (fun a => by match a with | ⟨0, _⟩ => rfl)
theorem ext9_apply (v : FVec Ideal S16 .f32) : ext9 v = v (ix1 (⟨9, by decide⟩ : Fin 16)) := by
  unfold ext9 extractAt
  exact extractStridedSlice_apply _ _ _ _ _ (fun a => by match a with | ⟨0, _⟩ => rfl)
theorem ext10_apply (v : FVec Ideal S16 .f32) : ext10 v = v (ix1 (⟨10, by decide⟩ : Fin 16)) := by
  unfold ext10 extractAt
  exact extractStridedSlice_apply _ _ _ _ _ (fun a => by match a with | ⟨0, _⟩ => rfl)
theorem ext11_apply (v : FVec Ideal S16 .f32) : ext11 v = v (ix1 (⟨11, by decide⟩ : Fin 16)) := by
  unfold ext11 extractAt
  exact extractStridedSlice_apply _ _ _ _ _ (fun a => by match a with | ⟨0, _⟩ => rfl)
theorem ext12_apply (v : FVec Ideal S16 .f32) : ext12 v = v (ix1 (⟨12, by decide⟩ : Fin 16)) := by
  unfold ext12 extractAt
  exact extractStridedSlice_apply _ _ _ _ _ (fun a => by match a with | ⟨0, _⟩ => rfl)
theorem ext13_apply (v : FVec Ideal S16 .f32) : ext13 v = v (ix1 (⟨13, by decide⟩ : Fin 16)) := by
  unfold ext13 extractAt
  exact extractStridedSlice_apply _ _ _ _ _ (fun a => by match a with | ⟨0, _⟩ => rfl)
theorem ext14_apply (v : FVec Ideal S16 .f32) : ext14 v = v (ix1 (⟨14, by decide⟩ : Fin 16)) := by
  unfold ext14 extractAt
  exact extractStridedSlice_apply _ _ _ _ _ (fun a => by match a with | ⟨0, _⟩ => rfl)
theorem ext15_apply (v : FVec Ideal S16 .f32) : ext15 v = v (ix1 (⟨15, by decide⟩ : Fin 16)) := by
  unfold ext15 extractAt
  exact extractStridedSlice_apply _ _ _ _ _ (fun a => by match a with | ⟨0, _⟩ => rfl)

/-- A left-nested minimum of a base and sixteen terms is the fold of `min` over the sixteen from the base: both are the
    greatest lower bound. -/
theorem fold16 (b : EReal) (g : Fin 16 → EReal) :
    min (min (min (min (min (min (min (min (min (min (min (min (min (min (min (min (b) (g (⟨0, by decide⟩ : Fin 16))) (g (⟨1, by decide⟩ : Fin 16))) (g (⟨2, by decide⟩ : Fin 16))) (g (⟨3, by decide⟩ : Fin 16))) (g (⟨4, by decide⟩ : Fin 16))) (g (⟨5, by decide⟩ : Fin 16))) (g (⟨6, by decide⟩ : Fin 16))) (g (⟨7, by decide⟩ : Fin 16))) (g (⟨8, by decide⟩ : Fin 16))) (g (⟨9, by decide⟩ : Fin 16))) (g (⟨10, by decide⟩ : Fin 16))) (g (⟨11, by decide⟩ : Fin 16))) (g (⟨12, by decide⟩ : Fin 16))) (g (⟨13, by decide⟩ : Fin 16))) (g (⟨14, by decide⟩ : Fin 16))) (g (⟨15, by decide⟩ : Fin 16)) = (Finset.univ : Finset (Fin 16)).fold min b g := by
  apply le_antisymm
  · rw [Finset.le_fold_min]
    refine ⟨?_, fun i _ => ?_⟩
    · simp only [min_le_iff, le_refl, true_or]
    · fin_cases i <;> simp only [min_le_iff, le_refl, true_or, or_true]
  · have hb : (Finset.univ : Finset (Fin 16)).fold min b g ≤ b := (Finset.fold_min_le _).mpr (Or.inl le_rfl)
    have h : ∀ k : Fin 16, (Finset.univ : Finset (Fin 16)).fold min b g ≤ g k := fun k =>
      (Finset.fold_min_le _).mpr (Or.inr ⟨k, Finset.mem_univ _, le_rfl⟩)
    simp only [le_min_iff]
    exact ⟨⟨⟨⟨⟨⟨⟨⟨⟨⟨⟨⟨⟨⟨⟨⟨hb, h (⟨0, by decide⟩ : Fin 16)⟩, h (⟨1, by decide⟩ : Fin 16)⟩, h (⟨2, by decide⟩ : Fin 16)⟩, h (⟨3, by decide⟩ : Fin 16)⟩, h (⟨4, by decide⟩ : Fin 16)⟩, h (⟨5, by decide⟩ : Fin 16)⟩, h (⟨6, by decide⟩ : Fin 16)⟩, h (⟨7, by decide⟩ : Fin 16)⟩, h (⟨8, by decide⟩ : Fin 16)⟩, h (⟨9, by decide⟩ : Fin 16)⟩, h (⟨10, by decide⟩ : Fin 16)⟩, h (⟨11, by decide⟩ : Fin 16)⟩, h (⟨12, by decide⟩ : Fin 16)⟩, h (⟨13, by decide⟩ : Fin 16)⟩, h (⟨14, by decide⟩ : Fin 16)⟩, h (⟨15, by decide⟩ : Fin 16)⟩

/-- A chunk of sixteen candidates against a block of rows, at a lane: the minimum, from what the lane held, over the
    sixteen candidates of `‖q‖² − 2 ⟨r, q⟩`. -/
theorem chunk_apply (rx ry rz cur qxv qyv qzv qnv : FVec Ideal S16 .f32) (l : S16.Idx) :
    chunk rx ry rz cur qxv qyv qzv qnv l
      = (Finset.univ : Finset (Fin 16)).fold min (cur l) (fun i =>
          qnv (ix1 i) - ((2 : ℝ) : EReal) * ((rx l * qxv (ix1 i) + ry l * qyv (ix1 i)) + rz l * qzv (ix1 i))) := by
  unfold chunk
  simp only [upd_apply, ext0_apply, ext1_apply, ext2_apply, ext3_apply, ext4_apply, ext5_apply, ext6_apply, ext7_apply, ext8_apply, ext9_apply, ext10_apply, ext11_apply, ext12_apply, ext13_apply, ext14_apply, ext15_apply]
  exact fold16 (cur l) (fun i => qnv (ix1 i) - ((2 : ℝ) : EReal) * ((rx l * qxv (ix1 i) + ry l * qyv (ix1 i)) + rz l * qzv (ix1 i)))

end Cert.Proof.ScI

end
-- ==== Proof.ScMath2.lean ====
import proofs.«209750_g45337674776763_cont_8to1c4_158_37_alg».proof.Proof.ScMath1
/-!
  A chunk of sixteen candidate points loaded from a `3 × 4096` buffer, read at a lane: coordinate `a` of candidate
  `16 k + i`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

local notation "B2" => (Memref.whole Cert.KernelIdeal.cc0_scratch2 : Memref Cert.KernelIdeal.sig Kind.scVector Space.vmem Cert.KernelIdeal.S3x4096 EltTy.f32)

/-- The scan has 256 trips. -/
theorem trips_eq : k0_t1_loop.trips = 256 := by decide

theorem chunk_lt (k : Fin k0_t1_loop.trips) (i : Fin 16) : 16 * k.val + i.val < 4096 := by
  have h1 : k.val < 256 := lt_of_lt_of_eq k.isLt trips_eq
  have h2 := i.isLt
  omega

/-- Coordinate `a` of the chunk trip `k` loads, at lane `i`: the buffer at row `a`, column `16 k + i`. -/
theorem ldv_apply (L : grid0.Coords) (k0_h1 : k0_cond1 L = 1#1) (k : Fin k0_t1_loop.trips)
    (c : Buf (Elt F) ((B2).view.loc (thr d L))) (a : Fin 3) (i : Fin 16) :
    ldv d L k0_h1 k c a (ix1 i) = c (ix2 a (⟨16 * k.val + i.val, chunk_lt k i⟩ : Fin 4096)) := by
  match a with
  | 0 =>
    show shapeCast S16 ((B2).view.readAt (Elt F) (Rect.unit (s := S3x4096) (k0_off6 k) S1x16.size (k0_off6_inb L k k0_h1)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off6_eq k]
    | ⟨1, _⟩ => simp [LoadRect.idx_apply, k0_off6_eq k]
  | 1 =>
    show shapeCast S16 ((B2).view.readAt (Elt F) (Rect.unit (s := S3x4096) (k0_off7 k) S1x16.size (k0_off7_inb L k k0_h1)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off7_eq k]
    | ⟨1, _⟩ => simp [LoadRect.idx_apply, k0_off7_eq k]
  | 2 =>
    show shapeCast S16 ((B2).view.readAt (Elt F) (Rect.unit (s := S3x4096) (k0_off8 k) S1x16.size (k0_off8_inb L k k0_h1)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off8_eq k]
    | ⟨1, _⟩ => simp [LoadRect.idx_apply, k0_off8_eq k]

end Cert.Proof.ScI

end
-- ==== Proof.ScMath3.lean ====
import proofs.«209750_g45337674776763_cont_8to1c4_158_37_alg».proof.Proof.ScMath2
/-!
  The scan's carried minima before trip `K`, read at a lane: for each block of sixteen rows, the minimum, from what the
  lane held at the start, over the candidates `m < 16 K` of `‖q_m‖² − 2 ⟨r, q_m⟩`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B2" => (Memref.whole Cert.KernelIdeal.cc0_scratch2 : Memref Cert.KernelIdeal.sig Kind.scVector Space.vmem Cert.KernelIdeal.S3x4096 EltTy.f32)

/-- The sixteen candidates after the first `16 K` extend the minimum over `m < 16 K` to the minimum over
    `m < 16 (K + 1)`: both sides are the greatest lower bound of the same terms. -/
theorem fold_step (G : Fin 4096 → EReal) (b : EReal) (K : ℕ) (hK : 16 * (K + 1) ≤ 4096) :
    (Finset.univ : Finset (Fin 16)).fold min ((Finset.univ.filter fun m : Fin 4096 => m.val < 16 * K).fold min b G)
        (fun i => G ⟨16 * K + i.val, by have := i.isLt; omega⟩)
      = (Finset.univ.filter fun m : Fin 4096 => m.val < 16 * (K + 1)).fold min b G := by
  refine eq_of_forall_le_iff fun c => ?_
  rw [Finset.le_fold_min, Finset.le_fold_min, Finset.le_fold_min]
  constructor
  · rintro ⟨⟨hb, h1⟩, h2⟩
    refine ⟨hb, fun m hm => ?_⟩
    have hm' : m.val < 16 * (K + 1) := (Finset.mem_filter.mp hm).2
    by_cases hlt : m.val < 16 * K
    · exact h1 m (Finset.mem_filter.mpr ⟨Finset.mem_univ _, hlt⟩)
    · have hi : m.val - 16 * K < 16 := by omega
      have := h2 ⟨m.val - 16 * K, hi⟩ (Finset.mem_univ _)
      have e : (⟨16 * K + (⟨m.val - 16 * K, hi⟩ : Fin 16).val, by omega⟩ : Fin 4096) = m := Fin.ext (by show 16 * K + (m.val - 16 * K) = m.val; omega)
      rwa [e] at this
  · rintro ⟨hb, h⟩
    refine ⟨⟨hb, fun m hm => h m ?_⟩, fun i _ => h _ ?_⟩
    · exact Finset.mem_filter.mpr ⟨Finset.mem_univ _, by have := (Finset.mem_filter.mp hm).2; omega⟩
    · exact Finset.mem_filter.mpr ⟨Finset.mem_univ _, by show 16 * K + i.val < 16 * (K + 1); have := i.isLt; omega⟩

/-- The squared norms of a chunk, at a lane. -/
theorem nrmv_apply (fx fy fz : FVec Ideal S16 .f32) (l : S16.Idx) : nrmv fx fy fz l = (fx l * fx l + fy l * fy l) + fz l * fz l := by
  unfold nrmv; rw [addf_apply, addf_apply, mulf_apply, mulf_apply, mulf_apply]

/-- Coordinate `a` of candidate `m` in a `3 × 4096` buffer, as an extended real. -/
abbrev rd (L : grid0.Coords) (c : Buf (Elt Ideal) ((B2).view.loc (thr d L))) (a : Fin 3) (m : Fin 4096) : EReal := c (ix2 a m)

/-- What candidate `m` of the two buffers contributes to a row `(rx l, ry l, rz l)`. -/
def term (L : grid0.Coords) (rx ry rz : FVec Ideal S16 .f32) (c2 c3 : Buf (Elt Ideal) ((B2).view.loc (thr d L))) (l : S16.Idx) (m : Fin 4096) : EReal :=
  ((rd d L c3 0 m * rd d L c3 0 m + rd d L c3 1 m * rd d L c3 1 m) + rd d L c3 2 m * rd d L c3 2 m)
    - ((2 : ℝ) : EReal) * ((rx l * rd d L c2 0 m + ry l * rd d L c2 1 m) + rz l * rd d L c2 2 m)

/-- One trip's chunk against a block of rows, at a lane: the sixteen candidates `16 k + i`. -/
theorem trip_chunk_apply (L : grid0.Coords) (k0_h1 : k0_cond1 L = 1#1) (rx ry rz cur : FVec Ideal S16 .f32)
    (k : Fin k0_t1_loop.trips) (c2 c3 : Buf (Elt Ideal) ((B2).view.loc (thr d L))) (l : S16.Idx) :
    chunk rx ry rz cur (ldv d L k0_h1 k c2 0) (ldv d L k0_h1 k c2 1) (ldv d L k0_h1 k c2 2)
        (nrmv (ldv d L k0_h1 k c3 0) (ldv d L k0_h1 k c3 1) (ldv d L k0_h1 k c3 2)) l
      = (Finset.univ : Finset (Fin 16)).fold min (cur l) (fun i => term d L rx ry rz c2 c3 l ⟨16 * k.val + i.val, chunk_lt k i⟩) := by
  rw [chunk_apply]
  simp only [nrmv_apply, ldv_apply, term, rd]

/-- A block's carried minimum before trip `K`, at a lane: for any component of the carried tuple that a trip updates by
    the chunk of that block's rows. -/
theorem block_iter (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal)
    (rx ry rz : FVec Ideal S16 .f32) (sel : Acc Ideal → FVec Ideal S16 .f32)
    (hsel : ∀ (k : Fin k0_t1_loop.trips) (acc : Acc Ideal),
      sel (tripSpec d L k0_h1 v40 v45 v50 v55 v60 v65 v70 v75 v80 v85 v90 v95 v100 v105 v110 v115 v120 v125 v130 v135 v140 v145 v150 v155 k c2 c3 acc)
        = chunk rx ry rz (sel acc) (ldv d L k0_h1 k c2 0) (ldv d L k0_h1 k c2 1) (ldv d L k0_h1 k c2 2)
            (nrmv (ldv d L k0_h1 k c3 0) (ldv d L k0_h1 k c3 1) (ldv d L k0_h1 k c3 2)))
    (l : S16.Idx) : ∀ K : ℕ, K ≤ 256 →
      sel (iter d L k0_h1 v40 v45 v50 v55 v60 v65 v70 v75 v80 v85 v90 v95 v100 v105 v110 v115 v120 v125 v130 v135 v140 v145 v150 v155 c2 c3 init K) l
        = (Finset.univ.filter fun m : Fin 4096 => m.val < 16 * K).fold min (sel init l) (term d L rx ry rz c2 c3 l)
  | 0, _ => by
    show sel init l = _
    rw [show (Finset.univ.filter fun m : Fin 4096 => m.val < 16 * 0) = ∅ from by ext m; simp, Finset.fold_empty]
  | K + 1, hK => by
    have hk : K < k0_t1_loop.trips := by rw [trips_eq]; omega
    have hs := iter_succ d L k0_h1 v40 v45 v50 v55 v60 v65 v70 v75 v80 v85 v90 v95 v100 v105 v110 v115 v120 v125 v130 v135 v140 v145 v150 v155 c2 c3 init ⟨K, hk⟩
    rw [show K + 1 = (⟨K, hk⟩ : Fin k0_t1_loop.trips).val + 1 from rfl, hs, hsel, trip_chunk_apply,
      block_iter L k0_h1 v40 v45 v50 v55 v60 v65 v70 v75 v80 v85 v90 v95 v100 v105 v110 v115 v120 v125 v130 v135 v140 v145 v150 v155 c2 c3 init rx ry rz sel hsel l K (by omega)]
    exact fold_step (term d L rx ry rz c2 c3 l) (sel init l) K (by omega)

/-- Block 0 (rows `v40`, `v80`, `v120`). -/
theorem iter_0_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.1) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.1) init l) (term d L v40 v80 v120 c2 c3 l) :=
  block_iter d L k0_h1 v40 v45 v50 v55 v60 v65 v70 v75 v80 v85 v90 v95 v100 v105 v110 v115 v120 v125 v130 v135 v140 v145 v150 v155 c2 c3 init v40 v80 v120 (fun a => a.1) (fun _ _ => rfl) l K hK

/-- Block 1 (rows `v45`, `v85`, `v125`). -/
theorem iter_1_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.2.1) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.2.1) init l) (term d L v45 v85 v125 c2 c3 l) :=
  block_iter d L k0_h1 v40 v45 v50 v55 v60 v65 v70 v75 v80 v85 v90 v95 v100 v105 v110 v115 v120 v125 v130 v135 v140 v145 v150 v155 c2 c3 init v45 v85 v125 (fun a => a.2.1) (fun _ _ => rfl) l K hK

/-- Block 2 (rows `v50`, `v90`, `v130`). -/
theorem iter_2_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.2.2.1) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.2.2.1) init l) (term d L v50 v90 v130 c2 c3 l) :=
  block_iter d L k0_h1 v40 v45 v50 v55 v60 v65 v70 v75 v80 v85 v90 v95 v100 v105 v110 v115 v120 v125 v130 v135 v140 v145 v150 v155 c2 c3 init v50 v90 v130 (fun a => a.2.2.1) (fun _ _ => rfl) l K hK

/-- Block 3 (rows `v55`, `v95`, `v135`). -/
theorem iter_3_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.2.2.2.1) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.2.2.2.1) init l) (term d L v55 v95 v135 c2 c3 l) :=
  block_iter d L k0_h1 v40 v45 v50 v55 v60 v65 v70 v75 v80 v85 v90 v95 v100 v105 v110 v115 v120 v125 v130 v135 v140 v145 v150 v155 c2 c3 init v55 v95 v135 (fun a => a.2.2.2.1) (fun _ _ => rfl) l K hK

/-- Block 4 (rows `v60`, `v100`, `v140`). -/
theorem iter_4_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.2.2.2.2.1) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.2.2.2.2.1) init l) (term d L v60 v100 v140 c2 c3 l) :=
  block_iter d L k0_h1 v40 v45 v50 v55 v60 v65 v70 v75 v80 v85 v90 v95 v100 v105 v110 v115 v120 v125 v130 v135 v140 v145 v150 v155 c2 c3 init v60 v100 v140 (fun a => a.2.2.2.2.1) (fun _ _ => rfl) l K hK

/-- Block 5 (rows `v65`, `v105`, `v145`). -/
theorem iter_5_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.2.2.2.2.2.1) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.2.2.2.2.2.1) init l) (term d L v65 v105 v145 c2 c3 l) :=
  block_iter d L k0_h1 v40 v45 v50 v55 v60 v65 v70 v75 v80 v85 v90 v95 v100 v105 v110 v115 v120 v125 v130 v135 v140 v145 v150 v155 c2 c3 init v65 v105 v145 (fun a => a.2.2.2.2.2.1) (fun _ _ => rfl) l K hK

/-- Block 6 (rows `v70`, `v110`, `v150`). -/
theorem iter_6_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.2.2.2.2.2.2.1) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.2.2.2.2.2.2.1) init l) (term d L v70 v110 v150 c2 c3 l) :=
  block_iter d L k0_h1 v40 v45 v50 v55 v60 v65 v70 v75 v80 v85 v90 v95 v100 v105 v110 v115 v120 v125 v130 v135 v140 v145 v150 v155 c2 c3 init v70 v110 v150 (fun a => a.2.2.2.2.2.2.1) (fun _ _ => rfl) l K hK

/-- Block 7 (rows `v75`, `v115`, `v155`). -/
theorem iter_7_apply (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal) (l : S16.Idx) (K : ℕ) (hK : K ≤ 256) :
    (fun a : Acc Ideal => a.2.2.2.2.2.2.2) (iter d L k0_h1 v40 v45 v50 v55 v60 v65 v70 v75 v80 v85 v90 v95 v100 v105 v110 v115 v120 v125 v130 v135 v140 v145 v150 v155 c2 c3 init K) l
      = (Finset.univ.filter fun m : Fin 4096 => m.val < 16 * K).fold min ((fun a : Acc Ideal => a.2.2.2.2.2.2.2) init l) (term d L v75 v115 v155 c2 c3 l) :=
  block_iter d L k0_h1 v40 v45 v50 v55 v60 v65 v70 v75 v80 v85 v90 v95 v100 v105 v110 v115 v120 v125 v130 v135 v140 v145 v150 v155 c2 c3 init v75 v115 v155 (fun a => a.2.2.2.2.2.2.2) (fun _ _ => rfl) l K hK

/-- After all 256 trips, from lanes that start at `⊤`: the minimum over every candidate. -/
theorem block_all (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (init : Acc Ideal)
    (rx ry rz : FVec Ideal S16 .f32) (sel : Acc Ideal → FVec Ideal S16 .f32)
    (hsel : ∀ (k : Fin k0_t1_loop.trips) (acc : Acc Ideal),
      sel (tripSpec d L k0_h1 v40 v45 v50 v55 v60 v65 v70 v75 v80 v85 v90 v95 v100 v105 v110 v115 v120 v125 v130 v135 v140 v145 v150 v155 k c2 c3 acc)
        = chunk rx ry rz (sel acc) (ldv d L k0_h1 k c2 0) (ldv d L k0_h1 k c2 1) (ldv d L k0_h1 k c2 2)
            (nrmv (ldv d L k0_h1 k c3 0) (ldv d L k0_h1 k c3 1) (ldv d L k0_h1 k c3 2)))
    (l : S16.Idx) (htop : sel init l = (⊤ : EReal)) :
    sel (iter d L k0_h1 v40 v45 v50 v55 v60 v65 v70 v75 v80 v85 v90 v95 v100 v105 v110 v115 v120 v125 v130 v135 v140 v145 v150 v155 c2 c3 init k0_t1_loop.trips) l
      = (Finset.univ : Finset (Fin 4096)).fold min (⊤ : EReal) (term d L rx ry rz c2 c3 l) := by
  rw [trips_eq, block_iter d L k0_h1 v40 v45 v50 v55 v60 v65 v70 v75 v80 v85 v90 v95 v100 v105 v110 v115 v120 v125 v130 v135 v140 v145 v150 v155 c2 c3 init rx ry rz sel hsel l 256 le_rfl, htop,
    show (Finset.univ.filter fun m : Fin 4096 => m.val < 16 * 256) = Finset.univ from
      Finset.filter_true_of_mem fun m _ => by have := m.isLt; omega]

/-- The literal `+inf` denotes the top of the extended reals. -/
theorem inf_eq : (Scalar.ofBits .f32 0x7F800000#32 : Ideal .f32) = (⊤ : EReal) := by
  show Ideal.ofBits .f32 0x7F800000#32 = _
  simp [Ideal.ofBits, Ideal.ieee]

end Cert.Proof.ScI

end
-- ==== Proof.ScBridgeR.lean ====
import Idealize.ShloMosaic.Lib.WritesUnit
import Idealize.ShloMosaic.Lib.ValueIdx
import proofs.«209750_g45337674776763_cont_8to1c4_158_37_alg».proof.Proof.Gen.KernelIdeal

/-!
  Eight stores of sixteen words each, at offsets 0, 16, …, 112 of a 1024-word buffer, read back one word at a time:
  word `16 k + l` reads the payload of the store at offset `16 k`, at lane `l`.
-/

noncomputable section

namespace Cert.Proof.ScBridge

open Cert.KernelIdeal Cert.KernelIdeal.Gen
open Idealize.ShloMosaic Idealize.ShloMosaic.ValueIdx

variable {sig : RefSig} {κ : Kind} {sp : Space} {Val : EltTy → Type}

set_option maxHeartbeats 1000000 in
theorem read8 (v : View sig κ sp S1024 .f32) (f : v.ty.Contents Val)
    (w0 w16 w32 w48 w64 w80 w96 w112 : S16.Idx → Val .f32)
    (i0 : ∀ a, (![0] : Fin 1 → ℕ) a + S16.size a ≤ S1024.size a) (i16 : ∀ a, (![16] : Fin 1 → ℕ) a + S16.size a ≤ S1024.size a)
    (i32 : ∀ a, (![32] : Fin 1 → ℕ) a + S16.size a ≤ S1024.size a) (i48 : ∀ a, (![48] : Fin 1 → ℕ) a + S16.size a ≤ S1024.size a)
    (i64 : ∀ a, (![64] : Fin 1 → ℕ) a + S16.size a ≤ S1024.size a) (i80 : ∀ a, (![80] : Fin 1 → ℕ) a + S16.size a ≤ S1024.size a)
    (i96 : ∀ a, (![96] : Fin 1 → ℕ) a + S16.size a ≤ S1024.size a) (i112 : ∀ a, (![112] : Fin 1 → ℕ) a + S16.size a ≤ S1024.size a)
    (y : S1024.Idx) (k : Fin 8) (l : Fin 16) (hy : (y 0).val = 16 * k.val + l.val) :
    v.read Val (v.writes Val f ((⟨Rect.unit ![112] S16.size i112, w112⟩ : View.Piece Val S1024 .f32) ::
        (⟨Rect.unit ![96] S16.size i96, w96⟩ : View.Piece Val S1024 .f32) ::
        (⟨Rect.unit ![80] S16.size i80, w80⟩ : View.Piece Val S1024 .f32) ::
        (⟨Rect.unit ![64] S16.size i64, w64⟩ : View.Piece Val S1024 .f32) ::
        (⟨Rect.unit ![48] S16.size i48, w48⟩ : View.Piece Val S1024 .f32) ::
        (⟨Rect.unit ![32] S16.size i32, w32⟩ : View.Piece Val S1024 .f32) ::
        (⟨Rect.unit ![16] S16.size i16, w16⟩ : View.Piece Val S1024 .f32) ::
        (⟨Rect.unit ![0] S16.size i0, w0⟩ : View.Piece Val S1024 .f32) :: [])) y
      = (![w0, w16, w32, w48, w64, w80, w96, w112] k) (ix1 l) := by
  have hl := l.isLt
  fin_cases k
  · -- block 0
    have hy' : (y 0).val = 0 + l.val := by simpa using hy
    rw [View.read_writes_cons_unit_of_not_mem v f i112 w112 _ y rfl (0 : Fin 1) (by show (y 0).val < 112 ∨ 112 + 16 ≤ (y 0).val; omega)]
    rw [View.read_writes_cons_unit_of_not_mem v f i96 w96 _ y rfl (0 : Fin 1) (by show (y 0).val < 96 ∨ 96 + 16 ≤ (y 0).val; omega)]
    rw [View.read_writes_cons_unit_of_not_mem v f i80 w80 _ y rfl (0 : Fin 1) (by show (y 0).val < 80 ∨ 80 + 16 ≤ (y 0).val; omega)]
    rw [View.read_writes_cons_unit_of_not_mem v f i64 w64 _ y rfl (0 : Fin 1) (by show (y 0).val < 64 ∨ 64 + 16 ≤ (y 0).val; omega)]
    rw [View.read_writes_cons_unit_of_not_mem v f i48 w48 _ y rfl (0 : Fin 1) (by show (y 0).val < 48 ∨ 48 + 16 ≤ (y 0).val; omega)]
    rw [View.read_writes_cons_unit_of_not_mem v f i32 w32 _ y rfl (0 : Fin 1) (by show (y 0).val < 32 ∨ 32 + 16 ≤ (y 0).val; omega)]
    rw [View.read_writes_cons_unit_of_not_mem v f i16 w16 _ y rfl (0 : Fin 1) (by show (y 0).val < 16 ∨ 16 + 16 ≤ (y 0).val; omega)]
    exact View.read_writes_cons_unit_of_mem v f i0 w0 _ y (ix1 l) rfl (fun a => by
      have ha : a = (0 : Fin 1) := Subsingleton.elim _ _
      subst ha
      show (y 0).val = 0 + l.val
      omega)
  · -- block 1
    have hy' : (y 0).val = 16 + l.val := by simpa using hy
    rw [View.read_writes_cons_unit_of_not_mem v f i112 w112 _ y rfl (0 : Fin 1) (by show (y 0).val < 112 ∨ 112 + 16 ≤ (y 0).val; omega)]
    rw [View.read_writes_cons_unit_of_not_mem v f i96 w96 _ y rfl (0 : Fin 1) (by show (y 0).val < 96 ∨ 96 + 16 ≤ (y 0).val; omega)]
    rw [View.read_writes_cons_unit_of_not_mem v f i80 w80 _ y rfl (0 : Fin 1) (by show (y 0).val < 80 ∨ 80 + 16 ≤ (y 0).val; omega)]
    rw [View.read_writes_cons_unit_of_not_mem v f i64 w64 _ y rfl (0 : Fin 1) (by show (y 0).val < 64 ∨ 64 + 16 ≤ (y 0).val; omega)]
    rw [View.read_writes_cons_unit_of_not_mem v f i48 w48 _ y rfl (0 : Fin 1) (by show (y 0).val < 48 ∨ 48 + 16 ≤ (y 0).val; omega)]
    rw [View.read_writes_cons_unit_of_not_mem v f i32 w32 _ y rfl (0 : Fin 1) (by show (y 0).val < 32 ∨ 32 + 16 ≤ (y 0).val; omega)]
    exact View.read_writes_cons_unit_of_mem v f i16 w16 _ y (ix1 l) rfl (fun a => by
      have ha : a = (0 : Fin 1) := Subsingleton.elim _ _
      subst ha
      show (y 0).val = 16 + l.val
      omega)
  · -- block 2
    have hy' : (y 0).val = 32 + l.val := by simpa using hy
    rw [View.read_writes_cons_unit_of_not_mem v f i112 w112 _ y rfl (0 : Fin 1) (by show (y 0).val < 112 ∨ 112 + 16 ≤ (y 0).val; omega)]
    rw [View.read_writes_cons_unit_of_not_mem v f i96 w96 _ y rfl (0 : Fin 1) (by show (y 0).val < 96 ∨ 96 + 16 ≤ (y 0).val; omega)]
    rw [View.read_writes_cons_unit_of_not_mem v f i80 w80 _ y rfl (0 : Fin 1) (by show (y 0).val < 80 ∨ 80 + 16 ≤ (y 0).val; omega)]
    rw [View.read_writes_cons_unit_of_not_mem v f i64 w64 _ y rfl (0 : Fin 1) (by show (y 0).val < 64 ∨ 64 + 16 ≤ (y 0).val; omega)]
    rw [View.read_writes_cons_unit_of_not_mem v f i48 w48 _ y rfl (0 : Fin 1) (by show (y 0).val < 48 ∨ 48 + 16 ≤ (y 0).val; omega)]
    exact View.read_writes_cons_unit_of_mem v f i32 w32 _ y (ix1 l) rfl (fun a => by
      have ha : a = (0 : Fin 1) := Subsingleton.elim _ _
      subst ha
      show (y 0).val = 32 + l.val
      omega)
  · -- block 3
    have hy' : (y 0).val = 48 + l.val := by simpa using hy
    rw [View.read_writes_cons_unit_of_not_mem v f i112 w112 _ y rfl (0 : Fin 1) (by show (y 0).val < 112 ∨ 112 + 16 ≤ (y 0).val; omega)]
    rw [View.read_writes_cons_unit_of_not_mem v f i96 w96 _ y rfl (0 : Fin 1) (by show (y 0).val < 96 ∨ 96 + 16 ≤ (y 0).val; omega)]
    rw [View.read_writes_cons_unit_of_not_mem v f i80 w80 _ y rfl (0 : Fin 1) (by show (y 0).val < 80 ∨ 80 + 16 ≤ (y 0).val; omega)]
    rw [View.read_writes_cons_unit_of_not_mem v f i64 w64 _ y rfl (0 : Fin 1) (by show (y 0).val < 64 ∨ 64 + 16 ≤ (y 0).val; omega)]
    exact View.read_writes_cons_unit_of_mem v f i48 w48 _ y (ix1 l) rfl (fun a => by
      have ha : a = (0 : Fin 1) := Subsingleton.elim _ _
      subst ha
      show (y 0).val = 48 + l.val
      omega)
  · -- block 4
    have hy' : (y 0).val = 64 + l.val := by simpa using hy
    rw [View.read_writes_cons_unit_of_not_mem v f i112 w112 _ y rfl (0 : Fin 1) (by show (y 0).val < 112 ∨ 112 + 16 ≤ (y 0).val; omega)]
    rw [View.read_writes_cons_unit_of_not_mem v f i96 w96 _ y rfl (0 : Fin 1) (by show (y 0).val < 96 ∨ 96 + 16 ≤ (y 0).val; omega)]
    rw [View.read_writes_cons_unit_of_not_mem v f i80 w80 _ y rfl (0 : Fin 1) (by show (y 0).val < 80 ∨ 80 + 16 ≤ (y 0).val; omega)]
    exact View.read_writes_cons_unit_of_mem v f i64 w64 _ y (ix1 l) rfl (fun a => by
      have ha : a = (0 : Fin 1) := Subsingleton.elim _ _
      subst ha
      show (y 0).val = 64 + l.val
      omega)
  · -- block 5
    have hy' : (y 0).val = 80 + l.val := by simpa using hy
    rw [View.read_writes_cons_unit_of_not_mem v f i112 w112 _ y rfl (0 : Fin 1) (by show (y 0).val < 112 ∨ 112 + 16 ≤ (y 0).val; omega)]
    rw [View.read_writes_cons_unit_of_not_mem v f i96 w96 _ y rfl (0 : Fin 1) (by show (y 0).val < 96 ∨ 96 + 16 ≤ (y 0).val; omega)]
    exact View.read_writes_cons_unit_of_mem v f i80 w80 _ y (ix1 l) rfl (fun a => by
      have ha : a = (0 : Fin 1) := Subsingleton.elim _ _
      subst ha
      show (y 0).val = 80 + l.val
      omega)
  · -- block 6
    have hy' : (y 0).val = 96 + l.val := by simpa using hy
    rw [View.read_writes_cons_unit_of_not_mem v f i112 w112 _ y rfl (0 : Fin 1) (by show (y 0).val < 112 ∨ 112 + 16 ≤ (y 0).val; omega)]
    exact View.read_writes_cons_unit_of_mem v f i96 w96 _ y (ix1 l) rfl (fun a => by
      have ha : a = (0 : Fin 1) := Subsingleton.elim _ _
      subst ha
      show (y 0).val = 96 + l.val
      omega)
  · -- block 7
    have hy' : (y 0).val = 112 + l.val := by simpa using hy
    exact View.read_writes_cons_unit_of_mem v f i112 w112 _ y (ix1 l) rfl (fun a => by
      have ha : a = (0 : Fin 1) := Subsingleton.elim _ _
      subst ha
      show (y 0).val = 112 + l.val
      omega)

end Cert.Proof.ScBridge

end
-- ==== Proof.ScBridge0P.lean ====
import proofs.«209750_g45337674776763_cont_8to1c4_158_37_alg».proof.Proof.ScMath3
import proofs.«209750_g45337674776763_cont_8to1c4_158_37_alg».proof.Proof.ScBridgeR

/-!
  The first SparseCore branch's eight stored blocks read back: each block's payload is the clamped sum of the block's
  row norms and its carried minimum; the 128-word slice of the scratch buffer after the eight stores reads, at word
  `16 k + l`, block `k`'s payload at lane `l`; and the carried minima after the scan are, lane by lane, the minimum
  over all candidates.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B2" => (Memref.whole Cert.KernelIdeal.cc0_scratch2 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

/-- A loaded row of sixteen words as a vector of sixteen lanes. -/
abbrev sc (a : Vec Ideal S1x16 .f32) : FVec Ideal S16 .f32 := shapeCast S16 a shapeCasts_S1x16_S16

/-- The clamped sum a block stores. -/
def clampAdd (n acc : FVec Ideal S16 .f32) : FVec Ideal S16 .f32 :=
  shapeCast S16 (maximumf (addf n acc) (broadcast S16 (Scalar.ofBits .f32 0x00000000#32))) shapeCasts_S16_S16

theorem clampAdd_apply (n acc : FVec Ideal S16 .f32) (l : Fin 16) : clampAdd n acc (ix1 l) = max (n (ix1 l) + acc (ix1 l)) 0 := by
  unfold clampAdd
  rw [shapeCast_apply _ _ (ix1 l) (ix1 l) rfl]
  show max (_ + _) (Ideal.ofBits .f32 0x00000000#32) = _
  rw [Ideal.ofBits_zero_f32]

section Payloads
variable (a b c : Vec Ideal S1x16 .f32) (acc : FVec Ideal S16 .f32)
theorem pay0 : k0_pay285 (F := Ideal) (k0_pay269 a b c) acc = clampAdd (nrmv (sc a) (sc b) (sc c)) acc := rfl
theorem pay1 : k0_pay286 (F := Ideal) (k0_pay270 a b c) acc = clampAdd (nrmv (sc a) (sc b) (sc c)) acc := rfl
theorem pay2 : k0_pay287 (F := Ideal) (k0_pay273 (k0_pay271 a) (k0_pay272 b) c) acc = clampAdd (nrmv (sc a) (sc b) (sc c)) acc := rfl
theorem pay3 : k0_pay290 (F := Ideal) (k0_pay288 (k0_pay274 a b c) acc) k0_pay289 = clampAdd (nrmv (sc a) (sc b) (sc c)) acc := rfl
theorem pay4 : k0_pay291 (F := Ideal) (k0_pay278 (k0_pay275 b) (k0_pay276 c) (k0_pay277 a)) acc = clampAdd (nrmv (sc a) (sc b) (sc c)) acc := rfl
theorem pay5 : k0_pay292 (F := Ideal) (k0_pay279 a b c) acc = clampAdd (nrmv (sc a) (sc b) (sc c)) acc := rfl
theorem pay6 : k0_pay293 (F := Ideal) (k0_pay280 a b c) acc = clampAdd (nrmv (sc a) (sc b) (sc c)) acc := rfl
theorem pay7 : k0_pay294 (F := Ideal) (k0_pay281 a b c) acc = clampAdd (nrmv (sc a) (sc b) (sc c)) acc := rfl
end Payloads

/-- The 128-word slice of the scratch buffer after the eight stores, at word `16 k + l`: block `k`'s clamped sum at lane
    `l`. -/
theorem slice8 (bb : (B4).view.ty.Contents (Elt Ideal)) (i128 : ∀ a, (![0] : Fin 1 → ℕ) a + S128.size a ≤ S1024.size a)
    (hs : ∀ a, (Rect.unit (s := S1024) ![0] S128.size i128).stride a = 1) (i0 : ∀ a, (![0] : Fin 1 → ℕ) a + S16.size a ≤ S1024.size a) (i16 : ∀ a, (![16] : Fin 1 → ℕ) a + S16.size a ≤ S1024.size a) (i32 : ∀ a, (![32] : Fin 1 → ℕ) a + S16.size a ≤ S1024.size a) (i48 : ∀ a, (![48] : Fin 1 → ℕ) a + S16.size a ≤ S1024.size a) (i64 : ∀ a, (![64] : Fin 1 → ℕ) a + S16.size a ≤ S1024.size a) (i80 : ∀ a, (![80] : Fin 1 → ℕ) a + S16.size a ≤ S1024.size a) (i96 : ∀ a, (![96] : Fin 1 → ℕ) a + S16.size a ≤ S1024.size a) (i112 : ∀ a, (![112] : Fin 1 → ℕ) a + S16.size a ≤ S1024.size a)
    (a0 b0 c0 a1 b1 c1 a2 b2 c2 a3 b3 c3 a4 b4 c4 a5 b5 c5 a6 b6 c6 a7 b7 c7 : Vec Ideal S1x16 .f32) (acc : Acc Ideal) (j : S128.Idx) (k : Fin 8) (l : Fin 16)
    (hj : (j 0).val = 16 * k.val + l.val) :
    ReadAs.same.apply (View.read (Elt Ideal) ((B4).slice (Rect.unit ![0] S128.size i128) hs).view
        ((B4).view.writes (Elt Ideal) bb
          ((⟨Rect.unit ![112] S16.size i112, k0_pay294 (F := Ideal) (k0_pay281 a7 b7 c7) acc.2.2.2.2.2.2.2⟩ : View.Piece (Elt Ideal) S1024 .f32) ::
          (⟨Rect.unit ![96] S16.size i96, k0_pay293 (F := Ideal) (k0_pay280 a6 b6 c6) acc.2.2.2.2.2.2.1⟩ : View.Piece (Elt Ideal) S1024 .f32) ::
          (⟨Rect.unit ![80] S16.size i80, k0_pay292 (F := Ideal) (k0_pay279 a5 b5 c5) acc.2.2.2.2.2.1⟩ : View.Piece (Elt Ideal) S1024 .f32) ::
          (⟨Rect.unit ![64] S16.size i64, k0_pay291 (F := Ideal) (k0_pay278 (k0_pay275 b4) (k0_pay276 c4) (k0_pay277 a4)) acc.2.2.2.2.1⟩ : View.Piece (Elt Ideal) S1024 .f32) ::
          (⟨Rect.unit ![48] S16.size i48, k0_pay290 (F := Ideal) (k0_pay288 (k0_pay274 a3 b3 c3) acc.2.2.2.1) k0_pay289⟩ : View.Piece (Elt Ideal) S1024 .f32) ::
          (⟨Rect.unit ![32] S16.size i32, k0_pay287 (F := Ideal) (k0_pay273 (k0_pay271 a2) (k0_pay272 b2) c2) acc.2.2.1⟩ : View.Piece (Elt Ideal) S1024 .f32) ::
          (⟨Rect.unit ![16] S16.size i16, k0_pay286 (F := Ideal) (k0_pay270 a1 b1 c1) acc.2.1⟩ : View.Piece (Elt Ideal) S1024 .f32) ::
          (⟨Rect.unit ![0] S16.size i0, k0_pay285 (F := Ideal) (k0_pay269 a0 b0 c0) acc.1⟩ : View.Piece (Elt Ideal) S1024 .f32) :: []))) j
      = max (nrmv (sc (![a0, a1, a2, a3, a4, a5, a6, a7] k)) (sc (![b0, b1, b2, b3, b4, b5, b6, b7] k))
            (sc (![c0, c1, c2, c3, c4, c5, c6, c7] k)) (ix1 l)
          + (![acc.1, acc.2.1, acc.2.2.1, acc.2.2.2.1, acc.2.2.2.2.1, acc.2.2.2.2.2.1, acc.2.2.2.2.2.2.1, acc.2.2.2.2.2.2.2] k) (ix1 l)) 0 := by
  refine (Cert.Proof.ScBridge.read8 (B4).view bb _ _ _ _ _ _ _ _ i0 i16 i32 i48 i64 i80 i96 i112
    ((Rect.unit (s := S1024) ![0] S128.size i128).emb j) k l ?_).trans ?_
  · rw [Rect.emb_apply]
    show 0 + 1 * (j 0).val = 16 * k.val + l.val
    omega
  fin_cases k
  · exact (congrFun (pay0 a0 b0 c0 acc.1) _).trans (clampAdd_apply _ _ l)
  · exact (congrFun (pay1 a1 b1 c1 acc.2.1) _).trans (clampAdd_apply _ _ l)
  · exact (congrFun (pay2 a2 b2 c2 acc.2.2.1) _).trans (clampAdd_apply _ _ l)
  · exact (congrFun (pay3 a3 b3 c3 acc.2.2.2.1) _).trans (clampAdd_apply _ _ l)
  · exact (congrFun (pay4 a4 b4 c4 acc.2.2.2.2.1) _).trans (clampAdd_apply _ _ l)
  · exact (congrFun (pay5 a5 b5 c5 acc.2.2.2.2.2.1) _).trans (clampAdd_apply _ _ l)
  · exact (congrFun (pay6 a6 b6 c6 acc.2.2.2.2.2.2.1) _).trans (clampAdd_apply _ _ l)
  · exact (congrFun (pay7 a7 b7 c7 acc.2.2.2.2.2.2.2) _).trans (clampAdd_apply _ _ l)

/-- The carried minima after the scan, block by block and lane by lane: the minimum over all 4096 candidates. -/
theorem sel8 (L : grid0.Coords) (k0_h1 : k0_cond1 L = 1#1) (v40 : FVec Ideal S16 .f32) (v45 : FVec Ideal S16 .f32) (v50 : FVec Ideal S16 .f32) (v55 : FVec Ideal S16 .f32) (v60 : FVec Ideal S16 .f32) (v65 : FVec Ideal S16 .f32) (v70 : FVec Ideal S16 .f32) (v75 : FVec Ideal S16 .f32) (v80 : FVec Ideal S16 .f32) (v85 : FVec Ideal S16 .f32) (v90 : FVec Ideal S16 .f32) (v95 : FVec Ideal S16 .f32) (v100 : FVec Ideal S16 .f32) (v105 : FVec Ideal S16 .f32) (v110 : FVec Ideal S16 .f32) (v115 : FVec Ideal S16 .f32) (v120 : FVec Ideal S16 .f32) (v125 : FVec Ideal S16 .f32) (v130 : FVec Ideal S16 .f32) (v135 : FVec Ideal S16 .f32) (v140 : FVec Ideal S16 .f32) (v145 : FVec Ideal S16 .f32) (v150 : FVec Ideal S16 .f32) (v155 : FVec Ideal S16 .f32)
    (c2 c3 : Buf (Elt Ideal) ((B2).view.loc (thr d L))) (acc : Acc Ideal)
    (hacc : acc = iter d L k0_h1 v40 v45 v50 v55 v60 v65 v70 v75 v80 v85 v90 v95 v100 v105 v110 v115 v120 v125 v130 v135 v140 v145 v150 v155 c2 c3
      (k0_pay282, k0_pay282, k0_pay282, k0_pay282, k0_pay282, k0_pay282, k0_pay282, k0_pay282) k0_t1_loop.trips)
    (k : Fin 8) (l : S16.Idx) :
    (![acc.1, acc.2.1, acc.2.2.1, acc.2.2.2.1, acc.2.2.2.2.1, acc.2.2.2.2.2.1, acc.2.2.2.2.2.2.1, acc.2.2.2.2.2.2.2] k) l
      = (Finset.univ : Finset (Fin 4096)).fold min (⊤ : EReal)
          (term d L (![v40, v45, v50, v55, v60, v65, v70, v75] k) (![v80, v85, v90, v95, v100, v105, v110, v115] k) (![v120, v125, v130, v135, v140, v145, v150, v155] k) c2 c3 l) := by
  subst hacc
  fin_cases k
  · exact block_all d L k0_h1 v40 v45 v50 v55 v60 v65 v70 v75 v80 v85 v90 v95 v100 v105 v110 v115 v120 v125 v130 v135 v140 v145 v150 v155 c2 c3 _ v40 v80 v120 (fun acc : Acc Ideal => acc.1) (fun _ _ => rfl) l inf_eq
  · exact block_all d L k0_h1 v40 v45 v50 v55 v60 v65 v70 v75 v80 v85 v90 v95 v100 v105 v110 v115 v120 v125 v130 v135 v140 v145 v150 v155 c2 c3 _ v45 v85 v125 (fun acc : Acc Ideal => acc.2.1) (fun _ _ => rfl) l inf_eq
  · exact block_all d L k0_h1 v40 v45 v50 v55 v60 v65 v70 v75 v80 v85 v90 v95 v100 v105 v110 v115 v120 v125 v130 v135 v140 v145 v150 v155 c2 c3 _ v50 v90 v130 (fun acc : Acc Ideal => acc.2.2.1) (fun _ _ => rfl) l inf_eq
  · exact block_all d L k0_h1 v40 v45 v50 v55 v60 v65 v70 v75 v80 v85 v90 v95 v100 v105 v110 v115 v120 v125 v130 v135 v140 v145 v150 v155 c2 c3 _ v55 v95 v135 (fun acc : Acc Ideal => acc.2.2.2.1) (fun _ _ => rfl) l inf_eq
  · exact block_all d L k0_h1 v40 v45 v50 v55 v60 v65 v70 v75 v80 v85 v90 v95 v100 v105 v110 v115 v120 v125 v130 v135 v140 v145 v150 v155 c2 c3 _ v60 v100 v140 (fun acc : Acc Ideal => acc.2.2.2.2.1) (fun _ _ => rfl) l inf_eq
  · exact block_all d L k0_h1 v40 v45 v50 v55 v60 v65 v70 v75 v80 v85 v90 v95 v100 v105 v110 v115 v120 v125 v130 v135 v140 v145 v150 v155 c2 c3 _ v65 v105 v145 (fun acc : Acc Ideal => acc.2.2.2.2.2.1) (fun _ _ => rfl) l inf_eq
  · exact block_all d L k0_h1 v40 v45 v50 v55 v60 v65 v70 v75 v80 v85 v90 v95 v100 v105 v110 v115 v120 v125 v130 v135 v140 v145 v150 v155 c2 c3 _ v70 v110 v150 (fun acc : Acc Ideal => acc.2.2.2.2.2.2.1) (fun _ _ => rfl) l inf_eq
  · exact block_all d L k0_h1 v40 v45 v50 v55 v60 v65 v70 v75 v80 v85 v90 v95 v100 v105 v110 v115 v120 v125 v130 v135 v140 v145 v150 v155 c2 c3 _ v75 v115 v155 (fun acc : Acc Ideal => acc.2.2.2.2.2.2.2) (fun _ _ => rfl) l inf_eq

end Cert.Proof.ScI

end
-- ==== Proof.ScBridge0M.lean ====
import proofs.«209750_g45337674776763_cont_8to1c4_158_37_alg».proof.Proof.ScMath3

/-!
  One lane of one block of the first SparseCore branch, from the loop's mathematics to the formula over the four
  arrays: when the block's rows are the strip's coordinates at column `r`, the two candidate buffers the two full
  arrays' batch, the clamped sum of the row's norm and the minimum over the candidates is the formula at `(b, r)`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B2" => (Memref.whole Cert.KernelIdeal.cc0_scratch2 : Memref Cert.KernelIdeal.sig Kind.scVector Space.vmem Cert.KernelIdeal.S3x4096 EltTy.f32)

theorem block_formula0 (L : grid0.Coords) (rx ry rz fx fy fz : FVec Ideal S16 .f32)
    (c2 c3 : Buf (Elt Ideal) ((B2).view.loc (thr d L))) (l : S16.Idx)
    (f7 f8 : (⟨3, ![4, 3, 512]⟩ : Shape).Idx → EReal) (f6 f1 : (⟨3, ![4, 3, 4096]⟩ : Shape).Idx → EReal)
    (b : Fin 4) (r : Fin 512)
    (hrx : rx l = f7 (ix3 b 0 r)) (hry : ry l = f7 (ix3 b 1 r)) (hrz : rz l = f7 (ix3 b 2 r))
    (hfx : fx l = f8 (ix3 b 0 r)) (hfy : fy l = f8 (ix3 b 1 r)) (hfz : fz l = f8 (ix3 b 2 r))
    (hc2 : ∀ (a : Fin 3) (mm : Fin 4096), c2 (ix2 a mm) = f6 (ix3 b a mm))
    (hc3 : ∀ (a : Fin 3) (mm : Fin 4096), c3 (ix2 a mm) = f1 (ix3 b a mm)) :
    max (nrmv fx fy fz l + (Finset.univ : Finset (Fin 4096)).fold min (⊤ : EReal) (term d L rx ry rz c2 c3 l)) 0
      = max (((f8 (ix3 b 0 r) * f8 (ix3 b 0 r) + f8 (ix3 b 1 r) * f8 (ix3 b 1 r)) + f8 (ix3 b 2 r) * f8 (ix3 b 2 r))
        + (Finset.univ : Finset (Fin 4096)).fold min ⊤ (fun mm =>
            ((f1 (ix3 b 0 mm) * f1 (ix3 b 0 mm) + f1 (ix3 b 1 mm) * f1 (ix3 b 1 mm)) + f1 (ix3 b 2 mm) * f1 (ix3 b 2 mm))
              - ((2 : ℝ) : EReal) * ((f7 (ix3 b 0 r) * f6 (ix3 b 0 mm) + f7 (ix3 b 1 r) * f6 (ix3 b 1 mm))
                  + f7 (ix3 b 2 r) * f6 (ix3 b 2 mm)))) 0 := by
  rw [nrmv_apply, hfx, hfy, hfz]
  refine congrArg (fun x => max (_ + x) 0) (Finset.fold_congr fun mm _ => ?_)
  unfold term
  simp only [rd, hrx, hry, hrz, hc2, hc3]

end Cert.Proof.ScI

end
-- ==== Proof.ScBridge0V.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Value
import Idealize.ShloMosaic.Lib.Tactic
import proofs.«209750_g45337674776763_cont_8to1c4_158_37_alg».proof.Proof.ScVal0Run
import proofs.«209750_g45337674776763_cont_8to1c4_158_37_alg».proof.Proof.ScGeo0
import proofs.«209750_g45337674776763_cont_8to1c4_158_37_alg».proof.Proof.ScBridge0P
import proofs.«209750_g45337674776763_cont_8to1c4_158_37_alg».proof.Proof.ScBridge0M

/-!
  The first SparseCore branch's 128 words as mathematics: the term the subcore's run computes — the 128-word slice of
  the scratch buffer after the eight stores, over the scan's carried minima — is, word by word, the formula over the
  four arrays at batch `s / 4` and strip column `128 (s % 4) + j`.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

theorem src7 (s : Fin (grid0.bound 1)) (f : Buf (Elt Ideal) (l7 d)) (a : Fin 3) (col : Fin 512) :
    run0x.sl.dma0 d s f (ix2 a col) = f (ix3 (⟨s.val / 4, by have : s.val < 16 := s.isLt; omega⟩ : Fin 4) a col) := by
  delta run0x.sl.dma0
  rw [Memref.read_squeeze_slice (hc := by show S3x512.numel = S1x3x512.numel; decide)]
  show shapeCast S3x512 _ _ (ix2 a col) = _
  refine (shapeCast_apply _ _ (ix2 a col) (ix3 (0 : Fin 1) a col) ?_).trans ?_
  · rw [Shape.rowMajor_val_three, Shape.rowMajor_val_two]
    show ((0 : ℕ) * 3 + a.val) * 512 + col.val = a.val * 512 + col.val
    omega
  rw [View.readAt_apply]
  show f _ = f _
  congr 1
  funext x
  apply Fin.ext
  have ho := off1_L0 s
  match x with
  | ⟨0, _⟩ =>
    show k0_off1 (L0 s) 0 + 1 * 0 = s.val / 4
    rw [ho]; rfl
  | ⟨1, _⟩ =>
    show k0_off1 (L0 s) 1 + 1 * a.val = a.val
    rw [ho]; show 0 + 1 * a.val = a.val; omega
  | ⟨2, _⟩ =>
    show k0_off1 (L0 s) 2 + 1 * col.val = col.val
    rw [ho]; show 0 + 1 * col.val = col.val; omega

theorem src8 (s : Fin (grid0.bound 1)) (f : Buf (Elt Ideal) (l8 d)) (a : Fin 3) (col : Fin 512) :
    run0x.sl.dma0_1 d s f (ix2 a col) = f (ix3 (⟨s.val / 4, by have : s.val < 16 := s.isLt; omega⟩ : Fin 4) a col) := by
  delta run0x.sl.dma0_1
  rw [Memref.read_squeeze_slice (hc := by show S3x512.numel = S1x3x512.numel; decide)]
  show shapeCast S3x512 _ _ (ix2 a col) = _
  refine (shapeCast_apply _ _ (ix2 a col) (ix3 (0 : Fin 1) a col) ?_).trans ?_
  · rw [Shape.rowMajor_val_three, Shape.rowMajor_val_two]
    show ((0 : ℕ) * 3 + a.val) * 512 + col.val = a.val * 512 + col.val
    omega
  rw [View.readAt_apply]
  show f _ = f _
  congr 1
  funext x
  apply Fin.ext
  have ho := off1_L0 s
  match x with
  | ⟨0, _⟩ =>
    show k0_off1 (L0 s) 0 + 1 * 0 = s.val / 4
    rw [ho]; rfl
  | ⟨1, _⟩ =>
    show k0_off1 (L0 s) 1 + 1 * a.val = a.val
    rw [ho]; show 0 + 1 * a.val = a.val; omega
  | ⟨2, _⟩ =>
    show k0_off1 (L0 s) 2 + 1 * col.val = col.val
    rw [ho]; show 0 + 1 * col.val = col.val; omega

theorem src6 (s : Fin (grid0.bound 1)) (f : Buf (Elt Ideal) (l6 d)) (a : Fin 3) (col : Fin 4096) :
    run0x.sl.dma0_2 d s f (ix2 a col) = f (ix3 (⟨s.val / 4, by have : s.val < 16 := s.isLt; omega⟩ : Fin 4) a col) := by
  delta run0x.sl.dma0_2
  rw [Memref.read_squeeze_slice (hc := by show S3x4096.numel = S1x3x4096.numel; decide)]
  show shapeCast S3x4096 _ _ (ix2 a col) = _
  refine (shapeCast_apply _ _ (ix2 a col) (ix3 (0 : Fin 1) a col) ?_).trans ?_
  · rw [Shape.rowMajor_val_three, Shape.rowMajor_val_two]
    show ((0 : ℕ) * 3 + a.val) * 4096 + col.val = a.val * 4096 + col.val
    omega
  rw [View.readAt_apply]
  show f _ = f _
  congr 1
  funext x
  apply Fin.ext
  have ho := off2_L0 s
  match x with
  | ⟨0, _⟩ =>
    show k0_off2 (L0 s) 0 + 1 * 0 = s.val / 4
    rw [ho]; rfl
  | ⟨1, _⟩ =>
    show k0_off2 (L0 s) 1 + 1 * a.val = a.val
    rw [ho]; show 0 + 1 * a.val = a.val; omega
  | ⟨2, _⟩ =>
    show k0_off2 (L0 s) 2 + 1 * col.val = col.val
    rw [ho]; show 0 + 1 * col.val = col.val; omega

theorem src1 (s : Fin (grid0.bound 1)) (f : Buf (Elt Ideal) (l1 d)) (a : Fin 3) (col : Fin 4096) :
    run0x.sl.dma0_3 d s f (ix2 a col) = f (ix3 (⟨s.val / 4, by have : s.val < 16 := s.isLt; omega⟩ : Fin 4) a col) := by
  delta run0x.sl.dma0_3
  rw [Memref.read_squeeze_slice (hc := by show S3x4096.numel = S1x3x4096.numel; decide)]
  show shapeCast S3x4096 _ _ (ix2 a col) = _
  refine (shapeCast_apply _ _ (ix2 a col) (ix3 (0 : Fin 1) a col) ?_).trans ?_
  · rw [Shape.rowMajor_val_three, Shape.rowMajor_val_two]
    show ((0 : ℕ) * 3 + a.val) * 4096 + col.val = a.val * 4096 + col.val
    omega
  rw [View.readAt_apply]
  show f _ = f _
  congr 1
  funext x
  apply Fin.ext
  have ho := off2_L0 s
  match x with
  | ⟨0, _⟩ =>
    show k0_off2 (L0 s) 0 + 1 * 0 = s.val / 4
    rw [ho]; rfl
  | ⟨1, _⟩ =>
    show k0_off2 (L0 s) 1 + 1 * a.val = a.val
    rw [ho]; show 0 + 1 * a.val = a.val; omega
  | ⟨2, _⟩ =>
    show k0_off2 (L0 s) 2 + 1 * col.val = col.val
    rw [ho]; show 0 + 1 * col.val = col.val; omega

theorem row_0_0 (s : Fin (grid0.bound 1)) (f7 : Buf (Elt Ideal) (l7 d)) (b0 : Buf (Elt Ideal) ((thr d (L0 s)).loc cc0_scratch0)) (l : Fin 16) :
    run0x.sl.v40 d s f7 b0 (h1_L0 s) (ix1 l)
      = f7 (ix3 (⟨s.val / 4, by have : s.val < 16 := s.isLt; omega⟩ : Fin 4) (0 : Fin 3) (⟨s.val % 4 * 128 + 16 * 0 + l.val, by have := l.isLt; omega⟩ : Fin 512)) := by
  delta run0x.sl.v40 run0x.sl.v39
  have ho := off3_L0 s (⟨0, by decide⟩ : Fin 8)
  refine (ld_B0 d (L0 s) _ _ _ (0 : Fin 3) (s.val % 4 * 128 + 16 * 0) (congrFun ho 0) (congrFun ho 1) (by omega) l).trans ?_
  refine (congrFun (View.write_whole_univ cc0_scratch0 b0 (run0x.sl.dma0 d s f7)) _).trans ?_
  exact src7 d s f7 (0 : Fin 3) _

theorem row_0_1 (s : Fin (grid0.bound 1)) (f7 : Buf (Elt Ideal) (l7 d)) (b0 : Buf (Elt Ideal) ((thr d (L0 s)).loc cc0_scratch0)) (l : Fin 16) :
    run0x.sl.v80 d s f7 b0 (h1_L0 s) (ix1 l)
      = f7 (ix3 (⟨s.val / 4, by have : s.val < 16 := s.isLt; omega⟩ : Fin 4) (1 : Fin 3) (⟨s.val % 4 * 128 + 16 * 0 + l.val, by have := l.isLt; omega⟩ : Fin 512)) := by
  delta run0x.sl.v80 run0x.sl.v79
  have ho := off4_L0 s (⟨0, by decide⟩ : Fin 8)
  refine (ld_B0 d (L0 s) _ _ _ (1 : Fin 3) (s.val % 4 * 128 + 16 * 0) (congrFun ho 0) (congrFun ho 1) (by omega) l).trans ?_
  refine (congrFun (View.write_whole_univ cc0_scratch0 b0 (run0x.sl.dma0 d s f7)) _).trans ?_
  exact src7 d s f7 (1 : Fin 3) _

theorem row_0_2 (s : Fin (grid0.bound 1)) (f7 : Buf (Elt Ideal) (l7 d)) (b0 : Buf (Elt Ideal) ((thr d (L0 s)).loc cc0_scratch0)) (l : Fin 16) :
    run0x.sl.v120 d s f7 b0 (h1_L0 s) (ix1 l)
      = f7 (ix3 (⟨s.val / 4, by have : s.val < 16 := s.isLt; omega⟩ : Fin 4) (2 : Fin 3) (⟨s.val % 4 * 128 + 16 * 0 + l.val, by have := l.isLt; omega⟩ : Fin 512)) := by
  delta run0x.sl.v120 run0x.sl.v119
  have ho := off5_L0 s (⟨0, by decide⟩ : Fin 8)
  refine (ld_B0 d (L0 s) _ _ _ (2 : Fin 3) (s.val % 4 * 128 + 16 * 0) (congrFun ho 0) (congrFun ho 1) (by omega) l).trans ?_
  refine (congrFun (View.write_whole_univ cc0_scratch0 b0 (run0x.sl.dma0 d s f7)) _).trans ?_
  exact src7 d s f7 (2 : Fin 3) _

theorem row_1_0 (s : Fin (grid0.bound 1)) (f7 : Buf (Elt Ideal) (l7 d)) (b0 : Buf (Elt Ideal) ((thr d (L0 s)).loc cc0_scratch0)) (l : Fin 16) :
    run0x.sl.v45 d s f7 b0 (h1_L0 s) (ix1 l)
      = f7 (ix3 (⟨s.val / 4, by have : s.val < 16 := s.isLt; omega⟩ : Fin 4) (0 : Fin 3) (⟨s.val % 4 * 128 + 16 * 1 + l.val, by have := l.isLt; omega⟩ : Fin 512)) := by
  delta run0x.sl.v45 run0x.sl.v44
  have ho := off3_L0 s (⟨1, by decide⟩ : Fin 8)
  refine (ld_B0 d (L0 s) _ _ _ (0 : Fin 3) (s.val % 4 * 128 + 16 * 1) (congrFun ho 0) (congrFun ho 1) (by omega) l).trans ?_
  refine (congrFun (View.write_whole_univ cc0_scratch0 b0 (run0x.sl.dma0 d s f7)) _).trans ?_
  exact src7 d s f7 (0 : Fin 3) _

theorem row_1_1 (s : Fin (grid0.bound 1)) (f7 : Buf (Elt Ideal) (l7 d)) (b0 : Buf (Elt Ideal) ((thr d (L0 s)).loc cc0_scratch0)) (l : Fin 16) :
    run0x.sl.v85 d s f7 b0 (h1_L0 s) (ix1 l)
      = f7 (ix3 (⟨s.val / 4, by have : s.val < 16 := s.isLt; omega⟩ : Fin 4) (1 : Fin 3) (⟨s.val % 4 * 128 + 16 * 1 + l.val, by have := l.isLt; omega⟩ : Fin 512)) := by
  delta run0x.sl.v85 run0x.sl.v84
  have ho := off4_L0 s (⟨1, by decide⟩ : Fin 8)
  refine (ld_B0 d (L0 s) _ _ _ (1 : Fin 3) (s.val % 4 * 128 + 16 * 1) (congrFun ho 0) (congrFun ho 1) (by omega) l).trans ?_
  refine (congrFun (View.write_whole_univ cc0_scratch0 b0 (run0x.sl.dma0 d s f7)) _).trans ?_
  exact src7 d s f7 (1 : Fin 3) _

theorem row_1_2 (s : Fin (grid0.bound 1)) (f7 : Buf (Elt Ideal) (l7 d)) (b0 : Buf (Elt Ideal) ((thr d (L0 s)).loc cc0_scratch0)) (l : Fin 16) :
    run0x.sl.v125 d s f7 b0 (h1_L0 s) (ix1 l)
      = f7 (ix3 (⟨s.val / 4, by have : s.val < 16 := s.isLt; omega⟩ : Fin 4) (2 : Fin 3) (⟨s.val % 4 * 128 + 16 * 1 + l.val, by have := l.isLt; omega⟩ : Fin 512)) := by
  delta run0x.sl.v125 run0x.sl.v124
  have ho := off5_L0 s (⟨1, by decide⟩ : Fin 8)
  refine (ld_B0 d (L0 s) _ _ _ (2 : Fin 3) (s.val % 4 * 128 + 16 * 1) (congrFun ho 0) (congrFun ho 1) (by omega) l).trans ?_
  refine (congrFun (View.write_whole_univ cc0_scratch0 b0 (run0x.sl.dma0 d s f7)) _).trans ?_
  exact src7 d s f7 (2 : Fin 3) _

theorem row_2_0 (s : Fin (grid0.bound 1)) (f7 : Buf (Elt Ideal) (l7 d)) (b0 : Buf (Elt Ideal) ((thr d (L0 s)).loc cc0_scratch0)) (l : Fin 16) :
    run0x.sl.v50 d s f7 b0 (h1_L0 s) (ix1 l)
      = f7 (ix3 (⟨s.val / 4, by have : s.val < 16 := s.isLt; omega⟩ : Fin 4) (0 : Fin 3) (⟨s.val % 4 * 128 + 16 * 2 + l.val, by have := l.isLt; omega⟩ : Fin 512)) := by
  delta run0x.sl.v50 run0x.sl.v49
  have ho := off3_L0 s (⟨2, by decide⟩ : Fin 8)
  refine (ld_B0 d (L0 s) _ _ _ (0 : Fin 3) (s.val % 4 * 128 + 16 * 2) (congrFun ho 0) (congrFun ho 1) (by omega) l).trans ?_
  refine (congrFun (View.write_whole_univ cc0_scratch0 b0 (run0x.sl.dma0 d s f7)) _).trans ?_
  exact src7 d s f7 (0 : Fin 3) _

theorem row_2_1 (s : Fin (grid0.bound 1)) (f7 : Buf (Elt Ideal) (l7 d)) (b0 : Buf (Elt Ideal) ((thr d (L0 s)).loc cc0_scratch0)) (l : Fin 16) :
    run0x.sl.v90 d s f7 b0 (h1_L0 s) (ix1 l)
      = f7 (ix3 (⟨s.val / 4, by have : s.val < 16 := s.isLt; omega⟩ : Fin 4) (1 : Fin 3) (⟨s.val % 4 * 128 + 16 * 2 + l.val, by have := l.isLt; omega⟩ : Fin 512)) := by
  delta run0x.sl.v90 run0x.sl.v89
  have ho := off4_L0 s (⟨2, by decide⟩ : Fin 8)
  refine (ld_B0 d (L0 s) _ _ _ (1 : Fin 3) (s.val % 4 * 128 + 16 * 2) (congrFun ho 0) (congrFun ho 1) (by omega) l).trans ?_
  refine (congrFun (View.write_whole_univ cc0_scratch0 b0 (run0x.sl.dma0 d s f7)) _).trans ?_
  exact src7 d s f7 (1 : Fin 3) _

theorem row_2_2 (s : Fin (grid0.bound 1)) (f7 : Buf (Elt Ideal) (l7 d)) (b0 : Buf (Elt Ideal) ((thr d (L0 s)).loc cc0_scratch0)) (l : Fin 16) :
    run0x.sl.v130 d s f7 b0 (h1_L0 s) (ix1 l)
      = f7 (ix3 (⟨s.val / 4, by have : s.val < 16 := s.isLt; omega⟩ : Fin 4) (2 : Fin 3) (⟨s.val % 4 * 128 + 16 * 2 + l.val, by have := l.isLt; omega⟩ : Fin 512)) := by
  delta run0x.sl.v130 run0x.sl.v129
  have ho := off5_L0 s (⟨2, by decide⟩ : Fin 8)
  refine (ld_B0 d (L0 s) _ _ _ (2 : Fin 3) (s.val % 4 * 128 + 16 * 2) (congrFun ho 0) (congrFun ho 1) (by omega) l).trans ?_
  refine (congrFun (View.write_whole_univ cc0_scratch0 b0 (run0x.sl.dma0 d s f7)) _).trans ?_
  exact src7 d s f7 (2 : Fin 3) _

theorem row_3_0 (s : Fin (grid0.bound 1)) (f7 : Buf (Elt Ideal) (l7 d)) (b0 : Buf (Elt Ideal) ((thr d (L0 s)).loc cc0_scratch0)) (l : Fin 16) :
    run0x.sl.v55 d s f7 b0 (h1_L0 s) (ix1 l)
      = f7 (ix3 (⟨s.val / 4, by have : s.val < 16 := s.isLt; omega⟩ : Fin 4) (0 : Fin 3) (⟨s.val % 4 * 128 + 16 * 3 + l.val, by have := l.isLt; omega⟩ : Fin 512)) := by
  delta run0x.sl.v55 run0x.sl.v54
  have ho := off3_L0 s (⟨3, by decide⟩ : Fin 8)
  refine (ld_B0 d (L0 s) _ _ _ (0 : Fin 3) (s.val % 4 * 128 + 16 * 3) (congrFun ho 0) (congrFun ho 1) (by omega) l).trans ?_
  refine (congrFun (View.write_whole_univ cc0_scratch0 b0 (run0x.sl.dma0 d s f7)) _).trans ?_
  exact src7 d s f7 (0 : Fin 3) _

theorem row_3_1 (s : Fin (grid0.bound 1)) (f7 : Buf (Elt Ideal) (l7 d)) (b0 : Buf (Elt Ideal) ((thr d (L0 s)).loc cc0_scratch0)) (l : Fin 16) :
    run0x.sl.v95 d s f7 b0 (h1_L0 s) (ix1 l)
      = f7 (ix3 (⟨s.val / 4, by have : s.val < 16 := s.isLt; omega⟩ : Fin 4) (1 : Fin 3) (⟨s.val % 4 * 128 + 16 * 3 + l.val, by have := l.isLt; omega⟩ : Fin 512)) := by
  delta run0x.sl.v95 run0x.sl.v94
  have ho := off4_L0 s (⟨3, by decide⟩ : Fin 8)
  refine (ld_B0 d (L0 s) _ _ _ (1 : Fin 3) (s.val % 4 * 128 + 16 * 3) (congrFun ho 0) (congrFun ho 1) (by omega) l).trans ?_
  refine (congrFun (View.write_whole_univ cc0_scratch0 b0 (run0x.sl.dma0 d s f7)) _).trans ?_
  exact src7 d s f7 (1 : Fin 3) _

theorem row_3_2 (s : Fin (grid0.bound 1)) (f7 : Buf (Elt Ideal) (l7 d)) (b0 : Buf (Elt Ideal) ((thr d (L0 s)).loc cc0_scratch0)) (l : Fin 16) :
    run0x.sl.v135 d s f7 b0 (h1_L0 s) (ix1 l)
      = f7 (ix3 (⟨s.val / 4, by have : s.val < 16 := s.isLt; omega⟩ : Fin 4) (2 : Fin 3) (⟨s.val % 4 * 128 + 16 * 3 + l.val, by have := l.isLt; omega⟩ : Fin 512)) := by
  delta run0x.sl.v135 run0x.sl.v134
  have ho := off5_L0 s (⟨3, by decide⟩ : Fin 8)
  refine (ld_B0 d (L0 s) _ _ _ (2 : Fin 3) (s.val % 4 * 128 + 16 * 3) (congrFun ho 0) (congrFun ho 1) (by omega) l).trans ?_
  refine (congrFun (View.write_whole_univ cc0_scratch0 b0 (run0x.sl.dma0 d s f7)) _).trans ?_
  exact src7 d s f7 (2 : Fin 3) _

theorem row_4_0 (s : Fin (grid0.bound 1)) (f7 : Buf (Elt Ideal) (l7 d)) (b0 : Buf (Elt Ideal) ((thr d (L0 s)).loc cc0_scratch0)) (l : Fin 16) :
    run0x.sl.v60 d s f7 b0 (h1_L0 s) (ix1 l)
      = f7 (ix3 (⟨s.val / 4, by have : s.val < 16 := s.isLt; omega⟩ : Fin 4) (0 : Fin 3) (⟨s.val % 4 * 128 + 16 * 4 + l.val, by have := l.isLt; omega⟩ : Fin 512)) := by
  delta run0x.sl.v60 run0x.sl.v59
  have ho := off3_L0 s (⟨4, by decide⟩ : Fin 8)
  refine (ld_B0 d (L0 s) _ _ _ (0 : Fin 3) (s.val % 4 * 128 + 16 * 4) (congrFun ho 0) (congrFun ho 1) (by omega) l).trans ?_
  refine (congrFun (View.write_whole_univ cc0_scratch0 b0 (run0x.sl.dma0 d s f7)) _).trans ?_
  exact src7 d s f7 (0 : Fin 3) _

theorem row_4_1 (s : Fin (grid0.bound 1)) (f7 : Buf (Elt Ideal) (l7 d)) (b0 : Buf (Elt Ideal) ((thr d (L0 s)).loc cc0_scratch0)) (l : Fin 16) :
    run0x.sl.v100 d s f7 b0 (h1_L0 s) (ix1 l)
      = f7 (ix3 (⟨s.val / 4, by have : s.val < 16 := s.isLt; omega⟩ : Fin 4) (1 : Fin 3) (⟨s.val % 4 * 128 + 16 * 4 + l.val, by have := l.isLt; omega⟩ : Fin 512)) := by
  delta run0x.sl.v100 run0x.sl.v99
  have ho := off4_L0 s (⟨4, by decide⟩ : Fin 8)
  refine (ld_B0 d (L0 s) _ _ _ (1 : Fin 3) (s.val % 4 * 128 + 16 * 4) (congrFun ho 0) (congrFun ho 1) (by omega) l).trans ?_
  refine (congrFun (View.write_whole_univ cc0_scratch0 b0 (run0x.sl.dma0 d s f7)) _).trans ?_
  exact src7 d s f7 (1 : Fin 3) _

theorem row_4_2 (s : Fin (grid0.bound 1)) (f7 : Buf (Elt Ideal) (l7 d)) (b0 : Buf (Elt Ideal) ((thr d (L0 s)).loc cc0_scratch0)) (l : Fin 16) :
    run0x.sl.v140 d s f7 b0 (h1_L0 s) (ix1 l)
      = f7 (ix3 (⟨s.val / 4, by have : s.val < 16 := s.isLt; omega⟩ : Fin 4) (2 : Fin 3) (⟨s.val % 4 * 128 + 16 * 4 + l.val, by have := l.isLt; omega⟩ : Fin 512)) := by
  delta run0x.sl.v140 run0x.sl.v139
  have ho := off5_L0 s (⟨4, by decide⟩ : Fin 8)
  refine (ld_B0 d (L0 s) _ _ _ (2 : Fin 3) (s.val % 4 * 128 + 16 * 4) (congrFun ho 0) (congrFun ho 1) (by omega) l).trans ?_
  refine (congrFun (View.write_whole_univ cc0_scratch0 b0 (run0x.sl.dma0 d s f7)) _).trans ?_
  exact src7 d s f7 (2 : Fin 3) _

theorem row_5_0 (s : Fin (grid0.bound 1)) (f7 : Buf (Elt Ideal) (l7 d)) (b0 : Buf (Elt Ideal) ((thr d (L0 s)).loc cc0_scratch0)) (l : Fin 16) :
    run0x.sl.v65 d s f7 b0 (h1_L0 s) (ix1 l)
      = f7 (ix3 (⟨s.val / 4, by have : s.val < 16 := s.isLt; omega⟩ : Fin 4) (0 : Fin 3) (⟨s.val % 4 * 128 + 16 * 5 + l.val, by have := l.isLt; omega⟩ : Fin 512)) := by
  delta run0x.sl.v65 run0x.sl.v64
  have ho := off3_L0 s (⟨5, by decide⟩ : Fin 8)
  refine (ld_B0 d (L0 s) _ _ _ (0 : Fin 3) (s.val % 4 * 128 + 16 * 5) (congrFun ho 0) (congrFun ho 1) (by omega) l).trans ?_
  refine (congrFun (View.write_whole_univ cc0_scratch0 b0 (run0x.sl.dma0 d s f7)) _).trans ?_
  exact src7 d s f7 (0 : Fin 3) _

theorem row_5_1 (s : Fin (grid0.bound 1)) (f7 : Buf (Elt Ideal) (l7 d)) (b0 : Buf (Elt Ideal) ((thr d (L0 s)).loc cc0_scratch0)) (l : Fin 16) :
    run0x.sl.v105 d s f7 b0 (h1_L0 s) (ix1 l)
      = f7 (ix3 (⟨s.val / 4, by have : s.val < 16 := s.isLt; omega⟩ : Fin 4) (1 : Fin 3) (⟨s.val % 4 * 128 + 16 * 5 + l.val, by have := l.isLt; omega⟩ : Fin 512)) := by
  delta run0x.sl.v105 run0x.sl.v104
  have ho := off4_L0 s (⟨5, by decide⟩ : Fin 8)
  refine (ld_B0 d (L0 s) _ _ _ (1 : Fin 3) (s.val % 4 * 128 + 16 * 5) (congrFun ho 0) (congrFun ho 1) (by omega) l).trans ?_
  refine (congrFun (View.write_whole_univ cc0_scratch0 b0 (run0x.sl.dma0 d s f7)) _).trans ?_
  exact src7 d s f7 (1 : Fin 3) _

theorem row_5_2 (s : Fin (grid0.bound 1)) (f7 : Buf (Elt Ideal) (l7 d)) (b0 : Buf (Elt Ideal) ((thr d (L0 s)).loc cc0_scratch0)) (l : Fin 16) :
    run0x.sl.v145 d s f7 b0 (h1_L0 s) (ix1 l)
      = f7 (ix3 (⟨s.val / 4, by have : s.val < 16 := s.isLt; omega⟩ : Fin 4) (2 : Fin 3) (⟨s.val % 4 * 128 + 16 * 5 + l.val, by have := l.isLt; omega⟩ : Fin 512)) := by
  delta run0x.sl.v145 run0x.sl.v144
  have ho := off5_L0 s (⟨5, by decide⟩ : Fin 8)
  refine (ld_B0 d (L0 s) _ _ _ (2 : Fin 3) (s.val % 4 * 128 + 16 * 5) (congrFun ho 0) (congrFun ho 1) (by omega) l).trans ?_
  refine (congrFun (View.write_whole_univ cc0_scratch0 b0 (run0x.sl.dma0 d s f7)) _).trans ?_
  exact src7 d s f7 (2 : Fin 3) _

theorem row_6_0 (s : Fin (grid0.bound 1)) (f7 : Buf (Elt Ideal) (l7 d)) (b0 : Buf (Elt Ideal) ((thr d (L0 s)).loc cc0_scratch0)) (l : Fin 16) :
    run0x.sl.v70 d s f7 b0 (h1_L0 s) (ix1 l)
      = f7 (ix3 (⟨s.val / 4, by have : s.val < 16 := s.isLt; omega⟩ : Fin 4) (0 : Fin 3) (⟨s.val % 4 * 128 + 16 * 6 + l.val, by have := l.isLt; omega⟩ : Fin 512)) := by
  delta run0x.sl.v70 run0x.sl.v69
  have ho := off3_L0 s (⟨6, by decide⟩ : Fin 8)
  refine (ld_B0 d (L0 s) _ _ _ (0 : Fin 3) (s.val % 4 * 128 + 16 * 6) (congrFun ho 0) (congrFun ho 1) (by omega) l).trans ?_
  refine (congrFun (View.write_whole_univ cc0_scratch0 b0 (run0x.sl.dma0 d s f7)) _).trans ?_
  exact src7 d s f7 (0 : Fin 3) _

theorem row_6_1 (s : Fin (grid0.bound 1)) (f7 : Buf (Elt Ideal) (l7 d)) (b0 : Buf (Elt Ideal) ((thr d (L0 s)).loc cc0_scratch0)) (l : Fin 16) :
    run0x.sl.v110 d s f7 b0 (h1_L0 s) (ix1 l)
      = f7 (ix3 (⟨s.val / 4, by have : s.val < 16 := s.isLt; omega⟩ : Fin 4) (1 : Fin 3) (⟨s.val % 4 * 128 + 16 * 6 + l.val, by have := l.isLt; omega⟩ : Fin 512)) := by
  delta run0x.sl.v110 run0x.sl.v109
  have ho := off4_L0 s (⟨6, by decide⟩ : Fin 8)
  refine (ld_B0 d (L0 s) _ _ _ (1 : Fin 3) (s.val % 4 * 128 + 16 * 6) (congrFun ho 0) (congrFun ho 1) (by omega) l).trans ?_
  refine (congrFun (View.write_whole_univ cc0_scratch0 b0 (run0x.sl.dma0 d s f7)) _).trans ?_
  exact src7 d s f7 (1 : Fin 3) _

theorem row_6_2 (s : Fin (grid0.bound 1)) (f7 : Buf (Elt Ideal) (l7 d)) (b0 : Buf (Elt Ideal) ((thr d (L0 s)).loc cc0_scratch0)) (l : Fin 16) :
    run0x.sl.v150 d s f7 b0 (h1_L0 s) (ix1 l)
      = f7 (ix3 (⟨s.val / 4, by have : s.val < 16 := s.isLt; omega⟩ : Fin 4) (2 : Fin 3) (⟨s.val % 4 * 128 + 16 * 6 + l.val, by have := l.isLt; omega⟩ : Fin 512)) := by
  delta run0x.sl.v150 run0x.sl.v149
  have ho := off5_L0 s (⟨6, by decide⟩ : Fin 8)
  refine (ld_B0 d (L0 s) _ _ _ (2 : Fin 3) (s.val % 4 * 128 + 16 * 6) (congrFun ho 0) (congrFun ho 1) (by omega) l).trans ?_
  refine (congrFun (View.write_whole_univ cc0_scratch0 b0 (run0x.sl.dma0 d s f7)) _).trans ?_
  exact src7 d s f7 (2 : Fin 3) _

theorem row_7_0 (s : Fin (grid0.bound 1)) (f7 : Buf (Elt Ideal) (l7 d)) (b0 : Buf (Elt Ideal) ((thr d (L0 s)).loc cc0_scratch0)) (l : Fin 16) :
    run0x.sl.v75 d s f7 b0 (h1_L0 s) (ix1 l)
      = f7 (ix3 (⟨s.val / 4, by have : s.val < 16 := s.isLt; omega⟩ : Fin 4) (0 : Fin 3) (⟨s.val % 4 * 128 + 16 * 7 + l.val, by have := l.isLt; omega⟩ : Fin 512)) := by
  delta run0x.sl.v75 run0x.sl.v74
  have ho := off3_L0 s (⟨7, by decide⟩ : Fin 8)
  refine (ld_B0 d (L0 s) _ _ _ (0 : Fin 3) (s.val % 4 * 128 + 16 * 7) (congrFun ho 0) (congrFun ho 1) (by omega) l).trans ?_
  refine (congrFun (View.write_whole_univ cc0_scratch0 b0 (run0x.sl.dma0 d s f7)) _).trans ?_
  exact src7 d s f7 (0 : Fin 3) _

theorem row_7_1 (s : Fin (grid0.bound 1)) (f7 : Buf (Elt Ideal) (l7 d)) (b0 : Buf (Elt Ideal) ((thr d (L0 s)).loc cc0_scratch0)) (l : Fin 16) :
    run0x.sl.v115 d s f7 b0 (h1_L0 s) (ix1 l)
      = f7 (ix3 (⟨s.val / 4, by have : s.val < 16 := s.isLt; omega⟩ : Fin 4) (1 : Fin 3) (⟨s.val % 4 * 128 + 16 * 7 + l.val, by have := l.isLt; omega⟩ : Fin 512)) := by
  delta run0x.sl.v115 run0x.sl.v114
  have ho := off4_L0 s (⟨7, by decide⟩ : Fin 8)
  refine (ld_B0 d (L0 s) _ _ _ (1 : Fin 3) (s.val % 4 * 128 + 16 * 7) (congrFun ho 0) (congrFun ho 1) (by omega) l).trans ?_
  refine (congrFun (View.write_whole_univ cc0_scratch0 b0 (run0x.sl.dma0 d s f7)) _).trans ?_
  exact src7 d s f7 (1 : Fin 3) _

theorem row_7_2 (s : Fin (grid0.bound 1)) (f7 : Buf (Elt Ideal) (l7 d)) (b0 : Buf (Elt Ideal) ((thr d (L0 s)).loc cc0_scratch0)) (l : Fin 16) :
    run0x.sl.v155 d s f7 b0 (h1_L0 s) (ix1 l)
      = f7 (ix3 (⟨s.val / 4, by have : s.val < 16 := s.isLt; omega⟩ : Fin 4) (2 : Fin 3) (⟨s.val % 4 * 128 + 16 * 7 + l.val, by have := l.isLt; omega⟩ : Fin 512)) := by
  delta run0x.sl.v155 run0x.sl.v154
  have ho := off5_L0 s (⟨7, by decide⟩ : Fin 8)
  refine (ld_B0 d (L0 s) _ _ _ (2 : Fin 3) (s.val % 4 * 128 + 16 * 7) (congrFun ho 0) (congrFun ho 1) (by omega) l).trans ?_
  refine (congrFun (View.write_whole_univ cc0_scratch0 b0 (run0x.sl.dma0 d s f7)) _).trans ?_
  exact src7 d s f7 (2 : Fin 3) _

theorem nrm_0_0 (s : Fin (grid0.bound 1)) (f8 : Buf (Elt Ideal) (l8 d)) (b1 : Buf (Elt Ideal) ((thr d (L0 s)).loc cc0_scratch1)) (l : Fin 16) :
    sc (run0x.sl.v159 d s f8 b1 (h1_L0 s)) (ix1 l)
      = f8 (ix3 (⟨s.val / 4, by have : s.val < 16 := s.isLt; omega⟩ : Fin 4) (0 : Fin 3) (⟨s.val % 4 * 128 + 16 * 0 + l.val, by have := l.isLt; omega⟩ : Fin 512)) := by
  delta run0x.sl.v159
  have ho := off3_L0 s (⟨0, by decide⟩ : Fin 8)
  refine (ld_B1 d (L0 s) _ _ _ (0 : Fin 3) (s.val % 4 * 128 + 16 * 0) (congrFun ho 0) (congrFun ho 1) (by omega) l).trans ?_
  refine (congrFun (View.write_whole_univ cc0_scratch1 b1 (run0x.sl.dma0_1 d s f8)) _).trans ?_
  exact src8 d s f8 (0 : Fin 3) _

theorem nrm_0_1 (s : Fin (grid0.bound 1)) (f8 : Buf (Elt Ideal) (l8 d)) (b1 : Buf (Elt Ideal) ((thr d (L0 s)).loc cc0_scratch1)) (l : Fin 16) :
    sc (run0x.sl.v164 d s f8 b1 (h1_L0 s)) (ix1 l)
      = f8 (ix3 (⟨s.val / 4, by have : s.val < 16 := s.isLt; omega⟩ : Fin 4) (1 : Fin 3) (⟨s.val % 4 * 128 + 16 * 0 + l.val, by have := l.isLt; omega⟩ : Fin 512)) := by
  delta run0x.sl.v164
  have ho := off4_L0 s (⟨0, by decide⟩ : Fin 8)
  refine (ld_B1 d (L0 s) _ _ _ (1 : Fin 3) (s.val % 4 * 128 + 16 * 0) (congrFun ho 0) (congrFun ho 1) (by omega) l).trans ?_
  refine (congrFun (View.write_whole_univ cc0_scratch1 b1 (run0x.sl.dma0_1 d s f8)) _).trans ?_
  exact src8 d s f8 (1 : Fin 3) _

theorem nrm_0_2 (s : Fin (grid0.bound 1)) (f8 : Buf (Elt Ideal) (l8 d)) (b1 : Buf (Elt Ideal) ((thr d (L0 s)).loc cc0_scratch1)) (l : Fin 16) :
    sc (run0x.sl.v169 d s f8 b1 (h1_L0 s)) (ix1 l)
      = f8 (ix3 (⟨s.val / 4, by have : s.val < 16 := s.isLt; omega⟩ : Fin 4) (2 : Fin 3) (⟨s.val % 4 * 128 + 16 * 0 + l.val, by have := l.isLt; omega⟩ : Fin 512)) := by
  delta run0x.sl.v169
  have ho := off5_L0 s (⟨0, by decide⟩ : Fin 8)
  refine (ld_B1 d (L0 s) _ _ _ (2 : Fin 3) (s.val % 4 * 128 + 16 * 0) (congrFun ho 0) (congrFun ho 1) (by omega) l).trans ?_
  refine (congrFun (View.write_whole_univ cc0_scratch1 b1 (run0x.sl.dma0_1 d s f8)) _).trans ?_
  exact src8 d s f8 (2 : Fin 3) _

theorem nrm_1_0 (s : Fin (grid0.bound 1)) (f8 : Buf (Elt Ideal) (l8 d)) (b1 : Buf (Elt Ideal) ((thr d (L0 s)).loc cc0_scratch1)) (l : Fin 16) :
    sc (run0x.sl.v179 d s f8 b1 (h1_L0 s)) (ix1 l)
      = f8 (ix3 (⟨s.val / 4, by have : s.val < 16 := s.isLt; omega⟩ : Fin 4) (0 : Fin 3) (⟨s.val % 4 * 128 + 16 * 1 + l.val, by have := l.isLt; omega⟩ : Fin 512)) := by
  delta run0x.sl.v179
  have ho := off3_L0 s (⟨1, by decide⟩ : Fin 8)
  refine (ld_B1 d (L0 s) _ _ _ (0 : Fin 3) (s.val % 4 * 128 + 16 * 1) (congrFun ho 0) (congrFun ho 1) (by omega) l).trans ?_
  refine (congrFun (View.write_whole_univ cc0_scratch1 b1 (run0x.sl.dma0_1 d s f8)) _).trans ?_
  exact src8 d s f8 (0 : Fin 3) _

theorem nrm_1_1 (s : Fin (grid0.bound 1)) (f8 : Buf (Elt Ideal) (l8 d)) (b1 : Buf (Elt Ideal) ((thr d (L0 s)).loc cc0_scratch1)) (l : Fin 16) :
    sc (run0x.sl.v184 d s f8 b1 (h1_L0 s)) (ix1 l)
      = f8 (ix3 (⟨s.val / 4, by have : s.val < 16 := s.isLt; omega⟩ : Fin 4) (1 : Fin 3) (⟨s.val % 4 * 128 + 16 * 1 + l.val, by have := l.isLt; omega⟩ : Fin 512)) := by
  delta run0x.sl.v184
  have ho := off4_L0 s (⟨1, by decide⟩ : Fin 8)
  refine (ld_B1 d (L0 s) _ _ _ (1 : Fin 3) (s.val % 4 * 128 + 16 * 1) (congrFun ho 0) (congrFun ho 1) (by omega) l).trans ?_
  refine (congrFun (View.write_whole_univ cc0_scratch1 b1 (run0x.sl.dma0_1 d s f8)) _).trans ?_
  exact src8 d s f8 (1 : Fin 3) _

theorem nrm_1_2 (s : Fin (grid0.bound 1)) (f8 : Buf (Elt Ideal) (l8 d)) (b1 : Buf (Elt Ideal) ((thr d (L0 s)).loc cc0_scratch1)) (l : Fin 16) :
    sc (run0x.sl.v189 d s f8 b1 (h1_L0 s)) (ix1 l)
      = f8 (ix3 (⟨s.val / 4, by have : s.val < 16 := s.isLt; omega⟩ : Fin 4) (2 : Fin 3) (⟨s.val % 4 * 128 + 16 * 1 + l.val, by have := l.isLt; omega⟩ : Fin 512)) := by
  delta run0x.sl.v189
  have ho := off5_L0 s (⟨1, by decide⟩ : Fin 8)
  refine (ld_B1 d (L0 s) _ _ _ (2 : Fin 3) (s.val % 4 * 128 + 16 * 1) (congrFun ho 0) (congrFun ho 1) (by omega) l).trans ?_
  refine (congrFun (View.write_whole_univ cc0_scratch1 b1 (run0x.sl.dma0_1 d s f8)) _).trans ?_
  exact src8 d s f8 (2 : Fin 3) _

theorem nrm_2_0 (s : Fin (grid0.bound 1)) (f8 : Buf (Elt Ideal) (l8 d)) (b1 : Buf (Elt Ideal) ((thr d (L0 s)).loc cc0_scratch1)) (l : Fin 16) :
    sc (run0x.sl.v199 d s f8 b1 (h1_L0 s)) (ix1 l)
      = f8 (ix3 (⟨s.val / 4, by have : s.val < 16 := s.isLt; omega⟩ : Fin 4) (0 : Fin 3) (⟨s.val % 4 * 128 + 16 * 2 + l.val, by have := l.isLt; omega⟩ : Fin 512)) := by
  delta run0x.sl.v199
  have ho := off3_L0 s (⟨2, by decide⟩ : Fin 8)
  refine (ld_B1 d (L0 s) _ _ _ (0 : Fin 3) (s.val % 4 * 128 + 16 * 2) (congrFun ho 0) (congrFun ho 1) (by omega) l).trans ?_
  refine (congrFun (View.write_whole_univ cc0_scratch1 b1 (run0x.sl.dma0_1 d s f8)) _).trans ?_
  exact src8 d s f8 (0 : Fin 3) _

theorem nrm_2_1 (s : Fin (grid0.bound 1)) (f8 : Buf (Elt Ideal) (l8 d)) (b1 : Buf (Elt Ideal) ((thr d (L0 s)).loc cc0_scratch1)) (l : Fin 16) :
    sc (run0x.sl.v204 d s f8 b1 (h1_L0 s)) (ix1 l)
      = f8 (ix3 (⟨s.val / 4, by have : s.val < 16 := s.isLt; omega⟩ : Fin 4) (1 : Fin 3) (⟨s.val % 4 * 128 + 16 * 2 + l.val, by have := l.isLt; omega⟩ : Fin 512)) := by
  delta run0x.sl.v204
  have ho := off4_L0 s (⟨2, by decide⟩ : Fin 8)
  refine (ld_B1 d (L0 s) _ _ _ (1 : Fin 3) (s.val % 4 * 128 + 16 * 2) (congrFun ho 0) (congrFun ho 1) (by omega) l).trans ?_
  refine (congrFun (View.write_whole_univ cc0_scratch1 b1 (run0x.sl.dma0_1 d s f8)) _).trans ?_
  exact src8 d s f8 (1 : Fin 3) _

theorem nrm_2_2 (s : Fin (grid0.bound 1)) (f8 : Buf (Elt Ideal) (l8 d)) (b1 : Buf (Elt Ideal) ((thr d (L0 s)).loc cc0_scratch1)) (l : Fin 16) :
    sc (run0x.sl.v209 d s f8 b1 (h1_L0 s)) (ix1 l)
      = f8 (ix3 (⟨s.val / 4, by have : s.val < 16 := s.isLt; omega⟩ : Fin 4) (2 : Fin 3) (⟨s.val % 4 * 128 + 16 * 2 + l.val, by have := l.isLt; omega⟩ : Fin 512)) := by
  delta run0x.sl.v209
  have ho := off5_L0 s (⟨2, by decide⟩ : Fin 8)
  refine (ld_B1 d (L0 s) _ _ _ (2 : Fin 3) (s.val % 4 * 128 + 16 * 2) (congrFun ho 0) (congrFun ho 1) (by omega) l).trans ?_
  refine (congrFun (View.write_whole_univ cc0_scratch1 b1 (run0x.sl.dma0_1 d s f8)) _).trans ?_
  exact src8 d s f8 (2 : Fin 3) _

theorem nrm_3_0 (s : Fin (grid0.bound 1)) (f8 : Buf (Elt Ideal) (l8 d)) (b1 : Buf (Elt Ideal) ((thr d (L0 s)).loc cc0_scratch1)) (l : Fin 16) :
    sc (run0x.sl.v219 d s f8 b1 (h1_L0 s)) (ix1 l)
      = f8 (ix3 (⟨s.val / 4, by have : s.val < 16 := s.isLt; omega⟩ : Fin 4) (0 : Fin 3) (⟨s.val % 4 * 128 + 16 * 3 + l.val, by have := l.isLt; omega⟩ : Fin 512)) := by
  delta run0x.sl.v219
  have ho := off3_L0 s (⟨3, by decide⟩ : Fin 8)
  refine (ld_B1 d (L0 s) _ _ _ (0 : Fin 3) (s.val % 4 * 128 + 16 * 3) (congrFun ho 0) (congrFun ho 1) (by omega) l).trans ?_
  refine (congrFun (View.write_whole_univ cc0_scratch1 b1 (run0x.sl.dma0_1 d s f8)) _).trans ?_
  exact src8 d s f8 (0 : Fin 3) _

theorem nrm_3_1 (s : Fin (grid0.bound 1)) (f8 : Buf (Elt Ideal) (l8 d)) (b1 : Buf (Elt Ideal) ((thr d (L0 s)).loc cc0_scratch1)) (l : Fin 16) :
    sc (run0x.sl.v224 d s f8 b1 (h1_L0 s)) (ix1 l)
      = f8 (ix3 (⟨s.val / 4, by have : s.val < 16 := s.isLt; omega⟩ : Fin 4) (1 : Fin 3) (⟨s.val % 4 * 128 + 16 * 3 + l.val, by have := l.isLt; omega⟩ : Fin 512)) := by
  delta run0x.sl.v224
  have ho := off4_L0 s (⟨3, by decide⟩ : Fin 8)
  refine (ld_B1 d (L0 s) _ _ _ (1 : Fin 3) (s.val % 4 * 128 + 16 * 3) (congrFun ho 0) (congrFun ho 1) (by omega) l).trans ?_
  refine (congrFun (View.write_whole_univ cc0_scratch1 b1 (run0x.sl.dma0_1 d s f8)) _).trans ?_
  exact src8 d s f8 (1 : Fin 3) _

theorem nrm_3_2 (s : Fin (grid0.bound 1)) (f8 : Buf (Elt Ideal) (l8 d)) (b1 : Buf (Elt Ideal) ((thr d (L0 s)).loc cc0_scratch1)) (l : Fin 16) :
    sc (run0x.sl.v229 d s f8 b1 (h1_L0 s)) (ix1 l)
      = f8 (ix3 (⟨s.val / 4, by have : s.val < 16 := s.isLt; omega⟩ : Fin 4) (2 : Fin 3) (⟨s.val % 4 * 128 + 16 * 3 + l.val, by have := l.isLt; omega⟩ : Fin 512)) := by
  delta run0x.sl.v229
  have ho := off5_L0 s (⟨3, by decide⟩ : Fin 8)
  refine (ld_B1 d (L0 s) _ _ _ (2 : Fin 3) (s.val % 4 * 128 + 16 * 3) (congrFun ho 0) (congrFun ho 1) (by omega) l).trans ?_
  refine (congrFun (View.write_whole_univ cc0_scratch1 b1 (run0x.sl.dma0_1 d s f8)) _).trans ?_
  exact src8 d s f8 (2 : Fin 3) _

theorem nrm_4_0 (s : Fin (grid0.bound 1)) (f8 : Buf (Elt Ideal) (l8 d)) (b1 : Buf (Elt Ideal) ((thr d (L0 s)).loc cc0_scratch1)) (l : Fin 16) :
    sc (run0x.sl.v239 d s f8 b1 (h1_L0 s)) (ix1 l)
      = f8 (ix3 (⟨s.val / 4, by have : s.val < 16 := s.isLt; omega⟩ : Fin 4) (0 : Fin 3) (⟨s.val % 4 * 128 + 16 * 4 + l.val, by have := l.isLt; omega⟩ : Fin 512)) := by
  delta run0x.sl.v239
  have ho := off3_L0 s (⟨4, by decide⟩ : Fin 8)
  refine (ld_B1 d (L0 s) _ _ _ (0 : Fin 3) (s.val % 4 * 128 + 16 * 4) (congrFun ho 0) (congrFun ho 1) (by omega) l).trans ?_
  refine (congrFun (View.write_whole_univ cc0_scratch1 b1 (run0x.sl.dma0_1 d s f8)) _).trans ?_
  exact src8 d s f8 (0 : Fin 3) _

theorem nrm_4_1 (s : Fin (grid0.bound 1)) (f8 : Buf (Elt Ideal) (l8 d)) (b1 : Buf (Elt Ideal) ((thr d (L0 s)).loc cc0_scratch1)) (l : Fin 16) :
    sc (run0x.sl.v244 d s f8 b1 (h1_L0 s)) (ix1 l)
      = f8 (ix3 (⟨s.val / 4, by have : s.val < 16 := s.isLt; omega⟩ : Fin 4) (1 : Fin 3) (⟨s.val % 4 * 128 + 16 * 4 + l.val, by have := l.isLt; omega⟩ : Fin 512)) := by
  delta run0x.sl.v244
  have ho := off4_L0 s (⟨4, by decide⟩ : Fin 8)
  refine (ld_B1 d (L0 s) _ _ _ (1 : Fin 3) (s.val % 4 * 128 + 16 * 4) (congrFun ho 0) (congrFun ho 1) (by omega) l).trans ?_
  refine (congrFun (View.write_whole_univ cc0_scratch1 b1 (run0x.sl.dma0_1 d s f8)) _).trans ?_
  exact src8 d s f8 (1 : Fin 3) _

theorem nrm_4_2 (s : Fin (grid0.bound 1)) (f8 : Buf (Elt Ideal) (l8 d)) (b1 : Buf (Elt Ideal) ((thr d (L0 s)).loc cc0_scratch1)) (l : Fin 16) :
    sc (run0x.sl.v249 d s f8 b1 (h1_L0 s)) (ix1 l)
      = f8 (ix3 (⟨s.val / 4, by have : s.val < 16 := s.isLt; omega⟩ : Fin 4) (2 : Fin 3) (⟨s.val % 4 * 128 + 16 * 4 + l.val, by have := l.isLt; omega⟩ : Fin 512)) := by
  delta run0x.sl.v249
  have ho := off5_L0 s (⟨4, by decide⟩ : Fin 8)
  refine (ld_B1 d (L0 s) _ _ _ (2 : Fin 3) (s.val % 4 * 128 + 16 * 4) (congrFun ho 0) (congrFun ho 1) (by omega) l).trans ?_
  refine (congrFun (View.write_whole_univ cc0_scratch1 b1 (run0x.sl.dma0_1 d s f8)) _).trans ?_
  exact src8 d s f8 (2 : Fin 3) _

theorem nrm_5_0 (s : Fin (grid0.bound 1)) (f8 : Buf (Elt Ideal) (l8 d)) (b1 : Buf (Elt Ideal) ((thr d (L0 s)).loc cc0_scratch1)) (l : Fin 16) :
    sc (run0x.sl.v259 d s f8 b1 (h1_L0 s)) (ix1 l)
      = f8 (ix3 (⟨s.val / 4, by have : s.val < 16 := s.isLt; omega⟩ : Fin 4) (0 : Fin 3) (⟨s.val % 4 * 128 + 16 * 5 + l.val, by have := l.isLt; omega⟩ : Fin 512)) := by
  delta run0x.sl.v259
  have ho := off3_L0 s (⟨5, by decide⟩ : Fin 8)
  refine (ld_B1 d (L0 s) _ _ _ (0 : Fin 3) (s.val % 4 * 128 + 16 * 5) (congrFun ho 0) (congrFun ho 1) (by omega) l).trans ?_
  refine (congrFun (View.write_whole_univ cc0_scratch1 b1 (run0x.sl.dma0_1 d s f8)) _).trans ?_
  exact src8 d s f8 (0 : Fin 3) _

theorem nrm_5_1 (s : Fin (grid0.bound 1)) (f8 : Buf (Elt Ideal) (l8 d)) (b1 : Buf (Elt Ideal) ((thr d (L0 s)).loc cc0_scratch1)) (l : Fin 16) :
    sc (run0x.sl.v264 d s f8 b1 (h1_L0 s)) (ix1 l)
      = f8 (ix3 (⟨s.val / 4, by have : s.val < 16 := s.isLt; omega⟩ : Fin 4) (1 : Fin 3) (⟨s.val % 4 * 128 + 16 * 5 + l.val, by have := l.isLt; omega⟩ : Fin 512)) := by
  delta run0x.sl.v264
  have ho := off4_L0 s (⟨5, by decide⟩ : Fin 8)
  refine (ld_B1 d (L0 s) _ _ _ (1 : Fin 3) (s.val % 4 * 128 + 16 * 5) (congrFun ho 0) (congrFun ho 1) (by omega) l).trans ?_
  refine (congrFun (View.write_whole_univ cc0_scratch1 b1 (run0x.sl.dma0_1 d s f8)) _).trans ?_
  exact src8 d s f8 (1 : Fin 3) _

theorem nrm_5_2 (s : Fin (grid0.bound 1)) (f8 : Buf (Elt Ideal) (l8 d)) (b1 : Buf (Elt Ideal) ((thr d (L0 s)).loc cc0_scratch1)) (l : Fin 16) :
    sc (run0x.sl.v269 d s f8 b1 (h1_L0 s)) (ix1 l)
      = f8 (ix3 (⟨s.val / 4, by have : s.val < 16 := s.isLt; omega⟩ : Fin 4) (2 : Fin 3) (⟨s.val % 4 * 128 + 16 * 5 + l.val, by have := l.isLt; omega⟩ : Fin 512)) := by
  delta run0x.sl.v269
  have ho := off5_L0 s (⟨5, by decide⟩ : Fin 8)
  refine (ld_B1 d (L0 s) _ _ _ (2 : Fin 3) (s.val % 4 * 128 + 16 * 5) (congrFun ho 0) (congrFun ho 1) (by omega) l).trans ?_
  refine (congrFun (View.write_whole_univ cc0_scratch1 b1 (run0x.sl.dma0_1 d s f8)) _).trans ?_
  exact src8 d s f8 (2 : Fin 3) _

theorem nrm_6_0 (s : Fin (grid0.bound 1)) (f8 : Buf (Elt Ideal) (l8 d)) (b1 : Buf (Elt Ideal) ((thr d (L0 s)).loc cc0_scratch1)) (l : Fin 16) :
    sc (run0x.sl.v279 d s f8 b1 (h1_L0 s)) (ix1 l)
      = f8 (ix3 (⟨s.val / 4, by have : s.val < 16 := s.isLt; omega⟩ : Fin 4) (0 : Fin 3) (⟨s.val % 4 * 128 + 16 * 6 + l.val, by have := l.isLt; omega⟩ : Fin 512)) := by
  delta run0x.sl.v279
  have ho := off3_L0 s (⟨6, by decide⟩ : Fin 8)
  refine (ld_B1 d (L0 s) _ _ _ (0 : Fin 3) (s.val % 4 * 128 + 16 * 6) (congrFun ho 0) (congrFun ho 1) (by omega) l).trans ?_
  refine (congrFun (View.write_whole_univ cc0_scratch1 b1 (run0x.sl.dma0_1 d s f8)) _).trans ?_
  exact src8 d s f8 (0 : Fin 3) _

theorem nrm_6_1 (s : Fin (grid0.bound 1)) (f8 : Buf (Elt Ideal) (l8 d)) (b1 : Buf (Elt Ideal) ((thr d (L0 s)).loc cc0_scratch1)) (l : Fin 16) :
    sc (run0x.sl.v284 d s f8 b1 (h1_L0 s)) (ix1 l)
      = f8 (ix3 (⟨s.val / 4, by have : s.val < 16 := s.isLt; omega⟩ : Fin 4) (1 : Fin 3) (⟨s.val % 4 * 128 + 16 * 6 + l.val, by have := l.isLt; omega⟩ : Fin 512)) := by
  delta run0x.sl.v284
  have ho := off4_L0 s (⟨6, by decide⟩ : Fin 8)
  refine (ld_B1 d (L0 s) _ _ _ (1 : Fin 3) (s.val % 4 * 128 + 16 * 6) (congrFun ho 0) (congrFun ho 1) (by omega) l).trans ?_
  refine (congrFun (View.write_whole_univ cc0_scratch1 b1 (run0x.sl.dma0_1 d s f8)) _).trans ?_
  exact src8 d s f8 (1 : Fin 3) _

theorem nrm_6_2 (s : Fin (grid0.bound 1)) (f8 : Buf (Elt Ideal) (l8 d)) (b1 : Buf (Elt Ideal) ((thr d (L0 s)).loc cc0_scratch1)) (l : Fin 16) :
    sc (run0x.sl.v289 d s f8 b1 (h1_L0 s)) (ix1 l)
      = f8 (ix3 (⟨s.val / 4, by have : s.val < 16 := s.isLt; omega⟩ : Fin 4) (2 : Fin 3) (⟨s.val % 4 * 128 + 16 * 6 + l.val, by have := l.isLt; omega⟩ : Fin 512)) := by
  delta run0x.sl.v289
  have ho := off5_L0 s (⟨6, by decide⟩ : Fin 8)
  refine (ld_B1 d (L0 s) _ _ _ (2 : Fin 3) (s.val % 4 * 128 + 16 * 6) (congrFun ho 0) (congrFun ho 1) (by omega) l).trans ?_
  refine (congrFun (View.write_whole_univ cc0_scratch1 b1 (run0x.sl.dma0_1 d s f8)) _).trans ?_
  exact src8 d s f8 (2 : Fin 3) _

theorem nrm_7_0 (s : Fin (grid0.bound 1)) (f8 : Buf (Elt Ideal) (l8 d)) (b1 : Buf (Elt Ideal) ((thr d (L0 s)).loc cc0_scratch1)) (l : Fin 16) :
    sc (run0x.sl.v299 d s f8 b1 (h1_L0 s)) (ix1 l)
      = f8 (ix3 (⟨s.val / 4, by have : s.val < 16 := s.isLt; omega⟩ : Fin 4) (0 : Fin 3) (⟨s.val % 4 * 128 + 16 * 7 + l.val, by have := l.isLt; omega⟩ : Fin 512)) := by
  delta run0x.sl.v299
  have ho := off3_L0 s (⟨7, by decide⟩ : Fin 8)
  refine (ld_B1 d (L0 s) _ _ _ (0 : Fin 3) (s.val % 4 * 128 + 16 * 7) (congrFun ho 0) (congrFun ho 1) (by omega) l).trans ?_
  refine (congrFun (View.write_whole_univ cc0_scratch1 b1 (run0x.sl.dma0_1 d s f8)) _).trans ?_
  exact src8 d s f8 (0 : Fin 3) _

theorem nrm_7_1 (s : Fin (grid0.bound 1)) (f8 : Buf (Elt Ideal) (l8 d)) (b1 : Buf (Elt Ideal) ((thr d (L0 s)).loc cc0_scratch1)) (l : Fin 16) :
    sc (run0x.sl.v304 d s f8 b1 (h1_L0 s)) (ix1 l)
      = f8 (ix3 (⟨s.val / 4, by have : s.val < 16 := s.isLt; omega⟩ : Fin 4) (1 : Fin 3) (⟨s.val % 4 * 128 + 16 * 7 + l.val, by have := l.isLt; omega⟩ : Fin 512)) := by
  delta run0x.sl.v304
  have ho := off4_L0 s (⟨7, by decide⟩ : Fin 8)
  refine (ld_B1 d (L0 s) _ _ _ (1 : Fin 3) (s.val % 4 * 128 + 16 * 7) (congrFun ho 0) (congrFun ho 1) (by omega) l).trans ?_
  refine (congrFun (View.write_whole_univ cc0_scratch1 b1 (run0x.sl.dma0_1 d s f8)) _).trans ?_
  exact src8 d s f8 (1 : Fin 3) _

theorem nrm_7_2 (s : Fin (grid0.bound 1)) (f8 : Buf (Elt Ideal) (l8 d)) (b1 : Buf (Elt Ideal) ((thr d (L0 s)).loc cc0_scratch1)) (l : Fin 16) :
    sc (run0x.sl.v309 d s f8 b1 (h1_L0 s)) (ix1 l)
      = f8 (ix3 (⟨s.val / 4, by have : s.val < 16 := s.isLt; omega⟩ : Fin 4) (2 : Fin 3) (⟨s.val % 4 * 128 + 16 * 7 + l.val, by have := l.isLt; omega⟩ : Fin 512)) := by
  delta run0x.sl.v309
  have ho := off5_L0 s (⟨7, by decide⟩ : Fin 8)
  refine (ld_B1 d (L0 s) _ _ _ (2 : Fin 3) (s.val % 4 * 128 + 16 * 7) (congrFun ho 0) (congrFun ho 1) (by omega) l).trans ?_
  refine (congrFun (View.write_whole_univ cc0_scratch1 b1 (run0x.sl.dma0_1 d s f8)) _).trans ?_
  exact src8 d s f8 (2 : Fin 3) _

set_option maxHeartbeats 1000000 in
/-- The run's 128 words over ANY carried minima: word `16 k + l` is block `k`'s clamped sum at lane `l`. -/
theorem W0_read (s : Fin (grid0.bound 1)) (f8 : Buf (Elt Ideal) (l8 d))
    (b1 : Buf (Elt Ideal) ((thr d (L0 s)).loc cc0_scratch1)) (b4 : Buf (Elt Ideal) ((thr d (L0 s)).loc cc0_scratch4))
    (acc : Acc Ideal) (j : S128.Idx) (k : Fin 8) (l : Fin 16) (hj : (j 0).val = 16 * k.val + l.val) :
    run0x.sl.dma16 d s f8 b1 b4 (h1_L0 s) acc j
      = max (nrmv (sc (![(run0x.sl.v159 d s f8 b1 (h1_L0 s)), (run0x.sl.v179 d s f8 b1 (h1_L0 s)), (run0x.sl.v199 d s f8 b1 (h1_L0 s)), (run0x.sl.v219 d s f8 b1 (h1_L0 s)), (run0x.sl.v239 d s f8 b1 (h1_L0 s)), (run0x.sl.v259 d s f8 b1 (h1_L0 s)), (run0x.sl.v279 d s f8 b1 (h1_L0 s)), (run0x.sl.v299 d s f8 b1 (h1_L0 s))] k))
            (sc (![(run0x.sl.v164 d s f8 b1 (h1_L0 s)), (run0x.sl.v184 d s f8 b1 (h1_L0 s)), (run0x.sl.v204 d s f8 b1 (h1_L0 s)), (run0x.sl.v224 d s f8 b1 (h1_L0 s)), (run0x.sl.v244 d s f8 b1 (h1_L0 s)), (run0x.sl.v264 d s f8 b1 (h1_L0 s)), (run0x.sl.v284 d s f8 b1 (h1_L0 s)), (run0x.sl.v304 d s f8 b1 (h1_L0 s))] k))
            (sc (![(run0x.sl.v169 d s f8 b1 (h1_L0 s)), (run0x.sl.v189 d s f8 b1 (h1_L0 s)), (run0x.sl.v209 d s f8 b1 (h1_L0 s)), (run0x.sl.v229 d s f8 b1 (h1_L0 s)), (run0x.sl.v249 d s f8 b1 (h1_L0 s)), (run0x.sl.v269 d s f8 b1 (h1_L0 s)), (run0x.sl.v289 d s f8 b1 (h1_L0 s)), (run0x.sl.v309 d s f8 b1 (h1_L0 s))] k)) (ix1 l)
          + (![acc.1, acc.2.1, acc.2.2.1, acc.2.2.2.1, acc.2.2.2.2.1, acc.2.2.2.2.2.1, acc.2.2.2.2.2.2.1, acc.2.2.2.2.2.2.2] k) (ix1 l)) 0 := by
  delta run0x.sl.dma16 run0x.sl.HB4_8 run0x.sl.HB4_3
  delta run0x.sl.r run0x.sl.r_1 run0x.sl.r_4 run0x.sl.r_17 run0x.sl.r_9 run0x.sl.r_10 run0x.sl.r_11 run0x.sl.r_12 run0x.sl.r_13 run0x.sl.r_14 run0x.sl.r_15 run0x.sl.r_16
  delta run0x.sl.r_2 run0x.sl.r_3 run0x.sl.r_5 run0x.sl.r_6 run0x.sl.r_7 run0x.sl.r_8
  exact slice8 b4 inb_S1024_S128_0 _ inb_S1024_S16_0 inb_S1024_S16_16 inb_S1024_S16_32 inb_S1024_S16_48 inb_S1024_S16_64 inb_S1024_S16_80 inb_S1024_S16_96 inb_S1024_S16_112
      (run0x.sl.v159 d s f8 b1 (h1_L0 s)) (run0x.sl.v164 d s f8 b1 (h1_L0 s)) (run0x.sl.v169 d s f8 b1 (h1_L0 s))
      (run0x.sl.v179 d s f8 b1 (h1_L0 s)) (run0x.sl.v184 d s f8 b1 (h1_L0 s)) (run0x.sl.v189 d s f8 b1 (h1_L0 s))
      (run0x.sl.v199 d s f8 b1 (h1_L0 s)) (run0x.sl.v204 d s f8 b1 (h1_L0 s)) (run0x.sl.v209 d s f8 b1 (h1_L0 s))
      (run0x.sl.v219 d s f8 b1 (h1_L0 s)) (run0x.sl.v224 d s f8 b1 (h1_L0 s)) (run0x.sl.v229 d s f8 b1 (h1_L0 s))
      (run0x.sl.v239 d s f8 b1 (h1_L0 s)) (run0x.sl.v244 d s f8 b1 (h1_L0 s)) (run0x.sl.v249 d s f8 b1 (h1_L0 s))
      (run0x.sl.v259 d s f8 b1 (h1_L0 s)) (run0x.sl.v264 d s f8 b1 (h1_L0 s)) (run0x.sl.v269 d s f8 b1 (h1_L0 s))
      (run0x.sl.v279 d s f8 b1 (h1_L0 s)) (run0x.sl.v284 d s f8 b1 (h1_L0 s)) (run0x.sl.v289 d s f8 b1 (h1_L0 s))
      (run0x.sl.v299 d s f8 b1 (h1_L0 s)) (run0x.sl.v304 d s f8 b1 (h1_L0 s)) (run0x.sl.v309 d s f8 b1 (h1_L0 s))
      acc j k l hj

/-- The two candidate buffers after their copies hold the two full arrays' batch. -/
theorem c2_apply (s : Fin (grid0.bound 1)) (f6 : Buf (Elt Ideal) (l6 d)) (b2 : Buf (Elt Ideal) ((thr d (L0 s)).loc cc0_scratch2)) (a : Fin 3) (mm : Fin 4096) :
    View.write (Elt Ideal) (B2).view b2 (run0x.sl.dma0_2 d s f6) Finset.univ (ix2 a mm)
      = f6 (ix3 (⟨s.val / 4, by have : s.val < 16 := s.isLt; omega⟩ : Fin 4) a mm) :=
  (congrFun (View.write_whole_univ cc0_scratch2 b2 (run0x.sl.dma0_2 d s f6)) _).trans (src6 d s f6 a mm)
theorem c3_apply (s : Fin (grid0.bound 1)) (f1 : Buf (Elt Ideal) (l1 d)) (b3 : Buf (Elt Ideal) ((thr d (L0 s)).loc cc0_scratch3)) (a : Fin 3) (mm : Fin 4096) :
    View.write (Elt Ideal) (B3).view b3 (run0x.sl.dma0_3 d s f1) Finset.univ (ix2 a mm)
      = f1 (ix3 (⟨s.val / 4, by have : s.val < 16 := s.isLt; omega⟩ : Fin 4) a mm) :=
  (congrFun (View.write_whole_univ cc0_scratch3 b3 (run0x.sl.dma0_3 d s f1)) _).trans (src1 d s f1 a mm)

set_option maxHeartbeats 2000000 in
set_option maxRecDepth 100000 in
/-- The 128 words the subcore's run computes are the formula at batch `s / 4`, strip column `128 (s % 4) + j`. -/
theorem W0_val (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L0 s)).loc cc0_scratch0)) (b1 : Buf (Elt Ideal) ((thr d (L0 s)).loc cc0_scratch1))
    (b2 : Buf (Elt Ideal) ((thr d (L0 s)).loc cc0_scratch2)) (b3 : Buf (Elt Ideal) ((thr d (L0 s)).loc cc0_scratch3))
    (b4 : Buf (Elt Ideal) ((thr d (L0 s)).loc cc0_scratch4)) (j : S128.Idx) :
    run0x.sl.dma16 d s f8 b1 b4 (h1_L0 s)
        (iter d (L0 s) (h1_L0 s) (run0x.sl.v40 d s f7 b0 (h1_L0 s)) (run0x.sl.v45 d s f7 b0 (h1_L0 s)) (run0x.sl.v50 d s f7 b0 (h1_L0 s)) (run0x.sl.v55 d s f7 b0 (h1_L0 s)) (run0x.sl.v60 d s f7 b0 (h1_L0 s)) (run0x.sl.v65 d s f7 b0 (h1_L0 s)) (run0x.sl.v70 d s f7 b0 (h1_L0 s)) (run0x.sl.v75 d s f7 b0 (h1_L0 s)) (run0x.sl.v80 d s f7 b0 (h1_L0 s)) (run0x.sl.v85 d s f7 b0 (h1_L0 s)) (run0x.sl.v90 d s f7 b0 (h1_L0 s)) (run0x.sl.v95 d s f7 b0 (h1_L0 s)) (run0x.sl.v100 d s f7 b0 (h1_L0 s)) (run0x.sl.v105 d s f7 b0 (h1_L0 s)) (run0x.sl.v110 d s f7 b0 (h1_L0 s)) (run0x.sl.v115 d s f7 b0 (h1_L0 s)) (run0x.sl.v120 d s f7 b0 (h1_L0 s)) (run0x.sl.v125 d s f7 b0 (h1_L0 s)) (run0x.sl.v130 d s f7 b0 (h1_L0 s)) (run0x.sl.v135 d s f7 b0 (h1_L0 s)) (run0x.sl.v140 d s f7 b0 (h1_L0 s)) (run0x.sl.v145 d s f7 b0 (h1_L0 s)) (run0x.sl.v150 d s f7 b0 (h1_L0 s)) (run0x.sl.v155 d s f7 b0 (h1_L0 s))
          (View.write (Elt Ideal) (B2).view b2 (run0x.sl.dma0_2 d s f6) Finset.univ)
          (View.write (Elt Ideal) (B3).view b3 (run0x.sl.dma0_3 d s f1) Finset.univ)
          (k0_pay282, k0_pay282, k0_pay282, k0_pay282, k0_pay282, k0_pay282, k0_pay282, k0_pay282) k0_t1_loop.trips) j
      = max (((f8 (ix3 (⟨s.val / 4, by have : s.val < 16 := s.isLt; omega⟩ : Fin 4) 0 (⟨s.val % 4 * 128 + (j 0).val, by have : (j 0).val < 128 := (j 0).isLt; omega⟩ : Fin 512)) * f8 (ix3 (⟨s.val / 4, by have : s.val < 16 := s.isLt; omega⟩ : Fin 4) 0 (⟨s.val % 4 * 128 + (j 0).val, by have : (j 0).val < 128 := (j 0).isLt; omega⟩ : Fin 512)) + f8 (ix3 (⟨s.val / 4, by have : s.val < 16 := s.isLt; omega⟩ : Fin 4) 1 (⟨s.val % 4 * 128 + (j 0).val, by have : (j 0).val < 128 := (j 0).isLt; omega⟩ : Fin 512)) * f8 (ix3 (⟨s.val / 4, by have : s.val < 16 := s.isLt; omega⟩ : Fin 4) 1 (⟨s.val % 4 * 128 + (j 0).val, by have : (j 0).val < 128 := (j 0).isLt; omega⟩ : Fin 512))) + f8 (ix3 (⟨s.val / 4, by have : s.val < 16 := s.isLt; omega⟩ : Fin 4) 2 (⟨s.val % 4 * 128 + (j 0).val, by have : (j 0).val < 128 := (j 0).isLt; omega⟩ : Fin 512)) * f8 (ix3 (⟨s.val / 4, by have : s.val < 16 := s.isLt; omega⟩ : Fin 4) 2 (⟨s.val % 4 * 128 + (j 0).val, by have : (j 0).val < 128 := (j 0).isLt; omega⟩ : Fin 512)))
        + (Finset.univ : Finset (Fin 4096)).fold min ⊤ (fun mm =>
            ((f1 (ix3 (⟨s.val / 4, by have : s.val < 16 := s.isLt; omega⟩ : Fin 4) 0 mm) * f1 (ix3 (⟨s.val / 4, by have : s.val < 16 := s.isLt; omega⟩ : Fin 4) 0 mm) + f1 (ix3 (⟨s.val / 4, by have : s.val < 16 := s.isLt; omega⟩ : Fin 4) 1 mm) * f1 (ix3 (⟨s.val / 4, by have : s.val < 16 := s.isLt; omega⟩ : Fin 4) 1 mm)) + f1 (ix3 (⟨s.val / 4, by have : s.val < 16 := s.isLt; omega⟩ : Fin 4) 2 mm) * f1 (ix3 (⟨s.val / 4, by have : s.val < 16 := s.isLt; omega⟩ : Fin 4) 2 mm))
              - ((2 : ℝ) : EReal) * ((f7 (ix3 (⟨s.val / 4, by have : s.val < 16 := s.isLt; omega⟩ : Fin 4) 0 (⟨s.val % 4 * 128 + (j 0).val, by have : (j 0).val < 128 := (j 0).isLt; omega⟩ : Fin 512)) * f6 (ix3 (⟨s.val / 4, by have : s.val < 16 := s.isLt; omega⟩ : Fin 4) 0 mm) + f7 (ix3 (⟨s.val / 4, by have : s.val < 16 := s.isLt; omega⟩ : Fin 4) 1 (⟨s.val % 4 * 128 + (j 0).val, by have : (j 0).val < 128 := (j 0).isLt; omega⟩ : Fin 512)) * f6 (ix3 (⟨s.val / 4, by have : s.val < 16 := s.isLt; omega⟩ : Fin 4) 1 mm))
                  + f7 (ix3 (⟨s.val / 4, by have : s.val < 16 := s.isLt; omega⟩ : Fin 4) 2 (⟨s.val % 4 * 128 + (j 0).val, by have : (j 0).val < 128 := (j 0).isLt; omega⟩ : Fin 512)) * f6 (ix3 (⟨s.val / 4, by have : s.val < 16 := s.isLt; omega⟩ : Fin 4) 2 mm)))) 0 := by
  have hjlt : (j 0).val < 128 := (j 0).isLt
  have hs : s.val < 16 := s.isLt
  obtain ⟨k, l, hj⟩ : ∃ (k : Fin 8) (l : Fin 16), (j 0).val = 16 * k.val + l.val :=
    ⟨⟨(j 0).val / 16, by omega⟩, ⟨(j 0).val % 16, by omega⟩, by show _ = 16 * ((j 0).val / 16) + (j 0).val % 16; omega⟩
  have er : (⟨s.val % 4 * 128 + (j 0).val, by have : (j 0).val < 128 := (j 0).isLt; omega⟩ : Fin 512) = (⟨s.val % 4 * 128 + 16 * k.val + l.val, by have := l.isLt; have := k.isLt; omega⟩ : Fin 512) :=
    Fin.ext (by show s.val % 4 * 128 + (j 0).val = s.val % 4 * 128 + 16 * k.val + l.val; omega)
  rw [er]
  have hC2 := c2_apply d s f6 b2
  have hC3 := c3_apply d s f1 b3
  refine (W0_read d s f8 b1 b4 _ j k l hj).trans ?_
  refine (congrArg (fun x => max (_ + x) 0) (sel8 d (L0 s) (h1_L0 s) (run0x.sl.v40 d s f7 b0 (h1_L0 s)) (run0x.sl.v45 d s f7 b0 (h1_L0 s)) (run0x.sl.v50 d s f7 b0 (h1_L0 s)) (run0x.sl.v55 d s f7 b0 (h1_L0 s)) (run0x.sl.v60 d s f7 b0 (h1_L0 s)) (run0x.sl.v65 d s f7 b0 (h1_L0 s)) (run0x.sl.v70 d s f7 b0 (h1_L0 s)) (run0x.sl.v75 d s f7 b0 (h1_L0 s)) (run0x.sl.v80 d s f7 b0 (h1_L0 s)) (run0x.sl.v85 d s f7 b0 (h1_L0 s)) (run0x.sl.v90 d s f7 b0 (h1_L0 s)) (run0x.sl.v95 d s f7 b0 (h1_L0 s)) (run0x.sl.v100 d s f7 b0 (h1_L0 s)) (run0x.sl.v105 d s f7 b0 (h1_L0 s)) (run0x.sl.v110 d s f7 b0 (h1_L0 s)) (run0x.sl.v115 d s f7 b0 (h1_L0 s)) (run0x.sl.v120 d s f7 b0 (h1_L0 s)) (run0x.sl.v125 d s f7 b0 (h1_L0 s)) (run0x.sl.v130 d s f7 b0 (h1_L0 s)) (run0x.sl.v135 d s f7 b0 (h1_L0 s)) (run0x.sl.v140 d s f7 b0 (h1_L0 s)) (run0x.sl.v145 d s f7 b0 (h1_L0 s)) (run0x.sl.v150 d s f7 b0 (h1_L0 s)) (run0x.sl.v155 d s f7 b0 (h1_L0 s))
    (View.write (Elt Ideal) (B2).view b2 (run0x.sl.dma0_2 d s f6) Finset.univ) (View.write (Elt Ideal) (B3).view b3 (run0x.sl.dma0_3 d s f1) Finset.univ) _ rfl k (ix1 l))).trans ?_
  fin_cases k
  · exact block_formula0 d (L0 s) _ _ _ _ _ _ _ _ (ix1 l) f7 f8 f6 f1 _ _
      (row_0_0 d s f7 b0 l) (row_0_1 d s f7 b0 l) (row_0_2 d s f7 b0 l)
      (nrm_0_0 d s f8 b1 l) (nrm_0_1 d s f8 b1 l) (nrm_0_2 d s f8 b1 l) hC2 hC3
  · exact block_formula0 d (L0 s) _ _ _ _ _ _ _ _ (ix1 l) f7 f8 f6 f1 _ _
      (row_1_0 d s f7 b0 l) (row_1_1 d s f7 b0 l) (row_1_2 d s f7 b0 l)
      (nrm_1_0 d s f8 b1 l) (nrm_1_1 d s f8 b1 l) (nrm_1_2 d s f8 b1 l) hC2 hC3
  · exact block_formula0 d (L0 s) _ _ _ _ _ _ _ _ (ix1 l) f7 f8 f6 f1 _ _
      (row_2_0 d s f7 b0 l) (row_2_1 d s f7 b0 l) (row_2_2 d s f7 b0 l)
      (nrm_2_0 d s f8 b1 l) (nrm_2_1 d s f8 b1 l) (nrm_2_2 d s f8 b1 l) hC2 hC3
  · exact block_formula0 d (L0 s) _ _ _ _ _ _ _ _ (ix1 l) f7 f8 f6 f1 _ _
      (row_3_0 d s f7 b0 l) (row_3_1 d s f7 b0 l) (row_3_2 d s f7 b0 l)
      (nrm_3_0 d s f8 b1 l) (nrm_3_1 d s f8 b1 l) (nrm_3_2 d s f8 b1 l) hC2 hC3
  · exact block_formula0 d (L0 s) _ _ _ _ _ _ _ _ (ix1 l) f7 f8 f6 f1 _ _
      (row_4_0 d s f7 b0 l) (row_4_1 d s f7 b0 l) (row_4_2 d s f7 b0 l)
      (nrm_4_0 d s f8 b1 l) (nrm_4_1 d s f8 b1 l) (nrm_4_2 d s f8 b1 l) hC2 hC3
  · exact block_formula0 d (L0 s) _ _ _ _ _ _ _ _ (ix1 l) f7 f8 f6 f1 _ _
      (row_5_0 d s f7 b0 l) (row_5_1 d s f7 b0 l) (row_5_2 d s f7 b0 l)
      (nrm_5_0 d s f8 b1 l) (nrm_5_1 d s f8 b1 l) (nrm_5_2 d s f8 b1 l) hC2 hC3
  · exact block_formula0 d (L0 s) _ _ _ _ _ _ _ _ (ix1 l) f7 f8 f6 f1 _ _
      (row_6_0 d s f7 b0 l) (row_6_1 d s f7 b0 l) (row_6_2 d s f7 b0 l)
      (nrm_6_0 d s f8 b1 l) (nrm_6_1 d s f8 b1 l) (nrm_6_2 d s f8 b1 l) hC2 hC3
  · exact block_formula0 d (L0 s) _ _ _ _ _ _ _ _ (ix1 l) f7 f8 f6 f1 _ _
      (row_7_0 d s f7 b0 l) (row_7_1 d s f7 b0 l) (row_7_2 d s f7 b0 l)
      (nrm_7_0 d s f8 b1 l) (nrm_7_1 d s f8 b1 l) (nrm_7_2 d s f8 b1 l) hC2 hC3

end Cert.Proof.ScI

end
-- ==== Proof.ScFinal0.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.ScVal0RunV
import proofs.«209750_g45337674776763_cont_8to1c4_158_37_alg».proof.Proof.ScBridge0W
import proofs.«209750_g45337674776763_cont_8to1c4_158_37_alg».proof.Proof.ScBridge0S
import proofs.«209750_g45337674776763_cont_8to1c4_158_37_alg».proof.Proof.ScBridge0V

/-!
  The first SparseCore branch's obligation at the result array's specification: the subcore's value run leaves its
  128 words at the term the run computes; that term is the formula over the four arrays, which is the specification at
  the array index under each word.
-/

noncomputable section

namespace Cert.Proof.ScI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.AlgMain Cert.Proof.ScBridge

variable (m : (ℓ : Loc nD τ sig) → Buf (Elt Ideal) ℓ)

/-- The words the run computes are the specification at the array index under them. -/
theorem W0_spec (d : Dev nD) (s : Fin (grid0.bound 1))
    (b0 : Buf (Elt Ideal) ((thr d (L0 s)).loc cc0_scratch0)) (b1 : Buf (Elt Ideal) ((thr d (L0 s)).loc cc0_scratch1))
    (b2 : Buf (Elt Ideal) ((thr d (L0 s)).loc cc0_scratch2)) (b3 : Buf (Elt Ideal) ((thr d (L0 s)).loc cc0_scratch3))
    (b4 : Buf (Elt Ideal) ((thr d (L0 s)).loc cc0_scratch4)) (j : S128.Idx) :
    W0 (F := Ideal) d s (g7 m d) (g8 m d) (g6 m d) (g1 m d) b0 b1 b2 b3 b4 j
      = specOf m d ((out0 (L0 s) (h1_L0 s)).view.emb j) :=
  (W0_val d s (g7 m d) (g8 m d) (g6 m d) (g1 m d) b0 b1 b2 b3 b4 j).trans
    (formula0_spec m d s j _ _ rfl rfl (g7 m d) (g8 m d) (g6 m d) (g1 m d) (fun _ => rfl) (fun _ => rfl) (fun _ => rfl) (fun _ => rfl))

/-- The first branch's obligation. -/
theorem bodyV0_final : BodyV (F := Ideal) (U := Cert.KernelIdeal.Tc.UU) (g7 m) (g8 m) (g6 m) (g1 m) (specOf m) 0 L0 :=
  bodyV0_of_post (g7 m) (g8 m) (g6 m) (g1 m) (specOf m) fun d s b0 b1 b2 b3 b4 q O W f9 =>
    (run0v (F := Ideal) (U := Cert.KernelIdeal.Tc.UU) d s (g7 m d) (g8 m d) (g6 m d) (g1 m d) b0 b1 b2 b3 b4 q O W f9).trans
      (wp_mono frame _ _ fun _ => by
        iintro ⟨Hi, ⟨%X, %hX, Ho⟩, Hown, HW⟩
        isplitl [Hi]; · iexact Hi
        isplitl [Ho]
        · iexists X
          isplitr
          · ipureintro
            exact fun j => (hX j).trans (W0_spec m d s b0 b1 b2 b3 b4 j)
          iexact Ho
        isplitl [Hown]; · iexact Hown
        iexact HW)

end Cert.Proof.ScI

end
-- ==== Proof.ScVal1_2.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 1 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv2 (L : grid0.Coords) (k0_h2 : k0_cond2 L = 1#1) (k : Fin k0_t2_loop.trips) (c : Buf (Elt F) ((B0).view.loc (thr d L))) (a : Fin 3) : FVec F S16 .f32 :=
  match a with
  | 0 => shapeCast S16 ((B0).view.readAt (Elt F) (Rect.unit (s := S3x512) (k0_off14 k) S1x16.size (k0_off14_inb L k k0_h2)).toLoadRect c) shapeCasts_S1x16_S16
  | 1 => shapeCast S16 ((B0).view.readAt (Elt F) (Rect.unit (s := S3x512) (k0_off15 k) S1x16.size (k0_off15_inb L k k0_h2)).toLoadRect c) shapeCasts_S1x16_S16
  | 2 => shapeCast S16 ((B0).view.readAt (Elt F) (Rect.unit (s := S3x512) (k0_off16 k) S1x16.size (k0_off16_inb L k k0_h2)).toLoadRect c) shapeCasts_S1x16_S16

/-- One trip of the scan as a function: every block of rows against the trip's chunk of candidates. -/
def tripSpec2 (L : grid0.Coords) (k0_h2 : k0_cond2 L = 1#1) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32)
    (k : Fin k0_t2_loop.trips) (c2 c3 : Buf (Elt F) ((B0).view.loc (thr d L))) (acc : Acc F) : Acc F :=
  (chunk v41 v81 v121 acc.1 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)),
   chunk v46 v86 v126 acc.2.1 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)),
   chunk v51 v91 v131 acc.2.2.1 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)),
   chunk v56 v96 v136 acc.2.2.2.1 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)),
   chunk v61 v101 v141 acc.2.2.2.2.1 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)),
   chunk v66 v106 v146 acc.2.2.2.2.2.1 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)),
   chunk v71 v111 v151 acc.2.2.2.2.2.2.1 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)),
   chunk v76 v116 v156 acc.2.2.2.2.2.2.2 (ldv2 d L k0_h2 k c2 0) (ldv2 d L k0_h2 k c2 1) (ldv2 d L k0_h2 k c2 2) (nrmv (ldv2 d L k0_h2 k c3 0) (ldv2 d L k0_h2 k c3 1) (ldv2 d L k0_h2 k c3 2)))

set_option maxHeartbeats 4000000 in
/-- One trip of SparseCore 0's scan, run once at symbolic operands: the carried minima after the trip as a function of
    those before it (found by the run), the two candidate buffers only read. -/
noncomputable def tripRun2 (L : grid0.Coords) (k0_h2 : k0_cond2 L = 1#1) (v36 : BitVec 32) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32) (v176 : FVec F S16 .f32) (v196 : FVec F S16 .f32) (v216 : FVec F S16 .f32) (v236 : FVec F S16 .f32) (v297 : BitVec 32)
    (k : Fin k0_t2_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t2_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v36 v41 v46 v51 v56 v61 v66 v71 v76 v81 v86 v91 v96 v101 v106 v111 v116 v121 v126 v131 v136 v141 v146 v151 v156 v176 v196 v216 v236 v297 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq2 (L : grid0.Coords) (k0_h2 : k0_cond2 L = 1#1) (v36 : BitVec 32) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32) (v176 : FVec F S16 .f32) (v196 : FVec F S16 .f32) (v216 : FVec F S16 .f32) (v236 : FVec F S16 .f32) (v297 : BitVec 32)
    (k : Fin k0_t2_loop.trips) (c2 : Buf (Elt F) ((B0).view.loc (thr d L))) (c3 : Buf (Elt F) ((B1).view.loc (thr d L))) (acc : Acc F) :
    (tripRun2 (U := U) d L k0_h2 v36 v41 v46 v51 v56 v61 v66 v71 v76 v81 v86 v91 v96 v101 v106 v111 v116 v121 v126 v131 v136 v141 v146 v151 v156 v176 v196 v216 v236 v297 k c2 c3).val acc
      = tripSpec2 d L k0_h2 v41 v46 v51 v56 v61 v66 v71 v76 v81 v86 v91 v96 v101 v106 v111 v116 v121 v126 v131 v136 v141 v146 v151 v156 k c2 c3 acc := rfl

/-- Trip `k` of the scan, as a step on the carried minima (the identity past the last trip). -/
def stepN2 (L : grid0.Coords) (k0_h2 : k0_cond2 L = 1#1) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32)
    (c2 c3 : Buf (Elt F) ((B0).view.loc (thr d L))) (k : ℕ) (acc : Acc F) : Acc F :=
  if h : k < k0_t2_loop.trips then tripSpec2 d L k0_h2 v41 v46 v51 v56 v61 v66 v71 v76 v81 v86 v91 v96 v101 v106 v111 v116 v121 v126 v131 v136 v141 v146 v151 v156 ⟨k, h⟩ c2 c3 acc else acc

/-- The carried minima before trip `k`. -/
def iter2 (L : grid0.Coords) (k0_h2 : k0_cond2 L = 1#1) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32)
    (c2 c3 : Buf (Elt F) ((B0).view.loc (thr d L))) (init : Acc F) : ℕ → Acc F
  | 0 => init
  | k + 1 => stepN2 d L k0_h2 v41 v46 v51 v56 v61 v66 v71 v76 v81 v86 v91 v96 v101 v106 v111 v116 v121 v126 v131 v136 v141 v146 v151 v156 c2 c3 k (iter2 L k0_h2 v41 v46 v51 v56 v61 v66 v71 v76 v81 v86 v91 v96 v101 v106 v111 v116 v121 v126 v131 v136 v141 v146 v151 v156 c2 c3 init k)

theorem iter2_succ (L : grid0.Coords) (k0_h2 : k0_cond2 L = 1#1) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32)
    (c2 c3 : Buf (Elt F) ((B0).view.loc (thr d L))) (init : Acc F) (k : Fin k0_t2_loop.trips) :
    iter2 d L k0_h2 v41 v46 v51 v56 v61 v66 v71 v76 v81 v86 v91 v96 v101 v106 v111 v116 v121 v126 v131 v136 v141 v146 v151 v156 c2 c3 init (k.val + 1)
      = tripSpec2 d L k0_h2 v41 v46 v51 v56 v61 v66 v71 v76 v81 v86 v91 v96 v101 v106 v111 v116 v121 v126 v131 v136 v141 v146 v151 v156 k c2 c3 (iter2 d L k0_h2 v41 v46 v51 v56 v61 v66 v71 v76 v81 v86 v91 v96 v101 v106 v111 v116 v121 v126 v131 v136 v141 v146 v151 v156 c2 c3 init k.val) := by
  show stepN2 d L k0_h2 v41 v46 v51 v56 v61 v66 v71 v76 v81 v86 v91 v96 v101 v106 v111 v116 v121 v126 v131 v136 v141 v146 v151 v156 c2 c3 k.val _ = _
  unfold stepN2
  rw [dif_pos k.isLt]

set_option maxHeartbeats 2000000 in
/-- The scan loop of SparseCore 0, whatever follows it: it only reads the two candidate buffers and hands on the minima
    after all its trips. -/
theorem loop2 (L : grid0.Coords) (k0_h2 : k0_cond2 L = 1#1) (v36 : BitVec 32) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32) (v176 : FVec F S16 .f32) (v196 : FVec F S16 .f32) (v216 : FVec F S16 .f32) (v236 : FVec F S16 .f32) (v297 : BitVec 32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter2 d L k0_h2 v41 v46 v51 v56 v61 v66 v71 v76 v81 v86 v91 v96 v101 v106 v111 v116 v121 v126 v131 v136 v141 v146 v151 v156 c2 c3 init k0_t2_loop.trips)) Q)) : sProp 𝕄)
      ⊢ wp frame (wpE (defs₀ (F := F)) Variants.none (thr d L) none) Set.univ
          (Scf.Loop.for k0_t2_loop (k0_t2_ok L k0_h2) init
            (k0_t2_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v36 v41 v46 v51 v56 v61 v66 v71 v76 v81 v86 v91 v96 v101 v106 v111 v116 v121 v126 v131 v136 v141 v146 v151 v156 v176 v196 v216 v236 v297) >>= kk) Q := by
  iintro ⟨HB2, HB3, Hk⟩
  sl_for (fun (k : Nat) (acc : Acc F) => (iprop(⌜acc = iter2 d L k0_h2 v41 v46 v51 v56 v61 v66 v71 v76 v81 v86 v91 v96 v101 v106 v111 v116 v121 v126 v131 v136 v141 v146 v151 v156 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun2 (U := U) d L k0_h2 v36 v41 v46 v51 v56 v61 v66 v71 v76 v81 v86 v91 v96 v101 v106 v111 v116 v121 v126 v131 v136 v141 v146 v151 v156 v176 v196 v216 v236 v297 k c2 c3).2 acc)
      isplitl [HB2]; · iexact HB2
      iexact HB3
    · iintro %r ⟨%hr, HB2, HB3⟩
      isplitr
      · ipureintro
        rw [hr, trip_eq2, hacc]
        exact (iter2_succ d L k0_h2 v41 v46 v51 v56 v61 v66 v71 v76 v81 v86 v91 v96 v101 v106 v111 v116 v121 v126 v131 v136 v141 v146 v151 v156 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop2' (L : grid0.Coords) (k0_h2 : k0_cond2 L = 1#1) (v36 : BitVec 32) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32) (v176 : FVec F S16 .f32) (v196 : FVec F S16 .f32) (v216 : FVec F S16 .f32) (v236 : FVec F S16 .f32) (v297 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter2 d L k0_h2 v41 v46 v51 v56 v61 v66 v71 v76 v81 v86 v91 v96 v101 v106 v111 v116 v121 v126 v131 v136 v141 v146 v151 v156 c2 c3 init k0_t2_loop.trips))) : sProp 𝕄)
      ⊢ wp frame (wpE (defs₀ (F := F)) Variants.none (thr d L) none) Set.univ
          (Scf.Loop.for k0_t2_loop (k0_t2_ok L k0_h2) init
            (k0_t2_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v36 v41 v46 v51 v56 v61 v66 v71 v76 v81 v86 v91 v96 v101 v106 v111 v116 v121 v126 v131 v136 v141 v146 v151 v156 v176 v196 v216 v236 v297)) Φ := by
  rw [← Prog.bind_pure (Scf.Loop.for k0_t2_loop (k0_t2_ok L k0_h2) init
            (k0_t2_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v36 v41 v46 v51 v56 v61 v66 v71 v76 v81 v86 v91 v96 v101 v106 v111 v116 v121 v126 v131 v136 v141 v146 v151 v156 v176 v196 v216 v236 v297))]
  iintro ⟨HB2, HB3, Hk⟩
  iapply (loop2 (F := F) (U := U) d L k0_h2 v36 v41 v46 v51 v56 v61 v66 v71 v76 v81 v86 v91 v96 v101 v106 v111 v116 v121 v126 v131 v136 v141 v146 v151 v156 v176 v196 v216 v236 v297 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop2'' (L : grid0.Coords) (k0_h2 : k0_cond2 L = 1#1) (v36 : BitVec 32) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32) (v176 : FVec F S16 .f32) (v196 : FVec F S16 .f32) (v216 : FVec F S16 .f32) (v236 : FVec F S16 .f32) (v297 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter2 d L k0_h2 v41 v46 v51 v56 v61 v66 v71 v76 v81 v86 v91 v96 v101 v106 v111 v116 v121 v126 v131 v136 v141 v146 v151 v156 c2 c3 init k0_t2_loop.trips)))) : sProp 𝕄)
      ⊢ wp frame (wpE (defs₀ (F := F)) Variants.none (thr d L) none) Set.univ
          (Scf.Loop.for k0_t2_loop (k0_t2_ok L k0_h2) init
            (k0_t2_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v36 v41 v46 v51 v56 v61 v66 v71 v76 v81 v86 v91 v96 v101 v106 v111 v116 v121 v126 v131 v136 v141 v146 v151 v156 v176 v196 v216 v236 v297)) Φ :=
  loop2' (F := F) (U := U) d L k0_h2 v36 v41 v46 v51 v56 v61 v66 v71 v76 v81 v86 v91 v96 v101 v106 v111 v116 v121 v126 v131 v136 v141 v146 v151 v156 v176 v196 v216 v236 v297 c2 c3 init Φ

/-- The loop, the minima handed on under a NAME with the equation that says what they are. -/
theorem loop2v (L : grid0.Coords) (k0_h2 : k0_cond2 L = 1#1) (v36 : BitVec 32) (v41 : FVec F S16 .f32) (v46 : FVec F S16 .f32) (v51 : FVec F S16 .f32) (v56 : FVec F S16 .f32) (v61 : FVec F S16 .f32) (v66 : FVec F S16 .f32) (v71 : FVec F S16 .f32) (v76 : FVec F S16 .f32) (v81 : FVec F S16 .f32) (v86 : FVec F S16 .f32) (v91 : FVec F S16 .f32) (v96 : FVec F S16 .f32) (v101 : FVec F S16 .f32) (v106 : FVec F S16 .f32) (v111 : FVec F S16 .f32) (v116 : FVec F S16 .f32) (v121 : FVec F S16 .f32) (v126 : FVec F S16 .f32) (v131 : FVec F S16 .f32) (v136 : FVec F S16 .f32) (v141 : FVec F S16 .f32) (v146 : FVec F S16 .f32) (v151 : FVec F S16 .f32) (v156 : FVec F S16 .f32) (v176 : FVec F S16 .f32) (v196 : FVec F S16 .f32) (v216 : FVec F S16 .f32) (v236 : FVec F S16 .f32) (v297 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter2 d L k0_h2 v41 v46 v51 v56 v61 v66 v71 v76 v81 v86 v91 v96 v101 v106 v111 v116 v121 v126 v131 v136 v141 v146 v151 v156 c2 c3 init k0_t2_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t2_loop (k0_t2_ok L k0_h2) init
            (k0_t2_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v36 v41 v46 v51 v56 v61 v66 v71 v76 v81 v86 v91 v96 v101 v106 v111 v116 v121 v126 v131 v136 v141 v146 v151 v156 v176 v196 v216 v236 v297)) Φ := by
  iintro ⟨HB2, HB3, Hk⟩
  iapply (loop2' (F := F) (U := U) d L k0_h2 v36 v41 v46 v51 v56 v61 v66 v71 v76 v81 v86 v91 v96 v101 v106 v111 v116 v121 v126 v131 v136 v141 v146 v151 v156 v176 v196 v216 v236 v297 c2 c3 init Φ) $$ [HB2 HB3 Hk]
  isplitl [HB2]; · iexact HB2
  isplitl [HB3]; · iexact HB3
  iintro H
  ispecialize Hk $$ %(iter2 d L k0_h2 v41 v46 v51 v56 v61 v66 v71 v76 v81 v86 v91 v96 v101 v106 v111 v116 v121 v126 v131 v136 v141 v146 v151 v156 c2 c3 init k0_t2_loop.trips) %rfl
  iapply Hk; iexact H

end Cert.Proof.ScI

end
-- ==== Proof.ScVal1_3.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 2 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv3 (L : grid0.Coords) (k0_h2 : k0_cond2 L = 1#1) (k : Fin k0_t3_loop.trips) (c : Buf (Elt F) ((B0).view.loc (thr d L))) (a : Fin 3) : FVec F S16 .f32 :=
  match a with
  | 0 => shapeCast S16 ((B0).view.readAt (Elt F) (Rect.unit (s := S3x512) (k0_off17 k) S1x16.size (k0_off17_inb L k k0_h2)).toLoadRect c) shapeCasts_S1x16_S16
  | 1 => shapeCast S16 ((B0).view.readAt (Elt F) (Rect.unit (s := S3x512) (k0_off18 k) S1x16.size (k0_off18_inb L k k0_h2)).toLoadRect c) shapeCasts_S1x16_S16
  | 2 => shapeCast S16 ((B0).view.readAt (Elt F) (Rect.unit (s := S3x512) (k0_off19 k) S1x16.size (k0_off19_inb L k k0_h2)).toLoadRect c) shapeCasts_S1x16_S16

/-- One trip of the scan as a function: every block of rows against the trip's chunk of candidates. -/
def tripSpec3 (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32)
    (k : Fin k0_t3_loop.trips) (c2 c3 : Buf (Elt F) ((B0).view.loc (thr d L))) (acc : Acc F) : Acc F :=
  (chunk v373 v413 v453 acc.1 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)),
   chunk v378 v418 v458 acc.2.1 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)),
   chunk v383 v423 v463 acc.2.2.1 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)),
   chunk v388 v428 v468 acc.2.2.2.1 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)),
   chunk v393 v433 v473 acc.2.2.2.2.1 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)),
   chunk v398 v438 v478 acc.2.2.2.2.2.1 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)),
   chunk v403 v443 v483 acc.2.2.2.2.2.2.1 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)),
   chunk v408 v448 v488 acc.2.2.2.2.2.2.2 (ldv3 d L k0_h2 k c2 0) (ldv3 d L k0_h2 k c2 1) (ldv3 d L k0_h2 k c2 2) (nrmv (ldv3 d L k0_h2 k c3 0) (ldv3 d L k0_h2 k c3 1) (ldv3 d L k0_h2 k c3 2)))

set_option maxHeartbeats 4000000 in
/-- One trip of SparseCore 0's scan, run once at symbolic operands: the carried minima after the trip as a function of
    those before it (found by the run), the two candidate buffers only read. -/
noncomputable def tripRun3 (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32) (v508 : FVec F S16 .f32) (v528 : FVec F S16 .f32) (v548 : FVec F S16 .f32) (v568 : FVec F S16 .f32) (v588 : FVec F S16 .f32) (v608 : FVec F S16 .f32) (v643 : FVec F S16 .f32) (v646 : FVec F S16 .f32)
    (k : Fin k0_t3_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t3_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v373 v378 v383 v388 v393 v398 v403 v408 v413 v418 v423 v428 v433 v438 v443 v448 v453 v458 v463 v468 v473 v478 v483 v488 v508 v528 v548 v568 v588 v608 v643 v646 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq3 (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32) (v508 : FVec F S16 .f32) (v528 : FVec F S16 .f32) (v548 : FVec F S16 .f32) (v568 : FVec F S16 .f32) (v588 : FVec F S16 .f32) (v608 : FVec F S16 .f32) (v643 : FVec F S16 .f32) (v646 : FVec F S16 .f32)
    (k : Fin k0_t3_loop.trips) (c2 : Buf (Elt F) ((B0).view.loc (thr d L))) (c3 : Buf (Elt F) ((B1).view.loc (thr d L))) (acc : Acc F) :
    (tripRun3 (U := U) d L k0_h2 v373 v378 v383 v388 v393 v398 v403 v408 v413 v418 v423 v428 v433 v438 v443 v448 v453 v458 v463 v468 v473 v478 v483 v488 v508 v528 v548 v568 v588 v608 v643 v646 k c2 c3).val acc
      = tripSpec3 d L k0_h2 v373 v378 v383 v388 v393 v398 v403 v408 v413 v418 v423 v428 v433 v438 v443 v448 v453 v458 v463 v468 v473 v478 v483 v488 k c2 c3 acc := rfl

/-- Trip `k` of the scan, as a step on the carried minima (the identity past the last trip). -/
def stepN3 (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32)
    (c2 c3 : Buf (Elt F) ((B0).view.loc (thr d L))) (k : ℕ) (acc : Acc F) : Acc F :=
  if h : k < k0_t3_loop.trips then tripSpec3 d L k0_h2 v373 v378 v383 v388 v393 v398 v403 v408 v413 v418 v423 v428 v433 v438 v443 v448 v453 v458 v463 v468 v473 v478 v483 v488 ⟨k, h⟩ c2 c3 acc else acc

/-- The carried minima before trip `k`. -/
def iter3 (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32)
    (c2 c3 : Buf (Elt F) ((B0).view.loc (thr d L))) (init : Acc F) : ℕ → Acc F
  | 0 => init
  | k + 1 => stepN3 d L k0_h2 v373 v378 v383 v388 v393 v398 v403 v408 v413 v418 v423 v428 v433 v438 v443 v448 v453 v458 v463 v468 v473 v478 v483 v488 c2 c3 k (iter3 L k0_h2 v373 v378 v383 v388 v393 v398 v403 v408 v413 v418 v423 v428 v433 v438 v443 v448 v453 v458 v463 v468 v473 v478 v483 v488 c2 c3 init k)

theorem iter3_succ (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32)
    (c2 c3 : Buf (Elt F) ((B0).view.loc (thr d L))) (init : Acc F) (k : Fin k0_t3_loop.trips) :
    iter3 d L k0_h2 v373 v378 v383 v388 v393 v398 v403 v408 v413 v418 v423 v428 v433 v438 v443 v448 v453 v458 v463 v468 v473 v478 v483 v488 c2 c3 init (k.val + 1)
      = tripSpec3 d L k0_h2 v373 v378 v383 v388 v393 v398 v403 v408 v413 v418 v423 v428 v433 v438 v443 v448 v453 v458 v463 v468 v473 v478 v483 v488 k c2 c3 (iter3 d L k0_h2 v373 v378 v383 v388 v393 v398 v403 v408 v413 v418 v423 v428 v433 v438 v443 v448 v453 v458 v463 v468 v473 v478 v483 v488 c2 c3 init k.val) := by
  show stepN3 d L k0_h2 v373 v378 v383 v388 v393 v398 v403 v408 v413 v418 v423 v428 v433 v438 v443 v448 v453 v458 v463 v468 v473 v478 v483 v488 c2 c3 k.val _ = _
  unfold stepN3
  rw [dif_pos k.isLt]

set_option maxHeartbeats 2000000 in
/-- The scan loop of SparseCore 0, whatever follows it: it only reads the two candidate buffers and hands on the minima
    after all its trips. -/
theorem loop3 (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32) (v508 : FVec F S16 .f32) (v528 : FVec F S16 .f32) (v548 : FVec F S16 .f32) (v568 : FVec F S16 .f32) (v588 : FVec F S16 .f32) (v608 : FVec F S16 .f32) (v643 : FVec F S16 .f32) (v646 : FVec F S16 .f32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter3 d L k0_h2 v373 v378 v383 v388 v393 v398 v403 v408 v413 v418 v423 v428 v433 v438 v443 v448 v453 v458 v463 v468 v473 v478 v483 v488 c2 c3 init k0_t3_loop.trips)) Q)) : sProp 𝕄)
      ⊢ wp frame (wpE (defs₀ (F := F)) Variants.none (thr d L) none) Set.univ
          (Scf.Loop.for k0_t3_loop (k0_t3_ok L k0_h2) init
            (k0_t3_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v373 v378 v383 v388 v393 v398 v403 v408 v413 v418 v423 v428 v433 v438 v443 v448 v453 v458 v463 v468 v473 v478 v483 v488 v508 v528 v548 v568 v588 v608 v643 v646) >>= kk) Q := by
  iintro ⟨HB2, HB3, Hk⟩
  sl_for (fun (k : Nat) (acc : Acc F) => (iprop(⌜acc = iter3 d L k0_h2 v373 v378 v383 v388 v393 v398 v403 v408 v413 v418 v423 v428 v433 v438 v443 v448 v453 v458 v463 v468 v473 v478 v483 v488 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun3 (U := U) d L k0_h2 v373 v378 v383 v388 v393 v398 v403 v408 v413 v418 v423 v428 v433 v438 v443 v448 v453 v458 v463 v468 v473 v478 v483 v488 v508 v528 v548 v568 v588 v608 v643 v646 k c2 c3).2 acc)
      isplitl [HB2]; · iexact HB2
      iexact HB3
    · iintro %r ⟨%hr, HB2, HB3⟩
      isplitr
      · ipureintro
        rw [hr, trip_eq3, hacc]
        exact (iter3_succ d L k0_h2 v373 v378 v383 v388 v393 v398 v403 v408 v413 v418 v423 v428 v433 v438 v443 v448 v453 v458 v463 v468 v473 v478 v483 v488 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop3' (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32) (v508 : FVec F S16 .f32) (v528 : FVec F S16 .f32) (v548 : FVec F S16 .f32) (v568 : FVec F S16 .f32) (v588 : FVec F S16 .f32) (v608 : FVec F S16 .f32) (v643 : FVec F S16 .f32) (v646 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter3 d L k0_h2 v373 v378 v383 v388 v393 v398 v403 v408 v413 v418 v423 v428 v433 v438 v443 v448 v453 v458 v463 v468 v473 v478 v483 v488 c2 c3 init k0_t3_loop.trips))) : sProp 𝕄)
      ⊢ wp frame (wpE (defs₀ (F := F)) Variants.none (thr d L) none) Set.univ
          (Scf.Loop.for k0_t3_loop (k0_t3_ok L k0_h2) init
            (k0_t3_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v373 v378 v383 v388 v393 v398 v403 v408 v413 v418 v423 v428 v433 v438 v443 v448 v453 v458 v463 v468 v473 v478 v483 v488 v508 v528 v548 v568 v588 v608 v643 v646)) Φ := by
  rw [← Prog.bind_pure (Scf.Loop.for k0_t3_loop (k0_t3_ok L k0_h2) init
            (k0_t3_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v373 v378 v383 v388 v393 v398 v403 v408 v413 v418 v423 v428 v433 v438 v443 v448 v453 v458 v463 v468 v473 v478 v483 v488 v508 v528 v548 v568 v588 v608 v643 v646))]
  iintro ⟨HB2, HB3, Hk⟩
  iapply (loop3 (F := F) (U := U) d L k0_h2 v373 v378 v383 v388 v393 v398 v403 v408 v413 v418 v423 v428 v433 v438 v443 v448 v453 v458 v463 v468 v473 v478 v483 v488 v508 v528 v548 v568 v588 v608 v643 v646 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop3'' (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32) (v508 : FVec F S16 .f32) (v528 : FVec F S16 .f32) (v548 : FVec F S16 .f32) (v568 : FVec F S16 .f32) (v588 : FVec F S16 .f32) (v608 : FVec F S16 .f32) (v643 : FVec F S16 .f32) (v646 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter3 d L k0_h2 v373 v378 v383 v388 v393 v398 v403 v408 v413 v418 v423 v428 v433 v438 v443 v448 v453 v458 v463 v468 v473 v478 v483 v488 c2 c3 init k0_t3_loop.trips)))) : sProp 𝕄)
      ⊢ wp frame (wpE (defs₀ (F := F)) Variants.none (thr d L) none) Set.univ
          (Scf.Loop.for k0_t3_loop (k0_t3_ok L k0_h2) init
            (k0_t3_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v373 v378 v383 v388 v393 v398 v403 v408 v413 v418 v423 v428 v433 v438 v443 v448 v453 v458 v463 v468 v473 v478 v483 v488 v508 v528 v548 v568 v588 v608 v643 v646)) Φ :=
  loop3' (F := F) (U := U) d L k0_h2 v373 v378 v383 v388 v393 v398 v403 v408 v413 v418 v423 v428 v433 v438 v443 v448 v453 v458 v463 v468 v473 v478 v483 v488 v508 v528 v548 v568 v588 v608 v643 v646 c2 c3 init Φ

/-- The loop, the minima handed on under a NAME with the equation that says what they are. -/
theorem loop3v (L : grid0.Coords) (k0_h2 : k0_cond2 L = 1#1) (v373 : FVec F S16 .f32) (v378 : FVec F S16 .f32) (v383 : FVec F S16 .f32) (v388 : FVec F S16 .f32) (v393 : FVec F S16 .f32) (v398 : FVec F S16 .f32) (v403 : FVec F S16 .f32) (v408 : FVec F S16 .f32) (v413 : FVec F S16 .f32) (v418 : FVec F S16 .f32) (v423 : FVec F S16 .f32) (v428 : FVec F S16 .f32) (v433 : FVec F S16 .f32) (v438 : FVec F S16 .f32) (v443 : FVec F S16 .f32) (v448 : FVec F S16 .f32) (v453 : FVec F S16 .f32) (v458 : FVec F S16 .f32) (v463 : FVec F S16 .f32) (v468 : FVec F S16 .f32) (v473 : FVec F S16 .f32) (v478 : FVec F S16 .f32) (v483 : FVec F S16 .f32) (v488 : FVec F S16 .f32) (v508 : FVec F S16 .f32) (v528 : FVec F S16 .f32) (v548 : FVec F S16 .f32) (v568 : FVec F S16 .f32) (v588 : FVec F S16 .f32) (v608 : FVec F S16 .f32) (v643 : FVec F S16 .f32) (v646 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter3 d L k0_h2 v373 v378 v383 v388 v393 v398 v403 v408 v413 v418 v423 v428 v433 v438 v443 v448 v453 v458 v463 v468 v473 v478 v483 v488 c2 c3 init k0_t3_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t3_loop (k0_t3_ok L k0_h2) init
            (k0_t3_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v373 v378 v383 v388 v393 v398 v403 v408 v413 v418 v423 v428 v433 v438 v443 v448 v453 v458 v463 v468 v473 v478 v483 v488 v508 v528 v548 v568 v588 v608 v643 v646)) Φ := by
  iintro ⟨HB2, HB3, Hk⟩
  iapply (loop3' (F := F) (U := U) d L k0_h2 v373 v378 v383 v388 v393 v398 v403 v408 v413 v418 v423 v428 v433 v438 v443 v448 v453 v458 v463 v468 v473 v478 v483 v488 v508 v528 v548 v568 v588 v608 v643 v646 c2 c3 init Φ) $$ [HB2 HB3 Hk]
  isplitl [HB2]; · iexact HB2
  isplitl [HB3]; · iexact HB3
  iintro H
  ispecialize Hk $$ %(iter3 d L k0_h2 v373 v378 v383 v388 v393 v398 v403 v408 v413 v418 v423 v428 v433 v438 v443 v448 v453 v458 v463 v468 v473 v478 v483 v488 c2 c3 init k0_t3_loop.trips) %rfl
  iapply Hk; iexact H

end Cert.Proof.ScI

end
-- ==== Proof.ScVal1_4.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 3 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv4 (L : grid0.Coords) (k0_h2 : k0_cond2 L = 1#1) (k : Fin k0_t4_loop.trips) (c : Buf (Elt F) ((B0).view.loc (thr d L))) (a : Fin 3) : FVec F S16 .f32 :=
  match a with
  | 0 => shapeCast S16 ((B0).view.readAt (Elt F) (Rect.unit (s := S3x512) (k0_off20 k) S1x16.size (k0_off20_inb L k k0_h2)).toLoadRect c) shapeCasts_S1x16_S16
  | 1 => shapeCast S16 ((B0).view.readAt (Elt F) (Rect.unit (s := S3x512) (k0_off21 k) S1x16.size (k0_off21_inb L k k0_h2)).toLoadRect c) shapeCasts_S1x16_S16
  | 2 => shapeCast S16 ((B0).view.readAt (Elt F) (Rect.unit (s := S3x512) (k0_off22 k) S1x16.size (k0_off22_inb L k k0_h2)).toLoadRect c) shapeCasts_S1x16_S16

/-- One trip of the scan as a function: every block of rows against the trip's chunk of candidates. -/
def tripSpec4 (L : grid0.Coords) (k0_h2 : k0_cond2 L = 1#1) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32)
    (k : Fin k0_t4_loop.trips) (c2 c3 : Buf (Elt F) ((B0).view.loc (thr d L))) (acc : Acc F) : Acc F :=
  (chunk v705 v745 v785 acc.1 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)),
   chunk v710 v750 v790 acc.2.1 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)),
   chunk v715 v755 v795 acc.2.2.1 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)),
   chunk v720 v760 v800 acc.2.2.2.1 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)),
   chunk v725 v765 v805 acc.2.2.2.2.1 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)),
   chunk v730 v770 v810 acc.2.2.2.2.2.1 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)),
   chunk v735 v775 v815 acc.2.2.2.2.2.2.1 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)),
   chunk v740 v780 v820 acc.2.2.2.2.2.2.2 (ldv4 d L k0_h2 k c2 0) (ldv4 d L k0_h2 k c2 1) (ldv4 d L k0_h2 k c2 2) (nrmv (ldv4 d L k0_h2 k c3 0) (ldv4 d L k0_h2 k c3 1) (ldv4 d L k0_h2 k c3 2)))

set_option maxHeartbeats 4000000 in
/-- One trip of SparseCore 0's scan, run once at symbolic operands: the carried minima after the trip as a function of
    those before it (found by the run), the two candidate buffers only read. -/
noncomputable def tripRun4 (L : grid0.Coords) (k0_h2 : k0_cond2 L = 1#1) (v700 : BitVec 32) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32) (v840 : FVec F S16 .f32) (v860 : FVec F S16 .f32) (v945 : FVec F S16 .f32)
    (k : Fin k0_t4_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t4_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v700 v705 v710 v715 v720 v725 v730 v735 v740 v745 v750 v755 v760 v765 v770 v775 v780 v785 v790 v795 v800 v805 v810 v815 v820 v840 v860 v945 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq4 (L : grid0.Coords) (k0_h2 : k0_cond2 L = 1#1) (v700 : BitVec 32) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32) (v840 : FVec F S16 .f32) (v860 : FVec F S16 .f32) (v945 : FVec F S16 .f32)
    (k : Fin k0_t4_loop.trips) (c2 : Buf (Elt F) ((B0).view.loc (thr d L))) (c3 : Buf (Elt F) ((B1).view.loc (thr d L))) (acc : Acc F) :
    (tripRun4 (U := U) d L k0_h2 v700 v705 v710 v715 v720 v725 v730 v735 v740 v745 v750 v755 v760 v765 v770 v775 v780 v785 v790 v795 v800 v805 v810 v815 v820 v840 v860 v945 k c2 c3).val acc
      = tripSpec4 d L k0_h2 v705 v710 v715 v720 v725 v730 v735 v740 v745 v750 v755 v760 v765 v770 v775 v780 v785 v790 v795 v800 v805 v810 v815 v820 k c2 c3 acc := rfl

/-- Trip `k` of the scan, as a step on the carried minima (the identity past the last trip). -/
def stepN4 (L : grid0.Coords) (k0_h2 : k0_cond2 L = 1#1) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32)
    (c2 c3 : Buf (Elt F) ((B0).view.loc (thr d L))) (k : ℕ) (acc : Acc F) : Acc F :=
  if h : k < k0_t4_loop.trips then tripSpec4 d L k0_h2 v705 v710 v715 v720 v725 v730 v735 v740 v745 v750 v755 v760 v765 v770 v775 v780 v785 v790 v795 v800 v805 v810 v815 v820 ⟨k, h⟩ c2 c3 acc else acc

/-- The carried minima before trip `k`. -/
def iter4 (L : grid0.Coords) (k0_h2 : k0_cond2 L = 1#1) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32)
    (c2 c3 : Buf (Elt F) ((B0).view.loc (thr d L))) (init : Acc F) : ℕ → Acc F
  | 0 => init
  | k + 1 => stepN4 d L k0_h2 v705 v710 v715 v720 v725 v730 v735 v740 v745 v750 v755 v760 v765 v770 v775 v780 v785 v790 v795 v800 v805 v810 v815 v820 c2 c3 k (iter4 L k0_h2 v705 v710 v715 v720 v725 v730 v735 v740 v745 v750 v755 v760 v765 v770 v775 v780 v785 v790 v795 v800 v805 v810 v815 v820 c2 c3 init k)

theorem iter4_succ (L : grid0.Coords) (k0_h2 : k0_cond2 L = 1#1) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32)
    (c2 c3 : Buf (Elt F) ((B0).view.loc (thr d L))) (init : Acc F) (k : Fin k0_t4_loop.trips) :
    iter4 d L k0_h2 v705 v710 v715 v720 v725 v730 v735 v740 v745 v750 v755 v760 v765 v770 v775 v780 v785 v790 v795 v800 v805 v810 v815 v820 c2 c3 init (k.val + 1)
      = tripSpec4 d L k0_h2 v705 v710 v715 v720 v725 v730 v735 v740 v745 v750 v755 v760 v765 v770 v775 v780 v785 v790 v795 v800 v805 v810 v815 v820 k c2 c3 (iter4 d L k0_h2 v705 v710 v715 v720 v725 v730 v735 v740 v745 v750 v755 v760 v765 v770 v775 v780 v785 v790 v795 v800 v805 v810 v815 v820 c2 c3 init k.val) := by
  show stepN4 d L k0_h2 v705 v710 v715 v720 v725 v730 v735 v740 v745 v750 v755 v760 v765 v770 v775 v780 v785 v790 v795 v800 v805 v810 v815 v820 c2 c3 k.val _ = _
  unfold stepN4
  rw [dif_pos k.isLt]

set_option maxHeartbeats 2000000 in
/-- The scan loop of SparseCore 0, whatever follows it: it only reads the two candidate buffers and hands on the minima
    after all its trips. -/
theorem loop4 (L : grid0.Coords) (k0_h2 : k0_cond2 L = 1#1) (v700 : BitVec 32) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32) (v840 : FVec F S16 .f32) (v860 : FVec F S16 .f32) (v945 : FVec F S16 .f32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter4 d L k0_h2 v705 v710 v715 v720 v725 v730 v735 v740 v745 v750 v755 v760 v765 v770 v775 v780 v785 v790 v795 v800 v805 v810 v815 v820 c2 c3 init k0_t4_loop.trips)) Q)) : sProp 𝕄)
      ⊢ wp frame (wpE (defs₀ (F := F)) Variants.none (thr d L) none) Set.univ
          (Scf.Loop.for k0_t4_loop (k0_t4_ok L k0_h2) init
            (k0_t4_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v700 v705 v710 v715 v720 v725 v730 v735 v740 v745 v750 v755 v760 v765 v770 v775 v780 v785 v790 v795 v800 v805 v810 v815 v820 v840 v860 v945) >>= kk) Q := by
  iintro ⟨HB2, HB3, Hk⟩
  sl_for (fun (k : Nat) (acc : Acc F) => (iprop(⌜acc = iter4 d L k0_h2 v705 v710 v715 v720 v725 v730 v735 v740 v745 v750 v755 v760 v765 v770 v775 v780 v785 v790 v795 v800 v805 v810 v815 v820 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun4 (U := U) d L k0_h2 v700 v705 v710 v715 v720 v725 v730 v735 v740 v745 v750 v755 v760 v765 v770 v775 v780 v785 v790 v795 v800 v805 v810 v815 v820 v840 v860 v945 k c2 c3).2 acc)
      isplitl [HB2]; · iexact HB2
      iexact HB3
    · iintro %r ⟨%hr, HB2, HB3⟩
      isplitr
      · ipureintro
        rw [hr, trip_eq4, hacc]
        exact (iter4_succ d L k0_h2 v705 v710 v715 v720 v725 v730 v735 v740 v745 v750 v755 v760 v765 v770 v775 v780 v785 v790 v795 v800 v805 v810 v815 v820 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop4' (L : grid0.Coords) (k0_h2 : k0_cond2 L = 1#1) (v700 : BitVec 32) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32) (v840 : FVec F S16 .f32) (v860 : FVec F S16 .f32) (v945 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter4 d L k0_h2 v705 v710 v715 v720 v725 v730 v735 v740 v745 v750 v755 v760 v765 v770 v775 v780 v785 v790 v795 v800 v805 v810 v815 v820 c2 c3 init k0_t4_loop.trips))) : sProp 𝕄)
      ⊢ wp frame (wpE (defs₀ (F := F)) Variants.none (thr d L) none) Set.univ
          (Scf.Loop.for k0_t4_loop (k0_t4_ok L k0_h2) init
            (k0_t4_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v700 v705 v710 v715 v720 v725 v730 v735 v740 v745 v750 v755 v760 v765 v770 v775 v780 v785 v790 v795 v800 v805 v810 v815 v820 v840 v860 v945)) Φ := by
  rw [← Prog.bind_pure (Scf.Loop.for k0_t4_loop (k0_t4_ok L k0_h2) init
            (k0_t4_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v700 v705 v710 v715 v720 v725 v730 v735 v740 v745 v750 v755 v760 v765 v770 v775 v780 v785 v790 v795 v800 v805 v810 v815 v820 v840 v860 v945))]
  iintro ⟨HB2, HB3, Hk⟩
  iapply (loop4 (F := F) (U := U) d L k0_h2 v700 v705 v710 v715 v720 v725 v730 v735 v740 v745 v750 v755 v760 v765 v770 v775 v780 v785 v790 v795 v800 v805 v810 v815 v820 v840 v860 v945 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop4'' (L : grid0.Coords) (k0_h2 : k0_cond2 L = 1#1) (v700 : BitVec 32) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32) (v840 : FVec F S16 .f32) (v860 : FVec F S16 .f32) (v945 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter4 d L k0_h2 v705 v710 v715 v720 v725 v730 v735 v740 v745 v750 v755 v760 v765 v770 v775 v780 v785 v790 v795 v800 v805 v810 v815 v820 c2 c3 init k0_t4_loop.trips)))) : sProp 𝕄)
      ⊢ wp frame (wpE (defs₀ (F := F)) Variants.none (thr d L) none) Set.univ
          (Scf.Loop.for k0_t4_loop (k0_t4_ok L k0_h2) init
            (k0_t4_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v700 v705 v710 v715 v720 v725 v730 v735 v740 v745 v750 v755 v760 v765 v770 v775 v780 v785 v790 v795 v800 v805 v810 v815 v820 v840 v860 v945)) Φ :=
  loop4' (F := F) (U := U) d L k0_h2 v700 v705 v710 v715 v720 v725 v730 v735 v740 v745 v750 v755 v760 v765 v770 v775 v780 v785 v790 v795 v800 v805 v810 v815 v820 v840 v860 v945 c2 c3 init Φ

/-- The loop, the minima handed on under a NAME with the equation that says what they are. -/
theorem loop4v (L : grid0.Coords) (k0_h2 : k0_cond2 L = 1#1) (v700 : BitVec 32) (v705 : FVec F S16 .f32) (v710 : FVec F S16 .f32) (v715 : FVec F S16 .f32) (v720 : FVec F S16 .f32) (v725 : FVec F S16 .f32) (v730 : FVec F S16 .f32) (v735 : FVec F S16 .f32) (v740 : FVec F S16 .f32) (v745 : FVec F S16 .f32) (v750 : FVec F S16 .f32) (v755 : FVec F S16 .f32) (v760 : FVec F S16 .f32) (v765 : FVec F S16 .f32) (v770 : FVec F S16 .f32) (v775 : FVec F S16 .f32) (v780 : FVec F S16 .f32) (v785 : FVec F S16 .f32) (v790 : FVec F S16 .f32) (v795 : FVec F S16 .f32) (v800 : FVec F S16 .f32) (v805 : FVec F S16 .f32) (v810 : FVec F S16 .f32) (v815 : FVec F S16 .f32) (v820 : FVec F S16 .f32) (v840 : FVec F S16 .f32) (v860 : FVec F S16 .f32) (v945 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter4 d L k0_h2 v705 v710 v715 v720 v725 v730 v735 v740 v745 v750 v755 v760 v765 v770 v775 v780 v785 v790 v795 v800 v805 v810 v815 v820 c2 c3 init k0_t4_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t4_loop (k0_t4_ok L k0_h2) init
            (k0_t4_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v700 v705 v710 v715 v720 v725 v730 v735 v740 v745 v750 v755 v760 v765 v770 v775 v780 v785 v790 v795 v800 v805 v810 v815 v820 v840 v860 v945)) Φ := by
  iintro ⟨HB2, HB3, Hk⟩
  iapply (loop4' (F := F) (U := U) d L k0_h2 v700 v705 v710 v715 v720 v725 v730 v735 v740 v745 v750 v755 v760 v765 v770 v775 v780 v785 v790 v795 v800 v805 v810 v815 v820 v840 v860 v945 c2 c3 init Φ) $$ [HB2 HB3 Hk]
  isplitl [HB2]; · iexact HB2
  isplitl [HB3]; · iexact HB3
  iintro H
  ispecialize Hk $$ %(iter4 d L k0_h2 v705 v710 v715 v720 v725 v730 v735 v740 v745 v750 v755 v760 v765 v770 v775 v780 v785 v790 v795 v800 v805 v810 v815 v820 c2 c3 init k0_t4_loop.trips) %rfl
  iapply Hk; iexact H

end Cert.Proof.ScI

end
-- ==== Proof.ScVal1_5.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 4 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv5 (L : grid0.Coords) (k0_h2 : k0_cond2 L = 1#1) (k : Fin k0_t5_loop.trips) (c : Buf (Elt F) ((B0).view.loc (thr d L))) (a : Fin 3) : FVec F S16 .f32 :=
  match a with
  | 0 => shapeCast S16 ((B0).view.readAt (Elt F) (Rect.unit (s := S3x512) (k0_off23 k) S1x16.size (k0_off23_inb L k k0_h2)).toLoadRect c) shapeCasts_S1x16_S16
  | 1 => shapeCast S16 ((B0).view.readAt (Elt F) (Rect.unit (s := S3x512) (k0_off24 k) S1x16.size (k0_off24_inb L k k0_h2)).toLoadRect c) shapeCasts_S1x16_S16
  | 2 => shapeCast S16 ((B0).view.readAt (Elt F) (Rect.unit (s := S3x512) (k0_off25 k) S1x16.size (k0_off25_inb L k k0_h2)).toLoadRect c) shapeCasts_S1x16_S16

/-- One trip of the scan as a function: every block of rows against the trip's chunk of candidates. -/
def tripSpec5 (L : grid0.Coords) (k0_h2 : k0_cond2 L = 1#1) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32)
    (k : Fin k0_t5_loop.trips) (c2 c3 : Buf (Elt F) ((B0).view.loc (thr d L))) (acc : Acc F) : Acc F :=
  (chunk v1037 v1077 v1117 acc.1 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)),
   chunk v1042 v1082 v1122 acc.2.1 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)),
   chunk v1047 v1087 v1127 acc.2.2.1 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)),
   chunk v1052 v1092 v1132 acc.2.2.2.1 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)),
   chunk v1057 v1097 v1137 acc.2.2.2.2.1 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)),
   chunk v1062 v1102 v1142 acc.2.2.2.2.2.1 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)),
   chunk v1067 v1107 v1147 acc.2.2.2.2.2.2.1 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)),
   chunk v1072 v1112 v1152 acc.2.2.2.2.2.2.2 (ldv5 d L k0_h2 k c2 0) (ldv5 d L k0_h2 k c2 1) (ldv5 d L k0_h2 k c2 2) (nrmv (ldv5 d L k0_h2 k c3 0) (ldv5 d L k0_h2 k c3 1) (ldv5 d L k0_h2 k c3 2)))

set_option maxHeartbeats 4000000 in
/-- One trip of SparseCore 0's scan, run once at symbolic operands: the carried minima after the trip as a function of
    those before it (found by the run), the two candidate buffers only read. -/
noncomputable def tripRun5 (L : grid0.Coords) (k0_h2 : k0_cond2 L = 1#1) (v1032 : BitVec 32) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32) (v1172 : FVec F S16 .f32) (v1192 : FVec F S16 .f32) (v1212 : FVec F S16 .f32) (v1232 : FVec F S16 .f32) (v1297 : FVec F S16 .f32) (c112_i32_426 : BitVec 32)
    (k : Fin k0_t5_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t5_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq5 (L : grid0.Coords) (k0_h2 : k0_cond2 L = 1#1) (v1032 : BitVec 32) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32) (v1172 : FVec F S16 .f32) (v1192 : FVec F S16 .f32) (v1212 : FVec F S16 .f32) (v1232 : FVec F S16 .f32) (v1297 : FVec F S16 .f32) (c112_i32_426 : BitVec 32)
    (k : Fin k0_t5_loop.trips) (c2 : Buf (Elt F) ((B0).view.loc (thr d L))) (c3 : Buf (Elt F) ((B1).view.loc (thr d L))) (acc : Acc F) :
    (tripRun5 (U := U) d L k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426 k c2 c3).val acc
      = tripSpec5 d L k0_h2 v1037 v1042 v1047 v1052 v1057 v1062 v1067 v1072 v1077 v1082 v1087 v1092 v1097 v1102 v1107 v1112 v1117 v1122 v1127 v1132 v1137 v1142 v1147 v1152 k c2 c3 acc := rfl

/-- Trip `k` of the scan, as a step on the carried minima (the identity past the last trip). -/
def stepN5 (L : grid0.Coords) (k0_h2 : k0_cond2 L = 1#1) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32)
    (c2 c3 : Buf (Elt F) ((B0).view.loc (thr d L))) (k : ℕ) (acc : Acc F) : Acc F :=
  if h : k < k0_t5_loop.trips then tripSpec5 d L k0_h2 v1037 v1042 v1047 v1052 v1057 v1062 v1067 v1072 v1077 v1082 v1087 v1092 v1097 v1102 v1107 v1112 v1117 v1122 v1127 v1132 v1137 v1142 v1147 v1152 ⟨k, h⟩ c2 c3 acc else acc

/-- The carried minima before trip `k`. -/
def iter5 (L : grid0.Coords) (k0_h2 : k0_cond2 L = 1#1) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32)
    (c2 c3 : Buf (Elt F) ((B0).view.loc (thr d L))) (init : Acc F) : ℕ → Acc F
  | 0 => init
  | k + 1 => stepN5 d L k0_h2 v1037 v1042 v1047 v1052 v1057 v1062 v1067 v1072 v1077 v1082 v1087 v1092 v1097 v1102 v1107 v1112 v1117 v1122 v1127 v1132 v1137 v1142 v1147 v1152 c2 c3 k (iter5 L k0_h2 v1037 v1042 v1047 v1052 v1057 v1062 v1067 v1072 v1077 v1082 v1087 v1092 v1097 v1102 v1107 v1112 v1117 v1122 v1127 v1132 v1137 v1142 v1147 v1152 c2 c3 init k)

theorem iter5_succ (L : grid0.Coords) (k0_h2 : k0_cond2 L = 1#1) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32)
    (c2 c3 : Buf (Elt F) ((B0).view.loc (thr d L))) (init : Acc F) (k : Fin k0_t5_loop.trips) :
    iter5 d L k0_h2 v1037 v1042 v1047 v1052 v1057 v1062 v1067 v1072 v1077 v1082 v1087 v1092 v1097 v1102 v1107 v1112 v1117 v1122 v1127 v1132 v1137 v1142 v1147 v1152 c2 c3 init (k.val + 1)
      = tripSpec5 d L k0_h2 v1037 v1042 v1047 v1052 v1057 v1062 v1067 v1072 v1077 v1082 v1087 v1092 v1097 v1102 v1107 v1112 v1117 v1122 v1127 v1132 v1137 v1142 v1147 v1152 k c2 c3 (iter5 d L k0_h2 v1037 v1042 v1047 v1052 v1057 v1062 v1067 v1072 v1077 v1082 v1087 v1092 v1097 v1102 v1107 v1112 v1117 v1122 v1127 v1132 v1137 v1142 v1147 v1152 c2 c3 init k.val) := by
  show stepN5 d L k0_h2 v1037 v1042 v1047 v1052 v1057 v1062 v1067 v1072 v1077 v1082 v1087 v1092 v1097 v1102 v1107 v1112 v1117 v1122 v1127 v1132 v1137 v1142 v1147 v1152 c2 c3 k.val _ = _
  unfold stepN5
  rw [dif_pos k.isLt]

set_option maxHeartbeats 2000000 in
/-- The scan loop of SparseCore 0, whatever follows it: it only reads the two candidate buffers and hands on the minima
    after all its trips. -/
theorem loop5 (L : grid0.Coords) (k0_h2 : k0_cond2 L = 1#1) (v1032 : BitVec 32) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32) (v1172 : FVec F S16 .f32) (v1192 : FVec F S16 .f32) (v1212 : FVec F S16 .f32) (v1232 : FVec F S16 .f32) (v1297 : FVec F S16 .f32) (c112_i32_426 : BitVec 32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter5 d L k0_h2 v1037 v1042 v1047 v1052 v1057 v1062 v1067 v1072 v1077 v1082 v1087 v1092 v1097 v1102 v1107 v1112 v1117 v1122 v1127 v1132 v1137 v1142 v1147 v1152 c2 c3 init k0_t5_loop.trips)) Q)) : sProp 𝕄)
      ⊢ wp frame (wpE (defs₀ (F := F)) Variants.none (thr d L) none) Set.univ
          (Scf.Loop.for k0_t5_loop (k0_t5_ok L k0_h2) init
            (k0_t5_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426) >>= kk) Q := by
  iintro ⟨HB2, HB3, Hk⟩
  sl_for (fun (k : Nat) (acc : Acc F) => (iprop(⌜acc = iter5 d L k0_h2 v1037 v1042 v1047 v1052 v1057 v1062 v1067 v1072 v1077 v1082 v1087 v1092 v1097 v1102 v1107 v1112 v1117 v1122 v1127 v1132 v1137 v1142 v1147 v1152 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun5 (U := U) d L k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426 k c2 c3).2 acc)
      isplitl [HB2]; · iexact HB2
      iexact HB3
    · iintro %r ⟨%hr, HB2, HB3⟩
      isplitr
      · ipureintro
        rw [hr, trip_eq5, hacc]
        exact (iter5_succ d L k0_h2 v1037 v1042 v1047 v1052 v1057 v1062 v1067 v1072 v1077 v1082 v1087 v1092 v1097 v1102 v1107 v1112 v1117 v1122 v1127 v1132 v1137 v1142 v1147 v1152 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop5' (L : grid0.Coords) (k0_h2 : k0_cond2 L = 1#1) (v1032 : BitVec 32) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32) (v1172 : FVec F S16 .f32) (v1192 : FVec F S16 .f32) (v1212 : FVec F S16 .f32) (v1232 : FVec F S16 .f32) (v1297 : FVec F S16 .f32) (c112_i32_426 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter5 d L k0_h2 v1037 v1042 v1047 v1052 v1057 v1062 v1067 v1072 v1077 v1082 v1087 v1092 v1097 v1102 v1107 v1112 v1117 v1122 v1127 v1132 v1137 v1142 v1147 v1152 c2 c3 init k0_t5_loop.trips))) : sProp 𝕄)
      ⊢ wp frame (wpE (defs₀ (F := F)) Variants.none (thr d L) none) Set.univ
          (Scf.Loop.for k0_t5_loop (k0_t5_ok L k0_h2) init
            (k0_t5_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426)) Φ := by
  rw [← Prog.bind_pure (Scf.Loop.for k0_t5_loop (k0_t5_ok L k0_h2) init
            (k0_t5_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426))]
  iintro ⟨HB2, HB3, Hk⟩
  iapply (loop5 (F := F) (U := U) d L k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop5'' (L : grid0.Coords) (k0_h2 : k0_cond2 L = 1#1) (v1032 : BitVec 32) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32) (v1172 : FVec F S16 .f32) (v1192 : FVec F S16 .f32) (v1212 : FVec F S16 .f32) (v1232 : FVec F S16 .f32) (v1297 : FVec F S16 .f32) (c112_i32_426 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter5 d L k0_h2 v1037 v1042 v1047 v1052 v1057 v1062 v1067 v1072 v1077 v1082 v1087 v1092 v1097 v1102 v1107 v1112 v1117 v1122 v1127 v1132 v1137 v1142 v1147 v1152 c2 c3 init k0_t5_loop.trips)))) : sProp 𝕄)
      ⊢ wp frame (wpE (defs₀ (F := F)) Variants.none (thr d L) none) Set.univ
          (Scf.Loop.for k0_t5_loop (k0_t5_ok L k0_h2) init
            (k0_t5_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426)) Φ :=
  loop5' (F := F) (U := U) d L k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426 c2 c3 init Φ

/-- The loop, the minima handed on under a NAME with the equation that says what they are. -/
theorem loop5v (L : grid0.Coords) (k0_h2 : k0_cond2 L = 1#1) (v1032 : BitVec 32) (v1037 : FVec F S16 .f32) (v1042 : FVec F S16 .f32) (v1047 : FVec F S16 .f32) (v1052 : FVec F S16 .f32) (v1057 : FVec F S16 .f32) (v1062 : FVec F S16 .f32) (v1067 : FVec F S16 .f32) (v1072 : FVec F S16 .f32) (v1077 : FVec F S16 .f32) (v1082 : FVec F S16 .f32) (v1087 : FVec F S16 .f32) (v1092 : FVec F S16 .f32) (v1097 : FVec F S16 .f32) (v1102 : FVec F S16 .f32) (v1107 : FVec F S16 .f32) (v1112 : FVec F S16 .f32) (v1117 : FVec F S16 .f32) (v1122 : FVec F S16 .f32) (v1127 : FVec F S16 .f32) (v1132 : FVec F S16 .f32) (v1137 : FVec F S16 .f32) (v1142 : FVec F S16 .f32) (v1147 : FVec F S16 .f32) (v1152 : FVec F S16 .f32) (v1172 : FVec F S16 .f32) (v1192 : FVec F S16 .f32) (v1212 : FVec F S16 .f32) (v1232 : FVec F S16 .f32) (v1297 : FVec F S16 .f32) (c112_i32_426 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter5 d L k0_h2 v1037 v1042 v1047 v1052 v1057 v1062 v1067 v1072 v1077 v1082 v1087 v1092 v1097 v1102 v1107 v1112 v1117 v1122 v1127 v1132 v1137 v1142 v1147 v1152 c2 c3 init k0_t5_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t5_loop (k0_t5_ok L k0_h2) init
            (k0_t5_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426)) Φ := by
  iintro ⟨HB2, HB3, Hk⟩
  iapply (loop5' (F := F) (U := U) d L k0_h2 v1032 v1037 v1042 v1047 v1052 v1057 v1062 v1067 v1072 v1077 v1082 v1087 v1092 v1097 v1102 v1107 v1112 v1117 v1122 v1127 v1132 v1137 v1142 v1147 v1152 v1172 v1192 v1212 v1232 v1297 c112_i32_426 c2 c3 init Φ) $$ [HB2 HB3 Hk]
  isplitl [HB2]; · iexact HB2
  isplitl [HB3]; · iexact HB3
  iintro H
  ispecialize Hk $$ %(iter5 d L k0_h2 v1037 v1042 v1047 v1052 v1057 v1062 v1067 v1072 v1077 v1082 v1087 v1092 v1097 v1102 v1107 v1112 v1117 v1122 v1127 v1132 v1137 v1142 v1147 v1152 c2 c3 init k0_t5_loop.trips) %rfl
  iapply Hk; iexact H

end Cert.Proof.ScI

end
-- ==== Proof.ScVal1_6.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 5 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv6 (L : grid0.Coords) (k0_h2 : k0_cond2 L = 1#1) (k : Fin k0_t6_loop.trips) (c : Buf (Elt F) ((B0).view.loc (thr d L))) (a : Fin 3) : FVec F S16 .f32 :=
  match a with
  | 0 => shapeCast S16 ((B0).view.readAt (Elt F) (Rect.unit (s := S3x512) (k0_off26 k) S1x16.size (k0_off26_inb L k k0_h2)).toLoadRect c) shapeCasts_S1x16_S16
  | 1 => shapeCast S16 ((B0).view.readAt (Elt F) (Rect.unit (s := S3x512) (k0_off27 k) S1x16.size (k0_off27_inb L k k0_h2)).toLoadRect c) shapeCasts_S1x16_S16
  | 2 => shapeCast S16 ((B0).view.readAt (Elt F) (Rect.unit (s := S3x512) (k0_off28 k) S1x16.size (k0_off28_inb L k k0_h2)).toLoadRect c) shapeCasts_S1x16_S16

/-- One trip of the scan as a function: every block of rows against the trip's chunk of candidates. -/
def tripSpec6 (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32)
    (k : Fin k0_t6_loop.trips) (c2 c3 : Buf (Elt F) ((B0).view.loc (thr d L))) (acc : Acc F) : Acc F :=
  (chunk v1369 v1409 v1449 acc.1 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)),
   chunk v1374 v1414 v1454 acc.2.1 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)),
   chunk v1379 v1419 v1459 acc.2.2.1 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)),
   chunk v1384 v1424 v1464 acc.2.2.2.1 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)),
   chunk v1389 v1429 v1469 acc.2.2.2.2.1 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)),
   chunk v1394 v1434 v1474 acc.2.2.2.2.2.1 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)),
   chunk v1399 v1439 v1479 acc.2.2.2.2.2.2.1 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)),
   chunk v1404 v1444 v1484 acc.2.2.2.2.2.2.2 (ldv6 d L k0_h2 k c2 0) (ldv6 d L k0_h2 k c2 1) (ldv6 d L k0_h2 k c2 2) (nrmv (ldv6 d L k0_h2 k c3 0) (ldv6 d L k0_h2 k c3 1) (ldv6 d L k0_h2 k c3 2)))

set_option maxHeartbeats 4000000 in
/-- One trip of SparseCore 0's scan, run once at symbolic operands: the carried minima after the trip as a function of
    those before it (found by the run), the two candidate buffers only read. -/
noncomputable def tripRun6 (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32) (v1504 : FVec F S16 .f32) (v1524 : FVec F S16 .f32) (v1544 : FVec F S16 .f32) (v1564 : FVec F S16 .f32) (v1584 : FVec F S16 .f32) (v1604 : FVec F S16 .f32) (v1624 : FVec F S16 .f32) (v1645 : FVec F S16 .f32) (c0_i32_541 : BitVec 32) (c32_i32_542 : BitVec 32)
    (k : Fin k0_t6_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t6_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq6 (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32) (v1504 : FVec F S16 .f32) (v1524 : FVec F S16 .f32) (v1544 : FVec F S16 .f32) (v1564 : FVec F S16 .f32) (v1584 : FVec F S16 .f32) (v1604 : FVec F S16 .f32) (v1624 : FVec F S16 .f32) (v1645 : FVec F S16 .f32) (c0_i32_541 : BitVec 32) (c32_i32_542 : BitVec 32)
    (k : Fin k0_t6_loop.trips) (c2 : Buf (Elt F) ((B0).view.loc (thr d L))) (c3 : Buf (Elt F) ((B1).view.loc (thr d L))) (acc : Acc F) :
    (tripRun6 (U := U) d L k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542 k c2 c3).val acc
      = tripSpec6 d L k0_h2 v1369 v1374 v1379 v1384 v1389 v1394 v1399 v1404 v1409 v1414 v1419 v1424 v1429 v1434 v1439 v1444 v1449 v1454 v1459 v1464 v1469 v1474 v1479 v1484 k c2 c3 acc := rfl

/-- Trip `k` of the scan, as a step on the carried minima (the identity past the last trip). -/
def stepN6 (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32)
    (c2 c3 : Buf (Elt F) ((B0).view.loc (thr d L))) (k : ℕ) (acc : Acc F) : Acc F :=
  if h : k < k0_t6_loop.trips then tripSpec6 d L k0_h2 v1369 v1374 v1379 v1384 v1389 v1394 v1399 v1404 v1409 v1414 v1419 v1424 v1429 v1434 v1439 v1444 v1449 v1454 v1459 v1464 v1469 v1474 v1479 v1484 ⟨k, h⟩ c2 c3 acc else acc

/-- The carried minima before trip `k`. -/
def iter6 (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32)
    (c2 c3 : Buf (Elt F) ((B0).view.loc (thr d L))) (init : Acc F) : ℕ → Acc F
  | 0 => init
  | k + 1 => stepN6 d L k0_h2 v1369 v1374 v1379 v1384 v1389 v1394 v1399 v1404 v1409 v1414 v1419 v1424 v1429 v1434 v1439 v1444 v1449 v1454 v1459 v1464 v1469 v1474 v1479 v1484 c2 c3 k (iter6 L k0_h2 v1369 v1374 v1379 v1384 v1389 v1394 v1399 v1404 v1409 v1414 v1419 v1424 v1429 v1434 v1439 v1444 v1449 v1454 v1459 v1464 v1469 v1474 v1479 v1484 c2 c3 init k)

theorem iter6_succ (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32)
    (c2 c3 : Buf (Elt F) ((B0).view.loc (thr d L))) (init : Acc F) (k : Fin k0_t6_loop.trips) :
    iter6 d L k0_h2 v1369 v1374 v1379 v1384 v1389 v1394 v1399 v1404 v1409 v1414 v1419 v1424 v1429 v1434 v1439 v1444 v1449 v1454 v1459 v1464 v1469 v1474 v1479 v1484 c2 c3 init (k.val + 1)
      = tripSpec6 d L k0_h2 v1369 v1374 v1379 v1384 v1389 v1394 v1399 v1404 v1409 v1414 v1419 v1424 v1429 v1434 v1439 v1444 v1449 v1454 v1459 v1464 v1469 v1474 v1479 v1484 k c2 c3 (iter6 d L k0_h2 v1369 v1374 v1379 v1384 v1389 v1394 v1399 v1404 v1409 v1414 v1419 v1424 v1429 v1434 v1439 v1444 v1449 v1454 v1459 v1464 v1469 v1474 v1479 v1484 c2 c3 init k.val) := by
  show stepN6 d L k0_h2 v1369 v1374 v1379 v1384 v1389 v1394 v1399 v1404 v1409 v1414 v1419 v1424 v1429 v1434 v1439 v1444 v1449 v1454 v1459 v1464 v1469 v1474 v1479 v1484 c2 c3 k.val _ = _
  unfold stepN6
  rw [dif_pos k.isLt]

set_option maxHeartbeats 2000000 in
/-- The scan loop of SparseCore 0, whatever follows it: it only reads the two candidate buffers and hands on the minima
    after all its trips. -/
theorem loop6 (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32) (v1504 : FVec F S16 .f32) (v1524 : FVec F S16 .f32) (v1544 : FVec F S16 .f32) (v1564 : FVec F S16 .f32) (v1584 : FVec F S16 .f32) (v1604 : FVec F S16 .f32) (v1624 : FVec F S16 .f32) (v1645 : FVec F S16 .f32) (c0_i32_541 : BitVec 32) (c32_i32_542 : BitVec 32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter6 d L k0_h2 v1369 v1374 v1379 v1384 v1389 v1394 v1399 v1404 v1409 v1414 v1419 v1424 v1429 v1434 v1439 v1444 v1449 v1454 v1459 v1464 v1469 v1474 v1479 v1484 c2 c3 init k0_t6_loop.trips)) Q)) : sProp 𝕄)
      ⊢ wp frame (wpE (defs₀ (F := F)) Variants.none (thr d L) none) Set.univ
          (Scf.Loop.for k0_t6_loop (k0_t6_ok L k0_h2) init
            (k0_t6_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542) >>= kk) Q := by
  iintro ⟨HB2, HB3, Hk⟩
  sl_for (fun (k : Nat) (acc : Acc F) => (iprop(⌜acc = iter6 d L k0_h2 v1369 v1374 v1379 v1384 v1389 v1394 v1399 v1404 v1409 v1414 v1419 v1424 v1429 v1434 v1439 v1444 v1449 v1454 v1459 v1464 v1469 v1474 v1479 v1484 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun6 (U := U) d L k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542 k c2 c3).2 acc)
      isplitl [HB2]; · iexact HB2
      iexact HB3
    · iintro %r ⟨%hr, HB2, HB3⟩
      isplitr
      · ipureintro
        rw [hr, trip_eq6, hacc]
        exact (iter6_succ d L k0_h2 v1369 v1374 v1379 v1384 v1389 v1394 v1399 v1404 v1409 v1414 v1419 v1424 v1429 v1434 v1439 v1444 v1449 v1454 v1459 v1464 v1469 v1474 v1479 v1484 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop6' (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32) (v1504 : FVec F S16 .f32) (v1524 : FVec F S16 .f32) (v1544 : FVec F S16 .f32) (v1564 : FVec F S16 .f32) (v1584 : FVec F S16 .f32) (v1604 : FVec F S16 .f32) (v1624 : FVec F S16 .f32) (v1645 : FVec F S16 .f32) (c0_i32_541 : BitVec 32) (c32_i32_542 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter6 d L k0_h2 v1369 v1374 v1379 v1384 v1389 v1394 v1399 v1404 v1409 v1414 v1419 v1424 v1429 v1434 v1439 v1444 v1449 v1454 v1459 v1464 v1469 v1474 v1479 v1484 c2 c3 init k0_t6_loop.trips))) : sProp 𝕄)
      ⊢ wp frame (wpE (defs₀ (F := F)) Variants.none (thr d L) none) Set.univ
          (Scf.Loop.for k0_t6_loop (k0_t6_ok L k0_h2) init
            (k0_t6_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542)) Φ := by
  rw [← Prog.bind_pure (Scf.Loop.for k0_t6_loop (k0_t6_ok L k0_h2) init
            (k0_t6_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542))]
  iintro ⟨HB2, HB3, Hk⟩
  iapply (loop6 (F := F) (U := U) d L k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop6'' (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32) (v1504 : FVec F S16 .f32) (v1524 : FVec F S16 .f32) (v1544 : FVec F S16 .f32) (v1564 : FVec F S16 .f32) (v1584 : FVec F S16 .f32) (v1604 : FVec F S16 .f32) (v1624 : FVec F S16 .f32) (v1645 : FVec F S16 .f32) (c0_i32_541 : BitVec 32) (c32_i32_542 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter6 d L k0_h2 v1369 v1374 v1379 v1384 v1389 v1394 v1399 v1404 v1409 v1414 v1419 v1424 v1429 v1434 v1439 v1444 v1449 v1454 v1459 v1464 v1469 v1474 v1479 v1484 c2 c3 init k0_t6_loop.trips)))) : sProp 𝕄)
      ⊢ wp frame (wpE (defs₀ (F := F)) Variants.none (thr d L) none) Set.univ
          (Scf.Loop.for k0_t6_loop (k0_t6_ok L k0_h2) init
            (k0_t6_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542)) Φ :=
  loop6' (F := F) (U := U) d L k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542 c2 c3 init Φ

/-- The loop, the minima handed on under a NAME with the equation that says what they are. -/
theorem loop6v (L : grid0.Coords) (k0_h2 : k0_cond2 L = 1#1) (v1369 : FVec F S16 .f32) (v1374 : FVec F S16 .f32) (v1379 : FVec F S16 .f32) (v1384 : FVec F S16 .f32) (v1389 : FVec F S16 .f32) (v1394 : FVec F S16 .f32) (v1399 : FVec F S16 .f32) (v1404 : FVec F S16 .f32) (v1409 : FVec F S16 .f32) (v1414 : FVec F S16 .f32) (v1419 : FVec F S16 .f32) (v1424 : FVec F S16 .f32) (v1429 : FVec F S16 .f32) (v1434 : FVec F S16 .f32) (v1439 : FVec F S16 .f32) (v1444 : FVec F S16 .f32) (v1449 : FVec F S16 .f32) (v1454 : FVec F S16 .f32) (v1459 : FVec F S16 .f32) (v1464 : FVec F S16 .f32) (v1469 : FVec F S16 .f32) (v1474 : FVec F S16 .f32) (v1479 : FVec F S16 .f32) (v1484 : FVec F S16 .f32) (v1504 : FVec F S16 .f32) (v1524 : FVec F S16 .f32) (v1544 : FVec F S16 .f32) (v1564 : FVec F S16 .f32) (v1584 : FVec F S16 .f32) (v1604 : FVec F S16 .f32) (v1624 : FVec F S16 .f32) (v1645 : FVec F S16 .f32) (c0_i32_541 : BitVec 32) (c32_i32_542 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter6 d L k0_h2 v1369 v1374 v1379 v1384 v1389 v1394 v1399 v1404 v1409 v1414 v1419 v1424 v1429 v1434 v1439 v1444 v1449 v1454 v1459 v1464 v1469 v1474 v1479 v1484 c2 c3 init k0_t6_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t6_loop (k0_t6_ok L k0_h2) init
            (k0_t6_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542)) Φ := by
  iintro ⟨HB2, HB3, Hk⟩
  iapply (loop6' (F := F) (U := U) d L k0_h2 v1369 v1374 v1379 v1384 v1389 v1394 v1399 v1404 v1409 v1414 v1419 v1424 v1429 v1434 v1439 v1444 v1449 v1454 v1459 v1464 v1469 v1474 v1479 v1484 v1504 v1524 v1544 v1564 v1584 v1604 v1624 v1645 c0_i32_541 c32_i32_542 c2 c3 init Φ) $$ [HB2 HB3 Hk]
  isplitl [HB2]; · iexact HB2
  isplitl [HB3]; · iexact HB3
  iintro H
  ispecialize Hk $$ %(iter6 d L k0_h2 v1369 v1374 v1379 v1384 v1389 v1394 v1399 v1404 v1409 v1414 v1419 v1424 v1429 v1434 v1439 v1444 v1449 v1454 v1459 v1464 v1469 v1474 v1479 v1484 c2 c3 init k0_t6_loop.trips) %rfl
  iapply Hk; iexact H

end Cert.Proof.ScI

end
-- ==== Proof.ScVal1_7.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 6 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv7 (L : grid0.Coords) (k0_h2 : k0_cond2 L = 1#1) (k : Fin k0_t7_loop.trips) (c : Buf (Elt F) ((B0).view.loc (thr d L))) (a : Fin 3) : FVec F S16 .f32 :=
  match a with
  | 0 => shapeCast S16 ((B0).view.readAt (Elt F) (Rect.unit (s := S3x512) (k0_off29 k) S1x16.size (k0_off29_inb L k k0_h2)).toLoadRect c) shapeCasts_S1x16_S16
  | 1 => shapeCast S16 ((B0).view.readAt (Elt F) (Rect.unit (s := S3x512) (k0_off30 k) S1x16.size (k0_off30_inb L k k0_h2)).toLoadRect c) shapeCasts_S1x16_S16
  | 2 => shapeCast S16 ((B0).view.readAt (Elt F) (Rect.unit (s := S3x512) (k0_off31 k) S1x16.size (k0_off31_inb L k k0_h2)).toLoadRect c) shapeCasts_S1x16_S16

/-- One trip of the scan as a function: every block of rows against the trip's chunk of candidates. -/
def tripSpec7 (L : grid0.Coords) (k0_h2 : k0_cond2 L = 1#1) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32)
    (k : Fin k0_t7_loop.trips) (c2 c3 : Buf (Elt F) ((B0).view.loc (thr d L))) (acc : Acc F) : Acc F :=
  (chunk v1701 v1741 v1781 acc.1 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)),
   chunk v1706 v1746 v1786 acc.2.1 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)),
   chunk v1711 v1751 v1791 acc.2.2.1 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)),
   chunk v1716 v1756 v1796 acc.2.2.2.1 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)),
   chunk v1721 v1761 v1801 acc.2.2.2.2.1 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)),
   chunk v1726 v1766 v1806 acc.2.2.2.2.2.1 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)),
   chunk v1731 v1771 v1811 acc.2.2.2.2.2.2.1 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)),
   chunk v1736 v1776 v1816 acc.2.2.2.2.2.2.2 (ldv7 d L k0_h2 k c2 0) (ldv7 d L k0_h2 k c2 1) (ldv7 d L k0_h2 k c2 2) (nrmv (ldv7 d L k0_h2 k c3 0) (ldv7 d L k0_h2 k c3 1) (ldv7 d L k0_h2 k c3 2)))

set_option maxHeartbeats 4000000 in
/-- One trip of SparseCore 0's scan, run once at symbolic operands: the carried minima after the trip as a function of
    those before it (found by the run), the two candidate buffers only read. -/
noncomputable def tripRun7 (L : grid0.Coords) (k0_h2 : k0_cond2 L = 1#1) (v1696 : BitVec 32) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32) (v1836 : FVec F S16 .f32) (v1856 : FVec F S16 .f32) (v1941 : FVec F S16 .f32) (v1946 : FVec F S16 .f32) (v1947 : BitVec 32)
    (k : Fin k0_t7_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t7_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq7 (L : grid0.Coords) (k0_h2 : k0_cond2 L = 1#1) (v1696 : BitVec 32) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32) (v1836 : FVec F S16 .f32) (v1856 : FVec F S16 .f32) (v1941 : FVec F S16 .f32) (v1946 : FVec F S16 .f32) (v1947 : BitVec 32)
    (k : Fin k0_t7_loop.trips) (c2 : Buf (Elt F) ((B0).view.loc (thr d L))) (c3 : Buf (Elt F) ((B1).view.loc (thr d L))) (acc : Acc F) :
    (tripRun7 (U := U) d L k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947 k c2 c3).val acc
      = tripSpec7 d L k0_h2 v1701 v1706 v1711 v1716 v1721 v1726 v1731 v1736 v1741 v1746 v1751 v1756 v1761 v1766 v1771 v1776 v1781 v1786 v1791 v1796 v1801 v1806 v1811 v1816 k c2 c3 acc := rfl

/-- Trip `k` of the scan, as a step on the carried minima (the identity past the last trip). -/
def stepN7 (L : grid0.Coords) (k0_h2 : k0_cond2 L = 1#1) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32)
    (c2 c3 : Buf (Elt F) ((B0).view.loc (thr d L))) (k : ℕ) (acc : Acc F) : Acc F :=
  if h : k < k0_t7_loop.trips then tripSpec7 d L k0_h2 v1701 v1706 v1711 v1716 v1721 v1726 v1731 v1736 v1741 v1746 v1751 v1756 v1761 v1766 v1771 v1776 v1781 v1786 v1791 v1796 v1801 v1806 v1811 v1816 ⟨k, h⟩ c2 c3 acc else acc

/-- The carried minima before trip `k`. -/
def iter7 (L : grid0.Coords) (k0_h2 : k0_cond2 L = 1#1) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32)
    (c2 c3 : Buf (Elt F) ((B0).view.loc (thr d L))) (init : Acc F) : ℕ → Acc F
  | 0 => init
  | k + 1 => stepN7 d L k0_h2 v1701 v1706 v1711 v1716 v1721 v1726 v1731 v1736 v1741 v1746 v1751 v1756 v1761 v1766 v1771 v1776 v1781 v1786 v1791 v1796 v1801 v1806 v1811 v1816 c2 c3 k (iter7 L k0_h2 v1701 v1706 v1711 v1716 v1721 v1726 v1731 v1736 v1741 v1746 v1751 v1756 v1761 v1766 v1771 v1776 v1781 v1786 v1791 v1796 v1801 v1806 v1811 v1816 c2 c3 init k)

theorem iter7_succ (L : grid0.Coords) (k0_h2 : k0_cond2 L = 1#1) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32)
    (c2 c3 : Buf (Elt F) ((B0).view.loc (thr d L))) (init : Acc F) (k : Fin k0_t7_loop.trips) :
    iter7 d L k0_h2 v1701 v1706 v1711 v1716 v1721 v1726 v1731 v1736 v1741 v1746 v1751 v1756 v1761 v1766 v1771 v1776 v1781 v1786 v1791 v1796 v1801 v1806 v1811 v1816 c2 c3 init (k.val + 1)
      = tripSpec7 d L k0_h2 v1701 v1706 v1711 v1716 v1721 v1726 v1731 v1736 v1741 v1746 v1751 v1756 v1761 v1766 v1771 v1776 v1781 v1786 v1791 v1796 v1801 v1806 v1811 v1816 k c2 c3 (iter7 d L k0_h2 v1701 v1706 v1711 v1716 v1721 v1726 v1731 v1736 v1741 v1746 v1751 v1756 v1761 v1766 v1771 v1776 v1781 v1786 v1791 v1796 v1801 v1806 v1811 v1816 c2 c3 init k.val) := by
  show stepN7 d L k0_h2 v1701 v1706 v1711 v1716 v1721 v1726 v1731 v1736 v1741 v1746 v1751 v1756 v1761 v1766 v1771 v1776 v1781 v1786 v1791 v1796 v1801 v1806 v1811 v1816 c2 c3 k.val _ = _
  unfold stepN7
  rw [dif_pos k.isLt]

set_option maxHeartbeats 2000000 in
/-- The scan loop of SparseCore 0, whatever follows it: it only reads the two candidate buffers and hands on the minima
    after all its trips. -/
theorem loop7 (L : grid0.Coords) (k0_h2 : k0_cond2 L = 1#1) (v1696 : BitVec 32) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32) (v1836 : FVec F S16 .f32) (v1856 : FVec F S16 .f32) (v1941 : FVec F S16 .f32) (v1946 : FVec F S16 .f32) (v1947 : BitVec 32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter7 d L k0_h2 v1701 v1706 v1711 v1716 v1721 v1726 v1731 v1736 v1741 v1746 v1751 v1756 v1761 v1766 v1771 v1776 v1781 v1786 v1791 v1796 v1801 v1806 v1811 v1816 c2 c3 init k0_t7_loop.trips)) Q)) : sProp 𝕄)
      ⊢ wp frame (wpE (defs₀ (F := F)) Variants.none (thr d L) none) Set.univ
          (Scf.Loop.for k0_t7_loop (k0_t7_ok L k0_h2) init
            (k0_t7_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947) >>= kk) Q := by
  iintro ⟨HB2, HB3, Hk⟩
  sl_for (fun (k : Nat) (acc : Acc F) => (iprop(⌜acc = iter7 d L k0_h2 v1701 v1706 v1711 v1716 v1721 v1726 v1731 v1736 v1741 v1746 v1751 v1756 v1761 v1766 v1771 v1776 v1781 v1786 v1791 v1796 v1801 v1806 v1811 v1816 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun7 (U := U) d L k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947 k c2 c3).2 acc)
      isplitl [HB2]; · iexact HB2
      iexact HB3
    · iintro %r ⟨%hr, HB2, HB3⟩
      isplitr
      · ipureintro
        rw [hr, trip_eq7, hacc]
        exact (iter7_succ d L k0_h2 v1701 v1706 v1711 v1716 v1721 v1726 v1731 v1736 v1741 v1746 v1751 v1756 v1761 v1766 v1771 v1776 v1781 v1786 v1791 v1796 v1801 v1806 v1811 v1816 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop7' (L : grid0.Coords) (k0_h2 : k0_cond2 L = 1#1) (v1696 : BitVec 32) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32) (v1836 : FVec F S16 .f32) (v1856 : FVec F S16 .f32) (v1941 : FVec F S16 .f32) (v1946 : FVec F S16 .f32) (v1947 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter7 d L k0_h2 v1701 v1706 v1711 v1716 v1721 v1726 v1731 v1736 v1741 v1746 v1751 v1756 v1761 v1766 v1771 v1776 v1781 v1786 v1791 v1796 v1801 v1806 v1811 v1816 c2 c3 init k0_t7_loop.trips))) : sProp 𝕄)
      ⊢ wp frame (wpE (defs₀ (F := F)) Variants.none (thr d L) none) Set.univ
          (Scf.Loop.for k0_t7_loop (k0_t7_ok L k0_h2) init
            (k0_t7_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947)) Φ := by
  rw [← Prog.bind_pure (Scf.Loop.for k0_t7_loop (k0_t7_ok L k0_h2) init
            (k0_t7_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947))]
  iintro ⟨HB2, HB3, Hk⟩
  iapply (loop7 (F := F) (U := U) d L k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop7'' (L : grid0.Coords) (k0_h2 : k0_cond2 L = 1#1) (v1696 : BitVec 32) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32) (v1836 : FVec F S16 .f32) (v1856 : FVec F S16 .f32) (v1941 : FVec F S16 .f32) (v1946 : FVec F S16 .f32) (v1947 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter7 d L k0_h2 v1701 v1706 v1711 v1716 v1721 v1726 v1731 v1736 v1741 v1746 v1751 v1756 v1761 v1766 v1771 v1776 v1781 v1786 v1791 v1796 v1801 v1806 v1811 v1816 c2 c3 init k0_t7_loop.trips)))) : sProp 𝕄)
      ⊢ wp frame (wpE (defs₀ (F := F)) Variants.none (thr d L) none) Set.univ
          (Scf.Loop.for k0_t7_loop (k0_t7_ok L k0_h2) init
            (k0_t7_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947)) Φ :=
  loop7' (F := F) (U := U) d L k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947 c2 c3 init Φ

/-- The loop, the minima handed on under a NAME with the equation that says what they are. -/
theorem loop7v (L : grid0.Coords) (k0_h2 : k0_cond2 L = 1#1) (v1696 : BitVec 32) (v1701 : FVec F S16 .f32) (v1706 : FVec F S16 .f32) (v1711 : FVec F S16 .f32) (v1716 : FVec F S16 .f32) (v1721 : FVec F S16 .f32) (v1726 : FVec F S16 .f32) (v1731 : FVec F S16 .f32) (v1736 : FVec F S16 .f32) (v1741 : FVec F S16 .f32) (v1746 : FVec F S16 .f32) (v1751 : FVec F S16 .f32) (v1756 : FVec F S16 .f32) (v1761 : FVec F S16 .f32) (v1766 : FVec F S16 .f32) (v1771 : FVec F S16 .f32) (v1776 : FVec F S16 .f32) (v1781 : FVec F S16 .f32) (v1786 : FVec F S16 .f32) (v1791 : FVec F S16 .f32) (v1796 : FVec F S16 .f32) (v1801 : FVec F S16 .f32) (v1806 : FVec F S16 .f32) (v1811 : FVec F S16 .f32) (v1816 : FVec F S16 .f32) (v1836 : FVec F S16 .f32) (v1856 : FVec F S16 .f32) (v1941 : FVec F S16 .f32) (v1946 : FVec F S16 .f32) (v1947 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter7 d L k0_h2 v1701 v1706 v1711 v1716 v1721 v1726 v1731 v1736 v1741 v1746 v1751 v1756 v1761 v1766 v1771 v1776 v1781 v1786 v1791 v1796 v1801 v1806 v1811 v1816 c2 c3 init k0_t7_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t7_loop (k0_t7_ok L k0_h2) init
            (k0_t7_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947)) Φ := by
  iintro ⟨HB2, HB3, Hk⟩
  iapply (loop7' (F := F) (U := U) d L k0_h2 v1696 v1701 v1706 v1711 v1716 v1721 v1726 v1731 v1736 v1741 v1746 v1751 v1756 v1761 v1766 v1771 v1776 v1781 v1786 v1791 v1796 v1801 v1806 v1811 v1816 v1836 v1856 v1941 v1946 v1947 c2 c3 init Φ) $$ [HB2 HB3 Hk]
  isplitl [HB2]; · iexact HB2
  isplitl [HB3]; · iexact HB3
  iintro H
  ispecialize Hk $$ %(iter7 d L k0_h2 v1701 v1706 v1711 v1716 v1721 v1726 v1731 v1736 v1741 v1746 v1751 v1756 v1761 v1766 v1771 v1776 v1781 v1786 v1791 v1796 v1801 v1806 v1811 v1816 c2 c3 init k0_t7_loop.trips) %rfl
  iapply Hk; iexact H

end Cert.Proof.ScI

end
-- ==== Proof.ScVal1_8.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 7 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv8 (L : grid0.Coords) (k0_h2 : k0_cond2 L = 1#1) (k : Fin k0_t8_loop.trips) (c : Buf (Elt F) ((B0).view.loc (thr d L))) (a : Fin 3) : FVec F S16 .f32 :=
  match a with
  | 0 => shapeCast S16 ((B0).view.readAt (Elt F) (Rect.unit (s := S3x512) (k0_off32 k) S1x16.size (k0_off32_inb L k k0_h2)).toLoadRect c) shapeCasts_S1x16_S16
  | 1 => shapeCast S16 ((B0).view.readAt (Elt F) (Rect.unit (s := S3x512) (k0_off33 k) S1x16.size (k0_off33_inb L k k0_h2)).toLoadRect c) shapeCasts_S1x16_S16
  | 2 => shapeCast S16 ((B0).view.readAt (Elt F) (Rect.unit (s := S3x512) (k0_off34 k) S1x16.size (k0_off34_inb L k k0_h2)).toLoadRect c) shapeCasts_S1x16_S16

/-- One trip of the scan as a function: every block of rows against the trip's chunk of candidates. -/
def tripSpec8 (L : grid0.Coords) (k0_h2 : k0_cond2 L = 1#1) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32)
    (k : Fin k0_t8_loop.trips) (c2 c3 : Buf (Elt F) ((B0).view.loc (thr d L))) (acc : Acc F) : Acc F :=
  (chunk v2033 v2073 v2113 acc.1 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)),
   chunk v2038 v2078 v2118 acc.2.1 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)),
   chunk v2043 v2083 v2123 acc.2.2.1 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)),
   chunk v2048 v2088 v2128 acc.2.2.2.1 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)),
   chunk v2053 v2093 v2133 acc.2.2.2.2.1 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)),
   chunk v2058 v2098 v2138 acc.2.2.2.2.2.1 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)),
   chunk v2063 v2103 v2143 acc.2.2.2.2.2.2.1 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)),
   chunk v2068 v2108 v2148 acc.2.2.2.2.2.2.2 (ldv8 d L k0_h2 k c2 0) (ldv8 d L k0_h2 k c2 1) (ldv8 d L k0_h2 k c2 2) (nrmv (ldv8 d L k0_h2 k c3 0) (ldv8 d L k0_h2 k c3 1) (ldv8 d L k0_h2 k c3 2)))

set_option maxHeartbeats 4000000 in
/-- One trip of SparseCore 0's scan, run once at symbolic operands: the carried minima after the trip as a function of
    those before it (found by the run), the two candidate buffers only read. -/
noncomputable def tripRun8 (L : grid0.Coords) (k0_h2 : k0_cond2 L = 1#1) (v2028 : BitVec 32) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32) (v2168 : FVec F S16 .f32) (v2188 : FVec F S16 .f32) (v2208 : FVec F S16 .f32) (v2228 : FVec F S16 .f32) (v2248 : FVec F S16 .f32) (v2293 : FVec F S16 .f32) (v2298 : FVec F S16 .f32)
    (k : Fin k0_t8_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t8_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq8 (L : grid0.Coords) (k0_h2 : k0_cond2 L = 1#1) (v2028 : BitVec 32) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32) (v2168 : FVec F S16 .f32) (v2188 : FVec F S16 .f32) (v2208 : FVec F S16 .f32) (v2228 : FVec F S16 .f32) (v2248 : FVec F S16 .f32) (v2293 : FVec F S16 .f32) (v2298 : FVec F S16 .f32)
    (k : Fin k0_t8_loop.trips) (c2 : Buf (Elt F) ((B0).view.loc (thr d L))) (c3 : Buf (Elt F) ((B1).view.loc (thr d L))) (acc : Acc F) :
    (tripRun8 (U := U) d L k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298 k c2 c3).val acc
      = tripSpec8 d L k0_h2 v2033 v2038 v2043 v2048 v2053 v2058 v2063 v2068 v2073 v2078 v2083 v2088 v2093 v2098 v2103 v2108 v2113 v2118 v2123 v2128 v2133 v2138 v2143 v2148 k c2 c3 acc := rfl

/-- Trip `k` of the scan, as a step on the carried minima (the identity past the last trip). -/
def stepN8 (L : grid0.Coords) (k0_h2 : k0_cond2 L = 1#1) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32)
    (c2 c3 : Buf (Elt F) ((B0).view.loc (thr d L))) (k : ℕ) (acc : Acc F) : Acc F :=
  if h : k < k0_t8_loop.trips then tripSpec8 d L k0_h2 v2033 v2038 v2043 v2048 v2053 v2058 v2063 v2068 v2073 v2078 v2083 v2088 v2093 v2098 v2103 v2108 v2113 v2118 v2123 v2128 v2133 v2138 v2143 v2148 ⟨k, h⟩ c2 c3 acc else acc

/-- The carried minima before trip `k`. -/
def iter8 (L : grid0.Coords) (k0_h2 : k0_cond2 L = 1#1) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32)
    (c2 c3 : Buf (Elt F) ((B0).view.loc (thr d L))) (init : Acc F) : ℕ → Acc F
  | 0 => init
  | k + 1 => stepN8 d L k0_h2 v2033 v2038 v2043 v2048 v2053 v2058 v2063 v2068 v2073 v2078 v2083 v2088 v2093 v2098 v2103 v2108 v2113 v2118 v2123 v2128 v2133 v2138 v2143 v2148 c2 c3 k (iter8 L k0_h2 v2033 v2038 v2043 v2048 v2053 v2058 v2063 v2068 v2073 v2078 v2083 v2088 v2093 v2098 v2103 v2108 v2113 v2118 v2123 v2128 v2133 v2138 v2143 v2148 c2 c3 init k)

theorem iter8_succ (L : grid0.Coords) (k0_h2 : k0_cond2 L = 1#1) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32)
    (c2 c3 : Buf (Elt F) ((B0).view.loc (thr d L))) (init : Acc F) (k : Fin k0_t8_loop.trips) :
    iter8 d L k0_h2 v2033 v2038 v2043 v2048 v2053 v2058 v2063 v2068 v2073 v2078 v2083 v2088 v2093 v2098 v2103 v2108 v2113 v2118 v2123 v2128 v2133 v2138 v2143 v2148 c2 c3 init (k.val + 1)
      = tripSpec8 d L k0_h2 v2033 v2038 v2043 v2048 v2053 v2058 v2063 v2068 v2073 v2078 v2083 v2088 v2093 v2098 v2103 v2108 v2113 v2118 v2123 v2128 v2133 v2138 v2143 v2148 k c2 c3 (iter8 d L k0_h2 v2033 v2038 v2043 v2048 v2053 v2058 v2063 v2068 v2073 v2078 v2083 v2088 v2093 v2098 v2103 v2108 v2113 v2118 v2123 v2128 v2133 v2138 v2143 v2148 c2 c3 init k.val) := by
  show stepN8 d L k0_h2 v2033 v2038 v2043 v2048 v2053 v2058 v2063 v2068 v2073 v2078 v2083 v2088 v2093 v2098 v2103 v2108 v2113 v2118 v2123 v2128 v2133 v2138 v2143 v2148 c2 c3 k.val _ = _
  unfold stepN8
  rw [dif_pos k.isLt]

set_option maxHeartbeats 2000000 in
/-- The scan loop of SparseCore 0, whatever follows it: it only reads the two candidate buffers and hands on the minima
    after all its trips. -/
theorem loop8 (L : grid0.Coords) (k0_h2 : k0_cond2 L = 1#1) (v2028 : BitVec 32) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32) (v2168 : FVec F S16 .f32) (v2188 : FVec F S16 .f32) (v2208 : FVec F S16 .f32) (v2228 : FVec F S16 .f32) (v2248 : FVec F S16 .f32) (v2293 : FVec F S16 .f32) (v2298 : FVec F S16 .f32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter8 d L k0_h2 v2033 v2038 v2043 v2048 v2053 v2058 v2063 v2068 v2073 v2078 v2083 v2088 v2093 v2098 v2103 v2108 v2113 v2118 v2123 v2128 v2133 v2138 v2143 v2148 c2 c3 init k0_t8_loop.trips)) Q)) : sProp 𝕄)
      ⊢ wp frame (wpE (defs₀ (F := F)) Variants.none (thr d L) none) Set.univ
          (Scf.Loop.for k0_t8_loop (k0_t8_ok L k0_h2) init
            (k0_t8_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298) >>= kk) Q := by
  iintro ⟨HB2, HB3, Hk⟩
  sl_for (fun (k : Nat) (acc : Acc F) => (iprop(⌜acc = iter8 d L k0_h2 v2033 v2038 v2043 v2048 v2053 v2058 v2063 v2068 v2073 v2078 v2083 v2088 v2093 v2098 v2103 v2108 v2113 v2118 v2123 v2128 v2133 v2138 v2143 v2148 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun8 (U := U) d L k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298 k c2 c3).2 acc)
      isplitl [HB2]; · iexact HB2
      iexact HB3
    · iintro %r ⟨%hr, HB2, HB3⟩
      isplitr
      · ipureintro
        rw [hr, trip_eq8, hacc]
        exact (iter8_succ d L k0_h2 v2033 v2038 v2043 v2048 v2053 v2058 v2063 v2068 v2073 v2078 v2083 v2088 v2093 v2098 v2103 v2108 v2113 v2118 v2123 v2128 v2133 v2138 v2143 v2148 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop8' (L : grid0.Coords) (k0_h2 : k0_cond2 L = 1#1) (v2028 : BitVec 32) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32) (v2168 : FVec F S16 .f32) (v2188 : FVec F S16 .f32) (v2208 : FVec F S16 .f32) (v2228 : FVec F S16 .f32) (v2248 : FVec F S16 .f32) (v2293 : FVec F S16 .f32) (v2298 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter8 d L k0_h2 v2033 v2038 v2043 v2048 v2053 v2058 v2063 v2068 v2073 v2078 v2083 v2088 v2093 v2098 v2103 v2108 v2113 v2118 v2123 v2128 v2133 v2138 v2143 v2148 c2 c3 init k0_t8_loop.trips))) : sProp 𝕄)
      ⊢ wp frame (wpE (defs₀ (F := F)) Variants.none (thr d L) none) Set.univ
          (Scf.Loop.for k0_t8_loop (k0_t8_ok L k0_h2) init
            (k0_t8_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298)) Φ := by
  rw [← Prog.bind_pure (Scf.Loop.for k0_t8_loop (k0_t8_ok L k0_h2) init
            (k0_t8_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298))]
  iintro ⟨HB2, HB3, Hk⟩
  iapply (loop8 (F := F) (U := U) d L k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop8'' (L : grid0.Coords) (k0_h2 : k0_cond2 L = 1#1) (v2028 : BitVec 32) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32) (v2168 : FVec F S16 .f32) (v2188 : FVec F S16 .f32) (v2208 : FVec F S16 .f32) (v2228 : FVec F S16 .f32) (v2248 : FVec F S16 .f32) (v2293 : FVec F S16 .f32) (v2298 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter8 d L k0_h2 v2033 v2038 v2043 v2048 v2053 v2058 v2063 v2068 v2073 v2078 v2083 v2088 v2093 v2098 v2103 v2108 v2113 v2118 v2123 v2128 v2133 v2138 v2143 v2148 c2 c3 init k0_t8_loop.trips)))) : sProp 𝕄)
      ⊢ wp frame (wpE (defs₀ (F := F)) Variants.none (thr d L) none) Set.univ
          (Scf.Loop.for k0_t8_loop (k0_t8_ok L k0_h2) init
            (k0_t8_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298)) Φ :=
  loop8' (F := F) (U := U) d L k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298 c2 c3 init Φ

/-- The loop, the minima handed on under a NAME with the equation that says what they are. -/
theorem loop8v (L : grid0.Coords) (k0_h2 : k0_cond2 L = 1#1) (v2028 : BitVec 32) (v2033 : FVec F S16 .f32) (v2038 : FVec F S16 .f32) (v2043 : FVec F S16 .f32) (v2048 : FVec F S16 .f32) (v2053 : FVec F S16 .f32) (v2058 : FVec F S16 .f32) (v2063 : FVec F S16 .f32) (v2068 : FVec F S16 .f32) (v2073 : FVec F S16 .f32) (v2078 : FVec F S16 .f32) (v2083 : FVec F S16 .f32) (v2088 : FVec F S16 .f32) (v2093 : FVec F S16 .f32) (v2098 : FVec F S16 .f32) (v2103 : FVec F S16 .f32) (v2108 : FVec F S16 .f32) (v2113 : FVec F S16 .f32) (v2118 : FVec F S16 .f32) (v2123 : FVec F S16 .f32) (v2128 : FVec F S16 .f32) (v2133 : FVec F S16 .f32) (v2138 : FVec F S16 .f32) (v2143 : FVec F S16 .f32) (v2148 : FVec F S16 .f32) (v2168 : FVec F S16 .f32) (v2188 : FVec F S16 .f32) (v2208 : FVec F S16 .f32) (v2228 : FVec F S16 .f32) (v2248 : FVec F S16 .f32) (v2293 : FVec F S16 .f32) (v2298 : FVec F S16 .f32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter8 d L k0_h2 v2033 v2038 v2043 v2048 v2053 v2058 v2063 v2068 v2073 v2078 v2083 v2088 v2093 v2098 v2103 v2108 v2113 v2118 v2123 v2128 v2133 v2138 v2143 v2148 c2 c3 init k0_t8_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t8_loop (k0_t8_ok L k0_h2) init
            (k0_t8_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298)) Φ := by
  iintro ⟨HB2, HB3, Hk⟩
  iapply (loop8' (F := F) (U := U) d L k0_h2 v2028 v2033 v2038 v2043 v2048 v2053 v2058 v2063 v2068 v2073 v2078 v2083 v2088 v2093 v2098 v2103 v2108 v2113 v2118 v2123 v2128 v2133 v2138 v2143 v2148 v2168 v2188 v2208 v2228 v2248 v2293 v2298 c2 c3 init Φ) $$ [HB2 HB3 Hk]
  isplitl [HB2]; · iexact HB2
  isplitl [HB3]; · iexact HB3
  iintro H
  ispecialize Hk $$ %(iter8 d L k0_h2 v2033 v2038 v2043 v2048 v2053 v2058 v2063 v2068 v2073 v2078 v2083 v2088 v2093 v2098 v2103 v2108 v2113 v2118 v2123 v2128 v2133 v2138 v2143 v2148 c2 c3 init k0_t8_loop.trips) %rfl
  iapply Hk; iexact H

end Cert.Proof.ScI

end
-- ==== Proof.ScVal1_9.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal0BScI
/-!
  Scan loop 8 of the second SparseCore's branch: one trip as a function of the carried minima, the trips iterated, and
  the loop's rule — the loop only reads the two strip buffers and hands on the minima after all its trips.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

/-- Coordinate `a` of the chunk of sixteen points at offset `16 k` of a three-row candidate buffer. -/
def ldv9 (L : grid0.Coords) (k0_h2 : k0_cond2 L = 1#1) (k : Fin k0_t9_loop.trips) (c : Buf (Elt F) ((B0).view.loc (thr d L))) (a : Fin 3) : FVec F S16 .f32 :=
  match a with
  | 0 => shapeCast S16 ((B0).view.readAt (Elt F) (Rect.unit (s := S3x512) (k0_off35 k) S1x16.size (k0_off35_inb L k k0_h2)).toLoadRect c) shapeCasts_S1x16_S16
  | 1 => shapeCast S16 ((B0).view.readAt (Elt F) (Rect.unit (s := S3x512) (k0_off36 k) S1x16.size (k0_off36_inb L k k0_h2)).toLoadRect c) shapeCasts_S1x16_S16
  | 2 => shapeCast S16 ((B0).view.readAt (Elt F) (Rect.unit (s := S3x512) (k0_off37 k) S1x16.size (k0_off37_inb L k k0_h2)).toLoadRect c) shapeCasts_S1x16_S16

/-- One trip of the scan as a function: every block of rows against the trip's chunk of candidates. -/
def tripSpec9 (L : grid0.Coords) (k0_h2 : k0_cond2 L = 1#1) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32)
    (k : Fin k0_t9_loop.trips) (c2 c3 : Buf (Elt F) ((B0).view.loc (thr d L))) (acc : Acc F) : Acc F :=
  (chunk v2365 v2405 v2445 acc.1 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)),
   chunk v2370 v2410 v2450 acc.2.1 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)),
   chunk v2375 v2415 v2455 acc.2.2.1 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)),
   chunk v2380 v2420 v2460 acc.2.2.2.1 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)),
   chunk v2385 v2425 v2465 acc.2.2.2.2.1 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)),
   chunk v2390 v2430 v2470 acc.2.2.2.2.2.1 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)),
   chunk v2395 v2435 v2475 acc.2.2.2.2.2.2.1 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)),
   chunk v2400 v2440 v2480 acc.2.2.2.2.2.2.2 (ldv9 d L k0_h2 k c2 0) (ldv9 d L k0_h2 k c2 1) (ldv9 d L k0_h2 k c2 2) (nrmv (ldv9 d L k0_h2 k c3 0) (ldv9 d L k0_h2 k c3 1) (ldv9 d L k0_h2 k c3 2)))

set_option maxHeartbeats 4000000 in
/-- One trip of SparseCore 0's scan, run once at symbolic operands: the carried minima after the trip as a function of
    those before it (found by the run), the two candidate buffers only read. -/
noncomputable def tripRun9 (L : grid0.Coords) (k0_h2 : k0_cond2 L = 1#1) (v2360 : BitVec 32) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32) (v2500 : FVec F S16 .f32) (v2601 : BitVec 32)
    (k : Fin k0_t9_loop.trips) (c2 : Buf (Elt F) ((B0).view.loc (thr d L))) (c3 : Buf (Elt F) ((B1).view.loc (thr d L))) :
    { g : Acc F → Acc F // ∀ acc : Acc F,
      (iprop(((B0).view.loc (thr d L) ↦{fullShare} c2) ∗ ((B1).view.loc (thr d L) ↦{fullShare} c3)) : sProp 𝕄)
        ⊢ wp frame (wpE (defs₀ (F := F)) Variants.none (thr d L) none) Set.univ
            (k0_t9_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2360 v2365 v2370 v2375 v2380 v2385 v2390 v2395 v2400 v2405 v2410 v2415 v2420 v2425 v2430 v2435 v2440 v2445 v2450 v2455 v2460 v2465 v2470 v2475 v2480 v2500 v2601 k acc)
            fun r => iprop(⌜r = g acc⌝ ∗ ((B0).view.loc (thr d L) ↦{fullShare} c2) ∗ ((B1).view.loc (thr d L) ↦{fullShare} c3)) } := by
  refine ⟨?g, fun acc => ?run⟩
  case run =>
    iintro ⟨HB2, HB3⟩
    sl_exec_parts
    sl_step
    isplitr
    · ipureintro; rfl
    isplitl [HB2]; · iexact HB2
    iexact HB3

set_option maxRecDepth 100000 in
/-- The function the run found is the trip's formula. -/
theorem trip_eq9 (L : grid0.Coords) (k0_h2 : k0_cond2 L = 1#1) (v2360 : BitVec 32) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32) (v2500 : FVec F S16 .f32) (v2601 : BitVec 32)
    (k : Fin k0_t9_loop.trips) (c2 : Buf (Elt F) ((B0).view.loc (thr d L))) (c3 : Buf (Elt F) ((B1).view.loc (thr d L))) (acc : Acc F) :
    (tripRun9 (U := U) d L k0_h2 v2360 v2365 v2370 v2375 v2380 v2385 v2390 v2395 v2400 v2405 v2410 v2415 v2420 v2425 v2430 v2435 v2440 v2445 v2450 v2455 v2460 v2465 v2470 v2475 v2480 v2500 v2601 k c2 c3).val acc
      = tripSpec9 d L k0_h2 v2365 v2370 v2375 v2380 v2385 v2390 v2395 v2400 v2405 v2410 v2415 v2420 v2425 v2430 v2435 v2440 v2445 v2450 v2455 v2460 v2465 v2470 v2475 v2480 k c2 c3 acc := rfl

/-- Trip `k` of the scan, as a step on the carried minima (the identity past the last trip). -/
def stepN9 (L : grid0.Coords) (k0_h2 : k0_cond2 L = 1#1) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32)
    (c2 c3 : Buf (Elt F) ((B0).view.loc (thr d L))) (k : ℕ) (acc : Acc F) : Acc F :=
  if h : k < k0_t9_loop.trips then tripSpec9 d L k0_h2 v2365 v2370 v2375 v2380 v2385 v2390 v2395 v2400 v2405 v2410 v2415 v2420 v2425 v2430 v2435 v2440 v2445 v2450 v2455 v2460 v2465 v2470 v2475 v2480 ⟨k, h⟩ c2 c3 acc else acc

/-- The carried minima before trip `k`. -/
def iter9 (L : grid0.Coords) (k0_h2 : k0_cond2 L = 1#1) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32)
    (c2 c3 : Buf (Elt F) ((B0).view.loc (thr d L))) (init : Acc F) : ℕ → Acc F
  | 0 => init
  | k + 1 => stepN9 d L k0_h2 v2365 v2370 v2375 v2380 v2385 v2390 v2395 v2400 v2405 v2410 v2415 v2420 v2425 v2430 v2435 v2440 v2445 v2450 v2455 v2460 v2465 v2470 v2475 v2480 c2 c3 k (iter9 L k0_h2 v2365 v2370 v2375 v2380 v2385 v2390 v2395 v2400 v2405 v2410 v2415 v2420 v2425 v2430 v2435 v2440 v2445 v2450 v2455 v2460 v2465 v2470 v2475 v2480 c2 c3 init k)

theorem iter9_succ (L : grid0.Coords) (k0_h2 : k0_cond2 L = 1#1) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32)
    (c2 c3 : Buf (Elt F) ((B0).view.loc (thr d L))) (init : Acc F) (k : Fin k0_t9_loop.trips) :
    iter9 d L k0_h2 v2365 v2370 v2375 v2380 v2385 v2390 v2395 v2400 v2405 v2410 v2415 v2420 v2425 v2430 v2435 v2440 v2445 v2450 v2455 v2460 v2465 v2470 v2475 v2480 c2 c3 init (k.val + 1)
      = tripSpec9 d L k0_h2 v2365 v2370 v2375 v2380 v2385 v2390 v2395 v2400 v2405 v2410 v2415 v2420 v2425 v2430 v2435 v2440 v2445 v2450 v2455 v2460 v2465 v2470 v2475 v2480 k c2 c3 (iter9 d L k0_h2 v2365 v2370 v2375 v2380 v2385 v2390 v2395 v2400 v2405 v2410 v2415 v2420 v2425 v2430 v2435 v2440 v2445 v2450 v2455 v2460 v2465 v2470 v2475 v2480 c2 c3 init k.val) := by
  show stepN9 d L k0_h2 v2365 v2370 v2375 v2380 v2385 v2390 v2395 v2400 v2405 v2410 v2415 v2420 v2425 v2430 v2435 v2440 v2445 v2450 v2455 v2460 v2465 v2470 v2475 v2480 c2 c3 k.val _ = _
  unfold stepN9
  rw [dif_pos k.isLt]

set_option maxHeartbeats 2000000 in
/-- The scan loop of SparseCore 0, whatever follows it: it only reads the two candidate buffers and hands on the minima
    after all its trips. -/
theorem loop9 (L : grid0.Coords) (k0_h2 : k0_cond2 L = 1#1) (v2360 : BitVec 32) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32) (v2500 : FVec F S16 .f32) (v2601 : BitVec 32)
    (c2 : Buf (Elt F) ((B0).view.loc (thr d L))) (c3 : Buf (Elt F) ((B1).view.loc (thr d L))) (init : Acc F) {β : Type}
    (kk : Acc F → Prog (TpuEff nD τ sig (Elt F) Λ₀ (thr d L).2) β) (Q : β → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ wp frame (wpE (defs₀ (F := F)) Variants.none (thr d L) none) Set.univ
                (kk (iter9 d L k0_h2 v2365 v2370 v2375 v2380 v2385 v2390 v2395 v2400 v2405 v2410 v2415 v2420 v2425 v2430 v2435 v2440 v2445 v2450 v2455 v2460 v2465 v2470 v2475 v2480 c2 c3 init k0_t9_loop.trips)) Q)) : sProp 𝕄)
      ⊢ wp frame (wpE (defs₀ (F := F)) Variants.none (thr d L) none) Set.univ
          (Scf.Loop.for k0_t9_loop (k0_t9_ok L k0_h2) init
            (k0_t9_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2360 v2365 v2370 v2375 v2380 v2385 v2390 v2395 v2400 v2405 v2410 v2415 v2420 v2425 v2430 v2435 v2440 v2445 v2450 v2455 v2460 v2465 v2470 v2475 v2480 v2500 v2601) >>= kk) Q := by
  iintro ⟨HB2, HB3, Hk⟩
  sl_for (fun (k : Nat) (acc : Acc F) => (iprop(⌜acc = iter9 d L k0_h2 v2365 v2370 v2375 v2380 v2385 v2390 v2395 v2400 v2405 v2410 v2415 v2420 v2425 v2430 v2435 v2440 v2445 v2450 v2455 v2460 v2465 v2470 v2475 v2480 c2 c3 init k⌝
      ∗ ((B0).view.loc (thr d L) ↦{fullShare} c2) ∗ ((B1).view.loc (thr d L) ↦{fullShare} c3)) : sProp 𝕄)) $$ [HB2 HB3]
  case region =>
    intro k acc
    iintro ⟨%hacc, HB2, HB3⟩
    iapply (wp_wand_r frame _ _)
    isplitl [HB2 HB3]
    · iapply ((tripRun9 (U := U) d L k0_h2 v2360 v2365 v2370 v2375 v2380 v2385 v2390 v2395 v2400 v2405 v2410 v2415 v2420 v2425 v2430 v2435 v2440 v2445 v2450 v2455 v2460 v2465 v2470 v2475 v2480 v2500 v2601 k c2 c3).2 acc)
      isplitl [HB2]; · iexact HB2
      iexact HB3
    · iintro %r ⟨%hr, HB2, HB3⟩
      isplitr
      · ipureintro
        rw [hr, trip_eq9, hacc]
        exact (iter9_succ d L k0_h2 v2365 v2370 v2375 v2380 v2385 v2390 v2395 v2400 v2405 v2410 v2415 v2420 v2425 v2430 v2435 v2440 v2445 v2450 v2455 v2460 v2465 v2470 v2475 v2480 c2 c3 init k).symm
      isplitl [HB2]; · iexact HB2
      iexact HB3
  · isplitr
    · ipureintro; rfl
    isplitl [HB2]; · iexact HB2
    iexact HB3
  iintro %acc HI
  icases HI with ⟨%hacc, HB2, HB3⟩
  subst hacc
  iapply Hk
  isplitl [HB2]; · iexact HB2
  iexact HB3

set_option maxHeartbeats 2000000 in
/-- The same with the loop as the whole program, for any postcondition. -/
theorem loop9' (L : grid0.Coords) (k0_h2 : k0_cond2 L = 1#1) (v2360 : BitVec 32) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32) (v2500 : FVec F S16 .f32) (v2601 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (iter9 d L k0_h2 v2365 v2370 v2375 v2380 v2385 v2390 v2395 v2400 v2405 v2410 v2415 v2420 v2425 v2430 v2435 v2440 v2445 v2450 v2455 v2460 v2465 v2470 v2475 v2480 c2 c3 init k0_t9_loop.trips))) : sProp 𝕄)
      ⊢ wp frame (wpE (defs₀ (F := F)) Variants.none (thr d L) none) Set.univ
          (Scf.Loop.for k0_t9_loop (k0_t9_ok L k0_h2) init
            (k0_t9_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2360 v2365 v2370 v2375 v2380 v2385 v2390 v2395 v2400 v2405 v2410 v2415 v2420 v2425 v2430 v2435 v2440 v2445 v2450 v2455 v2460 v2465 v2470 v2475 v2480 v2500 v2601)) Φ := by
  rw [← Prog.bind_pure (Scf.Loop.for k0_t9_loop (k0_t9_ok L k0_h2) init
            (k0_t9_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2360 v2365 v2370 v2375 v2380 v2385 v2390 v2395 v2400 v2405 v2410 v2415 v2420 v2425 v2430 v2435 v2440 v2445 v2450 v2455 v2460 v2465 v2470 v2475 v2480 v2500 v2601))]
  iintro ⟨HB2, HB3, Hk⟩
  iapply (loop9 (F := F) (U := U) d L k0_h2 v2360 v2365 v2370 v2375 v2380 v2385 v2390 v2395 v2400 v2405 v2410 v2415 v2420 v2425 v2430 v2435 v2440 v2445 v2450 v2455 v2460 v2465 v2470 v2475 v2480 v2500 v2601 c2 c3 init (fun acc => pure acc) Φ) $$ [HB2 HB3 Hk]
  isplitl [HB2]; · iexact HB2
  isplitl [HB3]; · iexact HB3
  iintro H
  rw [wp_pure]; imodintro
  iapply Hk; iexact H

/-- The loop, the minima handed on as a tuple of projections: what follows the loop binds the eight components by name. -/
theorem loop9'' (L : grid0.Coords) (k0_h2 : k0_cond2 L = 1#1) (v2360 : BitVec 32) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32) (v2500 : FVec F S16 .f32) (v2601 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ ((((B0).view.loc (thr d L) ↦{fullShare} c2) ∗ ((B1).view.loc (thr d L) ↦{fullShare} c3))
            -∗ Φ (etaAcc (iter9 d L k0_h2 v2365 v2370 v2375 v2380 v2385 v2390 v2395 v2400 v2405 v2410 v2415 v2420 v2425 v2430 v2435 v2440 v2445 v2450 v2455 v2460 v2465 v2470 v2475 v2480 c2 c3 init k0_t9_loop.trips)))) : sProp 𝕄)
      ⊢ wp frame (wpE (defs₀ (F := F)) Variants.none (thr d L) none) Set.univ
          (Scf.Loop.for k0_t9_loop (k0_t9_ok L k0_h2) init
            (k0_t9_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2360 v2365 v2370 v2375 v2380 v2385 v2390 v2395 v2400 v2405 v2410 v2415 v2420 v2425 v2430 v2435 v2440 v2445 v2450 v2455 v2460 v2465 v2470 v2475 v2480 v2500 v2601)) Φ :=
  loop9' (F := F) (U := U) d L k0_h2 v2360 v2365 v2370 v2375 v2380 v2385 v2390 v2395 v2400 v2405 v2410 v2415 v2420 v2425 v2430 v2435 v2440 v2445 v2450 v2455 v2460 v2465 v2470 v2475 v2480 v2500 v2601 c2 c3 init Φ

/-- The loop, the minima handed on under a NAME with the equation that says what they are. -/
theorem loop9v (L : grid0.Coords) (k0_h2 : k0_cond2 L = 1#1) (v2360 : BitVec 32) (v2365 : FVec F S16 .f32) (v2370 : FVec F S16 .f32) (v2375 : FVec F S16 .f32) (v2380 : FVec F S16 .f32) (v2385 : FVec F S16 .f32) (v2390 : FVec F S16 .f32) (v2395 : FVec F S16 .f32) (v2400 : FVec F S16 .f32) (v2405 : FVec F S16 .f32) (v2410 : FVec F S16 .f32) (v2415 : FVec F S16 .f32) (v2420 : FVec F S16 .f32) (v2425 : FVec F S16 .f32) (v2430 : FVec F S16 .f32) (v2435 : FVec F S16 .f32) (v2440 : FVec F S16 .f32) (v2445 : FVec F S16 .f32) (v2450 : FVec F S16 .f32) (v2455 : FVec F S16 .f32) (v2460 : FVec F S16 .f32) (v2465 : FVec F S16 .f32) (v2470 : FVec F S16 .f32) (v2475 : FVec F S16 .f32) (v2480 : FVec F S16 .f32) (v2500 : FVec F S16 .f32) (v2601 : BitVec 32)
    (c2 : Buf (Elt F) ((B0).view.loc (thr d L))) (c3 : Buf (Elt F) ((B1).view.loc (thr d L))) (init : Acc F) (Φ : Acc F → sProp 𝕄) :
    (iprop(((B0).view.loc (thr d L) ↦{fullShare} c2) ∗ ((B1).view.loc (thr d L) ↦{fullShare} c3)
        ∗ (∀ acc : Acc F, ⌜acc = iter9 d L k0_h2 v2365 v2370 v2375 v2380 v2385 v2390 v2395 v2400 v2405 v2410 v2415 v2420 v2425 v2430 v2435 v2440 v2445 v2450 v2455 v2460 v2465 v2470 v2475 v2480 c2 c3 init k0_t9_loop.trips⌝
            -∗ (((B0).view.loc (thr d L) ↦{fullShare} c2) ∗ ((B1).view.loc (thr d L) ↦{fullShare} c3)) -∗ Φ acc)) : sProp 𝕄)
      ⊢ wp frame (wpE (defs₀ (F := F)) Variants.none (thr d L) none) Set.univ
          (Scf.Loop.for k0_t9_loop (k0_t9_ok L k0_h2) init
            (k0_t9_body (F := F) L A7 (Memref.isWhole_whole _) A8 (Memref.isWhole_whole _) A6 (Memref.isWhole_whole _) A1 (Memref.isWhole_whole _) A9 (Memref.isWhole_whole _)
      B0 (Memref.isWhole_whole _) B1 (Memref.isWhole_whole _) B2 (Memref.isWhole_whole _) B3 (Memref.isWhole_whole _) B4 (Memref.isWhole_whole _)
      cc0_scoped0 cc0_scoped1 cc0_scoped2 cc0_scoped3 cc0_scoped4 cc0_scoped5 k0_h2 v2360 v2365 v2370 v2375 v2380 v2385 v2390 v2395 v2400 v2405 v2410 v2415 v2420 v2425 v2430 v2435 v2440 v2445 v2450 v2455 v2460 v2465 v2470 v2475 v2480 v2500 v2601)) Φ := by
  iintro ⟨HB2, HB3, Hk⟩
  iapply (loop9' (F := F) (U := U) d L k0_h2 v2360 v2365 v2370 v2375 v2380 v2385 v2390 v2395 v2400 v2405 v2410 v2415 v2420 v2425 v2430 v2435 v2440 v2445 v2450 v2455 v2460 v2465 v2470 v2475 v2480 v2500 v2601 c2 c3 init Φ) $$ [HB2 HB3 Hk]
  isplitl [HB2]; · iexact HB2
  isplitl [HB3]; · iexact HB3
  iintro H
  ispecialize Hk $$ %(iter9 d L k0_h2 v2365 v2370 v2375 v2380 v2385 v2390 v2395 v2400 v2405 v2410 v2415 v2420 v2425 v2430 v2435 v2440 v2445 v2450 v2455 v2460 v2465 v2470 v2475 v2480 c2 c3 init k0_t9_loop.trips) %rfl
  iapply Hk; iexact H

end Cert.Proof.ScI

end
-- ==== Proof.ScVal1Run.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal1_2
import proofs.«209750_g45337674776763_cont_8to1c4_158_37_alg».proof.Proof.ScVal1_3
import proofs.«209750_g45337674776763_cont_8to1c4_158_37_alg».proof.Proof.ScVal1_4
import proofs.«209750_g45337674776763_cont_8to1c4_158_37_alg».proof.Proof.ScVal1_5
import proofs.«209750_g45337674776763_cont_8to1c4_158_37_alg».proof.Proof.ScVal1_6
import proofs.«209750_g45337674776763_cont_8to1c4_158_37_alg».proof.Proof.ScVal1_7
import proofs.«209750_g45337674776763_cont_8to1c4_158_37_alg».proof.Proof.ScVal1_8
import proofs.«209750_g45337674776763_cont_8to1c4_158_37_alg».proof.Proof.ScVal1_9
/-!
  The kernel body on a subcore of the second SparseCore, run once: four whole-slice copies into the scratch buffers,
  then eight strip scans of thirty-two trips each with their stores between, then the copy out of the 1024 words. The
  scans enter by their loop rules with the carried minima under names; the words' values are bound inside the
  postcondition.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

attribute [local irreducible] iter2 iter3 iter4 iter5 iter6 iter7 iter8 iter9

omit [FloatOps F] [CountersIn U] in
/-- A buffer's contents given a name. -/
theorem pts_rebind1 {ℓ : Loc nD τ sig} (q : PosShare TreeShare) (f : Buf (Elt F) ℓ) :
    (ℓ ↦{q} f : sProp 𝕄) ⊢ iprop(∃ c, ⌜c = f⌝ ∗ ℓ ↦{q} c) := by
  iintro H; iexists f; isplitr; · ipureintro; rfl
  iexact H

set_option maxHeartbeats 8000000 in
/-- The body on subcore `s` of SparseCore 1 with what it leaves in its 1024 words of the result named: the run finds the
    1024 values as a term over the four arrays' contents (and the scratch buffers' initial contents, which the copies
    overwrite whole). -/
theorem run1x (s : Fin (grid0.bound 1)) (f7 : Buf (Elt F) (l7 d)) (f8 : Buf (Elt F) (l8 d)) (f6 : Buf (Elt F) (l6 d)) (f1 : Buf (Elt F) (l1 d))
    (b0 : Buf (Elt F) ((thr d (L1 s)).loc cc0_scratch0)) (b1 : Buf (Elt F) ((thr d (L1 s)).loc cc0_scratch1))
    (b2 : Buf (Elt F) ((thr d (L1 s)).loc cc0_scratch2)) (b3 : Buf (Elt F) ((thr d (L1 s)).loc cc0_scratch3))
    (b4 : Buf (Elt F) ((thr d (L1 s)).loc cc0_scratch4)) :
    ∀ (q : PosShare TreeShare) (O : CellTallies nD τ sig (HIx 1)) (W : Waits sig (HIx 1)) (f9 : Buf (Elt F) (l9 d)),
      (iprop(Transfers.MayWaits (thr d (L1 s)) (none : HIx 1) O
          ∗ ins4 d q f7 f8 f6 f1
          ∗ (l9 d ↦[(out1 (L1 s) (h2_L1 s)).view.set]{fullShare} f9)
          ∗ (((thr d (L1 s)).loc cc0_scratch0 ↦{fullShare} b0) ∗ ((thr d (L1 s)).loc cc0_scratch1 ↦{fullShare} b1)
            ∗ ((thr d (L1 s)).loc cc0_scratch2 ↦{fullShare} b2) ∗ ((thr d (L1 s)).loc cc0_scratch3 ↦{fullShare} b3)
            ∗ ((thr d (L1 s)).loc cc0_scratch4 ↦{fullShare} b4)
            ∗ semVal (thr d (L1 s), SemLoc.dma cc0_scoped0.sem) 0 ∗ semVal (thr d (L1 s), SemLoc.dma cc0_scoped1.sem) 0
            ∗ semVal (thr d (L1 s), SemLoc.dma cc0_scoped2.sem) 0 ∗ semVal (thr d (L1 s), SemLoc.dma cc0_scoped3.sem) 0
            ∗ semVal (thr d (L1 s), SemLoc.dma cc0_scoped4.sem) 0 ∗ semVal (thr d (L1 s), SemLoc.dma cc0_scoped5.sem) 0)
          ∗ owes (thr d (L1 s)) O W) : sProp 𝕄)
        ⊢ wp frame (wpE (defs₀ (F := F)) Variants.none (thr d (L1 s)) none) Set.univ
            (cc0__sc_body (F := F) (L1 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
            fun _ => iprop(ins4 d q f7 f8 f6 f1
              ∗ (∃ X : S1024.Idx → Elt F .f32, ⌜True⌝
                  ∗ (l9 d ↦[(out1 (L1 s) (h2_L1 s)).view.set]{fullShare} (out1 (L1 s) (h2_L1 s)).view.writes (Elt F) f9 [⟨Rect.whole S1024, X⟩]))
              ∗ own5 d (L1 s)
              ∗ ∃ W', ⌜∀ p ∈ W', p ∈ W ∨ p.2 = none⌝ ∗ owes (thr d (L1 s)) O W') := by
  refine (fun q O W f9 => ?run)
  case run =>
    have k0_h1 : ¬ k0_cond1 (L1 s) = 1#1 := h1_L1 s
    have k0_h2 : k0_cond2 (L1 s) = 1#1 := h2_L1 s
    simp only [cc0__sc_body_eq_skeleton]; unfold cc0__sc_body_skel
    unfold ins4 own5
    iintro ⟨Hmw, ⟨H7, H8, H6, H1⟩, H9, ⟨HB0, HB1, HB2, HB3, HB4, Hs0, Hs1, Hs2, Hs3, Hs4, Hs5⟩, HO⟩
    ihave H7 := (Entails.of_eq (pts7 (F := F) (U := U) d (L1 s) _ _).symm) $$ H7
    ihave H8 := (Entails.of_eq (pts8 (F := F) (U := U) d (L1 s) _ _).symm) $$ H8
    ihave H6 := (Entails.of_eq (pts6 (F := F) (U := U) d (L1 s) _ _).symm) $$ H6
    ihave H1 := (Entails.of_eq (pts1 (F := F) (U := U) d (L1 s) _ _).symm) $$ H1
    ihave H9 := (Entails.of_eq (ptsO1 (F := F) (U := U) d (L1 s) (h2_L1 s) _).symm) $$ H9
    ihave HB0 := (Entails.of_eq (ptsB0 (F := F) (U := U) d (L1 s) _).symm) $$ HB0
    ihave HB1 := (Entails.of_eq (ptsB1 (F := F) (U := U) d (L1 s) _).symm) $$ HB1
    ihave HB2 := (Entails.of_eq (ptsB2 (F := F) (U := U) d (L1 s) _).symm) $$ HB2
    ihave HB3 := (Entails.of_eq (ptsB3 (F := F) (U := U) d (L1 s) _).symm) $$ HB3
    ihave HB4 := (Entails.of_eq (ptsB4 (F := F) (U := U) d (L1 s) _).symm) $$ HB4
    sl_exec_parts
    ihave HB0 := (pts_rebind1 (F := F) (U := U) _ _) $$ HB0
    icases HB0 with ⟨%c0, %hc0, HB0⟩
    ihave HB1 := (pts_rebind1 (F := F) (U := U) _ _) $$ HB1
    icases HB1 with ⟨%c1, %hc1, HB1⟩
    rw [wp_bind]
    iapply (loop2v (F := F) (U := U) d (L1 s) k0_h2 _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc2 %hacc2 ⟨HB0, HB1⟩
    sl_exec_parts
    rw [wp_bind]
    iapply (loop3v (F := F) (U := U) d (L1 s) k0_h2 _ _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc3 %hacc3 ⟨HB0, HB1⟩
    sl_exec_parts
    rw [wp_bind]
    iapply (loop4v (F := F) (U := U) d (L1 s) k0_h2 _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc4 %hacc4 ⟨HB0, HB1⟩
    sl_exec_parts
    rw [wp_bind]
    iapply (loop5v (F := F) (U := U) d (L1 s) k0_h2 _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc5 %hacc5 ⟨HB0, HB1⟩
    sl_exec_parts
    rw [wp_bind]
    iapply (loop6v (F := F) (U := U) d (L1 s) k0_h2 _ _ _ _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc6 %hacc6 ⟨HB0, HB1⟩
    sl_exec_parts
    rw [wp_bind]
    iapply (loop7v (F := F) (U := U) d (L1 s) k0_h2 _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc7 %hacc7 ⟨HB0, HB1⟩
    sl_exec_parts
    rw [wp_bind]
    iapply (loop8v (F := F) (U := U) d (L1 s) k0_h2 _ _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc8 %hacc8 ⟨HB0, HB1⟩
    sl_exec_parts
    rw [wp_bind]
    iapply (loop9v (F := F) (U := U) d (L1 s) k0_h2 _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc9 %hacc9 ⟨HB0, HB1⟩
    sl_exec_parts
    sl_step
    isplitl [H7 H8 H6 H1]
    · isplitl [H7]; · iapply (Entails.of_eq (pts7 (F := F) (U := U) d (L1 s) _ _)); iexact H7
      isplitl [H8]; · iapply (Entails.of_eq (pts8 (F := F) (U := U) d (L1 s) _ _)); iexact H8
      isplitl [H6]; · iapply (Entails.of_eq (pts6 (F := F) (U := U) d (L1 s) _ _)); iexact H6
      iapply (Entails.of_eq (pts1 (F := F) (U := U) d (L1 s) _ _)); iexact H1
    isplitl [H9]
    · iexists _; isplitr
      swap
      · iapply (Entails.of_eq (ptsO1 (F := F) (U := U) d (L1 s) (h2_L1 s) _)); iexact H9
      · ipureintro; trivial
    isplitl [HB0 HB1 HB2 HB3 HB4 Hs0 Hs1 Hs2 Hs3 Hs4 Hs5]
    · isplitl [HB0]; · iexists _; iapply (Entails.of_eq (ptsB0 (F := F) (U := U) d (L1 s) _)); iexact HB0
      isplitl [HB1]; · iexists _; iapply (Entails.of_eq (ptsB1 (F := F) (U := U) d (L1 s) _)); iexact HB1
      isplitl [HB2]; · iexists _; iapply (Entails.of_eq (ptsB2 (F := F) (U := U) d (L1 s) _)); iexact HB2
      isplitl [HB3]; · iexists _; iapply (Entails.of_eq (ptsB3 (F := F) (U := U) d (L1 s) _)); iexact HB3
      isplitl [HB4]; · iexists _; iapply (Entails.of_eq (ptsB4 (F := F) (U := U) d (L1 s) _)); iexact HB4
      isplitl [Hs0]; · iexact Hs0
      isplitl [Hs1]; · iexact Hs1
      isplitl [Hs2]; · iexact Hs2
      isplitl [Hs3]; · iexact Hs3
      isplitl [Hs4]; · iexact Hs4
      iexact Hs5
    iexists _; isplitr
    swap
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact .inl hp

end Cert.Proof.ScI

end
-- ==== Proof.ScVal1RunV.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209750_g45337674776763_cont_8to1c4_158_37_alg».proof.Proof.Gen.KernelIdeal
import proofs.«209750_g45337674776763_cont_8to1c4_158_37_alg».proof.Proof.Gen.KernelIdeal.Skeleton
import proofs.«209750_g45337674776763_cont_8to1c4_158_37_alg».proof.Proof.ScVal1Run
import proofs.«209750_g45337674776763_cont_8to1c4_158_37_alg».proof.Proof.ScVal1_2
import proofs.«209750_g45337674776763_cont_8to1c4_158_37_alg».proof.Proof.ScVal1_3
import proofs.«209750_g45337674776763_cont_8to1c4_158_37_alg».proof.Proof.ScVal1_4
import proofs.«209750_g45337674776763_cont_8to1c4_158_37_alg».proof.Proof.ScVal1_5
import proofs.«209750_g45337674776763_cont_8to1c4_158_37_alg».proof.Proof.ScVal1_6
import proofs.«209750_g45337674776763_cont_8to1c4_158_37_alg».proof.Proof.ScVal1_7
import proofs.«209750_g45337674776763_cont_8to1c4_158_37_alg».proof.Proof.ScVal1_8
import proofs.«209750_g45337674776763_cont_8to1c4_158_37_alg».proof.Proof.ScVal1_9
/-!
  The second SparseCore's body run again with the 1024 words it leaves NAMED: they are the term `X1of`, built from
  the first run's own pieces — the strip buffers after the copies, the eight scans' minima, the final copy's source.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]
variable (d : Dev nD)

attribute [local irreducible] iter2 iter3 iter4 iter5 iter6 iter7 iter8 iter9

/-- What the strip copies leave in the two strip buffers. -/
def C0of (s : Fin (grid0.bound 1)) (f7 : Buf (Elt F) (l7 d)) (b0 : Buf (Elt F) ((thr d (L1 s)).loc cc0_scratch0)) :
    Buf (Elt F) ((B0).view.loc (thr d (L1 s))) :=
  View.write (Elt F) (Memref.whole cc0_scratch0).view b0 (run1x.sl.dma0 d s f7) Finset.univ
def C1of (s : Fin (grid0.bound 1)) (f8 : Buf (Elt F) (l8 d)) (b1 : Buf (Elt F) ((thr d (L1 s)).loc cc0_scratch1)) :
    Buf (Elt F) ((B1).view.loc (thr d (L1 s))) :=
  View.write (Elt F) (Memref.whole cc0_scratch1).view b1 (run1x.sl.dma0_1 d s f8) Finset.univ

/-- The minima scan 1 hands on. -/
def A2of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) c0 c1 (k0_pay2274, k0_pay2274, k0_pay2274, k0_pay2274, k0_pay2274, k0_pay2274, k0_pay2274, k0_pay2274) k0_t2_loop.trips

/-- The minima scan 2 hands on. -/
def A3of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) c0 c1 (k0_pay2323, k0_pay2323, k0_pay2323, k0_pay2323, k0_pay2323, k0_pay2323, k0_pay2323, k0_pay2323) k0_t3_loop.trips

/-- The minima scan 3 hands on. -/
def A4of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) c0 c1 (k0_pay2371, k0_pay2371, k0_pay2371, k0_pay2371, k0_pay2371, k0_pay2371, k0_pay2371, k0_pay2371) k0_t4_loop.trips

/-- The minima scan 4 hands on. -/
def A5of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) c0 c1 (k0_pay2420, k0_pay2420, k0_pay2420, k0_pay2420, k0_pay2420, k0_pay2420, k0_pay2420, k0_pay2420) k0_t5_loop.trips

/-- The minima scan 5 hands on. -/
def A6of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) c0 c1 (k0_pay2469, k0_pay2469, k0_pay2469, k0_pay2469, k0_pay2469, k0_pay2469, k0_pay2469, k0_pay2469) k0_t6_loop.trips

/-- The minima scan 6 hands on. -/
def A7of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) c0 c1 (k0_pay2516, k0_pay2516, k0_pay2516, k0_pay2516, k0_pay2516, k0_pay2516, k0_pay2516, k0_pay2516) k0_t7_loop.trips

/-- The minima scan 7 hands on. -/
def A8of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) c0 c1 (k0_pay2565, k0_pay2565, k0_pay2565, k0_pay2565, k0_pay2565, k0_pay2565, k0_pay2565, k0_pay2565) k0_t8_loop.trips

/-- The minima scan 8 hands on. -/
def A9of (s : Fin (grid0.bound 1)) (f6 : Buf (Elt F) (l6 d)) (b2 : Buf (Elt F) ((thr d (L1 s)).loc cc0_scratch2))
    (c0 : Buf (Elt F) ((B0).view.loc (thr d (L1 s)))) (c1 : Buf (Elt F) ((B1).view.loc (thr d (L1 s)))) : Acc F :=
  iter9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) c0 c1 (k0_pay2612, k0_pay2612, k0_pay2612, k0_pay2612, k0_pay2612, k0_pay2612, k0_pay2612, k0_pay2612) k0_t9_loop.trips

/-- The 1024 words the body leaves, as a term over the four arrays and the scratch buffers' initial contents. -/
def X1of (s : Fin (grid0.bound 1)) (f7 : Buf (Elt F) (l7 d)) (f8 : Buf (Elt F) (l8 d)) (f6 : Buf (Elt F) (l6 d)) (f1 : Buf (Elt F) (l1 d))
    (b0 : Buf (Elt F) ((thr d (L1 s)).loc cc0_scratch0)) (b1 : Buf (Elt F) ((thr d (L1 s)).loc cc0_scratch1))
    (b2 : Buf (Elt F) ((thr d (L1 s)).loc cc0_scratch2)) (b3 : Buf (Elt F) ((thr d (L1 s)).loc cc0_scratch3))
    (b4 : Buf (Elt F) ((thr d (L1 s)).loc cc0_scratch4)) : S1024.Idx → Elt F .f32 :=
  run1x.sl.dma16 d s f1 b3 b4 (h2_L1 s)
      (A2of d s f6 b2 (C0of d s f7 b0) (C1of d s f8 b1))
      (A3of d s f6 b2 (C0of d s f7 b0) (C1of d s f8 b1))
      (A4of d s f6 b2 (C0of d s f7 b0) (C1of d s f8 b1))
      (A5of d s f6 b2 (C0of d s f7 b0) (C1of d s f8 b1))
      (A6of d s f6 b2 (C0of d s f7 b0) (C1of d s f8 b1))
      (A7of d s f6 b2 (C0of d s f7 b0) (C1of d s f8 b1))
      (A8of d s f6 b2 (C0of d s f7 b0) (C1of d s f8 b1))
      (A9of d s f6 b2 (C0of d s f7 b0) (C1of d s f8 b1))

set_option maxHeartbeats 8000000 in
/-- The body on subcore `s` of SparseCore 1 with what it leaves in its 1024 words of the result named: the run finds the
    1024 values as a term over the four arrays' contents (and the scratch buffers' initial contents, which the copies
    overwrite whole). -/
theorem run1v (s : Fin (grid0.bound 1)) (f7 : Buf (Elt F) (l7 d)) (f8 : Buf (Elt F) (l8 d)) (f6 : Buf (Elt F) (l6 d)) (f1 : Buf (Elt F) (l1 d))
    (b0 : Buf (Elt F) ((thr d (L1 s)).loc cc0_scratch0)) (b1 : Buf (Elt F) ((thr d (L1 s)).loc cc0_scratch1))
    (b2 : Buf (Elt F) ((thr d (L1 s)).loc cc0_scratch2)) (b3 : Buf (Elt F) ((thr d (L1 s)).loc cc0_scratch3))
    (b4 : Buf (Elt F) ((thr d (L1 s)).loc cc0_scratch4)) :
    ∀ (q : PosShare TreeShare) (O : CellTallies nD τ sig (HIx 1)) (W : Waits sig (HIx 1)) (f9 : Buf (Elt F) (l9 d)),
      (iprop(Transfers.MayWaits (thr d (L1 s)) (none : HIx 1) O
          ∗ ins4 d q f7 f8 f6 f1
          ∗ (l9 d ↦[(out1 (L1 s) (h2_L1 s)).view.set]{fullShare} f9)
          ∗ (((thr d (L1 s)).loc cc0_scratch0 ↦{fullShare} b0) ∗ ((thr d (L1 s)).loc cc0_scratch1 ↦{fullShare} b1)
            ∗ ((thr d (L1 s)).loc cc0_scratch2 ↦{fullShare} b2) ∗ ((thr d (L1 s)).loc cc0_scratch3 ↦{fullShare} b3)
            ∗ ((thr d (L1 s)).loc cc0_scratch4 ↦{fullShare} b4)
            ∗ semVal (thr d (L1 s), SemLoc.dma cc0_scoped0.sem) 0 ∗ semVal (thr d (L1 s), SemLoc.dma cc0_scoped1.sem) 0
            ∗ semVal (thr d (L1 s), SemLoc.dma cc0_scoped2.sem) 0 ∗ semVal (thr d (L1 s), SemLoc.dma cc0_scoped3.sem) 0
            ∗ semVal (thr d (L1 s), SemLoc.dma cc0_scoped4.sem) 0 ∗ semVal (thr d (L1 s), SemLoc.dma cc0_scoped5.sem) 0)
          ∗ owes (thr d (L1 s)) O W) : sProp 𝕄)
        ⊢ wp frame (wpE (defs₀ (F := F)) Variants.none (thr d (L1 s)) none) Set.univ
            (cc0__sc_body (F := F) (L1 s) A7 (Memref.isWhole_whole _) A8 (Memref.isWhole_whole _) A6 (Memref.isWhole_whole _) A1 (Memref.isWhole_whole _) A9 (Memref.isWhole_whole _)
            B0 (Memref.isWhole_whole _) B1 (Memref.isWhole_whole _) B2 (Memref.isWhole_whole _) B3 (Memref.isWhole_whole _) B4 (Memref.isWhole_whole _)
            cc0_scoped0 cc0_scoped1 cc0_scoped2 cc0_scoped3 cc0_scoped4 cc0_scoped5)
            fun _ => iprop(ins4 d q f7 f8 f6 f1
              ∗ (∃ X : S1024.Idx → Elt F .f32, ⌜∀ j, X j = X1of d s f7 f8 f6 f1 b0 b1 b2 b3 b4 j⌝
                  ∗ (l9 d ↦[(out1 (L1 s) (h2_L1 s)).view.set]{fullShare} (out1 (L1 s) (h2_L1 s)).view.writes (Elt F) f9 [⟨Rect.whole S1024, X⟩]))
              ∗ own5 d (L1 s)
              ∗ ∃ W', ⌜∀ p ∈ W', p ∈ W ∨ p.2 = none⌝ ∗ owes (thr d (L1 s)) O W') := by
  refine (fun q O W f9 => ?run)
  case run =>
    have k0_h1 : ¬ k0_cond1 (L1 s) = 1#1 := h1_L1 s
    have k0_h2 : k0_cond2 (L1 s) = 1#1 := h2_L1 s
    simp only [cc0__sc_body_eq_skeleton]; unfold cc0__sc_body_skel
    unfold ins4 own5
    iintro ⟨Hmw, ⟨H7, H8, H6, H1⟩, H9, ⟨HB0, HB1, HB2, HB3, HB4, Hs0, Hs1, Hs2, Hs3, Hs4, Hs5⟩, HO⟩
    ihave H7 := (Entails.of_eq (pts7 (F := F) (U := U) d (L1 s) _ _).symm) $$ H7
    ihave H8 := (Entails.of_eq (pts8 (F := F) (U := U) d (L1 s) _ _).symm) $$ H8
    ihave H6 := (Entails.of_eq (pts6 (F := F) (U := U) d (L1 s) _ _).symm) $$ H6
    ihave H1 := (Entails.of_eq (pts1 (F := F) (U := U) d (L1 s) _ _).symm) $$ H1
    ihave H9 := (Entails.of_eq (ptsO1 (F := F) (U := U) d (L1 s) (h2_L1 s) _).symm) $$ H9
    ihave HB0 := (Entails.of_eq (ptsB0 (F := F) (U := U) d (L1 s) _).symm) $$ HB0
    ihave HB1 := (Entails.of_eq (ptsB1 (F := F) (U := U) d (L1 s) _).symm) $$ HB1
    ihave HB2 := (Entails.of_eq (ptsB2 (F := F) (U := U) d (L1 s) _).symm) $$ HB2
    ihave HB3 := (Entails.of_eq (ptsB3 (F := F) (U := U) d (L1 s) _).symm) $$ HB3
    ihave HB4 := (Entails.of_eq (ptsB4 (F := F) (U := U) d (L1 s) _).symm) $$ HB4
    sl_exec_parts
    ihave HB0 := (pts_rebind1 (F := F) (U := U) _ _) $$ HB0
    icases HB0 with ⟨%c0, %hc0, HB0⟩
    ihave HB1 := (pts_rebind1 (F := F) (U := U) _ _) $$ HB1
    icases HB1 with ⟨%c1, %hc1, HB1⟩
    rw [wp_bind]
    iapply (loop2v (F := F) (U := U) d (L1 s) k0_h2 _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc2 %hacc2 ⟨HB0, HB1⟩
    sl_exec_parts
    rw [wp_bind]
    iapply (loop3v (F := F) (U := U) d (L1 s) k0_h2 _ _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc3 %hacc3 ⟨HB0, HB1⟩
    sl_exec_parts
    rw [wp_bind]
    iapply (loop4v (F := F) (U := U) d (L1 s) k0_h2 _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc4 %hacc4 ⟨HB0, HB1⟩
    sl_exec_parts
    rw [wp_bind]
    iapply (loop5v (F := F) (U := U) d (L1 s) k0_h2 _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc5 %hacc5 ⟨HB0, HB1⟩
    sl_exec_parts
    rw [wp_bind]
    iapply (loop6v (F := F) (U := U) d (L1 s) k0_h2 _ _ _ _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc6 %hacc6 ⟨HB0, HB1⟩
    sl_exec_parts
    rw [wp_bind]
    iapply (loop7v (F := F) (U := U) d (L1 s) k0_h2 _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc7 %hacc7 ⟨HB0, HB1⟩
    sl_exec_parts
    rw [wp_bind]
    iapply (loop8v (F := F) (U := U) d (L1 s) k0_h2 _ _ _ _ _ _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc8 %hacc8 ⟨HB0, HB1⟩
    sl_exec_parts
    rw [wp_bind]
    iapply (loop9v (F := F) (U := U) d (L1 s) k0_h2 _ _ _ _ _ _ _ _ _ _ _ _ _ _ _ _ _ _ _ _ _ _ _ _ _ _ _ c0 c1 _ _) $$ [HB0 HB1 Hmw H7 H8 H6 H1 H9 HB2 HB3 HB4 Hs0 Hs1 Hs2 Hs3 Hs4 Hs5 HO]
    isplitl [HB0]; · iexact HB0
    isplitl [HB1]; · iexact HB1
    iintro %acc9 %hacc9 ⟨HB0, HB1⟩
    sl_exec_parts
    sl_step
    isplitl [H7 H8 H6 H1]
    · isplitl [H7]; · iapply (Entails.of_eq (pts7 (F := F) (U := U) d (L1 s) _ _)); iexact H7
      isplitl [H8]; · iapply (Entails.of_eq (pts8 (F := F) (U := U) d (L1 s) _ _)); iexact H8
      isplitl [H6]; · iapply (Entails.of_eq (pts6 (F := F) (U := U) d (L1 s) _ _)); iexact H6
      iapply (Entails.of_eq (pts1 (F := F) (U := U) d (L1 s) _ _)); iexact H1
    isplitl [H9]
    · iexists _; isplitr
      swap
      · iapply (Entails.of_eq (ptsO1 (F := F) (U := U) d (L1 s) (h2_L1 s) _)); iexact H9
      · ipureintro; intro j
        subst hacc2 hacc3 hacc4 hacc5 hacc6 hacc7 hacc8 hacc9 hc0 hc1
        rfl
    isplitl [HB0 HB1 HB2 HB3 HB4 Hs0 Hs1 Hs2 Hs3 Hs4 Hs5]
    · isplitl [HB0]; · iexists _; iapply (Entails.of_eq (ptsB0 (F := F) (U := U) d (L1 s) _)); iexact HB0
      isplitl [HB1]; · iexists _; iapply (Entails.of_eq (ptsB1 (F := F) (U := U) d (L1 s) _)); iexact HB1
      isplitl [HB2]; · iexists _; iapply (Entails.of_eq (ptsB2 (F := F) (U := U) d (L1 s) _)); iexact HB2
      isplitl [HB3]; · iexists _; iapply (Entails.of_eq (ptsB3 (F := F) (U := U) d (L1 s) _)); iexact HB3
      isplitl [HB4]; · iexists _; iapply (Entails.of_eq (ptsB4 (F := F) (U := U) d (L1 s) _)); iexact HB4
      isplitl [Hs0]; · iexact Hs0
      isplitl [Hs1]; · iexact Hs1
      isplitl [Hs2]; · iexact Hs2
      isplitl [Hs3]; · iexact Hs3
      isplitl [Hs4]; · iexact Hs4
      iexact Hs5
    iexists _; isplitr
    swap
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact .inl hp

end Cert.Proof.ScI

end
-- ==== Proof.ScBridge1W.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Exec.Geometry
import proofs.«209750_g45337674776763_cont_8to1c4_158_37_alg».proof.Proof.ScLaunchVScI

/-!
  From a subcore's value run to the launch's obligation, second branch: the subcore's body, run from its operands, its
  words of the result array and its scratch buffers, leaves those words at the whole-slice write of 1024 values; when
  each value is the given function of the array index under it, the subcore hands its words back at that function.
-/

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable [FloatOps F]

set_option maxHeartbeats 2000000 in
/-- The whole-slice write of 1024 values through a subcore's slice of the result array holds, at each array index under
    the slice, the value at the slice index it is the image of. -/
theorem writes_out1_apply (d : Dev nD) (s : Fin (grid0.bound 1)) (f9 : Buf (Elt F) (l9 d)) (X : S1024.Idx → Elt F .f32)
    (spec : Buf (Elt F) (l9 d)) (hX : ∀ j, X j = spec ((out1 (L1 s) (h2_L1 s)).view.emb j)) :
    ∀ i ∈ tileSet 1 s, (out1 (L1 s) (h2_L1 s)).view.writes (Elt F) f9 [⟨Rect.whole S1024, X⟩] i = spec i := by
  intro i hi
  have hi' : i ∈ (out1 (L1 s) (h2_L1 s)).view.set := hi
  unfold View.set at hi'
  obtain ⟨j, -, rfl⟩ := Finset.mem_map.mp hi'
  have h := congrFun (View.read_writes_whole (out1 (L1 s) (h2_L1 s)).view f9 X) j
  rw [View.read_apply] at h
  exact h.trans (hX j)

section Wrap

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
  (spec : (d : Dev nD) → Buf (Elt F) (l9 d))

/-- The second branch's obligation from a value run whose 1024 values are `spec` at the array indices under the slice. -/
theorem bodyV1_of
    (hrun : ∀ (d : Dev nD) (s : Fin (grid0.bound 1))
      (b0 : Buf (Elt F) ((thr d (L1 s)).loc cc0_scratch0)) (b1 : Buf (Elt F) ((thr d (L1 s)).loc cc0_scratch1))
      (b2 : Buf (Elt F) ((thr d (L1 s)).loc cc0_scratch2)) (b3 : Buf (Elt F) ((thr d (L1 s)).loc cc0_scratch3))
      (b4 : Buf (Elt F) ((thr d (L1 s)).loc cc0_scratch4)),
      ∃ X : S1024.Idx → Elt F .f32, (∀ j, X j = spec d ((out1 (L1 s) (h2_L1 s)).view.emb j)) ∧
        ∀ (q : PosShare TreeShare) (O : CellTallies nD τ sig (HIx 1)) (W : Waits sig (HIx 1)) (f9 : Buf (Elt F) (l9 d)),
        (iprop(Transfers.MayWaits (thr d (L1 s)) (none : HIx 1) O
            ∗ ins4 d q (g7 d) (g8 d) (g6 d) (g1 d)
            ∗ (l9 d ↦[(out1 (L1 s) (h2_L1 s)).view.set]{fullShare} f9)
            ∗ (((thr d (L1 s)).loc cc0_scratch0 ↦{fullShare} b0) ∗ ((thr d (L1 s)).loc cc0_scratch1 ↦{fullShare} b1)
              ∗ ((thr d (L1 s)).loc cc0_scratch2 ↦{fullShare} b2) ∗ ((thr d (L1 s)).loc cc0_scratch3 ↦{fullShare} b3)
              ∗ ((thr d (L1 s)).loc cc0_scratch4 ↦{fullShare} b4)
              ∗ semVal (thr d (L1 s), SemLoc.dma cc0_scoped0.sem) 0 ∗ semVal (thr d (L1 s), SemLoc.dma cc0_scoped1.sem) 0
              ∗ semVal (thr d (L1 s), SemLoc.dma cc0_scoped2.sem) 0 ∗ semVal (thr d (L1 s), SemLoc.dma cc0_scoped3.sem) 0
              ∗ semVal (thr d (L1 s), SemLoc.dma cc0_scoped4.sem) 0 ∗ semVal (thr d (L1 s), SemLoc.dma cc0_scoped5.sem) 0)
            ∗ owes (thr d (L1 s)) O W) : sProp 𝕄)
          ⊢ wp frame (wpE (defs₀ (F := F)) Variants.none (thr d (L1 s)) none) Set.univ
              (cc0__sc_body (F := F) (L1 s) A7 (Memref.isWhole_whole _) A8 (Memref.isWhole_whole _) A6 (Memref.isWhole_whole _) A1 (Memref.isWhole_whole _) A9 (Memref.isWhole_whole _)
              B0 (Memref.isWhole_whole _) B1 (Memref.isWhole_whole _) B2 (Memref.isWhole_whole _) B3 (Memref.isWhole_whole _) B4 (Memref.isWhole_whole _)
              cc0_scoped0 cc0_scoped1 cc0_scoped2 cc0_scoped3 cc0_scoped4 cc0_scoped5)
              fun _ => iprop(ins4 d q (g7 d) (g8 d) (g6 d) (g1 d)
                ∗ (l9 d ↦[(out1 (L1 s) (h2_L1 s)).view.set]{fullShare} (out1 (L1 s) (h2_L1 s)).view.writes (Elt F) f9 [⟨Rect.whole S1024, X⟩])
                ∗ own5 d (L1 s)
                ∗ ∃ W', ⌜∀ p ∈ W', p ∈ W ∨ p.2 = none⌝ ∗ owes (thr d (L1 s)) O W')) :
    BodyV (U := U) g7 g8 g6 g1 spec 1 L1 := by
  intro d s O W
  unfold forTile forTileV own5
  iintro ⟨Hmw, ⟨Hi, ⟨%f9, Ho⟩⟩, ⟨⟨%b0, HB0⟩, ⟨%b1, HB1⟩, ⟨%b2, HB2⟩, ⟨%b3, HB3⟩, ⟨%b4, HB4⟩, Hs0, Hs1, Hs2, Hs3, Hs4, Hs5⟩, HO⟩
  obtain ⟨X, hX, hr⟩ := hrun d s b0 b1 b2 b3 b4
  iapply (wp_wand_r frame _ _)
  isplitl [Hmw Hi Ho HB0 HB1 HB2 HB3 HB4 Hs0 Hs1 Hs2 Hs3 Hs4 Hs5 HO]
  · iapply (hr (tokT 1 s) O W f9)
    isplitl [Hmw]; · iexact Hmw
    isplitl [Hi]; · iexact Hi
    isplitl [Ho]; · iexact Ho
    isplitl [HB0 HB1 HB2 HB3 HB4 Hs0 Hs1 Hs2 Hs3 Hs4 Hs5]
    · isplitl [HB0]; · iexact HB0
      isplitl [HB1]; · iexact HB1
      isplitl [HB2]; · iexact HB2
      isplitl [HB3]; · iexact HB3
      isplitl [HB4]; · iexact HB4
      isplitl [Hs0]; · iexact Hs0
      isplitl [Hs1]; · iexact Hs1
      isplitl [Hs2]; · iexact Hs2
      isplitl [Hs3]; · iexact Hs3
      isplitl [Hs4]; · iexact Hs4
      iexact Hs5
    iexact HO
  · iintro %r ⟨Hi, Ho, Hown, HW⟩
    isplitl [Hi Ho]
    · isplitl [Hi]; · iexact Hi
      iexists _
      isplitr
      · ipureintro
        exact writes_out1_apply d s f9 X (spec d) hX
      iexact Ho
    isplitl [Hown]
    · unfold own5; iexact Hown
    iexact HW

end Wrap

section WrapE

variable (g7 : (d : Dev nD) → Buf (Elt F) (l7 d)) (g8 : (d : Dev nD) → Buf (Elt F) (l8 d))
  (g6 : (d : Dev nD) → Buf (Elt F) (l6 d)) (g1 : (d : Dev nD) → Buf (Elt F) (l1 d))
  (spec : (d : Dev nD) → Buf (Elt F) (l9 d))

/-- The same from a run whose post carries the values' fact itself: the words are left at the whole-slice write of some
    values that are `spec` at the array indices under the slice. -/
theorem bodyV1_of_post
    (hrun : ∀ (d : Dev nD) (s : Fin (grid0.bound 1))
      (b0 : Buf (Elt F) ((thr d (L1 s)).loc cc0_scratch0)) (b1 : Buf (Elt F) ((thr d (L1 s)).loc cc0_scratch1))
      (b2 : Buf (Elt F) ((thr d (L1 s)).loc cc0_scratch2)) (b3 : Buf (Elt F) ((thr d (L1 s)).loc cc0_scratch3))
      (b4 : Buf (Elt F) ((thr d (L1 s)).loc cc0_scratch4))
      (q : PosShare TreeShare) (O : CellTallies nD τ sig (HIx 1)) (W : Waits sig (HIx 1)) (f9 : Buf (Elt F) (l9 d)),
        (iprop(Transfers.MayWaits (thr d (L1 s)) (none : HIx 1) O
            ∗ ins4 d q (g7 d) (g8 d) (g6 d) (g1 d)
            ∗ (l9 d ↦[(out1 (L1 s) (h2_L1 s)).view.set]{fullShare} f9)
            ∗ (((thr d (L1 s)).loc cc0_scratch0 ↦{fullShare} b0) ∗ ((thr d (L1 s)).loc cc0_scratch1 ↦{fullShare} b1)
              ∗ ((thr d (L1 s)).loc cc0_scratch2 ↦{fullShare} b2) ∗ ((thr d (L1 s)).loc cc0_scratch3 ↦{fullShare} b3)
              ∗ ((thr d (L1 s)).loc cc0_scratch4 ↦{fullShare} b4)
              ∗ semVal (thr d (L1 s), SemLoc.dma cc0_scoped0.sem) 0 ∗ semVal (thr d (L1 s), SemLoc.dma cc0_scoped1.sem) 0
              ∗ semVal (thr d (L1 s), SemLoc.dma cc0_scoped2.sem) 0 ∗ semVal (thr d (L1 s), SemLoc.dma cc0_scoped3.sem) 0
              ∗ semVal (thr d (L1 s), SemLoc.dma cc0_scoped4.sem) 0 ∗ semVal (thr d (L1 s), SemLoc.dma cc0_scoped5.sem) 0)
            ∗ owes (thr d (L1 s)) O W) : sProp 𝕄)
          ⊢ wp frame (wpE (defs₀ (F := F)) Variants.none (thr d (L1 s)) none) Set.univ
              (cc0__sc_body (F := F) (L1 s) A7 (Memref.isWhole_whole _) A8 (Memref.isWhole_whole _) A6 (Memref.isWhole_whole _) A1 (Memref.isWhole_whole _) A9 (Memref.isWhole_whole _)
              B0 (Memref.isWhole_whole _) B1 (Memref.isWhole_whole _) B2 (Memref.isWhole_whole _) B3 (Memref.isWhole_whole _) B4 (Memref.isWhole_whole _)
              cc0_scoped0 cc0_scoped1 cc0_scoped2 cc0_scoped3 cc0_scoped4 cc0_scoped5)
              fun _ => iprop(ins4 d q (g7 d) (g8 d) (g6 d) (g1 d)
                ∗ (∃ X : S1024.Idx → Elt F .f32, ⌜∀ j, X j = spec d ((out1 (L1 s) (h2_L1 s)).view.emb j)⌝
                    ∗ (l9 d ↦[(out1 (L1 s) (h2_L1 s)).view.set]{fullShare} (out1 (L1 s) (h2_L1 s)).view.writes (Elt F) f9 [⟨Rect.whole S1024, X⟩]))
                ∗ own5 d (L1 s)
                ∗ ∃ W', ⌜∀ p ∈ W', p ∈ W ∨ p.2 = none⌝ ∗ owes (thr d (L1 s)) O W')) :
    BodyV (U := U) g7 g8 g6 g1 spec 1 L1 := by
  intro d s O W
  unfold forTile forTileV own5
  iintro ⟨Hmw, ⟨Hi, ⟨%f9, Ho⟩⟩, ⟨⟨%b0, HB0⟩, ⟨%b1, HB1⟩, ⟨%b2, HB2⟩, ⟨%b3, HB3⟩, ⟨%b4, HB4⟩, Hs0, Hs1, Hs2, Hs3, Hs4, Hs5⟩, HO⟩
  iapply (wp_wand_r frame _ _)
  isplitl [Hmw Hi Ho HB0 HB1 HB2 HB3 HB4 Hs0 Hs1 Hs2 Hs3 Hs4 Hs5 HO]
  · iapply (hrun d s b0 b1 b2 b3 b4 (tokT 1 s) O W f9)
    isplitl [Hmw]; · iexact Hmw
    isplitl [Hi]; · iexact Hi
    isplitl [Ho]; · iexact Ho
    isplitl [HB0 HB1 HB2 HB3 HB4 Hs0 Hs1 Hs2 Hs3 Hs4 Hs5]
    · isplitl [HB0]; · iexact HB0
      isplitl [HB1]; · iexact HB1
      isplitl [HB2]; · iexact HB2
      isplitl [HB3]; · iexact HB3
      isplitl [HB4]; · iexact HB4
      isplitl [Hs0]; · iexact Hs0
      isplitl [Hs1]; · iexact Hs1
      isplitl [Hs2]; · iexact Hs2
      isplitl [Hs3]; · iexact Hs3
      isplitl [Hs4]; · iexact Hs4
      iexact Hs5
    iexact HO
  · iintro %r ⟨Hi, ⟨%X, %hX, Ho⟩, Hown, HW⟩
    isplitl [Hi Ho]
    · isplitl [Hi]; · iexact Hi
      iexists _
      isplitr
      · ipureintro
        exact writes_out1_apply d s f9 X (spec d) hX
      iexact Ho
    isplitl [Hown]
    · unfold own5; iexact Hown
    iexact HW

end WrapE

end Cert.Proof.ScI

end
-- ==== Proof.ScBridge1S.lean ====
import proofs.«209750_g45337674776763_cont_8to1c4_158_37_alg».proof.Proof.AlgMain
import proofs.«209750_g45337674776763_cont_8to1c4_158_37_alg».proof.Proof.ScBridge1W
import proofs.«209750_g45337674776763_cont_8to1c4_158_37_alg».proof.Proof.ScBridge0S

/-!
  The second SparseCore branch's formula, at the arrays the SparseCore call is reached with, is the result array's
  specification at the array index under each word of a subcore's slice: row `s / 4`, column `512 + 1024 (s % 4) + j`,
  where the specification is `scd2` of that batch and point `1024 (s % 4) + j` of the second set.
-/

noncomputable section

namespace Cert.Proof.ScBridge

open Cert.KernelIdeal Cert.KernelIdeal.Gen
open Idealize.ShloMosaic Idealize.SL.Sem Idealize.ShloMosaic.ValueIdx
open Cert.Proof.ScI Cert.Proof.Spec Cert.Proof.RefValue Cert.Proof.AlgMain Cert.Proof.Glue

variable (m : (ℓ : Loc nD τ sig) → Buf (Elt Ideal) ℓ)

/-- The specification at the array index under word `j` of subcore `s`'s slice, second branch. -/
theorem spec_emb1 (d : Dev nD) (s : Fin (grid0.bound 1)) (j : S1024.Idx) (b : Fin 4) (mm : Fin 4096)
    (hb : b.val = s.val / 4) (hm : mm.val = s.val % 4 * 1024 + (j 0).val) :
    specOf m d ((out1 (L1 s) (h2_L1 s)).view.emb j) = scd2 (m (d, ra0)) (m (d, ra1)) b mm := by
  have e0 : (((out1 (L1 s) (h2_L1 s)).view.emb j) 0).val = s.val / 4 := emb_out1 s j 0
  have e1 : (((out1 (L1 s) (h2_L1 s)).view.emb j) 1).val = 512 + s.val % 4 * 1024 + (j 0).val := emb_out1 s j 1
  show scSpec _ _ _ = _
  delta scSpec
  have hge : ¬ (((out1 (L1 s) (h2_L1 s)).view.emb j) 1).val < 512 := by rw [e1]; omega
  rw [dif_neg hge]
  congr 1
  · exact Fin.ext (by rw [e0, hb])
  · exact Fin.ext (by show _ - 512 = mm.val; rw [e1, hm]; omega)

/-- The second branch's formula over the four arrays is the specification under the word. -/
theorem formula1_spec (d : Dev nD) (s : Fin (grid0.bound 1)) (j : S1024.Idx) (b : Fin 4) (mm : Fin 4096)
    (hb : b.val = s.val / 4) (hm : mm.val = s.val % 4 * 1024 + (j 0).val)
    (f7 f8 : (⟨3, ![4, 3, 512]⟩ : Shape).Idx → EReal) (f6 f1 : (⟨3, ![4, 3, 4096]⟩ : Shape).Idx → EReal)
    (e7 : ∀ i, f7 i = g7 m d i) (e8 : ∀ i, f8 i = g8 m d i) (e6 : ∀ i, f6 i = g6 m d i) (e1 : ∀ i, f1 i = g1 m d i) :
    max (((f1 (ix3 b 0 mm) * f1 (ix3 b 0 mm) + f1 (ix3 b 1 mm) * f1 (ix3 b 1 mm)) + f1 (ix3 b 2 mm) * f1 (ix3 b 2 mm))
        + (Finset.univ : Finset (Fin 512)).fold min ⊤ (fun rr =>
            ((f8 (ix3 b 0 rr) * f8 (ix3 b 0 rr) + f8 (ix3 b 1 rr) * f8 (ix3 b 1 rr)) + f8 (ix3 b 2 rr) * f8 (ix3 b 2 rr))
              - ((2 : ℝ) : EReal) * ((f6 (ix3 b 0 mm) * f7 (ix3 b 0 rr) + f6 (ix3 b 1 mm) * f7 (ix3 b 1 rr))
                  + f6 (ix3 b 2 mm) * f7 (ix3 b 2 rr)))) 0
      = specOf m d ((out1 (L1 s) (h2_L1 s)).view.emb j) :=
  (scd2_of (a := m (d, ra0)) (c := m (d, ra1)) (fun b k r => (e7 _).trans (g7_apply m d b k r))
    (fun b k r => (e8 _).trans (g8_apply m d b k r)) (fun b k mm => (e6 _).trans (g6_apply m d b k mm))
    (fun b k mm => (e1 _).trans (g1_apply m d b k mm)) b mm).trans (spec_emb1 m d s j b mm hb hm).symm

end Cert.Proof.ScBridge

end
-- ==== Proof.ScMath4.lean ====
import proofs.«209750_g45337674776763_cont_8to1c4_158_37_alg».proof.Proof.ScMath3
/-!
  The strip scans' arithmetic, shared by the eight loops of the second SparseCore's branch: the step of a minimum over
  the first `16 K` of any number of candidates, and what a candidate of the two three-row strip buffers contributes.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The sixteen candidates after the first `16 K` of `M` extend the minimum over `m < 16 K` to the minimum over
    `m < 16 (K + 1)`: both sides are the greatest lower bound of the same terms. -/
theorem fold_stepM {M : ℕ} (G : Fin M → EReal) (b : EReal) (K : ℕ) (hK : 16 * (K + 1) ≤ M) :
    (Finset.univ : Finset (Fin 16)).fold min ((Finset.univ.filter fun m : Fin M => m.val < 16 * K).fold min b G)
        (fun i => G ⟨16 * K + i.val, by have := i.isLt; omega⟩)
      = (Finset.univ.filter fun m : Fin M => m.val < 16 * (K + 1)).fold min b G := by
  refine eq_of_forall_le_iff fun c => ?_
  rw [Finset.le_fold_min, Finset.le_fold_min, Finset.le_fold_min]
  constructor
  · rintro ⟨⟨hb, h1⟩, h2⟩
    refine ⟨hb, fun m hm => ?_⟩
    have hm' : m.val < 16 * (K + 1) := (Finset.mem_filter.mp hm).2
    by_cases hlt : m.val < 16 * K
    · exact h1 m (Finset.mem_filter.mpr ⟨Finset.mem_univ _, hlt⟩)
    · have hi : m.val - 16 * K < 16 := by omega
      have := h2 ⟨m.val - 16 * K, hi⟩ (Finset.mem_univ _)
      have e : (⟨16 * K + (⟨m.val - 16 * K, hi⟩ : Fin 16).val, by have := m.isLt; omega⟩ : Fin M) = m := Fin.ext (by show 16 * K + (m.val - 16 * K) = m.val; omega)
      rwa [e] at this
  · rintro ⟨hb, h⟩
    refine ⟨⟨hb, fun m hm => h m ?_⟩, fun i _ => h _ ?_⟩
    · exact Finset.mem_filter.mpr ⟨Finset.mem_univ _, by have := (Finset.mem_filter.mp hm).2; omega⟩
    · exact Finset.mem_filter.mpr ⟨Finset.mem_univ _, by show 16 * K + i.val < 16 * (K + 1); have := i.isLt; omega⟩

/-- Coordinate `a` of candidate `m` in a `3 × 512` strip buffer, as an extended real. -/
abbrev rdS (L : grid0.Coords) (c : Buf (Elt Ideal) ((B0).view.loc (thr d L))) (a : Fin 3) (m : Fin 512) : EReal := c (ix2 a m)

/-- What candidate `m` of the two strip buffers contributes to a row `(rx l, ry l, rz l)`. -/
def termS (L : grid0.Coords) (rx ry rz : FVec Ideal S16 .f32) (c0 c1 : Buf (Elt Ideal) ((B0).view.loc (thr d L))) (l : S16.Idx) (m : Fin 512) : EReal :=
  ((rdS d L c1 0 m * rdS d L c1 0 m + rdS d L c1 1 m * rdS d L c1 1 m) + rdS d L c1 2 m * rdS d L c1 2 m)
    - ((2 : ℝ) : EReal) * ((rx l * rdS d L c0 0 m + ry l * rdS d L c0 1 m) + rz l * rdS d L c0 2 m)

end Cert.Proof.ScI

end
-- ==== Proof.ScBridge1M.lean ====
import proofs.«209750_g45337674776763_cont_8to1c4_158_37_alg».proof.Proof.ScMath4

/-!
  One lane of one block of the second SparseCore branch, from the loop's mathematics to the formula over the four
  arrays: when the block's rows are the full arrays' coordinates at point `mm`, the two strip buffers the two strips'
  batch, the clamped sum of the row's norm and the minimum over the strip's candidates is the formula at `(b, mm)`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

theorem block_formula1 (L : grid0.Coords) (rx ry rz fx fy fz : FVec Ideal S16 .f32)
    (c0 c1 : Buf (Elt Ideal) ((B0).view.loc (thr d L))) (l : S16.Idx)
    (f7 f8 : (⟨3, ![4, 3, 512]⟩ : Shape).Idx → EReal) (f6 f1 : (⟨3, ![4, 3, 4096]⟩ : Shape).Idx → EReal)
    (b : Fin 4) (mm : Fin 4096)
    (hrx : rx l = f6 (ix3 b 0 mm)) (hry : ry l = f6 (ix3 b 1 mm)) (hrz : rz l = f6 (ix3 b 2 mm))
    (hfx : fx l = f1 (ix3 b 0 mm)) (hfy : fy l = f1 (ix3 b 1 mm)) (hfz : fz l = f1 (ix3 b 2 mm))
    (hc0 : ∀ (a : Fin 3) (rr : Fin 512), c0 (ix2 a rr) = f7 (ix3 b a rr))
    (hc1 : ∀ (a : Fin 3) (rr : Fin 512), c1 (ix2 a rr) = f8 (ix3 b a rr)) :
    max (nrmv fx fy fz l + (Finset.univ : Finset (Fin 512)).fold min (⊤ : EReal) (termS d L rx ry rz c0 c1 l)) 0
      = max (((f1 (ix3 b 0 mm) * f1 (ix3 b 0 mm) + f1 (ix3 b 1 mm) * f1 (ix3 b 1 mm)) + f1 (ix3 b 2 mm) * f1 (ix3 b 2 mm))
        + (Finset.univ : Finset (Fin 512)).fold min ⊤ (fun rr =>
            ((f8 (ix3 b 0 rr) * f8 (ix3 b 0 rr) + f8 (ix3 b 1 rr) * f8 (ix3 b 1 rr)) + f8 (ix3 b 2 rr) * f8 (ix3 b 2 rr))
              - ((2 : ℝ) : EReal) * ((f6 (ix3 b 0 mm) * f7 (ix3 b 0 rr) + f6 (ix3 b 1 mm) * f7 (ix3 b 1 rr))
                  + f6 (ix3 b 2 mm) * f7 (ix3 b 2 rr)))) 0 := by
  rw [nrmv_apply, hfx, hfy, hfz]
  refine congrArg (fun x => max (_ + x) 0) (Finset.fold_congr fun rr _ => ?_)
  unfold termS
  simp only [rdS, hrx, hry, hrz, hc0, hc1]

end Cert.Proof.ScI

end
-- ==== Proof.ScFinal1.lean ====
import proofs.«209750_g45337674776763_cont_8to1c4_158_37_alg».proof.Proof.ScVal1RunV
import proofs.«209750_g45337674776763_cont_8to1c4_158_37_alg».proof.Proof.ScBridge1S
import proofs.«209750_g45337674776763_cont_8to1c4_158_37_alg».proof.Proof.ScBridge1M
/-!
  The second branch of the vector-subcore kernel, as the launch takes it: from the body's run with its 1024 words named
  (`X1of`) and the statement that those words are the specification's clamped squared distances (`X1Spec`), the
  subcore hands its words of the result back at the specification.
-/

noncomputable section

namespace Cert.Proof.ScI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-- What remains of the second branch's value: the words the run leaves — the final copy's source, over the eight
    scans' minima at the strip buffers the copies fill — are the specification at the array indices under them. -/
def X1Spec : Prop :=
  ∀ (d : Dev nD) (s : Fin (grid0.bound 1))
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx),
    X1of (F := Ideal) d s (g7 m d) (g8 m d) (g6 m d) (g1 m d) b0 b1 b2 b3 b4 j
      = Cert.Proof.AlgMain.specOf m d ((out1 (L1 s) (h2_L1 s)).view.emb j)

/-- The second branch, given that statement. -/
theorem bodyV1_final_of (hX : X1Spec m) :
    BodyV (F := Ideal) (U := Cert.KernelIdeal.Tc.UU) (g7 m) (g8 m) (g6 m) (g1 m) (Cert.Proof.AlgMain.specOf m) 1 L1 := by
  refine bodyV1_of_post (F := Ideal) (U := Cert.KernelIdeal.Tc.UU) (g7 m) (g8 m) (g6 m) (g1 m) (Cert.Proof.AlgMain.specOf m)
    (fun d s b0 b1 b2 b3 b4 q O W f9 => ?_)
  iintro H
  iapply (wp_wand_r frame _ _)
  isplitl [H]
  · iapply (run1v (F := Ideal) (U := Cert.KernelIdeal.Tc.UU) d s (g7 m d) (g8 m d) (g6 m d) (g1 m d) b0 b1 b2 b3 b4 q O W f9)
    iexact H
  · iintro %r ⟨Hi, ⟨%X, %hXv, H9⟩, Hown, HW⟩
    isplitl [Hi]; · iexact Hi
    isplitl [H9]
    · iexists X
      isplitr
      · ipureintro; intro j; rw [hXv j]; exact hX d s b0 b1 b2 b3 b4 j
      iexact H9
    isplitl [Hown]; · iexact Hown
    iexact HW

end Cert.Proof.ScI

end
-- ==== Proof.ScBridgeR1.lean ====
import Idealize.ShloMosaic.Lib.WritesUnit
import Idealize.ShloMosaic.Lib.ValueIdx
import proofs.«209750_g45337674776763_cont_8to1c4_158_37_alg».proof.Proof.Gen.KernelIdeal

/-!
  Eight stores of sixteen words each at offsets `128 g + 16 i` of a 1024-word buffer, written over whatever came
  before, read back one word at a time: word `128 g + 16 k + l` reads the payload of the store at offset `128 g + 16 k`
  at lane `l`. One statement per group `g`.
-/

noncomputable section

namespace Cert.Proof.ScBridge

open Cert.KernelIdeal Cert.KernelIdeal.Gen
open Idealize.ShloMosaic Idealize.ShloMosaic.ValueIdx

variable {sig : RefSig} {κ : Kind} {sp : Space} {Val : EltTy → Type}

set_option maxHeartbeats 1000000 in
theorem read8_1 (v : View sig κ sp S1024 .f32) (f : v.ty.Contents Val) (T : List (View.Piece Val S1024 .f32))
    (w128 w144 w160 w176 w192 w208 w224 w240 : S16.Idx → Val .f32)
    (i128 : ∀ a, (![128] : Fin 1 → ℕ) a + S16.size a ≤ S1024.size a) (i144 : ∀ a, (![144] : Fin 1 → ℕ) a + S16.size a ≤ S1024.size a) (i160 : ∀ a, (![160] : Fin 1 → ℕ) a + S16.size a ≤ S1024.size a) (i176 : ∀ a, (![176] : Fin 1 → ℕ) a + S16.size a ≤ S1024.size a) (i192 : ∀ a, (![192] : Fin 1 → ℕ) a + S16.size a ≤ S1024.size a) (i208 : ∀ a, (![208] : Fin 1 → ℕ) a + S16.size a ≤ S1024.size a) (i224 : ∀ a, (![224] : Fin 1 → ℕ) a + S16.size a ≤ S1024.size a) (i240 : ∀ a, (![240] : Fin 1 → ℕ) a + S16.size a ≤ S1024.size a)
    (y : S1024.Idx) (k : Fin 8) (l : Fin 16) (hy : (y 0).val = 128 + 16 * k.val + l.val) :
    v.read Val (v.writes Val f ((⟨Rect.unit ![240] S16.size i240, w240⟩ : View.Piece Val S1024 .f32) ::
        (⟨Rect.unit ![224] S16.size i224, w224⟩ : View.Piece Val S1024 .f32) ::
        (⟨Rect.unit ![208] S16.size i208, w208⟩ : View.Piece Val S1024 .f32) ::
        (⟨Rect.unit ![192] S16.size i192, w192⟩ : View.Piece Val S1024 .f32) ::
        (⟨Rect.unit ![176] S16.size i176, w176⟩ : View.Piece Val S1024 .f32) ::
        (⟨Rect.unit ![160] S16.size i160, w160⟩ : View.Piece Val S1024 .f32) ::
        (⟨Rect.unit ![144] S16.size i144, w144⟩ : View.Piece Val S1024 .f32) ::
        (⟨Rect.unit ![128] S16.size i128, w128⟩ : View.Piece Val S1024 .f32) :: T)) y
      = (![w128, w144, w160, w176, w192, w208, w224, w240] k) (ix1 l) := by
  have hl := l.isLt
  fin_cases k
  · have hy' : (y 0).val = 128 + l.val := by simpa using hy
    rw [View.read_writes_cons_unit_of_not_mem v f i240 w240 _ y rfl (0 : Fin 1) (by show (y 0).val < 240 ∨ 240 + 16 ≤ (y 0).val; omega)]
    rw [View.read_writes_cons_unit_of_not_mem v f i224 w224 _ y rfl (0 : Fin 1) (by show (y 0).val < 224 ∨ 224 + 16 ≤ (y 0).val; omega)]
    rw [View.read_writes_cons_unit_of_not_mem v f i208 w208 _ y rfl (0 : Fin 1) (by show (y 0).val < 208 ∨ 208 + 16 ≤ (y 0).val; omega)]
    rw [View.read_writes_cons_unit_of_not_mem v f i192 w192 _ y rfl (0 : Fin 1) (by show (y 0).val < 192 ∨ 192 + 16 ≤ (y 0).val; omega)]
    rw [View.read_writes_cons_unit_of_not_mem v f i176 w176 _ y rfl (0 : Fin 1) (by show (y 0).val < 176 ∨ 176 + 16 ≤ (y 0).val; omega)]
    rw [View.read_writes_cons_unit_of_not_mem v f i160 w160 _ y rfl (0 : Fin 1) (by show (y 0).val < 160 ∨ 160 + 16 ≤ (y 0).val; omega)]
    rw [View.read_writes_cons_unit_of_not_mem v f i144 w144 _ y rfl (0 : Fin 1) (by show (y 0).val < 144 ∨ 144 + 16 ≤ (y 0).val; omega)]
    exact View.read_writes_cons_unit_of_mem v f i128 w128 _ y (ix1 l) rfl (fun a => by
      have ha : a = (0 : Fin 1) := Subsingleton.elim _ _
      subst ha
      show (y 0).val = 128 + l.val
      omega)
  · have hy' : (y 0).val = 144 + l.val := by simpa using hy
    rw [View.read_writes_cons_unit_of_not_mem v f i240 w240 _ y rfl (0 : Fin 1) (by show (y 0).val < 240 ∨ 240 + 16 ≤ (y 0).val; omega)]
    rw [View.read_writes_cons_unit_of_not_mem v f i224 w224 _ y rfl (0 : Fin 1) (by show (y 0).val < 224 ∨ 224 + 16 ≤ (y 0).val; omega)]
    rw [View.read_writes_cons_unit_of_not_mem v f i208 w208 _ y rfl (0 : Fin 1) (by show (y 0).val < 208 ∨ 208 + 16 ≤ (y 0).val; omega)]
    rw [View.read_writes_cons_unit_of_not_mem v f i192 w192 _ y rfl (0 : Fin 1) (by show (y 0).val < 192 ∨ 192 + 16 ≤ (y 0).val; omega)]
    rw [View.read_writes_cons_unit_of_not_mem v f i176 w176 _ y rfl (0 : Fin 1) (by show (y 0).val < 176 ∨ 176 + 16 ≤ (y 0).val; omega)]
    rw [View.read_writes_cons_unit_of_not_mem v f i160 w160 _ y rfl (0 : Fin 1) (by show (y 0).val < 160 ∨ 160 + 16 ≤ (y 0).val; omega)]
    exact View.read_writes_cons_unit_of_mem v f i144 w144 _ y (ix1 l) rfl (fun a => by
      have ha : a = (0 : Fin 1) := Subsingleton.elim _ _
      subst ha
      show (y 0).val = 144 + l.val
      omega)
  · have hy' : (y 0).val = 160 + l.val := by simpa using hy
    rw [View.read_writes_cons_unit_of_not_mem v f i240 w240 _ y rfl (0 : Fin 1) (by show (y 0).val < 240 ∨ 240 + 16 ≤ (y 0).val; omega)]
    rw [View.read_writes_cons_unit_of_not_mem v f i224 w224 _ y rfl (0 : Fin 1) (by show (y 0).val < 224 ∨ 224 + 16 ≤ (y 0).val; omega)]
    rw [View.read_writes_cons_unit_of_not_mem v f i208 w208 _ y rfl (0 : Fin 1) (by show (y 0).val < 208 ∨ 208 + 16 ≤ (y 0).val; omega)]
    rw [View.read_writes_cons_unit_of_not_mem v f i192 w192 _ y rfl (0 : Fin 1) (by show (y 0).val < 192 ∨ 192 + 16 ≤ (y 0).val; omega)]
    rw [View.read_writes_cons_unit_of_not_mem v f i176 w176 _ y rfl (0 : Fin 1) (by show (y 0).val < 176 ∨ 176 + 16 ≤ (y 0).val; omega)]
    exact View.read_writes_cons_unit_of_mem v f i160 w160 _ y (ix1 l) rfl (fun a => by
      have ha : a = (0 : Fin 1) := Subsingleton.elim _ _
      subst ha
      show (y 0).val = 160 + l.val
      omega)
  · have hy' : (y 0).val = 176 + l.val := by simpa using hy
    rw [View.read_writes_cons_unit_of_not_mem v f i240 w240 _ y rfl (0 : Fin 1) (by show (y 0).val < 240 ∨ 240 + 16 ≤ (y 0).val; omega)]
    rw [View.read_writes_cons_unit_of_not_mem v f i224 w224 _ y rfl (0 : Fin 1) (by show (y 0).val < 224 ∨ 224 + 16 ≤ (y 0).val; omega)]
    rw [View.read_writes_cons_unit_of_not_mem v f i208 w208 _ y rfl (0 : Fin 1) (by show (y 0).val < 208 ∨ 208 + 16 ≤ (y 0).val; omega)]
    rw [View.read_writes_cons_unit_of_not_mem v f i192 w192 _ y rfl (0 : Fin 1) (by show (y 0).val < 192 ∨ 192 + 16 ≤ (y 0).val; omega)]
    exact View.read_writes_cons_unit_of_mem v f i176 w176 _ y (ix1 l) rfl (fun a => by
      have ha : a = (0 : Fin 1) := Subsingleton.elim _ _
      subst ha
      show (y 0).val = 176 + l.val
      omega)
  · have hy' : (y 0).val = 192 + l.val := by simpa using hy
    rw [View.read_writes_cons_unit_of_not_mem v f i240 w240 _ y rfl (0 : Fin 1) (by show (y 0).val < 240 ∨ 240 + 16 ≤ (y 0).val; omega)]
    rw [View.read_writes_cons_unit_of_not_mem v f i224 w224 _ y rfl (0 : Fin 1) (by show (y 0).val < 224 ∨ 224 + 16 ≤ (y 0).val; omega)]
    rw [View.read_writes_cons_unit_of_not_mem v f i208 w208 _ y rfl (0 : Fin 1) (by show (y 0).val < 208 ∨ 208 + 16 ≤ (y 0).val; omega)]
    exact View.read_writes_cons_unit_of_mem v f i192 w192 _ y (ix1 l) rfl (fun a => by
      have ha : a = (0 : Fin 1) := Subsingleton.elim _ _
      subst ha
      show (y 0).val = 192 + l.val
      omega)
  · have hy' : (y 0).val = 208 + l.val := by simpa using hy
    rw [View.read_writes_cons_unit_of_not_mem v f i240 w240 _ y rfl (0 : Fin 1) (by show (y 0).val < 240 ∨ 240 + 16 ≤ (y 0).val; omega)]
    rw [View.read_writes_cons_unit_of_not_mem v f i224 w224 _ y rfl (0 : Fin 1) (by show (y 0).val < 224 ∨ 224 + 16 ≤ (y 0).val; omega)]
    exact View.read_writes_cons_unit_of_mem v f i208 w208 _ y (ix1 l) rfl (fun a => by
      have ha : a = (0 : Fin 1) := Subsingleton.elim _ _
      subst ha
      show (y 0).val = 208 + l.val
      omega)
  · have hy' : (y 0).val = 224 + l.val := by simpa using hy
    rw [View.read_writes_cons_unit_of_not_mem v f i240 w240 _ y rfl (0 : Fin 1) (by show (y 0).val < 240 ∨ 240 + 16 ≤ (y 0).val; omega)]
    exact View.read_writes_cons_unit_of_mem v f i224 w224 _ y (ix1 l) rfl (fun a => by
      have ha : a = (0 : Fin 1) := Subsingleton.elim _ _
      subst ha
      show (y 0).val = 224 + l.val
      omega)
  · have hy' : (y 0).val = 240 + l.val := by simpa using hy
    exact View.read_writes_cons_unit_of_mem v f i240 w240 _ y (ix1 l) rfl (fun a => by
      have ha : a = (0 : Fin 1) := Subsingleton.elim _ _
      subst ha
      show (y 0).val = 240 + l.val
      omega)

set_option maxHeartbeats 1000000 in
theorem read8_2 (v : View sig κ sp S1024 .f32) (f : v.ty.Contents Val) (T : List (View.Piece Val S1024 .f32))
    (w256 w272 w288 w304 w320 w336 w352 w368 : S16.Idx → Val .f32)
    (i256 : ∀ a, (![256] : Fin 1 → ℕ) a + S16.size a ≤ S1024.size a) (i272 : ∀ a, (![272] : Fin 1 → ℕ) a + S16.size a ≤ S1024.size a) (i288 : ∀ a, (![288] : Fin 1 → ℕ) a + S16.size a ≤ S1024.size a) (i304 : ∀ a, (![304] : Fin 1 → ℕ) a + S16.size a ≤ S1024.size a) (i320 : ∀ a, (![320] : Fin 1 → ℕ) a + S16.size a ≤ S1024.size a) (i336 : ∀ a, (![336] : Fin 1 → ℕ) a + S16.size a ≤ S1024.size a) (i352 : ∀ a, (![352] : Fin 1 → ℕ) a + S16.size a ≤ S1024.size a) (i368 : ∀ a, (![368] : Fin 1 → ℕ) a + S16.size a ≤ S1024.size a)
    (y : S1024.Idx) (k : Fin 8) (l : Fin 16) (hy : (y 0).val = 256 + 16 * k.val + l.val) :
    v.read Val (v.writes Val f ((⟨Rect.unit ![368] S16.size i368, w368⟩ : View.Piece Val S1024 .f32) ::
        (⟨Rect.unit ![352] S16.size i352, w352⟩ : View.Piece Val S1024 .f32) ::
        (⟨Rect.unit ![336] S16.size i336, w336⟩ : View.Piece Val S1024 .f32) ::
        (⟨Rect.unit ![320] S16.size i320, w320⟩ : View.Piece Val S1024 .f32) ::
        (⟨Rect.unit ![304] S16.size i304, w304⟩ : View.Piece Val S1024 .f32) ::
        (⟨Rect.unit ![288] S16.size i288, w288⟩ : View.Piece Val S1024 .f32) ::
        (⟨Rect.unit ![272] S16.size i272, w272⟩ : View.Piece Val S1024 .f32) ::
        (⟨Rect.unit ![256] S16.size i256, w256⟩ : View.Piece Val S1024 .f32) :: T)) y
      = (![w256, w272, w288, w304, w320, w336, w352, w368] k) (ix1 l) := by
  have hl := l.isLt
  fin_cases k
  · have hy' : (y 0).val = 256 + l.val := by simpa using hy
    rw [View.read_writes_cons_unit_of_not_mem v f i368 w368 _ y rfl (0 : Fin 1) (by show (y 0).val < 368 ∨ 368 + 16 ≤ (y 0).val; omega)]
    rw [View.read_writes_cons_unit_of_not_mem v f i352 w352 _ y rfl (0 : Fin 1) (by show (y 0).val < 352 ∨ 352 + 16 ≤ (y 0).val; omega)]
    rw [View.read_writes_cons_unit_of_not_mem v f i336 w336 _ y rfl (0 : Fin 1) (by show (y 0).val < 336 ∨ 336 + 16 ≤ (y 0).val; omega)]
    rw [View.read_writes_cons_unit_of_not_mem v f i320 w320 _ y rfl (0 : Fin 1) (by show (y 0).val < 320 ∨ 320 + 16 ≤ (y 0).val; omega)]
    rw [View.read_writes_cons_unit_of_not_mem v f i304 w304 _ y rfl (0 : Fin 1) (by show (y 0).val < 304 ∨ 304 + 16 ≤ (y 0).val; omega)]
    rw [View.read_writes_cons_unit_of_not_mem v f i288 w288 _ y rfl (0 : Fin 1) (by show (y 0).val < 288 ∨ 288 + 16 ≤ (y 0).val; omega)]
    rw [View.read_writes_cons_unit_of_not_mem v f i272 w272 _ y rfl (0 : Fin 1) (by show (y 0).val < 272 ∨ 272 + 16 ≤ (y 0).val; omega)]
    exact View.read_writes_cons_unit_of_mem v f i256 w256 _ y (ix1 l) rfl (fun a => by
      have ha : a = (0 : Fin 1) := Subsingleton.elim _ _
      subst ha
      show (y 0).val = 256 + l.val
      omega)
  · have hy' : (y 0).val = 272 + l.val := by simpa using hy
    rw [View.read_writes_cons_unit_of_not_mem v f i368 w368 _ y rfl (0 : Fin 1) (by show (y 0).val < 368 ∨ 368 + 16 ≤ (y 0).val; omega)]
    rw [View.read_writes_cons_unit_of_not_mem v f i352 w352 _ y rfl (0 : Fin 1) (by show (y 0).val < 352 ∨ 352 + 16 ≤ (y 0).val; omega)]
    rw [View.read_writes_cons_unit_of_not_mem v f i336 w336 _ y rfl (0 : Fin 1) (by show (y 0).val < 336 ∨ 336 + 16 ≤ (y 0).val; omega)]
    rw [View.read_writes_cons_unit_of_not_mem v f i320 w320 _ y rfl (0 : Fin 1) (by show (y 0).val < 320 ∨ 320 + 16 ≤ (y 0).val; omega)]
    rw [View.read_writes_cons_unit_of_not_mem v f i304 w304 _ y rfl (0 : Fin 1) (by show (y 0).val < 304 ∨ 304 + 16 ≤ (y 0).val; omega)]
    rw [View.read_writes_cons_unit_of_not_mem v f i288 w288 _ y rfl (0 : Fin 1) (by show (y 0).val < 288 ∨ 288 + 16 ≤ (y 0).val; omega)]
    exact View.read_writes_cons_unit_of_mem v f i272 w272 _ y (ix1 l) rfl (fun a => by
      have ha : a = (0 : Fin 1) := Subsingleton.elim _ _
      subst ha
      show (y 0).val = 272 + l.val
      omega)
  · have hy' : (y 0).val = 288 + l.val := by simpa using hy
    rw [View.read_writes_cons_unit_of_not_mem v f i368 w368 _ y rfl (0 : Fin 1) (by show (y 0).val < 368 ∨ 368 + 16 ≤ (y 0).val; omega)]
    rw [View.read_writes_cons_unit_of_not_mem v f i352 w352 _ y rfl (0 : Fin 1) (by show (y 0).val < 352 ∨ 352 + 16 ≤ (y 0).val; omega)]
    rw [View.read_writes_cons_unit_of_not_mem v f i336 w336 _ y rfl (0 : Fin 1) (by show (y 0).val < 336 ∨ 336 + 16 ≤ (y 0).val; omega)]
    rw [View.read_writes_cons_unit_of_not_mem v f i320 w320 _ y rfl (0 : Fin 1) (by show (y 0).val < 320 ∨ 320 + 16 ≤ (y 0).val; omega)]
    rw [View.read_writes_cons_unit_of_not_mem v f i304 w304 _ y rfl (0 : Fin 1) (by show (y 0).val < 304 ∨ 304 + 16 ≤ (y 0).val; omega)]
    exact View.read_writes_cons_unit_of_mem v f i288 w288 _ y (ix1 l) rfl (fun a => by
      have ha : a = (0 : Fin 1) := Subsingleton.elim _ _
      subst ha
      show (y 0).val = 288 + l.val
      omega)
  · have hy' : (y 0).val = 304 + l.val := by simpa using hy
    rw [View.read_writes_cons_unit_of_not_mem v f i368 w368 _ y rfl (0 : Fin 1) (by show (y 0).val < 368 ∨ 368 + 16 ≤ (y 0).val; omega)]
    rw [View.read_writes_cons_unit_of_not_mem v f i352 w352 _ y rfl (0 : Fin 1) (by show (y 0).val < 352 ∨ 352 + 16 ≤ (y 0).val; omega)]
    rw [View.read_writes_cons_unit_of_not_mem v f i336 w336 _ y rfl (0 : Fin 1) (by show (y 0).val < 336 ∨ 336 + 16 ≤ (y 0).val; omega)]
    rw [View.read_writes_cons_unit_of_not_mem v f i320 w320 _ y rfl (0 : Fin 1) (by show (y 0).val < 320 ∨ 320 + 16 ≤ (y 0).val; omega)]
    exact View.read_writes_cons_unit_of_mem v f i304 w304 _ y (ix1 l) rfl (fun a => by
      have ha : a = (0 : Fin 1) := Subsingleton.elim _ _
      subst ha
      show (y 0).val = 304 + l.val
      omega)
  · have hy' : (y 0).val = 320 + l.val := by simpa using hy
    rw [View.read_writes_cons_unit_of_not_mem v f i368 w368 _ y rfl (0 : Fin 1) (by show (y 0).val < 368 ∨ 368 + 16 ≤ (y 0).val; omega)]
    rw [View.read_writes_cons_unit_of_not_mem v f i352 w352 _ y rfl (0 : Fin 1) (by show (y 0).val < 352 ∨ 352 + 16 ≤ (y 0).val; omega)]
    rw [View.read_writes_cons_unit_of_not_mem v f i336 w336 _ y rfl (0 : Fin 1) (by show (y 0).val < 336 ∨ 336 + 16 ≤ (y 0).val; omega)]
    exact View.read_writes_cons_unit_of_mem v f i320 w320 _ y (ix1 l) rfl (fun a => by
      have ha : a = (0 : Fin 1) := Subsingleton.elim _ _
      subst ha
      show (y 0).val = 320 + l.val
      omega)
  · have hy' : (y 0).val = 336 + l.val := by simpa using hy
    rw [View.read_writes_cons_unit_of_not_mem v f i368 w368 _ y rfl (0 : Fin 1) (by show (y 0).val < 368 ∨ 368 + 16 ≤ (y 0).val; omega)]
    rw [View.read_writes_cons_unit_of_not_mem v f i352 w352 _ y rfl (0 : Fin 1) (by show (y 0).val < 352 ∨ 352 + 16 ≤ (y 0).val; omega)]
    exact View.read_writes_cons_unit_of_mem v f i336 w336 _ y (ix1 l) rfl (fun a => by
      have ha : a = (0 : Fin 1) := Subsingleton.elim _ _
      subst ha
      show (y 0).val = 336 + l.val
      omega)
  · have hy' : (y 0).val = 352 + l.val := by simpa using hy
    rw [View.read_writes_cons_unit_of_not_mem v f i368 w368 _ y rfl (0 : Fin 1) (by show (y 0).val < 368 ∨ 368 + 16 ≤ (y 0).val; omega)]
    exact View.read_writes_cons_unit_of_mem v f i352 w352 _ y (ix1 l) rfl (fun a => by
      have ha : a = (0 : Fin 1) := Subsingleton.elim _ _
      subst ha
      show (y 0).val = 352 + l.val
      omega)
  · have hy' : (y 0).val = 368 + l.val := by simpa using hy
    exact View.read_writes_cons_unit_of_mem v f i368 w368 _ y (ix1 l) rfl (fun a => by
      have ha : a = (0 : Fin 1) := Subsingleton.elim _ _
      subst ha
      show (y 0).val = 368 + l.val
      omega)

set_option maxHeartbeats 1000000 in
theorem read8_3 (v : View sig κ sp S1024 .f32) (f : v.ty.Contents Val) (T : List (View.Piece Val S1024 .f32))
    (w384 w400 w416 w432 w448 w464 w480 w496 : S16.Idx → Val .f32)
    (i384 : ∀ a, (![384] : Fin 1 → ℕ) a + S16.size a ≤ S1024.size a) (i400 : ∀ a, (![400] : Fin 1 → ℕ) a + S16.size a ≤ S1024.size a) (i416 : ∀ a, (![416] : Fin 1 → ℕ) a + S16.size a ≤ S1024.size a) (i432 : ∀ a, (![432] : Fin 1 → ℕ) a + S16.size a ≤ S1024.size a) (i448 : ∀ a, (![448] : Fin 1 → ℕ) a + S16.size a ≤ S1024.size a) (i464 : ∀ a, (![464] : Fin 1 → ℕ) a + S16.size a ≤ S1024.size a) (i480 : ∀ a, (![480] : Fin 1 → ℕ) a + S16.size a ≤ S1024.size a) (i496 : ∀ a, (![496] : Fin 1 → ℕ) a + S16.size a ≤ S1024.size a)
    (y : S1024.Idx) (k : Fin 8) (l : Fin 16) (hy : (y 0).val = 384 + 16 * k.val + l.val) :
    v.read Val (v.writes Val f ((⟨Rect.unit ![496] S16.size i496, w496⟩ : View.Piece Val S1024 .f32) ::
        (⟨Rect.unit ![480] S16.size i480, w480⟩ : View.Piece Val S1024 .f32) ::
        (⟨Rect.unit ![464] S16.size i464, w464⟩ : View.Piece Val S1024 .f32) ::
        (⟨Rect.unit ![448] S16.size i448, w448⟩ : View.Piece Val S1024 .f32) ::
        (⟨Rect.unit ![432] S16.size i432, w432⟩ : View.Piece Val S1024 .f32) ::
        (⟨Rect.unit ![416] S16.size i416, w416⟩ : View.Piece Val S1024 .f32) ::
        (⟨Rect.unit ![400] S16.size i400, w400⟩ : View.Piece Val S1024 .f32) ::
        (⟨Rect.unit ![384] S16.size i384, w384⟩ : View.Piece Val S1024 .f32) :: T)) y
      = (![w384, w400, w416, w432, w448, w464, w480, w496] k) (ix1 l) := by
  have hl := l.isLt
  fin_cases k
  · have hy' : (y 0).val = 384 + l.val := by simpa using hy
    rw [View.read_writes_cons_unit_of_not_mem v f i496 w496 _ y rfl (0 : Fin 1) (by show (y 0).val < 496 ∨ 496 + 16 ≤ (y 0).val; omega)]
    rw [View.read_writes_cons_unit_of_not_mem v f i480 w480 _ y rfl (0 : Fin 1) (by show (y 0).val < 480 ∨ 480 + 16 ≤ (y 0).val; omega)]
    rw [View.read_writes_cons_unit_of_not_mem v f i464 w464 _ y rfl (0 : Fin 1) (by show (y 0).val < 464 ∨ 464 + 16 ≤ (y 0).val; omega)]
    rw [View.read_writes_cons_unit_of_not_mem v f i448 w448 _ y rfl (0 : Fin 1) (by show (y 0).val < 448 ∨ 448 + 16 ≤ (y 0).val; omega)]
    rw [View.read_writes_cons_unit_of_not_mem v f i432 w432 _ y rfl (0 : Fin 1) (by show (y 0).val < 432 ∨ 432 + 16 ≤ (y 0).val; omega)]
    rw [View.read_writes_cons_unit_of_not_mem v f i416 w416 _ y rfl (0 : Fin 1) (by show (y 0).val < 416 ∨ 416 + 16 ≤ (y 0).val; omega)]
    rw [View.read_writes_cons_unit_of_not_mem v f i400 w400 _ y rfl (0 : Fin 1) (by show (y 0).val < 400 ∨ 400 + 16 ≤ (y 0).val; omega)]
    exact View.read_writes_cons_unit_of_mem v f i384 w384 _ y (ix1 l) rfl (fun a => by
      have ha : a = (0 : Fin 1) := Subsingleton.elim _ _
      subst ha
      show (y 0).val = 384 + l.val
      omega)
  · have hy' : (y 0).val = 400 + l.val := by simpa using hy
    rw [View.read_writes_cons_unit_of_not_mem v f i496 w496 _ y rfl (0 : Fin 1) (by show (y 0).val < 496 ∨ 496 + 16 ≤ (y 0).val; omega)]
    rw [View.read_writes_cons_unit_of_not_mem v f i480 w480 _ y rfl (0 : Fin 1) (by show (y 0).val < 480 ∨ 480 + 16 ≤ (y 0).val; omega)]
    rw [View.read_writes_cons_unit_of_not_mem v f i464 w464 _ y rfl (0 : Fin 1) (by show (y 0).val < 464 ∨ 464 + 16 ≤ (y 0).val; omega)]
    rw [View.read_writes_cons_unit_of_not_mem v f i448 w448 _ y rfl (0 : Fin 1) (by show (y 0).val < 448 ∨ 448 + 16 ≤ (y 0).val; omega)]
    rw [View.read_writes_cons_unit_of_not_mem v f i432 w432 _ y rfl (0 : Fin 1) (by show (y 0).val < 432 ∨ 432 + 16 ≤ (y 0).val; omega)]
    rw [View.read_writes_cons_unit_of_not_mem v f i416 w416 _ y rfl (0 : Fin 1) (by show (y 0).val < 416 ∨ 416 + 16 ≤ (y 0).val; omega)]
    exact View.read_writes_cons_unit_of_mem v f i400 w400 _ y (ix1 l) rfl (fun a => by
      have ha : a = (0 : Fin 1) := Subsingleton.elim _ _
      subst ha
      show (y 0).val = 400 + l.val
      omega)
  · have hy' : (y 0).val = 416 + l.val := by simpa using hy
    rw [View.read_writes_cons_unit_of_not_mem v f i496 w496 _ y rfl (0 : Fin 1) (by show (y 0).val < 496 ∨ 496 + 16 ≤ (y 0).val; omega)]
    rw [View.read_writes_cons_unit_of_not_mem v f i480 w480 _ y rfl (0 : Fin 1) (by show (y 0).val < 480 ∨ 480 + 16 ≤ (y 0).val; omega)]
    rw [View.read_writes_cons_unit_of_not_mem v f i464 w464 _ y rfl (0 : Fin 1) (by show (y 0).val < 464 ∨ 464 + 16 ≤ (y 0).val; omega)]
    rw [View.read_writes_cons_unit_of_not_mem v f i448 w448 _ y rfl (0 : Fin 1) (by show (y 0).val < 448 ∨ 448 + 16 ≤ (y 0).val; omega)]
    rw [View.read_writes_cons_unit_of_not_mem v f i432 w432 _ y rfl (0 : Fin 1) (by show (y 0).val < 432 ∨ 432 + 16 ≤ (y 0).val; omega)]
    exact View.read_writes_cons_unit_of_mem v f i416 w416 _ y (ix1 l) rfl (fun a => by
      have ha : a = (0 : Fin 1) := Subsingleton.elim _ _
      subst ha
      show (y 0).val = 416 + l.val
      omega)
  · have hy' : (y 0).val = 432 + l.val := by simpa using hy
    rw [View.read_writes_cons_unit_of_not_mem v f i496 w496 _ y rfl (0 : Fin 1) (by show (y 0).val < 496 ∨ 496 + 16 ≤ (y 0).val; omega)]
    rw [View.read_writes_cons_unit_of_not_mem v f i480 w480 _ y rfl (0 : Fin 1) (by show (y 0).val < 480 ∨ 480 + 16 ≤ (y 0).val; omega)]
    rw [View.read_writes_cons_unit_of_not_mem v f i464 w464 _ y rfl (0 : Fin 1) (by show (y 0).val < 464 ∨ 464 + 16 ≤ (y 0).val; omega)]
    rw [View.read_writes_cons_unit_of_not_mem v f i448 w448 _ y rfl (0 : Fin 1) (by show (y 0).val < 448 ∨ 448 + 16 ≤ (y 0).val; omega)]
    exact View.read_writes_cons_unit_of_mem v f i432 w432 _ y (ix1 l) rfl (fun a => by
      have ha : a = (0 : Fin 1) := Subsingleton.elim _ _
      subst ha
      show (y 0).val = 432 + l.val
      omega)
  · have hy' : (y 0).val = 448 + l.val := by simpa using hy
    rw [View.read_writes_cons_unit_of_not_mem v f i496 w496 _ y rfl (0 : Fin 1) (by show (y 0).val < 496 ∨ 496 + 16 ≤ (y 0).val; omega)]
    rw [View.read_writes_cons_unit_of_not_mem v f i480 w480 _ y rfl (0 : Fin 1) (by show (y 0).val < 480 ∨ 480 + 16 ≤ (y 0).val; omega)]
    rw [View.read_writes_cons_unit_of_not_mem v f i464 w464 _ y rfl (0 : Fin 1) (by show (y 0).val < 464 ∨ 464 + 16 ≤ (y 0).val; omega)]
    exact View.read_writes_cons_unit_of_mem v f i448 w448 _ y (ix1 l) rfl (fun a => by
      have ha : a = (0 : Fin 1) := Subsingleton.elim _ _
      subst ha
      show (y 0).val = 448 + l.val
      omega)
  · have hy' : (y 0).val = 464 + l.val := by simpa using hy
    rw [View.read_writes_cons_unit_of_not_mem v f i496 w496 _ y rfl (0 : Fin 1) (by show (y 0).val < 496 ∨ 496 + 16 ≤ (y 0).val; omega)]
    rw [View.read_writes_cons_unit_of_not_mem v f i480 w480 _ y rfl (0 : Fin 1) (by show (y 0).val < 480 ∨ 480 + 16 ≤ (y 0).val; omega)]
    exact View.read_writes_cons_unit_of_mem v f i464 w464 _ y (ix1 l) rfl (fun a => by
      have ha : a = (0 : Fin 1) := Subsingleton.elim _ _
      subst ha
      show (y 0).val = 464 + l.val
      omega)
  · have hy' : (y 0).val = 480 + l.val := by simpa using hy
    rw [View.read_writes_cons_unit_of_not_mem v f i496 w496 _ y rfl (0 : Fin 1) (by show (y 0).val < 496 ∨ 496 + 16 ≤ (y 0).val; omega)]
    exact View.read_writes_cons_unit_of_mem v f i480 w480 _ y (ix1 l) rfl (fun a => by
      have ha : a = (0 : Fin 1) := Subsingleton.elim _ _
      subst ha
      show (y 0).val = 480 + l.val
      omega)
  · have hy' : (y 0).val = 496 + l.val := by simpa using hy
    exact View.read_writes_cons_unit_of_mem v f i496 w496 _ y (ix1 l) rfl (fun a => by
      have ha : a = (0 : Fin 1) := Subsingleton.elim _ _
      subst ha
      show (y 0).val = 496 + l.val
      omega)

set_option maxHeartbeats 1000000 in
theorem read8_4 (v : View sig κ sp S1024 .f32) (f : v.ty.Contents Val) (T : List (View.Piece Val S1024 .f32))
    (w512 w528 w544 w560 w576 w592 w608 w624 : S16.Idx → Val .f32)
    (i512 : ∀ a, (![512] : Fin 1 → ℕ) a + S16.size a ≤ S1024.size a) (i528 : ∀ a, (![528] : Fin 1 → ℕ) a + S16.size a ≤ S1024.size a) (i544 : ∀ a, (![544] : Fin 1 → ℕ) a + S16.size a ≤ S1024.size a) (i560 : ∀ a, (![560] : Fin 1 → ℕ) a + S16.size a ≤ S1024.size a) (i576 : ∀ a, (![576] : Fin 1 → ℕ) a + S16.size a ≤ S1024.size a) (i592 : ∀ a, (![592] : Fin 1 → ℕ) a + S16.size a ≤ S1024.size a) (i608 : ∀ a, (![608] : Fin 1 → ℕ) a + S16.size a ≤ S1024.size a) (i624 : ∀ a, (![624] : Fin 1 → ℕ) a + S16.size a ≤ S1024.size a)
    (y : S1024.Idx) (k : Fin 8) (l : Fin 16) (hy : (y 0).val = 512 + 16 * k.val + l.val) :
    v.read Val (v.writes Val f ((⟨Rect.unit ![624] S16.size i624, w624⟩ : View.Piece Val S1024 .f32) ::
        (⟨Rect.unit ![608] S16.size i608, w608⟩ : View.Piece Val S1024 .f32) ::
        (⟨Rect.unit ![592] S16.size i592, w592⟩ : View.Piece Val S1024 .f32) ::
        (⟨Rect.unit ![576] S16.size i576, w576⟩ : View.Piece Val S1024 .f32) ::
        (⟨Rect.unit ![560] S16.size i560, w560⟩ : View.Piece Val S1024 .f32) ::
        (⟨Rect.unit ![544] S16.size i544, w544⟩ : View.Piece Val S1024 .f32) ::
        (⟨Rect.unit ![528] S16.size i528, w528⟩ : View.Piece Val S1024 .f32) ::
        (⟨Rect.unit ![512] S16.size i512, w512⟩ : View.Piece Val S1024 .f32) :: T)) y
      = (![w512, w528, w544, w560, w576, w592, w608, w624] k) (ix1 l) := by
  have hl := l.isLt
  fin_cases k
  · have hy' : (y 0).val = 512 + l.val := by simpa using hy
    rw [View.read_writes_cons_unit_of_not_mem v f i624 w624 _ y rfl (0 : Fin 1) (by show (y 0).val < 624 ∨ 624 + 16 ≤ (y 0).val; omega)]
    rw [View.read_writes_cons_unit_of_not_mem v f i608 w608 _ y rfl (0 : Fin 1) (by show (y 0).val < 608 ∨ 608 + 16 ≤ (y 0).val; omega)]
    rw [View.read_writes_cons_unit_of_not_mem v f i592 w592 _ y rfl (0 : Fin 1) (by show (y 0).val < 592 ∨ 592 + 16 ≤ (y 0).val; omega)]
    rw [View.read_writes_cons_unit_of_not_mem v f i576 w576 _ y rfl (0 : Fin 1) (by show (y 0).val < 576 ∨ 576 + 16 ≤ (y 0).val; omega)]
    rw [View.read_writes_cons_unit_of_not_mem v f i560 w560 _ y rfl (0 : Fin 1) (by show (y 0).val < 560 ∨ 560 + 16 ≤ (y 0).val; omega)]
    rw [View.read_writes_cons_unit_of_not_mem v f i544 w544 _ y rfl (0 : Fin 1) (by show (y 0).val < 544 ∨ 544 + 16 ≤ (y 0).val; omega)]
    rw [View.read_writes_cons_unit_of_not_mem v f i528 w528 _ y rfl (0 : Fin 1) (by show (y 0).val < 528 ∨ 528 + 16 ≤ (y 0).val; omega)]
    exact View.read_writes_cons_unit_of_mem v f i512 w512 _ y (ix1 l) rfl (fun a => by
      have ha : a = (0 : Fin 1) := Subsingleton.elim _ _
      subst ha
      show (y 0).val = 512 + l.val
      omega)
  · have hy' : (y 0).val = 528 + l.val := by simpa using hy
    rw [View.read_writes_cons_unit_of_not_mem v f i624 w624 _ y rfl (0 : Fin 1) (by show (y 0).val < 624 ∨ 624 + 16 ≤ (y 0).val; omega)]
    rw [View.read_writes_cons_unit_of_not_mem v f i608 w608 _ y rfl (0 : Fin 1) (by show (y 0).val < 608 ∨ 608 + 16 ≤ (y 0).val; omega)]
    rw [View.read_writes_cons_unit_of_not_mem v f i592 w592 _ y rfl (0 : Fin 1) (by show (y 0).val < 592 ∨ 592 + 16 ≤ (y 0).val; omega)]
    rw [View.read_writes_cons_unit_of_not_mem v f i576 w576 _ y rfl (0 : Fin 1) (by show (y 0).val < 576 ∨ 576 + 16 ≤ (y 0).val; omega)]
    rw [View.read_writes_cons_unit_of_not_mem v f i560 w560 _ y rfl (0 : Fin 1) (by show (y 0).val < 560 ∨ 560 + 16 ≤ (y 0).val; omega)]
    rw [View.read_writes_cons_unit_of_not_mem v f i544 w544 _ y rfl (0 : Fin 1) (by show (y 0).val < 544 ∨ 544 + 16 ≤ (y 0).val; omega)]
    exact View.read_writes_cons_unit_of_mem v f i528 w528 _ y (ix1 l) rfl (fun a => by
      have ha : a = (0 : Fin 1) := Subsingleton.elim _ _
      subst ha
      show (y 0).val = 528 + l.val
      omega)
  · have hy' : (y 0).val = 544 + l.val := by simpa using hy
    rw [View.read_writes_cons_unit_of_not_mem v f i624 w624 _ y rfl (0 : Fin 1) (by show (y 0).val < 624 ∨ 624 + 16 ≤ (y 0).val; omega)]
    rw [View.read_writes_cons_unit_of_not_mem v f i608 w608 _ y rfl (0 : Fin 1) (by show (y 0).val < 608 ∨ 608 + 16 ≤ (y 0).val; omega)]
    rw [View.read_writes_cons_unit_of_not_mem v f i592 w592 _ y rfl (0 : Fin 1) (by show (y 0).val < 592 ∨ 592 + 16 ≤ (y 0).val; omega)]
    rw [View.read_writes_cons_unit_of_not_mem v f i576 w576 _ y rfl (0 : Fin 1) (by show (y 0).val < 576 ∨ 576 + 16 ≤ (y 0).val; omega)]
    rw [View.read_writes_cons_unit_of_not_mem v f i560 w560 _ y rfl (0 : Fin 1) (by show (y 0).val < 560 ∨ 560 + 16 ≤ (y 0).val; omega)]
    exact View.read_writes_cons_unit_of_mem v f i544 w544 _ y (ix1 l) rfl (fun a => by
      have ha : a = (0 : Fin 1) := Subsingleton.elim _ _
      subst ha
      show (y 0).val = 544 + l.val
      omega)
  · have hy' : (y 0).val = 560 + l.val := by simpa using hy
    rw [View.read_writes_cons_unit_of_not_mem v f i624 w624 _ y rfl (0 : Fin 1) (by show (y 0).val < 624 ∨ 624 + 16 ≤ (y 0).val; omega)]
    rw [View.read_writes_cons_unit_of_not_mem v f i608 w608 _ y rfl (0 : Fin 1) (by show (y 0).val < 608 ∨ 608 + 16 ≤ (y 0).val; omega)]
    rw [View.read_writes_cons_unit_of_not_mem v f i592 w592 _ y rfl (0 : Fin 1) (by show (y 0).val < 592 ∨ 592 + 16 ≤ (y 0).val; omega)]
    rw [View.read_writes_cons_unit_of_not_mem v f i576 w576 _ y rfl (0 : Fin 1) (by show (y 0).val < 576 ∨ 576 + 16 ≤ (y 0).val; omega)]
    exact View.read_writes_cons_unit_of_mem v f i560 w560 _ y (ix1 l) rfl (fun a => by
      have ha : a = (0 : Fin 1) := Subsingleton.elim _ _
      subst ha
      show (y 0).val = 560 + l.val
      omega)
  · have hy' : (y 0).val = 576 + l.val := by simpa using hy
    rw [View.read_writes_cons_unit_of_not_mem v f i624 w624 _ y rfl (0 : Fin 1) (by show (y 0).val < 624 ∨ 624 + 16 ≤ (y 0).val; omega)]
    rw [View.read_writes_cons_unit_of_not_mem v f i608 w608 _ y rfl (0 : Fin 1) (by show (y 0).val < 608 ∨ 608 + 16 ≤ (y 0).val; omega)]
    rw [View.read_writes_cons_unit_of_not_mem v f i592 w592 _ y rfl (0 : Fin 1) (by show (y 0).val < 592 ∨ 592 + 16 ≤ (y 0).val; omega)]
    exact View.read_writes_cons_unit_of_mem v f i576 w576 _ y (ix1 l) rfl (fun a => by
      have ha : a = (0 : Fin 1) := Subsingleton.elim _ _
      subst ha
      show (y 0).val = 576 + l.val
      omega)
  · have hy' : (y 0).val = 592 + l.val := by simpa using hy
    rw [View.read_writes_cons_unit_of_not_mem v f i624 w624 _ y rfl (0 : Fin 1) (by show (y 0).val < 624 ∨ 624 + 16 ≤ (y 0).val; omega)]
    rw [View.read_writes_cons_unit_of_not_mem v f i608 w608 _ y rfl (0 : Fin 1) (by show (y 0).val < 608 ∨ 608 + 16 ≤ (y 0).val; omega)]
    exact View.read_writes_cons_unit_of_mem v f i592 w592 _ y (ix1 l) rfl (fun a => by
      have ha : a = (0 : Fin 1) := Subsingleton.elim _ _
      subst ha
      show (y 0).val = 592 + l.val
      omega)
  · have hy' : (y 0).val = 608 + l.val := by simpa using hy
    rw [View.read_writes_cons_unit_of_not_mem v f i624 w624 _ y rfl (0 : Fin 1) (by show (y 0).val < 624 ∨ 624 + 16 ≤ (y 0).val; omega)]
    exact View.read_writes_cons_unit_of_mem v f i608 w608 _ y (ix1 l) rfl (fun a => by
      have ha : a = (0 : Fin 1) := Subsingleton.elim _ _
      subst ha
      show (y 0).val = 608 + l.val
      omega)
  · have hy' : (y 0).val = 624 + l.val := by simpa using hy
    exact View.read_writes_cons_unit_of_mem v f i624 w624 _ y (ix1 l) rfl (fun a => by
      have ha : a = (0 : Fin 1) := Subsingleton.elim _ _
      subst ha
      show (y 0).val = 624 + l.val
      omega)

set_option maxHeartbeats 1000000 in
theorem read8_5 (v : View sig κ sp S1024 .f32) (f : v.ty.Contents Val) (T : List (View.Piece Val S1024 .f32))
    (w640 w656 w672 w688 w704 w720 w736 w752 : S16.Idx → Val .f32)
    (i640 : ∀ a, (![640] : Fin 1 → ℕ) a + S16.size a ≤ S1024.size a) (i656 : ∀ a, (![656] : Fin 1 → ℕ) a + S16.size a ≤ S1024.size a) (i672 : ∀ a, (![672] : Fin 1 → ℕ) a + S16.size a ≤ S1024.size a) (i688 : ∀ a, (![688] : Fin 1 → ℕ) a + S16.size a ≤ S1024.size a) (i704 : ∀ a, (![704] : Fin 1 → ℕ) a + S16.size a ≤ S1024.size a) (i720 : ∀ a, (![720] : Fin 1 → ℕ) a + S16.size a ≤ S1024.size a) (i736 : ∀ a, (![736] : Fin 1 → ℕ) a + S16.size a ≤ S1024.size a) (i752 : ∀ a, (![752] : Fin 1 → ℕ) a + S16.size a ≤ S1024.size a)
    (y : S1024.Idx) (k : Fin 8) (l : Fin 16) (hy : (y 0).val = 640 + 16 * k.val + l.val) :
    v.read Val (v.writes Val f ((⟨Rect.unit ![752] S16.size i752, w752⟩ : View.Piece Val S1024 .f32) ::
        (⟨Rect.unit ![736] S16.size i736, w736⟩ : View.Piece Val S1024 .f32) ::
        (⟨Rect.unit ![720] S16.size i720, w720⟩ : View.Piece Val S1024 .f32) ::
        (⟨Rect.unit ![704] S16.size i704, w704⟩ : View.Piece Val S1024 .f32) ::
        (⟨Rect.unit ![688] S16.size i688, w688⟩ : View.Piece Val S1024 .f32) ::
        (⟨Rect.unit ![672] S16.size i672, w672⟩ : View.Piece Val S1024 .f32) ::
        (⟨Rect.unit ![656] S16.size i656, w656⟩ : View.Piece Val S1024 .f32) ::
        (⟨Rect.unit ![640] S16.size i640, w640⟩ : View.Piece Val S1024 .f32) :: T)) y
      = (![w640, w656, w672, w688, w704, w720, w736, w752] k) (ix1 l) := by
  have hl := l.isLt
  fin_cases k
  · have hy' : (y 0).val = 640 + l.val := by simpa using hy
    rw [View.read_writes_cons_unit_of_not_mem v f i752 w752 _ y rfl (0 : Fin 1) (by show (y 0).val < 752 ∨ 752 + 16 ≤ (y 0).val; omega)]
    rw [View.read_writes_cons_unit_of_not_mem v f i736 w736 _ y rfl (0 : Fin 1) (by show (y 0).val < 736 ∨ 736 + 16 ≤ (y 0).val; omega)]
    rw [View.read_writes_cons_unit_of_not_mem v f i720 w720 _ y rfl (0 : Fin 1) (by show (y 0).val < 720 ∨ 720 + 16 ≤ (y 0).val; omega)]
    rw [View.read_writes_cons_unit_of_not_mem v f i704 w704 _ y rfl (0 : Fin 1) (by show (y 0).val < 704 ∨ 704 + 16 ≤ (y 0).val; omega)]
    rw [View.read_writes_cons_unit_of_not_mem v f i688 w688 _ y rfl (0 : Fin 1) (by show (y 0).val < 688 ∨ 688 + 16 ≤ (y 0).val; omega)]
    rw [View.read_writes_cons_unit_of_not_mem v f i672 w672 _ y rfl (0 : Fin 1) (by show (y 0).val < 672 ∨ 672 + 16 ≤ (y 0).val; omega)]
    rw [View.read_writes_cons_unit_of_not_mem v f i656 w656 _ y rfl (0 : Fin 1) (by show (y 0).val < 656 ∨ 656 + 16 ≤ (y 0).val; omega)]
    exact View.read_writes_cons_unit_of_mem v f i640 w640 _ y (ix1 l) rfl (fun a => by
      have ha : a = (0 : Fin 1) := Subsingleton.elim _ _
      subst ha
      show (y 0).val = 640 + l.val
      omega)
  · have hy' : (y 0).val = 656 + l.val := by simpa using hy
    rw [View.read_writes_cons_unit_of_not_mem v f i752 w752 _ y rfl (0 : Fin 1) (by show (y 0).val < 752 ∨ 752 + 16 ≤ (y 0).val; omega)]
    rw [View.read_writes_cons_unit_of_not_mem v f i736 w736 _ y rfl (0 : Fin 1) (by show (y 0).val < 736 ∨ 736 + 16 ≤ (y 0).val; omega)]
    rw [View.read_writes_cons_unit_of_not_mem v f i720 w720 _ y rfl (0 : Fin 1) (by show (y 0).val < 720 ∨ 720 + 16 ≤ (y 0).val; omega)]
    rw [View.read_writes_cons_unit_of_not_mem v f i704 w704 _ y rfl (0 : Fin 1) (by show (y 0).val < 704 ∨ 704 + 16 ≤ (y 0).val; omega)]
    rw [View.read_writes_cons_unit_of_not_mem v f i688 w688 _ y rfl (0 : Fin 1) (by show (y 0).val < 688 ∨ 688 + 16 ≤ (y 0).val; omega)]
    rw [View.read_writes_cons_unit_of_not_mem v f i672 w672 _ y rfl (0 : Fin 1) (by show (y 0).val < 672 ∨ 672 + 16 ≤ (y 0).val; omega)]
    exact View.read_writes_cons_unit_of_mem v f i656 w656 _ y (ix1 l) rfl (fun a => by
      have ha : a = (0 : Fin 1) := Subsingleton.elim _ _
      subst ha
      show (y 0).val = 656 + l.val
      omega)
  · have hy' : (y 0).val = 672 + l.val := by simpa using hy
    rw [View.read_writes_cons_unit_of_not_mem v f i752 w752 _ y rfl (0 : Fin 1) (by show (y 0).val < 752 ∨ 752 + 16 ≤ (y 0).val; omega)]
    rw [View.read_writes_cons_unit_of_not_mem v f i736 w736 _ y rfl (0 : Fin 1) (by show (y 0).val < 736 ∨ 736 + 16 ≤ (y 0).val; omega)]
    rw [View.read_writes_cons_unit_of_not_mem v f i720 w720 _ y rfl (0 : Fin 1) (by show (y 0).val < 720 ∨ 720 + 16 ≤ (y 0).val; omega)]
    rw [View.read_writes_cons_unit_of_not_mem v f i704 w704 _ y rfl (0 : Fin 1) (by show (y 0).val < 704 ∨ 704 + 16 ≤ (y 0).val; omega)]
    rw [View.read_writes_cons_unit_of_not_mem v f i688 w688 _ y rfl (0 : Fin 1) (by show (y 0).val < 688 ∨ 688 + 16 ≤ (y 0).val; omega)]
    exact View.read_writes_cons_unit_of_mem v f i672 w672 _ y (ix1 l) rfl (fun a => by
      have ha : a = (0 : Fin 1) := Subsingleton.elim _ _
      subst ha
      show (y 0).val = 672 + l.val
      omega)
  · have hy' : (y 0).val = 688 + l.val := by simpa using hy
    rw [View.read_writes_cons_unit_of_not_mem v f i752 w752 _ y rfl (0 : Fin 1) (by show (y 0).val < 752 ∨ 752 + 16 ≤ (y 0).val; omega)]
    rw [View.read_writes_cons_unit_of_not_mem v f i736 w736 _ y rfl (0 : Fin 1) (by show (y 0).val < 736 ∨ 736 + 16 ≤ (y 0).val; omega)]
    rw [View.read_writes_cons_unit_of_not_mem v f i720 w720 _ y rfl (0 : Fin 1) (by show (y 0).val < 720 ∨ 720 + 16 ≤ (y 0).val; omega)]
    rw [View.read_writes_cons_unit_of_not_mem v f i704 w704 _ y rfl (0 : Fin 1) (by show (y 0).val < 704 ∨ 704 + 16 ≤ (y 0).val; omega)]
    exact View.read_writes_cons_unit_of_mem v f i688 w688 _ y (ix1 l) rfl (fun a => by
      have ha : a = (0 : Fin 1) := Subsingleton.elim _ _
      subst ha
      show (y 0).val = 688 + l.val
      omega)
  · have hy' : (y 0).val = 704 + l.val := by simpa using hy
    rw [View.read_writes_cons_unit_of_not_mem v f i752 w752 _ y rfl (0 : Fin 1) (by show (y 0).val < 752 ∨ 752 + 16 ≤ (y 0).val; omega)]
    rw [View.read_writes_cons_unit_of_not_mem v f i736 w736 _ y rfl (0 : Fin 1) (by show (y 0).val < 736 ∨ 736 + 16 ≤ (y 0).val; omega)]
    rw [View.read_writes_cons_unit_of_not_mem v f i720 w720 _ y rfl (0 : Fin 1) (by show (y 0).val < 720 ∨ 720 + 16 ≤ (y 0).val; omega)]
    exact View.read_writes_cons_unit_of_mem v f i704 w704 _ y (ix1 l) rfl (fun a => by
      have ha : a = (0 : Fin 1) := Subsingleton.elim _ _
      subst ha
      show (y 0).val = 704 + l.val
      omega)
  · have hy' : (y 0).val = 720 + l.val := by simpa using hy
    rw [View.read_writes_cons_unit_of_not_mem v f i752 w752 _ y rfl (0 : Fin 1) (by show (y 0).val < 752 ∨ 752 + 16 ≤ (y 0).val; omega)]
    rw [View.read_writes_cons_unit_of_not_mem v f i736 w736 _ y rfl (0 : Fin 1) (by show (y 0).val < 736 ∨ 736 + 16 ≤ (y 0).val; omega)]
    exact View.read_writes_cons_unit_of_mem v f i720 w720 _ y (ix1 l) rfl (fun a => by
      have ha : a = (0 : Fin 1) := Subsingleton.elim _ _
      subst ha
      show (y 0).val = 720 + l.val
      omega)
  · have hy' : (y 0).val = 736 + l.val := by simpa using hy
    rw [View.read_writes_cons_unit_of_not_mem v f i752 w752 _ y rfl (0 : Fin 1) (by show (y 0).val < 752 ∨ 752 + 16 ≤ (y 0).val; omega)]
    exact View.read_writes_cons_unit_of_mem v f i736 w736 _ y (ix1 l) rfl (fun a => by
      have ha : a = (0 : Fin 1) := Subsingleton.elim _ _
      subst ha
      show (y 0).val = 736 + l.val
      omega)
  · have hy' : (y 0).val = 752 + l.val := by simpa using hy
    exact View.read_writes_cons_unit_of_mem v f i752 w752 _ y (ix1 l) rfl (fun a => by
      have ha : a = (0 : Fin 1) := Subsingleton.elim _ _
      subst ha
      show (y 0).val = 752 + l.val
      omega)

set_option maxHeartbeats 1000000 in
theorem read8_6 (v : View sig κ sp S1024 .f32) (f : v.ty.Contents Val) (T : List (View.Piece Val S1024 .f32))
    (w768 w784 w800 w816 w832 w848 w864 w880 : S16.Idx → Val .f32)
    (i768 : ∀ a, (![768] : Fin 1 → ℕ) a + S16.size a ≤ S1024.size a) (i784 : ∀ a, (![784] : Fin 1 → ℕ) a + S16.size a ≤ S1024.size a) (i800 : ∀ a, (![800] : Fin 1 → ℕ) a + S16.size a ≤ S1024.size a) (i816 : ∀ a, (![816] : Fin 1 → ℕ) a + S16.size a ≤ S1024.size a) (i832 : ∀ a, (![832] : Fin 1 → ℕ) a + S16.size a ≤ S1024.size a) (i848 : ∀ a, (![848] : Fin 1 → ℕ) a + S16.size a ≤ S1024.size a) (i864 : ∀ a, (![864] : Fin 1 → ℕ) a + S16.size a ≤ S1024.size a) (i880 : ∀ a, (![880] : Fin 1 → ℕ) a + S16.size a ≤ S1024.size a)
    (y : S1024.Idx) (k : Fin 8) (l : Fin 16) (hy : (y 0).val = 768 + 16 * k.val + l.val) :
    v.read Val (v.writes Val f ((⟨Rect.unit ![880] S16.size i880, w880⟩ : View.Piece Val S1024 .f32) ::
        (⟨Rect.unit ![864] S16.size i864, w864⟩ : View.Piece Val S1024 .f32) ::
        (⟨Rect.unit ![848] S16.size i848, w848⟩ : View.Piece Val S1024 .f32) ::
        (⟨Rect.unit ![832] S16.size i832, w832⟩ : View.Piece Val S1024 .f32) ::
        (⟨Rect.unit ![816] S16.size i816, w816⟩ : View.Piece Val S1024 .f32) ::
        (⟨Rect.unit ![800] S16.size i800, w800⟩ : View.Piece Val S1024 .f32) ::
        (⟨Rect.unit ![784] S16.size i784, w784⟩ : View.Piece Val S1024 .f32) ::
        (⟨Rect.unit ![768] S16.size i768, w768⟩ : View.Piece Val S1024 .f32) :: T)) y
      = (![w768, w784, w800, w816, w832, w848, w864, w880] k) (ix1 l) := by
  have hl := l.isLt
  fin_cases k
  · have hy' : (y 0).val = 768 + l.val := by simpa using hy
    rw [View.read_writes_cons_unit_of_not_mem v f i880 w880 _ y rfl (0 : Fin 1) (by show (y 0).val < 880 ∨ 880 + 16 ≤ (y 0).val; omega)]
    rw [View.read_writes_cons_unit_of_not_mem v f i864 w864 _ y rfl (0 : Fin 1) (by show (y 0).val < 864 ∨ 864 + 16 ≤ (y 0).val; omega)]
    rw [View.read_writes_cons_unit_of_not_mem v f i848 w848 _ y rfl (0 : Fin 1) (by show (y 0).val < 848 ∨ 848 + 16 ≤ (y 0).val; omega)]
    rw [View.read_writes_cons_unit_of_not_mem v f i832 w832 _ y rfl (0 : Fin 1) (by show (y 0).val < 832 ∨ 832 + 16 ≤ (y 0).val; omega)]
    rw [View.read_writes_cons_unit_of_not_mem v f i816 w816 _ y rfl (0 : Fin 1) (by show (y 0).val < 816 ∨ 816 + 16 ≤ (y 0).val; omega)]
    rw [View.read_writes_cons_unit_of_not_mem v f i800 w800 _ y rfl (0 : Fin 1) (by show (y 0).val < 800 ∨ 800 + 16 ≤ (y 0).val; omega)]
    rw [View.read_writes_cons_unit_of_not_mem v f i784 w784 _ y rfl (0 : Fin 1) (by show (y 0).val < 784 ∨ 784 + 16 ≤ (y 0).val; omega)]
    exact View.read_writes_cons_unit_of_mem v f i768 w768 _ y (ix1 l) rfl (fun a => by
      have ha : a = (0 : Fin 1) := Subsingleton.elim _ _
      subst ha
      show (y 0).val = 768 + l.val
      omega)
  · have hy' : (y 0).val = 784 + l.val := by simpa using hy
    rw [View.read_writes_cons_unit_of_not_mem v f i880 w880 _ y rfl (0 : Fin 1) (by show (y 0).val < 880 ∨ 880 + 16 ≤ (y 0).val; omega)]
    rw [View.read_writes_cons_unit_of_not_mem v f i864 w864 _ y rfl (0 : Fin 1) (by show (y 0).val < 864 ∨ 864 + 16 ≤ (y 0).val; omega)]
    rw [View.read_writes_cons_unit_of_not_mem v f i848 w848 _ y rfl (0 : Fin 1) (by show (y 0).val < 848 ∨ 848 + 16 ≤ (y 0).val; omega)]
    rw [View.read_writes_cons_unit_of_not_mem v f i832 w832 _ y rfl (0 : Fin 1) (by show (y 0).val < 832 ∨ 832 + 16 ≤ (y 0).val; omega)]
    rw [View.read_writes_cons_unit_of_not_mem v f i816 w816 _ y rfl (0 : Fin 1) (by show (y 0).val < 816 ∨ 816 + 16 ≤ (y 0).val; omega)]
    rw [View.read_writes_cons_unit_of_not_mem v f i800 w800 _ y rfl (0 : Fin 1) (by show (y 0).val < 800 ∨ 800 + 16 ≤ (y 0).val; omega)]
    exact View.read_writes_cons_unit_of_mem v f i784 w784 _ y (ix1 l) rfl (fun a => by
      have ha : a = (0 : Fin 1) := Subsingleton.elim _ _
      subst ha
      show (y 0).val = 784 + l.val
      omega)
  · have hy' : (y 0).val = 800 + l.val := by simpa using hy
    rw [View.read_writes_cons_unit_of_not_mem v f i880 w880 _ y rfl (0 : Fin 1) (by show (y 0).val < 880 ∨ 880 + 16 ≤ (y 0).val; omega)]
    rw [View.read_writes_cons_unit_of_not_mem v f i864 w864 _ y rfl (0 : Fin 1) (by show (y 0).val < 864 ∨ 864 + 16 ≤ (y 0).val; omega)]
    rw [View.read_writes_cons_unit_of_not_mem v f i848 w848 _ y rfl (0 : Fin 1) (by show (y 0).val < 848 ∨ 848 + 16 ≤ (y 0).val; omega)]
    rw [View.read_writes_cons_unit_of_not_mem v f i832 w832 _ y rfl (0 : Fin 1) (by show (y 0).val < 832 ∨ 832 + 16 ≤ (y 0).val; omega)]
    rw [View.read_writes_cons_unit_of_not_mem v f i816 w816 _ y rfl (0 : Fin 1) (by show (y 0).val < 816 ∨ 816 + 16 ≤ (y 0).val; omega)]
    exact View.read_writes_cons_unit_of_mem v f i800 w800 _ y (ix1 l) rfl (fun a => by
      have ha : a = (0 : Fin 1) := Subsingleton.elim _ _
      subst ha
      show (y 0).val = 800 + l.val
      omega)
  · have hy' : (y 0).val = 816 + l.val := by simpa using hy
    rw [View.read_writes_cons_unit_of_not_mem v f i880 w880 _ y rfl (0 : Fin 1) (by show (y 0).val < 880 ∨ 880 + 16 ≤ (y 0).val; omega)]
    rw [View.read_writes_cons_unit_of_not_mem v f i864 w864 _ y rfl (0 : Fin 1) (by show (y 0).val < 864 ∨ 864 + 16 ≤ (y 0).val; omega)]
    rw [View.read_writes_cons_unit_of_not_mem v f i848 w848 _ y rfl (0 : Fin 1) (by show (y 0).val < 848 ∨ 848 + 16 ≤ (y 0).val; omega)]
    rw [View.read_writes_cons_unit_of_not_mem v f i832 w832 _ y rfl (0 : Fin 1) (by show (y 0).val < 832 ∨ 832 + 16 ≤ (y 0).val; omega)]
    exact View.read_writes_cons_unit_of_mem v f i816 w816 _ y (ix1 l) rfl (fun a => by
      have ha : a = (0 : Fin 1) := Subsingleton.elim _ _
      subst ha
      show (y 0).val = 816 + l.val
      omega)
  · have hy' : (y 0).val = 832 + l.val := by simpa using hy
    rw [View.read_writes_cons_unit_of_not_mem v f i880 w880 _ y rfl (0 : Fin 1) (by show (y 0).val < 880 ∨ 880 + 16 ≤ (y 0).val; omega)]
    rw [View.read_writes_cons_unit_of_not_mem v f i864 w864 _ y rfl (0 : Fin 1) (by show (y 0).val < 864 ∨ 864 + 16 ≤ (y 0).val; omega)]
    rw [View.read_writes_cons_unit_of_not_mem v f i848 w848 _ y rfl (0 : Fin 1) (by show (y 0).val < 848 ∨ 848 + 16 ≤ (y 0).val; omega)]
    exact View.read_writes_cons_unit_of_mem v f i832 w832 _ y (ix1 l) rfl (fun a => by
      have ha : a = (0 : Fin 1) := Subsingleton.elim _ _
      subst ha
      show (y 0).val = 832 + l.val
      omega)
  · have hy' : (y 0).val = 848 + l.val := by simpa using hy
    rw [View.read_writes_cons_unit_of_not_mem v f i880 w880 _ y rfl (0 : Fin 1) (by show (y 0).val < 880 ∨ 880 + 16 ≤ (y 0).val; omega)]
    rw [View.read_writes_cons_unit_of_not_mem v f i864 w864 _ y rfl (0 : Fin 1) (by show (y 0).val < 864 ∨ 864 + 16 ≤ (y 0).val; omega)]
    exact View.read_writes_cons_unit_of_mem v f i848 w848 _ y (ix1 l) rfl (fun a => by
      have ha : a = (0 : Fin 1) := Subsingleton.elim _ _
      subst ha
      show (y 0).val = 848 + l.val
      omega)
  · have hy' : (y 0).val = 864 + l.val := by simpa using hy
    rw [View.read_writes_cons_unit_of_not_mem v f i880 w880 _ y rfl (0 : Fin 1) (by show (y 0).val < 880 ∨ 880 + 16 ≤ (y 0).val; omega)]
    exact View.read_writes_cons_unit_of_mem v f i864 w864 _ y (ix1 l) rfl (fun a => by
      have ha : a = (0 : Fin 1) := Subsingleton.elim _ _
      subst ha
      show (y 0).val = 864 + l.val
      omega)
  · have hy' : (y 0).val = 880 + l.val := by simpa using hy
    exact View.read_writes_cons_unit_of_mem v f i880 w880 _ y (ix1 l) rfl (fun a => by
      have ha : a = (0 : Fin 1) := Subsingleton.elim _ _
      subst ha
      show (y 0).val = 880 + l.val
      omega)

set_option maxHeartbeats 1000000 in
theorem read8_7 (v : View sig κ sp S1024 .f32) (f : v.ty.Contents Val) (T : List (View.Piece Val S1024 .f32))
    (w896 w912 w928 w944 w960 w976 w992 w1008 : S16.Idx → Val .f32)
    (i896 : ∀ a, (![896] : Fin 1 → ℕ) a + S16.size a ≤ S1024.size a) (i912 : ∀ a, (![912] : Fin 1 → ℕ) a + S16.size a ≤ S1024.size a) (i928 : ∀ a, (![928] : Fin 1 → ℕ) a + S16.size a ≤ S1024.size a) (i944 : ∀ a, (![944] : Fin 1 → ℕ) a + S16.size a ≤ S1024.size a) (i960 : ∀ a, (![960] : Fin 1 → ℕ) a + S16.size a ≤ S1024.size a) (i976 : ∀ a, (![976] : Fin 1 → ℕ) a + S16.size a ≤ S1024.size a) (i992 : ∀ a, (![992] : Fin 1 → ℕ) a + S16.size a ≤ S1024.size a) (i1008 : ∀ a, (![1008] : Fin 1 → ℕ) a + S16.size a ≤ S1024.size a)
    (y : S1024.Idx) (k : Fin 8) (l : Fin 16) (hy : (y 0).val = 896 + 16 * k.val + l.val) :
    v.read Val (v.writes Val f ((⟨Rect.unit ![1008] S16.size i1008, w1008⟩ : View.Piece Val S1024 .f32) ::
        (⟨Rect.unit ![992] S16.size i992, w992⟩ : View.Piece Val S1024 .f32) ::
        (⟨Rect.unit ![976] S16.size i976, w976⟩ : View.Piece Val S1024 .f32) ::
        (⟨Rect.unit ![960] S16.size i960, w960⟩ : View.Piece Val S1024 .f32) ::
        (⟨Rect.unit ![944] S16.size i944, w944⟩ : View.Piece Val S1024 .f32) ::
        (⟨Rect.unit ![928] S16.size i928, w928⟩ : View.Piece Val S1024 .f32) ::
        (⟨Rect.unit ![912] S16.size i912, w912⟩ : View.Piece Val S1024 .f32) ::
        (⟨Rect.unit ![896] S16.size i896, w896⟩ : View.Piece Val S1024 .f32) :: T)) y
      = (![w896, w912, w928, w944, w960, w976, w992, w1008] k) (ix1 l) := by
  have hl := l.isLt
  fin_cases k
  · have hy' : (y 0).val = 896 + l.val := by simpa using hy
    rw [View.read_writes_cons_unit_of_not_mem v f i1008 w1008 _ y rfl (0 : Fin 1) (by show (y 0).val < 1008 ∨ 1008 + 16 ≤ (y 0).val; omega)]
    rw [View.read_writes_cons_unit_of_not_mem v f i992 w992 _ y rfl (0 : Fin 1) (by show (y 0).val < 992 ∨ 992 + 16 ≤ (y 0).val; omega)]
    rw [View.read_writes_cons_unit_of_not_mem v f i976 w976 _ y rfl (0 : Fin 1) (by show (y 0).val < 976 ∨ 976 + 16 ≤ (y 0).val; omega)]
    rw [View.read_writes_cons_unit_of_not_mem v f i960 w960 _ y rfl (0 : Fin 1) (by show (y 0).val < 960 ∨ 960 + 16 ≤ (y 0).val; omega)]
    rw [View.read_writes_cons_unit_of_not_mem v f i944 w944 _ y rfl (0 : Fin 1) (by show (y 0).val < 944 ∨ 944 + 16 ≤ (y 0).val; omega)]
    rw [View.read_writes_cons_unit_of_not_mem v f i928 w928 _ y rfl (0 : Fin 1) (by show (y 0).val < 928 ∨ 928 + 16 ≤ (y 0).val; omega)]
    rw [View.read_writes_cons_unit_of_not_mem v f i912 w912 _ y rfl (0 : Fin 1) (by show (y 0).val < 912 ∨ 912 + 16 ≤ (y 0).val; omega)]
    exact View.read_writes_cons_unit_of_mem v f i896 w896 _ y (ix1 l) rfl (fun a => by
      have ha : a = (0 : Fin 1) := Subsingleton.elim _ _
      subst ha
      show (y 0).val = 896 + l.val
      omega)
  · have hy' : (y 0).val = 912 + l.val := by simpa using hy
    rw [View.read_writes_cons_unit_of_not_mem v f i1008 w1008 _ y rfl (0 : Fin 1) (by show (y 0).val < 1008 ∨ 1008 + 16 ≤ (y 0).val; omega)]
    rw [View.read_writes_cons_unit_of_not_mem v f i992 w992 _ y rfl (0 : Fin 1) (by show (y 0).val < 992 ∨ 992 + 16 ≤ (y 0).val; omega)]
    rw [View.read_writes_cons_unit_of_not_mem v f i976 w976 _ y rfl (0 : Fin 1) (by show (y 0).val < 976 ∨ 976 + 16 ≤ (y 0).val; omega)]
    rw [View.read_writes_cons_unit_of_not_mem v f i960 w960 _ y rfl (0 : Fin 1) (by show (y 0).val < 960 ∨ 960 + 16 ≤ (y 0).val; omega)]
    rw [View.read_writes_cons_unit_of_not_mem v f i944 w944 _ y rfl (0 : Fin 1) (by show (y 0).val < 944 ∨ 944 + 16 ≤ (y 0).val; omega)]
    rw [View.read_writes_cons_unit_of_not_mem v f i928 w928 _ y rfl (0 : Fin 1) (by show (y 0).val < 928 ∨ 928 + 16 ≤ (y 0).val; omega)]
    exact View.read_writes_cons_unit_of_mem v f i912 w912 _ y (ix1 l) rfl (fun a => by
      have ha : a = (0 : Fin 1) := Subsingleton.elim _ _
      subst ha
      show (y 0).val = 912 + l.val
      omega)
  · have hy' : (y 0).val = 928 + l.val := by simpa using hy
    rw [View.read_writes_cons_unit_of_not_mem v f i1008 w1008 _ y rfl (0 : Fin 1) (by show (y 0).val < 1008 ∨ 1008 + 16 ≤ (y 0).val; omega)]
    rw [View.read_writes_cons_unit_of_not_mem v f i992 w992 _ y rfl (0 : Fin 1) (by show (y 0).val < 992 ∨ 992 + 16 ≤ (y 0).val; omega)]
    rw [View.read_writes_cons_unit_of_not_mem v f i976 w976 _ y rfl (0 : Fin 1) (by show (y 0).val < 976 ∨ 976 + 16 ≤ (y 0).val; omega)]
    rw [View.read_writes_cons_unit_of_not_mem v f i960 w960 _ y rfl (0 : Fin 1) (by show (y 0).val < 960 ∨ 960 + 16 ≤ (y 0).val; omega)]
    rw [View.read_writes_cons_unit_of_not_mem v f i944 w944 _ y rfl (0 : Fin 1) (by show (y 0).val < 944 ∨ 944 + 16 ≤ (y 0).val; omega)]
    exact View.read_writes_cons_unit_of_mem v f i928 w928 _ y (ix1 l) rfl (fun a => by
      have ha : a = (0 : Fin 1) := Subsingleton.elim _ _
      subst ha
      show (y 0).val = 928 + l.val
      omega)
  · have hy' : (y 0).val = 944 + l.val := by simpa using hy
    rw [View.read_writes_cons_unit_of_not_mem v f i1008 w1008 _ y rfl (0 : Fin 1) (by show (y 0).val < 1008 ∨ 1008 + 16 ≤ (y 0).val; omega)]
    rw [View.read_writes_cons_unit_of_not_mem v f i992 w992 _ y rfl (0 : Fin 1) (by show (y 0).val < 992 ∨ 992 + 16 ≤ (y 0).val; omega)]
    rw [View.read_writes_cons_unit_of_not_mem v f i976 w976 _ y rfl (0 : Fin 1) (by show (y 0).val < 976 ∨ 976 + 16 ≤ (y 0).val; omega)]
    rw [View.read_writes_cons_unit_of_not_mem v f i960 w960 _ y rfl (0 : Fin 1) (by show (y 0).val < 960 ∨ 960 + 16 ≤ (y 0).val; omega)]
    exact View.read_writes_cons_unit_of_mem v f i944 w944 _ y (ix1 l) rfl (fun a => by
      have ha : a = (0 : Fin 1) := Subsingleton.elim _ _
      subst ha
      show (y 0).val = 944 + l.val
      omega)
  · have hy' : (y 0).val = 960 + l.val := by simpa using hy
    rw [View.read_writes_cons_unit_of_not_mem v f i1008 w1008 _ y rfl (0 : Fin 1) (by show (y 0).val < 1008 ∨ 1008 + 16 ≤ (y 0).val; omega)]
    rw [View.read_writes_cons_unit_of_not_mem v f i992 w992 _ y rfl (0 : Fin 1) (by show (y 0).val < 992 ∨ 992 + 16 ≤ (y 0).val; omega)]
    rw [View.read_writes_cons_unit_of_not_mem v f i976 w976 _ y rfl (0 : Fin 1) (by show (y 0).val < 976 ∨ 976 + 16 ≤ (y 0).val; omega)]
    exact View.read_writes_cons_unit_of_mem v f i960 w960 _ y (ix1 l) rfl (fun a => by
      have ha : a = (0 : Fin 1) := Subsingleton.elim _ _
      subst ha
      show (y 0).val = 960 + l.val
      omega)
  · have hy' : (y 0).val = 976 + l.val := by simpa using hy
    rw [View.read_writes_cons_unit_of_not_mem v f i1008 w1008 _ y rfl (0 : Fin 1) (by show (y 0).val < 1008 ∨ 1008 + 16 ≤ (y 0).val; omega)]
    rw [View.read_writes_cons_unit_of_not_mem v f i992 w992 _ y rfl (0 : Fin 1) (by show (y 0).val < 992 ∨ 992 + 16 ≤ (y 0).val; omega)]
    exact View.read_writes_cons_unit_of_mem v f i976 w976 _ y (ix1 l) rfl (fun a => by
      have ha : a = (0 : Fin 1) := Subsingleton.elim _ _
      subst ha
      show (y 0).val = 976 + l.val
      omega)
  · have hy' : (y 0).val = 992 + l.val := by simpa using hy
    rw [View.read_writes_cons_unit_of_not_mem v f i1008 w1008 _ y rfl (0 : Fin 1) (by show (y 0).val < 1008 ∨ 1008 + 16 ≤ (y 0).val; omega)]
    exact View.read_writes_cons_unit_of_mem v f i992 w992 _ y (ix1 l) rfl (fun a => by
      have ha : a = (0 : Fin 1) := Subsingleton.elim _ _
      subst ha
      show (y 0).val = 992 + l.val
      omega)
  · have hy' : (y 0).val = 1008 + l.val := by simpa using hy
    exact View.read_writes_cons_unit_of_mem v f i1008 w1008 _ y (ix1 l) rfl (fun a => by
      have ha : a = (0 : Fin 1) := Subsingleton.elim _ _
      subst ha
      show (y 0).val = 1008 + l.val
      omega)

end Cert.Proof.ScBridge

end
-- ==== Proof.ScBridge1Rd.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScVal1RunV
import proofs.«209750_g45337674776763_cont_8to1c4_158_37_alg».proof.Proof.ScBridge0P
import proofs.«209750_g45337674776763_cont_8to1c4_158_37_alg».proof.Proof.ScBridge1M
import proofs.«209750_g45337674776763_cont_8to1c4_158_37_alg».proof.Proof.ScBridgeR1

/-!
  The second SparseCore branch's 1024 words, group by group: the 1024-word slice of the scratch buffer after all 64
  stores reads, at word `128 g + 16 J + l`, group `g`'s block `J`'s payload at lane `l` — the stores of the later groups
  lie above it —, which is the clamped sum of the block's row norms and the group's scan's carried minimum.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 4000000 in
set_option maxRecDepth 100000 in
/-- Group 0: word `0 + 16 J + l` of the run's 1024, over ANY carried minima, is the group's block `J`'s clamped sum at
    lane `l`. -/
theorem W1_read0 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 0 + 16 * J.val + l.val) :
    run1x.sl.dma16 d s f1 b3 b4 h acc2 acc3 acc4 acc5 acc6 acc7 acc8 acc9 j
      = max (nrmv (sc (![(run1x.sl.v160 d s f1 b3 h), (run1x.sl.v180 d s f1 b3 h), (run1x.sl.v200 d s f1 b3 h), (run1x.sl.v220 d s f1 b3 h), (run1x.sl.v240 d s f1 b3 h), (run1x.sl.v260 d s f1 b3 h), (run1x.sl.v280 d s f1 b3 h), (run1x.sl.v300 d s f1 b3 h)] J))
            (sc (![(run1x.sl.v165 d s f1 b3 h), (run1x.sl.v185 d s f1 b3 h), (run1x.sl.v205 d s f1 b3 h), (run1x.sl.v225 d s f1 b3 h), (run1x.sl.v245 d s f1 b3 h), (run1x.sl.v265 d s f1 b3 h), (run1x.sl.v285 d s f1 b3 h), (run1x.sl.v305 d s f1 b3 h)] J))
            (sc (![(run1x.sl.v170 d s f1 b3 h), (run1x.sl.v190 d s f1 b3 h), (run1x.sl.v210 d s f1 b3 h), (run1x.sl.v230 d s f1 b3 h), (run1x.sl.v250 d s f1 b3 h), (run1x.sl.v270 d s f1 b3 h), (run1x.sl.v290 d s f1 b3 h), (run1x.sl.v310 d s f1 b3 h)] J)) (ix1 l)
          + (![acc2.1, acc2.2.1, acc2.2.2.1, acc2.2.2.2.1, acc2.2.2.2.2.1, acc2.2.2.2.2.2.1, acc2.2.2.2.2.2.2.1, acc2.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (View.read_writes_cons_unit_of_not_mem (B4).view b4 _ _ _ _ rfl (0 : Fin 1) (Or.inl (by show (y 0).val < 1008; omega))).trans ?_
  refine (View.read_writes_cons_unit_of_not_mem (B4).view b4 _ _ _ _ rfl (0 : Fin 1) (Or.inl (by show (y 0).val < 992; omega))).trans ?_
  refine (View.read_writes_cons_unit_of_not_mem (B4).view b4 _ _ _ _ rfl (0 : Fin 1) (Or.inl (by show (y 0).val < 976; omega))).trans ?_
  refine (View.read_writes_cons_unit_of_not_mem (B4).view b4 _ _ _ _ rfl (0 : Fin 1) (Or.inl (by show (y 0).val < 960; omega))).trans ?_
  refine (View.read_writes_cons_unit_of_not_mem (B4).view b4 _ _ _ _ rfl (0 : Fin 1) (Or.inl (by show (y 0).val < 944; omega))).trans ?_
  refine (View.read_writes_cons_unit_of_not_mem (B4).view b4 _ _ _ _ rfl (0 : Fin 1) (Or.inl (by show (y 0).val < 928; omega))).trans ?_
  refine (View.read_writes_cons_unit_of_not_mem (B4).view b4 _ _ _ _ rfl (0 : Fin 1) (Or.inl (by show (y 0).val < 912; omega))).trans ?_
  refine (View.read_writes_cons_unit_of_not_mem (B4).view b4 _ _ _ _ rfl (0 : Fin 1) (Or.inl (by show (y 0).val < 896; omega))).trans ?_
  refine (View.read_writes_cons_unit_of_not_mem (B4).view b4 _ _ _ _ rfl (0 : Fin 1) (Or.inl (by show (y 0).val < 880; omega))).trans ?_
  refine (View.read_writes_cons_unit_of_not_mem (B4).view b4 _ _ _ _ rfl (0 : Fin 1) (Or.inl (by show (y 0).val < 864; omega))).trans ?_
  refine (View.read_writes_cons_unit_of_not_mem (B4).view b4 _ _ _ _ rfl (0 : Fin 1) (Or.inl (by show (y 0).val < 848; omega))).trans ?_
  refine (View.read_writes_cons_unit_of_not_mem (B4).view b4 _ _ _ _ rfl (0 : Fin 1) (Or.inl (by show (y 0).val < 832; omega))).trans ?_
  refine (View.read_writes_cons_unit_of_not_mem (B4).view b4 _ _ _ _ rfl (0 : Fin 1) (Or.inl (by show (y 0).val < 816; omega))).trans ?_
  refine (View.read_writes_cons_unit_of_not_mem (B4).view b4 _ _ _ _ rfl (0 : Fin 1) (Or.inl (by show (y 0).val < 800; omega))).trans ?_
  refine (View.read_writes_cons_unit_of_not_mem (B4).view b4 _ _ _ _ rfl (0 : Fin 1) (Or.inl (by show (y 0).val < 784; omega))).trans ?_
  refine (View.read_writes_cons_unit_of_not_mem (B4).view b4 _ _ _ _ rfl (0 : Fin 1) (Or.inl (by show (y 0).val < 768; omega))).trans ?_
  refine (View.read_writes_cons_unit_of_not_mem (B4).view b4 _ _ _ _ rfl (0 : Fin 1) (Or.inl (by show (y 0).val < 752; omega))).trans ?_
  refine (View.read_writes_cons_unit_of_not_mem (B4).view b4 _ _ _ _ rfl (0 : Fin 1) (Or.inl (by show (y 0).val < 736; omega))).trans ?_
  refine (View.read_writes_cons_unit_of_not_mem (B4).view b4 _ _ _ _ rfl (0 : Fin 1) (Or.inl (by show (y 0).val < 720; omega))).trans ?_
  refine (View.read_writes_cons_unit_of_not_mem (B4).view b4 _ _ _ _ rfl (0 : Fin 1) (Or.inl (by show (y 0).val < 704; omega))).trans ?_
  refine (View.read_writes_cons_unit_of_not_mem (B4).view b4 _ _ _ _ rfl (0 : Fin 1) (Or.inl (by show (y 0).val < 688; omega))).trans ?_
  refine (View.read_writes_cons_unit_of_not_mem (B4).view b4 _ _ _ _ rfl (0 : Fin 1) (Or.inl (by show (y 0).val < 672; omega))).trans ?_
  refine (View.read_writes_cons_unit_of_not_mem (B4).view b4 _ _ _ _ rfl (0 : Fin 1) (Or.inl (by show (y 0).val < 656; omega))).trans ?_
  refine (View.read_writes_cons_unit_of_not_mem (B4).view b4 _ _ _ _ rfl (0 : Fin 1) (Or.inl (by show (y 0).val < 640; omega))).trans ?_
  refine (View.read_writes_cons_unit_of_not_mem (B4).view b4 _ _ _ _ rfl (0 : Fin 1) (Or.inl (by show (y 0).val < 624; omega))).trans ?_
  refine (View.read_writes_cons_unit_of_not_mem (B4).view b4 _ _ _ _ rfl (0 : Fin 1) (Or.inl (by show (y 0).val < 608; omega))).trans ?_
  refine (View.read_writes_cons_unit_of_not_mem (B4).view b4 _ _ _ _ rfl (0 : Fin 1) (Or.inl (by show (y 0).val < 592; omega))).trans ?_
  refine (View.read_writes_cons_unit_of_not_mem (B4).view b4 _ _ _ _ rfl (0 : Fin 1) (Or.inl (by show (y 0).val < 576; omega))).trans ?_
  refine (View.read_writes_cons_unit_of_not_mem (B4).view b4 _ _ _ _ rfl (0 : Fin 1) (Or.inl (by show (y 0).val < 560; omega))).trans ?_
  refine (View.read_writes_cons_unit_of_not_mem (B4).view b4 _ _ _ _ rfl (0 : Fin 1) (Or.inl (by show (y 0).val < 544; omega))).trans ?_
  refine (View.read_writes_cons_unit_of_not_mem (B4).view b4 _ _ _ _ rfl (0 : Fin 1) (Or.inl (by show (y 0).val < 528; omega))).trans ?_
  refine (View.read_writes_cons_unit_of_not_mem (B4).view b4 _ _ _ _ rfl (0 : Fin 1) (Or.inl (by show (y 0).val < 512; omega))).trans ?_
  refine (View.read_writes_cons_unit_of_not_mem (B4).view b4 _ _ _ _ rfl (0 : Fin 1) (Or.inl (by show (y 0).val < 496; omega))).trans ?_
  refine (View.read_writes_cons_unit_of_not_mem (B4).view b4 _ _ _ _ rfl (0 : Fin 1) (Or.inl (by show (y 0).val < 480; omega))).trans ?_
  refine (View.read_writes_cons_unit_of_not_mem (B4).view b4 _ _ _ _ rfl (0 : Fin 1) (Or.inl (by show (y 0).val < 464; omega))).trans ?_
  refine (View.read_writes_cons_unit_of_not_mem (B4).view b4 _ _ _ _ rfl (0 : Fin 1) (Or.inl (by show (y 0).val < 448; omega))).trans ?_
  refine (View.read_writes_cons_unit_of_not_mem (B4).view b4 _ _ _ _ rfl (0 : Fin 1) (Or.inl (by show (y 0).val < 432; omega))).trans ?_
  refine (View.read_writes_cons_unit_of_not_mem (B4).view b4 _ _ _ _ rfl (0 : Fin 1) (Or.inl (by show (y 0).val < 416; omega))).trans ?_
  refine (View.read_writes_cons_unit_of_not_mem (B4).view b4 _ _ _ _ rfl (0 : Fin 1) (Or.inl (by show (y 0).val < 400; omega))).trans ?_
  refine (View.read_writes_cons_unit_of_not_mem (B4).view b4 _ _ _ _ rfl (0 : Fin 1) (Or.inl (by show (y 0).val < 384; omega))).trans ?_
  refine (View.read_writes_cons_unit_of_not_mem (B4).view b4 _ _ _ _ rfl (0 : Fin 1) (Or.inl (by show (y 0).val < 368; omega))).trans ?_
  refine (View.read_writes_cons_unit_of_not_mem (B4).view b4 _ _ _ _ rfl (0 : Fin 1) (Or.inl (by show (y 0).val < 352; omega))).trans ?_
  refine (View.read_writes_cons_unit_of_not_mem (B4).view b4 _ _ _ _ rfl (0 : Fin 1) (Or.inl (by show (y 0).val < 336; omega))).trans ?_
  refine (View.read_writes_cons_unit_of_not_mem (B4).view b4 _ _ _ _ rfl (0 : Fin 1) (Or.inl (by show (y 0).val < 320; omega))).trans ?_
  refine (View.read_writes_cons_unit_of_not_mem (B4).view b4 _ _ _ _ rfl (0 : Fin 1) (Or.inl (by show (y 0).val < 304; omega))).trans ?_
  refine (View.read_writes_cons_unit_of_not_mem (B4).view b4 _ _ _ _ rfl (0 : Fin 1) (Or.inl (by show (y 0).val < 288; omega))).trans ?_
  refine (View.read_writes_cons_unit_of_not_mem (B4).view b4 _ _ _ _ rfl (0 : Fin 1) (Or.inl (by show (y 0).val < 272; omega))).trans ?_
  refine (View.read_writes_cons_unit_of_not_mem (B4).view b4 _ _ _ _ rfl (0 : Fin 1) (Or.inl (by show (y 0).val < 256; omega))).trans ?_
  refine (View.read_writes_cons_unit_of_not_mem (B4).view b4 _ _ _ _ rfl (0 : Fin 1) (Or.inl (by show (y 0).val < 240; omega))).trans ?_
  refine (View.read_writes_cons_unit_of_not_mem (B4).view b4 _ _ _ _ rfl (0 : Fin 1) (Or.inl (by show (y 0).val < 224; omega))).trans ?_
  refine (View.read_writes_cons_unit_of_not_mem (B4).view b4 _ _ _ _ rfl (0 : Fin 1) (Or.inl (by show (y 0).val < 208; omega))).trans ?_
  refine (View.read_writes_cons_unit_of_not_mem (B4).view b4 _ _ _ _ rfl (0 : Fin 1) (Or.inl (by show (y 0).val < 192; omega))).trans ?_
  refine (View.read_writes_cons_unit_of_not_mem (B4).view b4 _ _ _ _ rfl (0 : Fin 1) (Or.inl (by show (y 0).val < 176; omega))).trans ?_
  refine (View.read_writes_cons_unit_of_not_mem (B4).view b4 _ _ _ _ rfl (0 : Fin 1) (Or.inl (by show (y 0).val < 160; omega))).trans ?_
  refine (View.read_writes_cons_unit_of_not_mem (B4).view b4 _ _ _ _ rfl (0 : Fin 1) (Or.inl (by show (y 0).val < 144; omega))).trans ?_
  refine (View.read_writes_cons_unit_of_not_mem (B4).view b4 _ _ _ _ rfl (0 : Fin 1) (Or.inl (by show (y 0).val < 128; omega))).trans ?_
  refine (Cert.Proof.ScBridge.read8 (B4).view b4 _ _ _ _ _ _ _ _ inb_S1024_S16_0 inb_S1024_S16_16 inb_S1024_S16_32 inb_S1024_S16_48 inb_S1024_S16_64 inb_S1024_S16_80 inb_S1024_S16_96 inb_S1024_S16_112 y J l (by omega)).trans ?_
  fin_cases J
  · show clampAdd (nrmv (sc (run1x.sl.v160 d s f1 b3 h)) (sc (run1x.sl.v165 d s f1 b3 h)) (sc (run1x.sl.v170 d s f1 b3 h))) acc2.1 (ix1 l) = _
    exact clampAdd_apply _ _ l
  · show clampAdd (nrmv (sc (run1x.sl.v180 d s f1 b3 h)) (sc (run1x.sl.v185 d s f1 b3 h)) (sc (run1x.sl.v190 d s f1 b3 h))) acc2.2.1 (ix1 l) = _
    exact clampAdd_apply _ _ l
  · show clampAdd (nrmv (sc (run1x.sl.v200 d s f1 b3 h)) (sc (run1x.sl.v205 d s f1 b3 h)) (sc (run1x.sl.v210 d s f1 b3 h))) acc2.2.2.1 (ix1 l) = _
    exact clampAdd_apply _ _ l
  · show clampAdd (nrmv (sc (run1x.sl.v220 d s f1 b3 h)) (sc (run1x.sl.v225 d s f1 b3 h)) (sc (run1x.sl.v230 d s f1 b3 h))) acc2.2.2.2.1 (ix1 l) = _
    exact clampAdd_apply _ _ l
  · show clampAdd (nrmv (sc (run1x.sl.v240 d s f1 b3 h)) (sc (run1x.sl.v245 d s f1 b3 h)) (sc (run1x.sl.v250 d s f1 b3 h))) acc2.2.2.2.2.1 (ix1 l) = _
    exact clampAdd_apply _ _ l
  · show clampAdd (nrmv (sc (run1x.sl.v260 d s f1 b3 h)) (sc (run1x.sl.v265 d s f1 b3 h)) (sc (run1x.sl.v270 d s f1 b3 h))) acc2.2.2.2.2.2.1 (ix1 l) = _
    exact clampAdd_apply _ _ l
  · show clampAdd (nrmv (sc (run1x.sl.v280 d s f1 b3 h)) (sc (run1x.sl.v285 d s f1 b3 h)) (sc (run1x.sl.v290 d s f1 b3 h))) acc2.2.2.2.2.2.2.1 (ix1 l) = _
    exact clampAdd_apply _ _ l
  · show clampAdd (nrmv (sc (run1x.sl.v300 d s f1 b3 h)) (sc (run1x.sl.v305 d s f1 b3 h)) (sc (run1x.sl.v310 d s f1 b3 h))) acc2.2.2.2.2.2.2.2 (ix1 l) = _
    exact clampAdd_apply _ _ l

set_option maxHeartbeats 4000000 in
set_option maxRecDepth 100000 in
/-- Group 1: word `128 + 16 J + l` of the run's 1024, over ANY carried minima, is the group's block `J`'s clamped sum at
    lane `l`. -/
theorem W1_read1 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 128 + 16 * J.val + l.val) :
    run1x.sl.dma16 d s f1 b3 b4 h acc2 acc3 acc4 acc5 acc6 acc7 acc8 acc9 j
      = max (nrmv (sc (![(run1x.sl.v492 d s f1 b3 h), (run1x.sl.v512 d s f1 b3 h), (run1x.sl.v532 d s f1 b3 h), (run1x.sl.v552 d s f1 b3 h), (run1x.sl.v572 d s f1 b3 h), (run1x.sl.v592 d s f1 b3 h), (run1x.sl.v612 d s f1 b3 h), (run1x.sl.v632 d s f1 b3 h)] J))
            (sc (![(run1x.sl.v497 d s f1 b3 h), (run1x.sl.v517 d s f1 b3 h), (run1x.sl.v537 d s f1 b3 h), (run1x.sl.v557 d s f1 b3 h), (run1x.sl.v577 d s f1 b3 h), (run1x.sl.v597 d s f1 b3 h), (run1x.sl.v617 d s f1 b3 h), (run1x.sl.v637 d s f1 b3 h)] J))
            (sc (![(run1x.sl.v502 d s f1 b3 h), (run1x.sl.v522 d s f1 b3 h), (run1x.sl.v542 d s f1 b3 h), (run1x.sl.v562 d s f1 b3 h), (run1x.sl.v582 d s f1 b3 h), (run1x.sl.v602 d s f1 b3 h), (run1x.sl.v622 d s f1 b3 h), (run1x.sl.v642 d s f1 b3 h)] J)) (ix1 l)
          + (![acc3.1, acc3.2.1, acc3.2.2.1, acc3.2.2.2.1, acc3.2.2.2.2.1, acc3.2.2.2.2.2.1, acc3.2.2.2.2.2.2.1, acc3.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (View.read_writes_cons_unit_of_not_mem (B4).view b4 _ _ _ _ rfl (0 : Fin 1) (Or.inl (by show (y 0).val < 1008; omega))).trans ?_
  refine (View.read_writes_cons_unit_of_not_mem (B4).view b4 _ _ _ _ rfl (0 : Fin 1) (Or.inl (by show (y 0).val < 992; omega))).trans ?_
  refine (View.read_writes_cons_unit_of_not_mem (B4).view b4 _ _ _ _ rfl (0 : Fin 1) (Or.inl (by show (y 0).val < 976; omega))).trans ?_
  refine (View.read_writes_cons_unit_of_not_mem (B4).view b4 _ _ _ _ rfl (0 : Fin 1) (Or.inl (by show (y 0).val < 960; omega))).trans ?_
  refine (View.read_writes_cons_unit_of_not_mem (B4).view b4 _ _ _ _ rfl (0 : Fin 1) (Or.inl (by show (y 0).val < 944; omega))).trans ?_
  refine (View.read_writes_cons_unit_of_not_mem (B4).view b4 _ _ _ _ rfl (0 : Fin 1) (Or.inl (by show (y 0).val < 928; omega))).trans ?_
  refine (View.read_writes_cons_unit_of_not_mem (B4).view b4 _ _ _ _ rfl (0 : Fin 1) (Or.inl (by show (y 0).val < 912; omega))).trans ?_
  refine (View.read_writes_cons_unit_of_not_mem (B4).view b4 _ _ _ _ rfl (0 : Fin 1) (Or.inl (by show (y 0).val < 896; omega))).trans ?_
  refine (View.read_writes_cons_unit_of_not_mem (B4).view b4 _ _ _ _ rfl (0 : Fin 1) (Or.inl (by show (y 0).val < 880; omega))).trans ?_
  refine (View.read_writes_cons_unit_of_not_mem (B4).view b4 _ _ _ _ rfl (0 : Fin 1) (Or.inl (by show (y 0).val < 864; omega))).trans ?_
  refine (View.read_writes_cons_unit_of_not_mem (B4).view b4 _ _ _ _ rfl (0 : Fin 1) (Or.inl (by show (y 0).val < 848; omega))).trans ?_
  refine (View.read_writes_cons_unit_of_not_mem (B4).view b4 _ _ _ _ rfl (0 : Fin 1) (Or.inl (by show (y 0).val < 832; omega))).trans ?_
  refine (View.read_writes_cons_unit_of_not_mem (B4).view b4 _ _ _ _ rfl (0 : Fin 1) (Or.inl (by show (y 0).val < 816; omega))).trans ?_
  refine (View.read_writes_cons_unit_of_not_mem (B4).view b4 _ _ _ _ rfl (0 : Fin 1) (Or.inl (by show (y 0).val < 800; omega))).trans ?_
  refine (View.read_writes_cons_unit_of_not_mem (B4).view b4 _ _ _ _ rfl (0 : Fin 1) (Or.inl (by show (y 0).val < 784; omega))).trans ?_
  refine (View.read_writes_cons_unit_of_not_mem (B4).view b4 _ _ _ _ rfl (0 : Fin 1) (Or.inl (by show (y 0).val < 768; omega))).trans ?_
  refine (View.read_writes_cons_unit_of_not_mem (B4).view b4 _ _ _ _ rfl (0 : Fin 1) (Or.inl (by show (y 0).val < 752; omega))).trans ?_
  refine (View.read_writes_cons_unit_of_not_mem (B4).view b4 _ _ _ _ rfl (0 : Fin 1) (Or.inl (by show (y 0).val < 736; omega))).trans ?_
  refine (View.read_writes_cons_unit_of_not_mem (B4).view b4 _ _ _ _ rfl (0 : Fin 1) (Or.inl (by show (y 0).val < 720; omega))).trans ?_
  refine (View.read_writes_cons_unit_of_not_mem (B4).view b4 _ _ _ _ rfl (0 : Fin 1) (Or.inl (by show (y 0).val < 704; omega))).trans ?_
  refine (View.read_writes_cons_unit_of_not_mem (B4).view b4 _ _ _ _ rfl (0 : Fin 1) (Or.inl (by show (y 0).val < 688; omega))).trans ?_
  refine (View.read_writes_cons_unit_of_not_mem (B4).view b4 _ _ _ _ rfl (0 : Fin 1) (Or.inl (by show (y 0).val < 672; omega))).trans ?_
  refine (View.read_writes_cons_unit_of_not_mem (B4).view b4 _ _ _ _ rfl (0 : Fin 1) (Or.inl (by show (y 0).val < 656; omega))).trans ?_
  refine (View.read_writes_cons_unit_of_not_mem (B4).view b4 _ _ _ _ rfl (0 : Fin 1) (Or.inl (by show (y 0).val < 640; omega))).trans ?_
  refine (View.read_writes_cons_unit_of_not_mem (B4).view b4 _ _ _ _ rfl (0 : Fin 1) (Or.inl (by show (y 0).val < 624; omega))).trans ?_
  refine (View.read_writes_cons_unit_of_not_mem (B4).view b4 _ _ _ _ rfl (0 : Fin 1) (Or.inl (by show (y 0).val < 608; omega))).trans ?_
  refine (View.read_writes_cons_unit_of_not_mem (B4).view b4 _ _ _ _ rfl (0 : Fin 1) (Or.inl (by show (y 0).val < 592; omega))).trans ?_
  refine (View.read_writes_cons_unit_of_not_mem (B4).view b4 _ _ _ _ rfl (0 : Fin 1) (Or.inl (by show (y 0).val < 576; omega))).trans ?_
  refine (View.read_writes_cons_unit_of_not_mem (B4).view b4 _ _ _ _ rfl (0 : Fin 1) (Or.inl (by show (y 0).val < 560; omega))).trans ?_
  refine (View.read_writes_cons_unit_of_not_mem (B4).view b4 _ _ _ _ rfl (0 : Fin 1) (Or.inl (by show (y 0).val < 544; omega))).trans ?_
  refine (View.read_writes_cons_unit_of_not_mem (B4).view b4 _ _ _ _ rfl (0 : Fin 1) (Or.inl (by show (y 0).val < 528; omega))).trans ?_
  refine (View.read_writes_cons_unit_of_not_mem (B4).view b4 _ _ _ _ rfl (0 : Fin 1) (Or.inl (by show (y 0).val < 512; omega))).trans ?_
  refine (View.read_writes_cons_unit_of_not_mem (B4).view b4 _ _ _ _ rfl (0 : Fin 1) (Or.inl (by show (y 0).val < 496; omega))).trans ?_
  refine (View.read_writes_cons_unit_of_not_mem (B4).view b4 _ _ _ _ rfl (0 : Fin 1) (Or.inl (by show (y 0).val < 480; omega))).trans ?_
  refine (View.read_writes_cons_unit_of_not_mem (B4).view b4 _ _ _ _ rfl (0 : Fin 1) (Or.inl (by show (y 0).val < 464; omega))).trans ?_
  refine (View.read_writes_cons_unit_of_not_mem (B4).view b4 _ _ _ _ rfl (0 : Fin 1) (Or.inl (by show (y 0).val < 448; omega))).trans ?_
  refine (View.read_writes_cons_unit_of_not_mem (B4).view b4 _ _ _ _ rfl (0 : Fin 1) (Or.inl (by show (y 0).val < 432; omega))).trans ?_
  refine (View.read_writes_cons_unit_of_not_mem (B4).view b4 _ _ _ _ rfl (0 : Fin 1) (Or.inl (by show (y 0).val < 416; omega))).trans ?_
  refine (View.read_writes_cons_unit_of_not_mem (B4).view b4 _ _ _ _ rfl (0 : Fin 1) (Or.inl (by show (y 0).val < 400; omega))).trans ?_
  refine (View.read_writes_cons_unit_of_not_mem (B4).view b4 _ _ _ _ rfl (0 : Fin 1) (Or.inl (by show (y 0).val < 384; omega))).trans ?_
  refine (View.read_writes_cons_unit_of_not_mem (B4).view b4 _ _ _ _ rfl (0 : Fin 1) (Or.inl (by show (y 0).val < 368; omega))).trans ?_
  refine (View.read_writes_cons_unit_of_not_mem (B4).view b4 _ _ _ _ rfl (0 : Fin 1) (Or.inl (by show (y 0).val < 352; omega))).trans ?_
  refine (View.read_writes_cons_unit_of_not_mem (B4).view b4 _ _ _ _ rfl (0 : Fin 1) (Or.inl (by show (y 0).val < 336; omega))).trans ?_
  refine (View.read_writes_cons_unit_of_not_mem (B4).view b4 _ _ _ _ rfl (0 : Fin 1) (Or.inl (by show (y 0).val < 320; omega))).trans ?_
  refine (View.read_writes_cons_unit_of_not_mem (B4).view b4 _ _ _ _ rfl (0 : Fin 1) (Or.inl (by show (y 0).val < 304; omega))).trans ?_
  refine (View.read_writes_cons_unit_of_not_mem (B4).view b4 _ _ _ _ rfl (0 : Fin 1) (Or.inl (by show (y 0).val < 288; omega))).trans ?_
  refine (View.read_writes_cons_unit_of_not_mem (B4).view b4 _ _ _ _ rfl (0 : Fin 1) (Or.inl (by show (y 0).val < 272; omega))).trans ?_
  refine (View.read_writes_cons_unit_of_not_mem (B4).view b4 _ _ _ _ rfl (0 : Fin 1) (Or.inl (by show (y 0).val < 256; omega))).trans ?_
  refine (Cert.Proof.ScBridge.read8_1 (B4).view b4 _ _ _ _ _ _ _ _ _ inb_S1024_S16_128 inb_S1024_S16_144 inb_S1024_S16_160 inb_S1024_S16_176 inb_S1024_S16_192 inb_S1024_S16_208 inb_S1024_S16_224 inb_S1024_S16_240 y J l (by omega)).trans ?_
  fin_cases J
  · show clampAdd (nrmv (sc (run1x.sl.v492 d s f1 b3 h)) (sc (run1x.sl.v497 d s f1 b3 h)) (sc (run1x.sl.v502 d s f1 b3 h))) acc3.1 (ix1 l) = _
    exact clampAdd_apply _ _ l
  · show clampAdd (nrmv (sc (run1x.sl.v512 d s f1 b3 h)) (sc (run1x.sl.v517 d s f1 b3 h)) (sc (run1x.sl.v522 d s f1 b3 h))) acc3.2.1 (ix1 l) = _
    exact clampAdd_apply _ _ l
  · show clampAdd (nrmv (sc (run1x.sl.v532 d s f1 b3 h)) (sc (run1x.sl.v537 d s f1 b3 h)) (sc (run1x.sl.v542 d s f1 b3 h))) acc3.2.2.1 (ix1 l) = _
    exact clampAdd_apply _ _ l
  · show clampAdd (nrmv (sc (run1x.sl.v552 d s f1 b3 h)) (sc (run1x.sl.v557 d s f1 b3 h)) (sc (run1x.sl.v562 d s f1 b3 h))) acc3.2.2.2.1 (ix1 l) = _
    exact clampAdd_apply _ _ l
  · show clampAdd (nrmv (sc (run1x.sl.v572 d s f1 b3 h)) (sc (run1x.sl.v577 d s f1 b3 h)) (sc (run1x.sl.v582 d s f1 b3 h))) acc3.2.2.2.2.1 (ix1 l) = _
    exact clampAdd_apply _ _ l
  · show clampAdd (nrmv (sc (run1x.sl.v592 d s f1 b3 h)) (sc (run1x.sl.v597 d s f1 b3 h)) (sc (run1x.sl.v602 d s f1 b3 h))) acc3.2.2.2.2.2.1 (ix1 l) = _
    exact clampAdd_apply _ _ l
  · show clampAdd (nrmv (sc (run1x.sl.v612 d s f1 b3 h)) (sc (run1x.sl.v617 d s f1 b3 h)) (sc (run1x.sl.v622 d s f1 b3 h))) acc3.2.2.2.2.2.2.1 (ix1 l) = _
    exact clampAdd_apply _ _ l
  · show clampAdd (nrmv (sc (run1x.sl.v632 d s f1 b3 h)) (sc (run1x.sl.v637 d s f1 b3 h)) (sc (run1x.sl.v642 d s f1 b3 h))) acc3.2.2.2.2.2.2.2 (ix1 l) = _
    exact clampAdd_apply _ _ l

set_option maxHeartbeats 4000000 in
set_option maxRecDepth 100000 in
/-- Group 2: word `256 + 16 J + l` of the run's 1024, over ANY carried minima, is the group's block `J`'s clamped sum at
    lane `l`. -/
theorem W1_read2 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 256 + 16 * J.val + l.val) :
    run1x.sl.dma16 d s f1 b3 b4 h acc2 acc3 acc4 acc5 acc6 acc7 acc8 acc9 j
      = max (nrmv (sc (![(run1x.sl.v824 d s f1 b3 h), (run1x.sl.v844 d s f1 b3 h), (run1x.sl.v864 d s f1 b3 h), (run1x.sl.v884 d s f1 b3 h), (run1x.sl.v904 d s f1 b3 h), (run1x.sl.v924 d s f1 b3 h), (run1x.sl.v944 d s f1 b3 h), (run1x.sl.v964 d s f1 b3 h)] J))
            (sc (![(run1x.sl.v829 d s f1 b3 h), (run1x.sl.v849 d s f1 b3 h), (run1x.sl.v869 d s f1 b3 h), (run1x.sl.v889 d s f1 b3 h), (run1x.sl.v909 d s f1 b3 h), (run1x.sl.v929 d s f1 b3 h), (run1x.sl.v949 d s f1 b3 h), (run1x.sl.v969 d s f1 b3 h)] J))
            (sc (![(run1x.sl.v834 d s f1 b3 h), (run1x.sl.v854 d s f1 b3 h), (run1x.sl.v874 d s f1 b3 h), (run1x.sl.v894 d s f1 b3 h), (run1x.sl.v914 d s f1 b3 h), (run1x.sl.v934 d s f1 b3 h), (run1x.sl.v954 d s f1 b3 h), (run1x.sl.v974 d s f1 b3 h)] J)) (ix1 l)
          + (![acc4.1, acc4.2.1, acc4.2.2.1, acc4.2.2.2.1, acc4.2.2.2.2.1, acc4.2.2.2.2.2.1, acc4.2.2.2.2.2.2.1, acc4.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (View.read_writes_cons_unit_of_not_mem (B4).view b4 _ _ _ _ rfl (0 : Fin 1) (Or.inl (by show (y 0).val < 1008; omega))).trans ?_
  refine (View.read_writes_cons_unit_of_not_mem (B4).view b4 _ _ _ _ rfl (0 : Fin 1) (Or.inl (by show (y 0).val < 992; omega))).trans ?_
  refine (View.read_writes_cons_unit_of_not_mem (B4).view b4 _ _ _ _ rfl (0 : Fin 1) (Or.inl (by show (y 0).val < 976; omega))).trans ?_
  refine (View.read_writes_cons_unit_of_not_mem (B4).view b4 _ _ _ _ rfl (0 : Fin 1) (Or.inl (by show (y 0).val < 960; omega))).trans ?_
  refine (View.read_writes_cons_unit_of_not_mem (B4).view b4 _ _ _ _ rfl (0 : Fin 1) (Or.inl (by show (y 0).val < 944; omega))).trans ?_
  refine (View.read_writes_cons_unit_of_not_mem (B4).view b4 _ _ _ _ rfl (0 : Fin 1) (Or.inl (by show (y 0).val < 928; omega))).trans ?_
  refine (View.read_writes_cons_unit_of_not_mem (B4).view b4 _ _ _ _ rfl (0 : Fin 1) (Or.inl (by show (y 0).val < 912; omega))).trans ?_
  refine (View.read_writes_cons_unit_of_not_mem (B4).view b4 _ _ _ _ rfl (0 : Fin 1) (Or.inl (by show (y 0).val < 896; omega))).trans ?_
  refine (View.read_writes_cons_unit_of_not_mem (B4).view b4 _ _ _ _ rfl (0 : Fin 1) (Or.inl (by show (y 0).val < 880; omega))).trans ?_
  refine (View.read_writes_cons_unit_of_not_mem (B4).view b4 _ _ _ _ rfl (0 : Fin 1) (Or.inl (by show (y 0).val < 864; omega))).trans ?_
  refine (View.read_writes_cons_unit_of_not_mem (B4).view b4 _ _ _ _ rfl (0 : Fin 1) (Or.inl (by show (y 0).val < 848; omega))).trans ?_
  refine (View.read_writes_cons_unit_of_not_mem (B4).view b4 _ _ _ _ rfl (0 : Fin 1) (Or.inl (by show (y 0).val < 832; omega))).trans ?_
  refine (View.read_writes_cons_unit_of_not_mem (B4).view b4 _ _ _ _ rfl (0 : Fin 1) (Or.inl (by show (y 0).val < 816; omega))).trans ?_
  refine (View.read_writes_cons_unit_of_not_mem (B4).view b4 _ _ _ _ rfl (0 : Fin 1) (Or.inl (by show (y 0).val < 800; omega))).trans ?_
  refine (View.read_writes_cons_unit_of_not_mem (B4).view b4 _ _ _ _ rfl (0 : Fin 1) (Or.inl (by show (y 0).val < 784; omega))).trans ?_
  refine (View.read_writes_cons_unit_of_not_mem (B4).view b4 _ _ _ _ rfl (0 : Fin 1) (Or.inl (by show (y 0).val < 768; omega))).trans ?_
  refine (View.read_writes_cons_unit_of_not_mem (B4).view b4 _ _ _ _ rfl (0 : Fin 1) (Or.inl (by show (y 0).val < 752; omega))).trans ?_
  refine (View.read_writes_cons_unit_of_not_mem (B4).view b4 _ _ _ _ rfl (0 : Fin 1) (Or.inl (by show (y 0).val < 736; omega))).trans ?_
  refine (View.read_writes_cons_unit_of_not_mem (B4).view b4 _ _ _ _ rfl (0 : Fin 1) (Or.inl (by show (y 0).val < 720; omega))).trans ?_
  refine (View.read_writes_cons_unit_of_not_mem (B4).view b4 _ _ _ _ rfl (0 : Fin 1) (Or.inl (by show (y 0).val < 704; omega))).trans ?_
  refine (View.read_writes_cons_unit_of_not_mem (B4).view b4 _ _ _ _ rfl (0 : Fin 1) (Or.inl (by show (y 0).val < 688; omega))).trans ?_
  refine (View.read_writes_cons_unit_of_not_mem (B4).view b4 _ _ _ _ rfl (0 : Fin 1) (Or.inl (by show (y 0).val < 672; omega))).trans ?_
  refine (View.read_writes_cons_unit_of_not_mem (B4).view b4 _ _ _ _ rfl (0 : Fin 1) (Or.inl (by show (y 0).val < 656; omega))).trans ?_
  refine (View.read_writes_cons_unit_of_not_mem (B4).view b4 _ _ _ _ rfl (0 : Fin 1) (Or.inl (by show (y 0).val < 640; omega))).trans ?_
  refine (View.read_writes_cons_unit_of_not_mem (B4).view b4 _ _ _ _ rfl (0 : Fin 1) (Or.inl (by show (y 0).val < 624; omega))).trans ?_
  refine (View.read_writes_cons_unit_of_not_mem (B4).view b4 _ _ _ _ rfl (0 : Fin 1) (Or.inl (by show (y 0).val < 608; omega))).trans ?_
  refine (View.read_writes_cons_unit_of_not_mem (B4).view b4 _ _ _ _ rfl (0 : Fin 1) (Or.inl (by show (y 0).val < 592; omega))).trans ?_
  refine (View.read_writes_cons_unit_of_not_mem (B4).view b4 _ _ _ _ rfl (0 : Fin 1) (Or.inl (by show (y 0).val < 576; omega))).trans ?_
  refine (View.read_writes_cons_unit_of_not_mem (B4).view b4 _ _ _ _ rfl (0 : Fin 1) (Or.inl (by show (y 0).val < 560; omega))).trans ?_
  refine (View.read_writes_cons_unit_of_not_mem (B4).view b4 _ _ _ _ rfl (0 : Fin 1) (Or.inl (by show (y 0).val < 544; omega))).trans ?_
  refine (View.read_writes_cons_unit_of_not_mem (B4).view b4 _ _ _ _ rfl (0 : Fin 1) (Or.inl (by show (y 0).val < 528; omega))).trans ?_
  refine (View.read_writes_cons_unit_of_not_mem (B4).view b4 _ _ _ _ rfl (0 : Fin 1) (Or.inl (by show (y 0).val < 512; omega))).trans ?_
  refine (View.read_writes_cons_unit_of_not_mem (B4).view b4 _ _ _ _ rfl (0 : Fin 1) (Or.inl (by show (y 0).val < 496; omega))).trans ?_
  refine (View.read_writes_cons_unit_of_not_mem (B4).view b4 _ _ _ _ rfl (0 : Fin 1) (Or.inl (by show (y 0).val < 480; omega))).trans ?_
  refine (View.read_writes_cons_unit_of_not_mem (B4).view b4 _ _ _ _ rfl (0 : Fin 1) (Or.inl (by show (y 0).val < 464; omega))).trans ?_
  refine (View.read_writes_cons_unit_of_not_mem (B4).view b4 _ _ _ _ rfl (0 : Fin 1) (Or.inl (by show (y 0).val < 448; omega))).trans ?_
  refine (View.read_writes_cons_unit_of_not_mem (B4).view b4 _ _ _ _ rfl (0 : Fin 1) (Or.inl (by show (y 0).val < 432; omega))).trans ?_
  refine (View.read_writes_cons_unit_of_not_mem (B4).view b4 _ _ _ _ rfl (0 : Fin 1) (Or.inl (by show (y 0).val < 416; omega))).trans ?_
  refine (View.read_writes_cons_unit_of_not_mem (B4).view b4 _ _ _ _ rfl (0 : Fin 1) (Or.inl (by show (y 0).val < 400; omega))).trans ?_
  refine (View.read_writes_cons_unit_of_not_mem (B4).view b4 _ _ _ _ rfl (0 : Fin 1) (Or.inl (by show (y 0).val < 384; omega))).trans ?_
  refine (Cert.Proof.ScBridge.read8_2 (B4).view b4 _ _ _ _ _ _ _ _ _ inb_S1024_S16_256 inb_S1024_S16_272 inb_S1024_S16_288 inb_S1024_S16_304 inb_S1024_S16_320 inb_S1024_S16_336 inb_S1024_S16_352 inb_S1024_S16_368 y J l (by omega)).trans ?_
  fin_cases J
  · show clampAdd (nrmv (sc (run1x.sl.v824 d s f1 b3 h)) (sc (run1x.sl.v829 d s f1 b3 h)) (sc (run1x.sl.v834 d s f1 b3 h))) acc4.1 (ix1 l) = _
    exact clampAdd_apply _ _ l
  · show clampAdd (nrmv (sc (run1x.sl.v844 d s f1 b3 h)) (sc (run1x.sl.v849 d s f1 b3 h)) (sc (run1x.sl.v854 d s f1 b3 h))) acc4.2.1 (ix1 l) = _
    exact clampAdd_apply _ _ l
  · show clampAdd (nrmv (sc (run1x.sl.v864 d s f1 b3 h)) (sc (run1x.sl.v869 d s f1 b3 h)) (sc (run1x.sl.v874 d s f1 b3 h))) acc4.2.2.1 (ix1 l) = _
    exact clampAdd_apply _ _ l
  · show clampAdd (nrmv (sc (run1x.sl.v884 d s f1 b3 h)) (sc (run1x.sl.v889 d s f1 b3 h)) (sc (run1x.sl.v894 d s f1 b3 h))) acc4.2.2.2.1 (ix1 l) = _
    exact clampAdd_apply _ _ l
  · show clampAdd (nrmv (sc (run1x.sl.v904 d s f1 b3 h)) (sc (run1x.sl.v909 d s f1 b3 h)) (sc (run1x.sl.v914 d s f1 b3 h))) acc4.2.2.2.2.1 (ix1 l) = _
    exact clampAdd_apply _ _ l
  · show clampAdd (nrmv (sc (run1x.sl.v924 d s f1 b3 h)) (sc (run1x.sl.v929 d s f1 b3 h)) (sc (run1x.sl.v934 d s f1 b3 h))) acc4.2.2.2.2.2.1 (ix1 l) = _
    exact clampAdd_apply _ _ l
  · show clampAdd (nrmv (sc (run1x.sl.v944 d s f1 b3 h)) (sc (run1x.sl.v949 d s f1 b3 h)) (sc (run1x.sl.v954 d s f1 b3 h))) acc4.2.2.2.2.2.2.1 (ix1 l) = _
    exact clampAdd_apply _ _ l
  · show clampAdd (nrmv (sc (run1x.sl.v964 d s f1 b3 h)) (sc (run1x.sl.v969 d s f1 b3 h)) (sc (run1x.sl.v974 d s f1 b3 h))) acc4.2.2.2.2.2.2.2 (ix1 l) = _
    exact clampAdd_apply _ _ l

set_option maxHeartbeats 4000000 in
set_option maxRecDepth 100000 in
/-- Group 3: word `384 + 16 J + l` of the run's 1024, over ANY carried minima, is the group's block `J`'s clamped sum at
    lane `l`. -/
theorem W1_read3 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 384 + 16 * J.val + l.val) :
    run1x.sl.dma16 d s f1 b3 b4 h acc2 acc3 acc4 acc5 acc6 acc7 acc8 acc9 j
      = max (nrmv (sc (![(run1x.sl.v1156 d s f1 b3 h), (run1x.sl.v1176 d s f1 b3 h), (run1x.sl.v1196 d s f1 b3 h), (run1x.sl.v1216 d s f1 b3 h), (run1x.sl.v1236 d s f1 b3 h), (run1x.sl.v1256 d s f1 b3 h), (run1x.sl.v1276 d s f1 b3 h), (run1x.sl.v1296 d s f1 b3 h)] J))
            (sc (![(run1x.sl.v1161 d s f1 b3 h), (run1x.sl.v1181 d s f1 b3 h), (run1x.sl.v1201 d s f1 b3 h), (run1x.sl.v1221 d s f1 b3 h), (run1x.sl.v1241 d s f1 b3 h), (run1x.sl.v1261 d s f1 b3 h), (run1x.sl.v1281 d s f1 b3 h), (run1x.sl.v1301 d s f1 b3 h)] J))
            (sc (![(run1x.sl.v1166 d s f1 b3 h), (run1x.sl.v1186 d s f1 b3 h), (run1x.sl.v1206 d s f1 b3 h), (run1x.sl.v1226 d s f1 b3 h), (run1x.sl.v1246 d s f1 b3 h), (run1x.sl.v1266 d s f1 b3 h), (run1x.sl.v1286 d s f1 b3 h), (run1x.sl.v1306 d s f1 b3 h)] J)) (ix1 l)
          + (![acc5.1, acc5.2.1, acc5.2.2.1, acc5.2.2.2.1, acc5.2.2.2.2.1, acc5.2.2.2.2.2.1, acc5.2.2.2.2.2.2.1, acc5.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (View.read_writes_cons_unit_of_not_mem (B4).view b4 _ _ _ _ rfl (0 : Fin 1) (Or.inl (by show (y 0).val < 1008; omega))).trans ?_
  refine (View.read_writes_cons_unit_of_not_mem (B4).view b4 _ _ _ _ rfl (0 : Fin 1) (Or.inl (by show (y 0).val < 992; omega))).trans ?_
  refine (View.read_writes_cons_unit_of_not_mem (B4).view b4 _ _ _ _ rfl (0 : Fin 1) (Or.inl (by show (y 0).val < 976; omega))).trans ?_
  refine (View.read_writes_cons_unit_of_not_mem (B4).view b4 _ _ _ _ rfl (0 : Fin 1) (Or.inl (by show (y 0).val < 960; omega))).trans ?_
  refine (View.read_writes_cons_unit_of_not_mem (B4).view b4 _ _ _ _ rfl (0 : Fin 1) (Or.inl (by show (y 0).val < 944; omega))).trans ?_
  refine (View.read_writes_cons_unit_of_not_mem (B4).view b4 _ _ _ _ rfl (0 : Fin 1) (Or.inl (by show (y 0).val < 928; omega))).trans ?_
  refine (View.read_writes_cons_unit_of_not_mem (B4).view b4 _ _ _ _ rfl (0 : Fin 1) (Or.inl (by show (y 0).val < 912; omega))).trans ?_
  refine (View.read_writes_cons_unit_of_not_mem (B4).view b4 _ _ _ _ rfl (0 : Fin 1) (Or.inl (by show (y 0).val < 896; omega))).trans ?_
  refine (View.read_writes_cons_unit_of_not_mem (B4).view b4 _ _ _ _ rfl (0 : Fin 1) (Or.inl (by show (y 0).val < 880; omega))).trans ?_
  refine (View.read_writes_cons_unit_of_not_mem (B4).view b4 _ _ _ _ rfl (0 : Fin 1) (Or.inl (by show (y 0).val < 864; omega))).trans ?_
  refine (View.read_writes_cons_unit_of_not_mem (B4).view b4 _ _ _ _ rfl (0 : Fin 1) (Or.inl (by show (y 0).val < 848; omega))).trans ?_
  refine (View.read_writes_cons_unit_of_not_mem (B4).view b4 _ _ _ _ rfl (0 : Fin 1) (Or.inl (by show (y 0).val < 832; omega))).trans ?_
  refine (View.read_writes_cons_unit_of_not_mem (B4).view b4 _ _ _ _ rfl (0 : Fin 1) (Or.inl (by show (y 0).val < 816; omega))).trans ?_
  refine (View.read_writes_cons_unit_of_not_mem (B4).view b4 _ _ _ _ rfl (0 : Fin 1) (Or.inl (by show (y 0).val < 800; omega))).trans ?_
  refine (View.read_writes_cons_unit_of_not_mem (B4).view b4 _ _ _ _ rfl (0 : Fin 1) (Or.inl (by show (y 0).val < 784; omega))).trans ?_
  refine (View.read_writes_cons_unit_of_not_mem (B4).view b4 _ _ _ _ rfl (0 : Fin 1) (Or.inl (by show (y 0).val < 768; omega))).trans ?_
  refine (View.read_writes_cons_unit_of_not_mem (B4).view b4 _ _ _ _ rfl (0 : Fin 1) (Or.inl (by show (y 0).val < 752; omega))).trans ?_
  refine (View.read_writes_cons_unit_of_not_mem (B4).view b4 _ _ _ _ rfl (0 : Fin 1) (Or.inl (by show (y 0).val < 736; omega))).trans ?_
  refine (View.read_writes_cons_unit_of_not_mem (B4).view b4 _ _ _ _ rfl (0 : Fin 1) (Or.inl (by show (y 0).val < 720; omega))).trans ?_
  refine (View.read_writes_cons_unit_of_not_mem (B4).view b4 _ _ _ _ rfl (0 : Fin 1) (Or.inl (by show (y 0).val < 704; omega))).trans ?_
  refine (View.read_writes_cons_unit_of_not_mem (B4).view b4 _ _ _ _ rfl (0 : Fin 1) (Or.inl (by show (y 0).val < 688; omega))).trans ?_
  refine (View.read_writes_cons_unit_of_not_mem (B4).view b4 _ _ _ _ rfl (0 : Fin 1) (Or.inl (by show (y 0).val < 672; omega))).trans ?_
  refine (View.read_writes_cons_unit_of_not_mem (B4).view b4 _ _ _ _ rfl (0 : Fin 1) (Or.inl (by show (y 0).val < 656; omega))).trans ?_
  refine (View.read_writes_cons_unit_of_not_mem (B4).view b4 _ _ _ _ rfl (0 : Fin 1) (Or.inl (by show (y 0).val < 640; omega))).trans ?_
  refine (View.read_writes_cons_unit_of_not_mem (B4).view b4 _ _ _ _ rfl (0 : Fin 1) (Or.inl (by show (y 0).val < 624; omega))).trans ?_
  refine (View.read_writes_cons_unit_of_not_mem (B4).view b4 _ _ _ _ rfl (0 : Fin 1) (Or.inl (by show (y 0).val < 608; omega))).trans ?_
  refine (View.read_writes_cons_unit_of_not_mem (B4).view b4 _ _ _ _ rfl (0 : Fin 1) (Or.inl (by show (y 0).val < 592; omega))).trans ?_
  refine (View.read_writes_cons_unit_of_not_mem (B4).view b4 _ _ _ _ rfl (0 : Fin 1) (Or.inl (by show (y 0).val < 576; omega))).trans ?_
  refine (View.read_writes_cons_unit_of_not_mem (B4).view b4 _ _ _ _ rfl (0 : Fin 1) (Or.inl (by show (y 0).val < 560; omega))).trans ?_
  refine (View.read_writes_cons_unit_of_not_mem (B4).view b4 _ _ _ _ rfl (0 : Fin 1) (Or.inl (by show (y 0).val < 544; omega))).trans ?_
  refine (View.read_writes_cons_unit_of_not_mem (B4).view b4 _ _ _ _ rfl (0 : Fin 1) (Or.inl (by show (y 0).val < 528; omega))).trans ?_
  refine (View.read_writes_cons_unit_of_not_mem (B4).view b4 _ _ _ _ rfl (0 : Fin 1) (Or.inl (by show (y 0).val < 512; omega))).trans ?_
  refine (Cert.Proof.ScBridge.read8_3 (B4).view b4 _ _ _ _ _ _ _ _ _ inb_S1024_S16_384 inb_S1024_S16_400 inb_S1024_S16_416 inb_S1024_S16_432 inb_S1024_S16_448 inb_S1024_S16_464 inb_S1024_S16_480 inb_S1024_S16_496 y J l (by omega)).trans ?_
  fin_cases J
  · show clampAdd (nrmv (sc (run1x.sl.v1156 d s f1 b3 h)) (sc (run1x.sl.v1161 d s f1 b3 h)) (sc (run1x.sl.v1166 d s f1 b3 h))) acc5.1 (ix1 l) = _
    exact clampAdd_apply _ _ l
  · show clampAdd (nrmv (sc (run1x.sl.v1176 d s f1 b3 h)) (sc (run1x.sl.v1181 d s f1 b3 h)) (sc (run1x.sl.v1186 d s f1 b3 h))) acc5.2.1 (ix1 l) = _
    exact clampAdd_apply _ _ l
  · show clampAdd (nrmv (sc (run1x.sl.v1196 d s f1 b3 h)) (sc (run1x.sl.v1201 d s f1 b3 h)) (sc (run1x.sl.v1206 d s f1 b3 h))) acc5.2.2.1 (ix1 l) = _
    exact clampAdd_apply _ _ l
  · show clampAdd (nrmv (sc (run1x.sl.v1216 d s f1 b3 h)) (sc (run1x.sl.v1221 d s f1 b3 h)) (sc (run1x.sl.v1226 d s f1 b3 h))) acc5.2.2.2.1 (ix1 l) = _
    exact clampAdd_apply _ _ l
  · show clampAdd (nrmv (sc (run1x.sl.v1236 d s f1 b3 h)) (sc (run1x.sl.v1241 d s f1 b3 h)) (sc (run1x.sl.v1246 d s f1 b3 h))) acc5.2.2.2.2.1 (ix1 l) = _
    exact clampAdd_apply _ _ l
  · show clampAdd (nrmv (sc (run1x.sl.v1256 d s f1 b3 h)) (sc (run1x.sl.v1261 d s f1 b3 h)) (sc (run1x.sl.v1266 d s f1 b3 h))) acc5.2.2.2.2.2.1 (ix1 l) = _
    exact clampAdd_apply _ _ l
  · show clampAdd (nrmv (sc (run1x.sl.v1276 d s f1 b3 h)) (sc (run1x.sl.v1281 d s f1 b3 h)) (sc (run1x.sl.v1286 d s f1 b3 h))) acc5.2.2.2.2.2.2.1 (ix1 l) = _
    exact clampAdd_apply _ _ l
  · show clampAdd (nrmv (sc (run1x.sl.v1296 d s f1 b3 h)) (sc (run1x.sl.v1301 d s f1 b3 h)) (sc (run1x.sl.v1306 d s f1 b3 h))) acc5.2.2.2.2.2.2.2 (ix1 l) = _
    exact clampAdd_apply _ _ l

set_option maxHeartbeats 4000000 in
set_option maxRecDepth 100000 in
/-- Group 4: word `512 + 16 J + l` of the run's 1024, over ANY carried minima, is the group's block `J`'s clamped sum at
    lane `l`. -/
theorem W1_read4 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 512 + 16 * J.val + l.val) :
    run1x.sl.dma16 d s f1 b3 b4 h acc2 acc3 acc4 acc5 acc6 acc7 acc8 acc9 j
      = max (nrmv (sc (![(run1x.sl.v1488 d s f1 b3 h), (run1x.sl.v1508 d s f1 b3 h), (run1x.sl.v1528 d s f1 b3 h), (run1x.sl.v1548 d s f1 b3 h), (run1x.sl.v1568 d s f1 b3 h), (run1x.sl.v1588 d s f1 b3 h), (run1x.sl.v1608 d s f1 b3 h), (run1x.sl.v1628 d s f1 b3 h)] J))
            (sc (![(run1x.sl.v1493 d s f1 b3 h), (run1x.sl.v1513 d s f1 b3 h), (run1x.sl.v1533 d s f1 b3 h), (run1x.sl.v1553 d s f1 b3 h), (run1x.sl.v1573 d s f1 b3 h), (run1x.sl.v1593 d s f1 b3 h), (run1x.sl.v1613 d s f1 b3 h), (run1x.sl.v1633 d s f1 b3 h)] J))
            (sc (![(run1x.sl.v1498 d s f1 b3 h), (run1x.sl.v1518 d s f1 b3 h), (run1x.sl.v1538 d s f1 b3 h), (run1x.sl.v1558 d s f1 b3 h), (run1x.sl.v1578 d s f1 b3 h), (run1x.sl.v1598 d s f1 b3 h), (run1x.sl.v1618 d s f1 b3 h), (run1x.sl.v1638 d s f1 b3 h)] J)) (ix1 l)
          + (![acc6.1, acc6.2.1, acc6.2.2.1, acc6.2.2.2.1, acc6.2.2.2.2.1, acc6.2.2.2.2.2.1, acc6.2.2.2.2.2.2.1, acc6.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (View.read_writes_cons_unit_of_not_mem (B4).view b4 _ _ _ _ rfl (0 : Fin 1) (Or.inl (by show (y 0).val < 1008; omega))).trans ?_
  refine (View.read_writes_cons_unit_of_not_mem (B4).view b4 _ _ _ _ rfl (0 : Fin 1) (Or.inl (by show (y 0).val < 992; omega))).trans ?_
  refine (View.read_writes_cons_unit_of_not_mem (B4).view b4 _ _ _ _ rfl (0 : Fin 1) (Or.inl (by show (y 0).val < 976; omega))).trans ?_
  refine (View.read_writes_cons_unit_of_not_mem (B4).view b4 _ _ _ _ rfl (0 : Fin 1) (Or.inl (by show (y 0).val < 960; omega))).trans ?_
  refine (View.read_writes_cons_unit_of_not_mem (B4).view b4 _ _ _ _ rfl (0 : Fin 1) (Or.inl (by show (y 0).val < 944; omega))).trans ?_
  refine (View.read_writes_cons_unit_of_not_mem (B4).view b4 _ _ _ _ rfl (0 : Fin 1) (Or.inl (by show (y 0).val < 928; omega))).trans ?_
  refine (View.read_writes_cons_unit_of_not_mem (B4).view b4 _ _ _ _ rfl (0 : Fin 1) (Or.inl (by show (y 0).val < 912; omega))).trans ?_
  refine (View.read_writes_cons_unit_of_not_mem (B4).view b4 _ _ _ _ rfl (0 : Fin 1) (Or.inl (by show (y 0).val < 896; omega))).trans ?_
  refine (View.read_writes_cons_unit_of_not_mem (B4).view b4 _ _ _ _ rfl (0 : Fin 1) (Or.inl (by show (y 0).val < 880; omega))).trans ?_
  refine (View.read_writes_cons_unit_of_not_mem (B4).view b4 _ _ _ _ rfl (0 : Fin 1) (Or.inl (by show (y 0).val < 864; omega))).trans ?_
  refine (View.read_writes_cons_unit_of_not_mem (B4).view b4 _ _ _ _ rfl (0 : Fin 1) (Or.inl (by show (y 0).val < 848; omega))).trans ?_
  refine (View.read_writes_cons_unit_of_not_mem (B4).view b4 _ _ _ _ rfl (0 : Fin 1) (Or.inl (by show (y 0).val < 832; omega))).trans ?_
  refine (View.read_writes_cons_unit_of_not_mem (B4).view b4 _ _ _ _ rfl (0 : Fin 1) (Or.inl (by show (y 0).val < 816; omega))).trans ?_
  refine (View.read_writes_cons_unit_of_not_mem (B4).view b4 _ _ _ _ rfl (0 : Fin 1) (Or.inl (by show (y 0).val < 800; omega))).trans ?_
  refine (View.read_writes_cons_unit_of_not_mem (B4).view b4 _ _ _ _ rfl (0 : Fin 1) (Or.inl (by show (y 0).val < 784; omega))).trans ?_
  refine (View.read_writes_cons_unit_of_not_mem (B4).view b4 _ _ _ _ rfl (0 : Fin 1) (Or.inl (by show (y 0).val < 768; omega))).trans ?_
  refine (View.read_writes_cons_unit_of_not_mem (B4).view b4 _ _ _ _ rfl (0 : Fin 1) (Or.inl (by show (y 0).val < 752; omega))).trans ?_
  refine (View.read_writes_cons_unit_of_not_mem (B4).view b4 _ _ _ _ rfl (0 : Fin 1) (Or.inl (by show (y 0).val < 736; omega))).trans ?_
  refine (View.read_writes_cons_unit_of_not_mem (B4).view b4 _ _ _ _ rfl (0 : Fin 1) (Or.inl (by show (y 0).val < 720; omega))).trans ?_
  refine (View.read_writes_cons_unit_of_not_mem (B4).view b4 _ _ _ _ rfl (0 : Fin 1) (Or.inl (by show (y 0).val < 704; omega))).trans ?_
  refine (View.read_writes_cons_unit_of_not_mem (B4).view b4 _ _ _ _ rfl (0 : Fin 1) (Or.inl (by show (y 0).val < 688; omega))).trans ?_
  refine (View.read_writes_cons_unit_of_not_mem (B4).view b4 _ _ _ _ rfl (0 : Fin 1) (Or.inl (by show (y 0).val < 672; omega))).trans ?_
  refine (View.read_writes_cons_unit_of_not_mem (B4).view b4 _ _ _ _ rfl (0 : Fin 1) (Or.inl (by show (y 0).val < 656; omega))).trans ?_
  refine (View.read_writes_cons_unit_of_not_mem (B4).view b4 _ _ _ _ rfl (0 : Fin 1) (Or.inl (by show (y 0).val < 640; omega))).trans ?_
  refine (Cert.Proof.ScBridge.read8_4 (B4).view b4 _ _ _ _ _ _ _ _ _ inb_S1024_S16_512 inb_S1024_S16_528 inb_S1024_S16_544 inb_S1024_S16_560 inb_S1024_S16_576 inb_S1024_S16_592 inb_S1024_S16_608 inb_S1024_S16_624 y J l (by omega)).trans ?_
  fin_cases J
  · show clampAdd (nrmv (sc (run1x.sl.v1488 d s f1 b3 h)) (sc (run1x.sl.v1493 d s f1 b3 h)) (sc (run1x.sl.v1498 d s f1 b3 h))) acc6.1 (ix1 l) = _
    exact clampAdd_apply _ _ l
  · show clampAdd (nrmv (sc (run1x.sl.v1508 d s f1 b3 h)) (sc (run1x.sl.v1513 d s f1 b3 h)) (sc (run1x.sl.v1518 d s f1 b3 h))) acc6.2.1 (ix1 l) = _
    exact clampAdd_apply _ _ l
  · show clampAdd (nrmv (sc (run1x.sl.v1528 d s f1 b3 h)) (sc (run1x.sl.v1533 d s f1 b3 h)) (sc (run1x.sl.v1538 d s f1 b3 h))) acc6.2.2.1 (ix1 l) = _
    exact clampAdd_apply _ _ l
  · show clampAdd (nrmv (sc (run1x.sl.v1548 d s f1 b3 h)) (sc (run1x.sl.v1553 d s f1 b3 h)) (sc (run1x.sl.v1558 d s f1 b3 h))) acc6.2.2.2.1 (ix1 l) = _
    exact clampAdd_apply _ _ l
  · show clampAdd (nrmv (sc (run1x.sl.v1568 d s f1 b3 h)) (sc (run1x.sl.v1573 d s f1 b3 h)) (sc (run1x.sl.v1578 d s f1 b3 h))) acc6.2.2.2.2.1 (ix1 l) = _
    exact clampAdd_apply _ _ l
  · show clampAdd (nrmv (sc (run1x.sl.v1588 d s f1 b3 h)) (sc (run1x.sl.v1593 d s f1 b3 h)) (sc (run1x.sl.v1598 d s f1 b3 h))) acc6.2.2.2.2.2.1 (ix1 l) = _
    exact clampAdd_apply _ _ l
  · show clampAdd (nrmv (sc (run1x.sl.v1608 d s f1 b3 h)) (sc (run1x.sl.v1613 d s f1 b3 h)) (sc (run1x.sl.v1618 d s f1 b3 h))) acc6.2.2.2.2.2.2.1 (ix1 l) = _
    exact clampAdd_apply _ _ l
  · show clampAdd (nrmv (sc (run1x.sl.v1628 d s f1 b3 h)) (sc (run1x.sl.v1633 d s f1 b3 h)) (sc (run1x.sl.v1638 d s f1 b3 h))) acc6.2.2.2.2.2.2.2 (ix1 l) = _
    exact clampAdd_apply _ _ l

set_option maxHeartbeats 4000000 in
set_option maxRecDepth 100000 in
/-- Group 5: word `640 + 16 J + l` of the run's 1024, over ANY carried minima, is the group's block `J`'s clamped sum at
    lane `l`. -/
theorem W1_read5 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 640 + 16 * J.val + l.val) :
    run1x.sl.dma16 d s f1 b3 b4 h acc2 acc3 acc4 acc5 acc6 acc7 acc8 acc9 j
      = max (nrmv (sc (![(run1x.sl.v1820 d s f1 b3 h), (run1x.sl.v1840 d s f1 b3 h), (run1x.sl.v1860 d s f1 b3 h), (run1x.sl.v1880 d s f1 b3 h), (run1x.sl.v1900 d s f1 b3 h), (run1x.sl.v1920 d s f1 b3 h), (run1x.sl.v1940 d s f1 b3 h), (run1x.sl.v1960 d s f1 b3 h)] J))
            (sc (![(run1x.sl.v1825 d s f1 b3 h), (run1x.sl.v1845 d s f1 b3 h), (run1x.sl.v1865 d s f1 b3 h), (run1x.sl.v1885 d s f1 b3 h), (run1x.sl.v1905 d s f1 b3 h), (run1x.sl.v1925 d s f1 b3 h), (run1x.sl.v1945 d s f1 b3 h), (run1x.sl.v1965 d s f1 b3 h)] J))
            (sc (![(run1x.sl.v1830 d s f1 b3 h), (run1x.sl.v1850 d s f1 b3 h), (run1x.sl.v1870 d s f1 b3 h), (run1x.sl.v1890 d s f1 b3 h), (run1x.sl.v1910 d s f1 b3 h), (run1x.sl.v1930 d s f1 b3 h), (run1x.sl.v1950 d s f1 b3 h), (run1x.sl.v1970 d s f1 b3 h)] J)) (ix1 l)
          + (![acc7.1, acc7.2.1, acc7.2.2.1, acc7.2.2.2.1, acc7.2.2.2.2.1, acc7.2.2.2.2.2.1, acc7.2.2.2.2.2.2.1, acc7.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (View.read_writes_cons_unit_of_not_mem (B4).view b4 _ _ _ _ rfl (0 : Fin 1) (Or.inl (by show (y 0).val < 1008; omega))).trans ?_
  refine (View.read_writes_cons_unit_of_not_mem (B4).view b4 _ _ _ _ rfl (0 : Fin 1) (Or.inl (by show (y 0).val < 992; omega))).trans ?_
  refine (View.read_writes_cons_unit_of_not_mem (B4).view b4 _ _ _ _ rfl (0 : Fin 1) (Or.inl (by show (y 0).val < 976; omega))).trans ?_
  refine (View.read_writes_cons_unit_of_not_mem (B4).view b4 _ _ _ _ rfl (0 : Fin 1) (Or.inl (by show (y 0).val < 960; omega))).trans ?_
  refine (View.read_writes_cons_unit_of_not_mem (B4).view b4 _ _ _ _ rfl (0 : Fin 1) (Or.inl (by show (y 0).val < 944; omega))).trans ?_
  refine (View.read_writes_cons_unit_of_not_mem (B4).view b4 _ _ _ _ rfl (0 : Fin 1) (Or.inl (by show (y 0).val < 928; omega))).trans ?_
  refine (View.read_writes_cons_unit_of_not_mem (B4).view b4 _ _ _ _ rfl (0 : Fin 1) (Or.inl (by show (y 0).val < 912; omega))).trans ?_
  refine (View.read_writes_cons_unit_of_not_mem (B4).view b4 _ _ _ _ rfl (0 : Fin 1) (Or.inl (by show (y 0).val < 896; omega))).trans ?_
  refine (View.read_writes_cons_unit_of_not_mem (B4).view b4 _ _ _ _ rfl (0 : Fin 1) (Or.inl (by show (y 0).val < 880; omega))).trans ?_
  refine (View.read_writes_cons_unit_of_not_mem (B4).view b4 _ _ _ _ rfl (0 : Fin 1) (Or.inl (by show (y 0).val < 864; omega))).trans ?_
  refine (View.read_writes_cons_unit_of_not_mem (B4).view b4 _ _ _ _ rfl (0 : Fin 1) (Or.inl (by show (y 0).val < 848; omega))).trans ?_
  refine (View.read_writes_cons_unit_of_not_mem (B4).view b4 _ _ _ _ rfl (0 : Fin 1) (Or.inl (by show (y 0).val < 832; omega))).trans ?_
  refine (View.read_writes_cons_unit_of_not_mem (B4).view b4 _ _ _ _ rfl (0 : Fin 1) (Or.inl (by show (y 0).val < 816; omega))).trans ?_
  refine (View.read_writes_cons_unit_of_not_mem (B4).view b4 _ _ _ _ rfl (0 : Fin 1) (Or.inl (by show (y 0).val < 800; omega))).trans ?_
  refine (View.read_writes_cons_unit_of_not_mem (B4).view b4 _ _ _ _ rfl (0 : Fin 1) (Or.inl (by show (y 0).val < 784; omega))).trans ?_
  refine (View.read_writes_cons_unit_of_not_mem (B4).view b4 _ _ _ _ rfl (0 : Fin 1) (Or.inl (by show (y 0).val < 768; omega))).trans ?_
  refine (Cert.Proof.ScBridge.read8_5 (B4).view b4 _ _ _ _ _ _ _ _ _ inb_S1024_S16_640 inb_S1024_S16_656 inb_S1024_S16_672 inb_S1024_S16_688 inb_S1024_S16_704 inb_S1024_S16_720 inb_S1024_S16_736 inb_S1024_S16_752 y J l (by omega)).trans ?_
  fin_cases J
  · show clampAdd (nrmv (sc (run1x.sl.v1820 d s f1 b3 h)) (sc (run1x.sl.v1825 d s f1 b3 h)) (sc (run1x.sl.v1830 d s f1 b3 h))) acc7.1 (ix1 l) = _
    exact clampAdd_apply _ _ l
  · show clampAdd (nrmv (sc (run1x.sl.v1840 d s f1 b3 h)) (sc (run1x.sl.v1845 d s f1 b3 h)) (sc (run1x.sl.v1850 d s f1 b3 h))) acc7.2.1 (ix1 l) = _
    exact clampAdd_apply _ _ l
  · show clampAdd (nrmv (sc (run1x.sl.v1860 d s f1 b3 h)) (sc (run1x.sl.v1865 d s f1 b3 h)) (sc (run1x.sl.v1870 d s f1 b3 h))) acc7.2.2.1 (ix1 l) = _
    exact clampAdd_apply _ _ l
  · show clampAdd (nrmv (sc (run1x.sl.v1880 d s f1 b3 h)) (sc (run1x.sl.v1885 d s f1 b3 h)) (sc (run1x.sl.v1890 d s f1 b3 h))) acc7.2.2.2.1 (ix1 l) = _
    exact clampAdd_apply _ _ l
  · show clampAdd (nrmv (sc (run1x.sl.v1900 d s f1 b3 h)) (sc (run1x.sl.v1905 d s f1 b3 h)) (sc (run1x.sl.v1910 d s f1 b3 h))) acc7.2.2.2.2.1 (ix1 l) = _
    exact clampAdd_apply _ _ l
  · show clampAdd (nrmv (sc (run1x.sl.v1920 d s f1 b3 h)) (sc (run1x.sl.v1925 d s f1 b3 h)) (sc (run1x.sl.v1930 d s f1 b3 h))) acc7.2.2.2.2.2.1 (ix1 l) = _
    exact clampAdd_apply _ _ l
  · show clampAdd (nrmv (sc (run1x.sl.v1940 d s f1 b3 h)) (sc (run1x.sl.v1945 d s f1 b3 h)) (sc (run1x.sl.v1950 d s f1 b3 h))) acc7.2.2.2.2.2.2.1 (ix1 l) = _
    exact clampAdd_apply _ _ l
  · show clampAdd (nrmv (sc (run1x.sl.v1960 d s f1 b3 h)) (sc (run1x.sl.v1965 d s f1 b3 h)) (sc (run1x.sl.v1970 d s f1 b3 h))) acc7.2.2.2.2.2.2.2 (ix1 l) = _
    exact clampAdd_apply _ _ l

set_option maxHeartbeats 4000000 in
set_option maxRecDepth 100000 in
/-- Group 6: word `768 + 16 J + l` of the run's 1024, over ANY carried minima, is the group's block `J`'s clamped sum at
    lane `l`. -/
theorem W1_read6 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 768 + 16 * J.val + l.val) :
    run1x.sl.dma16 d s f1 b3 b4 h acc2 acc3 acc4 acc5 acc6 acc7 acc8 acc9 j
      = max (nrmv (sc (![(run1x.sl.v2152 d s f1 b3 h), (run1x.sl.v2172 d s f1 b3 h), (run1x.sl.v2192 d s f1 b3 h), (run1x.sl.v2212 d s f1 b3 h), (run1x.sl.v2232 d s f1 b3 h), (run1x.sl.v2252 d s f1 b3 h), (run1x.sl.v2272 d s f1 b3 h), (run1x.sl.v2292 d s f1 b3 h)] J))
            (sc (![(run1x.sl.v2157 d s f1 b3 h), (run1x.sl.v2177 d s f1 b3 h), (run1x.sl.v2197 d s f1 b3 h), (run1x.sl.v2217 d s f1 b3 h), (run1x.sl.v2237 d s f1 b3 h), (run1x.sl.v2257 d s f1 b3 h), (run1x.sl.v2277 d s f1 b3 h), (run1x.sl.v2297 d s f1 b3 h)] J))
            (sc (![(run1x.sl.v2162 d s f1 b3 h), (run1x.sl.v2182 d s f1 b3 h), (run1x.sl.v2202 d s f1 b3 h), (run1x.sl.v2222 d s f1 b3 h), (run1x.sl.v2242 d s f1 b3 h), (run1x.sl.v2262 d s f1 b3 h), (run1x.sl.v2282 d s f1 b3 h), (run1x.sl.v2302 d s f1 b3 h)] J)) (ix1 l)
          + (![acc8.1, acc8.2.1, acc8.2.2.1, acc8.2.2.2.1, acc8.2.2.2.2.1, acc8.2.2.2.2.2.1, acc8.2.2.2.2.2.2.1, acc8.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (View.read_writes_cons_unit_of_not_mem (B4).view b4 _ _ _ _ rfl (0 : Fin 1) (Or.inl (by show (y 0).val < 1008; omega))).trans ?_
  refine (View.read_writes_cons_unit_of_not_mem (B4).view b4 _ _ _ _ rfl (0 : Fin 1) (Or.inl (by show (y 0).val < 992; omega))).trans ?_
  refine (View.read_writes_cons_unit_of_not_mem (B4).view b4 _ _ _ _ rfl (0 : Fin 1) (Or.inl (by show (y 0).val < 976; omega))).trans ?_
  refine (View.read_writes_cons_unit_of_not_mem (B4).view b4 _ _ _ _ rfl (0 : Fin 1) (Or.inl (by show (y 0).val < 960; omega))).trans ?_
  refine (View.read_writes_cons_unit_of_not_mem (B4).view b4 _ _ _ _ rfl (0 : Fin 1) (Or.inl (by show (y 0).val < 944; omega))).trans ?_
  refine (View.read_writes_cons_unit_of_not_mem (B4).view b4 _ _ _ _ rfl (0 : Fin 1) (Or.inl (by show (y 0).val < 928; omega))).trans ?_
  refine (View.read_writes_cons_unit_of_not_mem (B4).view b4 _ _ _ _ rfl (0 : Fin 1) (Or.inl (by show (y 0).val < 912; omega))).trans ?_
  refine (View.read_writes_cons_unit_of_not_mem (B4).view b4 _ _ _ _ rfl (0 : Fin 1) (Or.inl (by show (y 0).val < 896; omega))).trans ?_
  refine (Cert.Proof.ScBridge.read8_6 (B4).view b4 _ _ _ _ _ _ _ _ _ inb_S1024_S16_768 inb_S1024_S16_784 inb_S1024_S16_800 inb_S1024_S16_816 inb_S1024_S16_832 inb_S1024_S16_848 inb_S1024_S16_864 inb_S1024_S16_880 y J l (by omega)).trans ?_
  fin_cases J
  · show clampAdd (nrmv (sc (run1x.sl.v2152 d s f1 b3 h)) (sc (run1x.sl.v2157 d s f1 b3 h)) (sc (run1x.sl.v2162 d s f1 b3 h))) acc8.1 (ix1 l) = _
    exact clampAdd_apply _ _ l
  · show clampAdd (nrmv (sc (run1x.sl.v2172 d s f1 b3 h)) (sc (run1x.sl.v2177 d s f1 b3 h)) (sc (run1x.sl.v2182 d s f1 b3 h))) acc8.2.1 (ix1 l) = _
    exact clampAdd_apply _ _ l
  · show clampAdd (nrmv (sc (run1x.sl.v2192 d s f1 b3 h)) (sc (run1x.sl.v2197 d s f1 b3 h)) (sc (run1x.sl.v2202 d s f1 b3 h))) acc8.2.2.1 (ix1 l) = _
    exact clampAdd_apply _ _ l
  · show clampAdd (nrmv (sc (run1x.sl.v2212 d s f1 b3 h)) (sc (run1x.sl.v2217 d s f1 b3 h)) (sc (run1x.sl.v2222 d s f1 b3 h))) acc8.2.2.2.1 (ix1 l) = _
    exact clampAdd_apply _ _ l
  · show clampAdd (nrmv (sc (run1x.sl.v2232 d s f1 b3 h)) (sc (run1x.sl.v2237 d s f1 b3 h)) (sc (run1x.sl.v2242 d s f1 b3 h))) acc8.2.2.2.2.1 (ix1 l) = _
    exact clampAdd_apply _ _ l
  · show clampAdd (nrmv (sc (run1x.sl.v2252 d s f1 b3 h)) (sc (run1x.sl.v2257 d s f1 b3 h)) (sc (run1x.sl.v2262 d s f1 b3 h))) acc8.2.2.2.2.2.1 (ix1 l) = _
    exact clampAdd_apply _ _ l
  · show clampAdd (nrmv (sc (run1x.sl.v2272 d s f1 b3 h)) (sc (run1x.sl.v2277 d s f1 b3 h)) (sc (run1x.sl.v2282 d s f1 b3 h))) acc8.2.2.2.2.2.2.1 (ix1 l) = _
    exact clampAdd_apply _ _ l
  · show clampAdd (nrmv (sc (run1x.sl.v2292 d s f1 b3 h)) (sc (run1x.sl.v2297 d s f1 b3 h)) (sc (run1x.sl.v2302 d s f1 b3 h))) acc8.2.2.2.2.2.2.2 (ix1 l) = _
    exact clampAdd_apply _ _ l

set_option maxHeartbeats 4000000 in
set_option maxRecDepth 100000 in
/-- Group 7: word `896 + 16 J + l` of the run's 1024, over ANY carried minima, is the group's block `J`'s clamped sum at
    lane `l`. -/
theorem W1_read7 (s : Fin (grid0.bound 1)) (f1 : Buf (Elt Ideal) (l1 d))
    (b3 : Buf (Elt Ideal) ((thr d (L1 s)).loc cc0_scratch3)) (b4 : Buf (Elt Ideal) ((thr d (L1 s)).loc cc0_scratch4))
    (h : k0_cond2 (L1 s) = 1#1) (acc2 acc3 acc4 acc5 acc6 acc7 acc8 acc9 : Acc Ideal)
    (j : S1024.Idx) (J : Fin 8) (l : Fin 16) (hj : (j 0).val = 896 + 16 * J.val + l.val) :
    run1x.sl.dma16 d s f1 b3 b4 h acc2 acc3 acc4 acc5 acc6 acc7 acc8 acc9 j
      = max (nrmv (sc (![(run1x.sl.v2484 d s f1 b3 h), (run1x.sl.v2504 d s f1 b3 h), (run1x.sl.v2524 d s f1 b3 h), (run1x.sl.v2544 d s f1 b3 h), (run1x.sl.v2564 d s f1 b3 h), (run1x.sl.v2584 d s f1 b3 h), (run1x.sl.v2604 d s f1 b3 h), (run1x.sl.v2624 d s f1 b3 h)] J))
            (sc (![(run1x.sl.v2489 d s f1 b3 h), (run1x.sl.v2509 d s f1 b3 h), (run1x.sl.v2529 d s f1 b3 h), (run1x.sl.v2549 d s f1 b3 h), (run1x.sl.v2569 d s f1 b3 h), (run1x.sl.v2589 d s f1 b3 h), (run1x.sl.v2609 d s f1 b3 h), (run1x.sl.v2629 d s f1 b3 h)] J))
            (sc (![(run1x.sl.v2494 d s f1 b3 h), (run1x.sl.v2514 d s f1 b3 h), (run1x.sl.v2534 d s f1 b3 h), (run1x.sl.v2554 d s f1 b3 h), (run1x.sl.v2574 d s f1 b3 h), (run1x.sl.v2594 d s f1 b3 h), (run1x.sl.v2614 d s f1 b3 h), (run1x.sl.v2634 d s f1 b3 h)] J)) (ix1 l)
          + (![acc9.1, acc9.2.1, acc9.2.2.1, acc9.2.2.2.1, acc9.2.2.2.2.1, acc9.2.2.2.2.2.1, acc9.2.2.2.2.2.2.1, acc9.2.2.2.2.2.2.2] J) (ix1 l)) 0 := by
  have hJ := J.isLt
  have hl := l.isLt
  delta run1x.sl.dma16 run1x.sl.HB4_13 run1x.sl.HB4_16 run1x.sl.HB4_17 run1x.sl.HB4_24 run1x.sl.HB4_27 run1x.sl.HB4_3 run1x.sl.HB4_32 run1x.sl.HB4_38 run1x.sl.HB4_40 run1x.sl.HB4_42 run1x.sl.HB4_48 run1x.sl.HB4_52 run1x.sl.HB4_56 run1x.sl.HB4_64 run1x.sl.HB4_8
  obtain ⟨y, hyd, hy⟩ : ∃ y : S1024.Idx, y = (Rect.unit (s := S1024) ![0] S1024.size inb_S1024_S1024_0).emb j ∧ (y 0).val = (j 0).val :=
    ⟨_, rfl, by rw [Rect.emb_apply]; show 0 + 1 * (j 0).val = (j 0).val; omega⟩
  show (B4).view.read (Elt Ideal) _ ((Rect.unit (s := S1024) ![0] S1024.size inb_S1024_S1024_0).emb j) = _
  rw [← hyd]
  refine (Cert.Proof.ScBridge.read8_7 (B4).view b4 _ _ _ _ _ _ _ _ _ inb_S1024_S16_896 inb_S1024_S16_912 inb_S1024_S16_928 inb_S1024_S16_944 inb_S1024_S16_960 inb_S1024_S16_976 inb_S1024_S16_992 inb_S1024_S16_1008 y J l (by omega)).trans ?_
  fin_cases J
  · show clampAdd (nrmv (sc (run1x.sl.v2484 d s f1 b3 h)) (sc (run1x.sl.v2489 d s f1 b3 h)) (sc (run1x.sl.v2494 d s f1 b3 h))) acc9.1 (ix1 l) = _
    exact clampAdd_apply _ _ l
  · show clampAdd (nrmv (sc (run1x.sl.v2504 d s f1 b3 h)) (sc (run1x.sl.v2509 d s f1 b3 h)) (sc (run1x.sl.v2514 d s f1 b3 h))) acc9.2.1 (ix1 l) = _
    exact clampAdd_apply _ _ l
  · show clampAdd (nrmv (sc (run1x.sl.v2524 d s f1 b3 h)) (sc (run1x.sl.v2529 d s f1 b3 h)) (sc (run1x.sl.v2534 d s f1 b3 h))) acc9.2.2.1 (ix1 l) = _
    exact clampAdd_apply _ _ l
  · show clampAdd (nrmv (sc (run1x.sl.v2544 d s f1 b3 h)) (sc (run1x.sl.v2549 d s f1 b3 h)) (sc (run1x.sl.v2554 d s f1 b3 h))) acc9.2.2.2.1 (ix1 l) = _
    exact clampAdd_apply _ _ l
  · show clampAdd (nrmv (sc (run1x.sl.v2564 d s f1 b3 h)) (sc (run1x.sl.v2569 d s f1 b3 h)) (sc (run1x.sl.v2574 d s f1 b3 h))) acc9.2.2.2.2.1 (ix1 l) = _
    exact clampAdd_apply _ _ l
  · show clampAdd (nrmv (sc (run1x.sl.v2584 d s f1 b3 h)) (sc (run1x.sl.v2589 d s f1 b3 h)) (sc (run1x.sl.v2594 d s f1 b3 h))) acc9.2.2.2.2.2.1 (ix1 l) = _
    exact clampAdd_apply _ _ l
  · show clampAdd (nrmv (sc (run1x.sl.v2604 d s f1 b3 h)) (sc (run1x.sl.v2609 d s f1 b3 h)) (sc (run1x.sl.v2614 d s f1 b3 h))) acc9.2.2.2.2.2.2.1 (ix1 l) = _
    exact clampAdd_apply _ _ l
  · show clampAdd (nrmv (sc (run1x.sl.v2624 d s f1 b3 h)) (sc (run1x.sl.v2629 d s f1 b3 h)) (sc (run1x.sl.v2634 d s f1 b3 h))) acc9.2.2.2.2.2.2.2 (ix1 l) = _
    exact clampAdd_apply _ _ l

end Cert.Proof.ScI

end
-- ==== Proof.ScMath1_2.lean ====
import proofs.«209750_g45337674776763_cont_8to1c4_158_37_alg».proof.Proof.ScMath4
import proofs.«209750_g45337674776763_cont_8to1c4_158_37_alg».proof.Proof.ScVal1_2
/-!
  Scan loop 1 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips2_eq : k0_t2_loop.trips = 32 := by decide

theorem chunk2_lt (k : Fin k0_t2_loop.trips) (i : Fin 16) : 16 * k.val + i.val < 512 := by
  have h1 : k.val < 32 := lt_of_lt_of_eq k.isLt trips2_eq
  have h2 := i.isLt
  omega

section Generic
variable {F : FTy → Type} [FloatOps F]
/-- Coordinate `a` of the chunk trip `k` loads, at lane `i`: the strip buffer at row `a`, column `16 k + i`. -/
theorem ldv2_apply (L : grid0.Coords) (k0_h2 : k0_cond2 L = 1#1) (k : Fin k0_t2_loop.trips)
    (c : Buf (Elt F) ((B0).view.loc (thr d L))) (a : Fin 3) (i : Fin 16) :
    ldv2 d L k0_h2 k c a (ix1 i) = c (ix2 a (⟨16 * k.val + i.val, chunk2_lt k i⟩ : Fin 512)) := by
  match a with
  | 0 =>
    show shapeCast S16 ((B0).view.readAt (Elt F) (Rect.unit (s := S3x512) (k0_off14 k) S1x16.size (k0_off14_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off14_eq k]
    | ⟨1, _⟩ => simp [LoadRect.idx_apply, k0_off14_eq k]
  | 1 =>
    show shapeCast S16 ((B0).view.readAt (Elt F) (Rect.unit (s := S3x512) (k0_off15 k) S1x16.size (k0_off15_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off15_eq k]
    | ⟨1, _⟩ => simp [LoadRect.idx_apply, k0_off15_eq k]
  | 2 =>
    show shapeCast S16 ((B0).view.readAt (Elt F) (Rect.unit (s := S3x512) (k0_off16 k) S1x16.size (k0_off16_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off16_eq k]
    | ⟨1, _⟩ => simp [LoadRect.idx_apply, k0_off16_eq k]
end Generic

/-- One trip's chunk against a block of rows, at a lane: the sixteen candidates `16 k + i`. -/
theorem trip_chunk2_apply (L : grid0.Coords) (k0_h2 : k0_cond2 L = 1#1) (rx ry rz cur : FVec Ideal S16 .f32)
    (k : Fin k0_t2_loop.trips) (c0 c1 : Buf (Elt Ideal) ((B0).view.loc (thr d L))) (l : S16.Idx) :
    chunk rx ry rz cur (ldv2 d L k0_h2 k c0 0) (ldv2 d L k0_h2 k c0 1) (ldv2 d L k0_h2 k c0 2)
        (nrmv (ldv2 d L k0_h2 k c1 0) (ldv2 d L k0_h2 k c1 1) (ldv2 d L k0_h2 k c1 2)) l
      = (Finset.univ : Finset (Fin 16)).fold min (cur l) (fun i => termS d L rx ry rz c0 c1 l ⟨16 * k.val + i.val, chunk2_lt k i⟩) := by
  rw [chunk_apply]
  simp only [nrmv_apply, ldv2_apply, termS, rdS]

/-- A block's carried minimum before trip `K`, at a lane. -/
theorem block_iter2 (L : grid0.Coords) (k0_h2 : k0_cond2 L = 1#1) (v41 : FVec Ideal S16 .f32) (v46 : FVec Ideal S16 .f32) (v51 : FVec Ideal S16 .f32) (v56 : FVec Ideal S16 .f32) (v61 : FVec Ideal S16 .f32) (v66 : FVec Ideal S16 .f32) (v71 : FVec Ideal S16 .f32) (v76 : FVec Ideal S16 .f32) (v81 : FVec Ideal S16 .f32) (v86 : FVec Ideal S16 .f32) (v91 : FVec Ideal S16 .f32) (v96 : FVec Ideal S16 .f32) (v101 : FVec Ideal S16 .f32) (v106 : FVec Ideal S16 .f32) (v111 : FVec Ideal S16 .f32) (v116 : FVec Ideal S16 .f32) (v121 : FVec Ideal S16 .f32) (v126 : FVec Ideal S16 .f32) (v131 : FVec Ideal S16 .f32) (v136 : FVec Ideal S16 .f32) (v141 : FVec Ideal S16 .f32) (v146 : FVec Ideal S16 .f32) (v151 : FVec Ideal S16 .f32) (v156 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t2_loop.trips) (acc : Acc Ideal),
      sel (tripSpec2 d L k0_h2 v41 v46 v51 v56 v61 v66 v71 v76 v81 v86 v91 v96 v101 v106 v111 v116 v121 v126 v131 v136 v141 v146 v151 v156 k c0 c1 acc)
        = chunk rx ry rz (sel acc) (ldv2 d L k0_h2 k c0 0) (ldv2 d L k0_h2 k c0 1) (ldv2 d L k0_h2 k c0 2)
            (nrmv (ldv2 d L k0_h2 k c1 0) (ldv2 d L k0_h2 k c1 1) (ldv2 d L k0_h2 k c1 2)))
    (l : S16.Idx) : ∀ K : ℕ, K ≤ 32 →
      sel (iter2 d L k0_h2 v41 v46 v51 v56 v61 v66 v71 v76 v81 v86 v91 v96 v101 v106 v111 v116 v121 v126 v131 v136 v141 v146 v151 v156 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t2_loop.trips := by rw [trips2_eq]; omega
    have hs := iter2_succ d L k0_h2 v41 v46 v51 v56 v61 v66 v71 v76 v81 v86 v91 v96 v101 v106 v111 v116 v121 v126 v131 v136 v141 v146 v151 v156 c0 c1 init ⟨K, hk⟩
    rw [show K + 1 = (⟨K, hk⟩ : Fin k0_t2_loop.trips).val + 1 from rfl, hs, hsel, trip_chunk2_apply,
      block_iter2 L k0_h2 v41 v46 v51 v56 v61 v66 v71 v76 v81 v86 v91 v96 v101 v106 v111 v116 v121 v126 v131 v136 v141 v146 v151 v156 c0 c1 init rx ry rz sel hsel l K (by omega)]
    exact fold_stepM (termS d L rx ry rz c0 c1 l) (sel init l) K (by omega)

/-- After all 32 trips, from lanes that start at `⊤`: the minimum over every candidate of the strip. -/
theorem block_all2 (L : grid0.Coords) (k0_h2 : k0_cond2 L = 1#1) (v41 : FVec Ideal S16 .f32) (v46 : FVec Ideal S16 .f32) (v51 : FVec Ideal S16 .f32) (v56 : FVec Ideal S16 .f32) (v61 : FVec Ideal S16 .f32) (v66 : FVec Ideal S16 .f32) (v71 : FVec Ideal S16 .f32) (v76 : FVec Ideal S16 .f32) (v81 : FVec Ideal S16 .f32) (v86 : FVec Ideal S16 .f32) (v91 : FVec Ideal S16 .f32) (v96 : FVec Ideal S16 .f32) (v101 : FVec Ideal S16 .f32) (v106 : FVec Ideal S16 .f32) (v111 : FVec Ideal S16 .f32) (v116 : FVec Ideal S16 .f32) (v121 : FVec Ideal S16 .f32) (v126 : FVec Ideal S16 .f32) (v131 : FVec Ideal S16 .f32) (v136 : FVec Ideal S16 .f32) (v141 : FVec Ideal S16 .f32) (v146 : FVec Ideal S16 .f32) (v151 : FVec Ideal S16 .f32) (v156 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t2_loop.trips) (acc : Acc Ideal),
      sel (tripSpec2 d L k0_h2 v41 v46 v51 v56 v61 v66 v71 v76 v81 v86 v91 v96 v101 v106 v111 v116 v121 v126 v131 v136 v141 v146 v151 v156 k c0 c1 acc)
        = chunk rx ry rz (sel acc) (ldv2 d L k0_h2 k c0 0) (ldv2 d L k0_h2 k c0 1) (ldv2 d L k0_h2 k c0 2)
            (nrmv (ldv2 d L k0_h2 k c1 0) (ldv2 d L k0_h2 k c1 1) (ldv2 d L k0_h2 k c1 2)))
    (l : S16.Idx) (htop : sel init l = (⊤ : EReal)) :
    sel (iter2 d L k0_h2 v41 v46 v51 v56 v61 v66 v71 v76 v81 v86 v91 v96 v101 v106 v111 v116 v121 v126 v131 v136 v141 v146 v151 v156 c0 c1 init k0_t2_loop.trips) l
      = (Finset.univ : Finset (Fin 512)).fold min (⊤ : EReal) (termS d L rx ry rz c0 c1 l) := by
  rw [trips2_eq, block_iter2 d L k0_h2 v41 v46 v51 v56 v61 v66 v71 v76 v81 v86 v91 v96 v101 v106 v111 v116 v121 v126 v131 v136 v141 v146 v151 v156 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScX1a.lean ====
import proofs.«209750_g45337674776763_cont_8to1c4_158_37_alg».proof.Proof.ScVal1RunV
import Idealize.ShloMosaic.Lib.Pipeline.Value
import Idealize.ShloMosaic.Lib.ValueIdx
/-!
  The strip copies of the second branch, read at an index: a tile's strip buffers hold its batch's 512 strip points.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

/-- A tile's batch. -/
theorem tileB_lt (s : Fin (grid0.bound 1)) : s.val / 4 < 4 := by
  have h : grid0.bound 1 = 16 := by decide
  have := s.isLt
  omega

/-- The strip copies read the tile's batch, whole. -/
theorem off1_L1 : ∀ s : Fin (grid0.bound 1), k0_off1 (L1 s) = ![s.val / 4, 0, 0] := by decide +kernel

theorem dma0_apply (s : Fin (grid0.bound 1)) (f7 : Buf (Elt F) (l7 d)) (a : Fin 3) (rr : Fin 512) :
    run1x.sl.dma0 d s f7 (ix2 a rr) = f7 (ix3 (⟨s.val / 4, tileB_lt s⟩ : Fin 4) a rr) := by
  unfold run1x.sl.dma0
  simp only [ReadAs.apply]
  have hc : S1x3x512.ShapeCasts S3x512 := by decide
  show shapeCast S3x512 (View.readAt (Elt F) (Memref.whole main_v7_scv : Memref sig .scVector .hbm S4x3x512 .f32).view
      (Rect.unit (s := S4x3x512) (k0_off1 (L1 s)) S1x3x512.size _).toLoadRect f7) hc (ix2 a rr) = _
  rw [shapeCast_apply _ _ (ix2 a rr) (ix3 (0 : Fin 1) a rr) (by rw [Shape.rowMajor_val_three, Shape.rowMajor_val_two]; simp), View.readAt_apply]
  show f7 _ = f7 _
  congr 1
  funext c
  apply Fin.ext
  match c with
  | ⟨0, _⟩ => simp [LoadRect.idx_apply, off1_L1 s]
  | ⟨1, _⟩ => simp [LoadRect.idx_apply, off1_L1 s]
  | ⟨2, _⟩ => simp [LoadRect.idx_apply, off1_L1 s]

/-- The first strip buffer after its copy: the batch's strip, coordinate `a` of point `rr`. -/
theorem C0of_apply (s : Fin (grid0.bound 1)) (f7 : Buf (Elt F) (l7 d)) (b0 : Buf (Elt F) ((thr d (L1 s)).loc cc0_scratch0)) (a : Fin 3) (rr : Fin 512) :
    C0of d s f7 b0 (ix2 a rr) = f7 (ix3 (⟨s.val / 4, tileB_lt s⟩ : Fin 4) a rr) := by
  unfold C0of
  show View.write (Elt F) (View.whole cc0_scratch0) b0 (run1x.sl.dma0 d s f7) Finset.univ (ix2 a rr) = _
  rw [View.write_whole_univ]
  exact dma0_apply d s f7 a rr

theorem dma0_1_apply (s : Fin (grid0.bound 1)) (f8 : Buf (Elt F) (l8 d)) (a : Fin 3) (rr : Fin 512) :
    run1x.sl.dma0_1 d s f8 (ix2 a rr) = f8 (ix3 (⟨s.val / 4, tileB_lt s⟩ : Fin 4) a rr) := by
  unfold run1x.sl.dma0_1
  simp only [ReadAs.apply]
  have hc : S1x3x512.ShapeCasts S3x512 := by decide
  show shapeCast S3x512 (View.readAt (Elt F) (Memref.whole main_v8_scv : Memref sig .scVector .hbm S4x3x512 .f32).view
      (Rect.unit (s := S4x3x512) (k0_off1 (L1 s)) S1x3x512.size _).toLoadRect f8) hc (ix2 a rr) = _
  rw [shapeCast_apply _ _ (ix2 a rr) (ix3 (0 : Fin 1) a rr) (by rw [Shape.rowMajor_val_three, Shape.rowMajor_val_two]; simp), View.readAt_apply]
  show f8 _ = f8 _
  congr 1
  funext c
  apply Fin.ext
  match c with
  | ⟨0, _⟩ => simp [LoadRect.idx_apply, off1_L1 s]
  | ⟨1, _⟩ => simp [LoadRect.idx_apply, off1_L1 s]
  | ⟨2, _⟩ => simp [LoadRect.idx_apply, off1_L1 s]

/-- The second strip buffer after its copy. -/
theorem C1of_apply (s : Fin (grid0.bound 1)) (f8 : Buf (Elt F) (l8 d)) (b1 : Buf (Elt F) ((thr d (L1 s)).loc cc0_scratch1)) (a : Fin 3) (rr : Fin 512) :
    C1of d s f8 b1 (ix2 a rr) = f8 (ix3 (⟨s.val / 4, tileB_lt s⟩ : Fin 4) a rr) := by
  unfold C1of
  show View.write (Elt F) (View.whole cc0_scratch1) b1 (run1x.sl.dma0_1 d s f8) Finset.univ (ix2 a rr) = _
  rw [View.write_whole_univ]
  exact dma0_1_apply d s f8 a rr

end Cert.Proof.ScI

end
-- ==== Proof.ScX1b.lean ====
import proofs.«209750_g45337674776763_cont_8to1c4_158_37_alg».proof.Proof.ScX1a
/-!
  The row buffers of the second branch: the two whole-batch copies read at an index, and a sixteen-lane load of such a
  buffer at a known offset read at a lane.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

local notation "B2" => (Memref.whole Cert.KernelIdeal.cc0_scratch2 : Memref Cert.KernelIdeal.sig Kind.scVector Space.vmem Cert.KernelIdeal.S3x4096 EltTy.f32)

/-- The row copies read the tile's batch, whole. -/
theorem off2_L1 : ∀ s : Fin (grid0.bound 1), k0_off2 (L1 s) = ![s.val / 4, 0, 0] := by decide +kernel

theorem dma0_2_apply (s : Fin (grid0.bound 1)) (f6 : Buf (Elt F) (l6 d)) (a : Fin 3) (mm : Fin 4096) :
    run1x.sl.dma0_2 d s f6 (ix2 a mm) = f6 (ix3 (⟨s.val / 4, tileB_lt s⟩ : Fin 4) a mm) := by
  unfold run1x.sl.dma0_2
  simp only [ReadAs.apply]
  have hc : S1x3x4096.ShapeCasts S3x4096 := by decide
  show shapeCast S3x4096 (View.readAt (Elt F) (Memref.whole main_v6_scv : Memref sig .scVector .hbm S4x3x4096 .f32).view
      (Rect.unit (s := S4x3x4096) (k0_off2 (L1 s)) S1x3x4096.size _).toLoadRect f6) hc (ix2 a mm) = _
  rw [shapeCast_apply _ _ (ix2 a mm) (ix3 (0 : Fin 1) a mm) (by rw [Shape.rowMajor_val_three, Shape.rowMajor_val_two]; simp), View.readAt_apply]
  show f6 _ = f6 _
  congr 1
  funext c
  apply Fin.ext
  match c with
  | ⟨0, _⟩ => simp [LoadRect.idx_apply, off2_L1 s]
  | ⟨1, _⟩ => simp [LoadRect.idx_apply, off2_L1 s]
  | ⟨2, _⟩ => simp [LoadRect.idx_apply, off2_L1 s]

theorem dma0_3_apply (s : Fin (grid0.bound 1)) (f1 : Buf (Elt F) (l1 d)) (a : Fin 3) (mm : Fin 4096) :
    run1x.sl.dma0_3 d s f1 (ix2 a mm) = f1 (ix3 (⟨s.val / 4, tileB_lt s⟩ : Fin 4) a mm) := by
  unfold run1x.sl.dma0_3
  simp only [ReadAs.apply]
  have hc : S1x3x4096.ShapeCasts S3x4096 := by decide
  show shapeCast S3x4096 (View.readAt (Elt F) (Memref.whole main_v1_scv : Memref sig .scVector .hbm S4x3x4096 .f32).view
      (Rect.unit (s := S4x3x4096) (k0_off2 (L1 s)) S1x3x4096.size _).toLoadRect f1) hc (ix2 a mm) = _
  rw [shapeCast_apply _ _ (ix2 a mm) (ix3 (0 : Fin 1) a mm) (by rw [Shape.rowMajor_val_three, Shape.rowMajor_val_two]; simp), View.readAt_apply]
  show f1 _ = f1 _
  congr 1
  funext c
  apply Fin.ext
  match c with
  | ⟨0, _⟩ => simp [LoadRect.idx_apply, off2_L1 s]
  | ⟨1, _⟩ => simp [LoadRect.idx_apply, off2_L1 s]
  | ⟨2, _⟩ => simp [LoadRect.idx_apply, off2_L1 s]

/-- Sixteen lanes loaded at row `a`, column `col` of a `3 × 4096` buffer that holds `w` whole, read at lane `l`. -/
theorem load16_apply (s : Fin (grid0.bound 1)) (b : Buf (Elt F) ((thr d (L1 s)).loc cc0_scratch2)) (w : S3x4096.Idx → Elt F .f32)
    (off : Fin 2 → ℕ) (inb : ∀ x, off x + S1x16.size x ≤ S3x4096.size x) (hc : S1x16.ShapeCasts S16)
    (a : Fin 3) (col : ℕ) (hoff : off = ![a.val, col]) (l : Fin 16) (hcol : col + l.val < 4096) :
    shapeCast S16 (View.readAt (Elt F) (B2).view (Rect.unit (s := S3x4096) off S1x16.size inb).toLoadRect
        (View.write (Elt F) (B2).view b w Finset.univ)) hc (ix1 l)
      = w (ix2 a (⟨col + l.val, hcol⟩ : Fin 4096)) := by
  rw [shapeCast_apply _ _ (ix1 l) (ix2 (0 : Fin 1) l) (by rw [Shape.rowMajor_val_two, Shape.rowMajor_val_one]; simp), View.readAt_apply]
  show View.read (Elt F) (View.whole cc0_scratch2) (View.write (Elt F) (View.whole cc0_scratch2) b w Finset.univ) _ = _
  rw [View.write_whole_univ, View.read_whole]
  congr 1
  funext c
  apply Fin.ext
  subst hoff
  match c with
  | ⟨0, _⟩ => simp [LoadRect.idx_apply]
  | ⟨1, _⟩ => simp [LoadRect.idx_apply]

end Cert.Proof.ScI

end
-- ==== Proof.ScRows1_2.lean ====
import proofs.«209750_g45337674776763_cont_8to1c4_158_37_alg».proof.Proof.ScX1b
/-!
  The twenty-four row vectors of scan 1 of the second branch, read at a lane: coordinate `a` of point
  `1024 (s % 4) + 0 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

/-- A row's column stays inside the batch. -/
theorem rowcol_lt (s : Fin (grid0.bound 1)) (c : ℕ) (hc : c + 16 ≤ 1024) (l : Fin 16) : s.val % 4 * 1024 + c + l.val < 4096 := by
  have := l.isLt; omega

theorem off_2_0_0 : ∀ s : Fin (grid0.bound 1), k0_off11 (L1 s) 0#32 0#32 = ![0, s.val % 4 * 1024 + 0] := by decide +kernel
theorem row_v41_apply (s : Fin (grid0.bound 1)) (f6 : Buf (Elt F) (l6 d)) (b2 : Buf (Elt F) ((thr d (L1 s)).loc cc0_scratch2))
    (h : k0_cond2 (L1 s) = 1#1) (l : Fin 16) :
    run1x.sl.v41 d s f6 b2 h (ix1 l)
      = f6 (ix3 (⟨s.val / 4, tileB_lt s⟩ : Fin 4) (0 : Fin 3) (⟨s.val % 4 * 1024 + 0 + l.val, rowcol_lt s 0 (by decide) l⟩ : Fin 4096)) := by
  unfold run1x.sl.v41 run1x.sl.v40
  exact (load16_apply d s b2 (run1x.sl.dma0_2 d s f6) _ _ _ (0 : Fin 3) (s.val % 4 * 1024 + 0) (off_2_0_0 s) l (rowcol_lt s 0 (by decide) l)).trans
    (dma0_2_apply d s f6 0 _)

theorem off_2_0_1 : ∀ s : Fin (grid0.bound 1), k0_off11 (L1 s) 0#32 16#32 = ![0, s.val % 4 * 1024 + 16] := by decide +kernel
theorem row_v46_apply (s : Fin (grid0.bound 1)) (f6 : Buf (Elt F) (l6 d)) (b2 : Buf (Elt F) ((thr d (L1 s)).loc cc0_scratch2))
    (h : k0_cond2 (L1 s) = 1#1) (l : Fin 16) :
    run1x.sl.v46 d s f6 b2 h (ix1 l)
      = f6 (ix3 (⟨s.val / 4, tileB_lt s⟩ : Fin 4) (0 : Fin 3) (⟨s.val % 4 * 1024 + 16 + l.val, rowcol_lt s 16 (by decide) l⟩ : Fin 4096)) := by
  unfold run1x.sl.v46 run1x.sl.v45
  exact (load16_apply d s b2 (run1x.sl.dma0_2 d s f6) _ _ _ (0 : Fin 3) (s.val % 4 * 1024 + 16) (off_2_0_1 s) l (rowcol_lt s 16 (by decide) l)).trans
    (dma0_2_apply d s f6 0 _)

theorem off_2_0_2 : ∀ s : Fin (grid0.bound 1), k0_off11 (L1 s) 0#32 32#32 = ![0, s.val % 4 * 1024 + 32] := by decide +kernel
theorem row_v51_apply (s : Fin (grid0.bound 1)) (f6 : Buf (Elt F) (l6 d)) (b2 : Buf (Elt F) ((thr d (L1 s)).loc cc0_scratch2))
    (h : k0_cond2 (L1 s) = 1#1) (l : Fin 16) :
    run1x.sl.v51 d s f6 b2 h (ix1 l)
      = f6 (ix3 (⟨s.val / 4, tileB_lt s⟩ : Fin 4) (0 : Fin 3) (⟨s.val % 4 * 1024 + 32 + l.val, rowcol_lt s 32 (by decide) l⟩ : Fin 4096)) := by
  unfold run1x.sl.v51 run1x.sl.v50
  exact (load16_apply d s b2 (run1x.sl.dma0_2 d s f6) _ _ _ (0 : Fin 3) (s.val % 4 * 1024 + 32) (off_2_0_2 s) l (rowcol_lt s 32 (by decide) l)).trans
    (dma0_2_apply d s f6 0 _)

theorem off_2_0_3 : ∀ s : Fin (grid0.bound 1), k0_off11 (L1 s) 0#32 48#32 = ![0, s.val % 4 * 1024 + 48] := by decide +kernel
theorem row_v56_apply (s : Fin (grid0.bound 1)) (f6 : Buf (Elt F) (l6 d)) (b2 : Buf (Elt F) ((thr d (L1 s)).loc cc0_scratch2))
    (h : k0_cond2 (L1 s) = 1#1) (l : Fin 16) :
    run1x.sl.v56 d s f6 b2 h (ix1 l)
      = f6 (ix3 (⟨s.val / 4, tileB_lt s⟩ : Fin 4) (0 : Fin 3) (⟨s.val % 4 * 1024 + 48 + l.val, rowcol_lt s 48 (by decide) l⟩ : Fin 4096)) := by
  unfold run1x.sl.v56 run1x.sl.v55
  exact (load16_apply d s b2 (run1x.sl.dma0_2 d s f6) _ _ _ (0 : Fin 3) (s.val % 4 * 1024 + 48) (off_2_0_3 s) l (rowcol_lt s 48 (by decide) l)).trans
    (dma0_2_apply d s f6 0 _)

theorem off_2_0_4 : ∀ s : Fin (grid0.bound 1), k0_off11 (L1 s) 0#32 64#32 = ![0, s.val % 4 * 1024 + 64] := by decide +kernel
theorem row_v61_apply (s : Fin (grid0.bound 1)) (f6 : Buf (Elt F) (l6 d)) (b2 : Buf (Elt F) ((thr d (L1 s)).loc cc0_scratch2))
    (h : k0_cond2 (L1 s) = 1#1) (l : Fin 16) :
    run1x.sl.v61 d s f6 b2 h (ix1 l)
      = f6 (ix3 (⟨s.val / 4, tileB_lt s⟩ : Fin 4) (0 : Fin 3) (⟨s.val % 4 * 1024 + 64 + l.val, rowcol_lt s 64 (by decide) l⟩ : Fin 4096)) := by
  unfold run1x.sl.v61 run1x.sl.v60
  exact (load16_apply d s b2 (run1x.sl.dma0_2 d s f6) _ _ _ (0 : Fin 3) (s.val % 4 * 1024 + 64) (off_2_0_4 s) l (rowcol_lt s 64 (by decide) l)).trans
    (dma0_2_apply d s f6 0 _)

theorem off_2_0_5 : ∀ s : Fin (grid0.bound 1), k0_off11 (L1 s) 0#32 80#32 = ![0, s.val % 4 * 1024 + 80] := by decide +kernel
theorem row_v66_apply (s : Fin (grid0.bound 1)) (f6 : Buf (Elt F) (l6 d)) (b2 : Buf (Elt F) ((thr d (L1 s)).loc cc0_scratch2))
    (h : k0_cond2 (L1 s) = 1#1) (l : Fin 16) :
    run1x.sl.v66 d s f6 b2 h (ix1 l)
      = f6 (ix3 (⟨s.val / 4, tileB_lt s⟩ : Fin 4) (0 : Fin 3) (⟨s.val % 4 * 1024 + 80 + l.val, rowcol_lt s 80 (by decide) l⟩ : Fin 4096)) := by
  unfold run1x.sl.v66 run1x.sl.v65
  exact (load16_apply d s b2 (run1x.sl.dma0_2 d s f6) _ _ _ (0 : Fin 3) (s.val % 4 * 1024 + 80) (off_2_0_5 s) l (rowcol_lt s 80 (by decide) l)).trans
    (dma0_2_apply d s f6 0 _)

theorem off_2_0_6 : ∀ s : Fin (grid0.bound 1), k0_off11 (L1 s) 0#32 96#32 = ![0, s.val % 4 * 1024 + 96] := by decide +kernel
theorem row_v71_apply (s : Fin (grid0.bound 1)) (f6 : Buf (Elt F) (l6 d)) (b2 : Buf (Elt F) ((thr d (L1 s)).loc cc0_scratch2))
    (h : k0_cond2 (L1 s) = 1#1) (l : Fin 16) :
    run1x.sl.v71 d s f6 b2 h (ix1 l)
      = f6 (ix3 (⟨s.val / 4, tileB_lt s⟩ : Fin 4) (0 : Fin 3) (⟨s.val % 4 * 1024 + 96 + l.val, rowcol_lt s 96 (by decide) l⟩ : Fin 4096)) := by
  unfold run1x.sl.v71 run1x.sl.v70
  exact (load16_apply d s b2 (run1x.sl.dma0_2 d s f6) _ _ _ (0 : Fin 3) (s.val % 4 * 1024 + 96) (off_2_0_6 s) l (rowcol_lt s 96 (by decide) l)).trans
    (dma0_2_apply d s f6 0 _)

theorem off_2_0_7 : ∀ s : Fin (grid0.bound 1), k0_off11 (L1 s) 0#32 112#32 = ![0, s.val % 4 * 1024 + 112] := by decide +kernel
theorem row_v76_apply (s : Fin (grid0.bound 1)) (f6 : Buf (Elt F) (l6 d)) (b2 : Buf (Elt F) ((thr d (L1 s)).loc cc0_scratch2))
    (h : k0_cond2 (L1 s) = 1#1) (l : Fin 16) :
    run1x.sl.v76 d s f6 b2 h (ix1 l)
      = f6 (ix3 (⟨s.val / 4, tileB_lt s⟩ : Fin 4) (0 : Fin 3) (⟨s.val % 4 * 1024 + 112 + l.val, rowcol_lt s 112 (by decide) l⟩ : Fin 4096)) := by
  unfold run1x.sl.v76 run1x.sl.v75
  exact (load16_apply d s b2 (run1x.sl.dma0_2 d s f6) _ _ _ (0 : Fin 3) (s.val % 4 * 1024 + 112) (off_2_0_7 s) l (rowcol_lt s 112 (by decide) l)).trans
    (dma0_2_apply d s f6 0 _)

theorem off_2_1_0 : ∀ s : Fin (grid0.bound 1), k0_off12 (L1 s) 0#32 0#32 = ![1, s.val % 4 * 1024 + 0] := by decide +kernel
theorem row_v81_apply (s : Fin (grid0.bound 1)) (f6 : Buf (Elt F) (l6 d)) (b2 : Buf (Elt F) ((thr d (L1 s)).loc cc0_scratch2))
    (h : k0_cond2 (L1 s) = 1#1) (l : Fin 16) :
    run1x.sl.v81 d s f6 b2 h (ix1 l)
      = f6 (ix3 (⟨s.val / 4, tileB_lt s⟩ : Fin 4) (1 : Fin 3) (⟨s.val % 4 * 1024 + 0 + l.val, rowcol_lt s 0 (by decide) l⟩ : Fin 4096)) := by
  unfold run1x.sl.v81 run1x.sl.v80
  exact (load16_apply d s b2 (run1x.sl.dma0_2 d s f6) _ _ _ (1 : Fin 3) (s.val % 4 * 1024 + 0) (off_2_1_0 s) l (rowcol_lt s 0 (by decide) l)).trans
    (dma0_2_apply d s f6 1 _)

theorem off_2_1_1 : ∀ s : Fin (grid0.bound 1), k0_off12 (L1 s) 0#32 16#32 = ![1, s.val % 4 * 1024 + 16] := by decide +kernel
theorem row_v86_apply (s : Fin (grid0.bound 1)) (f6 : Buf (Elt F) (l6 d)) (b2 : Buf (Elt F) ((thr d (L1 s)).loc cc0_scratch2))
    (h : k0_cond2 (L1 s) = 1#1) (l : Fin 16) :
    run1x.sl.v86 d s f6 b2 h (ix1 l)
      = f6 (ix3 (⟨s.val / 4, tileB_lt s⟩ : Fin 4) (1 : Fin 3) (⟨s.val % 4 * 1024 + 16 + l.val, rowcol_lt s 16 (by decide) l⟩ : Fin 4096)) := by
  unfold run1x.sl.v86 run1x.sl.v85
  exact (load16_apply d s b2 (run1x.sl.dma0_2 d s f6) _ _ _ (1 : Fin 3) (s.val % 4 * 1024 + 16) (off_2_1_1 s) l (rowcol_lt s 16 (by decide) l)).trans
    (dma0_2_apply d s f6 1 _)

theorem off_2_1_2 : ∀ s : Fin (grid0.bound 1), k0_off12 (L1 s) 0#32 32#32 = ![1, s.val % 4 * 1024 + 32] := by decide +kernel
theorem row_v91_apply (s : Fin (grid0.bound 1)) (f6 : Buf (Elt F) (l6 d)) (b2 : Buf (Elt F) ((thr d (L1 s)).loc cc0_scratch2))
    (h : k0_cond2 (L1 s) = 1#1) (l : Fin 16) :
    run1x.sl.v91 d s f6 b2 h (ix1 l)
      = f6 (ix3 (⟨s.val / 4, tileB_lt s⟩ : Fin 4) (1 : Fin 3) (⟨s.val % 4 * 1024 + 32 + l.val, rowcol_lt s 32 (by decide) l⟩ : Fin 4096)) := by
  unfold run1x.sl.v91 run1x.sl.v90
  exact (load16_apply d s b2 (run1x.sl.dma0_2 d s f6) _ _ _ (1 : Fin 3) (s.val % 4 * 1024 + 32) (off_2_1_2 s) l (rowcol_lt s 32 (by decide) l)).trans
    (dma0_2_apply d s f6 1 _)

theorem off_2_1_3 : ∀ s : Fin (grid0.bound 1), k0_off12 (L1 s) 0#32 48#32 = ![1, s.val % 4 * 1024 + 48] := by decide +kernel
theorem row_v96_apply (s : Fin (grid0.bound 1)) (f6 : Buf (Elt F) (l6 d)) (b2 : Buf (Elt F) ((thr d (L1 s)).loc cc0_scratch2))
    (h : k0_cond2 (L1 s) = 1#1) (l : Fin 16) :
    run1x.sl.v96 d s f6 b2 h (ix1 l)
      = f6 (ix3 (⟨s.val / 4, tileB_lt s⟩ : Fin 4) (1 : Fin 3) (⟨s.val % 4 * 1024 + 48 + l.val, rowcol_lt s 48 (by decide) l⟩ : Fin 4096)) := by
  unfold run1x.sl.v96 run1x.sl.v95
  exact (load16_apply d s b2 (run1x.sl.dma0_2 d s f6) _ _ _ (1 : Fin 3) (s.val % 4 * 1024 + 48) (off_2_1_3 s) l (rowcol_lt s 48 (by decide) l)).trans
    (dma0_2_apply d s f6 1 _)

theorem off_2_1_4 : ∀ s : Fin (grid0.bound 1), k0_off12 (L1 s) 0#32 64#32 = ![1, s.val % 4 * 1024 + 64] := by decide +kernel
theorem row_v101_apply (s : Fin (grid0.bound 1)) (f6 : Buf (Elt F) (l6 d)) (b2 : Buf (Elt F) ((thr d (L1 s)).loc cc0_scratch2))
    (h : k0_cond2 (L1 s) = 1#1) (l : Fin 16) :
    run1x.sl.v101 d s f6 b2 h (ix1 l)
      = f6 (ix3 (⟨s.val / 4, tileB_lt s⟩ : Fin 4) (1 : Fin 3) (⟨s.val % 4 * 1024 + 64 + l.val, rowcol_lt s 64 (by decide) l⟩ : Fin 4096)) := by
  unfold run1x.sl.v101 run1x.sl.v100
  exact (load16_apply d s b2 (run1x.sl.dma0_2 d s f6) _ _ _ (1 : Fin 3) (s.val % 4 * 1024 + 64) (off_2_1_4 s) l (rowcol_lt s 64 (by decide) l)).trans
    (dma0_2_apply d s f6 1 _)

theorem off_2_1_5 : ∀ s : Fin (grid0.bound 1), k0_off12 (L1 s) 0#32 80#32 = ![1, s.val % 4 * 1024 + 80] := by decide +kernel
theorem row_v106_apply (s : Fin (grid0.bound 1)) (f6 : Buf (Elt F) (l6 d)) (b2 : Buf (Elt F) ((thr d (L1 s)).loc cc0_scratch2))
    (h : k0_cond2 (L1 s) = 1#1) (l : Fin 16) :
    run1x.sl.v106 d s f6 b2 h (ix1 l)
      = f6 (ix3 (⟨s.val / 4, tileB_lt s⟩ : Fin 4) (1 : Fin 3) (⟨s.val % 4 * 1024 + 80 + l.val, rowcol_lt s 80 (by decide) l⟩ : Fin 4096)) := by
  unfold run1x.sl.v106 run1x.sl.v105
  exact (load16_apply d s b2 (run1x.sl.dma0_2 d s f6) _ _ _ (1 : Fin 3) (s.val % 4 * 1024 + 80) (off_2_1_5 s) l (rowcol_lt s 80 (by decide) l)).trans
    (dma0_2_apply d s f6 1 _)

theorem off_2_1_6 : ∀ s : Fin (grid0.bound 1), k0_off12 (L1 s) 0#32 96#32 = ![1, s.val % 4 * 1024 + 96] := by decide +kernel
theorem row_v111_apply (s : Fin (grid0.bound 1)) (f6 : Buf (Elt F) (l6 d)) (b2 : Buf (Elt F) ((thr d (L1 s)).loc cc0_scratch2))
    (h : k0_cond2 (L1 s) = 1#1) (l : Fin 16) :
    run1x.sl.v111 d s f6 b2 h (ix1 l)
      = f6 (ix3 (⟨s.val / 4, tileB_lt s⟩ : Fin 4) (1 : Fin 3) (⟨s.val % 4 * 1024 + 96 + l.val, rowcol_lt s 96 (by decide) l⟩ : Fin 4096)) := by
  unfold run1x.sl.v111 run1x.sl.v110
  exact (load16_apply d s b2 (run1x.sl.dma0_2 d s f6) _ _ _ (1 : Fin 3) (s.val % 4 * 1024 + 96) (off_2_1_6 s) l (rowcol_lt s 96 (by decide) l)).trans
    (dma0_2_apply d s f6 1 _)

theorem off_2_1_7 : ∀ s : Fin (grid0.bound 1), k0_off12 (L1 s) 0#32 112#32 = ![1, s.val % 4 * 1024 + 112] := by decide +kernel
theorem row_v116_apply (s : Fin (grid0.bound 1)) (f6 : Buf (Elt F) (l6 d)) (b2 : Buf (Elt F) ((thr d (L1 s)).loc cc0_scratch2))
    (h : k0_cond2 (L1 s) = 1#1) (l : Fin 16) :
    run1x.sl.v116 d s f6 b2 h (ix1 l)
      = f6 (ix3 (⟨s.val / 4, tileB_lt s⟩ : Fin 4) (1 : Fin 3) (⟨s.val % 4 * 1024 + 112 + l.val, rowcol_lt s 112 (by decide) l⟩ : Fin 4096)) := by
  unfold run1x.sl.v116 run1x.sl.v115
  exact (load16_apply d s b2 (run1x.sl.dma0_2 d s f6) _ _ _ (1 : Fin 3) (s.val % 4 * 1024 + 112) (off_2_1_7 s) l (rowcol_lt s 112 (by decide) l)).trans
    (dma0_2_apply d s f6 1 _)

theorem off_2_2_0 : ∀ s : Fin (grid0.bound 1), k0_off13 (L1 s) 0#32 0#32 = ![2, s.val % 4 * 1024 + 0] := by decide +kernel
theorem row_v121_apply (s : Fin (grid0.bound 1)) (f6 : Buf (Elt F) (l6 d)) (b2 : Buf (Elt F) ((thr d (L1 s)).loc cc0_scratch2))
    (h : k0_cond2 (L1 s) = 1#1) (l : Fin 16) :
    run1x.sl.v121 d s f6 b2 h (ix1 l)
      = f6 (ix3 (⟨s.val / 4, tileB_lt s⟩ : Fin 4) (2 : Fin 3) (⟨s.val % 4 * 1024 + 0 + l.val, rowcol_lt s 0 (by decide) l⟩ : Fin 4096)) := by
  unfold run1x.sl.v121 run1x.sl.v120
  exact (load16_apply d s b2 (run1x.sl.dma0_2 d s f6) _ _ _ (2 : Fin 3) (s.val % 4 * 1024 + 0) (off_2_2_0 s) l (rowcol_lt s 0 (by decide) l)).trans
    (dma0_2_apply d s f6 2 _)

theorem off_2_2_1 : ∀ s : Fin (grid0.bound 1), k0_off13 (L1 s) 0#32 16#32 = ![2, s.val % 4 * 1024 + 16] := by decide +kernel
theorem row_v126_apply (s : Fin (grid0.bound 1)) (f6 : Buf (Elt F) (l6 d)) (b2 : Buf (Elt F) ((thr d (L1 s)).loc cc0_scratch2))
    (h : k0_cond2 (L1 s) = 1#1) (l : Fin 16) :
    run1x.sl.v126 d s f6 b2 h (ix1 l)
      = f6 (ix3 (⟨s.val / 4, tileB_lt s⟩ : Fin 4) (2 : Fin 3) (⟨s.val % 4 * 1024 + 16 + l.val, rowcol_lt s 16 (by decide) l⟩ : Fin 4096)) := by
  unfold run1x.sl.v126 run1x.sl.v125
  exact (load16_apply d s b2 (run1x.sl.dma0_2 d s f6) _ _ _ (2 : Fin 3) (s.val % 4 * 1024 + 16) (off_2_2_1 s) l (rowcol_lt s 16 (by decide) l)).trans
    (dma0_2_apply d s f6 2 _)

theorem off_2_2_2 : ∀ s : Fin (grid0.bound 1), k0_off13 (L1 s) 0#32 32#32 = ![2, s.val % 4 * 1024 + 32] := by decide +kernel
theorem row_v131_apply (s : Fin (grid0.bound 1)) (f6 : Buf (Elt F) (l6 d)) (b2 : Buf (Elt F) ((thr d (L1 s)).loc cc0_scratch2))
    (h : k0_cond2 (L1 s) = 1#1) (l : Fin 16) :
    run1x.sl.v131 d s f6 b2 h (ix1 l)
      = f6 (ix3 (⟨s.val / 4, tileB_lt s⟩ : Fin 4) (2 : Fin 3) (⟨s.val % 4 * 1024 + 32 + l.val, rowcol_lt s 32 (by decide) l⟩ : Fin 4096)) := by
  unfold run1x.sl.v131 run1x.sl.v130
  exact (load16_apply d s b2 (run1x.sl.dma0_2 d s f6) _ _ _ (2 : Fin 3) (s.val % 4 * 1024 + 32) (off_2_2_2 s) l (rowcol_lt s 32 (by decide) l)).trans
    (dma0_2_apply d s f6 2 _)

theorem off_2_2_3 : ∀ s : Fin (grid0.bound 1), k0_off13 (L1 s) 0#32 48#32 = ![2, s.val % 4 * 1024 + 48] := by decide +kernel
theorem row_v136_apply (s : Fin (grid0.bound 1)) (f6 : Buf (Elt F) (l6 d)) (b2 : Buf (Elt F) ((thr d (L1 s)).loc cc0_scratch2))
    (h : k0_cond2 (L1 s) = 1#1) (l : Fin 16) :
    run1x.sl.v136 d s f6 b2 h (ix1 l)
      = f6 (ix3 (⟨s.val / 4, tileB_lt s⟩ : Fin 4) (2 : Fin 3) (⟨s.val % 4 * 1024 + 48 + l.val, rowcol_lt s 48 (by decide) l⟩ : Fin 4096)) := by
  unfold run1x.sl.v136 run1x.sl.v135
  exact (load16_apply d s b2 (run1x.sl.dma0_2 d s f6) _ _ _ (2 : Fin 3) (s.val % 4 * 1024 + 48) (off_2_2_3 s) l (rowcol_lt s 48 (by decide) l)).trans
    (dma0_2_apply d s f6 2 _)

theorem off_2_2_4 : ∀ s : Fin (grid0.bound 1), k0_off13 (L1 s) 0#32 64#32 = ![2, s.val % 4 * 1024 + 64] := by decide +kernel
theorem row_v141_apply (s : Fin (grid0.bound 1)) (f6 : Buf (Elt F) (l6 d)) (b2 : Buf (Elt F) ((thr d (L1 s)).loc cc0_scratch2))
    (h : k0_cond2 (L1 s) = 1#1) (l : Fin 16) :
    run1x.sl.v141 d s f6 b2 h (ix1 l)
      = f6 (ix3 (⟨s.val / 4, tileB_lt s⟩ : Fin 4) (2 : Fin 3) (⟨s.val % 4 * 1024 + 64 + l.val, rowcol_lt s 64 (by decide) l⟩ : Fin 4096)) := by
  unfold run1x.sl.v141 run1x.sl.v140
  exact (load16_apply d s b2 (run1x.sl.dma0_2 d s f6) _ _ _ (2 : Fin 3) (s.val % 4 * 1024 + 64) (off_2_2_4 s) l (rowcol_lt s 64 (by decide) l)).trans
    (dma0_2_apply d s f6 2 _)

theorem off_2_2_5 : ∀ s : Fin (grid0.bound 1), k0_off13 (L1 s) 0#32 80#32 = ![2, s.val % 4 * 1024 + 80] := by decide +kernel
theorem row_v146_apply (s : Fin (grid0.bound 1)) (f6 : Buf (Elt F) (l6 d)) (b2 : Buf (Elt F) ((thr d (L1 s)).loc cc0_scratch2))
    (h : k0_cond2 (L1 s) = 1#1) (l : Fin 16) :
    run1x.sl.v146 d s f6 b2 h (ix1 l)
      = f6 (ix3 (⟨s.val / 4, tileB_lt s⟩ : Fin 4) (2 : Fin 3) (⟨s.val % 4 * 1024 + 80 + l.val, rowcol_lt s 80 (by decide) l⟩ : Fin 4096)) := by
  unfold run1x.sl.v146 run1x.sl.v145
  exact (load16_apply d s b2 (run1x.sl.dma0_2 d s f6) _ _ _ (2 : Fin 3) (s.val % 4 * 1024 + 80) (off_2_2_5 s) l (rowcol_lt s 80 (by decide) l)).trans
    (dma0_2_apply d s f6 2 _)

theorem off_2_2_6 : ∀ s : Fin (grid0.bound 1), k0_off13 (L1 s) 0#32 96#32 = ![2, s.val % 4 * 1024 + 96] := by decide +kernel
theorem row_v151_apply (s : Fin (grid0.bound 1)) (f6 : Buf (Elt F) (l6 d)) (b2 : Buf (Elt F) ((thr d (L1 s)).loc cc0_scratch2))
    (h : k0_cond2 (L1 s) = 1#1) (l : Fin 16) :
    run1x.sl.v151 d s f6 b2 h (ix1 l)
      = f6 (ix3 (⟨s.val / 4, tileB_lt s⟩ : Fin 4) (2 : Fin 3) (⟨s.val % 4 * 1024 + 96 + l.val, rowcol_lt s 96 (by decide) l⟩ : Fin 4096)) := by
  unfold run1x.sl.v151 run1x.sl.v150
  exact (load16_apply d s b2 (run1x.sl.dma0_2 d s f6) _ _ _ (2 : Fin 3) (s.val % 4 * 1024 + 96) (off_2_2_6 s) l (rowcol_lt s 96 (by decide) l)).trans
    (dma0_2_apply d s f6 2 _)

theorem off_2_2_7 : ∀ s : Fin (grid0.bound 1), k0_off13 (L1 s) 0#32 112#32 = ![2, s.val % 4 * 1024 + 112] := by decide +kernel
theorem row_v156_apply (s : Fin (grid0.bound 1)) (f6 : Buf (Elt F) (l6 d)) (b2 : Buf (Elt F) ((thr d (L1 s)).loc cc0_scratch2))
    (h : k0_cond2 (L1 s) = 1#1) (l : Fin 16) :
    run1x.sl.v156 d s f6 b2 h (ix1 l)
      = f6 (ix3 (⟨s.val / 4, tileB_lt s⟩ : Fin 4) (2 : Fin 3) (⟨s.val % 4 * 1024 + 112 + l.val, rowcol_lt s 112 (by decide) l⟩ : Fin 4096)) := by
  unfold run1x.sl.v156 run1x.sl.v155
  exact (load16_apply d s b2 (run1x.sl.dma0_2 d s f6) _ _ _ (2 : Fin 3) (s.val % 4 * 1024 + 112) (off_2_2_7 s) l (rowcol_lt s 112 (by decide) l)).trans
    (dma0_2_apply d s f6 2 _)

end Cert.Proof.ScI

end
-- ==== Proof.ScNrm1_2.lean ====
import proofs.«209750_g45337674776763_cont_8to1c4_158_37_alg».proof.Proof.ScRows1_2
/-!
  The norm rows of the first group of the second branch, read at a lane: the sixteen-lane loads of the buffer that holds
  the second set's batch (for the row norms), coordinate `a` of point `1024 (s % 4) + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

local notation "B3" => (Memref.whole Cert.KernelIdeal.cc0_scratch3 : Memref Cert.KernelIdeal.sig Kind.scVector Space.vmem Cert.KernelIdeal.S3x4096 EltTy.f32)

/-- Sixteen lanes loaded at row `a`, column `col` of the second `3 × 4096` buffer holding `w` whole, read at lane `l`. -/
theorem load16B3_apply (s : Fin (grid0.bound 1)) (b : Buf (Elt F) ((thr d (L1 s)).loc cc0_scratch3)) (w : S3x4096.Idx → Elt F .f32)
    (off : Fin 2 → ℕ) (inb : ∀ x, off x + S1x16.size x ≤ S3x4096.size x) (hc : S1x16.ShapeCasts S16)
    (a : Fin 3) (col : ℕ) (hoff : off = ![a.val, col]) (l : Fin 16) (hcol : col + l.val < 4096) :
    shapeCast S16 (View.readAt (Elt F) (B3).view (Rect.unit (s := S3x4096) off S1x16.size inb).toLoadRect
        (View.write (Elt F) (B3).view b w Finset.univ)) hc (ix1 l)
      = w (ix2 a (⟨col + l.val, hcol⟩ : Fin 4096)) := by
  rw [shapeCast_apply _ _ (ix1 l) (ix2 (0 : Fin 1) l) (by rw [Shape.rowMajor_val_two, Shape.rowMajor_val_one]; simp), View.readAt_apply]
  show View.read (Elt F) (View.whole cc0_scratch3) (View.write (Elt F) (View.whole cc0_scratch3) b w Finset.univ) _ = _
  rw [View.write_whole_univ, View.read_whole]
  congr 1
  funext c
  apply Fin.ext
  subst hoff
  match c with
  | ⟨0, _⟩ => simp [LoadRect.idx_apply]
  | ⟨1, _⟩ => simp [LoadRect.idx_apply]

theorem nrm_v160_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v160 d s f1 b3 h) shapeCasts_S1x16_S16 (ix1 l)
      = f1 (ix3 (⟨s.val / 4, tileB_lt s⟩ : Fin 4) (0 : Fin 3) (⟨s.val % 4 * 1024 + 0 + l.val, rowcol_lt s 0 (by decide) l⟩ : Fin 4096)) := by
  unfold run1x.sl.v160
  exact (load16B3_apply d s b3 (run1x.sl.dma0_3 d s f1) _ _ _ (0 : Fin 3) (s.val % 4 * 1024 + 0) (off_2_0_0 s) l (rowcol_lt s 0 (by decide) l)).trans
    (dma0_3_apply d s f1 0 _)

theorem nrm_v165_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v165 d s f1 b3 h) shapeCasts_S1x16_S16 (ix1 l)
      = f1 (ix3 (⟨s.val / 4, tileB_lt s⟩ : Fin 4) (1 : Fin 3) (⟨s.val % 4 * 1024 + 0 + l.val, rowcol_lt s 0 (by decide) l⟩ : Fin 4096)) := by
  unfold run1x.sl.v165
  exact (load16B3_apply d s b3 (run1x.sl.dma0_3 d s f1) _ _ _ (1 : Fin 3) (s.val % 4 * 1024 + 0) (off_2_1_0 s) l (rowcol_lt s 0 (by decide) l)).trans
    (dma0_3_apply d s f1 1 _)

theorem nrm_v170_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v170 d s f1 b3 h) shapeCasts_S1x16_S16 (ix1 l)
      = f1 (ix3 (⟨s.val / 4, tileB_lt s⟩ : Fin 4) (2 : Fin 3) (⟨s.val % 4 * 1024 + 0 + l.val, rowcol_lt s 0 (by decide) l⟩ : Fin 4096)) := by
  unfold run1x.sl.v170
  exact (load16B3_apply d s b3 (run1x.sl.dma0_3 d s f1) _ _ _ (2 : Fin 3) (s.val % 4 * 1024 + 0) (off_2_2_0 s) l (rowcol_lt s 0 (by decide) l)).trans
    (dma0_3_apply d s f1 2 _)

theorem nrm_v180_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v180 d s f1 b3 h) shapeCasts_S1x16_S16 (ix1 l)
      = f1 (ix3 (⟨s.val / 4, tileB_lt s⟩ : Fin 4) (0 : Fin 3) (⟨s.val % 4 * 1024 + 16 + l.val, rowcol_lt s 16 (by decide) l⟩ : Fin 4096)) := by
  unfold run1x.sl.v180
  exact (load16B3_apply d s b3 (run1x.sl.dma0_3 d s f1) _ _ _ (0 : Fin 3) (s.val % 4 * 1024 + 16) (off_2_0_1 s) l (rowcol_lt s 16 (by decide) l)).trans
    (dma0_3_apply d s f1 0 _)

theorem nrm_v185_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v185 d s f1 b3 h) shapeCasts_S1x16_S16 (ix1 l)
      = f1 (ix3 (⟨s.val / 4, tileB_lt s⟩ : Fin 4) (1 : Fin 3) (⟨s.val % 4 * 1024 + 16 + l.val, rowcol_lt s 16 (by decide) l⟩ : Fin 4096)) := by
  unfold run1x.sl.v185
  exact (load16B3_apply d s b3 (run1x.sl.dma0_3 d s f1) _ _ _ (1 : Fin 3) (s.val % 4 * 1024 + 16) (off_2_1_1 s) l (rowcol_lt s 16 (by decide) l)).trans
    (dma0_3_apply d s f1 1 _)

theorem nrm_v190_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v190 d s f1 b3 h) shapeCasts_S1x16_S16 (ix1 l)
      = f1 (ix3 (⟨s.val / 4, tileB_lt s⟩ : Fin 4) (2 : Fin 3) (⟨s.val % 4 * 1024 + 16 + l.val, rowcol_lt s 16 (by decide) l⟩ : Fin 4096)) := by
  unfold run1x.sl.v190
  exact (load16B3_apply d s b3 (run1x.sl.dma0_3 d s f1) _ _ _ (2 : Fin 3) (s.val % 4 * 1024 + 16) (off_2_2_1 s) l (rowcol_lt s 16 (by decide) l)).trans
    (dma0_3_apply d s f1 2 _)

theorem nrm_v200_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v200 d s f1 b3 h) shapeCasts_S1x16_S16 (ix1 l)
      = f1 (ix3 (⟨s.val / 4, tileB_lt s⟩ : Fin 4) (0 : Fin 3) (⟨s.val % 4 * 1024 + 32 + l.val, rowcol_lt s 32 (by decide) l⟩ : Fin 4096)) := by
  unfold run1x.sl.v200
  exact (load16B3_apply d s b3 (run1x.sl.dma0_3 d s f1) _ _ _ (0 : Fin 3) (s.val % 4 * 1024 + 32) (off_2_0_2 s) l (rowcol_lt s 32 (by decide) l)).trans
    (dma0_3_apply d s f1 0 _)

theorem nrm_v205_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v205 d s f1 b3 h) shapeCasts_S1x16_S16 (ix1 l)
      = f1 (ix3 (⟨s.val / 4, tileB_lt s⟩ : Fin 4) (1 : Fin 3) (⟨s.val % 4 * 1024 + 32 + l.val, rowcol_lt s 32 (by decide) l⟩ : Fin 4096)) := by
  unfold run1x.sl.v205
  exact (load16B3_apply d s b3 (run1x.sl.dma0_3 d s f1) _ _ _ (1 : Fin 3) (s.val % 4 * 1024 + 32) (off_2_1_2 s) l (rowcol_lt s 32 (by decide) l)).trans
    (dma0_3_apply d s f1 1 _)

theorem nrm_v210_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v210 d s f1 b3 h) shapeCasts_S1x16_S16 (ix1 l)
      = f1 (ix3 (⟨s.val / 4, tileB_lt s⟩ : Fin 4) (2 : Fin 3) (⟨s.val % 4 * 1024 + 32 + l.val, rowcol_lt s 32 (by decide) l⟩ : Fin 4096)) := by
  unfold run1x.sl.v210
  exact (load16B3_apply d s b3 (run1x.sl.dma0_3 d s f1) _ _ _ (2 : Fin 3) (s.val % 4 * 1024 + 32) (off_2_2_2 s) l (rowcol_lt s 32 (by decide) l)).trans
    (dma0_3_apply d s f1 2 _)

theorem nrm_v220_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v220 d s f1 b3 h) shapeCasts_S1x16_S16 (ix1 l)
      = f1 (ix3 (⟨s.val / 4, tileB_lt s⟩ : Fin 4) (0 : Fin 3) (⟨s.val % 4 * 1024 + 48 + l.val, rowcol_lt s 48 (by decide) l⟩ : Fin 4096)) := by
  unfold run1x.sl.v220
  exact (load16B3_apply d s b3 (run1x.sl.dma0_3 d s f1) _ _ _ (0 : Fin 3) (s.val % 4 * 1024 + 48) (off_2_0_3 s) l (rowcol_lt s 48 (by decide) l)).trans
    (dma0_3_apply d s f1 0 _)

theorem nrm_v225_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v225 d s f1 b3 h) shapeCasts_S1x16_S16 (ix1 l)
      = f1 (ix3 (⟨s.val / 4, tileB_lt s⟩ : Fin 4) (1 : Fin 3) (⟨s.val % 4 * 1024 + 48 + l.val, rowcol_lt s 48 (by decide) l⟩ : Fin 4096)) := by
  unfold run1x.sl.v225
  exact (load16B3_apply d s b3 (run1x.sl.dma0_3 d s f1) _ _ _ (1 : Fin 3) (s.val % 4 * 1024 + 48) (off_2_1_3 s) l (rowcol_lt s 48 (by decide) l)).trans
    (dma0_3_apply d s f1 1 _)

theorem nrm_v230_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v230 d s f1 b3 h) shapeCasts_S1x16_S16 (ix1 l)
      = f1 (ix3 (⟨s.val / 4, tileB_lt s⟩ : Fin 4) (2 : Fin 3) (⟨s.val % 4 * 1024 + 48 + l.val, rowcol_lt s 48 (by decide) l⟩ : Fin 4096)) := by
  unfold run1x.sl.v230
  exact (load16B3_apply d s b3 (run1x.sl.dma0_3 d s f1) _ _ _ (2 : Fin 3) (s.val % 4 * 1024 + 48) (off_2_2_3 s) l (rowcol_lt s 48 (by decide) l)).trans
    (dma0_3_apply d s f1 2 _)

theorem nrm_v240_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v240 d s f1 b3 h) shapeCasts_S1x16_S16 (ix1 l)
      = f1 (ix3 (⟨s.val / 4, tileB_lt s⟩ : Fin 4) (0 : Fin 3) (⟨s.val % 4 * 1024 + 64 + l.val, rowcol_lt s 64 (by decide) l⟩ : Fin 4096)) := by
  unfold run1x.sl.v240
  exact (load16B3_apply d s b3 (run1x.sl.dma0_3 d s f1) _ _ _ (0 : Fin 3) (s.val % 4 * 1024 + 64) (off_2_0_4 s) l (rowcol_lt s 64 (by decide) l)).trans
    (dma0_3_apply d s f1 0 _)

theorem nrm_v245_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v245 d s f1 b3 h) shapeCasts_S1x16_S16 (ix1 l)
      = f1 (ix3 (⟨s.val / 4, tileB_lt s⟩ : Fin 4) (1 : Fin 3) (⟨s.val % 4 * 1024 + 64 + l.val, rowcol_lt s 64 (by decide) l⟩ : Fin 4096)) := by
  unfold run1x.sl.v245
  exact (load16B3_apply d s b3 (run1x.sl.dma0_3 d s f1) _ _ _ (1 : Fin 3) (s.val % 4 * 1024 + 64) (off_2_1_4 s) l (rowcol_lt s 64 (by decide) l)).trans
    (dma0_3_apply d s f1 1 _)

theorem nrm_v250_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v250 d s f1 b3 h) shapeCasts_S1x16_S16 (ix1 l)
      = f1 (ix3 (⟨s.val / 4, tileB_lt s⟩ : Fin 4) (2 : Fin 3) (⟨s.val % 4 * 1024 + 64 + l.val, rowcol_lt s 64 (by decide) l⟩ : Fin 4096)) := by
  unfold run1x.sl.v250
  exact (load16B3_apply d s b3 (run1x.sl.dma0_3 d s f1) _ _ _ (2 : Fin 3) (s.val % 4 * 1024 + 64) (off_2_2_4 s) l (rowcol_lt s 64 (by decide) l)).trans
    (dma0_3_apply d s f1 2 _)

theorem nrm_v260_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v260 d s f1 b3 h) shapeCasts_S1x16_S16 (ix1 l)
      = f1 (ix3 (⟨s.val / 4, tileB_lt s⟩ : Fin 4) (0 : Fin 3) (⟨s.val % 4 * 1024 + 80 + l.val, rowcol_lt s 80 (by decide) l⟩ : Fin 4096)) := by
  unfold run1x.sl.v260
  exact (load16B3_apply d s b3 (run1x.sl.dma0_3 d s f1) _ _ _ (0 : Fin 3) (s.val % 4 * 1024 + 80) (off_2_0_5 s) l (rowcol_lt s 80 (by decide) l)).trans
    (dma0_3_apply d s f1 0 _)

theorem nrm_v265_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v265 d s f1 b3 h) shapeCasts_S1x16_S16 (ix1 l)
      = f1 (ix3 (⟨s.val / 4, tileB_lt s⟩ : Fin 4) (1 : Fin 3) (⟨s.val % 4 * 1024 + 80 + l.val, rowcol_lt s 80 (by decide) l⟩ : Fin 4096)) := by
  unfold run1x.sl.v265
  exact (load16B3_apply d s b3 (run1x.sl.dma0_3 d s f1) _ _ _ (1 : Fin 3) (s.val % 4 * 1024 + 80) (off_2_1_5 s) l (rowcol_lt s 80 (by decide) l)).trans
    (dma0_3_apply d s f1 1 _)

theorem nrm_v270_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v270 d s f1 b3 h) shapeCasts_S1x16_S16 (ix1 l)
      = f1 (ix3 (⟨s.val / 4, tileB_lt s⟩ : Fin 4) (2 : Fin 3) (⟨s.val % 4 * 1024 + 80 + l.val, rowcol_lt s 80 (by decide) l⟩ : Fin 4096)) := by
  unfold run1x.sl.v270
  exact (load16B3_apply d s b3 (run1x.sl.dma0_3 d s f1) _ _ _ (2 : Fin 3) (s.val % 4 * 1024 + 80) (off_2_2_5 s) l (rowcol_lt s 80 (by decide) l)).trans
    (dma0_3_apply d s f1 2 _)

theorem nrm_v280_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v280 d s f1 b3 h) shapeCasts_S1x16_S16 (ix1 l)
      = f1 (ix3 (⟨s.val / 4, tileB_lt s⟩ : Fin 4) (0 : Fin 3) (⟨s.val % 4 * 1024 + 96 + l.val, rowcol_lt s 96 (by decide) l⟩ : Fin 4096)) := by
  unfold run1x.sl.v280
  exact (load16B3_apply d s b3 (run1x.sl.dma0_3 d s f1) _ _ _ (0 : Fin 3) (s.val % 4 * 1024 + 96) (off_2_0_6 s) l (rowcol_lt s 96 (by decide) l)).trans
    (dma0_3_apply d s f1 0 _)

theorem nrm_v285_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v285 d s f1 b3 h) shapeCasts_S1x16_S16 (ix1 l)
      = f1 (ix3 (⟨s.val / 4, tileB_lt s⟩ : Fin 4) (1 : Fin 3) (⟨s.val % 4 * 1024 + 96 + l.val, rowcol_lt s 96 (by decide) l⟩ : Fin 4096)) := by
  unfold run1x.sl.v285
  exact (load16B3_apply d s b3 (run1x.sl.dma0_3 d s f1) _ _ _ (1 : Fin 3) (s.val % 4 * 1024 + 96) (off_2_1_6 s) l (rowcol_lt s 96 (by decide) l)).trans
    (dma0_3_apply d s f1 1 _)

theorem nrm_v290_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v290 d s f1 b3 h) shapeCasts_S1x16_S16 (ix1 l)
      = f1 (ix3 (⟨s.val / 4, tileB_lt s⟩ : Fin 4) (2 : Fin 3) (⟨s.val % 4 * 1024 + 96 + l.val, rowcol_lt s 96 (by decide) l⟩ : Fin 4096)) := by
  unfold run1x.sl.v290
  exact (load16B3_apply d s b3 (run1x.sl.dma0_3 d s f1) _ _ _ (2 : Fin 3) (s.val % 4 * 1024 + 96) (off_2_2_6 s) l (rowcol_lt s 96 (by decide) l)).trans
    (dma0_3_apply d s f1 2 _)

theorem nrm_v300_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v300 d s f1 b3 h) shapeCasts_S1x16_S16 (ix1 l)
      = f1 (ix3 (⟨s.val / 4, tileB_lt s⟩ : Fin 4) (0 : Fin 3) (⟨s.val % 4 * 1024 + 112 + l.val, rowcol_lt s 112 (by decide) l⟩ : Fin 4096)) := by
  unfold run1x.sl.v300
  exact (load16B3_apply d s b3 (run1x.sl.dma0_3 d s f1) _ _ _ (0 : Fin 3) (s.val % 4 * 1024 + 112) (off_2_0_7 s) l (rowcol_lt s 112 (by decide) l)).trans
    (dma0_3_apply d s f1 0 _)

theorem nrm_v305_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v305 d s f1 b3 h) shapeCasts_S1x16_S16 (ix1 l)
      = f1 (ix3 (⟨s.val / 4, tileB_lt s⟩ : Fin 4) (1 : Fin 3) (⟨s.val % 4 * 1024 + 112 + l.val, rowcol_lt s 112 (by decide) l⟩ : Fin 4096)) := by
  unfold run1x.sl.v305
  exact (load16B3_apply d s b3 (run1x.sl.dma0_3 d s f1) _ _ _ (1 : Fin 3) (s.val % 4 * 1024 + 112) (off_2_1_7 s) l (rowcol_lt s 112 (by decide) l)).trans
    (dma0_3_apply d s f1 1 _)

theorem nrm_v310_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v310 d s f1 b3 h) shapeCasts_S1x16_S16 (ix1 l)
      = f1 (ix3 (⟨s.val / 4, tileB_lt s⟩ : Fin 4) (2 : Fin 3) (⟨s.val % 4 * 1024 + 112 + l.val, rowcol_lt s 112 (by decide) l⟩ : Fin 4096)) := by
  unfold run1x.sl.v310
  exact (load16B3_apply d s b3 (run1x.sl.dma0_3 d s f1) _ _ _ (2 : Fin 3) (s.val % 4 * 1024 + 112) (off_2_2_7 s) l (rowcol_lt s 112 (by decide) l)).trans
    (dma0_3_apply d s f1 2 _)

end Cert.Proof.ScI

end
-- ==== Proof.ScBridge1G2.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_2
import proofs.«209750_g45337674776763_cont_8to1c4_158_37_alg».proof.Proof.ScRows1_2
import proofs.«209750_g45337674776763_cont_8to1c4_158_37_alg».proof.Proof.ScNrm1_2
import proofs.«209750_g45337674776763_cont_8to1c4_158_37_alg».proof.Proof.ScX1a

/-!
  The second SparseCore branch's group 0 of words (`0` to `127` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group0 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 0 ≤ (j 0).val) (hhi : (j 0).val < 128) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 0 + 16 * J.val + l.val :=
    ⟨⟨((j 0).val - 0) / 16, by omega⟩, ⟨((j 0).val - 0) % 16, by omega⟩,
      by show _ = 0 + 16 * (((j 0).val - 0) / 16) + ((j 0).val - 0) % 16; omega⟩
  have er : (⟨s.val % 4 * 1024 + (j 0).val, by have : s.val < 16 := s.isLt; have : (j 0).val < 1024 := (j 0).isLt; omega⟩ : Fin 4096) = (⟨s.val % 4 * 1024 + (0 + 16 * J.val) + l.val, by have := l.isLt; have := J.isLt; omega⟩ : Fin 4096) :=
    Fin.ext (by show s.val % 4 * 1024 + (j 0).val = s.val % 4 * 1024 + (0 + 16 * J.val) + l.val; omega)
  rw [er]
  delta X1of
  refine (W1_read0 d s f1 b3 b4 (h2_L1 s) _ _ _ _ _ _ _ _ j J l hj).trans ?_
  delta A2of
  obtain ⟨Jv, hJv⟩ := J
  interval_cases Jv
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v41 d s f6 b2 (h2_L1 s)) (run1x.sl.v81 d s f6 b2 (h2_L1 s)) (run1x.sl.v121 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_v41_apply (F := Ideal) d s f6 b2 (h2_L1 s) l) (row_v81_apply (F := Ideal) d s f6 b2 (h2_L1 s) l) (row_v121_apply (F := Ideal) d s f6 b2 (h2_L1 s) l)
      (nrm_v160_apply (F := Ideal) d s f1 b3 (h2_L1 s) l) (nrm_v165_apply (F := Ideal) d s f1 b3 (h2_L1 s) l) (nrm_v170_apply (F := Ideal) d s f1 b3 (h2_L1 s) l)
      (C0of_apply (F := Ideal) d s f7 b0) (C1of_apply (F := Ideal) d s f8 b1)
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v46 d s f6 b2 (h2_L1 s)) (run1x.sl.v86 d s f6 b2 (h2_L1 s)) (run1x.sl.v126 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_v46_apply (F := Ideal) d s f6 b2 (h2_L1 s) l) (row_v86_apply (F := Ideal) d s f6 b2 (h2_L1 s) l) (row_v126_apply (F := Ideal) d s f6 b2 (h2_L1 s) l)
      (nrm_v180_apply (F := Ideal) d s f1 b3 (h2_L1 s) l) (nrm_v185_apply (F := Ideal) d s f1 b3 (h2_L1 s) l) (nrm_v190_apply (F := Ideal) d s f1 b3 (h2_L1 s) l)
      (C0of_apply (F := Ideal) d s f7 b0) (C1of_apply (F := Ideal) d s f8 b1)
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v51 d s f6 b2 (h2_L1 s)) (run1x.sl.v91 d s f6 b2 (h2_L1 s)) (run1x.sl.v131 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_v51_apply (F := Ideal) d s f6 b2 (h2_L1 s) l) (row_v91_apply (F := Ideal) d s f6 b2 (h2_L1 s) l) (row_v131_apply (F := Ideal) d s f6 b2 (h2_L1 s) l)
      (nrm_v200_apply (F := Ideal) d s f1 b3 (h2_L1 s) l) (nrm_v205_apply (F := Ideal) d s f1 b3 (h2_L1 s) l) (nrm_v210_apply (F := Ideal) d s f1 b3 (h2_L1 s) l)
      (C0of_apply (F := Ideal) d s f7 b0) (C1of_apply (F := Ideal) d s f8 b1)
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v56 d s f6 b2 (h2_L1 s)) (run1x.sl.v96 d s f6 b2 (h2_L1 s)) (run1x.sl.v136 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_v56_apply (F := Ideal) d s f6 b2 (h2_L1 s) l) (row_v96_apply (F := Ideal) d s f6 b2 (h2_L1 s) l) (row_v136_apply (F := Ideal) d s f6 b2 (h2_L1 s) l)
      (nrm_v220_apply (F := Ideal) d s f1 b3 (h2_L1 s) l) (nrm_v225_apply (F := Ideal) d s f1 b3 (h2_L1 s) l) (nrm_v230_apply (F := Ideal) d s f1 b3 (h2_L1 s) l)
      (C0of_apply (F := Ideal) d s f7 b0) (C1of_apply (F := Ideal) d s f8 b1)
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v61 d s f6 b2 (h2_L1 s)) (run1x.sl.v101 d s f6 b2 (h2_L1 s)) (run1x.sl.v141 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_v61_apply (F := Ideal) d s f6 b2 (h2_L1 s) l) (row_v101_apply (F := Ideal) d s f6 b2 (h2_L1 s) l) (row_v141_apply (F := Ideal) d s f6 b2 (h2_L1 s) l)
      (nrm_v240_apply (F := Ideal) d s f1 b3 (h2_L1 s) l) (nrm_v245_apply (F := Ideal) d s f1 b3 (h2_L1 s) l) (nrm_v250_apply (F := Ideal) d s f1 b3 (h2_L1 s) l)
      (C0of_apply (F := Ideal) d s f7 b0) (C1of_apply (F := Ideal) d s f8 b1)
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v66 d s f6 b2 (h2_L1 s)) (run1x.sl.v106 d s f6 b2 (h2_L1 s)) (run1x.sl.v146 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_v66_apply (F := Ideal) d s f6 b2 (h2_L1 s) l) (row_v106_apply (F := Ideal) d s f6 b2 (h2_L1 s) l) (row_v146_apply (F := Ideal) d s f6 b2 (h2_L1 s) l)
      (nrm_v260_apply (F := Ideal) d s f1 b3 (h2_L1 s) l) (nrm_v265_apply (F := Ideal) d s f1 b3 (h2_L1 s) l) (nrm_v270_apply (F := Ideal) d s f1 b3 (h2_L1 s) l)
      (C0of_apply (F := Ideal) d s f7 b0) (C1of_apply (F := Ideal) d s f8 b1)
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v71 d s f6 b2 (h2_L1 s)) (run1x.sl.v111 d s f6 b2 (h2_L1 s)) (run1x.sl.v151 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v71_apply (F := Ideal) d s f6 b2 (h2_L1 s) l) (row_v111_apply (F := Ideal) d s f6 b2 (h2_L1 s) l) (row_v151_apply (F := Ideal) d s f6 b2 (h2_L1 s) l)
      (nrm_v280_apply (F := Ideal) d s f1 b3 (h2_L1 s) l) (nrm_v285_apply (F := Ideal) d s f1 b3 (h2_L1 s) l) (nrm_v290_apply (F := Ideal) d s f1 b3 (h2_L1 s) l)
      (C0of_apply (F := Ideal) d s f7 b0) (C1of_apply (F := Ideal) d s f8 b1)
  · refine (congrArg (fun x => max (_ + x) 0) (block_all2 d (L1 s) (h2_L1 s) (run1x.sl.v41 d s f6 b2 (h2_L1 s)) (run1x.sl.v46 d s f6 b2 (h2_L1 s)) (run1x.sl.v51 d s f6 b2 (h2_L1 s)) (run1x.sl.v56 d s f6 b2 (h2_L1 s)) (run1x.sl.v61 d s f6 b2 (h2_L1 s)) (run1x.sl.v66 d s f6 b2 (h2_L1 s)) (run1x.sl.v71 d s f6 b2 (h2_L1 s)) (run1x.sl.v76 d s f6 b2 (h2_L1 s)) (run1x.sl.v81 d s f6 b2 (h2_L1 s)) (run1x.sl.v86 d s f6 b2 (h2_L1 s)) (run1x.sl.v91 d s f6 b2 (h2_L1 s)) (run1x.sl.v96 d s f6 b2 (h2_L1 s)) (run1x.sl.v101 d s f6 b2 (h2_L1 s)) (run1x.sl.v106 d s f6 b2 (h2_L1 s)) (run1x.sl.v111 d s f6 b2 (h2_L1 s)) (run1x.sl.v116 d s f6 b2 (h2_L1 s)) (run1x.sl.v121 d s f6 b2 (h2_L1 s)) (run1x.sl.v126 d s f6 b2 (h2_L1 s)) (run1x.sl.v131 d s f6 b2 (h2_L1 s)) (run1x.sl.v136 d s f6 b2 (h2_L1 s)) (run1x.sl.v141 d s f6 b2 (h2_L1 s)) (run1x.sl.v146 d s f6 b2 (h2_L1 s)) (run1x.sl.v151 d s f6 b2 (h2_L1 s)) (run1x.sl.v156 d s f6 b2 (h2_L1 s)) (C0of d s f7 b0) (C1of d s f8 b1) (k0_pay2274, k0_pay2274, k0_pay2274, k0_pay2274, k0_pay2274, k0_pay2274, k0_pay2274, k0_pay2274)
        (run1x.sl.v76 d s f6 b2 (h2_L1 s)) (run1x.sl.v116 d s f6 b2 (h2_L1 s)) (run1x.sl.v156 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v76_apply (F := Ideal) d s f6 b2 (h2_L1 s) l) (row_v116_apply (F := Ideal) d s f6 b2 (h2_L1 s) l) (row_v156_apply (F := Ideal) d s f6 b2 (h2_L1 s) l)
      (nrm_v300_apply (F := Ideal) d s f1 b3 (h2_L1 s) l) (nrm_v305_apply (F := Ideal) d s f1 b3 (h2_L1 s) l) (nrm_v310_apply (F := Ideal) d s f1 b3 (h2_L1 s) l)
      (C0of_apply (F := Ideal) d s f7 b0) (C1of_apply (F := Ideal) d s f8 b1)

end Cert.Proof.ScI

end
-- ==== Proof.ScMath1_3.lean ====
import proofs.«209750_g45337674776763_cont_8to1c4_158_37_alg».proof.Proof.ScMath4
import proofs.«209750_g45337674776763_cont_8to1c4_158_37_alg».proof.Proof.ScVal1_3
/-!
  Scan loop 2 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips3_eq : k0_t3_loop.trips = 32 := by decide

theorem chunk3_lt (k : Fin k0_t3_loop.trips) (i : Fin 16) : 16 * k.val + i.val < 512 := by
  have h1 : k.val < 32 := lt_of_lt_of_eq k.isLt trips3_eq
  have h2 := i.isLt
  omega

section Generic
variable {F : FTy → Type} [FloatOps F]
/-- Coordinate `a` of the chunk trip `k` loads, at lane `i`: the strip buffer at row `a`, column `16 k + i`. -/
theorem ldv3_apply (L : grid0.Coords) (k0_h2 : k0_cond2 L = 1#1) (k : Fin k0_t3_loop.trips)
    (c : Buf (Elt F) ((B0).view.loc (thr d L))) (a : Fin 3) (i : Fin 16) :
    ldv3 d L k0_h2 k c a (ix1 i) = c (ix2 a (⟨16 * k.val + i.val, chunk3_lt k i⟩ : Fin 512)) := by
  match a with
  | 0 =>
    show shapeCast S16 ((B0).view.readAt (Elt F) (Rect.unit (s := S3x512) (k0_off17 k) S1x16.size (k0_off17_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off17_eq k]
    | ⟨1, _⟩ => simp [LoadRect.idx_apply, k0_off17_eq k]
  | 1 =>
    show shapeCast S16 ((B0).view.readAt (Elt F) (Rect.unit (s := S3x512) (k0_off18 k) S1x16.size (k0_off18_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off18_eq k]
    | ⟨1, _⟩ => simp [LoadRect.idx_apply, k0_off18_eq k]
  | 2 =>
    show shapeCast S16 ((B0).view.readAt (Elt F) (Rect.unit (s := S3x512) (k0_off19 k) S1x16.size (k0_off19_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off19_eq k]
    | ⟨1, _⟩ => simp [LoadRect.idx_apply, k0_off19_eq k]
end Generic

/-- One trip's chunk against a block of rows, at a lane: the sixteen candidates `16 k + i`. -/
theorem trip_chunk3_apply (L : grid0.Coords) (k0_h2 : k0_cond2 L = 1#1) (rx ry rz cur : FVec Ideal S16 .f32)
    (k : Fin k0_t3_loop.trips) (c0 c1 : Buf (Elt Ideal) ((B0).view.loc (thr d L))) (l : S16.Idx) :
    chunk rx ry rz cur (ldv3 d L k0_h2 k c0 0) (ldv3 d L k0_h2 k c0 1) (ldv3 d L k0_h2 k c0 2)
        (nrmv (ldv3 d L k0_h2 k c1 0) (ldv3 d L k0_h2 k c1 1) (ldv3 d L k0_h2 k c1 2)) l
      = (Finset.univ : Finset (Fin 16)).fold min (cur l) (fun i => termS d L rx ry rz c0 c1 l ⟨16 * k.val + i.val, chunk3_lt k i⟩) := by
  rw [chunk_apply]
  simp only [nrmv_apply, ldv3_apply, termS, rdS]

/-- A block's carried minimum before trip `K`, at a lane. -/
theorem block_iter3 (L : grid0.Coords) (k0_h2 : k0_cond2 L = 1#1) (v373 : FVec Ideal S16 .f32) (v378 : FVec Ideal S16 .f32) (v383 : FVec Ideal S16 .f32) (v388 : FVec Ideal S16 .f32) (v393 : FVec Ideal S16 .f32) (v398 : FVec Ideal S16 .f32) (v403 : FVec Ideal S16 .f32) (v408 : FVec Ideal S16 .f32) (v413 : FVec Ideal S16 .f32) (v418 : FVec Ideal S16 .f32) (v423 : FVec Ideal S16 .f32) (v428 : FVec Ideal S16 .f32) (v433 : FVec Ideal S16 .f32) (v438 : FVec Ideal S16 .f32) (v443 : FVec Ideal S16 .f32) (v448 : FVec Ideal S16 .f32) (v453 : FVec Ideal S16 .f32) (v458 : FVec Ideal S16 .f32) (v463 : FVec Ideal S16 .f32) (v468 : FVec Ideal S16 .f32) (v473 : FVec Ideal S16 .f32) (v478 : FVec Ideal S16 .f32) (v483 : FVec Ideal S16 .f32) (v488 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t3_loop.trips) (acc : Acc Ideal),
      sel (tripSpec3 d L k0_h2 v373 v378 v383 v388 v393 v398 v403 v408 v413 v418 v423 v428 v433 v438 v443 v448 v453 v458 v463 v468 v473 v478 v483 v488 k c0 c1 acc)
        = chunk rx ry rz (sel acc) (ldv3 d L k0_h2 k c0 0) (ldv3 d L k0_h2 k c0 1) (ldv3 d L k0_h2 k c0 2)
            (nrmv (ldv3 d L k0_h2 k c1 0) (ldv3 d L k0_h2 k c1 1) (ldv3 d L k0_h2 k c1 2)))
    (l : S16.Idx) : ∀ K : ℕ, K ≤ 32 →
      sel (iter3 d L k0_h2 v373 v378 v383 v388 v393 v398 v403 v408 v413 v418 v423 v428 v433 v438 v443 v448 v453 v458 v463 v468 v473 v478 v483 v488 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t3_loop.trips := by rw [trips3_eq]; omega
    have hs := iter3_succ d L k0_h2 v373 v378 v383 v388 v393 v398 v403 v408 v413 v418 v423 v428 v433 v438 v443 v448 v453 v458 v463 v468 v473 v478 v483 v488 c0 c1 init ⟨K, hk⟩
    rw [show K + 1 = (⟨K, hk⟩ : Fin k0_t3_loop.trips).val + 1 from rfl, hs, hsel, trip_chunk3_apply,
      block_iter3 L k0_h2 v373 v378 v383 v388 v393 v398 v403 v408 v413 v418 v423 v428 v433 v438 v443 v448 v453 v458 v463 v468 v473 v478 v483 v488 c0 c1 init rx ry rz sel hsel l K (by omega)]
    exact fold_stepM (termS d L rx ry rz c0 c1 l) (sel init l) K (by omega)

/-- After all 32 trips, from lanes that start at `⊤`: the minimum over every candidate of the strip. -/
theorem block_all3 (L : grid0.Coords) (k0_h2 : k0_cond2 L = 1#1) (v373 : FVec Ideal S16 .f32) (v378 : FVec Ideal S16 .f32) (v383 : FVec Ideal S16 .f32) (v388 : FVec Ideal S16 .f32) (v393 : FVec Ideal S16 .f32) (v398 : FVec Ideal S16 .f32) (v403 : FVec Ideal S16 .f32) (v408 : FVec Ideal S16 .f32) (v413 : FVec Ideal S16 .f32) (v418 : FVec Ideal S16 .f32) (v423 : FVec Ideal S16 .f32) (v428 : FVec Ideal S16 .f32) (v433 : FVec Ideal S16 .f32) (v438 : FVec Ideal S16 .f32) (v443 : FVec Ideal S16 .f32) (v448 : FVec Ideal S16 .f32) (v453 : FVec Ideal S16 .f32) (v458 : FVec Ideal S16 .f32) (v463 : FVec Ideal S16 .f32) (v468 : FVec Ideal S16 .f32) (v473 : FVec Ideal S16 .f32) (v478 : FVec Ideal S16 .f32) (v483 : FVec Ideal S16 .f32) (v488 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t3_loop.trips) (acc : Acc Ideal),
      sel (tripSpec3 d L k0_h2 v373 v378 v383 v388 v393 v398 v403 v408 v413 v418 v423 v428 v433 v438 v443 v448 v453 v458 v463 v468 v473 v478 v483 v488 k c0 c1 acc)
        = chunk rx ry rz (sel acc) (ldv3 d L k0_h2 k c0 0) (ldv3 d L k0_h2 k c0 1) (ldv3 d L k0_h2 k c0 2)
            (nrmv (ldv3 d L k0_h2 k c1 0) (ldv3 d L k0_h2 k c1 1) (ldv3 d L k0_h2 k c1 2)))
    (l : S16.Idx) (htop : sel init l = (⊤ : EReal)) :
    sel (iter3 d L k0_h2 v373 v378 v383 v388 v393 v398 v403 v408 v413 v418 v423 v428 v433 v438 v443 v448 v453 v458 v463 v468 v473 v478 v483 v488 c0 c1 init k0_t3_loop.trips) l
      = (Finset.univ : Finset (Fin 512)).fold min (⊤ : EReal) (termS d L rx ry rz c0 c1 l) := by
  rw [trips3_eq, block_iter3 d L k0_h2 v373 v378 v383 v388 v393 v398 v403 v408 v413 v418 v423 v428 v433 v438 v443 v448 v453 v458 v463 v468 v473 v478 v483 v488 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScRows1_3.lean ====
import proofs.«209750_g45337674776763_cont_8to1c4_158_37_alg».proof.Proof.ScRows1_2
/-!
  The twenty-four row vectors of scan 2 of the second branch, read at a lane: coordinate `a` of point
  `1024 (s % 4) + 128 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem off_3_0_0 : ∀ s : Fin (grid0.bound 1), k0_off11 (L1 s) 128#32 0#32 = ![0, s.val % 4 * 1024 + 128] := by decide +kernel
theorem row_r_16_apply (s : Fin (grid0.bound 1)) (f6 : Buf (Elt F) (l6 d)) (b2 : Buf (Elt F) ((thr d (L1 s)).loc cc0_scratch2))
    (h : k0_cond2 (L1 s) = 1#1) (l : Fin 16) :
    run1x.sl.r_16 d s f6 b2 h (ix1 l)
      = f6 (ix3 (⟨s.val / 4, tileB_lt s⟩ : Fin 4) (0 : Fin 3) (⟨s.val % 4 * 1024 + 128 + l.val, rowcol_lt s 128 (by decide) l⟩ : Fin 4096)) := by
  unfold run1x.sl.r_16 k0_pay2286 run1x.sl.v372
  exact (load16_apply d s b2 (run1x.sl.dma0_2 d s f6) _ _ _ (0 : Fin 3) (s.val % 4 * 1024 + 128) (off_3_0_0 s) l (rowcol_lt s 128 (by decide) l)).trans
    (dma0_2_apply d s f6 0 _)

theorem off_3_0_1 : ∀ s : Fin (grid0.bound 1), k0_off11 (L1 s) 128#32 16#32 = ![0, s.val % 4 * 1024 + 144] := by decide +kernel
theorem row_r_17_apply (s : Fin (grid0.bound 1)) (f6 : Buf (Elt F) (l6 d)) (b2 : Buf (Elt F) ((thr d (L1 s)).loc cc0_scratch2))
    (h : k0_cond2 (L1 s) = 1#1) (l : Fin 16) :
    run1x.sl.r_17 d s f6 b2 h (ix1 l)
      = f6 (ix3 (⟨s.val / 4, tileB_lt s⟩ : Fin 4) (0 : Fin 3) (⟨s.val % 4 * 1024 + 144 + l.val, rowcol_lt s 144 (by decide) l⟩ : Fin 4096)) := by
  unfold run1x.sl.r_17 k0_pay2287 run1x.sl.v377
  exact (load16_apply d s b2 (run1x.sl.dma0_2 d s f6) _ _ _ (0 : Fin 3) (s.val % 4 * 1024 + 144) (off_3_0_1 s) l (rowcol_lt s 144 (by decide) l)).trans
    (dma0_2_apply d s f6 0 _)

theorem off_3_0_2 : ∀ s : Fin (grid0.bound 1), k0_off11 (L1 s) 128#32 32#32 = ![0, s.val % 4 * 1024 + 160] := by decide +kernel
theorem row_v383_apply (s : Fin (grid0.bound 1)) (f6 : Buf (Elt F) (l6 d)) (b2 : Buf (Elt F) ((thr d (L1 s)).loc cc0_scratch2))
    (h : k0_cond2 (L1 s) = 1#1) (l : Fin 16) :
    run1x.sl.v383 d s f6 b2 h (ix1 l)
      = f6 (ix3 (⟨s.val / 4, tileB_lt s⟩ : Fin 4) (0 : Fin 3) (⟨s.val % 4 * 1024 + 160 + l.val, rowcol_lt s 160 (by decide) l⟩ : Fin 4096)) := by
  unfold run1x.sl.v383 run1x.sl.v382
  exact (load16_apply d s b2 (run1x.sl.dma0_2 d s f6) _ _ _ (0 : Fin 3) (s.val % 4 * 1024 + 160) (off_3_0_2 s) l (rowcol_lt s 160 (by decide) l)).trans
    (dma0_2_apply d s f6 0 _)

theorem off_3_0_3 : ∀ s : Fin (grid0.bound 1), k0_off11 (L1 s) 128#32 48#32 = ![0, s.val % 4 * 1024 + 176] := by decide +kernel
theorem row_v388_apply (s : Fin (grid0.bound 1)) (f6 : Buf (Elt F) (l6 d)) (b2 : Buf (Elt F) ((thr d (L1 s)).loc cc0_scratch2))
    (h : k0_cond2 (L1 s) = 1#1) (l : Fin 16) :
    run1x.sl.v388 d s f6 b2 h (ix1 l)
      = f6 (ix3 (⟨s.val / 4, tileB_lt s⟩ : Fin 4) (0 : Fin 3) (⟨s.val % 4 * 1024 + 176 + l.val, rowcol_lt s 176 (by decide) l⟩ : Fin 4096)) := by
  unfold run1x.sl.v388 run1x.sl.v387
  exact (load16_apply d s b2 (run1x.sl.dma0_2 d s f6) _ _ _ (0 : Fin 3) (s.val % 4 * 1024 + 176) (off_3_0_3 s) l (rowcol_lt s 176 (by decide) l)).trans
    (dma0_2_apply d s f6 0 _)

theorem off_3_0_4 : ∀ s : Fin (grid0.bound 1), k0_off11 (L1 s) 128#32 64#32 = ![0, s.val % 4 * 1024 + 192] := by decide +kernel
theorem row_v393_apply (s : Fin (grid0.bound 1)) (f6 : Buf (Elt F) (l6 d)) (b2 : Buf (Elt F) ((thr d (L1 s)).loc cc0_scratch2))
    (h : k0_cond2 (L1 s) = 1#1) (l : Fin 16) :
    run1x.sl.v393 d s f6 b2 h (ix1 l)
      = f6 (ix3 (⟨s.val / 4, tileB_lt s⟩ : Fin 4) (0 : Fin 3) (⟨s.val % 4 * 1024 + 192 + l.val, rowcol_lt s 192 (by decide) l⟩ : Fin 4096)) := by
  unfold run1x.sl.v393 run1x.sl.v392
  exact (load16_apply d s b2 (run1x.sl.dma0_2 d s f6) _ _ _ (0 : Fin 3) (s.val % 4 * 1024 + 192) (off_3_0_4 s) l (rowcol_lt s 192 (by decide) l)).trans
    (dma0_2_apply d s f6 0 _)

theorem off_3_0_5 : ∀ s : Fin (grid0.bound 1), k0_off11 (L1 s) 128#32 80#32 = ![0, s.val % 4 * 1024 + 208] := by decide +kernel
theorem row_v398_apply (s : Fin (grid0.bound 1)) (f6 : Buf (Elt F) (l6 d)) (b2 : Buf (Elt F) ((thr d (L1 s)).loc cc0_scratch2))
    (h : k0_cond2 (L1 s) = 1#1) (l : Fin 16) :
    run1x.sl.v398 d s f6 b2 h (ix1 l)
      = f6 (ix3 (⟨s.val / 4, tileB_lt s⟩ : Fin 4) (0 : Fin 3) (⟨s.val % 4 * 1024 + 208 + l.val, rowcol_lt s 208 (by decide) l⟩ : Fin 4096)) := by
  unfold run1x.sl.v398 run1x.sl.v397
  exact (load16_apply d s b2 (run1x.sl.dma0_2 d s f6) _ _ _ (0 : Fin 3) (s.val % 4 * 1024 + 208) (off_3_0_5 s) l (rowcol_lt s 208 (by decide) l)).trans
    (dma0_2_apply d s f6 0 _)

theorem off_3_0_6 : ∀ s : Fin (grid0.bound 1), k0_off11 (L1 s) 128#32 96#32 = ![0, s.val % 4 * 1024 + 224] := by decide +kernel
theorem row_v403_apply (s : Fin (grid0.bound 1)) (f6 : Buf (Elt F) (l6 d)) (b2 : Buf (Elt F) ((thr d (L1 s)).loc cc0_scratch2))
    (h : k0_cond2 (L1 s) = 1#1) (l : Fin 16) :
    run1x.sl.v403 d s f6 b2 h (ix1 l)
      = f6 (ix3 (⟨s.val / 4, tileB_lt s⟩ : Fin 4) (0 : Fin 3) (⟨s.val % 4 * 1024 + 224 + l.val, rowcol_lt s 224 (by decide) l⟩ : Fin 4096)) := by
  unfold run1x.sl.v403 run1x.sl.v402
  exact (load16_apply d s b2 (run1x.sl.dma0_2 d s f6) _ _ _ (0 : Fin 3) (s.val % 4 * 1024 + 224) (off_3_0_6 s) l (rowcol_lt s 224 (by decide) l)).trans
    (dma0_2_apply d s f6 0 _)

theorem off_3_0_7 : ∀ s : Fin (grid0.bound 1), k0_off11 (L1 s) 128#32 112#32 = ![0, s.val % 4 * 1024 + 240] := by decide +kernel
theorem row_v408_apply (s : Fin (grid0.bound 1)) (f6 : Buf (Elt F) (l6 d)) (b2 : Buf (Elt F) ((thr d (L1 s)).loc cc0_scratch2))
    (h : k0_cond2 (L1 s) = 1#1) (l : Fin 16) :
    run1x.sl.v408 d s f6 b2 h (ix1 l)
      = f6 (ix3 (⟨s.val / 4, tileB_lt s⟩ : Fin 4) (0 : Fin 3) (⟨s.val % 4 * 1024 + 240 + l.val, rowcol_lt s 240 (by decide) l⟩ : Fin 4096)) := by
  unfold run1x.sl.v408 run1x.sl.v407
  exact (load16_apply d s b2 (run1x.sl.dma0_2 d s f6) _ _ _ (0 : Fin 3) (s.val % 4 * 1024 + 240) (off_3_0_7 s) l (rowcol_lt s 240 (by decide) l)).trans
    (dma0_2_apply d s f6 0 _)

theorem off_3_1_0 : ∀ s : Fin (grid0.bound 1), k0_off12 (L1 s) 128#32 0#32 = ![1, s.val % 4 * 1024 + 128] := by decide +kernel
theorem row_v413_apply (s : Fin (grid0.bound 1)) (f6 : Buf (Elt F) (l6 d)) (b2 : Buf (Elt F) ((thr d (L1 s)).loc cc0_scratch2))
    (h : k0_cond2 (L1 s) = 1#1) (l : Fin 16) :
    run1x.sl.v413 d s f6 b2 h (ix1 l)
      = f6 (ix3 (⟨s.val / 4, tileB_lt s⟩ : Fin 4) (1 : Fin 3) (⟨s.val % 4 * 1024 + 128 + l.val, rowcol_lt s 128 (by decide) l⟩ : Fin 4096)) := by
  unfold run1x.sl.v413 run1x.sl.v412
  exact (load16_apply d s b2 (run1x.sl.dma0_2 d s f6) _ _ _ (1 : Fin 3) (s.val % 4 * 1024 + 128) (off_3_1_0 s) l (rowcol_lt s 128 (by decide) l)).trans
    (dma0_2_apply d s f6 1 _)

theorem off_3_1_1 : ∀ s : Fin (grid0.bound 1), k0_off12 (L1 s) 128#32 16#32 = ![1, s.val % 4 * 1024 + 144] := by decide +kernel
theorem row_v418_apply (s : Fin (grid0.bound 1)) (f6 : Buf (Elt F) (l6 d)) (b2 : Buf (Elt F) ((thr d (L1 s)).loc cc0_scratch2))
    (h : k0_cond2 (L1 s) = 1#1) (l : Fin 16) :
    run1x.sl.v418 d s f6 b2 h (ix1 l)
      = f6 (ix3 (⟨s.val / 4, tileB_lt s⟩ : Fin 4) (1 : Fin 3) (⟨s.val % 4 * 1024 + 144 + l.val, rowcol_lt s 144 (by decide) l⟩ : Fin 4096)) := by
  unfold run1x.sl.v418 run1x.sl.v417
  exact (load16_apply d s b2 (run1x.sl.dma0_2 d s f6) _ _ _ (1 : Fin 3) (s.val % 4 * 1024 + 144) (off_3_1_1 s) l (rowcol_lt s 144 (by decide) l)).trans
    (dma0_2_apply d s f6 1 _)

theorem off_3_1_2 : ∀ s : Fin (grid0.bound 1), k0_off12 (L1 s) 128#32 32#32 = ![1, s.val % 4 * 1024 + 160] := by decide +kernel
theorem row_v423_apply (s : Fin (grid0.bound 1)) (f6 : Buf (Elt F) (l6 d)) (b2 : Buf (Elt F) ((thr d (L1 s)).loc cc0_scratch2))
    (h : k0_cond2 (L1 s) = 1#1) (l : Fin 16) :
    run1x.sl.v423 d s f6 b2 h (ix1 l)
      = f6 (ix3 (⟨s.val / 4, tileB_lt s⟩ : Fin 4) (1 : Fin 3) (⟨s.val % 4 * 1024 + 160 + l.val, rowcol_lt s 160 (by decide) l⟩ : Fin 4096)) := by
  unfold run1x.sl.v423 run1x.sl.v422
  exact (load16_apply d s b2 (run1x.sl.dma0_2 d s f6) _ _ _ (1 : Fin 3) (s.val % 4 * 1024 + 160) (off_3_1_2 s) l (rowcol_lt s 160 (by decide) l)).trans
    (dma0_2_apply d s f6 1 _)

theorem off_3_1_3 : ∀ s : Fin (grid0.bound 1), k0_off12 (L1 s) 128#32 48#32 = ![1, s.val % 4 * 1024 + 176] := by decide +kernel
theorem row_v428_apply (s : Fin (grid0.bound 1)) (f6 : Buf (Elt F) (l6 d)) (b2 : Buf (Elt F) ((thr d (L1 s)).loc cc0_scratch2))
    (h : k0_cond2 (L1 s) = 1#1) (l : Fin 16) :
    run1x.sl.v428 d s f6 b2 h (ix1 l)
      = f6 (ix3 (⟨s.val / 4, tileB_lt s⟩ : Fin 4) (1 : Fin 3) (⟨s.val % 4 * 1024 + 176 + l.val, rowcol_lt s 176 (by decide) l⟩ : Fin 4096)) := by
  unfold run1x.sl.v428 run1x.sl.v427
  exact (load16_apply d s b2 (run1x.sl.dma0_2 d s f6) _ _ _ (1 : Fin 3) (s.val % 4 * 1024 + 176) (off_3_1_3 s) l (rowcol_lt s 176 (by decide) l)).trans
    (dma0_2_apply d s f6 1 _)

theorem off_3_1_4 : ∀ s : Fin (grid0.bound 1), k0_off12 (L1 s) 128#32 64#32 = ![1, s.val % 4 * 1024 + 192] := by decide +kernel
theorem row_v433_apply (s : Fin (grid0.bound 1)) (f6 : Buf (Elt F) (l6 d)) (b2 : Buf (Elt F) ((thr d (L1 s)).loc cc0_scratch2))
    (h : k0_cond2 (L1 s) = 1#1) (l : Fin 16) :
    run1x.sl.v433 d s f6 b2 h (ix1 l)
      = f6 (ix3 (⟨s.val / 4, tileB_lt s⟩ : Fin 4) (1 : Fin 3) (⟨s.val % 4 * 1024 + 192 + l.val, rowcol_lt s 192 (by decide) l⟩ : Fin 4096)) := by
  unfold run1x.sl.v433 run1x.sl.v432
  exact (load16_apply d s b2 (run1x.sl.dma0_2 d s f6) _ _ _ (1 : Fin 3) (s.val % 4 * 1024 + 192) (off_3_1_4 s) l (rowcol_lt s 192 (by decide) l)).trans
    (dma0_2_apply d s f6 1 _)

theorem off_3_1_5 : ∀ s : Fin (grid0.bound 1), k0_off12 (L1 s) 128#32 80#32 = ![1, s.val % 4 * 1024 + 208] := by decide +kernel
theorem row_v438_apply (s : Fin (grid0.bound 1)) (f6 : Buf (Elt F) (l6 d)) (b2 : Buf (Elt F) ((thr d (L1 s)).loc cc0_scratch2))
    (h : k0_cond2 (L1 s) = 1#1) (l : Fin 16) :
    run1x.sl.v438 d s f6 b2 h (ix1 l)
      = f6 (ix3 (⟨s.val / 4, tileB_lt s⟩ : Fin 4) (1 : Fin 3) (⟨s.val % 4 * 1024 + 208 + l.val, rowcol_lt s 208 (by decide) l⟩ : Fin 4096)) := by
  unfold run1x.sl.v438 run1x.sl.v437
  exact (load16_apply d s b2 (run1x.sl.dma0_2 d s f6) _ _ _ (1 : Fin 3) (s.val % 4 * 1024 + 208) (off_3_1_5 s) l (rowcol_lt s 208 (by decide) l)).trans
    (dma0_2_apply d s f6 1 _)

theorem off_3_1_6 : ∀ s : Fin (grid0.bound 1), k0_off12 (L1 s) 128#32 96#32 = ![1, s.val % 4 * 1024 + 224] := by decide +kernel
theorem row_v443_apply (s : Fin (grid0.bound 1)) (f6 : Buf (Elt F) (l6 d)) (b2 : Buf (Elt F) ((thr d (L1 s)).loc cc0_scratch2))
    (h : k0_cond2 (L1 s) = 1#1) (l : Fin 16) :
    run1x.sl.v443 d s f6 b2 h (ix1 l)
      = f6 (ix3 (⟨s.val / 4, tileB_lt s⟩ : Fin 4) (1 : Fin 3) (⟨s.val % 4 * 1024 + 224 + l.val, rowcol_lt s 224 (by decide) l⟩ : Fin 4096)) := by
  unfold run1x.sl.v443 run1x.sl.v442
  exact (load16_apply d s b2 (run1x.sl.dma0_2 d s f6) _ _ _ (1 : Fin 3) (s.val % 4 * 1024 + 224) (off_3_1_6 s) l (rowcol_lt s 224 (by decide) l)).trans
    (dma0_2_apply d s f6 1 _)

theorem off_3_1_7 : ∀ s : Fin (grid0.bound 1), k0_off12 (L1 s) 128#32 112#32 = ![1, s.val % 4 * 1024 + 240] := by decide +kernel
theorem row_v448_apply (s : Fin (grid0.bound 1)) (f6 : Buf (Elt F) (l6 d)) (b2 : Buf (Elt F) ((thr d (L1 s)).loc cc0_scratch2))
    (h : k0_cond2 (L1 s) = 1#1) (l : Fin 16) :
    run1x.sl.v448 d s f6 b2 h (ix1 l)
      = f6 (ix3 (⟨s.val / 4, tileB_lt s⟩ : Fin 4) (1 : Fin 3) (⟨s.val % 4 * 1024 + 240 + l.val, rowcol_lt s 240 (by decide) l⟩ : Fin 4096)) := by
  unfold run1x.sl.v448 run1x.sl.v447
  exact (load16_apply d s b2 (run1x.sl.dma0_2 d s f6) _ _ _ (1 : Fin 3) (s.val % 4 * 1024 + 240) (off_3_1_7 s) l (rowcol_lt s 240 (by decide) l)).trans
    (dma0_2_apply d s f6 1 _)

theorem off_3_2_0 : ∀ s : Fin (grid0.bound 1), k0_off13 (L1 s) 128#32 0#32 = ![2, s.val % 4 * 1024 + 128] := by decide +kernel
theorem row_v453_apply (s : Fin (grid0.bound 1)) (f6 : Buf (Elt F) (l6 d)) (b2 : Buf (Elt F) ((thr d (L1 s)).loc cc0_scratch2))
    (h : k0_cond2 (L1 s) = 1#1) (l : Fin 16) :
    run1x.sl.v453 d s f6 b2 h (ix1 l)
      = f6 (ix3 (⟨s.val / 4, tileB_lt s⟩ : Fin 4) (2 : Fin 3) (⟨s.val % 4 * 1024 + 128 + l.val, rowcol_lt s 128 (by decide) l⟩ : Fin 4096)) := by
  unfold run1x.sl.v453 run1x.sl.v452
  exact (load16_apply d s b2 (run1x.sl.dma0_2 d s f6) _ _ _ (2 : Fin 3) (s.val % 4 * 1024 + 128) (off_3_2_0 s) l (rowcol_lt s 128 (by decide) l)).trans
    (dma0_2_apply d s f6 2 _)

theorem off_3_2_1 : ∀ s : Fin (grid0.bound 1), k0_off13 (L1 s) 128#32 16#32 = ![2, s.val % 4 * 1024 + 144] := by decide +kernel
theorem row_v458_apply (s : Fin (grid0.bound 1)) (f6 : Buf (Elt F) (l6 d)) (b2 : Buf (Elt F) ((thr d (L1 s)).loc cc0_scratch2))
    (h : k0_cond2 (L1 s) = 1#1) (l : Fin 16) :
    run1x.sl.v458 d s f6 b2 h (ix1 l)
      = f6 (ix3 (⟨s.val / 4, tileB_lt s⟩ : Fin 4) (2 : Fin 3) (⟨s.val % 4 * 1024 + 144 + l.val, rowcol_lt s 144 (by decide) l⟩ : Fin 4096)) := by
  unfold run1x.sl.v458 run1x.sl.v457
  exact (load16_apply d s b2 (run1x.sl.dma0_2 d s f6) _ _ _ (2 : Fin 3) (s.val % 4 * 1024 + 144) (off_3_2_1 s) l (rowcol_lt s 144 (by decide) l)).trans
    (dma0_2_apply d s f6 2 _)

theorem off_3_2_2 : ∀ s : Fin (grid0.bound 1), k0_off13 (L1 s) 128#32 32#32 = ![2, s.val % 4 * 1024 + 160] := by decide +kernel
theorem row_v463_apply (s : Fin (grid0.bound 1)) (f6 : Buf (Elt F) (l6 d)) (b2 : Buf (Elt F) ((thr d (L1 s)).loc cc0_scratch2))
    (h : k0_cond2 (L1 s) = 1#1) (l : Fin 16) :
    run1x.sl.v463 d s f6 b2 h (ix1 l)
      = f6 (ix3 (⟨s.val / 4, tileB_lt s⟩ : Fin 4) (2 : Fin 3) (⟨s.val % 4 * 1024 + 160 + l.val, rowcol_lt s 160 (by decide) l⟩ : Fin 4096)) := by
  unfold run1x.sl.v463 run1x.sl.v462
  exact (load16_apply d s b2 (run1x.sl.dma0_2 d s f6) _ _ _ (2 : Fin 3) (s.val % 4 * 1024 + 160) (off_3_2_2 s) l (rowcol_lt s 160 (by decide) l)).trans
    (dma0_2_apply d s f6 2 _)

theorem off_3_2_3 : ∀ s : Fin (grid0.bound 1), k0_off13 (L1 s) 128#32 48#32 = ![2, s.val % 4 * 1024 + 176] := by decide +kernel
theorem row_r_18_apply (s : Fin (grid0.bound 1)) (f6 : Buf (Elt F) (l6 d)) (b2 : Buf (Elt F) ((thr d (L1 s)).loc cc0_scratch2))
    (h : k0_cond2 (L1 s) = 1#1) (l : Fin 16) :
    run1x.sl.r_18 d s f6 b2 h (ix1 l)
      = f6 (ix3 (⟨s.val / 4, tileB_lt s⟩ : Fin 4) (2 : Fin 3) (⟨s.val % 4 * 1024 + 176 + l.val, rowcol_lt s 176 (by decide) l⟩ : Fin 4096)) := by
  unfold run1x.sl.r_18 k0_pay2305 run1x.sl.v467
  exact (load16_apply d s b2 (run1x.sl.dma0_2 d s f6) _ _ _ (2 : Fin 3) (s.val % 4 * 1024 + 176) (off_3_2_3 s) l (rowcol_lt s 176 (by decide) l)).trans
    (dma0_2_apply d s f6 2 _)

theorem off_3_2_4 : ∀ s : Fin (grid0.bound 1), k0_off13 (L1 s) 128#32 64#32 = ![2, s.val % 4 * 1024 + 192] := by decide +kernel
theorem row_r_19_apply (s : Fin (grid0.bound 1)) (f6 : Buf (Elt F) (l6 d)) (b2 : Buf (Elt F) ((thr d (L1 s)).loc cc0_scratch2))
    (h : k0_cond2 (L1 s) = 1#1) (l : Fin 16) :
    run1x.sl.r_19 d s f6 b2 h (ix1 l)
      = f6 (ix3 (⟨s.val / 4, tileB_lt s⟩ : Fin 4) (2 : Fin 3) (⟨s.val % 4 * 1024 + 192 + l.val, rowcol_lt s 192 (by decide) l⟩ : Fin 4096)) := by
  unfold run1x.sl.r_19 k0_pay2306 run1x.sl.v472
  exact (load16_apply d s b2 (run1x.sl.dma0_2 d s f6) _ _ _ (2 : Fin 3) (s.val % 4 * 1024 + 192) (off_3_2_4 s) l (rowcol_lt s 192 (by decide) l)).trans
    (dma0_2_apply d s f6 2 _)

theorem off_3_2_5 : ∀ s : Fin (grid0.bound 1), k0_off13 (L1 s) 128#32 80#32 = ![2, s.val % 4 * 1024 + 208] := by decide +kernel
theorem row_r_20_apply (s : Fin (grid0.bound 1)) (f6 : Buf (Elt F) (l6 d)) (b2 : Buf (Elt F) ((thr d (L1 s)).loc cc0_scratch2))
    (h : k0_cond2 (L1 s) = 1#1) (l : Fin 16) :
    run1x.sl.r_20 d s f6 b2 h (ix1 l)
      = f6 (ix3 (⟨s.val / 4, tileB_lt s⟩ : Fin 4) (2 : Fin 3) (⟨s.val % 4 * 1024 + 208 + l.val, rowcol_lt s 208 (by decide) l⟩ : Fin 4096)) := by
  unfold run1x.sl.r_20 k0_pay2307 run1x.sl.v477
  exact (load16_apply d s b2 (run1x.sl.dma0_2 d s f6) _ _ _ (2 : Fin 3) (s.val % 4 * 1024 + 208) (off_3_2_5 s) l (rowcol_lt s 208 (by decide) l)).trans
    (dma0_2_apply d s f6 2 _)

theorem off_3_2_6 : ∀ s : Fin (grid0.bound 1), k0_off13 (L1 s) 128#32 96#32 = ![2, s.val % 4 * 1024 + 224] := by decide +kernel
theorem row_r_21_apply (s : Fin (grid0.bound 1)) (f6 : Buf (Elt F) (l6 d)) (b2 : Buf (Elt F) ((thr d (L1 s)).loc cc0_scratch2))
    (h : k0_cond2 (L1 s) = 1#1) (l : Fin 16) :
    run1x.sl.r_21 d s f6 b2 h (ix1 l)
      = f6 (ix3 (⟨s.val / 4, tileB_lt s⟩ : Fin 4) (2 : Fin 3) (⟨s.val % 4 * 1024 + 224 + l.val, rowcol_lt s 224 (by decide) l⟩ : Fin 4096)) := by
  unfold run1x.sl.r_21 k0_pay2308 run1x.sl.v482
  exact (load16_apply d s b2 (run1x.sl.dma0_2 d s f6) _ _ _ (2 : Fin 3) (s.val % 4 * 1024 + 224) (off_3_2_6 s) l (rowcol_lt s 224 (by decide) l)).trans
    (dma0_2_apply d s f6 2 _)

theorem off_3_2_7 : ∀ s : Fin (grid0.bound 1), k0_off13 (L1 s) 128#32 112#32 = ![2, s.val % 4 * 1024 + 240] := by decide +kernel
theorem row_r_22_apply (s : Fin (grid0.bound 1)) (f6 : Buf (Elt F) (l6 d)) (b2 : Buf (Elt F) ((thr d (L1 s)).loc cc0_scratch2))
    (h : k0_cond2 (L1 s) = 1#1) (l : Fin 16) :
    run1x.sl.r_22 d s f6 b2 h (ix1 l)
      = f6 (ix3 (⟨s.val / 4, tileB_lt s⟩ : Fin 4) (2 : Fin 3) (⟨s.val % 4 * 1024 + 240 + l.val, rowcol_lt s 240 (by decide) l⟩ : Fin 4096)) := by
  unfold run1x.sl.r_22 k0_pay2309 run1x.sl.v487
  exact (load16_apply d s b2 (run1x.sl.dma0_2 d s f6) _ _ _ (2 : Fin 3) (s.val % 4 * 1024 + 240) (off_3_2_7 s) l (rowcol_lt s 240 (by decide) l)).trans
    (dma0_2_apply d s f6 2 _)

end Cert.Proof.ScI

end
-- ==== Proof.ScNrm1_3.lean ====
import proofs.«209750_g45337674776763_cont_8to1c4_158_37_alg».proof.Proof.ScNrm1_2
import proofs.«209750_g45337674776763_cont_8to1c4_158_37_alg».proof.Proof.ScRows1_3
/-!
  The norm rows of group 1 of the second branch, read at a lane: the sixteen-lane loads of the buffer that holds
  the second set's batch (for the row norms), coordinate `a` of point `1024 (s % 4) + 128 + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem nrm_v492_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v492 d s f1 b3 h) shapeCasts_S1x16_S16 (ix1 l)
      = f1 (ix3 (⟨s.val / 4, tileB_lt s⟩ : Fin 4) (0 : Fin 3) (⟨s.val % 4 * 1024 + 128 + l.val, rowcol_lt s 128 (by decide) l⟩ : Fin 4096)) := by
  unfold run1x.sl.v492
  exact (load16B3_apply d s b3 (run1x.sl.dma0_3 d s f1) _ _ _ (0 : Fin 3) (s.val % 4 * 1024 + 128) (off_3_0_0 s) l (rowcol_lt s 128 (by decide) l)).trans
    (dma0_3_apply d s f1 0 _)

theorem nrm_v497_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v497 d s f1 b3 h) shapeCasts_S1x16_S16 (ix1 l)
      = f1 (ix3 (⟨s.val / 4, tileB_lt s⟩ : Fin 4) (1 : Fin 3) (⟨s.val % 4 * 1024 + 128 + l.val, rowcol_lt s 128 (by decide) l⟩ : Fin 4096)) := by
  unfold run1x.sl.v497
  exact (load16B3_apply d s b3 (run1x.sl.dma0_3 d s f1) _ _ _ (1 : Fin 3) (s.val % 4 * 1024 + 128) (off_3_1_0 s) l (rowcol_lt s 128 (by decide) l)).trans
    (dma0_3_apply d s f1 1 _)

theorem nrm_v502_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v502 d s f1 b3 h) shapeCasts_S1x16_S16 (ix1 l)
      = f1 (ix3 (⟨s.val / 4, tileB_lt s⟩ : Fin 4) (2 : Fin 3) (⟨s.val % 4 * 1024 + 128 + l.val, rowcol_lt s 128 (by decide) l⟩ : Fin 4096)) := by
  unfold run1x.sl.v502
  exact (load16B3_apply d s b3 (run1x.sl.dma0_3 d s f1) _ _ _ (2 : Fin 3) (s.val % 4 * 1024 + 128) (off_3_2_0 s) l (rowcol_lt s 128 (by decide) l)).trans
    (dma0_3_apply d s f1 2 _)

theorem nrm_v512_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v512 d s f1 b3 h) shapeCasts_S1x16_S16 (ix1 l)
      = f1 (ix3 (⟨s.val / 4, tileB_lt s⟩ : Fin 4) (0 : Fin 3) (⟨s.val % 4 * 1024 + 144 + l.val, rowcol_lt s 144 (by decide) l⟩ : Fin 4096)) := by
  unfold run1x.sl.v512
  exact (load16B3_apply d s b3 (run1x.sl.dma0_3 d s f1) _ _ _ (0 : Fin 3) (s.val % 4 * 1024 + 144) (off_3_0_1 s) l (rowcol_lt s 144 (by decide) l)).trans
    (dma0_3_apply d s f1 0 _)

theorem nrm_v517_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v517 d s f1 b3 h) shapeCasts_S1x16_S16 (ix1 l)
      = f1 (ix3 (⟨s.val / 4, tileB_lt s⟩ : Fin 4) (1 : Fin 3) (⟨s.val % 4 * 1024 + 144 + l.val, rowcol_lt s 144 (by decide) l⟩ : Fin 4096)) := by
  unfold run1x.sl.v517
  exact (load16B3_apply d s b3 (run1x.sl.dma0_3 d s f1) _ _ _ (1 : Fin 3) (s.val % 4 * 1024 + 144) (off_3_1_1 s) l (rowcol_lt s 144 (by decide) l)).trans
    (dma0_3_apply d s f1 1 _)

theorem nrm_v522_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v522 d s f1 b3 h) shapeCasts_S1x16_S16 (ix1 l)
      = f1 (ix3 (⟨s.val / 4, tileB_lt s⟩ : Fin 4) (2 : Fin 3) (⟨s.val % 4 * 1024 + 144 + l.val, rowcol_lt s 144 (by decide) l⟩ : Fin 4096)) := by
  unfold run1x.sl.v522
  exact (load16B3_apply d s b3 (run1x.sl.dma0_3 d s f1) _ _ _ (2 : Fin 3) (s.val % 4 * 1024 + 144) (off_3_2_1 s) l (rowcol_lt s 144 (by decide) l)).trans
    (dma0_3_apply d s f1 2 _)

theorem nrm_v532_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v532 d s f1 b3 h) shapeCasts_S1x16_S16 (ix1 l)
      = f1 (ix3 (⟨s.val / 4, tileB_lt s⟩ : Fin 4) (0 : Fin 3) (⟨s.val % 4 * 1024 + 160 + l.val, rowcol_lt s 160 (by decide) l⟩ : Fin 4096)) := by
  unfold run1x.sl.v532
  exact (load16B3_apply d s b3 (run1x.sl.dma0_3 d s f1) _ _ _ (0 : Fin 3) (s.val % 4 * 1024 + 160) (off_3_0_2 s) l (rowcol_lt s 160 (by decide) l)).trans
    (dma0_3_apply d s f1 0 _)

theorem nrm_v537_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v537 d s f1 b3 h) shapeCasts_S1x16_S16 (ix1 l)
      = f1 (ix3 (⟨s.val / 4, tileB_lt s⟩ : Fin 4) (1 : Fin 3) (⟨s.val % 4 * 1024 + 160 + l.val, rowcol_lt s 160 (by decide) l⟩ : Fin 4096)) := by
  unfold run1x.sl.v537
  exact (load16B3_apply d s b3 (run1x.sl.dma0_3 d s f1) _ _ _ (1 : Fin 3) (s.val % 4 * 1024 + 160) (off_3_1_2 s) l (rowcol_lt s 160 (by decide) l)).trans
    (dma0_3_apply d s f1 1 _)

theorem nrm_v542_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v542 d s f1 b3 h) shapeCasts_S1x16_S16 (ix1 l)
      = f1 (ix3 (⟨s.val / 4, tileB_lt s⟩ : Fin 4) (2 : Fin 3) (⟨s.val % 4 * 1024 + 160 + l.val, rowcol_lt s 160 (by decide) l⟩ : Fin 4096)) := by
  unfold run1x.sl.v542
  exact (load16B3_apply d s b3 (run1x.sl.dma0_3 d s f1) _ _ _ (2 : Fin 3) (s.val % 4 * 1024 + 160) (off_3_2_2 s) l (rowcol_lt s 160 (by decide) l)).trans
    (dma0_3_apply d s f1 2 _)

theorem nrm_v552_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v552 d s f1 b3 h) shapeCasts_S1x16_S16 (ix1 l)
      = f1 (ix3 (⟨s.val / 4, tileB_lt s⟩ : Fin 4) (0 : Fin 3) (⟨s.val % 4 * 1024 + 176 + l.val, rowcol_lt s 176 (by decide) l⟩ : Fin 4096)) := by
  unfold run1x.sl.v552
  exact (load16B3_apply d s b3 (run1x.sl.dma0_3 d s f1) _ _ _ (0 : Fin 3) (s.val % 4 * 1024 + 176) (off_3_0_3 s) l (rowcol_lt s 176 (by decide) l)).trans
    (dma0_3_apply d s f1 0 _)

theorem nrm_v557_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v557 d s f1 b3 h) shapeCasts_S1x16_S16 (ix1 l)
      = f1 (ix3 (⟨s.val / 4, tileB_lt s⟩ : Fin 4) (1 : Fin 3) (⟨s.val % 4 * 1024 + 176 + l.val, rowcol_lt s 176 (by decide) l⟩ : Fin 4096)) := by
  unfold run1x.sl.v557
  exact (load16B3_apply d s b3 (run1x.sl.dma0_3 d s f1) _ _ _ (1 : Fin 3) (s.val % 4 * 1024 + 176) (off_3_1_3 s) l (rowcol_lt s 176 (by decide) l)).trans
    (dma0_3_apply d s f1 1 _)

theorem nrm_v562_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v562 d s f1 b3 h) shapeCasts_S1x16_S16 (ix1 l)
      = f1 (ix3 (⟨s.val / 4, tileB_lt s⟩ : Fin 4) (2 : Fin 3) (⟨s.val % 4 * 1024 + 176 + l.val, rowcol_lt s 176 (by decide) l⟩ : Fin 4096)) := by
  unfold run1x.sl.v562
  exact (load16B3_apply d s b3 (run1x.sl.dma0_3 d s f1) _ _ _ (2 : Fin 3) (s.val % 4 * 1024 + 176) (off_3_2_3 s) l (rowcol_lt s 176 (by decide) l)).trans
    (dma0_3_apply d s f1 2 _)

theorem nrm_v572_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v572 d s f1 b3 h) shapeCasts_S1x16_S16 (ix1 l)
      = f1 (ix3 (⟨s.val / 4, tileB_lt s⟩ : Fin 4) (0 : Fin 3) (⟨s.val % 4 * 1024 + 192 + l.val, rowcol_lt s 192 (by decide) l⟩ : Fin 4096)) := by
  unfold run1x.sl.v572
  exact (load16B3_apply d s b3 (run1x.sl.dma0_3 d s f1) _ _ _ (0 : Fin 3) (s.val % 4 * 1024 + 192) (off_3_0_4 s) l (rowcol_lt s 192 (by decide) l)).trans
    (dma0_3_apply d s f1 0 _)

theorem nrm_v577_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v577 d s f1 b3 h) shapeCasts_S1x16_S16 (ix1 l)
      = f1 (ix3 (⟨s.val / 4, tileB_lt s⟩ : Fin 4) (1 : Fin 3) (⟨s.val % 4 * 1024 + 192 + l.val, rowcol_lt s 192 (by decide) l⟩ : Fin 4096)) := by
  unfold run1x.sl.v577
  exact (load16B3_apply d s b3 (run1x.sl.dma0_3 d s f1) _ _ _ (1 : Fin 3) (s.val % 4 * 1024 + 192) (off_3_1_4 s) l (rowcol_lt s 192 (by decide) l)).trans
    (dma0_3_apply d s f1 1 _)

theorem nrm_v582_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v582 d s f1 b3 h) shapeCasts_S1x16_S16 (ix1 l)
      = f1 (ix3 (⟨s.val / 4, tileB_lt s⟩ : Fin 4) (2 : Fin 3) (⟨s.val % 4 * 1024 + 192 + l.val, rowcol_lt s 192 (by decide) l⟩ : Fin 4096)) := by
  unfold run1x.sl.v582
  exact (load16B3_apply d s b3 (run1x.sl.dma0_3 d s f1) _ _ _ (2 : Fin 3) (s.val % 4 * 1024 + 192) (off_3_2_4 s) l (rowcol_lt s 192 (by decide) l)).trans
    (dma0_3_apply d s f1 2 _)

theorem nrm_v592_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v592 d s f1 b3 h) shapeCasts_S1x16_S16 (ix1 l)
      = f1 (ix3 (⟨s.val / 4, tileB_lt s⟩ : Fin 4) (0 : Fin 3) (⟨s.val % 4 * 1024 + 208 + l.val, rowcol_lt s 208 (by decide) l⟩ : Fin 4096)) := by
  unfold run1x.sl.v592
  exact (load16B3_apply d s b3 (run1x.sl.dma0_3 d s f1) _ _ _ (0 : Fin 3) (s.val % 4 * 1024 + 208) (off_3_0_5 s) l (rowcol_lt s 208 (by decide) l)).trans
    (dma0_3_apply d s f1 0 _)

theorem nrm_v597_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v597 d s f1 b3 h) shapeCasts_S1x16_S16 (ix1 l)
      = f1 (ix3 (⟨s.val / 4, tileB_lt s⟩ : Fin 4) (1 : Fin 3) (⟨s.val % 4 * 1024 + 208 + l.val, rowcol_lt s 208 (by decide) l⟩ : Fin 4096)) := by
  unfold run1x.sl.v597
  exact (load16B3_apply d s b3 (run1x.sl.dma0_3 d s f1) _ _ _ (1 : Fin 3) (s.val % 4 * 1024 + 208) (off_3_1_5 s) l (rowcol_lt s 208 (by decide) l)).trans
    (dma0_3_apply d s f1 1 _)

theorem nrm_v602_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v602 d s f1 b3 h) shapeCasts_S1x16_S16 (ix1 l)
      = f1 (ix3 (⟨s.val / 4, tileB_lt s⟩ : Fin 4) (2 : Fin 3) (⟨s.val % 4 * 1024 + 208 + l.val, rowcol_lt s 208 (by decide) l⟩ : Fin 4096)) := by
  unfold run1x.sl.v602
  exact (load16B3_apply d s b3 (run1x.sl.dma0_3 d s f1) _ _ _ (2 : Fin 3) (s.val % 4 * 1024 + 208) (off_3_2_5 s) l (rowcol_lt s 208 (by decide) l)).trans
    (dma0_3_apply d s f1 2 _)

theorem nrm_v612_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v612 d s f1 b3 h) shapeCasts_S1x16_S16 (ix1 l)
      = f1 (ix3 (⟨s.val / 4, tileB_lt s⟩ : Fin 4) (0 : Fin 3) (⟨s.val % 4 * 1024 + 224 + l.val, rowcol_lt s 224 (by decide) l⟩ : Fin 4096)) := by
  unfold run1x.sl.v612
  exact (load16B3_apply d s b3 (run1x.sl.dma0_3 d s f1) _ _ _ (0 : Fin 3) (s.val % 4 * 1024 + 224) (off_3_0_6 s) l (rowcol_lt s 224 (by decide) l)).trans
    (dma0_3_apply d s f1 0 _)

theorem nrm_v617_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v617 d s f1 b3 h) shapeCasts_S1x16_S16 (ix1 l)
      = f1 (ix3 (⟨s.val / 4, tileB_lt s⟩ : Fin 4) (1 : Fin 3) (⟨s.val % 4 * 1024 + 224 + l.val, rowcol_lt s 224 (by decide) l⟩ : Fin 4096)) := by
  unfold run1x.sl.v617
  exact (load16B3_apply d s b3 (run1x.sl.dma0_3 d s f1) _ _ _ (1 : Fin 3) (s.val % 4 * 1024 + 224) (off_3_1_6 s) l (rowcol_lt s 224 (by decide) l)).trans
    (dma0_3_apply d s f1 1 _)

theorem nrm_v622_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v622 d s f1 b3 h) shapeCasts_S1x16_S16 (ix1 l)
      = f1 (ix3 (⟨s.val / 4, tileB_lt s⟩ : Fin 4) (2 : Fin 3) (⟨s.val % 4 * 1024 + 224 + l.val, rowcol_lt s 224 (by decide) l⟩ : Fin 4096)) := by
  unfold run1x.sl.v622
  exact (load16B3_apply d s b3 (run1x.sl.dma0_3 d s f1) _ _ _ (2 : Fin 3) (s.val % 4 * 1024 + 224) (off_3_2_6 s) l (rowcol_lt s 224 (by decide) l)).trans
    (dma0_3_apply d s f1 2 _)

theorem nrm_v632_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v632 d s f1 b3 h) shapeCasts_S1x16_S16 (ix1 l)
      = f1 (ix3 (⟨s.val / 4, tileB_lt s⟩ : Fin 4) (0 : Fin 3) (⟨s.val % 4 * 1024 + 240 + l.val, rowcol_lt s 240 (by decide) l⟩ : Fin 4096)) := by
  unfold run1x.sl.v632
  exact (load16B3_apply d s b3 (run1x.sl.dma0_3 d s f1) _ _ _ (0 : Fin 3) (s.val % 4 * 1024 + 240) (off_3_0_7 s) l (rowcol_lt s 240 (by decide) l)).trans
    (dma0_3_apply d s f1 0 _)

theorem nrm_v637_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v637 d s f1 b3 h) shapeCasts_S1x16_S16 (ix1 l)
      = f1 (ix3 (⟨s.val / 4, tileB_lt s⟩ : Fin 4) (1 : Fin 3) (⟨s.val % 4 * 1024 + 240 + l.val, rowcol_lt s 240 (by decide) l⟩ : Fin 4096)) := by
  unfold run1x.sl.v637
  exact (load16B3_apply d s b3 (run1x.sl.dma0_3 d s f1) _ _ _ (1 : Fin 3) (s.val % 4 * 1024 + 240) (off_3_1_7 s) l (rowcol_lt s 240 (by decide) l)).trans
    (dma0_3_apply d s f1 1 _)

theorem nrm_v642_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v642 d s f1 b3 h) shapeCasts_S1x16_S16 (ix1 l)
      = f1 (ix3 (⟨s.val / 4, tileB_lt s⟩ : Fin 4) (2 : Fin 3) (⟨s.val % 4 * 1024 + 240 + l.val, rowcol_lt s 240 (by decide) l⟩ : Fin 4096)) := by
  unfold run1x.sl.v642
  exact (load16B3_apply d s b3 (run1x.sl.dma0_3 d s f1) _ _ _ (2 : Fin 3) (s.val % 4 * 1024 + 240) (off_3_2_7 s) l (rowcol_lt s 240 (by decide) l)).trans
    (dma0_3_apply d s f1 2 _)

end Cert.Proof.ScI

end
-- ==== Proof.ScBridge1G3.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_3
import proofs.«209750_g45337674776763_cont_8to1c4_158_37_alg».proof.Proof.ScRows1_3
import proofs.«209750_g45337674776763_cont_8to1c4_158_37_alg».proof.Proof.ScNrm1_3
import proofs.«209750_g45337674776763_cont_8to1c4_158_37_alg».proof.Proof.ScX1a

/-!
  The second SparseCore branch's group 1 of words (`128` to `255` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group1 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 128 ≤ (j 0).val) (hhi : (j 0).val < 256) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 128 + 16 * J.val + l.val :=
    ⟨⟨((j 0).val - 128) / 16, by omega⟩, ⟨((j 0).val - 128) % 16, by omega⟩,
      by show _ = 128 + 16 * (((j 0).val - 128) / 16) + ((j 0).val - 128) % 16; omega⟩
  have er : (⟨s.val % 4 * 1024 + (j 0).val, by have : s.val < 16 := s.isLt; have : (j 0).val < 1024 := (j 0).isLt; omega⟩ : Fin 4096) = (⟨s.val % 4 * 1024 + (128 + 16 * J.val) + l.val, by have := l.isLt; have := J.isLt; omega⟩ : Fin 4096) :=
    Fin.ext (by show s.val % 4 * 1024 + (j 0).val = s.val % 4 * 1024 + (128 + 16 * J.val) + l.val; omega)
  rw [er]
  delta X1of
  refine (W1_read1 d s f1 b3 b4 (h2_L1 s) _ _ _ _ _ _ _ _ j J l hj).trans ?_
  delta A3of
  obtain ⟨Jv, hJv⟩ := J
  interval_cases Jv
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.r_16 d s f6 b2 (h2_L1 s)) (run1x.sl.v413 d s f6 b2 (h2_L1 s)) (run1x.sl.v453 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_r_16_apply (F := Ideal) d s f6 b2 (h2_L1 s) l) (row_v413_apply (F := Ideal) d s f6 b2 (h2_L1 s) l) (row_v453_apply (F := Ideal) d s f6 b2 (h2_L1 s) l)
      (nrm_v492_apply (F := Ideal) d s f1 b3 (h2_L1 s) l) (nrm_v497_apply (F := Ideal) d s f1 b3 (h2_L1 s) l) (nrm_v502_apply (F := Ideal) d s f1 b3 (h2_L1 s) l)
      (C0of_apply (F := Ideal) d s f7 b0) (C1of_apply (F := Ideal) d s f8 b1)
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.r_17 d s f6 b2 (h2_L1 s)) (run1x.sl.v418 d s f6 b2 (h2_L1 s)) (run1x.sl.v458 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_r_17_apply (F := Ideal) d s f6 b2 (h2_L1 s) l) (row_v418_apply (F := Ideal) d s f6 b2 (h2_L1 s) l) (row_v458_apply (F := Ideal) d s f6 b2 (h2_L1 s) l)
      (nrm_v512_apply (F := Ideal) d s f1 b3 (h2_L1 s) l) (nrm_v517_apply (F := Ideal) d s f1 b3 (h2_L1 s) l) (nrm_v522_apply (F := Ideal) d s f1 b3 (h2_L1 s) l)
      (C0of_apply (F := Ideal) d s f7 b0) (C1of_apply (F := Ideal) d s f8 b1)
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.v383 d s f6 b2 (h2_L1 s)) (run1x.sl.v423 d s f6 b2 (h2_L1 s)) (run1x.sl.v463 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_v383_apply (F := Ideal) d s f6 b2 (h2_L1 s) l) (row_v423_apply (F := Ideal) d s f6 b2 (h2_L1 s) l) (row_v463_apply (F := Ideal) d s f6 b2 (h2_L1 s) l)
      (nrm_v532_apply (F := Ideal) d s f1 b3 (h2_L1 s) l) (nrm_v537_apply (F := Ideal) d s f1 b3 (h2_L1 s) l) (nrm_v542_apply (F := Ideal) d s f1 b3 (h2_L1 s) l)
      (C0of_apply (F := Ideal) d s f7 b0) (C1of_apply (F := Ideal) d s f8 b1)
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.v388 d s f6 b2 (h2_L1 s)) (run1x.sl.v428 d s f6 b2 (h2_L1 s)) (run1x.sl.r_18 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_v388_apply (F := Ideal) d s f6 b2 (h2_L1 s) l) (row_v428_apply (F := Ideal) d s f6 b2 (h2_L1 s) l) (row_r_18_apply (F := Ideal) d s f6 b2 (h2_L1 s) l)
      (nrm_v552_apply (F := Ideal) d s f1 b3 (h2_L1 s) l) (nrm_v557_apply (F := Ideal) d s f1 b3 (h2_L1 s) l) (nrm_v562_apply (F := Ideal) d s f1 b3 (h2_L1 s) l)
      (C0of_apply (F := Ideal) d s f7 b0) (C1of_apply (F := Ideal) d s f8 b1)
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.v393 d s f6 b2 (h2_L1 s)) (run1x.sl.v433 d s f6 b2 (h2_L1 s)) (run1x.sl.r_19 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_v393_apply (F := Ideal) d s f6 b2 (h2_L1 s) l) (row_v433_apply (F := Ideal) d s f6 b2 (h2_L1 s) l) (row_r_19_apply (F := Ideal) d s f6 b2 (h2_L1 s) l)
      (nrm_v572_apply (F := Ideal) d s f1 b3 (h2_L1 s) l) (nrm_v577_apply (F := Ideal) d s f1 b3 (h2_L1 s) l) (nrm_v582_apply (F := Ideal) d s f1 b3 (h2_L1 s) l)
      (C0of_apply (F := Ideal) d s f7 b0) (C1of_apply (F := Ideal) d s f8 b1)
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.v398 d s f6 b2 (h2_L1 s)) (run1x.sl.v438 d s f6 b2 (h2_L1 s)) (run1x.sl.r_20 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_v398_apply (F := Ideal) d s f6 b2 (h2_L1 s) l) (row_v438_apply (F := Ideal) d s f6 b2 (h2_L1 s) l) (row_r_20_apply (F := Ideal) d s f6 b2 (h2_L1 s) l)
      (nrm_v592_apply (F := Ideal) d s f1 b3 (h2_L1 s) l) (nrm_v597_apply (F := Ideal) d s f1 b3 (h2_L1 s) l) (nrm_v602_apply (F := Ideal) d s f1 b3 (h2_L1 s) l)
      (C0of_apply (F := Ideal) d s f7 b0) (C1of_apply (F := Ideal) d s f8 b1)
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.v403 d s f6 b2 (h2_L1 s)) (run1x.sl.v443 d s f6 b2 (h2_L1 s)) (run1x.sl.r_21 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v403_apply (F := Ideal) d s f6 b2 (h2_L1 s) l) (row_v443_apply (F := Ideal) d s f6 b2 (h2_L1 s) l) (row_r_21_apply (F := Ideal) d s f6 b2 (h2_L1 s) l)
      (nrm_v612_apply (F := Ideal) d s f1 b3 (h2_L1 s) l) (nrm_v617_apply (F := Ideal) d s f1 b3 (h2_L1 s) l) (nrm_v622_apply (F := Ideal) d s f1 b3 (h2_L1 s) l)
      (C0of_apply (F := Ideal) d s f7 b0) (C1of_apply (F := Ideal) d s f8 b1)
  · refine (congrArg (fun x => max (_ + x) 0) (block_all3 d (L1 s) (h2_L1 s) (run1x.sl.r_16 d s f6 b2 (h2_L1 s)) (run1x.sl.r_17 d s f6 b2 (h2_L1 s)) (run1x.sl.v383 d s f6 b2 (h2_L1 s)) (run1x.sl.v388 d s f6 b2 (h2_L1 s)) (run1x.sl.v393 d s f6 b2 (h2_L1 s)) (run1x.sl.v398 d s f6 b2 (h2_L1 s)) (run1x.sl.v403 d s f6 b2 (h2_L1 s)) (run1x.sl.v408 d s f6 b2 (h2_L1 s)) (run1x.sl.v413 d s f6 b2 (h2_L1 s)) (run1x.sl.v418 d s f6 b2 (h2_L1 s)) (run1x.sl.v423 d s f6 b2 (h2_L1 s)) (run1x.sl.v428 d s f6 b2 (h2_L1 s)) (run1x.sl.v433 d s f6 b2 (h2_L1 s)) (run1x.sl.v438 d s f6 b2 (h2_L1 s)) (run1x.sl.v443 d s f6 b2 (h2_L1 s)) (run1x.sl.v448 d s f6 b2 (h2_L1 s)) (run1x.sl.v453 d s f6 b2 (h2_L1 s)) (run1x.sl.v458 d s f6 b2 (h2_L1 s)) (run1x.sl.v463 d s f6 b2 (h2_L1 s)) (run1x.sl.r_18 d s f6 b2 (h2_L1 s)) (run1x.sl.r_19 d s f6 b2 (h2_L1 s)) (run1x.sl.r_20 d s f6 b2 (h2_L1 s)) (run1x.sl.r_21 d s f6 b2 (h2_L1 s)) (run1x.sl.r_22 d s f6 b2 (h2_L1 s)) (C0of d s f7 b0) (C1of d s f8 b1) (k0_pay2323, k0_pay2323, k0_pay2323, k0_pay2323, k0_pay2323, k0_pay2323, k0_pay2323, k0_pay2323)
        (run1x.sl.v408 d s f6 b2 (h2_L1 s)) (run1x.sl.v448 d s f6 b2 (h2_L1 s)) (run1x.sl.r_22 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v408_apply (F := Ideal) d s f6 b2 (h2_L1 s) l) (row_v448_apply (F := Ideal) d s f6 b2 (h2_L1 s) l) (row_r_22_apply (F := Ideal) d s f6 b2 (h2_L1 s) l)
      (nrm_v632_apply (F := Ideal) d s f1 b3 (h2_L1 s) l) (nrm_v637_apply (F := Ideal) d s f1 b3 (h2_L1 s) l) (nrm_v642_apply (F := Ideal) d s f1 b3 (h2_L1 s) l)
      (C0of_apply (F := Ideal) d s f7 b0) (C1of_apply (F := Ideal) d s f8 b1)

end Cert.Proof.ScI

end
-- ==== Proof.ScMath1_4.lean ====
import proofs.«209750_g45337674776763_cont_8to1c4_158_37_alg».proof.Proof.ScMath4
import proofs.«209750_g45337674776763_cont_8to1c4_158_37_alg».proof.Proof.ScVal1_4
/-!
  Scan loop 3 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips4_eq : k0_t4_loop.trips = 32 := by decide

theorem chunk4_lt (k : Fin k0_t4_loop.trips) (i : Fin 16) : 16 * k.val + i.val < 512 := by
  have h1 : k.val < 32 := lt_of_lt_of_eq k.isLt trips4_eq
  have h2 := i.isLt
  omega

section Generic
variable {F : FTy → Type} [FloatOps F]
/-- Coordinate `a` of the chunk trip `k` loads, at lane `i`: the strip buffer at row `a`, column `16 k + i`. -/
theorem ldv4_apply (L : grid0.Coords) (k0_h2 : k0_cond2 L = 1#1) (k : Fin k0_t4_loop.trips)
    (c : Buf (Elt F) ((B0).view.loc (thr d L))) (a : Fin 3) (i : Fin 16) :
    ldv4 d L k0_h2 k c a (ix1 i) = c (ix2 a (⟨16 * k.val + i.val, chunk4_lt k i⟩ : Fin 512)) := by
  match a with
  | 0 =>
    show shapeCast S16 ((B0).view.readAt (Elt F) (Rect.unit (s := S3x512) (k0_off20 k) S1x16.size (k0_off20_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off20_eq k]
    | ⟨1, _⟩ => simp [LoadRect.idx_apply, k0_off20_eq k]
  | 1 =>
    show shapeCast S16 ((B0).view.readAt (Elt F) (Rect.unit (s := S3x512) (k0_off21 k) S1x16.size (k0_off21_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off21_eq k]
    | ⟨1, _⟩ => simp [LoadRect.idx_apply, k0_off21_eq k]
  | 2 =>
    show shapeCast S16 ((B0).view.readAt (Elt F) (Rect.unit (s := S3x512) (k0_off22 k) S1x16.size (k0_off22_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off22_eq k]
    | ⟨1, _⟩ => simp [LoadRect.idx_apply, k0_off22_eq k]
end Generic

/-- One trip's chunk against a block of rows, at a lane: the sixteen candidates `16 k + i`. -/
theorem trip_chunk4_apply (L : grid0.Coords) (k0_h2 : k0_cond2 L = 1#1) (rx ry rz cur : FVec Ideal S16 .f32)
    (k : Fin k0_t4_loop.trips) (c0 c1 : Buf (Elt Ideal) ((B0).view.loc (thr d L))) (l : S16.Idx) :
    chunk rx ry rz cur (ldv4 d L k0_h2 k c0 0) (ldv4 d L k0_h2 k c0 1) (ldv4 d L k0_h2 k c0 2)
        (nrmv (ldv4 d L k0_h2 k c1 0) (ldv4 d L k0_h2 k c1 1) (ldv4 d L k0_h2 k c1 2)) l
      = (Finset.univ : Finset (Fin 16)).fold min (cur l) (fun i => termS d L rx ry rz c0 c1 l ⟨16 * k.val + i.val, chunk4_lt k i⟩) := by
  rw [chunk_apply]
  simp only [nrmv_apply, ldv4_apply, termS, rdS]

/-- A block's carried minimum before trip `K`, at a lane. -/
theorem block_iter4 (L : grid0.Coords) (k0_h2 : k0_cond2 L = 1#1) (v705 : FVec Ideal S16 .f32) (v710 : FVec Ideal S16 .f32) (v715 : FVec Ideal S16 .f32) (v720 : FVec Ideal S16 .f32) (v725 : FVec Ideal S16 .f32) (v730 : FVec Ideal S16 .f32) (v735 : FVec Ideal S16 .f32) (v740 : FVec Ideal S16 .f32) (v745 : FVec Ideal S16 .f32) (v750 : FVec Ideal S16 .f32) (v755 : FVec Ideal S16 .f32) (v760 : FVec Ideal S16 .f32) (v765 : FVec Ideal S16 .f32) (v770 : FVec Ideal S16 .f32) (v775 : FVec Ideal S16 .f32) (v780 : FVec Ideal S16 .f32) (v785 : FVec Ideal S16 .f32) (v790 : FVec Ideal S16 .f32) (v795 : FVec Ideal S16 .f32) (v800 : FVec Ideal S16 .f32) (v805 : FVec Ideal S16 .f32) (v810 : FVec Ideal S16 .f32) (v815 : FVec Ideal S16 .f32) (v820 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t4_loop.trips) (acc : Acc Ideal),
      sel (tripSpec4 d L k0_h2 v705 v710 v715 v720 v725 v730 v735 v740 v745 v750 v755 v760 v765 v770 v775 v780 v785 v790 v795 v800 v805 v810 v815 v820 k c0 c1 acc)
        = chunk rx ry rz (sel acc) (ldv4 d L k0_h2 k c0 0) (ldv4 d L k0_h2 k c0 1) (ldv4 d L k0_h2 k c0 2)
            (nrmv (ldv4 d L k0_h2 k c1 0) (ldv4 d L k0_h2 k c1 1) (ldv4 d L k0_h2 k c1 2)))
    (l : S16.Idx) : ∀ K : ℕ, K ≤ 32 →
      sel (iter4 d L k0_h2 v705 v710 v715 v720 v725 v730 v735 v740 v745 v750 v755 v760 v765 v770 v775 v780 v785 v790 v795 v800 v805 v810 v815 v820 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t4_loop.trips := by rw [trips4_eq]; omega
    have hs := iter4_succ d L k0_h2 v705 v710 v715 v720 v725 v730 v735 v740 v745 v750 v755 v760 v765 v770 v775 v780 v785 v790 v795 v800 v805 v810 v815 v820 c0 c1 init ⟨K, hk⟩
    rw [show K + 1 = (⟨K, hk⟩ : Fin k0_t4_loop.trips).val + 1 from rfl, hs, hsel, trip_chunk4_apply,
      block_iter4 L k0_h2 v705 v710 v715 v720 v725 v730 v735 v740 v745 v750 v755 v760 v765 v770 v775 v780 v785 v790 v795 v800 v805 v810 v815 v820 c0 c1 init rx ry rz sel hsel l K (by omega)]
    exact fold_stepM (termS d L rx ry rz c0 c1 l) (sel init l) K (by omega)

/-- After all 32 trips, from lanes that start at `⊤`: the minimum over every candidate of the strip. -/
theorem block_all4 (L : grid0.Coords) (k0_h2 : k0_cond2 L = 1#1) (v705 : FVec Ideal S16 .f32) (v710 : FVec Ideal S16 .f32) (v715 : FVec Ideal S16 .f32) (v720 : FVec Ideal S16 .f32) (v725 : FVec Ideal S16 .f32) (v730 : FVec Ideal S16 .f32) (v735 : FVec Ideal S16 .f32) (v740 : FVec Ideal S16 .f32) (v745 : FVec Ideal S16 .f32) (v750 : FVec Ideal S16 .f32) (v755 : FVec Ideal S16 .f32) (v760 : FVec Ideal S16 .f32) (v765 : FVec Ideal S16 .f32) (v770 : FVec Ideal S16 .f32) (v775 : FVec Ideal S16 .f32) (v780 : FVec Ideal S16 .f32) (v785 : FVec Ideal S16 .f32) (v790 : FVec Ideal S16 .f32) (v795 : FVec Ideal S16 .f32) (v800 : FVec Ideal S16 .f32) (v805 : FVec Ideal S16 .f32) (v810 : FVec Ideal S16 .f32) (v815 : FVec Ideal S16 .f32) (v820 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t4_loop.trips) (acc : Acc Ideal),
      sel (tripSpec4 d L k0_h2 v705 v710 v715 v720 v725 v730 v735 v740 v745 v750 v755 v760 v765 v770 v775 v780 v785 v790 v795 v800 v805 v810 v815 v820 k c0 c1 acc)
        = chunk rx ry rz (sel acc) (ldv4 d L k0_h2 k c0 0) (ldv4 d L k0_h2 k c0 1) (ldv4 d L k0_h2 k c0 2)
            (nrmv (ldv4 d L k0_h2 k c1 0) (ldv4 d L k0_h2 k c1 1) (ldv4 d L k0_h2 k c1 2)))
    (l : S16.Idx) (htop : sel init l = (⊤ : EReal)) :
    sel (iter4 d L k0_h2 v705 v710 v715 v720 v725 v730 v735 v740 v745 v750 v755 v760 v765 v770 v775 v780 v785 v790 v795 v800 v805 v810 v815 v820 c0 c1 init k0_t4_loop.trips) l
      = (Finset.univ : Finset (Fin 512)).fold min (⊤ : EReal) (termS d L rx ry rz c0 c1 l) := by
  rw [trips4_eq, block_iter4 d L k0_h2 v705 v710 v715 v720 v725 v730 v735 v740 v745 v750 v755 v760 v765 v770 v775 v780 v785 v790 v795 v800 v805 v810 v815 v820 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScRows1_4.lean ====
import proofs.«209750_g45337674776763_cont_8to1c4_158_37_alg».proof.Proof.ScRows1_2
/-!
  The twenty-four row vectors of scan 3 of the second branch, read at a lane: coordinate `a` of point
  `1024 (s % 4) + 256 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem off_4_0_0 : ∀ s : Fin (grid0.bound 1), k0_off11 (L1 s) 256#32 0#32 = ![0, s.val % 4 * 1024 + 256] := by decide +kernel
theorem row_r_39_apply (s : Fin (grid0.bound 1)) (f6 : Buf (Elt F) (l6 d)) (b2 : Buf (Elt F) ((thr d (L1 s)).loc cc0_scratch2))
    (h : k0_cond2 (L1 s) = 1#1) (l : Fin 16) :
    run1x.sl.r_39 d s f6 b2 h (ix1 l)
      = f6 (ix3 (⟨s.val / 4, tileB_lt s⟩ : Fin 4) (0 : Fin 3) (⟨s.val % 4 * 1024 + 256 + l.val, rowcol_lt s 256 (by decide) l⟩ : Fin 4096)) := by
  unfold run1x.sl.r_39 k0_pay2335 run1x.sl.v704
  exact (load16_apply d s b2 (run1x.sl.dma0_2 d s f6) _ _ _ (0 : Fin 3) (s.val % 4 * 1024 + 256) (off_4_0_0 s) l (rowcol_lt s 256 (by decide) l)).trans
    (dma0_2_apply d s f6 0 _)

theorem off_4_0_1 : ∀ s : Fin (grid0.bound 1), k0_off11 (L1 s) 256#32 16#32 = ![0, s.val % 4 * 1024 + 272] := by decide +kernel
theorem row_r_40_apply (s : Fin (grid0.bound 1)) (f6 : Buf (Elt F) (l6 d)) (b2 : Buf (Elt F) ((thr d (L1 s)).loc cc0_scratch2))
    (h : k0_cond2 (L1 s) = 1#1) (l : Fin 16) :
    run1x.sl.r_40 d s f6 b2 h (ix1 l)
      = f6 (ix3 (⟨s.val / 4, tileB_lt s⟩ : Fin 4) (0 : Fin 3) (⟨s.val % 4 * 1024 + 272 + l.val, rowcol_lt s 272 (by decide) l⟩ : Fin 4096)) := by
  unfold run1x.sl.r_40 k0_pay2336 run1x.sl.v709
  exact (load16_apply d s b2 (run1x.sl.dma0_2 d s f6) _ _ _ (0 : Fin 3) (s.val % 4 * 1024 + 272) (off_4_0_1 s) l (rowcol_lt s 272 (by decide) l)).trans
    (dma0_2_apply d s f6 0 _)

theorem off_4_0_2 : ∀ s : Fin (grid0.bound 1), k0_off11 (L1 s) 256#32 32#32 = ![0, s.val % 4 * 1024 + 288] := by decide +kernel
theorem row_r_41_apply (s : Fin (grid0.bound 1)) (f6 : Buf (Elt F) (l6 d)) (b2 : Buf (Elt F) ((thr d (L1 s)).loc cc0_scratch2))
    (h : k0_cond2 (L1 s) = 1#1) (l : Fin 16) :
    run1x.sl.r_41 d s f6 b2 h (ix1 l)
      = f6 (ix3 (⟨s.val / 4, tileB_lt s⟩ : Fin 4) (0 : Fin 3) (⟨s.val % 4 * 1024 + 288 + l.val, rowcol_lt s 288 (by decide) l⟩ : Fin 4096)) := by
  unfold run1x.sl.r_41 k0_pay2337 run1x.sl.v714
  exact (load16_apply d s b2 (run1x.sl.dma0_2 d s f6) _ _ _ (0 : Fin 3) (s.val % 4 * 1024 + 288) (off_4_0_2 s) l (rowcol_lt s 288 (by decide) l)).trans
    (dma0_2_apply d s f6 0 _)

theorem off_4_0_3 : ∀ s : Fin (grid0.bound 1), k0_off11 (L1 s) 256#32 48#32 = ![0, s.val % 4 * 1024 + 304] := by decide +kernel
theorem row_r_42_apply (s : Fin (grid0.bound 1)) (f6 : Buf (Elt F) (l6 d)) (b2 : Buf (Elt F) ((thr d (L1 s)).loc cc0_scratch2))
    (h : k0_cond2 (L1 s) = 1#1) (l : Fin 16) :
    run1x.sl.r_42 d s f6 b2 h (ix1 l)
      = f6 (ix3 (⟨s.val / 4, tileB_lt s⟩ : Fin 4) (0 : Fin 3) (⟨s.val % 4 * 1024 + 304 + l.val, rowcol_lt s 304 (by decide) l⟩ : Fin 4096)) := by
  unfold run1x.sl.r_42 k0_pay2338 run1x.sl.v719
  exact (load16_apply d s b2 (run1x.sl.dma0_2 d s f6) _ _ _ (0 : Fin 3) (s.val % 4 * 1024 + 304) (off_4_0_3 s) l (rowcol_lt s 304 (by decide) l)).trans
    (dma0_2_apply d s f6 0 _)

theorem off_4_0_4 : ∀ s : Fin (grid0.bound 1), k0_off11 (L1 s) 256#32 64#32 = ![0, s.val % 4 * 1024 + 320] := by decide +kernel
theorem row_r_43_apply (s : Fin (grid0.bound 1)) (f6 : Buf (Elt F) (l6 d)) (b2 : Buf (Elt F) ((thr d (L1 s)).loc cc0_scratch2))
    (h : k0_cond2 (L1 s) = 1#1) (l : Fin 16) :
    run1x.sl.r_43 d s f6 b2 h (ix1 l)
      = f6 (ix3 (⟨s.val / 4, tileB_lt s⟩ : Fin 4) (0 : Fin 3) (⟨s.val % 4 * 1024 + 320 + l.val, rowcol_lt s 320 (by decide) l⟩ : Fin 4096)) := by
  unfold run1x.sl.r_43 k0_pay2339 run1x.sl.v724
  exact (load16_apply d s b2 (run1x.sl.dma0_2 d s f6) _ _ _ (0 : Fin 3) (s.val % 4 * 1024 + 320) (off_4_0_4 s) l (rowcol_lt s 320 (by decide) l)).trans
    (dma0_2_apply d s f6 0 _)

theorem off_4_0_5 : ∀ s : Fin (grid0.bound 1), k0_off11 (L1 s) 256#32 80#32 = ![0, s.val % 4 * 1024 + 336] := by decide +kernel
theorem row_v730_apply (s : Fin (grid0.bound 1)) (f6 : Buf (Elt F) (l6 d)) (b2 : Buf (Elt F) ((thr d (L1 s)).loc cc0_scratch2))
    (h : k0_cond2 (L1 s) = 1#1) (l : Fin 16) :
    run1x.sl.v730 d s f6 b2 h (ix1 l)
      = f6 (ix3 (⟨s.val / 4, tileB_lt s⟩ : Fin 4) (0 : Fin 3) (⟨s.val % 4 * 1024 + 336 + l.val, rowcol_lt s 336 (by decide) l⟩ : Fin 4096)) := by
  unfold run1x.sl.v730 run1x.sl.v729
  exact (load16_apply d s b2 (run1x.sl.dma0_2 d s f6) _ _ _ (0 : Fin 3) (s.val % 4 * 1024 + 336) (off_4_0_5 s) l (rowcol_lt s 336 (by decide) l)).trans
    (dma0_2_apply d s f6 0 _)

theorem off_4_0_6 : ∀ s : Fin (grid0.bound 1), k0_off11 (L1 s) 256#32 96#32 = ![0, s.val % 4 * 1024 + 352] := by decide +kernel
theorem row_v735_apply (s : Fin (grid0.bound 1)) (f6 : Buf (Elt F) (l6 d)) (b2 : Buf (Elt F) ((thr d (L1 s)).loc cc0_scratch2))
    (h : k0_cond2 (L1 s) = 1#1) (l : Fin 16) :
    run1x.sl.v735 d s f6 b2 h (ix1 l)
      = f6 (ix3 (⟨s.val / 4, tileB_lt s⟩ : Fin 4) (0 : Fin 3) (⟨s.val % 4 * 1024 + 352 + l.val, rowcol_lt s 352 (by decide) l⟩ : Fin 4096)) := by
  unfold run1x.sl.v735 run1x.sl.v734
  exact (load16_apply d s b2 (run1x.sl.dma0_2 d s f6) _ _ _ (0 : Fin 3) (s.val % 4 * 1024 + 352) (off_4_0_6 s) l (rowcol_lt s 352 (by decide) l)).trans
    (dma0_2_apply d s f6 0 _)

theorem off_4_0_7 : ∀ s : Fin (grid0.bound 1), k0_off11 (L1 s) 256#32 112#32 = ![0, s.val % 4 * 1024 + 368] := by decide +kernel
theorem row_v740_apply (s : Fin (grid0.bound 1)) (f6 : Buf (Elt F) (l6 d)) (b2 : Buf (Elt F) ((thr d (L1 s)).loc cc0_scratch2))
    (h : k0_cond2 (L1 s) = 1#1) (l : Fin 16) :
    run1x.sl.v740 d s f6 b2 h (ix1 l)
      = f6 (ix3 (⟨s.val / 4, tileB_lt s⟩ : Fin 4) (0 : Fin 3) (⟨s.val % 4 * 1024 + 368 + l.val, rowcol_lt s 368 (by decide) l⟩ : Fin 4096)) := by
  unfold run1x.sl.v740 run1x.sl.v739
  exact (load16_apply d s b2 (run1x.sl.dma0_2 d s f6) _ _ _ (0 : Fin 3) (s.val % 4 * 1024 + 368) (off_4_0_7 s) l (rowcol_lt s 368 (by decide) l)).trans
    (dma0_2_apply d s f6 0 _)

theorem off_4_1_0 : ∀ s : Fin (grid0.bound 1), k0_off12 (L1 s) 256#32 0#32 = ![1, s.val % 4 * 1024 + 256] := by decide +kernel
theorem row_v745_apply (s : Fin (grid0.bound 1)) (f6 : Buf (Elt F) (l6 d)) (b2 : Buf (Elt F) ((thr d (L1 s)).loc cc0_scratch2))
    (h : k0_cond2 (L1 s) = 1#1) (l : Fin 16) :
    run1x.sl.v745 d s f6 b2 h (ix1 l)
      = f6 (ix3 (⟨s.val / 4, tileB_lt s⟩ : Fin 4) (1 : Fin 3) (⟨s.val % 4 * 1024 + 256 + l.val, rowcol_lt s 256 (by decide) l⟩ : Fin 4096)) := by
  unfold run1x.sl.v745 run1x.sl.v744
  exact (load16_apply d s b2 (run1x.sl.dma0_2 d s f6) _ _ _ (1 : Fin 3) (s.val % 4 * 1024 + 256) (off_4_1_0 s) l (rowcol_lt s 256 (by decide) l)).trans
    (dma0_2_apply d s f6 1 _)

theorem off_4_1_1 : ∀ s : Fin (grid0.bound 1), k0_off12 (L1 s) 256#32 16#32 = ![1, s.val % 4 * 1024 + 272] := by decide +kernel
theorem row_v750_apply (s : Fin (grid0.bound 1)) (f6 : Buf (Elt F) (l6 d)) (b2 : Buf (Elt F) ((thr d (L1 s)).loc cc0_scratch2))
    (h : k0_cond2 (L1 s) = 1#1) (l : Fin 16) :
    run1x.sl.v750 d s f6 b2 h (ix1 l)
      = f6 (ix3 (⟨s.val / 4, tileB_lt s⟩ : Fin 4) (1 : Fin 3) (⟨s.val % 4 * 1024 + 272 + l.val, rowcol_lt s 272 (by decide) l⟩ : Fin 4096)) := by
  unfold run1x.sl.v750 run1x.sl.v749
  exact (load16_apply d s b2 (run1x.sl.dma0_2 d s f6) _ _ _ (1 : Fin 3) (s.val % 4 * 1024 + 272) (off_4_1_1 s) l (rowcol_lt s 272 (by decide) l)).trans
    (dma0_2_apply d s f6 1 _)

theorem off_4_1_2 : ∀ s : Fin (grid0.bound 1), k0_off12 (L1 s) 256#32 32#32 = ![1, s.val % 4 * 1024 + 288] := by decide +kernel
theorem row_v755_apply (s : Fin (grid0.bound 1)) (f6 : Buf (Elt F) (l6 d)) (b2 : Buf (Elt F) ((thr d (L1 s)).loc cc0_scratch2))
    (h : k0_cond2 (L1 s) = 1#1) (l : Fin 16) :
    run1x.sl.v755 d s f6 b2 h (ix1 l)
      = f6 (ix3 (⟨s.val / 4, tileB_lt s⟩ : Fin 4) (1 : Fin 3) (⟨s.val % 4 * 1024 + 288 + l.val, rowcol_lt s 288 (by decide) l⟩ : Fin 4096)) := by
  unfold run1x.sl.v755 run1x.sl.v754
  exact (load16_apply d s b2 (run1x.sl.dma0_2 d s f6) _ _ _ (1 : Fin 3) (s.val % 4 * 1024 + 288) (off_4_1_2 s) l (rowcol_lt s 288 (by decide) l)).trans
    (dma0_2_apply d s f6 1 _)

theorem off_4_1_3 : ∀ s : Fin (grid0.bound 1), k0_off12 (L1 s) 256#32 48#32 = ![1, s.val % 4 * 1024 + 304] := by decide +kernel
theorem row_v760_apply (s : Fin (grid0.bound 1)) (f6 : Buf (Elt F) (l6 d)) (b2 : Buf (Elt F) ((thr d (L1 s)).loc cc0_scratch2))
    (h : k0_cond2 (L1 s) = 1#1) (l : Fin 16) :
    run1x.sl.v760 d s f6 b2 h (ix1 l)
      = f6 (ix3 (⟨s.val / 4, tileB_lt s⟩ : Fin 4) (1 : Fin 3) (⟨s.val % 4 * 1024 + 304 + l.val, rowcol_lt s 304 (by decide) l⟩ : Fin 4096)) := by
  unfold run1x.sl.v760 run1x.sl.v759
  exact (load16_apply d s b2 (run1x.sl.dma0_2 d s f6) _ _ _ (1 : Fin 3) (s.val % 4 * 1024 + 304) (off_4_1_3 s) l (rowcol_lt s 304 (by decide) l)).trans
    (dma0_2_apply d s f6 1 _)

theorem off_4_1_4 : ∀ s : Fin (grid0.bound 1), k0_off12 (L1 s) 256#32 64#32 = ![1, s.val % 4 * 1024 + 320] := by decide +kernel
theorem row_v765_apply (s : Fin (grid0.bound 1)) (f6 : Buf (Elt F) (l6 d)) (b2 : Buf (Elt F) ((thr d (L1 s)).loc cc0_scratch2))
    (h : k0_cond2 (L1 s) = 1#1) (l : Fin 16) :
    run1x.sl.v765 d s f6 b2 h (ix1 l)
      = f6 (ix3 (⟨s.val / 4, tileB_lt s⟩ : Fin 4) (1 : Fin 3) (⟨s.val % 4 * 1024 + 320 + l.val, rowcol_lt s 320 (by decide) l⟩ : Fin 4096)) := by
  unfold run1x.sl.v765 run1x.sl.v764
  exact (load16_apply d s b2 (run1x.sl.dma0_2 d s f6) _ _ _ (1 : Fin 3) (s.val % 4 * 1024 + 320) (off_4_1_4 s) l (rowcol_lt s 320 (by decide) l)).trans
    (dma0_2_apply d s f6 1 _)

theorem off_4_1_5 : ∀ s : Fin (grid0.bound 1), k0_off12 (L1 s) 256#32 80#32 = ![1, s.val % 4 * 1024 + 336] := by decide +kernel
theorem row_v770_apply (s : Fin (grid0.bound 1)) (f6 : Buf (Elt F) (l6 d)) (b2 : Buf (Elt F) ((thr d (L1 s)).loc cc0_scratch2))
    (h : k0_cond2 (L1 s) = 1#1) (l : Fin 16) :
    run1x.sl.v770 d s f6 b2 h (ix1 l)
      = f6 (ix3 (⟨s.val / 4, tileB_lt s⟩ : Fin 4) (1 : Fin 3) (⟨s.val % 4 * 1024 + 336 + l.val, rowcol_lt s 336 (by decide) l⟩ : Fin 4096)) := by
  unfold run1x.sl.v770 run1x.sl.v769
  exact (load16_apply d s b2 (run1x.sl.dma0_2 d s f6) _ _ _ (1 : Fin 3) (s.val % 4 * 1024 + 336) (off_4_1_5 s) l (rowcol_lt s 336 (by decide) l)).trans
    (dma0_2_apply d s f6 1 _)

theorem off_4_1_6 : ∀ s : Fin (grid0.bound 1), k0_off12 (L1 s) 256#32 96#32 = ![1, s.val % 4 * 1024 + 352] := by decide +kernel
theorem row_v775_apply (s : Fin (grid0.bound 1)) (f6 : Buf (Elt F) (l6 d)) (b2 : Buf (Elt F) ((thr d (L1 s)).loc cc0_scratch2))
    (h : k0_cond2 (L1 s) = 1#1) (l : Fin 16) :
    run1x.sl.v775 d s f6 b2 h (ix1 l)
      = f6 (ix3 (⟨s.val / 4, tileB_lt s⟩ : Fin 4) (1 : Fin 3) (⟨s.val % 4 * 1024 + 352 + l.val, rowcol_lt s 352 (by decide) l⟩ : Fin 4096)) := by
  unfold run1x.sl.v775 run1x.sl.v774
  exact (load16_apply d s b2 (run1x.sl.dma0_2 d s f6) _ _ _ (1 : Fin 3) (s.val % 4 * 1024 + 352) (off_4_1_6 s) l (rowcol_lt s 352 (by decide) l)).trans
    (dma0_2_apply d s f6 1 _)

theorem off_4_1_7 : ∀ s : Fin (grid0.bound 1), k0_off12 (L1 s) 256#32 112#32 = ![1, s.val % 4 * 1024 + 368] := by decide +kernel
theorem row_v780_apply (s : Fin (grid0.bound 1)) (f6 : Buf (Elt F) (l6 d)) (b2 : Buf (Elt F) ((thr d (L1 s)).loc cc0_scratch2))
    (h : k0_cond2 (L1 s) = 1#1) (l : Fin 16) :
    run1x.sl.v780 d s f6 b2 h (ix1 l)
      = f6 (ix3 (⟨s.val / 4, tileB_lt s⟩ : Fin 4) (1 : Fin 3) (⟨s.val % 4 * 1024 + 368 + l.val, rowcol_lt s 368 (by decide) l⟩ : Fin 4096)) := by
  unfold run1x.sl.v780 run1x.sl.v779
  exact (load16_apply d s b2 (run1x.sl.dma0_2 d s f6) _ _ _ (1 : Fin 3) (s.val % 4 * 1024 + 368) (off_4_1_7 s) l (rowcol_lt s 368 (by decide) l)).trans
    (dma0_2_apply d s f6 1 _)

theorem off_4_2_0 : ∀ s : Fin (grid0.bound 1), k0_off13 (L1 s) 256#32 0#32 = ![2, s.val % 4 * 1024 + 256] := by decide +kernel
theorem row_v785_apply (s : Fin (grid0.bound 1)) (f6 : Buf (Elt F) (l6 d)) (b2 : Buf (Elt F) ((thr d (L1 s)).loc cc0_scratch2))
    (h : k0_cond2 (L1 s) = 1#1) (l : Fin 16) :
    run1x.sl.v785 d s f6 b2 h (ix1 l)
      = f6 (ix3 (⟨s.val / 4, tileB_lt s⟩ : Fin 4) (2 : Fin 3) (⟨s.val % 4 * 1024 + 256 + l.val, rowcol_lt s 256 (by decide) l⟩ : Fin 4096)) := by
  unfold run1x.sl.v785 run1x.sl.v784
  exact (load16_apply d s b2 (run1x.sl.dma0_2 d s f6) _ _ _ (2 : Fin 3) (s.val % 4 * 1024 + 256) (off_4_2_0 s) l (rowcol_lt s 256 (by decide) l)).trans
    (dma0_2_apply d s f6 2 _)

theorem off_4_2_1 : ∀ s : Fin (grid0.bound 1), k0_off13 (L1 s) 256#32 16#32 = ![2, s.val % 4 * 1024 + 272] := by decide +kernel
theorem row_v790_apply (s : Fin (grid0.bound 1)) (f6 : Buf (Elt F) (l6 d)) (b2 : Buf (Elt F) ((thr d (L1 s)).loc cc0_scratch2))
    (h : k0_cond2 (L1 s) = 1#1) (l : Fin 16) :
    run1x.sl.v790 d s f6 b2 h (ix1 l)
      = f6 (ix3 (⟨s.val / 4, tileB_lt s⟩ : Fin 4) (2 : Fin 3) (⟨s.val % 4 * 1024 + 272 + l.val, rowcol_lt s 272 (by decide) l⟩ : Fin 4096)) := by
  unfold run1x.sl.v790 run1x.sl.v789
  exact (load16_apply d s b2 (run1x.sl.dma0_2 d s f6) _ _ _ (2 : Fin 3) (s.val % 4 * 1024 + 272) (off_4_2_1 s) l (rowcol_lt s 272 (by decide) l)).trans
    (dma0_2_apply d s f6 2 _)

theorem off_4_2_2 : ∀ s : Fin (grid0.bound 1), k0_off13 (L1 s) 256#32 32#32 = ![2, s.val % 4 * 1024 + 288] := by decide +kernel
theorem row_v795_apply (s : Fin (grid0.bound 1)) (f6 : Buf (Elt F) (l6 d)) (b2 : Buf (Elt F) ((thr d (L1 s)).loc cc0_scratch2))
    (h : k0_cond2 (L1 s) = 1#1) (l : Fin 16) :
    run1x.sl.v795 d s f6 b2 h (ix1 l)
      = f6 (ix3 (⟨s.val / 4, tileB_lt s⟩ : Fin 4) (2 : Fin 3) (⟨s.val % 4 * 1024 + 288 + l.val, rowcol_lt s 288 (by decide) l⟩ : Fin 4096)) := by
  unfold run1x.sl.v795 run1x.sl.v794
  exact (load16_apply d s b2 (run1x.sl.dma0_2 d s f6) _ _ _ (2 : Fin 3) (s.val % 4 * 1024 + 288) (off_4_2_2 s) l (rowcol_lt s 288 (by decide) l)).trans
    (dma0_2_apply d s f6 2 _)

theorem off_4_2_3 : ∀ s : Fin (grid0.bound 1), k0_off13 (L1 s) 256#32 48#32 = ![2, s.val % 4 * 1024 + 304] := by decide +kernel
theorem row_v800_apply (s : Fin (grid0.bound 1)) (f6 : Buf (Elt F) (l6 d)) (b2 : Buf (Elt F) ((thr d (L1 s)).loc cc0_scratch2))
    (h : k0_cond2 (L1 s) = 1#1) (l : Fin 16) :
    run1x.sl.v800 d s f6 b2 h (ix1 l)
      = f6 (ix3 (⟨s.val / 4, tileB_lt s⟩ : Fin 4) (2 : Fin 3) (⟨s.val % 4 * 1024 + 304 + l.val, rowcol_lt s 304 (by decide) l⟩ : Fin 4096)) := by
  unfold run1x.sl.v800 run1x.sl.v799
  exact (load16_apply d s b2 (run1x.sl.dma0_2 d s f6) _ _ _ (2 : Fin 3) (s.val % 4 * 1024 + 304) (off_4_2_3 s) l (rowcol_lt s 304 (by decide) l)).trans
    (dma0_2_apply d s f6 2 _)

theorem off_4_2_4 : ∀ s : Fin (grid0.bound 1), k0_off13 (L1 s) 256#32 64#32 = ![2, s.val % 4 * 1024 + 320] := by decide +kernel
theorem row_v805_apply (s : Fin (grid0.bound 1)) (f6 : Buf (Elt F) (l6 d)) (b2 : Buf (Elt F) ((thr d (L1 s)).loc cc0_scratch2))
    (h : k0_cond2 (L1 s) = 1#1) (l : Fin 16) :
    run1x.sl.v805 d s f6 b2 h (ix1 l)
      = f6 (ix3 (⟨s.val / 4, tileB_lt s⟩ : Fin 4) (2 : Fin 3) (⟨s.val % 4 * 1024 + 320 + l.val, rowcol_lt s 320 (by decide) l⟩ : Fin 4096)) := by
  unfold run1x.sl.v805 run1x.sl.v804
  exact (load16_apply d s b2 (run1x.sl.dma0_2 d s f6) _ _ _ (2 : Fin 3) (s.val % 4 * 1024 + 320) (off_4_2_4 s) l (rowcol_lt s 320 (by decide) l)).trans
    (dma0_2_apply d s f6 2 _)

theorem off_4_2_5 : ∀ s : Fin (grid0.bound 1), k0_off13 (L1 s) 256#32 80#32 = ![2, s.val % 4 * 1024 + 336] := by decide +kernel
theorem row_v810_apply (s : Fin (grid0.bound 1)) (f6 : Buf (Elt F) (l6 d)) (b2 : Buf (Elt F) ((thr d (L1 s)).loc cc0_scratch2))
    (h : k0_cond2 (L1 s) = 1#1) (l : Fin 16) :
    run1x.sl.v810 d s f6 b2 h (ix1 l)
      = f6 (ix3 (⟨s.val / 4, tileB_lt s⟩ : Fin 4) (2 : Fin 3) (⟨s.val % 4 * 1024 + 336 + l.val, rowcol_lt s 336 (by decide) l⟩ : Fin 4096)) := by
  unfold run1x.sl.v810 run1x.sl.v809
  exact (load16_apply d s b2 (run1x.sl.dma0_2 d s f6) _ _ _ (2 : Fin 3) (s.val % 4 * 1024 + 336) (off_4_2_5 s) l (rowcol_lt s 336 (by decide) l)).trans
    (dma0_2_apply d s f6 2 _)

theorem off_4_2_6 : ∀ s : Fin (grid0.bound 1), k0_off13 (L1 s) 256#32 96#32 = ![2, s.val % 4 * 1024 + 352] := by decide +kernel
theorem row_r_44_apply (s : Fin (grid0.bound 1)) (f6 : Buf (Elt F) (l6 d)) (b2 : Buf (Elt F) ((thr d (L1 s)).loc cc0_scratch2))
    (h : k0_cond2 (L1 s) = 1#1) (l : Fin 16) :
    run1x.sl.r_44 d s f6 b2 h (ix1 l)
      = f6 (ix3 (⟨s.val / 4, tileB_lt s⟩ : Fin 4) (2 : Fin 3) (⟨s.val % 4 * 1024 + 352 + l.val, rowcol_lt s 352 (by decide) l⟩ : Fin 4096)) := by
  unfold run1x.sl.r_44 k0_pay2357 run1x.sl.v814
  exact (load16_apply d s b2 (run1x.sl.dma0_2 d s f6) _ _ _ (2 : Fin 3) (s.val % 4 * 1024 + 352) (off_4_2_6 s) l (rowcol_lt s 352 (by decide) l)).trans
    (dma0_2_apply d s f6 2 _)

theorem off_4_2_7 : ∀ s : Fin (grid0.bound 1), k0_off13 (L1 s) 256#32 112#32 = ![2, s.val % 4 * 1024 + 368] := by decide +kernel
theorem row_r_45_apply (s : Fin (grid0.bound 1)) (f6 : Buf (Elt F) (l6 d)) (b2 : Buf (Elt F) ((thr d (L1 s)).loc cc0_scratch2))
    (h : k0_cond2 (L1 s) = 1#1) (l : Fin 16) :
    run1x.sl.r_45 d s f6 b2 h (ix1 l)
      = f6 (ix3 (⟨s.val / 4, tileB_lt s⟩ : Fin 4) (2 : Fin 3) (⟨s.val % 4 * 1024 + 368 + l.val, rowcol_lt s 368 (by decide) l⟩ : Fin 4096)) := by
  unfold run1x.sl.r_45 k0_pay2358 run1x.sl.v819
  exact (load16_apply d s b2 (run1x.sl.dma0_2 d s f6) _ _ _ (2 : Fin 3) (s.val % 4 * 1024 + 368) (off_4_2_7 s) l (rowcol_lt s 368 (by decide) l)).trans
    (dma0_2_apply d s f6 2 _)

end Cert.Proof.ScI

end
-- ==== Proof.ScNrm1_4.lean ====
import proofs.«209750_g45337674776763_cont_8to1c4_158_37_alg».proof.Proof.ScNrm1_2
import proofs.«209750_g45337674776763_cont_8to1c4_158_37_alg».proof.Proof.ScRows1_4
/-!
  The norm rows of group 2 of the second branch, read at a lane: the sixteen-lane loads of the buffer that holds
  the second set's batch (for the row norms), coordinate `a` of point `1024 (s % 4) + 256 + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem nrm_v824_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v824 d s f1 b3 h) shapeCasts_S1x16_S16 (ix1 l)
      = f1 (ix3 (⟨s.val / 4, tileB_lt s⟩ : Fin 4) (0 : Fin 3) (⟨s.val % 4 * 1024 + 256 + l.val, rowcol_lt s 256 (by decide) l⟩ : Fin 4096)) := by
  unfold run1x.sl.v824
  exact (load16B3_apply d s b3 (run1x.sl.dma0_3 d s f1) _ _ _ (0 : Fin 3) (s.val % 4 * 1024 + 256) (off_4_0_0 s) l (rowcol_lt s 256 (by decide) l)).trans
    (dma0_3_apply d s f1 0 _)

theorem nrm_v829_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v829 d s f1 b3 h) shapeCasts_S1x16_S16 (ix1 l)
      = f1 (ix3 (⟨s.val / 4, tileB_lt s⟩ : Fin 4) (1 : Fin 3) (⟨s.val % 4 * 1024 + 256 + l.val, rowcol_lt s 256 (by decide) l⟩ : Fin 4096)) := by
  unfold run1x.sl.v829
  exact (load16B3_apply d s b3 (run1x.sl.dma0_3 d s f1) _ _ _ (1 : Fin 3) (s.val % 4 * 1024 + 256) (off_4_1_0 s) l (rowcol_lt s 256 (by decide) l)).trans
    (dma0_3_apply d s f1 1 _)

theorem nrm_v834_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v834 d s f1 b3 h) shapeCasts_S1x16_S16 (ix1 l)
      = f1 (ix3 (⟨s.val / 4, tileB_lt s⟩ : Fin 4) (2 : Fin 3) (⟨s.val % 4 * 1024 + 256 + l.val, rowcol_lt s 256 (by decide) l⟩ : Fin 4096)) := by
  unfold run1x.sl.v834
  exact (load16B3_apply d s b3 (run1x.sl.dma0_3 d s f1) _ _ _ (2 : Fin 3) (s.val % 4 * 1024 + 256) (off_4_2_0 s) l (rowcol_lt s 256 (by decide) l)).trans
    (dma0_3_apply d s f1 2 _)

theorem nrm_v844_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v844 d s f1 b3 h) shapeCasts_S1x16_S16 (ix1 l)
      = f1 (ix3 (⟨s.val / 4, tileB_lt s⟩ : Fin 4) (0 : Fin 3) (⟨s.val % 4 * 1024 + 272 + l.val, rowcol_lt s 272 (by decide) l⟩ : Fin 4096)) := by
  unfold run1x.sl.v844
  exact (load16B3_apply d s b3 (run1x.sl.dma0_3 d s f1) _ _ _ (0 : Fin 3) (s.val % 4 * 1024 + 272) (off_4_0_1 s) l (rowcol_lt s 272 (by decide) l)).trans
    (dma0_3_apply d s f1 0 _)

theorem nrm_v849_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v849 d s f1 b3 h) shapeCasts_S1x16_S16 (ix1 l)
      = f1 (ix3 (⟨s.val / 4, tileB_lt s⟩ : Fin 4) (1 : Fin 3) (⟨s.val % 4 * 1024 + 272 + l.val, rowcol_lt s 272 (by decide) l⟩ : Fin 4096)) := by
  unfold run1x.sl.v849
  exact (load16B3_apply d s b3 (run1x.sl.dma0_3 d s f1) _ _ _ (1 : Fin 3) (s.val % 4 * 1024 + 272) (off_4_1_1 s) l (rowcol_lt s 272 (by decide) l)).trans
    (dma0_3_apply d s f1 1 _)

theorem nrm_v854_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v854 d s f1 b3 h) shapeCasts_S1x16_S16 (ix1 l)
      = f1 (ix3 (⟨s.val / 4, tileB_lt s⟩ : Fin 4) (2 : Fin 3) (⟨s.val % 4 * 1024 + 272 + l.val, rowcol_lt s 272 (by decide) l⟩ : Fin 4096)) := by
  unfold run1x.sl.v854
  exact (load16B3_apply d s b3 (run1x.sl.dma0_3 d s f1) _ _ _ (2 : Fin 3) (s.val % 4 * 1024 + 272) (off_4_2_1 s) l (rowcol_lt s 272 (by decide) l)).trans
    (dma0_3_apply d s f1 2 _)

theorem nrm_v864_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v864 d s f1 b3 h) shapeCasts_S1x16_S16 (ix1 l)
      = f1 (ix3 (⟨s.val / 4, tileB_lt s⟩ : Fin 4) (0 : Fin 3) (⟨s.val % 4 * 1024 + 288 + l.val, rowcol_lt s 288 (by decide) l⟩ : Fin 4096)) := by
  unfold run1x.sl.v864
  exact (load16B3_apply d s b3 (run1x.sl.dma0_3 d s f1) _ _ _ (0 : Fin 3) (s.val % 4 * 1024 + 288) (off_4_0_2 s) l (rowcol_lt s 288 (by decide) l)).trans
    (dma0_3_apply d s f1 0 _)

theorem nrm_v869_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v869 d s f1 b3 h) shapeCasts_S1x16_S16 (ix1 l)
      = f1 (ix3 (⟨s.val / 4, tileB_lt s⟩ : Fin 4) (1 : Fin 3) (⟨s.val % 4 * 1024 + 288 + l.val, rowcol_lt s 288 (by decide) l⟩ : Fin 4096)) := by
  unfold run1x.sl.v869
  exact (load16B3_apply d s b3 (run1x.sl.dma0_3 d s f1) _ _ _ (1 : Fin 3) (s.val % 4 * 1024 + 288) (off_4_1_2 s) l (rowcol_lt s 288 (by decide) l)).trans
    (dma0_3_apply d s f1 1 _)

theorem nrm_v874_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v874 d s f1 b3 h) shapeCasts_S1x16_S16 (ix1 l)
      = f1 (ix3 (⟨s.val / 4, tileB_lt s⟩ : Fin 4) (2 : Fin 3) (⟨s.val % 4 * 1024 + 288 + l.val, rowcol_lt s 288 (by decide) l⟩ : Fin 4096)) := by
  unfold run1x.sl.v874
  exact (load16B3_apply d s b3 (run1x.sl.dma0_3 d s f1) _ _ _ (2 : Fin 3) (s.val % 4 * 1024 + 288) (off_4_2_2 s) l (rowcol_lt s 288 (by decide) l)).trans
    (dma0_3_apply d s f1 2 _)

theorem nrm_v884_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v884 d s f1 b3 h) shapeCasts_S1x16_S16 (ix1 l)
      = f1 (ix3 (⟨s.val / 4, tileB_lt s⟩ : Fin 4) (0 : Fin 3) (⟨s.val % 4 * 1024 + 304 + l.val, rowcol_lt s 304 (by decide) l⟩ : Fin 4096)) := by
  unfold run1x.sl.v884
  exact (load16B3_apply d s b3 (run1x.sl.dma0_3 d s f1) _ _ _ (0 : Fin 3) (s.val % 4 * 1024 + 304) (off_4_0_3 s) l (rowcol_lt s 304 (by decide) l)).trans
    (dma0_3_apply d s f1 0 _)

theorem nrm_v889_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v889 d s f1 b3 h) shapeCasts_S1x16_S16 (ix1 l)
      = f1 (ix3 (⟨s.val / 4, tileB_lt s⟩ : Fin 4) (1 : Fin 3) (⟨s.val % 4 * 1024 + 304 + l.val, rowcol_lt s 304 (by decide) l⟩ : Fin 4096)) := by
  unfold run1x.sl.v889
  exact (load16B3_apply d s b3 (run1x.sl.dma0_3 d s f1) _ _ _ (1 : Fin 3) (s.val % 4 * 1024 + 304) (off_4_1_3 s) l (rowcol_lt s 304 (by decide) l)).trans
    (dma0_3_apply d s f1 1 _)

theorem nrm_v894_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v894 d s f1 b3 h) shapeCasts_S1x16_S16 (ix1 l)
      = f1 (ix3 (⟨s.val / 4, tileB_lt s⟩ : Fin 4) (2 : Fin 3) (⟨s.val % 4 * 1024 + 304 + l.val, rowcol_lt s 304 (by decide) l⟩ : Fin 4096)) := by
  unfold run1x.sl.v894
  exact (load16B3_apply d s b3 (run1x.sl.dma0_3 d s f1) _ _ _ (2 : Fin 3) (s.val % 4 * 1024 + 304) (off_4_2_3 s) l (rowcol_lt s 304 (by decide) l)).trans
    (dma0_3_apply d s f1 2 _)

theorem nrm_v904_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v904 d s f1 b3 h) shapeCasts_S1x16_S16 (ix1 l)
      = f1 (ix3 (⟨s.val / 4, tileB_lt s⟩ : Fin 4) (0 : Fin 3) (⟨s.val % 4 * 1024 + 320 + l.val, rowcol_lt s 320 (by decide) l⟩ : Fin 4096)) := by
  unfold run1x.sl.v904
  exact (load16B3_apply d s b3 (run1x.sl.dma0_3 d s f1) _ _ _ (0 : Fin 3) (s.val % 4 * 1024 + 320) (off_4_0_4 s) l (rowcol_lt s 320 (by decide) l)).trans
    (dma0_3_apply d s f1 0 _)

theorem nrm_v909_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v909 d s f1 b3 h) shapeCasts_S1x16_S16 (ix1 l)
      = f1 (ix3 (⟨s.val / 4, tileB_lt s⟩ : Fin 4) (1 : Fin 3) (⟨s.val % 4 * 1024 + 320 + l.val, rowcol_lt s 320 (by decide) l⟩ : Fin 4096)) := by
  unfold run1x.sl.v909
  exact (load16B3_apply d s b3 (run1x.sl.dma0_3 d s f1) _ _ _ (1 : Fin 3) (s.val % 4 * 1024 + 320) (off_4_1_4 s) l (rowcol_lt s 320 (by decide) l)).trans
    (dma0_3_apply d s f1 1 _)

theorem nrm_v914_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v914 d s f1 b3 h) shapeCasts_S1x16_S16 (ix1 l)
      = f1 (ix3 (⟨s.val / 4, tileB_lt s⟩ : Fin 4) (2 : Fin 3) (⟨s.val % 4 * 1024 + 320 + l.val, rowcol_lt s 320 (by decide) l⟩ : Fin 4096)) := by
  unfold run1x.sl.v914
  exact (load16B3_apply d s b3 (run1x.sl.dma0_3 d s f1) _ _ _ (2 : Fin 3) (s.val % 4 * 1024 + 320) (off_4_2_4 s) l (rowcol_lt s 320 (by decide) l)).trans
    (dma0_3_apply d s f1 2 _)

theorem nrm_v924_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v924 d s f1 b3 h) shapeCasts_S1x16_S16 (ix1 l)
      = f1 (ix3 (⟨s.val / 4, tileB_lt s⟩ : Fin 4) (0 : Fin 3) (⟨s.val % 4 * 1024 + 336 + l.val, rowcol_lt s 336 (by decide) l⟩ : Fin 4096)) := by
  unfold run1x.sl.v924
  exact (load16B3_apply d s b3 (run1x.sl.dma0_3 d s f1) _ _ _ (0 : Fin 3) (s.val % 4 * 1024 + 336) (off_4_0_5 s) l (rowcol_lt s 336 (by decide) l)).trans
    (dma0_3_apply d s f1 0 _)

theorem nrm_v929_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v929 d s f1 b3 h) shapeCasts_S1x16_S16 (ix1 l)
      = f1 (ix3 (⟨s.val / 4, tileB_lt s⟩ : Fin 4) (1 : Fin 3) (⟨s.val % 4 * 1024 + 336 + l.val, rowcol_lt s 336 (by decide) l⟩ : Fin 4096)) := by
  unfold run1x.sl.v929
  exact (load16B3_apply d s b3 (run1x.sl.dma0_3 d s f1) _ _ _ (1 : Fin 3) (s.val % 4 * 1024 + 336) (off_4_1_5 s) l (rowcol_lt s 336 (by decide) l)).trans
    (dma0_3_apply d s f1 1 _)

theorem nrm_v934_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v934 d s f1 b3 h) shapeCasts_S1x16_S16 (ix1 l)
      = f1 (ix3 (⟨s.val / 4, tileB_lt s⟩ : Fin 4) (2 : Fin 3) (⟨s.val % 4 * 1024 + 336 + l.val, rowcol_lt s 336 (by decide) l⟩ : Fin 4096)) := by
  unfold run1x.sl.v934
  exact (load16B3_apply d s b3 (run1x.sl.dma0_3 d s f1) _ _ _ (2 : Fin 3) (s.val % 4 * 1024 + 336) (off_4_2_5 s) l (rowcol_lt s 336 (by decide) l)).trans
    (dma0_3_apply d s f1 2 _)

theorem nrm_v944_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v944 d s f1 b3 h) shapeCasts_S1x16_S16 (ix1 l)
      = f1 (ix3 (⟨s.val / 4, tileB_lt s⟩ : Fin 4) (0 : Fin 3) (⟨s.val % 4 * 1024 + 352 + l.val, rowcol_lt s 352 (by decide) l⟩ : Fin 4096)) := by
  unfold run1x.sl.v944
  exact (load16B3_apply d s b3 (run1x.sl.dma0_3 d s f1) _ _ _ (0 : Fin 3) (s.val % 4 * 1024 + 352) (off_4_0_6 s) l (rowcol_lt s 352 (by decide) l)).trans
    (dma0_3_apply d s f1 0 _)

theorem nrm_v949_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v949 d s f1 b3 h) shapeCasts_S1x16_S16 (ix1 l)
      = f1 (ix3 (⟨s.val / 4, tileB_lt s⟩ : Fin 4) (1 : Fin 3) (⟨s.val % 4 * 1024 + 352 + l.val, rowcol_lt s 352 (by decide) l⟩ : Fin 4096)) := by
  unfold run1x.sl.v949
  exact (load16B3_apply d s b3 (run1x.sl.dma0_3 d s f1) _ _ _ (1 : Fin 3) (s.val % 4 * 1024 + 352) (off_4_1_6 s) l (rowcol_lt s 352 (by decide) l)).trans
    (dma0_3_apply d s f1 1 _)

theorem nrm_v954_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v954 d s f1 b3 h) shapeCasts_S1x16_S16 (ix1 l)
      = f1 (ix3 (⟨s.val / 4, tileB_lt s⟩ : Fin 4) (2 : Fin 3) (⟨s.val % 4 * 1024 + 352 + l.val, rowcol_lt s 352 (by decide) l⟩ : Fin 4096)) := by
  unfold run1x.sl.v954
  exact (load16B3_apply d s b3 (run1x.sl.dma0_3 d s f1) _ _ _ (2 : Fin 3) (s.val % 4 * 1024 + 352) (off_4_2_6 s) l (rowcol_lt s 352 (by decide) l)).trans
    (dma0_3_apply d s f1 2 _)

theorem nrm_v964_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v964 d s f1 b3 h) shapeCasts_S1x16_S16 (ix1 l)
      = f1 (ix3 (⟨s.val / 4, tileB_lt s⟩ : Fin 4) (0 : Fin 3) (⟨s.val % 4 * 1024 + 368 + l.val, rowcol_lt s 368 (by decide) l⟩ : Fin 4096)) := by
  unfold run1x.sl.v964
  exact (load16B3_apply d s b3 (run1x.sl.dma0_3 d s f1) _ _ _ (0 : Fin 3) (s.val % 4 * 1024 + 368) (off_4_0_7 s) l (rowcol_lt s 368 (by decide) l)).trans
    (dma0_3_apply d s f1 0 _)

theorem nrm_v969_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v969 d s f1 b3 h) shapeCasts_S1x16_S16 (ix1 l)
      = f1 (ix3 (⟨s.val / 4, tileB_lt s⟩ : Fin 4) (1 : Fin 3) (⟨s.val % 4 * 1024 + 368 + l.val, rowcol_lt s 368 (by decide) l⟩ : Fin 4096)) := by
  unfold run1x.sl.v969
  exact (load16B3_apply d s b3 (run1x.sl.dma0_3 d s f1) _ _ _ (1 : Fin 3) (s.val % 4 * 1024 + 368) (off_4_1_7 s) l (rowcol_lt s 368 (by decide) l)).trans
    (dma0_3_apply d s f1 1 _)

theorem nrm_v974_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v974 d s f1 b3 h) shapeCasts_S1x16_S16 (ix1 l)
      = f1 (ix3 (⟨s.val / 4, tileB_lt s⟩ : Fin 4) (2 : Fin 3) (⟨s.val % 4 * 1024 + 368 + l.val, rowcol_lt s 368 (by decide) l⟩ : Fin 4096)) := by
  unfold run1x.sl.v974
  exact (load16B3_apply d s b3 (run1x.sl.dma0_3 d s f1) _ _ _ (2 : Fin 3) (s.val % 4 * 1024 + 368) (off_4_2_7 s) l (rowcol_lt s 368 (by decide) l)).trans
    (dma0_3_apply d s f1 2 _)

end Cert.Proof.ScI

end
-- ==== Proof.ScBridge1G4.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_4
import proofs.«209750_g45337674776763_cont_8to1c4_158_37_alg».proof.Proof.ScRows1_4
import proofs.«209750_g45337674776763_cont_8to1c4_158_37_alg».proof.Proof.ScNrm1_4
import proofs.«209750_g45337674776763_cont_8to1c4_158_37_alg».proof.Proof.ScX1a

/-!
  The second SparseCore branch's group 2 of words (`256` to `383` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group2 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 256 ≤ (j 0).val) (hhi : (j 0).val < 384) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 256 + 16 * J.val + l.val :=
    ⟨⟨((j 0).val - 256) / 16, by omega⟩, ⟨((j 0).val - 256) % 16, by omega⟩,
      by show _ = 256 + 16 * (((j 0).val - 256) / 16) + ((j 0).val - 256) % 16; omega⟩
  have er : (⟨s.val % 4 * 1024 + (j 0).val, by have : s.val < 16 := s.isLt; have : (j 0).val < 1024 := (j 0).isLt; omega⟩ : Fin 4096) = (⟨s.val % 4 * 1024 + (256 + 16 * J.val) + l.val, by have := l.isLt; have := J.isLt; omega⟩ : Fin 4096) :=
    Fin.ext (by show s.val % 4 * 1024 + (j 0).val = s.val % 4 * 1024 + (256 + 16 * J.val) + l.val; omega)
  rw [er]
  delta X1of
  refine (W1_read2 d s f1 b3 b4 (h2_L1 s) _ _ _ _ _ _ _ _ j J l hj).trans ?_
  delta A4of
  obtain ⟨Jv, hJv⟩ := J
  interval_cases Jv
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.r_39 d s f6 b2 (h2_L1 s)) (run1x.sl.v745 d s f6 b2 (h2_L1 s)) (run1x.sl.v785 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_r_39_apply (F := Ideal) d s f6 b2 (h2_L1 s) l) (row_v745_apply (F := Ideal) d s f6 b2 (h2_L1 s) l) (row_v785_apply (F := Ideal) d s f6 b2 (h2_L1 s) l)
      (nrm_v824_apply (F := Ideal) d s f1 b3 (h2_L1 s) l) (nrm_v829_apply (F := Ideal) d s f1 b3 (h2_L1 s) l) (nrm_v834_apply (F := Ideal) d s f1 b3 (h2_L1 s) l)
      (C0of_apply (F := Ideal) d s f7 b0) (C1of_apply (F := Ideal) d s f8 b1)
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.r_40 d s f6 b2 (h2_L1 s)) (run1x.sl.v750 d s f6 b2 (h2_L1 s)) (run1x.sl.v790 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_r_40_apply (F := Ideal) d s f6 b2 (h2_L1 s) l) (row_v750_apply (F := Ideal) d s f6 b2 (h2_L1 s) l) (row_v790_apply (F := Ideal) d s f6 b2 (h2_L1 s) l)
      (nrm_v844_apply (F := Ideal) d s f1 b3 (h2_L1 s) l) (nrm_v849_apply (F := Ideal) d s f1 b3 (h2_L1 s) l) (nrm_v854_apply (F := Ideal) d s f1 b3 (h2_L1 s) l)
      (C0of_apply (F := Ideal) d s f7 b0) (C1of_apply (F := Ideal) d s f8 b1)
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.r_41 d s f6 b2 (h2_L1 s)) (run1x.sl.v755 d s f6 b2 (h2_L1 s)) (run1x.sl.v795 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_r_41_apply (F := Ideal) d s f6 b2 (h2_L1 s) l) (row_v755_apply (F := Ideal) d s f6 b2 (h2_L1 s) l) (row_v795_apply (F := Ideal) d s f6 b2 (h2_L1 s) l)
      (nrm_v864_apply (F := Ideal) d s f1 b3 (h2_L1 s) l) (nrm_v869_apply (F := Ideal) d s f1 b3 (h2_L1 s) l) (nrm_v874_apply (F := Ideal) d s f1 b3 (h2_L1 s) l)
      (C0of_apply (F := Ideal) d s f7 b0) (C1of_apply (F := Ideal) d s f8 b1)
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.r_42 d s f6 b2 (h2_L1 s)) (run1x.sl.v760 d s f6 b2 (h2_L1 s)) (run1x.sl.v800 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_r_42_apply (F := Ideal) d s f6 b2 (h2_L1 s) l) (row_v760_apply (F := Ideal) d s f6 b2 (h2_L1 s) l) (row_v800_apply (F := Ideal) d s f6 b2 (h2_L1 s) l)
      (nrm_v884_apply (F := Ideal) d s f1 b3 (h2_L1 s) l) (nrm_v889_apply (F := Ideal) d s f1 b3 (h2_L1 s) l) (nrm_v894_apply (F := Ideal) d s f1 b3 (h2_L1 s) l)
      (C0of_apply (F := Ideal) d s f7 b0) (C1of_apply (F := Ideal) d s f8 b1)
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.r_43 d s f6 b2 (h2_L1 s)) (run1x.sl.v765 d s f6 b2 (h2_L1 s)) (run1x.sl.v805 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_r_43_apply (F := Ideal) d s f6 b2 (h2_L1 s) l) (row_v765_apply (F := Ideal) d s f6 b2 (h2_L1 s) l) (row_v805_apply (F := Ideal) d s f6 b2 (h2_L1 s) l)
      (nrm_v904_apply (F := Ideal) d s f1 b3 (h2_L1 s) l) (nrm_v909_apply (F := Ideal) d s f1 b3 (h2_L1 s) l) (nrm_v914_apply (F := Ideal) d s f1 b3 (h2_L1 s) l)
      (C0of_apply (F := Ideal) d s f7 b0) (C1of_apply (F := Ideal) d s f8 b1)
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.v730 d s f6 b2 (h2_L1 s)) (run1x.sl.v770 d s f6 b2 (h2_L1 s)) (run1x.sl.v810 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_v730_apply (F := Ideal) d s f6 b2 (h2_L1 s) l) (row_v770_apply (F := Ideal) d s f6 b2 (h2_L1 s) l) (row_v810_apply (F := Ideal) d s f6 b2 (h2_L1 s) l)
      (nrm_v924_apply (F := Ideal) d s f1 b3 (h2_L1 s) l) (nrm_v929_apply (F := Ideal) d s f1 b3 (h2_L1 s) l) (nrm_v934_apply (F := Ideal) d s f1 b3 (h2_L1 s) l)
      (C0of_apply (F := Ideal) d s f7 b0) (C1of_apply (F := Ideal) d s f8 b1)
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.v735 d s f6 b2 (h2_L1 s)) (run1x.sl.v775 d s f6 b2 (h2_L1 s)) (run1x.sl.r_44 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v735_apply (F := Ideal) d s f6 b2 (h2_L1 s) l) (row_v775_apply (F := Ideal) d s f6 b2 (h2_L1 s) l) (row_r_44_apply (F := Ideal) d s f6 b2 (h2_L1 s) l)
      (nrm_v944_apply (F := Ideal) d s f1 b3 (h2_L1 s) l) (nrm_v949_apply (F := Ideal) d s f1 b3 (h2_L1 s) l) (nrm_v954_apply (F := Ideal) d s f1 b3 (h2_L1 s) l)
      (C0of_apply (F := Ideal) d s f7 b0) (C1of_apply (F := Ideal) d s f8 b1)
  · refine (congrArg (fun x => max (_ + x) 0) (block_all4 d (L1 s) (h2_L1 s) (run1x.sl.r_39 d s f6 b2 (h2_L1 s)) (run1x.sl.r_40 d s f6 b2 (h2_L1 s)) (run1x.sl.r_41 d s f6 b2 (h2_L1 s)) (run1x.sl.r_42 d s f6 b2 (h2_L1 s)) (run1x.sl.r_43 d s f6 b2 (h2_L1 s)) (run1x.sl.v730 d s f6 b2 (h2_L1 s)) (run1x.sl.v735 d s f6 b2 (h2_L1 s)) (run1x.sl.v740 d s f6 b2 (h2_L1 s)) (run1x.sl.v745 d s f6 b2 (h2_L1 s)) (run1x.sl.v750 d s f6 b2 (h2_L1 s)) (run1x.sl.v755 d s f6 b2 (h2_L1 s)) (run1x.sl.v760 d s f6 b2 (h2_L1 s)) (run1x.sl.v765 d s f6 b2 (h2_L1 s)) (run1x.sl.v770 d s f6 b2 (h2_L1 s)) (run1x.sl.v775 d s f6 b2 (h2_L1 s)) (run1x.sl.v780 d s f6 b2 (h2_L1 s)) (run1x.sl.v785 d s f6 b2 (h2_L1 s)) (run1x.sl.v790 d s f6 b2 (h2_L1 s)) (run1x.sl.v795 d s f6 b2 (h2_L1 s)) (run1x.sl.v800 d s f6 b2 (h2_L1 s)) (run1x.sl.v805 d s f6 b2 (h2_L1 s)) (run1x.sl.v810 d s f6 b2 (h2_L1 s)) (run1x.sl.r_44 d s f6 b2 (h2_L1 s)) (run1x.sl.r_45 d s f6 b2 (h2_L1 s)) (C0of d s f7 b0) (C1of d s f8 b1) (k0_pay2371, k0_pay2371, k0_pay2371, k0_pay2371, k0_pay2371, k0_pay2371, k0_pay2371, k0_pay2371)
        (run1x.sl.v740 d s f6 b2 (h2_L1 s)) (run1x.sl.v780 d s f6 b2 (h2_L1 s)) (run1x.sl.r_45 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v740_apply (F := Ideal) d s f6 b2 (h2_L1 s) l) (row_v780_apply (F := Ideal) d s f6 b2 (h2_L1 s) l) (row_r_45_apply (F := Ideal) d s f6 b2 (h2_L1 s) l)
      (nrm_v964_apply (F := Ideal) d s f1 b3 (h2_L1 s) l) (nrm_v969_apply (F := Ideal) d s f1 b3 (h2_L1 s) l) (nrm_v974_apply (F := Ideal) d s f1 b3 (h2_L1 s) l)
      (C0of_apply (F := Ideal) d s f7 b0) (C1of_apply (F := Ideal) d s f8 b1)

end Cert.Proof.ScI

end
-- ==== Proof.ScMath1_5.lean ====
import proofs.«209750_g45337674776763_cont_8to1c4_158_37_alg».proof.Proof.ScMath4
import proofs.«209750_g45337674776763_cont_8to1c4_158_37_alg».proof.Proof.ScVal1_5
/-!
  Scan loop 4 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips5_eq : k0_t5_loop.trips = 32 := by decide

theorem chunk5_lt (k : Fin k0_t5_loop.trips) (i : Fin 16) : 16 * k.val + i.val < 512 := by
  have h1 : k.val < 32 := lt_of_lt_of_eq k.isLt trips5_eq
  have h2 := i.isLt
  omega

section Generic
variable {F : FTy → Type} [FloatOps F]
/-- Coordinate `a` of the chunk trip `k` loads, at lane `i`: the strip buffer at row `a`, column `16 k + i`. -/
theorem ldv5_apply (L : grid0.Coords) (k0_h2 : k0_cond2 L = 1#1) (k : Fin k0_t5_loop.trips)
    (c : Buf (Elt F) ((B0).view.loc (thr d L))) (a : Fin 3) (i : Fin 16) :
    ldv5 d L k0_h2 k c a (ix1 i) = c (ix2 a (⟨16 * k.val + i.val, chunk5_lt k i⟩ : Fin 512)) := by
  match a with
  | 0 =>
    show shapeCast S16 ((B0).view.readAt (Elt F) (Rect.unit (s := S3x512) (k0_off23 k) S1x16.size (k0_off23_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off23_eq k]
    | ⟨1, _⟩ => simp [LoadRect.idx_apply, k0_off23_eq k]
  | 1 =>
    show shapeCast S16 ((B0).view.readAt (Elt F) (Rect.unit (s := S3x512) (k0_off24 k) S1x16.size (k0_off24_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off24_eq k]
    | ⟨1, _⟩ => simp [LoadRect.idx_apply, k0_off24_eq k]
  | 2 =>
    show shapeCast S16 ((B0).view.readAt (Elt F) (Rect.unit (s := S3x512) (k0_off25 k) S1x16.size (k0_off25_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off25_eq k]
    | ⟨1, _⟩ => simp [LoadRect.idx_apply, k0_off25_eq k]
end Generic

/-- One trip's chunk against a block of rows, at a lane: the sixteen candidates `16 k + i`. -/
theorem trip_chunk5_apply (L : grid0.Coords) (k0_h2 : k0_cond2 L = 1#1) (rx ry rz cur : FVec Ideal S16 .f32)
    (k : Fin k0_t5_loop.trips) (c0 c1 : Buf (Elt Ideal) ((B0).view.loc (thr d L))) (l : S16.Idx) :
    chunk rx ry rz cur (ldv5 d L k0_h2 k c0 0) (ldv5 d L k0_h2 k c0 1) (ldv5 d L k0_h2 k c0 2)
        (nrmv (ldv5 d L k0_h2 k c1 0) (ldv5 d L k0_h2 k c1 1) (ldv5 d L k0_h2 k c1 2)) l
      = (Finset.univ : Finset (Fin 16)).fold min (cur l) (fun i => termS d L rx ry rz c0 c1 l ⟨16 * k.val + i.val, chunk5_lt k i⟩) := by
  rw [chunk_apply]
  simp only [nrmv_apply, ldv5_apply, termS, rdS]

/-- A block's carried minimum before trip `K`, at a lane. -/
theorem block_iter5 (L : grid0.Coords) (k0_h2 : k0_cond2 L = 1#1) (v1037 : FVec Ideal S16 .f32) (v1042 : FVec Ideal S16 .f32) (v1047 : FVec Ideal S16 .f32) (v1052 : FVec Ideal S16 .f32) (v1057 : FVec Ideal S16 .f32) (v1062 : FVec Ideal S16 .f32) (v1067 : FVec Ideal S16 .f32) (v1072 : FVec Ideal S16 .f32) (v1077 : FVec Ideal S16 .f32) (v1082 : FVec Ideal S16 .f32) (v1087 : FVec Ideal S16 .f32) (v1092 : FVec Ideal S16 .f32) (v1097 : FVec Ideal S16 .f32) (v1102 : FVec Ideal S16 .f32) (v1107 : FVec Ideal S16 .f32) (v1112 : FVec Ideal S16 .f32) (v1117 : FVec Ideal S16 .f32) (v1122 : FVec Ideal S16 .f32) (v1127 : FVec Ideal S16 .f32) (v1132 : FVec Ideal S16 .f32) (v1137 : FVec Ideal S16 .f32) (v1142 : FVec Ideal S16 .f32) (v1147 : FVec Ideal S16 .f32) (v1152 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t5_loop.trips) (acc : Acc Ideal),
      sel (tripSpec5 d L k0_h2 v1037 v1042 v1047 v1052 v1057 v1062 v1067 v1072 v1077 v1082 v1087 v1092 v1097 v1102 v1107 v1112 v1117 v1122 v1127 v1132 v1137 v1142 v1147 v1152 k c0 c1 acc)
        = chunk rx ry rz (sel acc) (ldv5 d L k0_h2 k c0 0) (ldv5 d L k0_h2 k c0 1) (ldv5 d L k0_h2 k c0 2)
            (nrmv (ldv5 d L k0_h2 k c1 0) (ldv5 d L k0_h2 k c1 1) (ldv5 d L k0_h2 k c1 2)))
    (l : S16.Idx) : ∀ K : ℕ, K ≤ 32 →
      sel (iter5 d L k0_h2 v1037 v1042 v1047 v1052 v1057 v1062 v1067 v1072 v1077 v1082 v1087 v1092 v1097 v1102 v1107 v1112 v1117 v1122 v1127 v1132 v1137 v1142 v1147 v1152 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t5_loop.trips := by rw [trips5_eq]; omega
    have hs := iter5_succ d L k0_h2 v1037 v1042 v1047 v1052 v1057 v1062 v1067 v1072 v1077 v1082 v1087 v1092 v1097 v1102 v1107 v1112 v1117 v1122 v1127 v1132 v1137 v1142 v1147 v1152 c0 c1 init ⟨K, hk⟩
    rw [show K + 1 = (⟨K, hk⟩ : Fin k0_t5_loop.trips).val + 1 from rfl, hs, hsel, trip_chunk5_apply,
      block_iter5 L k0_h2 v1037 v1042 v1047 v1052 v1057 v1062 v1067 v1072 v1077 v1082 v1087 v1092 v1097 v1102 v1107 v1112 v1117 v1122 v1127 v1132 v1137 v1142 v1147 v1152 c0 c1 init rx ry rz sel hsel l K (by omega)]
    exact fold_stepM (termS d L rx ry rz c0 c1 l) (sel init l) K (by omega)

/-- After all 32 trips, from lanes that start at `⊤`: the minimum over every candidate of the strip. -/
theorem block_all5 (L : grid0.Coords) (k0_h2 : k0_cond2 L = 1#1) (v1037 : FVec Ideal S16 .f32) (v1042 : FVec Ideal S16 .f32) (v1047 : FVec Ideal S16 .f32) (v1052 : FVec Ideal S16 .f32) (v1057 : FVec Ideal S16 .f32) (v1062 : FVec Ideal S16 .f32) (v1067 : FVec Ideal S16 .f32) (v1072 : FVec Ideal S16 .f32) (v1077 : FVec Ideal S16 .f32) (v1082 : FVec Ideal S16 .f32) (v1087 : FVec Ideal S16 .f32) (v1092 : FVec Ideal S16 .f32) (v1097 : FVec Ideal S16 .f32) (v1102 : FVec Ideal S16 .f32) (v1107 : FVec Ideal S16 .f32) (v1112 : FVec Ideal S16 .f32) (v1117 : FVec Ideal S16 .f32) (v1122 : FVec Ideal S16 .f32) (v1127 : FVec Ideal S16 .f32) (v1132 : FVec Ideal S16 .f32) (v1137 : FVec Ideal S16 .f32) (v1142 : FVec Ideal S16 .f32) (v1147 : FVec Ideal S16 .f32) (v1152 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t5_loop.trips) (acc : Acc Ideal),
      sel (tripSpec5 d L k0_h2 v1037 v1042 v1047 v1052 v1057 v1062 v1067 v1072 v1077 v1082 v1087 v1092 v1097 v1102 v1107 v1112 v1117 v1122 v1127 v1132 v1137 v1142 v1147 v1152 k c0 c1 acc)
        = chunk rx ry rz (sel acc) (ldv5 d L k0_h2 k c0 0) (ldv5 d L k0_h2 k c0 1) (ldv5 d L k0_h2 k c0 2)
            (nrmv (ldv5 d L k0_h2 k c1 0) (ldv5 d L k0_h2 k c1 1) (ldv5 d L k0_h2 k c1 2)))
    (l : S16.Idx) (htop : sel init l = (⊤ : EReal)) :
    sel (iter5 d L k0_h2 v1037 v1042 v1047 v1052 v1057 v1062 v1067 v1072 v1077 v1082 v1087 v1092 v1097 v1102 v1107 v1112 v1117 v1122 v1127 v1132 v1137 v1142 v1147 v1152 c0 c1 init k0_t5_loop.trips) l
      = (Finset.univ : Finset (Fin 512)).fold min (⊤ : EReal) (termS d L rx ry rz c0 c1 l) := by
  rw [trips5_eq, block_iter5 d L k0_h2 v1037 v1042 v1047 v1052 v1057 v1062 v1067 v1072 v1077 v1082 v1087 v1092 v1097 v1102 v1107 v1112 v1117 v1122 v1127 v1132 v1137 v1142 v1147 v1152 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScRows1_5.lean ====
import proofs.«209750_g45337674776763_cont_8to1c4_158_37_alg».proof.Proof.ScRows1_2
/-!
  The twenty-four row vectors of scan 4 of the second branch, read at a lane: coordinate `a` of point
  `1024 (s % 4) + 384 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem off_5_0_0 : ∀ s : Fin (grid0.bound 1), k0_off11 (L1 s) 384#32 0#32 = ![0, s.val % 4 * 1024 + 384] := by decide +kernel
theorem row_v1037_apply (s : Fin (grid0.bound 1)) (f6 : Buf (Elt F) (l6 d)) (b2 : Buf (Elt F) ((thr d (L1 s)).loc cc0_scratch2))
    (h : k0_cond2 (L1 s) = 1#1) (l : Fin 16) :
    run1x.sl.v1037 d s f6 b2 h (ix1 l)
      = f6 (ix3 (⟨s.val / 4, tileB_lt s⟩ : Fin 4) (0 : Fin 3) (⟨s.val % 4 * 1024 + 384 + l.val, rowcol_lt s 384 (by decide) l⟩ : Fin 4096)) := by
  unfold run1x.sl.v1037 run1x.sl.v1036
  exact (load16_apply d s b2 (run1x.sl.dma0_2 d s f6) _ _ _ (0 : Fin 3) (s.val % 4 * 1024 + 384) (off_5_0_0 s) l (rowcol_lt s 384 (by decide) l)).trans
    (dma0_2_apply d s f6 0 _)

theorem off_5_0_1 : ∀ s : Fin (grid0.bound 1), k0_off11 (L1 s) 384#32 16#32 = ![0, s.val % 4 * 1024 + 400] := by decide +kernel
theorem row_v1042_apply (s : Fin (grid0.bound 1)) (f6 : Buf (Elt F) (l6 d)) (b2 : Buf (Elt F) ((thr d (L1 s)).loc cc0_scratch2))
    (h : k0_cond2 (L1 s) = 1#1) (l : Fin 16) :
    run1x.sl.v1042 d s f6 b2 h (ix1 l)
      = f6 (ix3 (⟨s.val / 4, tileB_lt s⟩ : Fin 4) (0 : Fin 3) (⟨s.val % 4 * 1024 + 400 + l.val, rowcol_lt s 400 (by decide) l⟩ : Fin 4096)) := by
  unfold run1x.sl.v1042 run1x.sl.v1041
  exact (load16_apply d s b2 (run1x.sl.dma0_2 d s f6) _ _ _ (0 : Fin 3) (s.val % 4 * 1024 + 400) (off_5_0_1 s) l (rowcol_lt s 400 (by decide) l)).trans
    (dma0_2_apply d s f6 0 _)

theorem off_5_0_2 : ∀ s : Fin (grid0.bound 1), k0_off11 (L1 s) 384#32 32#32 = ![0, s.val % 4 * 1024 + 416] := by decide +kernel
theorem row_v1047_apply (s : Fin (grid0.bound 1)) (f6 : Buf (Elt F) (l6 d)) (b2 : Buf (Elt F) ((thr d (L1 s)).loc cc0_scratch2))
    (h : k0_cond2 (L1 s) = 1#1) (l : Fin 16) :
    run1x.sl.v1047 d s f6 b2 h (ix1 l)
      = f6 (ix3 (⟨s.val / 4, tileB_lt s⟩ : Fin 4) (0 : Fin 3) (⟨s.val % 4 * 1024 + 416 + l.val, rowcol_lt s 416 (by decide) l⟩ : Fin 4096)) := by
  unfold run1x.sl.v1047 run1x.sl.v1046
  exact (load16_apply d s b2 (run1x.sl.dma0_2 d s f6) _ _ _ (0 : Fin 3) (s.val % 4 * 1024 + 416) (off_5_0_2 s) l (rowcol_lt s 416 (by decide) l)).trans
    (dma0_2_apply d s f6 0 _)

theorem off_5_0_3 : ∀ s : Fin (grid0.bound 1), k0_off11 (L1 s) 384#32 48#32 = ![0, s.val % 4 * 1024 + 432] := by decide +kernel
theorem row_v1052_apply (s : Fin (grid0.bound 1)) (f6 : Buf (Elt F) (l6 d)) (b2 : Buf (Elt F) ((thr d (L1 s)).loc cc0_scratch2))
    (h : k0_cond2 (L1 s) = 1#1) (l : Fin 16) :
    run1x.sl.v1052 d s f6 b2 h (ix1 l)
      = f6 (ix3 (⟨s.val / 4, tileB_lt s⟩ : Fin 4) (0 : Fin 3) (⟨s.val % 4 * 1024 + 432 + l.val, rowcol_lt s 432 (by decide) l⟩ : Fin 4096)) := by
  unfold run1x.sl.v1052 run1x.sl.v1051
  exact (load16_apply d s b2 (run1x.sl.dma0_2 d s f6) _ _ _ (0 : Fin 3) (s.val % 4 * 1024 + 432) (off_5_0_3 s) l (rowcol_lt s 432 (by decide) l)).trans
    (dma0_2_apply d s f6 0 _)

theorem off_5_0_4 : ∀ s : Fin (grid0.bound 1), k0_off11 (L1 s) 384#32 64#32 = ![0, s.val % 4 * 1024 + 448] := by decide +kernel
theorem row_v1057_apply (s : Fin (grid0.bound 1)) (f6 : Buf (Elt F) (l6 d)) (b2 : Buf (Elt F) ((thr d (L1 s)).loc cc0_scratch2))
    (h : k0_cond2 (L1 s) = 1#1) (l : Fin 16) :
    run1x.sl.v1057 d s f6 b2 h (ix1 l)
      = f6 (ix3 (⟨s.val / 4, tileB_lt s⟩ : Fin 4) (0 : Fin 3) (⟨s.val % 4 * 1024 + 448 + l.val, rowcol_lt s 448 (by decide) l⟩ : Fin 4096)) := by
  unfold run1x.sl.v1057 run1x.sl.v1056
  exact (load16_apply d s b2 (run1x.sl.dma0_2 d s f6) _ _ _ (0 : Fin 3) (s.val % 4 * 1024 + 448) (off_5_0_4 s) l (rowcol_lt s 448 (by decide) l)).trans
    (dma0_2_apply d s f6 0 _)

theorem off_5_0_5 : ∀ s : Fin (grid0.bound 1), k0_off11 (L1 s) 384#32 80#32 = ![0, s.val % 4 * 1024 + 464] := by decide +kernel
theorem row_v1062_apply (s : Fin (grid0.bound 1)) (f6 : Buf (Elt F) (l6 d)) (b2 : Buf (Elt F) ((thr d (L1 s)).loc cc0_scratch2))
    (h : k0_cond2 (L1 s) = 1#1) (l : Fin 16) :
    run1x.sl.v1062 d s f6 b2 h (ix1 l)
      = f6 (ix3 (⟨s.val / 4, tileB_lt s⟩ : Fin 4) (0 : Fin 3) (⟨s.val % 4 * 1024 + 464 + l.val, rowcol_lt s 464 (by decide) l⟩ : Fin 4096)) := by
  unfold run1x.sl.v1062 run1x.sl.v1061
  exact (load16_apply d s b2 (run1x.sl.dma0_2 d s f6) _ _ _ (0 : Fin 3) (s.val % 4 * 1024 + 464) (off_5_0_5 s) l (rowcol_lt s 464 (by decide) l)).trans
    (dma0_2_apply d s f6 0 _)

theorem off_5_0_6 : ∀ s : Fin (grid0.bound 1), k0_off11 (L1 s) 384#32 96#32 = ![0, s.val % 4 * 1024 + 480] := by decide +kernel
theorem row_v1067_apply (s : Fin (grid0.bound 1)) (f6 : Buf (Elt F) (l6 d)) (b2 : Buf (Elt F) ((thr d (L1 s)).loc cc0_scratch2))
    (h : k0_cond2 (L1 s) = 1#1) (l : Fin 16) :
    run1x.sl.v1067 d s f6 b2 h (ix1 l)
      = f6 (ix3 (⟨s.val / 4, tileB_lt s⟩ : Fin 4) (0 : Fin 3) (⟨s.val % 4 * 1024 + 480 + l.val, rowcol_lt s 480 (by decide) l⟩ : Fin 4096)) := by
  unfold run1x.sl.v1067 run1x.sl.v1066
  exact (load16_apply d s b2 (run1x.sl.dma0_2 d s f6) _ _ _ (0 : Fin 3) (s.val % 4 * 1024 + 480) (off_5_0_6 s) l (rowcol_lt s 480 (by decide) l)).trans
    (dma0_2_apply d s f6 0 _)

theorem off_5_0_7 : ∀ s : Fin (grid0.bound 1), k0_off11 (L1 s) 384#32 112#32 = ![0, s.val % 4 * 1024 + 496] := by decide +kernel
theorem row_v1072_apply (s : Fin (grid0.bound 1)) (f6 : Buf (Elt F) (l6 d)) (b2 : Buf (Elt F) ((thr d (L1 s)).loc cc0_scratch2))
    (h : k0_cond2 (L1 s) = 1#1) (l : Fin 16) :
    run1x.sl.v1072 d s f6 b2 h (ix1 l)
      = f6 (ix3 (⟨s.val / 4, tileB_lt s⟩ : Fin 4) (0 : Fin 3) (⟨s.val % 4 * 1024 + 496 + l.val, rowcol_lt s 496 (by decide) l⟩ : Fin 4096)) := by
  unfold run1x.sl.v1072 run1x.sl.v1071
  exact (load16_apply d s b2 (run1x.sl.dma0_2 d s f6) _ _ _ (0 : Fin 3) (s.val % 4 * 1024 + 496) (off_5_0_7 s) l (rowcol_lt s 496 (by decide) l)).trans
    (dma0_2_apply d s f6 0 _)

theorem off_5_1_0 : ∀ s : Fin (grid0.bound 1), k0_off12 (L1 s) 384#32 0#32 = ![1, s.val % 4 * 1024 + 384] := by decide +kernel
theorem row_v1077_apply (s : Fin (grid0.bound 1)) (f6 : Buf (Elt F) (l6 d)) (b2 : Buf (Elt F) ((thr d (L1 s)).loc cc0_scratch2))
    (h : k0_cond2 (L1 s) = 1#1) (l : Fin 16) :
    run1x.sl.v1077 d s f6 b2 h (ix1 l)
      = f6 (ix3 (⟨s.val / 4, tileB_lt s⟩ : Fin 4) (1 : Fin 3) (⟨s.val % 4 * 1024 + 384 + l.val, rowcol_lt s 384 (by decide) l⟩ : Fin 4096)) := by
  unfold run1x.sl.v1077 run1x.sl.v1076
  exact (load16_apply d s b2 (run1x.sl.dma0_2 d s f6) _ _ _ (1 : Fin 3) (s.val % 4 * 1024 + 384) (off_5_1_0 s) l (rowcol_lt s 384 (by decide) l)).trans
    (dma0_2_apply d s f6 1 _)

theorem off_5_1_1 : ∀ s : Fin (grid0.bound 1), k0_off12 (L1 s) 384#32 16#32 = ![1, s.val % 4 * 1024 + 400] := by decide +kernel
theorem row_v1082_apply (s : Fin (grid0.bound 1)) (f6 : Buf (Elt F) (l6 d)) (b2 : Buf (Elt F) ((thr d (L1 s)).loc cc0_scratch2))
    (h : k0_cond2 (L1 s) = 1#1) (l : Fin 16) :
    run1x.sl.v1082 d s f6 b2 h (ix1 l)
      = f6 (ix3 (⟨s.val / 4, tileB_lt s⟩ : Fin 4) (1 : Fin 3) (⟨s.val % 4 * 1024 + 400 + l.val, rowcol_lt s 400 (by decide) l⟩ : Fin 4096)) := by
  unfold run1x.sl.v1082 run1x.sl.v1081
  exact (load16_apply d s b2 (run1x.sl.dma0_2 d s f6) _ _ _ (1 : Fin 3) (s.val % 4 * 1024 + 400) (off_5_1_1 s) l (rowcol_lt s 400 (by decide) l)).trans
    (dma0_2_apply d s f6 1 _)

theorem off_5_1_2 : ∀ s : Fin (grid0.bound 1), k0_off12 (L1 s) 384#32 32#32 = ![1, s.val % 4 * 1024 + 416] := by decide +kernel
theorem row_v1087_apply (s : Fin (grid0.bound 1)) (f6 : Buf (Elt F) (l6 d)) (b2 : Buf (Elt F) ((thr d (L1 s)).loc cc0_scratch2))
    (h : k0_cond2 (L1 s) = 1#1) (l : Fin 16) :
    run1x.sl.v1087 d s f6 b2 h (ix1 l)
      = f6 (ix3 (⟨s.val / 4, tileB_lt s⟩ : Fin 4) (1 : Fin 3) (⟨s.val % 4 * 1024 + 416 + l.val, rowcol_lt s 416 (by decide) l⟩ : Fin 4096)) := by
  unfold run1x.sl.v1087 run1x.sl.v1086
  exact (load16_apply d s b2 (run1x.sl.dma0_2 d s f6) _ _ _ (1 : Fin 3) (s.val % 4 * 1024 + 416) (off_5_1_2 s) l (rowcol_lt s 416 (by decide) l)).trans
    (dma0_2_apply d s f6 1 _)

theorem off_5_1_3 : ∀ s : Fin (grid0.bound 1), k0_off12 (L1 s) 384#32 48#32 = ![1, s.val % 4 * 1024 + 432] := by decide +kernel
theorem row_v1092_apply (s : Fin (grid0.bound 1)) (f6 : Buf (Elt F) (l6 d)) (b2 : Buf (Elt F) ((thr d (L1 s)).loc cc0_scratch2))
    (h : k0_cond2 (L1 s) = 1#1) (l : Fin 16) :
    run1x.sl.v1092 d s f6 b2 h (ix1 l)
      = f6 (ix3 (⟨s.val / 4, tileB_lt s⟩ : Fin 4) (1 : Fin 3) (⟨s.val % 4 * 1024 + 432 + l.val, rowcol_lt s 432 (by decide) l⟩ : Fin 4096)) := by
  unfold run1x.sl.v1092 run1x.sl.v1091
  exact (load16_apply d s b2 (run1x.sl.dma0_2 d s f6) _ _ _ (1 : Fin 3) (s.val % 4 * 1024 + 432) (off_5_1_3 s) l (rowcol_lt s 432 (by decide) l)).trans
    (dma0_2_apply d s f6 1 _)

theorem off_5_1_4 : ∀ s : Fin (grid0.bound 1), k0_off12 (L1 s) 384#32 64#32 = ![1, s.val % 4 * 1024 + 448] := by decide +kernel
theorem row_v1097_apply (s : Fin (grid0.bound 1)) (f6 : Buf (Elt F) (l6 d)) (b2 : Buf (Elt F) ((thr d (L1 s)).loc cc0_scratch2))
    (h : k0_cond2 (L1 s) = 1#1) (l : Fin 16) :
    run1x.sl.v1097 d s f6 b2 h (ix1 l)
      = f6 (ix3 (⟨s.val / 4, tileB_lt s⟩ : Fin 4) (1 : Fin 3) (⟨s.val % 4 * 1024 + 448 + l.val, rowcol_lt s 448 (by decide) l⟩ : Fin 4096)) := by
  unfold run1x.sl.v1097 run1x.sl.v1096
  exact (load16_apply d s b2 (run1x.sl.dma0_2 d s f6) _ _ _ (1 : Fin 3) (s.val % 4 * 1024 + 448) (off_5_1_4 s) l (rowcol_lt s 448 (by decide) l)).trans
    (dma0_2_apply d s f6 1 _)

theorem off_5_1_5 : ∀ s : Fin (grid0.bound 1), k0_off12 (L1 s) 384#32 80#32 = ![1, s.val % 4 * 1024 + 464] := by decide +kernel
theorem row_v1102_apply (s : Fin (grid0.bound 1)) (f6 : Buf (Elt F) (l6 d)) (b2 : Buf (Elt F) ((thr d (L1 s)).loc cc0_scratch2))
    (h : k0_cond2 (L1 s) = 1#1) (l : Fin 16) :
    run1x.sl.v1102 d s f6 b2 h (ix1 l)
      = f6 (ix3 (⟨s.val / 4, tileB_lt s⟩ : Fin 4) (1 : Fin 3) (⟨s.val % 4 * 1024 + 464 + l.val, rowcol_lt s 464 (by decide) l⟩ : Fin 4096)) := by
  unfold run1x.sl.v1102 run1x.sl.v1101
  exact (load16_apply d s b2 (run1x.sl.dma0_2 d s f6) _ _ _ (1 : Fin 3) (s.val % 4 * 1024 + 464) (off_5_1_5 s) l (rowcol_lt s 464 (by decide) l)).trans
    (dma0_2_apply d s f6 1 _)

theorem off_5_1_6 : ∀ s : Fin (grid0.bound 1), k0_off12 (L1 s) 384#32 96#32 = ![1, s.val % 4 * 1024 + 480] := by decide +kernel
theorem row_v1107_apply (s : Fin (grid0.bound 1)) (f6 : Buf (Elt F) (l6 d)) (b2 : Buf (Elt F) ((thr d (L1 s)).loc cc0_scratch2))
    (h : k0_cond2 (L1 s) = 1#1) (l : Fin 16) :
    run1x.sl.v1107 d s f6 b2 h (ix1 l)
      = f6 (ix3 (⟨s.val / 4, tileB_lt s⟩ : Fin 4) (1 : Fin 3) (⟨s.val % 4 * 1024 + 480 + l.val, rowcol_lt s 480 (by decide) l⟩ : Fin 4096)) := by
  unfold run1x.sl.v1107 run1x.sl.v1106
  exact (load16_apply d s b2 (run1x.sl.dma0_2 d s f6) _ _ _ (1 : Fin 3) (s.val % 4 * 1024 + 480) (off_5_1_6 s) l (rowcol_lt s 480 (by decide) l)).trans
    (dma0_2_apply d s f6 1 _)

theorem off_5_1_7 : ∀ s : Fin (grid0.bound 1), k0_off12 (L1 s) 384#32 112#32 = ![1, s.val % 4 * 1024 + 496] := by decide +kernel
theorem row_v1112_apply (s : Fin (grid0.bound 1)) (f6 : Buf (Elt F) (l6 d)) (b2 : Buf (Elt F) ((thr d (L1 s)).loc cc0_scratch2))
    (h : k0_cond2 (L1 s) = 1#1) (l : Fin 16) :
    run1x.sl.v1112 d s f6 b2 h (ix1 l)
      = f6 (ix3 (⟨s.val / 4, tileB_lt s⟩ : Fin 4) (1 : Fin 3) (⟨s.val % 4 * 1024 + 496 + l.val, rowcol_lt s 496 (by decide) l⟩ : Fin 4096)) := by
  unfold run1x.sl.v1112 run1x.sl.v1111
  exact (load16_apply d s b2 (run1x.sl.dma0_2 d s f6) _ _ _ (1 : Fin 3) (s.val % 4 * 1024 + 496) (off_5_1_7 s) l (rowcol_lt s 496 (by decide) l)).trans
    (dma0_2_apply d s f6 1 _)

theorem off_5_2_0 : ∀ s : Fin (grid0.bound 1), k0_off13 (L1 s) 384#32 0#32 = ![2, s.val % 4 * 1024 + 384] := by decide +kernel
theorem row_v1117_apply (s : Fin (grid0.bound 1)) (f6 : Buf (Elt F) (l6 d)) (b2 : Buf (Elt F) ((thr d (L1 s)).loc cc0_scratch2))
    (h : k0_cond2 (L1 s) = 1#1) (l : Fin 16) :
    run1x.sl.v1117 d s f6 b2 h (ix1 l)
      = f6 (ix3 (⟨s.val / 4, tileB_lt s⟩ : Fin 4) (2 : Fin 3) (⟨s.val % 4 * 1024 + 384 + l.val, rowcol_lt s 384 (by decide) l⟩ : Fin 4096)) := by
  unfold run1x.sl.v1117 run1x.sl.v1116
  exact (load16_apply d s b2 (run1x.sl.dma0_2 d s f6) _ _ _ (2 : Fin 3) (s.val % 4 * 1024 + 384) (off_5_2_0 s) l (rowcol_lt s 384 (by decide) l)).trans
    (dma0_2_apply d s f6 2 _)

theorem off_5_2_1 : ∀ s : Fin (grid0.bound 1), k0_off13 (L1 s) 384#32 16#32 = ![2, s.val % 4 * 1024 + 400] := by decide +kernel
theorem row_v1122_apply (s : Fin (grid0.bound 1)) (f6 : Buf (Elt F) (l6 d)) (b2 : Buf (Elt F) ((thr d (L1 s)).loc cc0_scratch2))
    (h : k0_cond2 (L1 s) = 1#1) (l : Fin 16) :
    run1x.sl.v1122 d s f6 b2 h (ix1 l)
      = f6 (ix3 (⟨s.val / 4, tileB_lt s⟩ : Fin 4) (2 : Fin 3) (⟨s.val % 4 * 1024 + 400 + l.val, rowcol_lt s 400 (by decide) l⟩ : Fin 4096)) := by
  unfold run1x.sl.v1122 run1x.sl.v1121
  exact (load16_apply d s b2 (run1x.sl.dma0_2 d s f6) _ _ _ (2 : Fin 3) (s.val % 4 * 1024 + 400) (off_5_2_1 s) l (rowcol_lt s 400 (by decide) l)).trans
    (dma0_2_apply d s f6 2 _)

theorem off_5_2_2 : ∀ s : Fin (grid0.bound 1), k0_off13 (L1 s) 384#32 32#32 = ![2, s.val % 4 * 1024 + 416] := by decide +kernel
theorem row_v1127_apply (s : Fin (grid0.bound 1)) (f6 : Buf (Elt F) (l6 d)) (b2 : Buf (Elt F) ((thr d (L1 s)).loc cc0_scratch2))
    (h : k0_cond2 (L1 s) = 1#1) (l : Fin 16) :
    run1x.sl.v1127 d s f6 b2 h (ix1 l)
      = f6 (ix3 (⟨s.val / 4, tileB_lt s⟩ : Fin 4) (2 : Fin 3) (⟨s.val % 4 * 1024 + 416 + l.val, rowcol_lt s 416 (by decide) l⟩ : Fin 4096)) := by
  unfold run1x.sl.v1127 run1x.sl.v1126
  exact (load16_apply d s b2 (run1x.sl.dma0_2 d s f6) _ _ _ (2 : Fin 3) (s.val % 4 * 1024 + 416) (off_5_2_2 s) l (rowcol_lt s 416 (by decide) l)).trans
    (dma0_2_apply d s f6 2 _)

theorem off_5_2_3 : ∀ s : Fin (grid0.bound 1), k0_off13 (L1 s) 384#32 48#32 = ![2, s.val % 4 * 1024 + 432] := by decide +kernel
theorem row_v1132_apply (s : Fin (grid0.bound 1)) (f6 : Buf (Elt F) (l6 d)) (b2 : Buf (Elt F) ((thr d (L1 s)).loc cc0_scratch2))
    (h : k0_cond2 (L1 s) = 1#1) (l : Fin 16) :
    run1x.sl.v1132 d s f6 b2 h (ix1 l)
      = f6 (ix3 (⟨s.val / 4, tileB_lt s⟩ : Fin 4) (2 : Fin 3) (⟨s.val % 4 * 1024 + 432 + l.val, rowcol_lt s 432 (by decide) l⟩ : Fin 4096)) := by
  unfold run1x.sl.v1132 run1x.sl.v1131
  exact (load16_apply d s b2 (run1x.sl.dma0_2 d s f6) _ _ _ (2 : Fin 3) (s.val % 4 * 1024 + 432) (off_5_2_3 s) l (rowcol_lt s 432 (by decide) l)).trans
    (dma0_2_apply d s f6 2 _)

theorem off_5_2_4 : ∀ s : Fin (grid0.bound 1), k0_off13 (L1 s) 384#32 64#32 = ![2, s.val % 4 * 1024 + 448] := by decide +kernel
theorem row_v1137_apply (s : Fin (grid0.bound 1)) (f6 : Buf (Elt F) (l6 d)) (b2 : Buf (Elt F) ((thr d (L1 s)).loc cc0_scratch2))
    (h : k0_cond2 (L1 s) = 1#1) (l : Fin 16) :
    run1x.sl.v1137 d s f6 b2 h (ix1 l)
      = f6 (ix3 (⟨s.val / 4, tileB_lt s⟩ : Fin 4) (2 : Fin 3) (⟨s.val % 4 * 1024 + 448 + l.val, rowcol_lt s 448 (by decide) l⟩ : Fin 4096)) := by
  unfold run1x.sl.v1137 run1x.sl.v1136
  exact (load16_apply d s b2 (run1x.sl.dma0_2 d s f6) _ _ _ (2 : Fin 3) (s.val % 4 * 1024 + 448) (off_5_2_4 s) l (rowcol_lt s 448 (by decide) l)).trans
    (dma0_2_apply d s f6 2 _)

theorem off_5_2_5 : ∀ s : Fin (grid0.bound 1), k0_off13 (L1 s) 384#32 80#32 = ![2, s.val % 4 * 1024 + 464] := by decide +kernel
theorem row_v1142_apply (s : Fin (grid0.bound 1)) (f6 : Buf (Elt F) (l6 d)) (b2 : Buf (Elt F) ((thr d (L1 s)).loc cc0_scratch2))
    (h : k0_cond2 (L1 s) = 1#1) (l : Fin 16) :
    run1x.sl.v1142 d s f6 b2 h (ix1 l)
      = f6 (ix3 (⟨s.val / 4, tileB_lt s⟩ : Fin 4) (2 : Fin 3) (⟨s.val % 4 * 1024 + 464 + l.val, rowcol_lt s 464 (by decide) l⟩ : Fin 4096)) := by
  unfold run1x.sl.v1142 run1x.sl.v1141
  exact (load16_apply d s b2 (run1x.sl.dma0_2 d s f6) _ _ _ (2 : Fin 3) (s.val % 4 * 1024 + 464) (off_5_2_5 s) l (rowcol_lt s 464 (by decide) l)).trans
    (dma0_2_apply d s f6 2 _)

theorem off_5_2_6 : ∀ s : Fin (grid0.bound 1), k0_off13 (L1 s) 384#32 96#32 = ![2, s.val % 4 * 1024 + 480] := by decide +kernel
theorem row_v1147_apply (s : Fin (grid0.bound 1)) (f6 : Buf (Elt F) (l6 d)) (b2 : Buf (Elt F) ((thr d (L1 s)).loc cc0_scratch2))
    (h : k0_cond2 (L1 s) = 1#1) (l : Fin 16) :
    run1x.sl.v1147 d s f6 b2 h (ix1 l)
      = f6 (ix3 (⟨s.val / 4, tileB_lt s⟩ : Fin 4) (2 : Fin 3) (⟨s.val % 4 * 1024 + 480 + l.val, rowcol_lt s 480 (by decide) l⟩ : Fin 4096)) := by
  unfold run1x.sl.v1147 run1x.sl.v1146
  exact (load16_apply d s b2 (run1x.sl.dma0_2 d s f6) _ _ _ (2 : Fin 3) (s.val % 4 * 1024 + 480) (off_5_2_6 s) l (rowcol_lt s 480 (by decide) l)).trans
    (dma0_2_apply d s f6 2 _)

theorem off_5_2_7 : ∀ s : Fin (grid0.bound 1), k0_off13 (L1 s) 384#32 112#32 = ![2, s.val % 4 * 1024 + 496] := by decide +kernel
theorem row_v1152_apply (s : Fin (grid0.bound 1)) (f6 : Buf (Elt F) (l6 d)) (b2 : Buf (Elt F) ((thr d (L1 s)).loc cc0_scratch2))
    (h : k0_cond2 (L1 s) = 1#1) (l : Fin 16) :
    run1x.sl.v1152 d s f6 b2 h (ix1 l)
      = f6 (ix3 (⟨s.val / 4, tileB_lt s⟩ : Fin 4) (2 : Fin 3) (⟨s.val % 4 * 1024 + 496 + l.val, rowcol_lt s 496 (by decide) l⟩ : Fin 4096)) := by
  unfold run1x.sl.v1152 run1x.sl.v1151
  exact (load16_apply d s b2 (run1x.sl.dma0_2 d s f6) _ _ _ (2 : Fin 3) (s.val % 4 * 1024 + 496) (off_5_2_7 s) l (rowcol_lt s 496 (by decide) l)).trans
    (dma0_2_apply d s f6 2 _)

end Cert.Proof.ScI

end
-- ==== Proof.ScNrm1_5.lean ====
import proofs.«209750_g45337674776763_cont_8to1c4_158_37_alg».proof.Proof.ScNrm1_2
import proofs.«209750_g45337674776763_cont_8to1c4_158_37_alg».proof.Proof.ScRows1_5
/-!
  The norm rows of group 3 of the second branch, read at a lane: the sixteen-lane loads of the buffer that holds
  the second set's batch (for the row norms), coordinate `a` of point `1024 (s % 4) + 384 + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem nrm_v1156_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1156 d s f1 b3 h) shapeCasts_S1x16_S16 (ix1 l)
      = f1 (ix3 (⟨s.val / 4, tileB_lt s⟩ : Fin 4) (0 : Fin 3) (⟨s.val % 4 * 1024 + 384 + l.val, rowcol_lt s 384 (by decide) l⟩ : Fin 4096)) := by
  unfold run1x.sl.v1156
  exact (load16B3_apply d s b3 (run1x.sl.dma0_3 d s f1) _ _ _ (0 : Fin 3) (s.val % 4 * 1024 + 384) (off_5_0_0 s) l (rowcol_lt s 384 (by decide) l)).trans
    (dma0_3_apply d s f1 0 _)

theorem nrm_v1161_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1161 d s f1 b3 h) shapeCasts_S1x16_S16 (ix1 l)
      = f1 (ix3 (⟨s.val / 4, tileB_lt s⟩ : Fin 4) (1 : Fin 3) (⟨s.val % 4 * 1024 + 384 + l.val, rowcol_lt s 384 (by decide) l⟩ : Fin 4096)) := by
  unfold run1x.sl.v1161
  exact (load16B3_apply d s b3 (run1x.sl.dma0_3 d s f1) _ _ _ (1 : Fin 3) (s.val % 4 * 1024 + 384) (off_5_1_0 s) l (rowcol_lt s 384 (by decide) l)).trans
    (dma0_3_apply d s f1 1 _)

theorem nrm_v1166_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1166 d s f1 b3 h) shapeCasts_S1x16_S16 (ix1 l)
      = f1 (ix3 (⟨s.val / 4, tileB_lt s⟩ : Fin 4) (2 : Fin 3) (⟨s.val % 4 * 1024 + 384 + l.val, rowcol_lt s 384 (by decide) l⟩ : Fin 4096)) := by
  unfold run1x.sl.v1166
  exact (load16B3_apply d s b3 (run1x.sl.dma0_3 d s f1) _ _ _ (2 : Fin 3) (s.val % 4 * 1024 + 384) (off_5_2_0 s) l (rowcol_lt s 384 (by decide) l)).trans
    (dma0_3_apply d s f1 2 _)

theorem nrm_v1176_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1176 d s f1 b3 h) shapeCasts_S1x16_S16 (ix1 l)
      = f1 (ix3 (⟨s.val / 4, tileB_lt s⟩ : Fin 4) (0 : Fin 3) (⟨s.val % 4 * 1024 + 400 + l.val, rowcol_lt s 400 (by decide) l⟩ : Fin 4096)) := by
  unfold run1x.sl.v1176
  exact (load16B3_apply d s b3 (run1x.sl.dma0_3 d s f1) _ _ _ (0 : Fin 3) (s.val % 4 * 1024 + 400) (off_5_0_1 s) l (rowcol_lt s 400 (by decide) l)).trans
    (dma0_3_apply d s f1 0 _)

theorem nrm_v1181_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1181 d s f1 b3 h) shapeCasts_S1x16_S16 (ix1 l)
      = f1 (ix3 (⟨s.val / 4, tileB_lt s⟩ : Fin 4) (1 : Fin 3) (⟨s.val % 4 * 1024 + 400 + l.val, rowcol_lt s 400 (by decide) l⟩ : Fin 4096)) := by
  unfold run1x.sl.v1181
  exact (load16B3_apply d s b3 (run1x.sl.dma0_3 d s f1) _ _ _ (1 : Fin 3) (s.val % 4 * 1024 + 400) (off_5_1_1 s) l (rowcol_lt s 400 (by decide) l)).trans
    (dma0_3_apply d s f1 1 _)

theorem nrm_v1186_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1186 d s f1 b3 h) shapeCasts_S1x16_S16 (ix1 l)
      = f1 (ix3 (⟨s.val / 4, tileB_lt s⟩ : Fin 4) (2 : Fin 3) (⟨s.val % 4 * 1024 + 400 + l.val, rowcol_lt s 400 (by decide) l⟩ : Fin 4096)) := by
  unfold run1x.sl.v1186
  exact (load16B3_apply d s b3 (run1x.sl.dma0_3 d s f1) _ _ _ (2 : Fin 3) (s.val % 4 * 1024 + 400) (off_5_2_1 s) l (rowcol_lt s 400 (by decide) l)).trans
    (dma0_3_apply d s f1 2 _)

theorem nrm_v1196_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1196 d s f1 b3 h) shapeCasts_S1x16_S16 (ix1 l)
      = f1 (ix3 (⟨s.val / 4, tileB_lt s⟩ : Fin 4) (0 : Fin 3) (⟨s.val % 4 * 1024 + 416 + l.val, rowcol_lt s 416 (by decide) l⟩ : Fin 4096)) := by
  unfold run1x.sl.v1196
  exact (load16B3_apply d s b3 (run1x.sl.dma0_3 d s f1) _ _ _ (0 : Fin 3) (s.val % 4 * 1024 + 416) (off_5_0_2 s) l (rowcol_lt s 416 (by decide) l)).trans
    (dma0_3_apply d s f1 0 _)

theorem nrm_v1201_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1201 d s f1 b3 h) shapeCasts_S1x16_S16 (ix1 l)
      = f1 (ix3 (⟨s.val / 4, tileB_lt s⟩ : Fin 4) (1 : Fin 3) (⟨s.val % 4 * 1024 + 416 + l.val, rowcol_lt s 416 (by decide) l⟩ : Fin 4096)) := by
  unfold run1x.sl.v1201
  exact (load16B3_apply d s b3 (run1x.sl.dma0_3 d s f1) _ _ _ (1 : Fin 3) (s.val % 4 * 1024 + 416) (off_5_1_2 s) l (rowcol_lt s 416 (by decide) l)).trans
    (dma0_3_apply d s f1 1 _)

theorem nrm_v1206_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1206 d s f1 b3 h) shapeCasts_S1x16_S16 (ix1 l)
      = f1 (ix3 (⟨s.val / 4, tileB_lt s⟩ : Fin 4) (2 : Fin 3) (⟨s.val % 4 * 1024 + 416 + l.val, rowcol_lt s 416 (by decide) l⟩ : Fin 4096)) := by
  unfold run1x.sl.v1206
  exact (load16B3_apply d s b3 (run1x.sl.dma0_3 d s f1) _ _ _ (2 : Fin 3) (s.val % 4 * 1024 + 416) (off_5_2_2 s) l (rowcol_lt s 416 (by decide) l)).trans
    (dma0_3_apply d s f1 2 _)

theorem nrm_v1216_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1216 d s f1 b3 h) shapeCasts_S1x16_S16 (ix1 l)
      = f1 (ix3 (⟨s.val / 4, tileB_lt s⟩ : Fin 4) (0 : Fin 3) (⟨s.val % 4 * 1024 + 432 + l.val, rowcol_lt s 432 (by decide) l⟩ : Fin 4096)) := by
  unfold run1x.sl.v1216
  exact (load16B3_apply d s b3 (run1x.sl.dma0_3 d s f1) _ _ _ (0 : Fin 3) (s.val % 4 * 1024 + 432) (off_5_0_3 s) l (rowcol_lt s 432 (by decide) l)).trans
    (dma0_3_apply d s f1 0 _)

theorem nrm_v1221_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1221 d s f1 b3 h) shapeCasts_S1x16_S16 (ix1 l)
      = f1 (ix3 (⟨s.val / 4, tileB_lt s⟩ : Fin 4) (1 : Fin 3) (⟨s.val % 4 * 1024 + 432 + l.val, rowcol_lt s 432 (by decide) l⟩ : Fin 4096)) := by
  unfold run1x.sl.v1221
  exact (load16B3_apply d s b3 (run1x.sl.dma0_3 d s f1) _ _ _ (1 : Fin 3) (s.val % 4 * 1024 + 432) (off_5_1_3 s) l (rowcol_lt s 432 (by decide) l)).trans
    (dma0_3_apply d s f1 1 _)

theorem nrm_v1226_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1226 d s f1 b3 h) shapeCasts_S1x16_S16 (ix1 l)
      = f1 (ix3 (⟨s.val / 4, tileB_lt s⟩ : Fin 4) (2 : Fin 3) (⟨s.val % 4 * 1024 + 432 + l.val, rowcol_lt s 432 (by decide) l⟩ : Fin 4096)) := by
  unfold run1x.sl.v1226
  exact (load16B3_apply d s b3 (run1x.sl.dma0_3 d s f1) _ _ _ (2 : Fin 3) (s.val % 4 * 1024 + 432) (off_5_2_3 s) l (rowcol_lt s 432 (by decide) l)).trans
    (dma0_3_apply d s f1 2 _)

theorem nrm_v1236_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1236 d s f1 b3 h) shapeCasts_S1x16_S16 (ix1 l)
      = f1 (ix3 (⟨s.val / 4, tileB_lt s⟩ : Fin 4) (0 : Fin 3) (⟨s.val % 4 * 1024 + 448 + l.val, rowcol_lt s 448 (by decide) l⟩ : Fin 4096)) := by
  unfold run1x.sl.v1236
  exact (load16B3_apply d s b3 (run1x.sl.dma0_3 d s f1) _ _ _ (0 : Fin 3) (s.val % 4 * 1024 + 448) (off_5_0_4 s) l (rowcol_lt s 448 (by decide) l)).trans
    (dma0_3_apply d s f1 0 _)

theorem nrm_v1241_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1241 d s f1 b3 h) shapeCasts_S1x16_S16 (ix1 l)
      = f1 (ix3 (⟨s.val / 4, tileB_lt s⟩ : Fin 4) (1 : Fin 3) (⟨s.val % 4 * 1024 + 448 + l.val, rowcol_lt s 448 (by decide) l⟩ : Fin 4096)) := by
  unfold run1x.sl.v1241
  exact (load16B3_apply d s b3 (run1x.sl.dma0_3 d s f1) _ _ _ (1 : Fin 3) (s.val % 4 * 1024 + 448) (off_5_1_4 s) l (rowcol_lt s 448 (by decide) l)).trans
    (dma0_3_apply d s f1 1 _)

theorem nrm_v1246_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1246 d s f1 b3 h) shapeCasts_S1x16_S16 (ix1 l)
      = f1 (ix3 (⟨s.val / 4, tileB_lt s⟩ : Fin 4) (2 : Fin 3) (⟨s.val % 4 * 1024 + 448 + l.val, rowcol_lt s 448 (by decide) l⟩ : Fin 4096)) := by
  unfold run1x.sl.v1246
  exact (load16B3_apply d s b3 (run1x.sl.dma0_3 d s f1) _ _ _ (2 : Fin 3) (s.val % 4 * 1024 + 448) (off_5_2_4 s) l (rowcol_lt s 448 (by decide) l)).trans
    (dma0_3_apply d s f1 2 _)

theorem nrm_v1256_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1256 d s f1 b3 h) shapeCasts_S1x16_S16 (ix1 l)
      = f1 (ix3 (⟨s.val / 4, tileB_lt s⟩ : Fin 4) (0 : Fin 3) (⟨s.val % 4 * 1024 + 464 + l.val, rowcol_lt s 464 (by decide) l⟩ : Fin 4096)) := by
  unfold run1x.sl.v1256
  exact (load16B3_apply d s b3 (run1x.sl.dma0_3 d s f1) _ _ _ (0 : Fin 3) (s.val % 4 * 1024 + 464) (off_5_0_5 s) l (rowcol_lt s 464 (by decide) l)).trans
    (dma0_3_apply d s f1 0 _)

theorem nrm_v1261_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1261 d s f1 b3 h) shapeCasts_S1x16_S16 (ix1 l)
      = f1 (ix3 (⟨s.val / 4, tileB_lt s⟩ : Fin 4) (1 : Fin 3) (⟨s.val % 4 * 1024 + 464 + l.val, rowcol_lt s 464 (by decide) l⟩ : Fin 4096)) := by
  unfold run1x.sl.v1261
  exact (load16B3_apply d s b3 (run1x.sl.dma0_3 d s f1) _ _ _ (1 : Fin 3) (s.val % 4 * 1024 + 464) (off_5_1_5 s) l (rowcol_lt s 464 (by decide) l)).trans
    (dma0_3_apply d s f1 1 _)

theorem nrm_v1266_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1266 d s f1 b3 h) shapeCasts_S1x16_S16 (ix1 l)
      = f1 (ix3 (⟨s.val / 4, tileB_lt s⟩ : Fin 4) (2 : Fin 3) (⟨s.val % 4 * 1024 + 464 + l.val, rowcol_lt s 464 (by decide) l⟩ : Fin 4096)) := by
  unfold run1x.sl.v1266
  exact (load16B3_apply d s b3 (run1x.sl.dma0_3 d s f1) _ _ _ (2 : Fin 3) (s.val % 4 * 1024 + 464) (off_5_2_5 s) l (rowcol_lt s 464 (by decide) l)).trans
    (dma0_3_apply d s f1 2 _)

theorem nrm_v1276_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1276 d s f1 b3 h) shapeCasts_S1x16_S16 (ix1 l)
      = f1 (ix3 (⟨s.val / 4, tileB_lt s⟩ : Fin 4) (0 : Fin 3) (⟨s.val % 4 * 1024 + 480 + l.val, rowcol_lt s 480 (by decide) l⟩ : Fin 4096)) := by
  unfold run1x.sl.v1276
  exact (load16B3_apply d s b3 (run1x.sl.dma0_3 d s f1) _ _ _ (0 : Fin 3) (s.val % 4 * 1024 + 480) (off_5_0_6 s) l (rowcol_lt s 480 (by decide) l)).trans
    (dma0_3_apply d s f1 0 _)

theorem nrm_v1281_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1281 d s f1 b3 h) shapeCasts_S1x16_S16 (ix1 l)
      = f1 (ix3 (⟨s.val / 4, tileB_lt s⟩ : Fin 4) (1 : Fin 3) (⟨s.val % 4 * 1024 + 480 + l.val, rowcol_lt s 480 (by decide) l⟩ : Fin 4096)) := by
  unfold run1x.sl.v1281
  exact (load16B3_apply d s b3 (run1x.sl.dma0_3 d s f1) _ _ _ (1 : Fin 3) (s.val % 4 * 1024 + 480) (off_5_1_6 s) l (rowcol_lt s 480 (by decide) l)).trans
    (dma0_3_apply d s f1 1 _)

theorem nrm_v1286_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1286 d s f1 b3 h) shapeCasts_S1x16_S16 (ix1 l)
      = f1 (ix3 (⟨s.val / 4, tileB_lt s⟩ : Fin 4) (2 : Fin 3) (⟨s.val % 4 * 1024 + 480 + l.val, rowcol_lt s 480 (by decide) l⟩ : Fin 4096)) := by
  unfold run1x.sl.v1286
  exact (load16B3_apply d s b3 (run1x.sl.dma0_3 d s f1) _ _ _ (2 : Fin 3) (s.val % 4 * 1024 + 480) (off_5_2_6 s) l (rowcol_lt s 480 (by decide) l)).trans
    (dma0_3_apply d s f1 2 _)

theorem nrm_v1296_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1296 d s f1 b3 h) shapeCasts_S1x16_S16 (ix1 l)
      = f1 (ix3 (⟨s.val / 4, tileB_lt s⟩ : Fin 4) (0 : Fin 3) (⟨s.val % 4 * 1024 + 496 + l.val, rowcol_lt s 496 (by decide) l⟩ : Fin 4096)) := by
  unfold run1x.sl.v1296
  exact (load16B3_apply d s b3 (run1x.sl.dma0_3 d s f1) _ _ _ (0 : Fin 3) (s.val % 4 * 1024 + 496) (off_5_0_7 s) l (rowcol_lt s 496 (by decide) l)).trans
    (dma0_3_apply d s f1 0 _)

theorem nrm_v1301_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1301 d s f1 b3 h) shapeCasts_S1x16_S16 (ix1 l)
      = f1 (ix3 (⟨s.val / 4, tileB_lt s⟩ : Fin 4) (1 : Fin 3) (⟨s.val % 4 * 1024 + 496 + l.val, rowcol_lt s 496 (by decide) l⟩ : Fin 4096)) := by
  unfold run1x.sl.v1301
  exact (load16B3_apply d s b3 (run1x.sl.dma0_3 d s f1) _ _ _ (1 : Fin 3) (s.val % 4 * 1024 + 496) (off_5_1_7 s) l (rowcol_lt s 496 (by decide) l)).trans
    (dma0_3_apply d s f1 1 _)

theorem nrm_v1306_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1306 d s f1 b3 h) shapeCasts_S1x16_S16 (ix1 l)
      = f1 (ix3 (⟨s.val / 4, tileB_lt s⟩ : Fin 4) (2 : Fin 3) (⟨s.val % 4 * 1024 + 496 + l.val, rowcol_lt s 496 (by decide) l⟩ : Fin 4096)) := by
  unfold run1x.sl.v1306
  exact (load16B3_apply d s b3 (run1x.sl.dma0_3 d s f1) _ _ _ (2 : Fin 3) (s.val % 4 * 1024 + 496) (off_5_2_7 s) l (rowcol_lt s 496 (by decide) l)).trans
    (dma0_3_apply d s f1 2 _)

end Cert.Proof.ScI

end
-- ==== Proof.ScBridge1G5.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_5
import proofs.«209750_g45337674776763_cont_8to1c4_158_37_alg».proof.Proof.ScRows1_5
import proofs.«209750_g45337674776763_cont_8to1c4_158_37_alg».proof.Proof.ScNrm1_5
import proofs.«209750_g45337674776763_cont_8to1c4_158_37_alg».proof.Proof.ScX1a

/-!
  The second SparseCore branch's group 3 of words (`384` to `511` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group3 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 384 ≤ (j 0).val) (hhi : (j 0).val < 512) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 384 + 16 * J.val + l.val :=
    ⟨⟨((j 0).val - 384) / 16, by omega⟩, ⟨((j 0).val - 384) % 16, by omega⟩,
      by show _ = 384 + 16 * (((j 0).val - 384) / 16) + ((j 0).val - 384) % 16; omega⟩
  have er : (⟨s.val % 4 * 1024 + (j 0).val, by have : s.val < 16 := s.isLt; have : (j 0).val < 1024 := (j 0).isLt; omega⟩ : Fin 4096) = (⟨s.val % 4 * 1024 + (384 + 16 * J.val) + l.val, by have := l.isLt; have := J.isLt; omega⟩ : Fin 4096) :=
    Fin.ext (by show s.val % 4 * 1024 + (j 0).val = s.val % 4 * 1024 + (384 + 16 * J.val) + l.val; omega)
  rw [er]
  delta X1of
  refine (W1_read3 d s f1 b3 b4 (h2_L1 s) _ _ _ _ _ _ _ _ j J l hj).trans ?_
  delta A5of
  obtain ⟨Jv, hJv⟩ := J
  interval_cases Jv
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1037 d s f6 b2 (h2_L1 s)) (run1x.sl.v1077 d s f6 b2 (h2_L1 s)) (run1x.sl.v1117 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_v1037_apply (F := Ideal) d s f6 b2 (h2_L1 s) l) (row_v1077_apply (F := Ideal) d s f6 b2 (h2_L1 s) l) (row_v1117_apply (F := Ideal) d s f6 b2 (h2_L1 s) l)
      (nrm_v1156_apply (F := Ideal) d s f1 b3 (h2_L1 s) l) (nrm_v1161_apply (F := Ideal) d s f1 b3 (h2_L1 s) l) (nrm_v1166_apply (F := Ideal) d s f1 b3 (h2_L1 s) l)
      (C0of_apply (F := Ideal) d s f7 b0) (C1of_apply (F := Ideal) d s f8 b1)
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1042 d s f6 b2 (h2_L1 s)) (run1x.sl.v1082 d s f6 b2 (h2_L1 s)) (run1x.sl.v1122 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_v1042_apply (F := Ideal) d s f6 b2 (h2_L1 s) l) (row_v1082_apply (F := Ideal) d s f6 b2 (h2_L1 s) l) (row_v1122_apply (F := Ideal) d s f6 b2 (h2_L1 s) l)
      (nrm_v1176_apply (F := Ideal) d s f1 b3 (h2_L1 s) l) (nrm_v1181_apply (F := Ideal) d s f1 b3 (h2_L1 s) l) (nrm_v1186_apply (F := Ideal) d s f1 b3 (h2_L1 s) l)
      (C0of_apply (F := Ideal) d s f7 b0) (C1of_apply (F := Ideal) d s f8 b1)
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1047 d s f6 b2 (h2_L1 s)) (run1x.sl.v1087 d s f6 b2 (h2_L1 s)) (run1x.sl.v1127 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_v1047_apply (F := Ideal) d s f6 b2 (h2_L1 s) l) (row_v1087_apply (F := Ideal) d s f6 b2 (h2_L1 s) l) (row_v1127_apply (F := Ideal) d s f6 b2 (h2_L1 s) l)
      (nrm_v1196_apply (F := Ideal) d s f1 b3 (h2_L1 s) l) (nrm_v1201_apply (F := Ideal) d s f1 b3 (h2_L1 s) l) (nrm_v1206_apply (F := Ideal) d s f1 b3 (h2_L1 s) l)
      (C0of_apply (F := Ideal) d s f7 b0) (C1of_apply (F := Ideal) d s f8 b1)
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1052 d s f6 b2 (h2_L1 s)) (run1x.sl.v1092 d s f6 b2 (h2_L1 s)) (run1x.sl.v1132 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_v1052_apply (F := Ideal) d s f6 b2 (h2_L1 s) l) (row_v1092_apply (F := Ideal) d s f6 b2 (h2_L1 s) l) (row_v1132_apply (F := Ideal) d s f6 b2 (h2_L1 s) l)
      (nrm_v1216_apply (F := Ideal) d s f1 b3 (h2_L1 s) l) (nrm_v1221_apply (F := Ideal) d s f1 b3 (h2_L1 s) l) (nrm_v1226_apply (F := Ideal) d s f1 b3 (h2_L1 s) l)
      (C0of_apply (F := Ideal) d s f7 b0) (C1of_apply (F := Ideal) d s f8 b1)
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1057 d s f6 b2 (h2_L1 s)) (run1x.sl.v1097 d s f6 b2 (h2_L1 s)) (run1x.sl.v1137 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_v1057_apply (F := Ideal) d s f6 b2 (h2_L1 s) l) (row_v1097_apply (F := Ideal) d s f6 b2 (h2_L1 s) l) (row_v1137_apply (F := Ideal) d s f6 b2 (h2_L1 s) l)
      (nrm_v1236_apply (F := Ideal) d s f1 b3 (h2_L1 s) l) (nrm_v1241_apply (F := Ideal) d s f1 b3 (h2_L1 s) l) (nrm_v1246_apply (F := Ideal) d s f1 b3 (h2_L1 s) l)
      (C0of_apply (F := Ideal) d s f7 b0) (C1of_apply (F := Ideal) d s f8 b1)
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1062 d s f6 b2 (h2_L1 s)) (run1x.sl.v1102 d s f6 b2 (h2_L1 s)) (run1x.sl.v1142 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_v1062_apply (F := Ideal) d s f6 b2 (h2_L1 s) l) (row_v1102_apply (F := Ideal) d s f6 b2 (h2_L1 s) l) (row_v1142_apply (F := Ideal) d s f6 b2 (h2_L1 s) l)
      (nrm_v1256_apply (F := Ideal) d s f1 b3 (h2_L1 s) l) (nrm_v1261_apply (F := Ideal) d s f1 b3 (h2_L1 s) l) (nrm_v1266_apply (F := Ideal) d s f1 b3 (h2_L1 s) l)
      (C0of_apply (F := Ideal) d s f7 b0) (C1of_apply (F := Ideal) d s f8 b1)
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1067 d s f6 b2 (h2_L1 s)) (run1x.sl.v1107 d s f6 b2 (h2_L1 s)) (run1x.sl.v1147 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v1067_apply (F := Ideal) d s f6 b2 (h2_L1 s) l) (row_v1107_apply (F := Ideal) d s f6 b2 (h2_L1 s) l) (row_v1147_apply (F := Ideal) d s f6 b2 (h2_L1 s) l)
      (nrm_v1276_apply (F := Ideal) d s f1 b3 (h2_L1 s) l) (nrm_v1281_apply (F := Ideal) d s f1 b3 (h2_L1 s) l) (nrm_v1286_apply (F := Ideal) d s f1 b3 (h2_L1 s) l)
      (C0of_apply (F := Ideal) d s f7 b0) (C1of_apply (F := Ideal) d s f8 b1)
  · refine (congrArg (fun x => max (_ + x) 0) (block_all5 d (L1 s) (h2_L1 s) (run1x.sl.v1037 d s f6 b2 (h2_L1 s)) (run1x.sl.v1042 d s f6 b2 (h2_L1 s)) (run1x.sl.v1047 d s f6 b2 (h2_L1 s)) (run1x.sl.v1052 d s f6 b2 (h2_L1 s)) (run1x.sl.v1057 d s f6 b2 (h2_L1 s)) (run1x.sl.v1062 d s f6 b2 (h2_L1 s)) (run1x.sl.v1067 d s f6 b2 (h2_L1 s)) (run1x.sl.v1072 d s f6 b2 (h2_L1 s)) (run1x.sl.v1077 d s f6 b2 (h2_L1 s)) (run1x.sl.v1082 d s f6 b2 (h2_L1 s)) (run1x.sl.v1087 d s f6 b2 (h2_L1 s)) (run1x.sl.v1092 d s f6 b2 (h2_L1 s)) (run1x.sl.v1097 d s f6 b2 (h2_L1 s)) (run1x.sl.v1102 d s f6 b2 (h2_L1 s)) (run1x.sl.v1107 d s f6 b2 (h2_L1 s)) (run1x.sl.v1112 d s f6 b2 (h2_L1 s)) (run1x.sl.v1117 d s f6 b2 (h2_L1 s)) (run1x.sl.v1122 d s f6 b2 (h2_L1 s)) (run1x.sl.v1127 d s f6 b2 (h2_L1 s)) (run1x.sl.v1132 d s f6 b2 (h2_L1 s)) (run1x.sl.v1137 d s f6 b2 (h2_L1 s)) (run1x.sl.v1142 d s f6 b2 (h2_L1 s)) (run1x.sl.v1147 d s f6 b2 (h2_L1 s)) (run1x.sl.v1152 d s f6 b2 (h2_L1 s)) (C0of d s f7 b0) (C1of d s f8 b1) (k0_pay2420, k0_pay2420, k0_pay2420, k0_pay2420, k0_pay2420, k0_pay2420, k0_pay2420, k0_pay2420)
        (run1x.sl.v1072 d s f6 b2 (h2_L1 s)) (run1x.sl.v1112 d s f6 b2 (h2_L1 s)) (run1x.sl.v1152 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v1072_apply (F := Ideal) d s f6 b2 (h2_L1 s) l) (row_v1112_apply (F := Ideal) d s f6 b2 (h2_L1 s) l) (row_v1152_apply (F := Ideal) d s f6 b2 (h2_L1 s) l)
      (nrm_v1296_apply (F := Ideal) d s f1 b3 (h2_L1 s) l) (nrm_v1301_apply (F := Ideal) d s f1 b3 (h2_L1 s) l) (nrm_v1306_apply (F := Ideal) d s f1 b3 (h2_L1 s) l)
      (C0of_apply (F := Ideal) d s f7 b0) (C1of_apply (F := Ideal) d s f8 b1)

end Cert.Proof.ScI

end
-- ==== Proof.ScMath1_6.lean ====
import proofs.«209750_g45337674776763_cont_8to1c4_158_37_alg».proof.Proof.ScMath4
import proofs.«209750_g45337674776763_cont_8to1c4_158_37_alg».proof.Proof.ScVal1_6
/-!
  Scan loop 5 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips6_eq : k0_t6_loop.trips = 32 := by decide

theorem chunk6_lt (k : Fin k0_t6_loop.trips) (i : Fin 16) : 16 * k.val + i.val < 512 := by
  have h1 : k.val < 32 := lt_of_lt_of_eq k.isLt trips6_eq
  have h2 := i.isLt
  omega

section Generic
variable {F : FTy → Type} [FloatOps F]
/-- Coordinate `a` of the chunk trip `k` loads, at lane `i`: the strip buffer at row `a`, column `16 k + i`. -/
theorem ldv6_apply (L : grid0.Coords) (k0_h2 : k0_cond2 L = 1#1) (k : Fin k0_t6_loop.trips)
    (c : Buf (Elt F) ((B0).view.loc (thr d L))) (a : Fin 3) (i : Fin 16) :
    ldv6 d L k0_h2 k c a (ix1 i) = c (ix2 a (⟨16 * k.val + i.val, chunk6_lt k i⟩ : Fin 512)) := by
  match a with
  | 0 =>
    show shapeCast S16 ((B0).view.readAt (Elt F) (Rect.unit (s := S3x512) (k0_off26 k) S1x16.size (k0_off26_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off26_eq k]
    | ⟨1, _⟩ => simp [LoadRect.idx_apply, k0_off26_eq k]
  | 1 =>
    show shapeCast S16 ((B0).view.readAt (Elt F) (Rect.unit (s := S3x512) (k0_off27 k) S1x16.size (k0_off27_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off27_eq k]
    | ⟨1, _⟩ => simp [LoadRect.idx_apply, k0_off27_eq k]
  | 2 =>
    show shapeCast S16 ((B0).view.readAt (Elt F) (Rect.unit (s := S3x512) (k0_off28 k) S1x16.size (k0_off28_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off28_eq k]
    | ⟨1, _⟩ => simp [LoadRect.idx_apply, k0_off28_eq k]
end Generic

/-- One trip's chunk against a block of rows, at a lane: the sixteen candidates `16 k + i`. -/
theorem trip_chunk6_apply (L : grid0.Coords) (k0_h2 : k0_cond2 L = 1#1) (rx ry rz cur : FVec Ideal S16 .f32)
    (k : Fin k0_t6_loop.trips) (c0 c1 : Buf (Elt Ideal) ((B0).view.loc (thr d L))) (l : S16.Idx) :
    chunk rx ry rz cur (ldv6 d L k0_h2 k c0 0) (ldv6 d L k0_h2 k c0 1) (ldv6 d L k0_h2 k c0 2)
        (nrmv (ldv6 d L k0_h2 k c1 0) (ldv6 d L k0_h2 k c1 1) (ldv6 d L k0_h2 k c1 2)) l
      = (Finset.univ : Finset (Fin 16)).fold min (cur l) (fun i => termS d L rx ry rz c0 c1 l ⟨16 * k.val + i.val, chunk6_lt k i⟩) := by
  rw [chunk_apply]
  simp only [nrmv_apply, ldv6_apply, termS, rdS]

/-- A block's carried minimum before trip `K`, at a lane. -/
theorem block_iter6 (L : grid0.Coords) (k0_h2 : k0_cond2 L = 1#1) (v1369 : FVec Ideal S16 .f32) (v1374 : FVec Ideal S16 .f32) (v1379 : FVec Ideal S16 .f32) (v1384 : FVec Ideal S16 .f32) (v1389 : FVec Ideal S16 .f32) (v1394 : FVec Ideal S16 .f32) (v1399 : FVec Ideal S16 .f32) (v1404 : FVec Ideal S16 .f32) (v1409 : FVec Ideal S16 .f32) (v1414 : FVec Ideal S16 .f32) (v1419 : FVec Ideal S16 .f32) (v1424 : FVec Ideal S16 .f32) (v1429 : FVec Ideal S16 .f32) (v1434 : FVec Ideal S16 .f32) (v1439 : FVec Ideal S16 .f32) (v1444 : FVec Ideal S16 .f32) (v1449 : FVec Ideal S16 .f32) (v1454 : FVec Ideal S16 .f32) (v1459 : FVec Ideal S16 .f32) (v1464 : FVec Ideal S16 .f32) (v1469 : FVec Ideal S16 .f32) (v1474 : FVec Ideal S16 .f32) (v1479 : FVec Ideal S16 .f32) (v1484 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t6_loop.trips) (acc : Acc Ideal),
      sel (tripSpec6 d L k0_h2 v1369 v1374 v1379 v1384 v1389 v1394 v1399 v1404 v1409 v1414 v1419 v1424 v1429 v1434 v1439 v1444 v1449 v1454 v1459 v1464 v1469 v1474 v1479 v1484 k c0 c1 acc)
        = chunk rx ry rz (sel acc) (ldv6 d L k0_h2 k c0 0) (ldv6 d L k0_h2 k c0 1) (ldv6 d L k0_h2 k c0 2)
            (nrmv (ldv6 d L k0_h2 k c1 0) (ldv6 d L k0_h2 k c1 1) (ldv6 d L k0_h2 k c1 2)))
    (l : S16.Idx) : ∀ K : ℕ, K ≤ 32 →
      sel (iter6 d L k0_h2 v1369 v1374 v1379 v1384 v1389 v1394 v1399 v1404 v1409 v1414 v1419 v1424 v1429 v1434 v1439 v1444 v1449 v1454 v1459 v1464 v1469 v1474 v1479 v1484 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t6_loop.trips := by rw [trips6_eq]; omega
    have hs := iter6_succ d L k0_h2 v1369 v1374 v1379 v1384 v1389 v1394 v1399 v1404 v1409 v1414 v1419 v1424 v1429 v1434 v1439 v1444 v1449 v1454 v1459 v1464 v1469 v1474 v1479 v1484 c0 c1 init ⟨K, hk⟩
    rw [show K + 1 = (⟨K, hk⟩ : Fin k0_t6_loop.trips).val + 1 from rfl, hs, hsel, trip_chunk6_apply,
      block_iter6 L k0_h2 v1369 v1374 v1379 v1384 v1389 v1394 v1399 v1404 v1409 v1414 v1419 v1424 v1429 v1434 v1439 v1444 v1449 v1454 v1459 v1464 v1469 v1474 v1479 v1484 c0 c1 init rx ry rz sel hsel l K (by omega)]
    exact fold_stepM (termS d L rx ry rz c0 c1 l) (sel init l) K (by omega)

/-- After all 32 trips, from lanes that start at `⊤`: the minimum over every candidate of the strip. -/
theorem block_all6 (L : grid0.Coords) (k0_h2 : k0_cond2 L = 1#1) (v1369 : FVec Ideal S16 .f32) (v1374 : FVec Ideal S16 .f32) (v1379 : FVec Ideal S16 .f32) (v1384 : FVec Ideal S16 .f32) (v1389 : FVec Ideal S16 .f32) (v1394 : FVec Ideal S16 .f32) (v1399 : FVec Ideal S16 .f32) (v1404 : FVec Ideal S16 .f32) (v1409 : FVec Ideal S16 .f32) (v1414 : FVec Ideal S16 .f32) (v1419 : FVec Ideal S16 .f32) (v1424 : FVec Ideal S16 .f32) (v1429 : FVec Ideal S16 .f32) (v1434 : FVec Ideal S16 .f32) (v1439 : FVec Ideal S16 .f32) (v1444 : FVec Ideal S16 .f32) (v1449 : FVec Ideal S16 .f32) (v1454 : FVec Ideal S16 .f32) (v1459 : FVec Ideal S16 .f32) (v1464 : FVec Ideal S16 .f32) (v1469 : FVec Ideal S16 .f32) (v1474 : FVec Ideal S16 .f32) (v1479 : FVec Ideal S16 .f32) (v1484 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t6_loop.trips) (acc : Acc Ideal),
      sel (tripSpec6 d L k0_h2 v1369 v1374 v1379 v1384 v1389 v1394 v1399 v1404 v1409 v1414 v1419 v1424 v1429 v1434 v1439 v1444 v1449 v1454 v1459 v1464 v1469 v1474 v1479 v1484 k c0 c1 acc)
        = chunk rx ry rz (sel acc) (ldv6 d L k0_h2 k c0 0) (ldv6 d L k0_h2 k c0 1) (ldv6 d L k0_h2 k c0 2)
            (nrmv (ldv6 d L k0_h2 k c1 0) (ldv6 d L k0_h2 k c1 1) (ldv6 d L k0_h2 k c1 2)))
    (l : S16.Idx) (htop : sel init l = (⊤ : EReal)) :
    sel (iter6 d L k0_h2 v1369 v1374 v1379 v1384 v1389 v1394 v1399 v1404 v1409 v1414 v1419 v1424 v1429 v1434 v1439 v1444 v1449 v1454 v1459 v1464 v1469 v1474 v1479 v1484 c0 c1 init k0_t6_loop.trips) l
      = (Finset.univ : Finset (Fin 512)).fold min (⊤ : EReal) (termS d L rx ry rz c0 c1 l) := by
  rw [trips6_eq, block_iter6 d L k0_h2 v1369 v1374 v1379 v1384 v1389 v1394 v1399 v1404 v1409 v1414 v1419 v1424 v1429 v1434 v1439 v1444 v1449 v1454 v1459 v1464 v1469 v1474 v1479 v1484 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScRows1_6.lean ====
import proofs.«209750_g45337674776763_cont_8to1c4_158_37_alg».proof.Proof.ScRows1_2
/-!
  The twenty-four row vectors of scan 5 of the second branch, read at a lane: coordinate `a` of point
  `1024 (s % 4) + 512 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem off_6_0_0 : ∀ s : Fin (grid0.bound 1), k0_off11 (L1 s) 512#32 0#32 = ![0, s.val % 4 * 1024 + 512] := by decide +kernel
theorem row_r_81_apply (s : Fin (grid0.bound 1)) (f6 : Buf (Elt F) (l6 d)) (b2 : Buf (Elt F) ((thr d (L1 s)).loc cc0_scratch2))
    (h : k0_cond2 (L1 s) = 1#1) (l : Fin 16) :
    run1x.sl.r_81 d s f6 b2 h (ix1 l)
      = f6 (ix3 (⟨s.val / 4, tileB_lt s⟩ : Fin 4) (0 : Fin 3) (⟨s.val % 4 * 1024 + 512 + l.val, rowcol_lt s 512 (by decide) l⟩ : Fin 4096)) := by
  unfold run1x.sl.r_81 k0_pay2432 run1x.sl.v1368
  exact (load16_apply d s b2 (run1x.sl.dma0_2 d s f6) _ _ _ (0 : Fin 3) (s.val % 4 * 1024 + 512) (off_6_0_0 s) l (rowcol_lt s 512 (by decide) l)).trans
    (dma0_2_apply d s f6 0 _)

theorem off_6_0_1 : ∀ s : Fin (grid0.bound 1), k0_off11 (L1 s) 512#32 16#32 = ![0, s.val % 4 * 1024 + 528] := by decide +kernel
theorem row_r_82_apply (s : Fin (grid0.bound 1)) (f6 : Buf (Elt F) (l6 d)) (b2 : Buf (Elt F) ((thr d (L1 s)).loc cc0_scratch2))
    (h : k0_cond2 (L1 s) = 1#1) (l : Fin 16) :
    run1x.sl.r_82 d s f6 b2 h (ix1 l)
      = f6 (ix3 (⟨s.val / 4, tileB_lt s⟩ : Fin 4) (0 : Fin 3) (⟨s.val % 4 * 1024 + 528 + l.val, rowcol_lt s 528 (by decide) l⟩ : Fin 4096)) := by
  unfold run1x.sl.r_82 k0_pay2433 run1x.sl.v1373
  exact (load16_apply d s b2 (run1x.sl.dma0_2 d s f6) _ _ _ (0 : Fin 3) (s.val % 4 * 1024 + 528) (off_6_0_1 s) l (rowcol_lt s 528 (by decide) l)).trans
    (dma0_2_apply d s f6 0 _)

theorem off_6_0_2 : ∀ s : Fin (grid0.bound 1), k0_off11 (L1 s) 512#32 32#32 = ![0, s.val % 4 * 1024 + 544] := by decide +kernel
theorem row_v1379_apply (s : Fin (grid0.bound 1)) (f6 : Buf (Elt F) (l6 d)) (b2 : Buf (Elt F) ((thr d (L1 s)).loc cc0_scratch2))
    (h : k0_cond2 (L1 s) = 1#1) (l : Fin 16) :
    run1x.sl.v1379 d s f6 b2 h (ix1 l)
      = f6 (ix3 (⟨s.val / 4, tileB_lt s⟩ : Fin 4) (0 : Fin 3) (⟨s.val % 4 * 1024 + 544 + l.val, rowcol_lt s 544 (by decide) l⟩ : Fin 4096)) := by
  unfold run1x.sl.v1379 run1x.sl.v1378
  exact (load16_apply d s b2 (run1x.sl.dma0_2 d s f6) _ _ _ (0 : Fin 3) (s.val % 4 * 1024 + 544) (off_6_0_2 s) l (rowcol_lt s 544 (by decide) l)).trans
    (dma0_2_apply d s f6 0 _)

theorem off_6_0_3 : ∀ s : Fin (grid0.bound 1), k0_off11 (L1 s) 512#32 48#32 = ![0, s.val % 4 * 1024 + 560] := by decide +kernel
theorem row_v1384_apply (s : Fin (grid0.bound 1)) (f6 : Buf (Elt F) (l6 d)) (b2 : Buf (Elt F) ((thr d (L1 s)).loc cc0_scratch2))
    (h : k0_cond2 (L1 s) = 1#1) (l : Fin 16) :
    run1x.sl.v1384 d s f6 b2 h (ix1 l)
      = f6 (ix3 (⟨s.val / 4, tileB_lt s⟩ : Fin 4) (0 : Fin 3) (⟨s.val % 4 * 1024 + 560 + l.val, rowcol_lt s 560 (by decide) l⟩ : Fin 4096)) := by
  unfold run1x.sl.v1384 run1x.sl.v1383
  exact (load16_apply d s b2 (run1x.sl.dma0_2 d s f6) _ _ _ (0 : Fin 3) (s.val % 4 * 1024 + 560) (off_6_0_3 s) l (rowcol_lt s 560 (by decide) l)).trans
    (dma0_2_apply d s f6 0 _)

theorem off_6_0_4 : ∀ s : Fin (grid0.bound 1), k0_off11 (L1 s) 512#32 64#32 = ![0, s.val % 4 * 1024 + 576] := by decide +kernel
theorem row_v1389_apply (s : Fin (grid0.bound 1)) (f6 : Buf (Elt F) (l6 d)) (b2 : Buf (Elt F) ((thr d (L1 s)).loc cc0_scratch2))
    (h : k0_cond2 (L1 s) = 1#1) (l : Fin 16) :
    run1x.sl.v1389 d s f6 b2 h (ix1 l)
      = f6 (ix3 (⟨s.val / 4, tileB_lt s⟩ : Fin 4) (0 : Fin 3) (⟨s.val % 4 * 1024 + 576 + l.val, rowcol_lt s 576 (by decide) l⟩ : Fin 4096)) := by
  unfold run1x.sl.v1389 run1x.sl.v1388
  exact (load16_apply d s b2 (run1x.sl.dma0_2 d s f6) _ _ _ (0 : Fin 3) (s.val % 4 * 1024 + 576) (off_6_0_4 s) l (rowcol_lt s 576 (by decide) l)).trans
    (dma0_2_apply d s f6 0 _)

theorem off_6_0_5 : ∀ s : Fin (grid0.bound 1), k0_off11 (L1 s) 512#32 80#32 = ![0, s.val % 4 * 1024 + 592] := by decide +kernel
theorem row_v1394_apply (s : Fin (grid0.bound 1)) (f6 : Buf (Elt F) (l6 d)) (b2 : Buf (Elt F) ((thr d (L1 s)).loc cc0_scratch2))
    (h : k0_cond2 (L1 s) = 1#1) (l : Fin 16) :
    run1x.sl.v1394 d s f6 b2 h (ix1 l)
      = f6 (ix3 (⟨s.val / 4, tileB_lt s⟩ : Fin 4) (0 : Fin 3) (⟨s.val % 4 * 1024 + 592 + l.val, rowcol_lt s 592 (by decide) l⟩ : Fin 4096)) := by
  unfold run1x.sl.v1394 run1x.sl.v1393
  exact (load16_apply d s b2 (run1x.sl.dma0_2 d s f6) _ _ _ (0 : Fin 3) (s.val % 4 * 1024 + 592) (off_6_0_5 s) l (rowcol_lt s 592 (by decide) l)).trans
    (dma0_2_apply d s f6 0 _)

theorem off_6_0_6 : ∀ s : Fin (grid0.bound 1), k0_off11 (L1 s) 512#32 96#32 = ![0, s.val % 4 * 1024 + 608] := by decide +kernel
theorem row_v1399_apply (s : Fin (grid0.bound 1)) (f6 : Buf (Elt F) (l6 d)) (b2 : Buf (Elt F) ((thr d (L1 s)).loc cc0_scratch2))
    (h : k0_cond2 (L1 s) = 1#1) (l : Fin 16) :
    run1x.sl.v1399 d s f6 b2 h (ix1 l)
      = f6 (ix3 (⟨s.val / 4, tileB_lt s⟩ : Fin 4) (0 : Fin 3) (⟨s.val % 4 * 1024 + 608 + l.val, rowcol_lt s 608 (by decide) l⟩ : Fin 4096)) := by
  unfold run1x.sl.v1399 run1x.sl.v1398
  exact (load16_apply d s b2 (run1x.sl.dma0_2 d s f6) _ _ _ (0 : Fin 3) (s.val % 4 * 1024 + 608) (off_6_0_6 s) l (rowcol_lt s 608 (by decide) l)).trans
    (dma0_2_apply d s f6 0 _)

theorem off_6_0_7 : ∀ s : Fin (grid0.bound 1), k0_off11 (L1 s) 512#32 112#32 = ![0, s.val % 4 * 1024 + 624] := by decide +kernel
theorem row_v1404_apply (s : Fin (grid0.bound 1)) (f6 : Buf (Elt F) (l6 d)) (b2 : Buf (Elt F) ((thr d (L1 s)).loc cc0_scratch2))
    (h : k0_cond2 (L1 s) = 1#1) (l : Fin 16) :
    run1x.sl.v1404 d s f6 b2 h (ix1 l)
      = f6 (ix3 (⟨s.val / 4, tileB_lt s⟩ : Fin 4) (0 : Fin 3) (⟨s.val % 4 * 1024 + 624 + l.val, rowcol_lt s 624 (by decide) l⟩ : Fin 4096)) := by
  unfold run1x.sl.v1404 run1x.sl.v1403
  exact (load16_apply d s b2 (run1x.sl.dma0_2 d s f6) _ _ _ (0 : Fin 3) (s.val % 4 * 1024 + 624) (off_6_0_7 s) l (rowcol_lt s 624 (by decide) l)).trans
    (dma0_2_apply d s f6 0 _)

theorem off_6_1_0 : ∀ s : Fin (grid0.bound 1), k0_off12 (L1 s) 512#32 0#32 = ![1, s.val % 4 * 1024 + 512] := by decide +kernel
theorem row_v1409_apply (s : Fin (grid0.bound 1)) (f6 : Buf (Elt F) (l6 d)) (b2 : Buf (Elt F) ((thr d (L1 s)).loc cc0_scratch2))
    (h : k0_cond2 (L1 s) = 1#1) (l : Fin 16) :
    run1x.sl.v1409 d s f6 b2 h (ix1 l)
      = f6 (ix3 (⟨s.val / 4, tileB_lt s⟩ : Fin 4) (1 : Fin 3) (⟨s.val % 4 * 1024 + 512 + l.val, rowcol_lt s 512 (by decide) l⟩ : Fin 4096)) := by
  unfold run1x.sl.v1409 run1x.sl.v1408
  exact (load16_apply d s b2 (run1x.sl.dma0_2 d s f6) _ _ _ (1 : Fin 3) (s.val % 4 * 1024 + 512) (off_6_1_0 s) l (rowcol_lt s 512 (by decide) l)).trans
    (dma0_2_apply d s f6 1 _)

theorem off_6_1_1 : ∀ s : Fin (grid0.bound 1), k0_off12 (L1 s) 512#32 16#32 = ![1, s.val % 4 * 1024 + 528] := by decide +kernel
theorem row_v1414_apply (s : Fin (grid0.bound 1)) (f6 : Buf (Elt F) (l6 d)) (b2 : Buf (Elt F) ((thr d (L1 s)).loc cc0_scratch2))
    (h : k0_cond2 (L1 s) = 1#1) (l : Fin 16) :
    run1x.sl.v1414 d s f6 b2 h (ix1 l)
      = f6 (ix3 (⟨s.val / 4, tileB_lt s⟩ : Fin 4) (1 : Fin 3) (⟨s.val % 4 * 1024 + 528 + l.val, rowcol_lt s 528 (by decide) l⟩ : Fin 4096)) := by
  unfold run1x.sl.v1414 run1x.sl.v1413
  exact (load16_apply d s b2 (run1x.sl.dma0_2 d s f6) _ _ _ (1 : Fin 3) (s.val % 4 * 1024 + 528) (off_6_1_1 s) l (rowcol_lt s 528 (by decide) l)).trans
    (dma0_2_apply d s f6 1 _)

theorem off_6_1_2 : ∀ s : Fin (grid0.bound 1), k0_off12 (L1 s) 512#32 32#32 = ![1, s.val % 4 * 1024 + 544] := by decide +kernel
theorem row_v1419_apply (s : Fin (grid0.bound 1)) (f6 : Buf (Elt F) (l6 d)) (b2 : Buf (Elt F) ((thr d (L1 s)).loc cc0_scratch2))
    (h : k0_cond2 (L1 s) = 1#1) (l : Fin 16) :
    run1x.sl.v1419 d s f6 b2 h (ix1 l)
      = f6 (ix3 (⟨s.val / 4, tileB_lt s⟩ : Fin 4) (1 : Fin 3) (⟨s.val % 4 * 1024 + 544 + l.val, rowcol_lt s 544 (by decide) l⟩ : Fin 4096)) := by
  unfold run1x.sl.v1419 run1x.sl.v1418
  exact (load16_apply d s b2 (run1x.sl.dma0_2 d s f6) _ _ _ (1 : Fin 3) (s.val % 4 * 1024 + 544) (off_6_1_2 s) l (rowcol_lt s 544 (by decide) l)).trans
    (dma0_2_apply d s f6 1 _)

theorem off_6_1_3 : ∀ s : Fin (grid0.bound 1), k0_off12 (L1 s) 512#32 48#32 = ![1, s.val % 4 * 1024 + 560] := by decide +kernel
theorem row_v1424_apply (s : Fin (grid0.bound 1)) (f6 : Buf (Elt F) (l6 d)) (b2 : Buf (Elt F) ((thr d (L1 s)).loc cc0_scratch2))
    (h : k0_cond2 (L1 s) = 1#1) (l : Fin 16) :
    run1x.sl.v1424 d s f6 b2 h (ix1 l)
      = f6 (ix3 (⟨s.val / 4, tileB_lt s⟩ : Fin 4) (1 : Fin 3) (⟨s.val % 4 * 1024 + 560 + l.val, rowcol_lt s 560 (by decide) l⟩ : Fin 4096)) := by
  unfold run1x.sl.v1424 run1x.sl.v1423
  exact (load16_apply d s b2 (run1x.sl.dma0_2 d s f6) _ _ _ (1 : Fin 3) (s.val % 4 * 1024 + 560) (off_6_1_3 s) l (rowcol_lt s 560 (by decide) l)).trans
    (dma0_2_apply d s f6 1 _)

theorem off_6_1_4 : ∀ s : Fin (grid0.bound 1), k0_off12 (L1 s) 512#32 64#32 = ![1, s.val % 4 * 1024 + 576] := by decide +kernel
theorem row_v1429_apply (s : Fin (grid0.bound 1)) (f6 : Buf (Elt F) (l6 d)) (b2 : Buf (Elt F) ((thr d (L1 s)).loc cc0_scratch2))
    (h : k0_cond2 (L1 s) = 1#1) (l : Fin 16) :
    run1x.sl.v1429 d s f6 b2 h (ix1 l)
      = f6 (ix3 (⟨s.val / 4, tileB_lt s⟩ : Fin 4) (1 : Fin 3) (⟨s.val % 4 * 1024 + 576 + l.val, rowcol_lt s 576 (by decide) l⟩ : Fin 4096)) := by
  unfold run1x.sl.v1429 run1x.sl.v1428
  exact (load16_apply d s b2 (run1x.sl.dma0_2 d s f6) _ _ _ (1 : Fin 3) (s.val % 4 * 1024 + 576) (off_6_1_4 s) l (rowcol_lt s 576 (by decide) l)).trans
    (dma0_2_apply d s f6 1 _)

theorem off_6_1_5 : ∀ s : Fin (grid0.bound 1), k0_off12 (L1 s) 512#32 80#32 = ![1, s.val % 4 * 1024 + 592] := by decide +kernel
theorem row_v1434_apply (s : Fin (grid0.bound 1)) (f6 : Buf (Elt F) (l6 d)) (b2 : Buf (Elt F) ((thr d (L1 s)).loc cc0_scratch2))
    (h : k0_cond2 (L1 s) = 1#1) (l : Fin 16) :
    run1x.sl.v1434 d s f6 b2 h (ix1 l)
      = f6 (ix3 (⟨s.val / 4, tileB_lt s⟩ : Fin 4) (1 : Fin 3) (⟨s.val % 4 * 1024 + 592 + l.val, rowcol_lt s 592 (by decide) l⟩ : Fin 4096)) := by
  unfold run1x.sl.v1434 run1x.sl.v1433
  exact (load16_apply d s b2 (run1x.sl.dma0_2 d s f6) _ _ _ (1 : Fin 3) (s.val % 4 * 1024 + 592) (off_6_1_5 s) l (rowcol_lt s 592 (by decide) l)).trans
    (dma0_2_apply d s f6 1 _)

theorem off_6_1_6 : ∀ s : Fin (grid0.bound 1), k0_off12 (L1 s) 512#32 96#32 = ![1, s.val % 4 * 1024 + 608] := by decide +kernel
theorem row_v1439_apply (s : Fin (grid0.bound 1)) (f6 : Buf (Elt F) (l6 d)) (b2 : Buf (Elt F) ((thr d (L1 s)).loc cc0_scratch2))
    (h : k0_cond2 (L1 s) = 1#1) (l : Fin 16) :
    run1x.sl.v1439 d s f6 b2 h (ix1 l)
      = f6 (ix3 (⟨s.val / 4, tileB_lt s⟩ : Fin 4) (1 : Fin 3) (⟨s.val % 4 * 1024 + 608 + l.val, rowcol_lt s 608 (by decide) l⟩ : Fin 4096)) := by
  unfold run1x.sl.v1439 run1x.sl.v1438
  exact (load16_apply d s b2 (run1x.sl.dma0_2 d s f6) _ _ _ (1 : Fin 3) (s.val % 4 * 1024 + 608) (off_6_1_6 s) l (rowcol_lt s 608 (by decide) l)).trans
    (dma0_2_apply d s f6 1 _)

theorem off_6_1_7 : ∀ s : Fin (grid0.bound 1), k0_off12 (L1 s) 512#32 112#32 = ![1, s.val % 4 * 1024 + 624] := by decide +kernel
theorem row_v1444_apply (s : Fin (grid0.bound 1)) (f6 : Buf (Elt F) (l6 d)) (b2 : Buf (Elt F) ((thr d (L1 s)).loc cc0_scratch2))
    (h : k0_cond2 (L1 s) = 1#1) (l : Fin 16) :
    run1x.sl.v1444 d s f6 b2 h (ix1 l)
      = f6 (ix3 (⟨s.val / 4, tileB_lt s⟩ : Fin 4) (1 : Fin 3) (⟨s.val % 4 * 1024 + 624 + l.val, rowcol_lt s 624 (by decide) l⟩ : Fin 4096)) := by
  unfold run1x.sl.v1444 run1x.sl.v1443
  exact (load16_apply d s b2 (run1x.sl.dma0_2 d s f6) _ _ _ (1 : Fin 3) (s.val % 4 * 1024 + 624) (off_6_1_7 s) l (rowcol_lt s 624 (by decide) l)).trans
    (dma0_2_apply d s f6 1 _)

theorem off_6_2_0 : ∀ s : Fin (grid0.bound 1), k0_off13 (L1 s) 512#32 0#32 = ![2, s.val % 4 * 1024 + 512] := by decide +kernel
theorem row_v1449_apply (s : Fin (grid0.bound 1)) (f6 : Buf (Elt F) (l6 d)) (b2 : Buf (Elt F) ((thr d (L1 s)).loc cc0_scratch2))
    (h : k0_cond2 (L1 s) = 1#1) (l : Fin 16) :
    run1x.sl.v1449 d s f6 b2 h (ix1 l)
      = f6 (ix3 (⟨s.val / 4, tileB_lt s⟩ : Fin 4) (2 : Fin 3) (⟨s.val % 4 * 1024 + 512 + l.val, rowcol_lt s 512 (by decide) l⟩ : Fin 4096)) := by
  unfold run1x.sl.v1449 run1x.sl.v1448
  exact (load16_apply d s b2 (run1x.sl.dma0_2 d s f6) _ _ _ (2 : Fin 3) (s.val % 4 * 1024 + 512) (off_6_2_0 s) l (rowcol_lt s 512 (by decide) l)).trans
    (dma0_2_apply d s f6 2 _)

theorem off_6_2_1 : ∀ s : Fin (grid0.bound 1), k0_off13 (L1 s) 512#32 16#32 = ![2, s.val % 4 * 1024 + 528] := by decide +kernel
theorem row_v1454_apply (s : Fin (grid0.bound 1)) (f6 : Buf (Elt F) (l6 d)) (b2 : Buf (Elt F) ((thr d (L1 s)).loc cc0_scratch2))
    (h : k0_cond2 (L1 s) = 1#1) (l : Fin 16) :
    run1x.sl.v1454 d s f6 b2 h (ix1 l)
      = f6 (ix3 (⟨s.val / 4, tileB_lt s⟩ : Fin 4) (2 : Fin 3) (⟨s.val % 4 * 1024 + 528 + l.val, rowcol_lt s 528 (by decide) l⟩ : Fin 4096)) := by
  unfold run1x.sl.v1454 run1x.sl.v1453
  exact (load16_apply d s b2 (run1x.sl.dma0_2 d s f6) _ _ _ (2 : Fin 3) (s.val % 4 * 1024 + 528) (off_6_2_1 s) l (rowcol_lt s 528 (by decide) l)).trans
    (dma0_2_apply d s f6 2 _)

theorem off_6_2_2 : ∀ s : Fin (grid0.bound 1), k0_off13 (L1 s) 512#32 32#32 = ![2, s.val % 4 * 1024 + 544] := by decide +kernel
theorem row_v1459_apply (s : Fin (grid0.bound 1)) (f6 : Buf (Elt F) (l6 d)) (b2 : Buf (Elt F) ((thr d (L1 s)).loc cc0_scratch2))
    (h : k0_cond2 (L1 s) = 1#1) (l : Fin 16) :
    run1x.sl.v1459 d s f6 b2 h (ix1 l)
      = f6 (ix3 (⟨s.val / 4, tileB_lt s⟩ : Fin 4) (2 : Fin 3) (⟨s.val % 4 * 1024 + 544 + l.val, rowcol_lt s 544 (by decide) l⟩ : Fin 4096)) := by
  unfold run1x.sl.v1459 run1x.sl.v1458
  exact (load16_apply d s b2 (run1x.sl.dma0_2 d s f6) _ _ _ (2 : Fin 3) (s.val % 4 * 1024 + 544) (off_6_2_2 s) l (rowcol_lt s 544 (by decide) l)).trans
    (dma0_2_apply d s f6 2 _)

theorem off_6_2_3 : ∀ s : Fin (grid0.bound 1), k0_off13 (L1 s) 512#32 48#32 = ![2, s.val % 4 * 1024 + 560] := by decide +kernel
theorem row_v1464_apply (s : Fin (grid0.bound 1)) (f6 : Buf (Elt F) (l6 d)) (b2 : Buf (Elt F) ((thr d (L1 s)).loc cc0_scratch2))
    (h : k0_cond2 (L1 s) = 1#1) (l : Fin 16) :
    run1x.sl.v1464 d s f6 b2 h (ix1 l)
      = f6 (ix3 (⟨s.val / 4, tileB_lt s⟩ : Fin 4) (2 : Fin 3) (⟨s.val % 4 * 1024 + 560 + l.val, rowcol_lt s 560 (by decide) l⟩ : Fin 4096)) := by
  unfold run1x.sl.v1464 run1x.sl.v1463
  exact (load16_apply d s b2 (run1x.sl.dma0_2 d s f6) _ _ _ (2 : Fin 3) (s.val % 4 * 1024 + 560) (off_6_2_3 s) l (rowcol_lt s 560 (by decide) l)).trans
    (dma0_2_apply d s f6 2 _)

theorem off_6_2_4 : ∀ s : Fin (grid0.bound 1), k0_off13 (L1 s) 512#32 64#32 = ![2, s.val % 4 * 1024 + 576] := by decide +kernel
theorem row_r_83_apply (s : Fin (grid0.bound 1)) (f6 : Buf (Elt F) (l6 d)) (b2 : Buf (Elt F) ((thr d (L1 s)).loc cc0_scratch2))
    (h : k0_cond2 (L1 s) = 1#1) (l : Fin 16) :
    run1x.sl.r_83 d s f6 b2 h (ix1 l)
      = f6 (ix3 (⟨s.val / 4, tileB_lt s⟩ : Fin 4) (2 : Fin 3) (⟨s.val % 4 * 1024 + 576 + l.val, rowcol_lt s 576 (by decide) l⟩ : Fin 4096)) := by
  unfold run1x.sl.r_83 k0_pay2452 run1x.sl.v1468
  exact (load16_apply d s b2 (run1x.sl.dma0_2 d s f6) _ _ _ (2 : Fin 3) (s.val % 4 * 1024 + 576) (off_6_2_4 s) l (rowcol_lt s 576 (by decide) l)).trans
    (dma0_2_apply d s f6 2 _)

theorem off_6_2_5 : ∀ s : Fin (grid0.bound 1), k0_off13 (L1 s) 512#32 80#32 = ![2, s.val % 4 * 1024 + 592] := by decide +kernel
theorem row_r_84_apply (s : Fin (grid0.bound 1)) (f6 : Buf (Elt F) (l6 d)) (b2 : Buf (Elt F) ((thr d (L1 s)).loc cc0_scratch2))
    (h : k0_cond2 (L1 s) = 1#1) (l : Fin 16) :
    run1x.sl.r_84 d s f6 b2 h (ix1 l)
      = f6 (ix3 (⟨s.val / 4, tileB_lt s⟩ : Fin 4) (2 : Fin 3) (⟨s.val % 4 * 1024 + 592 + l.val, rowcol_lt s 592 (by decide) l⟩ : Fin 4096)) := by
  unfold run1x.sl.r_84 k0_pay2453 run1x.sl.v1473
  exact (load16_apply d s b2 (run1x.sl.dma0_2 d s f6) _ _ _ (2 : Fin 3) (s.val % 4 * 1024 + 592) (off_6_2_5 s) l (rowcol_lt s 592 (by decide) l)).trans
    (dma0_2_apply d s f6 2 _)

theorem off_6_2_6 : ∀ s : Fin (grid0.bound 1), k0_off13 (L1 s) 512#32 96#32 = ![2, s.val % 4 * 1024 + 608] := by decide +kernel
theorem row_r_85_apply (s : Fin (grid0.bound 1)) (f6 : Buf (Elt F) (l6 d)) (b2 : Buf (Elt F) ((thr d (L1 s)).loc cc0_scratch2))
    (h : k0_cond2 (L1 s) = 1#1) (l : Fin 16) :
    run1x.sl.r_85 d s f6 b2 h (ix1 l)
      = f6 (ix3 (⟨s.val / 4, tileB_lt s⟩ : Fin 4) (2 : Fin 3) (⟨s.val % 4 * 1024 + 608 + l.val, rowcol_lt s 608 (by decide) l⟩ : Fin 4096)) := by
  unfold run1x.sl.r_85 k0_pay2454 run1x.sl.v1478
  exact (load16_apply d s b2 (run1x.sl.dma0_2 d s f6) _ _ _ (2 : Fin 3) (s.val % 4 * 1024 + 608) (off_6_2_6 s) l (rowcol_lt s 608 (by decide) l)).trans
    (dma0_2_apply d s f6 2 _)

theorem off_6_2_7 : ∀ s : Fin (grid0.bound 1), k0_off13 (L1 s) 512#32 112#32 = ![2, s.val % 4 * 1024 + 624] := by decide +kernel
theorem row_r_86_apply (s : Fin (grid0.bound 1)) (f6 : Buf (Elt F) (l6 d)) (b2 : Buf (Elt F) ((thr d (L1 s)).loc cc0_scratch2))
    (h : k0_cond2 (L1 s) = 1#1) (l : Fin 16) :
    run1x.sl.r_86 d s f6 b2 h (ix1 l)
      = f6 (ix3 (⟨s.val / 4, tileB_lt s⟩ : Fin 4) (2 : Fin 3) (⟨s.val % 4 * 1024 + 624 + l.val, rowcol_lt s 624 (by decide) l⟩ : Fin 4096)) := by
  unfold run1x.sl.r_86 k0_pay2455 run1x.sl.v1483
  exact (load16_apply d s b2 (run1x.sl.dma0_2 d s f6) _ _ _ (2 : Fin 3) (s.val % 4 * 1024 + 624) (off_6_2_7 s) l (rowcol_lt s 624 (by decide) l)).trans
    (dma0_2_apply d s f6 2 _)

end Cert.Proof.ScI

end
-- ==== Proof.ScNrm1_6.lean ====
import proofs.«209750_g45337674776763_cont_8to1c4_158_37_alg».proof.Proof.ScNrm1_2
import proofs.«209750_g45337674776763_cont_8to1c4_158_37_alg».proof.Proof.ScRows1_6
/-!
  The norm rows of group 4 of the second branch, read at a lane: the sixteen-lane loads of the buffer that holds
  the second set's batch (for the row norms), coordinate `a` of point `1024 (s % 4) + 512 + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem nrm_v1488_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1488 d s f1 b3 h) shapeCasts_S1x16_S16 (ix1 l)
      = f1 (ix3 (⟨s.val / 4, tileB_lt s⟩ : Fin 4) (0 : Fin 3) (⟨s.val % 4 * 1024 + 512 + l.val, rowcol_lt s 512 (by decide) l⟩ : Fin 4096)) := by
  unfold run1x.sl.v1488
  exact (load16B3_apply d s b3 (run1x.sl.dma0_3 d s f1) _ _ _ (0 : Fin 3) (s.val % 4 * 1024 + 512) (off_6_0_0 s) l (rowcol_lt s 512 (by decide) l)).trans
    (dma0_3_apply d s f1 0 _)

theorem nrm_v1493_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1493 d s f1 b3 h) shapeCasts_S1x16_S16 (ix1 l)
      = f1 (ix3 (⟨s.val / 4, tileB_lt s⟩ : Fin 4) (1 : Fin 3) (⟨s.val % 4 * 1024 + 512 + l.val, rowcol_lt s 512 (by decide) l⟩ : Fin 4096)) := by
  unfold run1x.sl.v1493
  exact (load16B3_apply d s b3 (run1x.sl.dma0_3 d s f1) _ _ _ (1 : Fin 3) (s.val % 4 * 1024 + 512) (off_6_1_0 s) l (rowcol_lt s 512 (by decide) l)).trans
    (dma0_3_apply d s f1 1 _)

theorem nrm_v1498_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1498 d s f1 b3 h) shapeCasts_S1x16_S16 (ix1 l)
      = f1 (ix3 (⟨s.val / 4, tileB_lt s⟩ : Fin 4) (2 : Fin 3) (⟨s.val % 4 * 1024 + 512 + l.val, rowcol_lt s 512 (by decide) l⟩ : Fin 4096)) := by
  unfold run1x.sl.v1498
  exact (load16B3_apply d s b3 (run1x.sl.dma0_3 d s f1) _ _ _ (2 : Fin 3) (s.val % 4 * 1024 + 512) (off_6_2_0 s) l (rowcol_lt s 512 (by decide) l)).trans
    (dma0_3_apply d s f1 2 _)

theorem nrm_v1508_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1508 d s f1 b3 h) shapeCasts_S1x16_S16 (ix1 l)
      = f1 (ix3 (⟨s.val / 4, tileB_lt s⟩ : Fin 4) (0 : Fin 3) (⟨s.val % 4 * 1024 + 528 + l.val, rowcol_lt s 528 (by decide) l⟩ : Fin 4096)) := by
  unfold run1x.sl.v1508
  exact (load16B3_apply d s b3 (run1x.sl.dma0_3 d s f1) _ _ _ (0 : Fin 3) (s.val % 4 * 1024 + 528) (off_6_0_1 s) l (rowcol_lt s 528 (by decide) l)).trans
    (dma0_3_apply d s f1 0 _)

theorem nrm_v1513_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1513 d s f1 b3 h) shapeCasts_S1x16_S16 (ix1 l)
      = f1 (ix3 (⟨s.val / 4, tileB_lt s⟩ : Fin 4) (1 : Fin 3) (⟨s.val % 4 * 1024 + 528 + l.val, rowcol_lt s 528 (by decide) l⟩ : Fin 4096)) := by
  unfold run1x.sl.v1513
  exact (load16B3_apply d s b3 (run1x.sl.dma0_3 d s f1) _ _ _ (1 : Fin 3) (s.val % 4 * 1024 + 528) (off_6_1_1 s) l (rowcol_lt s 528 (by decide) l)).trans
    (dma0_3_apply d s f1 1 _)

theorem nrm_v1518_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1518 d s f1 b3 h) shapeCasts_S1x16_S16 (ix1 l)
      = f1 (ix3 (⟨s.val / 4, tileB_lt s⟩ : Fin 4) (2 : Fin 3) (⟨s.val % 4 * 1024 + 528 + l.val, rowcol_lt s 528 (by decide) l⟩ : Fin 4096)) := by
  unfold run1x.sl.v1518
  exact (load16B3_apply d s b3 (run1x.sl.dma0_3 d s f1) _ _ _ (2 : Fin 3) (s.val % 4 * 1024 + 528) (off_6_2_1 s) l (rowcol_lt s 528 (by decide) l)).trans
    (dma0_3_apply d s f1 2 _)

theorem nrm_v1528_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1528 d s f1 b3 h) shapeCasts_S1x16_S16 (ix1 l)
      = f1 (ix3 (⟨s.val / 4, tileB_lt s⟩ : Fin 4) (0 : Fin 3) (⟨s.val % 4 * 1024 + 544 + l.val, rowcol_lt s 544 (by decide) l⟩ : Fin 4096)) := by
  unfold run1x.sl.v1528
  exact (load16B3_apply d s b3 (run1x.sl.dma0_3 d s f1) _ _ _ (0 : Fin 3) (s.val % 4 * 1024 + 544) (off_6_0_2 s) l (rowcol_lt s 544 (by decide) l)).trans
    (dma0_3_apply d s f1 0 _)

theorem nrm_v1533_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1533 d s f1 b3 h) shapeCasts_S1x16_S16 (ix1 l)
      = f1 (ix3 (⟨s.val / 4, tileB_lt s⟩ : Fin 4) (1 : Fin 3) (⟨s.val % 4 * 1024 + 544 + l.val, rowcol_lt s 544 (by decide) l⟩ : Fin 4096)) := by
  unfold run1x.sl.v1533
  exact (load16B3_apply d s b3 (run1x.sl.dma0_3 d s f1) _ _ _ (1 : Fin 3) (s.val % 4 * 1024 + 544) (off_6_1_2 s) l (rowcol_lt s 544 (by decide) l)).trans
    (dma0_3_apply d s f1 1 _)

theorem nrm_v1538_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1538 d s f1 b3 h) shapeCasts_S1x16_S16 (ix1 l)
      = f1 (ix3 (⟨s.val / 4, tileB_lt s⟩ : Fin 4) (2 : Fin 3) (⟨s.val % 4 * 1024 + 544 + l.val, rowcol_lt s 544 (by decide) l⟩ : Fin 4096)) := by
  unfold run1x.sl.v1538
  exact (load16B3_apply d s b3 (run1x.sl.dma0_3 d s f1) _ _ _ (2 : Fin 3) (s.val % 4 * 1024 + 544) (off_6_2_2 s) l (rowcol_lt s 544 (by decide) l)).trans
    (dma0_3_apply d s f1 2 _)

theorem nrm_v1548_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1548 d s f1 b3 h) shapeCasts_S1x16_S16 (ix1 l)
      = f1 (ix3 (⟨s.val / 4, tileB_lt s⟩ : Fin 4) (0 : Fin 3) (⟨s.val % 4 * 1024 + 560 + l.val, rowcol_lt s 560 (by decide) l⟩ : Fin 4096)) := by
  unfold run1x.sl.v1548
  exact (load16B3_apply d s b3 (run1x.sl.dma0_3 d s f1) _ _ _ (0 : Fin 3) (s.val % 4 * 1024 + 560) (off_6_0_3 s) l (rowcol_lt s 560 (by decide) l)).trans
    (dma0_3_apply d s f1 0 _)

theorem nrm_v1553_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1553 d s f1 b3 h) shapeCasts_S1x16_S16 (ix1 l)
      = f1 (ix3 (⟨s.val / 4, tileB_lt s⟩ : Fin 4) (1 : Fin 3) (⟨s.val % 4 * 1024 + 560 + l.val, rowcol_lt s 560 (by decide) l⟩ : Fin 4096)) := by
  unfold run1x.sl.v1553
  exact (load16B3_apply d s b3 (run1x.sl.dma0_3 d s f1) _ _ _ (1 : Fin 3) (s.val % 4 * 1024 + 560) (off_6_1_3 s) l (rowcol_lt s 560 (by decide) l)).trans
    (dma0_3_apply d s f1 1 _)

theorem nrm_v1558_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1558 d s f1 b3 h) shapeCasts_S1x16_S16 (ix1 l)
      = f1 (ix3 (⟨s.val / 4, tileB_lt s⟩ : Fin 4) (2 : Fin 3) (⟨s.val % 4 * 1024 + 560 + l.val, rowcol_lt s 560 (by decide) l⟩ : Fin 4096)) := by
  unfold run1x.sl.v1558
  exact (load16B3_apply d s b3 (run1x.sl.dma0_3 d s f1) _ _ _ (2 : Fin 3) (s.val % 4 * 1024 + 560) (off_6_2_3 s) l (rowcol_lt s 560 (by decide) l)).trans
    (dma0_3_apply d s f1 2 _)

theorem nrm_v1568_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1568 d s f1 b3 h) shapeCasts_S1x16_S16 (ix1 l)
      = f1 (ix3 (⟨s.val / 4, tileB_lt s⟩ : Fin 4) (0 : Fin 3) (⟨s.val % 4 * 1024 + 576 + l.val, rowcol_lt s 576 (by decide) l⟩ : Fin 4096)) := by
  unfold run1x.sl.v1568
  exact (load16B3_apply d s b3 (run1x.sl.dma0_3 d s f1) _ _ _ (0 : Fin 3) (s.val % 4 * 1024 + 576) (off_6_0_4 s) l (rowcol_lt s 576 (by decide) l)).trans
    (dma0_3_apply d s f1 0 _)

theorem nrm_v1573_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1573 d s f1 b3 h) shapeCasts_S1x16_S16 (ix1 l)
      = f1 (ix3 (⟨s.val / 4, tileB_lt s⟩ : Fin 4) (1 : Fin 3) (⟨s.val % 4 * 1024 + 576 + l.val, rowcol_lt s 576 (by decide) l⟩ : Fin 4096)) := by
  unfold run1x.sl.v1573
  exact (load16B3_apply d s b3 (run1x.sl.dma0_3 d s f1) _ _ _ (1 : Fin 3) (s.val % 4 * 1024 + 576) (off_6_1_4 s) l (rowcol_lt s 576 (by decide) l)).trans
    (dma0_3_apply d s f1 1 _)

theorem nrm_v1578_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1578 d s f1 b3 h) shapeCasts_S1x16_S16 (ix1 l)
      = f1 (ix3 (⟨s.val / 4, tileB_lt s⟩ : Fin 4) (2 : Fin 3) (⟨s.val % 4 * 1024 + 576 + l.val, rowcol_lt s 576 (by decide) l⟩ : Fin 4096)) := by
  unfold run1x.sl.v1578
  exact (load16B3_apply d s b3 (run1x.sl.dma0_3 d s f1) _ _ _ (2 : Fin 3) (s.val % 4 * 1024 + 576) (off_6_2_4 s) l (rowcol_lt s 576 (by decide) l)).trans
    (dma0_3_apply d s f1 2 _)

theorem nrm_v1588_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1588 d s f1 b3 h) shapeCasts_S1x16_S16 (ix1 l)
      = f1 (ix3 (⟨s.val / 4, tileB_lt s⟩ : Fin 4) (0 : Fin 3) (⟨s.val % 4 * 1024 + 592 + l.val, rowcol_lt s 592 (by decide) l⟩ : Fin 4096)) := by
  unfold run1x.sl.v1588
  exact (load16B3_apply d s b3 (run1x.sl.dma0_3 d s f1) _ _ _ (0 : Fin 3) (s.val % 4 * 1024 + 592) (off_6_0_5 s) l (rowcol_lt s 592 (by decide) l)).trans
    (dma0_3_apply d s f1 0 _)

theorem nrm_v1593_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1593 d s f1 b3 h) shapeCasts_S1x16_S16 (ix1 l)
      = f1 (ix3 (⟨s.val / 4, tileB_lt s⟩ : Fin 4) (1 : Fin 3) (⟨s.val % 4 * 1024 + 592 + l.val, rowcol_lt s 592 (by decide) l⟩ : Fin 4096)) := by
  unfold run1x.sl.v1593
  exact (load16B3_apply d s b3 (run1x.sl.dma0_3 d s f1) _ _ _ (1 : Fin 3) (s.val % 4 * 1024 + 592) (off_6_1_5 s) l (rowcol_lt s 592 (by decide) l)).trans
    (dma0_3_apply d s f1 1 _)

theorem nrm_v1598_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1598 d s f1 b3 h) shapeCasts_S1x16_S16 (ix1 l)
      = f1 (ix3 (⟨s.val / 4, tileB_lt s⟩ : Fin 4) (2 : Fin 3) (⟨s.val % 4 * 1024 + 592 + l.val, rowcol_lt s 592 (by decide) l⟩ : Fin 4096)) := by
  unfold run1x.sl.v1598
  exact (load16B3_apply d s b3 (run1x.sl.dma0_3 d s f1) _ _ _ (2 : Fin 3) (s.val % 4 * 1024 + 592) (off_6_2_5 s) l (rowcol_lt s 592 (by decide) l)).trans
    (dma0_3_apply d s f1 2 _)

theorem nrm_v1608_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1608 d s f1 b3 h) shapeCasts_S1x16_S16 (ix1 l)
      = f1 (ix3 (⟨s.val / 4, tileB_lt s⟩ : Fin 4) (0 : Fin 3) (⟨s.val % 4 * 1024 + 608 + l.val, rowcol_lt s 608 (by decide) l⟩ : Fin 4096)) := by
  unfold run1x.sl.v1608
  exact (load16B3_apply d s b3 (run1x.sl.dma0_3 d s f1) _ _ _ (0 : Fin 3) (s.val % 4 * 1024 + 608) (off_6_0_6 s) l (rowcol_lt s 608 (by decide) l)).trans
    (dma0_3_apply d s f1 0 _)

theorem nrm_v1613_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1613 d s f1 b3 h) shapeCasts_S1x16_S16 (ix1 l)
      = f1 (ix3 (⟨s.val / 4, tileB_lt s⟩ : Fin 4) (1 : Fin 3) (⟨s.val % 4 * 1024 + 608 + l.val, rowcol_lt s 608 (by decide) l⟩ : Fin 4096)) := by
  unfold run1x.sl.v1613
  exact (load16B3_apply d s b3 (run1x.sl.dma0_3 d s f1) _ _ _ (1 : Fin 3) (s.val % 4 * 1024 + 608) (off_6_1_6 s) l (rowcol_lt s 608 (by decide) l)).trans
    (dma0_3_apply d s f1 1 _)

theorem nrm_v1618_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1618 d s f1 b3 h) shapeCasts_S1x16_S16 (ix1 l)
      = f1 (ix3 (⟨s.val / 4, tileB_lt s⟩ : Fin 4) (2 : Fin 3) (⟨s.val % 4 * 1024 + 608 + l.val, rowcol_lt s 608 (by decide) l⟩ : Fin 4096)) := by
  unfold run1x.sl.v1618
  exact (load16B3_apply d s b3 (run1x.sl.dma0_3 d s f1) _ _ _ (2 : Fin 3) (s.val % 4 * 1024 + 608) (off_6_2_6 s) l (rowcol_lt s 608 (by decide) l)).trans
    (dma0_3_apply d s f1 2 _)

theorem nrm_v1628_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1628 d s f1 b3 h) shapeCasts_S1x16_S16 (ix1 l)
      = f1 (ix3 (⟨s.val / 4, tileB_lt s⟩ : Fin 4) (0 : Fin 3) (⟨s.val % 4 * 1024 + 624 + l.val, rowcol_lt s 624 (by decide) l⟩ : Fin 4096)) := by
  unfold run1x.sl.v1628
  exact (load16B3_apply d s b3 (run1x.sl.dma0_3 d s f1) _ _ _ (0 : Fin 3) (s.val % 4 * 1024 + 624) (off_6_0_7 s) l (rowcol_lt s 624 (by decide) l)).trans
    (dma0_3_apply d s f1 0 _)

theorem nrm_v1633_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1633 d s f1 b3 h) shapeCasts_S1x16_S16 (ix1 l)
      = f1 (ix3 (⟨s.val / 4, tileB_lt s⟩ : Fin 4) (1 : Fin 3) (⟨s.val % 4 * 1024 + 624 + l.val, rowcol_lt s 624 (by decide) l⟩ : Fin 4096)) := by
  unfold run1x.sl.v1633
  exact (load16B3_apply d s b3 (run1x.sl.dma0_3 d s f1) _ _ _ (1 : Fin 3) (s.val % 4 * 1024 + 624) (off_6_1_7 s) l (rowcol_lt s 624 (by decide) l)).trans
    (dma0_3_apply d s f1 1 _)

theorem nrm_v1638_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1638 d s f1 b3 h) shapeCasts_S1x16_S16 (ix1 l)
      = f1 (ix3 (⟨s.val / 4, tileB_lt s⟩ : Fin 4) (2 : Fin 3) (⟨s.val % 4 * 1024 + 624 + l.val, rowcol_lt s 624 (by decide) l⟩ : Fin 4096)) := by
  unfold run1x.sl.v1638
  exact (load16B3_apply d s b3 (run1x.sl.dma0_3 d s f1) _ _ _ (2 : Fin 3) (s.val % 4 * 1024 + 624) (off_6_2_7 s) l (rowcol_lt s 624 (by decide) l)).trans
    (dma0_3_apply d s f1 2 _)

end Cert.Proof.ScI

end
-- ==== Proof.ScBridge1G6.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_6
import proofs.«209750_g45337674776763_cont_8to1c4_158_37_alg».proof.Proof.ScRows1_6
import proofs.«209750_g45337674776763_cont_8to1c4_158_37_alg».proof.Proof.ScNrm1_6
import proofs.«209750_g45337674776763_cont_8to1c4_158_37_alg».proof.Proof.ScX1a

/-!
  The second SparseCore branch's group 4 of words (`512` to `639` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group4 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 512 ≤ (j 0).val) (hhi : (j 0).val < 640) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 512 + 16 * J.val + l.val :=
    ⟨⟨((j 0).val - 512) / 16, by omega⟩, ⟨((j 0).val - 512) % 16, by omega⟩,
      by show _ = 512 + 16 * (((j 0).val - 512) / 16) + ((j 0).val - 512) % 16; omega⟩
  have er : (⟨s.val % 4 * 1024 + (j 0).val, by have : s.val < 16 := s.isLt; have : (j 0).val < 1024 := (j 0).isLt; omega⟩ : Fin 4096) = (⟨s.val % 4 * 1024 + (512 + 16 * J.val) + l.val, by have := l.isLt; have := J.isLt; omega⟩ : Fin 4096) :=
    Fin.ext (by show s.val % 4 * 1024 + (j 0).val = s.val % 4 * 1024 + (512 + 16 * J.val) + l.val; omega)
  rw [er]
  delta X1of
  refine (W1_read4 d s f1 b3 b4 (h2_L1 s) _ _ _ _ _ _ _ _ j J l hj).trans ?_
  delta A6of
  obtain ⟨Jv, hJv⟩ := J
  interval_cases Jv
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.r_81 d s f6 b2 (h2_L1 s)) (run1x.sl.v1409 d s f6 b2 (h2_L1 s)) (run1x.sl.v1449 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_r_81_apply (F := Ideal) d s f6 b2 (h2_L1 s) l) (row_v1409_apply (F := Ideal) d s f6 b2 (h2_L1 s) l) (row_v1449_apply (F := Ideal) d s f6 b2 (h2_L1 s) l)
      (nrm_v1488_apply (F := Ideal) d s f1 b3 (h2_L1 s) l) (nrm_v1493_apply (F := Ideal) d s f1 b3 (h2_L1 s) l) (nrm_v1498_apply (F := Ideal) d s f1 b3 (h2_L1 s) l)
      (C0of_apply (F := Ideal) d s f7 b0) (C1of_apply (F := Ideal) d s f8 b1)
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.r_82 d s f6 b2 (h2_L1 s)) (run1x.sl.v1414 d s f6 b2 (h2_L1 s)) (run1x.sl.v1454 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_r_82_apply (F := Ideal) d s f6 b2 (h2_L1 s) l) (row_v1414_apply (F := Ideal) d s f6 b2 (h2_L1 s) l) (row_v1454_apply (F := Ideal) d s f6 b2 (h2_L1 s) l)
      (nrm_v1508_apply (F := Ideal) d s f1 b3 (h2_L1 s) l) (nrm_v1513_apply (F := Ideal) d s f1 b3 (h2_L1 s) l) (nrm_v1518_apply (F := Ideal) d s f1 b3 (h2_L1 s) l)
      (C0of_apply (F := Ideal) d s f7 b0) (C1of_apply (F := Ideal) d s f8 b1)
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.v1379 d s f6 b2 (h2_L1 s)) (run1x.sl.v1419 d s f6 b2 (h2_L1 s)) (run1x.sl.v1459 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_v1379_apply (F := Ideal) d s f6 b2 (h2_L1 s) l) (row_v1419_apply (F := Ideal) d s f6 b2 (h2_L1 s) l) (row_v1459_apply (F := Ideal) d s f6 b2 (h2_L1 s) l)
      (nrm_v1528_apply (F := Ideal) d s f1 b3 (h2_L1 s) l) (nrm_v1533_apply (F := Ideal) d s f1 b3 (h2_L1 s) l) (nrm_v1538_apply (F := Ideal) d s f1 b3 (h2_L1 s) l)
      (C0of_apply (F := Ideal) d s f7 b0) (C1of_apply (F := Ideal) d s f8 b1)
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.v1384 d s f6 b2 (h2_L1 s)) (run1x.sl.v1424 d s f6 b2 (h2_L1 s)) (run1x.sl.v1464 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_v1384_apply (F := Ideal) d s f6 b2 (h2_L1 s) l) (row_v1424_apply (F := Ideal) d s f6 b2 (h2_L1 s) l) (row_v1464_apply (F := Ideal) d s f6 b2 (h2_L1 s) l)
      (nrm_v1548_apply (F := Ideal) d s f1 b3 (h2_L1 s) l) (nrm_v1553_apply (F := Ideal) d s f1 b3 (h2_L1 s) l) (nrm_v1558_apply (F := Ideal) d s f1 b3 (h2_L1 s) l)
      (C0of_apply (F := Ideal) d s f7 b0) (C1of_apply (F := Ideal) d s f8 b1)
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.v1389 d s f6 b2 (h2_L1 s)) (run1x.sl.v1429 d s f6 b2 (h2_L1 s)) (run1x.sl.r_83 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_v1389_apply (F := Ideal) d s f6 b2 (h2_L1 s) l) (row_v1429_apply (F := Ideal) d s f6 b2 (h2_L1 s) l) (row_r_83_apply (F := Ideal) d s f6 b2 (h2_L1 s) l)
      (nrm_v1568_apply (F := Ideal) d s f1 b3 (h2_L1 s) l) (nrm_v1573_apply (F := Ideal) d s f1 b3 (h2_L1 s) l) (nrm_v1578_apply (F := Ideal) d s f1 b3 (h2_L1 s) l)
      (C0of_apply (F := Ideal) d s f7 b0) (C1of_apply (F := Ideal) d s f8 b1)
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.v1394 d s f6 b2 (h2_L1 s)) (run1x.sl.v1434 d s f6 b2 (h2_L1 s)) (run1x.sl.r_84 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_v1394_apply (F := Ideal) d s f6 b2 (h2_L1 s) l) (row_v1434_apply (F := Ideal) d s f6 b2 (h2_L1 s) l) (row_r_84_apply (F := Ideal) d s f6 b2 (h2_L1 s) l)
      (nrm_v1588_apply (F := Ideal) d s f1 b3 (h2_L1 s) l) (nrm_v1593_apply (F := Ideal) d s f1 b3 (h2_L1 s) l) (nrm_v1598_apply (F := Ideal) d s f1 b3 (h2_L1 s) l)
      (C0of_apply (F := Ideal) d s f7 b0) (C1of_apply (F := Ideal) d s f8 b1)
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.v1399 d s f6 b2 (h2_L1 s)) (run1x.sl.v1439 d s f6 b2 (h2_L1 s)) (run1x.sl.r_85 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v1399_apply (F := Ideal) d s f6 b2 (h2_L1 s) l) (row_v1439_apply (F := Ideal) d s f6 b2 (h2_L1 s) l) (row_r_85_apply (F := Ideal) d s f6 b2 (h2_L1 s) l)
      (nrm_v1608_apply (F := Ideal) d s f1 b3 (h2_L1 s) l) (nrm_v1613_apply (F := Ideal) d s f1 b3 (h2_L1 s) l) (nrm_v1618_apply (F := Ideal) d s f1 b3 (h2_L1 s) l)
      (C0of_apply (F := Ideal) d s f7 b0) (C1of_apply (F := Ideal) d s f8 b1)
  · refine (congrArg (fun x => max (_ + x) 0) (block_all6 d (L1 s) (h2_L1 s) (run1x.sl.r_81 d s f6 b2 (h2_L1 s)) (run1x.sl.r_82 d s f6 b2 (h2_L1 s)) (run1x.sl.v1379 d s f6 b2 (h2_L1 s)) (run1x.sl.v1384 d s f6 b2 (h2_L1 s)) (run1x.sl.v1389 d s f6 b2 (h2_L1 s)) (run1x.sl.v1394 d s f6 b2 (h2_L1 s)) (run1x.sl.v1399 d s f6 b2 (h2_L1 s)) (run1x.sl.v1404 d s f6 b2 (h2_L1 s)) (run1x.sl.v1409 d s f6 b2 (h2_L1 s)) (run1x.sl.v1414 d s f6 b2 (h2_L1 s)) (run1x.sl.v1419 d s f6 b2 (h2_L1 s)) (run1x.sl.v1424 d s f6 b2 (h2_L1 s)) (run1x.sl.v1429 d s f6 b2 (h2_L1 s)) (run1x.sl.v1434 d s f6 b2 (h2_L1 s)) (run1x.sl.v1439 d s f6 b2 (h2_L1 s)) (run1x.sl.v1444 d s f6 b2 (h2_L1 s)) (run1x.sl.v1449 d s f6 b2 (h2_L1 s)) (run1x.sl.v1454 d s f6 b2 (h2_L1 s)) (run1x.sl.v1459 d s f6 b2 (h2_L1 s)) (run1x.sl.v1464 d s f6 b2 (h2_L1 s)) (run1x.sl.r_83 d s f6 b2 (h2_L1 s)) (run1x.sl.r_84 d s f6 b2 (h2_L1 s)) (run1x.sl.r_85 d s f6 b2 (h2_L1 s)) (run1x.sl.r_86 d s f6 b2 (h2_L1 s)) (C0of d s f7 b0) (C1of d s f8 b1) (k0_pay2469, k0_pay2469, k0_pay2469, k0_pay2469, k0_pay2469, k0_pay2469, k0_pay2469, k0_pay2469)
        (run1x.sl.v1404 d s f6 b2 (h2_L1 s)) (run1x.sl.v1444 d s f6 b2 (h2_L1 s)) (run1x.sl.r_86 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v1404_apply (F := Ideal) d s f6 b2 (h2_L1 s) l) (row_v1444_apply (F := Ideal) d s f6 b2 (h2_L1 s) l) (row_r_86_apply (F := Ideal) d s f6 b2 (h2_L1 s) l)
      (nrm_v1628_apply (F := Ideal) d s f1 b3 (h2_L1 s) l) (nrm_v1633_apply (F := Ideal) d s f1 b3 (h2_L1 s) l) (nrm_v1638_apply (F := Ideal) d s f1 b3 (h2_L1 s) l)
      (C0of_apply (F := Ideal) d s f7 b0) (C1of_apply (F := Ideal) d s f8 b1)

end Cert.Proof.ScI

end
-- ==== Proof.ScMath1_7.lean ====
import proofs.«209750_g45337674776763_cont_8to1c4_158_37_alg».proof.Proof.ScMath4
import proofs.«209750_g45337674776763_cont_8to1c4_158_37_alg».proof.Proof.ScVal1_7
/-!
  Scan loop 6 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips7_eq : k0_t7_loop.trips = 32 := by decide

theorem chunk7_lt (k : Fin k0_t7_loop.trips) (i : Fin 16) : 16 * k.val + i.val < 512 := by
  have h1 : k.val < 32 := lt_of_lt_of_eq k.isLt trips7_eq
  have h2 := i.isLt
  omega

section Generic
variable {F : FTy → Type} [FloatOps F]
/-- Coordinate `a` of the chunk trip `k` loads, at lane `i`: the strip buffer at row `a`, column `16 k + i`. -/
theorem ldv7_apply (L : grid0.Coords) (k0_h2 : k0_cond2 L = 1#1) (k : Fin k0_t7_loop.trips)
    (c : Buf (Elt F) ((B0).view.loc (thr d L))) (a : Fin 3) (i : Fin 16) :
    ldv7 d L k0_h2 k c a (ix1 i) = c (ix2 a (⟨16 * k.val + i.val, chunk7_lt k i⟩ : Fin 512)) := by
  match a with
  | 0 =>
    show shapeCast S16 ((B0).view.readAt (Elt F) (Rect.unit (s := S3x512) (k0_off29 k) S1x16.size (k0_off29_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off29_eq k]
    | ⟨1, _⟩ => simp [LoadRect.idx_apply, k0_off29_eq k]
  | 1 =>
    show shapeCast S16 ((B0).view.readAt (Elt F) (Rect.unit (s := S3x512) (k0_off30 k) S1x16.size (k0_off30_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off30_eq k]
    | ⟨1, _⟩ => simp [LoadRect.idx_apply, k0_off30_eq k]
  | 2 =>
    show shapeCast S16 ((B0).view.readAt (Elt F) (Rect.unit (s := S3x512) (k0_off31 k) S1x16.size (k0_off31_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off31_eq k]
    | ⟨1, _⟩ => simp [LoadRect.idx_apply, k0_off31_eq k]
end Generic

/-- One trip's chunk against a block of rows, at a lane: the sixteen candidates `16 k + i`. -/
theorem trip_chunk7_apply (L : grid0.Coords) (k0_h2 : k0_cond2 L = 1#1) (rx ry rz cur : FVec Ideal S16 .f32)
    (k : Fin k0_t7_loop.trips) (c0 c1 : Buf (Elt Ideal) ((B0).view.loc (thr d L))) (l : S16.Idx) :
    chunk rx ry rz cur (ldv7 d L k0_h2 k c0 0) (ldv7 d L k0_h2 k c0 1) (ldv7 d L k0_h2 k c0 2)
        (nrmv (ldv7 d L k0_h2 k c1 0) (ldv7 d L k0_h2 k c1 1) (ldv7 d L k0_h2 k c1 2)) l
      = (Finset.univ : Finset (Fin 16)).fold min (cur l) (fun i => termS d L rx ry rz c0 c1 l ⟨16 * k.val + i.val, chunk7_lt k i⟩) := by
  rw [chunk_apply]
  simp only [nrmv_apply, ldv7_apply, termS, rdS]

/-- A block's carried minimum before trip `K`, at a lane. -/
theorem block_iter7 (L : grid0.Coords) (k0_h2 : k0_cond2 L = 1#1) (v1701 : FVec Ideal S16 .f32) (v1706 : FVec Ideal S16 .f32) (v1711 : FVec Ideal S16 .f32) (v1716 : FVec Ideal S16 .f32) (v1721 : FVec Ideal S16 .f32) (v1726 : FVec Ideal S16 .f32) (v1731 : FVec Ideal S16 .f32) (v1736 : FVec Ideal S16 .f32) (v1741 : FVec Ideal S16 .f32) (v1746 : FVec Ideal S16 .f32) (v1751 : FVec Ideal S16 .f32) (v1756 : FVec Ideal S16 .f32) (v1761 : FVec Ideal S16 .f32) (v1766 : FVec Ideal S16 .f32) (v1771 : FVec Ideal S16 .f32) (v1776 : FVec Ideal S16 .f32) (v1781 : FVec Ideal S16 .f32) (v1786 : FVec Ideal S16 .f32) (v1791 : FVec Ideal S16 .f32) (v1796 : FVec Ideal S16 .f32) (v1801 : FVec Ideal S16 .f32) (v1806 : FVec Ideal S16 .f32) (v1811 : FVec Ideal S16 .f32) (v1816 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t7_loop.trips) (acc : Acc Ideal),
      sel (tripSpec7 d L k0_h2 v1701 v1706 v1711 v1716 v1721 v1726 v1731 v1736 v1741 v1746 v1751 v1756 v1761 v1766 v1771 v1776 v1781 v1786 v1791 v1796 v1801 v1806 v1811 v1816 k c0 c1 acc)
        = chunk rx ry rz (sel acc) (ldv7 d L k0_h2 k c0 0) (ldv7 d L k0_h2 k c0 1) (ldv7 d L k0_h2 k c0 2)
            (nrmv (ldv7 d L k0_h2 k c1 0) (ldv7 d L k0_h2 k c1 1) (ldv7 d L k0_h2 k c1 2)))
    (l : S16.Idx) : ∀ K : ℕ, K ≤ 32 →
      sel (iter7 d L k0_h2 v1701 v1706 v1711 v1716 v1721 v1726 v1731 v1736 v1741 v1746 v1751 v1756 v1761 v1766 v1771 v1776 v1781 v1786 v1791 v1796 v1801 v1806 v1811 v1816 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t7_loop.trips := by rw [trips7_eq]; omega
    have hs := iter7_succ d L k0_h2 v1701 v1706 v1711 v1716 v1721 v1726 v1731 v1736 v1741 v1746 v1751 v1756 v1761 v1766 v1771 v1776 v1781 v1786 v1791 v1796 v1801 v1806 v1811 v1816 c0 c1 init ⟨K, hk⟩
    rw [show K + 1 = (⟨K, hk⟩ : Fin k0_t7_loop.trips).val + 1 from rfl, hs, hsel, trip_chunk7_apply,
      block_iter7 L k0_h2 v1701 v1706 v1711 v1716 v1721 v1726 v1731 v1736 v1741 v1746 v1751 v1756 v1761 v1766 v1771 v1776 v1781 v1786 v1791 v1796 v1801 v1806 v1811 v1816 c0 c1 init rx ry rz sel hsel l K (by omega)]
    exact fold_stepM (termS d L rx ry rz c0 c1 l) (sel init l) K (by omega)

/-- After all 32 trips, from lanes that start at `⊤`: the minimum over every candidate of the strip. -/
theorem block_all7 (L : grid0.Coords) (k0_h2 : k0_cond2 L = 1#1) (v1701 : FVec Ideal S16 .f32) (v1706 : FVec Ideal S16 .f32) (v1711 : FVec Ideal S16 .f32) (v1716 : FVec Ideal S16 .f32) (v1721 : FVec Ideal S16 .f32) (v1726 : FVec Ideal S16 .f32) (v1731 : FVec Ideal S16 .f32) (v1736 : FVec Ideal S16 .f32) (v1741 : FVec Ideal S16 .f32) (v1746 : FVec Ideal S16 .f32) (v1751 : FVec Ideal S16 .f32) (v1756 : FVec Ideal S16 .f32) (v1761 : FVec Ideal S16 .f32) (v1766 : FVec Ideal S16 .f32) (v1771 : FVec Ideal S16 .f32) (v1776 : FVec Ideal S16 .f32) (v1781 : FVec Ideal S16 .f32) (v1786 : FVec Ideal S16 .f32) (v1791 : FVec Ideal S16 .f32) (v1796 : FVec Ideal S16 .f32) (v1801 : FVec Ideal S16 .f32) (v1806 : FVec Ideal S16 .f32) (v1811 : FVec Ideal S16 .f32) (v1816 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t7_loop.trips) (acc : Acc Ideal),
      sel (tripSpec7 d L k0_h2 v1701 v1706 v1711 v1716 v1721 v1726 v1731 v1736 v1741 v1746 v1751 v1756 v1761 v1766 v1771 v1776 v1781 v1786 v1791 v1796 v1801 v1806 v1811 v1816 k c0 c1 acc)
        = chunk rx ry rz (sel acc) (ldv7 d L k0_h2 k c0 0) (ldv7 d L k0_h2 k c0 1) (ldv7 d L k0_h2 k c0 2)
            (nrmv (ldv7 d L k0_h2 k c1 0) (ldv7 d L k0_h2 k c1 1) (ldv7 d L k0_h2 k c1 2)))
    (l : S16.Idx) (htop : sel init l = (⊤ : EReal)) :
    sel (iter7 d L k0_h2 v1701 v1706 v1711 v1716 v1721 v1726 v1731 v1736 v1741 v1746 v1751 v1756 v1761 v1766 v1771 v1776 v1781 v1786 v1791 v1796 v1801 v1806 v1811 v1816 c0 c1 init k0_t7_loop.trips) l
      = (Finset.univ : Finset (Fin 512)).fold min (⊤ : EReal) (termS d L rx ry rz c0 c1 l) := by
  rw [trips7_eq, block_iter7 d L k0_h2 v1701 v1706 v1711 v1716 v1721 v1726 v1731 v1736 v1741 v1746 v1751 v1756 v1761 v1766 v1771 v1776 v1781 v1786 v1791 v1796 v1801 v1806 v1811 v1816 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScRows1_7.lean ====
import proofs.«209750_g45337674776763_cont_8to1c4_158_37_alg».proof.Proof.ScRows1_2
/-!
  The twenty-four row vectors of scan 6 of the second branch, read at a lane: coordinate `a` of point
  `1024 (s % 4) + 640 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem off_7_0_0 : ∀ s : Fin (grid0.bound 1), k0_off11 (L1 s) 640#32 0#32 = ![0, s.val % 4 * 1024 + 640] := by decide +kernel
theorem row_r_102_apply (s : Fin (grid0.bound 1)) (f6 : Buf (Elt F) (l6 d)) (b2 : Buf (Elt F) ((thr d (L1 s)).loc cc0_scratch2))
    (h : k0_cond2 (L1 s) = 1#1) (l : Fin 16) :
    run1x.sl.r_102 d s f6 b2 h (ix1 l)
      = f6 (ix3 (⟨s.val / 4, tileB_lt s⟩ : Fin 4) (0 : Fin 3) (⟨s.val % 4 * 1024 + 640 + l.val, rowcol_lt s 640 (by decide) l⟩ : Fin 4096)) := by
  unfold run1x.sl.r_102 k0_pay2481 run1x.sl.v1700
  exact (load16_apply d s b2 (run1x.sl.dma0_2 d s f6) _ _ _ (0 : Fin 3) (s.val % 4 * 1024 + 640) (off_7_0_0 s) l (rowcol_lt s 640 (by decide) l)).trans
    (dma0_2_apply d s f6 0 _)

theorem off_7_0_1 : ∀ s : Fin (grid0.bound 1), k0_off11 (L1 s) 640#32 16#32 = ![0, s.val % 4 * 1024 + 656] := by decide +kernel
theorem row_r_103_apply (s : Fin (grid0.bound 1)) (f6 : Buf (Elt F) (l6 d)) (b2 : Buf (Elt F) ((thr d (L1 s)).loc cc0_scratch2))
    (h : k0_cond2 (L1 s) = 1#1) (l : Fin 16) :
    run1x.sl.r_103 d s f6 b2 h (ix1 l)
      = f6 (ix3 (⟨s.val / 4, tileB_lt s⟩ : Fin 4) (0 : Fin 3) (⟨s.val % 4 * 1024 + 656 + l.val, rowcol_lt s 656 (by decide) l⟩ : Fin 4096)) := by
  unfold run1x.sl.r_103 k0_pay2482 run1x.sl.v1705
  exact (load16_apply d s b2 (run1x.sl.dma0_2 d s f6) _ _ _ (0 : Fin 3) (s.val % 4 * 1024 + 656) (off_7_0_1 s) l (rowcol_lt s 656 (by decide) l)).trans
    (dma0_2_apply d s f6 0 _)

theorem off_7_0_2 : ∀ s : Fin (grid0.bound 1), k0_off11 (L1 s) 640#32 32#32 = ![0, s.val % 4 * 1024 + 672] := by decide +kernel
theorem row_r_104_apply (s : Fin (grid0.bound 1)) (f6 : Buf (Elt F) (l6 d)) (b2 : Buf (Elt F) ((thr d (L1 s)).loc cc0_scratch2))
    (h : k0_cond2 (L1 s) = 1#1) (l : Fin 16) :
    run1x.sl.r_104 d s f6 b2 h (ix1 l)
      = f6 (ix3 (⟨s.val / 4, tileB_lt s⟩ : Fin 4) (0 : Fin 3) (⟨s.val % 4 * 1024 + 672 + l.val, rowcol_lt s 672 (by decide) l⟩ : Fin 4096)) := by
  unfold run1x.sl.r_104 k0_pay2483 run1x.sl.v1710
  exact (load16_apply d s b2 (run1x.sl.dma0_2 d s f6) _ _ _ (0 : Fin 3) (s.val % 4 * 1024 + 672) (off_7_0_2 s) l (rowcol_lt s 672 (by decide) l)).trans
    (dma0_2_apply d s f6 0 _)

theorem off_7_0_3 : ∀ s : Fin (grid0.bound 1), k0_off11 (L1 s) 640#32 48#32 = ![0, s.val % 4 * 1024 + 688] := by decide +kernel
theorem row_r_105_apply (s : Fin (grid0.bound 1)) (f6 : Buf (Elt F) (l6 d)) (b2 : Buf (Elt F) ((thr d (L1 s)).loc cc0_scratch2))
    (h : k0_cond2 (L1 s) = 1#1) (l : Fin 16) :
    run1x.sl.r_105 d s f6 b2 h (ix1 l)
      = f6 (ix3 (⟨s.val / 4, tileB_lt s⟩ : Fin 4) (0 : Fin 3) (⟨s.val % 4 * 1024 + 688 + l.val, rowcol_lt s 688 (by decide) l⟩ : Fin 4096)) := by
  unfold run1x.sl.r_105 k0_pay2484 run1x.sl.v1715
  exact (load16_apply d s b2 (run1x.sl.dma0_2 d s f6) _ _ _ (0 : Fin 3) (s.val % 4 * 1024 + 688) (off_7_0_3 s) l (rowcol_lt s 688 (by decide) l)).trans
    (dma0_2_apply d s f6 0 _)

theorem off_7_0_4 : ∀ s : Fin (grid0.bound 1), k0_off11 (L1 s) 640#32 64#32 = ![0, s.val % 4 * 1024 + 704] := by decide +kernel
theorem row_r_106_apply (s : Fin (grid0.bound 1)) (f6 : Buf (Elt F) (l6 d)) (b2 : Buf (Elt F) ((thr d (L1 s)).loc cc0_scratch2))
    (h : k0_cond2 (L1 s) = 1#1) (l : Fin 16) :
    run1x.sl.r_106 d s f6 b2 h (ix1 l)
      = f6 (ix3 (⟨s.val / 4, tileB_lt s⟩ : Fin 4) (0 : Fin 3) (⟨s.val % 4 * 1024 + 704 + l.val, rowcol_lt s 704 (by decide) l⟩ : Fin 4096)) := by
  unfold run1x.sl.r_106 k0_pay2485 run1x.sl.v1720
  exact (load16_apply d s b2 (run1x.sl.dma0_2 d s f6) _ _ _ (0 : Fin 3) (s.val % 4 * 1024 + 704) (off_7_0_4 s) l (rowcol_lt s 704 (by decide) l)).trans
    (dma0_2_apply d s f6 0 _)

theorem off_7_0_5 : ∀ s : Fin (grid0.bound 1), k0_off11 (L1 s) 640#32 80#32 = ![0, s.val % 4 * 1024 + 720] := by decide +kernel
theorem row_r_107_apply (s : Fin (grid0.bound 1)) (f6 : Buf (Elt F) (l6 d)) (b2 : Buf (Elt F) ((thr d (L1 s)).loc cc0_scratch2))
    (h : k0_cond2 (L1 s) = 1#1) (l : Fin 16) :
    run1x.sl.r_107 d s f6 b2 h (ix1 l)
      = f6 (ix3 (⟨s.val / 4, tileB_lt s⟩ : Fin 4) (0 : Fin 3) (⟨s.val % 4 * 1024 + 720 + l.val, rowcol_lt s 720 (by decide) l⟩ : Fin 4096)) := by
  unfold run1x.sl.r_107 k0_pay2486 run1x.sl.v1725
  exact (load16_apply d s b2 (run1x.sl.dma0_2 d s f6) _ _ _ (0 : Fin 3) (s.val % 4 * 1024 + 720) (off_7_0_5 s) l (rowcol_lt s 720 (by decide) l)).trans
    (dma0_2_apply d s f6 0 _)

theorem off_7_0_6 : ∀ s : Fin (grid0.bound 1), k0_off11 (L1 s) 640#32 96#32 = ![0, s.val % 4 * 1024 + 736] := by decide +kernel
theorem row_v1731_apply (s : Fin (grid0.bound 1)) (f6 : Buf (Elt F) (l6 d)) (b2 : Buf (Elt F) ((thr d (L1 s)).loc cc0_scratch2))
    (h : k0_cond2 (L1 s) = 1#1) (l : Fin 16) :
    run1x.sl.v1731 d s f6 b2 h (ix1 l)
      = f6 (ix3 (⟨s.val / 4, tileB_lt s⟩ : Fin 4) (0 : Fin 3) (⟨s.val % 4 * 1024 + 736 + l.val, rowcol_lt s 736 (by decide) l⟩ : Fin 4096)) := by
  unfold run1x.sl.v1731 run1x.sl.v1730
  exact (load16_apply d s b2 (run1x.sl.dma0_2 d s f6) _ _ _ (0 : Fin 3) (s.val % 4 * 1024 + 736) (off_7_0_6 s) l (rowcol_lt s 736 (by decide) l)).trans
    (dma0_2_apply d s f6 0 _)

theorem off_7_0_7 : ∀ s : Fin (grid0.bound 1), k0_off11 (L1 s) 640#32 112#32 = ![0, s.val % 4 * 1024 + 752] := by decide +kernel
theorem row_v1736_apply (s : Fin (grid0.bound 1)) (f6 : Buf (Elt F) (l6 d)) (b2 : Buf (Elt F) ((thr d (L1 s)).loc cc0_scratch2))
    (h : k0_cond2 (L1 s) = 1#1) (l : Fin 16) :
    run1x.sl.v1736 d s f6 b2 h (ix1 l)
      = f6 (ix3 (⟨s.val / 4, tileB_lt s⟩ : Fin 4) (0 : Fin 3) (⟨s.val % 4 * 1024 + 752 + l.val, rowcol_lt s 752 (by decide) l⟩ : Fin 4096)) := by
  unfold run1x.sl.v1736 run1x.sl.v1735
  exact (load16_apply d s b2 (run1x.sl.dma0_2 d s f6) _ _ _ (0 : Fin 3) (s.val % 4 * 1024 + 752) (off_7_0_7 s) l (rowcol_lt s 752 (by decide) l)).trans
    (dma0_2_apply d s f6 0 _)

theorem off_7_1_0 : ∀ s : Fin (grid0.bound 1), k0_off12 (L1 s) 640#32 0#32 = ![1, s.val % 4 * 1024 + 640] := by decide +kernel
theorem row_v1741_apply (s : Fin (grid0.bound 1)) (f6 : Buf (Elt F) (l6 d)) (b2 : Buf (Elt F) ((thr d (L1 s)).loc cc0_scratch2))
    (h : k0_cond2 (L1 s) = 1#1) (l : Fin 16) :
    run1x.sl.v1741 d s f6 b2 h (ix1 l)
      = f6 (ix3 (⟨s.val / 4, tileB_lt s⟩ : Fin 4) (1 : Fin 3) (⟨s.val % 4 * 1024 + 640 + l.val, rowcol_lt s 640 (by decide) l⟩ : Fin 4096)) := by
  unfold run1x.sl.v1741 run1x.sl.v1740
  exact (load16_apply d s b2 (run1x.sl.dma0_2 d s f6) _ _ _ (1 : Fin 3) (s.val % 4 * 1024 + 640) (off_7_1_0 s) l (rowcol_lt s 640 (by decide) l)).trans
    (dma0_2_apply d s f6 1 _)

theorem off_7_1_1 : ∀ s : Fin (grid0.bound 1), k0_off12 (L1 s) 640#32 16#32 = ![1, s.val % 4 * 1024 + 656] := by decide +kernel
theorem row_v1746_apply (s : Fin (grid0.bound 1)) (f6 : Buf (Elt F) (l6 d)) (b2 : Buf (Elt F) ((thr d (L1 s)).loc cc0_scratch2))
    (h : k0_cond2 (L1 s) = 1#1) (l : Fin 16) :
    run1x.sl.v1746 d s f6 b2 h (ix1 l)
      = f6 (ix3 (⟨s.val / 4, tileB_lt s⟩ : Fin 4) (1 : Fin 3) (⟨s.val % 4 * 1024 + 656 + l.val, rowcol_lt s 656 (by decide) l⟩ : Fin 4096)) := by
  unfold run1x.sl.v1746 run1x.sl.v1745
  exact (load16_apply d s b2 (run1x.sl.dma0_2 d s f6) _ _ _ (1 : Fin 3) (s.val % 4 * 1024 + 656) (off_7_1_1 s) l (rowcol_lt s 656 (by decide) l)).trans
    (dma0_2_apply d s f6 1 _)

theorem off_7_1_2 : ∀ s : Fin (grid0.bound 1), k0_off12 (L1 s) 640#32 32#32 = ![1, s.val % 4 * 1024 + 672] := by decide +kernel
theorem row_v1751_apply (s : Fin (grid0.bound 1)) (f6 : Buf (Elt F) (l6 d)) (b2 : Buf (Elt F) ((thr d (L1 s)).loc cc0_scratch2))
    (h : k0_cond2 (L1 s) = 1#1) (l : Fin 16) :
    run1x.sl.v1751 d s f6 b2 h (ix1 l)
      = f6 (ix3 (⟨s.val / 4, tileB_lt s⟩ : Fin 4) (1 : Fin 3) (⟨s.val % 4 * 1024 + 672 + l.val, rowcol_lt s 672 (by decide) l⟩ : Fin 4096)) := by
  unfold run1x.sl.v1751 run1x.sl.v1750
  exact (load16_apply d s b2 (run1x.sl.dma0_2 d s f6) _ _ _ (1 : Fin 3) (s.val % 4 * 1024 + 672) (off_7_1_2 s) l (rowcol_lt s 672 (by decide) l)).trans
    (dma0_2_apply d s f6 1 _)

theorem off_7_1_3 : ∀ s : Fin (grid0.bound 1), k0_off12 (L1 s) 640#32 48#32 = ![1, s.val % 4 * 1024 + 688] := by decide +kernel
theorem row_v1756_apply (s : Fin (grid0.bound 1)) (f6 : Buf (Elt F) (l6 d)) (b2 : Buf (Elt F) ((thr d (L1 s)).loc cc0_scratch2))
    (h : k0_cond2 (L1 s) = 1#1) (l : Fin 16) :
    run1x.sl.v1756 d s f6 b2 h (ix1 l)
      = f6 (ix3 (⟨s.val / 4, tileB_lt s⟩ : Fin 4) (1 : Fin 3) (⟨s.val % 4 * 1024 + 688 + l.val, rowcol_lt s 688 (by decide) l⟩ : Fin 4096)) := by
  unfold run1x.sl.v1756 run1x.sl.v1755
  exact (load16_apply d s b2 (run1x.sl.dma0_2 d s f6) _ _ _ (1 : Fin 3) (s.val % 4 * 1024 + 688) (off_7_1_3 s) l (rowcol_lt s 688 (by decide) l)).trans
    (dma0_2_apply d s f6 1 _)

theorem off_7_1_4 : ∀ s : Fin (grid0.bound 1), k0_off12 (L1 s) 640#32 64#32 = ![1, s.val % 4 * 1024 + 704] := by decide +kernel
theorem row_v1761_apply (s : Fin (grid0.bound 1)) (f6 : Buf (Elt F) (l6 d)) (b2 : Buf (Elt F) ((thr d (L1 s)).loc cc0_scratch2))
    (h : k0_cond2 (L1 s) = 1#1) (l : Fin 16) :
    run1x.sl.v1761 d s f6 b2 h (ix1 l)
      = f6 (ix3 (⟨s.val / 4, tileB_lt s⟩ : Fin 4) (1 : Fin 3) (⟨s.val % 4 * 1024 + 704 + l.val, rowcol_lt s 704 (by decide) l⟩ : Fin 4096)) := by
  unfold run1x.sl.v1761 run1x.sl.v1760
  exact (load16_apply d s b2 (run1x.sl.dma0_2 d s f6) _ _ _ (1 : Fin 3) (s.val % 4 * 1024 + 704) (off_7_1_4 s) l (rowcol_lt s 704 (by decide) l)).trans
    (dma0_2_apply d s f6 1 _)

theorem off_7_1_5 : ∀ s : Fin (grid0.bound 1), k0_off12 (L1 s) 640#32 80#32 = ![1, s.val % 4 * 1024 + 720] := by decide +kernel
theorem row_v1766_apply (s : Fin (grid0.bound 1)) (f6 : Buf (Elt F) (l6 d)) (b2 : Buf (Elt F) ((thr d (L1 s)).loc cc0_scratch2))
    (h : k0_cond2 (L1 s) = 1#1) (l : Fin 16) :
    run1x.sl.v1766 d s f6 b2 h (ix1 l)
      = f6 (ix3 (⟨s.val / 4, tileB_lt s⟩ : Fin 4) (1 : Fin 3) (⟨s.val % 4 * 1024 + 720 + l.val, rowcol_lt s 720 (by decide) l⟩ : Fin 4096)) := by
  unfold run1x.sl.v1766 run1x.sl.v1765
  exact (load16_apply d s b2 (run1x.sl.dma0_2 d s f6) _ _ _ (1 : Fin 3) (s.val % 4 * 1024 + 720) (off_7_1_5 s) l (rowcol_lt s 720 (by decide) l)).trans
    (dma0_2_apply d s f6 1 _)

theorem off_7_1_6 : ∀ s : Fin (grid0.bound 1), k0_off12 (L1 s) 640#32 96#32 = ![1, s.val % 4 * 1024 + 736] := by decide +kernel
theorem row_v1771_apply (s : Fin (grid0.bound 1)) (f6 : Buf (Elt F) (l6 d)) (b2 : Buf (Elt F) ((thr d (L1 s)).loc cc0_scratch2))
    (h : k0_cond2 (L1 s) = 1#1) (l : Fin 16) :
    run1x.sl.v1771 d s f6 b2 h (ix1 l)
      = f6 (ix3 (⟨s.val / 4, tileB_lt s⟩ : Fin 4) (1 : Fin 3) (⟨s.val % 4 * 1024 + 736 + l.val, rowcol_lt s 736 (by decide) l⟩ : Fin 4096)) := by
  unfold run1x.sl.v1771 run1x.sl.v1770
  exact (load16_apply d s b2 (run1x.sl.dma0_2 d s f6) _ _ _ (1 : Fin 3) (s.val % 4 * 1024 + 736) (off_7_1_6 s) l (rowcol_lt s 736 (by decide) l)).trans
    (dma0_2_apply d s f6 1 _)

theorem off_7_1_7 : ∀ s : Fin (grid0.bound 1), k0_off12 (L1 s) 640#32 112#32 = ![1, s.val % 4 * 1024 + 752] := by decide +kernel
theorem row_v1776_apply (s : Fin (grid0.bound 1)) (f6 : Buf (Elt F) (l6 d)) (b2 : Buf (Elt F) ((thr d (L1 s)).loc cc0_scratch2))
    (h : k0_cond2 (L1 s) = 1#1) (l : Fin 16) :
    run1x.sl.v1776 d s f6 b2 h (ix1 l)
      = f6 (ix3 (⟨s.val / 4, tileB_lt s⟩ : Fin 4) (1 : Fin 3) (⟨s.val % 4 * 1024 + 752 + l.val, rowcol_lt s 752 (by decide) l⟩ : Fin 4096)) := by
  unfold run1x.sl.v1776 run1x.sl.v1775
  exact (load16_apply d s b2 (run1x.sl.dma0_2 d s f6) _ _ _ (1 : Fin 3) (s.val % 4 * 1024 + 752) (off_7_1_7 s) l (rowcol_lt s 752 (by decide) l)).trans
    (dma0_2_apply d s f6 1 _)

theorem off_7_2_0 : ∀ s : Fin (grid0.bound 1), k0_off13 (L1 s) 640#32 0#32 = ![2, s.val % 4 * 1024 + 640] := by decide +kernel
theorem row_v1781_apply (s : Fin (grid0.bound 1)) (f6 : Buf (Elt F) (l6 d)) (b2 : Buf (Elt F) ((thr d (L1 s)).loc cc0_scratch2))
    (h : k0_cond2 (L1 s) = 1#1) (l : Fin 16) :
    run1x.sl.v1781 d s f6 b2 h (ix1 l)
      = f6 (ix3 (⟨s.val / 4, tileB_lt s⟩ : Fin 4) (2 : Fin 3) (⟨s.val % 4 * 1024 + 640 + l.val, rowcol_lt s 640 (by decide) l⟩ : Fin 4096)) := by
  unfold run1x.sl.v1781 run1x.sl.v1780
  exact (load16_apply d s b2 (run1x.sl.dma0_2 d s f6) _ _ _ (2 : Fin 3) (s.val % 4 * 1024 + 640) (off_7_2_0 s) l (rowcol_lt s 640 (by decide) l)).trans
    (dma0_2_apply d s f6 2 _)

theorem off_7_2_1 : ∀ s : Fin (grid0.bound 1), k0_off13 (L1 s) 640#32 16#32 = ![2, s.val % 4 * 1024 + 656] := by decide +kernel
theorem row_v1786_apply (s : Fin (grid0.bound 1)) (f6 : Buf (Elt F) (l6 d)) (b2 : Buf (Elt F) ((thr d (L1 s)).loc cc0_scratch2))
    (h : k0_cond2 (L1 s) = 1#1) (l : Fin 16) :
    run1x.sl.v1786 d s f6 b2 h (ix1 l)
      = f6 (ix3 (⟨s.val / 4, tileB_lt s⟩ : Fin 4) (2 : Fin 3) (⟨s.val % 4 * 1024 + 656 + l.val, rowcol_lt s 656 (by decide) l⟩ : Fin 4096)) := by
  unfold run1x.sl.v1786 run1x.sl.v1785
  exact (load16_apply d s b2 (run1x.sl.dma0_2 d s f6) _ _ _ (2 : Fin 3) (s.val % 4 * 1024 + 656) (off_7_2_1 s) l (rowcol_lt s 656 (by decide) l)).trans
    (dma0_2_apply d s f6 2 _)

theorem off_7_2_2 : ∀ s : Fin (grid0.bound 1), k0_off13 (L1 s) 640#32 32#32 = ![2, s.val % 4 * 1024 + 672] := by decide +kernel
theorem row_v1791_apply (s : Fin (grid0.bound 1)) (f6 : Buf (Elt F) (l6 d)) (b2 : Buf (Elt F) ((thr d (L1 s)).loc cc0_scratch2))
    (h : k0_cond2 (L1 s) = 1#1) (l : Fin 16) :
    run1x.sl.v1791 d s f6 b2 h (ix1 l)
      = f6 (ix3 (⟨s.val / 4, tileB_lt s⟩ : Fin 4) (2 : Fin 3) (⟨s.val % 4 * 1024 + 672 + l.val, rowcol_lt s 672 (by decide) l⟩ : Fin 4096)) := by
  unfold run1x.sl.v1791 run1x.sl.v1790
  exact (load16_apply d s b2 (run1x.sl.dma0_2 d s f6) _ _ _ (2 : Fin 3) (s.val % 4 * 1024 + 672) (off_7_2_2 s) l (rowcol_lt s 672 (by decide) l)).trans
    (dma0_2_apply d s f6 2 _)

theorem off_7_2_3 : ∀ s : Fin (grid0.bound 1), k0_off13 (L1 s) 640#32 48#32 = ![2, s.val % 4 * 1024 + 688] := by decide +kernel
theorem row_v1796_apply (s : Fin (grid0.bound 1)) (f6 : Buf (Elt F) (l6 d)) (b2 : Buf (Elt F) ((thr d (L1 s)).loc cc0_scratch2))
    (h : k0_cond2 (L1 s) = 1#1) (l : Fin 16) :
    run1x.sl.v1796 d s f6 b2 h (ix1 l)
      = f6 (ix3 (⟨s.val / 4, tileB_lt s⟩ : Fin 4) (2 : Fin 3) (⟨s.val % 4 * 1024 + 688 + l.val, rowcol_lt s 688 (by decide) l⟩ : Fin 4096)) := by
  unfold run1x.sl.v1796 run1x.sl.v1795
  exact (load16_apply d s b2 (run1x.sl.dma0_2 d s f6) _ _ _ (2 : Fin 3) (s.val % 4 * 1024 + 688) (off_7_2_3 s) l (rowcol_lt s 688 (by decide) l)).trans
    (dma0_2_apply d s f6 2 _)

theorem off_7_2_4 : ∀ s : Fin (grid0.bound 1), k0_off13 (L1 s) 640#32 64#32 = ![2, s.val % 4 * 1024 + 704] := by decide +kernel
theorem row_v1801_apply (s : Fin (grid0.bound 1)) (f6 : Buf (Elt F) (l6 d)) (b2 : Buf (Elt F) ((thr d (L1 s)).loc cc0_scratch2))
    (h : k0_cond2 (L1 s) = 1#1) (l : Fin 16) :
    run1x.sl.v1801 d s f6 b2 h (ix1 l)
      = f6 (ix3 (⟨s.val / 4, tileB_lt s⟩ : Fin 4) (2 : Fin 3) (⟨s.val % 4 * 1024 + 704 + l.val, rowcol_lt s 704 (by decide) l⟩ : Fin 4096)) := by
  unfold run1x.sl.v1801 run1x.sl.v1800
  exact (load16_apply d s b2 (run1x.sl.dma0_2 d s f6) _ _ _ (2 : Fin 3) (s.val % 4 * 1024 + 704) (off_7_2_4 s) l (rowcol_lt s 704 (by decide) l)).trans
    (dma0_2_apply d s f6 2 _)

theorem off_7_2_5 : ∀ s : Fin (grid0.bound 1), k0_off13 (L1 s) 640#32 80#32 = ![2, s.val % 4 * 1024 + 720] := by decide +kernel
theorem row_v1806_apply (s : Fin (grid0.bound 1)) (f6 : Buf (Elt F) (l6 d)) (b2 : Buf (Elt F) ((thr d (L1 s)).loc cc0_scratch2))
    (h : k0_cond2 (L1 s) = 1#1) (l : Fin 16) :
    run1x.sl.v1806 d s f6 b2 h (ix1 l)
      = f6 (ix3 (⟨s.val / 4, tileB_lt s⟩ : Fin 4) (2 : Fin 3) (⟨s.val % 4 * 1024 + 720 + l.val, rowcol_lt s 720 (by decide) l⟩ : Fin 4096)) := by
  unfold run1x.sl.v1806 run1x.sl.v1805
  exact (load16_apply d s b2 (run1x.sl.dma0_2 d s f6) _ _ _ (2 : Fin 3) (s.val % 4 * 1024 + 720) (off_7_2_5 s) l (rowcol_lt s 720 (by decide) l)).trans
    (dma0_2_apply d s f6 2 _)

theorem off_7_2_6 : ∀ s : Fin (grid0.bound 1), k0_off13 (L1 s) 640#32 96#32 = ![2, s.val % 4 * 1024 + 736] := by decide +kernel
theorem row_v1811_apply (s : Fin (grid0.bound 1)) (f6 : Buf (Elt F) (l6 d)) (b2 : Buf (Elt F) ((thr d (L1 s)).loc cc0_scratch2))
    (h : k0_cond2 (L1 s) = 1#1) (l : Fin 16) :
    run1x.sl.v1811 d s f6 b2 h (ix1 l)
      = f6 (ix3 (⟨s.val / 4, tileB_lt s⟩ : Fin 4) (2 : Fin 3) (⟨s.val % 4 * 1024 + 736 + l.val, rowcol_lt s 736 (by decide) l⟩ : Fin 4096)) := by
  unfold run1x.sl.v1811 run1x.sl.v1810
  exact (load16_apply d s b2 (run1x.sl.dma0_2 d s f6) _ _ _ (2 : Fin 3) (s.val % 4 * 1024 + 736) (off_7_2_6 s) l (rowcol_lt s 736 (by decide) l)).trans
    (dma0_2_apply d s f6 2 _)

theorem off_7_2_7 : ∀ s : Fin (grid0.bound 1), k0_off13 (L1 s) 640#32 112#32 = ![2, s.val % 4 * 1024 + 752] := by decide +kernel
theorem row_r_108_apply (s : Fin (grid0.bound 1)) (f6 : Buf (Elt F) (l6 d)) (b2 : Buf (Elt F) ((thr d (L1 s)).loc cc0_scratch2))
    (h : k0_cond2 (L1 s) = 1#1) (l : Fin 16) :
    run1x.sl.r_108 d s f6 b2 h (ix1 l)
      = f6 (ix3 (⟨s.val / 4, tileB_lt s⟩ : Fin 4) (2 : Fin 3) (⟨s.val % 4 * 1024 + 752 + l.val, rowcol_lt s 752 (by decide) l⟩ : Fin 4096)) := by
  unfold run1x.sl.r_108 k0_pay2504 run1x.sl.v1815
  exact (load16_apply d s b2 (run1x.sl.dma0_2 d s f6) _ _ _ (2 : Fin 3) (s.val % 4 * 1024 + 752) (off_7_2_7 s) l (rowcol_lt s 752 (by decide) l)).trans
    (dma0_2_apply d s f6 2 _)

end Cert.Proof.ScI

end
-- ==== Proof.ScNrm1_7.lean ====
import proofs.«209750_g45337674776763_cont_8to1c4_158_37_alg».proof.Proof.ScNrm1_2
import proofs.«209750_g45337674776763_cont_8to1c4_158_37_alg».proof.Proof.ScRows1_7
/-!
  The norm rows of group 5 of the second branch, read at a lane: the sixteen-lane loads of the buffer that holds
  the second set's batch (for the row norms), coordinate `a` of point `1024 (s % 4) + 640 + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem nrm_v1820_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1820 d s f1 b3 h) shapeCasts_S1x16_S16 (ix1 l)
      = f1 (ix3 (⟨s.val / 4, tileB_lt s⟩ : Fin 4) (0 : Fin 3) (⟨s.val % 4 * 1024 + 640 + l.val, rowcol_lt s 640 (by decide) l⟩ : Fin 4096)) := by
  unfold run1x.sl.v1820
  exact (load16B3_apply d s b3 (run1x.sl.dma0_3 d s f1) _ _ _ (0 : Fin 3) (s.val % 4 * 1024 + 640) (off_7_0_0 s) l (rowcol_lt s 640 (by decide) l)).trans
    (dma0_3_apply d s f1 0 _)

theorem nrm_v1825_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1825 d s f1 b3 h) shapeCasts_S1x16_S16 (ix1 l)
      = f1 (ix3 (⟨s.val / 4, tileB_lt s⟩ : Fin 4) (1 : Fin 3) (⟨s.val % 4 * 1024 + 640 + l.val, rowcol_lt s 640 (by decide) l⟩ : Fin 4096)) := by
  unfold run1x.sl.v1825
  exact (load16B3_apply d s b3 (run1x.sl.dma0_3 d s f1) _ _ _ (1 : Fin 3) (s.val % 4 * 1024 + 640) (off_7_1_0 s) l (rowcol_lt s 640 (by decide) l)).trans
    (dma0_3_apply d s f1 1 _)

theorem nrm_v1830_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1830 d s f1 b3 h) shapeCasts_S1x16_S16 (ix1 l)
      = f1 (ix3 (⟨s.val / 4, tileB_lt s⟩ : Fin 4) (2 : Fin 3) (⟨s.val % 4 * 1024 + 640 + l.val, rowcol_lt s 640 (by decide) l⟩ : Fin 4096)) := by
  unfold run1x.sl.v1830
  exact (load16B3_apply d s b3 (run1x.sl.dma0_3 d s f1) _ _ _ (2 : Fin 3) (s.val % 4 * 1024 + 640) (off_7_2_0 s) l (rowcol_lt s 640 (by decide) l)).trans
    (dma0_3_apply d s f1 2 _)

theorem nrm_v1840_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1840 d s f1 b3 h) shapeCasts_S1x16_S16 (ix1 l)
      = f1 (ix3 (⟨s.val / 4, tileB_lt s⟩ : Fin 4) (0 : Fin 3) (⟨s.val % 4 * 1024 + 656 + l.val, rowcol_lt s 656 (by decide) l⟩ : Fin 4096)) := by
  unfold run1x.sl.v1840
  exact (load16B3_apply d s b3 (run1x.sl.dma0_3 d s f1) _ _ _ (0 : Fin 3) (s.val % 4 * 1024 + 656) (off_7_0_1 s) l (rowcol_lt s 656 (by decide) l)).trans
    (dma0_3_apply d s f1 0 _)

theorem nrm_v1845_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1845 d s f1 b3 h) shapeCasts_S1x16_S16 (ix1 l)
      = f1 (ix3 (⟨s.val / 4, tileB_lt s⟩ : Fin 4) (1 : Fin 3) (⟨s.val % 4 * 1024 + 656 + l.val, rowcol_lt s 656 (by decide) l⟩ : Fin 4096)) := by
  unfold run1x.sl.v1845
  exact (load16B3_apply d s b3 (run1x.sl.dma0_3 d s f1) _ _ _ (1 : Fin 3) (s.val % 4 * 1024 + 656) (off_7_1_1 s) l (rowcol_lt s 656 (by decide) l)).trans
    (dma0_3_apply d s f1 1 _)

theorem nrm_v1850_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1850 d s f1 b3 h) shapeCasts_S1x16_S16 (ix1 l)
      = f1 (ix3 (⟨s.val / 4, tileB_lt s⟩ : Fin 4) (2 : Fin 3) (⟨s.val % 4 * 1024 + 656 + l.val, rowcol_lt s 656 (by decide) l⟩ : Fin 4096)) := by
  unfold run1x.sl.v1850
  exact (load16B3_apply d s b3 (run1x.sl.dma0_3 d s f1) _ _ _ (2 : Fin 3) (s.val % 4 * 1024 + 656) (off_7_2_1 s) l (rowcol_lt s 656 (by decide) l)).trans
    (dma0_3_apply d s f1 2 _)

theorem nrm_v1860_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1860 d s f1 b3 h) shapeCasts_S1x16_S16 (ix1 l)
      = f1 (ix3 (⟨s.val / 4, tileB_lt s⟩ : Fin 4) (0 : Fin 3) (⟨s.val % 4 * 1024 + 672 + l.val, rowcol_lt s 672 (by decide) l⟩ : Fin 4096)) := by
  unfold run1x.sl.v1860
  exact (load16B3_apply d s b3 (run1x.sl.dma0_3 d s f1) _ _ _ (0 : Fin 3) (s.val % 4 * 1024 + 672) (off_7_0_2 s) l (rowcol_lt s 672 (by decide) l)).trans
    (dma0_3_apply d s f1 0 _)

theorem nrm_v1865_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1865 d s f1 b3 h) shapeCasts_S1x16_S16 (ix1 l)
      = f1 (ix3 (⟨s.val / 4, tileB_lt s⟩ : Fin 4) (1 : Fin 3) (⟨s.val % 4 * 1024 + 672 + l.val, rowcol_lt s 672 (by decide) l⟩ : Fin 4096)) := by
  unfold run1x.sl.v1865
  exact (load16B3_apply d s b3 (run1x.sl.dma0_3 d s f1) _ _ _ (1 : Fin 3) (s.val % 4 * 1024 + 672) (off_7_1_2 s) l (rowcol_lt s 672 (by decide) l)).trans
    (dma0_3_apply d s f1 1 _)

theorem nrm_v1870_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1870 d s f1 b3 h) shapeCasts_S1x16_S16 (ix1 l)
      = f1 (ix3 (⟨s.val / 4, tileB_lt s⟩ : Fin 4) (2 : Fin 3) (⟨s.val % 4 * 1024 + 672 + l.val, rowcol_lt s 672 (by decide) l⟩ : Fin 4096)) := by
  unfold run1x.sl.v1870
  exact (load16B3_apply d s b3 (run1x.sl.dma0_3 d s f1) _ _ _ (2 : Fin 3) (s.val % 4 * 1024 + 672) (off_7_2_2 s) l (rowcol_lt s 672 (by decide) l)).trans
    (dma0_3_apply d s f1 2 _)

theorem nrm_v1880_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1880 d s f1 b3 h) shapeCasts_S1x16_S16 (ix1 l)
      = f1 (ix3 (⟨s.val / 4, tileB_lt s⟩ : Fin 4) (0 : Fin 3) (⟨s.val % 4 * 1024 + 688 + l.val, rowcol_lt s 688 (by decide) l⟩ : Fin 4096)) := by
  unfold run1x.sl.v1880
  exact (load16B3_apply d s b3 (run1x.sl.dma0_3 d s f1) _ _ _ (0 : Fin 3) (s.val % 4 * 1024 + 688) (off_7_0_3 s) l (rowcol_lt s 688 (by decide) l)).trans
    (dma0_3_apply d s f1 0 _)

theorem nrm_v1885_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1885 d s f1 b3 h) shapeCasts_S1x16_S16 (ix1 l)
      = f1 (ix3 (⟨s.val / 4, tileB_lt s⟩ : Fin 4) (1 : Fin 3) (⟨s.val % 4 * 1024 + 688 + l.val, rowcol_lt s 688 (by decide) l⟩ : Fin 4096)) := by
  unfold run1x.sl.v1885
  exact (load16B3_apply d s b3 (run1x.sl.dma0_3 d s f1) _ _ _ (1 : Fin 3) (s.val % 4 * 1024 + 688) (off_7_1_3 s) l (rowcol_lt s 688 (by decide) l)).trans
    (dma0_3_apply d s f1 1 _)

theorem nrm_v1890_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1890 d s f1 b3 h) shapeCasts_S1x16_S16 (ix1 l)
      = f1 (ix3 (⟨s.val / 4, tileB_lt s⟩ : Fin 4) (2 : Fin 3) (⟨s.val % 4 * 1024 + 688 + l.val, rowcol_lt s 688 (by decide) l⟩ : Fin 4096)) := by
  unfold run1x.sl.v1890
  exact (load16B3_apply d s b3 (run1x.sl.dma0_3 d s f1) _ _ _ (2 : Fin 3) (s.val % 4 * 1024 + 688) (off_7_2_3 s) l (rowcol_lt s 688 (by decide) l)).trans
    (dma0_3_apply d s f1 2 _)

theorem nrm_v1900_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1900 d s f1 b3 h) shapeCasts_S1x16_S16 (ix1 l)
      = f1 (ix3 (⟨s.val / 4, tileB_lt s⟩ : Fin 4) (0 : Fin 3) (⟨s.val % 4 * 1024 + 704 + l.val, rowcol_lt s 704 (by decide) l⟩ : Fin 4096)) := by
  unfold run1x.sl.v1900
  exact (load16B3_apply d s b3 (run1x.sl.dma0_3 d s f1) _ _ _ (0 : Fin 3) (s.val % 4 * 1024 + 704) (off_7_0_4 s) l (rowcol_lt s 704 (by decide) l)).trans
    (dma0_3_apply d s f1 0 _)

theorem nrm_v1905_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1905 d s f1 b3 h) shapeCasts_S1x16_S16 (ix1 l)
      = f1 (ix3 (⟨s.val / 4, tileB_lt s⟩ : Fin 4) (1 : Fin 3) (⟨s.val % 4 * 1024 + 704 + l.val, rowcol_lt s 704 (by decide) l⟩ : Fin 4096)) := by
  unfold run1x.sl.v1905
  exact (load16B3_apply d s b3 (run1x.sl.dma0_3 d s f1) _ _ _ (1 : Fin 3) (s.val % 4 * 1024 + 704) (off_7_1_4 s) l (rowcol_lt s 704 (by decide) l)).trans
    (dma0_3_apply d s f1 1 _)

theorem nrm_v1910_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1910 d s f1 b3 h) shapeCasts_S1x16_S16 (ix1 l)
      = f1 (ix3 (⟨s.val / 4, tileB_lt s⟩ : Fin 4) (2 : Fin 3) (⟨s.val % 4 * 1024 + 704 + l.val, rowcol_lt s 704 (by decide) l⟩ : Fin 4096)) := by
  unfold run1x.sl.v1910
  exact (load16B3_apply d s b3 (run1x.sl.dma0_3 d s f1) _ _ _ (2 : Fin 3) (s.val % 4 * 1024 + 704) (off_7_2_4 s) l (rowcol_lt s 704 (by decide) l)).trans
    (dma0_3_apply d s f1 2 _)

theorem nrm_v1920_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1920 d s f1 b3 h) shapeCasts_S1x16_S16 (ix1 l)
      = f1 (ix3 (⟨s.val / 4, tileB_lt s⟩ : Fin 4) (0 : Fin 3) (⟨s.val % 4 * 1024 + 720 + l.val, rowcol_lt s 720 (by decide) l⟩ : Fin 4096)) := by
  unfold run1x.sl.v1920
  exact (load16B3_apply d s b3 (run1x.sl.dma0_3 d s f1) _ _ _ (0 : Fin 3) (s.val % 4 * 1024 + 720) (off_7_0_5 s) l (rowcol_lt s 720 (by decide) l)).trans
    (dma0_3_apply d s f1 0 _)

theorem nrm_v1925_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1925 d s f1 b3 h) shapeCasts_S1x16_S16 (ix1 l)
      = f1 (ix3 (⟨s.val / 4, tileB_lt s⟩ : Fin 4) (1 : Fin 3) (⟨s.val % 4 * 1024 + 720 + l.val, rowcol_lt s 720 (by decide) l⟩ : Fin 4096)) := by
  unfold run1x.sl.v1925
  exact (load16B3_apply d s b3 (run1x.sl.dma0_3 d s f1) _ _ _ (1 : Fin 3) (s.val % 4 * 1024 + 720) (off_7_1_5 s) l (rowcol_lt s 720 (by decide) l)).trans
    (dma0_3_apply d s f1 1 _)

theorem nrm_v1930_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1930 d s f1 b3 h) shapeCasts_S1x16_S16 (ix1 l)
      = f1 (ix3 (⟨s.val / 4, tileB_lt s⟩ : Fin 4) (2 : Fin 3) (⟨s.val % 4 * 1024 + 720 + l.val, rowcol_lt s 720 (by decide) l⟩ : Fin 4096)) := by
  unfold run1x.sl.v1930
  exact (load16B3_apply d s b3 (run1x.sl.dma0_3 d s f1) _ _ _ (2 : Fin 3) (s.val % 4 * 1024 + 720) (off_7_2_5 s) l (rowcol_lt s 720 (by decide) l)).trans
    (dma0_3_apply d s f1 2 _)

theorem nrm_v1940_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1940 d s f1 b3 h) shapeCasts_S1x16_S16 (ix1 l)
      = f1 (ix3 (⟨s.val / 4, tileB_lt s⟩ : Fin 4) (0 : Fin 3) (⟨s.val % 4 * 1024 + 736 + l.val, rowcol_lt s 736 (by decide) l⟩ : Fin 4096)) := by
  unfold run1x.sl.v1940
  exact (load16B3_apply d s b3 (run1x.sl.dma0_3 d s f1) _ _ _ (0 : Fin 3) (s.val % 4 * 1024 + 736) (off_7_0_6 s) l (rowcol_lt s 736 (by decide) l)).trans
    (dma0_3_apply d s f1 0 _)

theorem nrm_v1945_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1945 d s f1 b3 h) shapeCasts_S1x16_S16 (ix1 l)
      = f1 (ix3 (⟨s.val / 4, tileB_lt s⟩ : Fin 4) (1 : Fin 3) (⟨s.val % 4 * 1024 + 736 + l.val, rowcol_lt s 736 (by decide) l⟩ : Fin 4096)) := by
  unfold run1x.sl.v1945
  exact (load16B3_apply d s b3 (run1x.sl.dma0_3 d s f1) _ _ _ (1 : Fin 3) (s.val % 4 * 1024 + 736) (off_7_1_6 s) l (rowcol_lt s 736 (by decide) l)).trans
    (dma0_3_apply d s f1 1 _)

theorem nrm_v1950_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1950 d s f1 b3 h) shapeCasts_S1x16_S16 (ix1 l)
      = f1 (ix3 (⟨s.val / 4, tileB_lt s⟩ : Fin 4) (2 : Fin 3) (⟨s.val % 4 * 1024 + 736 + l.val, rowcol_lt s 736 (by decide) l⟩ : Fin 4096)) := by
  unfold run1x.sl.v1950
  exact (load16B3_apply d s b3 (run1x.sl.dma0_3 d s f1) _ _ _ (2 : Fin 3) (s.val % 4 * 1024 + 736) (off_7_2_6 s) l (rowcol_lt s 736 (by decide) l)).trans
    (dma0_3_apply d s f1 2 _)

theorem nrm_v1960_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1960 d s f1 b3 h) shapeCasts_S1x16_S16 (ix1 l)
      = f1 (ix3 (⟨s.val / 4, tileB_lt s⟩ : Fin 4) (0 : Fin 3) (⟨s.val % 4 * 1024 + 752 + l.val, rowcol_lt s 752 (by decide) l⟩ : Fin 4096)) := by
  unfold run1x.sl.v1960
  exact (load16B3_apply d s b3 (run1x.sl.dma0_3 d s f1) _ _ _ (0 : Fin 3) (s.val % 4 * 1024 + 752) (off_7_0_7 s) l (rowcol_lt s 752 (by decide) l)).trans
    (dma0_3_apply d s f1 0 _)

theorem nrm_v1965_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1965 d s f1 b3 h) shapeCasts_S1x16_S16 (ix1 l)
      = f1 (ix3 (⟨s.val / 4, tileB_lt s⟩ : Fin 4) (1 : Fin 3) (⟨s.val % 4 * 1024 + 752 + l.val, rowcol_lt s 752 (by decide) l⟩ : Fin 4096)) := by
  unfold run1x.sl.v1965
  exact (load16B3_apply d s b3 (run1x.sl.dma0_3 d s f1) _ _ _ (1 : Fin 3) (s.val % 4 * 1024 + 752) (off_7_1_7 s) l (rowcol_lt s 752 (by decide) l)).trans
    (dma0_3_apply d s f1 1 _)

theorem nrm_v1970_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v1970 d s f1 b3 h) shapeCasts_S1x16_S16 (ix1 l)
      = f1 (ix3 (⟨s.val / 4, tileB_lt s⟩ : Fin 4) (2 : Fin 3) (⟨s.val % 4 * 1024 + 752 + l.val, rowcol_lt s 752 (by decide) l⟩ : Fin 4096)) := by
  unfold run1x.sl.v1970
  exact (load16B3_apply d s b3 (run1x.sl.dma0_3 d s f1) _ _ _ (2 : Fin 3) (s.val % 4 * 1024 + 752) (off_7_2_7 s) l (rowcol_lt s 752 (by decide) l)).trans
    (dma0_3_apply d s f1 2 _)

end Cert.Proof.ScI

end
-- ==== Proof.ScBridge1G7.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_7
import proofs.«209750_g45337674776763_cont_8to1c4_158_37_alg».proof.Proof.ScRows1_7
import proofs.«209750_g45337674776763_cont_8to1c4_158_37_alg».proof.Proof.ScNrm1_7
import proofs.«209750_g45337674776763_cont_8to1c4_158_37_alg».proof.Proof.ScX1a

/-!
  The second SparseCore branch's group 5 of words (`640` to `767` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group5 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 640 ≤ (j 0).val) (hhi : (j 0).val < 768) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 640 + 16 * J.val + l.val :=
    ⟨⟨((j 0).val - 640) / 16, by omega⟩, ⟨((j 0).val - 640) % 16, by omega⟩,
      by show _ = 640 + 16 * (((j 0).val - 640) / 16) + ((j 0).val - 640) % 16; omega⟩
  have er : (⟨s.val % 4 * 1024 + (j 0).val, by have : s.val < 16 := s.isLt; have : (j 0).val < 1024 := (j 0).isLt; omega⟩ : Fin 4096) = (⟨s.val % 4 * 1024 + (640 + 16 * J.val) + l.val, by have := l.isLt; have := J.isLt; omega⟩ : Fin 4096) :=
    Fin.ext (by show s.val % 4 * 1024 + (j 0).val = s.val % 4 * 1024 + (640 + 16 * J.val) + l.val; omega)
  rw [er]
  delta X1of
  refine (W1_read5 d s f1 b3 b4 (h2_L1 s) _ _ _ _ _ _ _ _ j J l hj).trans ?_
  delta A7of
  obtain ⟨Jv, hJv⟩ := J
  interval_cases Jv
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.r_102 d s f6 b2 (h2_L1 s)) (run1x.sl.v1741 d s f6 b2 (h2_L1 s)) (run1x.sl.v1781 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_r_102_apply (F := Ideal) d s f6 b2 (h2_L1 s) l) (row_v1741_apply (F := Ideal) d s f6 b2 (h2_L1 s) l) (row_v1781_apply (F := Ideal) d s f6 b2 (h2_L1 s) l)
      (nrm_v1820_apply (F := Ideal) d s f1 b3 (h2_L1 s) l) (nrm_v1825_apply (F := Ideal) d s f1 b3 (h2_L1 s) l) (nrm_v1830_apply (F := Ideal) d s f1 b3 (h2_L1 s) l)
      (C0of_apply (F := Ideal) d s f7 b0) (C1of_apply (F := Ideal) d s f8 b1)
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.r_103 d s f6 b2 (h2_L1 s)) (run1x.sl.v1746 d s f6 b2 (h2_L1 s)) (run1x.sl.v1786 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_r_103_apply (F := Ideal) d s f6 b2 (h2_L1 s) l) (row_v1746_apply (F := Ideal) d s f6 b2 (h2_L1 s) l) (row_v1786_apply (F := Ideal) d s f6 b2 (h2_L1 s) l)
      (nrm_v1840_apply (F := Ideal) d s f1 b3 (h2_L1 s) l) (nrm_v1845_apply (F := Ideal) d s f1 b3 (h2_L1 s) l) (nrm_v1850_apply (F := Ideal) d s f1 b3 (h2_L1 s) l)
      (C0of_apply (F := Ideal) d s f7 b0) (C1of_apply (F := Ideal) d s f8 b1)
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.r_104 d s f6 b2 (h2_L1 s)) (run1x.sl.v1751 d s f6 b2 (h2_L1 s)) (run1x.sl.v1791 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_r_104_apply (F := Ideal) d s f6 b2 (h2_L1 s) l) (row_v1751_apply (F := Ideal) d s f6 b2 (h2_L1 s) l) (row_v1791_apply (F := Ideal) d s f6 b2 (h2_L1 s) l)
      (nrm_v1860_apply (F := Ideal) d s f1 b3 (h2_L1 s) l) (nrm_v1865_apply (F := Ideal) d s f1 b3 (h2_L1 s) l) (nrm_v1870_apply (F := Ideal) d s f1 b3 (h2_L1 s) l)
      (C0of_apply (F := Ideal) d s f7 b0) (C1of_apply (F := Ideal) d s f8 b1)
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.r_105 d s f6 b2 (h2_L1 s)) (run1x.sl.v1756 d s f6 b2 (h2_L1 s)) (run1x.sl.v1796 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_r_105_apply (F := Ideal) d s f6 b2 (h2_L1 s) l) (row_v1756_apply (F := Ideal) d s f6 b2 (h2_L1 s) l) (row_v1796_apply (F := Ideal) d s f6 b2 (h2_L1 s) l)
      (nrm_v1880_apply (F := Ideal) d s f1 b3 (h2_L1 s) l) (nrm_v1885_apply (F := Ideal) d s f1 b3 (h2_L1 s) l) (nrm_v1890_apply (F := Ideal) d s f1 b3 (h2_L1 s) l)
      (C0of_apply (F := Ideal) d s f7 b0) (C1of_apply (F := Ideal) d s f8 b1)
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.r_106 d s f6 b2 (h2_L1 s)) (run1x.sl.v1761 d s f6 b2 (h2_L1 s)) (run1x.sl.v1801 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_r_106_apply (F := Ideal) d s f6 b2 (h2_L1 s) l) (row_v1761_apply (F := Ideal) d s f6 b2 (h2_L1 s) l) (row_v1801_apply (F := Ideal) d s f6 b2 (h2_L1 s) l)
      (nrm_v1900_apply (F := Ideal) d s f1 b3 (h2_L1 s) l) (nrm_v1905_apply (F := Ideal) d s f1 b3 (h2_L1 s) l) (nrm_v1910_apply (F := Ideal) d s f1 b3 (h2_L1 s) l)
      (C0of_apply (F := Ideal) d s f7 b0) (C1of_apply (F := Ideal) d s f8 b1)
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.r_107 d s f6 b2 (h2_L1 s)) (run1x.sl.v1766 d s f6 b2 (h2_L1 s)) (run1x.sl.v1806 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_r_107_apply (F := Ideal) d s f6 b2 (h2_L1 s) l) (row_v1766_apply (F := Ideal) d s f6 b2 (h2_L1 s) l) (row_v1806_apply (F := Ideal) d s f6 b2 (h2_L1 s) l)
      (nrm_v1920_apply (F := Ideal) d s f1 b3 (h2_L1 s) l) (nrm_v1925_apply (F := Ideal) d s f1 b3 (h2_L1 s) l) (nrm_v1930_apply (F := Ideal) d s f1 b3 (h2_L1 s) l)
      (C0of_apply (F := Ideal) d s f7 b0) (C1of_apply (F := Ideal) d s f8 b1)
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.v1731 d s f6 b2 (h2_L1 s)) (run1x.sl.v1771 d s f6 b2 (h2_L1 s)) (run1x.sl.v1811 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v1731_apply (F := Ideal) d s f6 b2 (h2_L1 s) l) (row_v1771_apply (F := Ideal) d s f6 b2 (h2_L1 s) l) (row_v1811_apply (F := Ideal) d s f6 b2 (h2_L1 s) l)
      (nrm_v1940_apply (F := Ideal) d s f1 b3 (h2_L1 s) l) (nrm_v1945_apply (F := Ideal) d s f1 b3 (h2_L1 s) l) (nrm_v1950_apply (F := Ideal) d s f1 b3 (h2_L1 s) l)
      (C0of_apply (F := Ideal) d s f7 b0) (C1of_apply (F := Ideal) d s f8 b1)
  · refine (congrArg (fun x => max (_ + x) 0) (block_all7 d (L1 s) (h2_L1 s) (run1x.sl.r_102 d s f6 b2 (h2_L1 s)) (run1x.sl.r_103 d s f6 b2 (h2_L1 s)) (run1x.sl.r_104 d s f6 b2 (h2_L1 s)) (run1x.sl.r_105 d s f6 b2 (h2_L1 s)) (run1x.sl.r_106 d s f6 b2 (h2_L1 s)) (run1x.sl.r_107 d s f6 b2 (h2_L1 s)) (run1x.sl.v1731 d s f6 b2 (h2_L1 s)) (run1x.sl.v1736 d s f6 b2 (h2_L1 s)) (run1x.sl.v1741 d s f6 b2 (h2_L1 s)) (run1x.sl.v1746 d s f6 b2 (h2_L1 s)) (run1x.sl.v1751 d s f6 b2 (h2_L1 s)) (run1x.sl.v1756 d s f6 b2 (h2_L1 s)) (run1x.sl.v1761 d s f6 b2 (h2_L1 s)) (run1x.sl.v1766 d s f6 b2 (h2_L1 s)) (run1x.sl.v1771 d s f6 b2 (h2_L1 s)) (run1x.sl.v1776 d s f6 b2 (h2_L1 s)) (run1x.sl.v1781 d s f6 b2 (h2_L1 s)) (run1x.sl.v1786 d s f6 b2 (h2_L1 s)) (run1x.sl.v1791 d s f6 b2 (h2_L1 s)) (run1x.sl.v1796 d s f6 b2 (h2_L1 s)) (run1x.sl.v1801 d s f6 b2 (h2_L1 s)) (run1x.sl.v1806 d s f6 b2 (h2_L1 s)) (run1x.sl.v1811 d s f6 b2 (h2_L1 s)) (run1x.sl.r_108 d s f6 b2 (h2_L1 s)) (C0of d s f7 b0) (C1of d s f8 b1) (k0_pay2516, k0_pay2516, k0_pay2516, k0_pay2516, k0_pay2516, k0_pay2516, k0_pay2516, k0_pay2516)
        (run1x.sl.v1736 d s f6 b2 (h2_L1 s)) (run1x.sl.v1776 d s f6 b2 (h2_L1 s)) (run1x.sl.r_108 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v1736_apply (F := Ideal) d s f6 b2 (h2_L1 s) l) (row_v1776_apply (F := Ideal) d s f6 b2 (h2_L1 s) l) (row_r_108_apply (F := Ideal) d s f6 b2 (h2_L1 s) l)
      (nrm_v1960_apply (F := Ideal) d s f1 b3 (h2_L1 s) l) (nrm_v1965_apply (F := Ideal) d s f1 b3 (h2_L1 s) l) (nrm_v1970_apply (F := Ideal) d s f1 b3 (h2_L1 s) l)
      (C0of_apply (F := Ideal) d s f7 b0) (C1of_apply (F := Ideal) d s f8 b1)

end Cert.Proof.ScI

end
-- ==== Proof.ScMath1_8.lean ====
import proofs.«209750_g45337674776763_cont_8to1c4_158_37_alg».proof.Proof.ScMath4
import proofs.«209750_g45337674776763_cont_8to1c4_158_37_alg».proof.Proof.ScVal1_8
/-!
  Scan loop 7 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips8_eq : k0_t8_loop.trips = 32 := by decide

theorem chunk8_lt (k : Fin k0_t8_loop.trips) (i : Fin 16) : 16 * k.val + i.val < 512 := by
  have h1 : k.val < 32 := lt_of_lt_of_eq k.isLt trips8_eq
  have h2 := i.isLt
  omega

section Generic
variable {F : FTy → Type} [FloatOps F]
/-- Coordinate `a` of the chunk trip `k` loads, at lane `i`: the strip buffer at row `a`, column `16 k + i`. -/
theorem ldv8_apply (L : grid0.Coords) (k0_h2 : k0_cond2 L = 1#1) (k : Fin k0_t8_loop.trips)
    (c : Buf (Elt F) ((B0).view.loc (thr d L))) (a : Fin 3) (i : Fin 16) :
    ldv8 d L k0_h2 k c a (ix1 i) = c (ix2 a (⟨16 * k.val + i.val, chunk8_lt k i⟩ : Fin 512)) := by
  match a with
  | 0 =>
    show shapeCast S16 ((B0).view.readAt (Elt F) (Rect.unit (s := S3x512) (k0_off32 k) S1x16.size (k0_off32_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off32_eq k]
    | ⟨1, _⟩ => simp [LoadRect.idx_apply, k0_off32_eq k]
  | 1 =>
    show shapeCast S16 ((B0).view.readAt (Elt F) (Rect.unit (s := S3x512) (k0_off33 k) S1x16.size (k0_off33_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off33_eq k]
    | ⟨1, _⟩ => simp [LoadRect.idx_apply, k0_off33_eq k]
  | 2 =>
    show shapeCast S16 ((B0).view.readAt (Elt F) (Rect.unit (s := S3x512) (k0_off34 k) S1x16.size (k0_off34_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off34_eq k]
    | ⟨1, _⟩ => simp [LoadRect.idx_apply, k0_off34_eq k]
end Generic

/-- One trip's chunk against a block of rows, at a lane: the sixteen candidates `16 k + i`. -/
theorem trip_chunk8_apply (L : grid0.Coords) (k0_h2 : k0_cond2 L = 1#1) (rx ry rz cur : FVec Ideal S16 .f32)
    (k : Fin k0_t8_loop.trips) (c0 c1 : Buf (Elt Ideal) ((B0).view.loc (thr d L))) (l : S16.Idx) :
    chunk rx ry rz cur (ldv8 d L k0_h2 k c0 0) (ldv8 d L k0_h2 k c0 1) (ldv8 d L k0_h2 k c0 2)
        (nrmv (ldv8 d L k0_h2 k c1 0) (ldv8 d L k0_h2 k c1 1) (ldv8 d L k0_h2 k c1 2)) l
      = (Finset.univ : Finset (Fin 16)).fold min (cur l) (fun i => termS d L rx ry rz c0 c1 l ⟨16 * k.val + i.val, chunk8_lt k i⟩) := by
  rw [chunk_apply]
  simp only [nrmv_apply, ldv8_apply, termS, rdS]

/-- A block's carried minimum before trip `K`, at a lane. -/
theorem block_iter8 (L : grid0.Coords) (k0_h2 : k0_cond2 L = 1#1) (v2033 : FVec Ideal S16 .f32) (v2038 : FVec Ideal S16 .f32) (v2043 : FVec Ideal S16 .f32) (v2048 : FVec Ideal S16 .f32) (v2053 : FVec Ideal S16 .f32) (v2058 : FVec Ideal S16 .f32) (v2063 : FVec Ideal S16 .f32) (v2068 : FVec Ideal S16 .f32) (v2073 : FVec Ideal S16 .f32) (v2078 : FVec Ideal S16 .f32) (v2083 : FVec Ideal S16 .f32) (v2088 : FVec Ideal S16 .f32) (v2093 : FVec Ideal S16 .f32) (v2098 : FVec Ideal S16 .f32) (v2103 : FVec Ideal S16 .f32) (v2108 : FVec Ideal S16 .f32) (v2113 : FVec Ideal S16 .f32) (v2118 : FVec Ideal S16 .f32) (v2123 : FVec Ideal S16 .f32) (v2128 : FVec Ideal S16 .f32) (v2133 : FVec Ideal S16 .f32) (v2138 : FVec Ideal S16 .f32) (v2143 : FVec Ideal S16 .f32) (v2148 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t8_loop.trips) (acc : Acc Ideal),
      sel (tripSpec8 d L k0_h2 v2033 v2038 v2043 v2048 v2053 v2058 v2063 v2068 v2073 v2078 v2083 v2088 v2093 v2098 v2103 v2108 v2113 v2118 v2123 v2128 v2133 v2138 v2143 v2148 k c0 c1 acc)
        = chunk rx ry rz (sel acc) (ldv8 d L k0_h2 k c0 0) (ldv8 d L k0_h2 k c0 1) (ldv8 d L k0_h2 k c0 2)
            (nrmv (ldv8 d L k0_h2 k c1 0) (ldv8 d L k0_h2 k c1 1) (ldv8 d L k0_h2 k c1 2)))
    (l : S16.Idx) : ∀ K : ℕ, K ≤ 32 →
      sel (iter8 d L k0_h2 v2033 v2038 v2043 v2048 v2053 v2058 v2063 v2068 v2073 v2078 v2083 v2088 v2093 v2098 v2103 v2108 v2113 v2118 v2123 v2128 v2133 v2138 v2143 v2148 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t8_loop.trips := by rw [trips8_eq]; omega
    have hs := iter8_succ d L k0_h2 v2033 v2038 v2043 v2048 v2053 v2058 v2063 v2068 v2073 v2078 v2083 v2088 v2093 v2098 v2103 v2108 v2113 v2118 v2123 v2128 v2133 v2138 v2143 v2148 c0 c1 init ⟨K, hk⟩
    rw [show K + 1 = (⟨K, hk⟩ : Fin k0_t8_loop.trips).val + 1 from rfl, hs, hsel, trip_chunk8_apply,
      block_iter8 L k0_h2 v2033 v2038 v2043 v2048 v2053 v2058 v2063 v2068 v2073 v2078 v2083 v2088 v2093 v2098 v2103 v2108 v2113 v2118 v2123 v2128 v2133 v2138 v2143 v2148 c0 c1 init rx ry rz sel hsel l K (by omega)]
    exact fold_stepM (termS d L rx ry rz c0 c1 l) (sel init l) K (by omega)

/-- After all 32 trips, from lanes that start at `⊤`: the minimum over every candidate of the strip. -/
theorem block_all8 (L : grid0.Coords) (k0_h2 : k0_cond2 L = 1#1) (v2033 : FVec Ideal S16 .f32) (v2038 : FVec Ideal S16 .f32) (v2043 : FVec Ideal S16 .f32) (v2048 : FVec Ideal S16 .f32) (v2053 : FVec Ideal S16 .f32) (v2058 : FVec Ideal S16 .f32) (v2063 : FVec Ideal S16 .f32) (v2068 : FVec Ideal S16 .f32) (v2073 : FVec Ideal S16 .f32) (v2078 : FVec Ideal S16 .f32) (v2083 : FVec Ideal S16 .f32) (v2088 : FVec Ideal S16 .f32) (v2093 : FVec Ideal S16 .f32) (v2098 : FVec Ideal S16 .f32) (v2103 : FVec Ideal S16 .f32) (v2108 : FVec Ideal S16 .f32) (v2113 : FVec Ideal S16 .f32) (v2118 : FVec Ideal S16 .f32) (v2123 : FVec Ideal S16 .f32) (v2128 : FVec Ideal S16 .f32) (v2133 : FVec Ideal S16 .f32) (v2138 : FVec Ideal S16 .f32) (v2143 : FVec Ideal S16 .f32) (v2148 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t8_loop.trips) (acc : Acc Ideal),
      sel (tripSpec8 d L k0_h2 v2033 v2038 v2043 v2048 v2053 v2058 v2063 v2068 v2073 v2078 v2083 v2088 v2093 v2098 v2103 v2108 v2113 v2118 v2123 v2128 v2133 v2138 v2143 v2148 k c0 c1 acc)
        = chunk rx ry rz (sel acc) (ldv8 d L k0_h2 k c0 0) (ldv8 d L k0_h2 k c0 1) (ldv8 d L k0_h2 k c0 2)
            (nrmv (ldv8 d L k0_h2 k c1 0) (ldv8 d L k0_h2 k c1 1) (ldv8 d L k0_h2 k c1 2)))
    (l : S16.Idx) (htop : sel init l = (⊤ : EReal)) :
    sel (iter8 d L k0_h2 v2033 v2038 v2043 v2048 v2053 v2058 v2063 v2068 v2073 v2078 v2083 v2088 v2093 v2098 v2103 v2108 v2113 v2118 v2123 v2128 v2133 v2138 v2143 v2148 c0 c1 init k0_t8_loop.trips) l
      = (Finset.univ : Finset (Fin 512)).fold min (⊤ : EReal) (termS d L rx ry rz c0 c1 l) := by
  rw [trips8_eq, block_iter8 d L k0_h2 v2033 v2038 v2043 v2048 v2053 v2058 v2063 v2068 v2073 v2078 v2083 v2088 v2093 v2098 v2103 v2108 v2113 v2118 v2123 v2128 v2133 v2138 v2143 v2148 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScRows1_8.lean ====
import proofs.«209750_g45337674776763_cont_8to1c4_158_37_alg».proof.Proof.ScRows1_2
/-!
  The twenty-four row vectors of scan 7 of the second branch, read at a lane: coordinate `a` of point
  `1024 (s % 4) + 768 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem off_8_0_0 : ∀ s : Fin (grid0.bound 1), k0_off11 (L1 s) 768#32 0#32 = ![0, s.val % 4 * 1024 + 768] := by decide +kernel
theorem row_v2033_apply (s : Fin (grid0.bound 1)) (f6 : Buf (Elt F) (l6 d)) (b2 : Buf (Elt F) ((thr d (L1 s)).loc cc0_scratch2))
    (h : k0_cond2 (L1 s) = 1#1) (l : Fin 16) :
    run1x.sl.v2033 d s f6 b2 h (ix1 l)
      = f6 (ix3 (⟨s.val / 4, tileB_lt s⟩ : Fin 4) (0 : Fin 3) (⟨s.val % 4 * 1024 + 768 + l.val, rowcol_lt s 768 (by decide) l⟩ : Fin 4096)) := by
  unfold run1x.sl.v2033 run1x.sl.v2032
  exact (load16_apply d s b2 (run1x.sl.dma0_2 d s f6) _ _ _ (0 : Fin 3) (s.val % 4 * 1024 + 768) (off_8_0_0 s) l (rowcol_lt s 768 (by decide) l)).trans
    (dma0_2_apply d s f6 0 _)

theorem off_8_0_1 : ∀ s : Fin (grid0.bound 1), k0_off11 (L1 s) 768#32 16#32 = ![0, s.val % 4 * 1024 + 784] := by decide +kernel
theorem row_v2038_apply (s : Fin (grid0.bound 1)) (f6 : Buf (Elt F) (l6 d)) (b2 : Buf (Elt F) ((thr d (L1 s)).loc cc0_scratch2))
    (h : k0_cond2 (L1 s) = 1#1) (l : Fin 16) :
    run1x.sl.v2038 d s f6 b2 h (ix1 l)
      = f6 (ix3 (⟨s.val / 4, tileB_lt s⟩ : Fin 4) (0 : Fin 3) (⟨s.val % 4 * 1024 + 784 + l.val, rowcol_lt s 784 (by decide) l⟩ : Fin 4096)) := by
  unfold run1x.sl.v2038 run1x.sl.v2037
  exact (load16_apply d s b2 (run1x.sl.dma0_2 d s f6) _ _ _ (0 : Fin 3) (s.val % 4 * 1024 + 784) (off_8_0_1 s) l (rowcol_lt s 784 (by decide) l)).trans
    (dma0_2_apply d s f6 0 _)

theorem off_8_0_2 : ∀ s : Fin (grid0.bound 1), k0_off11 (L1 s) 768#32 32#32 = ![0, s.val % 4 * 1024 + 800] := by decide +kernel
theorem row_v2043_apply (s : Fin (grid0.bound 1)) (f6 : Buf (Elt F) (l6 d)) (b2 : Buf (Elt F) ((thr d (L1 s)).loc cc0_scratch2))
    (h : k0_cond2 (L1 s) = 1#1) (l : Fin 16) :
    run1x.sl.v2043 d s f6 b2 h (ix1 l)
      = f6 (ix3 (⟨s.val / 4, tileB_lt s⟩ : Fin 4) (0 : Fin 3) (⟨s.val % 4 * 1024 + 800 + l.val, rowcol_lt s 800 (by decide) l⟩ : Fin 4096)) := by
  unfold run1x.sl.v2043 run1x.sl.v2042
  exact (load16_apply d s b2 (run1x.sl.dma0_2 d s f6) _ _ _ (0 : Fin 3) (s.val % 4 * 1024 + 800) (off_8_0_2 s) l (rowcol_lt s 800 (by decide) l)).trans
    (dma0_2_apply d s f6 0 _)

theorem off_8_0_3 : ∀ s : Fin (grid0.bound 1), k0_off11 (L1 s) 768#32 48#32 = ![0, s.val % 4 * 1024 + 816] := by decide +kernel
theorem row_v2048_apply (s : Fin (grid0.bound 1)) (f6 : Buf (Elt F) (l6 d)) (b2 : Buf (Elt F) ((thr d (L1 s)).loc cc0_scratch2))
    (h : k0_cond2 (L1 s) = 1#1) (l : Fin 16) :
    run1x.sl.v2048 d s f6 b2 h (ix1 l)
      = f6 (ix3 (⟨s.val / 4, tileB_lt s⟩ : Fin 4) (0 : Fin 3) (⟨s.val % 4 * 1024 + 816 + l.val, rowcol_lt s 816 (by decide) l⟩ : Fin 4096)) := by
  unfold run1x.sl.v2048 run1x.sl.v2047
  exact (load16_apply d s b2 (run1x.sl.dma0_2 d s f6) _ _ _ (0 : Fin 3) (s.val % 4 * 1024 + 816) (off_8_0_3 s) l (rowcol_lt s 816 (by decide) l)).trans
    (dma0_2_apply d s f6 0 _)

theorem off_8_0_4 : ∀ s : Fin (grid0.bound 1), k0_off11 (L1 s) 768#32 64#32 = ![0, s.val % 4 * 1024 + 832] := by decide +kernel
theorem row_v2053_apply (s : Fin (grid0.bound 1)) (f6 : Buf (Elt F) (l6 d)) (b2 : Buf (Elt F) ((thr d (L1 s)).loc cc0_scratch2))
    (h : k0_cond2 (L1 s) = 1#1) (l : Fin 16) :
    run1x.sl.v2053 d s f6 b2 h (ix1 l)
      = f6 (ix3 (⟨s.val / 4, tileB_lt s⟩ : Fin 4) (0 : Fin 3) (⟨s.val % 4 * 1024 + 832 + l.val, rowcol_lt s 832 (by decide) l⟩ : Fin 4096)) := by
  unfold run1x.sl.v2053 run1x.sl.v2052
  exact (load16_apply d s b2 (run1x.sl.dma0_2 d s f6) _ _ _ (0 : Fin 3) (s.val % 4 * 1024 + 832) (off_8_0_4 s) l (rowcol_lt s 832 (by decide) l)).trans
    (dma0_2_apply d s f6 0 _)

theorem off_8_0_5 : ∀ s : Fin (grid0.bound 1), k0_off11 (L1 s) 768#32 80#32 = ![0, s.val % 4 * 1024 + 848] := by decide +kernel
theorem row_v2058_apply (s : Fin (grid0.bound 1)) (f6 : Buf (Elt F) (l6 d)) (b2 : Buf (Elt F) ((thr d (L1 s)).loc cc0_scratch2))
    (h : k0_cond2 (L1 s) = 1#1) (l : Fin 16) :
    run1x.sl.v2058 d s f6 b2 h (ix1 l)
      = f6 (ix3 (⟨s.val / 4, tileB_lt s⟩ : Fin 4) (0 : Fin 3) (⟨s.val % 4 * 1024 + 848 + l.val, rowcol_lt s 848 (by decide) l⟩ : Fin 4096)) := by
  unfold run1x.sl.v2058 run1x.sl.v2057
  exact (load16_apply d s b2 (run1x.sl.dma0_2 d s f6) _ _ _ (0 : Fin 3) (s.val % 4 * 1024 + 848) (off_8_0_5 s) l (rowcol_lt s 848 (by decide) l)).trans
    (dma0_2_apply d s f6 0 _)

theorem off_8_0_6 : ∀ s : Fin (grid0.bound 1), k0_off11 (L1 s) 768#32 96#32 = ![0, s.val % 4 * 1024 + 864] := by decide +kernel
theorem row_v2063_apply (s : Fin (grid0.bound 1)) (f6 : Buf (Elt F) (l6 d)) (b2 : Buf (Elt F) ((thr d (L1 s)).loc cc0_scratch2))
    (h : k0_cond2 (L1 s) = 1#1) (l : Fin 16) :
    run1x.sl.v2063 d s f6 b2 h (ix1 l)
      = f6 (ix3 (⟨s.val / 4, tileB_lt s⟩ : Fin 4) (0 : Fin 3) (⟨s.val % 4 * 1024 + 864 + l.val, rowcol_lt s 864 (by decide) l⟩ : Fin 4096)) := by
  unfold run1x.sl.v2063 run1x.sl.v2062
  exact (load16_apply d s b2 (run1x.sl.dma0_2 d s f6) _ _ _ (0 : Fin 3) (s.val % 4 * 1024 + 864) (off_8_0_6 s) l (rowcol_lt s 864 (by decide) l)).trans
    (dma0_2_apply d s f6 0 _)

theorem off_8_0_7 : ∀ s : Fin (grid0.bound 1), k0_off11 (L1 s) 768#32 112#32 = ![0, s.val % 4 * 1024 + 880] := by decide +kernel
theorem row_v2068_apply (s : Fin (grid0.bound 1)) (f6 : Buf (Elt F) (l6 d)) (b2 : Buf (Elt F) ((thr d (L1 s)).loc cc0_scratch2))
    (h : k0_cond2 (L1 s) = 1#1) (l : Fin 16) :
    run1x.sl.v2068 d s f6 b2 h (ix1 l)
      = f6 (ix3 (⟨s.val / 4, tileB_lt s⟩ : Fin 4) (0 : Fin 3) (⟨s.val % 4 * 1024 + 880 + l.val, rowcol_lt s 880 (by decide) l⟩ : Fin 4096)) := by
  unfold run1x.sl.v2068 run1x.sl.v2067
  exact (load16_apply d s b2 (run1x.sl.dma0_2 d s f6) _ _ _ (0 : Fin 3) (s.val % 4 * 1024 + 880) (off_8_0_7 s) l (rowcol_lt s 880 (by decide) l)).trans
    (dma0_2_apply d s f6 0 _)

theorem off_8_1_0 : ∀ s : Fin (grid0.bound 1), k0_off12 (L1 s) 768#32 0#32 = ![1, s.val % 4 * 1024 + 768] := by decide +kernel
theorem row_v2073_apply (s : Fin (grid0.bound 1)) (f6 : Buf (Elt F) (l6 d)) (b2 : Buf (Elt F) ((thr d (L1 s)).loc cc0_scratch2))
    (h : k0_cond2 (L1 s) = 1#1) (l : Fin 16) :
    run1x.sl.v2073 d s f6 b2 h (ix1 l)
      = f6 (ix3 (⟨s.val / 4, tileB_lt s⟩ : Fin 4) (1 : Fin 3) (⟨s.val % 4 * 1024 + 768 + l.val, rowcol_lt s 768 (by decide) l⟩ : Fin 4096)) := by
  unfold run1x.sl.v2073 run1x.sl.v2072
  exact (load16_apply d s b2 (run1x.sl.dma0_2 d s f6) _ _ _ (1 : Fin 3) (s.val % 4 * 1024 + 768) (off_8_1_0 s) l (rowcol_lt s 768 (by decide) l)).trans
    (dma0_2_apply d s f6 1 _)

theorem off_8_1_1 : ∀ s : Fin (grid0.bound 1), k0_off12 (L1 s) 768#32 16#32 = ![1, s.val % 4 * 1024 + 784] := by decide +kernel
theorem row_v2078_apply (s : Fin (grid0.bound 1)) (f6 : Buf (Elt F) (l6 d)) (b2 : Buf (Elt F) ((thr d (L1 s)).loc cc0_scratch2))
    (h : k0_cond2 (L1 s) = 1#1) (l : Fin 16) :
    run1x.sl.v2078 d s f6 b2 h (ix1 l)
      = f6 (ix3 (⟨s.val / 4, tileB_lt s⟩ : Fin 4) (1 : Fin 3) (⟨s.val % 4 * 1024 + 784 + l.val, rowcol_lt s 784 (by decide) l⟩ : Fin 4096)) := by
  unfold run1x.sl.v2078 run1x.sl.v2077
  exact (load16_apply d s b2 (run1x.sl.dma0_2 d s f6) _ _ _ (1 : Fin 3) (s.val % 4 * 1024 + 784) (off_8_1_1 s) l (rowcol_lt s 784 (by decide) l)).trans
    (dma0_2_apply d s f6 1 _)

theorem off_8_1_2 : ∀ s : Fin (grid0.bound 1), k0_off12 (L1 s) 768#32 32#32 = ![1, s.val % 4 * 1024 + 800] := by decide +kernel
theorem row_v2083_apply (s : Fin (grid0.bound 1)) (f6 : Buf (Elt F) (l6 d)) (b2 : Buf (Elt F) ((thr d (L1 s)).loc cc0_scratch2))
    (h : k0_cond2 (L1 s) = 1#1) (l : Fin 16) :
    run1x.sl.v2083 d s f6 b2 h (ix1 l)
      = f6 (ix3 (⟨s.val / 4, tileB_lt s⟩ : Fin 4) (1 : Fin 3) (⟨s.val % 4 * 1024 + 800 + l.val, rowcol_lt s 800 (by decide) l⟩ : Fin 4096)) := by
  unfold run1x.sl.v2083 run1x.sl.v2082
  exact (load16_apply d s b2 (run1x.sl.dma0_2 d s f6) _ _ _ (1 : Fin 3) (s.val % 4 * 1024 + 800) (off_8_1_2 s) l (rowcol_lt s 800 (by decide) l)).trans
    (dma0_2_apply d s f6 1 _)

theorem off_8_1_3 : ∀ s : Fin (grid0.bound 1), k0_off12 (L1 s) 768#32 48#32 = ![1, s.val % 4 * 1024 + 816] := by decide +kernel
theorem row_v2088_apply (s : Fin (grid0.bound 1)) (f6 : Buf (Elt F) (l6 d)) (b2 : Buf (Elt F) ((thr d (L1 s)).loc cc0_scratch2))
    (h : k0_cond2 (L1 s) = 1#1) (l : Fin 16) :
    run1x.sl.v2088 d s f6 b2 h (ix1 l)
      = f6 (ix3 (⟨s.val / 4, tileB_lt s⟩ : Fin 4) (1 : Fin 3) (⟨s.val % 4 * 1024 + 816 + l.val, rowcol_lt s 816 (by decide) l⟩ : Fin 4096)) := by
  unfold run1x.sl.v2088 run1x.sl.v2087
  exact (load16_apply d s b2 (run1x.sl.dma0_2 d s f6) _ _ _ (1 : Fin 3) (s.val % 4 * 1024 + 816) (off_8_1_3 s) l (rowcol_lt s 816 (by decide) l)).trans
    (dma0_2_apply d s f6 1 _)

theorem off_8_1_4 : ∀ s : Fin (grid0.bound 1), k0_off12 (L1 s) 768#32 64#32 = ![1, s.val % 4 * 1024 + 832] := by decide +kernel
theorem row_v2093_apply (s : Fin (grid0.bound 1)) (f6 : Buf (Elt F) (l6 d)) (b2 : Buf (Elt F) ((thr d (L1 s)).loc cc0_scratch2))
    (h : k0_cond2 (L1 s) = 1#1) (l : Fin 16) :
    run1x.sl.v2093 d s f6 b2 h (ix1 l)
      = f6 (ix3 (⟨s.val / 4, tileB_lt s⟩ : Fin 4) (1 : Fin 3) (⟨s.val % 4 * 1024 + 832 + l.val, rowcol_lt s 832 (by decide) l⟩ : Fin 4096)) := by
  unfold run1x.sl.v2093 run1x.sl.v2092
  exact (load16_apply d s b2 (run1x.sl.dma0_2 d s f6) _ _ _ (1 : Fin 3) (s.val % 4 * 1024 + 832) (off_8_1_4 s) l (rowcol_lt s 832 (by decide) l)).trans
    (dma0_2_apply d s f6 1 _)

theorem off_8_1_5 : ∀ s : Fin (grid0.bound 1), k0_off12 (L1 s) 768#32 80#32 = ![1, s.val % 4 * 1024 + 848] := by decide +kernel
theorem row_v2098_apply (s : Fin (grid0.bound 1)) (f6 : Buf (Elt F) (l6 d)) (b2 : Buf (Elt F) ((thr d (L1 s)).loc cc0_scratch2))
    (h : k0_cond2 (L1 s) = 1#1) (l : Fin 16) :
    run1x.sl.v2098 d s f6 b2 h (ix1 l)
      = f6 (ix3 (⟨s.val / 4, tileB_lt s⟩ : Fin 4) (1 : Fin 3) (⟨s.val % 4 * 1024 + 848 + l.val, rowcol_lt s 848 (by decide) l⟩ : Fin 4096)) := by
  unfold run1x.sl.v2098 run1x.sl.v2097
  exact (load16_apply d s b2 (run1x.sl.dma0_2 d s f6) _ _ _ (1 : Fin 3) (s.val % 4 * 1024 + 848) (off_8_1_5 s) l (rowcol_lt s 848 (by decide) l)).trans
    (dma0_2_apply d s f6 1 _)

theorem off_8_1_6 : ∀ s : Fin (grid0.bound 1), k0_off12 (L1 s) 768#32 96#32 = ![1, s.val % 4 * 1024 + 864] := by decide +kernel
theorem row_v2103_apply (s : Fin (grid0.bound 1)) (f6 : Buf (Elt F) (l6 d)) (b2 : Buf (Elt F) ((thr d (L1 s)).loc cc0_scratch2))
    (h : k0_cond2 (L1 s) = 1#1) (l : Fin 16) :
    run1x.sl.v2103 d s f6 b2 h (ix1 l)
      = f6 (ix3 (⟨s.val / 4, tileB_lt s⟩ : Fin 4) (1 : Fin 3) (⟨s.val % 4 * 1024 + 864 + l.val, rowcol_lt s 864 (by decide) l⟩ : Fin 4096)) := by
  unfold run1x.sl.v2103 run1x.sl.v2102
  exact (load16_apply d s b2 (run1x.sl.dma0_2 d s f6) _ _ _ (1 : Fin 3) (s.val % 4 * 1024 + 864) (off_8_1_6 s) l (rowcol_lt s 864 (by decide) l)).trans
    (dma0_2_apply d s f6 1 _)

theorem off_8_1_7 : ∀ s : Fin (grid0.bound 1), k0_off12 (L1 s) 768#32 112#32 = ![1, s.val % 4 * 1024 + 880] := by decide +kernel
theorem row_v2108_apply (s : Fin (grid0.bound 1)) (f6 : Buf (Elt F) (l6 d)) (b2 : Buf (Elt F) ((thr d (L1 s)).loc cc0_scratch2))
    (h : k0_cond2 (L1 s) = 1#1) (l : Fin 16) :
    run1x.sl.v2108 d s f6 b2 h (ix1 l)
      = f6 (ix3 (⟨s.val / 4, tileB_lt s⟩ : Fin 4) (1 : Fin 3) (⟨s.val % 4 * 1024 + 880 + l.val, rowcol_lt s 880 (by decide) l⟩ : Fin 4096)) := by
  unfold run1x.sl.v2108 run1x.sl.v2107
  exact (load16_apply d s b2 (run1x.sl.dma0_2 d s f6) _ _ _ (1 : Fin 3) (s.val % 4 * 1024 + 880) (off_8_1_7 s) l (rowcol_lt s 880 (by decide) l)).trans
    (dma0_2_apply d s f6 1 _)

theorem off_8_2_0 : ∀ s : Fin (grid0.bound 1), k0_off13 (L1 s) 768#32 0#32 = ![2, s.val % 4 * 1024 + 768] := by decide +kernel
theorem row_v2113_apply (s : Fin (grid0.bound 1)) (f6 : Buf (Elt F) (l6 d)) (b2 : Buf (Elt F) ((thr d (L1 s)).loc cc0_scratch2))
    (h : k0_cond2 (L1 s) = 1#1) (l : Fin 16) :
    run1x.sl.v2113 d s f6 b2 h (ix1 l)
      = f6 (ix3 (⟨s.val / 4, tileB_lt s⟩ : Fin 4) (2 : Fin 3) (⟨s.val % 4 * 1024 + 768 + l.val, rowcol_lt s 768 (by decide) l⟩ : Fin 4096)) := by
  unfold run1x.sl.v2113 run1x.sl.v2112
  exact (load16_apply d s b2 (run1x.sl.dma0_2 d s f6) _ _ _ (2 : Fin 3) (s.val % 4 * 1024 + 768) (off_8_2_0 s) l (rowcol_lt s 768 (by decide) l)).trans
    (dma0_2_apply d s f6 2 _)

theorem off_8_2_1 : ∀ s : Fin (grid0.bound 1), k0_off13 (L1 s) 768#32 16#32 = ![2, s.val % 4 * 1024 + 784] := by decide +kernel
theorem row_v2118_apply (s : Fin (grid0.bound 1)) (f6 : Buf (Elt F) (l6 d)) (b2 : Buf (Elt F) ((thr d (L1 s)).loc cc0_scratch2))
    (h : k0_cond2 (L1 s) = 1#1) (l : Fin 16) :
    run1x.sl.v2118 d s f6 b2 h (ix1 l)
      = f6 (ix3 (⟨s.val / 4, tileB_lt s⟩ : Fin 4) (2 : Fin 3) (⟨s.val % 4 * 1024 + 784 + l.val, rowcol_lt s 784 (by decide) l⟩ : Fin 4096)) := by
  unfold run1x.sl.v2118 run1x.sl.v2117
  exact (load16_apply d s b2 (run1x.sl.dma0_2 d s f6) _ _ _ (2 : Fin 3) (s.val % 4 * 1024 + 784) (off_8_2_1 s) l (rowcol_lt s 784 (by decide) l)).trans
    (dma0_2_apply d s f6 2 _)

theorem off_8_2_2 : ∀ s : Fin (grid0.bound 1), k0_off13 (L1 s) 768#32 32#32 = ![2, s.val % 4 * 1024 + 800] := by decide +kernel
theorem row_v2123_apply (s : Fin (grid0.bound 1)) (f6 : Buf (Elt F) (l6 d)) (b2 : Buf (Elt F) ((thr d (L1 s)).loc cc0_scratch2))
    (h : k0_cond2 (L1 s) = 1#1) (l : Fin 16) :
    run1x.sl.v2123 d s f6 b2 h (ix1 l)
      = f6 (ix3 (⟨s.val / 4, tileB_lt s⟩ : Fin 4) (2 : Fin 3) (⟨s.val % 4 * 1024 + 800 + l.val, rowcol_lt s 800 (by decide) l⟩ : Fin 4096)) := by
  unfold run1x.sl.v2123 run1x.sl.v2122
  exact (load16_apply d s b2 (run1x.sl.dma0_2 d s f6) _ _ _ (2 : Fin 3) (s.val % 4 * 1024 + 800) (off_8_2_2 s) l (rowcol_lt s 800 (by decide) l)).trans
    (dma0_2_apply d s f6 2 _)

theorem off_8_2_3 : ∀ s : Fin (grid0.bound 1), k0_off13 (L1 s) 768#32 48#32 = ![2, s.val % 4 * 1024 + 816] := by decide +kernel
theorem row_v2128_apply (s : Fin (grid0.bound 1)) (f6 : Buf (Elt F) (l6 d)) (b2 : Buf (Elt F) ((thr d (L1 s)).loc cc0_scratch2))
    (h : k0_cond2 (L1 s) = 1#1) (l : Fin 16) :
    run1x.sl.v2128 d s f6 b2 h (ix1 l)
      = f6 (ix3 (⟨s.val / 4, tileB_lt s⟩ : Fin 4) (2 : Fin 3) (⟨s.val % 4 * 1024 + 816 + l.val, rowcol_lt s 816 (by decide) l⟩ : Fin 4096)) := by
  unfold run1x.sl.v2128 run1x.sl.v2127
  exact (load16_apply d s b2 (run1x.sl.dma0_2 d s f6) _ _ _ (2 : Fin 3) (s.val % 4 * 1024 + 816) (off_8_2_3 s) l (rowcol_lt s 816 (by decide) l)).trans
    (dma0_2_apply d s f6 2 _)

theorem off_8_2_4 : ∀ s : Fin (grid0.bound 1), k0_off13 (L1 s) 768#32 64#32 = ![2, s.val % 4 * 1024 + 832] := by decide +kernel
theorem row_v2133_apply (s : Fin (grid0.bound 1)) (f6 : Buf (Elt F) (l6 d)) (b2 : Buf (Elt F) ((thr d (L1 s)).loc cc0_scratch2))
    (h : k0_cond2 (L1 s) = 1#1) (l : Fin 16) :
    run1x.sl.v2133 d s f6 b2 h (ix1 l)
      = f6 (ix3 (⟨s.val / 4, tileB_lt s⟩ : Fin 4) (2 : Fin 3) (⟨s.val % 4 * 1024 + 832 + l.val, rowcol_lt s 832 (by decide) l⟩ : Fin 4096)) := by
  unfold run1x.sl.v2133 run1x.sl.v2132
  exact (load16_apply d s b2 (run1x.sl.dma0_2 d s f6) _ _ _ (2 : Fin 3) (s.val % 4 * 1024 + 832) (off_8_2_4 s) l (rowcol_lt s 832 (by decide) l)).trans
    (dma0_2_apply d s f6 2 _)

theorem off_8_2_5 : ∀ s : Fin (grid0.bound 1), k0_off13 (L1 s) 768#32 80#32 = ![2, s.val % 4 * 1024 + 848] := by decide +kernel
theorem row_v2138_apply (s : Fin (grid0.bound 1)) (f6 : Buf (Elt F) (l6 d)) (b2 : Buf (Elt F) ((thr d (L1 s)).loc cc0_scratch2))
    (h : k0_cond2 (L1 s) = 1#1) (l : Fin 16) :
    run1x.sl.v2138 d s f6 b2 h (ix1 l)
      = f6 (ix3 (⟨s.val / 4, tileB_lt s⟩ : Fin 4) (2 : Fin 3) (⟨s.val % 4 * 1024 + 848 + l.val, rowcol_lt s 848 (by decide) l⟩ : Fin 4096)) := by
  unfold run1x.sl.v2138 run1x.sl.v2137
  exact (load16_apply d s b2 (run1x.sl.dma0_2 d s f6) _ _ _ (2 : Fin 3) (s.val % 4 * 1024 + 848) (off_8_2_5 s) l (rowcol_lt s 848 (by decide) l)).trans
    (dma0_2_apply d s f6 2 _)

theorem off_8_2_6 : ∀ s : Fin (grid0.bound 1), k0_off13 (L1 s) 768#32 96#32 = ![2, s.val % 4 * 1024 + 864] := by decide +kernel
theorem row_v2143_apply (s : Fin (grid0.bound 1)) (f6 : Buf (Elt F) (l6 d)) (b2 : Buf (Elt F) ((thr d (L1 s)).loc cc0_scratch2))
    (h : k0_cond2 (L1 s) = 1#1) (l : Fin 16) :
    run1x.sl.v2143 d s f6 b2 h (ix1 l)
      = f6 (ix3 (⟨s.val / 4, tileB_lt s⟩ : Fin 4) (2 : Fin 3) (⟨s.val % 4 * 1024 + 864 + l.val, rowcol_lt s 864 (by decide) l⟩ : Fin 4096)) := by
  unfold run1x.sl.v2143 run1x.sl.v2142
  exact (load16_apply d s b2 (run1x.sl.dma0_2 d s f6) _ _ _ (2 : Fin 3) (s.val % 4 * 1024 + 864) (off_8_2_6 s) l (rowcol_lt s 864 (by decide) l)).trans
    (dma0_2_apply d s f6 2 _)

theorem off_8_2_7 : ∀ s : Fin (grid0.bound 1), k0_off13 (L1 s) 768#32 112#32 = ![2, s.val % 4 * 1024 + 880] := by decide +kernel
theorem row_v2148_apply (s : Fin (grid0.bound 1)) (f6 : Buf (Elt F) (l6 d)) (b2 : Buf (Elt F) ((thr d (L1 s)).loc cc0_scratch2))
    (h : k0_cond2 (L1 s) = 1#1) (l : Fin 16) :
    run1x.sl.v2148 d s f6 b2 h (ix1 l)
      = f6 (ix3 (⟨s.val / 4, tileB_lt s⟩ : Fin 4) (2 : Fin 3) (⟨s.val % 4 * 1024 + 880 + l.val, rowcol_lt s 880 (by decide) l⟩ : Fin 4096)) := by
  unfold run1x.sl.v2148 run1x.sl.v2147
  exact (load16_apply d s b2 (run1x.sl.dma0_2 d s f6) _ _ _ (2 : Fin 3) (s.val % 4 * 1024 + 880) (off_8_2_7 s) l (rowcol_lt s 880 (by decide) l)).trans
    (dma0_2_apply d s f6 2 _)

end Cert.Proof.ScI

end
-- ==== Proof.ScNrm1_8.lean ====
import proofs.«209750_g45337674776763_cont_8to1c4_158_37_alg».proof.Proof.ScNrm1_2
import proofs.«209750_g45337674776763_cont_8to1c4_158_37_alg».proof.Proof.ScRows1_8
/-!
  The norm rows of group 6 of the second branch, read at a lane: the sixteen-lane loads of the buffer that holds
  the second set's batch (for the row norms), coordinate `a` of point `1024 (s % 4) + 768 + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem nrm_v2152_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2152 d s f1 b3 h) shapeCasts_S1x16_S16 (ix1 l)
      = f1 (ix3 (⟨s.val / 4, tileB_lt s⟩ : Fin 4) (0 : Fin 3) (⟨s.val % 4 * 1024 + 768 + l.val, rowcol_lt s 768 (by decide) l⟩ : Fin 4096)) := by
  unfold run1x.sl.v2152
  exact (load16B3_apply d s b3 (run1x.sl.dma0_3 d s f1) _ _ _ (0 : Fin 3) (s.val % 4 * 1024 + 768) (off_8_0_0 s) l (rowcol_lt s 768 (by decide) l)).trans
    (dma0_3_apply d s f1 0 _)

theorem nrm_v2157_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2157 d s f1 b3 h) shapeCasts_S1x16_S16 (ix1 l)
      = f1 (ix3 (⟨s.val / 4, tileB_lt s⟩ : Fin 4) (1 : Fin 3) (⟨s.val % 4 * 1024 + 768 + l.val, rowcol_lt s 768 (by decide) l⟩ : Fin 4096)) := by
  unfold run1x.sl.v2157
  exact (load16B3_apply d s b3 (run1x.sl.dma0_3 d s f1) _ _ _ (1 : Fin 3) (s.val % 4 * 1024 + 768) (off_8_1_0 s) l (rowcol_lt s 768 (by decide) l)).trans
    (dma0_3_apply d s f1 1 _)

theorem nrm_v2162_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2162 d s f1 b3 h) shapeCasts_S1x16_S16 (ix1 l)
      = f1 (ix3 (⟨s.val / 4, tileB_lt s⟩ : Fin 4) (2 : Fin 3) (⟨s.val % 4 * 1024 + 768 + l.val, rowcol_lt s 768 (by decide) l⟩ : Fin 4096)) := by
  unfold run1x.sl.v2162
  exact (load16B3_apply d s b3 (run1x.sl.dma0_3 d s f1) _ _ _ (2 : Fin 3) (s.val % 4 * 1024 + 768) (off_8_2_0 s) l (rowcol_lt s 768 (by decide) l)).trans
    (dma0_3_apply d s f1 2 _)

theorem nrm_v2172_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2172 d s f1 b3 h) shapeCasts_S1x16_S16 (ix1 l)
      = f1 (ix3 (⟨s.val / 4, tileB_lt s⟩ : Fin 4) (0 : Fin 3) (⟨s.val % 4 * 1024 + 784 + l.val, rowcol_lt s 784 (by decide) l⟩ : Fin 4096)) := by
  unfold run1x.sl.v2172
  exact (load16B3_apply d s b3 (run1x.sl.dma0_3 d s f1) _ _ _ (0 : Fin 3) (s.val % 4 * 1024 + 784) (off_8_0_1 s) l (rowcol_lt s 784 (by decide) l)).trans
    (dma0_3_apply d s f1 0 _)

theorem nrm_v2177_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2177 d s f1 b3 h) shapeCasts_S1x16_S16 (ix1 l)
      = f1 (ix3 (⟨s.val / 4, tileB_lt s⟩ : Fin 4) (1 : Fin 3) (⟨s.val % 4 * 1024 + 784 + l.val, rowcol_lt s 784 (by decide) l⟩ : Fin 4096)) := by
  unfold run1x.sl.v2177
  exact (load16B3_apply d s b3 (run1x.sl.dma0_3 d s f1) _ _ _ (1 : Fin 3) (s.val % 4 * 1024 + 784) (off_8_1_1 s) l (rowcol_lt s 784 (by decide) l)).trans
    (dma0_3_apply d s f1 1 _)

theorem nrm_v2182_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2182 d s f1 b3 h) shapeCasts_S1x16_S16 (ix1 l)
      = f1 (ix3 (⟨s.val / 4, tileB_lt s⟩ : Fin 4) (2 : Fin 3) (⟨s.val % 4 * 1024 + 784 + l.val, rowcol_lt s 784 (by decide) l⟩ : Fin 4096)) := by
  unfold run1x.sl.v2182
  exact (load16B3_apply d s b3 (run1x.sl.dma0_3 d s f1) _ _ _ (2 : Fin 3) (s.val % 4 * 1024 + 784) (off_8_2_1 s) l (rowcol_lt s 784 (by decide) l)).trans
    (dma0_3_apply d s f1 2 _)

theorem nrm_v2192_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2192 d s f1 b3 h) shapeCasts_S1x16_S16 (ix1 l)
      = f1 (ix3 (⟨s.val / 4, tileB_lt s⟩ : Fin 4) (0 : Fin 3) (⟨s.val % 4 * 1024 + 800 + l.val, rowcol_lt s 800 (by decide) l⟩ : Fin 4096)) := by
  unfold run1x.sl.v2192
  exact (load16B3_apply d s b3 (run1x.sl.dma0_3 d s f1) _ _ _ (0 : Fin 3) (s.val % 4 * 1024 + 800) (off_8_0_2 s) l (rowcol_lt s 800 (by decide) l)).trans
    (dma0_3_apply d s f1 0 _)

theorem nrm_v2197_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2197 d s f1 b3 h) shapeCasts_S1x16_S16 (ix1 l)
      = f1 (ix3 (⟨s.val / 4, tileB_lt s⟩ : Fin 4) (1 : Fin 3) (⟨s.val % 4 * 1024 + 800 + l.val, rowcol_lt s 800 (by decide) l⟩ : Fin 4096)) := by
  unfold run1x.sl.v2197
  exact (load16B3_apply d s b3 (run1x.sl.dma0_3 d s f1) _ _ _ (1 : Fin 3) (s.val % 4 * 1024 + 800) (off_8_1_2 s) l (rowcol_lt s 800 (by decide) l)).trans
    (dma0_3_apply d s f1 1 _)

theorem nrm_v2202_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2202 d s f1 b3 h) shapeCasts_S1x16_S16 (ix1 l)
      = f1 (ix3 (⟨s.val / 4, tileB_lt s⟩ : Fin 4) (2 : Fin 3) (⟨s.val % 4 * 1024 + 800 + l.val, rowcol_lt s 800 (by decide) l⟩ : Fin 4096)) := by
  unfold run1x.sl.v2202
  exact (load16B3_apply d s b3 (run1x.sl.dma0_3 d s f1) _ _ _ (2 : Fin 3) (s.val % 4 * 1024 + 800) (off_8_2_2 s) l (rowcol_lt s 800 (by decide) l)).trans
    (dma0_3_apply d s f1 2 _)

theorem nrm_v2212_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2212 d s f1 b3 h) shapeCasts_S1x16_S16 (ix1 l)
      = f1 (ix3 (⟨s.val / 4, tileB_lt s⟩ : Fin 4) (0 : Fin 3) (⟨s.val % 4 * 1024 + 816 + l.val, rowcol_lt s 816 (by decide) l⟩ : Fin 4096)) := by
  unfold run1x.sl.v2212
  exact (load16B3_apply d s b3 (run1x.sl.dma0_3 d s f1) _ _ _ (0 : Fin 3) (s.val % 4 * 1024 + 816) (off_8_0_3 s) l (rowcol_lt s 816 (by decide) l)).trans
    (dma0_3_apply d s f1 0 _)

theorem nrm_v2217_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2217 d s f1 b3 h) shapeCasts_S1x16_S16 (ix1 l)
      = f1 (ix3 (⟨s.val / 4, tileB_lt s⟩ : Fin 4) (1 : Fin 3) (⟨s.val % 4 * 1024 + 816 + l.val, rowcol_lt s 816 (by decide) l⟩ : Fin 4096)) := by
  unfold run1x.sl.v2217
  exact (load16B3_apply d s b3 (run1x.sl.dma0_3 d s f1) _ _ _ (1 : Fin 3) (s.val % 4 * 1024 + 816) (off_8_1_3 s) l (rowcol_lt s 816 (by decide) l)).trans
    (dma0_3_apply d s f1 1 _)

theorem nrm_v2222_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2222 d s f1 b3 h) shapeCasts_S1x16_S16 (ix1 l)
      = f1 (ix3 (⟨s.val / 4, tileB_lt s⟩ : Fin 4) (2 : Fin 3) (⟨s.val % 4 * 1024 + 816 + l.val, rowcol_lt s 816 (by decide) l⟩ : Fin 4096)) := by
  unfold run1x.sl.v2222
  exact (load16B3_apply d s b3 (run1x.sl.dma0_3 d s f1) _ _ _ (2 : Fin 3) (s.val % 4 * 1024 + 816) (off_8_2_3 s) l (rowcol_lt s 816 (by decide) l)).trans
    (dma0_3_apply d s f1 2 _)

theorem nrm_v2232_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2232 d s f1 b3 h) shapeCasts_S1x16_S16 (ix1 l)
      = f1 (ix3 (⟨s.val / 4, tileB_lt s⟩ : Fin 4) (0 : Fin 3) (⟨s.val % 4 * 1024 + 832 + l.val, rowcol_lt s 832 (by decide) l⟩ : Fin 4096)) := by
  unfold run1x.sl.v2232
  exact (load16B3_apply d s b3 (run1x.sl.dma0_3 d s f1) _ _ _ (0 : Fin 3) (s.val % 4 * 1024 + 832) (off_8_0_4 s) l (rowcol_lt s 832 (by decide) l)).trans
    (dma0_3_apply d s f1 0 _)

theorem nrm_v2237_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2237 d s f1 b3 h) shapeCasts_S1x16_S16 (ix1 l)
      = f1 (ix3 (⟨s.val / 4, tileB_lt s⟩ : Fin 4) (1 : Fin 3) (⟨s.val % 4 * 1024 + 832 + l.val, rowcol_lt s 832 (by decide) l⟩ : Fin 4096)) := by
  unfold run1x.sl.v2237
  exact (load16B3_apply d s b3 (run1x.sl.dma0_3 d s f1) _ _ _ (1 : Fin 3) (s.val % 4 * 1024 + 832) (off_8_1_4 s) l (rowcol_lt s 832 (by decide) l)).trans
    (dma0_3_apply d s f1 1 _)

theorem nrm_v2242_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2242 d s f1 b3 h) shapeCasts_S1x16_S16 (ix1 l)
      = f1 (ix3 (⟨s.val / 4, tileB_lt s⟩ : Fin 4) (2 : Fin 3) (⟨s.val % 4 * 1024 + 832 + l.val, rowcol_lt s 832 (by decide) l⟩ : Fin 4096)) := by
  unfold run1x.sl.v2242
  exact (load16B3_apply d s b3 (run1x.sl.dma0_3 d s f1) _ _ _ (2 : Fin 3) (s.val % 4 * 1024 + 832) (off_8_2_4 s) l (rowcol_lt s 832 (by decide) l)).trans
    (dma0_3_apply d s f1 2 _)

theorem nrm_v2252_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2252 d s f1 b3 h) shapeCasts_S1x16_S16 (ix1 l)
      = f1 (ix3 (⟨s.val / 4, tileB_lt s⟩ : Fin 4) (0 : Fin 3) (⟨s.val % 4 * 1024 + 848 + l.val, rowcol_lt s 848 (by decide) l⟩ : Fin 4096)) := by
  unfold run1x.sl.v2252
  exact (load16B3_apply d s b3 (run1x.sl.dma0_3 d s f1) _ _ _ (0 : Fin 3) (s.val % 4 * 1024 + 848) (off_8_0_5 s) l (rowcol_lt s 848 (by decide) l)).trans
    (dma0_3_apply d s f1 0 _)

theorem nrm_v2257_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2257 d s f1 b3 h) shapeCasts_S1x16_S16 (ix1 l)
      = f1 (ix3 (⟨s.val / 4, tileB_lt s⟩ : Fin 4) (1 : Fin 3) (⟨s.val % 4 * 1024 + 848 + l.val, rowcol_lt s 848 (by decide) l⟩ : Fin 4096)) := by
  unfold run1x.sl.v2257
  exact (load16B3_apply d s b3 (run1x.sl.dma0_3 d s f1) _ _ _ (1 : Fin 3) (s.val % 4 * 1024 + 848) (off_8_1_5 s) l (rowcol_lt s 848 (by decide) l)).trans
    (dma0_3_apply d s f1 1 _)

theorem nrm_v2262_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2262 d s f1 b3 h) shapeCasts_S1x16_S16 (ix1 l)
      = f1 (ix3 (⟨s.val / 4, tileB_lt s⟩ : Fin 4) (2 : Fin 3) (⟨s.val % 4 * 1024 + 848 + l.val, rowcol_lt s 848 (by decide) l⟩ : Fin 4096)) := by
  unfold run1x.sl.v2262
  exact (load16B3_apply d s b3 (run1x.sl.dma0_3 d s f1) _ _ _ (2 : Fin 3) (s.val % 4 * 1024 + 848) (off_8_2_5 s) l (rowcol_lt s 848 (by decide) l)).trans
    (dma0_3_apply d s f1 2 _)

theorem nrm_v2272_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2272 d s f1 b3 h) shapeCasts_S1x16_S16 (ix1 l)
      = f1 (ix3 (⟨s.val / 4, tileB_lt s⟩ : Fin 4) (0 : Fin 3) (⟨s.val % 4 * 1024 + 864 + l.val, rowcol_lt s 864 (by decide) l⟩ : Fin 4096)) := by
  unfold run1x.sl.v2272
  exact (load16B3_apply d s b3 (run1x.sl.dma0_3 d s f1) _ _ _ (0 : Fin 3) (s.val % 4 * 1024 + 864) (off_8_0_6 s) l (rowcol_lt s 864 (by decide) l)).trans
    (dma0_3_apply d s f1 0 _)

theorem nrm_v2277_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2277 d s f1 b3 h) shapeCasts_S1x16_S16 (ix1 l)
      = f1 (ix3 (⟨s.val / 4, tileB_lt s⟩ : Fin 4) (1 : Fin 3) (⟨s.val % 4 * 1024 + 864 + l.val, rowcol_lt s 864 (by decide) l⟩ : Fin 4096)) := by
  unfold run1x.sl.v2277
  exact (load16B3_apply d s b3 (run1x.sl.dma0_3 d s f1) _ _ _ (1 : Fin 3) (s.val % 4 * 1024 + 864) (off_8_1_6 s) l (rowcol_lt s 864 (by decide) l)).trans
    (dma0_3_apply d s f1 1 _)

theorem nrm_v2282_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2282 d s f1 b3 h) shapeCasts_S1x16_S16 (ix1 l)
      = f1 (ix3 (⟨s.val / 4, tileB_lt s⟩ : Fin 4) (2 : Fin 3) (⟨s.val % 4 * 1024 + 864 + l.val, rowcol_lt s 864 (by decide) l⟩ : Fin 4096)) := by
  unfold run1x.sl.v2282
  exact (load16B3_apply d s b3 (run1x.sl.dma0_3 d s f1) _ _ _ (2 : Fin 3) (s.val % 4 * 1024 + 864) (off_8_2_6 s) l (rowcol_lt s 864 (by decide) l)).trans
    (dma0_3_apply d s f1 2 _)

theorem nrm_v2292_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2292 d s f1 b3 h) shapeCasts_S1x16_S16 (ix1 l)
      = f1 (ix3 (⟨s.val / 4, tileB_lt s⟩ : Fin 4) (0 : Fin 3) (⟨s.val % 4 * 1024 + 880 + l.val, rowcol_lt s 880 (by decide) l⟩ : Fin 4096)) := by
  unfold run1x.sl.v2292
  exact (load16B3_apply d s b3 (run1x.sl.dma0_3 d s f1) _ _ _ (0 : Fin 3) (s.val % 4 * 1024 + 880) (off_8_0_7 s) l (rowcol_lt s 880 (by decide) l)).trans
    (dma0_3_apply d s f1 0 _)

theorem nrm_v2297_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2297 d s f1 b3 h) shapeCasts_S1x16_S16 (ix1 l)
      = f1 (ix3 (⟨s.val / 4, tileB_lt s⟩ : Fin 4) (1 : Fin 3) (⟨s.val % 4 * 1024 + 880 + l.val, rowcol_lt s 880 (by decide) l⟩ : Fin 4096)) := by
  unfold run1x.sl.v2297
  exact (load16B3_apply d s b3 (run1x.sl.dma0_3 d s f1) _ _ _ (1 : Fin 3) (s.val % 4 * 1024 + 880) (off_8_1_7 s) l (rowcol_lt s 880 (by decide) l)).trans
    (dma0_3_apply d s f1 1 _)

theorem nrm_v2302_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2302 d s f1 b3 h) shapeCasts_S1x16_S16 (ix1 l)
      = f1 (ix3 (⟨s.val / 4, tileB_lt s⟩ : Fin 4) (2 : Fin 3) (⟨s.val % 4 * 1024 + 880 + l.val, rowcol_lt s 880 (by decide) l⟩ : Fin 4096)) := by
  unfold run1x.sl.v2302
  exact (load16B3_apply d s b3 (run1x.sl.dma0_3 d s f1) _ _ _ (2 : Fin 3) (s.val % 4 * 1024 + 880) (off_8_2_7 s) l (rowcol_lt s 880 (by decide) l)).trans
    (dma0_3_apply d s f1 2 _)

end Cert.Proof.ScI

end
-- ==== Proof.ScBridge1G8.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_8
import proofs.«209750_g45337674776763_cont_8to1c4_158_37_alg».proof.Proof.ScRows1_8
import proofs.«209750_g45337674776763_cont_8to1c4_158_37_alg».proof.Proof.ScNrm1_8
import proofs.«209750_g45337674776763_cont_8to1c4_158_37_alg».proof.Proof.ScX1a

/-!
  The second SparseCore branch's group 6 of words (`768` to `895` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group6 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 768 ≤ (j 0).val) (hhi : (j 0).val < 896) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 768 + 16 * J.val + l.val :=
    ⟨⟨((j 0).val - 768) / 16, by omega⟩, ⟨((j 0).val - 768) % 16, by omega⟩,
      by show _ = 768 + 16 * (((j 0).val - 768) / 16) + ((j 0).val - 768) % 16; omega⟩
  have er : (⟨s.val % 4 * 1024 + (j 0).val, by have : s.val < 16 := s.isLt; have : (j 0).val < 1024 := (j 0).isLt; omega⟩ : Fin 4096) = (⟨s.val % 4 * 1024 + (768 + 16 * J.val) + l.val, by have := l.isLt; have := J.isLt; omega⟩ : Fin 4096) :=
    Fin.ext (by show s.val % 4 * 1024 + (j 0).val = s.val % 4 * 1024 + (768 + 16 * J.val) + l.val; omega)
  rw [er]
  delta X1of
  refine (W1_read6 d s f1 b3 b4 (h2_L1 s) _ _ _ _ _ _ _ _ j J l hj).trans ?_
  delta A8of
  obtain ⟨Jv, hJv⟩ := J
  interval_cases Jv
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2033 d s f6 b2 (h2_L1 s)) (run1x.sl.v2073 d s f6 b2 (h2_L1 s)) (run1x.sl.v2113 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_v2033_apply (F := Ideal) d s f6 b2 (h2_L1 s) l) (row_v2073_apply (F := Ideal) d s f6 b2 (h2_L1 s) l) (row_v2113_apply (F := Ideal) d s f6 b2 (h2_L1 s) l)
      (nrm_v2152_apply (F := Ideal) d s f1 b3 (h2_L1 s) l) (nrm_v2157_apply (F := Ideal) d s f1 b3 (h2_L1 s) l) (nrm_v2162_apply (F := Ideal) d s f1 b3 (h2_L1 s) l)
      (C0of_apply (F := Ideal) d s f7 b0) (C1of_apply (F := Ideal) d s f8 b1)
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2038 d s f6 b2 (h2_L1 s)) (run1x.sl.v2078 d s f6 b2 (h2_L1 s)) (run1x.sl.v2118 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_v2038_apply (F := Ideal) d s f6 b2 (h2_L1 s) l) (row_v2078_apply (F := Ideal) d s f6 b2 (h2_L1 s) l) (row_v2118_apply (F := Ideal) d s f6 b2 (h2_L1 s) l)
      (nrm_v2172_apply (F := Ideal) d s f1 b3 (h2_L1 s) l) (nrm_v2177_apply (F := Ideal) d s f1 b3 (h2_L1 s) l) (nrm_v2182_apply (F := Ideal) d s f1 b3 (h2_L1 s) l)
      (C0of_apply (F := Ideal) d s f7 b0) (C1of_apply (F := Ideal) d s f8 b1)
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2043 d s f6 b2 (h2_L1 s)) (run1x.sl.v2083 d s f6 b2 (h2_L1 s)) (run1x.sl.v2123 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_v2043_apply (F := Ideal) d s f6 b2 (h2_L1 s) l) (row_v2083_apply (F := Ideal) d s f6 b2 (h2_L1 s) l) (row_v2123_apply (F := Ideal) d s f6 b2 (h2_L1 s) l)
      (nrm_v2192_apply (F := Ideal) d s f1 b3 (h2_L1 s) l) (nrm_v2197_apply (F := Ideal) d s f1 b3 (h2_L1 s) l) (nrm_v2202_apply (F := Ideal) d s f1 b3 (h2_L1 s) l)
      (C0of_apply (F := Ideal) d s f7 b0) (C1of_apply (F := Ideal) d s f8 b1)
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2048 d s f6 b2 (h2_L1 s)) (run1x.sl.v2088 d s f6 b2 (h2_L1 s)) (run1x.sl.v2128 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_v2048_apply (F := Ideal) d s f6 b2 (h2_L1 s) l) (row_v2088_apply (F := Ideal) d s f6 b2 (h2_L1 s) l) (row_v2128_apply (F := Ideal) d s f6 b2 (h2_L1 s) l)
      (nrm_v2212_apply (F := Ideal) d s f1 b3 (h2_L1 s) l) (nrm_v2217_apply (F := Ideal) d s f1 b3 (h2_L1 s) l) (nrm_v2222_apply (F := Ideal) d s f1 b3 (h2_L1 s) l)
      (C0of_apply (F := Ideal) d s f7 b0) (C1of_apply (F := Ideal) d s f8 b1)
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2053 d s f6 b2 (h2_L1 s)) (run1x.sl.v2093 d s f6 b2 (h2_L1 s)) (run1x.sl.v2133 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_v2053_apply (F := Ideal) d s f6 b2 (h2_L1 s) l) (row_v2093_apply (F := Ideal) d s f6 b2 (h2_L1 s) l) (row_v2133_apply (F := Ideal) d s f6 b2 (h2_L1 s) l)
      (nrm_v2232_apply (F := Ideal) d s f1 b3 (h2_L1 s) l) (nrm_v2237_apply (F := Ideal) d s f1 b3 (h2_L1 s) l) (nrm_v2242_apply (F := Ideal) d s f1 b3 (h2_L1 s) l)
      (C0of_apply (F := Ideal) d s f7 b0) (C1of_apply (F := Ideal) d s f8 b1)
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2058 d s f6 b2 (h2_L1 s)) (run1x.sl.v2098 d s f6 b2 (h2_L1 s)) (run1x.sl.v2138 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_v2058_apply (F := Ideal) d s f6 b2 (h2_L1 s) l) (row_v2098_apply (F := Ideal) d s f6 b2 (h2_L1 s) l) (row_v2138_apply (F := Ideal) d s f6 b2 (h2_L1 s) l)
      (nrm_v2252_apply (F := Ideal) d s f1 b3 (h2_L1 s) l) (nrm_v2257_apply (F := Ideal) d s f1 b3 (h2_L1 s) l) (nrm_v2262_apply (F := Ideal) d s f1 b3 (h2_L1 s) l)
      (C0of_apply (F := Ideal) d s f7 b0) (C1of_apply (F := Ideal) d s f8 b1)
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2063 d s f6 b2 (h2_L1 s)) (run1x.sl.v2103 d s f6 b2 (h2_L1 s)) (run1x.sl.v2143 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v2063_apply (F := Ideal) d s f6 b2 (h2_L1 s) l) (row_v2103_apply (F := Ideal) d s f6 b2 (h2_L1 s) l) (row_v2143_apply (F := Ideal) d s f6 b2 (h2_L1 s) l)
      (nrm_v2272_apply (F := Ideal) d s f1 b3 (h2_L1 s) l) (nrm_v2277_apply (F := Ideal) d s f1 b3 (h2_L1 s) l) (nrm_v2282_apply (F := Ideal) d s f1 b3 (h2_L1 s) l)
      (C0of_apply (F := Ideal) d s f7 b0) (C1of_apply (F := Ideal) d s f8 b1)
  · refine (congrArg (fun x => max (_ + x) 0) (block_all8 d (L1 s) (h2_L1 s) (run1x.sl.v2033 d s f6 b2 (h2_L1 s)) (run1x.sl.v2038 d s f6 b2 (h2_L1 s)) (run1x.sl.v2043 d s f6 b2 (h2_L1 s)) (run1x.sl.v2048 d s f6 b2 (h2_L1 s)) (run1x.sl.v2053 d s f6 b2 (h2_L1 s)) (run1x.sl.v2058 d s f6 b2 (h2_L1 s)) (run1x.sl.v2063 d s f6 b2 (h2_L1 s)) (run1x.sl.v2068 d s f6 b2 (h2_L1 s)) (run1x.sl.v2073 d s f6 b2 (h2_L1 s)) (run1x.sl.v2078 d s f6 b2 (h2_L1 s)) (run1x.sl.v2083 d s f6 b2 (h2_L1 s)) (run1x.sl.v2088 d s f6 b2 (h2_L1 s)) (run1x.sl.v2093 d s f6 b2 (h2_L1 s)) (run1x.sl.v2098 d s f6 b2 (h2_L1 s)) (run1x.sl.v2103 d s f6 b2 (h2_L1 s)) (run1x.sl.v2108 d s f6 b2 (h2_L1 s)) (run1x.sl.v2113 d s f6 b2 (h2_L1 s)) (run1x.sl.v2118 d s f6 b2 (h2_L1 s)) (run1x.sl.v2123 d s f6 b2 (h2_L1 s)) (run1x.sl.v2128 d s f6 b2 (h2_L1 s)) (run1x.sl.v2133 d s f6 b2 (h2_L1 s)) (run1x.sl.v2138 d s f6 b2 (h2_L1 s)) (run1x.sl.v2143 d s f6 b2 (h2_L1 s)) (run1x.sl.v2148 d s f6 b2 (h2_L1 s)) (C0of d s f7 b0) (C1of d s f8 b1) (k0_pay2565, k0_pay2565, k0_pay2565, k0_pay2565, k0_pay2565, k0_pay2565, k0_pay2565, k0_pay2565)
        (run1x.sl.v2068 d s f6 b2 (h2_L1 s)) (run1x.sl.v2108 d s f6 b2 (h2_L1 s)) (run1x.sl.v2148 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v2068_apply (F := Ideal) d s f6 b2 (h2_L1 s) l) (row_v2108_apply (F := Ideal) d s f6 b2 (h2_L1 s) l) (row_v2148_apply (F := Ideal) d s f6 b2 (h2_L1 s) l)
      (nrm_v2292_apply (F := Ideal) d s f1 b3 (h2_L1 s) l) (nrm_v2297_apply (F := Ideal) d s f1 b3 (h2_L1 s) l) (nrm_v2302_apply (F := Ideal) d s f1 b3 (h2_L1 s) l)
      (C0of_apply (F := Ideal) d s f7 b0) (C1of_apply (F := Ideal) d s f8 b1)

end Cert.Proof.ScI

end
-- ==== Proof.ScMath1_9.lean ====
import proofs.«209750_g45337674776763_cont_8to1c4_158_37_alg».proof.Proof.ScMath4
import proofs.«209750_g45337674776763_cont_8to1c4_158_37_alg».proof.Proof.ScVal1_9
/-!
  Scan loop 8 of the second SparseCore's branch, read at a lane: a block's carried minimum before trip `K` is the
  minimum, from what the lane held at the start, over the strip's candidates `m < 16 K`.
-/

noncomputable section

namespace Cert.Proof.ScI

open Cert.KernelIdeal Cert.KernelIdeal.Gen
open Idealize.ShloMosaic Idealize.ShloMosaic.ValueIdx
open Idealize.ShloMosaic.SparseCore (S V T)

variable (d : Dev nD)

local notation "B0" => (Memref.whole Cert.KernelIdeal.cc0_scratch0 : Memref Cert.KernelIdeal.sig Kind.scVector Space.vmem Cert.KernelIdeal.S3x512 EltTy.f32)

/-- The scan has 32 trips. -/
theorem trips9_eq : k0_t9_loop.trips = 32 := by decide

theorem chunk9_lt (k : Fin k0_t9_loop.trips) (i : Fin 16) : 16 * k.val + i.val < 512 := by
  have h1 : k.val < 32 := lt_of_lt_of_eq k.isLt trips9_eq
  have h2 := i.isLt
  omega

section Generic
variable {F : FTy → Type} [FloatOps F]
/-- Coordinate `a` of the chunk trip `k` loads, at lane `i`: the strip buffer at row `a`, column `16 k + i`. -/
theorem ldv9_apply (L : grid0.Coords) (k0_h2 : k0_cond2 L = 1#1) (k : Fin k0_t9_loop.trips)
    (c : Buf (Elt F) ((B0).view.loc (thr d L))) (a : Fin 3) (i : Fin 16) :
    ldv9 d L k0_h2 k c a (ix1 i) = c (ix2 a (⟨16 * k.val + i.val, chunk9_lt k i⟩ : Fin 512)) := by
  match a with
  | 0 =>
    show shapeCast S16 ((B0).view.readAt (Elt F) (Rect.unit (s := S3x512) (k0_off35 k) S1x16.size (k0_off35_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off35_eq k]
    | ⟨1, _⟩ => simp [LoadRect.idx_apply, k0_off35_eq k]
  | 1 =>
    show shapeCast S16 ((B0).view.readAt (Elt F) (Rect.unit (s := S3x512) (k0_off36 k) S1x16.size (k0_off36_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off36_eq k]
    | ⟨1, _⟩ => simp [LoadRect.idx_apply, k0_off36_eq k]
  | 2 =>
    show shapeCast S16 ((B0).view.readAt (Elt F) (Rect.unit (s := S3x512) (k0_off37 k) S1x16.size (k0_off37_inb L k k0_h2)).toLoadRect c) shapeCasts_S1x16_S16 (ix1 i) = _
    rw [shapeCast_apply _ _ (ix1 i) (ix2 (0 : Fin 1) i) (by rw [Shape.rowMajor_val_two, Shape.rowMajor_val_one]; simp), View.readAt_apply]
    show c _ = c _
    congr 1
    funext b
    apply Fin.ext
    match b with
    | ⟨0, _⟩ => simp [LoadRect.idx_apply, k0_off37_eq k]
    | ⟨1, _⟩ => simp [LoadRect.idx_apply, k0_off37_eq k]
end Generic

/-- One trip's chunk against a block of rows, at a lane: the sixteen candidates `16 k + i`. -/
theorem trip_chunk9_apply (L : grid0.Coords) (k0_h2 : k0_cond2 L = 1#1) (rx ry rz cur : FVec Ideal S16 .f32)
    (k : Fin k0_t9_loop.trips) (c0 c1 : Buf (Elt Ideal) ((B0).view.loc (thr d L))) (l : S16.Idx) :
    chunk rx ry rz cur (ldv9 d L k0_h2 k c0 0) (ldv9 d L k0_h2 k c0 1) (ldv9 d L k0_h2 k c0 2)
        (nrmv (ldv9 d L k0_h2 k c1 0) (ldv9 d L k0_h2 k c1 1) (ldv9 d L k0_h2 k c1 2)) l
      = (Finset.univ : Finset (Fin 16)).fold min (cur l) (fun i => termS d L rx ry rz c0 c1 l ⟨16 * k.val + i.val, chunk9_lt k i⟩) := by
  rw [chunk_apply]
  simp only [nrmv_apply, ldv9_apply, termS, rdS]

/-- A block's carried minimum before trip `K`, at a lane. -/
theorem block_iter9 (L : grid0.Coords) (k0_h2 : k0_cond2 L = 1#1) (v2365 : FVec Ideal S16 .f32) (v2370 : FVec Ideal S16 .f32) (v2375 : FVec Ideal S16 .f32) (v2380 : FVec Ideal S16 .f32) (v2385 : FVec Ideal S16 .f32) (v2390 : FVec Ideal S16 .f32) (v2395 : FVec Ideal S16 .f32) (v2400 : FVec Ideal S16 .f32) (v2405 : FVec Ideal S16 .f32) (v2410 : FVec Ideal S16 .f32) (v2415 : FVec Ideal S16 .f32) (v2420 : FVec Ideal S16 .f32) (v2425 : FVec Ideal S16 .f32) (v2430 : FVec Ideal S16 .f32) (v2435 : FVec Ideal S16 .f32) (v2440 : FVec Ideal S16 .f32) (v2445 : FVec Ideal S16 .f32) (v2450 : FVec Ideal S16 .f32) (v2455 : FVec Ideal S16 .f32) (v2460 : FVec Ideal S16 .f32) (v2465 : FVec Ideal S16 .f32) (v2470 : FVec Ideal S16 .f32) (v2475 : FVec Ideal S16 .f32) (v2480 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t9_loop.trips) (acc : Acc Ideal),
      sel (tripSpec9 d L k0_h2 v2365 v2370 v2375 v2380 v2385 v2390 v2395 v2400 v2405 v2410 v2415 v2420 v2425 v2430 v2435 v2440 v2445 v2450 v2455 v2460 v2465 v2470 v2475 v2480 k c0 c1 acc)
        = chunk rx ry rz (sel acc) (ldv9 d L k0_h2 k c0 0) (ldv9 d L k0_h2 k c0 1) (ldv9 d L k0_h2 k c0 2)
            (nrmv (ldv9 d L k0_h2 k c1 0) (ldv9 d L k0_h2 k c1 1) (ldv9 d L k0_h2 k c1 2)))
    (l : S16.Idx) : ∀ K : ℕ, K ≤ 32 →
      sel (iter9 d L k0_h2 v2365 v2370 v2375 v2380 v2385 v2390 v2395 v2400 v2405 v2410 v2415 v2420 v2425 v2430 v2435 v2440 v2445 v2450 v2455 v2460 v2465 v2470 v2475 v2480 c0 c1 init K) l
        = (Finset.univ.filter fun m : Fin 512 => m.val < 16 * K).fold min (sel init l) (termS d L rx ry rz c0 c1 l)
  | 0, _ => by
    show sel init l = _
    rw [show (Finset.univ.filter fun m : Fin 512 => m.val < 16 * 0) = ∅ from by ext m; simp, Finset.fold_empty]
  | K + 1, hK => by
    have hk : K < k0_t9_loop.trips := by rw [trips9_eq]; omega
    have hs := iter9_succ d L k0_h2 v2365 v2370 v2375 v2380 v2385 v2390 v2395 v2400 v2405 v2410 v2415 v2420 v2425 v2430 v2435 v2440 v2445 v2450 v2455 v2460 v2465 v2470 v2475 v2480 c0 c1 init ⟨K, hk⟩
    rw [show K + 1 = (⟨K, hk⟩ : Fin k0_t9_loop.trips).val + 1 from rfl, hs, hsel, trip_chunk9_apply,
      block_iter9 L k0_h2 v2365 v2370 v2375 v2380 v2385 v2390 v2395 v2400 v2405 v2410 v2415 v2420 v2425 v2430 v2435 v2440 v2445 v2450 v2455 v2460 v2465 v2470 v2475 v2480 c0 c1 init rx ry rz sel hsel l K (by omega)]
    exact fold_stepM (termS d L rx ry rz c0 c1 l) (sel init l) K (by omega)

/-- After all 32 trips, from lanes that start at `⊤`: the minimum over every candidate of the strip. -/
theorem block_all9 (L : grid0.Coords) (k0_h2 : k0_cond2 L = 1#1) (v2365 : FVec Ideal S16 .f32) (v2370 : FVec Ideal S16 .f32) (v2375 : FVec Ideal S16 .f32) (v2380 : FVec Ideal S16 .f32) (v2385 : FVec Ideal S16 .f32) (v2390 : FVec Ideal S16 .f32) (v2395 : FVec Ideal S16 .f32) (v2400 : FVec Ideal S16 .f32) (v2405 : FVec Ideal S16 .f32) (v2410 : FVec Ideal S16 .f32) (v2415 : FVec Ideal S16 .f32) (v2420 : FVec Ideal S16 .f32) (v2425 : FVec Ideal S16 .f32) (v2430 : FVec Ideal S16 .f32) (v2435 : FVec Ideal S16 .f32) (v2440 : FVec Ideal S16 .f32) (v2445 : FVec Ideal S16 .f32) (v2450 : FVec Ideal S16 .f32) (v2455 : FVec Ideal S16 .f32) (v2460 : FVec Ideal S16 .f32) (v2465 : FVec Ideal S16 .f32) (v2470 : FVec Ideal S16 .f32) (v2475 : FVec Ideal S16 .f32) (v2480 : FVec Ideal S16 .f32)
    (c0 c1 : Buf (Elt Ideal) ((B0).view.loc (thr d L))) (init : Acc Ideal)
    (rx ry rz : FVec Ideal S16 .f32) (sel : Acc Ideal → FVec Ideal S16 .f32)
    (hsel : ∀ (k : Fin k0_t9_loop.trips) (acc : Acc Ideal),
      sel (tripSpec9 d L k0_h2 v2365 v2370 v2375 v2380 v2385 v2390 v2395 v2400 v2405 v2410 v2415 v2420 v2425 v2430 v2435 v2440 v2445 v2450 v2455 v2460 v2465 v2470 v2475 v2480 k c0 c1 acc)
        = chunk rx ry rz (sel acc) (ldv9 d L k0_h2 k c0 0) (ldv9 d L k0_h2 k c0 1) (ldv9 d L k0_h2 k c0 2)
            (nrmv (ldv9 d L k0_h2 k c1 0) (ldv9 d L k0_h2 k c1 1) (ldv9 d L k0_h2 k c1 2)))
    (l : S16.Idx) (htop : sel init l = (⊤ : EReal)) :
    sel (iter9 d L k0_h2 v2365 v2370 v2375 v2380 v2385 v2390 v2395 v2400 v2405 v2410 v2415 v2420 v2425 v2430 v2435 v2440 v2445 v2450 v2455 v2460 v2465 v2470 v2475 v2480 c0 c1 init k0_t9_loop.trips) l
      = (Finset.univ : Finset (Fin 512)).fold min (⊤ : EReal) (termS d L rx ry rz c0 c1 l) := by
  rw [trips9_eq, block_iter9 d L k0_h2 v2365 v2370 v2375 v2380 v2385 v2390 v2395 v2400 v2405 v2410 v2415 v2420 v2425 v2430 v2435 v2440 v2445 v2450 v2455 v2460 v2465 v2470 v2475 v2480 c0 c1 init rx ry rz sel hsel l 32 le_rfl, htop,
    show (Finset.univ.filter fun m : Fin 512 => m.val < 16 * 32) = Finset.univ from
      Finset.filter_true_of_mem fun m _ => by have := m.isLt; omega]

end Cert.Proof.ScI

end
-- ==== Proof.ScRows1_9.lean ====
import proofs.«209750_g45337674776763_cont_8to1c4_158_37_alg».proof.Proof.ScRows1_2
/-!
  The twenty-four row vectors of scan 8 of the second branch, read at a lane: coordinate `a` of point
  `1024 (s % 4) + 896 + 16 J + l` of the second set, in the tile's batch.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem off_9_0_0 : ∀ s : Fin (grid0.bound 1), k0_off11 (L1 s) 896#32 0#32 = ![0, s.val % 4 * 1024 + 896] := by decide +kernel
theorem row_r_142_apply (s : Fin (grid0.bound 1)) (f6 : Buf (Elt F) (l6 d)) (b2 : Buf (Elt F) ((thr d (L1 s)).loc cc0_scratch2))
    (h : k0_cond2 (L1 s) = 1#1) (l : Fin 16) :
    run1x.sl.r_142 d s f6 b2 h (ix1 l)
      = f6 (ix3 (⟨s.val / 4, tileB_lt s⟩ : Fin 4) (0 : Fin 3) (⟨s.val % 4 * 1024 + 896 + l.val, rowcol_lt s 896 (by decide) l⟩ : Fin 4096)) := by
  unfold run1x.sl.r_142 k0_pay2577 run1x.sl.v2364
  exact (load16_apply d s b2 (run1x.sl.dma0_2 d s f6) _ _ _ (0 : Fin 3) (s.val % 4 * 1024 + 896) (off_9_0_0 s) l (rowcol_lt s 896 (by decide) l)).trans
    (dma0_2_apply d s f6 0 _)

theorem off_9_0_1 : ∀ s : Fin (grid0.bound 1), k0_off11 (L1 s) 896#32 16#32 = ![0, s.val % 4 * 1024 + 912] := by decide +kernel
theorem row_r_143_apply (s : Fin (grid0.bound 1)) (f6 : Buf (Elt F) (l6 d)) (b2 : Buf (Elt F) ((thr d (L1 s)).loc cc0_scratch2))
    (h : k0_cond2 (L1 s) = 1#1) (l : Fin 16) :
    run1x.sl.r_143 d s f6 b2 h (ix1 l)
      = f6 (ix3 (⟨s.val / 4, tileB_lt s⟩ : Fin 4) (0 : Fin 3) (⟨s.val % 4 * 1024 + 912 + l.val, rowcol_lt s 912 (by decide) l⟩ : Fin 4096)) := by
  unfold run1x.sl.r_143 k0_pay2578 run1x.sl.v2369
  exact (load16_apply d s b2 (run1x.sl.dma0_2 d s f6) _ _ _ (0 : Fin 3) (s.val % 4 * 1024 + 912) (off_9_0_1 s) l (rowcol_lt s 912 (by decide) l)).trans
    (dma0_2_apply d s f6 0 _)

theorem off_9_0_2 : ∀ s : Fin (grid0.bound 1), k0_off11 (L1 s) 896#32 32#32 = ![0, s.val % 4 * 1024 + 928] := by decide +kernel
theorem row_r_144_apply (s : Fin (grid0.bound 1)) (f6 : Buf (Elt F) (l6 d)) (b2 : Buf (Elt F) ((thr d (L1 s)).loc cc0_scratch2))
    (h : k0_cond2 (L1 s) = 1#1) (l : Fin 16) :
    run1x.sl.r_144 d s f6 b2 h (ix1 l)
      = f6 (ix3 (⟨s.val / 4, tileB_lt s⟩ : Fin 4) (0 : Fin 3) (⟨s.val % 4 * 1024 + 928 + l.val, rowcol_lt s 928 (by decide) l⟩ : Fin 4096)) := by
  unfold run1x.sl.r_144 k0_pay2579 run1x.sl.v2374
  exact (load16_apply d s b2 (run1x.sl.dma0_2 d s f6) _ _ _ (0 : Fin 3) (s.val % 4 * 1024 + 928) (off_9_0_2 s) l (rowcol_lt s 928 (by decide) l)).trans
    (dma0_2_apply d s f6 0 _)

theorem off_9_0_3 : ∀ s : Fin (grid0.bound 1), k0_off11 (L1 s) 896#32 48#32 = ![0, s.val % 4 * 1024 + 944] := by decide +kernel
theorem row_v2380_apply (s : Fin (grid0.bound 1)) (f6 : Buf (Elt F) (l6 d)) (b2 : Buf (Elt F) ((thr d (L1 s)).loc cc0_scratch2))
    (h : k0_cond2 (L1 s) = 1#1) (l : Fin 16) :
    run1x.sl.v2380 d s f6 b2 h (ix1 l)
      = f6 (ix3 (⟨s.val / 4, tileB_lt s⟩ : Fin 4) (0 : Fin 3) (⟨s.val % 4 * 1024 + 944 + l.val, rowcol_lt s 944 (by decide) l⟩ : Fin 4096)) := by
  unfold run1x.sl.v2380 run1x.sl.v2379
  exact (load16_apply d s b2 (run1x.sl.dma0_2 d s f6) _ _ _ (0 : Fin 3) (s.val % 4 * 1024 + 944) (off_9_0_3 s) l (rowcol_lt s 944 (by decide) l)).trans
    (dma0_2_apply d s f6 0 _)

theorem off_9_0_4 : ∀ s : Fin (grid0.bound 1), k0_off11 (L1 s) 896#32 64#32 = ![0, s.val % 4 * 1024 + 960] := by decide +kernel
theorem row_v2385_apply (s : Fin (grid0.bound 1)) (f6 : Buf (Elt F) (l6 d)) (b2 : Buf (Elt F) ((thr d (L1 s)).loc cc0_scratch2))
    (h : k0_cond2 (L1 s) = 1#1) (l : Fin 16) :
    run1x.sl.v2385 d s f6 b2 h (ix1 l)
      = f6 (ix3 (⟨s.val / 4, tileB_lt s⟩ : Fin 4) (0 : Fin 3) (⟨s.val % 4 * 1024 + 960 + l.val, rowcol_lt s 960 (by decide) l⟩ : Fin 4096)) := by
  unfold run1x.sl.v2385 run1x.sl.v2384
  exact (load16_apply d s b2 (run1x.sl.dma0_2 d s f6) _ _ _ (0 : Fin 3) (s.val % 4 * 1024 + 960) (off_9_0_4 s) l (rowcol_lt s 960 (by decide) l)).trans
    (dma0_2_apply d s f6 0 _)

theorem off_9_0_5 : ∀ s : Fin (grid0.bound 1), k0_off11 (L1 s) 896#32 80#32 = ![0, s.val % 4 * 1024 + 976] := by decide +kernel
theorem row_v2390_apply (s : Fin (grid0.bound 1)) (f6 : Buf (Elt F) (l6 d)) (b2 : Buf (Elt F) ((thr d (L1 s)).loc cc0_scratch2))
    (h : k0_cond2 (L1 s) = 1#1) (l : Fin 16) :
    run1x.sl.v2390 d s f6 b2 h (ix1 l)
      = f6 (ix3 (⟨s.val / 4, tileB_lt s⟩ : Fin 4) (0 : Fin 3) (⟨s.val % 4 * 1024 + 976 + l.val, rowcol_lt s 976 (by decide) l⟩ : Fin 4096)) := by
  unfold run1x.sl.v2390 run1x.sl.v2389
  exact (load16_apply d s b2 (run1x.sl.dma0_2 d s f6) _ _ _ (0 : Fin 3) (s.val % 4 * 1024 + 976) (off_9_0_5 s) l (rowcol_lt s 976 (by decide) l)).trans
    (dma0_2_apply d s f6 0 _)

theorem off_9_0_6 : ∀ s : Fin (grid0.bound 1), k0_off11 (L1 s) 896#32 96#32 = ![0, s.val % 4 * 1024 + 992] := by decide +kernel
theorem row_v2395_apply (s : Fin (grid0.bound 1)) (f6 : Buf (Elt F) (l6 d)) (b2 : Buf (Elt F) ((thr d (L1 s)).loc cc0_scratch2))
    (h : k0_cond2 (L1 s) = 1#1) (l : Fin 16) :
    run1x.sl.v2395 d s f6 b2 h (ix1 l)
      = f6 (ix3 (⟨s.val / 4, tileB_lt s⟩ : Fin 4) (0 : Fin 3) (⟨s.val % 4 * 1024 + 992 + l.val, rowcol_lt s 992 (by decide) l⟩ : Fin 4096)) := by
  unfold run1x.sl.v2395 run1x.sl.v2394
  exact (load16_apply d s b2 (run1x.sl.dma0_2 d s f6) _ _ _ (0 : Fin 3) (s.val % 4 * 1024 + 992) (off_9_0_6 s) l (rowcol_lt s 992 (by decide) l)).trans
    (dma0_2_apply d s f6 0 _)

theorem off_9_0_7 : ∀ s : Fin (grid0.bound 1), k0_off11 (L1 s) 896#32 112#32 = ![0, s.val % 4 * 1024 + 1008] := by decide +kernel
theorem row_v2400_apply (s : Fin (grid0.bound 1)) (f6 : Buf (Elt F) (l6 d)) (b2 : Buf (Elt F) ((thr d (L1 s)).loc cc0_scratch2))
    (h : k0_cond2 (L1 s) = 1#1) (l : Fin 16) :
    run1x.sl.v2400 d s f6 b2 h (ix1 l)
      = f6 (ix3 (⟨s.val / 4, tileB_lt s⟩ : Fin 4) (0 : Fin 3) (⟨s.val % 4 * 1024 + 1008 + l.val, rowcol_lt s 1008 (by decide) l⟩ : Fin 4096)) := by
  unfold run1x.sl.v2400 run1x.sl.v2399
  exact (load16_apply d s b2 (run1x.sl.dma0_2 d s f6) _ _ _ (0 : Fin 3) (s.val % 4 * 1024 + 1008) (off_9_0_7 s) l (rowcol_lt s 1008 (by decide) l)).trans
    (dma0_2_apply d s f6 0 _)

theorem off_9_1_0 : ∀ s : Fin (grid0.bound 1), k0_off12 (L1 s) 896#32 0#32 = ![1, s.val % 4 * 1024 + 896] := by decide +kernel
theorem row_v2405_apply (s : Fin (grid0.bound 1)) (f6 : Buf (Elt F) (l6 d)) (b2 : Buf (Elt F) ((thr d (L1 s)).loc cc0_scratch2))
    (h : k0_cond2 (L1 s) = 1#1) (l : Fin 16) :
    run1x.sl.v2405 d s f6 b2 h (ix1 l)
      = f6 (ix3 (⟨s.val / 4, tileB_lt s⟩ : Fin 4) (1 : Fin 3) (⟨s.val % 4 * 1024 + 896 + l.val, rowcol_lt s 896 (by decide) l⟩ : Fin 4096)) := by
  unfold run1x.sl.v2405 run1x.sl.v2404
  exact (load16_apply d s b2 (run1x.sl.dma0_2 d s f6) _ _ _ (1 : Fin 3) (s.val % 4 * 1024 + 896) (off_9_1_0 s) l (rowcol_lt s 896 (by decide) l)).trans
    (dma0_2_apply d s f6 1 _)

theorem off_9_1_1 : ∀ s : Fin (grid0.bound 1), k0_off12 (L1 s) 896#32 16#32 = ![1, s.val % 4 * 1024 + 912] := by decide +kernel
theorem row_v2410_apply (s : Fin (grid0.bound 1)) (f6 : Buf (Elt F) (l6 d)) (b2 : Buf (Elt F) ((thr d (L1 s)).loc cc0_scratch2))
    (h : k0_cond2 (L1 s) = 1#1) (l : Fin 16) :
    run1x.sl.v2410 d s f6 b2 h (ix1 l)
      = f6 (ix3 (⟨s.val / 4, tileB_lt s⟩ : Fin 4) (1 : Fin 3) (⟨s.val % 4 * 1024 + 912 + l.val, rowcol_lt s 912 (by decide) l⟩ : Fin 4096)) := by
  unfold run1x.sl.v2410 run1x.sl.v2409
  exact (load16_apply d s b2 (run1x.sl.dma0_2 d s f6) _ _ _ (1 : Fin 3) (s.val % 4 * 1024 + 912) (off_9_1_1 s) l (rowcol_lt s 912 (by decide) l)).trans
    (dma0_2_apply d s f6 1 _)

theorem off_9_1_2 : ∀ s : Fin (grid0.bound 1), k0_off12 (L1 s) 896#32 32#32 = ![1, s.val % 4 * 1024 + 928] := by decide +kernel
theorem row_v2415_apply (s : Fin (grid0.bound 1)) (f6 : Buf (Elt F) (l6 d)) (b2 : Buf (Elt F) ((thr d (L1 s)).loc cc0_scratch2))
    (h : k0_cond2 (L1 s) = 1#1) (l : Fin 16) :
    run1x.sl.v2415 d s f6 b2 h (ix1 l)
      = f6 (ix3 (⟨s.val / 4, tileB_lt s⟩ : Fin 4) (1 : Fin 3) (⟨s.val % 4 * 1024 + 928 + l.val, rowcol_lt s 928 (by decide) l⟩ : Fin 4096)) := by
  unfold run1x.sl.v2415 run1x.sl.v2414
  exact (load16_apply d s b2 (run1x.sl.dma0_2 d s f6) _ _ _ (1 : Fin 3) (s.val % 4 * 1024 + 928) (off_9_1_2 s) l (rowcol_lt s 928 (by decide) l)).trans
    (dma0_2_apply d s f6 1 _)

theorem off_9_1_3 : ∀ s : Fin (grid0.bound 1), k0_off12 (L1 s) 896#32 48#32 = ![1, s.val % 4 * 1024 + 944] := by decide +kernel
theorem row_v2420_apply (s : Fin (grid0.bound 1)) (f6 : Buf (Elt F) (l6 d)) (b2 : Buf (Elt F) ((thr d (L1 s)).loc cc0_scratch2))
    (h : k0_cond2 (L1 s) = 1#1) (l : Fin 16) :
    run1x.sl.v2420 d s f6 b2 h (ix1 l)
      = f6 (ix3 (⟨s.val / 4, tileB_lt s⟩ : Fin 4) (1 : Fin 3) (⟨s.val % 4 * 1024 + 944 + l.val, rowcol_lt s 944 (by decide) l⟩ : Fin 4096)) := by
  unfold run1x.sl.v2420 run1x.sl.v2419
  exact (load16_apply d s b2 (run1x.sl.dma0_2 d s f6) _ _ _ (1 : Fin 3) (s.val % 4 * 1024 + 944) (off_9_1_3 s) l (rowcol_lt s 944 (by decide) l)).trans
    (dma0_2_apply d s f6 1 _)

theorem off_9_1_4 : ∀ s : Fin (grid0.bound 1), k0_off12 (L1 s) 896#32 64#32 = ![1, s.val % 4 * 1024 + 960] := by decide +kernel
theorem row_v2425_apply (s : Fin (grid0.bound 1)) (f6 : Buf (Elt F) (l6 d)) (b2 : Buf (Elt F) ((thr d (L1 s)).loc cc0_scratch2))
    (h : k0_cond2 (L1 s) = 1#1) (l : Fin 16) :
    run1x.sl.v2425 d s f6 b2 h (ix1 l)
      = f6 (ix3 (⟨s.val / 4, tileB_lt s⟩ : Fin 4) (1 : Fin 3) (⟨s.val % 4 * 1024 + 960 + l.val, rowcol_lt s 960 (by decide) l⟩ : Fin 4096)) := by
  unfold run1x.sl.v2425 run1x.sl.v2424
  exact (load16_apply d s b2 (run1x.sl.dma0_2 d s f6) _ _ _ (1 : Fin 3) (s.val % 4 * 1024 + 960) (off_9_1_4 s) l (rowcol_lt s 960 (by decide) l)).trans
    (dma0_2_apply d s f6 1 _)

theorem off_9_1_5 : ∀ s : Fin (grid0.bound 1), k0_off12 (L1 s) 896#32 80#32 = ![1, s.val % 4 * 1024 + 976] := by decide +kernel
theorem row_v2430_apply (s : Fin (grid0.bound 1)) (f6 : Buf (Elt F) (l6 d)) (b2 : Buf (Elt F) ((thr d (L1 s)).loc cc0_scratch2))
    (h : k0_cond2 (L1 s) = 1#1) (l : Fin 16) :
    run1x.sl.v2430 d s f6 b2 h (ix1 l)
      = f6 (ix3 (⟨s.val / 4, tileB_lt s⟩ : Fin 4) (1 : Fin 3) (⟨s.val % 4 * 1024 + 976 + l.val, rowcol_lt s 976 (by decide) l⟩ : Fin 4096)) := by
  unfold run1x.sl.v2430 run1x.sl.v2429
  exact (load16_apply d s b2 (run1x.sl.dma0_2 d s f6) _ _ _ (1 : Fin 3) (s.val % 4 * 1024 + 976) (off_9_1_5 s) l (rowcol_lt s 976 (by decide) l)).trans
    (dma0_2_apply d s f6 1 _)

theorem off_9_1_6 : ∀ s : Fin (grid0.bound 1), k0_off12 (L1 s) 896#32 96#32 = ![1, s.val % 4 * 1024 + 992] := by decide +kernel
theorem row_v2435_apply (s : Fin (grid0.bound 1)) (f6 : Buf (Elt F) (l6 d)) (b2 : Buf (Elt F) ((thr d (L1 s)).loc cc0_scratch2))
    (h : k0_cond2 (L1 s) = 1#1) (l : Fin 16) :
    run1x.sl.v2435 d s f6 b2 h (ix1 l)
      = f6 (ix3 (⟨s.val / 4, tileB_lt s⟩ : Fin 4) (1 : Fin 3) (⟨s.val % 4 * 1024 + 992 + l.val, rowcol_lt s 992 (by decide) l⟩ : Fin 4096)) := by
  unfold run1x.sl.v2435 run1x.sl.v2434
  exact (load16_apply d s b2 (run1x.sl.dma0_2 d s f6) _ _ _ (1 : Fin 3) (s.val % 4 * 1024 + 992) (off_9_1_6 s) l (rowcol_lt s 992 (by decide) l)).trans
    (dma0_2_apply d s f6 1 _)

theorem off_9_1_7 : ∀ s : Fin (grid0.bound 1), k0_off12 (L1 s) 896#32 112#32 = ![1, s.val % 4 * 1024 + 1008] := by decide +kernel
theorem row_v2440_apply (s : Fin (grid0.bound 1)) (f6 : Buf (Elt F) (l6 d)) (b2 : Buf (Elt F) ((thr d (L1 s)).loc cc0_scratch2))
    (h : k0_cond2 (L1 s) = 1#1) (l : Fin 16) :
    run1x.sl.v2440 d s f6 b2 h (ix1 l)
      = f6 (ix3 (⟨s.val / 4, tileB_lt s⟩ : Fin 4) (1 : Fin 3) (⟨s.val % 4 * 1024 + 1008 + l.val, rowcol_lt s 1008 (by decide) l⟩ : Fin 4096)) := by
  unfold run1x.sl.v2440 run1x.sl.v2439
  exact (load16_apply d s b2 (run1x.sl.dma0_2 d s f6) _ _ _ (1 : Fin 3) (s.val % 4 * 1024 + 1008) (off_9_1_7 s) l (rowcol_lt s 1008 (by decide) l)).trans
    (dma0_2_apply d s f6 1 _)

theorem off_9_2_0 : ∀ s : Fin (grid0.bound 1), k0_off13 (L1 s) 896#32 0#32 = ![2, s.val % 4 * 1024 + 896] := by decide +kernel
theorem row_v2445_apply (s : Fin (grid0.bound 1)) (f6 : Buf (Elt F) (l6 d)) (b2 : Buf (Elt F) ((thr d (L1 s)).loc cc0_scratch2))
    (h : k0_cond2 (L1 s) = 1#1) (l : Fin 16) :
    run1x.sl.v2445 d s f6 b2 h (ix1 l)
      = f6 (ix3 (⟨s.val / 4, tileB_lt s⟩ : Fin 4) (2 : Fin 3) (⟨s.val % 4 * 1024 + 896 + l.val, rowcol_lt s 896 (by decide) l⟩ : Fin 4096)) := by
  unfold run1x.sl.v2445 run1x.sl.v2444
  exact (load16_apply d s b2 (run1x.sl.dma0_2 d s f6) _ _ _ (2 : Fin 3) (s.val % 4 * 1024 + 896) (off_9_2_0 s) l (rowcol_lt s 896 (by decide) l)).trans
    (dma0_2_apply d s f6 2 _)

theorem off_9_2_1 : ∀ s : Fin (grid0.bound 1), k0_off13 (L1 s) 896#32 16#32 = ![2, s.val % 4 * 1024 + 912] := by decide +kernel
theorem row_v2450_apply (s : Fin (grid0.bound 1)) (f6 : Buf (Elt F) (l6 d)) (b2 : Buf (Elt F) ((thr d (L1 s)).loc cc0_scratch2))
    (h : k0_cond2 (L1 s) = 1#1) (l : Fin 16) :
    run1x.sl.v2450 d s f6 b2 h (ix1 l)
      = f6 (ix3 (⟨s.val / 4, tileB_lt s⟩ : Fin 4) (2 : Fin 3) (⟨s.val % 4 * 1024 + 912 + l.val, rowcol_lt s 912 (by decide) l⟩ : Fin 4096)) := by
  unfold run1x.sl.v2450 run1x.sl.v2449
  exact (load16_apply d s b2 (run1x.sl.dma0_2 d s f6) _ _ _ (2 : Fin 3) (s.val % 4 * 1024 + 912) (off_9_2_1 s) l (rowcol_lt s 912 (by decide) l)).trans
    (dma0_2_apply d s f6 2 _)

theorem off_9_2_2 : ∀ s : Fin (grid0.bound 1), k0_off13 (L1 s) 896#32 32#32 = ![2, s.val % 4 * 1024 + 928] := by decide +kernel
theorem row_v2455_apply (s : Fin (grid0.bound 1)) (f6 : Buf (Elt F) (l6 d)) (b2 : Buf (Elt F) ((thr d (L1 s)).loc cc0_scratch2))
    (h : k0_cond2 (L1 s) = 1#1) (l : Fin 16) :
    run1x.sl.v2455 d s f6 b2 h (ix1 l)
      = f6 (ix3 (⟨s.val / 4, tileB_lt s⟩ : Fin 4) (2 : Fin 3) (⟨s.val % 4 * 1024 + 928 + l.val, rowcol_lt s 928 (by decide) l⟩ : Fin 4096)) := by
  unfold run1x.sl.v2455 run1x.sl.v2454
  exact (load16_apply d s b2 (run1x.sl.dma0_2 d s f6) _ _ _ (2 : Fin 3) (s.val % 4 * 1024 + 928) (off_9_2_2 s) l (rowcol_lt s 928 (by decide) l)).trans
    (dma0_2_apply d s f6 2 _)

theorem off_9_2_3 : ∀ s : Fin (grid0.bound 1), k0_off13 (L1 s) 896#32 48#32 = ![2, s.val % 4 * 1024 + 944] := by decide +kernel
theorem row_v2460_apply (s : Fin (grid0.bound 1)) (f6 : Buf (Elt F) (l6 d)) (b2 : Buf (Elt F) ((thr d (L1 s)).loc cc0_scratch2))
    (h : k0_cond2 (L1 s) = 1#1) (l : Fin 16) :
    run1x.sl.v2460 d s f6 b2 h (ix1 l)
      = f6 (ix3 (⟨s.val / 4, tileB_lt s⟩ : Fin 4) (2 : Fin 3) (⟨s.val % 4 * 1024 + 944 + l.val, rowcol_lt s 944 (by decide) l⟩ : Fin 4096)) := by
  unfold run1x.sl.v2460 run1x.sl.v2459
  exact (load16_apply d s b2 (run1x.sl.dma0_2 d s f6) _ _ _ (2 : Fin 3) (s.val % 4 * 1024 + 944) (off_9_2_3 s) l (rowcol_lt s 944 (by decide) l)).trans
    (dma0_2_apply d s f6 2 _)

theorem off_9_2_4 : ∀ s : Fin (grid0.bound 1), k0_off13 (L1 s) 896#32 64#32 = ![2, s.val % 4 * 1024 + 960] := by decide +kernel
theorem row_r_145_apply (s : Fin (grid0.bound 1)) (f6 : Buf (Elt F) (l6 d)) (b2 : Buf (Elt F) ((thr d (L1 s)).loc cc0_scratch2))
    (h : k0_cond2 (L1 s) = 1#1) (l : Fin 16) :
    run1x.sl.r_145 d s f6 b2 h (ix1 l)
      = f6 (ix3 (⟨s.val / 4, tileB_lt s⟩ : Fin 4) (2 : Fin 3) (⟨s.val % 4 * 1024 + 960 + l.val, rowcol_lt s 960 (by decide) l⟩ : Fin 4096)) := by
  unfold run1x.sl.r_145 k0_pay2597 run1x.sl.v2464
  exact (load16_apply d s b2 (run1x.sl.dma0_2 d s f6) _ _ _ (2 : Fin 3) (s.val % 4 * 1024 + 960) (off_9_2_4 s) l (rowcol_lt s 960 (by decide) l)).trans
    (dma0_2_apply d s f6 2 _)

theorem off_9_2_5 : ∀ s : Fin (grid0.bound 1), k0_off13 (L1 s) 896#32 80#32 = ![2, s.val % 4 * 1024 + 976] := by decide +kernel
theorem row_r_146_apply (s : Fin (grid0.bound 1)) (f6 : Buf (Elt F) (l6 d)) (b2 : Buf (Elt F) ((thr d (L1 s)).loc cc0_scratch2))
    (h : k0_cond2 (L1 s) = 1#1) (l : Fin 16) :
    run1x.sl.r_146 d s f6 b2 h (ix1 l)
      = f6 (ix3 (⟨s.val / 4, tileB_lt s⟩ : Fin 4) (2 : Fin 3) (⟨s.val % 4 * 1024 + 976 + l.val, rowcol_lt s 976 (by decide) l⟩ : Fin 4096)) := by
  unfold run1x.sl.r_146 k0_pay2598 run1x.sl.v2469
  exact (load16_apply d s b2 (run1x.sl.dma0_2 d s f6) _ _ _ (2 : Fin 3) (s.val % 4 * 1024 + 976) (off_9_2_5 s) l (rowcol_lt s 976 (by decide) l)).trans
    (dma0_2_apply d s f6 2 _)

theorem off_9_2_6 : ∀ s : Fin (grid0.bound 1), k0_off13 (L1 s) 896#32 96#32 = ![2, s.val % 4 * 1024 + 992] := by decide +kernel
theorem row_r_147_apply (s : Fin (grid0.bound 1)) (f6 : Buf (Elt F) (l6 d)) (b2 : Buf (Elt F) ((thr d (L1 s)).loc cc0_scratch2))
    (h : k0_cond2 (L1 s) = 1#1) (l : Fin 16) :
    run1x.sl.r_147 d s f6 b2 h (ix1 l)
      = f6 (ix3 (⟨s.val / 4, tileB_lt s⟩ : Fin 4) (2 : Fin 3) (⟨s.val % 4 * 1024 + 992 + l.val, rowcol_lt s 992 (by decide) l⟩ : Fin 4096)) := by
  unfold run1x.sl.r_147 k0_pay2599 run1x.sl.v2474
  exact (load16_apply d s b2 (run1x.sl.dma0_2 d s f6) _ _ _ (2 : Fin 3) (s.val % 4 * 1024 + 992) (off_9_2_6 s) l (rowcol_lt s 992 (by decide) l)).trans
    (dma0_2_apply d s f6 2 _)

theorem off_9_2_7 : ∀ s : Fin (grid0.bound 1), k0_off13 (L1 s) 896#32 112#32 = ![2, s.val % 4 * 1024 + 1008] := by decide +kernel
theorem row_r_148_apply (s : Fin (grid0.bound 1)) (f6 : Buf (Elt F) (l6 d)) (b2 : Buf (Elt F) ((thr d (L1 s)).loc cc0_scratch2))
    (h : k0_cond2 (L1 s) = 1#1) (l : Fin 16) :
    run1x.sl.r_148 d s f6 b2 h (ix1 l)
      = f6 (ix3 (⟨s.val / 4, tileB_lt s⟩ : Fin 4) (2 : Fin 3) (⟨s.val % 4 * 1024 + 1008 + l.val, rowcol_lt s 1008 (by decide) l⟩ : Fin 4096)) := by
  unfold run1x.sl.r_148 k0_pay2600 run1x.sl.v2479
  exact (load16_apply d s b2 (run1x.sl.dma0_2 d s f6) _ _ _ (2 : Fin 3) (s.val % 4 * 1024 + 1008) (off_9_2_7 s) l (rowcol_lt s 1008 (by decide) l)).trans
    (dma0_2_apply d s f6 2 _)

end Cert.Proof.ScI

end
-- ==== Proof.ScNrm1_9.lean ====
import proofs.«209750_g45337674776763_cont_8to1c4_158_37_alg».proof.Proof.ScNrm1_2
import proofs.«209750_g45337674776763_cont_8to1c4_158_37_alg».proof.Proof.ScRows1_9
/-!
  The norm rows of group 7 of the second branch, read at a lane: the sixteen-lane loads of the buffer that holds
  the second set's batch (for the row norms), coordinate `a` of point `1024 (s % 4) + 896 + 16 J + l`.
-/

noncomputable section

namespace Cert.Proof.ScI

open Cert.KernelIdeal Cert.KernelIdeal.Gen
open Idealize.ShloMosaic Idealize.ShloMosaic.ValueIdx
open Idealize.ShloMosaic.SparseCore (S V T)

variable {F : FTy → Type} [FloatOps F]
variable (d : Dev nD)

theorem nrm_v2484_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2484 d s f1 b3 h) shapeCasts_S1x16_S16 (ix1 l)
      = f1 (ix3 (⟨s.val / 4, tileB_lt s⟩ : Fin 4) (0 : Fin 3) (⟨s.val % 4 * 1024 + 896 + l.val, rowcol_lt s 896 (by decide) l⟩ : Fin 4096)) := by
  unfold run1x.sl.v2484
  exact (load16B3_apply d s b3 (run1x.sl.dma0_3 d s f1) _ _ _ (0 : Fin 3) (s.val % 4 * 1024 + 896) (off_9_0_0 s) l (rowcol_lt s 896 (by decide) l)).trans
    (dma0_3_apply d s f1 0 _)

theorem nrm_v2489_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2489 d s f1 b3 h) shapeCasts_S1x16_S16 (ix1 l)
      = f1 (ix3 (⟨s.val / 4, tileB_lt s⟩ : Fin 4) (1 : Fin 3) (⟨s.val % 4 * 1024 + 896 + l.val, rowcol_lt s 896 (by decide) l⟩ : Fin 4096)) := by
  unfold run1x.sl.v2489
  exact (load16B3_apply d s b3 (run1x.sl.dma0_3 d s f1) _ _ _ (1 : Fin 3) (s.val % 4 * 1024 + 896) (off_9_1_0 s) l (rowcol_lt s 896 (by decide) l)).trans
    (dma0_3_apply d s f1 1 _)

theorem nrm_v2494_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2494 d s f1 b3 h) shapeCasts_S1x16_S16 (ix1 l)
      = f1 (ix3 (⟨s.val / 4, tileB_lt s⟩ : Fin 4) (2 : Fin 3) (⟨s.val % 4 * 1024 + 896 + l.val, rowcol_lt s 896 (by decide) l⟩ : Fin 4096)) := by
  unfold run1x.sl.v2494
  exact (load16B3_apply d s b3 (run1x.sl.dma0_3 d s f1) _ _ _ (2 : Fin 3) (s.val % 4 * 1024 + 896) (off_9_2_0 s) l (rowcol_lt s 896 (by decide) l)).trans
    (dma0_3_apply d s f1 2 _)

theorem nrm_v2504_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2504 d s f1 b3 h) shapeCasts_S1x16_S16 (ix1 l)
      = f1 (ix3 (⟨s.val / 4, tileB_lt s⟩ : Fin 4) (0 : Fin 3) (⟨s.val % 4 * 1024 + 912 + l.val, rowcol_lt s 912 (by decide) l⟩ : Fin 4096)) := by
  unfold run1x.sl.v2504
  exact (load16B3_apply d s b3 (run1x.sl.dma0_3 d s f1) _ _ _ (0 : Fin 3) (s.val % 4 * 1024 + 912) (off_9_0_1 s) l (rowcol_lt s 912 (by decide) l)).trans
    (dma0_3_apply d s f1 0 _)

theorem nrm_v2509_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2509 d s f1 b3 h) shapeCasts_S1x16_S16 (ix1 l)
      = f1 (ix3 (⟨s.val / 4, tileB_lt s⟩ : Fin 4) (1 : Fin 3) (⟨s.val % 4 * 1024 + 912 + l.val, rowcol_lt s 912 (by decide) l⟩ : Fin 4096)) := by
  unfold run1x.sl.v2509
  exact (load16B3_apply d s b3 (run1x.sl.dma0_3 d s f1) _ _ _ (1 : Fin 3) (s.val % 4 * 1024 + 912) (off_9_1_1 s) l (rowcol_lt s 912 (by decide) l)).trans
    (dma0_3_apply d s f1 1 _)

theorem nrm_v2514_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2514 d s f1 b3 h) shapeCasts_S1x16_S16 (ix1 l)
      = f1 (ix3 (⟨s.val / 4, tileB_lt s⟩ : Fin 4) (2 : Fin 3) (⟨s.val % 4 * 1024 + 912 + l.val, rowcol_lt s 912 (by decide) l⟩ : Fin 4096)) := by
  unfold run1x.sl.v2514
  exact (load16B3_apply d s b3 (run1x.sl.dma0_3 d s f1) _ _ _ (2 : Fin 3) (s.val % 4 * 1024 + 912) (off_9_2_1 s) l (rowcol_lt s 912 (by decide) l)).trans
    (dma0_3_apply d s f1 2 _)

theorem nrm_v2524_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2524 d s f1 b3 h) shapeCasts_S1x16_S16 (ix1 l)
      = f1 (ix3 (⟨s.val / 4, tileB_lt s⟩ : Fin 4) (0 : Fin 3) (⟨s.val % 4 * 1024 + 928 + l.val, rowcol_lt s 928 (by decide) l⟩ : Fin 4096)) := by
  unfold run1x.sl.v2524
  exact (load16B3_apply d s b3 (run1x.sl.dma0_3 d s f1) _ _ _ (0 : Fin 3) (s.val % 4 * 1024 + 928) (off_9_0_2 s) l (rowcol_lt s 928 (by decide) l)).trans
    (dma0_3_apply d s f1 0 _)

theorem nrm_v2529_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2529 d s f1 b3 h) shapeCasts_S1x16_S16 (ix1 l)
      = f1 (ix3 (⟨s.val / 4, tileB_lt s⟩ : Fin 4) (1 : Fin 3) (⟨s.val % 4 * 1024 + 928 + l.val, rowcol_lt s 928 (by decide) l⟩ : Fin 4096)) := by
  unfold run1x.sl.v2529
  exact (load16B3_apply d s b3 (run1x.sl.dma0_3 d s f1) _ _ _ (1 : Fin 3) (s.val % 4 * 1024 + 928) (off_9_1_2 s) l (rowcol_lt s 928 (by decide) l)).trans
    (dma0_3_apply d s f1 1 _)

theorem nrm_v2534_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2534 d s f1 b3 h) shapeCasts_S1x16_S16 (ix1 l)
      = f1 (ix3 (⟨s.val / 4, tileB_lt s⟩ : Fin 4) (2 : Fin 3) (⟨s.val % 4 * 1024 + 928 + l.val, rowcol_lt s 928 (by decide) l⟩ : Fin 4096)) := by
  unfold run1x.sl.v2534
  exact (load16B3_apply d s b3 (run1x.sl.dma0_3 d s f1) _ _ _ (2 : Fin 3) (s.val % 4 * 1024 + 928) (off_9_2_2 s) l (rowcol_lt s 928 (by decide) l)).trans
    (dma0_3_apply d s f1 2 _)

theorem nrm_v2544_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2544 d s f1 b3 h) shapeCasts_S1x16_S16 (ix1 l)
      = f1 (ix3 (⟨s.val / 4, tileB_lt s⟩ : Fin 4) (0 : Fin 3) (⟨s.val % 4 * 1024 + 944 + l.val, rowcol_lt s 944 (by decide) l⟩ : Fin 4096)) := by
  unfold run1x.sl.v2544
  exact (load16B3_apply d s b3 (run1x.sl.dma0_3 d s f1) _ _ _ (0 : Fin 3) (s.val % 4 * 1024 + 944) (off_9_0_3 s) l (rowcol_lt s 944 (by decide) l)).trans
    (dma0_3_apply d s f1 0 _)

theorem nrm_v2549_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2549 d s f1 b3 h) shapeCasts_S1x16_S16 (ix1 l)
      = f1 (ix3 (⟨s.val / 4, tileB_lt s⟩ : Fin 4) (1 : Fin 3) (⟨s.val % 4 * 1024 + 944 + l.val, rowcol_lt s 944 (by decide) l⟩ : Fin 4096)) := by
  unfold run1x.sl.v2549
  exact (load16B3_apply d s b3 (run1x.sl.dma0_3 d s f1) _ _ _ (1 : Fin 3) (s.val % 4 * 1024 + 944) (off_9_1_3 s) l (rowcol_lt s 944 (by decide) l)).trans
    (dma0_3_apply d s f1 1 _)

theorem nrm_v2554_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2554 d s f1 b3 h) shapeCasts_S1x16_S16 (ix1 l)
      = f1 (ix3 (⟨s.val / 4, tileB_lt s⟩ : Fin 4) (2 : Fin 3) (⟨s.val % 4 * 1024 + 944 + l.val, rowcol_lt s 944 (by decide) l⟩ : Fin 4096)) := by
  unfold run1x.sl.v2554
  exact (load16B3_apply d s b3 (run1x.sl.dma0_3 d s f1) _ _ _ (2 : Fin 3) (s.val % 4 * 1024 + 944) (off_9_2_3 s) l (rowcol_lt s 944 (by decide) l)).trans
    (dma0_3_apply d s f1 2 _)

theorem nrm_v2564_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2564 d s f1 b3 h) shapeCasts_S1x16_S16 (ix1 l)
      = f1 (ix3 (⟨s.val / 4, tileB_lt s⟩ : Fin 4) (0 : Fin 3) (⟨s.val % 4 * 1024 + 960 + l.val, rowcol_lt s 960 (by decide) l⟩ : Fin 4096)) := by
  unfold run1x.sl.v2564
  exact (load16B3_apply d s b3 (run1x.sl.dma0_3 d s f1) _ _ _ (0 : Fin 3) (s.val % 4 * 1024 + 960) (off_9_0_4 s) l (rowcol_lt s 960 (by decide) l)).trans
    (dma0_3_apply d s f1 0 _)

theorem nrm_v2569_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2569 d s f1 b3 h) shapeCasts_S1x16_S16 (ix1 l)
      = f1 (ix3 (⟨s.val / 4, tileB_lt s⟩ : Fin 4) (1 : Fin 3) (⟨s.val % 4 * 1024 + 960 + l.val, rowcol_lt s 960 (by decide) l⟩ : Fin 4096)) := by
  unfold run1x.sl.v2569
  exact (load16B3_apply d s b3 (run1x.sl.dma0_3 d s f1) _ _ _ (1 : Fin 3) (s.val % 4 * 1024 + 960) (off_9_1_4 s) l (rowcol_lt s 960 (by decide) l)).trans
    (dma0_3_apply d s f1 1 _)

theorem nrm_v2574_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2574 d s f1 b3 h) shapeCasts_S1x16_S16 (ix1 l)
      = f1 (ix3 (⟨s.val / 4, tileB_lt s⟩ : Fin 4) (2 : Fin 3) (⟨s.val % 4 * 1024 + 960 + l.val, rowcol_lt s 960 (by decide) l⟩ : Fin 4096)) := by
  unfold run1x.sl.v2574
  exact (load16B3_apply d s b3 (run1x.sl.dma0_3 d s f1) _ _ _ (2 : Fin 3) (s.val % 4 * 1024 + 960) (off_9_2_4 s) l (rowcol_lt s 960 (by decide) l)).trans
    (dma0_3_apply d s f1 2 _)

theorem nrm_v2584_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2584 d s f1 b3 h) shapeCasts_S1x16_S16 (ix1 l)
      = f1 (ix3 (⟨s.val / 4, tileB_lt s⟩ : Fin 4) (0 : Fin 3) (⟨s.val % 4 * 1024 + 976 + l.val, rowcol_lt s 976 (by decide) l⟩ : Fin 4096)) := by
  unfold run1x.sl.v2584
  exact (load16B3_apply d s b3 (run1x.sl.dma0_3 d s f1) _ _ _ (0 : Fin 3) (s.val % 4 * 1024 + 976) (off_9_0_5 s) l (rowcol_lt s 976 (by decide) l)).trans
    (dma0_3_apply d s f1 0 _)

theorem nrm_v2589_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2589 d s f1 b3 h) shapeCasts_S1x16_S16 (ix1 l)
      = f1 (ix3 (⟨s.val / 4, tileB_lt s⟩ : Fin 4) (1 : Fin 3) (⟨s.val % 4 * 1024 + 976 + l.val, rowcol_lt s 976 (by decide) l⟩ : Fin 4096)) := by
  unfold run1x.sl.v2589
  exact (load16B3_apply d s b3 (run1x.sl.dma0_3 d s f1) _ _ _ (1 : Fin 3) (s.val % 4 * 1024 + 976) (off_9_1_5 s) l (rowcol_lt s 976 (by decide) l)).trans
    (dma0_3_apply d s f1 1 _)

theorem nrm_v2594_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2594 d s f1 b3 h) shapeCasts_S1x16_S16 (ix1 l)
      = f1 (ix3 (⟨s.val / 4, tileB_lt s⟩ : Fin 4) (2 : Fin 3) (⟨s.val % 4 * 1024 + 976 + l.val, rowcol_lt s 976 (by decide) l⟩ : Fin 4096)) := by
  unfold run1x.sl.v2594
  exact (load16B3_apply d s b3 (run1x.sl.dma0_3 d s f1) _ _ _ (2 : Fin 3) (s.val % 4 * 1024 + 976) (off_9_2_5 s) l (rowcol_lt s 976 (by decide) l)).trans
    (dma0_3_apply d s f1 2 _)

theorem nrm_v2604_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2604 d s f1 b3 h) shapeCasts_S1x16_S16 (ix1 l)
      = f1 (ix3 (⟨s.val / 4, tileB_lt s⟩ : Fin 4) (0 : Fin 3) (⟨s.val % 4 * 1024 + 992 + l.val, rowcol_lt s 992 (by decide) l⟩ : Fin 4096)) := by
  unfold run1x.sl.v2604
  exact (load16B3_apply d s b3 (run1x.sl.dma0_3 d s f1) _ _ _ (0 : Fin 3) (s.val % 4 * 1024 + 992) (off_9_0_6 s) l (rowcol_lt s 992 (by decide) l)).trans
    (dma0_3_apply d s f1 0 _)

theorem nrm_v2609_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2609 d s f1 b3 h) shapeCasts_S1x16_S16 (ix1 l)
      = f1 (ix3 (⟨s.val / 4, tileB_lt s⟩ : Fin 4) (1 : Fin 3) (⟨s.val % 4 * 1024 + 992 + l.val, rowcol_lt s 992 (by decide) l⟩ : Fin 4096)) := by
  unfold run1x.sl.v2609
  exact (load16B3_apply d s b3 (run1x.sl.dma0_3 d s f1) _ _ _ (1 : Fin 3) (s.val % 4 * 1024 + 992) (off_9_1_6 s) l (rowcol_lt s 992 (by decide) l)).trans
    (dma0_3_apply d s f1 1 _)

theorem nrm_v2614_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2614 d s f1 b3 h) shapeCasts_S1x16_S16 (ix1 l)
      = f1 (ix3 (⟨s.val / 4, tileB_lt s⟩ : Fin 4) (2 : Fin 3) (⟨s.val % 4 * 1024 + 992 + l.val, rowcol_lt s 992 (by decide) l⟩ : Fin 4096)) := by
  unfold run1x.sl.v2614
  exact (load16B3_apply d s b3 (run1x.sl.dma0_3 d s f1) _ _ _ (2 : Fin 3) (s.val % 4 * 1024 + 992) (off_9_2_6 s) l (rowcol_lt s 992 (by decide) l)).trans
    (dma0_3_apply d s f1 2 _)

theorem nrm_v2624_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2624 d s f1 b3 h) shapeCasts_S1x16_S16 (ix1 l)
      = f1 (ix3 (⟨s.val / 4, tileB_lt s⟩ : Fin 4) (0 : Fin 3) (⟨s.val % 4 * 1024 + 1008 + l.val, rowcol_lt s 1008 (by decide) l⟩ : Fin 4096)) := by
  unfold run1x.sl.v2624
  exact (load16B3_apply d s b3 (run1x.sl.dma0_3 d s f1) _ _ _ (0 : Fin 3) (s.val % 4 * 1024 + 1008) (off_9_0_7 s) l (rowcol_lt s 1008 (by decide) l)).trans
    (dma0_3_apply d s f1 0 _)

theorem nrm_v2629_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2629 d s f1 b3 h) shapeCasts_S1x16_S16 (ix1 l)
      = f1 (ix3 (⟨s.val / 4, tileB_lt s⟩ : Fin 4) (1 : Fin 3) (⟨s.val % 4 * 1024 + 1008 + l.val, rowcol_lt s 1008 (by decide) l⟩ : Fin 4096)) := by
  unfold run1x.sl.v2629
  exact (load16B3_apply d s b3 (run1x.sl.dma0_3 d s f1) _ _ _ (1 : Fin 3) (s.val % 4 * 1024 + 1008) (off_9_1_7 s) l (rowcol_lt s 1008 (by decide) l)).trans
    (dma0_3_apply d s f1 1 _)

theorem nrm_v2634_apply (s : Fin (grid0.bound 1)) (f1 : Buf (Elt F) (l1 d)) (b3 : Buf (Elt F) ((thr d (L1 s)).loc cc0_scratch3))
    (h : k0_cond2 (L1 s) = 1#1) (l : Fin 16) :
    shapeCast S16 (run1x.sl.v2634 d s f1 b3 h) shapeCasts_S1x16_S16 (ix1 l)
      = f1 (ix3 (⟨s.val / 4, tileB_lt s⟩ : Fin 4) (2 : Fin 3) (⟨s.val % 4 * 1024 + 1008 + l.val, rowcol_lt s 1008 (by decide) l⟩ : Fin 4096)) := by
  unfold run1x.sl.v2634
  exact (load16B3_apply d s b3 (run1x.sl.dma0_3 d s f1) _ _ _ (2 : Fin 3) (s.val % 4 * 1024 + 1008) (off_9_2_7 s) l (rowcol_lt s 1008 (by decide) l)).trans
    (dma0_3_apply d s f1 2 _)

end Cert.Proof.ScI

end
-- ==== Proof.ScBridge1G9.lean ====
import Idealize.ShloMosaic.Lib.SparseCore.Launch
import Idealize.ShloMosaic.Lib.Tactic
import Idealize.ShloMosaic.Lib.Pipeline.Value
import proofs.«209750_g45337674776763_cont_8to1c4_158_37_alg».proof.Proof.ScBridge1Rd
import proofs.«209750_g45337674776763_cont_8to1c4_158_37_alg».proof.Proof.ScMath1_9
import proofs.«209750_g45337674776763_cont_8to1c4_158_37_alg».proof.Proof.ScRows1_9
import proofs.«209750_g45337674776763_cont_8to1c4_158_37_alg».proof.Proof.ScNrm1_9
import proofs.«209750_g45337674776763_cont_8to1c4_158_37_alg».proof.Proof.ScX1a

/-!
  The second SparseCore branch's group 7 of words (`896` to `1023` of a subcore's 1024) as mathematics: the word
  the run computes there is the formula over the four arrays at batch `s / 4` and point `1024 (s % 4) + j` of the second
  set.
-/

noncomputable section

namespace Cert.Proof.ScI

open Cert.KernelIdeal Cert.KernelIdeal.Gen

open Idealize.ShloMosaic Idealize.ShloMosaic.ValueIdx
open Idealize.ShloMosaic.SparseCore (S V T)

local notation "A7" => (Memref.whole Cert.KernelIdeal.main_v7_scv : Memref Cert.KernelIdeal.sig Kind.scVector Space.hbm Cert.KernelIdeal.S4x3x512 EltTy.f32)
local notation "A8" => (Memref.whole Cert.KernelIdeal.main_v8_scv : Memref Cert.KernelIdeal.sig Kind.scVector Space.hbm Cert.KernelIdeal.S4x3x512 EltTy.f32)
local notation "A6" => (Memref.whole Cert.KernelIdeal.main_v6_scv : Memref Cert.KernelIdeal.sig Kind.scVector Space.hbm Cert.KernelIdeal.S4x3x4096 EltTy.f32)
local notation "A1" => (Memref.whole Cert.KernelIdeal.main_v1_scv : Memref Cert.KernelIdeal.sig Kind.scVector Space.hbm Cert.KernelIdeal.S4x3x4096 EltTy.f32)
local notation "A9" => (Memref.whole Cert.KernelIdeal.main_v9_scv : Memref Cert.KernelIdeal.sig Kind.scVector Space.hbm Cert.KernelIdeal.S4x4608 EltTy.f32)
local notation "B0" => (Memref.whole Cert.KernelIdeal.cc0_scratch0 : Memref Cert.KernelIdeal.sig Kind.scVector Space.vmem Cert.KernelIdeal.S3x512 EltTy.f32)
local notation "B1" => (Memref.whole Cert.KernelIdeal.cc0_scratch1 : Memref Cert.KernelIdeal.sig Kind.scVector Space.vmem Cert.KernelIdeal.S3x512 EltTy.f32)
local notation "B2" => (Memref.whole Cert.KernelIdeal.cc0_scratch2 : Memref Cert.KernelIdeal.sig Kind.scVector Space.vmem Cert.KernelIdeal.S3x4096 EltTy.f32)
local notation "B3" => (Memref.whole Cert.KernelIdeal.cc0_scratch3 : Memref Cert.KernelIdeal.sig Kind.scVector Space.vmem Cert.KernelIdeal.S3x4096 EltTy.f32)
local notation "B4" => (Memref.whole Cert.KernelIdeal.cc0_scratch4 : Memref Cert.KernelIdeal.sig Kind.scVector Space.vmem Cert.KernelIdeal.S1024 EltTy.f32)

variable (d : Dev nD)

set_option maxHeartbeats 2000000 in
set_option maxRecDepth 100000 in
theorem X1_group7 (s : Fin (grid0.bound 1)) (f7 f8 : (⟨3, ![4, 3, 512]⟩ : Shape).Idx → EReal) (f6 f1 : (⟨3, ![4, 3, 4096]⟩ : Shape).Idx → EReal)
    (b0 : Buf (Elt Ideal) ((thr d (L1 s)).loc cc0_scratch0)) (b1 : Buf (Elt Ideal) ((thr d (L1 s)).loc cc0_scratch1))
    (b2 : Buf (Elt Ideal) ((thr d (L1 s)).loc cc0_scratch2)) (b3 : Buf (Elt Ideal) ((thr d (L1 s)).loc cc0_scratch3))
    (b4 : Buf (Elt Ideal) ((thr d (L1 s)).loc cc0_scratch4)) (j : S1024.Idx)
    (hlo : 896 ≤ (j 0).val) (hhi : (j 0).val < 1024) :
    X1of (F := Ideal) d s f7 f8 f6 f1 b0 b1 b2 b3 b4 j
      = max (((f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) + f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096))) + f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f1 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)))
        + (Finset.univ : Finset (Fin 512)).fold min ⊤ (fun rr =>
            ((f8 (ix3 (⟨s.val / 4, by have : s.val < 16 := s.isLt; omega⟩ : Fin 4) 0 rr) * f8 (ix3 (⟨s.val / 4, by have : s.val < 16 := s.isLt; omega⟩ : Fin 4) 0 rr) + f8 (ix3 (⟨s.val / 4, by have : s.val < 16 := s.isLt; omega⟩ : Fin 4) 1 rr) * f8 (ix3 (⟨s.val / 4, by have : s.val < 16 := s.isLt; omega⟩ : Fin 4) 1 rr)) + f8 (ix3 (⟨s.val / 4, by have : s.val < 16 := s.isLt; omega⟩ : Fin 4) 2 rr) * f8 (ix3 (⟨s.val / 4, by have : s.val < 16 := s.isLt; omega⟩ : Fin 4) 2 rr))
              - ((2 : ℝ) : EReal) * ((f6 (ix3 (⟨s.val / 4, by have : s.val < 16 := s.isLt; omega⟩ : Fin 4) 0 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 0 rr) + f6 (ix3 (⟨s.val / 4, by have : s.val < 16 := s.isLt; omega⟩ : Fin 4) 1 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 1 rr))
                  + f6 (ix3 (⟨s.val / 4, by have : s.val < 16 := s.isLt; omega⟩ : Fin 4) 2 (⟨s.val % 4 * 1024 + (j 0).val, by have : s.val < 16 := s.isLt; have : (j 0).val < 1024 := (j 0).isLt; omega⟩ : Fin 4096)) * f7 (ix3 (⟨s.val / 4, by have : s.val < 16 := s.isLt; omega⟩ : Fin 4) 2 rr)))) 0 := by
  have hs : s.val < 16 := s.isLt
  obtain ⟨J, l, hj⟩ : ∃ (J : Fin 8) (l : Fin 16), (j 0).val = 896 + 16 * J.val + l.val :=
    ⟨⟨((j 0).val - 896) / 16, by omega⟩, ⟨((j 0).val - 896) % 16, by omega⟩,
      by show _ = 896 + 16 * (((j 0).val - 896) / 16) + ((j 0).val - 896) % 16; omega⟩
  have er : (⟨s.val % 4 * 1024 + (j 0).val, by have : s.val < 16 := s.isLt; have : (j 0).val < 1024 := (j 0).isLt; omega⟩ : Fin 4096) = (⟨s.val % 4 * 1024 + (896 + 16 * J.val) + l.val, by have := l.isLt; have := J.isLt; omega⟩ : Fin 4096) :=
    Fin.ext (by show s.val % 4 * 1024 + (j 0).val = s.val % 4 * 1024 + (896 + 16 * J.val) + l.val; omega)
  rw [er]
  delta X1of
  refine (W1_read7 d s f1 b3 b4 (h2_L1 s) _ _ _ _ _ _ _ _ j J l hj).trans ?_
  delta A9of
  obtain ⟨Jv, hJv⟩ := J
  interval_cases Jv
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.r_142 d s f6 b2 (h2_L1 s)) (run1x.sl.v2405 d s f6 b2 (h2_L1 s)) (run1x.sl.v2445 d s f6 b2 (h2_L1 s))
        (fun a : Acc Ideal => a.1) (fun _ _ => rfl) (ix1 l) inf_eq)).trans ?_
    exact block_formula1 d (L1 s) _ _ _ _ _ _ _ _ (ix1 l) f7 f8 f6 f1 _ _
      (row_r_142_apply (F := Ideal) d s f6 b2 (h2_L1 s) l) (row_v2405_apply (F := Ideal) d s f6 b2 (h2_L1 s) l) (row_v2445_apply (F := Ideal) d s f6 b2 (h2_L1 s) l)
      (nrm_v2484_apply (F := Ideal) d s f1 b3 (h2_L1 s) l) (nrm_v2489_apply (F := Ideal) d s f1 b3 (h2_L1 s) l) (nrm_v2494_apply (F := Ideal) d s f1 b3 (h2_L1 s) l)
      (C0of_apply (F := Ideal) d s f7 b0) (C1of_apply (F := Ideal) d s f8 b1)
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.r_143 d s f6 b2 (h2_L1 s)) (run1x.sl.v2410 d s f6 b2 (h2_L1 s)) (run1x.sl.v2450 d s f6 b2 (h2_L1 s))
        (fun a : Acc Ideal => a.2.1) (fun _ _ => rfl) (ix1 l) inf_eq)).trans ?_
    exact block_formula1 d (L1 s) _ _ _ _ _ _ _ _ (ix1 l) f7 f8 f6 f1 _ _
      (row_r_143_apply (F := Ideal) d s f6 b2 (h2_L1 s) l) (row_v2410_apply (F := Ideal) d s f6 b2 (h2_L1 s) l) (row_v2450_apply (F := Ideal) d s f6 b2 (h2_L1 s) l)
      (nrm_v2504_apply (F := Ideal) d s f1 b3 (h2_L1 s) l) (nrm_v2509_apply (F := Ideal) d s f1 b3 (h2_L1 s) l) (nrm_v2514_apply (F := Ideal) d s f1 b3 (h2_L1 s) l)
      (C0of_apply (F := Ideal) d s f7 b0) (C1of_apply (F := Ideal) d s f8 b1)
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.r_144 d s f6 b2 (h2_L1 s)) (run1x.sl.v2415 d s f6 b2 (h2_L1 s)) (run1x.sl.v2455 d s f6 b2 (h2_L1 s))
        (fun a : Acc Ideal => a.2.2.1) (fun _ _ => rfl) (ix1 l) inf_eq)).trans ?_
    exact block_formula1 d (L1 s) _ _ _ _ _ _ _ _ (ix1 l) f7 f8 f6 f1 _ _
      (row_r_144_apply (F := Ideal) d s f6 b2 (h2_L1 s) l) (row_v2415_apply (F := Ideal) d s f6 b2 (h2_L1 s) l) (row_v2455_apply (F := Ideal) d s f6 b2 (h2_L1 s) l)
      (nrm_v2524_apply (F := Ideal) d s f1 b3 (h2_L1 s) l) (nrm_v2529_apply (F := Ideal) d s f1 b3 (h2_L1 s) l) (nrm_v2534_apply (F := Ideal) d s f1 b3 (h2_L1 s) l)
      (C0of_apply (F := Ideal) d s f7 b0) (C1of_apply (F := Ideal) d s f8 b1)
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.v2380 d s f6 b2 (h2_L1 s)) (run1x.sl.v2420 d s f6 b2 (h2_L1 s)) (run1x.sl.v2460 d s f6 b2 (h2_L1 s))
        (fun a : Acc Ideal => a.2.2.2.1) (fun _ _ => rfl) (ix1 l) inf_eq)).trans ?_
    exact block_formula1 d (L1 s) _ _ _ _ _ _ _ _ (ix1 l) f7 f8 f6 f1 _ _
      (row_v2380_apply (F := Ideal) d s f6 b2 (h2_L1 s) l) (row_v2420_apply (F := Ideal) d s f6 b2 (h2_L1 s) l) (row_v2460_apply (F := Ideal) d s f6 b2 (h2_L1 s) l)
      (nrm_v2544_apply (F := Ideal) d s f1 b3 (h2_L1 s) l) (nrm_v2549_apply (F := Ideal) d s f1 b3 (h2_L1 s) l) (nrm_v2554_apply (F := Ideal) d s f1 b3 (h2_L1 s) l)
      (C0of_apply (F := Ideal) d s f7 b0) (C1of_apply (F := Ideal) d s f8 b1)
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.v2385 d s f6 b2 (h2_L1 s)) (run1x.sl.v2425 d s f6 b2 (h2_L1 s)) (run1x.sl.r_145 d s f6 b2 (h2_L1 s))
        (fun a : Acc Ideal => a.2.2.2.2.1) (fun _ _ => rfl) (ix1 l) inf_eq)).trans ?_
    exact block_formula1 d (L1 s) _ _ _ _ _ _ _ _ (ix1 l) f7 f8 f6 f1 _ _
      (row_v2385_apply (F := Ideal) d s f6 b2 (h2_L1 s) l) (row_v2425_apply (F := Ideal) d s f6 b2 (h2_L1 s) l) (row_r_145_apply (F := Ideal) d s f6 b2 (h2_L1 s) l)
      (nrm_v2564_apply (F := Ideal) d s f1 b3 (h2_L1 s) l) (nrm_v2569_apply (F := Ideal) d s f1 b3 (h2_L1 s) l) (nrm_v2574_apply (F := Ideal) d s f1 b3 (h2_L1 s) l)
      (C0of_apply (F := Ideal) d s f7 b0) (C1of_apply (F := Ideal) d s f8 b1)
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.v2390 d s f6 b2 (h2_L1 s)) (run1x.sl.v2430 d s f6 b2 (h2_L1 s)) (run1x.sl.r_146 d s f6 b2 (h2_L1 s))
        (fun a : Acc Ideal => a.2.2.2.2.2.1) (fun _ _ => rfl) (ix1 l) inf_eq)).trans ?_
    exact block_formula1 d (L1 s) _ _ _ _ _ _ _ _ (ix1 l) f7 f8 f6 f1 _ _
      (row_v2390_apply (F := Ideal) d s f6 b2 (h2_L1 s) l) (row_v2430_apply (F := Ideal) d s f6 b2 (h2_L1 s) l) (row_r_146_apply (F := Ideal) d s f6 b2 (h2_L1 s) l)
      (nrm_v2584_apply (F := Ideal) d s f1 b3 (h2_L1 s) l) (nrm_v2589_apply (F := Ideal) d s f1 b3 (h2_L1 s) l) (nrm_v2594_apply (F := Ideal) d s f1 b3 (h2_L1 s) l)
      (C0of_apply (F := Ideal) d s f7 b0) (C1of_apply (F := Ideal) d s f8 b1)
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.v2395 d s f6 b2 (h2_L1 s)) (run1x.sl.v2435 d s f6 b2 (h2_L1 s)) (run1x.sl.r_147 d s f6 b2 (h2_L1 s))
        (fun a : Acc Ideal => a.2.2.2.2.2.2.1) (fun _ _ => rfl) (ix1 l) inf_eq)).trans ?_
    exact block_formula1 d (L1 s) _ _ _ _ _ _ _ _ (ix1 l) f7 f8 f6 f1 _ _
      (row_v2395_apply (F := Ideal) d s f6 b2 (h2_L1 s) l) (row_v2435_apply (F := Ideal) d s f6 b2 (h2_L1 s) l) (row_r_147_apply (F := Ideal) d s f6 b2 (h2_L1 s) l)
      (nrm_v2604_apply (F := Ideal) d s f1 b3 (h2_L1 s) l) (nrm_v2609_apply (F := Ideal) d s f1 b3 (h2_L1 s) l) (nrm_v2614_apply (F := Ideal) d s f1 b3 (h2_L1 s) l)
      (C0of_apply (F := Ideal) d s f7 b0) (C1of_apply (F := Ideal) d s f8 b1)
  · refine (congrArg (fun x => max (_ + x) 0) (block_all9 d (L1 s) (h2_L1 s) (run1x.sl.r_142 d s f6 b2 (h2_L1 s)) (run1x.sl.r_143 d s f6 b2 (h2_L1 s)) (run1x.sl.r_144 d s f6 b2 (h2_L1 s)) (run1x.sl.v2380 d s f6 b2 (h2_L1 s)) (run1x.sl.v2385 d s f6 b2 (h2_L1 s)) (run1x.sl.v2390 d s f6 b2 (h2_L1 s)) (run1x.sl.v2395 d s f6 b2 (h2_L1 s)) (run1x.sl.v2400 d s f6 b2 (h2_L1 s)) (run1x.sl.v2405 d s f6 b2 (h2_L1 s)) (run1x.sl.v2410 d s f6 b2 (h2_L1 s)) (run1x.sl.v2415 d s f6 b2 (h2_L1 s)) (run1x.sl.v2420 d s f6 b2 (h2_L1 s)) (run1x.sl.v2425 d s f6 b2 (h2_L1 s)) (run1x.sl.v2430 d s f6 b2 (h2_L1 s)) (run1x.sl.v2435 d s f6 b2 (h2_L1 s)) (run1x.sl.v2440 d s f6 b2 (h2_L1 s)) (run1x.sl.v2445 d s f6 b2 (h2_L1 s)) (run1x.sl.v2450 d s f6 b2 (h2_L1 s)) (run1x.sl.v2455 d s f6 b2 (h2_L1 s)) (run1x.sl.v2460 d s f6 b2 (h2_L1 s)) (run1x.sl.r_145 d s f6 b2 (h2_L1 s)) (run1x.sl.r_146 d s f6 b2 (h2_L1 s)) (run1x.sl.r_147 d s f6 b2 (h2_L1 s)) (run1x.sl.r_148 d s f6 b2 (h2_L1 s)) (C0of d s f7 b0) (C1of d s f8 b1) (k0_pay2612, k0_pay2612, k0_pay2612, k0_pay2612, k0_pay2612, k0_pay2612, k0_pay2612, k0_pay2612)
        (run1x.sl.v2400 d s f6 b2 (h2_L1 s)) (run1x.sl.v2440 d s f6 b2 (h2_L1 s)) (run1x.sl.r_148 d s f6 b2 (h2_L1 s))
        (fun a : Acc Ideal => a.2.2.2.2.2.2.2) (fun _ _ => rfl) (ix1 l) inf_eq)).trans ?_
    exact block_formula1 d (L1 s) _ _ _ _ _ _ _ _ (ix1 l) f7 f8 f6 f1 _ _
      (row_v2400_apply (F := Ideal) d s f6 b2 (h2_L1 s) l) (row_v2440_apply (F := Ideal) d s f6 b2 (h2_L1 s) l) (row_r_148_apply (F := Ideal) d s f6 b2 (h2_L1 s) l)
      (nrm_v2624_apply (F := Ideal) d s f1 b3 (h2_L1 s) l) (nrm_v2629_apply (F := Ideal) d s f1 b3 (h2_L1 s) l) (nrm_v2634_apply (F := Ideal) d s f1 b3 (h2_L1 s) l)
      (C0of_apply (F := Ideal) d s f7 b0) (C1of_apply (F := Ideal) d s f8 b1)

end Cert.Proof.ScI

end
-- ==== Proof.ScFinal1X.lean ====
import Idealize.ShloMosaic.Lib.SparseCore.Launch
import Idealize.ShloMosaic.Lib.Tactic
import proofs.«209750_g45337674776763_cont_8to1c4_158_37_alg».proof.Proof.ScFinal1
import proofs.«209750_g45337674776763_cont_8to1c4_158_37_alg».proof.Proof.ScBridge1S
import proofs.«209750_g45337674776763_cont_8to1c4_158_37_alg».proof.Proof.ScBridge1G2
import proofs.«209750_g45337674776763_cont_8to1c4_158_37_alg».proof.Proof.ScBridge1G3
import proofs.«209750_g45337674776763_cont_8to1c4_158_37_alg».proof.Proof.ScBridge1G4
import proofs.«209750_g45337674776763_cont_8to1c4_158_37_alg».proof.Proof.ScBridge1G5
import proofs.«209750_g45337674776763_cont_8to1c4_158_37_alg».proof.Proof.ScBridge1G6
import proofs.«209750_g45337674776763_cont_8to1c4_158_37_alg».proof.Proof.ScBridge1G7
import proofs.«209750_g45337674776763_cont_8to1c4_158_37_alg».proof.Proof.ScBridge1G8
import proofs.«209750_g45337674776763_cont_8to1c4_158_37_alg».proof.Proof.ScBridge1G9

/-!
  The second SparseCore branch's obligation at the result array's specification: each of the 1024 words the subcore's run
  computes lies in one of eight groups of 128, where it is the formula over the four arrays; the formula is the
  specification at the array index under the word.
-/

noncomputable section

namespace Cert.Proof.ScI

open Cert.KernelIdeal Cert.KernelIdeal.Gen
open Idealize.ShloMosaic Idealize.ShloMosaic.ValueIdx
open Idealize.ShloMosaic.SparseCore (S V T)
open Cert.Proof.AlgMain Cert.Proof.ScBridge

variable (m : (ℓ : Loc nD τ sig) → Buf (Elt Ideal) ℓ)

theorem x1_spec : X1Spec m := by
  intro d s b0 b1 b2 b3 b4 j
  have hj : (j 0).val < 1024 := (j 0).isLt
  refine Eq.trans ?_ (formula1_spec m d s j (⟨s.val / 4, by have : s.val < 16 := s.isLt; omega⟩ : Fin 4)
    (⟨s.val % 4 * 1024 + (j 0).val, by have : s.val < 16 := s.isLt; have : (j 0).val < 1024 := (j 0).isLt; omega⟩ : Fin 4096) rfl rfl (g7 m d) (g8 m d) (g6 m d) (g1 m d) (fun _ => rfl) (fun _ => rfl) (fun _ => rfl) (fun _ => rfl))
  ·
    rcases Nat.lt_or_ge (j 0).val 128 with h1 | h1
    · exact X1_group0 d s (g7 m d) (g8 m d) (g6 m d) (g1 m d) b0 b1 b2 b3 b4 j (Nat.zero_le _) h1
    rcases Nat.lt_or_ge (j 0).val 256 with h2 | h2
    · exact X1_group1 d s (g7 m d) (g8 m d) (g6 m d) (g1 m d) b0 b1 b2 b3 b4 j h1 h2
    rcases Nat.lt_or_ge (j 0).val 384 with h3 | h3
    · exact X1_group2 d s (g7 m d) (g8 m d) (g6 m d) (g1 m d) b0 b1 b2 b3 b4 j h2 h3
    rcases Nat.lt_or_ge (j 0).val 512 with h4 | h4
    · exact X1_group3 d s (g7 m d) (g8 m d) (g6 m d) (g1 m d) b0 b1 b2 b3 b4 j h3 h4
    rcases Nat.lt_or_ge (j 0).val 640 with h5 | h5
    · exact X1_group4 d s (g7 m d) (g8 m d) (g6 m d) (g1 m d) b0 b1 b2 b3 b4 j h4 h5
    rcases Nat.lt_or_ge (j 0).val 768 with h6 | h6
    · exact X1_group5 d s (g7 m d) (g8 m d) (g6 m d) (g1 m d) b0 b1 b2 b3 b4 j h5 h6
    rcases Nat.lt_or_ge (j 0).val 896 with h7 | h7
    · exact X1_group6 d s (g7 m d) (g8 m d) (g6 m d) (g1 m d) b0 b1 b2 b3 b4 j h6 h7
    exact X1_group7 d s (g7 m d) (g8 m d) (g6 m d) (g1 m d) b0 b1 b2 b3 b4 j h7 hj

/-- The second branch's obligation. -/
theorem bodyV1_final : BodyV (F := Ideal) (U := Cert.KernelIdeal.Tc.UU) (g7 m) (g8 m) (g6 m) (g1 m) (specOf m) 1 L1 :=
  bodyV1_final_of m (x1_spec m)

end Cert.Proof.ScI

end
-- ==== Proof.lean ====
/- The proof of `Cert.Claim`. The kernel program runs a SparseCore kernel on thirty-two vector subcores and two
   TensorCore kernel regions between host operations; the reference is a straight line of host operations. The three
   frames: the reference's is its run with the value dropped; the kernel program's, at both instances, is the launch
   theorem applied to the subcores' task, the split of the operands among the subcores, @main on the TensorCore and the
   launch element of the ghost state. No rewrite was applied by the ideal pass, so nothing is to be preserved. The algebraic
   claim: the kernel program's run leaves the reference's formula in its result — the subcores' words and the two regions'
   arrays at their values, the host lines read at an index, the formula rearranged over finite inputs. -/
import proofs.«209750_g45337674776763_cont_8to1c4_158_37_alg».proof.Defs
import proofs.«209750_g45337674776763_cont_8to1c4_158_37_alg».proof.Proof.Gen.Kernel
import proofs.«209750_g45337674776763_cont_8to1c4_158_37_alg».proof.Proof.Gen.KernelIdeal
import proofs.«209750_g45337674776763_cont_8to1c4_158_37_alg».proof.Proof.Gen.ReferenceIdeal
import proofs.«209750_g45337674776763_cont_8to1c4_158_37_alg».proof.Proof.Gen.Pre_finite_inputs
import proofs.«209750_g45337674776763_cont_8to1c4_158_37_alg».proof.Proof.RefFrame
import proofs.«209750_g45337674776763_cont_8to1c4_158_37_alg».proof.Proof.FramesI
import proofs.«209750_g45337674776763_cont_8to1c4_158_37_alg».proof.Proof.FramesB
import proofs.«209750_g45337674776763_cont_8to1c4_158_37_alg».proof.Proof.AlgMain
import proofs.«209750_g45337674776763_cont_8to1c4_158_37_alg».proof.Proof.ScFinal0
import proofs.«209750_g45337674776763_cont_8to1c4_158_37_alg».proof.Proof.ScFinal1X
import Idealize.ShloMosaic.Adequacy
import Idealize.ShloMosaic.Init

noncomputable section

namespace Cert.Proof

open Idealize.ShloMosaic Idealize.SL.Sem

/-- The two branches of the vector-subcore kernel leave, in the words of the result array a subcore owns, the clamped
    squared distances of the spec. -/
theorem sc_value (m : (ℓ : Loc Cert.KernelIdeal.nD Cert.KernelIdeal.τ Cert.KernelIdeal.sig) → Buf (Elt Ideal) ℓ) :
    Cert.Proof.ScI.BodyV (F := Ideal) (U := Cert.KernelIdeal.Tc.UU) (Cert.Proof.ScI.g7 m) (Cert.Proof.ScI.g8 m) (Cert.Proof.ScI.g6 m) (Cert.Proof.ScI.g1 m)
        (Cert.Proof.AlgMain.specOf m) 0 Cert.Proof.ScI.L0
      ∧ Cert.Proof.ScI.BodyV (F := Ideal) (U := Cert.KernelIdeal.Tc.UU) (Cert.Proof.ScI.g7 m) (Cert.Proof.ScI.g8 m) (Cert.Proof.ScI.g6 m) (Cert.Proof.ScI.g1 m)
        (Cert.Proof.AlgMain.specOf m) 1 Cert.Proof.ScI.L1 :=
  ⟨Cert.Proof.ScI.bodyV0_final m, Cert.Proof.ScI.bodyV1_final m⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Proof.AlgMain.algebraic_of sc_value

theorem claim : Cert.Claim := ⟨Cert.Kernel.Gen.facts, Cert.KernelIdeal.Gen.facts, Cert.ReferenceIdeal.Gen.facts, Cert.Pre_finite_inputs.Gen.facts,
  Cert.Proof.ScB.frame, Cert.Proof.ScI.frame, Cert.Proof.RefFrame.frame_ri, trivial, algebraic⟩

end Cert.Proof

end
